-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S100000x128 : Shape := ⟨2, ![100000, 128]⟩
abbrev S256x1024 : Shape := ⟨2, ![256, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S16384x50 : S_.BroadcastsInDim S16384x50 (![] : Fin 0 → Fin S16384x50.rank)
  reducesTo_S16384x50_S_d0_1 : S16384x50.ReducesTo [0, 1] S_

variable [Facts]

def fn_part4 {F : FTy → Type} [FloatOps F] (main_arg1 : IVec S16384x50 32) (main_v63 : IVec S_ 1) (main_v65 : IVec S16384x50 1) (main_v67 : IVec S16384x50 1) : IVec S_ 1 :=
  let main_v68 : IVec S16384x50 1 := andi main_v65 main_v67
  let main_c_26 : IVec S_ 1 := constantI S_ 1 1#1
  let main_v69 : IVec S_ 1 := (fun x v => Host.reduce IntOp.andi x v reducesTo_S16384x50_S_d0_1 h_S_) main_v68 main_c_26
  let main_v70 : IVec S_ 1 := andi main_v63 main_v69
  let main_c_27 : IVec S_ 32 := constantI S_ 32 0#32
  let main_v71 : IVec S16384x50 32 := broadcastInDim S16384x50 ![] bcast_S_S16384x50 main_c_27
  let main_v72 : IVec S16384x50 1 := cmpi .sge main_arg1 main_v71
  let main_c_28 : IVec S_ 32 := constantI S_ 32 99999#32
  let main_v73 : IVec S16384x50 32 := broadcastInDim S16384x50 ![] bcast_S_S16384x50 main_c_28
  let main_v74 : IVec S16384x50 1 := cmpi .sle main_arg1 main_v73
  let main_v75 : IVec S16384x50 1 := andi main_v72 main_v74
  let main_c_29 : IVec S_ 1 := constantI S_ 1 1#1
  let main_v76 : IVec S_ 1 := (fun x v => Host.reduce IntOp.andi x v reducesTo_S16384x50_S_d0_1 h_S_) main_v75 main_c_29
  let main_v77 : IVec S_ 1 := andi main_v70 main_v76
  main_v77

def fn_part3 {F : FTy → Type} [FloatOps F] (main_arg0 : IVec S16384x50 32) (main_arg1 : IVec S16384x50 32) (main_arg13 : FVec F S1024x1 .f32) (main_arg14 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1 .f32 := Host.absf main_arg13
  let main_cst_20 : FVec F S_ .f32 := constant S_ .f32 0x7F800000#32
  let main_v55 : FVec F S1024x1 .f32 := broadcastInDim S1024x1 ![] bcast_S_S1024x1 main_cst_20
  let main_v56 : IVec S1024x1 1 := cmpf .olt main_v54 main_v55
  let main_c_21 : IVec S_ 1 := constantI S_ 1 1#1
  let main_v57 : IVec S_ 1 := (fun x v => Host.reduce IntOp.andi x v reducesTo_S1024x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S16384x50 32 := broadcastInDim S16384x50 ![] bcast_S_S16384x50 main_c_24
  let main_v65 : IVec S16384x50 1 := cmpi .sge main_arg0 main_v64
  let main_c_25 : IVec S_ 32 := constantI S_ 32 99999#32
  let main_v66 : IVec S16384x50 32 := broadcastInDim S16384x50 ![] bcast_S_S16384x50 main_c_25
  let main_v67 : IVec S16384x50 1 := cmpi .sle main_arg0 main_v66
  fn_part4 (F := F) main_arg1 main_v63 main_v65 main_v67

def fn_part2 {F : FTy → Type} [FloatOps F] (main_arg0 : IVec S16384x50 32) (main_arg1 : IVec S16384x50 32) (main_arg9 : FVec F S1024 .f32) (main_arg10 : FVec F S1024 .f32) (main_arg11 : FVec F S1024x1024 .f32) (main_arg12 : FVec F S1024 .f32) (main_arg13 : FVec F S1024x1 .f32) (main_arg14 : FVec F S1 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg11
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg0 main_arg1 main_arg13 main_arg14 main_v48 main_v49 main_v50

def fn_part1 {F : FTy → Type} [FloatOps F] (main_arg0 : IVec S16384x50 32) (main_arg1 : IVec S16384x50 32) (main_arg6 : FVec F S1024 .f32) (main_arg7 : FVec F S1024x1024 .f32) (main_arg8 : FVec F S1024 .f32) (main_arg9 : FVec F S1024 .f32) (main_arg10 : FVec F S1024 .f32) (main_arg11 : FVec F S1024x1024 .f32) (main_arg12 : FVec F S1024 .f32) (main_arg13 : FVec F S1024x1 .f32) (main_arg14 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg1 main_arg9 main_arg10 main_arg11 main_arg12 main_arg13 main_arg14 main_v33

def fn {F : FTy → Type} [FloatOps F] (main_arg0 : IVec S16384x50 32) (main_arg1 : IVec S16384x50 32) (main_arg2 : FVec F S100000x128 .f32) (main_arg3 : FVec F S256x1024 .f32) (main_arg4 : FVec F S1024 .f32) (main_arg5 : FVec F S1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024x1024 .f32) (main_arg12 : FVec F S1024 .f32) (main_arg13 : FVec F S1024x1 .f32) (main_arg14 : FVec F S1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x1024 .f32 := Host.absf main_arg3
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg0 main_arg1 main_arg6 main_arg7 main_arg8 main_arg9 main_arg10 main_arg11 main_arg12 main_arg13 main_arg14 main_v13 main_v16
-- ==== Kernel.lean ====
abbrev S16384x50 : Shape := ⟨2, ![16384, 50]⟩
abbrev S100000x128 : Shape := ⟨2, ![100000, 128]⟩
abbrev S256x1024 : Shape := ⟨2, ![256, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩
abbrev S8x128 : Shape := ⟨2, ![8, 128]⟩
abbrev S100008x128 : Shape := ⟨2, ![100008, 128]⟩
abbrev S32768x50 : Shape := ⟨2, ![32768, 50]⟩
abbrev S32768x64 : Shape := ⟨2, ![32768, 64]⟩
abbrev S2097152 : Shape := ⟨1, ![2097152]⟩
abbrev S32768x128 : Shape := ⟨2, ![32768, 128]⟩
abbrev S65536 : Shape := ⟨1, ![65536]⟩
abbrev S100 : Shape := ⟨1, ![100]⟩
abbrev S100x128 : Shape := ⟨2, ![100, 128]⟩
abbrev S2x128 : Shape := ⟨2, ![2, 128]⟩
abbrev S16 : Shape := ⟨1, ![16]⟩
abbrev S1x16 : Shape := ⟨2, ![1, 16]⟩
abbrev S1x1024 : Shape := ⟨2, ![1, 1024]⟩
abbrev S1x1 : Shape := ⟨2, ![1, 1]⟩
abbrev S16384x1024 : Shape := ⟨2, ![16384, 1024]⟩
abbrev S2x1024 : Shape := ⟨2, ![2, 1024]⟩
abbrev S512x128 : Shape := ⟨2, ![512, 128]⟩
abbrev S512x50 : Shape := ⟨2, ![512, 50]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩
abbrev S16384x1 : Shape := ⟨2, ![16384, 1]⟩
abbrev S16384 : Shape := ⟨1, ![16384]⟩

abbrev nBuf : Table → Nat
  | .hbm => 39
  | .local .tc .vmem => 34
  | .local .scVector .vmem => 7
  | _ => 0

abbrev bufTy : (tb : Table) → Fin (nBuf tb) → BufTy
  | .hbm, ⟨0, _⟩ => ⟨S16384x50, .i32⟩
  | .hbm, ⟨1, _⟩ => ⟨S16384x50, .i32⟩
  | .hbm, ⟨2, _⟩ => ⟨S100000x128, .f32⟩
  | .hbm, ⟨3, _⟩ => ⟨S256x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1, .f32⟩
  | .hbm, ⟨14, _⟩ => ⟨S1, .f32⟩
  | .hbm, ⟨15, _⟩ => ⟨S_, .f32⟩
  | .hbm, ⟨16, _⟩ => ⟨S8x128, .f32⟩
  | .hbm, ⟨17, _⟩ => ⟨S100008x128, .f32⟩
  | .hbm, ⟨18, _⟩ => ⟨S32768x50, .i32⟩
  | .hbm, ⟨19, _⟩ => ⟨S_, .i32⟩
  | .hbm, ⟨20, _⟩ => ⟨S_, .i32⟩
  | .hbm, ⟨21, _⟩ => ⟨S32768x64, .i32⟩
  | .hbm, ⟨22, _⟩ => ⟨S2097152, .i32⟩
  | .hbm, ⟨23, _⟩ => ⟨S32768x128, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1, .f32⟩
  | .hbm, ⟨33, _⟩ => ⟨S16384x1024, .f32⟩
  | .hbm, ⟨34, _⟩ => ⟨S2x1024, .f32⟩
  | .hbm, ⟨35, _⟩ => ⟨S16384x1024, .f32⟩
  | .hbm, ⟨36, _⟩ => ⟨S2x1024, .f32⟩
  | .hbm, ⟨37, _⟩ => ⟨S16384x1, .f32⟩
  | .hbm, ⟨38, _⟩ => ⟨S16384, .f32⟩
  | .local .tc .vmem, ⟨0, _⟩ => ⟨S512x128, .f32⟩
  | .local .tc .vmem, ⟨1, _⟩ => ⟨S512x128, .f32⟩
  | .local .tc .vmem, ⟨2, _⟩ => ⟨S512x128, .f32⟩
  | .local .tc .vmem, ⟨3, _⟩ => ⟨S512x128, .f32⟩
  | .local .tc .vmem, ⟨4, _⟩ => ⟨S512x50, .i32⟩
  | .local .tc .vmem, ⟨5, _⟩ => ⟨S512x50, .i32⟩
  | .local .tc .vmem, ⟨6, _⟩ => ⟨S512x50, .i32⟩
  | .local .tc .vmem, ⟨7, _⟩ => ⟨S512x50, .i32⟩
  | .local .tc .vmem, ⟨8, _⟩ => ⟨S256x1024, .f32⟩
  | .local .tc .vmem, ⟨9, _⟩ => ⟨S1x1024, .f32⟩
  | .local .tc .vmem, ⟨10, _⟩ => ⟨S512x1024, .f32⟩
  | .local .tc .vmem, ⟨11, _⟩ => ⟨S512x1024, .f32⟩
  | .local .tc .vmem, ⟨12, _⟩ => ⟨S2x1024, .f32⟩
  | .local .tc .vmem, ⟨13, _⟩ => ⟨S512x1024, .f32⟩
  | .local .tc .vmem, ⟨14, _⟩ => ⟨S512x1024, .f32⟩
  | .local .tc .vmem, ⟨15, _⟩ => ⟨S2x1024, .f32⟩
  | .local .tc .vmem, ⟨16, _⟩ => ⟨S1x1024, .f32⟩
  | .local .tc .vmem, ⟨17, _⟩ => ⟨S1x1024, .f32⟩
  | .local .tc .vmem, ⟨18, _⟩ => ⟨S1024x1024, .f32⟩
  | .local .tc .vmem, ⟨19, _⟩ => ⟨S1x1024, .f32⟩
  | .local .tc .vmem, ⟨20, _⟩ => ⟨S512x1024, .f32⟩
  | .local .tc .vmem, ⟨21, _⟩ => ⟨S512x1024, .f32⟩
  | .local .tc .vmem, ⟨22, _⟩ => ⟨S2x1024, .f32⟩
  | .local .tc .vmem, ⟨23, _⟩ => ⟨S512x1024, .f32⟩
  | .local .tc .vmem, ⟨24, _⟩ => ⟨S512x1024, .f32⟩
  | .local .tc .vmem, ⟨25, _⟩ => ⟨S2x1024, .f32⟩
  | .local .tc .vmem, ⟨26, _⟩ => ⟨S1x1024, .f32⟩
  | .local .tc .vmem, ⟨27, _⟩ => ⟨S1x1024, .f32⟩
  | .local .tc .vmem, ⟨28, _⟩ => ⟨S1024x1024, .f32⟩
  | .local .tc .vmem, ⟨29, _⟩ => ⟨S1x1024, .f32⟩
  | .local .tc .vmem, ⟨30, _⟩ => ⟨S1x1024, .f32⟩
  | .local .tc .vmem, ⟨31, _⟩ => ⟨S1x1, .f32⟩
  | .local .tc .vmem, ⟨32, _⟩ => ⟨S512x1, .f32⟩
  | .local .tc .vmem, ⟨33, _⟩ => ⟨S512x1, .f32⟩
  | .local .scVector .vmem, ⟨0, _⟩ => ⟨S65536, .i32⟩
  | .local .scVector .vmem, ⟨1, _⟩ => ⟨S100, .i32⟩
  | .local .scVector .vmem, ⟨2, _⟩ => ⟨S100, .i32⟩
  | .local .scVector .vmem, ⟨3, _⟩ => ⟨S100x128, .f32⟩
  | .local .scVector .vmem, ⟨4, _⟩ => ⟨S100x128, .f32⟩
  | .local .scVector .vmem, ⟨5, _⟩ => ⟨S2x128, .f32⟩
  | .local .scVector .vmem, ⟨6, _⟩ => ⟨S2x128, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 39 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTables nBuf rfl bufTy 4 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v16_0 : Ref sig .tc := ⟨.hbm, 35, rfl⟩
abbrev main_v16_1 : Ref sig .tc := ⟨.hbm, 36, rfl⟩
abbrev main_v17 : Ref sig .tc := ⟨.hbm, 37, rfl⟩
abbrev main_v18 : Ref sig .tc := ⟨.hbm, 38, rfl⟩
abbrev main_v4_scv : Ref sig .scVector := ⟨.hbm, 22, rfl⟩
abbrev main_v1_scv : Ref sig .scVector := ⟨.hbm, 17, rfl⟩
abbrev main_v5_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg6_1 : Ref sig .tc := ⟨.vmem, 11, rfl⟩
abbrev cc1_stg7_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem8_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c64_i32 : BitVec 32 := 64#32
  let v3 : BitVec 32 := Scalar.muli v2 c64_i32
  ![v3.toNat]
@[reducible] def k0_t1_loop : Scf.Loop 32 :=
  let c0_i32_21 : BitVec 32 := 0#32
  let c256_i32 : BitVec 32 := 256#32
  let v77 : BitVec 32 := Scalar.addi c0_i32_21 c256_i32
  let c1_i32 : BitVec 32 := 1#32
  ⟨c0_i32_21, v77, c1_i32⟩
def k0_off2 (k0_t1 : Fin k0_t1_loop.trips) (c0_i32_31 : BitVec 32) (c0_i32_32 : BitVec 32) : Fin 1 → Nat :=
  let c0_i32_21 : BitVec 32 := 0#32
  let c1_i32 : BitVec 32 := 1#32
  let arg16 : BitVec 32 := Scf.iv c0_i32_21 c1_i32 k0_t1
  let c2_i32_29 : BitVec 32 := 2#32
  let v83 : BitVec 32 := Scalar.muli arg16 c2_i32_29
  let c1_i32_30 : BitVec 32 := 1#32
  let v84 : BitVec 32 := Scalar.addi v83 c1_i32_30
  let c128_i32 : BitVec 32 := 128#32
  let v85 : BitVec 32 := Scalar.muli v84 c128_i32
  let v86 : BitVec 32 := Scalar.addi v85 c0_i32_31
  let v87 : BitVec 32 := Scalar.addi v86 c0_i32_32
  let v88 : Index := Scalar.indexCast v87
  ![v88.toNat]
def k0_off2_at (r : Fin 8) : BitVec 32 × BitVec 32 :=
  if r.val < 4 then
    if r.val < 2 then
      if r.val < 1 then
        (0#32, 0#32)
      else
        (0#32, 16#32)
    else
      if r.val < 3 then
        (0#32, 32#32)
      else
        (0#32, 34#32)
  else
    if r.val < 6 then
      if r.val < 5 then
        (64#32, 0#32)
      else
        (64#32, 16#32)
    else
      if r.val < 7 then
        (64#32, 32#32)
      else
        (64#32, 34#32)
def k0_cond1 (k0_t1 : Fin k0_t1_loop.trips) : BitVec 1 :=
  let c0_i32_21 : BitVec 32 := 0#32
  let c1_i32 : BitVec 32 := 1#32
  let arg16 : BitVec 32 := Scf.iv c0_i32_21 c1_i32 k0_t1
  let c0_i32_72 : BitVec 32 := 0#32
  let v184 : BitVec 1 := Scalar.cmpi .sgt arg16 c0_i32_72
  let v185 : BitVec 32 := Scalar.extui v184
  let c0_i32_73 : BitVec 32 := 0#32
  let v186 : BitVec 1 := Scalar.cmpi .ne v185 c0_i32_73
  v186

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_236 : BitVec 32 := 0#32
  ![v2.toNat, 0]
@[reducible] def k0_t2_loop : Scf.Loop 32 :=
  let c0_i32_81 : BitVec 32 := 0#32
  let c10_i32 : BitVec 32 := 10#32
  let v195 : BitVec 32 := Scalar.addi c0_i32_81 c10_i32
  let c1_i32_82 : BitVec 32 := 1#32
  ⟨c0_i32_81, v195, c1_i32_82⟩
def k0_off4 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v470 : Index := Scalar.indexCast v469
  let c0_238 : Index := 0#32
  ![v470.toNat, 0]
def k0_off5 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v474 : Index := Scalar.indexCast v469
  let c16_239 : Index := 16#32
  ![v474.toNat, 16]
def k0_off6 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v478 : Index := Scalar.indexCast v469
  let c32_240 : Index := 32#32
  ![v478.toNat, 32]
def k0_off7 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v482 : Index := Scalar.indexCast v469
  let c48_241 : Index := 48#32
  ![v482.toNat, 48]
def k0_off8 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v486 : Index := Scalar.indexCast v469
  let c64_242 : Index := 64#32
  ![v486.toNat, 64]
def k0_off9 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v490 : Index := Scalar.indexCast v469
  let c80_243 : Index := 80#32
  ![v490.toNat, 80]
def k0_off10 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v494 : Index := Scalar.indexCast v469
  let c96_244 : Index := 96#32
  ![v494.toNat, 96]
def k0_off11 (k0_t2 : Fin k0_t2_loop.trips) (c0_i32_237 : BitVec 32) : Fin 2 → Nat :=
  let c0_i32_236 : BitVec 32 := 0#32
  let c0_i32_81 : BitVec 32 := 0#32
  let c1_i32_82 : BitVec 32 := 1#32
  let arg17 : BitVec 32 := Scf.iv c0_i32_81 c1_i32_82 k0_t2
  let c5_i32 : BitVec 32 := 5#32
  let v467 : BitVec 32 := Scalar.muli arg17 c5_i32
  let v468 : BitVec 32 := Scalar.addi c0_i32_236 v467
  let v469 : BitVec 32 := Scalar.addi v468 c0_i32_237
  let v498 : Index := Scalar.indexCast v469
  let c112_245 : Index := 112#32
  ![v498.toNat, 112]
@[reducible] def k0_t3_loop : Scf.Loop 32 :=
  let c0_i32_106 : BitVec 32 := 0#32
  let c10_i32_107 : BitVec 32 := 10#32
  let v237 : BitVec 32 := Scalar.addi c0_i32_106 c10_i32_107
  let c1_i32_108 : BitVec 32 := 1#32
  ⟨c0_i32_106, v237, c1_i32_108⟩
def k0_off12 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v470 : Index := Scalar.indexCast v469
  let c0_237 : Index := 0#32
  ![v470.toNat, 0]
def k0_off13 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v474 : Index := Scalar.indexCast v469
  let c16_238 : Index := 16#32
  ![v474.toNat, 16]
def k0_off14 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v478 : Index := Scalar.indexCast v469
  let c32_239 : Index := 32#32
  ![v478.toNat, 32]
def k0_off15 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v482 : Index := Scalar.indexCast v469
  let c48_240 : Index := 48#32
  ![v482.toNat, 48]
def k0_off16 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v486 : Index := Scalar.indexCast v469
  let c64_241 : Index := 64#32
  ![v486.toNat, 64]
def k0_off17 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v490 : Index := Scalar.indexCast v469
  let c80_242 : Index := 80#32
  ![v490.toNat, 80]
def k0_off18 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v494 : Index := Scalar.indexCast v469
  let c96_243 : Index := 96#32
  ![v494.toNat, 96]
def k0_off19 (k0_t3 : Fin k0_t3_loop.trips) (c0_i32_236 : BitVec 32) : Fin 2 → Nat :=
  let c50_i32 : BitVec 32 := 50#32
  let c0_i32_106 : BitVec 32 := 0#32
  let c1_i32_108 : BitVec 32 := 1#32
  let arg17 : BitVec 32 := Scf.iv c0_i32_106 c1_i32_108 k0_t3
  let c5_i32 : BitVec 32 := 5#32
  let v467 : BitVec 32 := Scalar.muli arg17 c5_i32
  let v468 : BitVec 32 := Scalar.addi c50_i32 v467
  let v469 : BitVec 32 := Scalar.addi v468 c0_i32_236
  let v498 : Index := Scalar.indexCast v469
  let c112_244 : Index := 112#32
  ![v498.toNat, 112]
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_21 : BitVec 32 := 0#32
  let c1_i32 : BitVec 32 := 1#32
  let arg16 : BitVec 32 := Scf.iv c0_i32_21 c1_i32 k0_t1
  let c2_i32_29 : BitVec 32 := 2#32
  let v83 : BitVec 32 := Scalar.muli arg16 c2_i32_29
  let c2_i32_126 : BitVec 32 := 2#32
  let v271 : BitVec 32 := Scalar.muli v83 c2_i32_126
  let v272 : BitVec 32 := Scalar.addi v2 v271
  let c0_i32_127 : BitVec 32 := 0#32
  ![v272.toNat, 0]
def k0_off21 (k0_t1 : Fin k0_t1_loop.trips) (c0_i32_131 : BitVec 32) (c0_i32_132 : BitVec 32) : Fin 1 → Nat :=
  let c0_i32_21 : BitVec 32 := 0#32
  let c1_i32 : BitVec 32 := 1#32
  let arg16 : BitVec 32 := Scf.iv c0_i32_21 c1_i32 k0_t1
  let c2_i32_29 : BitVec 32 := 2#32
  let v83 : BitVec 32 := Scalar.muli arg16 c2_i32_29
  let c2_i32_129 : BitVec 32 := 2#32
  let v275 : BitVec 32 := Scalar.addi v83 c2_i32_129
  let c511_i32 : BitVec 32 := 511#32
  let v276 : BitVec 32 := Scalar.minsi v275 c511_i32
  let c128_i32_130 : BitVec 32 := 128#32
  let v277 : BitVec 32 := Scalar.muli v276 c128_i32_130
  let v278 : BitVec 32 := Scalar.addi v277 c0_i32_131
  let v279 : BitVec 32 := Scalar.addi v278 c0_i32_132
  let v280 : Index := Scalar.indexCast v279
  ![v280.toNat]
def k0_off21_at (r : Fin 8) : BitVec 32 × BitVec 32 :=
  if r.val < 4 then
    if r.val < 2 then
      if r.val < 1 then
        (0#32, 0#32)
      else
        (0#32, 16#32)
    else
      if r.val < 3 then
        (0#32, 32#32)
      else
        (0#32, 34#32)
  else
    if r.val < 6 then
      if r.val < 5 then
        (64#32, 0#32)
      else
        (64#32, 16#32)
    else
      if r.val < 7 then
        (64#32, 32#32)
      else
        (64#32, 34#32)
def k0_cond2 (k0_t1 : Fin k0_t1_loop.trips) : BitVec 1 :=
  let c0_i32_21 : BitVec 32 := 0#32
  let c1_i32 : BitVec 32 := 1#32
  let arg16 : BitVec 32 := Scf.iv c0_i32_21 c1_i32 k0_t1
  let c0_i32_175 : BitVec 32 := 0#32
  let v376 : BitVec 1 := Scalar.cmpi .sgt arg16 c0_i32_175
  let v377 : BitVec 32 := Scalar.extui v376
  let c0_i32_176 : BitVec 32 := 0#32
  let v378 : BitVec 1 := Scalar.cmpi .ne v377 c0_i32_176
  v378

def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_236 : BitVec 32 := 0#32
  ![v2.toNat, 0]
@[reducible] def k0_t4_loop : Scf.Loop 32 :=
  let c0_i32_185 : BitVec 32 := 0#32
  let c10_i32_186 : BitVec 32 := 10#32
  let v387 : BitVec 32 := Scalar.addi c0_i32_185 c10_i32_186
  let c1_i32_187 : BitVec 32 := 1#32
  ⟨c0_i32_185, v387, c1_i32_187⟩
def k0_off23 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v470 : Index := Scalar.indexCast v469
  let c0_238 : Index := 0#32
  ![v470.toNat, 0]
def k0_off24 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v474 : Index := Scalar.indexCast v469
  let c16_239 : Index := 16#32
  ![v474.toNat, 16]
def k0_off25 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v478 : Index := Scalar.indexCast v469
  let c32_240 : Index := 32#32
  ![v478.toNat, 32]
def k0_off26 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v482 : Index := Scalar.indexCast v469
  let c48_241 : Index := 48#32
  ![v482.toNat, 48]
def k0_off27 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v486 : Index := Scalar.indexCast v469
  let c64_242 : Index := 64#32
  ![v486.toNat, 64]
def k0_off28 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v490 : Index := Scalar.indexCast v469
  let c80_243 : Index := 80#32
  ![v490.toNat, 80]
def k0_off29 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v494 : Index := Scalar.indexCast v469
  let c96_244 : Index := 96#32
  ![v494.toNat, 96]
def k0_off30 (k0_t4 : Fin k0_t4_loop.trips) (c0_i32_237 : BitVec 32) : Fin 2 → Nat :=
  let c0_i32_236 : BitVec 32 := 0#32
  let c0_i32_185 : BitVec 32 := 0#32
  let c1_i32_187 : BitVec 32 := 1#32
  let arg17 : BitVec 32 := Scf.iv c0_i32_185 c1_i32_187 k0_t4
  let c5_i32 : BitVec 32 := 5#32
  let v467 : BitVec 32 := Scalar.muli arg17 c5_i32
  let v468 : BitVec 32 := Scalar.addi c0_i32_236 v467
  let v469 : BitVec 32 := Scalar.addi v468 c0_i32_237
  let v498 : Index := Scalar.indexCast v469
  let c112_245 : Index := 112#32
  ![v498.toNat, 112]
@[reducible] def k0_t5_loop : Scf.Loop 32 :=
  let c0_i32_213 : BitVec 32 := 0#32
  let c10_i32_214 : BitVec 32 := 10#32
  let v429 : BitVec 32 := Scalar.addi c0_i32_213 c10_i32_214
  let c1_i32_215 : BitVec 32 := 1#32
  ⟨c0_i32_213, v429, c1_i32_215⟩
def k0_off31 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v470 : Index := Scalar.indexCast v469
  let c0_237 : Index := 0#32
  ![v470.toNat, 0]
def k0_off32 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v474 : Index := Scalar.indexCast v469
  let c16_238 : Index := 16#32
  ![v474.toNat, 16]
def k0_off33 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v478 : Index := Scalar.indexCast v469
  let c32_239 : Index := 32#32
  ![v478.toNat, 32]
def k0_off34 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v482 : Index := Scalar.indexCast v469
  let c48_240 : Index := 48#32
  ![v482.toNat, 48]
def k0_off35 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v486 : Index := Scalar.indexCast v469
  let c64_241 : Index := 64#32
  ![v486.toNat, 64]
def k0_off36 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v490 : Index := Scalar.indexCast v469
  let c80_242 : Index := 80#32
  ![v490.toNat, 80]
def k0_off37 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v494 : Index := Scalar.indexCast v469
  let c96_243 : Index := 96#32
  ![v494.toNat, 96]
def k0_off38 (k0_t5 : Fin k0_t5_loop.trips) (c0_i32_236 : BitVec 32) : Fin 2 → Nat :=
  let c50_i32 : BitVec 32 := 50#32
  let c0_i32_213 : BitVec 32 := 0#32
  let c1_i32_215 : BitVec 32 := 1#32
  let arg17 : BitVec 32 := Scf.iv c0_i32_213 c1_i32_215 k0_t5
  let c5_i32 : BitVec 32 := 5#32
  let v467 : BitVec 32 := Scalar.muli arg17 c5_i32
  let v468 : BitVec 32 := Scalar.addi c50_i32 v467
  let v469 : BitVec 32 := Scalar.addi v468 c0_i32_236
  let v498 : Index := Scalar.indexCast v469
  let c112_244 : Index := 112#32
  ![v498.toNat, 112]
def k0_off39 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_21 : BitVec 32 := 0#32
  let c1_i32 : BitVec 32 := 1#32
  let arg16 : BitVec 32 := Scf.iv c0_i32_21 c1_i32 k0_t1
  let c2_i32_29 : BitVec 32 := 2#32
  let v83 : BitVec 32 := Scalar.muli arg16 c2_i32_29
  let c1_i32_30 : BitVec 32 := 1#32
  let v84 : BitVec 32 := Scalar.addi v83 c1_i32_30
  let c2_i32_233 : BitVec 32 := 2#32
  let v463 : BitVec 32 := Scalar.muli v84 c2_i32_233
  let v464 : BitVec 32 := Scalar.addi v2 v463
  let c0_i32_234 : BitVec 32 := 0#32
  ![v464.toNat, 0]
def k0_off40 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_25 : BitVec 32 := 0#32
  ![v2.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x50 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x50 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S2x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S8x128 : S_.BroadcastsInDim S8x128 (![] : Fin 0 → Fin S8x128.rank)
  concatenates_S100000x128_S8x128_S100008x128_d0 : Shape.Concatenates [S100000x128, S8x128] S100008x128 0
  concatenates_S16384x50_S16384x50_S32768x50_d0 : Shape.Concatenates [S16384x50, S16384x50] S32768x50 0
  pads_S32768x50_S32768x64_000_0140 : S32768x50.Pads (![0, 0] : Fin 2 → Nat) ![0, 14] ![0, 0] S32768x64
  h_S_ : 0 < S_.numel
  shapeCasts_S32768x64_S2097152 : S32768x64.ShapeCasts S2097152
  inb_S65536_S16_0 : ∀ a, (![0] : Fin 1 → Nat) a + S16.size a ≤ S65536.size a
  h_S16 : 0 < S16.numel
  shapeCasts_S16_S16 : S16.ShapeCasts S16
  inb_S100_S16_0 : ∀ a, (![0] : Fin 1 → Nat) a + S16.size a ≤ S100.size a
  inb_S65536_S16_16 : ∀ a, (![16] : Fin 1 → Nat) a + S16.size a ≤ S65536.size a
  inb_S100_S16_16 : ∀ a, (![16] : Fin 1 → Nat) a + S16.size a ≤ S100.size a
  inb_S65536_S16_32 : ∀ a, (![32] : Fin 1 → Nat) a + S16.size a ≤ S65536.size a
  inb_S100_S16_32 : ∀ a, (![32] : Fin 1 → Nat) a + S16.size a ≤ S100.size a
  inb_S65536_S16_34 : ∀ a, (![34] : Fin 1 → Nat) a + S16.size a ≤ S65536.size a
  inb_S100_S16_34 : ∀ a, (![34] : Fin 1 → Nat) a + S16.size a ≤ S100.size a
  inb_S65536_S16_64 : ∀ a, (![64] : Fin 1 → Nat) a + S16.size a ≤ S65536.size a
  inb_S100_S16_50 : ∀ a, (![50] : Fin 1 → Nat) a + S16.size a ≤ S100.size a
  inb_S65536_S16_80 : ∀ a, (![80] : Fin 1 → Nat) a + S16.size a ≤ S65536.size a
  inb_S100_S16_66 : ∀ a, (![66] : Fin 1 → Nat) a + S16.size a ≤ S100.size a
  inb_S65536_S16_96 : ∀ a, (![96] : Fin 1 → Nat) a + S16.size a ≤ S65536.size a
  inb_S100_S16_82 : ∀ a, (![82] : Fin 1 → Nat) a + S16.size a ≤ S100.size a
  inb_S65536_S16_98 : ∀ a, (![98] : Fin 1 → Nat) a + S16.size a ≤ S65536.size a
  inb_S100_S16_84 : ∀ a, (![84] : Fin 1 → Nat) a + S16.size a ≤ S100.size a
  inb_S100008x128_S100008x128_0_0 : ∀ a, (![0, 0] : Fin 2 → Nat) a + S100008x128.size a ≤ S100008x128.size a
  gathers_S100008x128_S100x128 : S100008x128.Gathers 0 S100x128
  h_S1x16 : 0 < S1x16.numel
  shapeCasts_S1x16_S16 : S1x16.ShapeCasts S16
  inb_S2x128_S1x16_0_0 : ∀ a, (![0, 0] : Fin 2 → Nat) a + S1x16.size a ≤ S2x128.size a
  shapeCasts_S16_S1x16 : S16.ShapeCasts S1x16
  inb_S2x128_S1x16_0_16 : ∀ a, (![0, 16] : Fin 2 → Nat) a + S1x16.size a ≤ S2x128.size a
  inb_S2x128_S1x16_0_32 : ∀ a, (![0, 32] : Fin 2 → Nat) a + S1x16.size a ≤ S2x128.size a
  inb_S2x128_S1x16_0_48 : ∀ a, (![0, 48] : Fin 2 → Nat) a + S1x16.size a ≤ S2x128.size a
  inb_S2x128_S1x16_0_64 : ∀ a, (![0, 64] : Fin 2 → Nat) a + S1x16.size a ≤ S2x128.size a
  inb_S2x128_S1x16_0_80 : ∀ a, (![0, 80] : Fin 2 → Nat) a + S1x16.size a ≤ S2x128.size a
  inb_S2x128_S1x16_0_96 : ∀ a, (![0, 96] : Fin 2 → Nat) a + S1x16.size a ≤ S2x128.size a
  inb_S2x128_S1x16_0_112 : ∀ a, (![0, 112] : Fin 2 → Nat) a + S1x16.size a ≤ S2x128.size a
  inb_S2x128_S1x16_1_0 : ∀ a, (![1, 0] : Fin 2 → Nat) a + S1x16.size a ≤ S2x128.size a
  inb_S2x128_S1x16_1_16 : ∀ a, (![1, 16] : Fin 2 → Nat) a + S1x16.size a ≤ S2x128.size a
  inb_S2x128_S1x16_1_32 : ∀ a, (![1, 32] : Fin 2 → Nat) a + S1x16.size a ≤ S2x128.size a
  inb_S2x128_S1x16_1_48 : ∀ a, (![1, 48] : Fin 2 → Nat) a + S1x16.size a ≤ S2x128.size a
  inb_S2x128_S1x16_1_64 : ∀ a, (![1, 64] : Fin 2 → Nat) a + S1x16.size a ≤ S2x128.size a
  inb_S2x128_S1x16_1_80 : ∀ a, (![1, 80] : Fin 2 → Nat) a + S1x16.size a ≤ S2x128.size a
  inb_S2x128_S1x16_1_96 : ∀ a, (![1, 96] : Fin 2 → Nat) a + S1x16.size a ≤ S2x128.size a
  inb_S2x128_S1x16_1_112 : ∀ a, (![1, 112] : Fin 2 → Nat) a + S1x16.size a ≤ S2x128.size a
  shapeCasts_S1024_S1x1024 : S1024.ShapeCasts S1x1024
  shapeCasts_S1024x1_S1x1024 : S1024x1.ShapeCasts S1x1024
  shapeCasts_S1_S1x1 : S1.ShapeCasts S1x1
  inb_S512x50_S512x50_0_0 : ∀ a, (![0, 0] : Fin 2 → Nat) a + S512x50.size a ≤ S512x50.size a
  h_S512x50 : 0 < S512x50.numel
  natLt_1_32 : 1 < 32
  reduces_S512x50_S512 : S512x50.Reduces [1] S512
  shapeCasts_S512_S512x1 : S512.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  inb_S256x1024_S128x1024_0_0 : ∀ a, (![0, 0] : Fin 2 → Nat) a + S128x1024.size a ≤ S256x1024.size a
  h_S128x1024 : 0 < S128x1024.numel
  inb_S256x1024_S128x1024_128_0 : ∀ a, (![128, 0] : Fin 2 → Nat) a + S128x1024.size a ≤ S256x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  concatenates_S1x1024_S1x1024_S2x1024_d0 : Shape.Concatenates [S1x1024, S1x1024] S2x1024 0
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S2x1024_S1x1024_0_0 : ∀ a, (![0, 0] : Fin 2 → Nat) a + S1x1024.size a ≤ S2x1024.size a
  inb_S2x1024_S1x1024_1_0 : ∀ a, (![1, 0] : Fin 2 → Nat) a + S1x1024.size a ≤ S2x1024.size a
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  dot_S512x128_S128x1024_S512x1024_1_0_0_1_n_n_wf : DotDims.WF S512x128 S128x1024 S512x1024 [1] [0] [0] [1] [] []
  dot_S512x1024_S1024x1024_S512x1024_1_0_0_1_n_n_wf : DotDims.WF S512x1024 S1024x1024 S512x1024 [1] [0] [0] [1] [] []
  hcc0_scratch7 : 0 + S_.numel ≤ 39
  hcc0_scratch8 : 1 + S_.numel ≤ 39
  hcc0_scratch9 : 2 + S_.numel ≤ 39
  hcc0_scratch10 : 3 + S_.numel ≤ 39
  hcc0_scoped0 : 4 + S_.numel ≤ 39
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S65536.size a ≤ S2097152.size a
  k0_t1_ok : k0_t1_loop.OK
  k0_off2_inb : ∀ k0_t1 : Fin k0_t1_loop.trips, ∀ (r : Fin 8), ∀ a, (k0_off2 k0_t1 (k0_off2_at r).1 (k0_off2_at r).2) a + S16.size a ≤ S65536.size a
  k0_off3_inb : ∀ (i : grid0.Coords) (k0_t1 : Fin k0_t1_loop.trips), ∀ (k0_h1 : k0_cond1 k0_t1 = 1#1), ∀ a, (k0_off3 i) a + S2x128.size a ≤ S32768x128.size a
  k0_t2_ok : k0_t2_loop.OK
  k0_off4_inb : ∀ k0_t2 : Fin k0_t2_loop.trips, ∀ (r : Fin 5), ∀ a, (k0_off4 k0_t2 (BitVec.ofNat 32 r.val)) a + S1x16.size a ≤ S100x128.size a
  k0_off5_inb : ∀ k0_t2 : Fin k0_t2_loop.trips, ∀ (r : Fin 5), ∀ a, (k0_off5 k0_t2 (BitVec.ofNat 32 r.val)) a + S1x16.size a ≤ S100x128.size a
  k0_off6_inb : ∀ k0_t2 : Fin k0_t2_loop.trips, ∀ (r : Fin 5), ∀ a, (k0_off6 k0_t2 (BitVec.ofNat 32 r.val)) a + S1x16.size a ≤ S100x128.size a
  k0_off7_inb : ∀ k0_t2 : Fin k0_t2_loop.trips, ∀ (r : Fin 5), ∀ a, (k0_off7 k0_t2 (BitVec.ofNat 32 r.val)) a + S1x16.size a ≤ S100x128.size a
  k0_off8_inb : ∀ k0_t2 : Fin k0_t2_loop.trips, ∀ (r : Fin 5), ∀ a, (k0_off8 k0_t2 (BitVec.ofNat 32 r.val)) a + S1x16.size a ≤ S100x128.size a
  k0_off9_inb : ∀ k0_t2 : Fin k0_t2_loop.trips, ∀ (r : Fin 5), ∀ a, (k0_off9 k0_t2 (BitVec.ofNat 32 r.val)) a + S1x16.size a ≤ S100x128.size a
  k0_off10_inb : ∀ k0_t2 : Fin k0_t2_loop.trips, ∀ (r : Fin 5), ∀ a, (k0_off10 k0_t2 (BitVec.ofNat 32 r.val)) a + S1x16.size a ≤ S100x128.size a
  k0_off11_inb : ∀ k0_t2 : Fin k0_t2_loop.trips, ∀ (r : Fin 5), ∀ a, (k0_off11 k0_t2 (BitVec.ofNat 32 r.val)) a + S1x16.size a ≤ S100x128.size a
  k0_t3_ok : k0_t3_loop.OK
  k0_off12_inb : ∀ k0_t3 : Fin k0_t3_loop.trips, ∀ (r : Fin 5), ∀ a, (k0_off12 k0_t3 (BitVec.ofNat 32 r.val)) a + S1x16.size a ≤ S100x128.size a
  k0_off13_inb : ∀ k0_t3 : Fin k0_t3_loop.trips, ∀ (r : Fin 5), ∀ a, (k0_off13 k0_t3 (BitVec.ofNat 32 r.val)) a + S1x16.size a ≤ S100x128.size a
  k0_off14_inb : ∀ k0_t3 : Fin k0_t3_loop.trips, ∀ (r : Fin 5), ∀ a, (k0_off14 k0_t3 (BitVec.ofNat 32 r.val)) a + S1x16.size a ≤ S100x128.size a
  k0_off15_inb : ∀ k0_t3 : Fin k0_t3_loop.trips, ∀ (r : Fin 5), ∀ a, (k0_off15 k0_t3 (BitVec.ofNat 32 r.val)) a + S1x16.size a ≤ S100x128.size a
  k0_off16_inb : ∀ k0_t3 : Fin k0_t3_loop.trips, ∀ (r : Fin 5), ∀ a, (k0_off16 k0_t3 (BitVec.ofNat 32 r.val)) a + S1x16.size a ≤ S100x128.size a
  k0_off17_inb : ∀ k0_t3 : Fin k0_t3_loop.trips, ∀ (r : Fin 5), ∀ a, (k0_off17 k0_t3 (BitVec.ofNat 32 r.val)) a + S1x16.size a ≤ S100x128.size a
  k0_off18_inb : ∀ k0_t3 : Fin k0_t3_loop.trips, ∀ (r : Fin 5), ∀ a, (k0_off18 k0_t3 (BitVec.ofNat 32 r.val)) a + S1x16.size a ≤ S100x128.size a
  k0_off19_inb : ∀ k0_t3 : Fin k0_t3_loop.trips, ∀ (r : Fin 5), ∀ a, (k0_off19 k0_t3 (BitVec.ofNat 32 r.val)) a + S1x16.size a ≤ S100x128.size a
  k0_off20_inb : ∀ (i : grid0.Coords) (k0_t1 : Fin k0_t1_loop.trips), ∀ a, (k0_off20 i k0_t1) a + S2x128.size a ≤ S32768x128.size a
  k0_off21_inb : ∀ k0_t1 : Fin k0_t1_loop.trips, ∀ (r : Fin 8), ∀ a, (k0_off21 k0_t1 (k0_off21_at r).1 (k0_off21_at r).2) a + S16.size a ≤ S65536.size a
  k0_off22_inb : ∀ (i : grid0.Coords) (k0_t1 : Fin k0_t1_loop.trips), ∀ (k0_h2 : k0_cond2 k0_t1 = 1#1), ∀ a, (k0_off22 i) a + S2x128.size a ≤ S32768x128.size a
  k0_t4_ok : k0_t4_loop.OK
  k0_off23_inb : ∀ k0_t4 : Fin k0_t4_loop.trips, ∀ (r : Fin 5), ∀ a, (k0_off23 k0_t4 (BitVec.ofNat 32 r.val)) a + S1x16.size a ≤ S100x128.size a
  k0_off24_inb : ∀ k0_t4 : Fin k0_t4_loop.trips, ∀ (r : Fin 5), ∀ a, (k0_off24 k0_t4 (BitVec.ofNat 32 r.val)) a + S1x16.size a ≤ S100x128.size a
  k0_off25_inb : ∀ k0_t4 : Fin k0_t4_loop.trips, ∀ (r : Fin 5), ∀ a, (k0_off25 k0_t4 (BitVec.ofNat 32 r.val)) a + S1x16.size a ≤ S100x128.size a
  k0_off26_inb : ∀ k0_t4 : Fin k0_t4_loop.trips, ∀ (r : Fin 5), ∀ a, (k0_off26 k0_t4 (BitVec.ofNat 32 r.val)) a + S1x16.size a ≤ S100x128.size a
  k0_off27_inb : ∀ k0_t4 : Fin k0_t4_loop.trips, ∀ (r : Fin 5), ∀ a, (k0_off27 k0_t4 (BitVec.ofNat 32 r.val)) a + S1x16.size a ≤ S100x128.size a
  k0_off28_inb : ∀ k0_t4 : Fin k0_t4_loop.trips, ∀ (r : Fin 5), ∀ a, (k0_off28 k0_t4 (BitVec.ofNat 32 r.val)) a + S1x16.size a ≤ S100x128.size a
  k0_off29_inb : ∀ k0_t4 : Fin k0_t4_loop.trips, ∀ (r : Fin 5), ∀ a, (k0_off29 k0_t4 (BitVec.ofNat 32 r.val)) a + S1x16.size a ≤ S100x128.size a
  k0_off30_inb : ∀ k0_t4 : Fin k0_t4_loop.trips, ∀ (r : Fin 5), ∀ a, (k0_off30 k0_t4 (BitVec.ofNat 32 r.val)) a + S1x16.size a ≤ S100x128.size a
  k0_t5_ok : k0_t5_loop.OK
  k0_off31_inb : ∀ k0_t5 : Fin k0_t5_loop.trips, ∀ (r : Fin 5), ∀ a, (k0_off31 k0_t5 (BitVec.ofNat 32 r.val)) a + S1x16.size a ≤ S100x128.size a
  k0_off32_inb : ∀ k0_t5 : Fin k0_t5_loop.trips, ∀ (r : Fin 5), ∀ a, (k0_off32 k0_t5 (BitVec.ofNat 32 r.val)) a + S1x16.size a ≤ S100x128.size a
  k0_off33_inb : ∀ k0_t5 : Fin k0_t5_loop.trips, ∀ (r : Fin 5), ∀ a, (k0_off33 k0_t5 (BitVec.ofNat 32 r.val)) a + S1x16.size a ≤ S100x128.size a
  k0_off34_inb : ∀ k0_t5 : Fin k0_t5_loop.trips, ∀ (r : Fin 5), ∀ a, (k0_off34 k0_t5 (BitVec.ofNat 32 r.val)) a + S1x16.size a ≤ S100x128.size a
  k0_off35_inb : ∀ k0_t5 : Fin k0_t5_loop.trips, ∀ (r : Fin 5), ∀ a, (k0_off35 k0_t5 (BitVec.ofNat 32 r.val)) a + S1x16.size a ≤ S100x128.size a
  k0_off36_inb : ∀ k0_t5 : Fin k0_t5_loop.trips, ∀ (r : Fin 5), ∀ a, (k0_off36 k0_t5 (BitVec.ofNat 32 r.val)) a + S1x16.size a ≤ S100x128.size a
  k0_off37_inb : ∀ k0_t5 : Fin k0_t5_loop.trips, ∀ (r : Fin 5), ∀ a, (k0_off37 k0_t5 (BitVec.ofNat 32 r.val)) a + S1x16.size a ≤ S100x128.size a
  k0_off38_inb : ∀ k0_t5 : Fin k0_t5_loop.trips, ∀ (r : Fin 5), ∀ a, (k0_off38 k0_t5 (BitVec.ofNat 32 r.val)) a + S1x16.size a ≤ S100x128.size a
  k0_off39_inb : ∀ (i : grid0.Coords) (k0_t1 : Fin k0_t1_loop.trips), ∀ a, (k0_off39 i k0_t1) a + S2x128.size a ≤ S32768x128.size a
  k0_off40_inb : ∀ i : grid0.Coords, ∀ a, (k0_off40 i) a + S2x128.size a ≤ S32768x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S32768x128.size a
  hwx1_0 : ∀ i : grid1.Coords, EltTy.bits .f32 = 32 ∨ (Rect.block (s := S32768x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S32768x128.size a
  hwx1_1 : ∀ i : grid1.Coords, EltTy.bits .f32 = 32 ∨ (Rect.block (s := S32768x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x50.size a ≤ S16384x50.size a
  hwx1_2 : ∀ i : grid1.Coords, EltTy.bits .i32 = 32 ∨ (Rect.block (s := S16384x50) S512x50.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x50.size a ≤ S16384x50.size a
  hwx1_3 : ∀ i : grid1.Coords, EltTy.bits .i32 = 32 ∨ (Rect.block (s := S16384x50) S512x50.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S256x1024.size a
  hwx1_4 : ∀ i : grid1.Coords, EltTy.bits .f32 = 32 ∨ (Rect.block (s := S256x1024) S256x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S16384x1024.size a
  hwx1_6 : ∀ i : grid1.Coords, EltTy.bits .f32 = 32 ∨ (Rect.block (s := S16384x1024) S512x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x1024.size a ≤ S2x1024.size a
  hwx1_7 : ∀ i : grid1.Coords, EltTy.bits .f32 = 32 ∨ (Rect.block (s := S2x1024) S2x1024.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S16384x1024.size a
  hwx2_0 : ∀ i : grid2.Coords, EltTy.bits .f32 = 32 ∨ (Rect.block (s := S16384x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x1024.size a ≤ S2x1024.size a
  hwx2_1 : ∀ i : grid2.Coords, EltTy.bits .f32 = 32 ∨ (Rect.block (s := S2x1024) S2x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .f32 = 32 ∨ (Rect.block (s := S1024x1024) S1024x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S16384x1024.size a
  hwx2_6 : ∀ i : grid2.Coords, EltTy.bits .f32 = 32 ∨ (Rect.block (s := S16384x1024) S512x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2x1024.size a ≤ S2x1024.size a
  hwx2_7 : ∀ i : grid2.Coords, EltTy.bits .f32 = 32 ∨ (Rect.block (s := S2x1024) S2x1024.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S16384x1024.size a
  hwx3_0 : ∀ i : grid3.Coords, EltTy.bits .f32 = 32 ∨ (Rect.block (s := S16384x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x1024.size a ≤ S2x1024.size a
  hwx3_1 : ∀ i : grid3.Coords, EltTy.bits .f32 = 32 ∨ (Rect.block (s := S2x1024) S2x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S1024x1024.size a
  hwx3_4 : ∀ i : grid3.Coords, EltTy.bits .f32 = 32 ∨ (Rect.block (s := S1024x1024) S1024x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1024.size a ≤ S1x1024.size a
  hwx3_6 : ∀ i : grid3.Coords, EltTy.bits .f32 = 32 ∨ (Rect.block (s := S1x1024) S1x1024.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S512x1.size a ≤ S16384x1.size a
  hwx3_8 : ∀ i : grid3.Coords, EltTy.bits .f32 = 32 ∨ (Rect.block (s := S16384x1) S512x1.size (cc3_transform_8 i) (hinb3_8 i)).WholeWords (EltTy.packing .f32)

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scoped0 : DmaSems sig S_ := SemArray.consecutive 4 S_ hcc0_scoped0
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win1_0 : Pipeline.Window sig grid1 :=
  Pipeline.Window.ofSpec (Memref.whole main_v5) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x50.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x50.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S512x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S2x1024.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S2x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16_0) S512x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v16_1) S2x1024.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v16_0) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16_1) S2x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S1024x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v8) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v13) S1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v14) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v17) S512x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S16384x50 : Shape := ⟨2, ![16384, 50]⟩
abbrev S100000x128 : Shape := ⟨2, ![100000, 128]⟩
abbrev S256x1024 : Shape := ⟨2, ![256, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩
abbrev S16384x50x1 : Shape := ⟨3, ![16384, 50, 1]⟩
abbrev S1x1x1 : Shape := ⟨3, ![1, 1, 1]⟩
abbrev S16384x50x128 : Shape := ⟨3, ![16384, 50, 128]⟩
abbrev S16384x128 : Shape := ⟨2, ![16384, 128]⟩
abbrev S16384x1 : Shape := ⟨2, ![16384, 1]⟩
abbrev S16384x256 : Shape := ⟨2, ![16384, 256]⟩
abbrev S16384x1024 : Shape := ⟨2, ![16384, 1024]⟩
abbrev S1x1024 : Shape := ⟨2, ![1, 1024]⟩
abbrev S1x1 : Shape := ⟨2, ![1, 1]⟩
abbrev S16384 : Shape := ⟨1, ![16384]⟩

abbrev nBuf : Space → Nat
  | .hbm => 218
  | .vmem => 0
  | .smem => 0
  | _ => 0

abbrev hbmTy0_0 (i : Nat) : BufTy := match i % 128 with
  | 0 => ⟨S16384x50, .i32⟩
  | 1 => ⟨S16384x50, .i32⟩
  | 2 => ⟨S100000x128, .f32⟩
  | 3 => ⟨S256x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S1024x1024, .f32⟩
  | 12 => ⟨S1024, .f32⟩
  | 13 => ⟨S1024x1, .f32⟩
  | 14 => ⟨S1, .f32⟩
  | 15 => ⟨S_, .i32⟩
  | 16 => ⟨S16384x50, .i32⟩
  | 17 => ⟨S16384x50, .i1⟩
  | 18 => ⟨S_, .i32⟩
  | 19 => ⟨S16384x50, .i32⟩
  | 20 => ⟨S16384x50, .i32⟩
  | 21 => ⟨S16384x50, .i32⟩
  | 22 => ⟨S16384x50x1, .i32⟩
  | 23 => ⟨S1, .i32⟩
  | 24 => ⟨S_, .i32⟩
  | 25 => ⟨S16384x50x1, .i32⟩
  | 26 => ⟨S16384x50x1, .i1⟩
  | 27 => ⟨S1x1x1, .i32⟩
  | 28 => ⟨S16384x50x1, .i32⟩
  | 29 => ⟨S16384x50x1, .i1⟩
  | 30 => ⟨S16384x50x1, .i1⟩
  | 31 => ⟨S_, .i1⟩
  | 32 => ⟨S16384x50, .i1⟩
  | 33 => ⟨S16384x50x128, .f32⟩
  | 34 => ⟨S16384x50x128, .i1⟩
  | 35 => ⟨S_, .f32⟩
  | 36 => ⟨S16384x50x128, .f32⟩
  | 37 => ⟨S16384x50x128, .f32⟩
  | 38 => ⟨S_, .i32⟩
  | 39 => ⟨S16384x50, .i32⟩
  | 40 => ⟨S16384x50, .i1⟩
  | 41 => ⟨S16384x50x1, .i1⟩
  | 42 => ⟨S16384x50x1, .f32⟩
  | 43 => ⟨S16384x50x128, .f32⟩
  | 44 => ⟨S16384x50x128, .f32⟩
  | 45 => ⟨S_, .f32⟩
  | 46 => ⟨S16384x128, .f32⟩
  | 47 => ⟨S_, .f32⟩
  | 48 => ⟨S16384x1, .f32⟩
  | 49 => ⟨S_, .f32⟩
  | 50 => ⟨S_, .f32⟩
  | 51 => ⟨S16384x1, .f32⟩
  | 52 => ⟨S16384x1, .f32⟩
  | 53 => ⟨S16384x128, .f32⟩
  | 54 => ⟨S16384x128, .f32⟩
  | 55 => ⟨S_, .i32⟩
  | 56 => ⟨S16384x50, .i32⟩
  | 57 => ⟨S16384x50, .i1⟩
  | 58 => ⟨S_, .i32⟩
  | 59 => ⟨S16384x50, .i32⟩
  | 60 => ⟨S16384x50, .i32⟩
  | 61 => ⟨S16384x50, .i32⟩
  | 62 => ⟨S16384x50x1, .i32⟩
  | 63 => ⟨S1, .i32⟩
  | 64 => ⟨S_, .i32⟩
  | 65 => ⟨S16384x50x1, .i32⟩
  | 66 => ⟨S16384x50x1, .i1⟩
  | 67 => ⟨S1x1x1, .i32⟩
  | 68 => ⟨S16384x50x1, .i32⟩
  | 69 => ⟨S16384x50x1, .i1⟩
  | 70 => ⟨S16384x50x1, .i1⟩
  | 71 => ⟨S_, .i1⟩
  | 72 => ⟨S16384x50, .i1⟩
  | 73 => ⟨S16384x50x128, .f32⟩
  | 74 => ⟨S16384x50x128, .i1⟩
  | 75 => ⟨S_, .f32⟩
  | 76 => ⟨S16384x50x128, .f32⟩
  | 77 => ⟨S16384x50x128, .f32⟩
  | 78 => ⟨S_, .i32⟩
  | 79 => ⟨S16384x50, .i32⟩
  | 80 => ⟨S16384x50, .i1⟩
  | 81 => ⟨S16384x50x1, .i1⟩
  | 82 => ⟨S16384x50x1, .f32⟩
  | 83 => ⟨S16384x50x128, .f32⟩
  | 84 => ⟨S16384x50x128, .f32⟩
  | 85 => ⟨S_, .f32⟩
  | 86 => ⟨S16384x128, .f32⟩
  | 87 => ⟨S_, .f32⟩
  | 88 => ⟨S16384x1, .f32⟩
  | 89 => ⟨S_, .f32⟩
  | 90 => ⟨S_, .f32⟩
  | 91 => ⟨S16384x1, .f32⟩
  | 92 => ⟨S16384x1, .f32⟩
  | 93 => ⟨S16384x128, .f32⟩
  | 94 => ⟨S16384x128, .f32⟩
  | 95 => ⟨S16384x256, .f32⟩
  | 96 => ⟨S16384x1024, .f32⟩
  | 97 => ⟨S1x1024, .f32⟩
  | 98 => ⟨S16384x1024, .f32⟩
  | 99 => ⟨S16384x1024, .f32⟩
  | 100 => ⟨S_, .f32⟩
  | 101 => ⟨S16384x1024, .f32⟩
  | 102 => ⟨S16384x1024, .f32⟩
  | 103 => ⟨S_, .f32⟩
  | 104 => ⟨S1024, .f32⟩
  | 105 => ⟨S_, .f32⟩
  | 106 => ⟨S1024, .f32⟩
  | 107 => ⟨S1024, .f32⟩
  | 108 => ⟨S_, .i32⟩
  | 109 => ⟨S_, .f32⟩
  | 110 => ⟨S1024, .f32⟩
  | 111 => ⟨S1x1024, .f32⟩
  | 112 => ⟨S_, .f32⟩
  | 113 => ⟨S1x1024, .f32⟩
  | 114 => ⟨S1x1024, .f32⟩
  | 115 => ⟨S16384x1024, .f32⟩
  | 116 => ⟨S16384x1024, .f32⟩
  | 117 => ⟨S16384x1024, .f32⟩
  | 118 => ⟨S_, .f32⟩
  | 119 => ⟨S_, .f32⟩
  | 120 => ⟨S_, .f32⟩
  | 121 => ⟨S_, .f32⟩
  | 122 => ⟨S1024, .f32⟩
  | 123 => ⟨S1024, .f32⟩
  | 124 => ⟨S1024, .f32⟩
  | 125 => ⟨S_, .f32⟩
  | 126 => ⟨S_, .i1⟩
  | 127 => ⟨S_, .f32⟩
  | _ => ⟨S16384x50, .i32⟩

abbrev hbmTy0_1 (i : Nat) : BufTy := match i % 128 with
  | 0 => ⟨S_, .f32⟩
  | 1 => ⟨S1024, .f32⟩
  | 2 => ⟨S1024, .f32⟩
  | 3 => ⟨S1x1024, .f32⟩
  | 4 => ⟨S16384x1024, .f32⟩
  | 5 => ⟨S16384x1024, .f32⟩
  | 6 => ⟨S_, .f32⟩
  | 7 => ⟨S1024, .f32⟩
  | 8 => ⟨S1024, .f32⟩
  | 9 => ⟨S1024, .f32⟩
  | 10 => ⟨S1x1024, .f32⟩
  | 11 => ⟨S16384x1024, .f32⟩
  | 12 => ⟨S16384x1024, .f32⟩
  | 13 => ⟨S1x1024, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S1024, .f32⟩
  | 28 => ⟨S_, .f32⟩
  | 29 => ⟨S1024, .f32⟩
  | 30 => ⟨S1024, .f32⟩
  | 31 => ⟨S_, .i32⟩
  | 32 => ⟨S_, .f32⟩
  | 33 => ⟨S1024, .f32⟩
  | 34 => ⟨S1x1024, .f32⟩
  | 35 => ⟨S_, .f32⟩
  | 36 => ⟨S1x1024, .f32⟩
  | 37 => ⟨S1x1024, .f32⟩
  | 38 => ⟨S16384x1024, .f32⟩
  | 39 => ⟨S16384x1024, .f32⟩
  | 40 => ⟨S16384x1024, .f32⟩
  | 41 => ⟨S_, .f32⟩
  | 42 => ⟨S_, .f32⟩
  | 43 => ⟨S_, .f32⟩
  | 44 => ⟨S_, .f32⟩
  | 45 => ⟨S1024, .f32⟩
  | 46 => ⟨S1024, .f32⟩
  | 47 => ⟨S1024, .f32⟩
  | 48 => ⟨S_, .f32⟩
  | 49 => ⟨S_, .i1⟩
  | 50 => ⟨S_, .f32⟩
  | 51 => ⟨S_, .f32⟩
  | 52 => ⟨S1024, .f32⟩
  | 53 => ⟨S1024, .f32⟩
  | 54 => ⟨S1x1024, .f32⟩
  | 55 => ⟨S16384x1024, .f32⟩
  | 56 => ⟨S16384x1024, .f32⟩
  | 57 => ⟨S_, .f32⟩
  | 58 => ⟨S1024, .f32⟩
  | 59 => ⟨S1024, .f32⟩
  | 60 => ⟨S1024, .f32⟩
  | 61 => ⟨S1x1024, .f32⟩
  | 62 => ⟨S16384x1024, .f32⟩
  | 63 => ⟨S16384x1024, .f32⟩
  | 64 => ⟨S1x1024, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S16384x1024, .f32⟩
  | 71 => ⟨S1x1024, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S16384x1, .f32⟩
  | 78 => ⟨S1x1, .f32⟩
  | 79 => ⟨S16384x1, .f32⟩
  | 80 => ⟨S16384x1, .f32⟩
  | 81 => ⟨S16384, .f32⟩
  | 82 => ⟨S16384, .f32⟩
  | 83 => ⟨S16384, .f32⟩
  | 84 => ⟨S_, .f32⟩
  | 85 => ⟨S16384, .f32⟩
  | 86 => ⟨S16384, .f32⟩
  | 87 => ⟨S_, .f32⟩
  | 88 => ⟨S16384, .f32⟩
  | 89 => ⟨S16384, .f32⟩
  | _ => ⟨S16384x50, .i32⟩

abbrev hbmTy (i : Nat) : BufTy := match i / 128 with
  | 0 => hbmTy0_0 i
  | 1 => hbmTy0_1 i
  | _ => ⟨S16384x50, .i32⟩

abbrev bufTy : (tb : Table) → Fin (tcTables nBuf tb) → BufTy
  | .hbm, ⟨i, _⟩ => hbmTy i
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_c : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_cst_0 : Ref sig .tc := ⟨.hbm, 47, rfl⟩
abbrev main_v8 : Ref sig .tc := ⟨.hbm, 48, rfl⟩
abbrev main_cst_1 : Ref sig .tc := ⟨.hbm, 49, rfl⟩
abbrev main_call1_v0 : Ref sig .tc := ⟨.hbm, 50, rfl⟩
abbrev main_call1_v1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v12 : Ref sig .tc := ⟨.hbm, 77, rfl⟩
abbrev main_c_2 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_cst_3 : Ref sig .tc := ⟨.hbm, 85, rfl⟩
abbrev main_v19 : Ref sig .tc := ⟨.hbm, 86, rfl⟩
abbrev main_cst_4 : Ref sig .tc := ⟨.hbm, 87, rfl⟩
abbrev main_v20 : Ref sig .tc := ⟨.hbm, 88, rfl⟩
abbrev main_cst_5 : Ref sig .tc := ⟨.hbm, 89, rfl⟩
abbrev main_call3_v0 : Ref sig .tc := ⟨.hbm, 90, rfl⟩
abbrev main_call3_v1 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_call4_cst : Ref sig .tc := ⟨.hbm, 100, rfl⟩
abbrev main_call4_v0 : Ref sig .tc := ⟨.hbm, 101, rfl⟩
abbrev main_v29 : Ref sig .tc := ⟨.hbm, 102, rfl⟩
abbrev main_cst_6 : Ref sig .tc := ⟨.hbm, 103, rfl⟩
abbrev main_v30 : Ref sig .tc := ⟨.hbm, 104, rfl⟩
abbrev main_cst_7 : Ref sig .tc := ⟨.hbm, 105, rfl⟩
abbrev main_v31 : Ref sig .tc := ⟨.hbm, 106, rfl⟩
abbrev main_v32 : Ref sig .tc := ⟨.hbm, 107, rfl⟩
abbrev main_c_8 : Ref sig .tc := ⟨.hbm, 108, rfl⟩
abbrev main_call5_cst : Ref sig .tc := ⟨.hbm, 109, rfl⟩
abbrev main_call5_v0 : Ref sig .tc := ⟨.hbm, 110, rfl⟩
abbrev main_call5_v1 : Ref sig .tc := ⟨.hbm, 111, rfl⟩
abbrev main_call5_cst_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_cst_1 : Ref sig .tc := ⟨.hbm, 119, rfl⟩
abbrev main_call5_v8 : Ref sig .tc := ⟨.hbm, 120, rfl⟩
abbrev main_call5_cst_2 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_cst_3 : Ref sig .tc := ⟨.hbm, 125, rfl⟩
abbrev main_call5_v12 : Ref sig .tc := ⟨.hbm, 126, rfl⟩
abbrev main_call5_cst_4 : Ref sig .tc := ⟨.hbm, 127, rfl⟩
abbrev main_call5_call0_v0 : Ref sig .tc := ⟨.hbm, 128, rfl⟩
abbrev main_call5_call0_v1 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_cst_9 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_call6_cst : Ref sig .tc := ⟨.hbm, 151, rfl⟩
abbrev main_call6_v0 : Ref sig .tc := ⟨.hbm, 152, rfl⟩
abbrev main_v53 : Ref sig .tc := ⟨.hbm, 153, rfl⟩
abbrev main_cst_10 : Ref sig .tc := ⟨.hbm, 154, rfl⟩
abbrev main_v54 : Ref sig .tc := ⟨.hbm, 155, rfl⟩
abbrev main_cst_11 : Ref sig .tc := ⟨.hbm, 156, rfl⟩
abbrev main_v55 : Ref sig .tc := ⟨.hbm, 157, rfl⟩
abbrev main_v56 : Ref sig .tc := ⟨.hbm, 158, rfl⟩
abbrev main_c_12 : Ref sig .tc := ⟨.hbm, 159, rfl⟩
abbrev main_call7_cst : Ref sig .tc := ⟨.hbm, 160, rfl⟩
abbrev main_call7_v0 : Ref sig .tc := ⟨.hbm, 161, rfl⟩
abbrev main_call7_v1 : Ref sig .tc := ⟨.hbm, 162, rfl⟩
abbrev main_call7_cst_0 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_call7_v5 : Ref sig .tc := ⟨.hbm, 167, rfl⟩
abbrev main_call7_v6 : Ref sig .tc := ⟨.hbm, 168, rfl⟩
abbrev main_call7_v7 : Ref sig .tc := ⟨.hbm, 169, rfl⟩
abbrev main_call7_cst_1 : Ref sig .tc := ⟨.hbm, 170, rfl⟩
abbrev main_call7_v8 : Ref sig .tc := ⟨.hbm, 171, rfl⟩
abbrev main_call7_cst_2 : Ref sig .tc := ⟨.hbm, 172, rfl⟩
abbrev main_call7_v9 : Ref sig .tc := ⟨.hbm, 173, rfl⟩
abbrev main_call7_v10 : Ref sig .tc := ⟨.hbm, 174, rfl⟩
abbrev main_call7_v11 : Ref sig .tc := ⟨.hbm, 175, rfl⟩
abbrev main_call7_cst_3 : Ref sig .tc := ⟨.hbm, 176, rfl⟩
abbrev main_call7_v12 : Ref sig .tc := ⟨.hbm, 177, rfl⟩
abbrev main_call7_cst_4 : Ref sig .tc := ⟨.hbm, 178, rfl⟩
abbrev main_call7_call0_v0 : Ref sig .tc := ⟨.hbm, 179, rfl⟩
abbrev main_call7_call0_v1 : Ref sig .tc := ⟨.hbm, 180, rfl⟩
abbrev main_v57 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_cst_13 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_call8_cst : Ref sig .tc := ⟨.hbm, 202, rfl⟩
abbrev main_call8_v0 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_v82 : Ref sig .tc := ⟨.hbm, 209, rfl⟩
abbrev main_v83 : Ref sig .tc := ⟨.hbm, 210, rfl⟩
abbrev main_v84 : Ref sig .tc := ⟨.hbm, 211, rfl⟩
abbrev main_cst_14 : Ref sig .tc := ⟨.hbm, 212, rfl⟩
abbrev main_v85 : Ref sig .tc := ⟨.hbm, 213, rfl⟩
abbrev main_v86 : Ref sig .tc := ⟨.hbm, 214, rfl⟩
abbrev main_cst_15 : Ref sig .tc := ⟨.hbm, 215, rfl⟩
abbrev main_v87 : Ref sig .tc := ⟨.hbm, 216, rfl⟩
abbrev main_v88 : Ref sig .tc := ⟨.hbm, 217, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  bcast_S16384x50x1_S16384x50x128_0_1_2 : S16384x50x1.BroadcastsInDim S16384x50x128 (![0, 1, 2] : Fin 3 → Fin S16384x50x128.rank)
  reducesTo_S16384x50x128_S16384x128_d1 : S16384x50x128.ReducesTo [1] S16384x128
  reducesTo_S16384x50x1_S16384x1_d1 : S16384x50x1.ReducesTo [1] S16384x1
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  concatenates_S16384x128_S16384x128_S16384x256_d1 : Shape.Concatenates [S16384x128, S16384x128] S16384x256 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S16384x1024_S1024_d0 : S16384x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  bcast_S_S16384 : S_.BroadcastsInDim S16384 (![] : Fin 0 → Fin S16384.rank)
  gather_S100000x128_S16384x50x1_S16384x50x128_2_0_n_n_0_2_1128_wf : GatherDims.WF S100000x128 S16384x50x1 S16384x50x128 [2] [0] [] [0] [] 2 ![1, 128]
  dot_S16384x256_S256x1024_S16384x1024_1_0_0_1_n_n_wf : DotDims.WF S16384x256 S256x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x1_S16384x1_1_0_0_1_n_n_wf : DotDims.WF S16384x1024 S1024x1 S16384x1 [1] [0] [0] [1] [] []

variable [Facts₀]

def gather_S100000x128_S16384x50x1_S16384x50x128_2_0_n_n_0_2_1128 : GatherDims S100000x128 S16384x50x1 S16384x50x128 where
  offsetDims := [2]
  collapsedSliceDims := [0]
  operandBatchingDims := []
  startIndicesBatchingDims := []
  startIndexMap := [0]
  indexVectorDim := 2
  sliceSizes := ![1, 128]
  wf := gather_S100000x128_S16384x50x1_S16384x50x128_2_0_n_n_0_2_1128_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.KSetup.lean ====
/-
  The kernel program as the SparseCore launch theorem sees it: its configuration, the body table it
  extends, the facts about its handshake semaphores, and the resource algebra of the proof — the
  handshakes' rounds, the TensorCore pipelines' staging cells, and the transfers' counters side by side.
-/
import proofs.«209176_g73847667688168_cont_9to1_m_420_10_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds, the handshakes', the transfers' counters. -/
abbrev UU : Type := UR sig nD τ × (UH × Counters)

local notation "𝕄" => MT nD τ sig (HIx 1) (Elt F) ℕ UU ℕ

abbrev EP : Emb (UR sig nD τ) (MT nD τ sig (HIx 1) (Elt F) ℕ UU ℕ) := embL
abbrev EH : Emb UH (MT nD τ sig (HIx 1) (Elt F) ℕ UU ℕ) :=
  (Emb.inl : Emb UH (UH × Counters)).trans embR

instance EH_landsIn : (EH (F := F)).LandsIn (upEmb : UEmb _ (MT nD τ sig (HIx 1) (Elt F) ℕ UU ℕ)) := by
  unfold EH; infer_instance

example : CountersIn UU := inferInstance

end Cert.KernelIdeal.Run

end
-- ==== Proof.KPay.lean ====
/-
  What the SparseCore call's handshakes carry.  The call takes three arrays of the TensorCore's memory: the
  flat index array (32768 rows of 64 words), the table with its eight zero rows appended, and the pooled
  output (32768 rows of 128).  Task w = 2 * subcore + core of the 32 vector subcores owns words
  [65536 w, 65536 (w + 1)) of the index array and rows [1024 w, 1024 (w + 1)) of the output, and reads the
  whole table through one of 32 equal shares.  A SparseCore's part is its sixteen tasks' parts together,
  so the split of a SparseCore's operands among its tasks is the identity.
-/
import proofs.«209176_g73847667688168_cont_9to1_m_420_10_alg».proof.Proof.KSetup

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The three arrays and their parts -/

abbrev iLoc (d : Dev nD) : Loc nD τ sig := (SparseCore.T d).loc main_v4
abbrev tLoc (d : Dev nD) : Loc nD τ sig := (SparseCore.T d).loc main_v1
abbrev oLoc (d : Dev nD) : Loc nD τ sig := (SparseCore.T d).loc main_v5

theorem idiv : 32 ∣ S2097152.size 0 := ⟨65536, rfl⟩
theorem odiv : 32 ∣ S32768x128.size 0 := ⟨1024, rfl⟩
/-- Task `w`'s words of the index array and rows of the output. -/
abbrev ipart (w : Fin 32) : Rect S2097152 := Rect.part (s := S2097152) (a₀ := 0) idiv w
abbrev opart (w : Fin 32) : Rect S32768x128 := Rect.part (s := S32768x128) (a₀ := 0) odiv w
abbrev iSet (w : Fin 32) : Finset S2097152.Idx := ((Memref.whole main_v4_scv : Memref sig .scVector .hbm S2097152 .i32).view.slice (ipart w)).set
abbrev oSet (w : Fin 32) : Finset S32768x128.Idx := ((Memref.whole main_v5_scv : Memref sig .scVector .hbm S32768x128 .f32).view.slice (opart w)).set

/-- The task number of subcore `s` of SparseCore `c`. -/
def wid (c : Fin 2) (s : Fin 16) : Fin 32 := ⟨s.val * 2 + c.val, by omega⟩

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Task `w`'s share of the table: the full share halved five times. -/
abbrev tq (w : Fin 32) : PosShare TreeShare := leaf 5 fullShare w

/-! ## The payloads -/

section Pay

variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))

/-- What a task is handed: its words of the index array, its share of the table, its rows of the output as they stand. -/
abbrev goRes (d : Dev nD) (w : Fin 32) : sProp 𝕄 :=
  iprop((iLoc d ↦[iSet w]{fullShare} V4 d) ∗ (tLoc d ↦{tq w} V1 d) ∗ (oLoc d ↦[oSet w]{fullShare} o0 d))
/-- What it hands back: the same, its rows of the output now holding the pooled sums. -/
abbrev tdRes (d : Dev nD) (w : Fin 32) : sProp 𝕄 :=
  iprop((iLoc d ↦[iSet w]{fullShare} V4 d) ∗ (tLoc d ↦{tq w} V1 d) ∗ ∃ f, (oLoc d ↦[oSet w]{fullShare} f) ∗ ⌜∀ j ∈ oSet w, f j = pv d j⌝)

def P : (K (F := F)).Pay (nD := nD) (Val := Elt F) (Name := ℕ) (U := UU) where
  st := fun q d c => match q with | 0 => bigSep Finset.univ fun s : Fin 16 => goRes V4 V1 o0 d (wid (Fin.cast nCore_zero c) s)
  dn := fun q d c => match q with | 0 => bigSep Finset.univ fun s : Fin 16 => tdRes V4 V1 pv d (wid (Fin.cast nCore_zero c) s)
  go := fun q d c i => match q with | 0 => goRes V4 V1 o0 d (wid (Fin.cast nCore_zero c) (Fin.cast nSub_zero i))
  td := fun q d c i => match q with | 0 => tdRes V4 V1 pv d (wid (Fin.cast nCore_zero c) (Fin.cast nSub_zero i))
  x := fun _ _ => iprop(emp)

instance P_storable : (P (F := F) V4 V1 o0 pv).IsStorable where
  st q d c := match q with
    | 0 => (inferInstance : BI.Storable (upEmb : UEmb _ 𝕄) (bigSep Finset.univ fun s : Fin 16 => goRes V4 V1 o0 d (wid (Fin.cast nCore_zero c) s)))
  dn q d c := match q with
    | 0 => (inferInstance : BI.Storable (upEmb : UEmb _ 𝕄) (bigSep Finset.univ fun s : Fin 16 => tdRes V4 V1 pv d (wid (Fin.cast nCore_zero c) s)))
  go q d c i := match q with
    | 0 => (inferInstance : BI.Storable (upEmb : UEmb _ 𝕄) (goRes V4 V1 o0 d (wid (Fin.cast nCore_zero c) (Fin.cast nSub_zero i))))
  td q d c i := match q with
    | 0 => (inferInstance : BI.Storable (upEmb : UEmb _ 𝕄) (tdRes V4 V1 pv d (wid (Fin.cast nCore_zero c) (Fin.cast nSub_zero i))))

/-- A SparseCore's operands are its sixteen tasks' parts: the split is the identity. -/
theorem vecSplit : (K (F := F)).VecSplit' (P V4 V1 o0 pv) 0 := by
  intro d c
  show (bigSep Finset.univ fun s : Fin 16 => goRes V4 V1 o0 d (wid (Fin.cast nCore_zero c) s)) ⊢ |={Set.univ}=> iprop(
      (bigSep Finset.univ fun i : Fin ((K (F := F)).nSub 0) => goRes V4 V1 o0 d (wid (Fin.cast nCore_zero c) (Fin.cast nSub_zero i)))
      ∗ ((bigSep Finset.univ fun i : Fin ((K (F := F)).nSub 0) => tdRes V4 V1 pv d (wid (Fin.cast nCore_zero c) (Fin.cast nSub_zero i)))
          -∗ bigSep Finset.univ fun s : Fin 16 => tdRes V4 V1 pv d (wid (Fin.cast nCore_zero c) s)))
  have e1 : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  rw [e1 (fun s => goRes V4 V1 o0 d (wid (Fin.cast nCore_zero c) s)), e1 (fun s => tdRes V4 V1 pv d (wid (Fin.cast nCore_zero c) s))]
  iintro H; imodintro
  isplitl [H]; · iexact H
  iintro H; iexact H

end Pay

end Cert.KernelIdeal.Run

end
-- ==== Proof.KOps.lean ====
/-
  @main of the kernel program cut at the SparseCore call: the host operations before it (the zero rows
  appended to the table, the two index arrays stacked, padded to 64 columns and flattened), the call, and
  what follows it in the TensorCore pipelines' own signature — nine reshapes, the three pallas_call regions,
  the final reshape.
-/
import proofs.«209176_g73847667688168_cont_9to1_m_420_10_alg».proof.Proof.KSetup

noncomputable section

namespace Cert.KernelIdeal.Run

open Cert.KernelIdeal Cert.KernelIdeal.Gen
open Idealize.ShloMosaic Idealize.SL.Sem

variable {F : FTy → Type} [FloatOps F]

/-- The host operations before the SparseCore call. -/
abbrev headOps : List (HloOp τ sig (Elt F)) := [
    (StableHlo.nullary main_cst (constant S_ .f32 0x00000000#32) : HloOp τ sig (Elt F)),
    (StableHlo.unary main_cst main_v0 (broadcastInDim S8x128 ![] bcast_S_S8x128 : (⟨S_, .f32⟩ : BufTy).Contents (Elt F) → (⟨S8x128, .f32⟩ : BufTy).Contents (Elt F)) : HloOp τ sig (Elt F)),
    (StableHlo.binary main_arg2 main_v0 main_v1 ((fun a b => concatenate S100008x128 0 [⟨S100000x128, a⟩, ⟨S8x128, b⟩] concatenates_S100000x128_S8x128_S100008x128_d0) : (⟨S100000x128, .f32⟩ : BufTy).Contents (Elt F) → (⟨S8x128, .f32⟩ : BufTy).Contents (Elt F) → (⟨S100008x128, .f32⟩ : BufTy).Contents (Elt F)) : HloOp τ sig (Elt F)),
    (StableHlo.binary main_arg0 main_arg1 main_v2 ((fun a b => concatenate S32768x50 0 [⟨S16384x50, a⟩, ⟨S16384x50, b⟩] concatenates_S16384x50_S16384x50_S32768x50_d0) : (⟨S16384x50, .i32⟩ : BufTy).Contents (Elt F) → (⟨S16384x50, .i32⟩ : BufTy).Contents (Elt F) → (⟨S32768x50, .i32⟩ : BufTy).Contents (Elt F)) : HloOp τ sig (Elt F)),
    (StableHlo.nullary main_c (constantI S_ 32 0#32) : HloOp τ sig (Elt F)),
    (StableHlo.TRef.unary (StableHlo.TRef.of main_c : StableHlo.TRef sig ⟨S_, .i32⟩) main_call0.v0 id : HloOp τ sig (Elt F)),
    (StableHlo.TRef.binary (StableHlo.TRef.of main_v2 : StableHlo.TRef sig ⟨S32768x50, .i32⟩) main_call0.v0 main_call0.v1 (fun x v => pad S32768x64 ![0, 0] ![0, 14] ![0, 0] x v pads_S32768x50_S32768x64_000_0140 h_S_) : HloOp τ sig (Elt F)),
    (StableHlo.reshape main_v3 main_v4 rfl shapeCasts_S32768x64_S2097152 : HloOp τ sig (Elt F))]

/-- The reshapes between the SparseCore call and the first region. -/
abbrev midOps : List (HloOp τ sig (Elt F)) := [
    (StableHlo.reshape main_arg4 main_v6 rfl shapeCasts_S1024_S1x1024 : HloOp τ sig (Elt F)),
    (StableHlo.reshape main_arg8 main_v7 rfl shapeCasts_S1024_S1x1024 : HloOp τ sig (Elt F)),
    (StableHlo.reshape main_arg12 main_v8 rfl shapeCasts_S1024_S1x1024 : HloOp τ sig (Elt F)),
    (StableHlo.reshape main_arg5 main_v9 rfl shapeCasts_S1024_S1x1024 : HloOp τ sig (Elt F)),
    (StableHlo.reshape main_arg9 main_v10 rfl shapeCasts_S1024_S1x1024 : HloOp τ sig (Elt F)),
    (StableHlo.reshape main_arg6 main_v11 rfl shapeCasts_S1024_S1x1024 : HloOp τ sig (Elt F)),
    (StableHlo.reshape main_arg10 main_v12 rfl shapeCasts_S1024_S1x1024 : HloOp τ sig (Elt F)),
    (StableHlo.reshape main_arg13 main_v13 rfl shapeCasts_S1024x1_S1x1024 : HloOp τ sig (Elt F)),
    (StableHlo.reshape main_arg14 main_v14 rfl shapeCasts_S1_S1x1 : HloOp τ sig (Elt F))]

/-- The reshape of the last region's output. -/
abbrev lastOps : List (HloOp τ sig (Elt F)) := [
    (StableHlo.reshape main_v17 main_v18 rfl shapeCasts_S16384x1_S16384 : HloOp τ sig (Elt F))]

/-- What follows the SparseCore call, in the pipelines' signature. -/
def tailProg : Prog (TpuEff nD τ sig (Elt F) (ΛP (F := F)) .tc) PUnit :=
  StableHlo.seq midOps >>= fun _ =>
  .op (.customCall (Pipeline.entry 0) ()) fun _ =>
  .op (.customCall (Pipeline.entry 1) ()) fun _ =>
  .op (.customCall (Pipeline.entry 2) ()) fun _ =>
  StableHlo.seq lastOps

theorem main_eq (d : Dev nD) :
    main (F := F) d = (StableHlo.seq headOps >>= fun _ => (K (F := F)).run d 0 >>= fun _ => SparseCore.liftProg (tailProg (F := F))) := by
  rfl

end Cert.KernelIdeal.Run

end
-- ==== Proof.KVals.lean ====
/-
  The kernel program's run, assembled: the TensorCore's @main proved against the SparseCore launch theorem.
  The buffers' contents are folded through @main: the launch memory, after the host operations that build
  the table and the flat index array, after the SparseCore call (the pooled array at its value), after the
  reshapes, and after each of the three regions.
-/
import proofs.«209176_g73847667688168_cont_9to1_m_420_10_alg».proof.Proof.KPay
import proofs.«209176_g73847667688168_cont_9to1_m_420_10_alg».proof.Proof.KOps
import proofs.«209176_g73847667688168_cont_9to1_m_420_10_alg».proof.Proof.Gen.KernelIdeal.Launch

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents at the SparseCore call -/

/-- Core `d`'s buffers at launch, -/
abbrev W0 (d : Dev nD) : Valuation τ sig (Elt F) := StableHlo.launchContents m d
/-- and after the host operations before the SparseCore call. -/
abbrev Wa (d : Dev nD) : Valuation τ sig (Elt F) := StableHlo.after headOps (W0 m d)

/-- The flat index array, the extended table and the pooled array as the call finds them. -/
abbrev cV4 (d : Dev nD) : Buf (Elt F) (iLoc d) := Wa m d (Proc.devRef .tc main_v4)
abbrev cV1 (d : Dev nD) : Buf (Elt F) (tLoc d) := Wa m d (Proc.devRef .tc main_v1)
abbrev cO0 (d : Dev nD) : Buf (Elt F) (oLoc d) := Wa m d (Proc.devRef .tc main_v5)

variable (pv : (d : Dev nD) → Buf (Elt F) (oLoc d))

/-- After the call the pooled array holds `pv`; every other buffer is as the call found it. -/
def Wb (d : Dev nD) : Valuation τ sig (Elt F) := fun b =>
  if h : b = Proc.devRef .tc main_v5 then cast (congrArg (fun b' : DevRef τ sig => b'.ty.Contents (Elt F)) h.symm) (pv d) else Wa m d b
theorem Wb_v5 (d : Dev nD) : Wb m pv d (Proc.devRef .tc main_v5) = pv d := by
  unfold Wb; rw [dif_pos rfl]; rfl
theorem Wb_of_ne (d : Dev nD) (b : DevRef τ sig) (h : b ≠ Proc.devRef .tc main_v5) : Wb m pv d b = Wa m d b := by
  unfold Wb; rw [dif_neg h]
/-- After the reshapes: the first region's entry. -/
abbrev Wc (d : Dev nD) : Valuation τ sig (Elt F) := StableHlo.after midOps (Wb m pv d)

/-- The handshakes' payloads at the call's contents. -/
abbrev PP : (K (F := F)).Pay (nD := nD) (Val := Elt F) (Name := ℕ) (U := UU) := P (cV4 m) (cV1 m) (cO0 m) pv

/-! ## The TensorCore pipelines' ghost state and what rides along -/

abbrev adm : (p : Fin 3) → (pcfgs (F := F) p).Adm := fun p => (cfgs p).toPCfg_adm

/-- The three pipelines' staging cells' ghost state on device `d`. -/
abbrev GG (d : Dev nD) : sProp 𝕄 := Pipeline.ghostOn (pcfgs (F := F)) adm EP Finset.univ d

def u₀ : UU := (initOf (Pipeline.cells cfgs cellOf_inj) (Pipeline.launchToks cfgs cellOf_inj), (initOf (K (F := F)).hsCells (K (F := F)).hsToks, 1))

/-- What rides beside the buffers through the host operations and the regions after the call: the generator
    register and the core owing nothing, its recorded waits below the next handshake's level. -/
abbrev RR (d : Dev nD) : sProp 𝕄 :=
  iprop((∃ r, prngReg d r) ∗ ∃ W, ⌜(K (F := F)).WBelow (SparseCore.T d) W 8⌝ ∗ owes (SparseCore.T d) (0 : CellTallies nD τ sig (HIx 1)) W)

/-- The pairs the TensorCore may have recorded when a region is entered. -/
def Brec (d : Dev nD) : Set (SemLoc sig × HIx 1) := {p | (K (F := F)).lev (SparseCore.T d, p.1) p.2 ≤ 8}

end Cert.KernelIdeal.Run

end
-- ==== Proof.KSplit.lean ====
/-
  How the three arrays of the SparseCore call divide among the 32 tasks and come back together.

  The index array and the output are cut into 32 equal parts along their first axis: the parts are pairwise
  disjoint and cover the array, so holding the array is holding its 32 parts. The table is not cut: holding it at the
  full share is holding it at the 32 leaves of the full share halved five times. Task numbers are
  2 * subcore + core, a bijection between pairs (core, subcore) and the 32 tasks, so a product over the tasks is a
  product over the cores of products over the subcores. Coming back, each task returns its part of the output at
  some contents that agree with the pooled sums on that part; a holding of a part depends only on the contents
  there, so the parts join at the pooled sums themselves.
-/
import proofs.«209176_g73847667688168_cont_9to1_m_420_10_alg».proof.Proof.KPay

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The parts of the index array and of the output -/

theorem iSet_eq (w : Fin 32) : iSet w = (ipart w).set := by
  show ((View.whole (main_v4_scv : Ref sig .scVector)).slice (ipart w)).set = _
  rw [View.set_slice]; exact Finset.map_refl
theorem oSet_eq (w : Fin 32) : oSet w = (opart w).set := by
  show ((View.whole (main_v5_scv : Ref sig .scVector)).slice (opart w)).set = _
  rw [View.set_slice]; exact Finset.map_refl
theorem iparts_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oparts_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem iparts_cover : (Finset.univ : Finset (Fin 32)).biUnion iSet = Finset.univ :=
  (Finset.biUnion_congr rfl fun i _ => iSet_eq i).trans (Rect.biUnion_part idiv)
theorem oparts_cover : (Finset.univ : Finset (Fin 32)).biUnion oSet = Finset.univ :=
  (Finset.biUnion_congr rfl fun i _ => oSet_eq i).trans (Rect.biUnion_part odiv)

/-- Holding the index array is holding its 32 parts. -/
theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iparts_disjoint, iparts_cover]; try rfl

/-- Holding the output is holding its 32 parts. -/
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oparts_disjoint, oparts_cover]; try rfl

/-! ## The shares of the table -/

/-- The leaves of depth `n + 1` are the leaves of the left half followed by those of the right half. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A holding at a share is the holdings at its leaves together. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Holding the table at the full share is holding it at the 32 tasks' shares. -/
theorem tPts_shares (d : Dev nD) (f : Buf (Elt F) (tLoc d)) :
    (tLoc d ↦{fullShare} f : sProp 𝕄) = bigSep Finset.univ fun w : Fin 32 => tLoc d ↦{tq w} f :=
  pointsTo_leaves Finset.univ f 5 fullShare

/-! ## Tasks as pairs (core, subcore) -/

/-- Task numbers 2 * subcore + core run through the 32 tasks once. -/
def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_)
    · show (s.val * 2 + c.val) % 2 = c.val
      omega
    · show (s.val * 2 + c.val) / 2 = s.val
      omega
  right_inv w := by
    apply Fin.ext
    show w.val / 2 * 2 + w.val % 2 = w.val
    omega

/-- A product over the tasks is a product over the cores of products over the subcores. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

/-- Over the configuration's own count of cores. -/
theorem bigSep_cores (Ψ : Fin 2 → sProp 𝕄) :
    (bigSep Finset.univ fun c : Fin ((K (F := F)).nCore 0) => Ψ (Fin.cast nCore_zero c)) = bigSep Finset.univ Ψ :=
  bigSep_congr fun _ _ => congrArg Ψ (Fin.ext rfl)

/-! ## Handing out and taking back -/

section Pay

variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))

/-- The three arrays held whole are what the two SparseCores are handed. -/
theorem st_eq (d : Dev nD) :
    (bigSep Finset.univ fun c : Fin ((K (F := F)).nCore 0) => (P V4 V1 o0 pv).st 0 d c)
      = iprop((iLoc d ↦{fullShare} V4 d) ∗ (tLoc d ↦{fullShare} V1 d) ∗ (oLoc d ↦{fullShare} o0 d)) := by
  show (bigSep Finset.univ fun c : Fin ((K (F := F)).nCore 0) =>
      bigSep Finset.univ fun s : Fin 16 => goRes V4 V1 o0 d (wid (Fin.cast nCore_zero c) s)) = _
  rw [bigSep_cores (F := F) (fun c => bigSep Finset.univ fun s : Fin 16 => goRes V4 V1 o0 d (wid c s)),
    ← bigSep_wid (F := F) (fun w => goRes V4 V1 o0 d w), bigSep_sep', bigSep_sep', iPts_parts, tPts_shares, oPts_parts]

theorem st_intro (d : Dev nD) :
    iprop((iLoc d ↦{fullShare} V4 d) ∗ (tLoc d ↦{fullShare} V1 d) ∗ (oLoc d ↦{fullShare} o0 d))
      ⊢ bigSep Finset.univ fun c : Fin ((K (F := F)).nCore 0) => (P V4 V1 o0 pv).st 0 d c := by
  rw [st_eq V4 V1 o0 pv d]

/-- A task's returned part of the output is its part at the pooled sums. -/
theorem oPart_back (d : Dev nD) (w : Fin 32) :
    (iprop(∃ f, (oLoc d ↦[oSet w]{fullShare} f) ∗ ⌜∀ j ∈ oSet w, f j = pv d j⌝) : sProp 𝕄) ⊢ oLoc d ↦[oSet w]{fullShare} pv d := by
  iintro ⟨%f, H, %hf⟩
  have e : (oLoc d ↦[oSet w]{fullShare} f : sProp 𝕄) ⊢ oLoc d ↦[oSet w]{fullShare} pv d := by
    rw [pointsTo_congr hf]
  iapply e
  iexact H

/-- What the two SparseCores hand back is the index array and the table as they were and the output at the pooled
    sums. -/
theorem dn_elim (d : Dev nD) :
    (bigSep Finset.univ fun c : Fin ((K (F := F)).nCore 0) => (P V4 V1 o0 pv).dn 0 d c)
      ⊢ iprop((iLoc d ↦{fullShare} V4 d) ∗ (tLoc d ↦{fullShare} V1 d) ∗ (oLoc d ↦{fullShare} pv d)) := by
  show (bigSep Finset.univ fun c : Fin ((K (F := F)).nCore 0) =>
      bigSep Finset.univ fun s : Fin 16 => tdRes V4 V1 pv d (wid (Fin.cast nCore_zero c) s)) ⊢ _
  rw [bigSep_cores (F := F) (fun c => bigSep Finset.univ fun s : Fin 16 => tdRes V4 V1 pv d (wid c s)),
    ← bigSep_wid (F := F) (fun w => tdRes V4 V1 pv d w), bigSep_sep', bigSep_sep', iPts_parts, tPts_shares, oPts_parts]
  iintro ⟨Hi, Ht, Ho⟩
  isplitl [Hi]; · iexact Hi
  isplitl [Ht]; · iexact Ht
  have hm : (bigSep Finset.univ fun w : Fin 32 =>
        (iprop(∃ f, (oLoc d ↦[oSet w]{fullShare} f) ∗ ⌜∀ j ∈ oSet w, f j = pv d j⌝) : sProp 𝕄))
      ⊢ bigSep Finset.univ fun w : Fin 32 => oLoc d ↦[oSet w]{fullShare} pv d :=
    bigSep_mono fun w _ => oPart_back pv d w
  iapply hm
  iexact Ho

end Pay

end Cert.KernelIdeal.Run

end
-- ==== Proof.KLaunch.lean ====
/-
  The kernel program's run from the SparseCore launch theorem: the launch element of the ghost state, @main on
  the TensorCore (the host operations before the call, the call, and what follows it in the pipelines'
  signature), and how the final memory is read.  What follows the call is taken as a hypothesis here: its
  proof runs the three regions.
-/
import proofs.«209176_g73847667688168_cont_9to1_m_420_10_alg».proof.Proof.KVals
import proofs.«209176_g73847667688168_cont_9to1_m_420_10_alg».proof.Proof.KSplit
import Idealize.ShloMosaic.Lib.Pipeline.Frame
import Idealize.ShloMosaic.Lib.Pipeline.FrameSuffix
import Idealize.ShloMosaic.Lib.Pipeline.RegionsLoop

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (pv : (d : Dev nD) → Buf (Elt F) (oLoc d))

/-! ## The launch element -/

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m pv).x q thr) := by
  have h1 : (ownU (u₀ (F := F)) : sProp 𝕄)
      ⊢ iprop(BI.own ((embL : Emb (UR sig nD τ) 𝕄) (initOf (Pipeline.cells cfgs cellOf_inj) (Pipeline.launchToks cfgs cellOf_inj)))
          ∗ BI.own ((embR : Emb (UH × Counters) 𝕄) (initOf (K (F := F)).hsCells (K (F := F)).hsToks, (1 : Counters)))) := ownU_pair _ _
  have h2 := own_pair_emb (embR : Emb (UH × Counters) 𝕄) (initOf (K (F := F)).hsCells (K (F := F)).hsToks) (1 : Counters)
  have h3 := Pipeline.fund_ghost (Ix := HIx 1) (Val := Elt F) (Name := ℕ) (U := UU) (Lvl := ℕ) cfgs (EP (F := F)) cellOf_inj
  iintro Hu
  ihave H := h1 $$ Hu
  icases H with ⟨HP, HR⟩
  ihave HR' := h2 $$ HR
  icases HR' with ⟨HH, -⟩
  imod h3 $$ HP with ⟨Hc, Ht⟩
  imodintro
  isplitl [HH]; · iexact HH
  isplitl [Hc Ht]
  · have e : (bigSep Finset.univ fun d : Dev nD => GG (F := F) d)
        = iprop((bigSep Finset.univ fun c : Dev nD => bigSep Finset.univ fun p => Pipeline.cellsGhost cfgs (EP (F := F)) p c)
            ∗ (bigSep Finset.univ fun c : Dev nD => bigSep Finset.univ fun p => (Pipeline.toksInit cfgs (EP (F := F)) p c : sProp 𝕄))) := by
      rw [← bigSep_sep']; refine bigSep_congr fun c _ => ?_
      show (bigSep Finset.univ fun p' => iprop(Pipeline.cellsGhost cfgs (EP (F := F)) p' c ∗ Pipeline.toksInit cfgs (EP (F := F)) p' c)) = _
      rw [bigSep_sep']
    rw [e]; isplitl [Hc] <;> iassumption
  rw [show (bigSep Finset.univ fun thr : Thread nD τ => bigSep Finset.univ fun q : Fin 1 => (PP (F := F) m pv).x q thr) = bigSep Finset.univ fun _ => iprop(emp) from
    bigSep_congr fun _ _ => bigSep_univ_of_subsingleton (0 : Fin 1), bigSep_emp']
  iempintro

/-! ## The three arrays of the call among the unscoped buffers -/

/-- The call's three arrays. -/
abbrev T3 : Finset (DevRef τ sig) := {Proc.devRef .tc main_v4, Proc.devRef .tc main_v1, Proc.devRef .tc main_v5}

theorem T3_sub : (T3 : Finset (DevRef τ sig)) ⊆ Pipeline.ucRefs τ sig := by decide

/-- The unscoped buffers at contents `W`: the call's three arrays and the rest. -/
theorem held_call_split (d : Dev nD) (W : Valuation τ sig (Elt F)) :
    (StableHlo.held (SparseCore.T d) (Pipeline.ucRefs τ sig) W : sProp 𝕄)
      = iprop(((iLoc d ↦{fullShare} W (Proc.devRef .tc main_v4)) ∗ (tLoc d ↦{fullShare} W (Proc.devRef .tc main_v1)) ∗ (oLoc d ↦{fullShare} W (Proc.devRef .tc main_v5)))
          ∗ StableHlo.held (SparseCore.T d) (Pipeline.ucRefs τ sig \ T3) W) := by
  rw [StableHlo.held_sub_split (SparseCore.T d) T3_sub W]
  congr 1
  unfold StableHlo.held
  rw [SparseCore.bigSep_insert' (by decide), SparseCore.bigSep_insert' (by decide), bigSep_singleton]

/-- The TensorCore's handshake state after the one call: it owes nothing more. -/
theorem tcSt_one (d : Dev nD) :
    ((K (F := F)).tcSt (EH (F := F)) d 1 : sProp 𝕄)
      = iprop((∃ W, ⌜(K (F := F)).WBelow (SparseCore.T d) W 8⌝ ∗ owes (SparseCore.T d) (0 : CellTallies nD τ sig (HIx 1)) W)
          ∗ atPos (EH (F := F)) ((K (F := F)).doneCell d) 1 ∅ 0 ∗ reached (EH (F := F)) ((K (F := F)).doneCell d) 1
          ∗ (bigSep Finset.univ fun c : Fin τ.nSC => reached (EH (F := F)) ((K (F := F)).startCell d c) ((K (F := F)).sRank c 1))
          ∗ bigSep (SparseCore.Cfg.callsFrom (Q := 1) 1) fun q => bigSep Finset.univ fun c : Fin ((K (F := F)).nCore q) =>
              iprop(dutyTok (EH (F := F)) ((K (F := F)).startCell d ((K (F := F)).core q c)) ((K (F := F)).sRank ((K (F := F)).core q c) q.val) 0
                ∗ cred (tallyAt ((K (F := F)).doneCell d) (some q) 1))) := by
  unfold SparseCore.Cfg.tcSt
  rw [(K (F := F)).Otc_end d (le_refl 1)]

/-! ## @main on the TensorCore -/

theorem headOps_sub : ∀ op ∈ (headOps : List (HloOp τ sig (Elt F))), op.bufs ⊆ Pipeline.ucRefs τ sig :=
  fun op h => Pipeline.sub_ucRefs op ((List.forall_iff_forall_mem.mp
    (show (headOps : List (HloOp τ sig (Elt F))).Forall fun op => op.bufs ⊆ StableHlo.tcRefs τ sig from
      ⟨StableHlo.nullary_bufs_sub .., StableHlo.unary_bufs_sub .., StableHlo.binary_bufs_sub .., StableHlo.binary_bufs_sub .., StableHlo.nullary_bufs_sub ..,
        StableHlo.unary_bufs_sub .., StableHlo.binary_bufs_sub .., StableHlo.reshape_bufs_sub ..⟩)) op h)
theorem headOps_fresh : ∀ op ∈ (headOps : List (HloOp τ sig (Elt F))), op.fresh = ∅ :=
  fun op h => (List.forall_iff_forall_mem.mp
    (show (headOps : List (HloOp τ sig (Elt F))).Forall fun op => op.fresh = ∅ from by simp only [List.Forall]; repeat' constructor)) op h

/-- After the call the three arrays are back, the pooled one at `pv`: the unscoped buffers at `Wb`. -/
theorem held_after_call (d : Dev nD) :
    iprop(((iLoc d ↦{fullShare} cV4 m d) ∗ (tLoc d ↦{fullShare} cV1 m d) ∗ (oLoc d ↦{fullShare} pv d))
        ∗ StableHlo.held (SparseCore.T d) (Pipeline.ucRefs τ sig \ T3) (Wa m d))
      ⊢ (StableHlo.held (SparseCore.T d) (Pipeline.ucRefs τ sig) (Wb m pv d) : sProp 𝕄) := by
  rw [held_call_split d (Wb m pv d), Wb_v5, Wb_of_ne m pv d _ (by decide), Wb_of_ne m pv d _ (by decide),
    StableHlo.held_congr (SparseCore.T d) (S := Pipeline.ucRefs τ sig \ T3) (V := Wb m pv d) (V' := Wa m d) fun b hb =>
      Wb_of_ne m pv d b fun e => (Finset.mem_sdiff.mp hb).2 (e ▸ by decide)]

variable (Wfin : Dev nD → Valuation τ sig (Elt F))

/-- What the TensorCore ends holding: every unscoped buffer at the final contents. -/
abbrev FIN (d : Dev nD) : sProp 𝕄 := StableHlo.held (SparseCore.T d) (Pipeline.ucRefs τ sig) (Wfin d)

/-- @main on device `d`'s TensorCore, given the run of what follows the call. -/
theorem hmain
    (htail : ∀ (d : Dev nD) (Q : PUnit → sProp 𝕄),
      iprop((iprop(boundary (SparseCore.T d) ∗ StableHlo.held (SparseCore.T d) (Pipeline.ucRefs τ sig) (Wfin d) ∗ RR (F := F) d) -∗ Q ⟨⟩)
          ∗ boundary (SparseCore.T d) ∗ (StableHlo.held (SparseCore.T d) (Pipeline.ucRefs τ sig) (Wb m pv d) ∗ RR (F := F) d)
          ∗ levAts (K (F := F)).L (K (F := F)).lev ∗ GG (F := F) d)
        ⊢ wp frame (wpE (D (F := F)) 𝒱 (SparseCore.T d) none) Set.univ (tailProg (F := F)) Q)
    (κ : GSem nD τ sig → ℕ) (d : Dev nD) :
    iprop((K (F := F)).ctx EH (PP m pv) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN Wfin d) := by
  rw [main_eq]
  unfold SparseCore.Cfg.tcRes
  rw [show (unscopedBufs d (fun b => m ((SparseCore.T d).loc b)) : sProp 𝕄) = StableHlo.held (SparseCore.T d) (Pipeline.ucRefs τ sig) (W0 m d) from
    Pipeline.unscopedBufs_held d (W0 m d)]
  iintro ⟨#Hctx, Hst, ⟨Hbd, Hh, -, Hp⟩, Hg⟩
  iapply (StableHlo.wp_seq (defs := (K (F := F)).defs (D (F := F))) 𝒱 none Set.univ d (Pipeline.ucRefs τ sig) _ headOps headOps_sub headOps_fresh (W0 m d)) $$ [Hbd Hh]
  · isplitl [Hbd] <;> iassumption
  iintro ⟨Hbd, Hh⟩
  rw [wp_bind]
  ihave Hh' := (Entails.of_eq (held_call_split (F := F) d (Wa m d))) $$ Hh
  icases Hh' with ⟨⟨Hi, Ht, Ho⟩, Hrest⟩
  iapply ((K (F := F)).wp_run (D (F := F)) 𝒱 (EH := EH) (P := PP m pv) κ d 0) $$ [Hst Hi Ht Ho Hbd Hrest Hp Hg]
  isplitr; · iexact Hctx
  isplitl [Hst]; · iexact Hst
  isplitl [Hi Ht Ho]
  · iapply (st_intro (cV4 m) (cV1 m) (cO0 m) pv d)
    isplitl [Hi]; · iexact Hi
    isplitl [Ht]; · iexact Ht
    iexact Ho
  iintro ⟨Hst, Hdn⟩
  ihave Hdn' := (dn_elim (cV4 m) (cV1 m) (cO0 m) pv d) $$ Hdn
  ihave Hh := (held_after_call m pv d) $$ [Hdn' Hrest]
  · isplitl [Hdn'] <;> iassumption
  have e1 : ((K (F := F)).tcSt (EH (F := F)) d ((0 : Fin 1).val + 1) : sProp 𝕄) = _ := tcSt_one (F := F) d
  ihave Hst1 := (Entails.of_eq e1) $$ Hst
  icases Hst1 with ⟨HO, Hst'⟩
  ihave Hlev := ((K (F := F)).ctx_levAts κ) $$ Hctx
  iapply ((K (F := F)).wp_liftProg (D (F := F)) 𝒱 (SparseCore.T d) Set.univ none (tailProg (F := F)) _)
  iapply (htail d _)
  isplitl [Hst']
  · iintro ⟨-, Hh, -, HO⟩
    isplitr [Hh]
    · iapply (Entails.of_eq (tcSt_one (F := F) d).symm)
      isplitl [HO]; · iexact HO
      iexact Hst'
    iexact Hh
  isplitl [Hbd]; · iexact Hbd
  isplitl [Hh Hp HO]
  · isplitl [Hh]; · iexact Hh
    isplitl [Hp]; · iexists _; iexact Hp
    iexact HO
  isplitl [Hlev]; · iexact Hlev
  iexact Hg

/-! ## The final memory, and the run -/

def fq (d : Dev nD) (s' : Phys nD τ sig (Elt F)) : Prop := ∀ b ∈ Pipeline.ucRefs τ sig, s'.mem.mem (d, b) = Wfin d b

theorem hfin (d : Dev nD) (s' : Phys nD τ sig (Elt F)) : iprop(FIN Wfin d ∗ SI s') ⊢ (⌜fq Wfin d s'⌝ : sProp 𝕄) := by
  show iprop((bigSep (Pipeline.ucRefs τ sig) fun b => (((SparseCore.T d : Thread nD τ).1, b) : Loc nD τ sig) ↦{fullShare} Wfin d b) ∗ SI s') ⊢ (⌜fq Wfin d s'⌝ : sProp 𝕄)
  iintro ⟨Hh, HSI⟩
  ihave H := (pointsTo_read_all (Pipeline.ucRefs τ sig) (fun b => (((SparseCore.T d : Thread nD τ)).1, b)) (Wfin d) s') $$ [Hh HSI]
  · isplitl [Hh] <;> iassumption
  icases H with ⟨%h, -⟩
  ipureintro; exact h

/-- Every unscoped TensorCore buffer ends at the final contents. -/
def QC : PUnit × MemSt nD τ sig (Elt F) → Prop := fun r => ∀ d : Dev nD, ∀ b ∈ Pipeline.ucRefs τ sig, r.2.mem (d, b) = Wfin d b

/-- The kernel program's run, from one vector subcore's task and the run of what follows the call. -/
theorem run_main [∀ e, Nonempty (Elt F e)]
    (htile : (K (F := F)).TileObl (D (F := F)) 𝒱 (PP m pv) v₀ 0)
    (htail : ∀ (d : Dev nD) (Q : PUnit → sProp 𝕄),
      iprop((iprop(boundary (SparseCore.T d) ∗ StableHlo.held (SparseCore.T d) (Pipeline.ucRefs τ sig) (Wfin d) ∗ RR (F := F) d) -∗ Q ⟨⟩)
          ∗ boundary (SparseCore.T d) ∗ (StableHlo.held (SparseCore.T d) (Pipeline.ucRefs τ sig) (Wb m pv d) ∗ RR (F := F) d)
          ∗ levAts (K (F := F)).L (K (F := F)).lev ∗ GG (F := F) d)
        ⊢ wp frame (wpE (D (F := F)) 𝒱 (SparseCore.T d) none) Set.univ (tailProg (F := F)) Q) :
    θ_run (Cert.KernelIdeal.defs (F := F)) (Cert.KernelIdeal.threads (F := F)) ⟨m, fun _ => 0, ρ⟩ (QC Wfin) :=
  SparseCore.Cfg.θ_run_sc (K := K (F := F)) (D := D (F := F)) (𝒱 := 𝒱) (EH := EH) (P := PP m pv) facts v₀
    (fun q hq => match q with | 0 => nomatch hq)
    (fun q _ => match q with | 0 => htile)
    (fun q _ => match q with | 0 => SparseCore.Cfg.VecSplit.of_plain (vecSplit (cV4 m) (cV1 m) (cO0 m) pv))
    m ρ main (fun d => GG (F := F) d) (FIN Wfin) (u₀ (F := F)) (sep_elim_left.trans (hu₀ m pv)) (hmain m ρ pv Wfin htail) (fq Wfin) (hfin Wfin) (QC Wfin) (fun _ h => h)

end Cert.KernelIdeal.Run

end
-- ==== Proof.Reg1Base.lean ====
import proofs.«209176_g73847667688168_cont_9to1_m_420_10_alg».proof.Proof.Gen.KernelIdeal.Launch
import proofs.«209176_g73847667688168_cont_9to1_m_420_10_alg».proof.Proof.Gen.KernelIdeal.Skeleton
import proofs.«209176_g73847667688168_cont_9to1_m_420_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The first dense layer's region: what its runs share

The region reads the pooled rows (one array, two windows: the first bag's block and the second bag's), the two index
arrays, the weight matrix and the bias row; it writes the rows' block of the layer's output at every point and
accumulates the column sums and the column sums of squares in a two-row block that stays in place over the grid. -/

section Entry
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Ix Name U Lvl cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Entry

/-! ## The body's branch condition -/

/-- The condition of the body's conditional: the grid coordinate is zero (the statistics block is cleared there). -/
abbrev cond0 (i : grid1.Coords) : Prop := (Scalar.cmpi .ne (Scalar.extui (Scalar.cmpi .eq (BitVec.ofNat 32 (i 0).val) 0#32)) 0#32) = 1#1
/-- It holds at the first point only — decided over the grid. -/
theorem hcond0 : ∀ t : Fin cfg1.N, cond0 (grid1.coords t) ↔ t.val % 32 = 0 :=
  (by decide +kernel : ∀ t : Fin grid1.N, cond0 (grid1.coords t) ↔ t.val % 32 = 0)

/-! ## The staging memrefs -/

/-- One staging buffer of each output window, through which its contents are stated. -/
abbrev VO6 : View sig .tc .vmem S512x1024 .f32 := (Memref.whole cc1_stg6_0 : Memref sig .tc .vmem S512x1024 .f32).view
abbrev VO7 : View sig .tc .vmem S2x1024 .f32 := (Memref.whole cc1_stg7_0 : Memref sig .tc .vmem S2x1024 .f32).view
abbrev ms0 (t : Fin cfg1.N) : Memref sig .tc .vmem S512x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x50 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x50 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S256x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1024 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S2x1024 .f32 := win1_7.stage (cfg1.slots t 7)
abbrev hs7 (t : Fin cfg1.N) : (ms7 t).IsWhole := hstage1_7 ((cfg1.slots t 7).cast nbuf1_7)

end Cert.KernelIdeal.Reg1

end
-- ==== Proof.Reg1RunA.lean ====
import proofs.«209176_g73847667688168_cont_9to1_m_420_10_alg».proof.Proof.Reg1Base

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

set_option maxHeartbeats 4000000 in
/-- What the body's stores leave in the two outputs' staging memrefs, as pieces (last first), at the first grid point
    (the statistics block is cleared before the block's sums are added), with the proof that on whole staging memrefs,
    the inputs' at their contents and the outputs' at anything, the body runs to the continuation holding the inputs' as
    they were and each output's buffer with its pieces written. -/
noncomputable def kernelRun_A (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i)
    (x0 : Vec F S512x128 .f32) (x1 : Vec F S512x128 .f32) (x2 : Vec F S512x50 .i32) (x3 : Vec F S512x50 .i32) (x4 : Vec F S256x1024 .f32) (x5 : Vec F S1x1024 .f32) :
    { L : List (View.Piece (Elt F) S512x1024 .f32) × List (View.Piece (Elt F) S2x1024 .f32) //
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2)) -∗ K ⟨⟩))
          ⊢ wp frame (wpE (defs₀ (F := F)) 𝒱₀ c none) E (cc1__k1_body i arg1 harg1 arg2 harg2 arg3 harg3 arg4 harg4 arg5 harg5 arg6 harg6 arg7 harg7 arg8 harg8) K } := by
  refine ⟨⟨?_, ?_⟩, fun E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Reg1

end
-- ==== Proof.Reg1RunB.lean ====
import proofs.«209176_g73847667688168_cont_9to1_m_420_10_alg».proof.Proof.Reg1RunA

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

set_option maxHeartbeats 4000000 in
/-- What the body's stores leave in the two outputs' staging memrefs, as pieces (last first), at a later grid point
    (the statistics block holds the running sums `xo7`, to which the block's sums are added), with the proof that on whole
    staging memrefs, the inputs' at their contents, the statistics block's at `xo7` and the rows block's at anything, the
    body runs to the continuation holding the inputs' as they were and each output's buffer with its pieces written. -/
noncomputable def kernelRun_B (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i)
    (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32) :
    { L : List (View.Piece (Elt F) S512x1024 .f32) × List (View.Piece (Elt F) S2x1024 .f32) //
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2)) -∗ K ⟨⟩))
          ⊢ wp frame (wpE (defs₀ (F := F)) 𝒱₀ c none) E (cc1__k1_body i arg1 harg1 arg2 harg2 arg3 harg3 arg4 harg4 arg5 harg5 arg6 harg6 arg7 harg7 arg8 harg8) K } := by
  refine ⟨⟨?_, ?_⟩, fun E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Reg1

end
-- ==== Proof.Reg1Out.lean ====
import proofs.«209176_g73847667688168_cont_9to1_m_420_10_alg».proof.Proof.Gen.KernelIdeal.Skeleton
import Idealize.ShloMosaic.Lib.Pipeline.FrameBody

set_option maxRecDepth 16384

noncomputable section

namespace Cert.KernelIdeal.Reg1

open Idealize.ShloMosaic Idealize.SL.Sem
open Cert.KernelIdeal.Gen

variable {F : FTy → Type} [FloatOps F]

/-! # What the first dense layer's body leaves, as functions of the blocks it reads

`x0`, `x1`: the two bags' blocks of pooled rows; `x2`, `x3`: the two bags' blocks of row numbers; `x4`: the weight
matrix; `x5`: the bias row. -/

/-- The upper and the lower half of the weight matrix, as the body loads them. -/
abbrev rW0 : Rect S256x1024 := Rect.unit (s := S256x1024) ![0, 0] S128x1024.size inb_S256x1024_S128x1024_0_0
abbrev rW1 : Rect S256x1024 := Rect.unit (s := S256x1024) ![128, 0] S128x1024.size inb_S256x1024_S128x1024_128_0

/-- The layer before the rectifier: the two averages times the two halves of the weights, plus the bias. -/
def pre1 (x0 x1 : Vec F S512x128 .f32) (x2 x3 : Vec F S512x50 .i32) (x4 : Vec F S256x1024 .f32) (x5 : Vec F S1x1024 .f32) :
    FVec F S512x1024 .f32 :=
  k1_pay4 x2 x3 x0 x1 (View.ld x4 rW0) (View.ld x4 rW1) x5

/-- The rows' block of the layer's output. -/
def out6 (x0 x1 : Vec F S512x128 .f32) (x2 x3 : Vec F S512x50 .i32) (x4 : Vec F S256x1024 .f32) (x5 : Vec F S1x1024 .f32) :
    Vec F S512x1024 .f32 :=
  k1_pay1 (pre1 x0 x1 x2 x3 x4 x5) k1_pay5

/-- The statistics block after the first point: the block's column sums and sums of squares added to zero. -/
def out7A (x0 x1 : Vec F S512x128 .f32) (x2 x3 : Vec F S512x50 .i32) (x4 : Vec F S256x1024 .f32) (x5 : Vec F S1x1024 .f32) :
    Vec F S2x1024 .f32 :=
  k1_pay3 (pre1 x0 x1 x2 x3 x4 x5) k1_pay5 (k1_pay2 (F := F))

/-- The statistics block after a later point: the block's column sums and sums of squares added to what the block held. -/
def out7B (x0 x1 : Vec F S512x128 .f32) (x2 x3 : Vec F S512x50 .i32) (x4 : Vec F S256x1024 .f32) (x5 : Vec F S1x1024 .f32)
    (xo : Vec F S2x1024 .f32) : Vec F S2x1024 .f32 :=
  k1_pay3 (pre1 x0 x1 x2 x3 x4 x5) k1_pay5 xo

end Cert.KernelIdeal.Reg1

end
-- ==== Proof.Reg1Pieces.lean ====
import proofs.«209176_g73847667688168_cont_9to1_m_420_10_alg».proof.Proof.Reg1RunB
import proofs.«209176_g73847667688168_cont_9to1_m_420_10_alg».proof.Proof.Reg1Out
import Idealize.ShloMosaic.Lib.Pipeline.Value

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The first dense layer's region: proof data and body obligation -/

theorem hz2 : (![0, 0] : Fin 2 → Nat) = fun _ => 0 := funext fun a => by fin_cases a <;> rfl

section Pieces
variable (𝒱₀ : Variants)

/-- Each case's pieces tile each output's block, so they cover it. -/
theorem cover_A_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32) (y : S512x1024.Idx) :
    ∃ pc ∈ (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.1, y ∈ pc.1.set :=
  View.cover_of_tiledL (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.1 S512x1024.size (by sl_kernel_rfl) y
theorem cover_A_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32) (y : S2x1024.Idx) :
    ∃ pc ∈ (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.2, y ∈ pc.1.set :=
  View.cover_of_tiledL (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.2 S2x1024.size (by sl_kernel_rfl) y
theorem cover_B_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32) (y : S512x1024.Idx) :
    ∃ pc ∈ (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.1, y ∈ pc.1.set :=
  View.cover_of_tiledL (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.1 S512x1024.size (by sl_kernel_rfl) y
theorem cover_B_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32) (y : S2x1024.Idx) :
    ∃ pc ∈ (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.2, y ∈ pc.1.set :=
  View.cover_of_tiledL (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.2 S2x1024.size (by sl_kernel_rfl) y

set_option maxHeartbeats 1000000 in
/-- What the first point's pieces leave in the rows block, read through any view: the layer's output on the block. -/
theorem read_A_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32)
    (v : View sig .tc .vmem S512x1024 .f32) (f : v.ty.Contents (Elt F)) :
    v.read (Elt F) (v.writes (Elt F) f (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.1) = out6 x0 x1 x2 x3 x4 x5 := by
  rw [View.read_writes_eq_canon _ _ _ (cover_A_6 𝒱₀ c i arg1 harg1 arg2 harg2 arg3 harg3 arg4 harg4 arg5 harg5 arg6 harg6 arg7 harg7 arg8 harg8 hc0 x0 x1 x2 x3 x4 x5)]
  unfold kernelRun_A; dsimp only; sl_unfold_words
  rw [View.canon_unit_zero hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

set_option maxHeartbeats 1000000 in
/-- What the first point's pieces leave in the statistics block: the block's sums added to the cleared block. -/
theorem read_A_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32)
    (v : View sig .tc .vmem S2x1024 .f32) (f : v.ty.Contents (Elt F)) :
    v.read (Elt F) (v.writes (Elt F) f (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.2) = out7A x0 x1 x2 x3 x4 x5 := by
  rw [View.read_writes_eq_canon _ _ _ (cover_A_7 𝒱₀ c i arg1 harg1 arg2 harg2 arg3 harg3 arg4 harg4 arg5 harg5 arg6 harg6 arg7 harg7 arg8 harg8 hc0 x0 x1 x2 x3 x4 x5)]
  unfold kernelRun_A; dsimp only; sl_unfold_words
  rw [View.canon_cons_unit_zero hz2, View.readCov_unit_zero _ hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

set_option maxHeartbeats 1000000 in
theorem read_B_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32)
    (v : View sig .tc .vmem S512x1024 .f32) (f : v.ty.Contents (Elt F)) :
    v.read (Elt F) (v.writes (Elt F) f (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.1) = out6 x0 x1 x2 x3 x4 x5 := by
  rw [View.read_writes_eq_canon _ _ _ (cover_B_6 𝒱₀ c i arg1 harg1 arg2 harg2 arg3 harg3 arg4 harg4 arg5 harg5 arg6 harg6 arg7 harg7 arg8 harg8 hc0 x0 x1 x2 x3 x4 x5 xo7)]
  unfold kernelRun_B; dsimp only; sl_unfold_words
  rw [View.canon_unit_zero hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

set_option maxHeartbeats 1000000 in
/-- What a later point's pieces leave in the statistics block: the block's sums added to what it held. -/
theorem read_B_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32)
    (v : View sig .tc .vmem S2x1024 .f32) (f : v.ty.Contents (Elt F)) :
    v.read (Elt F) (v.writes (Elt F) f (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.2) = out7B x0 x1 x2 x3 x4 x5 xo7 := by
  rw [View.read_writes_eq_canon _ _ _ (cover_B_7 𝒱₀ c i arg1 harg1 arg2 harg2 arg3 harg3 arg4 harg4 arg5 harg5 arg6 harg6 arg7 harg7 arg8 harg8 hc0 x0 x1 x2 x3 x4 x5 xo7)]
  unfold kernelRun_B; dsimp only; sl_unfold_words
  rw [View.canon_unit_zero hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

end Pieces

end Cert.KernelIdeal.Reg1

end
-- ==== Proof.Reg1Frame.lean ====
import proofs.«209176_g73847667688168_cont_9to1_m_420_10_alg».proof.Proof.Reg1Pieces

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The first dense layer's region: proof data and body obligation -/

section Data
-- the TensorCore's buffer contents when the region is entered
variable (V : (c : Dev nD) → (b : Ref sig .tc) → Buf (Elt F) ((c : Thread nD τ).loc b))

/-- THE ACCUMULATION. What the statistics block's staging buffer holds after the body at position `n`: the first
    point clears it and adds the block's column sums and sums of squares; every later point adds its block's to what the
    point before left (the buffer is not written back between). -/
def statsAt (c : Dev nD) : (n : ℕ) → n < cfg1.N → Vec F S2x1024 .f32
  | 0, hn => out7A (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn => out7B (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (statsAt c n (Nat.lt_of_succ_lt hn))

theorem statsAt_zero (c : Dev nD) (t : Fin cfg1.N) (h0 : t.val = 0) :
    statsAt V c t.val t.isLt = out7A (iblk V c 0 t) (iblk V c 1 t) (iblk V c 2 t) (iblk V c 3 t) (iblk V c 4 t) (iblk V c 5 t) := by
  obtain ⟨n, hn⟩ := t
  cases n with
  | zero => exact rfl
  | succ n => exact absurd h0 (Nat.succ_ne_zero n)

theorem statsAt_succ (c : Dev nD) (t : Fin cfg1.N) (h0 : t.val ≠ 0) :
    statsAt V c t.val t.isLt = out7B (iblk V c 0 t) (iblk V c 1 t) (iblk V c 2 t) (iblk V c 3 t) (iblk V c 4 t) (iblk V c 5 t) (statsAt V c (t.val - 1) (Nat.lt_of_le_of_lt (Nat.sub_le _ _) t.isLt)) := by
  obtain ⟨n, hn⟩ := t
  cases n with
  | zero => exact absurd rfl h0
  | succ n => exact rfl

-- a bound on the pairs the core's waits have recorded, handed in by the launch
variable (B : Set (SemLoc sig × Ix))

/-- The proof data of the region on core `c`: the arrays as the region finds them (`V`); after the body at point `t`
    each input's buffer at its block, the rows block at the layer's output on the block and the statistics block at
    `statsAt`; the invariant the scoped buffers no window stages and the generator register; the pooled rows' array held
    half by each of the two windows on it; nothing owed; the recorded pairs within `B`. -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
    | ⟨7, _⟩ => statsAt V c t.val t.isLt
  Φ _ := iprop(Pipeline.scopedRest (Ix := Ix) (Name := Name) (U := U) (Lvl := Lvl) (Val := Elt F) spec1 c ∗ ∃ r, prngReg c r)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0
  recorded _ := B

/-- The proof data's arrays are the region-entry contents. -/
theorem A_eq (c : Dev nD) (w : Fin cfg1.W) : (dat (Name := Name) (U := U) (Lvl := Lvl) V B c).A w = V c (Pipeline.arrRef spec1 w) := by
  dsimp only [dat]

/-- Nothing is owed at any point. -/
theorem owed_zero (c : Dev nD) (t : Fin (cfg1.N + 1)) : (dat (Name := Name) (U := U) (Lvl := Lvl) V B c).owed t = 0 := rfl

/-- The invariant is the same at every point: the scoped buffers no window stages, and the generator register. -/
theorem Φ_eq (c : Dev nD) (t : Fin (cfg1.N + 1)) :
    (dat (Name := Name) (U := U) (Lvl := Lvl) V B c).Φ t = iprop(Pipeline.scopedRest (Ix := Ix) (Name := Name) (U := U) (Lvl := Lvl) (Val := Elt F) spec1 c ∗ ∃ r, prngReg c r) := rfl

/-- The shares: the pooled rows' array half and half between its two windows, every other array whole. -/
theorem share_0 (c : Dev nD) : (dat (Name := Name) (U := U) (Lvl := Lvl) V B c).share 0 = fullShare.left := rfl
theorem share_1 (c : Dev nD) : (dat (Name := Name) (U := U) (Lvl := Lvl) V B c).share 1 = fullShare.right := rfl
theorem share_2 (c : Dev nD) : (dat (Name := Name) (U := U) (Lvl := Lvl) V B c).share 2 = fullShare := rfl
theorem share_3 (c : Dev nD) : (dat (Name := Name) (U := U) (Lvl := Lvl) V B c).share 3 = fullShare := rfl
theorem share_4 (c : Dev nD) : (dat (Name := Name) (U := U) (Lvl := Lvl) V B c).share 4 = fullShare := rfl
theorem share_5 (c : Dev nD) : (dat (Name := Name) (U := U) (Lvl := Lvl) V B c).share 5 = fullShare := rfl
theorem share_6 (c : Dev nD) : (dat (Name := Name) (U := U) (Lvl := Lvl) V B c).share 6 = fullShare := rfl
theorem share_7 (c : Dev nD) : (dat (Name := Name) (U := U) (Lvl := Lvl) V B c).share 7 = fullShare := rfl

/-- What the body leaves, window by window. -/
theorem after_0 (c : Dev nD) (t : Fin cfg1.N) : (dat (Name := Name) (U := U) (Lvl := Lvl) V B c).after 0 t = iblk V c 0 t := by dsimp only [dat]
theorem after_1 (c : Dev nD) (t : Fin cfg1.N) : (dat (Name := Name) (U := U) (Lvl := Lvl) V B c).after 1 t = iblk V c 1 t := by dsimp only [dat]
theorem after_2 (c : Dev nD) (t : Fin cfg1.N) : (dat (Name := Name) (U := U) (Lvl := Lvl) V B c).after 2 t = iblk V c 2 t := by dsimp only [dat]
theorem after_3 (c : Dev nD) (t : Fin cfg1.N) : (dat (Name := Name) (U := U) (Lvl := Lvl) V B c).after 3 t = iblk V c 3 t := by dsimp only [dat]
theorem after_4 (c : Dev nD) (t : Fin cfg1.N) : (dat (Name := Name) (U := U) (Lvl := Lvl) V B c).after 4 t = iblk V c 4 t := by dsimp only [dat]
theorem after_5 (c : Dev nD) (t : Fin cfg1.N) : (dat (Name := Name) (U := U) (Lvl := Lvl) V B c).after 5 t = iblk V c 5 t := by dsimp only [dat]
theorem after_6 (c : Dev nD) (t : Fin cfg1.N) : (dat (Name := Name) (U := U) (Lvl := Lvl) V B c).after 6 t = out6 (iblk V c 0 t) (iblk V c 1 t) (iblk V c 2 t) (iblk V c 3 t) (iblk V c 4 t) (iblk V c 5 t) := by dsimp only [dat]
theorem after_7 (c : Dev nD) (t : Fin cfg1.N) : (dat (Name := Name) (U := U) (Lvl := Lvl) V B c).after 7 t = statsAt V c t.val t.isLt := by dsimp only [dat]

/-- Each input's current staging buffer holds its block at every point, fetched there or not. -/
theorem before_0 (c : Dev nD) (t : Fin cfg1.N) (d) : (dat (Name := Name) (U := U) (Lvl := Lvl) V B c).before 0 t d = iblk V c 0 t :=
  before_0_of V (dat (Name := Name) (U := U) (Lvl := Lvl) V B c) (A_eq V B c 0) (after_0 V B c) t d
theorem before_1 (c : Dev nD) (t : Fin cfg1.N) (d) : (dat (Name := Name) (U := U) (Lvl := Lvl) V B c).before 1 t d = iblk V c 1 t :=
  before_1_of V (dat (Name := Name) (U := U) (Lvl := Lvl) V B c) (A_eq V B c 1) (after_1 V B c) t d
theorem before_2 (c : Dev nD) (t : Fin cfg1.N) (d) : (dat (Name := Name) (U := U) (Lvl := Lvl) V B c).before 2 t d = iblk V c 2 t :=
  before_2_of V (dat (Name := Name) (U := U) (Lvl := Lvl) V B c) (A_eq V B c 2) (after_2 V B c) t d
theorem before_3 (c : Dev nD) (t : Fin cfg1.N) (d) : (dat (Name := Name) (U := U) (Lvl := Lvl) V B c).before 3 t d = iblk V c 3 t :=
  before_3_of V (dat (Name := Name) (U := U) (Lvl := Lvl) V B c) (A_eq V B c 3) (after_3 V B c) t d
theorem before_4 (c : Dev nD) (t : Fin cfg1.N) (d) : (dat (Name := Name) (U := U) (Lvl := Lvl) V B c).before 4 t d = iblk V c 4 t :=
  before_4_of V (dat (Name := Name) (U := U) (Lvl := Lvl) V B c) (A_eq V B c 4) (after_4 V B c) t d
theorem before_5 (c : Dev nD) (t : Fin cfg1.N) (d) : (dat (Name := Name) (U := U) (Lvl := Lvl) V B c).before 5 t d = iblk V c 5 t :=
  before_5_of V (dat (Name := Name) (U := U) (Lvl := Lvl) V B c) (A_eq V B c 5) (after_5 V B c) t d

/-- After the first point the statistics block's staging buffer holds what the body left at the point before: it is
    written back at the last point only. -/
theorem before_7_B (c : Dev nD) (t : Fin cfg1.N) (h0 : t.val ≠ 0) (d) :
    (dat (Name := Name) (U := U) (Lvl := Lvl) V B c).before 7 t d = statsAt V c (t.val - 1) (Nat.lt_of_le_of_lt (Nat.sub_le _ _) t.isLt) := by
  have hN : t.val < 32 := lt_of_lt_of_eq t.isLt (show cfg1.N = 32 from N_1)
  rw [Dat.before_out_kept _ 7 rfl t h0 (Bool.eq_false_iff.mpr fun h => by have := (flush1_7 _).mp h; dsimp only at this; omega)
    (fun _ => rfl) (fun _ _ => rfl)]
  dsimp only [dat]

/-! ## The body obligation, at a generic point -/

/-- What the body is called with at point `t`, the windows one by one, -/
def bodyPre (ι : Ix) (c : Dev nD) (t : Fin cfg1.N) : sProp 𝕄 :=
  iprop((dat (Name := Name) (U := U) (Lvl := Lvl) V B c).Φ t.castSucc ∗ (dat (Name := Name) (U := U) (Lvl := Lvl) V B c).owesAt ι t.castSucc
    ∗ (∃ d, owns (c : Thread nD τ) (ms0 t) fullShare ((dat (Name := Name) (U := U) (Lvl := Lvl) V B c).before 0 t d))
    ∗ (∃ d, owns (c : Thread nD τ) (ms1 t) fullShare ((dat (Name := Name) (U := U) (Lvl := Lvl) V B c).before 1 t d))
    ∗ (∃ d, owns (c : Thread nD τ) (ms2 t) fullShare ((dat (Name := Name) (U := U) (Lvl := Lvl) V B c).before 2 t d))
    ∗ (∃ d, owns (c : Thread nD τ) (ms3 t) fullShare ((dat (Name := Name) (U := U) (Lvl := Lvl) V B c).before 3 t d))
    ∗ (∃ d, owns (c : Thread nD τ) (ms4 t) fullShare ((dat (Name := Name) (U := U) (Lvl := Lvl) V B c).before 4 t d))
    ∗ (∃ d, owns (c : Thread nD τ) (ms5 t) fullShare ((dat (Name := Name) (U := U) (Lvl := Lvl) V B c).before 5 t d))
    ∗ (∃ d, owns (c : Thread nD τ) (ms6 t) fullShare ((dat (Name := Name) (U := U) (Lvl := Lvl) V B c).before 6 t d))
    ∗ (∃ d, owns (c : Thread nD τ) (ms7 t) fullShare ((dat (Name := Name) (U := U) (Lvl := Lvl) V B c).before 7 t d)))

/-- and what it returns. -/
def bodyPost (ι : Ix) (c : Dev nD) (t : Fin cfg1.N) : sProp 𝕄 :=
  iprop((dat (Name := Name) (U := U) (Lvl := Lvl) V B c).Φ t.succ ∗ (dat (Name := Name) (U := U) (Lvl := Lvl) V B c).owesAt ι t.succ
    ∗ owns (c : Thread nD τ) (ms0 t) fullShare ((dat (Name := Name) (U := U) (Lvl := Lvl) V B c).after 0 t)
    ∗ owns (c : Thread nD τ) (ms1 t) fullShare ((dat (Name := Name) (U := U) (Lvl := Lvl) V B c).after 1 t)
    ∗ owns (c : Thread nD τ) (ms2 t) fullShare ((dat (Name := Name) (U := U) (Lvl := Lvl) V B c).after 2 t)
    ∗ owns (c : Thread nD τ) (ms3 t) fullShare ((dat (Name := Name) (U := U) (Lvl := Lvl) V B c).after 3 t)
    ∗ owns (c : Thread nD τ) (ms4 t) fullShare ((dat (Name := Name) (U := U) (Lvl := Lvl) V B c).after 4 t)
    ∗ owns (c : Thread nD τ) (ms5 t) fullShare ((dat (Name := Name) (U := U) (Lvl := Lvl) V B c).after 5 t)
    ∗ owns (c : Thread nD τ) (ms6 t) fullShare ((dat (Name := Name) (U := U) (Lvl := Lvl) V B c).after 6 t)
    ∗ owns (c : Thread nD τ) (ms7 t) fullShare ((dat (Name := Name) (U := U) (Lvl := Lvl) V B c).after 7 t))

set_option maxHeartbeats 1600000 in
/-- The body at any point: the inputs' memrefs hold their blocks; the first point clears the statistics block, a later
    point finds in it what the point before left; so the case's run applies; the invariant passes through unread; the
    core owes nothing throughout. -/
theorem sound_body (𝒱₀ : Variants) (ι : Ix) (c : Dev nD) (t : Fin cfg1.N) :
    bodyPre (Name := Name) (U := U) (Lvl := Lvl) V B ι c t ⊢ wp frame (wpE (defs₀ (F := F)) 𝒱₀ c none) Set.univ (bodyAt1 t) (fun _ => bodyPost (Name := Name) (U := U) (Lvl := Lvl) V B ι c t) := by
  unfold bodyPre bodyPost bodyAt1
  simp only [before_0, before_1, before_2, before_3, before_4, before_5]
  rw [show (dat (Name := Name) (U := U) (Lvl := Lvl) V B c).Φ t.succ = (dat (Name := Name) (U := U) (Lvl := Lvl) V B c).Φ t.castSucc from rfl,
    show (dat (Name := Name) (U := U) (Lvl := Lvl) V B c).owesAt ι t.succ = (dat (Name := Name) (U := U) (Lvl := Lvl) V B c).owesAt ι t.castSucc from rfl,
    after_0, after_1, after_2, after_3, after_4, after_5, after_6, after_7]
  have hN : t.val < 32 := lt_of_lt_of_eq t.isLt (show cfg1.N = 32 from N_1)
  by_cases h0 : t.val = 0
  · rw [statsAt_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A 𝒱₀ c (grid1.coords t) _ _ _ _ _ _ _ _ _ _ _ _ _ _ _ _ ((hcond0 t).mpr (by omega)) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_A_6 𝒱₀ c _ _ _ _ _ _ _ _ _ _ _ _ _ _ _ _ _ _ _ _ _ _ _ _ _ _
    unfold owns; iexists _; isplitr
    swap; · iexact H7
    ipureintro; exact read_A_7 𝒱₀ c _ _ _ _ _ _ _ _ _ _ _ _ _ _ _ _ _ _ _ _ _ _ _ _ _ _
  · rw [statsAt_succ V c t h0]
    simp only [before_7_B V B c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_B 𝒱₀ c (grid1.coords t) _ _ _ _ _ _ _ _ _ _ _ _ _ _ _ _ (fun h => h0 (by have := (hcond0 t).mp h; omega)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_B_6 𝒱₀ c _ _ _ _ _ _ _ _ _ _ _ _ _ _ _ _ _ _ _ _ _ _ _ _ _ _ _
    unfold owns; iexists _; isplitr
    swap; · iexact H7
    ipureintro; exact read_B_7 𝒱₀ c _ _ _ _ _ _ _ _ _ _ _ _ _ _ _ _ _ _ _ _ _ _ _ _ _ _ _

/-- The library's body obligation, at every point. -/
theorem body_obligation (𝒱₀ : Variants) (ι : Ix) (c : Dev nD) :
    BodyObligation (dat (F := F) (Name := Name) (U := U) (Lvl := Lvl) V B c) (defs₀ (F := F)) 𝒱₀ ι Set.univ := fun t => by
  rw [bigSep_W1, bigSep_W1]
  exact sound_body V B 𝒱₀ ι c t

/-! ## The invariant at the region's ends -/

/-- The invariant at the first point, from the generator register and the scoped buffers no window stages. -/
theorem hin (c : Dev nD) :
    (iprop((∃ r, prngReg c r) ∗ Pipeline.scopedRest (Ix := Ix) (Name := Name) (U := U) (Lvl := Lvl) (Val := Elt F) spec1 c) : sProp 𝕄)
      ⊢ (dat (Name := Name) (U := U) (Lvl := Lvl) V B c).Φ 0 := by
  rw [Φ_eq]
  iintro ⟨Hp, Hr⟩
  isplitl [Hr]; · iexact Hr
  iexact Hp

/-- The invariant at the last point gives both back. -/
theorem hout (c : Dev nD) :
    (dat (Name := Name) (U := U) (Lvl := Lvl) V B c).Φ (Fin.last cfg1.N)
      ⊢ (iprop((∃ r, prngReg c r) ∗ Pipeline.scopedRest (Ix := Ix) (Name := Name) (U := U) (Lvl := Lvl) (Val := Elt F) spec1 c) : sProp 𝕄) := by
  rw [Φ_eq]
  iintro ⟨Hr, Hp⟩
  isplitl [Hp]; · iexact Hp
  iexact Hr

end Data

end Cert.KernelIdeal.Reg1

end
-- ==== Proof.Reg2Base.lean ====
/-
  The second fused layer (batch normalisation in scale-and-shift form, dense layer, rectifier, with the
  column sums of the result and of its squares accumulated over the 32 row blocks), as a pipeline region
  entered at arbitrary array contents `V`: what is shared by the two control cases of its body.
-/
import proofs.«209176_g73847667688168_cont_9to1_m_420_10_alg».proof.Proof.Gen.KernelIdeal.Launch
import proofs.«209176_g73847667688168_cont_9to1_m_420_10_alg».proof.Proof.Gen.KernelIdeal.Skeleton
import proofs.«209176_g73847667688168_cont_9to1_m_420_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type}

local notation "𝕄" => MT nD τ sig Ix (Elt F) Name U Lvl

-- the contents of the core's buffers when the region is entered: a parameter
variable (V : (c : Dev nD) → (b : Ref sig .tc) → Buf (Elt F) ((c : Thread nD τ).loc b))

/-- Window `w`'s block at point `t`, read off its array at the entry contents. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Ix Name U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Ix Name U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Ix Name U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Ix Name U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Ix Name U Lvl cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Ix Name U Lvl cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: the point is the first. -/
abbrev cond0 (i : grid2.Coords) : Prop := (Scalar.cmpi .ne (Scalar.extui (Scalar.cmpi .eq (BitVec.ofNat 32 (i 0).val) 0#32)) 0#32) = 1#1
/-- It holds at the first point only: decided over the grid. -/
theorem hcond0 : ∀ t : Fin cfg2.N, cond0 (grid2.coords t) ↔ t.val % 32 = 0 :=
  (by decide +kernel : ∀ t : Fin grid2.N, cond0 (grid2.coords t) ↔ t.val % 32 = 0)

/-- One staging buffer of each output window, through which its contents are stated. -/
abbrev VO6 : View sig .tc .vmem S512x1024 .f32 := (Memref.whole cc2_stg6_0 : Memref sig .tc .vmem S512x1024 .f32).view
abbrev VO7 : View sig .tc .vmem S2x1024 .f32 := (Memref.whole cc2_stg7_0 : Memref sig .tc .vmem S2x1024 .f32).view
abbrev ms0 (t : Fin cfg2.N) : Memref sig .tc .vmem S512x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2x1024 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024x1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1024 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S512x1024 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S2x1024 .f32 := win2_7.stage (cfg2.slots t 7)
abbrev hs7 (t : Fin cfg2.N) : (ms7 t).IsWhole := hstage2_7 ((cfg2.slots t 7).cast nbuf2_7)

/-- The pieces a run of the body leaves in its two output buffers (last store first), with the statement the run proves of them. -/
structure Found (P : List (View.Piece (Elt F) S512x1024 .f32) → List (View.Piece (Elt F) S2x1024 .f32) → Prop) where
  L6 : List (View.Piece (Elt F) S512x1024 .f32)
  L7 : List (View.Piece (Elt F) S2x1024 .f32)
  run : P L6 L7

end Cert.KernelIdeal.Reg2

end
-- ==== Proof.Reg2RunA.lean ====
/-
  The body of the second fused layer run symbolically in its first control case.
-/
import proofs.«209176_g73847667688168_cont_9to1_m_420_10_alg».proof.Proof.Reg2Base

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- What the body's stores leave in its two output buffers IN CASE A (the first point: the statistics buffer is zeroed before the block's sums are added),
    with the proof that on whole staging memrefs, the inputs' at their contents, the body runs to the
    continuation holding the inputs' as they were and each output's buffer with its pieces written. -/
noncomputable def kernelRun_A (𝒱₀ : Variants) (c : Dev nD) (i : grid2.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i)
    (x0 : Vec F S512x1024 .f32) (x1 : Vec F S2x1024 .f32) (x2 : Vec F S1x1024 .f32) (x3 : Vec F S1x1024 .f32) (x4 : Vec F S1024x1024 .f32) (x5 : Vec F S1x1024 .f32) :
    Found (F := F) fun L6 L7 =>
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) 𝒱₀ c none) E (cc2__k2_body i arg1 harg1 arg2 harg2 arg3 harg3 arg4 harg4 arg5 harg5 arg6 harg6 arg7 harg7 arg8 harg8) K := by
  refine ⟨?L6, ?L7, ?run⟩
  case run =>
  intro E K
  simp only [cc2__k2_body_eq_skeleton]; unfold cc2__k2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]; · iexists _; iexact H6
  iexists _; iexact H7

end Cert.KernelIdeal.Reg2

end
-- ==== Proof.Reg2RunB.lean ====
/-
  The body of the second fused layer run symbolically in its second control case.
-/
import proofs.«209176_g73847667688168_cont_9to1_m_420_10_alg».proof.Proof.Reg2Base

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- What the body's stores leave in its two output buffers IN CASE B (a later point: the block's sums are added to what the statistics buffer holds),
    with the proof that on whole staging memrefs, the inputs' at their contents, the statistics buffer at its running contents, the body runs to the
    continuation holding the inputs' as they were and each output's buffer with its pieces written. -/
noncomputable def kernelRun_B (𝒱₀ : Variants) (c : Dev nD) (i : grid2.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i)
    (x0 : Vec F S512x1024 .f32) (x1 : Vec F S2x1024 .f32) (x2 : Vec F S1x1024 .f32) (x3 : Vec F S1x1024 .f32) (x4 : Vec F S1024x1024 .f32) (x5 : Vec F S1x1024 .f32) (xo7 : Vec F S2x1024 .f32) :
    Found (F := F) fun L6 L7 =>
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) 𝒱₀ c none) E (cc2__k2_body i arg1 harg1 arg2 harg2 arg3 harg3 arg4 harg4 arg5 harg5 arg6 harg6 arg7 harg7 arg8 harg8) K := by
  refine ⟨?L6, ?L7, ?run⟩
  case run =>
  intro E K
  simp only [cc2__k2_body_eq_skeleton]; unfold cc2__k2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]; · iexists _; iexact H6
  iexists _; iexact H7

end Cert.KernelIdeal.Reg2

end
-- ==== Proof.Reg2Dat.lean ====
/-
  The second fused layer as a pipeline region entered at arbitrary array contents `V`: what each window's
  staging buffer holds after the body at each of the 32 row blocks, as functions of the blocks read.  The
  activations' block is the rectified dense layer of the normalised input block; the statistics buffer is
  a running sum over the blocks done so far, started from zero at the first block.
-/
import proofs.«209176_g73847667688168_cont_9to1_m_420_10_alg».proof.Proof.Reg2Base

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The two rows of a statistics block: the column sums, and the column sums of squares. -/
abbrev rS0 : Rect S2x1024 := Rect.unit (s := S2x1024) ![0, 0] S1x1024.size inb_S2x1024_S1x1024_0_0
abbrev rS1 : Rect S2x1024 := Rect.unit (s := S2x1024) ![1, 0] S1x1024.size inb_S2x1024_S1x1024_1_0

/-- The output block of one row block: the rectified dense layer of the normalised input block `x0`, the
    normalisation read off the incoming statistics `x1`, scale `x2` and shift `x3`; weights `x4`, bias `x5`. -/
def blockOut (x0 : Vec F S512x1024 .f32) (x1 : Vec F S2x1024 .f32) (x2 x3 : Vec F S1x1024 .f32) (x4 : Vec F S1024x1024 .f32) (x5 : Vec F S1x1024 .f32) : FVec F S512x1024 .f32 :=
  k2_pay3 (View.ld x1 rS0) (View.ld x1 rS1) x2 x3 x0 x4 x5

/-- Its column sums. -/
def blockSum (x0 : Vec F S512x1024 .f32) (x1 : Vec F S2x1024 .f32) (x2 x3 : Vec F S1x1024 .f32) (x4 : Vec F S1024x1024 .f32) (x5 : Vec F S1x1024 .f32) : FVec F S1024 .f32 :=
  k2_pay4 (View.ld x1 rS0) (View.ld x1 rS1) x2 x3 x0 x4 x5

/-- One step of the running statistics: the block's column sums and column sums of squares added to `prev`. -/
def statStep (x0 : Vec F S512x1024 .f32) (x1 : Vec F S2x1024 .f32) (x2 x3 : Vec F S1x1024 .f32) (x4 : Vec F S1024x1024 .f32) (x5 : Vec F S1x1024 .f32) (prev : Vec F S2x1024 .f32) : FVec F S2x1024 .f32 :=
  k2_pay2 (blockOut x0 x1 x2 x3 x4 x5) (blockSum x0 x1 x2 x3 x4 x5) prev

/-- The zero statistics block the first point starts from. -/
abbrev statZero : FVec F S2x1024 .f32 := k2_pay1 (F := F)

variable (V : (c : Dev nD) → (b : Ref sig .tc) → Buf (Elt F) ((c : Thread nD τ).loc b))

/-- THE ACCUMULATION: what the statistics buffer holds after the body at position `n`. -/
def acc (c : Dev nD) : (n : ℕ) → n < cfg2.N → Vec F S2x1024 .f32
  | 0, hn => statStep (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (statZero (F := F))
  | n + 1, hn => statStep (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (acc c n (Nat.lt_of_succ_lt hn))

theorem acc_zero (c : Dev nD) (t : Fin cfg2.N) (h0 : t.val = 0) :
    acc V c t.val t.isLt = statStep (iblk V c 0 t) (iblk V c 1 t) (iblk V c 2 t) (iblk V c 3 t) (iblk V c 4 t) (iblk V c 5 t) (statZero (F := F)) := by
  obtain ⟨n, hn⟩ := t
  cases n with
  | zero => exact rfl
  | succ n => exact absurd h0 (Nat.succ_ne_zero _)

theorem acc_succ (c : Dev nD) (t : Fin cfg2.N) (h0 : ¬t.val = 0) :
    acc V c t.val t.isLt = statStep (iblk V c 0 t) (iblk V c 1 t) (iblk V c 2 t) (iblk V c 3 t) (iblk V c 4 t) (iblk V c 5 t) (acc V c (t.val - 1) (Nat.lt_of_le_of_lt (Nat.sub_le _ _) t.isLt)) := by
  obtain ⟨n, hn⟩ := t
  cases n with
  | zero => exact absurd rfl h0
  | succ n => exact rfl

/-- The region's invariant on core `c`: the core's scoped buffers that are no staging buffer of this pipeline, untouched, and its generator register at some state. -/
def Φ2 (c : Dev nD) : sProp 𝕄 :=
  iprop(Pipeline.scopedRest (Ix := Ix) (Name := Name) (U := U) (Lvl := Lvl) (Val := Elt F) spec2 c ∗ ∃ r, prngReg c r)

/-- The proof data of the pipeline on core `c`: the arrays as the region finds them; after the body at point `t` each
    input's buffer at its block, the activations' at the block's output and the statistics' at the running sum;
    nothing owed, the recorded wait pairs bounded by the given set `B` throughout; full shares. -/
def dat (B : Set (SemLoc sig × Ix)) (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => blockOut (iblk V c 0 t) (iblk V c 1 t) (iblk V c 2 t) (iblk V c 3 t) (iblk V c 4 t) (iblk V c 5 t)
    | ⟨7, _⟩ => acc V c t.val t.isLt
  Φ _ := Φ2 c
  q _ := fullShare
  owed _ := 0
  recorded _ := B

variable (B : Set (SemLoc sig × Ix))
local notation "dat'" => dat (Name := Name) (U := U) (Lvl := Lvl) V B

theorem A_eq (c : Dev nD) (w : Fin cfg2.W) : (dat' c).A w = V c (Pipeline.arrRef spec2 w) := by
  dsimp only [dat]

theorem after_0 (c : Dev nD) (t : Fin cfg2.N) : (dat' c).after 0 t = iblk V c 0 t := by dsimp only [dat]
theorem after_1 (c : Dev nD) (t : Fin cfg2.N) : (dat' c).after 1 t = iblk V c 1 t := by dsimp only [dat]
theorem after_2 (c : Dev nD) (t : Fin cfg2.N) : (dat' c).after 2 t = iblk V c 2 t := by dsimp only [dat]
theorem after_3 (c : Dev nD) (t : Fin cfg2.N) : (dat' c).after 3 t = iblk V c 3 t := by dsimp only [dat]
theorem after_4 (c : Dev nD) (t : Fin cfg2.N) : (dat' c).after 4 t = iblk V c 4 t := by dsimp only [dat]
theorem after_5 (c : Dev nD) (t : Fin cfg2.N) : (dat' c).after 5 t = iblk V c 5 t := by dsimp only [dat]
theorem after_6 (c : Dev nD) (t : Fin cfg2.N) : (dat' c).after 6 t = blockOut (iblk V c 0 t) (iblk V c 1 t) (iblk V c 2 t) (iblk V c 3 t) (iblk V c 4 t) (iblk V c 5 t) := by dsimp only [dat]
theorem after_7 (c : Dev nD) (t : Fin cfg2.N) : (dat' c).after 7 t = acc V c t.val t.isLt := by dsimp only [dat]

theorem before_0 (c : Dev nD) (t : Fin cfg2.N) (d) : (dat' c).before 0 t d = iblk V c 0 t :=
  before_0_of V (dat' c) (A_eq V B c 0) (after_0 V B c) t d
theorem before_1 (c : Dev nD) (t : Fin cfg2.N) (d) : (dat' c).before 1 t d = iblk V c 1 t :=
  before_1_of V (dat' c) (A_eq V B c 1) (after_1 V B c) t d
theorem before_2 (c : Dev nD) (t : Fin cfg2.N) (d) : (dat' c).before 2 t d = iblk V c 2 t :=
  before_2_of V (dat' c) (A_eq V B c 2) (after_2 V B c) t d
theorem before_3 (c : Dev nD) (t : Fin cfg2.N) (d) : (dat' c).before 3 t d = iblk V c 3 t :=
  before_3_of V (dat' c) (A_eq V B c 3) (after_3 V B c) t d
theorem before_4 (c : Dev nD) (t : Fin cfg2.N) (d) : (dat' c).before 4 t d = iblk V c 4 t :=
  before_4_of V (dat' c) (A_eq V B c 4) (after_4 V B c) t d
theorem before_5 (c : Dev nD) (t : Fin cfg2.N) (d) : (dat' c).before 5 t d = iblk V c 5 t :=
  before_5_of V (dat' c) (A_eq V B c 5) (after_5 V B c) t d

/-- After the first point the statistics buffer holds what the body left at the point before: it is written back
    only after the last point. -/
theorem before_7 (c : Dev nD) (t : Fin cfg2.N) (h0 : ¬t.val = 0) (d) :
    (dat' c).before 7 t d = acc V c (t.val - 1) (Nat.lt_of_le_of_lt (Nat.sub_le _ _) t.isLt) := by
  have hN : t.val < 32 := lt_of_lt_of_eq t.isLt (show cfg2.N = 32 from N_2)
  rw [Dat.before_out_kept _ 7 rfl t h0 (Bool.eq_false_iff.mpr fun h => by have := (flush2_7 _).mp h; dsimp only at this; omega)
    (fun _ => rfl) (fun _ _ => rfl)]
  dsimp only [dat]

theorem owed_zero (c : Dev nD) (t : Fin (cfg2.N + 1)) : (dat' c).owed t = 0 := rfl
theorem Φ_eq (c : Dev nD) (t : Fin (cfg2.N + 1)) : (dat' c).Φ t = Φ2 c := rfl
theorem q_eq (c : Dev nD) (w : Fin cfg2.W) : (dat' c).q w = fullShare := rfl
theorem recorded_eq (c : Dev nD) (t : Fin (cfg2.N + 1)) : (dat' c).recorded t = B := rfl

end Cert.KernelIdeal.Reg2

end
-- ==== Proof.Reg2Body.lean ====
/-
  The second fused layer as a pipeline region: the body's obligation at every row block.  The two runs of
  the body (first block: the statistics buffer is zeroed first; later blocks: it is added to) leave in the
  two output buffers exactly the closed forms the proof data names.
-/
import proofs.«209176_g73847667688168_cont_9to1_m_420_10_alg».proof.Proof.Reg2RunA
import proofs.«209176_g73847667688168_cont_9to1_m_420_10_alg».proof.Proof.Reg2RunB
import proofs.«209176_g73847667688168_cont_9to1_m_420_10_alg».proof.Proof.Reg2Dat
import Idealize.ShloMosaic.Lib.Pipeline.Value

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

local notation "runA" => kernelRun_A (F := F) (Ix := Ix) (Name := Name) (U := U) (Lvl := Lvl)
local notation "runB" => kernelRun_B (F := F) (Ix := Ix) (Name := Name) (U := U) (Lvl := Lvl)

theorem hz : (![0, 0] : Fin 2 → Nat) = fun _ => 0 := funext fun a => by fin_cases a <;> rfl

section Pieces
variable (𝒱₀ : Variants) (c : Dev nD) (i : grid2.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole)
  (x0 : Vec F S512x1024 .f32) (x1 : Vec F S2x1024 .f32) (x2 x3 : Vec F S1x1024 .f32) (x4 : Vec F S1024x1024 .f32) (x5 : Vec F S1x1024 .f32)

/-- Each case's pieces tile their buffer, so they cover it. -/
theorem cover_A_6 (hc0 : cond0 i) (y : S512x1024.Idx) : ∃ pc ∈ (runA 𝒱₀ c i arg1 harg1 arg2 harg2 arg3 harg3 arg4 harg4 arg5 harg5 arg6 harg6 arg7 harg7 arg8 harg8 hc0 x0 x1 x2 x3 x4 x5).L6, y ∈ pc.1.set :=
  View.cover_of_tiledL (runA 𝒱₀ c i arg1 harg1 arg2 harg2 arg3 harg3 arg4 harg4 arg5 harg5 arg6 harg6 arg7 harg7 arg8 harg8 hc0 x0 x1 x2 x3 x4 x5).L6 S512x1024.size (by sl_kernel_rfl) y
theorem cover_A_7 (hc0 : cond0 i) (y : S2x1024.Idx) : ∃ pc ∈ (runA 𝒱₀ c i arg1 harg1 arg2 harg2 arg3 harg3 arg4 harg4 arg5 harg5 arg6 harg6 arg7 harg7 arg8 harg8 hc0 x0 x1 x2 x3 x4 x5).L7, y ∈ pc.1.set :=
  View.cover_of_tiledL (runA 𝒱₀ c i arg1 harg1 arg2 harg2 arg3 harg3 arg4 harg4 arg5 harg5 arg6 harg6 arg7 harg7 arg8 harg8 hc0 x0 x1 x2 x3 x4 x5).L7 S2x1024.size (by sl_kernel_rfl) y
theorem cover_B_6 (hc0 : ¬cond0 i) (xo7 : Vec F S2x1024 .f32) (y : S512x1024.Idx) : ∃ pc ∈ (runB 𝒱₀ c i arg1 harg1 arg2 harg2 arg3 harg3 arg4 harg4 arg5 harg5 arg6 harg6 arg7 harg7 arg8 harg8 hc0 x0 x1 x2 x3 x4 x5 xo7).L6, y ∈ pc.1.set :=
  View.cover_of_tiledL (runB 𝒱₀ c i arg1 harg1 arg2 harg2 arg3 harg3 arg4 harg4 arg5 harg5 arg6 harg6 arg7 harg7 arg8 harg8 hc0 x0 x1 x2 x3 x4 x5 xo7).L6 S512x1024.size (by sl_kernel_rfl) y
theorem cover_B_7 (hc0 : ¬cond0 i) (xo7 : Vec F S2x1024 .f32) (y : S2x1024.Idx) : ∃ pc ∈ (runB 𝒱₀ c i arg1 harg1 arg2 harg2 arg3 harg3 arg4 harg4 arg5 harg5 arg6 harg6 arg7 harg7 arg8 harg8 hc0 x0 x1 x2 x3 x4 x5 xo7).L7, y ∈ pc.1.set :=
  View.cover_of_tiledL (runB 𝒱₀ c i arg1 harg1 arg2 harg2 arg3 harg3 arg4 harg4 arg5 harg5 arg6 harg6 arg7 harg7 arg8 harg8 hc0 x0 x1 x2 x3 x4 x5 xo7).L7 S2x1024.size (by sl_kernel_rfl) y

/-- What each case's pieces read back as: the closed forms. -/
theorem canon_A_6 (hc0 : cond0 i) : View.canon (runA 𝒱₀ c i arg1 harg1 arg2 harg2 arg3 harg3 arg4 harg4 arg5 harg5 arg6 harg6 arg7 harg7 arg8 harg8 hc0 x0 x1 x2 x3 x4 x5).L6 = blockOut x0 x1 x2 x3 x4 x5 := by
  unfold kernelRun_A; dsimp only; sl_unfold_words
  rw [View.canon_unit_zero hz]
  simp only [View.readAt_eq_ld, Memref.IsWhole.read_unread, View.ld_unit_zero (S := S512x1024) hz, View.ld_unit_zero (S := S1x1024) hz, View.ld_unit_zero (S := S1024x1024) hz]
  rfl

theorem canon_A_7 (hc0 : cond0 i) : View.canon (runA 𝒱₀ c i arg1 harg1 arg2 harg2 arg3 harg3 arg4 harg4 arg5 harg5 arg6 harg6 arg7 harg7 arg8 harg8 hc0 x0 x1 x2 x3 x4 x5).L7 = statStep x0 x1 x2 x3 x4 x5 (statZero (F := F)) := by
  unfold kernelRun_A; dsimp only; sl_unfold_words
  rw [View.canon_cons_unit_zero hz]
  simp only [View.readCov_unit_zero (S := S2x1024) _ hz, View.readAt_eq_ld, Memref.IsWhole.read_unread, View.ld_unit_zero (S := S512x1024) hz, View.ld_unit_zero (S := S1x1024) hz, View.ld_unit_zero (S := S1024x1024) hz]
  rfl

theorem canon_B_6 (hc0 : ¬cond0 i) (xo7 : Vec F S2x1024 .f32) : View.canon (runB 𝒱₀ c i arg1 harg1 arg2 harg2 arg3 harg3 arg4 harg4 arg5 harg5 arg6 harg6 arg7 harg7 arg8 harg8 hc0 x0 x1 x2 x3 x4 x5 xo7).L6 = blockOut x0 x1 x2 x3 x4 x5 := by
  unfold kernelRun_B; dsimp only; sl_unfold_words
  rw [View.canon_unit_zero hz]
  simp only [View.readAt_eq_ld, Memref.IsWhole.read_unread, View.ld_unit_zero (S := S512x1024) hz, View.ld_unit_zero (S := S1x1024) hz, View.ld_unit_zero (S := S1024x1024) hz]
  rfl

theorem canon_B_7 (hc0 : ¬cond0 i) (xo7 : Vec F S2x1024 .f32) : View.canon (runB 𝒱₀ c i arg1 harg1 arg2 harg2 arg3 harg3 arg4 harg4 arg5 harg5 arg6 harg6 arg7 harg7 arg8 harg8 hc0 x0 x1 x2 x3 x4 x5 xo7).L7 = statStep x0 x1 x2 x3 x4 x5 xo7 := by
  unfold kernelRun_B; dsimp only; sl_unfold_words
  rw [View.canon_unit_zero hz]
  simp only [View.readAt_eq_ld, Memref.IsWhole.read_unread, View.ld_unit_zero (S := S512x1024) hz, View.ld_unit_zero (S := S2x1024) hz, View.ld_unit_zero (S := S1x1024) hz, View.ld_unit_zero (S := S1024x1024) hz]
  rfl

end Pieces

variable (V : (c : Dev nD) → (b : Ref sig .tc) → Buf (Elt F) ((c : Thread nD τ).loc b))
variable (B : Set (SemLoc sig × Ix))
local notation "dat'" => dat (Name := Name) (U := U) (Lvl := Lvl) V B

/-- What the body is called with at point `t`, the windows one by one, -/
def bodyPre (ι : Ix) (c : Dev nD) (t : Fin cfg2.N) : sProp 𝕄 :=
  iprop((dat' c).Φ t.castSucc ∗ (dat' c).owesAt ι t.castSucc
    ∗ (∃ d, owns (c : Thread nD τ) (st2_0 t) fullShare ((dat' c).before 0 t d))
    ∗ (∃ d, owns (c : Thread nD τ) (st2_1 t) fullShare ((dat' c).before 1 t d))
    ∗ (∃ d, owns (c : Thread nD τ) (st2_2 t) fullShare ((dat' c).before 2 t d))
    ∗ (∃ d, owns (c : Thread nD τ) (st2_3 t) fullShare ((dat' c).before 3 t d))
    ∗ (∃ d, owns (c : Thread nD τ) (st2_4 t) fullShare ((dat' c).before 4 t d))
    ∗ (∃ d, owns (c : Thread nD τ) (st2_5 t) fullShare ((dat' c).before 5 t d))
    ∗ (∃ d, owns (c : Thread nD τ) (st2_6 t) fullShare ((dat' c).before 6 t d))
    ∗ (∃ d, owns (c : Thread nD τ) (st2_7 t) fullShare ((dat' c).before 7 t d)))

/-- and what it returns. -/
def bodyPost (ι : Ix) (c : Dev nD) (t : Fin cfg2.N) : sProp 𝕄 :=
  iprop((dat' c).Φ t.succ ∗ (dat' c).owesAt ι t.succ
    ∗ owns (c : Thread nD τ) (st2_0 t) fullShare ((dat' c).after 0 t)
    ∗ owns (c : Thread nD τ) (st2_1 t) fullShare ((dat' c).after 1 t)
    ∗ owns (c : Thread nD τ) (st2_2 t) fullShare ((dat' c).after 2 t)
    ∗ owns (c : Thread nD τ) (st2_3 t) fullShare ((dat' c).after 3 t)
    ∗ owns (c : Thread nD τ) (st2_4 t) fullShare ((dat' c).after 4 t)
    ∗ owns (c : Thread nD τ) (st2_5 t) fullShare ((dat' c).after 5 t)
    ∗ owns (c : Thread nD τ) (st2_6 t) fullShare ((dat' c).after 6 t)
    ∗ owns (c : Thread nD τ) (st2_7 t) fullShare ((dat' c).after 7 t))

set_option maxHeartbeats 1600000 in
/-- The body at the first point. -/
theorem sound_body_A (𝒱₀ : Variants) (ι : Ix) (c : Dev nD) (t : Fin cfg2.N) (h0 : t.val = 0) :
    (bodyPre (Name := Name) (U := U) (Lvl := Lvl) V B ι c t : sProp 𝕄) ⊢ wp frame (wpE (defs₀ (F := F)) 𝒱₀ c none) Set.univ (bodyAt2 t) (fun _ => bodyPost (Name := Name) (U := U) (Lvl := Lvl) V B ι c t) := by
  unfold bodyPre bodyPost bodyAt2
  simp only [before_0, before_1, before_2, before_3, before_4, before_5]
  rw [show (dat' c).Φ t.succ = (dat' c).Φ t.castSucc from rfl,
    show (dat' c).owesAt ι t.succ = (dat' c).owesAt ι t.castSucc from rfl,
    after_0, after_1, after_2, after_3, after_4, after_5, after_6, after_7, acc_zero V c t h0]
  have hc : cond0 (grid2.coords t) := (hcond0 t).mpr (by rw [h0])
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA 𝒱₀ c (grid2.coords t) _ _ _ _ _ _ _ _ _ _ _ _ _ _ _ _ hc (iblk V c 0 t) (iblk V c 1 t) (iblk V c 2 t) (iblk V c 3 t) (iblk V c 4 t) (iblk V c 5 t)).run Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (cover_A_6 (Ix := Ix) (Name := Name) (U := U) (Lvl := Lvl) 𝒱₀ c _ _ _ _ _ _ _ _ _ _ _ _ _ _ _ _ _ _ _ _ _ _ _ _)).trans (canon_A_6 (Ix := Ix) (Name := Name) (U := U) (Lvl := Lvl) 𝒱₀ c _ _ _ _ _ _ _ _ _ _ _ _ _ _ _ _ _ _ _ _ _ _ _ _)
  unfold owns; iexists _; isplitr
  swap; · iexact H7
  ipureintro; exact (View.read_writes_eq_canon _ _ _ (cover_A_7 (Ix := Ix) (Name := Name) (U := U) (Lvl := Lvl) 𝒱₀ c _ _ _ _ _ _ _ _ _ _ _ _ _ _ _ _ _ _ _ _ _ _ _ _)).trans (canon_A_7 (Ix := Ix) (Name := Name) (U := U) (Lvl := Lvl) 𝒱₀ c _ _ _ _ _ _ _ _ _ _ _ _ _ _ _ _ _ _ _ _ _ _ _ _)

set_option maxHeartbeats 1600000 in
/-- The body at a later point. -/
theorem sound_body_B (𝒱₀ : Variants) (ι : Ix) (c : Dev nD) (t : Fin cfg2.N) (h0 : ¬t.val = 0) :
    (bodyPre (Name := Name) (U := U) (Lvl := Lvl) V B ι c t : sProp 𝕄) ⊢ wp frame (wpE (defs₀ (F := F)) 𝒱₀ c none) Set.univ (bodyAt2 t) (fun _ => bodyPost (Name := Name) (U := U) (Lvl := Lvl) V B ι c t) := by
  unfold bodyPre bodyPost bodyAt2
  simp only [before_0, before_1, before_2, before_3, before_4, before_5, before_7 V B c t h0]
  rw [show (dat' c).Φ t.succ = (dat' c).Φ t.castSucc from rfl,
    show (dat' c).owesAt ι t.succ = (dat' c).owesAt ι t.castSucc from rfl,
    after_0, after_1, after_2, after_3, after_4, after_5, after_6, after_7, acc_succ V c t h0]
  have hN : t.val < 32 := lt_of_lt_of_eq t.isLt (show cfg2.N = 32 from N_2)
  have hc : ¬cond0 (grid2.coords t) := fun h => h0 (by have := (hcond0 t).mp h; omega)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB 𝒱₀ c (grid2.coords t) _ _ _ _ _ _ _ _ _ _ _ _ _ _ _ _ hc (iblk V c 0 t) (iblk V c 1 t) (iblk V c 2 t) (iblk V c 3 t) (iblk V c 4 t) (iblk V c 5 t) _).run Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (cover_B_6 (Ix := Ix) (Name := Name) (U := U) (Lvl := Lvl) 𝒱₀ c _ _ _ _ _ _ _ _ _ _ _ _ _ _ _ _ _ _ _ _ _ _ _ _ _)).trans (canon_B_6 (Ix := Ix) (Name := Name) (U := U) (Lvl := Lvl) 𝒱₀ c _ _ _ _ _ _ _ _ _ _ _ _ _ _ _ _ _ _ _ _ _ _ _ _ _)
  unfold owns; iexists _; isplitr
  swap; · iexact H7
  ipureintro; exact (View.read_writes_eq_canon _ _ _ (cover_B_7 (Ix := Ix) (Name := Name) (U := U) (Lvl := Lvl) 𝒱₀ c _ _ _ _ _ _ _ _ _ _ _ _ _ _ _ _ _ _ _ _ _ _ _ _ _)).trans (canon_B_7 (Ix := Ix) (Name := Name) (U := U) (Lvl := Lvl) 𝒱₀ c _ _ _ _ _ _ _ _ _ _ _ _ _ _ _ _ _ _ _ _ _ _ _ _ _)

/-- The body at any point. -/
theorem sound_body (𝒱₀ : Variants) (ι : Ix) (c : Dev nD) (t : Fin cfg2.N) :
    (bodyPre (Name := Name) (U := U) (Lvl := Lvl) V B ι c t : sProp 𝕄) ⊢ wp frame (wpE (defs₀ (F := F)) 𝒱₀ c none) Set.univ (bodyAt2 t) (fun _ => bodyPost (Name := Name) (U := U) (Lvl := Lvl) V B ι c t) := by
  by_cases h0 : t.val = 0
  · exact sound_body_A V B 𝒱₀ ι c t h0
  · exact sound_body_B V B 𝒱₀ ι c t h0

/-- The library's body obligation, at every point. -/
theorem body_obligation (𝒱₀ : Variants) (ι : Ix) (c : Dev nD) : BodyObligation (dat' c) (defs₀ (F := F)) 𝒱₀ ι Set.univ := fun t => by
  rw [bigSep_W2, bigSep_W2]
  exact sound_body V B 𝒱₀ ι c t

/-- The invariant at the first point, from the generator register and the scoped buffers no window stages (the
    prefetched tables: none); and the last point gives both back. -/
theorem hin {pre : sProp 𝕄} (c : Dev nD) :
    iprop((∃ r, prngReg c r) ∗ pre ∗ Pipeline.scopedRest (Ix := Ix) (Name := Name) (U := U) (Lvl := Lvl) (Val := Elt F) spec2 c) ⊢ (dat' c).Φ 0 := by
  rw [show (dat' c).Φ 0 = Φ2 c from rfl]; unfold Φ2
  iintro ⟨Hp, -, Hr⟩
  isplitl [Hr]; · iexact Hr
  iexact Hp
theorem hout (c : Dev nD) :
    (dat' c).Φ (Fin.last cfg2.N) ⊢ iprop((∃ r, prngReg c r) ∗ Pipeline.scopedRest (Ix := Ix) (Name := Name) (U := U) (Lvl := Lvl) (Val := Elt F) spec2 c) := by
  rw [show (dat' c).Φ (Fin.last cfg2.N) = Φ2 c from rfl]; unfold Φ2
  iintro ⟨Hr, Hp⟩
  isplitl [Hp]; · iexact Hp
  iexact Hr

end Cert.KernelIdeal.Reg2

end
-- ==== Proof.Reg3Base.lean ====
/-
  The last fused layer (batch normalisation in scale-and-shift form, dense layer, rectifier, the dot with the
  output weights, bias and logistic function), as a pipeline region entered at arbitrary array contents `V`.
-/
import proofs.«209176_g73847667688168_cont_9to1_m_420_10_alg».proof.Proof.Gen.KernelIdeal.Launch
import proofs.«209176_g73847667688168_cont_9to1_m_420_10_alg».proof.Proof.Gen.KernelIdeal.Skeleton
import proofs.«209176_g73847667688168_cont_9to1_m_420_10_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

/-- Window `w`'s block at point `t`, read off its array at the entry contents. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before_0_of {c : Dev nD} (dat : Dat τ (Elt F) Ix Name U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Ix Name U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Ix Name U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Ix Name U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Ix Name U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Ix Name U Lvl cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_6_of {c : Dev nD} (dat : Dat τ (Elt F) Ix Name U Lvl cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_7_of {c : Dev nD} (dat : Dat τ (Elt F) Ix Name U Lvl cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg3.N) : Memref sig .tc .vmem S512x1024 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S2x1024 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x1024 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1024x1024 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x1024 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x1024 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S1x1 .f32 := win3_7.stage (cfg3.slots t 7)
abbrev hs7 (t : Fin cfg3.N) : (ms7 t).IsWhole := hstage3_7 ((cfg3.slots t 7).cast nbuf3_7)
abbrev ms8 (t : Fin cfg3.N) : Memref sig .tc .vmem S512x1 .f32 := win3_8.stage (cfg3.slots t 8)
abbrev hs8 (t : Fin cfg3.N) : (ms8 t).IsWhole := hstage3_8 ((cfg3.slots t 8).cast nbuf3_8)

/-- The pieces a run of the body leaves in its output buffer (last store first), with the statement the run proves of them. -/
structure Found (P : List (View.Piece (Elt F) S512x1 .f32) → Prop) where
  L8 : List (View.Piece (Elt F) S512x1 .f32)
  run : P L8

end Cert.KernelIdeal.Reg3

end
-- ==== Proof.Reg3Run.lean ====
/-
  The body of the last fused layer run symbolically.
-/
import proofs.«209176_g73847667688168_cont_9to1_m_420_10_alg».proof.Proof.Reg3Base

set_option maxRecDepth 16384

noncomputable section

namespace Cert.KernelIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- What the body's store leaves in its output buffer, with the proof that on whole staging memrefs, the inputs' at
    their contents, the body runs to the continuation holding the inputs' as they were and the output's buffer with
    its piece written. -/
noncomputable def kernelRun (𝒱₀ : Variants) (c : Dev nD) (i : grid3.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S512x1 .f32) (harg9 : arg9.IsWhole)
    (x0 : Vec F S512x1024 .f32) (x1 : Vec F S2x1024 .f32) (x2 : Vec F S1x1024 .f32) (x3 : Vec F S1x1024 .f32) (x4 : Vec F S1024x1024 .f32) (x5 : Vec F S1x1024 .f32) (x6 : Vec F S1x1024 .f32) (x7 : Vec F S1x1 .f32) :
    Found (F := F) fun L8 =>
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) 𝒱₀ c none) E (cc3__k3_body i arg1 harg1 arg2 harg2 arg3 harg3 arg4 harg4 arg5 harg5 arg6 harg6 arg7 harg7 arg8 harg8 arg9 harg9) K := by
  refine ⟨?L8, ?run⟩
  case run =>
  intro E K
  simp only [cc3__k3_body_eq_skeleton]; unfold cc3__k3_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; iexact H8

end Cert.KernelIdeal.Reg3

end
-- ==== Proof.Reg3Dat.lean ====
/-
  The last fused layer as a pipeline region entered at arbitrary array contents `V`: what each window's
  staging buffer holds after the body at each of the 32 row blocks.  The output block is the logistic
  function of the rectified dense layer of the normalised input block, dotted with the output weights, plus
  the output bias.
-/
import proofs.«209176_g73847667688168_cont_9to1_m_420_10_alg».proof.Proof.Reg3Base

set_option maxRecDepth 16384

noncomputable section

namespace Cert.KernelIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The two rows of a statistics block: the column sums, and the column sums of squares. -/
abbrev rS0 : Rect S2x1024 := Rect.unit (s := S2x1024) ![0, 0] S1x1024.size inb_S2x1024_S1x1024_0_0
abbrev rS1 : Rect S2x1024 := Rect.unit (s := S2x1024) ![1, 0] S1x1024.size inb_S2x1024_S1x1024_1_0

/-- The output block of one row block, from the input block `x0`, the incoming statistics `x1`, scale `x2`, shift
    `x3`, weights `x4`, bias `x5`, output weights `x6` and output bias `x7`. -/
def blockOut (x0 : Vec F S512x1024 .f32) (x1 : Vec F S2x1024 .f32) (x2 : Vec F S1x1024 .f32) (x3 : Vec F S1x1024 .f32) (x4 : Vec F S1024x1024 .f32) (x5 : Vec F S1x1024 .f32) (x6 : Vec F S1x1024 .f32) (x7 : Vec F S1x1 .f32) : FVec F S512x1 .f32 :=
  k3_pay1 (k3_pay2 (View.ld x1 rS0) (View.ld x1 rS1) x2 x3 x0 x4 x5 x6) x7

variable (V : (c : Dev nD) → (b : Ref sig .tc) → Buf (Elt F) ((c : Thread nD τ).loc b))

/-- The region's invariant on core `c`: the core's scoped buffers that are no staging buffer of this pipeline,
    untouched, and its generator register at some state. -/
def Φ3 (c : Dev nD) : sProp 𝕄 :=
  iprop(Pipeline.scopedRest (Ix := Ix) (Name := Name) (U := U) (Lvl := Lvl) (Val := Elt F) spec3 c ∗ ∃ r, prngReg c r)

/-- The proof data of the pipeline on core `c`: the arrays as the region finds them; after the body at point `t` each
    input's buffer at its block and the output's at the block's output; nothing owed, the recorded wait pairs bounded
    by the given set `B` throughout; full shares. -/
def dat (B : Set (SemLoc sig × Ix)) (c : Dev nD) : Dat τ (Elt F) Ix Name U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => blockOut (iblk V c 0 t) (iblk V c 1 t) (iblk V c 2 t) (iblk V c 3 t) (iblk V c 4 t) (iblk V c 5 t) (iblk V c 6 t) (iblk V c 7 t)
  Φ _ := Φ3 c
  q _ := fullShare
  owed _ := 0
  recorded _ := B

variable (B : Set (SemLoc sig × Ix))
local notation "dat'" => dat (Name := Name) (U := U) (Lvl := Lvl) V B

theorem A_eq (c : Dev nD) (w : Fin cfg3.W) : (dat' c).A w = V c (Pipeline.arrRef spec3 w) := by
  dsimp only [dat]

theorem after_0 (c : Dev nD) (t : Fin cfg3.N) : (dat' c).after 0 t = iblk V c 0 t := by dsimp only [dat]
theorem after_1 (c : Dev nD) (t : Fin cfg3.N) : (dat' c).after 1 t = iblk V c 1 t := by dsimp only [dat]
theorem after_2 (c : Dev nD) (t : Fin cfg3.N) : (dat' c).after 2 t = iblk V c 2 t := by dsimp only [dat]
theorem after_3 (c : Dev nD) (t : Fin cfg3.N) : (dat' c).after 3 t = iblk V c 3 t := by dsimp only [dat]
theorem after_4 (c : Dev nD) (t : Fin cfg3.N) : (dat' c).after 4 t = iblk V c 4 t := by dsimp only [dat]
theorem after_5 (c : Dev nD) (t : Fin cfg3.N) : (dat' c).after 5 t = iblk V c 5 t := by dsimp only [dat]
theorem after_6 (c : Dev nD) (t : Fin cfg3.N) : (dat' c).after 6 t = iblk V c 6 t := by dsimp only [dat]
theorem after_7 (c : Dev nD) (t : Fin cfg3.N) : (dat' c).after 7 t = iblk V c 7 t := by dsimp only [dat]
theorem after_8 (c : Dev nD) (t : Fin cfg3.N) : (dat' c).after 8 t = blockOut (iblk V c 0 t) (iblk V c 1 t) (iblk V c 2 t) (iblk V c 3 t) (iblk V c 4 t) (iblk V c 5 t) (iblk V c 6 t) (iblk V c 7 t) := by dsimp only [dat]

theorem before_0 (c : Dev nD) (t : Fin cfg3.N) (d) : (dat' c).before 0 t d = iblk V c 0 t :=
  before_0_of V (dat' c) (A_eq V B c 0) (after_0 V B c) t d
theorem before_1 (c : Dev nD) (t : Fin cfg3.N) (d) : (dat' c).before 1 t d = iblk V c 1 t :=
  before_1_of V (dat' c) (A_eq V B c 1) (after_1 V B c) t d
theorem before_2 (c : Dev nD) (t : Fin cfg3.N) (d) : (dat' c).before 2 t d = iblk V c 2 t :=
  before_2_of V (dat' c) (A_eq V B c 2) (after_2 V B c) t d
theorem before_3 (c : Dev nD) (t : Fin cfg3.N) (d) : (dat' c).before 3 t d = iblk V c 3 t :=
  before_3_of V (dat' c) (A_eq V B c 3) (after_3 V B c) t d
theorem before_4 (c : Dev nD) (t : Fin cfg3.N) (d) : (dat' c).before 4 t d = iblk V c 4 t :=
  before_4_of V (dat' c) (A_eq V B c 4) (after_4 V B c) t d
theorem before_5 (c : Dev nD) (t : Fin cfg3.N) (d) : (dat' c).before 5 t d = iblk V c 5 t :=
  before_5_of V (dat' c) (A_eq V B c 5) (after_5 V B c) t d
theorem before_6 (c : Dev nD) (t : Fin cfg3.N) (d) : (dat' c).before 6 t d = iblk V c 6 t :=
  before_6_of V (dat' c) (A_eq V B c 6) (after_6 V B c) t d
theorem before_7 (c : Dev nD) (t : Fin cfg3.N) (d) : (dat' c).before 7 t d = iblk V c 7 t :=
  before_7_of V (dat' c) (A_eq V B c 7) (after_7 V B c) t d

theorem owed_zero (c : Dev nD) (t : Fin (cfg3.N + 1)) : (dat' c).owed t = 0 := rfl
theorem Φ_eq (c : Dev nD) (t : Fin (cfg3.N + 1)) : (dat' c).Φ t = Φ3 c := rfl
theorem q_eq (c : Dev nD) (w : Fin cfg3.W) : (dat' c).q w = fullShare := rfl
theorem recorded_eq (c : Dev nD) (t : Fin (cfg3.N + 1)) : (dat' c).recorded t = B := rfl

end Cert.KernelIdeal.Reg3

end
-- ==== Proof.Reg3Body.lean ====
/-
  The last fused layer as a pipeline region: the body's obligation at every row block.  The run of the body
  leaves in the output buffer exactly the closed form the proof data names.
-/
import proofs.«209176_g73847667688168_cont_9to1_m_420_10_alg».proof.Proof.Reg3Run
import proofs.«209176_g73847667688168_cont_9to1_m_420_10_alg».proof.Proof.Reg3Dat
import Idealize.ShloMosaic.Lib.Pipeline.Value

set_option maxRecDepth 16384

noncomputable section

namespace Cert.KernelIdeal.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

local notation "run3" => kernelRun (F := F) (Ix := Ix) (Name := Name) (U := U) (Lvl := Lvl)

theorem hz : (![0, 0] : Fin 2 → Nat) = fun _ => 0 := funext fun a => by fin_cases a <;> rfl

section Pieces
variable (𝒱₀ : Variants) (c : Dev nD) (i : grid3.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S512x1 .f32) (harg9 : arg9.IsWhole)
  (x0 : Vec F S512x1024 .f32) (x1 : Vec F S2x1024 .f32) (x2 : Vec F S1x1024 .f32) (x3 : Vec F S1x1024 .f32) (x4 : Vec F S1024x1024 .f32) (x5 : Vec F S1x1024 .f32) (x6 : Vec F S1x1024 .f32) (x7 : Vec F S1x1 .f32)

/-- The run's piece tiles the output buffer, so it covers it. -/
theorem cover_8 (y : S512x1.Idx) : ∃ pc ∈ (run3 𝒱₀ c i arg1 harg1 arg2 harg2 arg3 harg3 arg4 harg4 arg5 harg5 arg6 harg6 arg7 harg7 arg8 harg8 arg9 harg9 x0 x1 x2 x3 x4 x5 x6 x7).L8, y ∈ pc.1.set :=
  View.cover_of_tiledL (run3 𝒱₀ c i arg1 harg1 arg2 harg2 arg3 harg3 arg4 harg4 arg5 harg5 arg6 harg6 arg7 harg7 arg8 harg8 arg9 harg9 x0 x1 x2 x3 x4 x5 x6 x7).L8 S512x1.size (by sl_kernel_rfl) y

/-- What the run's piece reads back as: the closed form. -/
theorem canon_8 : View.canon (run3 𝒱₀ c i arg1 harg1 arg2 harg2 arg3 harg3 arg4 harg4 arg5 harg5 arg6 harg6 arg7 harg7 arg8 harg8 arg9 harg9 x0 x1 x2 x3 x4 x5 x6 x7).L8 = blockOut x0 x1 x2 x3 x4 x5 x6 x7 := by
  unfold kernelRun; dsimp only; sl_unfold_words
  rw [View.canon_unit_zero hz]
  simp only [View.readAt_eq_ld, Memref.IsWhole.read_unread, View.ld_unit_zero (S := S512x1024) hz, View.ld_unit_zero (S := S1x1024) hz, View.ld_unit_zero (S := S1024x1024) hz, View.ld_unit_zero (S := S1x1) hz]
  rfl

end Pieces

variable (V : (c : Dev nD) → (b : Ref sig .tc) → Buf (Elt F) ((c : Thread nD τ).loc b))
variable (B : Set (SemLoc sig × Ix))
local notation "dat'" => dat (Name := Name) (U := U) (Lvl := Lvl) V B

/-- What the body is called with at point `t`, the windows one by one, -/
def bodyPre (ι : Ix) (c : Dev nD) (t : Fin cfg3.N) : sProp 𝕄 :=
  iprop((dat' c).Φ t.castSucc ∗ (dat' c).owesAt ι t.castSucc
    ∗ (∃ d, owns (c : Thread nD τ) (st3_0 t) fullShare ((dat' c).before 0 t d))
    ∗ (∃ d, owns (c : Thread nD τ) (st3_1 t) fullShare ((dat' c).before 1 t d))
    ∗ (∃ d, owns (c : Thread nD τ) (st3_2 t) fullShare ((dat' c).before 2 t d))
    ∗ (∃ d, owns (c : Thread nD τ) (st3_3 t) fullShare ((dat' c).before 3 t d))
    ∗ (∃ d, owns (c : Thread nD τ) (st3_4 t) fullShare ((dat' c).before 4 t d))
    ∗ (∃ d, owns (c : Thread nD τ) (st3_5 t) fullShare ((dat' c).before 5 t d))
    ∗ (∃ d, owns (c : Thread nD τ) (st3_6 t) fullShare ((dat' c).before 6 t d))
    ∗ (∃ d, owns (c : Thread nD τ) (st3_7 t) fullShare ((dat' c).before 7 t d))
    ∗ (∃ d, owns (c : Thread nD τ) (st3_8 t) fullShare ((dat' c).before 8 t d)))

/-- and what it returns. -/
def bodyPost (ι : Ix) (c : Dev nD) (t : Fin cfg3.N) : sProp 𝕄 :=
  iprop((dat' c).Φ t.succ ∗ (dat' c).owesAt ι t.succ
    ∗ owns (c : Thread nD τ) (st3_0 t) fullShare ((dat' c).after 0 t)
    ∗ owns (c : Thread nD τ) (st3_1 t) fullShare ((dat' c).after 1 t)
    ∗ owns (c : Thread nD τ) (st3_2 t) fullShare ((dat' c).after 2 t)
    ∗ owns (c : Thread nD τ) (st3_3 t) fullShare ((dat' c).after 3 t)
    ∗ owns (c : Thread nD τ) (st3_4 t) fullShare ((dat' c).after 4 t)
    ∗ owns (c : Thread nD τ) (st3_5 t) fullShare ((dat' c).after 5 t)
    ∗ owns (c : Thread nD τ) (st3_6 t) fullShare ((dat' c).after 6 t)
    ∗ owns (c : Thread nD τ) (st3_7 t) fullShare ((dat' c).after 7 t)
    ∗ owns (c : Thread nD τ) (st3_8 t) fullShare ((dat' c).after 8 t))

set_option maxHeartbeats 1600000 in
/-- The body at any point. -/
theorem sound_body (𝒱₀ : Variants) (ι : Ix) (c : Dev nD) (t : Fin cfg3.N) :
    (bodyPre (Name := Name) (U := U) (Lvl := Lvl) V B ι c t : sProp 𝕄) ⊢ wp frame (wpE (defs₀ (F := F)) 𝒱₀ c none) Set.univ (bodyAt3 t) (fun _ => bodyPost (Name := Name) (U := U) (Lvl := Lvl) V B ι c t) := by
  unfold bodyPre bodyPost bodyAt3
  simp only [before_0, before_1, before_2, before_3, before_4, before_5, before_6, before_7]
  rw [show (dat' c).Φ t.succ = (dat' c).Φ t.castSucc from rfl,
    show (dat' c).owesAt ι t.succ = (dat' c).owesAt ι t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run3 𝒱₀ c (grid3.coords t) _ _ _ _ _ _ _ _ _ _ _ _ _ _ _ _ _ _ (iblk V c 0 t) (iblk V c 1 t) (iblk V c 2 t) (iblk V c 3 t) (iblk V c 4 t) (iblk V c 5 t) (iblk V c 6 t) (iblk V c 7 t)).run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact (View.read_writes_eq_canon _ _ _ (cover_8 (Ix := Ix) (Name := Name) (U := U) (Lvl := Lvl) 𝒱₀ c _ _ _ _ _ _ _ _ _ _ _ _ _ _ _ _ _ _ _ _ _ _ _ _ _ _ _)).trans (canon_8 (Ix := Ix) (Name := Name) (U := U) (Lvl := Lvl) 𝒱₀ c _ _ _ _ _ _ _ _ _ _ _ _ _ _ _ _ _ _ _ _ _ _ _ _ _ _ _)

/-- The library's body obligation, at every point. -/
theorem body_obligation (𝒱₀ : Variants) (ι : Ix) (c : Dev nD) : BodyObligation (dat' c) (defs₀ (F := F)) 𝒱₀ ι Set.univ := fun t => by
  rw [bigSep_W3, bigSep_W3]
  exact sound_body V B 𝒱₀ ι c t

/-- The invariant at the first point, from the generator register and the scoped buffers no window stages (the
    prefetched tables: none); and the last point gives both back. -/
theorem hin {pre : sProp 𝕄} (c : Dev nD) :
    iprop((∃ r, prngReg c r) ∗ pre ∗ Pipeline.scopedRest (Ix := Ix) (Name := Name) (U := U) (Lvl := Lvl) (Val := Elt F) spec3 c) ⊢ (dat' c).Φ 0 := by
  rw [show (dat' c).Φ 0 = Φ3 c from rfl]; unfold Φ3
  iintro ⟨Hp, -, Hr⟩
  isplitl [Hr]; · iexact Hr
  iexact Hp
theorem hout (c : Dev nD) :
    (dat' c).Φ (Fin.last cfg3.N) ⊢ iprop((∃ r, prngReg c r) ∗ Pipeline.scopedRest (Ix := Ix) (Name := Name) (U := U) (Lvl := Lvl) (Val := Elt F) spec3 c) := by
  rw [show (dat' c).Φ (Fin.last cfg3.N) = Φ3 c from rfl]; unfold Φ3
  iintro ⟨Hr, Hp⟩
  isplitl [Hp]; · iexact Hp
  iexact Hr

end Cert.KernelIdeal.Reg3

end
-- ==== Proof.KTailRegs.lean ====
/-
  The three pallas_call regions of the TensorCore program as segments over a thread state that holds every
  unscoped buffer at a valuation, beside the generator register and the core owing nothing with its recorded
  waits below the next handshake's level. Each region is stated over an arbitrary entry valuation; its exit
  valuation has the region's arrays at what the pipeline leaves and every other buffer as entered.
-/
import proofs.«209176_g73847667688168_cont_9to1_m_420_10_alg».proof.Proof.KVals
import proofs.«209176_g73847667688168_cont_9to1_m_420_10_alg».proof.Proof.Reg1Frame
import proofs.«209176_g73847667688168_cont_9to1_m_420_10_alg».proof.Proof.Reg2Body
import proofs.«209176_g73847667688168_cont_9to1_m_420_10_alg».proof.Proof.Reg3Body
import Idealize.ShloMosaic.Lib.Pipeline.FrameSuffix
import Idealize.ShloMosaic.Lib.Pipeline.RegionsLoop

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-- A valuation read at the TensorCore's references. -/
abbrev rd (W : Dev nD → Valuation τ sig (Elt F)) : (c : Dev nD) → (b : Ref sig .tc) → Buf (Elt F) ((c : Thread nD τ).loc b) :=
  fun c b => W c b

/-- The level assignment's cells and levels, and the index the pipelines' credit tokens carry. -/
abbrev LL : GSem nD τ sig → Finset (HIx 1) := (K (F := F)).L
abbrev lvv : GSem nD τ sig → HIx 1 → ℕ := (K (F := F)).lev
abbrev ι₀ : HIx 1 := none

/-- A recorded set below level 8 lies within a region's bound. -/
theorem sub_bound_of_wbelow (c : Dev nD) (W : Waits sig (HIx 1)) (B' : Set (SemLoc sig × HIx 1))
    (h : (K (F := F)).WBelow (SparseCore.T c) W 8) : (↑W : Set (SemLoc sig × HIx 1)) ⊆ Brec (F := F) c ∪ B' :=
  fun p hp => Or.inl (h p hp)

/-- A recorded set within a region's bound is below level 8: the pipeline's own waits are recorded at the index that
    carries level zero. -/
theorem wbelow_of_sub_bound (c : Dev nD) (W : Waits sig (HIx 1)) (cfg : Pipeline.Cfg sig Λ₀)
    (h : (↑W : Set (SemLoc sig × HIx 1)) ⊆ Brec (F := F) c ∪ cfg.waitPairs ι₀) : (K (F := F)).WBelow (SparseCore.T c) W 8 := by
  intro p hp
  rcases h hp with h | ⟨w, s, rfl⟩
  · exact h
  · exact Nat.zero_le _

/-- The thread state at a boundary: every unscoped buffer at the valuation, and what rides along. -/
abbrev St (W : Dev nD → Valuation τ sig (Elt F)) (c : Dev nD) : sProp 𝕄 :=
  iprop(StableHlo.held (c : Thread nD τ) (Pipeline.ucRefs τ sig) (W c) ∗ RR c)

/-- A host stretch as a segment: the operations over the unscoped references from the contents `W`, the rest of the
    thread state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lvv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

section Regs

variable (W1 W2 W3 : Dev nD → Valuation τ sig (Elt F))

/-- Every pipeline's proof data, each at its region's entry contents. -/
def pdats : (p : Fin 3) → (c : Dev nD) → Dat τ (Elt F) (HIx 1) ℕ UU ℕ (Pipeline.pin (pcfgs (F := F)) adm p) c
  | ⟨0, _⟩ => fun c => Reg1.dat (rd W1) (Brec (F := F) c) c
  | ⟨1, _⟩ => fun c => Reg2.dat (rd W2) (Brec (F := F) c) c
  | ⟨2, _⟩ => fun c => Reg3.dat (rd W3) (Brec (F := F) c) c

/-- Region two's exit valuation: its arrays at what the pipeline leaves, every other buffer as entered. -/
def X2 (c : Dev nD) : Valuation τ sig (Elt F) :=
  Pipeline.withArrays spec2 c (W2 c) fun w => (Reg2.dat (Name := ℕ) (U := UU) (Lvl := ℕ) (rd W2) (Brec (F := F) c) c).arrAt w cfg2.N
theorem X2_arr (c : Dev nD) (w : Fin cfg2.W) :
    X2 W2 c (Proc.devRef .tc (Pipeline.arrRef spec2 w))
      = (Reg2.dat (Name := ℕ) (U := UU) (Lvl := ℕ) (rd W2) (Brec (F := F) c) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 W2 c (Proc.devRef .tc b) = W2 c (Proc.devRef .tc b) := by
  unfold X2; exact Pipeline.withArrays_of_ne spec2 c _ _ b hb
theorem hF2 (c : Dev nD) (w : Fin cfg2.W) :
    (Reg2.dat (Name := ℕ) (U := UU) (Lvl := ℕ) (rd W2) (Brec (F := F) c) c).arrAt w cfg2.N = rd (X2 W2) c (Pipeline.arrRef spec2 w) :=
  (X2_arr W2 c w).symm
theorem hrest2 (c : Dev nD) : ∀ b, b ∉ Finset.univ.image (Pipeline.arrRef spec2) → rd (X2 W2) c b = rd W2 c b :=
  fun b hb => X2_of_ne W2 c b fun w e => hb (Finset.mem_image.mpr ⟨w, Finset.mem_univ _, e⟩)

set_option backward.isDefEq.respectTransparency.types false in
/-- REGION two over the thread state: entered from every unscoped buffer at `W2`, left at `X2 W2`. Its arrays
    are split out of the unscoped buffers and put back at the exit contents; the generator register goes into the
    invariant and comes out; nothing is owed; the recorded waits stay below the next handshake's level. -/
def reg2 : Pipeline.RegionSeg (pcfgs (F := F)) adm (pdats W1 W2 W3) ι₀ defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (Reg2.body_obligation (rd W2) (Brec (F := F) c) 𝒱₀ ι₀ c).loose
  hwaits := Pipeline.hwaits_of_owed_zero _ _ _ _ (LL (F := F)) (lvv (F := F)) 1 fun _ _ => rfl
  pre c := St W2 c
  post c := St (X2 W2) c
  X c := iprop(∃ r, prngReg c r)
  Y c := iprop(∃ r, prngReg c r)
  Z c := Pipeline.unscopedRest (Ix := HIx 1) (Name := ℕ) (U := UU) (Lvl := ℕ) spec2 c (rd W2 c)
  hentry c := by
    rw [Pipeline.ownSems0_none]
    have hsplit := Pipeline.arrays_of_unscopedBufs (p := 1) (pcfgs (F := F)) adm (pdats W1 W2 W3) launch2.win launch2.arr_whole c
      ((pdats W1 W2 W3 1 c).share_full fun _ => rfl) (rd W2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_wbelow c W _ hW
      iexact HO
    isplitl [Hp]; · iexact Hp
    iexact Hrest
  hin c := Reg2.hin (rd W2) (Brec (F := F) c) c
  hout c := by
    rw [Pipeline.ownSems0_none]
    refine (Reg2.hout (rd W2) (Brec (F := F) c) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats W1 W2 W3) ((pdats W1 W2 W3 1 c).share_full fun _ => rfl)
      (rd W2 c) (rd (X2 W2) c) ((pdats W1 W2 W3 1 c).arrAt · cfg2.N) (hF2 W2 c) (hrest2 W2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow_of_sub_bound c W _ hW
    iexact HO

/-- Region three's exit valuation: its arrays at what the pipeline leaves, every other buffer as entered. -/
def X3 (c : Dev nD) : Valuation τ sig (Elt F) :=
  Pipeline.withArrays spec3 c (W3 c) fun w => (Reg3.dat (Name := ℕ) (U := UU) (Lvl := ℕ) (rd W3) (Brec (F := F) c) c).arrAt w cfg3.N
theorem X3_arr (c : Dev nD) (w : Fin cfg3.W) :
    X3 W3 c (Proc.devRef .tc (Pipeline.arrRef spec3 w))
      = (Reg3.dat (Name := ℕ) (U := UU) (Lvl := ℕ) (rd W3) (Brec (F := F) c) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 W3 c (Proc.devRef .tc b) = W3 c (Proc.devRef .tc b) := by
  unfold X3; exact Pipeline.withArrays_of_ne spec3 c _ _ b hb
theorem hF3 (c : Dev nD) (w : Fin cfg3.W) :
    (Reg3.dat (Name := ℕ) (U := UU) (Lvl := ℕ) (rd W3) (Brec (F := F) c) c).arrAt w cfg3.N = rd (X3 W3) c (Pipeline.arrRef spec3 w) :=
  (X3_arr W3 c w).symm
theorem hrest3 (c : Dev nD) : ∀ b, b ∉ Finset.univ.image (Pipeline.arrRef spec3) → rd (X3 W3) c b = rd W3 c b :=
  fun b hb => X3_of_ne W3 c b fun w e => hb (Finset.mem_image.mpr ⟨w, Finset.mem_univ _, e⟩)

set_option backward.isDefEq.respectTransparency.types false in
/-- REGION three over the thread state: entered from every unscoped buffer at `W3`, left at `X3 W3`. Its arrays
    are split out of the unscoped buffers and put back at the exit contents; the generator register goes into the
    invariant and comes out; nothing is owed; the recorded waits stay below the next handshake's level. -/
def reg3 : Pipeline.RegionSeg (pcfgs (F := F)) adm (pdats W1 W2 W3) ι₀ defs₀ 𝒱₀ (LL (F := F)) (lvv (F := F)) 2 where
  win := launch3.win.to₀
  block_pos := launch3.block_pos
  stage_whole := launch3.stage_whole
  K := PEmpty
  osem k := k.elim
  ho := Pipeline.OwnSemFacts.none _
  hbody c := (Reg3.body_obligation (rd W3) (Brec (F := F) c) 𝒱₀ ι₀ c).loose
  hwaits := Pipeline.hwaits_of_owed_zero _ _ _ _ (LL (F := F)) (lvv (F := F)) 2 fun _ _ => rfl
  pre c := St W3 c
  post c := St (X3 W3) c
  X c := iprop(∃ r, prngReg c r)
  Y c := iprop(∃ r, prngReg c r)
  Z c := Pipeline.unscopedRest (Ix := HIx 1) (Name := ℕ) (U := UU) (Lvl := ℕ) spec3 c (rd W3 c)
  hentry c := by
    rw [Pipeline.ownSems0_none]
    have hsplit := Pipeline.arrays_of_unscopedBufs (p := 2) (pcfgs (F := F)) adm (pdats W1 W2 W3) launch3.win launch3.arr_whole c
      ((pdats W1 W2 W3 2 c).share_full fun _ => rfl) (rd W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_wbelow c W _ hW
      iexact HO
    isplitl [Hp]; · iexact Hp
    iexact Hrest
  hin c := Reg3.hin (rd W3) (Brec (F := F) c) c
  hout c := by
    rw [Pipeline.ownSems0_none]
    refine (Reg3.hout (rd W3) (Brec (F := F) c) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats W1 W2 W3) ((pdats W1 W2 W3 2 c).share_full fun _ => rfl)
      (rd W3 c) (rd (X3 W3) c) ((pdats W1 W2 W3 2 c).arrAt · cfg3.N) (hF3 W3 c) (hrest3 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow_of_sub_bound c W _ hW
    iexact HO

end Regs

end Cert.KernelIdeal.Run

end
-- ==== Proof.KTailReg1.lean ====
/-
  The first pallas_call region as a segment. Two of its windows read the pooled array (the first half of the rows
  and the second half), so the array is held half by each: entering, the full share is split in two; leaving, the two
  halves are joined. The exit valuation has the region's two output arrays at what the pipeline leaves and every
  other buffer as entered.
-/
import proofs.«209176_g73847667688168_cont_9to1_m_420_10_alg».proof.Proof.KTailRegs

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

section Reg1

variable (W1 W2 W3 : Dev nD → Valuation τ sig (Elt F))

/-- The first region's proof data on core `c`. -/
abbrev D1 (c : Dev nD) : Dat τ (Elt F) (HIx 1) ℕ UU ℕ cfg1 c := Reg1.dat (rd W1) (Brec (F := F) c) c

/-- Region one's exit valuation: the two output arrays at what the pipeline leaves, every other buffer as entered. -/
def X1 (c : Dev nD) : Valuation τ sig (Elt F) := fun b =>
  if h6 : b = Proc.devRef .tc main_v15_0 then
    cast (congrArg (fun b' : DevRef τ sig => b'.ty.Contents (Elt F)) h6.symm) ((D1 W1 c).arrAt 6 cfg1.N)
  else if h7 : b = Proc.devRef .tc main_v15_1 then
    cast (congrArg (fun b' : DevRef τ sig => b'.ty.Contents (Elt F)) h7.symm) ((D1 W1 c).arrAt 7 cfg1.N)
  else W1 c b

theorem X1_v15_0 (c : Dev nD) : X1 W1 c (Proc.devRef .tc main_v15_0) = (D1 W1 c).arrAt 6 cfg1.N := by
  unfold X1; rw [dif_pos rfl]; rfl
theorem X1_v15_1 (c : Dev nD) : X1 W1 c (Proc.devRef .tc main_v15_1) = (D1 W1 c).arrAt 7 cfg1.N := by
  unfold X1; rw [dif_neg (StableHlo.devRef_ne_of_ne (by decide)), dif_pos rfl]; rfl
theorem X1_of_ne (c : Dev nD) (b : DevRef τ sig) (h6 : b ≠ Proc.devRef .tc main_v15_0) (h7 : b ≠ Proc.devRef .tc main_v15_1) :
    X1 W1 c b = W1 c b := by
  unfold X1; rw [dif_neg h6, dif_neg h7]

/-- The buffers behind the region's eight windows. -/
theorem arrImage1 : Finset.univ.image (Pipeline.arrRef spec1)
    = ({main_v5, main_arg0, main_arg1, main_arg3, main_v6, main_v15_0, main_v15_1} : Finset (Ref sig .tc)) := by decide

set_option maxHeartbeats 1600000 in
/-- The region's arrays at contents read off a valuation are the buffers behind them at that valuation: the pooled
    array's two halves make the whole. -/
theorem arrays1_iff (c : Dev nD) (V : (b : Ref sig .tc) → Buf (Elt F) ((c : Thread nD τ).loc b)) :
    (D1 W1 c).arrays (fun w => V (Pipeline.arrRef spec1 w)) ⊣⊢ (Pipeline.arrBufs spec1 c V : sProp 𝕄) := by
  have h1 : (D1 W1 c).arrays (fun w => V (Pipeline.arrRef spec1 w))
      = bigSep Finset.univ fun w : Fin 8 =>
          (View.loc (c : Thread nD τ) (cfg1.win w).arr.view ↦{(D1 W1 c).share w} V (Pipeline.arrRef spec1 w) : sProp 𝕄) := by
    unfold Pipeline.Dat.arrays
    exact bigSep_congr fun w _ => by rw [(arr_whole1 w).set_eq_univ]
  have h2 : (Pipeline.arrBufs spec1 c V : sProp 𝕄)
      = iprop(((c : Thread nD τ).loc main_v5 ↦{fullShare} V main_v5)
        ∗ ((c : Thread nD τ).loc main_arg0 ↦{fullShare} V main_arg0) ∗ ((c : Thread nD τ).loc main_arg1 ↦{fullShare} V main_arg1)
        ∗ ((c : Thread nD τ).loc main_arg3 ↦{fullShare} V main_arg3) ∗ ((c : Thread nD τ).loc main_v6 ↦{fullShare} V main_v6)
        ∗ ((c : Thread nD τ).loc main_v15_0 ↦{fullShare} V main_v15_0) ∗ ((c : Thread nD τ).loc main_v15_1 ↦{fullShare} V main_v15_1)) := by
    unfold Pipeline.arrBufs
    rw [arrImage1, bigSep_insert (by decide), bigSep_insert (by decide), bigSep_insert (by decide), bigSep_insert (by decide),
      bigSep_insert (by decide), bigSep_insert (by decide), bigSep_singleton]
    rfl
  rw [h1, bigSep_W1, h2]
  rw [Reg1.share_0, Reg1.share_1, Reg1.share_2, Reg1.share_3, Reg1.share_4, Reg1.share_5, Reg1.share_6, Reg1.share_7]
  have hsh : (View.loc (c : Thread nD τ) (cfg1.win 0).arr.view ↦{fullShare} V (Pipeline.arrRef spec1 0) : sProp 𝕄)
      ⊣⊢ iprop((View.loc (c : Thread nD τ) (cfg1.win 0).arr.view ↦{fullShare.left} V (Pipeline.arrRef spec1 0))
        ∗ (View.loc (c : Thread nD τ) (cfg1.win 0).arr.view ↦{fullShare.right} V (Pipeline.arrRef spec1 0))) :=
    pointsTo_share (PosShare.mem_left_op_right fullShare)
  constructor
  · iintro ⟨Ha, Hb, H2, H3, H4, H5, H6, H7⟩
    isplitl [Ha Hb]
    · iapply hsh.2; isplitl [Ha]; · iexact Ha
      iexact Hb
    isplitl [H2]; · iexact H2
    isplitl [H3]; · iexact H3
    isplitl [H4]; · iexact H4
    isplitl [H5]; · iexact H5
    isplitl [H6]; · iexact H6
    iexact H7
  · iintro ⟨H01, H2, H3, H4, H5, H6, H7⟩
    ihave H := hsh.1 $$ H01
    icases H with ⟨Ha, Hb⟩
    isplitl [Ha]; · iexact Ha
    isplitl [Hb]; · iexact Hb
    isplitl [H2]; · iexact H2
    isplitl [H3]; · iexact H3
    isplitl [H4]; · iexact H4
    isplitl [H5]; · iexact H5
    isplitl [H6]; · iexact H6
    iexact H7

/-- At the region's exit each array holds what the exit valuation says. -/
theorem hF1 (c : Dev nD) (w : Fin cfg1.W) : (D1 W1 c).arrAt w cfg1.N = rd (X1 W1) c (Pipeline.arrRef spec1 w) := by
  have hin : ∀ (w : Fin cfg1.W), (cfg1.win w).isOut = false →
      (∀ (h6 : Proc.devRef (τ := τ) .tc (Pipeline.arrRef spec1 w) ≠ Proc.devRef .tc main_v15_0)
        (h7 : Proc.devRef (τ := τ) .tc (Pipeline.arrRef spec1 w) ≠ Proc.devRef .tc main_v15_1),
        (D1 W1 c).arrAt w cfg1.N = rd (X1 W1) c (Pipeline.arrRef spec1 w)) := fun w hw h6 h7 =>
    (((D1 W1 c).arrAt_in w hw _).trans (Reg1.A_eq (rd W1) (Brec (F := F) c) c w)).trans (X1_of_ne W1 c _ h6 h7).symm
  match w with
  | ⟨0, _⟩ => exact hin 0 rfl (StableHlo.devRef_ne_of_ne (by decide)) (StableHlo.devRef_ne_of_ne (by decide))
  | ⟨1, _⟩ => exact hin 1 rfl (StableHlo.devRef_ne_of_ne (by decide)) (StableHlo.devRef_ne_of_ne (by decide))
  | ⟨2, _⟩ => exact hin 2 rfl (StableHlo.devRef_ne_of_ne (by decide)) (StableHlo.devRef_ne_of_ne (by decide))
  | ⟨3, _⟩ => exact hin 3 rfl (StableHlo.devRef_ne_of_ne (by decide)) (StableHlo.devRef_ne_of_ne (by decide))
  | ⟨4, _⟩ => exact hin 4 rfl (StableHlo.devRef_ne_of_ne (by decide)) (StableHlo.devRef_ne_of_ne (by decide))
  | ⟨5, _⟩ => exact hin 5 rfl (StableHlo.devRef_ne_of_ne (by decide)) (StableHlo.devRef_ne_of_ne (by decide))
  | ⟨6, _⟩ => exact (X1_v15_0 W1 c).symm
  | ⟨7, _⟩ => exact (X1_v15_1 W1 c).symm

/-- Every buffer that is no array of the region is as entered. -/
theorem hrest1 (c : Dev nD) : ∀ b, b ∉ Finset.univ.image (Pipeline.arrRef spec1) → rd (X1 W1) c b = rd W1 c b := fun b hb =>
  X1_of_ne W1 c _
    (fun e => hb (Finset.mem_image.mpr ⟨6, Finset.mem_univ _, (Proc.devRef_injective _ e).symm⟩))
    (fun e => hb (Finset.mem_image.mpr ⟨7, Finset.mem_univ _, (Proc.devRef_injective _ e).symm⟩))

/-- ENTRY: a core's unscoped buffers at the entry valuation are the region's arrays at their entry contents and the
    unscoped rest. -/
theorem split1 (c : Dev nD) :
    (unscopedBufs (Ix := HIx 1) (Name := ℕ) (U := UU) (Lvl := ℕ) c (rd W1 c) : sProp 𝕄)
      ⊢ iprop((D1 W1 c).arrays ((D1 W1 c).arrAt · 0) ∗ Pipeline.unscopedRest spec1 c (rd W1 c)) := by
  rw [Pipeline.unscopedBufs_split₀ cfgs (0 : Fin 3) winFacts₀1.arr_unscoped c (rd W1 c)]
  exact sep_mono (arrays1_iff W1 c (rd W1 c)).2 .rfl

/-- EXIT: the region's arrays at their final contents and the unscoped rest are the core's unscoped buffers at the exit
    valuation. -/
theorem join1 (c : Dev nD) :
    iprop((D1 W1 c).arrays ((D1 W1 c).arrAt · cfg1.N) ∗ Pipeline.unscopedRest spec1 c (rd W1 c))
      ⊢ (unscopedBufs (Ix := HIx 1) (Name := ℕ) (U := UU) (Lvl := ℕ) c (rd (X1 W1) c) : sProp 𝕄) := by
  rw [Pipeline.unscopedBufs_split₀ cfgs (0 : Fin 3) winFacts₀1.arr_unscoped c (rd (X1 W1) c)]
  refine sep_mono ?_ (Entails.of_eq ?_)
  · rw [show ((D1 W1 c).arrAt · cfg1.N) = fun w => rd (X1 W1) c (Pipeline.arrRef spec1 w) from funext (hF1 W1 c)]
    exact (arrays1_iff W1 c _).1
  · unfold Pipeline.unscopedRest
    exact bigSep_congr fun b hb => by rw [hrest1 W1 c b (Finset.mem_sdiff.mp hb).2]

set_option backward.isDefEq.respectTransparency.types false in
/-- REGION one over the thread state: entered from every unscoped buffer at `W1`, left at `X1 W1`. -/
def reg1 : Pipeline.RegionSeg (pcfgs (F := F)) adm (pdats W1 W2 W3) ι₀ defs₀ 𝒱₀ (LL (F := F)) (lvv (F := F)) 0 where
  win := winFacts₀1
  block_pos := block_pos1
  stage_whole := stage_whole1
  K := PEmpty
  osem k := k.elim
  ho := Pipeline.OwnSemFacts.none _
  hbody c := (Reg1.body_obligation (rd W1) (Brec (F := F) c) 𝒱₀ ι₀ c).loose
  hwaits := Pipeline.hwaits_of_owed_zero _ _ _ _ (LL (F := F)) (lvv (F := F)) 0 fun _ _ => rfl
  pre c := St W1 c
  post c := St (X1 W1) c
  X c := iprop(∃ r, prngReg c r)
  Y c := iprop(∃ r, prngReg c r)
  Z c := Pipeline.unscopedRest (Ix := HIx 1) (Name := ℕ) (U := UU) (Lvl := ℕ) spec1 c (rd W1 c)
  hentry c := by
    rw [Pipeline.ownSems0_none]
    have hsplit : (unscopedBufs (Ix := HIx 1) (Name := ℕ) (U := UU) (Lvl := ℕ) c (rd W1 c) : sProp 𝕄)
        ⊢ iprop((pdats W1 W2 W3 0 c).arrays ((pdats W1 W2 W3 0 c).arrAt · 0) ∗ Pipeline.unscopedRest spec1 c (rd W1 c)) := split1 W1 c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_wbelow c W _ hW
      iexact HO
    isplitl [Hp]; · iexact Hp
    iexact Hrest
  hin c := by
    refine BIBase.Entails.trans ?_ (Reg1.hin (rd W1) (Brec (F := F) c) c)
    iintro ⟨Hp, -, Hr⟩
    isplitl [Hp]; · iexact Hp
    iexact Hr
  hout c := by
    rw [Pipeline.ownSems0_none]
    refine (Reg1.hout (rd W1) (Brec (F := F) c) c).trans ?_
    iintro ⟨Hp, Hr⟩
    isplitl [Hp]; · iexact Hp
    isplitr; · iempintro
    iexact Hr
  hexit c := by
    have hjoin : iprop((pdats W1 W2 W3 0 c).arrays ((pdats W1 W2 W3 0 c).arrAt · (Pipeline.pin (pcfgs (F := F)) adm 0).N)
          ∗ Pipeline.unscopedRest spec1 c (rd W1 c))
        ⊢ (unscopedBufs (Ix := HIx 1) (Name := ℕ) (U := UU) (Lvl := ℕ) c (rd (X1 W1) c) : sProp 𝕄) := join1 W1 c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow_of_sub_bound c W _ hW
    iexact HO

end Reg1

end Cert.KernelIdeal.Run

end
-- ==== Proof.KTail.lean ====
/-
  What follows the SparseCore call on the TensorCore, run as segments: the reshapes of the small operands, the three
  pallas_call regions, the last reshape. The buffers' contents are folded through the segments: after the reshapes,
  after each region (its arrays at what the pipeline leaves, every other buffer as entered), after the last reshape.
  No segment writes an argument array, so the fold at an argument walks back to the launch memory.
-/
import proofs.«209176_g73847667688168_cont_9to1_m_420_10_alg».proof.Proof.KTailReg1

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (pv : (d : Dev nD) → Buf (Elt F) (oLoc d))

/-! ## The contents at each boundary -/

/-- At the first region's entry (after the reshapes), -/
abbrev E1 : Dev nD → Valuation τ sig (Elt F) := Wc m pv
/-- the second's (the first's exit), -/
abbrev E2 : Dev nD → Valuation τ sig (Elt F) := X1 (E1 m pv)
/-- the third's, -/
abbrev E3 : Dev nD → Valuation τ sig (Elt F) := X2 (E2 m pv)
/-- at the third region's exit, -/
abbrev E4 : Dev nD → Valuation τ sig (Elt F) := X3 (E3 m pv)
/-- and at the return, after the last reshape. -/
abbrev Wg (d : Dev nD) : Valuation τ sig (Elt F) := StableHlo.after lastOps (E4 m pv d)

/-- The three regions' proof data, each at its entry contents. -/
abbrev PD : (p : Fin 3) → (c : Dev nD) → Dat τ (Elt F) (HIx 1) ℕ UU ℕ (Pipeline.pin (pcfgs (F := F)) adm p) c :=
  pdats (E1 m pv) (E2 m pv) (E3 m pv)

/-! ## The host stretches -/

theorem midOps_sub : (midOps : List (HloOp τ sig (Elt F))).Forall fun op => op.bufs ⊆ StableHlo.tcRefs τ sig := by
  simp only [List.Forall]
  refine ⟨?_, ?_, ?_, ?_, ?_, ?_, ?_, ?_, ?_⟩ <;> exact StableHlo.reshape_bufs_sub ..
theorem midOps_fresh : (midOps : List (HloOp τ sig (Elt F))).Forall fun op => op.fresh = ∅ := by
  simp only [List.Forall]; repeat' constructor
theorem lastOps_sub : (lastOps : List (HloOp τ sig (Elt F))).Forall fun op => op.bufs ⊆ StableHlo.tcRefs τ sig :=
  StableHlo.reshape_bufs_sub ..
theorem lastOps_fresh : (lastOps : List (HloOp τ sig (Elt F))).Forall fun op => op.fresh = ∅ := by
  simp only [List.Forall]; rfl

/-! ## The segments -/

/-- The five segments after the SparseCore call, in order. -/
abbrev segs : List (Pipeline.Seg (pcfgs (F := F)) adm (PD m pv) ι₀ defs₀ 𝒱₀ (LL (F := F)) (lvv (F := F))) :=
  [ .host (hseg midOps midOps_sub midOps_fresh (Wb m pv)),
    .region (reg1 (E1 m pv) (E2 m pv) (E3 m pv)),
    .region (reg2 (E1 m pv) (E2 m pv) (E3 m pv)),
    .region (reg3 (E1 m pv) (E2 m pv) (E3 m pv)),
    .host (hseg lastOps lastOps_sub lastOps_fresh (E4 m pv)) ]

/-- What follows the call IS the run of the segments. -/
theorem tailProg_eq : tailProg (F := F) = Pipeline.Seg.run (segs m pv) := by
  rfl

set_option backward.isDefEq.respectTransparency.types false in
/-- THE TAIL: from the boundary, every unscoped buffer at the contents after the call, what rides along, the level
    facts and the pipelines' ghost state, the tail runs to the boundary and every unscoped buffer at the contents at
    the return. -/
theorem tail_wp (d : Dev nD) (Q : PUnit → sProp 𝕄) :
    iprop((iprop(boundary (SparseCore.T d) ∗ StableHlo.held (SparseCore.T d) (Pipeline.ucRefs τ sig) (Wg m pv d) ∗ RR d) -∗ Q ⟨⟩)
        ∗ boundary (SparseCore.T d) ∗ (StableHlo.held (SparseCore.T d) (Pipeline.ucRefs τ sig) (Wb m pv d) ∗ RR d)
        ∗ levAts (K (F := F)).L (K (F := F)).lev ∗ GG d)
      ⊢ wp frame (wpE (D (F := F)) 𝒱 (SparseCore.T d) none) Set.univ (tailProg (F := F)) Q := by
  rw [tailProg_eq m pv]
  exact Pipeline.wp_segs (pcfgs (F := F)) adm (PD m pv) ι₀ cellOf_inj EP defs₀ 𝒱₀ (LL (F := F)) (lvv (F := F)) d
    (segs m pv) Finset.univ (St (Wb m pv)) (St (Wg m pv))
    (show (Pipeline.Seg.pipes (segs m pv)).Nodup from (by decide : ([0, 1, 2] : List (Fin 3)).Nodup)) (fun p _ => Finset.mem_univ p)
    ⟨fun _ => .rfl, fun _ => .rfl, fun _ => .rfl, fun _ => .rfl, fun _ => .rfl, fun _ => .rfl⟩

/-! ## What the fold holds at the return

No host operation after the launch and no region writes an argument array (a region reads one through an input
window, whose array is as entered at the region's exit), so the fold at an argument walks back to the launch memory. -/

section Keep

variable (W : Dev nD → Valuation τ sig (Elt F))

/-- The second region leaves every buffer that is no output array of its own as entered. -/
theorem X2_keep (c : Dev nD) (b : Ref sig .tc) (hb : ∀ w, (cfg2.win w).isOut = true → Pipeline.arrRef spec2 w ≠ b) :
    X2 W c (Proc.devRef .tc b) = W c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    rw [X2_arr]
    exact ((Reg2.dat (Name := ℕ) (U := UU) (Lvl := ℕ) (rd W) (Brec (F := F) c) c).arrAt_in w hin _).trans
      (Reg2.A_eq (rd W) (Brec (F := F) c) c w)
  · exact X2_of_ne W c b fun w e => h ⟨w, e⟩

/-- The third region leaves every buffer that is no output array of its own as entered. -/
theorem X3_keep (c : Dev nD) (b : Ref sig .tc) (hb : ∀ w, (cfg3.win w).isOut = true → Pipeline.arrRef spec3 w ≠ b) :
    X3 W c (Proc.devRef .tc b) = W c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    rw [X3_arr]
    exact ((Reg3.dat (Name := ℕ) (U := UU) (Lvl := ℕ) (rd W) (Brec (F := F) c) c).arrAt_in w hin _).trans
      (Reg3.A_eq (rd W) (Brec (F := F) c) c w)
  · exact X3_of_ne W c b fun w e => h ⟨w, e⟩

end Keep

/-- A buffer that no segment after the launch writes holds at the return what the launch memory held. -/
theorem Wg_of_unwritten (d : Dev nD) (b : Ref sig .tc)
    (hlast : ∀ op ∈ (lastOps : List (HloOp τ sig (Elt F))), Proc.devRef .tc b ∉ op.writes)
    (h3 : ∀ w, (cfg3.win w).isOut = true → Pipeline.arrRef spec3 w ≠ b)
    (h2 : ∀ w, (cfg2.win w).isOut = true → Pipeline.arrRef spec2 w ≠ b)
    (h16 : b ≠ main_v15_0) (h17 : b ≠ main_v15_1)
    (hmid : ∀ op ∈ (midOps : List (HloOp τ sig (Elt F))), Proc.devRef .tc b ∉ op.writes)
    (h5 : b ≠ main_v5)
    (hhead : ∀ op ∈ (headOps : List (HloOp τ sig (Elt F))), Proc.devRef .tc b ∉ op.writes) :
    Wg m pv d (Proc.devRef .tc b) = m ((SparseCore.T d).loc b) :=
  calc Wg m pv d (Proc.devRef .tc b)
    _ = E4 m pv d (Proc.devRef .tc b) := StableHlo.after_of_forall_not_mem _ _ hlast
    _ = E3 m pv d (Proc.devRef .tc b) := X3_keep (E3 m pv) d b h3
    _ = E2 m pv d (Proc.devRef .tc b) := X2_keep (E2 m pv) d b h2
    _ = E1 m pv d (Proc.devRef .tc b) := X1_of_ne (E1 m pv) d _ (StableHlo.devRef_ne_of_ne h16) (StableHlo.devRef_ne_of_ne h17)
    _ = Wb m pv d (Proc.devRef .tc b) := StableHlo.after_of_forall_not_mem _ _ hmid
    _ = Wa m d (Proc.devRef .tc b) := Wb_of_ne m pv d _ (StableHlo.devRef_ne_of_ne h5)
    _ = W0 m d (Proc.devRef .tc b) := StableHlo.after_of_forall_not_mem _ _ hhead
    _ = m ((SparseCore.T d).loc b) := rfl

/-- No operation of a stretch writes the buffer: each operation writes one named buffer, a different one. -/
local macro "unwritten" : tactic => `(tactic| (
  refine List.forall_iff_forall_mem.mp ?_
  simp only [headOps, midOps, lastOps, List.Forall, StableHlo.TRef.unary, StableHlo.TRef.binary, StableHlo.nullary_writes,
    StableHlo.unary_writes, StableHlo.binary_writes, StableHlo.reshape_writes, Finset.mem_singleton]
  repeat' apply And.intro
  all_goals exact StableHlo.devRef_ne_of_ne (by decide)))

/-! ### The fifteen arguments end as launched -/

theorem Wg_arg0 (d : Dev nD) : Wg m pv d (Proc.devRef .tc main_arg0) = m ((SparseCore.T d).loc main_arg0) :=
  Wg_of_unwritten m pv d main_arg0 (by unwritten) (by decide) (by decide) (by decide) (by decide) (by unwritten) (by decide) (by unwritten)
theorem Wg_arg1 (d : Dev nD) : Wg m pv d (Proc.devRef .tc main_arg1) = m ((SparseCore.T d).loc main_arg1) :=
  Wg_of_unwritten m pv d main_arg1 (by unwritten) (by decide) (by decide) (by decide) (by decide) (by unwritten) (by decide) (by unwritten)
theorem Wg_arg2 (d : Dev nD) : Wg m pv d (Proc.devRef .tc main_arg2) = m ((SparseCore.T d).loc main_arg2) :=
  Wg_of_unwritten m pv d main_arg2 (by unwritten) (by decide) (by decide) (by decide) (by decide) (by unwritten) (by decide) (by unwritten)
theorem Wg_arg3 (d : Dev nD) : Wg m pv d (Proc.devRef .tc main_arg3) = m ((SparseCore.T d).loc main_arg3) :=
  Wg_of_unwritten m pv d main_arg3 (by unwritten) (by decide) (by decide) (by decide) (by decide) (by unwritten) (by decide) (by unwritten)
theorem Wg_arg4 (d : Dev nD) : Wg m pv d (Proc.devRef .tc main_arg4) = m ((SparseCore.T d).loc main_arg4) :=
  Wg_of_unwritten m pv d main_arg4 (by unwritten) (by decide) (by decide) (by decide) (by decide) (by unwritten) (by decide) (by unwritten)
theorem Wg_arg5 (d : Dev nD) : Wg m pv d (Proc.devRef .tc main_arg5) = m ((SparseCore.T d).loc main_arg5) :=
  Wg_of_unwritten m pv d main_arg5 (by unwritten) (by decide) (by decide) (by decide) (by decide) (by unwritten) (by decide) (by unwritten)
theorem Wg_arg6 (d : Dev nD) : Wg m pv d (Proc.devRef .tc main_arg6) = m ((SparseCore.T d).loc main_arg6) :=
  Wg_of_unwritten m pv d main_arg6 (by unwritten) (by decide) (by decide) (by decide) (by decide) (by unwritten) (by decide) (by unwritten)
theorem Wg_arg7 (d : Dev nD) : Wg m pv d (Proc.devRef .tc main_arg7) = m ((SparseCore.T d).loc main_arg7) :=
  Wg_of_unwritten m pv d main_arg7 (by unwritten) (by decide) (by decide) (by decide) (by decide) (by unwritten) (by decide) (by unwritten)
theorem Wg_arg8 (d : Dev nD) : Wg m pv d (Proc.devRef .tc main_arg8) = m ((SparseCore.T d).loc main_arg8) :=
  Wg_of_unwritten m pv d main_arg8 (by unwritten) (by decide) (by decide) (by decide) (by decide) (by unwritten) (by decide) (by unwritten)
theorem Wg_arg9 (d : Dev nD) : Wg m pv d (Proc.devRef .tc main_arg9) = m ((SparseCore.T d).loc main_arg9) :=
  Wg_of_unwritten m pv d main_arg9 (by unwritten) (by decide) (by decide) (by decide) (by decide) (by unwritten) (by decide) (by unwritten)
theorem Wg_arg10 (d : Dev nD) : Wg m pv d (Proc.devRef .tc main_arg10) = m ((SparseCore.T d).loc main_arg10) :=
  Wg_of_unwritten m pv d main_arg10 (by unwritten) (by decide) (by decide) (by decide) (by decide) (by unwritten) (by decide) (by unwritten)
theorem Wg_arg11 (d : Dev nD) : Wg m pv d (Proc.devRef .tc main_arg11) = m ((SparseCore.T d).loc main_arg11) :=
  Wg_of_unwritten m pv d main_arg11 (by unwritten) (by decide) (by decide) (by decide) (by decide) (by unwritten) (by decide) (by unwritten)
theorem Wg_arg12 (d : Dev nD) : Wg m pv d (Proc.devRef .tc main_arg12) = m ((SparseCore.T d).loc main_arg12) :=
  Wg_of_unwritten m pv d main_arg12 (by unwritten) (by decide) (by decide) (by decide) (by decide) (by unwritten) (by decide) (by unwritten)
theorem Wg_arg13 (d : Dev nD) : Wg m pv d (Proc.devRef .tc main_arg13) = m ((SparseCore.T d).loc main_arg13) :=
  Wg_of_unwritten m pv d main_arg13 (by unwritten) (by decide) (by decide) (by decide) (by decide) (by unwritten) (by decide) (by unwritten)
theorem Wg_arg14 (d : Dev nD) : Wg m pv d (Proc.devRef .tc main_arg14) = m ((SparseCore.T d).loc main_arg14) :=
  Wg_of_unwritten m pv d main_arg14 (by unwritten) (by decide) (by decide) (by decide) (by decide) (by unwritten) (by decide) (by unwritten)

/-- The result array at the return: the third region's output column, seen as a vector. -/
theorem Wg_v18 (d : Dev nD) :
    Wg m pv d (Proc.devRef .tc main_v18)
      = fun i => shapeCast S16384 ((Reg3.dat (Name := ℕ) (U := UU) (Lvl := ℕ) (rd (E3 m pv)) (Brec (F := F) d) d).arrAt 8 cfg3.N)
          shapeCasts_S16384x1_S16384 i := by
  show (StableHlo.reshape main_v17 main_v18 rfl shapeCasts_S16384x1_S16384 : HloOp τ sig (Elt F)).result (E4 m pv d)
      (Proc.devRef .tc main_v18) = _
  rw [StableHlo.reshape_result', ← X3_arr (E3 m pv) d 8]
  rfl

end Cert.KernelIdeal.Run

end
-- ==== Proof.KFrame.lean ====
/-
  The kernel program's run with its post read off the final boundary contents: the result array at the last
  boundary's contents, every argument array as launched.
-/
import proofs.«209176_g73847667688168_cont_9to1_m_420_10_alg».proof.Proof.KLaunch
import proofs.«209176_g73847667688168_cont_9to1_m_420_10_alg».proof.Proof.KTail

noncomputable section

namespace Cert.KernelIdeal.Run

open Cert.KernelIdeal Cert.KernelIdeal.Gen

open Idealize.ShloMosaic
open Idealize.SL Idealize.SL.Sem

variable {F : FTy → Type} [FloatOps F]

variable (m : (ℓ : Loc nD τ sig) → Buf (Elt F) ℓ) (ρ : Dev nD → PrngReg)
variable (pv : (d : Dev nD) → Buf (Elt F) (oLoc d))

/-- An unscoped TensorCore reference is among those the thread state holds. -/
theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run: it terminates, nothing faults, the result array ends at the last boundary's contents and every
    argument array ends as launched. -/
theorem run_full [∀ e, Nonempty (Elt F e)]
    (htile : (K (F := F)).TileObl (D (F := F)) 𝒱 (PP m pv) v₀ 0) :
    θ_run (Cert.KernelIdeal.defs (F := F)) (Cert.KernelIdeal.threads (F := F)) ⟨m, fun _ => 0, ρ⟩ (fun r => ∀ c : Dev nD,
      r.2.mem ((c.tc : Thread nD τ).loc main_v18) = Wg m pv c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (Cert.KernelIdeal.defs (F := F)) _ _).mono (fun r h c =>
    ⟨h c _ (mem_uc' main_v18 (by decide)),
      (h c _ (mem_uc' main_arg0 (by decide))).trans (Wg_arg0 m pv c),
      (h c _ (mem_uc' main_arg1 (by decide))).trans (Wg_arg1 m pv c),
      (h c _ (mem_uc' main_arg2 (by decide))).trans (Wg_arg2 m pv c),
      (h c _ (mem_uc' main_arg3 (by decide))).trans (Wg_arg3 m pv c),
      (h c _ (mem_uc' main_arg4 (by decide))).trans (Wg_arg4 m pv c),
      (h c _ (mem_uc' main_arg5 (by decide))).trans (Wg_arg5 m pv c),
      (h c _ (mem_uc' main_arg6 (by decide))).trans (Wg_arg6 m pv c),
      (h c _ (mem_uc' main_arg7 (by decide))).trans (Wg_arg7 m pv c),
      (h c _ (mem_uc' main_arg8 (by decide))).trans (Wg_arg8 m pv c),
      (h c _ (mem_uc' main_arg9 (by decide))).trans (Wg_arg9 m pv c),
      (h c _ (mem_uc' main_arg10 (by decide))).trans (Wg_arg10 m pv c),
      (h c _ (mem_uc' main_arg11 (by decide))).trans (Wg_arg11 m pv c),
      (h c _ (mem_uc' main_arg12 (by decide))).trans (Wg_arg12 m pv c),
      (h c _ (mem_uc' main_arg13 (by decide))).trans (Wg_arg13 m pv c),
      (h c _ (mem_uc' main_arg14 (by decide))).trans (Wg_arg14 m pv c)⟩)
    (run_main m ρ pv (Wg m pv) htile (tail_wp m pv))

end Cert.KernelIdeal.Run

end
-- ==== Proof.BKSetup.lean ====
/-
  The kernel program as the SparseCore launch theorem sees it: its configuration, the body table it
  extends, the facts about its handshake semaphores, and the resource algebra of the proof — the
  handshakes' rounds, the TensorCore pipelines' staging cells, and the transfers' counters side by side.
-/
import proofs.«209176_g73847667688168_cont_9to1_m_420_10_alg».proof.Proof.Gen.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipelines' staging cells' rounds, the handshakes', the transfers' counters. -/
abbrev UU : Type := UR sig nD τ × (UH × Counters)

local notation "𝕄" => MT nD τ sig (HIx 1) (Elt F) ℕ UU ℕ

abbrev EP : Emb (UR sig nD τ) (MT nD τ sig (HIx 1) (Elt F) ℕ UU ℕ) := embL
abbrev EH : Emb UH (MT nD τ sig (HIx 1) (Elt F) ℕ UU ℕ) :=
  (Emb.inl : Emb UH (UH × Counters)).trans embR

instance EH_landsIn : (EH (F := F)).LandsIn (upEmb : UEmb _ (MT nD τ sig (HIx 1) (Elt F) ℕ UU ℕ)) := by
  unfold EH; infer_instance

example : CountersIn UU := inferInstance

end Cert.Kernel.Run

end
-- ==== Proof.BKPay.lean ====
/-
  What the SparseCore call's handshakes carry.  The call takes three arrays of the TensorCore's memory: the
  flat index array (32768 rows of 64 words), the table with its eight zero rows appended, and the pooled
  output (32768 rows of 128).  Task w = 2 * subcore + core of the 32 vector subcores owns words
  [65536 w, 65536 (w + 1)) of the index array and rows [1024 w, 1024 (w + 1)) of the output, and reads the
  whole table through one of 32 equal shares.  A SparseCore's part is its sixteen tasks' parts together,
  so the split of a SparseCore's operands among its tasks is the identity.
-/
import proofs.«209176_g73847667688168_cont_9to1_m_420_10_alg».proof.Proof.BKSetup

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The three arrays and their parts -/

abbrev iLoc (d : Dev nD) : Loc nD τ sig := (SparseCore.T d).loc main_v4
abbrev tLoc (d : Dev nD) : Loc nD τ sig := (SparseCore.T d).loc main_v1
abbrev oLoc (d : Dev nD) : Loc nD τ sig := (SparseCore.T d).loc main_v5

theorem idiv : 32 ∣ S2097152.size 0 := ⟨65536, rfl⟩
theorem odiv : 32 ∣ S32768x128.size 0 := ⟨1024, rfl⟩
/-- Task `w`'s words of the index array and rows of the output. -/
abbrev ipart (w : Fin 32) : Rect S2097152 := Rect.part (s := S2097152) (a₀ := 0) idiv w
abbrev opart (w : Fin 32) : Rect S32768x128 := Rect.part (s := S32768x128) (a₀ := 0) odiv w
abbrev iSet (w : Fin 32) : Finset S2097152.Idx := ((Memref.whole main_v4_scv : Memref sig .scVector .hbm S2097152 .i32).view.slice (ipart w)).set
abbrev oSet (w : Fin 32) : Finset S32768x128.Idx := ((Memref.whole main_v5_scv : Memref sig .scVector .hbm S32768x128 .f32).view.slice (opart w)).set

/-- The task number of subcore `s` of SparseCore `c`. -/
def wid (c : Fin 2) (s : Fin 16) : Fin 32 := ⟨s.val * 2 + c.val, by omega⟩

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Task `w`'s share of the table: the full share halved five times. -/
abbrev tq (w : Fin 32) : PosShare TreeShare := leaf 5 fullShare w

/-! ## The payloads -/

section Pay

variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))

/-- What a task is handed: its words of the index array, its share of the table, its rows of the output as they stand. -/
abbrev goRes (d : Dev nD) (w : Fin 32) : sProp 𝕄 :=
  iprop((iLoc d ↦[iSet w]{fullShare} V4 d) ∗ (tLoc d ↦{tq w} V1 d) ∗ (oLoc d ↦[oSet w]{fullShare} o0 d))
/-- What it hands back: the same, its rows of the output now holding the pooled sums. -/
abbrev tdRes (d : Dev nD) (w : Fin 32) : sProp 𝕄 :=
  iprop((iLoc d ↦[iSet w]{fullShare} V4 d) ∗ (tLoc d ↦{tq w} V1 d) ∗ ∃ f, (oLoc d ↦[oSet w]{fullShare} f) ∗ ⌜∀ j ∈ oSet w, f j = pv d j⌝)

def P : (K (F := F)).Pay (nD := nD) (Val := Elt F) (Name := ℕ) (U := UU) where
  st := fun q d c => match q with | 0 => bigSep Finset.univ fun s : Fin 16 => goRes V4 V1 o0 d (wid (Fin.cast nCore_zero c) s)
  dn := fun q d c => match q with | 0 => bigSep Finset.univ fun s : Fin 16 => tdRes V4 V1 pv d (wid (Fin.cast nCore_zero c) s)
  go := fun q d c i => match q with | 0 => goRes V4 V1 o0 d (wid (Fin.cast nCore_zero c) (Fin.cast nSub_zero i))
  td := fun q d c i => match q with | 0 => tdRes V4 V1 pv d (wid (Fin.cast nCore_zero c) (Fin.cast nSub_zero i))
  x := fun _ _ => iprop(emp)

instance P_storable : (P (F := F) V4 V1 o0 pv).IsStorable where
  st q d c := match q with
    | 0 => (inferInstance : BI.Storable (upEmb : UEmb _ 𝕄) (bigSep Finset.univ fun s : Fin 16 => goRes V4 V1 o0 d (wid (Fin.cast nCore_zero c) s)))
  dn q d c := match q with
    | 0 => (inferInstance : BI.Storable (upEmb : UEmb _ 𝕄) (bigSep Finset.univ fun s : Fin 16 => tdRes V4 V1 pv d (wid (Fin.cast nCore_zero c) s)))
  go q d c i := match q with
    | 0 => (inferInstance : BI.Storable (upEmb : UEmb _ 𝕄) (goRes V4 V1 o0 d (wid (Fin.cast nCore_zero c) (Fin.cast nSub_zero i))))
  td q d c i := match q with
    | 0 => (inferInstance : BI.Storable (upEmb : UEmb _ 𝕄) (tdRes V4 V1 pv d (wid (Fin.cast nCore_zero c) (Fin.cast nSub_zero i))))

/-- A SparseCore's operands are its sixteen tasks' parts: the split is the identity. -/
theorem vecSplit : (K (F := F)).VecSplit' (P V4 V1 o0 pv) 0 := by
  intro d c
  show (bigSep Finset.univ fun s : Fin 16 => goRes V4 V1 o0 d (wid (Fin.cast nCore_zero c) s)) ⊢ |={Set.univ}=> iprop(
      (bigSep Finset.univ fun i : Fin ((K (F := F)).nSub 0) => goRes V4 V1 o0 d (wid (Fin.cast nCore_zero c) (Fin.cast nSub_zero i)))
      ∗ ((bigSep Finset.univ fun i : Fin ((K (F := F)).nSub 0) => tdRes V4 V1 pv d (wid (Fin.cast nCore_zero c) (Fin.cast nSub_zero i)))
          -∗ bigSep Finset.univ fun s : Fin 16 => tdRes V4 V1 pv d (wid (Fin.cast nCore_zero c) s)))
  have e1 : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  rw [e1 (fun s => goRes V4 V1 o0 d (wid (Fin.cast nCore_zero c) s)), e1 (fun s => tdRes V4 V1 pv d (wid (Fin.cast nCore_zero c) s))]
  iintro H; imodintro
  isplitl [H]; · iexact H
  iintro H; iexact H

end Pay

end Cert.Kernel.Run

end
-- ==== Proof.BKOps.lean ====
/-
  @main of the kernel program cut at the SparseCore call: the host operations before it (the zero rows
  appended to the table, the two index arrays stacked, padded to 64 columns and flattened), the call, and
  what follows it in the TensorCore pipelines' own signature — nine reshapes, the three pallas_call regions,
  the final reshape.
-/
import proofs.«209176_g73847667688168_cont_9to1_m_420_10_alg».proof.Proof.BKSetup

noncomputable section

namespace Cert.Kernel.Run

open Cert.Kernel Cert.Kernel.Gen
open Idealize.ShloMosaic Idealize.SL.Sem

variable {F : FTy → Type} [FloatOps F]

/-- The host operations before the SparseCore call. -/
abbrev headOps : List (HloOp τ sig (Elt F)) := [
    (StableHlo.nullary main_cst (constant S_ .f32 0x00000000#32) : HloOp τ sig (Elt F)),
    (StableHlo.unary main_cst main_v0 (broadcastInDim S8x128 ![] bcast_S_S8x128 : (⟨S_, .f32⟩ : BufTy).Contents (Elt F) → (⟨S8x128, .f32⟩ : BufTy).Contents (Elt F)) : HloOp τ sig (Elt F)),
    (StableHlo.binary main_arg2 main_v0 main_v1 ((fun a b => concatenate S100008x128 0 [⟨S100000x128, a⟩, ⟨S8x128, b⟩] concatenates_S100000x128_S8x128_S100008x128_d0) : (⟨S100000x128, .f32⟩ : BufTy).Contents (Elt F) → (⟨S8x128, .f32⟩ : BufTy).Contents (Elt F) → (⟨S100008x128, .f32⟩ : BufTy).Contents (Elt F)) : HloOp τ sig (Elt F)),
    (StableHlo.binary main_arg0 main_arg1 main_v2 ((fun a b => concatenate S32768x50 0 [⟨S16384x50, a⟩, ⟨S16384x50, b⟩] concatenates_S16384x50_S16384x50_S32768x50_d0) : (⟨S16384x50, .i32⟩ : BufTy).Contents (Elt F) → (⟨S16384x50, .i32⟩ : BufTy).Contents (Elt F) → (⟨S32768x50, .i32⟩ : BufTy).Contents (Elt F)) : HloOp τ sig (Elt F)),
    (StableHlo.nullary main_c (constantI S_ 32 0#32) : HloOp τ sig (Elt F)),
    (StableHlo.TRef.unary (StableHlo.TRef.of main_c : StableHlo.TRef sig ⟨S_, .i32⟩) main_call0.v0 id : HloOp τ sig (Elt F)),
    (StableHlo.TRef.binary (StableHlo.TRef.of main_v2 : StableHlo.TRef sig ⟨S32768x50, .i32⟩) main_call0.v0 main_call0.v1 (fun x v => pad S32768x64 ![0, 0] ![0, 14] ![0, 0] x v pads_S32768x50_S32768x64_000_0140 h_S_) : HloOp τ sig (Elt F)),
    (StableHlo.reshape main_v3 main_v4 rfl shapeCasts_S32768x64_S2097152 : HloOp τ sig (Elt F))]

/-- The reshapes between the SparseCore call and the first region. -/
abbrev midOps : List (HloOp τ sig (Elt F)) := [
    (StableHlo.reshape main_arg4 main_v6 rfl shapeCasts_S1024_S1x1024 : HloOp τ sig (Elt F)),
    (StableHlo.reshape main_arg8 main_v7 rfl shapeCasts_S1024_S1x1024 : HloOp τ sig (Elt F)),
    (StableHlo.reshape main_arg12 main_v8 rfl shapeCasts_S1024_S1x1024 : HloOp τ sig (Elt F)),
    (StableHlo.reshape main_arg5 main_v9 rfl shapeCasts_S1024_S1x1024 : HloOp τ sig (Elt F)),
    (StableHlo.reshape main_arg9 main_v10 rfl shapeCasts_S1024_S1x1024 : HloOp τ sig (Elt F)),
    (StableHlo.reshape main_arg6 main_v11 rfl shapeCasts_S1024_S1x1024 : HloOp τ sig (Elt F)),
    (StableHlo.reshape main_arg10 main_v12 rfl shapeCasts_S1024_S1x1024 : HloOp τ sig (Elt F)),
    (StableHlo.reshape main_arg13 main_v13 rfl shapeCasts_S1024x1_S1x1024 : HloOp τ sig (Elt F)),
    (StableHlo.reshape main_arg14 main_v14 rfl shapeCasts_S1_S1x1 : HloOp τ sig (Elt F))]

/-- The reshape of the last region's output. -/
abbrev lastOps : List (HloOp τ sig (Elt F)) := [
    (StableHlo.reshape main_v17 main_v18 rfl shapeCasts_S16384x1_S16384 : HloOp τ sig (Elt F))]

/-- What follows the SparseCore call, in the pipelines' signature. -/
def tailProg : Prog (TpuEff nD τ sig (Elt F) (ΛP (F := F)) .tc) PUnit :=
  StableHlo.seq midOps >>= fun _ =>
  .op (.customCall (Pipeline.entry 0) ()) fun _ =>
  .op (.customCall (Pipeline.entry 1) ()) fun _ =>
  .op (.customCall (Pipeline.entry 2) ()) fun _ =>
  StableHlo.seq lastOps

theorem main_eq (d : Dev nD) :
    main (F := F) d = (StableHlo.seq headOps >>= fun _ => (K (F := F)).run d 0 >>= fun _ => SparseCore.liftProg (tailProg (F := F))) := by
  rfl

end Cert.Kernel.Run

end
-- ==== Proof.BKVals.lean ====
/-
  The kernel program's run, assembled: the TensorCore's @main proved against the SparseCore launch theorem.
  The buffers' contents are folded through @main: the launch memory, after the host operations that build
  the table and the flat index array, after the SparseCore call (the pooled array at its value), after the
  reshapes, and after each of the three regions.
-/
import proofs.«209176_g73847667688168_cont_9to1_m_420_10_alg».proof.Proof.BKPay
import proofs.«209176_g73847667688168_cont_9to1_m_420_10_alg».proof.Proof.BKOps
import proofs.«209176_g73847667688168_cont_9to1_m_420_10_alg».proof.Proof.Gen.Kernel.Launch

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents at the SparseCore call -/

/-- Core `d`'s buffers at launch, -/
abbrev W0 (d : Dev nD) : Valuation τ sig (Elt F) := StableHlo.launchContents m d
/-- and after the host operations before the SparseCore call. -/
abbrev Wa (d : Dev nD) : Valuation τ sig (Elt F) := StableHlo.after headOps (W0 m d)

/-- The flat index array, the extended table and the pooled array as the call finds them. -/
abbrev cV4 (d : Dev nD) : Buf (Elt F) (iLoc d) := Wa m d (Proc.devRef .tc main_v4)
abbrev cV1 (d : Dev nD) : Buf (Elt F) (tLoc d) := Wa m d (Proc.devRef .tc main_v1)
abbrev cO0 (d : Dev nD) : Buf (Elt F) (oLoc d) := Wa m d (Proc.devRef .tc main_v5)

variable (pv : (d : Dev nD) → Buf (Elt F) (oLoc d))

/-- After the call the pooled array holds `pv`; every other buffer is as the call found it. -/
def Wb (d : Dev nD) : Valuation τ sig (Elt F) := fun b =>
  if h : b = Proc.devRef .tc main_v5 then cast (congrArg (fun b' : DevRef τ sig => b'.ty.Contents (Elt F)) h.symm) (pv d) else Wa m d b
theorem Wb_v5 (d : Dev nD) : Wb m pv d (Proc.devRef .tc main_v5) = pv d := by
  unfold Wb; rw [dif_pos rfl]; rfl
theorem Wb_of_ne (d : Dev nD) (b : DevRef τ sig) (h : b ≠ Proc.devRef .tc main_v5) : Wb m pv d b = Wa m d b := by
  unfold Wb; rw [dif_neg h]
/-- After the reshapes: the first region's entry. -/
abbrev Wc (d : Dev nD) : Valuation τ sig (Elt F) := StableHlo.after midOps (Wb m pv d)

/-- The handshakes' payloads at the call's contents. -/
abbrev PP : (K (F := F)).Pay (nD := nD) (Val := Elt F) (Name := ℕ) (U := UU) := P (cV4 m) (cV1 m) (cO0 m) pv

/-! ## The TensorCore pipelines' ghost state and what rides along -/

abbrev adm : (p : Fin 3) → (pcfgs (F := F) p).Adm := fun p => (cfgs p).toPCfg_adm

/-- The three pipelines' staging cells' ghost state on device `d`. -/
abbrev GG (d : Dev nD) : sProp 𝕄 := Pipeline.ghostOn (pcfgs (F := F)) adm EP Finset.univ d

def u₀ : UU := (initOf (Pipeline.cells cfgs cellOf_inj) (Pipeline.launchToks cfgs cellOf_inj), (initOf (K (F := F)).hsCells (K (F := F)).hsToks, 1))

/-- What rides beside the buffers through the host operations and the regions after the call: the generator
    register and the core owing nothing, its recorded waits below the next handshake's level. -/
abbrev RR (d : Dev nD) : sProp 𝕄 :=
  iprop((∃ r, prngReg d r) ∗ ∃ W, ⌜(K (F := F)).WBelow (SparseCore.T d) W 8⌝ ∗ owes (SparseCore.T d) (0 : CellTallies nD τ sig (HIx 1)) W)

/-- The pairs the TensorCore may have recorded when a region is entered. -/
def Brec (d : Dev nD) : Set (SemLoc sig × HIx 1) := {p | (K (F := F)).lev (SparseCore.T d, p.1) p.2 ≤ 8}

end Cert.Kernel.Run

end
-- ==== Proof.BKSplit.lean ====
/-
  How the three arrays of the SparseCore call divide among the 32 tasks and come back together.

  The index array and the output are cut into 32 equal parts along their first axis: the parts are pairwise
  disjoint and cover the array, so holding the array is holding its 32 parts. The table is not cut: holding it at the
  full share is holding it at the 32 leaves of the full share halved five times. Task numbers are
  2 * subcore + core, a bijection between pairs (core, subcore) and the 32 tasks, so a product over the tasks is a
  product over the cores of products over the subcores. Coming back, each task returns its part of the output at
  some contents that agree with the pooled sums on that part; a holding of a part depends only on the contents
  there, so the parts join at the pooled sums themselves.
-/
import proofs.«209176_g73847667688168_cont_9to1_m_420_10_alg».proof.Proof.BKPay

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The parts of the index array and of the output -/

theorem iSet_eq (w : Fin 32) : iSet w = (ipart w).set := by
  show ((View.whole (main_v4_scv : Ref sig .scVector)).slice (ipart w)).set = _
  rw [View.set_slice]; exact Finset.map_refl
theorem oSet_eq (w : Fin 32) : oSet w = (opart w).set := by
  show ((View.whole (main_v5_scv : Ref sig .scVector)).slice (opart w)).set = _
  rw [View.set_slice]; exact Finset.map_refl
theorem iparts_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
theorem oparts_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
theorem iparts_cover : (Finset.univ : Finset (Fin 32)).biUnion iSet = Finset.univ :=
  (Finset.biUnion_congr rfl fun i _ => iSet_eq i).trans (Rect.biUnion_part idiv)
theorem oparts_cover : (Finset.univ : Finset (Fin 32)).biUnion oSet = Finset.univ :=
  (Finset.biUnion_congr rfl fun i _ => oSet_eq i).trans (Rect.biUnion_part odiv)

/-- Holding the index array is holding its 32 parts. -/
theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iparts_disjoint, iparts_cover]; try rfl

/-- Holding the output is holding its 32 parts. -/
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oparts_disjoint, oparts_cover]; try rfl

/-! ## The shares of the table -/

/-- The leaves of depth `n + 1` are the leaves of the left half followed by those of the right half. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A holding at a share is the holdings at its leaves together. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Holding the table at the full share is holding it at the 32 tasks' shares. -/
theorem tPts_shares (d : Dev nD) (f : Buf (Elt F) (tLoc d)) :
    (tLoc d ↦{fullShare} f : sProp 𝕄) = bigSep Finset.univ fun w : Fin 32 => tLoc d ↦{tq w} f :=
  pointsTo_leaves Finset.univ f 5 fullShare

/-! ## Tasks as pairs (core, subcore) -/

/-- Task numbers 2 * subcore + core run through the 32 tasks once. -/
def widEquiv : Fin 2 × Fin 16 ≃ Fin 32 where
  toFun p := wid p.1 p.2
  invFun w := (⟨w.val % 2, by omega⟩, ⟨w.val / 2, by omega⟩)
  left_inv p := by
    obtain ⟨c, s⟩ := p
    refine Prod.ext (Fin.ext ?_) (Fin.ext ?_)
    · show (s.val * 2 + c.val) % 2 = c.val
      omega
    · show (s.val * 2 + c.val) / 2 = s.val
      omega
  right_inv w := by
    apply Fin.ext
    show w.val / 2 * 2 + w.val % 2 = w.val
    omega

/-- A product over the tasks is a product over the cores of products over the subcores. -/
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]
  rfl

/-- Over the configuration's own count of cores. -/
theorem bigSep_cores (Ψ : Fin 2 → sProp 𝕄) :
    (bigSep Finset.univ fun c : Fin ((K (F := F)).nCore 0) => Ψ (Fin.cast nCore_zero c)) = bigSep Finset.univ Ψ :=
  bigSep_congr fun _ _ => congrArg Ψ (Fin.ext rfl)

/-! ## Handing out and taking back -/

section Pay

variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))

/-- The three arrays held whole are what the two SparseCores are handed. -/
theorem st_eq (d : Dev nD) :
    (bigSep Finset.univ fun c : Fin ((K (F := F)).nCore 0) => (P V4 V1 o0 pv).st 0 d c)
      = iprop((iLoc d ↦{fullShare} V4 d) ∗ (tLoc d ↦{fullShare} V1 d) ∗ (oLoc d ↦{fullShare} o0 d)) := by
  show (bigSep Finset.univ fun c : Fin ((K (F := F)).nCore 0) =>
      bigSep Finset.univ fun s : Fin 16 => goRes V4 V1 o0 d (wid (Fin.cast nCore_zero c) s)) = _
  rw [bigSep_cores (F := F) (fun c => bigSep Finset.univ fun s : Fin 16 => goRes V4 V1 o0 d (wid c s)),
    ← bigSep_wid (F := F) (fun w => goRes V4 V1 o0 d w), bigSep_sep', bigSep_sep', iPts_parts, tPts_shares, oPts_parts]

theorem st_intro (d : Dev nD) :
    iprop((iLoc d ↦{fullShare} V4 d) ∗ (tLoc d ↦{fullShare} V1 d) ∗ (oLoc d ↦{fullShare} o0 d))
      ⊢ bigSep Finset.univ fun c : Fin ((K (F := F)).nCore 0) => (P V4 V1 o0 pv).st 0 d c := by
  rw [st_eq V4 V1 o0 pv d]

/-- A task's returned part of the output is its part at the pooled sums. -/
theorem oPart_back (d : Dev nD) (w : Fin 32) :
    (iprop(∃ f, (oLoc d ↦[oSet w]{fullShare} f) ∗ ⌜∀ j ∈ oSet w, f j = pv d j⌝) : sProp 𝕄) ⊢ oLoc d ↦[oSet w]{fullShare} pv d := by
  iintro ⟨%f, H, %hf⟩
  have e : (oLoc d ↦[oSet w]{fullShare} f : sProp 𝕄) ⊢ oLoc d ↦[oSet w]{fullShare} pv d := by
    rw [pointsTo_congr hf]
  iapply e
  iexact H

/-- What the two SparseCores hand back is the index array and the table as they were and the output at the pooled
    sums. -/
theorem dn_elim (d : Dev nD) :
    (bigSep Finset.univ fun c : Fin ((K (F := F)).nCore 0) => (P V4 V1 o0 pv).dn 0 d c)
      ⊢ iprop((iLoc d ↦{fullShare} V4 d) ∗ (tLoc d ↦{fullShare} V1 d) ∗ (oLoc d ↦{fullShare} pv d)) := by
  show (bigSep Finset.univ fun c : Fin ((K (F := F)).nCore 0) =>
      bigSep Finset.univ fun s : Fin 16 => tdRes V4 V1 pv d (wid (Fin.cast nCore_zero c) s)) ⊢ _
  rw [bigSep_cores (F := F) (fun c => bigSep Finset.univ fun s : Fin 16 => tdRes V4 V1 pv d (wid c s)),
    ← bigSep_wid (F := F) (fun w => tdRes V4 V1 pv d w), bigSep_sep', bigSep_sep', iPts_parts, tPts_shares, oPts_parts]
  iintro ⟨Hi, Ht, Ho⟩
  isplitl [Hi]; · iexact Hi
  isplitl [Ht]; · iexact Ht
  have hm : (bigSep Finset.univ fun w : Fin 32 =>
        (iprop(∃ f, (oLoc d ↦[oSet w]{fullShare} f) ∗ ⌜∀ j ∈ oSet w, f j = pv d j⌝) : sProp 𝕄))
      ⊢ bigSep Finset.univ fun w : Fin 32 => oLoc d ↦[oSet w]{fullShare} pv d :=
    bigSep_mono fun w _ => oPart_back pv d w
  iapply hm
  iexact Ho

end Pay

end Cert.Kernel.Run

end
-- ==== Proof.BKLaunch.lean ====
/-
  The kernel program's run from the SparseCore launch theorem: the launch element of the ghost state, @main on
  the TensorCore (the host operations before the call, the call, and what follows it in the pipelines'
  signature), and how the final memory is read.  What follows the call is taken as a hypothesis here: its
  proof runs the three regions.
-/
import proofs.«209176_g73847667688168_cont_9to1_m_420_10_alg».proof.Proof.BKVals
import proofs.«209176_g73847667688168_cont_9to1_m_420_10_alg».proof.Proof.BKSplit
import Idealize.ShloMosaic.Lib.Pipeline.Frame
import Idealize.ShloMosaic.Lib.Pipeline.FrameSuffix
import Idealize.ShloMosaic.Lib.Pipeline.RegionsLoop

noncomputable section

namespace Cert.Kernel.Run

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (pv : (d : Dev nD) → Buf (Elt F) (oLoc d))

/-! ## The launch element -/

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m pv).x q thr) := by
  have h1 : (ownU (u₀ (F := F)) : sProp 𝕄)
      ⊢ iprop(BI.own ((embL : Emb (UR sig nD τ) 𝕄) (initOf (Pipeline.cells cfgs cellOf_inj) (Pipeline.launchToks cfgs cellOf_inj)))
          ∗ BI.own ((embR : Emb (UH × Counters) 𝕄) (initOf (K (F := F)).hsCells (K (F := F)).hsToks, (1 : Counters)))) := ownU_pair _ _
  have h2 := own_pair_emb (embR : Emb (UH × Counters) 𝕄) (initOf (K (F := F)).hsCells (K (F := F)).hsToks) (1 : Counters)
  have h3 := Pipeline.fund_ghost (Ix := HIx 1) (Val := Elt F) (Name := ℕ) (U := UU) (Lvl := ℕ) cfgs (EP (F := F)) cellOf_inj
  iintro Hu
  ihave H := h1 $$ Hu
  icases H with ⟨HP, HR⟩
  ihave HR' := h2 $$ HR
  icases HR' with ⟨HH, -⟩
  imod h3 $$ HP with ⟨Hc, Ht⟩
  imodintro
  isplitl [HH]; · iexact HH
  isplitl [Hc Ht]
  · have e : (bigSep Finset.univ fun d : Dev nD => GG (F := F) d)
        = iprop((bigSep Finset.univ fun c : Dev nD => bigSep Finset.univ fun p => Pipeline.cellsGhost cfgs (EP (F := F)) p c)
            ∗ (bigSep Finset.univ fun c : Dev nD => bigSep Finset.univ fun p => (Pipeline.toksInit cfgs (EP (F := F)) p c : sProp 𝕄))) := by
      rw [← bigSep_sep']; refine bigSep_congr fun c _ => ?_
      show (bigSep Finset.univ fun p' => iprop(Pipeline.cellsGhost cfgs (EP (F := F)) p' c ∗ Pipeline.toksInit cfgs (EP (F := F)) p' c)) = _
      rw [bigSep_sep']
    rw [e]; isplitl [Hc] <;> iassumption
  rw [show (bigSep Finset.univ fun thr : Thread nD τ => bigSep Finset.univ fun q : Fin 1 => (PP (F := F) m pv).x q thr) = bigSep Finset.univ fun _ => iprop(emp) from
    bigSep_congr fun _ _ => bigSep_univ_of_subsingleton (0 : Fin 1), bigSep_emp']
  iempintro

/-! ## The three arrays of the call among the unscoped buffers -/

/-- The call's three arrays. -/
abbrev T3 : Finset (DevRef τ sig) := {Proc.devRef .tc main_v4, Proc.devRef .tc main_v1, Proc.devRef .tc main_v5}

theorem T3_sub : (T3 : Finset (DevRef τ sig)) ⊆ Pipeline.ucRefs τ sig := by decide

/-- The unscoped buffers at contents `W`: the call's three arrays and the rest. -/
theorem held_call_split (d : Dev nD) (W : Valuation τ sig (Elt F)) :
    (StableHlo.held (SparseCore.T d) (Pipeline.ucRefs τ sig) W : sProp 𝕄)
      = iprop(((iLoc d ↦{fullShare} W (Proc.devRef .tc main_v4)) ∗ (tLoc d ↦{fullShare} W (Proc.devRef .tc main_v1)) ∗ (oLoc d ↦{fullShare} W (Proc.devRef .tc main_v5)))
          ∗ StableHlo.held (SparseCore.T d) (Pipeline.ucRefs τ sig \ T3) W) := by
  rw [StableHlo.held_sub_split (SparseCore.T d) T3_sub W]
  congr 1
  unfold StableHlo.held
  rw [SparseCore.bigSep_insert' (by decide), SparseCore.bigSep_insert' (by decide), bigSep_singleton]

/-- The TensorCore's handshake state after the one call: it owes nothing more. -/
theorem tcSt_one (d : Dev nD) :
    ((K (F := F)).tcSt (EH (F := F)) d 1 : sProp 𝕄)
      = iprop((∃ W, ⌜(K (F := F)).WBelow (SparseCore.T d) W 8⌝ ∗ owes (SparseCore.T d) (0 : CellTallies nD τ sig (HIx 1)) W)
          ∗ atPos (EH (F := F)) ((K (F := F)).doneCell d) 1 ∅ 0 ∗ reached (EH (F := F)) ((K (F := F)).doneCell d) 1
          ∗ (bigSep Finset.univ fun c : Fin τ.nSC => reached (EH (F := F)) ((K (F := F)).startCell d c) ((K (F := F)).sRank c 1))
          ∗ bigSep (SparseCore.Cfg.callsFrom (Q := 1) 1) fun q => bigSep Finset.univ fun c : Fin ((K (F := F)).nCore q) =>
              iprop(dutyTok (EH (F := F)) ((K (F := F)).startCell d ((K (F := F)).core q c)) ((K (F := F)).sRank ((K (F := F)).core q c) q.val) 0
                ∗ cred (tallyAt ((K (F := F)).doneCell d) (some q) 1))) := by
  unfold SparseCore.Cfg.tcSt
  rw [(K (F := F)).Otc_end d (le_refl 1)]

/-! ## @main on the TensorCore -/

theorem headOps_sub : ∀ op ∈ (headOps : List (HloOp τ sig (Elt F))), op.bufs ⊆ Pipeline.ucRefs τ sig :=
  fun op h => Pipeline.sub_ucRefs op ((List.forall_iff_forall_mem.mp
    (show (headOps : List (HloOp τ sig (Elt F))).Forall fun op => op.bufs ⊆ StableHlo.tcRefs τ sig from
      ⟨StableHlo.nullary_bufs_sub .., StableHlo.unary_bufs_sub .., StableHlo.binary_bufs_sub .., StableHlo.binary_bufs_sub .., StableHlo.nullary_bufs_sub ..,
        StableHlo.unary_bufs_sub .., StableHlo.binary_bufs_sub .., StableHlo.reshape_bufs_sub ..⟩)) op h)
theorem headOps_fresh : ∀ op ∈ (headOps : List (HloOp τ sig (Elt F))), op.fresh = ∅ :=
  fun op h => (List.forall_iff_forall_mem.mp
    (show (headOps : List (HloOp τ sig (Elt F))).Forall fun op => op.fresh = ∅ from by simp only [List.Forall]; repeat' constructor)) op h

/-- After the call the three arrays are back, the pooled one at `pv`: the unscoped buffers at `Wb`. -/
theorem held_after_call (d : Dev nD) :
    iprop(((iLoc d ↦{fullShare} cV4 m d) ∗ (tLoc d ↦{fullShare} cV1 m d) ∗ (oLoc d ↦{fullShare} pv d))
        ∗ StableHlo.held (SparseCore.T d) (Pipeline.ucRefs τ sig \ T3) (Wa m d))
      ⊢ (StableHlo.held (SparseCore.T d) (Pipeline.ucRefs τ sig) (Wb m pv d) : sProp 𝕄) := by
  rw [held_call_split d (Wb m pv d), Wb_v5, Wb_of_ne m pv d _ (by decide), Wb_of_ne m pv d _ (by decide),
    StableHlo.held_congr (SparseCore.T d) (S := Pipeline.ucRefs τ sig \ T3) (V := Wb m pv d) (V' := Wa m d) fun b hb =>
      Wb_of_ne m pv d b fun e => (Finset.mem_sdiff.mp hb).2 (e ▸ by decide)]

variable (Wfin : Dev nD → Valuation τ sig (Elt F))

/-- What the TensorCore ends holding: every unscoped buffer at the final contents. -/
abbrev FIN (d : Dev nD) : sProp 𝕄 := StableHlo.held (SparseCore.T d) (Pipeline.ucRefs τ sig) (Wfin d)

/-- @main on device `d`'s TensorCore, given the run of what follows the call. -/
theorem hmain
    (htail : ∀ (d : Dev nD) (Q : PUnit → sProp 𝕄),
      iprop((iprop(boundary (SparseCore.T d) ∗ StableHlo.held (SparseCore.T d) (Pipeline.ucRefs τ sig) (Wfin d) ∗ RR (F := F) d) -∗ Q ⟨⟩)
          ∗ boundary (SparseCore.T d) ∗ (StableHlo.held (SparseCore.T d) (Pipeline.ucRefs τ sig) (Wb m pv d) ∗ RR (F := F) d)
          ∗ levAts (K (F := F)).L (K (F := F)).lev ∗ GG (F := F) d)
        ⊢ wp frame (wpE (D (F := F)) 𝒱 (SparseCore.T d) none) Set.univ (tailProg (F := F)) Q)
    (κ : GSem nD τ sig → ℕ) (d : Dev nD) :
    iprop((K (F := F)).ctx EH (PP m pv) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN Wfin d) := by
  rw [main_eq]
  unfold SparseCore.Cfg.tcRes
  rw [show (unscopedBufs d (fun b => m ((SparseCore.T d).loc b)) : sProp 𝕄) = StableHlo.held (SparseCore.T d) (Pipeline.ucRefs τ sig) (W0 m d) from
    Pipeline.unscopedBufs_held d (W0 m d)]
  iintro ⟨#Hctx, Hst, ⟨Hbd, Hh, -, Hp⟩, Hg⟩
  iapply (StableHlo.wp_seq (defs := (K (F := F)).defs (D (F := F))) 𝒱 none Set.univ d (Pipeline.ucRefs τ sig) _ headOps headOps_sub headOps_fresh (W0 m d)) $$ [Hbd Hh]
  · isplitl [Hbd] <;> iassumption
  iintro ⟨Hbd, Hh⟩
  rw [wp_bind]
  ihave Hh' := (Entails.of_eq (held_call_split (F := F) d (Wa m d))) $$ Hh
  icases Hh' with ⟨⟨Hi, Ht, Ho⟩, Hrest⟩
  iapply ((K (F := F)).wp_run (D (F := F)) 𝒱 (EH := EH) (P := PP m pv) κ d 0) $$ [Hst Hi Ht Ho Hbd Hrest Hp Hg]
  isplitr; · iexact Hctx
  isplitl [Hst]; · iexact Hst
  isplitl [Hi Ht Ho]
  · iapply (st_intro (cV4 m) (cV1 m) (cO0 m) pv d)
    isplitl [Hi]; · iexact Hi
    isplitl [Ht]; · iexact Ht
    iexact Ho
  iintro ⟨Hst, Hdn⟩
  ihave Hdn' := (dn_elim (cV4 m) (cV1 m) (cO0 m) pv d) $$ Hdn
  ihave Hh := (held_after_call m pv d) $$ [Hdn' Hrest]
  · isplitl [Hdn'] <;> iassumption
  have e1 : ((K (F := F)).tcSt (EH (F := F)) d ((0 : Fin 1).val + 1) : sProp 𝕄) = _ := tcSt_one (F := F) d
  ihave Hst1 := (Entails.of_eq e1) $$ Hst
  icases Hst1 with ⟨HO, Hst'⟩
  ihave Hlev := ((K (F := F)).ctx_levAts κ) $$ Hctx
  iapply ((K (F := F)).wp_liftProg (D (F := F)) 𝒱 (SparseCore.T d) Set.univ none (tailProg (F := F)) _)
  iapply (htail d _)
  isplitl [Hst']
  · iintro ⟨-, Hh, -, HO⟩
    isplitr [Hh]
    · iapply (Entails.of_eq (tcSt_one (F := F) d).symm)
      isplitl [HO]; · iexact HO
      iexact Hst'
    iexact Hh
  isplitl [Hbd]; · iexact Hbd
  isplitl [Hh Hp HO]
  · isplitl [Hh]; · iexact Hh
    isplitl [Hp]; · iexists _; iexact Hp
    iexact HO
  isplitl [Hlev]; · iexact Hlev
  iexact Hg

/-! ## The final memory, and the run -/

def fq (d : Dev nD) (s' : Phys nD τ sig (Elt F)) : Prop := ∀ b ∈ Pipeline.ucRefs τ sig, s'.mem.mem (d, b) = Wfin d b

theorem hfin (d : Dev nD) (s' : Phys nD τ sig (Elt F)) : iprop(FIN Wfin d ∗ SI s') ⊢ (⌜fq Wfin d s'⌝ : sProp 𝕄) := by
  show iprop((bigSep (Pipeline.ucRefs τ sig) fun b => (((SparseCore.T d : Thread nD τ).1, b) : Loc nD τ sig) ↦{fullShare} Wfin d b) ∗ SI s') ⊢ (⌜fq Wfin d s'⌝ : sProp 𝕄)
  iintro ⟨Hh, HSI⟩
  ihave H := (pointsTo_read_all (Pipeline.ucRefs τ sig) (fun b => (((SparseCore.T d : Thread nD τ)).1, b)) (Wfin d) s') $$ [Hh HSI]
  · isplitl [Hh] <;> iassumption
  icases H with ⟨%h, -⟩
  ipureintro; exact h

/-- Every unscoped TensorCore buffer ends at the final contents. -/
def QC : PUnit × MemSt nD τ sig (Elt F) → Prop := fun r => ∀ d : Dev nD, ∀ b ∈ Pipeline.ucRefs τ sig, r.2.mem (d, b) = Wfin d b

/-- The kernel program's run, from one vector subcore's task and the run of what follows the call. -/
theorem run_main [∀ e, Nonempty (Elt F e)]
    (htile : (K (F := F)).TileObl (D (F := F)) 𝒱 (PP m pv) v₀ 0)
    (htail : ∀ (d : Dev nD) (Q : PUnit → sProp 𝕄),
      iprop((iprop(boundary (SparseCore.T d) ∗ StableHlo.held (SparseCore.T d) (Pipeline.ucRefs τ sig) (Wfin d) ∗ RR (F := F) d) -∗ Q ⟨⟩)
          ∗ boundary (SparseCore.T d) ∗ (StableHlo.held (SparseCore.T d) (Pipeline.ucRefs τ sig) (Wb m pv d) ∗ RR (F := F) d)
          ∗ levAts (K (F := F)).L (K (F := F)).lev ∗ GG (F := F) d)
        ⊢ wp frame (wpE (D (F := F)) 𝒱 (SparseCore.T d) none) Set.univ (tailProg (F := F)) Q) :
    θ_run (Cert.Kernel.defs (F := F)) (Cert.Kernel.threads (F := F)) ⟨m, fun _ => 0, ρ⟩ (QC Wfin) :=
  SparseCore.Cfg.θ_run_sc (K := K (F := F)) (D := D (F := F)) (𝒱 := 𝒱) (EH := EH) (P := PP m pv) facts v₀
    (fun q hq => match q with | 0 => nomatch hq)
    (fun q _ => match q with | 0 => htile)
    (fun q _ => match q with | 0 => SparseCore.Cfg.VecSplit.of_plain (vecSplit (cV4 m) (cV1 m) (cO0 m) pv))
    m ρ main (fun d => GG (F := F) d) (FIN Wfin) (u₀ (F := F)) (sep_elim_left.trans (hu₀ m pv)) (hmain m ρ pv Wfin htail) (fq Wfin) (hfin Wfin) (QC Wfin) (fun _ h => h)

end Cert.Kernel.Run

end
-- ==== Proof.BReg1Base.lean ====
import proofs.«209176_g73847667688168_cont_9to1_m_420_10_alg».proof.Proof.Gen.Kernel.Launch
import proofs.«209176_g73847667688168_cont_9to1_m_420_10_alg».proof.Proof.Gen.Kernel.Skeleton
import proofs.«209176_g73847667688168_cont_9to1_m_420_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The first dense layer's region: what its runs share

The region reads the pooled rows (one array, two windows: the first bag's block and the second bag's), the two index
arrays, the weight matrix and the bias row; it writes the rows' block of the layer's output at every point and
accumulates the column sums and the column sums of squares in a two-row block that stays in place over the grid. -/

section Entry
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Ix Name U Lvl cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Entry

/-! ## The body's branch condition -/

/-- The condition of the body's conditional: the grid coordinate is zero (the statistics block is cleared there). -/
abbrev cond0 (i : grid1.Coords) : Prop := (Scalar.cmpi .ne (Scalar.extui (Scalar.cmpi .eq (BitVec.ofNat 32 (i 0).val) 0#32)) 0#32) = 1#1
/-- It holds at the first point only — decided over the grid. -/
theorem hcond0 : ∀ t : Fin cfg1.N, cond0 (grid1.coords t) ↔ t.val % 32 = 0 :=
  (by decide +kernel : ∀ t : Fin grid1.N, cond0 (grid1.coords t) ↔ t.val % 32 = 0)

/-! ## The staging memrefs -/

/-- One staging buffer of each output window, through which its contents are stated. -/
abbrev VO6 : View sig .tc .vmem S512x1024 .f32 := (Memref.whole cc1_stg6_0 : Memref sig .tc .vmem S512x1024 .f32).view
abbrev VO7 : View sig .tc .vmem S2x1024 .f32 := (Memref.whole cc1_stg7_0 : Memref sig .tc .vmem S2x1024 .f32).view
abbrev ms0 (t : Fin cfg1.N) : Memref sig .tc .vmem S512x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x50 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x50 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S256x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1024 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S2x1024 .f32 := win1_7.stage (cfg1.slots t 7)
abbrev hs7 (t : Fin cfg1.N) : (ms7 t).IsWhole := hstage1_7 ((cfg1.slots t 7).cast nbuf1_7)

end Cert.Kernel.Reg1

end
-- ==== Proof.BReg1RunA.lean ====
import proofs.«209176_g73847667688168_cont_9to1_m_420_10_alg».proof.Proof.BReg1Base

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

set_option maxHeartbeats 4000000 in
/-- What the body's stores leave in the two outputs' staging memrefs, as pieces (last first), at the first grid point
    (the statistics block is cleared before the block's sums are added), with the proof that on whole staging memrefs,
    the inputs' at their contents and the outputs' at anything, the body runs to the continuation holding the inputs' as
    they were and each output's buffer with its pieces written. -/
noncomputable def kernelRun_A (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i)
    (x0 : Vec F S512x128 .f32) (x1 : Vec F S512x128 .f32) (x2 : Vec F S512x50 .i32) (x3 : Vec F S512x50 .i32) (x4 : Vec F S256x1024 .f32) (x5 : Vec F S1x1024 .f32) :
    { L : List (View.Piece (Elt F) S512x1024 .f32) × List (View.Piece (Elt F) S2x1024 .f32) //
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2)) -∗ K ⟨⟩))
          ⊢ wp frame (wpE (defs₀ (F := F)) 𝒱₀ c none) E (cc1__k1_body i arg1 harg1 arg2 harg2 arg3 harg3 arg4 harg4 arg5 harg5 arg6 harg6 arg7 harg7 arg8 harg8) K } := by
  refine ⟨⟨?_, ?_⟩, fun E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Reg1

end
-- ==== Proof.BReg1RunB.lean ====
import proofs.«209176_g73847667688168_cont_9to1_m_420_10_alg».proof.Proof.BReg1RunA

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

set_option maxHeartbeats 4000000 in
/-- What the body's stores leave in the two outputs' staging memrefs, as pieces (last first), at a later grid point
    (the statistics block holds the running sums `xo7`, to which the block's sums are added), with the proof that on whole
    staging memrefs, the inputs' at their contents, the statistics block's at `xo7` and the rows block's at anything, the
    body runs to the continuation holding the inputs' as they were and each output's buffer with its pieces written. -/
noncomputable def kernelRun_B (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i)
    (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32) :
    { L : List (View.Piece (Elt F) S512x1024 .f32) × List (View.Piece (Elt F) S2x1024 .f32) //
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2)) -∗ K ⟨⟩))
          ⊢ wp frame (wpE (defs₀ (F := F)) 𝒱₀ c none) E (cc1__k1_body i arg1 harg1 arg2 harg2 arg3 harg3 arg4 harg4 arg5 harg5 arg6 harg6 arg7 harg7 arg8 harg8) K } := by
  refine ⟨⟨?_, ?_⟩, fun E K => ?run⟩
  case run =>
    simp only [cc1__k1_body_eq_skeleton]; unfold cc1__k1_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Reg1

end
-- ==== Proof.BReg1Out.lean ====
import proofs.«209176_g73847667688168_cont_9to1_m_420_10_alg».proof.Proof.Gen.Kernel.Skeleton
import Idealize.ShloMosaic.Lib.Pipeline.FrameBody

set_option maxRecDepth 16384

noncomputable section

namespace Cert.Kernel.Reg1

open Idealize.ShloMosaic Idealize.SL.Sem
open Cert.Kernel.Gen

variable {F : FTy → Type} [FloatOps F]

/-! # What the first dense layer's body leaves, as functions of the blocks it reads

`x0`, `x1`: the two bags' blocks of pooled rows; `x2`, `x3`: the two bags' blocks of row numbers; `x4`: the weight
matrix; `x5`: the bias row. -/

/-- The upper and the lower half of the weight matrix, as the body loads them. -/
abbrev rW0 : Rect S256x1024 := Rect.unit (s := S256x1024) ![0, 0] S128x1024.size inb_S256x1024_S128x1024_0_0
abbrev rW1 : Rect S256x1024 := Rect.unit (s := S256x1024) ![128, 0] S128x1024.size inb_S256x1024_S128x1024_128_0

/-- The layer before the rectifier: the two averages times the two halves of the weights, plus the bias. -/
def pre1 (x0 x1 : Vec F S512x128 .f32) (x2 x3 : Vec F S512x50 .i32) (x4 : Vec F S256x1024 .f32) (x5 : Vec F S1x1024 .f32) :
    FVec F S512x1024 .f32 :=
  k1_pay4 x2 x3 x0 x1 (View.ld x4 rW0) (View.ld x4 rW1) x5

/-- The rows' block of the layer's output. -/
def out6 (x0 x1 : Vec F S512x128 .f32) (x2 x3 : Vec F S512x50 .i32) (x4 : Vec F S256x1024 .f32) (x5 : Vec F S1x1024 .f32) :
    Vec F S512x1024 .f32 :=
  k1_pay1 (pre1 x0 x1 x2 x3 x4 x5) k1_pay5

/-- The statistics block after the first point: the block's column sums and sums of squares added to zero. -/
def out7A (x0 x1 : Vec F S512x128 .f32) (x2 x3 : Vec F S512x50 .i32) (x4 : Vec F S256x1024 .f32) (x5 : Vec F S1x1024 .f32) :
    Vec F S2x1024 .f32 :=
  k1_pay3 (pre1 x0 x1 x2 x3 x4 x5) k1_pay5 (k1_pay2 (F := F))

/-- The statistics block after a later point: the block's column sums and sums of squares added to what the block held. -/
def out7B (x0 x1 : Vec F S512x128 .f32) (x2 x3 : Vec F S512x50 .i32) (x4 : Vec F S256x1024 .f32) (x5 : Vec F S1x1024 .f32)
    (xo : Vec F S2x1024 .f32) : Vec F S2x1024 .f32 :=
  k1_pay3 (pre1 x0 x1 x2 x3 x4 x5) k1_pay5 xo

end Cert.Kernel.Reg1

end
-- ==== Proof.BReg1Pieces.lean ====
import proofs.«209176_g73847667688168_cont_9to1_m_420_10_alg».proof.Proof.BReg1RunB
import proofs.«209176_g73847667688168_cont_9to1_m_420_10_alg».proof.Proof.BReg1Out
import Idealize.ShloMosaic.Lib.Pipeline.Value

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The first dense layer's region: proof data and body obligation -/

theorem hz2 : (![0, 0] : Fin 2 → Nat) = fun _ => 0 := funext fun a => by fin_cases a <;> rfl

section Pieces
variable (𝒱₀ : Variants)

/-- Each case's pieces tile each output's block, so they cover it. -/
theorem cover_A_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32) (y : S512x1024.Idx) :
    ∃ pc ∈ (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.1, y ∈ pc.1.set :=
  View.cover_of_tiledL (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.1 S512x1024.size (by sl_kernel_rfl) y
theorem cover_A_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32) (y : S2x1024.Idx) :
    ∃ pc ∈ (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.2, y ∈ pc.1.set :=
  View.cover_of_tiledL (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.2 S2x1024.size (by sl_kernel_rfl) y
theorem cover_B_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32) (y : S512x1024.Idx) :
    ∃ pc ∈ (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.1, y ∈ pc.1.set :=
  View.cover_of_tiledL (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.1 S512x1024.size (by sl_kernel_rfl) y
theorem cover_B_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32) (y : S2x1024.Idx) :
    ∃ pc ∈ (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.2, y ∈ pc.1.set :=
  View.cover_of_tiledL (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.2 S2x1024.size (by sl_kernel_rfl) y

set_option maxHeartbeats 1000000 in
/-- What the first point's pieces leave in the rows block, read through any view: the layer's output on the block. -/
theorem read_A_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32)
    (v : View sig .tc .vmem S512x1024 .f32) (f : v.ty.Contents (Elt F)) :
    v.read (Elt F) (v.writes (Elt F) f (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.1) = out6 x0 x1 x2 x3 x4 x5 := by
  rw [View.read_writes_eq_canon _ _ _ (cover_A_6 𝒱₀ c i arg1 harg1 arg2 harg2 arg3 harg3 arg4 harg4 arg5 harg5 arg6 harg6 arg7 harg7 arg8 harg8 hc0 x0 x1 x2 x3 x4 x5)]
  unfold kernelRun_A; dsimp only; sl_unfold_words
  rw [View.canon_unit_zero hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

set_option maxHeartbeats 1000000 in
/-- What the first point's pieces leave in the statistics block: the block's sums added to the cleared block. -/
theorem read_A_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i) (x0 : Vec F S512x128 .f32) (x1 : Vec F S512x128 .f32) (x2 : Vec F S512x50 .i32) (x3 : Vec F S512x50 .i32) (x4 : Vec F S256x1024 .f32) (x5 : Vec F S1x1024 .f32)
    (v : View sig .tc .vmem S2x1024 .f32) (f : v.ty.Contents (Elt F)) :
    v.read (Elt F) (v.writes (Elt F) f (kernelRun_A (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5).1.2) = out7A x0 x1 x2 x3 x4 x5 := by
  rw [View.read_writes_eq_canon _ _ _ (cover_A_7 𝒱₀ c i arg1 harg1 arg2 harg2 arg3 harg3 arg4 harg4 arg5 harg5 arg6 harg6 arg7 harg7 arg8 harg8 hc0 x0 x1 x2 x3 x4 x5)]
  unfold kernelRun_A; dsimp only; sl_unfold_words
  rw [View.canon_cons_unit_zero hz2, View.readCov_unit_zero _ hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

set_option maxHeartbeats 1000000 in
theorem read_B_6 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32)
    (v : View sig .tc .vmem S512x1024 .f32) (f : v.ty.Contents (Elt F)) :
    v.read (Elt F) (v.writes (Elt F) f (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.1) = out6 x0 x1 x2 x3 x4 x5 := by
  rw [View.read_writes_eq_canon _ _ _ (cover_B_6 𝒱₀ c i arg1 harg1 arg2 harg2 arg3 harg3 arg4 harg4 arg5 harg5 arg6 harg6 arg7 harg7 arg8 harg8 hc0 x0 x1 x2 x3 x4 x5 xo7)]
  unfold kernelRun_B; dsimp only; sl_unfold_words
  rw [View.canon_unit_zero hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

set_option maxHeartbeats 1000000 in
/-- What a later point's pieces leave in the statistics block: the block's sums added to what it held. -/
theorem read_B_7 (c : Dev nD) (i : grid1.Coords) (arg1 : Memref sig .tc .vmem S512x128 .f32) (harg1 : arg1.IsWhole) (arg2 : Memref sig .tc .vmem S512x128 .f32) (harg2 : arg2.IsWhole) (arg3 : Memref sig .tc .vmem S512x50 .i32) (harg3 : arg3.IsWhole) (arg4 : Memref sig .tc .vmem S512x50 .i32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i) (x0 : Vec F S512x128 .f32) (x1 : Vec F S512x128 .f32) (x2 : Vec F S512x50 .i32) (x3 : Vec F S512x50 .i32) (x4 : Vec F S256x1024 .f32) (x5 : Vec F S1x1024 .f32) (xo7 : Vec F S2x1024 .f32)
    (v : View sig .tc .vmem S2x1024 .f32) (f : v.ty.Contents (Elt F)) :
    v.read (Elt F) (v.writes (Elt F) f (kernelRun_B (Ix := Ix) (Name := Name) (U := U) (Lvl := Lvl) 𝒱₀ c i arg1 harg1 arg2 harg2 arg3 harg3 arg4 harg4 arg5 harg5 arg6 harg6 arg7 harg7 arg8 harg8 hc0 x0 x1 x2 x3 x4 x5 xo7).1.2) = out7B x0 x1 x2 x3 x4 x5 xo7 := by
  rw [View.read_writes_eq_canon _ _ _ (cover_B_7 𝒱₀ c i arg1 harg1 arg2 harg2 arg3 harg3 arg4 harg4 arg5 harg5 arg6 harg6 arg7 harg7 arg8 harg8 hc0 x0 x1 x2 x3 x4 x5 xo7)]
  unfold kernelRun_B; dsimp only; sl_unfold_words
  rw [View.canon_unit_zero hz2]
  simp only [View.readAt_eq_ld, Memref.IsWhole.read_unread, View.ld_unit_zero (S := S512x128) hz2, View.ld_unit_zero (S := S512x50) hz2, View.ld_unit_zero (S := S1x1024) hz2, View.ld_unit_zero (S := S2x1024) hz2]
  rfl

end Pieces

end Cert.Kernel.Reg1

end
-- ==== Proof.BReg1Frame.lean ====
import proofs.«209176_g73847667688168_cont_9to1_m_420_10_alg».proof.Proof.BReg1Pieces

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! # The first dense layer's region: proof data and body obligation -/

section Data
-- the TensorCore's buffer contents when the region is entered
variable (V : (c : Dev nD) → (b : Ref sig .tc) → Buf (Elt F) ((c : Thread nD τ).loc b))

/-- THE ACCUMULATION. What the statistics block's staging buffer holds after the body at position `n`: the first
    point clears it and adds the block's column sums and sums of squares; every later point adds its block's to what the
    point before left (the buffer is not written back between). -/
def statsAt (c : Dev nD) : (n : ℕ) → n < cfg1.N → Vec F S2x1024 .f32
  | 0, hn => out7A (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩)
  | n + 1, hn => out7B (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (statsAt c n (Nat.lt_of_succ_lt hn))

theorem statsAt_zero (c : Dev nD) (t : Fin cfg1.N) (h0 : t.val = 0) :
    statsAt V c t.val t.isLt = out7A (iblk V c 0 t) (iblk V c 1 t) (iblk V c 2 t) (iblk V c 3 t) (iblk V c 4 t) (iblk V c 5 t) := by
  obtain ⟨n, hn⟩ := t
  cases n with
  | zero => exact rfl
  | succ n => exact absurd h0 (Nat.succ_ne_zero n)

theorem statsAt_succ (c : Dev nD) (t : Fin cfg1.N) (h0 : t.val ≠ 0) :
    statsAt V c t.val t.isLt = out7B (iblk V c 0 t) (iblk V c 1 t) (iblk V c 2 t) (iblk V c 3 t) (iblk V c 4 t) (iblk V c 5 t) (statsAt V c (t.val - 1) (Nat.lt_of_le_of_lt (Nat.sub_le _ _) t.isLt)) := by
  obtain ⟨n, hn⟩ := t
  cases n with
  | zero => exact absurd rfl h0
  | succ n => exact rfl

-- a bound on the pairs the core's waits have recorded, handed in by the launch
variable (B : Set (SemLoc sig × Ix))

/-- The proof data of the region on core `c`: the arrays as the region finds them (`V`); after the body at point `t`
    each input's buffer at its block, the rows block at the layer's output on the block and the statistics block at
    `statsAt`; the invariant the scoped buffers no window stages and the generator register; the pooled rows' array held
    half by each of the two windows on it; nothing owed; the recorded pairs within `B`. -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
    | ⟨7, _⟩ => statsAt V c t.val t.isLt
  Φ _ := iprop(Pipeline.scopedRest (Ix := Ix) (Name := Name) (U := U) (Lvl := Lvl) (Val := Elt F) spec1 c ∗ ∃ r, prngReg c r)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0
  recorded _ := B

/-- The proof data's arrays are the region-entry contents. -/
theorem A_eq (c : Dev nD) (w : Fin cfg1.W) : (dat (Name := Name) (U := U) (Lvl := Lvl) V B c).A w = V c (Pipeline.arrRef spec1 w) := by
  dsimp only [dat]

/-- Nothing is owed at any point. -/
theorem owed_zero (c : Dev nD) (t : Fin (cfg1.N + 1)) : (dat (Name := Name) (U := U) (Lvl := Lvl) V B c).owed t = 0 := rfl

/-- The invariant is the same at every point: the scoped buffers no window stages, and the generator register. -/
theorem Φ_eq (c : Dev nD) (t : Fin (cfg1.N + 1)) :
    (dat (Name := Name) (U := U) (Lvl := Lvl) V B c).Φ t = iprop(Pipeline.scopedRest (Ix := Ix) (Name := Name) (U := U) (Lvl := Lvl) (Val := Elt F) spec1 c ∗ ∃ r, prngReg c r) := rfl

/-- The shares: the pooled rows' array half and half between its two windows, every other array whole. -/
theorem share_0 (c : Dev nD) : (dat (Name := Name) (U := U) (Lvl := Lvl) V B c).share 0 = fullShare.left := rfl
theorem share_1 (c : Dev nD) : (dat (Name := Name) (U := U) (Lvl := Lvl) V B c).share 1 = fullShare.right := rfl
theorem share_2 (c : Dev nD) : (dat (Name := Name) (U := U) (Lvl := Lvl) V B c).share 2 = fullShare := rfl
theorem share_3 (c : Dev nD) : (dat (Name := Name) (U := U) (Lvl := Lvl) V B c).share 3 = fullShare := rfl
theorem share_4 (c : Dev nD) : (dat (Name := Name) (U := U) (Lvl := Lvl) V B c).share 4 = fullShare := rfl
theorem share_5 (c : Dev nD) : (dat (Name := Name) (U := U) (Lvl := Lvl) V B c).share 5 = fullShare := rfl
theorem share_6 (c : Dev nD) : (dat (Name := Name) (U := U) (Lvl := Lvl) V B c).share 6 = fullShare := rfl
theorem share_7 (c : Dev nD) : (dat (Name := Name) (U := U) (Lvl := Lvl) V B c).share 7 = fullShare := rfl

/-- What the body leaves, window by window. -/
theorem after_0 (c : Dev nD) (t : Fin cfg1.N) : (dat (Name := Name) (U := U) (Lvl := Lvl) V B c).after 0 t = iblk V c 0 t := by dsimp only [dat]
theorem after_1 (c : Dev nD) (t : Fin cfg1.N) : (dat (Name := Name) (U := U) (Lvl := Lvl) V B c).after 1 t = iblk V c 1 t := by dsimp only [dat]
theorem after_2 (c : Dev nD) (t : Fin cfg1.N) : (dat (Name := Name) (U := U) (Lvl := Lvl) V B c).after 2 t = iblk V c 2 t := by dsimp only [dat]
theorem after_3 (c : Dev nD) (t : Fin cfg1.N) : (dat (Name := Name) (U := U) (Lvl := Lvl) V B c).after 3 t = iblk V c 3 t := by dsimp only [dat]
theorem after_4 (c : Dev nD) (t : Fin cfg1.N) : (dat (Name := Name) (U := U) (Lvl := Lvl) V B c).after 4 t = iblk V c 4 t := by dsimp only [dat]
theorem after_5 (c : Dev nD) (t : Fin cfg1.N) : (dat (Name := Name) (U := U) (Lvl := Lvl) V B c).after 5 t = iblk V c 5 t := by dsimp only [dat]
theorem after_6 (c : Dev nD) (t : Fin cfg1.N) : (dat (Name := Name) (U := U) (Lvl := Lvl) V B c).after 6 t = out6 (iblk V c 0 t) (iblk V c 1 t) (iblk V c 2 t) (iblk V c 3 t) (iblk V c 4 t) (iblk V c 5 t) := by dsimp only [dat]
theorem after_7 (c : Dev nD) (t : Fin cfg1.N) : (dat (Name := Name) (U := U) (Lvl := Lvl) V B c).after 7 t = statsAt V c t.val t.isLt := by dsimp only [dat]

/-- Each input's current staging buffer holds its block at every point, fetched there or not. -/
theorem before_0 (c : Dev nD) (t : Fin cfg1.N) (d) : (dat (Name := Name) (U := U) (Lvl := Lvl) V B c).before 0 t d = iblk V c 0 t :=
  before_0_of V (dat (Name := Name) (U := U) (Lvl := Lvl) V B c) (A_eq V B c 0) (after_0 V B c) t d
theorem before_1 (c : Dev nD) (t : Fin cfg1.N) (d) : (dat (Name := Name) (U := U) (Lvl := Lvl) V B c).before 1 t d = iblk V c 1 t :=
  before_1_of V (dat (Name := Name) (U := U) (Lvl := Lvl) V B c) (A_eq V B c 1) (after_1 V B c) t d
theorem before_2 (c : Dev nD) (t : Fin cfg1.N) (d) : (dat (Name := Name) (U := U) (Lvl := Lvl) V B c).before 2 t d = iblk V c 2 t :=
  before_2_of V (dat (Name := Name) (U := U) (Lvl := Lvl) V B c) (A_eq V B c 2) (after_2 V B c) t d
theorem before_3 (c : Dev nD) (t : Fin cfg1.N) (d) : (dat (Name := Name) (U := U) (Lvl := Lvl) V B c).before 3 t d = iblk V c 3 t :=
  before_3_of V (dat (Name := Name) (U := U) (Lvl := Lvl) V B c) (A_eq V B c 3) (after_3 V B c) t d
theorem before_4 (c : Dev nD) (t : Fin cfg1.N) (d) : (dat (Name := Name) (U := U) (Lvl := Lvl) V B c).before 4 t d = iblk V c 4 t :=
  before_4_of V (dat (Name := Name) (U := U) (Lvl := Lvl) V B c) (A_eq V B c 4) (after_4 V B c) t d
theorem before_5 (c : Dev nD) (t : Fin cfg1.N) (d) : (dat (Name := Name) (U := U) (Lvl := Lvl) V B c).before 5 t d = iblk V c 5 t :=
  before_5_of V (dat (Name := Name) (U := U) (Lvl := Lvl) V B c) (A_eq V B c 5) (after_5 V B c) t d

/-- After the first point the statistics block's staging buffer holds what the body left at the point before: it is
    written back at the last point only. -/
theorem before_7_B (c : Dev nD) (t : Fin cfg1.N) (h0 : t.val ≠ 0) (d) :
    (dat (Name := Name) (U := U) (Lvl := Lvl) V B c).before 7 t d = statsAt V c (t.val - 1) (Nat.lt_of_le_of_lt (Nat.sub_le _ _) t.isLt) := by
  have hN : t.val < 32 := lt_of_lt_of_eq t.isLt (show cfg1.N = 32 from N_1)
  rw [Dat.before_out_kept _ 7 rfl t h0 (Bool.eq_false_iff.mpr fun h => by have := (flush1_7 _).mp h; dsimp only at this; omega)
    (fun _ => rfl) (fun _ _ => rfl)]
  dsimp only [dat]

/-! ## The body obligation, at a generic point -/

/-- What the body is called with at point `t`, the windows one by one, -/
def bodyPre (ι : Ix) (c : Dev nD) (t : Fin cfg1.N) : sProp 𝕄 :=
  iprop((dat (Name := Name) (U := U) (Lvl := Lvl) V B c).Φ t.castSucc ∗ (dat (Name := Name) (U := U) (Lvl := Lvl) V B c).owesAt ι t.castSucc
    ∗ (∃ d, owns (c : Thread nD τ) (ms0 t) fullShare ((dat (Name := Name) (U := U) (Lvl := Lvl) V B c).before 0 t d))
    ∗ (∃ d, owns (c : Thread nD τ) (ms1 t) fullShare ((dat (Name := Name) (U := U) (Lvl := Lvl) V B c).before 1 t d))
    ∗ (∃ d, owns (c : Thread nD τ) (ms2 t) fullShare ((dat (Name := Name) (U := U) (Lvl := Lvl) V B c).before 2 t d))
    ∗ (∃ d, owns (c : Thread nD τ) (ms3 t) fullShare ((dat (Name := Name) (U := U) (Lvl := Lvl) V B c).before 3 t d))
    ∗ (∃ d, owns (c : Thread nD τ) (ms4 t) fullShare ((dat (Name := Name) (U := U) (Lvl := Lvl) V B c).before 4 t d))
    ∗ (∃ d, owns (c : Thread nD τ) (ms5 t) fullShare ((dat (Name := Name) (U := U) (Lvl := Lvl) V B c).before 5 t d))
    ∗ (∃ d, owns (c : Thread nD τ) (ms6 t) fullShare ((dat (Name := Name) (U := U) (Lvl := Lvl) V B c).before 6 t d))
    ∗ (∃ d, owns (c : Thread nD τ) (ms7 t) fullShare ((dat (Name := Name) (U := U) (Lvl := Lvl) V B c).before 7 t d)))

/-- and what it returns. -/
def bodyPost (ι : Ix) (c : Dev nD) (t : Fin cfg1.N) : sProp 𝕄 :=
  iprop((dat (Name := Name) (U := U) (Lvl := Lvl) V B c).Φ t.succ ∗ (dat (Name := Name) (U := U) (Lvl := Lvl) V B c).owesAt ι t.succ
    ∗ owns (c : Thread nD τ) (ms0 t) fullShare ((dat (Name := Name) (U := U) (Lvl := Lvl) V B c).after 0 t)
    ∗ owns (c : Thread nD τ) (ms1 t) fullShare ((dat (Name := Name) (U := U) (Lvl := Lvl) V B c).after 1 t)
    ∗ owns (c : Thread nD τ) (ms2 t) fullShare ((dat (Name := Name) (U := U) (Lvl := Lvl) V B c).after 2 t)
    ∗ owns (c : Thread nD τ) (ms3 t) fullShare ((dat (Name := Name) (U := U) (Lvl := Lvl) V B c).after 3 t)
    ∗ owns (c : Thread nD τ) (ms4 t) fullShare ((dat (Name := Name) (U := U) (Lvl := Lvl) V B c).after 4 t)
    ∗ owns (c : Thread nD τ) (ms5 t) fullShare ((dat (Name := Name) (U := U) (Lvl := Lvl) V B c).after 5 t)
    ∗ owns (c : Thread nD τ) (ms6 t) fullShare ((dat (Name := Name) (U := U) (Lvl := Lvl) V B c).after 6 t)
    ∗ owns (c : Thread nD τ) (ms7 t) fullShare ((dat (Name := Name) (U := U) (Lvl := Lvl) V B c).after 7 t))

set_option maxHeartbeats 1600000 in
/-- The body at any point: the inputs' memrefs hold their blocks; the first point clears the statistics block, a later
    point finds in it what the point before left; so the case's run applies; the invariant passes through unread; the
    core owes nothing throughout. -/
theorem sound_body (𝒱₀ : Variants) (ι : Ix) (c : Dev nD) (t : Fin cfg1.N) :
    bodyPre (Name := Name) (U := U) (Lvl := Lvl) V B ι c t ⊢ wp frame (wpE (defs₀ (F := F)) 𝒱₀ c none) Set.univ (bodyAt1 t) (fun _ => bodyPost (Name := Name) (U := U) (Lvl := Lvl) V B ι c t) := by
  unfold bodyPre bodyPost bodyAt1
  simp only [before_0, before_1, before_2, before_3, before_4, before_5]
  rw [show (dat (Name := Name) (U := U) (Lvl := Lvl) V B c).Φ t.succ = (dat (Name := Name) (U := U) (Lvl := Lvl) V B c).Φ t.castSucc from rfl,
    show (dat (Name := Name) (U := U) (Lvl := Lvl) V B c).owesAt ι t.succ = (dat (Name := Name) (U := U) (Lvl := Lvl) V B c).owesAt ι t.castSucc from rfl,
    after_0, after_1, after_2, after_3, after_4, after_5, after_6, after_7]
  have hN : t.val < 32 := lt_of_lt_of_eq t.isLt (show cfg1.N = 32 from N_1)
  by_cases h0 : t.val = 0
  · rw [statsAt_zero V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A 𝒱₀ c (grid1.coords t) _ _ _ _ _ _ _ _ _ _ _ _ _ _ _ _ ((hcond0 t).mpr (by omega)) (iblk V c 0 t) (iblk V c 1 t) (iblk V c 2 t) (iblk V c 3 t) (iblk V c 4 t) (iblk V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_A_6 𝒱₀ c _ _ _ _ _ _ _ _ _ _ _ _ _ _ _ _ _ _ _ _ _ _ _ _ _ _
    unfold owns; iexists _; isplitr
    swap; · iexact H7
    ipureintro; exact read_A_7 𝒱₀ c _ _ _ _ _ _ _ _ _ _ _ _ _ _ _ _ _ _ _ _ _ _ _ _ _ _
  · rw [statsAt_succ V c t h0]
    simp only [before_7_B V B c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_B 𝒱₀ c (grid1.coords t) _ _ _ _ _ _ _ _ _ _ _ _ _ _ _ _ (fun h => h0 (by have := (hcond0 t).mp h; omega)) (iblk V c 0 t) (iblk V c 1 t) (iblk V c 2 t) (iblk V c 3 t) (iblk V c 4 t) (iblk V c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_B_6 𝒱₀ c _ _ _ _ _ _ _ _ _ _ _ _ _ _ _ _ _ _ _ _ _ _ _ _ _ _ _
    unfold owns; iexists _; isplitr
    swap; · iexact H7
    ipureintro; exact read_B_7 𝒱₀ c _ _ _ _ _ _ _ _ _ _ _ _ _ _ _ _ _ _ _ _ _ _ _ _ _ _ _

/-- The library's body obligation, at every point. -/
theorem body_obligation (𝒱₀ : Variants) (ι : Ix) (c : Dev nD) :
    BodyObligation (dat (F := F) (Name := Name) (U := U) (Lvl := Lvl) V B c) (defs₀ (F := F)) 𝒱₀ ι Set.univ := fun t => by
  rw [bigSep_W1, bigSep_W1]
  exact sound_body V B 𝒱₀ ι c t

/-! ## The invariant at the region's ends -/

/-- The invariant at the first point, from the generator register and the scoped buffers no window stages. -/
theorem hin (c : Dev nD) :
    (iprop((∃ r, prngReg c r) ∗ Pipeline.scopedRest (Ix := Ix) (Name := Name) (U := U) (Lvl := Lvl) (Val := Elt F) spec1 c) : sProp 𝕄)
      ⊢ (dat (Name := Name) (U := U) (Lvl := Lvl) V B c).Φ 0 := by
  rw [Φ_eq]
  iintro ⟨Hp, Hr⟩
  isplitl [Hr]; · iexact Hr
  iexact Hp

/-- The invariant at the last point gives both back. -/
theorem hout (c : Dev nD) :
    (dat (Name := Name) (U := U) (Lvl := Lvl) V B c).Φ (Fin.last cfg1.N)
      ⊢ (iprop((∃ r, prngReg c r) ∗ Pipeline.scopedRest (Ix := Ix) (Name := Name) (U := U) (Lvl := Lvl) (Val := Elt F) spec1 c) : sProp 𝕄) := by
  rw [Φ_eq]
  iintro ⟨Hr, Hp⟩
  isplitl [Hp]; · iexact Hp
  iexact Hr

end Data

end Cert.Kernel.Reg1

end
-- ==== Proof.BReg2Base.lean ====
/-
  The second fused layer (batch normalisation in scale-and-shift form, dense layer, rectifier, with the
  column sums of the result and of its squares accumulated over the 32 row blocks), as a pipeline region
  entered at arbitrary array contents `V`: what is shared by the two control cases of its body.
-/
import proofs.«209176_g73847667688168_cont_9to1_m_420_10_alg».proof.Proof.Gen.Kernel.Launch
import proofs.«209176_g73847667688168_cont_9to1_m_420_10_alg».proof.Proof.Gen.Kernel.Skeleton
import proofs.«209176_g73847667688168_cont_9to1_m_420_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type}

local notation "𝕄" => MT nD τ sig Ix (Elt F) Name U Lvl

-- the contents of the core's buffers when the region is entered: a parameter
variable (V : (c : Dev nD) → (b : Ref sig .tc) → Buf (Elt F) ((c : Thread nD τ).loc b))

/-- Window `w`'s block at point `t`, read off its array at the entry contents. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Ix Name U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Ix Name U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Ix Name U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Ix Name U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Ix Name U Lvl cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Ix Name U Lvl cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The body's one branch condition, from the grid coordinate: the point is the first. -/
abbrev cond0 (i : grid2.Coords) : Prop := (Scalar.cmpi .ne (Scalar.extui (Scalar.cmpi .eq (BitVec.ofNat 32 (i 0).val) 0#32)) 0#32) = 1#1
/-- It holds at the first point only: decided over the grid. -/
theorem hcond0 : ∀ t : Fin cfg2.N, cond0 (grid2.coords t) ↔ t.val % 32 = 0 :=
  (by decide +kernel : ∀ t : Fin grid2.N, cond0 (grid2.coords t) ↔ t.val % 32 = 0)

/-- One staging buffer of each output window, through which its contents are stated. -/
abbrev VO6 : View sig .tc .vmem S512x1024 .f32 := (Memref.whole cc2_stg6_0 : Memref sig .tc .vmem S512x1024 .f32).view
abbrev VO7 : View sig .tc .vmem S2x1024 .f32 := (Memref.whole cc2_stg7_0 : Memref sig .tc .vmem S2x1024 .f32).view
abbrev ms0 (t : Fin cfg2.N) : Memref sig .tc .vmem S512x1024 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S2x1024 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1024 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1024 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024x1024 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x1024 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S512x1024 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S2x1024 .f32 := win2_7.stage (cfg2.slots t 7)
abbrev hs7 (t : Fin cfg2.N) : (ms7 t).IsWhole := hstage2_7 ((cfg2.slots t 7).cast nbuf2_7)

/-- The pieces a run of the body leaves in its two output buffers (last store first), with the statement the run proves of them. -/
structure Found (P : List (View.Piece (Elt F) S512x1024 .f32) → List (View.Piece (Elt F) S2x1024 .f32) → Prop) where
  L6 : List (View.Piece (Elt F) S512x1024 .f32)
  L7 : List (View.Piece (Elt F) S2x1024 .f32)
  run : P L6 L7

end Cert.Kernel.Reg2

end
-- ==== Proof.BReg2RunA.lean ====
/-
  The body of the second fused layer run symbolically in its first control case.
-/
import proofs.«209176_g73847667688168_cont_9to1_m_420_10_alg».proof.Proof.BReg2Base

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- What the body's stores leave in its two output buffers IN CASE A (the first point: the statistics buffer is zeroed before the block's sums are added),
    with the proof that on whole staging memrefs, the inputs' at their contents, the body runs to the
    continuation holding the inputs' as they were and each output's buffer with its pieces written. -/
noncomputable def kernelRun_A (𝒱₀ : Variants) (c : Dev nD) (i : grid2.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : cond0 i)
    (x0 : Vec F S512x1024 .f32) (x1 : Vec F S2x1024 .f32) (x2 : Vec F S1x1024 .f32) (x3 : Vec F S1x1024 .f32) (x4 : Vec F S1024x1024 .f32) (x5 : Vec F S1x1024 .f32) :
    Found (F := F) fun L6 L7 =>
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) 𝒱₀ c none) E (cc2__k2_body i arg1 harg1 arg2 harg2 arg3 harg3 arg4 harg4 arg5 harg5 arg6 harg6 arg7 harg7 arg8 harg8) K := by
  refine ⟨?L6, ?L7, ?run⟩
  case run =>
  intro E K
  simp only [cc2__k2_body_eq_skeleton]; unfold cc2__k2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]; · iexists _; iexact H6
  iexists _; iexact H7

end Cert.Kernel.Reg2

end
-- ==== Proof.BReg2RunB.lean ====
/-
  The body of the second fused layer run symbolically in its second control case.
-/
import proofs.«209176_g73847667688168_cont_9to1_m_420_10_alg».proof.Proof.BReg2Base

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- What the body's stores leave in its two output buffers IN CASE B (a later point: the block's sums are added to what the statistics buffer holds),
    with the proof that on whole staging memrefs, the inputs' at their contents, the statistics buffer at its running contents, the body runs to the
    continuation holding the inputs' as they were and each output's buffer with its pieces written. -/
noncomputable def kernelRun_B (𝒱₀ : Variants) (c : Dev nD) (i : grid2.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole) (hc0 : ¬cond0 i)
    (x0 : Vec F S512x1024 .f32) (x1 : Vec F S2x1024 .f32) (x2 : Vec F S1x1024 .f32) (x3 : Vec F S1x1024 .f32) (x4 : Vec F S1024x1024 .f32) (x5 : Vec F S1x1024 .f32) (xo7 : Vec F S2x1024 .f32) :
    Found (F := F) fun L6 L7 =>
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) 𝒱₀ c none) E (cc2__k2_body i arg1 harg1 arg2 harg2 arg3 harg3 arg4 harg4 arg5 harg5 arg6 harg6 arg7 harg7 arg8 harg8) K := by
  refine ⟨?L6, ?L7, ?run⟩
  case run =>
  intro E K
  simp only [cc2__k2_body_eq_skeleton]; unfold cc2__k2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]; · iexists _; iexact H6
  iexists _; iexact H7

end Cert.Kernel.Reg2

end
-- ==== Proof.BReg2Dat.lean ====
/-
  The second fused layer as a pipeline region entered at arbitrary array contents `V`: what each window's
  staging buffer holds after the body at each of the 32 row blocks, as functions of the blocks read.  The
  activations' block is the rectified dense layer of the normalised input block; the statistics buffer is
  a running sum over the blocks done so far, started from zero at the first block.
-/
import proofs.«209176_g73847667688168_cont_9to1_m_420_10_alg».proof.Proof.BReg2Base

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The two rows of a statistics block: the column sums, and the column sums of squares. -/
abbrev rS0 : Rect S2x1024 := Rect.unit (s := S2x1024) ![0, 0] S1x1024.size inb_S2x1024_S1x1024_0_0
abbrev rS1 : Rect S2x1024 := Rect.unit (s := S2x1024) ![1, 0] S1x1024.size inb_S2x1024_S1x1024_1_0

/-- The output block of one row block: the rectified dense layer of the normalised input block `x0`, the
    normalisation read off the incoming statistics `x1`, scale `x2` and shift `x3`; weights `x4`, bias `x5`. -/
def blockOut (x0 : Vec F S512x1024 .f32) (x1 : Vec F S2x1024 .f32) (x2 x3 : Vec F S1x1024 .f32) (x4 : Vec F S1024x1024 .f32) (x5 : Vec F S1x1024 .f32) : FVec F S512x1024 .f32 :=
  k2_pay3 (View.ld x1 rS0) (View.ld x1 rS1) x2 x3 x0 x4 x5

/-- Its column sums. -/
def blockSum (x0 : Vec F S512x1024 .f32) (x1 : Vec F S2x1024 .f32) (x2 x3 : Vec F S1x1024 .f32) (x4 : Vec F S1024x1024 .f32) (x5 : Vec F S1x1024 .f32) : FVec F S1024 .f32 :=
  k2_pay4 (View.ld x1 rS0) (View.ld x1 rS1) x2 x3 x0 x4 x5

/-- One step of the running statistics: the block's column sums and column sums of squares added to `prev`. -/
def statStep (x0 : Vec F S512x1024 .f32) (x1 : Vec F S2x1024 .f32) (x2 x3 : Vec F S1x1024 .f32) (x4 : Vec F S1024x1024 .f32) (x5 : Vec F S1x1024 .f32) (prev : Vec F S2x1024 .f32) : FVec F S2x1024 .f32 :=
  k2_pay2 (blockOut x0 x1 x2 x3 x4 x5) (blockSum x0 x1 x2 x3 x4 x5) prev

/-- The zero statistics block the first point starts from. -/
abbrev statZero : FVec F S2x1024 .f32 := k2_pay1 (F := F)

variable (V : (c : Dev nD) → (b : Ref sig .tc) → Buf (Elt F) ((c : Thread nD τ).loc b))

/-- THE ACCUMULATION: what the statistics buffer holds after the body at position `n`. -/
def acc (c : Dev nD) : (n : ℕ) → n < cfg2.N → Vec F S2x1024 .f32
  | 0, hn => statStep (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (statZero (F := F))
  | n + 1, hn => statStep (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (acc c n (Nat.lt_of_succ_lt hn))

theorem acc_zero (c : Dev nD) (t : Fin cfg2.N) (h0 : t.val = 0) :
    acc V c t.val t.isLt = statStep (iblk V c 0 t) (iblk V c 1 t) (iblk V c 2 t) (iblk V c 3 t) (iblk V c 4 t) (iblk V c 5 t) (statZero (F := F)) := by
  obtain ⟨n, hn⟩ := t
  cases n with
  | zero => exact rfl
  | succ n => exact absurd h0 (Nat.succ_ne_zero _)

theorem acc_succ (c : Dev nD) (t : Fin cfg2.N) (h0 : ¬t.val = 0) :
    acc V c t.val t.isLt = statStep (iblk V c 0 t) (iblk V c 1 t) (iblk V c 2 t) (iblk V c 3 t) (iblk V c 4 t) (iblk V c 5 t) (acc V c (t.val - 1) (Nat.lt_of_le_of_lt (Nat.sub_le _ _) t.isLt)) := by
  obtain ⟨n, hn⟩ := t
  cases n with
  | zero => exact absurd rfl h0
  | succ n => exact rfl

/-- The region's invariant on core `c`: the core's scoped buffers that are no staging buffer of this pipeline, untouched, and its generator register at some state. -/
def Φ2 (c : Dev nD) : sProp 𝕄 :=
  iprop(Pipeline.scopedRest (Ix := Ix) (Name := Name) (U := U) (Lvl := Lvl) (Val := Elt F) spec2 c ∗ ∃ r, prngReg c r)

/-- The proof data of the pipeline on core `c`: the arrays as the region finds them; after the body at point `t` each
    input's buffer at its block, the activations' at the block's output and the statistics' at the running sum;
    nothing owed, the recorded wait pairs bounded by the given set `B` throughout; full shares. -/
def dat (B : Set (SemLoc sig × Ix)) (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => blockOut (iblk V c 0 t) (iblk V c 1 t) (iblk V c 2 t) (iblk V c 3 t) (iblk V c 4 t) (iblk V c 5 t)
    | ⟨7, _⟩ => acc V c t.val t.isLt
  Φ _ := Φ2 c
  q _ := fullShare
  owed _ := 0
  recorded _ := B

variable (B : Set (SemLoc sig × Ix))
local notation "dat'" => dat (Name := Name) (U := U) (Lvl := Lvl) V B

theorem A_eq (c : Dev nD) (w : Fin cfg2.W) : (dat' c).A w = V c (Pipeline.arrRef spec2 w) := by
  dsimp only [dat]

theorem after_0 (c : Dev nD) (t : Fin cfg2.N) : (dat' c).after 0 t = iblk V c 0 t := by dsimp only [dat]
theorem after_1 (c : Dev nD) (t : Fin cfg2.N) : (dat' c).after 1 t = iblk V c 1 t := by dsimp only [dat]
theorem after_2 (c : Dev nD) (t : Fin cfg2.N) : (dat' c).after 2 t = iblk V c 2 t := by dsimp only [dat]
theorem after_3 (c : Dev nD) (t : Fin cfg2.N) : (dat' c).after 3 t = iblk V c 3 t := by dsimp only [dat]
theorem after_4 (c : Dev nD) (t : Fin cfg2.N) : (dat' c).after 4 t = iblk V c 4 t := by dsimp only [dat]
theorem after_5 (c : Dev nD) (t : Fin cfg2.N) : (dat' c).after 5 t = iblk V c 5 t := by dsimp only [dat]
theorem after_6 (c : Dev nD) (t : Fin cfg2.N) : (dat' c).after 6 t = blockOut (iblk V c 0 t) (iblk V c 1 t) (iblk V c 2 t) (iblk V c 3 t) (iblk V c 4 t) (iblk V c 5 t) := by dsimp only [dat]
theorem after_7 (c : Dev nD) (t : Fin cfg2.N) : (dat' c).after 7 t = acc V c t.val t.isLt := by dsimp only [dat]

theorem before_0 (c : Dev nD) (t : Fin cfg2.N) (d) : (dat' c).before 0 t d = iblk V c 0 t :=
  before_0_of V (dat' c) (A_eq V B c 0) (after_0 V B c) t d
theorem before_1 (c : Dev nD) (t : Fin cfg2.N) (d) : (dat' c).before 1 t d = iblk V c 1 t :=
  before_1_of V (dat' c) (A_eq V B c 1) (after_1 V B c) t d
theorem before_2 (c : Dev nD) (t : Fin cfg2.N) (d) : (dat' c).before 2 t d = iblk V c 2 t :=
  before_2_of V (dat' c) (A_eq V B c 2) (after_2 V B c) t d
theorem before_3 (c : Dev nD) (t : Fin cfg2.N) (d) : (dat' c).before 3 t d = iblk V c 3 t :=
  before_3_of V (dat' c) (A_eq V B c 3) (after_3 V B c) t d
theorem before_4 (c : Dev nD) (t : Fin cfg2.N) (d) : (dat' c).before 4 t d = iblk V c 4 t :=
  before_4_of V (dat' c) (A_eq V B c 4) (after_4 V B c) t d
theorem before_5 (c : Dev nD) (t : Fin cfg2.N) (d) : (dat' c).before 5 t d = iblk V c 5 t :=
  before_5_of V (dat' c) (A_eq V B c 5) (after_5 V B c) t d

/-- After the first point the statistics buffer holds what the body left at the point before: it is written back
    only after the last point. -/
theorem before_7 (c : Dev nD) (t : Fin cfg2.N) (h0 : ¬t.val = 0) (d) :
    (dat' c).before 7 t d = acc V c (t.val - 1) (Nat.lt_of_le_of_lt (Nat.sub_le _ _) t.isLt) := by
  have hN : t.val < 32 := lt_of_lt_of_eq t.isLt (show cfg2.N = 32 from N_2)
  rw [Dat.before_out_kept _ 7 rfl t h0 (Bool.eq_false_iff.mpr fun h => by have := (flush2_7 _).mp h; dsimp only at this; omega)
    (fun _ => rfl) (fun _ _ => rfl)]
  dsimp only [dat]

theorem owed_zero (c : Dev nD) (t : Fin (cfg2.N + 1)) : (dat' c).owed t = 0 := rfl
theorem Φ_eq (c : Dev nD) (t : Fin (cfg2.N + 1)) : (dat' c).Φ t = Φ2 c := rfl
theorem q_eq (c : Dev nD) (w : Fin cfg2.W) : (dat' c).q w = fullShare := rfl
theorem recorded_eq (c : Dev nD) (t : Fin (cfg2.N + 1)) : (dat' c).recorded t = B := rfl

end Cert.Kernel.Reg2

end
-- ==== Proof.BReg2Body.lean ====
/-
  The second fused layer as a pipeline region: the body's obligation at every row block.  The two runs of
  the body (first block: the statistics buffer is zeroed first; later blocks: it is added to) leave in the
  two output buffers exactly the closed forms the proof data names.
-/
import proofs.«209176_g73847667688168_cont_9to1_m_420_10_alg».proof.Proof.BReg2RunA
import proofs.«209176_g73847667688168_cont_9to1_m_420_10_alg».proof.Proof.BReg2RunB
import proofs.«209176_g73847667688168_cont_9to1_m_420_10_alg».proof.Proof.BReg2Dat
import Idealize.ShloMosaic.Lib.Pipeline.Value

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

local notation "runA" => kernelRun_A (F := F) (Ix := Ix) (Name := Name) (U := U) (Lvl := Lvl)
local notation "runB" => kernelRun_B (F := F) (Ix := Ix) (Name := Name) (U := U) (Lvl := Lvl)

theorem hz : (![0, 0] : Fin 2 → Nat) = fun _ => 0 := funext fun a => by fin_cases a <;> rfl

section Pieces
variable (𝒱₀ : Variants) (c : Dev nD) (i : grid2.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x1024 .f32) (harg8 : arg8.IsWhole)
  (x0 : Vec F S512x1024 .f32) (x1 : Vec F S2x1024 .f32) (x2 x3 : Vec F S1x1024 .f32) (x4 : Vec F S1024x1024 .f32) (x5 : Vec F S1x1024 .f32)

/-- Each case's pieces tile their buffer, so they cover it. -/
theorem cover_A_6 (hc0 : cond0 i) (y : S512x1024.Idx) : ∃ pc ∈ (runA 𝒱₀ c i arg1 harg1 arg2 harg2 arg3 harg3 arg4 harg4 arg5 harg5 arg6 harg6 arg7 harg7 arg8 harg8 hc0 x0 x1 x2 x3 x4 x5).L6, y ∈ pc.1.set :=
  View.cover_of_tiledL (runA 𝒱₀ c i arg1 harg1 arg2 harg2 arg3 harg3 arg4 harg4 arg5 harg5 arg6 harg6 arg7 harg7 arg8 harg8 hc0 x0 x1 x2 x3 x4 x5).L6 S512x1024.size (by sl_kernel_rfl) y
theorem cover_A_7 (hc0 : cond0 i) (y : S2x1024.Idx) : ∃ pc ∈ (runA 𝒱₀ c i arg1 harg1 arg2 harg2 arg3 harg3 arg4 harg4 arg5 harg5 arg6 harg6 arg7 harg7 arg8 harg8 hc0 x0 x1 x2 x3 x4 x5).L7, y ∈ pc.1.set :=
  View.cover_of_tiledL (runA 𝒱₀ c i arg1 harg1 arg2 harg2 arg3 harg3 arg4 harg4 arg5 harg5 arg6 harg6 arg7 harg7 arg8 harg8 hc0 x0 x1 x2 x3 x4 x5).L7 S2x1024.size (by sl_kernel_rfl) y
theorem cover_B_6 (hc0 : ¬cond0 i) (xo7 : Vec F S2x1024 .f32) (y : S512x1024.Idx) : ∃ pc ∈ (runB 𝒱₀ c i arg1 harg1 arg2 harg2 arg3 harg3 arg4 harg4 arg5 harg5 arg6 harg6 arg7 harg7 arg8 harg8 hc0 x0 x1 x2 x3 x4 x5 xo7).L6, y ∈ pc.1.set :=
  View.cover_of_tiledL (runB 𝒱₀ c i arg1 harg1 arg2 harg2 arg3 harg3 arg4 harg4 arg5 harg5 arg6 harg6 arg7 harg7 arg8 harg8 hc0 x0 x1 x2 x3 x4 x5 xo7).L6 S512x1024.size (by sl_kernel_rfl) y
theorem cover_B_7 (hc0 : ¬cond0 i) (xo7 : Vec F S2x1024 .f32) (y : S2x1024.Idx) : ∃ pc ∈ (runB 𝒱₀ c i arg1 harg1 arg2 harg2 arg3 harg3 arg4 harg4 arg5 harg5 arg6 harg6 arg7 harg7 arg8 harg8 hc0 x0 x1 x2 x3 x4 x5 xo7).L7, y ∈ pc.1.set :=
  View.cover_of_tiledL (runB 𝒱₀ c i arg1 harg1 arg2 harg2 arg3 harg3 arg4 harg4 arg5 harg5 arg6 harg6 arg7 harg7 arg8 harg8 hc0 x0 x1 x2 x3 x4 x5 xo7).L7 S2x1024.size (by sl_kernel_rfl) y

/-- What each case's pieces read back as: the closed forms. -/
theorem canon_A_6 (hc0 : cond0 i) : View.canon (runA 𝒱₀ c i arg1 harg1 arg2 harg2 arg3 harg3 arg4 harg4 arg5 harg5 arg6 harg6 arg7 harg7 arg8 harg8 hc0 x0 x1 x2 x3 x4 x5).L6 = blockOut x0 x1 x2 x3 x4 x5 := by
  unfold kernelRun_A; dsimp only; sl_unfold_words
  rw [View.canon_unit_zero hz]
  simp only [View.readAt_eq_ld, Memref.IsWhole.read_unread, View.ld_unit_zero (S := S512x1024) hz, View.ld_unit_zero (S := S1x1024) hz, View.ld_unit_zero (S := S1024x1024) hz]
  rfl

theorem canon_A_7 (hc0 : cond0 i) : View.canon (runA 𝒱₀ c i arg1 harg1 arg2 harg2 arg3 harg3 arg4 harg4 arg5 harg5 arg6 harg6 arg7 harg7 arg8 harg8 hc0 x0 x1 x2 x3 x4 x5).L7 = statStep x0 x1 x2 x3 x4 x5 (statZero (F := F)) := by
  unfold kernelRun_A; dsimp only; sl_unfold_words
  rw [View.canon_cons_unit_zero hz]
  simp only [View.readCov_unit_zero (S := S2x1024) _ hz, View.readAt_eq_ld, Memref.IsWhole.read_unread, View.ld_unit_zero (S := S512x1024) hz, View.ld_unit_zero (S := S1x1024) hz, View.ld_unit_zero (S := S1024x1024) hz]
  rfl

theorem canon_B_6 (hc0 : ¬cond0 i) (xo7 : Vec F S2x1024 .f32) : View.canon (runB 𝒱₀ c i arg1 harg1 arg2 harg2 arg3 harg3 arg4 harg4 arg5 harg5 arg6 harg6 arg7 harg7 arg8 harg8 hc0 x0 x1 x2 x3 x4 x5 xo7).L6 = blockOut x0 x1 x2 x3 x4 x5 := by
  unfold kernelRun_B; dsimp only; sl_unfold_words
  rw [View.canon_unit_zero hz]
  simp only [View.readAt_eq_ld, Memref.IsWhole.read_unread, View.ld_unit_zero (S := S512x1024) hz, View.ld_unit_zero (S := S1x1024) hz, View.ld_unit_zero (S := S1024x1024) hz]
  rfl

theorem canon_B_7 (hc0 : ¬cond0 i) (xo7 : Vec F S2x1024 .f32) : View.canon (runB 𝒱₀ c i arg1 harg1 arg2 harg2 arg3 harg3 arg4 harg4 arg5 harg5 arg6 harg6 arg7 harg7 arg8 harg8 hc0 x0 x1 x2 x3 x4 x5 xo7).L7 = statStep x0 x1 x2 x3 x4 x5 xo7 := by
  unfold kernelRun_B; dsimp only; sl_unfold_words
  rw [View.canon_unit_zero hz]
  simp only [View.readAt_eq_ld, Memref.IsWhole.read_unread, View.ld_unit_zero (S := S512x1024) hz, View.ld_unit_zero (S := S2x1024) hz, View.ld_unit_zero (S := S1x1024) hz, View.ld_unit_zero (S := S1024x1024) hz]
  rfl

end Pieces

variable (V : (c : Dev nD) → (b : Ref sig .tc) → Buf (Elt F) ((c : Thread nD τ).loc b))
variable (B : Set (SemLoc sig × Ix))
local notation "dat'" => dat (Name := Name) (U := U) (Lvl := Lvl) V B

/-- What the body is called with at point `t`, the windows one by one, -/
def bodyPre (ι : Ix) (c : Dev nD) (t : Fin cfg2.N) : sProp 𝕄 :=
  iprop((dat' c).Φ t.castSucc ∗ (dat' c).owesAt ι t.castSucc
    ∗ (∃ d, owns (c : Thread nD τ) (st2_0 t) fullShare ((dat' c).before 0 t d))
    ∗ (∃ d, owns (c : Thread nD τ) (st2_1 t) fullShare ((dat' c).before 1 t d))
    ∗ (∃ d, owns (c : Thread nD τ) (st2_2 t) fullShare ((dat' c).before 2 t d))
    ∗ (∃ d, owns (c : Thread nD τ) (st2_3 t) fullShare ((dat' c).before 3 t d))
    ∗ (∃ d, owns (c : Thread nD τ) (st2_4 t) fullShare ((dat' c).before 4 t d))
    ∗ (∃ d, owns (c : Thread nD τ) (st2_5 t) fullShare ((dat' c).before 5 t d))
    ∗ (∃ d, owns (c : Thread nD τ) (st2_6 t) fullShare ((dat' c).before 6 t d))
    ∗ (∃ d, owns (c : Thread nD τ) (st2_7 t) fullShare ((dat' c).before 7 t d)))

/-- and what it returns. -/
def bodyPost (ι : Ix) (c : Dev nD) (t : Fin cfg2.N) : sProp 𝕄 :=
  iprop((dat' c).Φ t.succ ∗ (dat' c).owesAt ι t.succ
    ∗ owns (c : Thread nD τ) (st2_0 t) fullShare ((dat' c).after 0 t)
    ∗ owns (c : Thread nD τ) (st2_1 t) fullShare ((dat' c).after 1 t)
    ∗ owns (c : Thread nD τ) (st2_2 t) fullShare ((dat' c).after 2 t)
    ∗ owns (c : Thread nD τ) (st2_3 t) fullShare ((dat' c).after 3 t)
    ∗ owns (c : Thread nD τ) (st2_4 t) fullShare ((dat' c).after 4 t)
    ∗ owns (c : Thread nD τ) (st2_5 t) fullShare ((dat' c).after 5 t)
    ∗ owns (c : Thread nD τ) (st2_6 t) fullShare ((dat' c).after 6 t)
    ∗ owns (c : Thread nD τ) (st2_7 t) fullShare ((dat' c).after 7 t))

set_option maxHeartbeats 1600000 in
/-- The body at the first point. -/
theorem sound_body_A (𝒱₀ : Variants) (ι : Ix) (c : Dev nD) (t : Fin cfg2.N) (h0 : t.val = 0) :
    (bodyPre (Name := Name) (U := U) (Lvl := Lvl) V B ι c t : sProp 𝕄) ⊢ wp frame (wpE (defs₀ (F := F)) 𝒱₀ c none) Set.univ (bodyAt2 t) (fun _ => bodyPost (Name := Name) (U := U) (Lvl := Lvl) V B ι c t) := by
  unfold bodyPre bodyPost bodyAt2
  simp only [before_0, before_1, before_2, before_3, before_4, before_5]
  rw [show (dat' c).Φ t.succ = (dat' c).Φ t.castSucc from rfl,
    show (dat' c).owesAt ι t.succ = (dat' c).owesAt ι t.castSucc from rfl,
    after_0, after_1, after_2, after_3, after_4, after_5, after_6, after_7, acc_zero V c t h0]
  have hc : cond0 (grid2.coords t) := (hcond0 t).mpr (by rw [h0])
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA 𝒱₀ c (grid2.coords t) _ _ _ _ _ _ _ _ _ _ _ _ _ _ _ _ hc (iblk V c 0 t) (iblk V c 1 t) (iblk V c 2 t) (iblk V c 3 t) (iblk V c 4 t) (iblk V c 5 t)).run Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (cover_A_6 (Ix := Ix) (Name := Name) (U := U) (Lvl := Lvl) 𝒱₀ c _ _ _ _ _ _ _ _ _ _ _ _ _ _ _ _ _ _ _ _ _ _ _ _)).trans (canon_A_6 (Ix := Ix) (Name := Name) (U := U) (Lvl := Lvl) 𝒱₀ c _ _ _ _ _ _ _ _ _ _ _ _ _ _ _ _ _ _ _ _ _ _ _ _)
  unfold owns; iexists _; isplitr
  swap; · iexact H7
  ipureintro; exact (View.read_writes_eq_canon _ _ _ (cover_A_7 (Ix := Ix) (Name := Name) (U := U) (Lvl := Lvl) 𝒱₀ c _ _ _ _ _ _ _ _ _ _ _ _ _ _ _ _ _ _ _ _ _ _ _ _)).trans (canon_A_7 (Ix := Ix) (Name := Name) (U := U) (Lvl := Lvl) 𝒱₀ c _ _ _ _ _ _ _ _ _ _ _ _ _ _ _ _ _ _ _ _ _ _ _ _)

set_option maxHeartbeats 1600000 in
/-- The body at a later point. -/
theorem sound_body_B (𝒱₀ : Variants) (ι : Ix) (c : Dev nD) (t : Fin cfg2.N) (h0 : ¬t.val = 0) :
    (bodyPre (Name := Name) (U := U) (Lvl := Lvl) V B ι c t : sProp 𝕄) ⊢ wp frame (wpE (defs₀ (F := F)) 𝒱₀ c none) Set.univ (bodyAt2 t) (fun _ => bodyPost (Name := Name) (U := U) (Lvl := Lvl) V B ι c t) := by
  unfold bodyPre bodyPost bodyAt2
  simp only [before_0, before_1, before_2, before_3, before_4, before_5, before_7 V B c t h0]
  rw [show (dat' c).Φ t.succ = (dat' c).Φ t.castSucc from rfl,
    show (dat' c).owesAt ι t.succ = (dat' c).owesAt ι t.castSucc from rfl,
    after_0, after_1, after_2, after_3, after_4, after_5, after_6, after_7, acc_succ V c t h0]
  have hN : t.val < 32 := lt_of_lt_of_eq t.isLt (show cfg2.N = 32 from N_2)
  have hc : ¬cond0 (grid2.coords t) := fun h => h0 (by have := (hcond0 t).mp h; omega)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB 𝒱₀ c (grid2.coords t) _ _ _ _ _ _ _ _ _ _ _ _ _ _ _ _ hc (iblk V c 0 t) (iblk V c 1 t) (iblk V c 2 t) (iblk V c 3 t) (iblk V c 4 t) (iblk V c 5 t) _).run Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (cover_B_6 (Ix := Ix) (Name := Name) (U := U) (Lvl := Lvl) 𝒱₀ c _ _ _ _ _ _ _ _ _ _ _ _ _ _ _ _ _ _ _ _ _ _ _ _ _)).trans (canon_B_6 (Ix := Ix) (Name := Name) (U := U) (Lvl := Lvl) 𝒱₀ c _ _ _ _ _ _ _ _ _ _ _ _ _ _ _ _ _ _ _ _ _ _ _ _ _)
  unfold owns; iexists _; isplitr
  swap; · iexact H7
  ipureintro; exact (View.read_writes_eq_canon _ _ _ (cover_B_7 (Ix := Ix) (Name := Name) (U := U) (Lvl := Lvl) 𝒱₀ c _ _ _ _ _ _ _ _ _ _ _ _ _ _ _ _ _ _ _ _ _ _ _ _ _)).trans (canon_B_7 (Ix := Ix) (Name := Name) (U := U) (Lvl := Lvl) 𝒱₀ c _ _ _ _ _ _ _ _ _ _ _ _ _ _ _ _ _ _ _ _ _ _ _ _ _)

/-- The body at any point. -/
theorem sound_body (𝒱₀ : Variants) (ι : Ix) (c : Dev nD) (t : Fin cfg2.N) :
    (bodyPre (Name := Name) (U := U) (Lvl := Lvl) V B ι c t : sProp 𝕄) ⊢ wp frame (wpE (defs₀ (F := F)) 𝒱₀ c none) Set.univ (bodyAt2 t) (fun _ => bodyPost (Name := Name) (U := U) (Lvl := Lvl) V B ι c t) := by
  by_cases h0 : t.val = 0
  · exact sound_body_A V B 𝒱₀ ι c t h0
  · exact sound_body_B V B 𝒱₀ ι c t h0

/-- The library's body obligation, at every point. -/
theorem body_obligation (𝒱₀ : Variants) (ι : Ix) (c : Dev nD) : BodyObligation (dat' c) (defs₀ (F := F)) 𝒱₀ ι Set.univ := fun t => by
  rw [bigSep_W2, bigSep_W2]
  exact sound_body V B 𝒱₀ ι c t

/-- The invariant at the first point, from the generator register and the scoped buffers no window stages (the
    prefetched tables: none); and the last point gives both back. -/
theorem hin {pre : sProp 𝕄} (c : Dev nD) :
    iprop((∃ r, prngReg c r) ∗ pre ∗ Pipeline.scopedRest (Ix := Ix) (Name := Name) (U := U) (Lvl := Lvl) (Val := Elt F) spec2 c) ⊢ (dat' c).Φ 0 := by
  rw [show (dat' c).Φ 0 = Φ2 c from rfl]; unfold Φ2
  iintro ⟨Hp, -, Hr⟩
  isplitl [Hr]; · iexact Hr
  iexact Hp
theorem hout (c : Dev nD) :
    (dat' c).Φ (Fin.last cfg2.N) ⊢ iprop((∃ r, prngReg c r) ∗ Pipeline.scopedRest (Ix := Ix) (Name := Name) (U := U) (Lvl := Lvl) (Val := Elt F) spec2 c) := by
  rw [show (dat' c).Φ (Fin.last cfg2.N) = Φ2 c from rfl]; unfold Φ2
  iintro ⟨Hr, Hp⟩
  isplitl [Hp]; · iexact Hp
  iexact Hr

end Cert.Kernel.Reg2

end
-- ==== Proof.BReg3Base.lean ====
/-
  The last fused layer (batch normalisation in scale-and-shift form, dense layer, rectifier, the dot with the
  output weights, bias and logistic function), as a pipeline region entered at arbitrary array contents `V`.
-/
import proofs.«209176_g73847667688168_cont_9to1_m_420_10_alg».proof.Proof.Gen.Kernel.Launch
import proofs.«209176_g73847667688168_cont_9to1_m_420_10_alg».proof.Proof.Gen.Kernel.Skeleton
import proofs.«209176_g73847667688168_cont_9to1_m_420_10_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

/-- Window `w`'s block at point `t`, read off its array at the entry contents. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before_0_of {c : Dev nD} (dat : Dat τ (Elt F) Ix Name U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Ix Name U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Ix Name U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Ix Name U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Ix Name U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Ix Name U Lvl cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_6_of {c : Dev nD} (dat : Dat τ (Elt F) Ix Name U Lvl cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_7_of {c : Dev nD} (dat : Dat τ (Elt F) Ix Name U Lvl cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg3.N) : Memref sig .tc .vmem S512x1024 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S2x1024 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1x1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x1024 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1024x1024 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x1024 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S1x1024 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S1x1 .f32 := win3_7.stage (cfg3.slots t 7)
abbrev hs7 (t : Fin cfg3.N) : (ms7 t).IsWhole := hstage3_7 ((cfg3.slots t 7).cast nbuf3_7)
abbrev ms8 (t : Fin cfg3.N) : Memref sig .tc .vmem S512x1 .f32 := win3_8.stage (cfg3.slots t 8)
abbrev hs8 (t : Fin cfg3.N) : (ms8 t).IsWhole := hstage3_8 ((cfg3.slots t 8).cast nbuf3_8)

/-- The pieces a run of the body leaves in its output buffer (last store first), with the statement the run proves of them. -/
structure Found (P : List (View.Piece (Elt F) S512x1 .f32) → Prop) where
  L8 : List (View.Piece (Elt F) S512x1 .f32)
  run : P L8

end Cert.Kernel.Reg3

end
-- ==== Proof.BReg3Run.lean ====
/-
  The body of the last fused layer run symbolically.
-/
import proofs.«209176_g73847667688168_cont_9to1_m_420_10_alg».proof.Proof.BReg3Base

set_option maxRecDepth 16384

noncomputable section

namespace Cert.Kernel.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 4000000 in
/-- What the body's store leaves in its output buffer, with the proof that on whole staging memrefs, the inputs' at
    their contents, the body runs to the continuation holding the inputs' as they were and the output's buffer with
    its piece written. -/
noncomputable def kernelRun (𝒱₀ : Variants) (c : Dev nD) (i : grid3.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S512x1 .f32) (harg9 : arg9.IsWhole)
    (x0 : Vec F S512x1024 .f32) (x1 : Vec F S2x1024 .f32) (x2 : Vec F S1x1024 .f32) (x3 : Vec F S1x1024 .f32) (x4 : Vec F S1024x1024 .f32) (x5 : Vec F S1x1024 .f32) (x6 : Vec F S1x1024 .f32) (x7 : Vec F S1x1 .f32) :
    Found (F := F) fun L8 =>
      ∀ (E : Set Name) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) 𝒱₀ c none) E (cc3__k3_body i arg1 harg1 arg2 harg2 arg3 harg3 arg4 harg4 arg5 harg5 arg6 harg6 arg7 harg7 arg8 harg8 arg9 harg9) K := by
  refine ⟨?L8, ?run⟩
  case run =>
  intro E K
  simp only [cc3__k3_body_eq_skeleton]; unfold cc3__k3_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; iexact H8

end Cert.Kernel.Reg3

end
-- ==== Proof.BReg3Dat.lean ====
/-
  The last fused layer as a pipeline region entered at arbitrary array contents `V`: what each window's
  staging buffer holds after the body at each of the 32 row blocks.  The output block is the logistic
  function of the rectified dense layer of the normalised input block, dotted with the output weights, plus
  the output bias.
-/
import proofs.«209176_g73847667688168_cont_9to1_m_420_10_alg».proof.Proof.BReg3Base

set_option maxRecDepth 16384

noncomputable section

namespace Cert.Kernel.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The two rows of a statistics block: the column sums, and the column sums of squares. -/
abbrev rS0 : Rect S2x1024 := Rect.unit (s := S2x1024) ![0, 0] S1x1024.size inb_S2x1024_S1x1024_0_0
abbrev rS1 : Rect S2x1024 := Rect.unit (s := S2x1024) ![1, 0] S1x1024.size inb_S2x1024_S1x1024_1_0

/-- The output block of one row block, from the input block `x0`, the incoming statistics `x1`, scale `x2`, shift
    `x3`, weights `x4`, bias `x5`, output weights `x6` and output bias `x7`. -/
def blockOut (x0 : Vec F S512x1024 .f32) (x1 : Vec F S2x1024 .f32) (x2 : Vec F S1x1024 .f32) (x3 : Vec F S1x1024 .f32) (x4 : Vec F S1024x1024 .f32) (x5 : Vec F S1x1024 .f32) (x6 : Vec F S1x1024 .f32) (x7 : Vec F S1x1 .f32) : FVec F S512x1 .f32 :=
  k3_pay1 (k3_pay2 (View.ld x1 rS0) (View.ld x1 rS1) x2 x3 x0 x4 x5 x6) x7

variable (V : (c : Dev nD) → (b : Ref sig .tc) → Buf (Elt F) ((c : Thread nD τ).loc b))

/-- The region's invariant on core `c`: the core's scoped buffers that are no staging buffer of this pipeline,
    untouched, and its generator register at some state. -/
def Φ3 (c : Dev nD) : sProp 𝕄 :=
  iprop(Pipeline.scopedRest (Ix := Ix) (Name := Name) (U := U) (Lvl := Lvl) (Val := Elt F) spec3 c ∗ ∃ r, prngReg c r)

/-- The proof data of the pipeline on core `c`: the arrays as the region finds them; after the body at point `t` each
    input's buffer at its block and the output's at the block's output; nothing owed, the recorded wait pairs bounded
    by the given set `B` throughout; full shares. -/
def dat (B : Set (SemLoc sig × Ix)) (c : Dev nD) : Dat τ (Elt F) Ix Name U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => blockOut (iblk V c 0 t) (iblk V c 1 t) (iblk V c 2 t) (iblk V c 3 t) (iblk V c 4 t) (iblk V c 5 t) (iblk V c 6 t) (iblk V c 7 t)
  Φ _ := Φ3 c
  q _ := fullShare
  owed _ := 0
  recorded _ := B

variable (B : Set (SemLoc sig × Ix))
local notation "dat'" => dat (Name := Name) (U := U) (Lvl := Lvl) V B

theorem A_eq (c : Dev nD) (w : Fin cfg3.W) : (dat' c).A w = V c (Pipeline.arrRef spec3 w) := by
  dsimp only [dat]

theorem after_0 (c : Dev nD) (t : Fin cfg3.N) : (dat' c).after 0 t = iblk V c 0 t := by dsimp only [dat]
theorem after_1 (c : Dev nD) (t : Fin cfg3.N) : (dat' c).after 1 t = iblk V c 1 t := by dsimp only [dat]
theorem after_2 (c : Dev nD) (t : Fin cfg3.N) : (dat' c).after 2 t = iblk V c 2 t := by dsimp only [dat]
theorem after_3 (c : Dev nD) (t : Fin cfg3.N) : (dat' c).after 3 t = iblk V c 3 t := by dsimp only [dat]
theorem after_4 (c : Dev nD) (t : Fin cfg3.N) : (dat' c).after 4 t = iblk V c 4 t := by dsimp only [dat]
theorem after_5 (c : Dev nD) (t : Fin cfg3.N) : (dat' c).after 5 t = iblk V c 5 t := by dsimp only [dat]
theorem after_6 (c : Dev nD) (t : Fin cfg3.N) : (dat' c).after 6 t = iblk V c 6 t := by dsimp only [dat]
theorem after_7 (c : Dev nD) (t : Fin cfg3.N) : (dat' c).after 7 t = iblk V c 7 t := by dsimp only [dat]
theorem after_8 (c : Dev nD) (t : Fin cfg3.N) : (dat' c).after 8 t = blockOut (iblk V c 0 t) (iblk V c 1 t) (iblk V c 2 t) (iblk V c 3 t) (iblk V c 4 t) (iblk V c 5 t) (iblk V c 6 t) (iblk V c 7 t) := by dsimp only [dat]

theorem before_0 (c : Dev nD) (t : Fin cfg3.N) (d) : (dat' c).before 0 t d = iblk V c 0 t :=
  before_0_of V (dat' c) (A_eq V B c 0) (after_0 V B c) t d
theorem before_1 (c : Dev nD) (t : Fin cfg3.N) (d) : (dat' c).before 1 t d = iblk V c 1 t :=
  before_1_of V (dat' c) (A_eq V B c 1) (after_1 V B c) t d
theorem before_2 (c : Dev nD) (t : Fin cfg3.N) (d) : (dat' c).before 2 t d = iblk V c 2 t :=
  before_2_of V (dat' c) (A_eq V B c 2) (after_2 V B c) t d
theorem before_3 (c : Dev nD) (t : Fin cfg3.N) (d) : (dat' c).before 3 t d = iblk V c 3 t :=
  before_3_of V (dat' c) (A_eq V B c 3) (after_3 V B c) t d
theorem before_4 (c : Dev nD) (t : Fin cfg3.N) (d) : (dat' c).before 4 t d = iblk V c 4 t :=
  before_4_of V (dat' c) (A_eq V B c 4) (after_4 V B c) t d
theorem before_5 (c : Dev nD) (t : Fin cfg3.N) (d) : (dat' c).before 5 t d = iblk V c 5 t :=
  before_5_of V (dat' c) (A_eq V B c 5) (after_5 V B c) t d
theorem before_6 (c : Dev nD) (t : Fin cfg3.N) (d) : (dat' c).before 6 t d = iblk V c 6 t :=
  before_6_of V (dat' c) (A_eq V B c 6) (after_6 V B c) t d
theorem before_7 (c : Dev nD) (t : Fin cfg3.N) (d) : (dat' c).before 7 t d = iblk V c 7 t :=
  before_7_of V (dat' c) (A_eq V B c 7) (after_7 V B c) t d

theorem owed_zero (c : Dev nD) (t : Fin (cfg3.N + 1)) : (dat' c).owed t = 0 := rfl
theorem Φ_eq (c : Dev nD) (t : Fin (cfg3.N + 1)) : (dat' c).Φ t = Φ3 c := rfl
theorem q_eq (c : Dev nD) (w : Fin cfg3.W) : (dat' c).q w = fullShare := rfl
theorem recorded_eq (c : Dev nD) (t : Fin (cfg3.N + 1)) : (dat' c).recorded t = B := rfl

end Cert.Kernel.Reg3

end
-- ==== Proof.BReg3Body.lean ====
/-
  The last fused layer as a pipeline region: the body's obligation at every row block.  The run of the body
  leaves in the output buffer exactly the closed form the proof data names.
-/
import proofs.«209176_g73847667688168_cont_9to1_m_420_10_alg».proof.Proof.BReg3Run
import proofs.«209176_g73847667688168_cont_9to1_m_420_10_alg».proof.Proof.BReg3Dat
import Idealize.ShloMosaic.Lib.Pipeline.Value

set_option maxRecDepth 16384

noncomputable section

namespace Cert.Kernel.Reg3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

local notation "run3" => kernelRun (F := F) (Ix := Ix) (Name := Name) (U := U) (Lvl := Lvl)

theorem hz : (![0, 0] : Fin 2 → Nat) = fun _ => 0 := funext fun a => by fin_cases a <;> rfl

section Pieces
variable (𝒱₀ : Variants) (c : Dev nD) (i : grid3.Coords) (arg1 : Memref sig .tc .vmem S512x1024 .f32) (harg1 : arg1.IsWhole) (arg2 : Memref sig .tc .vmem S2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S512x1 .f32) (harg9 : arg9.IsWhole)
  (x0 : Vec F S512x1024 .f32) (x1 : Vec F S2x1024 .f32) (x2 : Vec F S1x1024 .f32) (x3 : Vec F S1x1024 .f32) (x4 : Vec F S1024x1024 .f32) (x5 : Vec F S1x1024 .f32) (x6 : Vec F S1x1024 .f32) (x7 : Vec F S1x1 .f32)

/-- The run's piece tiles the output buffer, so it covers it. -/
theorem cover_8 (y : S512x1.Idx) : ∃ pc ∈ (run3 𝒱₀ c i arg1 harg1 arg2 harg2 arg3 harg3 arg4 harg4 arg5 harg5 arg6 harg6 arg7 harg7 arg8 harg8 arg9 harg9 x0 x1 x2 x3 x4 x5 x6 x7).L8, y ∈ pc.1.set :=
  View.cover_of_tiledL (run3 𝒱₀ c i arg1 harg1 arg2 harg2 arg3 harg3 arg4 harg4 arg5 harg5 arg6 harg6 arg7 harg7 arg8 harg8 arg9 harg9 x0 x1 x2 x3 x4 x5 x6 x7).L8 S512x1.size (by sl_kernel_rfl) y

/-- What the run's piece reads back as: the closed form. -/
theorem canon_8 : View.canon (run3 𝒱₀ c i arg1 harg1 arg2 harg2 arg3 harg3 arg4 harg4 arg5 harg5 arg6 harg6 arg7 harg7 arg8 harg8 arg9 harg9 x0 x1 x2 x3 x4 x5 x6 x7).L8 = blockOut x0 x1 x2 x3 x4 x5 x6 x7 := by
  unfold kernelRun; dsimp only; sl_unfold_words
  rw [View.canon_unit_zero hz]
  simp only [View.readAt_eq_ld, Memref.IsWhole.read_unread, View.ld_unit_zero (S := S512x1024) hz, View.ld_unit_zero (S := S1x1024) hz, View.ld_unit_zero (S := S1024x1024) hz, View.ld_unit_zero (S := S1x1) hz]
  rfl

end Pieces

variable (V : (c : Dev nD) → (b : Ref sig .tc) → Buf (Elt F) ((c : Thread nD τ).loc b))
variable (B : Set (SemLoc sig × Ix))
local notation "dat'" => dat (Name := Name) (U := U) (Lvl := Lvl) V B

/-- What the body is called with at point `t`, the windows one by one, -/
def bodyPre (ι : Ix) (c : Dev nD) (t : Fin cfg3.N) : sProp 𝕄 :=
  iprop((dat' c).Φ t.castSucc ∗ (dat' c).owesAt ι t.castSucc
    ∗ (∃ d, owns (c : Thread nD τ) (st3_0 t) fullShare ((dat' c).before 0 t d))
    ∗ (∃ d, owns (c : Thread nD τ) (st3_1 t) fullShare ((dat' c).before 1 t d))
    ∗ (∃ d, owns (c : Thread nD τ) (st3_2 t) fullShare ((dat' c).before 2 t d))
    ∗ (∃ d, owns (c : Thread nD τ) (st3_3 t) fullShare ((dat' c).before 3 t d))
    ∗ (∃ d, owns (c : Thread nD τ) (st3_4 t) fullShare ((dat' c).before 4 t d))
    ∗ (∃ d, owns (c : Thread nD τ) (st3_5 t) fullShare ((dat' c).before 5 t d))
    ∗ (∃ d, owns (c : Thread nD τ) (st3_6 t) fullShare ((dat' c).before 6 t d))
    ∗ (∃ d, owns (c : Thread nD τ) (st3_7 t) fullShare ((dat' c).before 7 t d))
    ∗ (∃ d, owns (c : Thread nD τ) (st3_8 t) fullShare ((dat' c).before 8 t d)))

/-- and what it returns. -/
def bodyPost (ι : Ix) (c : Dev nD) (t : Fin cfg3.N) : sProp 𝕄 :=
  iprop((dat' c).Φ t.succ ∗ (dat' c).owesAt ι t.succ
    ∗ owns (c : Thread nD τ) (st3_0 t) fullShare ((dat' c).after 0 t)
    ∗ owns (c : Thread nD τ) (st3_1 t) fullShare ((dat' c).after 1 t)
    ∗ owns (c : Thread nD τ) (st3_2 t) fullShare ((dat' c).after 2 t)
    ∗ owns (c : Thread nD τ) (st3_3 t) fullShare ((dat' c).after 3 t)
    ∗ owns (c : Thread nD τ) (st3_4 t) fullShare ((dat' c).after 4 t)
    ∗ owns (c : Thread nD τ) (st3_5 t) fullShare ((dat' c).after 5 t)
    ∗ owns (c : Thread nD τ) (st3_6 t) fullShare ((dat' c).after 6 t)
    ∗ owns (c : Thread nD τ) (st3_7 t) fullShare ((dat' c).after 7 t)
    ∗ owns (c : Thread nD τ) (st3_8 t) fullShare ((dat' c).after 8 t))

set_option maxHeartbeats 1600000 in
/-- The body at any point. -/
theorem sound_body (𝒱₀ : Variants) (ι : Ix) (c : Dev nD) (t : Fin cfg3.N) :
    (bodyPre (Name := Name) (U := U) (Lvl := Lvl) V B ι c t : sProp 𝕄) ⊢ wp frame (wpE (defs₀ (F := F)) 𝒱₀ c none) Set.univ (bodyAt3 t) (fun _ => bodyPost (Name := Name) (U := U) (Lvl := Lvl) V B ι c t) := by
  unfold bodyPre bodyPost bodyAt3
  simp only [before_0, before_1, before_2, before_3, before_4, before_5, before_6, before_7]
  rw [show (dat' c).Φ t.succ = (dat' c).Φ t.castSucc from rfl,
    show (dat' c).owesAt ι t.succ = (dat' c).owesAt ι t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run3 𝒱₀ c (grid3.coords t) _ _ _ _ _ _ _ _ _ _ _ _ _ _ _ _ _ _ (iblk V c 0 t) (iblk V c 1 t) (iblk V c 2 t) (iblk V c 3 t) (iblk V c 4 t) (iblk V c 5 t) (iblk V c 6 t) (iblk V c 7 t)).run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact (View.read_writes_eq_canon _ _ _ (cover_8 (Ix := Ix) (Name := Name) (U := U) (Lvl := Lvl) 𝒱₀ c _ _ _ _ _ _ _ _ _ _ _ _ _ _ _ _ _ _ _ _ _ _ _ _ _ _ _)).trans (canon_8 (Ix := Ix) (Name := Name) (U := U) (Lvl := Lvl) 𝒱₀ c _ _ _ _ _ _ _ _ _ _ _ _ _ _ _ _ _ _ _ _ _ _ _ _ _ _ _)

/-- The library's body obligation, at every point. -/
theorem body_obligation (𝒱₀ : Variants) (ι : Ix) (c : Dev nD) : BodyObligation (dat' c) (defs₀ (F := F)) 𝒱₀ ι Set.univ := fun t => by
  rw [bigSep_W3, bigSep_W3]
  exact sound_body V B 𝒱₀ ι c t

/-- The invariant at the first point, from the generator register and the scoped buffers no window stages (the
    prefetched tables: none); and the last point gives both back. -/
theorem hin {pre : sProp 𝕄} (c : Dev nD) :
    iprop((∃ r, prngReg c r) ∗ pre ∗ Pipeline.scopedRest (Ix := Ix) (Name := Name) (U := U) (Lvl := Lvl) (Val := Elt F) spec3 c) ⊢ (dat' c).Φ 0 := by
  rw [show (dat' c).Φ 0 = Φ3 c from rfl]; unfold Φ3
  iintro ⟨Hp, -, Hr⟩
  isplitl [Hr]; · iexact Hr
  iexact Hp
theorem hout (c : Dev nD) :
    (dat' c).Φ (Fin.last cfg3.N) ⊢ iprop((∃ r, prngReg c r) ∗ Pipeline.scopedRest (Ix := Ix) (Name := Name) (U := U) (Lvl := Lvl) (Val := Elt F) spec3 c) := by
  rw [show (dat' c).Φ (Fin.last cfg3.N) = Φ3 c from rfl]; unfold Φ3
  iintro ⟨Hr, Hp⟩
  isplitl [Hp]; · iexact Hp
  iexact Hr

end Cert.Kernel.Reg3

end
-- ==== Proof.BKTailRegs.lean ====
/-
  The three pallas_call regions of the TensorCore program as segments over a thread state that holds every
  unscoped buffer at a valuation, beside the generator register and the core owing nothing with its recorded
  waits below the next handshake's level. Each region is stated over an arbitrary entry valuation; its exit
  valuation has the region's arrays at what the pipeline leaves and every other buffer as entered.
-/
import proofs.«209176_g73847667688168_cont_9to1_m_420_10_alg».proof.Proof.BKVals
import proofs.«209176_g73847667688168_cont_9to1_m_420_10_alg».proof.Proof.BReg1Frame
import proofs.«209176_g73847667688168_cont_9to1_m_420_10_alg».proof.Proof.BReg2Body
import proofs.«209176_g73847667688168_cont_9to1_m_420_10_alg».proof.Proof.BReg3Body
import Idealize.ShloMosaic.Lib.Pipeline.FrameSuffix
import Idealize.ShloMosaic.Lib.Pipeline.RegionsLoop

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-- A valuation read at the TensorCore's references. -/
abbrev rd (W : Dev nD → Valuation τ sig (Elt F)) : (c : Dev nD) → (b : Ref sig .tc) → Buf (Elt F) ((c : Thread nD τ).loc b) :=
  fun c b => W c b

/-- The level assignment's cells and levels, and the index the pipelines' credit tokens carry. -/
abbrev LL : GSem nD τ sig → Finset (HIx 1) := (K (F := F)).L
abbrev lvv : GSem nD τ sig → HIx 1 → ℕ := (K (F := F)).lev
abbrev ι₀ : HIx 1 := none

/-- A recorded set below level 8 lies within a region's bound. -/
theorem sub_bound_of_wbelow (c : Dev nD) (W : Waits sig (HIx 1)) (B' : Set (SemLoc sig × HIx 1))
    (h : (K (F := F)).WBelow (SparseCore.T c) W 8) : (↑W : Set (SemLoc sig × HIx 1)) ⊆ Brec (F := F) c ∪ B' :=
  fun p hp => Or.inl (h p hp)

/-- A recorded set within a region's bound is below level 8: the pipeline's own waits are recorded at the index that
    carries level zero. -/
theorem wbelow_of_sub_bound (c : Dev nD) (W : Waits sig (HIx 1)) (cfg : Pipeline.Cfg sig Λ₀)
    (h : (↑W : Set (SemLoc sig × HIx 1)) ⊆ Brec (F := F) c ∪ cfg.waitPairs ι₀) : (K (F := F)).WBelow (SparseCore.T c) W 8 := by
  intro p hp
  rcases h hp with h | ⟨w, s, rfl⟩
  · exact h
  · exact Nat.zero_le _

/-- The thread state at a boundary: every unscoped buffer at the valuation, and what rides along. -/
abbrev St (W : Dev nD → Valuation τ sig (Elt F)) (c : Dev nD) : sProp 𝕄 :=
  iprop(StableHlo.held (c : Thread nD τ) (Pipeline.ucRefs τ sig) (W c) ∗ RR c)

/-- A host stretch as a segment: the operations over the unscoped references from the contents `W`, the rest of the
    thread state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (LL (F := F)) (lvv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

section Regs

variable (W1 W2 W3 : Dev nD → Valuation τ sig (Elt F))

/-- Every pipeline's proof data, each at its region's entry contents. -/
def pdats : (p : Fin 3) → (c : Dev nD) → Dat τ (Elt F) (HIx 1) ℕ UU ℕ (Pipeline.pin (pcfgs (F := F)) adm p) c
  | ⟨0, _⟩ => fun c => Reg1.dat (rd W1) (Brec (F := F) c) c
  | ⟨1, _⟩ => fun c => Reg2.dat (rd W2) (Brec (F := F) c) c
  | ⟨2, _⟩ => fun c => Reg3.dat (rd W3) (Brec (F := F) c) c

/-- Region two's exit valuation: its arrays at what the pipeline leaves, every other buffer as entered. -/
def X2 (c : Dev nD) : Valuation τ sig (Elt F) :=
  Pipeline.withArrays spec2 c (W2 c) fun w => (Reg2.dat (Name := ℕ) (U := UU) (Lvl := ℕ) (rd W2) (Brec (F := F) c) c).arrAt w cfg2.N
theorem X2_arr (c : Dev nD) (w : Fin cfg2.W) :
    X2 W2 c (Proc.devRef .tc (Pipeline.arrRef spec2 w))
      = (Reg2.dat (Name := ℕ) (U := UU) (Lvl := ℕ) (rd W2) (Brec (F := F) c) c).arrAt w cfg2.N := by
  unfold X2; exact Pipeline.withArrays_arr spec2 launch2.win.arr_inj c _ _ w
theorem X2_of_ne (c : Dev nD) (b : Ref sig .tc) (hb : ∀ w, Pipeline.arrRef spec2 w ≠ b) :
    X2 W2 c (Proc.devRef .tc b) = W2 c (Proc.devRef .tc b) := by
  unfold X2; exact Pipeline.withArrays_of_ne spec2 c _ _ b hb
theorem hF2 (c : Dev nD) (w : Fin cfg2.W) :
    (Reg2.dat (Name := ℕ) (U := UU) (Lvl := ℕ) (rd W2) (Brec (F := F) c) c).arrAt w cfg2.N = rd (X2 W2) c (Pipeline.arrRef spec2 w) :=
  (X2_arr W2 c w).symm
theorem hrest2 (c : Dev nD) : ∀ b, b ∉ Finset.univ.image (Pipeline.arrRef spec2) → rd (X2 W2) c b = rd W2 c b :=
  fun b hb => X2_of_ne W2 c b fun w e => hb (Finset.mem_image.mpr ⟨w, Finset.mem_univ _, e⟩)

set_option backward.isDefEq.respectTransparency.types false in
/-- REGION two over the thread state: entered from every unscoped buffer at `W2`, left at `X2 W2`. Its arrays
    are split out of the unscoped buffers and put back at the exit contents; the generator register goes into the
    invariant and comes out; nothing is owed; the recorded waits stay below the next handshake's level. -/
def reg2 : Pipeline.RegionSeg (pcfgs (F := F)) adm (pdats W1 W2 W3) ι₀ defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (Reg2.body_obligation (rd W2) (Brec (F := F) c) 𝒱₀ ι₀ c).loose
  hwaits := Pipeline.hwaits_of_owed_zero _ _ _ _ (LL (F := F)) (lvv (F := F)) 1 fun _ _ => rfl
  pre c := St W2 c
  post c := St (X2 W2) c
  X c := iprop(∃ r, prngReg c r)
  Y c := iprop(∃ r, prngReg c r)
  Z c := Pipeline.unscopedRest (Ix := HIx 1) (Name := ℕ) (U := UU) (Lvl := ℕ) spec2 c (rd W2 c)
  hentry c := by
    rw [Pipeline.ownSems0_none]
    have hsplit := Pipeline.arrays_of_unscopedBufs (p := 1) (pcfgs (F := F)) adm (pdats W1 W2 W3) launch2.win launch2.arr_whole c
      ((pdats W1 W2 W3 1 c).share_full fun _ => rfl) (rd W2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_wbelow c W _ hW
      iexact HO
    isplitl [Hp]; · iexact Hp
    iexact Hrest
  hin c := Reg2.hin (rd W2) (Brec (F := F) c) c
  hout c := by
    rw [Pipeline.ownSems0_none]
    refine (Reg2.hout (rd W2) (Brec (F := F) c) c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats W1 W2 W3) ((pdats W1 W2 W3 1 c).share_full fun _ => rfl)
      (rd W2 c) (rd (X2 W2) c) ((pdats W1 W2 W3 1 c).arrAt · cfg2.N) (hF2 W2 c) (hrest2 W2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow_of_sub_bound c W _ hW
    iexact HO

/-- Region three's exit valuation: its arrays at what the pipeline leaves, every other buffer as entered. -/
def X3 (c : Dev nD) : Valuation τ sig (Elt F) :=
  Pipeline.withArrays spec3 c (W3 c) fun w => (Reg3.dat (Name := ℕ) (U := UU) (Lvl := ℕ) (rd W3) (Brec (F := F) c) c).arrAt w cfg3.N
theorem X3_arr (c : Dev nD) (w : Fin cfg3.W) :
    X3 W3 c (Proc.devRef .tc (Pipeline.arrRef spec3 w))
      = (Reg3.dat (Name := ℕ) (U := UU) (Lvl := ℕ) (rd W3) (Brec (F := F) c) c).arrAt w cfg3.N := by
  unfold X3; exact Pipeline.withArrays_arr spec3 launch3.win.arr_inj c _ _ w
theorem X3_of_ne (c : Dev nD) (b : Ref sig .tc) (hb : ∀ w, Pipeline.arrRef spec3 w ≠ b) :
    X3 W3 c (Proc.devRef .tc b) = W3 c (Proc.devRef .tc b) := by
  unfold X3; exact Pipeline.withArrays_of_ne spec3 c _ _ b hb
theorem hF3 (c : Dev nD) (w : Fin cfg3.W) :
    (Reg3.dat (Name := ℕ) (U := UU) (Lvl := ℕ) (rd W3) (Brec (F := F) c) c).arrAt w cfg3.N = rd (X3 W3) c (Pipeline.arrRef spec3 w) :=
  (X3_arr W3 c w).symm
theorem hrest3 (c : Dev nD) : ∀ b, b ∉ Finset.univ.image (Pipeline.arrRef spec3) → rd (X3 W3) c b = rd W3 c b :=
  fun b hb => X3_of_ne W3 c b fun w e => hb (Finset.mem_image.mpr ⟨w, Finset.mem_univ _, e⟩)

set_option backward.isDefEq.respectTransparency.types false in
/-- REGION three over the thread state: entered from every unscoped buffer at `W3`, left at `X3 W3`. Its arrays
    are split out of the unscoped buffers and put back at the exit contents; the generator register goes into the
    invariant and comes out; nothing is owed; the recorded waits stay below the next handshake's level. -/
def reg3 : Pipeline.RegionSeg (pcfgs (F := F)) adm (pdats W1 W2 W3) ι₀ defs₀ 𝒱₀ (LL (F := F)) (lvv (F := F)) 2 where
  win := launch3.win.to₀
  block_pos := launch3.block_pos
  stage_whole := launch3.stage_whole
  K := PEmpty
  osem k := k.elim
  ho := Pipeline.OwnSemFacts.none _
  hbody c := (Reg3.body_obligation (rd W3) (Brec (F := F) c) 𝒱₀ ι₀ c).loose
  hwaits := Pipeline.hwaits_of_owed_zero _ _ _ _ (LL (F := F)) (lvv (F := F)) 2 fun _ _ => rfl
  pre c := St W3 c
  post c := St (X3 W3) c
  X c := iprop(∃ r, prngReg c r)
  Y c := iprop(∃ r, prngReg c r)
  Z c := Pipeline.unscopedRest (Ix := HIx 1) (Name := ℕ) (U := UU) (Lvl := ℕ) spec3 c (rd W3 c)
  hentry c := by
    rw [Pipeline.ownSems0_none]
    have hsplit := Pipeline.arrays_of_unscopedBufs (p := 2) (pcfgs (F := F)) adm (pdats W1 W2 W3) launch3.win launch3.arr_whole c
      ((pdats W1 W2 W3 2 c).share_full fun _ => rfl) (rd W3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_wbelow c W _ hW
      iexact HO
    isplitl [Hp]; · iexact Hp
    iexact Hrest
  hin c := Reg3.hin (rd W3) (Brec (F := F) c) c
  hout c := by
    rw [Pipeline.ownSems0_none]
    refine (Reg3.hout (rd W3) (Brec (F := F) c) c).trans ?_
    iintro ⟨Hp, Hr⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats W1 W2 W3) ((pdats W1 W2 W3 2 c).share_full fun _ => rfl)
      (rd W3 c) (rd (X3 W3) c) ((pdats W1 W2 W3 2 c).arrAt · cfg3.N) (hF3 W3 c) (hrest3 W3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow_of_sub_bound c W _ hW
    iexact HO

end Regs

end Cert.Kernel.Run

end
-- ==== Proof.BKTailReg1.lean ====
/-
  The first pallas_call region as a segment. Two of its windows read the pooled array (the first half of the rows
  and the second half), so the array is held half by each: entering, the full share is split in two; leaving, the two
  halves are joined. The exit valuation has the region's two output arrays at what the pipeline leaves and every
  other buffer as entered.
-/
import proofs.«209176_g73847667688168_cont_9to1_m_420_10_alg».proof.Proof.BKTailRegs

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

section Reg1

variable (W1 W2 W3 : Dev nD → Valuation τ sig (Elt F))

/-- The first region's proof data on core `c`. -/
abbrev D1 (c : Dev nD) : Dat τ (Elt F) (HIx 1) ℕ UU ℕ cfg1 c := Reg1.dat (rd W1) (Brec (F := F) c) c

/-- Region one's exit valuation: the two output arrays at what the pipeline leaves, every other buffer as entered. -/
def X1 (c : Dev nD) : Valuation τ sig (Elt F) := fun b =>
  if h6 : b = Proc.devRef .tc main_v15_0 then
    cast (congrArg (fun b' : DevRef τ sig => b'.ty.Contents (Elt F)) h6.symm) ((D1 W1 c).arrAt 6 cfg1.N)
  else if h7 : b = Proc.devRef .tc main_v15_1 then
    cast (congrArg (fun b' : DevRef τ sig => b'.ty.Contents (Elt F)) h7.symm) ((D1 W1 c).arrAt 7 cfg1.N)
  else W1 c b

theorem X1_v15_0 (c : Dev nD) : X1 W1 c (Proc.devRef .tc main_v15_0) = (D1 W1 c).arrAt 6 cfg1.N := by
  unfold X1; rw [dif_pos rfl]; rfl
theorem X1_v15_1 (c : Dev nD) : X1 W1 c (Proc.devRef .tc main_v15_1) = (D1 W1 c).arrAt 7 cfg1.N := by
  unfold X1; rw [dif_neg (StableHlo.devRef_ne_of_ne (by decide)), dif_pos rfl]; rfl
theorem X1_of_ne (c : Dev nD) (b : DevRef τ sig) (h6 : b ≠ Proc.devRef .tc main_v15_0) (h7 : b ≠ Proc.devRef .tc main_v15_1) :
    X1 W1 c b = W1 c b := by
  unfold X1; rw [dif_neg h6, dif_neg h7]

/-- The buffers behind the region's eight windows. -/
theorem arrImage1 : Finset.univ.image (Pipeline.arrRef spec1)
    = ({main_v5, main_arg0, main_arg1, main_arg3, main_v6, main_v15_0, main_v15_1} : Finset (Ref sig .tc)) := by decide

set_option maxHeartbeats 1600000 in
/-- The region's arrays at contents read off a valuation are the buffers behind them at that valuation: the pooled
    array's two halves make the whole. -/
theorem arrays1_iff (c : Dev nD) (V : (b : Ref sig .tc) → Buf (Elt F) ((c : Thread nD τ).loc b)) :
    (D1 W1 c).arrays (fun w => V (Pipeline.arrRef spec1 w)) ⊣⊢ (Pipeline.arrBufs spec1 c V : sProp 𝕄) := by
  have h1 : (D1 W1 c).arrays (fun w => V (Pipeline.arrRef spec1 w))
      = bigSep Finset.univ fun w : Fin 8 =>
          (View.loc (c : Thread nD τ) (cfg1.win w).arr.view ↦{(D1 W1 c).share w} V (Pipeline.arrRef spec1 w) : sProp 𝕄) := by
    unfold Pipeline.Dat.arrays
    exact bigSep_congr fun w _ => by rw [(arr_whole1 w).set_eq_univ]
  have h2 : (Pipeline.arrBufs spec1 c V : sProp 𝕄)
      = iprop(((c : Thread nD τ).loc main_v5 ↦{fullShare} V main_v5)
        ∗ ((c : Thread nD τ).loc main_arg0 ↦{fullShare} V main_arg0) ∗ ((c : Thread nD τ).loc main_arg1 ↦{fullShare} V main_arg1)
        ∗ ((c : Thread nD τ).loc main_arg3 ↦{fullShare} V main_arg3) ∗ ((c : Thread nD τ).loc main_v6 ↦{fullShare} V main_v6)
        ∗ ((c : Thread nD τ).loc main_v15_0 ↦{fullShare} V main_v15_0) ∗ ((c : Thread nD τ).loc main_v15_1 ↦{fullShare} V main_v15_1)) := by
    unfold Pipeline.arrBufs
    rw [arrImage1, bigSep_insert (by decide), bigSep_insert (by decide), bigSep_insert (by decide), bigSep_insert (by decide),
      bigSep_insert (by decide), bigSep_insert (by decide), bigSep_singleton]
    rfl
  rw [h1, bigSep_W1, h2]
  rw [Reg1.share_0, Reg1.share_1, Reg1.share_2, Reg1.share_3, Reg1.share_4, Reg1.share_5, Reg1.share_6, Reg1.share_7]
  have hsh : (View.loc (c : Thread nD τ) (cfg1.win 0).arr.view ↦{fullShare} V (Pipeline.arrRef spec1 0) : sProp 𝕄)
      ⊣⊢ iprop((View.loc (c : Thread nD τ) (cfg1.win 0).arr.view ↦{fullShare.left} V (Pipeline.arrRef spec1 0))
        ∗ (View.loc (c : Thread nD τ) (cfg1.win 0).arr.view ↦{fullShare.right} V (Pipeline.arrRef spec1 0))) :=
    pointsTo_share (PosShare.mem_left_op_right fullShare)
  constructor
  · iintro ⟨Ha, Hb, H2, H3, H4, H5, H6, H7⟩
    isplitl [Ha Hb]
    · iapply hsh.2; isplitl [Ha]; · iexact Ha
      iexact Hb
    isplitl [H2]; · iexact H2
    isplitl [H3]; · iexact H3
    isplitl [H4]; · iexact H4
    isplitl [H5]; · iexact H5
    isplitl [H6]; · iexact H6
    iexact H7
  · iintro ⟨H01, H2, H3, H4, H5, H6, H7⟩
    ihave H := hsh.1 $$ H01
    icases H with ⟨Ha, Hb⟩
    isplitl [Ha]; · iexact Ha
    isplitl [Hb]; · iexact Hb
    isplitl [H2]; · iexact H2
    isplitl [H3]; · iexact H3
    isplitl [H4]; · iexact H4
    isplitl [H5]; · iexact H5
    isplitl [H6]; · iexact H6
    iexact H7

/-- At the region's exit each array holds what the exit valuation says. -/
theorem hF1 (c : Dev nD) (w : Fin cfg1.W) : (D1 W1 c).arrAt w cfg1.N = rd (X1 W1) c (Pipeline.arrRef spec1 w) := by
  have hin : ∀ (w : Fin cfg1.W), (cfg1.win w).isOut = false →
      (∀ (h6 : Proc.devRef (τ := τ) .tc (Pipeline.arrRef spec1 w) ≠ Proc.devRef .tc main_v15_0)
        (h7 : Proc.devRef (τ := τ) .tc (Pipeline.arrRef spec1 w) ≠ Proc.devRef .tc main_v15_1),
        (D1 W1 c).arrAt w cfg1.N = rd (X1 W1) c (Pipeline.arrRef spec1 w)) := fun w hw h6 h7 =>
    (((D1 W1 c).arrAt_in w hw _).trans (Reg1.A_eq (rd W1) (Brec (F := F) c) c w)).trans (X1_of_ne W1 c _ h6 h7).symm
  match w with
  | ⟨0, _⟩ => exact hin 0 rfl (StableHlo.devRef_ne_of_ne (by decide)) (StableHlo.devRef_ne_of_ne (by decide))
  | ⟨1, _⟩ => exact hin 1 rfl (StableHlo.devRef_ne_of_ne (by decide)) (StableHlo.devRef_ne_of_ne (by decide))
  | ⟨2, _⟩ => exact hin 2 rfl (StableHlo.devRef_ne_of_ne (by decide)) (StableHlo.devRef_ne_of_ne (by decide))
  | ⟨3, _⟩ => exact hin 3 rfl (StableHlo.devRef_ne_of_ne (by decide)) (StableHlo.devRef_ne_of_ne (by decide))
  | ⟨4, _⟩ => exact hin 4 rfl (StableHlo.devRef_ne_of_ne (by decide)) (StableHlo.devRef_ne_of_ne (by decide))
  | ⟨5, _⟩ => exact hin 5 rfl (StableHlo.devRef_ne_of_ne (by decide)) (StableHlo.devRef_ne_of_ne (by decide))
  | ⟨6, _⟩ => exact (X1_v15_0 W1 c).symm
  | ⟨7, _⟩ => exact (X1_v15_1 W1 c).symm

/-- Every buffer that is no array of the region is as entered. -/
theorem hrest1 (c : Dev nD) : ∀ b, b ∉ Finset.univ.image (Pipeline.arrRef spec1) → rd (X1 W1) c b = rd W1 c b := fun b hb =>
  X1_of_ne W1 c _
    (fun e => hb (Finset.mem_image.mpr ⟨6, Finset.mem_univ _, (Proc.devRef_injective _ e).symm⟩))
    (fun e => hb (Finset.mem_image.mpr ⟨7, Finset.mem_univ _, (Proc.devRef_injective _ e).symm⟩))

/-- ENTRY: a core's unscoped buffers at the entry valuation are the region's arrays at their entry contents and the
    unscoped rest. -/
theorem split1 (c : Dev nD) :
    (unscopedBufs (Ix := HIx 1) (Name := ℕ) (U := UU) (Lvl := ℕ) c (rd W1 c) : sProp 𝕄)
      ⊢ iprop((D1 W1 c).arrays ((D1 W1 c).arrAt · 0) ∗ Pipeline.unscopedRest spec1 c (rd W1 c)) := by
  rw [Pipeline.unscopedBufs_split₀ cfgs (0 : Fin 3) winFacts₀1.arr_unscoped c (rd W1 c)]
  exact sep_mono (arrays1_iff W1 c (rd W1 c)).2 .rfl

/-- EXIT: the region's arrays at their final contents and the unscoped rest are the core's unscoped buffers at the exit
    valuation. -/
theorem join1 (c : Dev nD) :
    iprop((D1 W1 c).arrays ((D1 W1 c).arrAt · cfg1.N) ∗ Pipeline.unscopedRest spec1 c (rd W1 c))
      ⊢ (unscopedBufs (Ix := HIx 1) (Name := ℕ) (U := UU) (Lvl := ℕ) c (rd (X1 W1) c) : sProp 𝕄) := by
  rw [Pipeline.unscopedBufs_split₀ cfgs (0 : Fin 3) winFacts₀1.arr_unscoped c (rd (X1 W1) c)]
  refine sep_mono ?_ (Entails.of_eq ?_)
  · rw [show ((D1 W1 c).arrAt · cfg1.N) = fun w => rd (X1 W1) c (Pipeline.arrRef spec1 w) from funext (hF1 W1 c)]
    exact (arrays1_iff W1 c _).1
  · unfold Pipeline.unscopedRest
    exact bigSep_congr fun b hb => by rw [hrest1 W1 c b (Finset.mem_sdiff.mp hb).2]

set_option backward.isDefEq.respectTransparency.types false in
/-- REGION one over the thread state: entered from every unscoped buffer at `W1`, left at `X1 W1`. -/
def reg1 : Pipeline.RegionSeg (pcfgs (F := F)) adm (pdats W1 W2 W3) ι₀ defs₀ 𝒱₀ (LL (F := F)) (lvv (F := F)) 0 where
  win := winFacts₀1
  block_pos := block_pos1
  stage_whole := stage_whole1
  K := PEmpty
  osem k := k.elim
  ho := Pipeline.OwnSemFacts.none _
  hbody c := (Reg1.body_obligation (rd W1) (Brec (F := F) c) 𝒱₀ ι₀ c).loose
  hwaits := Pipeline.hwaits_of_owed_zero _ _ _ _ (LL (F := F)) (lvv (F := F)) 0 fun _ _ => rfl
  pre c := St W1 c
  post c := St (X1 W1) c
  X c := iprop(∃ r, prngReg c r)
  Y c := iprop(∃ r, prngReg c r)
  Z c := Pipeline.unscopedRest (Ix := HIx 1) (Name := ℕ) (U := UU) (Lvl := ℕ) spec1 c (rd W1 c)
  hentry c := by
    rw [Pipeline.ownSems0_none]
    have hsplit : (unscopedBufs (Ix := HIx 1) (Name := ℕ) (U := UU) (Lvl := ℕ) c (rd W1 c) : sProp 𝕄)
        ⊢ iprop((pdats W1 W2 W3 0 c).arrays ((pdats W1 W2 W3 0 c).arrAt · 0) ∗ Pipeline.unscopedRest spec1 c (rd W1 c)) := split1 W1 c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact sub_bound_of_wbelow c W _ hW
      iexact HO
    isplitl [Hp]; · iexact Hp
    iexact Hrest
  hin c := by
    refine BIBase.Entails.trans ?_ (Reg1.hin (rd W1) (Brec (F := F) c) c)
    iintro ⟨Hp, -, Hr⟩
    isplitl [Hp]; · iexact Hp
    iexact Hr
  hout c := by
    rw [Pipeline.ownSems0_none]
    refine (Reg1.hout (rd W1) (Brec (F := F) c) c).trans ?_
    iintro ⟨Hp, Hr⟩
    isplitl [Hp]; · iexact Hp
    isplitr; · iempintro
    iexact Hr
  hexit c := by
    have hjoin : iprop((pdats W1 W2 W3 0 c).arrays ((pdats W1 W2 W3 0 c).arrAt · (Pipeline.pin (pcfgs (F := F)) adm 0).N)
          ∗ Pipeline.unscopedRest spec1 c (rd W1 c))
        ⊢ (unscopedBufs (Ix := HIx 1) (Name := ℕ) (U := UU) (Lvl := ℕ) c (rd (X1 W1) c) : sProp 𝕄) := join1 W1 c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr; · ipureintro; exact wbelow_of_sub_bound c W _ hW
    iexact HO

end Reg1

end Cert.Kernel.Run

end
-- ==== Proof.BKTail.lean ====
/-
  What follows the SparseCore call on the TensorCore, run as segments: the reshapes of the small operands, the three
  pallas_call regions, the last reshape. The buffers' contents are folded through the segments: after the reshapes,
  after each region (its arrays at what the pipeline leaves, every other buffer as entered), after the last reshape.
  No segment writes an argument array, so the fold at an argument walks back to the launch memory.
-/
import proofs.«209176_g73847667688168_cont_9to1_m_420_10_alg».proof.Proof.BKTailReg1

noncomputable section

namespace Cert.Kernel.Run

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (pv : (d : Dev nD) → Buf (Elt F) (oLoc d))

/-! ## The contents at each boundary -/

/-- At the first region's entry (after the reshapes), -/
abbrev E1 : Dev nD → Valuation τ sig (Elt F) := Wc m pv
/-- the second's (the first's exit), -/
abbrev E2 : Dev nD → Valuation τ sig (Elt F) := X1 (E1 m pv)
/-- the third's, -/
abbrev E3 : Dev nD → Valuation τ sig (Elt F) := X2 (E2 m pv)
/-- at the third region's exit, -/
abbrev E4 : Dev nD → Valuation τ sig (Elt F) := X3 (E3 m pv)
/-- and at the return, after the last reshape. -/
abbrev Wg (d : Dev nD) : Valuation τ sig (Elt F) := StableHlo.after lastOps (E4 m pv d)

/-- The three regions' proof data, each at its entry contents. -/
abbrev PD : (p : Fin 3) → (c : Dev nD) → Dat τ (Elt F) (HIx 1) ℕ UU ℕ (Pipeline.pin (pcfgs (F := F)) adm p) c :=
  pdats (E1 m pv) (E2 m pv) (E3 m pv)

/-! ## The host stretches -/

theorem midOps_sub : (midOps : List (HloOp τ sig (Elt F))).Forall fun op => op.bufs ⊆ StableHlo.tcRefs τ sig := by
  simp only [List.Forall]
  refine ⟨?_, ?_, ?_, ?_, ?_, ?_, ?_, ?_, ?_⟩ <;> exact StableHlo.reshape_bufs_sub ..
theorem midOps_fresh : (midOps : List (HloOp τ sig (Elt F))).Forall fun op => op.fresh = ∅ := by
  simp only [List.Forall]; repeat' constructor
theorem lastOps_sub : (lastOps : List (HloOp τ sig (Elt F))).Forall fun op => op.bufs ⊆ StableHlo.tcRefs τ sig :=
  StableHlo.reshape_bufs_sub ..
theorem lastOps_fresh : (lastOps : List (HloOp τ sig (Elt F))).Forall fun op => op.fresh = ∅ := by
  simp only [List.Forall]; rfl

/-! ## The segments -/

/-- The five segments after the SparseCore call, in order. -/
abbrev segs : List (Pipeline.Seg (pcfgs (F := F)) adm (PD m pv) ι₀ defs₀ 𝒱₀ (LL (F := F)) (lvv (F := F))) :=
  [ .host (hseg midOps midOps_sub midOps_fresh (Wb m pv)),
    .region (reg1 (E1 m pv) (E2 m pv) (E3 m pv)),
    .region (reg2 (E1 m pv) (E2 m pv) (E3 m pv)),
    .region (reg3 (E1 m pv) (E2 m pv) (E3 m pv)),
    .host (hseg lastOps lastOps_sub lastOps_fresh (E4 m pv)) ]

/-- What follows the call IS the run of the segments. -/
theorem tailProg_eq : tailProg (F := F) = Pipeline.Seg.run (segs m pv) := by
  rfl

set_option backward.isDefEq.respectTransparency.types false in
/-- THE TAIL: from the boundary, every unscoped buffer at the contents after the call, what rides along, the level
    facts and the pipelines' ghost state, the tail runs to the boundary and every unscoped buffer at the contents at
    the return. -/
theorem tail_wp (d : Dev nD) (Q : PUnit → sProp 𝕄) :
    iprop((iprop(boundary (SparseCore.T d) ∗ StableHlo.held (SparseCore.T d) (Pipeline.ucRefs τ sig) (Wg m pv d) ∗ RR d) -∗ Q ⟨⟩)
        ∗ boundary (SparseCore.T d) ∗ (StableHlo.held (SparseCore.T d) (Pipeline.ucRefs τ sig) (Wb m pv d) ∗ RR d)
        ∗ levAts (K (F := F)).L (K (F := F)).lev ∗ GG d)
      ⊢ wp frame (wpE (D (F := F)) 𝒱 (SparseCore.T d) none) Set.univ (tailProg (F := F)) Q := by
  rw [tailProg_eq m pv]
  exact Pipeline.wp_segs (pcfgs (F := F)) adm (PD m pv) ι₀ cellOf_inj EP defs₀ 𝒱₀ (LL (F := F)) (lvv (F := F)) d
    (segs m pv) Finset.univ (St (Wb m pv)) (St (Wg m pv))
    (show (Pipeline.Seg.pipes (segs m pv)).Nodup from (by decide : ([0, 1, 2] : List (Fin 3)).Nodup)) (fun p _ => Finset.mem_univ p)
    ⟨fun _ => .rfl, fun _ => .rfl, fun _ => .rfl, fun _ => .rfl, fun _ => .rfl, fun _ => .rfl⟩

/-! ## What the fold holds at the return

No host operation after the launch and no region writes an argument array (a region reads one through an input
window, whose array is as entered at the region's exit), so the fold at an argument walks back to the launch memory. -/

section Keep

variable (W : Dev nD → Valuation τ sig (Elt F))

/-- The second region leaves every buffer that is no output array of its own as entered. -/
theorem X2_keep (c : Dev nD) (b : Ref sig .tc) (hb : ∀ w, (cfg2.win w).isOut = true → Pipeline.arrRef spec2 w ≠ b) :
    X2 W c (Proc.devRef .tc b) = W c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    rw [X2_arr]
    exact ((Reg2.dat (Name := ℕ) (U := UU) (Lvl := ℕ) (rd W) (Brec (F := F) c) c).arrAt_in w hin _).trans
      (Reg2.A_eq (rd W) (Brec (F := F) c) c w)
  · exact X2_of_ne W c b fun w e => h ⟨w, e⟩

/-- The third region leaves every buffer that is no output array of its own as entered. -/
theorem X3_keep (c : Dev nD) (b : Ref sig .tc) (hb : ∀ w, (cfg3.win w).isOut = true → Pipeline.arrRef spec3 w ≠ b) :
    X3 W c (Proc.devRef .tc b) = W c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    rw [X3_arr]
    exact ((Reg3.dat (Name := ℕ) (U := UU) (Lvl := ℕ) (rd W) (Brec (F := F) c) c).arrAt_in w hin _).trans
      (Reg3.A_eq (rd W) (Brec (F := F) c) c w)
  · exact X3_of_ne W c b fun w e => h ⟨w, e⟩

end Keep

/-- A buffer that no segment after the launch writes holds at the return what the launch memory held. -/
theorem Wg_of_unwritten (d : Dev nD) (b : Ref sig .tc)
    (hlast : ∀ op ∈ (lastOps : List (HloOp τ sig (Elt F))), Proc.devRef .tc b ∉ op.writes)
    (h3 : ∀ w, (cfg3.win w).isOut = true → Pipeline.arrRef spec3 w ≠ b)
    (h2 : ∀ w, (cfg2.win w).isOut = true → Pipeline.arrRef spec2 w ≠ b)
    (h16 : b ≠ main_v15_0) (h17 : b ≠ main_v15_1)
    (hmid : ∀ op ∈ (midOps : List (HloOp τ sig (Elt F))), Proc.devRef .tc b ∉ op.writes)
    (h5 : b ≠ main_v5)
    (hhead : ∀ op ∈ (headOps : List (HloOp τ sig (Elt F))), Proc.devRef .tc b ∉ op.writes) :
    Wg m pv d (Proc.devRef .tc b) = m ((SparseCore.T d).loc b) :=
  calc Wg m pv d (Proc.devRef .tc b)
    _ = E4 m pv d (Proc.devRef .tc b) := StableHlo.after_of_forall_not_mem _ _ hlast
    _ = E3 m pv d (Proc.devRef .tc b) := X3_keep (E3 m pv) d b h3
    _ = E2 m pv d (Proc.devRef .tc b) := X2_keep (E2 m pv) d b h2
    _ = E1 m pv d (Proc.devRef .tc b) := X1_of_ne (E1 m pv) d _ (StableHlo.devRef_ne_of_ne h16) (StableHlo.devRef_ne_of_ne h17)
    _ = Wb m pv d (Proc.devRef .tc b) := StableHlo.after_of_forall_not_mem _ _ hmid
    _ = Wa m d (Proc.devRef .tc b) := Wb_of_ne m pv d _ (StableHlo.devRef_ne_of_ne h5)
    _ = W0 m d (Proc.devRef .tc b) := StableHlo.after_of_forall_not_mem _ _ hhead
    _ = m ((SparseCore.T d).loc b) := rfl

/-- No operation of a stretch writes the buffer: each operation writes one named buffer, a different one. -/
local macro "unwritten" : tactic => `(tactic| (
  refine List.forall_iff_forall_mem.mp ?_
  simp only [headOps, midOps, lastOps, List.Forall, StableHlo.TRef.unary, StableHlo.TRef.binary, StableHlo.nullary_writes,
    StableHlo.unary_writes, StableHlo.binary_writes, StableHlo.reshape_writes, Finset.mem_singleton]
  repeat' apply And.intro
  all_goals exact StableHlo.devRef_ne_of_ne (by decide)))

/-! ### The fifteen arguments end as launched -/

theorem Wg_arg0 (d : Dev nD) : Wg m pv d (Proc.devRef .tc main_arg0) = m ((SparseCore.T d).loc main_arg0) :=
  Wg_of_unwritten m pv d main_arg0 (by unwritten) (by decide) (by decide) (by decide) (by decide) (by unwritten) (by decide) (by unwritten)
theorem Wg_arg1 (d : Dev nD) : Wg m pv d (Proc.devRef .tc main_arg1) = m ((SparseCore.T d).loc main_arg1) :=
  Wg_of_unwritten m pv d main_arg1 (by unwritten) (by decide) (by decide) (by decide) (by decide) (by unwritten) (by decide) (by unwritten)
theorem Wg_arg2 (d : Dev nD) : Wg m pv d (Proc.devRef .tc main_arg2) = m ((SparseCore.T d).loc main_arg2) :=
  Wg_of_unwritten m pv d main_arg2 (by unwritten) (by decide) (by decide) (by decide) (by decide) (by unwritten) (by decide) (by unwritten)
theorem Wg_arg3 (d : Dev nD) : Wg m pv d (Proc.devRef .tc main_arg3) = m ((SparseCore.T d).loc main_arg3) :=
  Wg_of_unwritten m pv d main_arg3 (by unwritten) (by decide) (by decide) (by decide) (by decide) (by unwritten) (by decide) (by unwritten)
theorem Wg_arg4 (d : Dev nD) : Wg m pv d (Proc.devRef .tc main_arg4) = m ((SparseCore.T d).loc main_arg4) :=
  Wg_of_unwritten m pv d main_arg4 (by unwritten) (by decide) (by decide) (by decide) (by decide) (by unwritten) (by decide) (by unwritten)
theorem Wg_arg5 (d : Dev nD) : Wg m pv d (Proc.devRef .tc main_arg5) = m ((SparseCore.T d).loc main_arg5) :=
  Wg_of_unwritten m pv d main_arg5 (by unwritten) (by decide) (by decide) (by decide) (by decide) (by unwritten) (by decide) (by unwritten)
theorem Wg_arg6 (d : Dev nD) : Wg m pv d (Proc.devRef .tc main_arg6) = m ((SparseCore.T d).loc main_arg6) :=
  Wg_of_unwritten m pv d main_arg6 (by unwritten) (by decide) (by decide) (by decide) (by decide) (by unwritten) (by decide) (by unwritten)
theorem Wg_arg7 (d : Dev nD) : Wg m pv d (Proc.devRef .tc main_arg7) = m ((SparseCore.T d).loc main_arg7) :=
  Wg_of_unwritten m pv d main_arg7 (by unwritten) (by decide) (by decide) (by decide) (by decide) (by unwritten) (by decide) (by unwritten)
theorem Wg_arg8 (d : Dev nD) : Wg m pv d (Proc.devRef .tc main_arg8) = m ((SparseCore.T d).loc main_arg8) :=
  Wg_of_unwritten m pv d main_arg8 (by unwritten) (by decide) (by decide) (by decide) (by decide) (by unwritten) (by decide) (by unwritten)
theorem Wg_arg9 (d : Dev nD) : Wg m pv d (Proc.devRef .tc main_arg9) = m ((SparseCore.T d).loc main_arg9) :=
  Wg_of_unwritten m pv d main_arg9 (by unwritten) (by decide) (by decide) (by decide) (by decide) (by unwritten) (by decide) (by unwritten)
theorem Wg_arg10 (d : Dev nD) : Wg m pv d (Proc.devRef .tc main_arg10) = m ((SparseCore.T d).loc main_arg10) :=
  Wg_of_unwritten m pv d main_arg10 (by unwritten) (by decide) (by decide) (by decide) (by decide) (by unwritten) (by decide) (by unwritten)
theorem Wg_arg11 (d : Dev nD) : Wg m pv d (Proc.devRef .tc main_arg11) = m ((SparseCore.T d).loc main_arg11) :=
  Wg_of_unwritten m pv d main_arg11 (by unwritten) (by decide) (by decide) (by decide) (by decide) (by unwritten) (by decide) (by unwritten)
theorem Wg_arg12 (d : Dev nD) : Wg m pv d (Proc.devRef .tc main_arg12) = m ((SparseCore.T d).loc main_arg12) :=
  Wg_of_unwritten m pv d main_arg12 (by unwritten) (by decide) (by decide) (by decide) (by decide) (by unwritten) (by decide) (by unwritten)
theorem Wg_arg13 (d : Dev nD) : Wg m pv d (Proc.devRef .tc main_arg13) = m ((SparseCore.T d).loc main_arg13) :=
  Wg_of_unwritten m pv d main_arg13 (by unwritten) (by decide) (by decide) (by decide) (by decide) (by unwritten) (by decide) (by unwritten)
theorem Wg_arg14 (d : Dev nD) : Wg m pv d (Proc.devRef .tc main_arg14) = m ((SparseCore.T d).loc main_arg14) :=
  Wg_of_unwritten m pv d main_arg14 (by unwritten) (by decide) (by decide) (by decide) (by decide) (by unwritten) (by decide) (by unwritten)

/-- The result array at the return: the third region's output column, seen as a vector. -/
theorem Wg_v18 (d : Dev nD) :
    Wg m pv d (Proc.devRef .tc main_v18)
      = fun i => shapeCast S16384 ((Reg3.dat (Name := ℕ) (U := UU) (Lvl := ℕ) (rd (E3 m pv)) (Brec (F := F) d) d).arrAt 8 cfg3.N)
          shapeCasts_S16384x1_S16384 i := by
  show (StableHlo.reshape main_v17 main_v18 rfl shapeCasts_S16384x1_S16384 : HloOp τ sig (Elt F)).result (E4 m pv d)
      (Proc.devRef .tc main_v18) = _
  rw [StableHlo.reshape_result', ← X3_arr (E3 m pv) d 8]
  rfl

end Cert.Kernel.Run

end
-- ==== Proof.BKFrame.lean ====
/-
  The kernel program's run with its post read off the final boundary contents: the result array at the last
  boundary's contents, every argument array as launched.
-/
import proofs.«209176_g73847667688168_cont_9to1_m_420_10_alg».proof.Proof.BKLaunch
import proofs.«209176_g73847667688168_cont_9to1_m_420_10_alg».proof.Proof.BKTail

noncomputable section

namespace Cert.Kernel.Run

open Cert.Kernel Cert.Kernel.Gen

open Idealize.ShloMosaic
open Idealize.SL Idealize.SL.Sem

variable {F : FTy → Type} [FloatOps F]

variable (m : (ℓ : Loc nD τ sig) → Buf (Elt F) ℓ) (ρ : Dev nD → PrngReg)
variable (pv : (d : Dev nD) → Buf (Elt F) (oLoc d))

/-- An unscoped TensorCore reference is among those the thread state holds. -/
theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run: it terminates, nothing faults, the result array ends at the last boundary's contents and every
    argument array ends as launched. -/
theorem run_full [∀ e, Nonempty (Elt F e)]
    (htile : (K (F := F)).TileObl (D (F := F)) 𝒱 (PP m pv) v₀ 0) :
    θ_run (Cert.Kernel.defs (F := F)) (Cert.Kernel.threads (F := F)) ⟨m, fun _ => 0, ρ⟩ (fun r => ∀ c : Dev nD,
      r.2.mem ((c.tc : Thread nD τ).loc main_v18) = Wg m pv c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (Cert.Kernel.defs (F := F)) _ _).mono (fun r h c =>
    ⟨h c _ (mem_uc' main_v18 (by decide)),
      (h c _ (mem_uc' main_arg0 (by decide))).trans (Wg_arg0 m pv c),
      (h c _ (mem_uc' main_arg1 (by decide))).trans (Wg_arg1 m pv c),
      (h c _ (mem_uc' main_arg2 (by decide))).trans (Wg_arg2 m pv c),
      (h c _ (mem_uc' main_arg3 (by decide))).trans (Wg_arg3 m pv c),
      (h c _ (mem_uc' main_arg4 (by decide))).trans (Wg_arg4 m pv c),
      (h c _ (mem_uc' main_arg5 (by decide))).trans (Wg_arg5 m pv c),
      (h c _ (mem_uc' main_arg6 (by decide))).trans (Wg_arg6 m pv c),
      (h c _ (mem_uc' main_arg7 (by decide))).trans (Wg_arg7 m pv c),
      (h c _ (mem_uc' main_arg8 (by decide))).trans (Wg_arg8 m pv c),
      (h c _ (mem_uc' main_arg9 (by decide))).trans (Wg_arg9 m pv c),
      (h c _ (mem_uc' main_arg10 (by decide))).trans (Wg_arg10 m pv c),
      (h c _ (mem_uc' main_arg11 (by decide))).trans (Wg_arg11 m pv c),
      (h c _ (mem_uc' main_arg12 (by decide))).trans (Wg_arg12 m pv c),
      (h c _ (mem_uc' main_arg13 (by decide))).trans (Wg_arg13 m pv c),
      (h c _ (mem_uc' main_arg14 (by decide))).trans (Wg_arg14 m pv c)⟩)
    (run_main m ρ pv (Wg m pv) htile (tail_wp m pv))

end Cert.Kernel.Run

end
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«209176_g73847667688168_cont_9to1_m_420_10_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.PreDecode.lean ====
/-
  The precondition, read back. It is one bit: the conjunction of fifteen "all entries satisfy …" reductions, one
  per argument array. For a float array the entry test is |x| < +∞, which says the entry is a real; for the two
  index arrays it is 0 ≤ x and x ≤ 99999 as signed 32-bit words, which says the word, read unsigned, is below
  100000 (a nonnegative signed word is its unsigned value). If the bit is 1 every conjunct is 1, a reduction by
  "and" that came out 1 met only 1s, and each entry test that is 1 holds.
-/
import proofs.«209176_g73847667688168_cont_9to1_m_420_10_alg».proof.Proof.LibPreDecode
import proofs.«209176_g73847667688168_cont_9to1_m_420_10_alg».proof.Pre_input_domain

noncomputable section

namespace Cert.PreDecode

open Idealize.ShloMosaic Idealize.ShloMosaic.ValueIdx
open Cert.Finite Cert.PreDecodeLib Cert.Pre_input_domain

/-- A word in [0, 99999] as a signed number is below 100000 as an unsigned one. -/
theorem toNat_lt (w : BitVec 32) (h0 : IntOp.cmpi .sge w (0#32) = 1#1) (h1 : IntOp.cmpi .sle w (99999#32) = 1#1) :
    w.toNat < 100000 := by
  unfold IntOp.cmpi at h0 h1
  rw [ofBool_eq_one] at h0 h1
  simp only [BitVec.sle, decide_eq_true_eq] at h0 h1
  have h32 := w.isLt
  unfold BitVec.toInt at h0 h1
  split at h1 <;> simp at h0 h1 <;> omega

/-- "All 0 ≤ x i and x i ≤ 99999" came out 1 at the scalar's index: every word of x is below 100000. -/
theorem range_of_all {s : Shape} {axes : List (Fin s.rank)} (x : IVec s 32)
    (hb : S0.BroadcastsInDim s (![] : Fin 0 → Fin s.rank)) (hr : s.ReducesTo axes S0) (hu : 0 < S0.numel)
    (e : Host.reduce IntOp.andi
        (andi (cmpi .sge x (broadcastInDim s ![] hb (constantI S0 32 0#32)))
          (cmpi .sle x (broadcastInDim s ![] hb (constantI S0 32 99999#32))))
        (constantI S0 1 1#1) hr hu ix0 = 1#1) (i : s.Idx) : (x i).toNat < 100000 := by
  have h := all_of_reduce _ _ hr hu e i
  obtain ⟨h0, h1⟩ := andi_eq_one_at h
  exact toNat_lt (x i) h0 h1

/-- What the precondition says of the fifteen argument arrays. -/
structure Decoded (a0 a1 : (⟨2, ![16384, 50]⟩ : Shape).Idx → BitVec 32) (a2 : (⟨2, ![100000, 128]⟩ : Shape).Idx → EReal)
    (a3 : (⟨2, ![256, 1024]⟩ : Shape).Idx → EReal) (a4 a5 a6 : (⟨1, ![1024]⟩ : Shape).Idx → EReal)
    (a7 : (⟨2, ![1024, 1024]⟩ : Shape).Idx → EReal) (a8 a9 a10 : (⟨1, ![1024]⟩ : Shape).Idx → EReal)
    (a11 : (⟨2, ![1024, 1024]⟩ : Shape).Idx → EReal) (a12 : (⟨1, ![1024]⟩ : Shape).Idx → EReal)
    (a13 : (⟨2, ![1024, 1]⟩ : Shape).Idx → EReal) (a14 : (⟨1, ![1]⟩ : Shape).Idx → EReal) : Prop where
  lt0 : ∀ i, (a0 i).toNat < 100000
  lt1 : ∀ i, (a1 i).toNat < 100000
  fin2 : ∀ i, IsReal (a2 i)
  fin3 : ∀ i, IsReal (a3 i)
  fin4 : ∀ i, IsReal (a4 i)
  fin5 : ∀ i, IsReal (a5 i)
  fin6 : ∀ i, IsReal (a6 i)
  fin7 : ∀ i, IsReal (a7 i)
  fin8 : ∀ i, IsReal (a8 i)
  fin9 : ∀ i, IsReal (a9 i)
  fin10 : ∀ i, IsReal (a10 i)
  fin11 : ∀ i, IsReal (a11 i)
  fin12 : ∀ i, IsReal (a12 i)
  fin13 : ∀ i, IsReal (a13 i)
  fin14 : ∀ i, IsReal (a14 i)

variable [Cert.Pre_input_domain.Facts]

/-- THE PRECONDITION DECODED: if the printed predicate is the bit 1, both index arrays hold words below 100000 and
    every float array holds reals. -/
theorem decode (a0 a1 : (⟨2, ![16384, 50]⟩ : Shape).Idx → BitVec 32) (a2 : (⟨2, ![100000, 128]⟩ : Shape).Idx → EReal)
    (a3 : (⟨2, ![256, 1024]⟩ : Shape).Idx → EReal) (a4 a5 a6 : (⟨1, ![1024]⟩ : Shape).Idx → EReal)
    (a7 : (⟨2, ![1024, 1024]⟩ : Shape).Idx → EReal) (a8 a9 a10 : (⟨1, ![1024]⟩ : Shape).Idx → EReal)
    (a11 : (⟨2, ![1024, 1024]⟩ : Shape).Idx → EReal) (a12 : (⟨1, ![1024]⟩ : Shape).Idx → EReal)
    (a13 : (⟨2, ![1024, 1]⟩ : Shape).Idx → EReal) (a14 : (⟨1, ![1]⟩ : Shape).Idx → EReal)
    (h : Cert.Pre_input_domain.fn (F := Ideal) a0 a1 a2 a3 a4 a5 a6 a7 a8 a9 a10 a11 a12 a13 a14 = fun _ => 1#1) :
    Decoded a0 a1 a2 a3 a4 a5 a6 a7 a8 a9 a10 a11 a12 a13 a14 := by
  have h0 := congrFun h ix0
  dsimp only [fn, fn_part1, fn_part2, fn_part3, fn_part4] at h0
  obtain ⟨h0, r1⟩ := andi_ix0 h0
  obtain ⟨h0, r0⟩ := andi_ix0 h0
  obtain ⟨h0, f14⟩ := andi_ix0 h0
  obtain ⟨h0, f13⟩ := andi_ix0 h0
  obtain ⟨h0, f12⟩ := andi_ix0 h0
  obtain ⟨h0, f11⟩ := andi_ix0 h0
  obtain ⟨h0, f10⟩ := andi_ix0 h0
  obtain ⟨h0, f9⟩ := andi_ix0 h0
  obtain ⟨h0, f8⟩ := andi_ix0 h0
  obtain ⟨h0, f7⟩ := andi_ix0 h0
  obtain ⟨h0, f6⟩ := andi_ix0 h0
  obtain ⟨h0, f5⟩ := andi_ix0 h0
  obtain ⟨h0, f4⟩ := andi_ix0 h0
  obtain ⟨f2, f3⟩ := andi_ix0 h0
  exact
    { lt0 := range_of_all a0 _ _ _ r0
      lt1 := range_of_all a1 _ _ _ r1
      fin2 := finite_of_all a2 _ _ _ f2
      fin3 := finite_of_all a3 _ _ _ f3
      fin4 := finite_of_all a4 _ _ _ f4
      fin5 := finite_of_all a5 _ _ _ f5
      fin6 := finite_of_all a6 _ _ _ f6
      fin7 := finite_of_all a7 _ _ _ f7
      fin8 := finite_of_all a8 _ _ _ f8
      fin9 := finite_of_all a9 _ _ _ f9
      fin10 := finite_of_all a10 _ _ _ f10
      fin11 := finite_of_all a11 _ _ _ f11
      fin12 := finite_of_all a12 _ _ _ f12
      fin13 := finite_of_all a13 _ _ _ f13
      fin14 := finite_of_all a14 _ _ _ f14 }

end Cert.PreDecode

end
-- ==== Proof.KHostRead.lean ====
/-
  The layout operations the program applies to its arguments before the kernels run, each read at an index.

  The table gets eight rows of zeros appended: row r of the result is row r of the table for r < 100000 and zero
  beyond. The two index arrays are stacked (32768 bags of 50 words), each bag is padded with 14 zero words to 64, and
  the result is flattened: word 64 t + l of the flat array is word l of bag t (a bag of the first array for
  t < 16384, bag t - 16384 of the second otherwise) for l < 50, and zero for 50 ≤ l < 64. A reshape keeps the
  row-major position: a vector seen as one row, a column seen as one row, a column seen as a vector.
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value

noncomputable section

namespace Cert.KHostRead

open Idealize.ShloMosaic Idealize.ShloMosaic.ValueIdx

/-! ## Reshapes that move a unit axis -/

section Reshape
variable {α : Type}

/-- An `[a, 1]` column cast to `[1, a]` reads, at `(u, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column cast to `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array flattened to `[a * b]` reads, at `b * t + l`, the array at `(t, l)`. -/
theorem shapeCast_ab_flat_apply {a b n : ℕ} (x : (⟨2, ![a, b]⟩ : Shape).Idx → α)
    (h : (⟨2, ![a, b]⟩ : Shape).ShapeCasts ⟨1, ![n]⟩) (t : Fin a) (l : Fin b) (hlt : b * t.val + l.val < n) :
    shapeCast ⟨1, ![n]⟩ x h (ix1 ⟨b * t.val + l.val, hlt⟩) = x (ix2 t l) :=
  shapeCast_apply x h _ _ (by
    rw [Shape.rowMajor_val_two, Shape.rowMajor_val_one]
    show t.val * b + l.val = b * t.val + l.val
    rw [Nat.mul_comm])

end Reshape

/-! ## Two arrays stacked along the first axis -/

section Stack
variable {α : Type}

/-- Two stacked `[m, c]` and `[n, c]` arrays read, at row `r`, the first array for `r < m` and the second at
    `r - m` otherwise. -/
theorem concat_rows_apply {m n k c : ℕ} (x₁ : (⟨2, ![m, c]⟩ : Shape).Idx → α) (x₂ : (⟨2, ![n, c]⟩ : Shape).Idx → α)
    (h : Shape.Concatenates [(⟨2, ![m, c]⟩ : Shape), ⟨2, ![n, c]⟩] ⟨2, ![k, c]⟩ 0) (hk : k = m + n) (r : Fin k) (d : Fin c) :
    concatenate (⟨2, ![k, c]⟩ : Shape) 0 [⟨⟨2, ![m, c]⟩, x₁⟩, ⟨⟨2, ![n, c]⟩, x₂⟩] h (ix2 r d)
      = if hr : r.val < m then x₁ (ix2 ⟨r.val, hr⟩ d) else x₂ (ix2 ⟨r.val - m, by have := r.isLt; omega⟩ d) := by
  by_cases hr : r.val < m
  · rw [dif_pos hr]
    exact concatenate_pair_apply_left (0 : Fin 2) x₁ x₂ h (ix2 r d) rfl (ix2 ⟨r.val, hr⟩ d)
      (fun b => match b with | ⟨0, _⟩ => rfl | ⟨1, _⟩ => rfl)
  · rw [dif_neg hr]
    refine concatenate_pair_apply_right (0 : Fin 2) x₁ x₂ h (ix2 r d) rfl rfl (ix2 ⟨r.val - m, by have := r.isLt; omega⟩ d)
      (fun b hb => match b, hb with | ⟨0, _⟩, hb => absurd rfl hb | ⟨1, _⟩, _ => rfl) ?_
    show r.val - m + m = r.val
    omega

end Stack

/-! ## Rows padded on the right -/

section Pad
variable {α : Type}

/-- An `[a, b]` array padded with `p` trailing columns reads, at `(t, l)`, the array for `l < b` and the padding
    value beyond. -/
theorem pad_cols_apply {a b p b' : ℕ} (x : (⟨2, ![a, b]⟩ : Shape).Idx → α) (v : (⟨0, ![]⟩ : Shape).Idx → α)
    (h : (⟨2, ![a, b]⟩ : Shape).Pads (![0, 0] : Fin 2 → Nat) ![0, p] ![0, 0] ⟨2, ![a, b']⟩)
    (hu : 0 < (⟨0, ![]⟩ : Shape).numel) (t : Fin a) (l : Fin b') :
    pad (⟨2, ![a, b']⟩ : Shape) (![0, 0] : Fin 2 → Nat) ![0, p] ![0, 0] x v h hu (ix2 t l)
      = if hl : l.val < b then x (ix2 t ⟨l.val, hl⟩) else v ix0 := by
  unfold pad
  by_cases hl : l.val < b
  · have hin : ∀ c : Fin 2, (![0, 0] : Fin 2 → Nat) c ≤ ((ix2 t l) (c.cast h.1)).val
        ∧ (((ix2 t l) (c.cast h.1)).val - (![0, 0] : Fin 2 → Nat) c) % ((![0, 0] : Fin 2 → Nat) c + 1) = 0
        ∧ (((ix2 t l) (c.cast h.1)).val - (![0, 0] : Fin 2 → Nat) c) / ((![0, 0] : Fin 2 → Nat) c + 1)
            < (⟨2, ![a, b]⟩ : Shape).size c := by
      intro c
      match c with
      | ⟨0, _⟩ =>
        refine ⟨Nat.zero_le _, ?_, ?_⟩
        · show (t.val - 0) % (0 + 1) = 0
          omega
        · show (t.val - 0) / (0 + 1) < a
          have := t.isLt
          simp
      | ⟨1, _⟩ =>
        refine ⟨Nat.zero_le _, ?_, ?_⟩
        · show (l.val - 0) % (0 + 1) = 0
          omega
        · show (l.val - 0) / (0 + 1) < b
          simpa using hl
    rw [dif_pos hin, dif_pos hl]
    refine congrArg x (funext fun c => Fin.ext ?_)
    match c with
    | ⟨0, _⟩ =>
      show (t.val - 0) / (0 + 1) = t.val
      simp
    | ⟨1, _⟩ =>
      show (l.val - 0) / (0 + 1) = l.val
      simp
  · rw [dif_neg hl, dif_neg]
    · exact congrArg v (eq_ix0 _)
    · intro hin
      have h1 := (hin (1 : Fin 2)).2.2
      have h1' : (l.val - 0) / (0 + 1) < b := h1
      simp at h1'
      exact hl h1'

end Pad

/-! ## The table with its zero rows, and the flat index array -/

/-- The table with eight zero rows appended, read at row `r`: the table's row for `r < 100000`, the zero word's value
    beyond. -/
theorem table_apply {F : FTy → Type} [FloatOps F] (a2 : FVec F ⟨2, ![100000, 128]⟩ .f32)
    (hb : (⟨0, ![]⟩ : Shape).BroadcastsInDim ⟨2, ![8, 128]⟩ (![] : Fin 0 → Fin 2))
    (hc : Shape.Concatenates [(⟨2, ![100000, 128]⟩ : Shape), ⟨2, ![8, 128]⟩] ⟨2, ![100008, 128]⟩ 0)
    (r : Fin 100008) (d : Fin 128) :
    concatenate (⟨2, ![100008, 128]⟩ : Shape) 0
        [⟨⟨2, ![100000, 128]⟩, a2⟩,
          ⟨⟨2, ![8, 128]⟩, broadcastInDim (⟨2, ![8, 128]⟩ : Shape) ![] hb (constant (F := F) ⟨0, ![]⟩ .f32 0x00000000#32)⟩] hc (ix2 r d)
      = if h : r.val < 100000 then a2 (ix2 ⟨r.val, h⟩ d) else FloatOps.ofBits .f32 0x00000000#32 := by
  rw [concat_rows_apply a2 _ hc rfl r d]
  rfl

/-- The same over the extended reals: zero beyond the table. -/
theorem table_apply_ideal (a2 : (⟨2, ![100000, 128]⟩ : Shape).Idx → EReal)
    (hb : (⟨0, ![]⟩ : Shape).BroadcastsInDim ⟨2, ![8, 128]⟩ (![] : Fin 0 → Fin 2))
    (hc : Shape.Concatenates [(⟨2, ![100000, 128]⟩ : Shape), ⟨2, ![8, 128]⟩] ⟨2, ![100008, 128]⟩ 0)
    (r : Fin 100008) (d : Fin 128) :
    concatenate (α := Ideal .f32) (⟨2, ![100008, 128]⟩ : Shape) 0
        [⟨⟨2, ![100000, 128]⟩, a2⟩,
          ⟨⟨2, ![8, 128]⟩, broadcastInDim (⟨2, ![8, 128]⟩ : Shape) ![] hb (constant (F := Ideal) ⟨0, ![]⟩ .f32 0x00000000#32)⟩] hc (ix2 r d)
      = if h : r.val < 100000 then a2 (ix2 ⟨r.val, h⟩ d) else (0 : EReal) := by
  rw [table_apply (F := Ideal) a2 hb hc r d]
  split
  · rfl
  · exact Ideal.ofBits_zero_f32

/-- The flat index array read at word `64 t + l`: word `l` of bag `t` of the stacked index arrays for `l < 50`, the zero
    word for `50 ≤ l < 64`. -/
theorem flatIdx_apply (a0 a1 : IVec ⟨2, ![16384, 50]⟩ 32)
    (hc : Shape.Concatenates [(⟨2, ![16384, 50]⟩ : Shape), ⟨2, ![16384, 50]⟩] ⟨2, ![32768, 50]⟩ 0)
    (hp : (⟨2, ![32768, 50]⟩ : Shape).Pads (![0, 0] : Fin 2 → Nat) ![0, 14] ![0, 0] ⟨2, ![32768, 64]⟩)
    (hu : 0 < (⟨0, ![]⟩ : Shape).numel) (hs : (⟨2, ![32768, 64]⟩ : Shape).ShapeCasts ⟨1, ![2097152]⟩)
    (t : Fin 32768) (l : Fin 64) (hlt : 64 * t.val + l.val < 2097152) :
    shapeCast (⟨1, ![2097152]⟩ : Shape)
        (pad (⟨2, ![32768, 64]⟩ : Shape) (![0, 0] : Fin 2 → Nat) ![0, 14] ![0, 0]
          (concatenate (⟨2, ![32768, 50]⟩ : Shape) 0 [⟨⟨2, ![16384, 50]⟩, a0⟩, ⟨⟨2, ![16384, 50]⟩, a1⟩] hc)
          (constantI ⟨0, ![]⟩ 32 0#32) hp hu) hs (ix1 ⟨64 * t.val + l.val, hlt⟩)
      = if hl : l.val < 50 then
          (if ht : t.val < 16384 then a0 (ix2 ⟨t.val, ht⟩ ⟨l.val, hl⟩)
            else a1 (ix2 ⟨t.val - 16384, by have := t.isLt; omega⟩ ⟨l.val, hl⟩))
        else 0#32 := by
  rw [shapeCast_ab_flat_apply _ hs t l hlt, pad_cols_apply _ _ hp hu t l]
  split
  · next hl => rw [concat_rows_apply a0 a1 hc rfl t ⟨l.val, hl⟩]
  · rfl

end Cert.KHostRead

end
-- ==== Proof.KHead.lean ====
/-
  The contents the SparseCore call finds, as terms of the launch memory: the table is the embedding table with
  eight zero rows appended, the flat index array is the two index arrays stacked, padded with 14 zero columns
  and flattened, the pooled array is as launched, and no argument array has been written.
-/
import proofs.«209176_g73847667688168_cont_9to1_m_420_10_alg».proof.Proof.KVals
import Idealize.ShloMosaic.Lib.StableHlo.Run

noncomputable section

namespace Cert.KernelIdeal.Run

open Cert.KernelIdeal Cert.KernelIdeal.Gen
open Idealize.ShloMosaic Idealize.SL.Sem

variable {F : FTy → Type} [FloatOps F]

variable (m : (ℓ : Loc nD τ sig) → Buf (Elt F) ℓ)

theorem cV1_eq (d : Dev nD) :
    cV1 m d = concatenate S100008x128 0 [⟨S100000x128, m ((SparseCore.T d).loc main_arg2)⟩,
      ⟨S8x128, broadcastInDim S8x128 ![] bcast_S_S8x128 (constant (F := F) S_ .f32 0x00000000#32)⟩] concatenates_S100000x128_S8x128_S100008x128_d0 := by
  show StableHlo.after headOps (W0 m d) (Proc.devRef .tc main_v1) = _
  after_results <;> rfl

theorem cV4_eq (d : Dev nD) :
    cV4 m d = shapeCast S2097152 (pad S32768x64 ![0, 0] ![0, 14] ![0, 0]
      (concatenate S32768x50 0 [⟨S16384x50, m ((SparseCore.T d).loc main_arg0)⟩, ⟨S16384x50, m ((SparseCore.T d).loc main_arg1)⟩] concatenates_S16384x50_S16384x50_S32768x50_d0)
      (constantI S_ 32 0#32) pads_S32768x50_S32768x64_000_0140 h_S_) shapeCasts_S32768x64_S2097152 := by
  show StableHlo.after headOps (W0 m d) (Proc.devRef .tc main_v4) = _
  after_results <;> rfl

theorem cO0_eq (d : Dev nD) : cO0 m d = m ((SparseCore.T d).loc main_v5) := by
  show StableHlo.after headOps (W0 m d) (Proc.devRef .tc main_v5) = _
  after_results <;> rfl

/-- No host operation before the call writes a buffer outside the eight it computes. -/
theorem Wa_of_not_written (d : Dev nD) (b : Ref sig .tc)
    (hb : b ≠ main_cst ∧ b ≠ main_v0 ∧ b ≠ main_v1 ∧ b ≠ main_v2 ∧ b ≠ main_c ∧ b ≠ main_call0_v0 ∧ b ≠ main_v3 ∧ b ≠ main_v4) :
    Wa m d (Proc.devRef .tc b) = m ((SparseCore.T d).loc b) := by
  obtain ⟨h0, h1, h2, h3, h4, h5, h6, h7⟩ := hb
  refine StableHlo.after_of_forall_not_mem (b := Proc.devRef .tc b) _ _ (List.forall_iff_forall_mem.mp ?_)
  simp only [headOps, List.Forall, StableHlo.nullary_writes, StableHlo.unary_writes, StableHlo.binary_writes, StableHlo.reshape_writes,
    StableHlo.TRef.unary, StableHlo.TRef.binary, Finset.mem_singleton]
  refine ⟨?_, ?_, ?_, ?_, ?_, ?_, ?_, ?_⟩ <;> exact StableHlo.devRef_ne_of_ne (by assumption)

end Cert.KernelIdeal.Run

end
-- ==== Proof.KPre.lean ====
/-
  The precondition's index ranges, for any float instance, carried to the flat index array the SparseCore
  call reads: every word of it is an entry of one of the two index arrays (below 100000) or a padding zero.
-/
import proofs.«209176_g73847667688168_cont_9to1_m_420_10_alg».proof.Proof.PreDecode
import proofs.«209176_g73847667688168_cont_9to1_m_420_10_alg».proof.Proof.KHostRead
import proofs.«209176_g73847667688168_cont_9to1_m_420_10_alg».proof.Proof.KHead

noncomputable section

namespace Cert.KernelIdeal.Run

open Cert.KernelIdeal Cert.KernelIdeal.Gen
open Idealize.ShloMosaic Idealize.ShloMosaic.ValueIdx Idealize.SL.Sem
open Cert.PreDecodeLib Cert.Pre_input_domain

variable {F : FTy → Type} [FloatOps F]

/-- The two index arrays hold words below 100000 wherever the precondition's bit is 1, at any float instance. -/
theorem ranges_of_pre [Cert.Pre_input_domain.Facts] (a0 a1 : IVec S16384x50 32) (a2 : FVec F S100000x128 .f32) (a3 : FVec F S256x1024 .f32)
    (a4 a5 a6 : FVec F S1024 .f32) (a7 : FVec F S1024x1024 .f32) (a8 a9 a10 : FVec F S1024 .f32) (a11 : FVec F S1024x1024 .f32)
    (a12 : FVec F S1024 .f32) (a13 : FVec F S1024x1 .f32) (a14 : FVec F S1 .f32)
    (h : Cert.Pre_input_domain.fn (F := F) a0 a1 a2 a3 a4 a5 a6 a7 a8 a9 a10 a11 a12 a13 a14 = fun _ => 1#1) :
    (∀ i, (a0 i).toNat < 100000) ∧ ∀ i, (a1 i).toNat < 100000 := by
  have h0 := congrFun h ix0
  dsimp only [fn, fn_part1, fn_part2, fn_part3, fn_part4] at h0
  obtain ⟨h0, r1⟩ := andi_ix0 h0
  obtain ⟨h0, r0⟩ := andi_ix0 h0
  exact ⟨Cert.PreDecode.range_of_all a0 _ _ _ r0, Cert.PreDecode.range_of_all a1 _ _ _ r1⟩

variable (m : (ℓ : Loc nD τ sig) → Buf (Elt F) ℓ)

/-- Every word of the flat index array is below 100000. -/
theorem cV4_lt (d : Dev nD)
    (h0 : ∀ i, (m ((SparseCore.T d).loc main_arg0) i).toNat < 100000) (h1 : ∀ i, (m ((SparseCore.T d).loc main_arg1) i).toNat < 100000)
    (j : S2097152.Idx) : (cV4 m d j).toNat ≤ 99999 := by
  rw [cV4_eq]
  obtain ⟨n, hn, rfl⟩ : ∃ (n : Nat) (hn : n < 2097152), j = ix1 (⟨n, hn⟩ : Fin 2097152) := ⟨(j 0).val, (j 0).isLt, eq_ix1 j⟩
  have ht : n / 64 < 32768 := by omega
  have hl : n % 64 < 64 := Nat.mod_lt _ (by decide)
  have hlt : 64 * (⟨n / 64, ht⟩ : Fin 32768).val + (⟨n % 64, hl⟩ : Fin 64).val < 2097152 := by
    show 64 * (n / 64) + n % 64 < 2097152; omega
  have ej : (ix1 (⟨n, hn⟩ : Fin 2097152) : S2097152.Idx) = ix1 ⟨64 * (⟨n / 64, ht⟩ : Fin 32768).val + (⟨n % 64, hl⟩ : Fin 64).val, hlt⟩ :=
    congrArg ix1 (Fin.ext (show n = 64 * (n / 64) + n % 64 by omega))
  rw [ej, Cert.KHostRead.flatIdx_apply _ _ _ _ _ _ ⟨n / 64, ht⟩ ⟨n % 64, hl⟩ hlt]
  split
  · split
    · exact Nat.le_of_lt_succ (h0 _)
    · exact Nat.le_of_lt_succ (h1 _)
  · decide

end Cert.KernelIdeal.Run

end
-- ==== Proof.BKHead.lean ====
/-
  The contents the SparseCore call finds, as terms of the launch memory: the table is the embedding table with
  eight zero rows appended, the flat index array is the two index arrays stacked, padded with 14 zero columns
  and flattened, the pooled array is as launched, and no argument array has been written.
-/
import proofs.«209176_g73847667688168_cont_9to1_m_420_10_alg».proof.Proof.BKVals
import Idealize.ShloMosaic.Lib.StableHlo.Run

noncomputable section

namespace Cert.Kernel.Run

open Cert.Kernel Cert.Kernel.Gen
open Idealize.ShloMosaic Idealize.SL.Sem

variable {F : FTy → Type} [FloatOps F]

variable (m : (ℓ : Loc nD τ sig) → Buf (Elt F) ℓ)

theorem cV1_eq (d : Dev nD) :
    cV1 m d = concatenate S100008x128 0 [⟨S100000x128, m ((SparseCore.T d).loc main_arg2)⟩,
      ⟨S8x128, broadcastInDim S8x128 ![] bcast_S_S8x128 (constant (F := F) S_ .f32 0x00000000#32)⟩] concatenates_S100000x128_S8x128_S100008x128_d0 := by
  show StableHlo.after headOps (W0 m d) (Proc.devRef .tc main_v1) = _
  after_results <;> rfl

theorem cV4_eq (d : Dev nD) :
    cV4 m d = shapeCast S2097152 (pad S32768x64 ![0, 0] ![0, 14] ![0, 0]
      (concatenate S32768x50 0 [⟨S16384x50, m ((SparseCore.T d).loc main_arg0)⟩, ⟨S16384x50, m ((SparseCore.T d).loc main_arg1)⟩] concatenates_S16384x50_S16384x50_S32768x50_d0)
      (constantI S_ 32 0#32) pads_S32768x50_S32768x64_000_0140 h_S_) shapeCasts_S32768x64_S2097152 := by
  show StableHlo.after headOps (W0 m d) (Proc.devRef .tc main_v4) = _
  after_results <;> rfl

theorem cO0_eq (d : Dev nD) : cO0 m d = m ((SparseCore.T d).loc main_v5) := by
  show StableHlo.after headOps (W0 m d) (Proc.devRef .tc main_v5) = _
  after_results <;> rfl

/-- No host operation before the call writes a buffer outside the eight it computes. -/
theorem Wa_of_not_written (d : Dev nD) (b : Ref sig .tc)
    (hb : b ≠ main_cst ∧ b ≠ main_v0 ∧ b ≠ main_v1 ∧ b ≠ main_v2 ∧ b ≠ main_c ∧ b ≠ main_call0_v0 ∧ b ≠ main_v3 ∧ b ≠ main_v4) :
    Wa m d (Proc.devRef .tc b) = m ((SparseCore.T d).loc b) := by
  obtain ⟨h0, h1, h2, h3, h4, h5, h6, h7⟩ := hb
  refine StableHlo.after_of_forall_not_mem (b := Proc.devRef .tc b) _ _ (List.forall_iff_forall_mem.mp ?_)
  simp only [headOps, List.Forall, StableHlo.nullary_writes, StableHlo.unary_writes, StableHlo.binary_writes, StableHlo.reshape_writes,
    StableHlo.TRef.unary, StableHlo.TRef.binary, Finset.mem_singleton]
  refine ⟨?_, ?_, ?_, ?_, ?_, ?_, ?_, ?_⟩ <;> exact StableHlo.devRef_ne_of_ne (by assumption)

end Cert.Kernel.Run

end
-- ==== Proof.BKPre.lean ====
/-
  The precondition's index ranges, for any float instance, carried to the flat index array the SparseCore
  call reads: every word of it is an entry of one of the two index arrays (below 100000) or a padding zero.
-/
import proofs.«209176_g73847667688168_cont_9to1_m_420_10_alg».proof.Proof.PreDecode
import proofs.«209176_g73847667688168_cont_9to1_m_420_10_alg».proof.Proof.KHostRead
import proofs.«209176_g73847667688168_cont_9to1_m_420_10_alg».proof.Proof.BKHead

noncomputable section

namespace Cert.Kernel.Run

open Cert.Kernel Cert.Kernel.Gen
open Idealize.ShloMosaic Idealize.ShloMosaic.ValueIdx Idealize.SL.Sem
open Cert.PreDecodeLib Cert.Pre_input_domain

variable {F : FTy → Type} [FloatOps F]

/-- The two index arrays hold words below 100000 wherever the precondition's bit is 1, at any float instance. -/
theorem ranges_of_pre [Cert.Pre_input_domain.Facts] (a0 a1 : IVec S16384x50 32) (a2 : FVec F S100000x128 .f32) (a3 : FVec F S256x1024 .f32)
    (a4 a5 a6 : FVec F S1024 .f32) (a7 : FVec F S1024x1024 .f32) (a8 a9 a10 : FVec F S1024 .f32) (a11 : FVec F S1024x1024 .f32)
    (a12 : FVec F S1024 .f32) (a13 : FVec F S1024x1 .f32) (a14 : FVec F S1 .f32)
    (h : Cert.Pre_input_domain.fn (F := F) a0 a1 a2 a3 a4 a5 a6 a7 a8 a9 a10 a11 a12 a13 a14 = fun _ => 1#1) :
    (∀ i, (a0 i).toNat < 100000) ∧ ∀ i, (a1 i).toNat < 100000 := by
  have h0 := congrFun h ix0
  dsimp only [fn, fn_part1, fn_part2, fn_part3, fn_part4] at h0
  obtain ⟨h0, r1⟩ := andi_ix0 h0
  obtain ⟨h0, r0⟩ := andi_ix0 h0
  exact ⟨Cert.PreDecode.range_of_all a0 _ _ _ r0, Cert.PreDecode.range_of_all a1 _ _ _ r1⟩

variable (m : (ℓ : Loc nD τ sig) → Buf (Elt F) ℓ)

/-- Every word of the flat index array is below 100000. -/
theorem cV4_lt (d : Dev nD)
    (h0 : ∀ i, (m ((SparseCore.T d).loc main_arg0) i).toNat < 100000) (h1 : ∀ i, (m ((SparseCore.T d).loc main_arg1) i).toNat < 100000)
    (j : S2097152.Idx) : (cV4 m d j).toNat ≤ 99999 := by
  rw [cV4_eq]
  obtain ⟨n, hn, rfl⟩ : ∃ (n : Nat) (hn : n < 2097152), j = ix1 (⟨n, hn⟩ : Fin 2097152) := ⟨(j 0).val, (j 0).isLt, eq_ix1 j⟩
  have ht : n / 64 < 32768 := by omega
  have hl : n % 64 < 64 := Nat.mod_lt _ (by decide)
  have hlt : 64 * (⟨n / 64, ht⟩ : Fin 32768).val + (⟨n % 64, hl⟩ : Fin 64).val < 2097152 := by
    show 64 * (n / 64) + n % 64 < 2097152; omega
  have ej : (ix1 (⟨n, hn⟩ : Fin 2097152) : S2097152.Idx) = ix1 ⟨64 * (⟨n / 64, ht⟩ : Fin 32768).val + (⟨n % 64, hl⟩ : Fin 64).val, hlt⟩ :=
    congrArg ix1 (Fin.ext (show n = 64 * (n / 64) + n % 64 by omega))
  rw [ej, Cert.KHostRead.flatIdx_apply _ _ _ _ _ _ ⟨n / 64, ht⟩ ⟨n % 64, hl⟩ hlt]
  split
  · split
    · exact Nat.le_of_lt_succ (h0 _)
    · exact Nat.le_of_lt_succ (h1 _)
  · decide

end Cert.Kernel.Run

end
-- ==== Proof.LibHostFold.lean ====
/-
  A line of single-assignment host operations, read at one operation.

  A line of host operations runs in order from buffer contents `V` and ends with contents `after ops V`. When the line
  is `pre ++ op :: post`, the operation `op` writes the one buffer `y` and reads `a`, `b`, …, and the operations of
  `post` write none of `y`, `a`, `b`, … (every buffer is written once, and never after it has been read), then `op`'s
  defining equation holds of the FINAL contents `W = after ops V`:

      W y = f (W a) (W b) .

  For: `post` leaves `y`, `a`, `b` alone, so `W` there is what `op` left; `op` left `f` of what `pre` left at `a`, `b`
  in `y`, and (`a ≠ y`, `b ≠ y`) left `a`, `b` alone.

  "The operations of `post` do not write `r`" is stated through a LIST `Wl` of references that holds everything `post`
  writes (`WritesIn post Wl`) and `r ∉ Wl`: membership in a list of references is decided by computation. When `Wl` is
  the list of `post`'s result references in order, `WritesIn post Wl` is one `rfl` per operation
  (`WritesIn.cons_head`; the tactic `writes_in`). For a whole stretch of the program this is stated once (`Outs`), and an
  operation is then addressed by its position in the stretch (`binary_at` and its companions).
-/
import Idealize.ShloMosaic.Lib.StableHlo.Run
import Idealize.ShloMosaic.Lib.Pipeline.Frame

noncomputable section

namespace Cert.HostFold

open Idealize.ShloMosaic Idealize.ShloMosaic.StableHlo

variable {τ : Topo} {sig : RefSig} {Val : EltTy → Type}

/-! ## What a line writes -/

/-- Every buffer the line `ops` writes is the buffer of a reference in the list `Wl`. -/
def WritesIn (ops : List (HloOp τ sig Val)) (Wl : List (Ref sig .tc)) : Prop :=
  ∀ op ∈ ops, op.writes ⊆ (Wl.map (Proc.devRef (τ := τ) .tc)).toFinset

/-- The same as a `List.Forall`, the form the fold's own lemma takes. -/
theorem writesIn_iff_forall {ops : List (HloOp τ sig Val)} {Wl : List (Ref sig .tc)} :
    WritesIn ops Wl ↔ ops.Forall fun op => op.writes ⊆ (Wl.map (Proc.devRef (τ := τ) .tc)).toFinset :=
  List.forall_iff_forall_mem.symm

/-- The empty line writes nothing. -/
theorem WritesIn.nil {Wl : List (Ref sig .tc)} : WritesIn ([] : List (HloOp τ sig Val)) Wl :=
  fun _ h => absurd h List.not_mem_nil

/-- One more operation in front, its writes in the list. -/
theorem WritesIn.cons {op : HloOp τ sig Val} {ops : List (HloOp τ sig Val)} {Wl : List (Ref sig .tc)}
    (h : op.writes ⊆ (Wl.map (Proc.devRef (τ := τ) .tc)).toFinset) (hr : WritesIn ops Wl) : WritesIn (op :: ops) Wl :=
  fun o ho => by
    rcases List.mem_cons.mp ho with rfl | ho
    · exact h
    · exact hr o ho

/-- A longer list of references still holds the line's writes. -/
theorem WritesIn.mono {ops : List (HloOp τ sig Val)} {Wl Wl' : List (Ref sig .tc)} (h : WritesIn ops Wl)
    (hsub : Wl ⊆ Wl') : WritesIn ops Wl' :=
  fun o ho => (h o ho).trans fun _ hd => by
    obtain ⟨r, hr, he⟩ := List.mem_map.mp (List.mem_toFinset.mp hd)
    exact List.mem_toFinset.mpr (List.mem_map.mpr ⟨r, hsub hr, he⟩)

/-- One more operation in front that writes the one buffer `y`, `y` a member of the list. -/
theorem WritesIn.cons_of_mem {op : HloOp τ sig Val} {ops : List (HloOp τ sig Val)} {Wl : List (Ref sig .tc)}
    {y : Ref sig .tc} (h : op.writes = {Proc.devRef .tc y}) (hy : y ∈ Wl) (hr : WritesIn ops Wl) :
    WritesIn (op :: ops) Wl :=
  WritesIn.cons (by
    rw [h, Finset.singleton_subset_iff, List.mem_toFinset]
    exact List.mem_map_of_mem hy) hr

/-- One more operation in front that writes the one buffer `y`, and `y` put in front of the list: the list of the
    line's result references IN ORDER holds its writes, by one `rfl` per operation and no search. -/
theorem WritesIn.cons_head {op : HloOp τ sig Val} {ops : List (HloOp τ sig Val)} {Wl : List (Ref sig .tc)}
    {y : Ref sig .tc} (h : op.writes = {Proc.devRef .tc y}) (hr : WritesIn ops Wl) :
    WritesIn (op :: ops) (y :: Wl) :=
  WritesIn.cons_of_mem h List.mem_cons_self (hr.mono (List.subset_cons_self y Wl))

/-- Two lines in a row write what the two lists hold together. -/
theorem WritesIn.append {l₁ l₂ : List (HloOp τ sig Val)} {W₁ W₂ : List (Ref sig .tc)} (h₁ : WritesIn l₁ W₁)
    (h₂ : WritesIn l₂ W₂) : WritesIn (l₁ ++ l₂) (W₁ ++ W₂) :=
  fun o ho => by
    rcases List.mem_append.mp ho with ho | ho
    · exact (h₁.mono (List.subset_append_left W₁ W₂)) o ho
    · exact (h₂.mono (List.subset_append_right W₁ W₂)) o ho

/-- A reference in neither of two lists is not in their concatenation. -/
theorem not_mem_append {r : Ref sig .tc} {W₁ W₂ : List (Ref sig .tc)} (h₁ : r ∉ W₁) (h₂ : r ∉ W₂) : r ∉ W₁ ++ W₂ :=
  fun h => (List.mem_append.mp h).elim h₁ h₂

/-- Proves `WritesIn ops Wl` for a written-out line `ops` of operations that each write one buffer and the list `Wl`
    of their result references in the same order. -/
macro "writes_in" : tactic =>
  `(tactic| repeat (first | exact WritesIn.nil | refine WritesIn.cons_head rfl ?_))

/-- A REFERENCE THE LINE DOES NOT WRITE KEEPS ITS CONTENTS. -/
theorem after_keep {ops : List (HloOp τ sig Val)} {Wl : List (Ref sig .tc)} (hW : WritesIn ops Wl) {r : Ref sig .tc}
    (hr : r ∉ Wl) (V : Valuation τ sig Val) : after ops V (Proc.devRef .tc r) = V (Proc.devRef .tc r) :=
  after_of_writes_sub ops V (writesIn_iff_forall.mp hW) hr

/-! ## The fold at a split -/

/-- The fold of `pre ++ op :: post`: run `pre`, then `op`, then `post`. -/
theorem after_split (pre post : List (HloOp τ sig Val)) (op : HloOp τ sig Val) (V : Valuation τ sig Val) :
    after (pre ++ op :: post) V = after post (op.result (after pre V)) := by
  rw [StableHlo.after_append, after_cons]

/-- At a reference `post` does not write, the final contents are what `op` left. -/
theorem after_split_keep (pre post : List (HloOp τ sig Val)) (op : HloOp τ sig Val) (V : Valuation τ sig Val)
    {Wl : List (Ref sig .tc)} (hW : WritesIn post Wl) {r : Ref sig .tc} (hr : r ∉ Wl) :
    after (pre ++ op :: post) V (Proc.devRef .tc r) = op.result (after pre V) (Proc.devRef .tc r) := by
  rw [after_split, after_keep hW hr]

/-- At a reference neither `op` nor `post` writes, the final contents are what `pre` left. -/
theorem after_split_read (pre post : List (HloOp τ sig Val)) (op : HloOp τ sig Val) (V : Valuation τ sig Val)
    {Wl : List (Ref sig .tc)} (hW : WritesIn post Wl) {r : Ref sig .tc} (hr : r ∉ Wl)
    (hop : Proc.devRef .tc r ∉ op.writes) :
    after (pre ++ op :: post) V (Proc.devRef .tc r) = after pre V (Proc.devRef .tc r) := by
  rw [after_split_keep pre post op V hW hr, op.result_of_not_mem _ hop]

/-- A line split as `pre ++ op :: post`, followed by a later line, is split as `pre ++ op :: (post ++ later)`. -/
theorem split_append {ops pre post : List (HloOp τ sig Val)} {op : HloOp τ sig Val} (hops : ops = pre ++ op :: post)
    (later : List (HloOp τ sig Val)) : ops ++ later = pre ++ op :: (post ++ later) := by
  rw [hops, List.append_assoc, List.cons_append]

/-! ## An operation's defining equation on the final contents -/

section Final

variable {ops pre post : List (HloOp τ sig Val)} {Wl : List (Ref sig .tc)} (V : Valuation τ sig Val)

/-- NULLARY: `W y = v`. -/
theorem nullary_final {y : Ref sig .tc} {v : y.ty.Contents Val} {hy}
    (hops : ops = pre ++ nullary (τ := τ) y v hy :: post) (hW : WritesIn post Wl) (hyW : y ∉ Wl) :
    after ops V (Proc.devRef .tc y) = v := by
  subst hops
  rw [after_split_keep pre post _ V hW hyW, nullary_result]

/-- UNARY: `W y = f (W x)`. -/
theorem unary_final {x y : Ref sig .tc} {f : x.ty.Contents Val → y.ty.Contents Val} {hx hy}
    (hops : ops = pre ++ unary (τ := τ) x y f hx hy :: post) (hW : WritesIn post Wl)
    (hyW : y ∉ Wl) (hxW : x ∉ Wl) (hxy : x ≠ y) :
    after ops V (Proc.devRef .tc y) = f (after ops V (Proc.devRef .tc x)) := by
  subst hops
  rw [after_split_keep pre post _ V hW hyW, after_split_keep pre post _ V hW hxW, unary_result,
    unary_result_ne x y f hx hy _ hxy]

/-- BINARY: `W y = f (W a) (W b)`. -/
theorem binary_final {a b y : Ref sig .tc} {f : a.ty.Contents Val → b.ty.Contents Val → y.ty.Contents Val} {ha hb hy}
    (hops : ops = pre ++ binary (τ := τ) a b y f ha hb hy :: post) (hW : WritesIn post Wl)
    (hyW : y ∉ Wl) (haW : a ∉ Wl) (hbW : b ∉ Wl) (hay : a ≠ y) (hby : b ≠ y) :
    after ops V (Proc.devRef .tc y) = f (after ops V (Proc.devRef .tc a)) (after ops V (Proc.devRef .tc b)) := by
  subst hops
  rw [after_split_keep pre post _ V hW hyW, after_split_keep pre post _ V hW haW,
    after_split_keep pre post _ V hW hbW, binary_result, binary_result_ne a b y f ha hb hy _ hay,
    binary_result_ne a b y f ha hb hy _ hby]

/-- TERNARY: `W y = f (W c) (W a) (W b)`. -/
theorem ternary_final {c a b y : Ref sig .tc}
    {f : c.ty.Contents Val → a.ty.Contents Val → b.ty.Contents Val → y.ty.Contents Val} {hc ha hb hy}
    (hops : ops = pre ++ ternary (τ := τ) c a b y f hc ha hb hy :: post) (hW : WritesIn post Wl)
    (hyW : y ∉ Wl) (hcW : c ∉ Wl) (haW : a ∉ Wl) (hbW : b ∉ Wl) (hcy : c ≠ y) (hay : a ≠ y) (hby : b ≠ y) :
    after ops V (Proc.devRef .tc y)
      = f (after ops V (Proc.devRef .tc c)) (after ops V (Proc.devRef .tc a)) (after ops V (Proc.devRef .tc b)) := by
  subst hops
  rw [after_split_keep pre post _ V hW hyW, after_split_keep pre post _ V hW hcW,
    after_split_keep pre post _ V hW haW, after_split_keep pre post _ V hW hbW, ternary_result,
    ternary_result_ne a b c y f hc ha hb hy _ hcy, ternary_result_ne a b c y f hc ha hb hy _ hay,
    ternary_result_ne a b c y f hc ha hb hy _ hby]

/-- QUATERNARY: `W y = f (W a) (W b) (W c) (W e)`. -/
theorem quaternary_final {a b c e y : Ref sig .tc}
    {f : a.ty.Contents Val → b.ty.Contents Val → c.ty.Contents Val → e.ty.Contents Val → y.ty.Contents Val}
    {ha hb hc he hy}
    (hops : ops = pre ++ quaternary (τ := τ) a b c e y f ha hb hc he hy :: post) (hW : WritesIn post Wl)
    (hyW : y ∉ Wl) (haW : a ∉ Wl) (hbW : b ∉ Wl) (hcW : c ∉ Wl) (heW : e ∉ Wl)
    (hay : a ≠ y) (hby : b ≠ y) (hcy : c ≠ y) (hey : e ≠ y) :
    after ops V (Proc.devRef .tc y)
      = f (after ops V (Proc.devRef .tc a)) (after ops V (Proc.devRef .tc b)) (after ops V (Proc.devRef .tc c))
          (after ops V (Proc.devRef .tc e)) := by
  subst hops
  rw [after_split_keep pre post _ V hW hyW, after_split_keep pre post _ V hW haW,
    after_split_keep pre post _ V hW hbW, after_split_keep pre post _ V hW hcW,
    after_split_keep pre post _ V hW heW, quaternary_result,
    quaternary_result_ne a b c e y f ha hb hc he hy _ hay, quaternary_result_ne a b c e y f ha hb hc he hy _ hby,
    quaternary_result_ne a b c e y f ha hb hc he hy _ hcy, quaternary_result_ne a b c e y f ha hb hc he hy _ hey]

/-- RESHAPE: `W y` is `W x` recast to `y`'s shape. -/
theorem reshape_final {x y : Ref sig .tc} {he : x.ty.elt = y.ty.elt} {hn : x.ty.shape.ShapeCasts y.ty.shape} {hx hy}
    (hops : ops = pre ++ reshape (τ := τ) (Val := Val) x y he hn hx hy :: post) (hW : WritesIn post Wl)
    (hyW : y ∉ Wl) (hxW : x ∉ Wl) (hxy : x ≠ y) :
    after ops V (Proc.devRef .tc y)
      = fun i => he ▸ shapeCast y.ty.shape (after ops V (Proc.devRef .tc x)) hn i := by
  subst hops
  rw [after_split_keep pre post _ V hW hyW, after_split_keep pre post _ V hW hxW, reshape_result,
    reshape_result_ne x y he hn hx hy _ hxy]

end Final

/-! ## A stretch with its result references in order

For a stretch of the program state ONCE that its operations write, one each and in order, the buffers of the references
`Wl` (`Outs ops Wl`: one `rfl` per operation, the tactic `outs_in_order`). Then what follows position `p` writes
only `Wl.drop (p + 1)`, with no further pass over the operations, and an operation is addressed by its position. -/

/-- The operations of the line write one buffer each: the buffers of the references `Wl`, in order. -/
def Outs (ops : List (HloOp τ sig Val)) (Wl : List (Ref sig .tc)) : Prop :=
  List.Forall₂ (fun op y => op.writes = {Proc.devRef (τ := τ) .tc y}) ops Wl

/-- The empty line, the empty list. -/
theorem Outs.nil : Outs ([] : List (HloOp τ sig Val)) [] := List.Forall₂.nil

/-- One more operation in front, its result reference in front. -/
theorem Outs.cons {op : HloOp τ sig Val} {ops : List (HloOp τ sig Val)} {Wl : List (Ref sig .tc)} {y : Ref sig .tc}
    (h : op.writes = {Proc.devRef .tc y}) (hr : Outs ops Wl) : Outs (op :: ops) (y :: Wl) :=
  List.Forall₂.cons h hr

/-- The list of result references holds the line's writes. -/
theorem Outs.writesIn {ops : List (HloOp τ sig Val)} {Wl : List (Ref sig .tc)} (h : Outs ops Wl) : WritesIn ops Wl := by
  induction h with
  | nil => exact WritesIn.nil
  | cons h _ ih => exact WritesIn.cons_head h ih

/-- What follows position `k` writes the references that follow position `k`. -/
theorem Outs.drop {ops : List (HloOp τ sig Val)} {Wl : List (Ref sig .tc)} (h : Outs ops Wl) (k : Nat) :
    Outs (ops.drop k) (Wl.drop k) :=
  List.forall₂_drop k h

/-- The first `k` operations write the first `k` references. -/
theorem Outs.take {ops : List (HloOp τ sig Val)} {Wl : List (Ref sig .tc)} (h : Outs ops Wl) (k : Nat) :
    Outs (ops.take k) (Wl.take k) :=
  List.forall₂_take k h

/-- Two stretches in a row. -/
theorem Outs.append {l₁ l₂ : List (HloOp τ sig Val)} {W₁ W₂ : List (Ref sig .tc)} (h₁ : Outs l₁ W₁) (h₂ : Outs l₂ W₂) :
    Outs (l₁ ++ l₂) (W₁ ++ W₂) := by
  induction h₁ with
  | nil => exact h₂
  | cons h _ ih => exact Outs.cons h ih

/-- Proves `Outs ops Wl` for a written-out line `ops` of operations that each write one buffer and the list `Wl` of
    their result references in the same order. -/
macro "outs_in_order" : tactic =>
  `(tactic| repeat (first | exact Outs.nil | refine Outs.cons rfl ?_))

/-- A line split at the operation in position `p`. -/
theorem split_at {ops : List (HloOp τ sig Val)} {p : Nat} {op : HloOp τ sig Val} (hp : ops[p]? = some op) :
    ops = ops.take p ++ op :: ops.drop (p + 1) := by
  obtain ⟨h, rfl⟩ := List.getElem?_eq_some_iff.mp hp
  rw [← List.drop_eq_getElem_cons h, List.take_append_drop]

/-- In a list of references without repetition, the one at position `p` does not occur after position `p`: a stretch
    that writes every buffer once never writes an operation's result again. -/
theorem not_mem_drop_succ_of_nodup {Wl : List (Ref sig .tc)} (hn : Wl.Nodup) {p : Nat} {y : Ref sig .tc}
    (hy : Wl[p]? = some y) : y ∉ Wl.drop (p + 1) := by
  obtain ⟨h, rfl⟩ := List.getElem?_eq_some_iff.mp hy
  have hd : (Wl.drop p).Nodup := List.Nodup.sublist (List.drop_sublist p Wl) hn
  rw [List.drop_eq_getElem_cons h] at hd
  exact (List.nodup_cons.mp hd).1

section At

variable {ops : List (HloOp τ sig Val)} {Wl : List (Ref sig .tc)} (V : Valuation τ sig Val)

/-- NULLARY at position `p` of a stretch: `W y = v`. -/
theorem nullary_at (hO : Outs ops Wl) (p : Nat) {y : Ref sig .tc} {v : y.ty.Contents Val} {hy}
    (hp : ops[p]? = some (nullary (τ := τ) y v hy)) (hyW : y ∉ Wl.drop (p + 1)) :
    after ops V (Proc.devRef .tc y) = v :=
  nullary_final V (split_at hp) (hO.drop (p + 1)).writesIn hyW

/-- UNARY at position `p` of a stretch: `W y = f (W x)`. -/
theorem unary_at (hO : Outs ops Wl) (p : Nat) {x y : Ref sig .tc} {f : x.ty.Contents Val → y.ty.Contents Val} {hx hy}
    (hp : ops[p]? = some (unary (τ := τ) x y f hx hy)) (hyW : y ∉ Wl.drop (p + 1)) (hxW : x ∉ Wl.drop (p + 1))
    (hxy : x ≠ y) :
    after ops V (Proc.devRef .tc y) = f (after ops V (Proc.devRef .tc x)) :=
  unary_final V (split_at hp) (hO.drop (p + 1)).writesIn hyW hxW hxy

/-- BINARY at position `p` of a stretch: `W y = f (W a) (W b)`. -/
theorem binary_at (hO : Outs ops Wl) (p : Nat) {a b y : Ref sig .tc} {f : a.ty.Contents Val → b.ty.Contents Val → y.ty.Contents Val} {ha hb hy}
    (hp : ops[p]? = some (binary (τ := τ) a b y f ha hb hy)) (hyW : y ∉ Wl.drop (p + 1)) (haW : a ∉ Wl.drop (p + 1))
    (hbW : b ∉ Wl.drop (p + 1)) (hay : a ≠ y) (hby : b ≠ y) :
    after ops V (Proc.devRef .tc y) = f (after ops V (Proc.devRef .tc a)) (after ops V (Proc.devRef .tc b)) :=
  binary_final V (split_at hp) (hO.drop (p + 1)).writesIn hyW haW hbW hay hby

/-- TERNARY at position `p` of a stretch: `W y = f (W c) (W a) (W b)`. -/
theorem ternary_at (hO : Outs ops Wl) (p : Nat) {c a b y : Ref sig .tc}
    {f : c.ty.Contents Val → a.ty.Contents Val → b.ty.Contents Val → y.ty.Contents Val} {hc ha hb hy}
    (hp : ops[p]? = some (ternary (τ := τ) c a b y f hc ha hb hy)) (hyW : y ∉ Wl.drop (p + 1))
    (hcW : c ∉ Wl.drop (p + 1)) (haW : a ∉ Wl.drop (p + 1)) (hbW : b ∉ Wl.drop (p + 1))
    (hcy : c ≠ y) (hay : a ≠ y) (hby : b ≠ y) :
    after ops V (Proc.devRef .tc y)
      = f (after ops V (Proc.devRef .tc c)) (after ops V (Proc.devRef .tc a)) (after ops V (Proc.devRef .tc b)) :=
  ternary_final V (split_at hp) (hO.drop (p + 1)).writesIn hyW hcW haW hbW hcy hay hby

/-- RESHAPE at position `p` of a stretch. -/
theorem reshape_at (hO : Outs ops Wl) (p : Nat) {x y : Ref sig .tc} {he : x.ty.elt = y.ty.elt} {hn : x.ty.shape.ShapeCasts y.ty.shape} {hx hy}
    (hp : ops[p]? = some (reshape (τ := τ) (Val := Val) x y he hn hx hy)) (hyW : y ∉ Wl.drop (p + 1))
    (hxW : x ∉ Wl.drop (p + 1)) (hxy : x ≠ y) :
    after ops V (Proc.devRef .tc y)
      = fun i => he ▸ shapeCast y.ty.shape (after ops V (Proc.devRef .tc x)) hn i :=
  reshape_final V (split_at hp) (hO.drop (p + 1)).writesIn hyW hxW hxy

end At

/-! ## Through later lines

An equation between the contents at some references survives any later line that writes none of them: with
`W' = after later W`, `W' r = W r` at each. So an operation's equation proved for its own stretch of the program holds
for the stretch followed by the later stretches. Either restate the split with `split_append`, `WritesIn.append` and
`not_mem_append` and use the lemmas above at the whole line, or carry the equation over with the lemmas below. -/

section Later

variable {later : List (HloOp τ sig Val)} {Wl : List (Ref sig .tc)} {W : Valuation τ sig Val}

/-- NULLARY through a later line. -/
theorem nullary_later {y : Ref sig .tc} {v : y.ty.Contents Val} (h : W (Proc.devRef .tc y) = v)
    (hL : WritesIn later Wl) (hyW : y ∉ Wl) : after later W (Proc.devRef .tc y) = v := by
  rw [after_keep hL hyW, h]

/-- UNARY through a later line. -/
theorem unary_later {x y : Ref sig .tc} {f : x.ty.Contents Val → y.ty.Contents Val}
    (h : W (Proc.devRef .tc y) = f (W (Proc.devRef .tc x))) (hL : WritesIn later Wl) (hyW : y ∉ Wl) (hxW : x ∉ Wl) :
    after later W (Proc.devRef .tc y) = f (after later W (Proc.devRef .tc x)) := by
  rw [after_keep hL hyW, after_keep hL hxW, h]

/-- BINARY through a later line. -/
theorem binary_later {a b y : Ref sig .tc} {f : a.ty.Contents Val → b.ty.Contents Val → y.ty.Contents Val}
    (h : W (Proc.devRef .tc y) = f (W (Proc.devRef .tc a)) (W (Proc.devRef .tc b))) (hL : WritesIn later Wl)
    (hyW : y ∉ Wl) (haW : a ∉ Wl) (hbW : b ∉ Wl) :
    after later W (Proc.devRef .tc y)
      = f (after later W (Proc.devRef .tc a)) (after later W (Proc.devRef .tc b)) := by
  rw [after_keep hL hyW, after_keep hL haW, after_keep hL hbW, h]

/-- TERNARY through a later line. -/
theorem ternary_later {c a b y : Ref sig .tc}
    {f : c.ty.Contents Val → a.ty.Contents Val → b.ty.Contents Val → y.ty.Contents Val}
    (h : W (Proc.devRef .tc y) = f (W (Proc.devRef .tc c)) (W (Proc.devRef .tc a)) (W (Proc.devRef .tc b)))
    (hL : WritesIn later Wl) (hyW : y ∉ Wl) (hcW : c ∉ Wl) (haW : a ∉ Wl) (hbW : b ∉ Wl) :
    after later W (Proc.devRef .tc y)
      = f (after later W (Proc.devRef .tc c)) (after later W (Proc.devRef .tc a))
          (after later W (Proc.devRef .tc b)) := by
  rw [after_keep hL hyW, after_keep hL hcW, after_keep hL haW, after_keep hL hbW, h]

/-- The fold of a stretch followed by a later line is the later line's fold of the stretch's. -/
theorem after_stretch (ops later : List (HloOp τ sig Val)) (V : Valuation τ sig Val) :
    after (ops ++ later) V = after later (after ops V) :=
  StableHlo.after_append ops later V

/-- BINARY, for a stretch followed by a later line that writes none of `y`, `a`, `b`: the equation on the final
    contents of the whole. -/
theorem binary_final_append {ops pre post later : List (HloOp τ sig Val)} {Wl' : List (Ref sig .tc)}
    (V : Valuation τ sig Val) {a b y : Ref sig .tc}
    {f : a.ty.Contents Val → b.ty.Contents Val → y.ty.Contents Val} {ha hb hy}
    (hops : ops = pre ++ binary (τ := τ) a b y f ha hb hy :: post) (hW : WritesIn post Wl') (hL : WritesIn later Wl)
    (hyW : y ∉ Wl') (haW : a ∉ Wl') (hbW : b ∉ Wl') (hyL : y ∉ Wl) (haL : a ∉ Wl) (hbL : b ∉ Wl)
    (hay : a ≠ y) (hby : b ≠ y) :
    after (ops ++ later) V (Proc.devRef .tc y)
      = f (after (ops ++ later) V (Proc.devRef .tc a)) (after (ops ++ later) V (Proc.devRef .tc b)) := by
  rw [after_stretch]
  exact binary_later (binary_final V hops hW hyW haW hbW hay hby) hL hyL haL hbL

end Later

end Cert.HostFold
-- ==== Proof.RefTable.lean ====
/-
  A table: the plain array program's host operations in order, each outlined call's body in place of the call over the
  call's own buffers; each operation's result reference; and, per operation, that its buffers are TensorCore references
  and that it determines its results.
-/
import proofs.«209176_g73847667688168_cont_9to1_m_420_10_alg».proof.Proof.Gen.ReferenceIdeal
import proofs.«209176_g73847667688168_cont_9to1_m_420_10_alg».proof.Proof.LibHostFold
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo
open Cert.HostFold

variable {F : FTy → Type} [FloatOps F]

/-- @main's 203 operations in order, each call's body in place of the call. -/
abbrev ops : List (HloOp τ sig (Elt F)) :=
  [ StableHlo.TRef.nullary main_call0.c (constantI S_ 32 0#32),
    StableHlo.TRef.unary main_call0.c main_call0.v0 (broadcastInDim S16384x50 ![] bcast_S_S16384x50),
    StableHlo.TRef.binary (StableHlo.TRef.of main_arg0 : StableHlo.TRef sig ⟨S16384x50, .i32⟩) main_call0.v0 main_call0.v1 (cmpi .slt),
    StableHlo.TRef.nullary main_call0.c_0 (constantI S_ 32 100000#32),
    StableHlo.TRef.unary main_call0.c_0 main_call0.v2 (broadcastInDim S16384x50 ![] bcast_S_S16384x50),
    StableHlo.TRef.binary (StableHlo.TRef.of main_arg0 : StableHlo.TRef sig ⟨S16384x50, .i32⟩) main_call0.v2 main_call0.v3 addi,
    StableHlo.TRef.ternary main_call0.v1 main_call0.v3 (StableHlo.TRef.of main_arg0 : StableHlo.TRef sig ⟨S16384x50, .i32⟩) main_call0.call0.v0 select,
    StableHlo.TRef.unary main_call0.call0.v0 main_call0.v5 (broadcastInDim S16384x50x1 ![0, 1] bcast_S16384x50_S16384x50x1_0_1),
    StableHlo.TRef.nullary main_call0.c_1 (constantI S1 32 99999#32),
    StableHlo.TRef.nullary main_call0.c_2 (constantI S_ 32 0#32),
    StableHlo.TRef.unary main_call0.c_2 main_call0.v6 (broadcastInDim S16384x50x1 ![] bcast_S_S16384x50x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S16384x50x1 ![0, 1, 2] bcast_S1x1x1_S16384x50x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x50x1_S16384x50_d2 h_S_),
    StableHlo.TRef.binary (StableHlo.TRef.of main_arg2 : StableHlo.TRef sig ⟨S100000x128, .f32⟩) main_call0.v5 main_call0.v13 (fun x i => Host.gather gather_S100000x128_S16384x50x1_S16384x50x128_2_0_n_n_0_2_1128 x i),
    StableHlo.TRef.unary main_call0.v12 main_call0.v14 (broadcastInDim S16384x50x128 ![0, 1] bcast_S16384x50_S16384x50x128_0_1),
    StableHlo.TRef.nullary main_call0.cst (constant S_ .f32 0x7FC00000#32),
    StableHlo.TRef.unary main_call0.cst main_call0.v15 (broadcastInDim S16384x50x128 ![] bcast_S_S16384x50x128),
    StableHlo.TRef.ternary main_call0.v14 main_call0.v13 main_call0.v15 main_call0.v16 select,
    StableHlo.nullary main_c (constantI S_ 32 0#32),
    StableHlo.unary main_c main_v1 (broadcastInDim S16384x50 ![] bcast_S_S16384x50 : (⟨S_, .i32⟩ : BufTy).Contents (Elt F) → (⟨S16384x50, .i32⟩ : BufTy).Contents (Elt F)),
    StableHlo.binary main_arg0 main_v1 main_v2 (cmpi .ne : (⟨S16384x50, .i32⟩ : BufTy).Contents (Elt F) → (⟨S16384x50, .i32⟩ : BufTy).Contents (Elt F) → (⟨S16384x50, .i1⟩ : BufTy).Contents (Elt F)),
    StableHlo.unary main_v2 main_v3 (broadcastInDim S16384x50x1 ![0, 1] bcast_S16384x50_S16384x50x1_0_1 : (⟨S16384x50, .i1⟩ : BufTy).Contents (Elt F) → (⟨S16384x50x1, .i1⟩ : BufTy).Contents (Elt F)),
    StableHlo.unary main_v3 main_v4 (uitofp .f32 : (⟨S16384x50x1, .i1⟩ : BufTy).Contents (Elt F) → (⟨S16384x50x1, .f32⟩ : BufTy).Contents (Elt F)),
    StableHlo.unary main_v4 main_v5 (broadcastInDim S16384x50x128 ![0, 1, 2] bcast_S16384x50x1_S16384x50x128_0_1_2 : (⟨S16384x50x1, .f32⟩ : BufTy).Contents (Elt F) → (⟨S16384x50x128, .f32⟩ : BufTy).Contents (Elt F)),
    StableHlo.binary main_v0 main_v5 main_v6 (mulf : (⟨S16384x50x128, .f32⟩ : BufTy).Contents (Elt F) → (⟨S16384x50x128, .f32⟩ : BufTy).Contents (Elt F) → (⟨S16384x50x128, .f32⟩ : BufTy).Contents (Elt F)),
    StableHlo.nullary main_cst (constant S_ .f32 0x00000000#32),
    StableHlo.binary main_v6 main_cst main_v7 ((fun x v => Host.reduceAdd x v reducesTo_S16384x50x128_S16384x128_d1 h_S_) : (⟨S16384x50x128, .f32⟩ : BufTy).Contents (Elt F) → (⟨S_, .f32⟩ : BufTy).Contents (Elt F) → (⟨S16384x128, .f32⟩ : BufTy).Contents (Elt F)),
    StableHlo.nullary main_cst_0 (constant S_ .f32 0x00000000#32),
    StableHlo.binary main_v4 main_cst_0 main_v8 ((fun x v => Host.reduceAdd x v reducesTo_S16384x50x1_S16384x1_d1 h_S_) : (⟨S16384x50x1, .f32⟩ : BufTy).Contents (Elt F) → (⟨S_, .f32⟩ : BufTy).Contents (Elt F) → (⟨S16384x1, .f32⟩ : BufTy).Contents (Elt F)),
    StableHlo.nullary main_cst_1 (constant S_ .f32 0x3089705F#32),
    StableHlo.TRef.unary (StableHlo.TRef.of main_cst_1 : StableHlo.TRef sig ⟨S_, .f32⟩) main_call1.v0 id,
    StableHlo.TRef.unary main_call1.v0 main_call1.v1 (broadcastInDim S16384x1 ![] bcast_S_S16384x1),
    StableHlo.TRef.binary main_call1.v1 (StableHlo.TRef.of main_v8 : StableHlo.TRef sig ⟨S16384x1, .f32⟩) main_call1.v2 maximumf,
    StableHlo.unary main_v9 main_v10 (broadcastInDim S16384x128 ![0, 1] bcast_S16384x1_S16384x128_0_1 : (⟨S16384x1, .f32⟩ : BufTy).Contents (Elt F) → (⟨S16384x128, .f32⟩ : BufTy).Contents (Elt F)),
    StableHlo.binary main_v7 main_v10 main_v11 (Host.divf : (⟨S16384x128, .f32⟩ : BufTy).Contents (Elt F) → (⟨S16384x128, .f32⟩ : BufTy).Contents (Elt F) → (⟨S16384x128, .f32⟩ : BufTy).Contents (Elt F)),
    StableHlo.TRef.nullary main_call2.c (constantI S_ 32 0#32),
    StableHlo.TRef.unary main_call2.c main_call2.v0 (broadcastInDim S16384x50 ![] bcast_S_S16384x50),
    StableHlo.TRef.binary (StableHlo.TRef.of main_arg1 : StableHlo.TRef sig ⟨S16384x50, .i32⟩) main_call2.v0 main_call2.v1 (cmpi .slt),
    StableHlo.TRef.nullary main_call2.c_0 (constantI S_ 32 100000#32),
    StableHlo.TRef.unary main_call2.c_0 main_call2.v2 (broadcastInDim S16384x50 ![] bcast_S_S16384x50),
    StableHlo.TRef.binary (StableHlo.TRef.of main_arg1 : StableHlo.TRef sig ⟨S16384x50, .i32⟩) main_call2.v2 main_call2.v3 addi,
    StableHlo.TRef.ternary main_call2.v1 main_call2.v3 (StableHlo.TRef.of main_arg1 : StableHlo.TRef sig ⟨S16384x50, .i32⟩) main_call2.call0.v0 select,
    StableHlo.TRef.unary main_call2.call0.v0 main_call2.v5 (broadcastInDim S16384x50x1 ![0, 1] bcast_S16384x50_S16384x50x1_0_1),
    StableHlo.TRef.nullary main_call2.c_1 (constantI S1 32 99999#32),
    StableHlo.TRef.nullary main_call2.c_2 (constantI S_ 32 0#32),
    StableHlo.TRef.unary main_call2.c_2 main_call2.v6 (broadcastInDim S16384x50x1 ![] bcast_S_S16384x50x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S16384x50x1 ![0, 1, 2] bcast_S1x1x1_S16384x50x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x50x1_S16384x50_d2 h_S_),
    StableHlo.TRef.binary (StableHlo.TRef.of main_arg2 : StableHlo.TRef sig ⟨S100000x128, .f32⟩) main_call2.v5 main_call2.v13 (fun x i => Host.gather gather_S100000x128_S16384x50x1_S16384x50x128_2_0_n_n_0_2_1128 x i),
    StableHlo.TRef.unary main_call2.v12 main_call2.v14 (broadcastInDim S16384x50x128 ![0, 1] bcast_S16384x50_S16384x50x128_0_1),
    StableHlo.TRef.nullary main_call2.cst (constant S_ .f32 0x7FC00000#32),
    StableHlo.TRef.unary main_call2.cst main_call2.v15 (broadcastInDim S16384x50x128 ![] bcast_S_S16384x50x128),
    StableHlo.TRef.ternary main_call2.v14 main_call2.v13 main_call2.v15 main_call2.v16 select,
    StableHlo.nullary main_c_2 (constantI S_ 32 0#32),
    StableHlo.unary main_c_2 main_v13 (broadcastInDim S16384x50 ![] bcast_S_S16384x50 : (⟨S_, .i32⟩ : BufTy).Contents (Elt F) → (⟨S16384x50, .i32⟩ : BufTy).Contents (Elt F)),
    StableHlo.binary main_arg1 main_v13 main_v14 (cmpi .ne : (⟨S16384x50, .i32⟩ : BufTy).Contents (Elt F) → (⟨S16384x50, .i32⟩ : BufTy).Contents (Elt F) → (⟨S16384x50, .i1⟩ : BufTy).Contents (Elt F)),
    StableHlo.unary main_v14 main_v15 (broadcastInDim S16384x50x1 ![0, 1] bcast_S16384x50_S16384x50x1_0_1 : (⟨S16384x50, .i1⟩ : BufTy).Contents (Elt F) → (⟨S16384x50x1, .i1⟩ : BufTy).Contents (Elt F)),
    StableHlo.unary main_v15 main_v16 (uitofp .f32 : (⟨S16384x50x1, .i1⟩ : BufTy).Contents (Elt F) → (⟨S16384x50x1, .f32⟩ : BufTy).Contents (Elt F)),
    StableHlo.unary main_v16 main_v17 (broadcastInDim S16384x50x128 ![0, 1, 2] bcast_S16384x50x1_S16384x50x128_0_1_2 : (⟨S16384x50x1, .f32⟩ : BufTy).Contents (Elt F) → (⟨S16384x50x128, .f32⟩ : BufTy).Contents (Elt F)),
    StableHlo.binary main_v12 main_v17 main_v18 (mulf : (⟨S16384x50x128, .f32⟩ : BufTy).Contents (Elt F) → (⟨S16384x50x128, .f32⟩ : BufTy).Contents (Elt F) → (⟨S16384x50x128, .f32⟩ : BufTy).Contents (Elt F)),
    StableHlo.nullary main_cst_3 (constant S_ .f32 0x00000000#32),
    StableHlo.binary main_v18 main_cst_3 main_v19 ((fun x v => Host.reduceAdd x v reducesTo_S16384x50x128_S16384x128_d1 h_S_) : (⟨S16384x50x128, .f32⟩ : BufTy).Contents (Elt F) → (⟨S_, .f32⟩ : BufTy).Contents (Elt F) → (⟨S16384x128, .f32⟩ : BufTy).Contents (Elt F)),
    StableHlo.nullary main_cst_4 (constant S_ .f32 0x00000000#32),
    StableHlo.binary main_v16 main_cst_4 main_v20 ((fun x v => Host.reduceAdd x v reducesTo_S16384x50x1_S16384x1_d1 h_S_) : (⟨S16384x50x1, .f32⟩ : BufTy).Contents (Elt F) → (⟨S_, .f32⟩ : BufTy).Contents (Elt F) → (⟨S16384x1, .f32⟩ : BufTy).Contents (Elt F)),
    StableHlo.nullary main_cst_5 (constant S_ .f32 0x3089705F#32),
    StableHlo.TRef.unary (StableHlo.TRef.of main_cst_5 : StableHlo.TRef sig ⟨S_, .f32⟩) main_call3.v0 id,
    StableHlo.TRef.unary main_call3.v0 main_call3.v1 (broadcastInDim S16384x1 ![] bcast_S_S16384x1),
    StableHlo.TRef.binary main_call3.v1 (StableHlo.TRef.of main_v20 : StableHlo.TRef sig ⟨S16384x1, .f32⟩) main_call3.v2 maximumf,
    StableHlo.unary main_v21 main_v22 (broadcastInDim S16384x128 ![0, 1] bcast_S16384x1_S16384x128_0_1 : (⟨S16384x1, .f32⟩ : BufTy).Contents (Elt F) → (⟨S16384x128, .f32⟩ : BufTy).Contents (Elt F)),
    StableHlo.binary main_v19 main_v22 main_v23 (Host.divf : (⟨S16384x128, .f32⟩ : BufTy).Contents (Elt F) → (⟨S16384x128, .f32⟩ : BufTy).Contents (Elt F) → (⟨S16384x128, .f32⟩ : BufTy).Contents (Elt F)),
    StableHlo.binary main_v11 main_v23 main_v24 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    StableHlo.binary main_v24 main_arg3 main_v25 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.unary main_arg4 main_v26 (broadcastInDim S1x1024 ![1] bcast_S1024_S1x1024_1 : (⟨S1024, .f32⟩ : BufTy).Contents (Elt F) → (⟨S1x1024, .f32⟩ : BufTy).Contents (Elt F)),
    StableHlo.unary main_v26 main_v27 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v25 main_v27 main_v28 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call4.cst (constant S_ .f32 0x00000000#32),
    StableHlo.TRef.unary main_call4.cst main_call4.v0 (broadcastInDim S16384x1024 ![] bcast_S_S16384x1024),
    StableHlo.TRef.binary (StableHlo.TRef.of main_v28 : StableHlo.TRef sig ⟨S16384x1024, .f32⟩) main_call4.v0 main_call4.v1 maximumf,
    StableHlo.nullary main_cst_6 (constant S_ .f32 0x00000000#32),
    StableHlo.binary main_v29 main_cst_6 main_v30 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_7 (constant S_ .f32 0x46800000#32),
    StableHlo.unary main_cst_7 main_v31 (broadcastInDim S1024 ![] bcast_S_S1024 : (⟨S_, .f32⟩ : BufTy).Contents (Elt F) → (⟨S1024, .f32⟩ : BufTy).Contents (Elt F)),
    StableHlo.binary main_v30 main_v31 main_v32 (Host.divf : (⟨S1024, .f32⟩ : BufTy).Contents (Elt F) → (⟨S1024, .f32⟩ : BufTy).Contents (Elt F) → (⟨S1024, .f32⟩ : BufTy).Contents (Elt F)),
    StableHlo.nullary main_c_8 (constantI S_ 32 0#32),
    StableHlo.TRef.nullary main_call5.cst (constant S_ .f32 0x00000000#32),
    StableHlo.TRef.binary (StableHlo.TRef.of main_v29 : StableHlo.TRef sig ⟨S16384x1024, .f32⟩) main_call5.cst main_call5.v0 (fun x v => Host.reduceAdd x v reducesTo_S16384x1024_S1024_d0 h_S_),
    StableHlo.TRef.unary main_call5.v0 main_call5.v1 (broadcastInDim S1x1024 ![1] bcast_S1024_S1x1024_1),
    StableHlo.TRef.nullary main_call5.cst_0 (constant S_ .f32 0x46800000#32),
    StableHlo.TRef.unary main_call5.cst_0 main_call5.v2 (broadcastInDim S1x1024 ![] bcast_S_S1x1024),
    StableHlo.TRef.binary main_call5.v1 main_call5.v2 main_call5.v3 Host.divf,
    StableHlo.TRef.unary main_call5.v3 main_call5.v4 (broadcastInDim S16384x1024 ![0, 1] bcast_S1x1024_S16384x1024_0_1),
    StableHlo.TRef.binary (StableHlo.TRef.of main_v29 : StableHlo.TRef sig ⟨S16384x1024, .f32⟩) main_call5.v4 main_call5.v5 subf,
    StableHlo.TRef.binary main_call5.v5 main_call5.v5 main_call5.v6 mulf,
    StableHlo.TRef.unary (StableHlo.TRef.of main_c_8 : StableHlo.TRef sig ⟨S_, .i32⟩) main_call5.v7 (sitofp .f32),
    StableHlo.TRef.nullary main_call5.cst_1 (constant S_ .f32 0x46800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S16384x1024_S1024_d0 h_S_),
    StableHlo.TRef.unary main_call5.v8 main_call5.v10 (broadcastInDim S1024 ![] bcast_S_S1024),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf (F := F) .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S1024 ![] bcast_S_S1024),
    StableHlo.TRef.ternary main_call5.v12 main_call5.v11 main_call5.call0.v1 main_call5.call0.v2 (fun p a b => select (broadcastInDim S1024 ![] bcast_S_S1024 p) a b),
    StableHlo.unary main_v32 main_v34 (broadcastInDim S1x1024 ![1] bcast_S1024_S1x1024_1 : (⟨S1024, .f32⟩ : BufTy).Contents (Elt F) → (⟨S1x1024, .f32⟩ : BufTy).Contents (Elt F)),
    StableHlo.unary main_v34 main_v35 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v29 main_v35 main_v36 (subf : (⟨S16384x1024, .f32⟩ : BufTy).Contents (Elt F) → (⟨S16384x1024, .f32⟩ : BufTy).Contents (Elt F) → (⟨S16384x1024, .f32⟩ : BufTy).Contents (Elt F)),
    StableHlo.nullary main_cst_9 (constant S_ .f32 0x3727C5AC#32),
    StableHlo.unary main_cst_9 main_v37 (broadcastInDim S1024 ![] bcast_S_S1024 : (⟨S_, .f32⟩ : BufTy).Contents (Elt F) → (⟨S1024, .f32⟩ : BufTy).Contents (Elt F)),
    StableHlo.binary main_v33 main_v37 main_v38 (addf : (⟨S1024, .f32⟩ : BufTy).Contents (Elt F) → (⟨S1024, .f32⟩ : BufTy).Contents (Elt F) → (⟨S1024, .f32⟩ : BufTy).Contents (Elt F)),
    StableHlo.unary main_v38 main_v39 (Host.sqrt : (⟨S1024, .f32⟩ : BufTy).Contents (Elt F) → (⟨S1024, .f32⟩ : BufTy).Contents (Elt F)),
    StableHlo.unary main_v39 main_v40 (broadcastInDim S1x1024 ![1] bcast_S1024_S1x1024_1 : (⟨S1024, .f32⟩ : BufTy).Contents (Elt F) → (⟨S1x1024, .f32⟩ : BufTy).Contents (Elt F)),
    StableHlo.unary main_v40 main_v41 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v36 main_v41 main_v42 (Host.divf : (⟨S16384x1024, .f32⟩ : BufTy).Contents (Elt F) → (⟨S16384x1024, .f32⟩ : BufTy).Contents (Elt F) → (⟨S16384x1024, .f32⟩ : BufTy).Contents (Elt F)),
    StableHlo.unary main_arg5 main_v43 (broadcastInDim S1x1024 ![1] bcast_S1024_S1x1024_1 : (⟨S1024, .f32⟩ : BufTy).Contents (Elt F) → (⟨S1x1024, .f32⟩ : BufTy).Contents (Elt F)),
    StableHlo.unary main_v43 main_v44 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v42 main_v44 main_v45 (mulf : (⟨S16384x1024, .f32⟩ : BufTy).Contents (Elt F) → (⟨S16384x1024, .f32⟩ : BufTy).Contents (Elt F) → (⟨S16384x1024, .f32⟩ : BufTy).Contents (Elt F)),
    StableHlo.unary main_arg6 main_v46 (broadcastInDim S1x1024 ![1] bcast_S1024_S1x1024_1 : (⟨S1024, .f32⟩ : BufTy).Contents (Elt F) → (⟨S1x1024, .f32⟩ : BufTy).Contents (Elt F)),
    StableHlo.unary main_v46 main_v47 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v45 main_v47 main_v48 (addf : (⟨S16384x1024, .f32⟩ : BufTy).Contents (Elt F) → (⟨S16384x1024, .f32⟩ : BufTy).Contents (Elt F) → (⟨S16384x1024, .f32⟩ : BufTy).Contents (Elt F)),
    StableHlo.binary main_v48 main_arg7 main_v49 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    StableHlo.unary main_arg8 main_v50 (broadcastInDim S1x1024 ![1] bcast_S1024_S1x1024_1 : (⟨S1024, .f32⟩ : BufTy).Contents (Elt F) → (⟨S1x1024, .f32⟩ : BufTy).Contents (Elt F)),
    StableHlo.unary main_v50 main_v51 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v49 main_v51 main_v52 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call6.cst (constant S_ .f32 0x00000000#32),
    StableHlo.TRef.unary main_call6.cst main_call6.v0 (broadcastInDim S16384x1024 ![] bcast_S_S16384x1024),
    StableHlo.TRef.binary (StableHlo.TRef.of main_v52 : StableHlo.TRef sig ⟨S16384x1024, .f32⟩) main_call6.v0 main_call6.v1 maximumf,
    StableHlo.nullary main_cst_10 (constant S_ .f32 0x00000000#32),
    StableHlo.binary main_v53 main_cst_10 main_v54 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_11 (constant S_ .f32 0x46800000#32),
    StableHlo.unary main_cst_11 main_v55 (broadcastInDim S1024 ![] bcast_S_S1024 : (⟨S_, .f32⟩ : BufTy).Contents (Elt F) → (⟨S1024, .f32⟩ : BufTy).Contents (Elt F)),
    StableHlo.binary main_v54 main_v55 main_v56 (Host.divf : (⟨S1024, .f32⟩ : BufTy).Contents (Elt F) → (⟨S1024, .f32⟩ : BufTy).Contents (Elt F) → (⟨S1024, .f32⟩ : BufTy).Contents (Elt F)),
    StableHlo.nullary main_c_12 (constantI S_ 32 0#32),
    StableHlo.TRef.nullary main_call7.cst (constant S_ .f32 0x00000000#32),
    StableHlo.TRef.binary (StableHlo.TRef.of main_v53 : StableHlo.TRef sig ⟨S16384x1024, .f32⟩) main_call7.cst main_call7.v0 (fun x v => Host.reduceAdd x v reducesTo_S16384x1024_S1024_d0 h_S_),
    StableHlo.TRef.unary main_call7.v0 main_call7.v1 (broadcastInDim S1x1024 ![1] bcast_S1024_S1x1024_1),
    StableHlo.TRef.nullary main_call7.cst_0 (constant S_ .f32 0x46800000#32),
    StableHlo.TRef.unary main_call7.cst_0 main_call7.v2 (broadcastInDim S1x1024 ![] bcast_S_S1x1024),
    StableHlo.TRef.binary main_call7.v1 main_call7.v2 main_call7.v3 Host.divf,
    StableHlo.TRef.unary main_call7.v3 main_call7.v4 (broadcastInDim S16384x1024 ![0, 1] bcast_S1x1024_S16384x1024_0_1),
    StableHlo.TRef.binary (StableHlo.TRef.of main_v53 : StableHlo.TRef sig ⟨S16384x1024, .f32⟩) main_call7.v4 main_call7.v5 subf,
    StableHlo.TRef.binary main_call7.v5 main_call7.v5 main_call7.v6 mulf,
    StableHlo.TRef.unary (StableHlo.TRef.of main_c_12 : StableHlo.TRef sig ⟨S_, .i32⟩) main_call7.v7 (sitofp .f32),
    StableHlo.TRef.nullary main_call7.cst_1 (constant S_ .f32 0x46800000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S16384x1024_S1024_d0 h_S_),
    StableHlo.TRef.unary main_call7.v8 main_call7.v10 (broadcastInDim S1024 ![] bcast_S_S1024),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf (F := F) .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S1024 ![] bcast_S_S1024),
    StableHlo.TRef.ternary main_call7.v12 main_call7.v11 main_call7.call0.v1 main_call7.call0.v2 (fun p a b => select (broadcastInDim S1024 ![] bcast_S_S1024 p) a b),
    StableHlo.unary main_v56 main_v58 (broadcastInDim S1x1024 ![1] bcast_S1024_S1x1024_1 : (⟨S1024, .f32⟩ : BufTy).Contents (Elt F) → (⟨S1x1024, .f32⟩ : BufTy).Contents (Elt F)),
    StableHlo.unary main_v58 main_v59 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v53 main_v59 main_v60 (subf : (⟨S16384x1024, .f32⟩ : BufTy).Contents (Elt F) → (⟨S16384x1024, .f32⟩ : BufTy).Contents (Elt F) → (⟨S16384x1024, .f32⟩ : BufTy).Contents (Elt F)),
    StableHlo.nullary main_cst_13 (constant S_ .f32 0x3727C5AC#32),
    StableHlo.unary main_cst_13 main_v61 (broadcastInDim S1024 ![] bcast_S_S1024 : (⟨S_, .f32⟩ : BufTy).Contents (Elt F) → (⟨S1024, .f32⟩ : BufTy).Contents (Elt F)),
    StableHlo.binary main_v57 main_v61 main_v62 (addf : (⟨S1024, .f32⟩ : BufTy).Contents (Elt F) → (⟨S1024, .f32⟩ : BufTy).Contents (Elt F) → (⟨S1024, .f32⟩ : BufTy).Contents (Elt F)),
    StableHlo.unary main_v62 main_v63 (Host.sqrt : (⟨S1024, .f32⟩ : BufTy).Contents (Elt F) → (⟨S1024, .f32⟩ : BufTy).Contents (Elt F)),
    StableHlo.unary main_v63 main_v64 (broadcastInDim S1x1024 ![1] bcast_S1024_S1x1024_1 : (⟨S1024, .f32⟩ : BufTy).Contents (Elt F) → (⟨S1x1024, .f32⟩ : BufTy).Contents (Elt F)),
    StableHlo.unary main_v64 main_v65 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v60 main_v65 main_v66 (Host.divf : (⟨S16384x1024, .f32⟩ : BufTy).Contents (Elt F) → (⟨S16384x1024, .f32⟩ : BufTy).Contents (Elt F) → (⟨S16384x1024, .f32⟩ : BufTy).Contents (Elt F)),
    StableHlo.unary main_arg9 main_v67 (broadcastInDim S1x1024 ![1] bcast_S1024_S1x1024_1 : (⟨S1024, .f32⟩ : BufTy).Contents (Elt F) → (⟨S1x1024, .f32⟩ : BufTy).Contents (Elt F)),
    StableHlo.unary main_v67 main_v68 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v66 main_v68 main_v69 (mulf : (⟨S16384x1024, .f32⟩ : BufTy).Contents (Elt F) → (⟨S16384x1024, .f32⟩ : BufTy).Contents (Elt F) → (⟨S16384x1024, .f32⟩ : BufTy).Contents (Elt F)),
    StableHlo.unary main_arg10 main_v70 (broadcastInDim S1x1024 ![1] bcast_S1024_S1x1024_1 : (⟨S1024, .f32⟩ : BufTy).Contents (Elt F) → (⟨S1x1024, .f32⟩ : BufTy).Contents (Elt F)),
    StableHlo.unary main_v70 main_v71 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v69 main_v71 main_v72 (addf : (⟨S16384x1024, .f32⟩ : BufTy).Contents (Elt F) → (⟨S16384x1024, .f32⟩ : BufTy).Contents (Elt F) → (⟨S16384x1024, .f32⟩ : BufTy).Contents (Elt F)),
    StableHlo.binary main_v72 main_arg11 main_v73 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    StableHlo.unary main_arg12 main_v74 (broadcastInDim S1x1024 ![1] bcast_S1024_S1x1024_1 : (⟨S1024, .f32⟩ : BufTy).Contents (Elt F) → (⟨S1x1024, .f32⟩ : BufTy).Contents (Elt F)),
    StableHlo.unary main_v74 main_v75 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v73 main_v75 main_v76 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call8.cst (constant S_ .f32 0x00000000#32),
    StableHlo.TRef.unary main_call8.cst main_call8.v0 (broadcastInDim S16384x1024 ![] bcast_S_S16384x1024),
    StableHlo.TRef.binary (StableHlo.TRef.of main_v76 : StableHlo.TRef sig ⟨S16384x1024, .f32⟩) main_call8.v0 main_call8.v1 maximumf,
    StableHlo.binary main_v77 main_arg13 main_v78 ((fun l r => Host.dotGeneral dot_S16384x1024_S1024x1_S16384x1_1_0_0_1_n_n none l r) : (⟨S16384x1024, .f32⟩ : BufTy).Contents (Elt F) → (⟨S1024x1, .f32⟩ : BufTy).Contents (Elt F) → (⟨S16384x1, .f32⟩ : BufTy).Contents (Elt F)),
    StableHlo.unary main_arg14 main_v79 (broadcastInDim S1x1 ![1] bcast_S1_S1x1_1 : (⟨S1, .f32⟩ : BufTy).Contents (Elt F) → (⟨S1x1, .f32⟩ : BufTy).Contents (Elt F)),
    StableHlo.unary main_v79 main_v80 (broadcastInDim S16384x1 ![0, 1] bcast_S1x1_S16384x1_0_1 : (⟨S1x1, .f32⟩ : BufTy).Contents (Elt F) → (⟨S16384x1, .f32⟩ : BufTy).Contents (Elt F)),
    StableHlo.binary main_v78 main_v80 main_v81 (addf : (⟨S16384x1, .f32⟩ : BufTy).Contents (Elt F) → (⟨S16384x1, .f32⟩ : BufTy).Contents (Elt F) → (⟨S16384x1, .f32⟩ : BufTy).Contents (Elt F)),
    StableHlo.reshape main_v81 main_v82 rfl shapeCasts_S16384x1_S16384,
    StableHlo.unary main_v82 main_v83 (Host.negf : (⟨S16384, .f32⟩ : BufTy).Contents (Elt F) → (⟨S16384, .f32⟩ : BufTy).Contents (Elt F)),
    StableHlo.unary main_v83 main_v84 (Host.exp : (⟨S16384, .f32⟩ : BufTy).Contents (Elt F) → (⟨S16384, .f32⟩ : BufTy).Contents (Elt F)),
    StableHlo.nullary main_cst_14 (constant S_ .f32 0x3F800000#32),
    StableHlo.unary main_cst_14 main_v85 (broadcastInDim S16384 ![] bcast_S_S16384 : (⟨S_, .f32⟩ : BufTy).Contents (Elt F) → (⟨S16384, .f32⟩ : BufTy).Contents (Elt F)),
    StableHlo.binary main_v85 main_v84 main_v86 (addf : (⟨S16384, .f32⟩ : BufTy).Contents (Elt F) → (⟨S16384, .f32⟩ : BufTy).Contents (Elt F) → (⟨S16384, .f32⟩ : BufTy).Contents (Elt F)),
    StableHlo.nullary main_cst_15 (constant S_ .f32 0x3F800000#32),
    StableHlo.unary main_cst_15 main_v87 (broadcastInDim S16384 ![] bcast_S_S16384 : (⟨S_, .f32⟩ : BufTy).Contents (Elt F) → (⟨S16384, .f32⟩ : BufTy).Contents (Elt F)),
    StableHlo.binary main_v87 main_v86 main_v88 (Host.divf : (⟨S16384, .f32⟩ : BufTy).Contents (Elt F) → (⟨S16384, .f32⟩ : BufTy).Contents (Elt F) → (⟨S16384, .f32⟩ : BufTy).Contents (Elt F)) ]

/-- The result reference of each operation, in order. -/
abbrev outs : List (Ref sig .tc) :=
  [ main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_c, main_v1, main_v2, main_v3, main_v4, main_v5, main_v6, main_cst, main_v7, main_cst_0, main_v8, main_cst_1, main_call1_v0, main_call1_v1, main_v9, main_v10, main_v11, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v12, main_c_2, main_v13, main_v14, main_v15, main_v16, main_v17, main_v18, main_cst_3, main_v19, main_cst_4, main_v20, main_cst_5, main_call3_v0, main_call3_v1, main_v21, main_v22, main_v23, main_v24, main_v25, main_v26, main_v27, main_v28, main_call4_cst, main_call4_v0, main_v29, main_cst_6, main_v30, main_cst_7, main_v31, main_v32, main_c_8, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v33, main_v34, main_v35, main_v36, main_cst_9, main_v37, main_v38, main_v39, main_v40, main_v41, main_v42, main_v43, main_v44, main_v45, main_v46, main_v47, main_v48, main_v49, main_v50, main_v51, main_v52, main_call6_cst, main_call6_v0, main_v53, main_cst_10, main_v54, main_cst_11, main_v55, main_v56, main_c_12, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v57, main_v58, main_v59, main_v60, main_cst_13, main_v61, main_v62, main_v63, main_v64, main_v65, main_v66, main_v67, main_v68, main_v69, main_v70, main_v71, main_v72, main_v73, main_v74, main_v75, main_v76, main_call8_cst, main_call8_v0, main_v77, main_v78, main_v79, main_v80, main_v81, main_v82, main_v83, main_v84, main_cst_14, main_v85, main_v86, main_cst_15, main_v87, main_v88 ]

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., unary_bufs_sub .., unary_bufs_sub .., binary_bufs_sub .., nullary_bufs_sub .., binary_bufs_sub .., nullary_bufs_sub .., binary_bufs_sub .., nullary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., unary_bufs_sub .., unary_bufs_sub .., unary_bufs_sub .., binary_bufs_sub .., nullary_bufs_sub .., binary_bufs_sub .., nullary_bufs_sub .., binary_bufs_sub .., nullary_bufs_sub .., unary_bufs_sub .., unary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub ..⟩

theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.RefSide

end
-- ==== Proof.RefRun.lean ====
/-
  The plain array program's run. Its @main is the straight line `ops` of host operations (the table beside this module),
  the outlined functions' bodies written out at their call sites: unfolding the calls is all there is to it. Every
  weakly fair execution terminates with each buffer at the fold of the operations over the launch contents; the
  argument buffers are written by no operation and end as they began.
-/
import proofs.«209176_g73847667688168_cont_9to1_m_420_10_alg».proof.Proof.RefTable

noncomputable section

namespace Cert.RefSide

open Cert.ReferenceIdeal Cert.ReferenceIdeal.Gen Idealize.ShloMosaic Idealize.ShloMosaic.TcCoe Idealize.SL.Sem Idealize.ShloMosaic.StableHlo
open Cert.HostFold

variable {F : FTy → Type} [FloatOps F]

set_option maxRecDepth 100000 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
/-- Each operation writes its one result buffer. -/
theorem ops_outs : Outs (ops : List (HloOp τ sig (Elt F))) outs := by outs_in_order

/-- No buffer is the result of two operations. -/
theorem outs_nodup : outs.Nodup := by decide

/-- The buffers' contents when the line has run from the launch contents of device `c`. -/
abbrev final (m : (ℓ : Loc nD τ sig) → Buf (Elt F) ℓ) (c : Dev nD) : Valuation τ sig (Elt F) :=
  after ops (launchContents m c)

/-- The result array. -/
abbrev refOut (m : (ℓ : Loc nD τ sig) → Buf (Elt F) ℓ) (c : Dev nD) : Buf (Elt F) ((c.tc : Thread nD τ).loc main_v88) :=
  final m c (Proc.devRef .tc main_v88)

/-- What buffer `r` holds once the line has run from contents `V`. -/
abbrev R (V : Valuation τ sig (Elt F)) (r : Ref sig .tc) : (Proc.devRef (τ := τ) .tc r).ty.Contents (Elt F) :=
  after ops V (Proc.devRef .tc r)

/-- A reference no operation writes keeps its launch contents. -/
theorem final_keep (m : (ℓ : Loc nD τ sig) → Buf (Elt F) ℓ) (c : Dev nD) {r : Ref sig .tc} (hr : r ∉ outs) :
    final m c (Proc.devRef .tc r) = m ((c.tc : Thread nD τ).loc r) :=
  after_keep ops_outs.writesIn hr (launchContents m c)

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v88) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨h c main_v88,
      (h c main_arg0).trans (final_keep m c (by decide)),
      (h c main_arg1).trans (final_keep m c (by decide)),
      (h c main_arg2).trans (final_keep m c (by decide)),
      (h c main_arg3).trans (final_keep m c (by decide)),
      (h c main_arg4).trans (final_keep m c (by decide)),
      (h c main_arg5).trans (final_keep m c (by decide)),
      (h c main_arg6).trans (final_keep m c (by decide)),
      (h c main_arg7).trans (final_keep m c (by decide)),
      (h c main_arg8).trans (final_keep m c (by decide)),
      (h c main_arg9).trans (final_keep m c (by decide)),
      (h c main_arg10).trans (final_keep m c (by decide)),
      (h c main_arg11).trans (final_keep m c (by decide)),
      (h c main_arg12).trans (final_keep m c (by decide)),
      (h c main_arg13).trans (final_keep m c (by decide)),
      (h c main_arg14).trans (final_keep m c (by decide))⟩)
    (run_seq scopedRefs_eq scopedSems_eq defs main (fun _ => ops) main_eq (fun _ => ops_sub) m ρ
      (fun _ => List.forall_iff_forall_mem.mp ops_fresh))

end Cert.RefSide

end
-- ==== Proof.RefFrame.lean ====
/-
  The plain array program runs, without fault, and leaves its fifteen argument arrays as they were: the run with the
  result array's value dropped.
-/
import proofs.«209176_g73847667688168_cont_9to1_m_420_10_alg».proof.Defs
import proofs.«209176_g73847667688168_cont_9to1_m_420_10_alg».proof.Proof.Gen.Pre_input_domain
import proofs.«209176_g73847667688168_cont_9to1_m_420_10_alg».proof.Proof.RefRun

noncomputable section

namespace Cert.RefSide

open Idealize.ShloMosaic Idealize.SL.Sem

theorem frame_ref :
    Cert.frame_ReferenceIdeal (hReferenceIdeal := Cert.ReferenceIdeal.Gen.facts)
      (hPre_input_domain := Cert.Pre_input_domain.Gen.facts) :=
  fun m g _ => (θ_run _ _ _).mono (fun _ h c => (h c).2) (run (F := Ideal) m g)

end Cert.RefSide

end
-- ==== Proof.RefEqs0.lean ====
/-
  A table: for operations 0 … 50 of the line, the operation's defining equation on the contents the buffers hold
  once the whole line has run (every buffer is written once and never after it has been read).
-/
import proofs.«209176_g73847667688168_cont_9to1_m_420_10_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo
open Cert.HostFold

variable {F : FTy → Type} [FloatOps F]

attribute [local irreducible] Host.reduce Host.gather Host.reduceAdd concatenate broadcastInDim shapeCast
set_option maxRecDepth 100000

theorem eq_main_call0_c (V : Valuation τ sig (Elt F)) :
    R V main_call0_c = (constantI S_ 32 0#32) :=
  nullary_at (y := main_call0_c) V ops_outs 0 rfl (by decide)

theorem eq_main_call0_v0 (V : Valuation τ sig (Elt F)) :
    R V main_call0_v0 = (broadcastInDim S16384x50 ![] bcast_S_S16384x50) (R V main_call0_c) :=
  unary_at (x := main_call0_c) (y := main_call0_v0) V ops_outs 1 rfl (by decide) (by decide) (by decide)

theorem eq_main_call0_v1 (V : Valuation τ sig (Elt F)) :
    R V main_call0_v1 = (cmpi .slt) (R V main_arg0) (R V main_call0_v0) :=
  binary_at (a := main_arg0) (b := main_call0_v0) (y := main_call0_v1) V ops_outs 2 rfl (by decide) (by decide) (by decide) (by decide) (by decide)

theorem eq_main_call0_c_0 (V : Valuation τ sig (Elt F)) :
    R V main_call0_c_0 = (constantI S_ 32 100000#32) :=
  nullary_at (y := main_call0_c_0) V ops_outs 3 rfl (by decide)

theorem eq_main_call0_v2 (V : Valuation τ sig (Elt F)) :
    R V main_call0_v2 = (broadcastInDim S16384x50 ![] bcast_S_S16384x50) (R V main_call0_c_0) :=
  unary_at (x := main_call0_c_0) (y := main_call0_v2) V ops_outs 4 rfl (by decide) (by decide) (by decide)

theorem eq_main_call0_v3 (V : Valuation τ sig (Elt F)) :
    R V main_call0_v3 = addi (R V main_arg0) (R V main_call0_v2) :=
  binary_at (a := main_arg0) (b := main_call0_v2) (y := main_call0_v3) V ops_outs 5 rfl (by decide) (by decide) (by decide) (by decide) (by decide)

theorem eq_main_call0_v4 (V : Valuation τ sig (Elt F)) :
    R V main_call0_v4 = select (R V main_call0_v1) (R V main_call0_v3) (R V main_arg0) :=
  ternary_at (c := main_call0_v1) (a := main_call0_v3) (b := main_arg0) (y := main_call0_v4) V ops_outs 6 rfl (by decide) (by decide) (by decide) (by decide) (by decide) (by decide) (by decide)

theorem eq_main_call0_v5 (V : Valuation τ sig (Elt F)) :
    R V main_call0_v5 = (broadcastInDim S16384x50x1 ![0, 1] bcast_S16384x50_S16384x50x1_0_1) (R V main_call0_v4) :=
  unary_at (x := main_call0_v4) (y := main_call0_v5) V ops_outs 7 rfl (by decide) (by decide) (by decide)

theorem eq_main_call0_c_1 (V : Valuation τ sig (Elt F)) :
    R V main_call0_c_1 = (constantI S1 32 99999#32) :=
  nullary_at (y := main_call0_c_1) V ops_outs 8 rfl (by decide)

theorem eq_main_call0_c_2 (V : Valuation τ sig (Elt F)) :
    R V main_call0_c_2 = (constantI S_ 32 0#32) :=
  nullary_at (y := main_call0_c_2) V ops_outs 9 rfl (by decide)

theorem eq_main_call0_v6 (V : Valuation τ sig (Elt F)) :
    R V main_call0_v6 = (broadcastInDim S16384x50x1 ![] bcast_S_S16384x50x1) (R V main_call0_c_2) :=
  unary_at (x := main_call0_c_2) (y := main_call0_v6) V ops_outs 10 rfl (by decide) (by decide) (by decide)

theorem eq_main_call0_v7 (V : Valuation τ sig (Elt F)) :
    R V main_call0_v7 = (cmpi .sge) (R V main_call0_v5) (R V main_call0_v6) :=
  binary_at (a := main_call0_v5) (b := main_call0_v6) (y := main_call0_v7) V ops_outs 11 rfl (by decide) (by decide) (by decide) (by decide) (by decide)

theorem eq_main_call0_v8 (V : Valuation τ sig (Elt F)) :
    R V main_call0_v8 = (broadcastInDim S1x1x1 ![2] bcast_S1_S1x1x1_2) (R V main_call0_c_1) :=
  unary_at (x := main_call0_c_1) (y := main_call0_v8) V ops_outs 12 rfl (by decide) (by decide) (by decide)

theorem eq_main_call0_v9 (V : Valuation τ sig (Elt F)) :
    R V main_call0_v9 = (broadcastInDim S16384x50x1 ![0, 1, 2] bcast_S1x1x1_S16384x50x1_0_1_2) (R V main_call0_v8) :=
  unary_at (x := main_call0_v8) (y := main_call0_v9) V ops_outs 13 rfl (by decide) (by decide) (by decide)

theorem eq_main_call0_v10 (V : Valuation τ sig (Elt F)) :
    R V main_call0_v10 = (cmpi .sle) (R V main_call0_v5) (R V main_call0_v9) :=
  binary_at (a := main_call0_v5) (b := main_call0_v9) (y := main_call0_v10) V ops_outs 14 rfl (by decide) (by decide) (by decide) (by decide) (by decide)

theorem eq_main_call0_v11 (V : Valuation τ sig (Elt F)) :
    R V main_call0_v11 = andi (R V main_call0_v7) (R V main_call0_v10) :=
  binary_at (a := main_call0_v7) (b := main_call0_v10) (y := main_call0_v11) V ops_outs 15 rfl (by decide) (by decide) (by decide) (by decide) (by decide)

theorem eq_main_call0_c_3 (V : Valuation τ sig (Elt F)) :
    R V main_call0_c_3 = (constantI S_ 1 1#1) :=
  nullary_at (y := main_call0_c_3) V ops_outs 16 rfl (by decide)

theorem eq_main_call0_v12 (V : Valuation τ sig (Elt F)) :
    R V main_call0_v12 = (fun x v => Host.reduce IntOp.andi x v reducesTo_S16384x50x1_S16384x50_d2 h_S_) (R V main_call0_v11) (R V main_call0_c_3) :=
  binary_at (a := main_call0_v11) (b := main_call0_c_3) (y := main_call0_v12) V ops_outs 17 rfl (by decide) (by decide) (by decide) (by decide) (by decide)

theorem eq_main_call0_v13 (V : Valuation τ sig (Elt F)) :
    R V main_call0_v13 = (fun x i => Host.gather gather_S100000x128_S16384x50x1_S16384x50x128_2_0_n_n_0_2_1128 x i) (R V main_arg2) (R V main_call0_v5) :=
  binary_at (a := main_arg2) (b := main_call0_v5) (y := main_call0_v13) V ops_outs 18 rfl (by decide) (by decide) (by decide) (by decide) (by decide)

theorem eq_main_call0_v14 (V : Valuation τ sig (Elt F)) :
    R V main_call0_v14 = (broadcastInDim S16384x50x128 ![0, 1] bcast_S16384x50_S16384x50x128_0_1) (R V main_call0_v12) :=
  unary_at (x := main_call0_v12) (y := main_call0_v14) V ops_outs 19 rfl (by decide) (by decide) (by decide)

theorem eq_main_call0_cst (V : Valuation τ sig (Elt F)) :
    R V main_call0_cst = (constant S_ .f32 0x7FC00000#32) :=
  nullary_at (y := main_call0_cst) V ops_outs 20 rfl (by decide)

theorem eq_main_call0_v15 (V : Valuation τ sig (Elt F)) :
    R V main_call0_v15 = (broadcastInDim S16384x50x128 ![] bcast_S_S16384x50x128) (R V main_call0_cst) :=
  unary_at (x := main_call0_cst) (y := main_call0_v15) V ops_outs 21 rfl (by decide) (by decide) (by decide)

theorem eq_main_v0 (V : Valuation τ sig (Elt F)) :
    R V main_v0 = select (R V main_call0_v14) (R V main_call0_v13) (R V main_call0_v15) :=
  ternary_at (c := main_call0_v14) (a := main_call0_v13) (b := main_call0_v15) (y := main_v0) V ops_outs 22 rfl (by decide) (by decide) (by decide) (by decide) (by decide) (by decide) (by decide)

theorem eq_main_c (V : Valuation τ sig (Elt F)) :
    R V main_c = (constantI S_ 32 0#32) :=
  nullary_at (y := main_c) V ops_outs 23 rfl (by decide)

theorem eq_main_v1 (V : Valuation τ sig (Elt F)) :
    R V main_v1 = (broadcastInDim S16384x50 ![] bcast_S_S16384x50 : (⟨S_, .i32⟩ : BufTy).Contents (Elt F) → (⟨S16384x50, .i32⟩ : BufTy).Contents (Elt F)) (R V main_c) :=
  unary_at (x := main_c) (y := main_v1) V ops_outs 24 rfl (by decide) (by decide) (by decide)

theorem eq_main_v2 (V : Valuation τ sig (Elt F)) :
    R V main_v2 = (cmpi .ne : (⟨S16384x50, .i32⟩ : BufTy).Contents (Elt F) → (⟨S16384x50, .i32⟩ : BufTy).Contents (Elt F) → (⟨S16384x50, .i1⟩ : BufTy).Contents (Elt F)) (R V main_arg0) (R V main_v1) :=
  binary_at (a := main_arg0) (b := main_v1) (y := main_v2) V ops_outs 25 rfl (by decide) (by decide) (by decide) (by decide) (by decide)

theorem eq_main_v3 (V : Valuation τ sig (Elt F)) :
    R V main_v3 = (broadcastInDim S16384x50x1 ![0, 1] bcast_S16384x50_S16384x50x1_0_1 : (⟨S16384x50, .i1⟩ : BufTy).Contents (Elt F) → (⟨S16384x50x1, .i1⟩ : BufTy).Contents (Elt F)) (R V main_v2) :=
  unary_at (x := main_v2) (y := main_v3) V ops_outs 26 rfl (by decide) (by decide) (by decide)

theorem eq_main_v4 (V : Valuation τ sig (Elt F)) :
    R V main_v4 = (uitofp .f32 : (⟨S16384x50x1, .i1⟩ : BufTy).Contents (Elt F) → (⟨S16384x50x1, .f32⟩ : BufTy).Contents (Elt F)) (R V main_v3) :=
  unary_at (x := main_v3) (y := main_v4) V ops_outs 27 rfl (by decide) (by decide) (by decide)

theorem eq_main_v5 (V : Valuation τ sig (Elt F)) :
    R V main_v5 = (broadcastInDim S16384x50x128 ![0, 1, 2] bcast_S16384x50x1_S16384x50x128_0_1_2 : (⟨S16384x50x1, .f32⟩ : BufTy).Contents (Elt F) → (⟨S16384x50x128, .f32⟩ : BufTy).Contents (Elt F)) (R V main_v4) :=
  unary_at (x := main_v4) (y := main_v5) V ops_outs 28 rfl (by decide) (by decide) (by decide)

theorem eq_main_v6 (V : Valuation τ sig (Elt F)) :
    R V main_v6 = (mulf : (⟨S16384x50x128, .f32⟩ : BufTy).Contents (Elt F) → (⟨S16384x50x128, .f32⟩ : BufTy).Contents (Elt F) → (⟨S16384x50x128, .f32⟩ : BufTy).Contents (Elt F)) (R V main_v0) (R V main_v5) :=
  binary_at (a := main_v0) (b := main_v5) (y := main_v6) V ops_outs 29 rfl (by decide) (by decide) (by decide) (by decide) (by decide)

theorem eq_main_cst (V : Valuation τ sig (Elt F)) :
    R V main_cst = (constant S_ .f32 0x00000000#32) :=
  nullary_at (y := main_cst) V ops_outs 30 rfl (by decide)

theorem eq_main_v7 (V : Valuation τ sig (Elt F)) :
    R V main_v7 = ((fun x v => Host.reduceAdd x v reducesTo_S16384x50x128_S16384x128_d1 h_S_) : (⟨S16384x50x128, .f32⟩ : BufTy).Contents (Elt F) → (⟨S_, .f32⟩ : BufTy).Contents (Elt F) → (⟨S16384x128, .f32⟩ : BufTy).Contents (Elt F)) (R V main_v6) (R V main_cst) :=
  binary_at (a := main_v6) (b := main_cst) (y := main_v7) V ops_outs 31 rfl (by decide) (by decide) (by decide) (by decide) (by decide)

theorem eq_main_cst_0 (V : Valuation τ sig (Elt F)) :
    R V main_cst_0 = (constant S_ .f32 0x00000000#32) :=
  nullary_at (y := main_cst_0) V ops_outs 32 rfl (by decide)

theorem eq_main_v8 (V : Valuation τ sig (Elt F)) :
    R V main_v8 = ((fun x v => Host.reduceAdd x v reducesTo_S16384x50x1_S16384x1_d1 h_S_) : (⟨S16384x50x1, .f32⟩ : BufTy).Contents (Elt F) → (⟨S_, .f32⟩ : BufTy).Contents (Elt F) → (⟨S16384x1, .f32⟩ : BufTy).Contents (Elt F)) (R V main_v4) (R V main_cst_0) :=
  binary_at (a := main_v4) (b := main_cst_0) (y := main_v8) V ops_outs 33 rfl (by decide) (by decide) (by decide) (by decide) (by decide)

theorem eq_main_cst_1 (V : Valuation τ sig (Elt F)) :
    R V main_cst_1 = (constant S_ .f32 0x3089705F#32) :=
  nullary_at (y := main_cst_1) V ops_outs 34 rfl (by decide)

theorem eq_main_call1_v0 (V : Valuation τ sig (Elt F)) :
    R V main_call1_v0 = id (R V main_cst_1) :=
  unary_at (x := main_cst_1) (y := main_call1_v0) V ops_outs 35 rfl (by decide) (by decide) (by decide)

theorem eq_main_call1_v1 (V : Valuation τ sig (Elt F)) :
    R V main_call1_v1 = (broadcastInDim S16384x1 ![] bcast_S_S16384x1) (R V main_call1_v0) :=
  unary_at (x := main_call1_v0) (y := main_call1_v1) V ops_outs 36 rfl (by decide) (by decide) (by decide)

theorem eq_main_v9 (V : Valuation τ sig (Elt F)) :
    R V main_v9 = maximumf (R V main_call1_v1) (R V main_v8) :=
  binary_at (a := main_call1_v1) (b := main_v8) (y := main_v9) V ops_outs 37 rfl (by decide) (by decide) (by decide) (by decide) (by decide)

theorem eq_main_v10 (V : Valuation τ sig (Elt F)) :
    R V main_v10 = (broadcastInDim S16384x128 ![0, 1] bcast_S16384x1_S16384x128_0_1 : (⟨S16384x1, .f32⟩ : BufTy).Contents (Elt F) → (⟨S16384x128, .f32⟩ : BufTy).Contents (Elt F)) (R V main_v9) :=
  unary_at (x := main_v9) (y := main_v10) V ops_outs 38 rfl (by decide) (by decide) (by decide)

theorem eq_main_v11 (V : Valuation τ sig (Elt F)) :
    R V main_v11 = (Host.divf : (⟨S16384x128, .f32⟩ : BufTy).Contents (Elt F) → (⟨S16384x128, .f32⟩ : BufTy).Contents (Elt F) → (⟨S16384x128, .f32⟩ : BufTy).Contents (Elt F)) (R V main_v7) (R V main_v10) :=
  binary_at (a := main_v7) (b := main_v10) (y := main_v11) V ops_outs 39 rfl (by decide) (by decide) (by decide) (by decide) (by decide)

theorem eq_main_call2_c (V : Valuation τ sig (Elt F)) :
    R V main_call2_c = (constantI S_ 32 0#32) :=
  nullary_at (y := main_call2_c) V ops_outs 40 rfl (by decide)

theorem eq_main_call2_v0 (V : Valuation τ sig (Elt F)) :
    R V main_call2_v0 = (broadcastInDim S16384x50 ![] bcast_S_S16384x50) (R V main_call2_c) :=
  unary_at (x := main_call2_c) (y := main_call2_v0) V ops_outs 41 rfl (by decide) (by decide) (by decide)

theorem eq_main_call2_v1 (V : Valuation τ sig (Elt F)) :
    R V main_call2_v1 = (cmpi .slt) (R V main_arg1) (R V main_call2_v0) :=
  binary_at (a := main_arg1) (b := main_call2_v0) (y := main_call2_v1) V ops_outs 42 rfl (by decide) (by decide) (by decide) (by decide) (by decide)

theorem eq_main_call2_c_0 (V : Valuation τ sig (Elt F)) :
    R V main_call2_c_0 = (constantI S_ 32 100000#32) :=
  nullary_at (y := main_call2_c_0) V ops_outs 43 rfl (by decide)

theorem eq_main_call2_v2 (V : Valuation τ sig (Elt F)) :
    R V main_call2_v2 = (broadcastInDim S16384x50 ![] bcast_S_S16384x50) (R V main_call2_c_0) :=
  unary_at (x := main_call2_c_0) (y := main_call2_v2) V ops_outs 44 rfl (by decide) (by decide) (by decide)

theorem eq_main_call2_v3 (V : Valuation τ sig (Elt F)) :
    R V main_call2_v3 = addi (R V main_arg1) (R V main_call2_v2) :=
  binary_at (a := main_arg1) (b := main_call2_v2) (y := main_call2_v3) V ops_outs 45 rfl (by decide) (by decide) (by decide) (by decide) (by decide)

theorem eq_main_call2_v4 (V : Valuation τ sig (Elt F)) :
    R V main_call2_v4 = select (R V main_call2_v1) (R V main_call2_v3) (R V main_arg1) :=
  ternary_at (c := main_call2_v1) (a := main_call2_v3) (b := main_arg1) (y := main_call2_v4) V ops_outs 46 rfl (by decide) (by decide) (by decide) (by decide) (by decide) (by decide) (by decide)

theorem eq_main_call2_v5 (V : Valuation τ sig (Elt F)) :
    R V main_call2_v5 = (broadcastInDim S16384x50x1 ![0, 1] bcast_S16384x50_S16384x50x1_0_1) (R V main_call2_v4) :=
  unary_at (x := main_call2_v4) (y := main_call2_v5) V ops_outs 47 rfl (by decide) (by decide) (by decide)

theorem eq_main_call2_c_1 (V : Valuation τ sig (Elt F)) :
    R V main_call2_c_1 = (constantI S1 32 99999#32) :=
  nullary_at (y := main_call2_c_1) V ops_outs 48 rfl (by decide)

theorem eq_main_call2_c_2 (V : Valuation τ sig (Elt F)) :
    R V main_call2_c_2 = (constantI S_ 32 0#32) :=
  nullary_at (y := main_call2_c_2) V ops_outs 49 rfl (by decide)

theorem eq_main_call2_v6 (V : Valuation τ sig (Elt F)) :
    R V main_call2_v6 = (broadcastInDim S16384x50x1 ![] bcast_S_S16384x50x1) (R V main_call2_c_2) :=
  unary_at (x := main_call2_c_2) (y := main_call2_v6) V ops_outs 50 rfl (by decide) (by decide) (by decide)

end Cert.RefSide

end
-- ==== Proof.RefEqs1.lean ====
/-
  A table: for operations 51 … 101 of the line, the operation's defining equation on the contents the buffers hold
  once the whole line has run (every buffer is written once and never after it has been read).
-/
import proofs.«209176_g73847667688168_cont_9to1_m_420_10_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo
open Cert.HostFold

variable {F : FTy → Type} [FloatOps F]

attribute [local irreducible] Host.reduce Host.gather Host.reduceAdd concatenate broadcastInDim shapeCast
set_option maxRecDepth 100000

theorem eq_main_call2_v7 (V : Valuation τ sig (Elt F)) :
    R V main_call2_v7 = (cmpi .sge) (R V main_call2_v5) (R V main_call2_v6) :=
  binary_at (a := main_call2_v5) (b := main_call2_v6) (y := main_call2_v7) V ops_outs 51 rfl (by decide) (by decide) (by decide) (by decide) (by decide)

theorem eq_main_call2_v8 (V : Valuation τ sig (Elt F)) :
    R V main_call2_v8 = (broadcastInDim S1x1x1 ![2] bcast_S1_S1x1x1_2) (R V main_call2_c_1) :=
  unary_at (x := main_call2_c_1) (y := main_call2_v8) V ops_outs 52 rfl (by decide) (by decide) (by decide)

theorem eq_main_call2_v9 (V : Valuation τ sig (Elt F)) :
    R V main_call2_v9 = (broadcastInDim S16384x50x1 ![0, 1, 2] bcast_S1x1x1_S16384x50x1_0_1_2) (R V main_call2_v8) :=
  unary_at (x := main_call2_v8) (y := main_call2_v9) V ops_outs 53 rfl (by decide) (by decide) (by decide)

theorem eq_main_call2_v10 (V : Valuation τ sig (Elt F)) :
    R V main_call2_v10 = (cmpi .sle) (R V main_call2_v5) (R V main_call2_v9) :=
  binary_at (a := main_call2_v5) (b := main_call2_v9) (y := main_call2_v10) V ops_outs 54 rfl (by decide) (by decide) (by decide) (by decide) (by decide)

theorem eq_main_call2_v11 (V : Valuation τ sig (Elt F)) :
    R V main_call2_v11 = andi (R V main_call2_v7) (R V main_call2_v10) :=
  binary_at (a := main_call2_v7) (b := main_call2_v10) (y := main_call2_v11) V ops_outs 55 rfl (by decide) (by decide) (by decide) (by decide) (by decide)

theorem eq_main_call2_c_3 (V : Valuation τ sig (Elt F)) :
    R V main_call2_c_3 = (constantI S_ 1 1#1) :=
  nullary_at (y := main_call2_c_3) V ops_outs 56 rfl (by decide)

theorem eq_main_call2_v12 (V : Valuation τ sig (Elt F)) :
    R V main_call2_v12 = (fun x v => Host.reduce IntOp.andi x v reducesTo_S16384x50x1_S16384x50_d2 h_S_) (R V main_call2_v11) (R V main_call2_c_3) :=
  binary_at (a := main_call2_v11) (b := main_call2_c_3) (y := main_call2_v12) V ops_outs 57 rfl (by decide) (by decide) (by decide) (by decide) (by decide)

theorem eq_main_call2_v13 (V : Valuation τ sig (Elt F)) :
    R V main_call2_v13 = (fun x i => Host.gather gather_S100000x128_S16384x50x1_S16384x50x128_2_0_n_n_0_2_1128 x i) (R V main_arg2) (R V main_call2_v5) :=
  binary_at (a := main_arg2) (b := main_call2_v5) (y := main_call2_v13) V ops_outs 58 rfl (by decide) (by decide) (by decide) (by decide) (by decide)

theorem eq_main_call2_v14 (V : Valuation τ sig (Elt F)) :
    R V main_call2_v14 = (broadcastInDim S16384x50x128 ![0, 1] bcast_S16384x50_S16384x50x128_0_1) (R V main_call2_v12) :=
  unary_at (x := main_call2_v12) (y := main_call2_v14) V ops_outs 59 rfl (by decide) (by decide) (by decide)

theorem eq_main_call2_cst (V : Valuation τ sig (Elt F)) :
    R V main_call2_cst = (constant S_ .f32 0x7FC00000#32) :=
  nullary_at (y := main_call2_cst) V ops_outs 60 rfl (by decide)

theorem eq_main_call2_v15 (V : Valuation τ sig (Elt F)) :
    R V main_call2_v15 = (broadcastInDim S16384x50x128 ![] bcast_S_S16384x50x128) (R V main_call2_cst) :=
  unary_at (x := main_call2_cst) (y := main_call2_v15) V ops_outs 61 rfl (by decide) (by decide) (by decide)

theorem eq_main_v12 (V : Valuation τ sig (Elt F)) :
    R V main_v12 = select (R V main_call2_v14) (R V main_call2_v13) (R V main_call2_v15) :=
  ternary_at (c := main_call2_v14) (a := main_call2_v13) (b := main_call2_v15) (y := main_v12) V ops_outs 62 rfl (by decide) (by decide) (by decide) (by decide) (by decide) (by decide) (by decide)

theorem eq_main_c_2 (V : Valuation τ sig (Elt F)) :
    R V main_c_2 = (constantI S_ 32 0#32) :=
  nullary_at (y := main_c_2) V ops_outs 63 rfl (by decide)

theorem eq_main_v13 (V : Valuation τ sig (Elt F)) :
    R V main_v13 = (broadcastInDim S16384x50 ![] bcast_S_S16384x50 : (⟨S_, .i32⟩ : BufTy).Contents (Elt F) → (⟨S16384x50, .i32⟩ : BufTy).Contents (Elt F)) (R V main_c_2) :=
  unary_at (x := main_c_2) (y := main_v13) V ops_outs 64 rfl (by decide) (by decide) (by decide)

theorem eq_main_v14 (V : Valuation τ sig (Elt F)) :
    R V main_v14 = (cmpi .ne : (⟨S16384x50, .i32⟩ : BufTy).Contents (Elt F) → (⟨S16384x50, .i32⟩ : BufTy).Contents (Elt F) → (⟨S16384x50, .i1⟩ : BufTy).Contents (Elt F)) (R V main_arg1) (R V main_v13) :=
  binary_at (a := main_arg1) (b := main_v13) (y := main_v14) V ops_outs 65 rfl (by decide) (by decide) (by decide) (by decide) (by decide)

theorem eq_main_v15 (V : Valuation τ sig (Elt F)) :
    R V main_v15 = (broadcastInDim S16384x50x1 ![0, 1] bcast_S16384x50_S16384x50x1_0_1 : (⟨S16384x50, .i1⟩ : BufTy).Contents (Elt F) → (⟨S16384x50x1, .i1⟩ : BufTy).Contents (Elt F)) (R V main_v14) :=
  unary_at (x := main_v14) (y := main_v15) V ops_outs 66 rfl (by decide) (by decide) (by decide)

theorem eq_main_v16 (V : Valuation τ sig (Elt F)) :
    R V main_v16 = (uitofp .f32 : (⟨S16384x50x1, .i1⟩ : BufTy).Contents (Elt F) → (⟨S16384x50x1, .f32⟩ : BufTy).Contents (Elt F)) (R V main_v15) :=
  unary_at (x := main_v15) (y := main_v16) V ops_outs 67 rfl (by decide) (by decide) (by decide)

theorem eq_main_v17 (V : Valuation τ sig (Elt F)) :
    R V main_v17 = (broadcastInDim S16384x50x128 ![0, 1, 2] bcast_S16384x50x1_S16384x50x128_0_1_2 : (⟨S16384x50x1, .f32⟩ : BufTy).Contents (Elt F) → (⟨S16384x50x128, .f32⟩ : BufTy).Contents (Elt F)) (R V main_v16) :=
  unary_at (x := main_v16) (y := main_v17) V ops_outs 68 rfl (by decide) (by decide) (by decide)

theorem eq_main_v18 (V : Valuation τ sig (Elt F)) :
    R V main_v18 = (mulf : (⟨S16384x50x128, .f32⟩ : BufTy).Contents (Elt F) → (⟨S16384x50x128, .f32⟩ : BufTy).Contents (Elt F) → (⟨S16384x50x128, .f32⟩ : BufTy).Contents (Elt F)) (R V main_v12) (R V main_v17) :=
  binary_at (a := main_v12) (b := main_v17) (y := main_v18) V ops_outs 69 rfl (by decide) (by decide) (by decide) (by decide) (by decide)

theorem eq_main_cst_3 (V : Valuation τ sig (Elt F)) :
    R V main_cst_3 = (constant S_ .f32 0x00000000#32) :=
  nullary_at (y := main_cst_3) V ops_outs 70 rfl (by decide)

theorem eq_main_v19 (V : Valuation τ sig (Elt F)) :
    R V main_v19 = ((fun x v => Host.reduceAdd x v reducesTo_S16384x50x128_S16384x128_d1 h_S_) : (⟨S16384x50x128, .f32⟩ : BufTy).Contents (Elt F) → (⟨S_, .f32⟩ : BufTy).Contents (Elt F) → (⟨S16384x128, .f32⟩ : BufTy).Contents (Elt F)) (R V main_v18) (R V main_cst_3) :=
  binary_at (a := main_v18) (b := main_cst_3) (y := main_v19) V ops_outs 71 rfl (by decide) (by decide) (by decide) (by decide) (by decide)

theorem eq_main_cst_4 (V : Valuation τ sig (Elt F)) :
    R V main_cst_4 = (constant S_ .f32 0x00000000#32) :=
  nullary_at (y := main_cst_4) V ops_outs 72 rfl (by decide)

theorem eq_main_v20 (V : Valuation τ sig (Elt F)) :
    R V main_v20 = ((fun x v => Host.reduceAdd x v reducesTo_S16384x50x1_S16384x1_d1 h_S_) : (⟨S16384x50x1, .f32⟩ : BufTy).Contents (Elt F) → (⟨S_, .f32⟩ : BufTy).Contents (Elt F) → (⟨S16384x1, .f32⟩ : BufTy).Contents (Elt F)) (R V main_v16) (R V main_cst_4) :=
  binary_at (a := main_v16) (b := main_cst_4) (y := main_v20) V ops_outs 73 rfl (by decide) (by decide) (by decide) (by decide) (by decide)

theorem eq_main_cst_5 (V : Valuation τ sig (Elt F)) :
    R V main_cst_5 = (constant S_ .f32 0x3089705F#32) :=
  nullary_at (y := main_cst_5) V ops_outs 74 rfl (by decide)

theorem eq_main_call3_v0 (V : Valuation τ sig (Elt F)) :
    R V main_call3_v0 = id (R V main_cst_5) :=
  unary_at (x := main_cst_5) (y := main_call3_v0) V ops_outs 75 rfl (by decide) (by decide) (by decide)

theorem eq_main_call3_v1 (V : Valuation τ sig (Elt F)) :
    R V main_call3_v1 = (broadcastInDim S16384x1 ![] bcast_S_S16384x1) (R V main_call3_v0) :=
  unary_at (x := main_call3_v0) (y := main_call3_v1) V ops_outs 76 rfl (by decide) (by decide) (by decide)

theorem eq_main_v21 (V : Valuation τ sig (Elt F)) :
    R V main_v21 = maximumf (R V main_call3_v1) (R V main_v20) :=
  binary_at (a := main_call3_v1) (b := main_v20) (y := main_v21) V ops_outs 77 rfl (by decide) (by decide) (by decide) (by decide) (by decide)

theorem eq_main_v22 (V : Valuation τ sig (Elt F)) :
    R V main_v22 = (broadcastInDim S16384x128 ![0, 1] bcast_S16384x1_S16384x128_0_1 : (⟨S16384x1, .f32⟩ : BufTy).Contents (Elt F) → (⟨S16384x128, .f32⟩ : BufTy).Contents (Elt F)) (R V main_v21) :=
  unary_at (x := main_v21) (y := main_v22) V ops_outs 78 rfl (by decide) (by decide) (by decide)

theorem eq_main_v23 (V : Valuation τ sig (Elt F)) :
    R V main_v23 = (Host.divf : (⟨S16384x128, .f32⟩ : BufTy).Contents (Elt F) → (⟨S16384x128, .f32⟩ : BufTy).Contents (Elt F) → (⟨S16384x128, .f32⟩ : BufTy).Contents (Elt F)) (R V main_v19) (R V main_v22) :=
  binary_at (a := main_v19) (b := main_v22) (y := main_v23) V ops_outs 79 rfl (by decide) (by decide) (by decide) (by decide) (by decide)

theorem eq_main_v24 (V : Valuation τ sig (Elt F)) :
    R V main_v24 = ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)) (R V main_v11) (R V main_v23) :=
  binary_at (a := main_v11) (b := main_v23) (y := main_v24) V ops_outs 80 rfl (by decide) (by decide) (by decide) (by decide) (by decide)

theorem eq_main_v25 (V : Valuation τ sig (Elt F)) :
    R V main_v25 = ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)) (R V main_v24) (R V main_arg3) :=
  binary_at (a := main_v24) (b := main_arg3) (y := main_v25) V ops_outs 81 rfl (by decide) (by decide) (by decide) (by decide) (by decide)

theorem eq_main_v26 (V : Valuation τ sig (Elt F)) :
    R V main_v26 = (broadcastInDim S1x1024 ![1] bcast_S1024_S1x1024_1 : (⟨S1024, .f32⟩ : BufTy).Contents (Elt F) → (⟨S1x1024, .f32⟩ : BufTy).Contents (Elt F)) (R V main_arg4) :=
  unary_at (x := main_arg4) (y := main_v26) V ops_outs 82 rfl (by decide) (by decide) (by decide)

theorem eq_main_v27 (V : Valuation τ sig (Elt F)) :
    R V main_v27 = (broadcastInDim S16384x1024 ![0, 1] bcast_S1x1024_S16384x1024_0_1 : (⟨S1x1024, .f32⟩ : BufTy).Contents (Elt F) → (⟨S16384x1024, .f32⟩ : BufTy).Contents (Elt F)) (R V main_v26) :=
  unary_at (x := main_v26) (y := main_v27) V ops_outs 83 rfl (by decide) (by decide) (by decide)

theorem eq_main_v28 (V : Valuation τ sig (Elt F)) :
    R V main_v28 = (addf : (⟨S16384x1024, .f32⟩ : BufTy).Contents (Elt F) → (⟨S16384x1024, .f32⟩ : BufTy).Contents (Elt F) → (⟨S16384x1024, .f32⟩ : BufTy).Contents (Elt F)) (R V main_v25) (R V main_v27) :=
  binary_at (a := main_v25) (b := main_v27) (y := main_v28) V ops_outs 84 rfl (by decide) (by decide) (by decide) (by decide) (by decide)

theorem eq_main_call4_cst (V : Valuation τ sig (Elt F)) :
    R V main_call4_cst = (constant S_ .f32 0x00000000#32) :=
  nullary_at (y := main_call4_cst) V ops_outs 85 rfl (by decide)

theorem eq_main_call4_v0 (V : Valuation τ sig (Elt F)) :
    R V main_call4_v0 = (broadcastInDim S16384x1024 ![] bcast_S_S16384x1024) (R V main_call4_cst) :=
  unary_at (x := main_call4_cst) (y := main_call4_v0) V ops_outs 86 rfl (by decide) (by decide) (by decide)

theorem eq_main_v29 (V : Valuation τ sig (Elt F)) :
    R V main_v29 = maximumf (R V main_v28) (R V main_call4_v0) :=
  binary_at (a := main_v28) (b := main_call4_v0) (y := main_v29) V ops_outs 87 rfl (by decide) (by decide) (by decide) (by decide) (by decide)

theorem eq_main_cst_6 (V : Valuation τ sig (Elt F)) :
    R V main_cst_6 = (constant S_ .f32 0x00000000#32) :=
  nullary_at (y := main_cst_6) V ops_outs 88 rfl (by decide)

theorem eq_main_v30 (V : Valuation τ sig (Elt F)) :
    R V main_v30 = ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)) (R V main_v29) (R V main_cst_6) :=
  binary_at (a := main_v29) (b := main_cst_6) (y := main_v30) V ops_outs 89 rfl (by decide) (by decide) (by decide) (by decide) (by decide)

theorem eq_main_cst_7 (V : Valuation τ sig (Elt F)) :
    R V main_cst_7 = (constant S_ .f32 0x46800000#32) :=
  nullary_at (y := main_cst_7) V ops_outs 90 rfl (by decide)

theorem eq_main_v31 (V : Valuation τ sig (Elt F)) :
    R V main_v31 = (broadcastInDim S1024 ![] bcast_S_S1024 : (⟨S_, .f32⟩ : BufTy).Contents (Elt F) → (⟨S1024, .f32⟩ : BufTy).Contents (Elt F)) (R V main_cst_7) :=
  unary_at (x := main_cst_7) (y := main_v31) V ops_outs 91 rfl (by decide) (by decide) (by decide)

theorem eq_main_v32 (V : Valuation τ sig (Elt F)) :
    R V main_v32 = (Host.divf : (⟨S1024, .f32⟩ : BufTy).Contents (Elt F) → (⟨S1024, .f32⟩ : BufTy).Contents (Elt F) → (⟨S1024, .f32⟩ : BufTy).Contents (Elt F)) (R V main_v30) (R V main_v31) :=
  binary_at (a := main_v30) (b := main_v31) (y := main_v32) V ops_outs 92 rfl (by decide) (by decide) (by decide) (by decide) (by decide)

theorem eq_main_c_8 (V : Valuation τ sig (Elt F)) :
    R V main_c_8 = (constantI S_ 32 0#32) :=
  nullary_at (y := main_c_8) V ops_outs 93 rfl (by decide)

theorem eq_main_call5_cst (V : Valuation τ sig (Elt F)) :
    R V main_call5_cst = (constant S_ .f32 0x00000000#32) :=
  nullary_at (y := main_call5_cst) V ops_outs 94 rfl (by decide)

theorem eq_main_call5_v0 (V : Valuation τ sig (Elt F)) :
    R V main_call5_v0 = (fun x v => Host.reduceAdd x v reducesTo_S16384x1024_S1024_d0 h_S_) (R V main_v29) (R V main_call5_cst) :=
  binary_at (a := main_v29) (b := main_call5_cst) (y := main_call5_v0) V ops_outs 95 rfl (by decide) (by decide) (by decide) (by decide) (by decide)

theorem eq_main_call5_v1 (V : Valuation τ sig (Elt F)) :
    R V main_call5_v1 = (broadcastInDim S1x1024 ![1] bcast_S1024_S1x1024_1) (R V main_call5_v0) :=
  unary_at (x := main_call5_v0) (y := main_call5_v1) V ops_outs 96 rfl (by decide) (by decide) (by decide)

theorem eq_main_call5_cst_0 (V : Valuation τ sig (Elt F)) :
    R V main_call5_cst_0 = (constant S_ .f32 0x46800000#32) :=
  nullary_at (y := main_call5_cst_0) V ops_outs 97 rfl (by decide)

theorem eq_main_call5_v2 (V : Valuation τ sig (Elt F)) :
    R V main_call5_v2 = (broadcastInDim S1x1024 ![] bcast_S_S1x1024) (R V main_call5_cst_0) :=
  unary_at (x := main_call5_cst_0) (y := main_call5_v2) V ops_outs 98 rfl (by decide) (by decide) (by decide)

theorem eq_main_call5_v3 (V : Valuation τ sig (Elt F)) :
    R V main_call5_v3 = Host.divf (R V main_call5_v1) (R V main_call5_v2) :=
  binary_at (a := main_call5_v1) (b := main_call5_v2) (y := main_call5_v3) V ops_outs 99 rfl (by decide) (by decide) (by decide) (by decide) (by decide)

theorem eq_main_call5_v4 (V : Valuation τ sig (Elt F)) :
    R V main_call5_v4 = (broadcastInDim S16384x1024 ![0, 1] bcast_S1x1024_S16384x1024_0_1) (R V main_call5_v3) :=
  unary_at (x := main_call5_v3) (y := main_call5_v4) V ops_outs 100 rfl (by decide) (by decide) (by decide)

theorem eq_main_call5_v5 (V : Valuation τ sig (Elt F)) :
    R V main_call5_v5 = subf (R V main_v29) (R V main_call5_v4) :=
  binary_at (a := main_v29) (b := main_call5_v4) (y := main_call5_v5) V ops_outs 101 rfl (by decide) (by decide) (by decide) (by decide) (by decide)

end Cert.RefSide

end
-- ==== Proof.RefEqs2.lean ====
/-
  A table: for operations 102 … 152 of the line, the operation's defining equation on the contents the buffers hold
  once the whole line has run (every buffer is written once and never after it has been read).
-/
import proofs.«209176_g73847667688168_cont_9to1_m_420_10_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo
open Cert.HostFold

variable {F : FTy → Type} [FloatOps F]

attribute [local irreducible] Host.reduce Host.gather Host.reduceAdd concatenate broadcastInDim shapeCast
set_option maxRecDepth 100000

theorem eq_main_call5_v6 (V : Valuation τ sig (Elt F)) :
    R V main_call5_v6 = mulf (R V main_call5_v5) (R V main_call5_v5) :=
  binary_at (a := main_call5_v5) (b := main_call5_v5) (y := main_call5_v6) V ops_outs 102 rfl (by decide) (by decide) (by decide) (by decide) (by decide)

theorem eq_main_call5_v7 (V : Valuation τ sig (Elt F)) :
    R V main_call5_v7 = (sitofp .f32) (R V main_c_8) :=
  unary_at (x := main_c_8) (y := main_call5_v7) V ops_outs 103 rfl (by decide) (by decide) (by decide)

theorem eq_main_call5_cst_1 (V : Valuation τ sig (Elt F)) :
    R V main_call5_cst_1 = (constant S_ .f32 0x46800000#32) :=
  nullary_at (y := main_call5_cst_1) V ops_outs 104 rfl (by decide)

theorem eq_main_call5_v8 (V : Valuation τ sig (Elt F)) :
    R V main_call5_v8 = subf (R V main_call5_cst_1) (R V main_call5_v7) :=
  binary_at (a := main_call5_cst_1) (b := main_call5_v7) (y := main_call5_v8) V ops_outs 105 rfl (by decide) (by decide) (by decide) (by decide) (by decide)

theorem eq_main_call5_cst_2 (V : Valuation τ sig (Elt F)) :
    R V main_call5_cst_2 = (constant S_ .f32 0x00000000#32) :=
  nullary_at (y := main_call5_cst_2) V ops_outs 106 rfl (by decide)

theorem eq_main_call5_v9 (V : Valuation τ sig (Elt F)) :
    R V main_call5_v9 = (fun x v => Host.reduceAdd x v reducesTo_S16384x1024_S1024_d0 h_S_) (R V main_call5_v6) (R V main_call5_cst_2) :=
  binary_at (a := main_call5_v6) (b := main_call5_cst_2) (y := main_call5_v9) V ops_outs 107 rfl (by decide) (by decide) (by decide) (by decide) (by decide)

theorem eq_main_call5_v10 (V : Valuation τ sig (Elt F)) :
    R V main_call5_v10 = (broadcastInDim S1024 ![] bcast_S_S1024) (R V main_call5_v8) :=
  unary_at (x := main_call5_v8) (y := main_call5_v10) V ops_outs 108 rfl (by decide) (by decide) (by decide)

theorem eq_main_call5_v11 (V : Valuation τ sig (Elt F)) :
    R V main_call5_v11 = Host.divf (R V main_call5_v9) (R V main_call5_v10) :=
  binary_at (a := main_call5_v9) (b := main_call5_v10) (y := main_call5_v11) V ops_outs 109 rfl (by decide) (by decide) (by decide) (by decide) (by decide)

theorem eq_main_call5_cst_3 (V : Valuation τ sig (Elt F)) :
    R V main_call5_cst_3 = (constant S_ .f32 0x00000000#32) :=
  nullary_at (y := main_call5_cst_3) V ops_outs 110 rfl (by decide)

theorem eq_main_call5_v12 (V : Valuation τ sig (Elt F)) :
    R V main_call5_v12 = (cmpf (F := F) .ogt) (R V main_call5_v8) (R V main_call5_cst_3) :=
  binary_at (a := main_call5_v8) (b := main_call5_cst_3) (y := main_call5_v12) V ops_outs 111 rfl (by decide) (by decide) (by decide) (by decide) (by decide)

theorem eq_main_call5_cst_4 (V : Valuation τ sig (Elt F)) :
    R V main_call5_cst_4 = (constant S_ .f32 0x7FC00000#32) :=
  nullary_at (y := main_call5_cst_4) V ops_outs 112 rfl (by decide)

theorem eq_main_call5_call0_v0 (V : Valuation τ sig (Elt F)) :
    R V main_call5_call0_v0 = id (R V main_call5_cst_4) :=
  unary_at (x := main_call5_cst_4) (y := main_call5_call0_v0) V ops_outs 113 rfl (by decide) (by decide) (by decide)

theorem eq_main_call5_call0_v1 (V : Valuation τ sig (Elt F)) :
    R V main_call5_call0_v1 = (broadcastInDim S1024 ![] bcast_S_S1024) (R V main_call5_call0_v0) :=
  unary_at (x := main_call5_call0_v0) (y := main_call5_call0_v1) V ops_outs 114 rfl (by decide) (by decide) (by decide)

theorem eq_main_v33 (V : Valuation τ sig (Elt F)) :
    R V main_v33 = (fun p a b => select (broadcastInDim S1024 ![] bcast_S_S1024 p) a b) (R V main_call5_v12) (R V main_call5_v11) (R V main_call5_call0_v1) :=
  ternary_at (c := main_call5_v12) (a := main_call5_v11) (b := main_call5_call0_v1) (y := main_v33) V ops_outs 115 rfl (by decide) (by decide) (by decide) (by decide) (by decide) (by decide) (by decide)

theorem eq_main_v34 (V : Valuation τ sig (Elt F)) :
    R V main_v34 = (broadcastInDim S1x1024 ![1] bcast_S1024_S1x1024_1 : (⟨S1024, .f32⟩ : BufTy).Contents (Elt F) → (⟨S1x1024, .f32⟩ : BufTy).Contents (Elt F)) (R V main_v32) :=
  unary_at (x := main_v32) (y := main_v34) V ops_outs 116 rfl (by decide) (by decide) (by decide)

theorem eq_main_v35 (V : Valuation τ sig (Elt F)) :
    R V main_v35 = (broadcastInDim S16384x1024 ![0, 1] bcast_S1x1024_S16384x1024_0_1 : (⟨S1x1024, .f32⟩ : BufTy).Contents (Elt F) → (⟨S16384x1024, .f32⟩ : BufTy).Contents (Elt F)) (R V main_v34) :=
  unary_at (x := main_v34) (y := main_v35) V ops_outs 117 rfl (by decide) (by decide) (by decide)

theorem eq_main_v36 (V : Valuation τ sig (Elt F)) :
    R V main_v36 = (subf : (⟨S16384x1024, .f32⟩ : BufTy).Contents (Elt F) → (⟨S16384x1024, .f32⟩ : BufTy).Contents (Elt F) → (⟨S16384x1024, .f32⟩ : BufTy).Contents (Elt F)) (R V main_v29) (R V main_v35) :=
  binary_at (a := main_v29) (b := main_v35) (y := main_v36) V ops_outs 118 rfl (by decide) (by decide) (by decide) (by decide) (by decide)

theorem eq_main_cst_9 (V : Valuation τ sig (Elt F)) :
    R V main_cst_9 = (constant S_ .f32 0x3727C5AC#32) :=
  nullary_at (y := main_cst_9) V ops_outs 119 rfl (by decide)

theorem eq_main_v37 (V : Valuation τ sig (Elt F)) :
    R V main_v37 = (broadcastInDim S1024 ![] bcast_S_S1024 : (⟨S_, .f32⟩ : BufTy).Contents (Elt F) → (⟨S1024, .f32⟩ : BufTy).Contents (Elt F)) (R V main_cst_9) :=
  unary_at (x := main_cst_9) (y := main_v37) V ops_outs 120 rfl (by decide) (by decide) (by decide)

theorem eq_main_v38 (V : Valuation τ sig (Elt F)) :
    R V main_v38 = (addf : (⟨S1024, .f32⟩ : BufTy).Contents (Elt F) → (⟨S1024, .f32⟩ : BufTy).Contents (Elt F) → (⟨S1024, .f32⟩ : BufTy).Contents (Elt F)) (R V main_v33) (R V main_v37) :=
  binary_at (a := main_v33) (b := main_v37) (y := main_v38) V ops_outs 121 rfl (by decide) (by decide) (by decide) (by decide) (by decide)

theorem eq_main_v39 (V : Valuation τ sig (Elt F)) :
    R V main_v39 = (Host.sqrt : (⟨S1024, .f32⟩ : BufTy).Contents (Elt F) → (⟨S1024, .f32⟩ : BufTy).Contents (Elt F)) (R V main_v38) :=
  unary_at (x := main_v38) (y := main_v39) V ops_outs 122 rfl (by decide) (by decide) (by decide)

theorem eq_main_v40 (V : Valuation τ sig (Elt F)) :
    R V main_v40 = (broadcastInDim S1x1024 ![1] bcast_S1024_S1x1024_1 : (⟨S1024, .f32⟩ : BufTy).Contents (Elt F) → (⟨S1x1024, .f32⟩ : BufTy).Contents (Elt F)) (R V main_v39) :=
  unary_at (x := main_v39) (y := main_v40) V ops_outs 123 rfl (by decide) (by decide) (by decide)

theorem eq_main_v41 (V : Valuation τ sig (Elt F)) :
    R V main_v41 = (broadcastInDim S16384x1024 ![0, 1] bcast_S1x1024_S16384x1024_0_1 : (⟨S1x1024, .f32⟩ : BufTy).Contents (Elt F) → (⟨S16384x1024, .f32⟩ : BufTy).Contents (Elt F)) (R V main_v40) :=
  unary_at (x := main_v40) (y := main_v41) V ops_outs 124 rfl (by decide) (by decide) (by decide)

theorem eq_main_v42 (V : Valuation τ sig (Elt F)) :
    R V main_v42 = (Host.divf : (⟨S16384x1024, .f32⟩ : BufTy).Contents (Elt F) → (⟨S16384x1024, .f32⟩ : BufTy).Contents (Elt F) → (⟨S16384x1024, .f32⟩ : BufTy).Contents (Elt F)) (R V main_v36) (R V main_v41) :=
  binary_at (a := main_v36) (b := main_v41) (y := main_v42) V ops_outs 125 rfl (by decide) (by decide) (by decide) (by decide) (by decide)

theorem eq_main_v43 (V : Valuation τ sig (Elt F)) :
    R V main_v43 = (broadcastInDim S1x1024 ![1] bcast_S1024_S1x1024_1 : (⟨S1024, .f32⟩ : BufTy).Contents (Elt F) → (⟨S1x1024, .f32⟩ : BufTy).Contents (Elt F)) (R V main_arg5) :=
  unary_at (x := main_arg5) (y := main_v43) V ops_outs 126 rfl (by decide) (by decide) (by decide)

theorem eq_main_v44 (V : Valuation τ sig (Elt F)) :
    R V main_v44 = (broadcastInDim S16384x1024 ![0, 1] bcast_S1x1024_S16384x1024_0_1 : (⟨S1x1024, .f32⟩ : BufTy).Contents (Elt F) → (⟨S16384x1024, .f32⟩ : BufTy).Contents (Elt F)) (R V main_v43) :=
  unary_at (x := main_v43) (y := main_v44) V ops_outs 127 rfl (by decide) (by decide) (by decide)

theorem eq_main_v45 (V : Valuation τ sig (Elt F)) :
    R V main_v45 = (mulf : (⟨S16384x1024, .f32⟩ : BufTy).Contents (Elt F) → (⟨S16384x1024, .f32⟩ : BufTy).Contents (Elt F) → (⟨S16384x1024, .f32⟩ : BufTy).Contents (Elt F)) (R V main_v42) (R V main_v44) :=
  binary_at (a := main_v42) (b := main_v44) (y := main_v45) V ops_outs 128 rfl (by decide) (by decide) (by decide) (by decide) (by decide)

theorem eq_main_v46 (V : Valuation τ sig (Elt F)) :
    R V main_v46 = (broadcastInDim S1x1024 ![1] bcast_S1024_S1x1024_1 : (⟨S1024, .f32⟩ : BufTy).Contents (Elt F) → (⟨S1x1024, .f32⟩ : BufTy).Contents (Elt F)) (R V main_arg6) :=
  unary_at (x := main_arg6) (y := main_v46) V ops_outs 129 rfl (by decide) (by decide) (by decide)

theorem eq_main_v47 (V : Valuation τ sig (Elt F)) :
    R V main_v47 = (broadcastInDim S16384x1024 ![0, 1] bcast_S1x1024_S16384x1024_0_1 : (⟨S1x1024, .f32⟩ : BufTy).Contents (Elt F) → (⟨S16384x1024, .f32⟩ : BufTy).Contents (Elt F)) (R V main_v46) :=
  unary_at (x := main_v46) (y := main_v47) V ops_outs 130 rfl (by decide) (by decide) (by decide)

theorem eq_main_v48 (V : Valuation τ sig (Elt F)) :
    R V main_v48 = (addf : (⟨S16384x1024, .f32⟩ : BufTy).Contents (Elt F) → (⟨S16384x1024, .f32⟩ : BufTy).Contents (Elt F) → (⟨S16384x1024, .f32⟩ : BufTy).Contents (Elt F)) (R V main_v45) (R V main_v47) :=
  binary_at (a := main_v45) (b := main_v47) (y := main_v48) V ops_outs 131 rfl (by decide) (by decide) (by decide) (by decide) (by decide)

theorem eq_main_v49 (V : Valuation τ sig (Elt F)) :
    R V main_v49 = ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)) (R V main_v48) (R V main_arg7) :=
  binary_at (a := main_v48) (b := main_arg7) (y := main_v49) V ops_outs 132 rfl (by decide) (by decide) (by decide) (by decide) (by decide)

theorem eq_main_v50 (V : Valuation τ sig (Elt F)) :
    R V main_v50 = (broadcastInDim S1x1024 ![1] bcast_S1024_S1x1024_1 : (⟨S1024, .f32⟩ : BufTy).Contents (Elt F) → (⟨S1x1024, .f32⟩ : BufTy).Contents (Elt F)) (R V main_arg8) :=
  unary_at (x := main_arg8) (y := main_v50) V ops_outs 133 rfl (by decide) (by decide) (by decide)

theorem eq_main_v51 (V : Valuation τ sig (Elt F)) :
    R V main_v51 = (broadcastInDim S16384x1024 ![0, 1] bcast_S1x1024_S16384x1024_0_1 : (⟨S1x1024, .f32⟩ : BufTy).Contents (Elt F) → (⟨S16384x1024, .f32⟩ : BufTy).Contents (Elt F)) (R V main_v50) :=
  unary_at (x := main_v50) (y := main_v51) V ops_outs 134 rfl (by decide) (by decide) (by decide)

theorem eq_main_v52 (V : Valuation τ sig (Elt F)) :
    R V main_v52 = (addf : (⟨S16384x1024, .f32⟩ : BufTy).Contents (Elt F) → (⟨S16384x1024, .f32⟩ : BufTy).Contents (Elt F) → (⟨S16384x1024, .f32⟩ : BufTy).Contents (Elt F)) (R V main_v49) (R V main_v51) :=
  binary_at (a := main_v49) (b := main_v51) (y := main_v52) V ops_outs 135 rfl (by decide) (by decide) (by decide) (by decide) (by decide)

theorem eq_main_call6_cst (V : Valuation τ sig (Elt F)) :
    R V main_call6_cst = (constant S_ .f32 0x00000000#32) :=
  nullary_at (y := main_call6_cst) V ops_outs 136 rfl (by decide)

theorem eq_main_call6_v0 (V : Valuation τ sig (Elt F)) :
    R V main_call6_v0 = (broadcastInDim S16384x1024 ![] bcast_S_S16384x1024) (R V main_call6_cst) :=
  unary_at (x := main_call6_cst) (y := main_call6_v0) V ops_outs 137 rfl (by decide) (by decide) (by decide)

theorem eq_main_v53 (V : Valuation τ sig (Elt F)) :
    R V main_v53 = maximumf (R V main_v52) (R V main_call6_v0) :=
  binary_at (a := main_v52) (b := main_call6_v0) (y := main_v53) V ops_outs 138 rfl (by decide) (by decide) (by decide) (by decide) (by decide)

theorem eq_main_cst_10 (V : Valuation τ sig (Elt F)) :
    R V main_cst_10 = (constant S_ .f32 0x00000000#32) :=
  nullary_at (y := main_cst_10) V ops_outs 139 rfl (by decide)

theorem eq_main_v54 (V : Valuation τ sig (Elt F)) :
    R V main_v54 = ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)) (R V main_v53) (R V main_cst_10) :=
  binary_at (a := main_v53) (b := main_cst_10) (y := main_v54) V ops_outs 140 rfl (by decide) (by decide) (by decide) (by decide) (by decide)

theorem eq_main_cst_11 (V : Valuation τ sig (Elt F)) :
    R V main_cst_11 = (constant S_ .f32 0x46800000#32) :=
  nullary_at (y := main_cst_11) V ops_outs 141 rfl (by decide)

theorem eq_main_v55 (V : Valuation τ sig (Elt F)) :
    R V main_v55 = (broadcastInDim S1024 ![] bcast_S_S1024 : (⟨S_, .f32⟩ : BufTy).Contents (Elt F) → (⟨S1024, .f32⟩ : BufTy).Contents (Elt F)) (R V main_cst_11) :=
  unary_at (x := main_cst_11) (y := main_v55) V ops_outs 142 rfl (by decide) (by decide) (by decide)

theorem eq_main_v56 (V : Valuation τ sig (Elt F)) :
    R V main_v56 = (Host.divf : (⟨S1024, .f32⟩ : BufTy).Contents (Elt F) → (⟨S1024, .f32⟩ : BufTy).Contents (Elt F) → (⟨S1024, .f32⟩ : BufTy).Contents (Elt F)) (R V main_v54) (R V main_v55) :=
  binary_at (a := main_v54) (b := main_v55) (y := main_v56) V ops_outs 143 rfl (by decide) (by decide) (by decide) (by decide) (by decide)

theorem eq_main_c_12 (V : Valuation τ sig (Elt F)) :
    R V main_c_12 = (constantI S_ 32 0#32) :=
  nullary_at (y := main_c_12) V ops_outs 144 rfl (by decide)

theorem eq_main_call7_cst (V : Valuation τ sig (Elt F)) :
    R V main_call7_cst = (constant S_ .f32 0x00000000#32) :=
  nullary_at (y := main_call7_cst) V ops_outs 145 rfl (by decide)

theorem eq_main_call7_v0 (V : Valuation τ sig (Elt F)) :
    R V main_call7_v0 = (fun x v => Host.reduceAdd x v reducesTo_S16384x1024_S1024_d0 h_S_) (R V main_v53) (R V main_call7_cst) :=
  binary_at (a := main_v53) (b := main_call7_cst) (y := main_call7_v0) V ops_outs 146 rfl (by decide) (by decide) (by decide) (by decide) (by decide)

theorem eq_main_call7_v1 (V : Valuation τ sig (Elt F)) :
    R V main_call7_v1 = (broadcastInDim S1x1024 ![1] bcast_S1024_S1x1024_1) (R V main_call7_v0) :=
  unary_at (x := main_call7_v0) (y := main_call7_v1) V ops_outs 147 rfl (by decide) (by decide) (by decide)

theorem eq_main_call7_cst_0 (V : Valuation τ sig (Elt F)) :
    R V main_call7_cst_0 = (constant S_ .f32 0x46800000#32) :=
  nullary_at (y := main_call7_cst_0) V ops_outs 148 rfl (by decide)

theorem eq_main_call7_v2 (V : Valuation τ sig (Elt F)) :
    R V main_call7_v2 = (broadcastInDim S1x1024 ![] bcast_S_S1x1024) (R V main_call7_cst_0) :=
  unary_at (x := main_call7_cst_0) (y := main_call7_v2) V ops_outs 149 rfl (by decide) (by decide) (by decide)

theorem eq_main_call7_v3 (V : Valuation τ sig (Elt F)) :
    R V main_call7_v3 = Host.divf (R V main_call7_v1) (R V main_call7_v2) :=
  binary_at (a := main_call7_v1) (b := main_call7_v2) (y := main_call7_v3) V ops_outs 150 rfl (by decide) (by decide) (by decide) (by decide) (by decide)

theorem eq_main_call7_v4 (V : Valuation τ sig (Elt F)) :
    R V main_call7_v4 = (broadcastInDim S16384x1024 ![0, 1] bcast_S1x1024_S16384x1024_0_1) (R V main_call7_v3) :=
  unary_at (x := main_call7_v3) (y := main_call7_v4) V ops_outs 151 rfl (by decide) (by decide) (by decide)

theorem eq_main_call7_v5 (V : Valuation τ sig (Elt F)) :
    R V main_call7_v5 = subf (R V main_v53) (R V main_call7_v4) :=
  binary_at (a := main_v53) (b := main_call7_v4) (y := main_call7_v5) V ops_outs 152 rfl (by decide) (by decide) (by decide) (by decide) (by decide)

end Cert.RefSide

end
-- ==== Proof.RefEqs3.lean ====
/-
  A table: for operations 153 … 202 of the line, the operation's defining equation on the contents the buffers hold
  once the whole line has run (every buffer is written once and never after it has been read).
-/
import proofs.«209176_g73847667688168_cont_9to1_m_420_10_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo
open Cert.HostFold

variable {F : FTy → Type} [FloatOps F]

attribute [local irreducible] Host.reduce Host.gather Host.reduceAdd concatenate broadcastInDim shapeCast
set_option maxRecDepth 100000

theorem eq_main_call7_v6 (V : Valuation τ sig (Elt F)) :
    R V main_call7_v6 = mulf (R V main_call7_v5) (R V main_call7_v5) :=
  binary_at (a := main_call7_v5) (b := main_call7_v5) (y := main_call7_v6) V ops_outs 153 rfl (by decide) (by decide) (by decide) (by decide) (by decide)

theorem eq_main_call7_v7 (V : Valuation τ sig (Elt F)) :
    R V main_call7_v7 = (sitofp .f32) (R V main_c_12) :=
  unary_at (x := main_c_12) (y := main_call7_v7) V ops_outs 154 rfl (by decide) (by decide) (by decide)

theorem eq_main_call7_cst_1 (V : Valuation τ sig (Elt F)) :
    R V main_call7_cst_1 = (constant S_ .f32 0x46800000#32) :=
  nullary_at (y := main_call7_cst_1) V ops_outs 155 rfl (by decide)

theorem eq_main_call7_v8 (V : Valuation τ sig (Elt F)) :
    R V main_call7_v8 = subf (R V main_call7_cst_1) (R V main_call7_v7) :=
  binary_at (a := main_call7_cst_1) (b := main_call7_v7) (y := main_call7_v8) V ops_outs 156 rfl (by decide) (by decide) (by decide) (by decide) (by decide)

theorem eq_main_call7_cst_2 (V : Valuation τ sig (Elt F)) :
    R V main_call7_cst_2 = (constant S_ .f32 0x00000000#32) :=
  nullary_at (y := main_call7_cst_2) V ops_outs 157 rfl (by decide)

theorem eq_main_call7_v9 (V : Valuation τ sig (Elt F)) :
    R V main_call7_v9 = (fun x v => Host.reduceAdd x v reducesTo_S16384x1024_S1024_d0 h_S_) (R V main_call7_v6) (R V main_call7_cst_2) :=
  binary_at (a := main_call7_v6) (b := main_call7_cst_2) (y := main_call7_v9) V ops_outs 158 rfl (by decide) (by decide) (by decide) (by decide) (by decide)

theorem eq_main_call7_v10 (V : Valuation τ sig (Elt F)) :
    R V main_call7_v10 = (broadcastInDim S1024 ![] bcast_S_S1024) (R V main_call7_v8) :=
  unary_at (x := main_call7_v8) (y := main_call7_v10) V ops_outs 159 rfl (by decide) (by decide) (by decide)

theorem eq_main_call7_v11 (V : Valuation τ sig (Elt F)) :
    R V main_call7_v11 = Host.divf (R V main_call7_v9) (R V main_call7_v10) :=
  binary_at (a := main_call7_v9) (b := main_call7_v10) (y := main_call7_v11) V ops_outs 160 rfl (by decide) (by decide) (by decide) (by decide) (by decide)

theorem eq_main_call7_cst_3 (V : Valuation τ sig (Elt F)) :
    R V main_call7_cst_3 = (constant S_ .f32 0x00000000#32) :=
  nullary_at (y := main_call7_cst_3) V ops_outs 161 rfl (by decide)

theorem eq_main_call7_v12 (V : Valuation τ sig (Elt F)) :
    R V main_call7_v12 = (cmpf (F := F) .ogt) (R V main_call7_v8) (R V main_call7_cst_3) :=
  binary_at (a := main_call7_v8) (b := main_call7_cst_3) (y := main_call7_v12) V ops_outs 162 rfl (by decide) (by decide) (by decide) (by decide) (by decide)

theorem eq_main_call7_cst_4 (V : Valuation τ sig (Elt F)) :
    R V main_call7_cst_4 = (constant S_ .f32 0x7FC00000#32) :=
  nullary_at (y := main_call7_cst_4) V ops_outs 163 rfl (by decide)

theorem eq_main_call7_call0_v0 (V : Valuation τ sig (Elt F)) :
    R V main_call7_call0_v0 = id (R V main_call7_cst_4) :=
  unary_at (x := main_call7_cst_4) (y := main_call7_call0_v0) V ops_outs 164 rfl (by decide) (by decide) (by decide)

theorem eq_main_call7_call0_v1 (V : Valuation τ sig (Elt F)) :
    R V main_call7_call0_v1 = (broadcastInDim S1024 ![] bcast_S_S1024) (R V main_call7_call0_v0) :=
  unary_at (x := main_call7_call0_v0) (y := main_call7_call0_v1) V ops_outs 165 rfl (by decide) (by decide) (by decide)

theorem eq_main_v57 (V : Valuation τ sig (Elt F)) :
    R V main_v57 = (fun p a b => select (broadcastInDim S1024 ![] bcast_S_S1024 p) a b) (R V main_call7_v12) (R V main_call7_v11) (R V main_call7_call0_v1) :=
  ternary_at (c := main_call7_v12) (a := main_call7_v11) (b := main_call7_call0_v1) (y := main_v57) V ops_outs 166 rfl (by decide) (by decide) (by decide) (by decide) (by decide) (by decide) (by decide)

theorem eq_main_v58 (V : Valuation τ sig (Elt F)) :
    R V main_v58 = (broadcastInDim S1x1024 ![1] bcast_S1024_S1x1024_1 : (⟨S1024, .f32⟩ : BufTy).Contents (Elt F) → (⟨S1x1024, .f32⟩ : BufTy).Contents (Elt F)) (R V main_v56) :=
  unary_at (x := main_v56) (y := main_v58) V ops_outs 167 rfl (by decide) (by decide) (by decide)

theorem eq_main_v59 (V : Valuation τ sig (Elt F)) :
    R V main_v59 = (broadcastInDim S16384x1024 ![0, 1] bcast_S1x1024_S16384x1024_0_1 : (⟨S1x1024, .f32⟩ : BufTy).Contents (Elt F) → (⟨S16384x1024, .f32⟩ : BufTy).Contents (Elt F)) (R V main_v58) :=
  unary_at (x := main_v58) (y := main_v59) V ops_outs 168 rfl (by decide) (by decide) (by decide)

theorem eq_main_v60 (V : Valuation τ sig (Elt F)) :
    R V main_v60 = (subf : (⟨S16384x1024, .f32⟩ : BufTy).Contents (Elt F) → (⟨S16384x1024, .f32⟩ : BufTy).Contents (Elt F) → (⟨S16384x1024, .f32⟩ : BufTy).Contents (Elt F)) (R V main_v53) (R V main_v59) :=
  binary_at (a := main_v53) (b := main_v59) (y := main_v60) V ops_outs 169 rfl (by decide) (by decide) (by decide) (by decide) (by decide)

theorem eq_main_cst_13 (V : Valuation τ sig (Elt F)) :
    R V main_cst_13 = (constant S_ .f32 0x3727C5AC#32) :=
  nullary_at (y := main_cst_13) V ops_outs 170 rfl (by decide)

theorem eq_main_v61 (V : Valuation τ sig (Elt F)) :
    R V main_v61 = (broadcastInDim S1024 ![] bcast_S_S1024 : (⟨S_, .f32⟩ : BufTy).Contents (Elt F) → (⟨S1024, .f32⟩ : BufTy).Contents (Elt F)) (R V main_cst_13) :=
  unary_at (x := main_cst_13) (y := main_v61) V ops_outs 171 rfl (by decide) (by decide) (by decide)

theorem eq_main_v62 (V : Valuation τ sig (Elt F)) :
    R V main_v62 = (addf : (⟨S1024, .f32⟩ : BufTy).Contents (Elt F) → (⟨S1024, .f32⟩ : BufTy).Contents (Elt F) → (⟨S1024, .f32⟩ : BufTy).Contents (Elt F)) (R V main_v57) (R V main_v61) :=
  binary_at (a := main_v57) (b := main_v61) (y := main_v62) V ops_outs 172 rfl (by decide) (by decide) (by decide) (by decide) (by decide)

theorem eq_main_v63 (V : Valuation τ sig (Elt F)) :
    R V main_v63 = (Host.sqrt : (⟨S1024, .f32⟩ : BufTy).Contents (Elt F) → (⟨S1024, .f32⟩ : BufTy).Contents (Elt F)) (R V main_v62) :=
  unary_at (x := main_v62) (y := main_v63) V ops_outs 173 rfl (by decide) (by decide) (by decide)

theorem eq_main_v64 (V : Valuation τ sig (Elt F)) :
    R V main_v64 = (broadcastInDim S1x1024 ![1] bcast_S1024_S1x1024_1 : (⟨S1024, .f32⟩ : BufTy).Contents (Elt F) → (⟨S1x1024, .f32⟩ : BufTy).Contents (Elt F)) (R V main_v63) :=
  unary_at (x := main_v63) (y := main_v64) V ops_outs 174 rfl (by decide) (by decide) (by decide)

theorem eq_main_v65 (V : Valuation τ sig (Elt F)) :
    R V main_v65 = (broadcastInDim S16384x1024 ![0, 1] bcast_S1x1024_S16384x1024_0_1 : (⟨S1x1024, .f32⟩ : BufTy).Contents (Elt F) → (⟨S16384x1024, .f32⟩ : BufTy).Contents (Elt F)) (R V main_v64) :=
  unary_at (x := main_v64) (y := main_v65) V ops_outs 175 rfl (by decide) (by decide) (by decide)

theorem eq_main_v66 (V : Valuation τ sig (Elt F)) :
    R V main_v66 = (Host.divf : (⟨S16384x1024, .f32⟩ : BufTy).Contents (Elt F) → (⟨S16384x1024, .f32⟩ : BufTy).Contents (Elt F) → (⟨S16384x1024, .f32⟩ : BufTy).Contents (Elt F)) (R V main_v60) (R V main_v65) :=
  binary_at (a := main_v60) (b := main_v65) (y := main_v66) V ops_outs 176 rfl (by decide) (by decide) (by decide) (by decide) (by decide)

theorem eq_main_v67 (V : Valuation τ sig (Elt F)) :
    R V main_v67 = (broadcastInDim S1x1024 ![1] bcast_S1024_S1x1024_1 : (⟨S1024, .f32⟩ : BufTy).Contents (Elt F) → (⟨S1x1024, .f32⟩ : BufTy).Contents (Elt F)) (R V main_arg9) :=
  unary_at (x := main_arg9) (y := main_v67) V ops_outs 177 rfl (by decide) (by decide) (by decide)

theorem eq_main_v68 (V : Valuation τ sig (Elt F)) :
    R V main_v68 = (broadcastInDim S16384x1024 ![0, 1] bcast_S1x1024_S16384x1024_0_1 : (⟨S1x1024, .f32⟩ : BufTy).Contents (Elt F) → (⟨S16384x1024, .f32⟩ : BufTy).Contents (Elt F)) (R V main_v67) :=
  unary_at (x := main_v67) (y := main_v68) V ops_outs 178 rfl (by decide) (by decide) (by decide)

theorem eq_main_v69 (V : Valuation τ sig (Elt F)) :
    R V main_v69 = (mulf : (⟨S16384x1024, .f32⟩ : BufTy).Contents (Elt F) → (⟨S16384x1024, .f32⟩ : BufTy).Contents (Elt F) → (⟨S16384x1024, .f32⟩ : BufTy).Contents (Elt F)) (R V main_v66) (R V main_v68) :=
  binary_at (a := main_v66) (b := main_v68) (y := main_v69) V ops_outs 179 rfl (by decide) (by decide) (by decide) (by decide) (by decide)

theorem eq_main_v70 (V : Valuation τ sig (Elt F)) :
    R V main_v70 = (broadcastInDim S1x1024 ![1] bcast_S1024_S1x1024_1 : (⟨S1024, .f32⟩ : BufTy).Contents (Elt F) → (⟨S1x1024, .f32⟩ : BufTy).Contents (Elt F)) (R V main_arg10) :=
  unary_at (x := main_arg10) (y := main_v70) V ops_outs 180 rfl (by decide) (by decide) (by decide)

theorem eq_main_v71 (V : Valuation τ sig (Elt F)) :
    R V main_v71 = (broadcastInDim S16384x1024 ![0, 1] bcast_S1x1024_S16384x1024_0_1 : (⟨S1x1024, .f32⟩ : BufTy).Contents (Elt F) → (⟨S16384x1024, .f32⟩ : BufTy).Contents (Elt F)) (R V main_v70) :=
  unary_at (x := main_v70) (y := main_v71) V ops_outs 181 rfl (by decide) (by decide) (by decide)

theorem eq_main_v72 (V : Valuation τ sig (Elt F)) :
    R V main_v72 = (addf : (⟨S16384x1024, .f32⟩ : BufTy).Contents (Elt F) → (⟨S16384x1024, .f32⟩ : BufTy).Contents (Elt F) → (⟨S16384x1024, .f32⟩ : BufTy).Contents (Elt F)) (R V main_v69) (R V main_v71) :=
  binary_at (a := main_v69) (b := main_v71) (y := main_v72) V ops_outs 182 rfl (by decide) (by decide) (by decide) (by decide) (by decide)

theorem eq_main_v73 (V : Valuation τ sig (Elt F)) :
    R V main_v73 = ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)) (R V main_v72) (R V main_arg11) :=
  binary_at (a := main_v72) (b := main_arg11) (y := main_v73) V ops_outs 183 rfl (by decide) (by decide) (by decide) (by decide) (by decide)

theorem eq_main_v74 (V : Valuation τ sig (Elt F)) :
    R V main_v74 = (broadcastInDim S1x1024 ![1] bcast_S1024_S1x1024_1 : (⟨S1024, .f32⟩ : BufTy).Contents (Elt F) → (⟨S1x1024, .f32⟩ : BufTy).Contents (Elt F)) (R V main_arg12) :=
  unary_at (x := main_arg12) (y := main_v74) V ops_outs 184 rfl (by decide) (by decide) (by decide)

theorem eq_main_v75 (V : Valuation τ sig (Elt F)) :
    R V main_v75 = (broadcastInDim S16384x1024 ![0, 1] bcast_S1x1024_S16384x1024_0_1 : (⟨S1x1024, .f32⟩ : BufTy).Contents (Elt F) → (⟨S16384x1024, .f32⟩ : BufTy).Contents (Elt F)) (R V main_v74) :=
  unary_at (x := main_v74) (y := main_v75) V ops_outs 185 rfl (by decide) (by decide) (by decide)

theorem eq_main_v76 (V : Valuation τ sig (Elt F)) :
    R V main_v76 = (addf : (⟨S16384x1024, .f32⟩ : BufTy).Contents (Elt F) → (⟨S16384x1024, .f32⟩ : BufTy).Contents (Elt F) → (⟨S16384x1024, .f32⟩ : BufTy).Contents (Elt F)) (R V main_v73) (R V main_v75) :=
  binary_at (a := main_v73) (b := main_v75) (y := main_v76) V ops_outs 186 rfl (by decide) (by decide) (by decide) (by decide) (by decide)

theorem eq_main_call8_cst (V : Valuation τ sig (Elt F)) :
    R V main_call8_cst = (constant S_ .f32 0x00000000#32) :=
  nullary_at (y := main_call8_cst) V ops_outs 187 rfl (by decide)

theorem eq_main_call8_v0 (V : Valuation τ sig (Elt F)) :
    R V main_call8_v0 = (broadcastInDim S16384x1024 ![] bcast_S_S16384x1024) (R V main_call8_cst) :=
  unary_at (x := main_call8_cst) (y := main_call8_v0) V ops_outs 188 rfl (by decide) (by decide) (by decide)

theorem eq_main_v77 (V : Valuation τ sig (Elt F)) :
    R V main_v77 = maximumf (R V main_v76) (R V main_call8_v0) :=
  binary_at (a := main_v76) (b := main_call8_v0) (y := main_v77) V ops_outs 189 rfl (by decide) (by decide) (by decide) (by decide) (by decide)

theorem eq_main_v78 (V : Valuation τ sig (Elt F)) :
    R V main_v78 = ((fun l r => Host.dotGeneral dot_S16384x1024_S1024x1_S16384x1_1_0_0_1_n_n none l r) : (⟨S16384x1024, .f32⟩ : BufTy).Contents (Elt F) → (⟨S1024x1, .f32⟩ : BufTy).Contents (Elt F) → (⟨S16384x1, .f32⟩ : BufTy).Contents (Elt F)) (R V main_v77) (R V main_arg13) :=
  binary_at (a := main_v77) (b := main_arg13) (y := main_v78) V ops_outs 190 rfl (by decide) (by decide) (by decide) (by decide) (by decide)

theorem eq_main_v79 (V : Valuation τ sig (Elt F)) :
    R V main_v79 = (broadcastInDim S1x1 ![1] bcast_S1_S1x1_1 : (⟨S1, .f32⟩ : BufTy).Contents (Elt F) → (⟨S1x1, .f32⟩ : BufTy).Contents (Elt F)) (R V main_arg14) :=
  unary_at (x := main_arg14) (y := main_v79) V ops_outs 191 rfl (by decide) (by decide) (by decide)

theorem eq_main_v80 (V : Valuation τ sig (Elt F)) :
    R V main_v80 = (broadcastInDim S16384x1 ![0, 1] bcast_S1x1_S16384x1_0_1 : (⟨S1x1, .f32⟩ : BufTy).Contents (Elt F) → (⟨S16384x1, .f32⟩ : BufTy).Contents (Elt F)) (R V main_v79) :=
  unary_at (x := main_v79) (y := main_v80) V ops_outs 192 rfl (by decide) (by decide) (by decide)

theorem eq_main_v81 (V : Valuation τ sig (Elt F)) :
    R V main_v81 = (addf : (⟨S16384x1, .f32⟩ : BufTy).Contents (Elt F) → (⟨S16384x1, .f32⟩ : BufTy).Contents (Elt F) → (⟨S16384x1, .f32⟩ : BufTy).Contents (Elt F)) (R V main_v78) (R V main_v80) :=
  binary_at (a := main_v78) (b := main_v80) (y := main_v81) V ops_outs 193 rfl (by decide) (by decide) (by decide) (by decide) (by decide)

theorem eq_main_v82 (V : Valuation τ sig (Elt F)) :
    R V main_v82 = shapeCast S16384 (R V main_v81) shapeCasts_S16384x1_S16384 :=
  reshape_at (x := main_v81) (y := main_v82) V ops_outs 194 rfl (by decide) (by decide) (by decide)

theorem eq_main_v83 (V : Valuation τ sig (Elt F)) :
    R V main_v83 = (Host.negf : (⟨S16384, .f32⟩ : BufTy).Contents (Elt F) → (⟨S16384, .f32⟩ : BufTy).Contents (Elt F)) (R V main_v82) :=
  unary_at (x := main_v82) (y := main_v83) V ops_outs 195 rfl (by decide) (by decide) (by decide)

theorem eq_main_v84 (V : Valuation τ sig (Elt F)) :
    R V main_v84 = (Host.exp : (⟨S16384, .f32⟩ : BufTy).Contents (Elt F) → (⟨S16384, .f32⟩ : BufTy).Contents (Elt F)) (R V main_v83) :=
  unary_at (x := main_v83) (y := main_v84) V ops_outs 196 rfl (by decide) (by decide) (by decide)

theorem eq_main_cst_14 (V : Valuation τ sig (Elt F)) :
    R V main_cst_14 = (constant S_ .f32 0x3F800000#32) :=
  nullary_at (y := main_cst_14) V ops_outs 197 rfl (by decide)

theorem eq_main_v85 (V : Valuation τ sig (Elt F)) :
    R V main_v85 = (broadcastInDim S16384 ![] bcast_S_S16384 : (⟨S_, .f32⟩ : BufTy).Contents (Elt F) → (⟨S16384, .f32⟩ : BufTy).Contents (Elt F)) (R V main_cst_14) :=
  unary_at (x := main_cst_14) (y := main_v85) V ops_outs 198 rfl (by decide) (by decide) (by decide)

theorem eq_main_v86 (V : Valuation τ sig (Elt F)) :
    R V main_v86 = (addf : (⟨S16384, .f32⟩ : BufTy).Contents (Elt F) → (⟨S16384, .f32⟩ : BufTy).Contents (Elt F) → (⟨S16384, .f32⟩ : BufTy).Contents (Elt F)) (R V main_v85) (R V main_v84) :=
  binary_at (a := main_v85) (b := main_v84) (y := main_v86) V ops_outs 199 rfl (by decide) (by decide) (by decide) (by decide) (by decide)

theorem eq_main_cst_15 (V : Valuation τ sig (Elt F)) :
    R V main_cst_15 = (constant S_ .f32 0x3F800000#32) :=
  nullary_at (y := main_cst_15) V ops_outs 200 rfl (by decide)

theorem eq_main_v87 (V : Valuation τ sig (Elt F)) :
    R V main_v87 = (broadcastInDim S16384 ![] bcast_S_S16384 : (⟨S_, .f32⟩ : BufTy).Contents (Elt F) → (⟨S16384, .f32⟩ : BufTy).Contents (Elt F)) (R V main_cst_15) :=
  unary_at (x := main_cst_15) (y := main_v87) V ops_outs 201 rfl (by decide) (by decide) (by decide)

theorem eq_main_v88 (V : Valuation τ sig (Elt F)) :
    R V main_v88 = (Host.divf : (⟨S16384, .f32⟩ : BufTy).Contents (Elt F) → (⟨S16384, .f32⟩ : BufTy).Contents (Elt F) → (⟨S16384, .f32⟩ : BufTy).Contents (Elt F)) (R V main_v87) (R V main_v86) :=
  binary_at (a := main_v87) (b := main_v86) (y := main_v88) V ops_outs 202 rfl (by decide) (by decide) (by decide) (by decide) (by decide)

end Cert.RefSide

end
-- ==== Proof.LibRowOps.lean ====
/-
  Rows moved by index. Two StableHLO operations read at one element:

  * the gather that takes whole rows of a two-dimensional array, `x[idx]` for `x : [N, W]` and `idx : [E]` (carried as
    `[E, 1]`): element `(e, c)` of the result is `x` at row `idx[e]`, read as a signed integer and clamped into
    `[0, N − 1]`, column `c`;
  * the scatter with an `add` body that accumulates whole rows, `segment_sum(upd, idx, N)` for `upd : [E, W]`: element
    `(r, c)` of the result is the operand's plus the sum of `upd[e, c]` over the `e` whose index `idx[e]`, read as a
    signed integer and NOT clamped, is exactly `r` (an index outside `[0, N − 1]` lands nowhere); and the same for a
    flat operand `[N]` and updates `[E]`.

  Every statement is over abstract extents `N`, `E`, `W`; nothing here enumerates an index set.
-/
import Idealize.ShloMosaic.PureOps.Ideal
import Idealize.ShloMosaic.Lib.ValueIdx

noncomputable section

open scoped BigOperators

namespace Cert.RowOps

open Idealize.ShloMosaic Idealize.ShloMosaic.ValueIdx

/-! ## The row an index word names -/

/-- The row a gather reads for the start index `w`: `w` as a signed integer, clamped into `[0, N − 1]`. -/
def gatherRow (N : Nat) (hN : 0 < N) (w : BitVec 32) : Fin N := ⟨min w.toInt.toNat (N - 1), by omega⟩

/-- The row a scatter writes for the scatter index `w`: `w` as a signed integer when that is a row of the operand,
    none otherwise (the update is dropped; no clamping). -/
def scatterRow (N : Nat) (w : BitVec 32) : Option (Fin N) :=
  if h : 0 ≤ w.toInt ∧ w.toInt < (N : Int) then some ⟨w.toInt.toNat, by omega⟩ else none

/-- `scatterRow` names row `r` exactly when the index, read signed, is `r`. -/
theorem scatterRow_eq_some_iff {N : Nat} (w : BitVec 32) (r : Fin N) :
    scatterRow N w = some r ↔ w.toInt = (r.val : Int) := by
  unfold scatterRow
  constructor
  · intro h
    split at h
    · rename_i hw
      have := congrArg Fin.val (Option.some.inj h)
      simp only at this
      omega
    · exact absurd h (by simp)
  · intro h
    have hr := r.isLt
    rw [dif_pos (by omega)]
    exact congrArg some (Fin.ext (by simp only; omega))

/-! ## The gather of rows -/

section Gather
variable {α : Type}

/-- The dimension numbers of a gather of rows: operand `[N, W]`, start indices `[E, 1]`, result `[E, W]`; the result's
    axis 1 is the offset axis, operand axis 0 is collapsed and is the one the start index names, slices are `1 × W`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row coordinate of the operand index that result index `(e, c)` reads: the clamped start index. -/
theorem rowGather_operandIdx_zero {N E W : Nat} (hN : 0 < N)
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 0 = gatherRow N hN (idx (ix2 e 0)) := by
  refine Fin.ext ?_
  show (rowGatherDims N E W wf).start (ix2 e c) idx 0 + (rowGatherDims N E W wf).batchCoord (ix2 e c) 0
    + (rowGatherDims N E W wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E W wf).startIndexMap from List.mem_singleton.mpr rfl)]
  have hsi : (rowGatherDims N E W wf).siIdx (ix2 e c) ⟨List.idxOf (0 : Fin 2) (rowGatherDims N E W wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column coordinate of the operand index that result index `(e, c)` reads: `c` itself. -/
theorem rowGather_operandIdx_one {N E W : Nat}
    (wf : GatherDims.WF ⟨2, ![N, W]⟩ ⟨2, ![E, 1]⟩ ⟨2, ![E, W]⟩ [1] [0] [] [0] [] 1 ![1, W])
    (idx : IVec ⟨2, ![E, 1]⟩ 32) (e : Fin E) (c : Fin W) :
    (rowGatherDims N E W wf).operandIdx (ix2 e c) idx 1 = c := by
  refine Fin.ext ?_
  show (rowGatherDims N E W wf).start (ix2 e c) idx 1 + (rowGatherDims N E W wf).batchCoord (ix2 e c) 1
    + (rowGatherDims N E W wf).offCoord (ix2 e c) 1 = _
  rw [GatherDims.batchCoord_eq_zero _ _ _ List.not_mem_nil]
  have hst : (rowGatherDims N E W wf).start (ix2 e c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows at `(e, c)`, for the literal dimension numbers `rowGatherDims`. -/
theorem gather_rowDims_apply {N E W : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ 32) (e : Fin E) (c : Fin W) :
    Host.gather (rowGatherDims N E W wf) x idx (ix2 e c) = x (ix2 (gatherRow N hN (idx (ix2 e 0))) c) := by
  unfold Host.gather
  refine congrArg x ((eq_ix2 _).trans ?_)
  rw [rowGather_operandIdx_zero hN wf idx e c, rowGather_operandIdx_one wf idx e c]
  rfl

/-- THE GATHER OF ROWS READ AT `(e, c)`: for any dimension numbers `d` whose fields are those of a gather of rows
    (each hypothesis is `rfl` at a program's record), the result at `(e, c)` is the operand at row
    `gatherRow N _ (idx[e])` — the start index read signed and clamped into `[0, N − 1]` — and column `c`. -/
theorem gather_rows_apply {N E W : Nat} (hN : 0 < N)
    (d : GatherDims ⟨2, ![N, W]⟩ ⟨2, ![E, 1]⟩ ⟨2, ![E, W]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, W])
    (x : (⟨2, ![N, W]⟩ : Shape).Idx → α) (idx : IVec ⟨2, ![E, 1]⟩ 32) (e : Fin E) (c : Fin W) :
    Host.gather d x idx (ix2 e c) = x (ix2 (gatherRow N hN (idx (ix2 e 0))) c) := by
  obtain ⟨od, cd, ob, sb, sm, iv, ss, wf⟩ := d
  simp only at hod hcd hob hsb hsm hiv hss
  subst hod hcd hob hsb hsm hiv hss
  exact gather_rowDims_apply hN wf x idx e c

end Gather

/-! ## The scatter-add of rows -/

section Scatter

/-- An axis of the operand is kept by a scatter exactly when it is not an inserted window axis. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The dimension numbers of a scatter of rows: operand `[N, W]`, scatter indices `[E, 1]`, updates `[E, W]`; the
    updates' axis 1 is the window axis, operand axis 0 is inserted and is the one the scatter index names. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W : Nat} (wf : ScatterDims.WF ⟨2, ![N, W]⟩ ⟨2, ![E, 1]⟩ ⟨2, ![E, W]⟩ [1] [0] [0] 1)
  (idx : IVec ⟨2, ![E, 1]⟩ 32) (j : (⟨2, ![E, W]⟩ : Shape).Idx)

/-- On the row axis the window of update `j` starts at its scatter index `idx[j₀]` read signed, and has no extent. -/
theorem rowScatter_pos_zero :
    (rowScatterDims N E W wf).start j idx 0 + ((rowScatterDims N E W wf).window j 0 : Int)
      = (idx (ix2 (j 0) 0)).toInt := by
  have hw : (rowScatterDims N E W wf).window j 0 = 0 := by
    unfold ScatterDims.window
    rw [dif_neg (fun h => ((mem_scatter_sKept _ _).mp h) (List.mem_singleton.mpr rfl))]
  have hs : (rowScatterDims N E W wf).start j idx 0 = (idx (ix2 (j 0) 0)).toInt := by
    unfold ScatterDims.start
    rw [dif_pos (show (0 : Fin 2) ∈ (rowScatterDims N E W wf).scatterDimsToOperandDims from List.mem_singleton.mpr rfl)]
    have hsi : (rowScatterDims N E W wf).siIdx j ⟨List.idxOf (0 : Fin 2) (rowScatterDims N E W wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- On the column axis the window of update `j` starts at `0` and the update sits at its own column `j₁`. -/
theorem rowScatter_pos_one :
    (rowScatterDims N E W wf).start j idx 1 + ((rowScatterDims N E W wf).window j 1 : Int) = ((j 1).val : Int) := by
  have hs : (rowScatterDims N E W wf).start j idx 1 = 0 := by
    unfold ScatterDims.start
    rw [dif_neg (show (1 : Fin 2) ∉ ([0] : List (Fin 2)) by decide)]
  have hw : (rowScatterDims N E W wf).window j 1 = (j 1).val := by
    unfold ScatterDims.window
    rw [dif_pos ((mem_scatter_sKept _ _).mpr (show (1 : Fin 2) ∉ ([0] : List (Fin 2)) by decide))]
    rfl
  rw [hw, hs]; simp

/-- WHERE AN UPDATE LANDS: update `j = (e, c')` lands on element `(r, c)` exactly when its scatter index names row `r`
    and `c' = c`. -/
theorem rowScatter_resultIdx?_eq_some_iff (r : Fin N) (c : Fin W) :
    (rowScatterDims N E W wf).resultIdx? j idx = some (ix2 r c)
      ↔ scatterRow N (idx (ix2 (j 0) 0)) = some r ∧ j 1 = c := by
  rw [scatterRow_eq_some_iff]
  have h0 := rowScatter_pos_zero wf idx j
  have h1 := rowScatter_pos_one wf idx j
  have hr := r.isLt
  have hj1 : (j 1).val < W := (j 1).isLt
  unfold ScatterDims.resultIdx?
  constructor
  · intro h
    split at h
    · rename_i hall
      have h' := Option.some.inj h
      have e0 := congrArg (fun f : (⟨2, ![N, W]⟩ : Shape).Idx => (f 0).val) h'
      have e1 := congrArg (fun f : (⟨2, ![N, W]⟩ : Shape).Idx => (f 1).val) h'
      have a0 := (hall 0).1
      simp only at e0 e1
      rw [h0] at e0 a0
      rw [h1] at e1
      refine ⟨?_, Fin.ext ?_⟩
      · have : ((ix2 r c : (⟨2, ![N, W]⟩ : Shape).Idx) 0).val = r.val := rfl
        omega
      · have : ((ix2 r c : (⟨2, ![N, W]⟩ : Shape).Idx) 1).val = c.val := rfl
        omega
    · exact absurd h (by simp)
  · rintro ⟨hz, hc⟩
    have hall : ∀ a : Fin (⟨2, ![N, W]⟩ : Shape).rank,
        0 ≤ (rowScatterDims N E W wf).start j idx a + ((rowScatterDims N E W wf).window j a : Int) ∧
        (rowScatterDims N E W wf).start j idx a + ((rowScatterDims N E W wf).window j a : Int)
          < ((⟨2, ![N, W]⟩ : Shape).size a : Int) := by
      refine Fin.forall_fin_two.mpr ⟨?_, ?_⟩
      · rw [h0, hz]
        exact ⟨by omega, by show (r.val : Int) < (N : Int); omega⟩
      · rw [h1]
        exact ⟨by omega, by show ((j 1).val : Int) < (W : Int); omega⟩
    rw [dif_pos hall]
    refine congrArg some ((eq_ix2 _).trans ?_)
    have c0 : (⟨((rowScatterDims N E W wf).start j idx 0 + ((rowScatterDims N E W wf).window j 0 : Int)).toNat,
        by have := hall 0; omega⟩ : Fin N) = r := Fin.ext (by simp only; omega)
    have c1 : (⟨((rowScatterDims N E W wf).start j idx 1 + ((rowScatterDims N E W wf).window j 1 : Int)).toNat,
        by have := hall 1; omega⟩ : Fin W) = c := Fin.ext (by simp only; rw [← hc]; omega)
    exact congrArg₂ ix2 c0 c1

end Scatter

section ScatterSum

/-- The scatter-add of rows at `(r, c)`, for the literal dimension numbers `rowScatterDims`: the updates that land on
    `(r, c)` are the `(e, c)` whose scatter index names row `r`, one for each such `e`. -/
theorem scatterAdd_rowDims_apply {N E W : Nat}
    (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) (rowScatterDims N E W wf) x idx upd (ix2 r c)
      = x (ix2 r c) + ∑ e ∈ Finset.univ.filter (fun e : Fin E => scatterRow N (idx (ix2 e 0)) = some r),
          upd (ix2 e c) := by
  show Ideal.hostScatterAdd (rowScatterDims N E W wf) x idx upd (ix2 r c) = _
  unfold Ideal.hostScatterAdd
  congr 1
  refine Finset.sum_nbij' (fun j : (⟨2, ![E, W]⟩ : Shape).Idx => (j 0 : Fin E)) (fun e : Fin E => ix2 e c) ?_ ?_ ?_ ?_ ?_
  · intro j hj
    exact Finset.mem_filter.mpr ⟨Finset.mem_univ _,
      ((rowScatter_resultIdx?_eq_some_iff wf idx j r c).mp (Finset.mem_filter.mp hj).2).1⟩
  · intro e he
    exact Finset.mem_filter.mpr ⟨Finset.mem_univ _,
      (rowScatter_resultIdx?_eq_some_iff wf idx (ix2 e c) r c).mpr ⟨(Finset.mem_filter.mp he).2, rfl⟩⟩
  · intro j hj
    have hc := ((rowScatter_resultIdx?_eq_some_iff wf idx j r c).mp (Finset.mem_filter.mp hj).2).2
    show ix2 (j 0) c = j
    rw [← hc]
    exact (eq_ix2 j).symm
  · intro e _
    rfl
  · intro j hj
    have hc := ((rowScatter_resultIdx?_eq_some_iff wf idx j r c).mp (Finset.mem_filter.mp hj).2).2
    show upd j = upd (ix2 (j 0) c)
    rw [← hc]
    exact congrArg upd (eq_ix2 j)

/-- THE SCATTER-ADD OF ROWS READ AT `(r, c)`: for any dimension numbers `d` whose fields are those of a scatter of rows
    (each hypothesis is `rfl` at a program's record), the result at `(r, c)` is the operand's element plus the sum, over
    the `e` whose scatter index `idx[e]` read signed is exactly `r`, of the update's element `(e, c)`. -/
theorem scatterAdd_rows_apply {N E W : Nat} (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hiv : d.indexVectorDim = 1)
    (x : FVec Ideal ⟨2, ![N, W]⟩ .f32) (idx : IVec ⟨2, ![E, 1]⟩ 32) (upd : FVec Ideal ⟨2, ![E, W]⟩ .f32)
    (r : Fin N) (c : Fin W) [DecidablePred fun e : Fin E => scatterRow N (idx (ix2 e 0)) = some r] :
    Host.scatterAdd (F := Ideal) d x idx upd (ix2 r c)
      = x (ix2 r c) + ∑ e ∈ Finset.univ.filter (fun e : Fin E => scatterRow N (idx (ix2 e 0)) = some r),
          upd (ix2 e c) := by
  obtain ⟨uw, iw, sd, iv, wf⟩ := d
  simp only at huw hiw hsd hiv
  subst huw hiw hsd hiv
  exact scatterAdd_rowDims_apply wf x idx upd r c

end ScatterSum

/-! ## The scatter-add into a flat array -/

section ScatterVec

/-- The dimension numbers of a scatter into a flat array: operand `[N]`, scatter indices `[E, 1]`, updates `[E]`; no
    window axis, the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (j : (⟨1, ![E]⟩ : Shape).Idx)

/-- On the operand's one axis the window of update `j` starts at its scatter index `idx[j₀]` read signed, and has no
    extent. -/
theorem vecScatter_pos_zero :
    (vecScatterDims N E wf).start j idx 0 + ((vecScatterDims N E wf).window j 0 : Int)
      = (idx (ix2 (j 0) 0)).toInt := by
  have hw : (vecScatterDims N E wf).window j 0 = 0 := by
    unfold ScatterDims.window
    rw [dif_neg (fun h => ((mem_scatter_sKept _ _).mp h) (List.mem_singleton.mpr rfl))]
  have hs : (vecScatterDims N E wf).start j idx 0 = (idx (ix2 (j 0) 0)).toInt := by
    unfold ScatterDims.start
    rw [dif_pos (show (0 : Fin 1) ∈ (vecScatterDims N E wf).scatterDimsToOperandDims from List.mem_singleton.mpr rfl)]
    have hsi : (vecScatterDims N E wf).siIdx j ⟨List.idxOf (0 : Fin 1) (vecScatterDims N E wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  rw [hw, hs]; simp

/-- WHERE AN UPDATE LANDS: update `j = (e)` lands on element `(r)` exactly when its scatter index names `r`. -/
theorem vecScatter_resultIdx?_eq_some_iff (r : Fin N) :
    (vecScatterDims N E wf).resultIdx? j idx = some (ix1 r) ↔ scatterRow N (idx (ix2 (j 0) 0)) = some r := by
  rw [scatterRow_eq_some_iff]
  have h0 := vecScatter_pos_zero wf idx j
  have hr := r.isLt
  unfold ScatterDims.resultIdx?
  constructor
  · intro h
    split at h
    · rename_i hall
      have h' := Option.some.inj h
      have e0 := congrArg (fun f : (⟨1, ![N]⟩ : Shape).Idx => (f 0).val) h'
      have a0 := (hall 0).1
      simp only at e0
      rw [h0] at e0 a0
      have : ((ix1 r : (⟨1, ![N]⟩ : Shape).Idx) 0).val = r.val := rfl
      omega
    · exact absurd h (by simp)
  · intro hz
    have hall : ∀ a : Fin (⟨1, ![N]⟩ : Shape).rank,
        0 ≤ (vecScatterDims N E wf).start j idx a + ((vecScatterDims N E wf).window j a : Int) ∧
        (vecScatterDims N E wf).start j idx a + ((vecScatterDims N E wf).window j a : Int)
          < ((⟨1, ![N]⟩ : Shape).size a : Int) := by
      intro a
      obtain rfl : a = 0 := Subsingleton.elim _ _
      rw [h0, hz]
      exact ⟨by omega, by show (r.val : Int) < (N : Int); omega⟩
    rw [dif_pos hall]
    refine congrArg some ((eq_ix1 _).trans ?_)
    have c0 : (⟨((vecScatterDims N E wf).start j idx 0 + ((vecScatterDims N E wf).window j 0 : Int)).toNat,
        by have := hall 0; omega⟩ : Fin N) = r := Fin.ext (by simp only; omega)
    exact congrArg ix1 c0

/-- The scatter-add into a flat array at `(r)`, for the literal dimension numbers `vecScatterDims`. -/
theorem scatterAdd_vecDims_apply
    (x : FVec Ideal ⟨1, ![N]⟩ .f32) (upd : FVec Ideal ⟨1, ![E]⟩ .f32)
    (r : Fin N) [DecidablePred fun e : Fin E => scatterRow N (idx (ix2 e 0)) = some r] :
    Host.scatterAdd (F := Ideal) (vecScatterDims N E wf) x idx upd (ix1 r)
      = x (ix1 r) + ∑ e ∈ Finset.univ.filter (fun e : Fin E => scatterRow N (idx (ix2 e 0)) = some r),
          upd (ix1 e) := by
  show Ideal.hostScatterAdd (vecScatterDims N E wf) x idx upd (ix1 r) = _
  unfold Ideal.hostScatterAdd
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (vecScatter_resultIdx?_eq_some_iff wf idx j r).mp (Finset.mem_filter.mp hj).2⟩
  · intro e he
    exact Finset.mem_filter.mpr ⟨Finset.mem_univ _,
      (vecScatter_resultIdx?_eq_some_iff wf idx (ix1 e) r).mpr (Finset.mem_filter.mp he).2⟩
  · intro j _
    exact (eq_ix1 j).symm
  · intro e _
    rfl
  · intro j _
    exact congrArg upd (eq_ix1 j)

/-- THE SCATTER-ADD INTO A FLAT ARRAY READ AT `(r)`: for any dimension numbers `d` whose fields are those of such a
    scatter (each hypothesis is `rfl` at a program's record), the result at `(r)` is the operand's element plus the sum,
    over the `e` whose scatter index `idx[e]` read signed is exactly `r`, of the update's element `(e)`. -/
theorem scatterAdd_vec_apply (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ 32) (upd : FVec Ideal ⟨1, ![E]⟩ .f32)
    (r : Fin N) [DecidablePred fun e : Fin E => scatterRow N (idx (ix2 e 0)) = some r] :
    Host.scatterAdd (F := Ideal) d x idx upd (ix1 r)
      = x (ix1 r) + ∑ e ∈ Finset.univ.filter (fun e : Fin E => scatterRow N (idx (ix2 e 0)) = some r),
          upd (ix1 e) := by
  obtain ⟨uw, iw, sd, iv, wf⟩ := d
  simp only at huw hiw hsd hiv
  subst huw hiw hsd hiv
  exact scatterAdd_vecDims_apply wf idx x upd r

end ScatterVec

end Cert.RowOps

end
-- ==== Proof.LibRowOps3.lean ====
/-
  Rows taken by index through a two-axis batch of start indices, an all-true reduction, and the word facts of an
  index known to be small.

  * the gather that takes whole rows of a two-dimensional array by a batch of indices, `x[idx]` for `x : [N, W]` and
    `idx : [B, L]` (carried as `[B, L, 1]`): element `(b, l, c)` of the result is `x` at row `idx[b, l]`, read as a
    signed integer and clamped into `[0, N − 1]`, column `c`;
  * a reduction by `and` of one-bit words that are all `1`, from the initial value `1`, is `1` at every result index;
  * for a 32-bit word below `2³¹`: it is not negative as a signed number, so the wrap-around select `w < 0 ? w + N : w`
    leaves it, the range test `0 ≤ w ≤ c` holds when `w ≤ c`, and the row a gather reads for it is itself when it is a
    row.

  Every statement is over abstract extents; nothing here enumerates an index set.
-/
import Idealize.ShloMosaic.PureOps.Ideal
import Idealize.ShloMosaic.Lib.ValueIdx
import Idealize.ShloMosaic.Lib.Affine
import proofs.«209176_g73847667688168_cont_9to1_m_420_10_alg».proof.Proof.LibRowOps

noncomputable section

namespace Cert.RowOps3

open Idealize.ShloMosaic Idealize.ShloMosaic.ValueIdx Cert.RowOps

/-! ## The gather of rows by a two-axis batch of indices -/

section Gather
variable {α : Type}

/-- The dimension numbers of a gather of rows by a batch: operand `[N, W]`, start indices `[B, L, 1]`, result
    `[B, L, W]`; the result's axis 2 is the offset axis, operand axis 0 is collapsed and is the one the start index
    names, slices are `1 × W`. -/
abbrev rowGatherDims3 (N B L W : Nat)
    (wf : GatherDims.WF ⟨2, ![N, W]⟩ ⟨3, ![B, L, 1]⟩ ⟨3, ![B, L, W]⟩ [2] [0] [] [0] [] 2 ![1, W]) :
    GatherDims ⟨2, ![N, W]⟩ ⟨3, ![B, L, 1]⟩ ⟨3, ![B, L, W]⟩ where
  offsetDims := [2]
  collapsedSliceDims := [0]
  operandBatchingDims := []
  startIndicesBatchingDims := []
  startIndexMap := [0]
  indexVectorDim := 2
  sliceSizes := ![1, W]
  wf := wf

/-- The row coordinate of the operand index that result index `(b, l, c)` reads: the clamped start index. -/
theorem rowGather3_operandIdx_zero {N B L W : Nat} (hN : 0 < N)
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 0 = gatherRow N hN (idx (ix3 b l 0)) := by
  refine Fin.ext ?_
  show (rowGatherDims3 N B L W wf).start (ix3 b l c) idx 0 + (rowGatherDims3 N B L W wf).batchCoord (ix3 b l c) 0
    + (rowGatherDims3 N B L W wf).offCoord (ix3 b l c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims3 N B L W wf).startIndexMap from List.mem_singleton.mpr rfl)]
  have hsi : (rowGatherDims3 N B L W wf).siIdx (ix3 b l c) ⟨List.idxOf (0 : Fin 2) (rowGatherDims3 N B L W wf).startIndexMap,
      List.idxOf_lt_length_iff.2 (List.mem_singleton.mpr rfl)⟩ = ix3 b l 0 := by
    funext a; refine Fin.ext ?_
    match a with
    | ⟨0, _⟩ => rfl
    | ⟨1, _⟩ => rfl
    | ⟨2, _⟩ => rfl
  rw [hsi]
  rfl

/-- The column coordinate of the operand index that result index `(b, l, c)` reads: `c` itself. -/
theorem rowGather3_operandIdx_one {N B L W : Nat}
    (wf : GatherDims.WF ⟨2, ![N, W]⟩ ⟨3, ![B, L, 1]⟩ ⟨3, ![B, L, W]⟩ [2] [0] [] [0] [] 2 ![1, W])
    (idx : IVec ⟨3, ![B, L, 1]⟩ 32) (b : Fin B) (l : Fin L) (c : Fin W) :
    (rowGatherDims3 N B L W wf).operandIdx (ix3 b l c) idx 1 = c := by
  refine Fin.ext ?_
  show (rowGatherDims3 N B L W wf).start (ix3 b l c) idx 1 + (rowGatherDims3 N B L W wf).batchCoord (ix3 b l c) 1
    + (rowGatherDims3 N B L W wf).offCoord (ix3 b l c) 1 = _
  rw [GatherDims.batchCoord_eq_zero _ _ _ List.not_mem_nil]
  have hst : (rowGatherDims3 N B L W wf).start (ix3 b l c) idx 1 = 0 := by
    unfold GatherDims.start
    rw [dif_neg (show (1 : Fin 2) ∉ ([0] : List (Fin 2)) by decide)]
  rw [hst]
  simp only [Nat.zero_add, Nat.add_zero]
  unfold GatherDims.offCoord
  rw [dif_pos ((GatherDims.mem_sKept _ _).mpr ⟨(show (1 : Fin 2) ∉ ([0] : List (Fin 2)) by decide), List.not_mem_nil⟩)]
  rfl

/-- The gather of rows by a batch at `(b, l, c)`, for the literal dimension numbers `rowGatherDims3`. -/
theorem gather_rowDims3_apply {N B L W : Nat} (hN : 0 < N)
    (wf : GatherDims.WF ⟨2, ![N, W]⟩ ⟨3, ![B, L, 1]⟩ ⟨3, ![B, L, W]⟩ [2] [0] [] [0] [] 2 ![1, W])
    (x : (⟨2, ![N, W]⟩ : Shape).Idx → α) (idx : IVec ⟨3, ![B, L, 1]⟩ 32) (b : Fin B) (l : Fin L) (c : Fin W) :
    Host.gather (rowGatherDims3 N B L W wf) x idx (ix3 b l c) = x (ix2 (gatherRow N hN (idx (ix3 b l 0))) c) := by
  unfold Host.gather
  refine congrArg x ((eq_ix2 _).trans ?_)
  rw [rowGather3_operandIdx_zero hN wf idx b l c, rowGather3_operandIdx_one wf idx b l c]
  rfl

/-- THE GATHER OF ROWS BY A BATCH READ AT `(b, l, c)`: for any dimension numbers `d` whose fields are those of such a
    gather (each hypothesis is `rfl` at a program's record), the result at `(b, l, c)` is the operand at row
    `gatherRow N _ (idx[b, l])` — the start index read signed and clamped into `[0, N − 1]` — and column `c`. -/
theorem gather_rows3_apply {N B L W : Nat} (hN : 0 < N)
    (d : GatherDims ⟨2, ![N, W]⟩ ⟨3, ![B, L, 1]⟩ ⟨3, ![B, L, W]⟩)
    (hod : d.offsetDims = [2]) (hcd : d.collapsedSliceDims = [0]) (hob : d.operandBatchingDims = [])
    (hsb : d.startIndicesBatchingDims = []) (hsm : d.startIndexMap = [0]) (hiv : d.indexVectorDim = 2)
    (hss : d.sliceSizes = ![1, W])
    (x : (⟨2, ![N, W]⟩ : Shape).Idx → α) (idx : IVec ⟨3, ![B, L, 1]⟩ 32) (b : Fin B) (l : Fin L) (c : Fin W) :
    Host.gather d x idx (ix3 b l c) = x (ix2 (gatherRow N hN (idx (ix3 b l 0))) c) := by
  obtain ⟨od, cd, ob, sb, sm, iv, ss, wf⟩ := d
  simp only at hod hcd hob hsb hsm hiv hss
  subst hod hcd hob hsb hsm hiv hss
  exact gather_rowDims3_apply hN wf x idx b l c

end Gather

/-! ## A reduction by `and` of words that are all one -/

/-- A left fold by `and` from `1` over one-bit words that are all `1` is `1`. -/
theorem foldl_andi_of_all {ι : Type} (f : ι → BitVec 1) (hf : ∀ n, f n = 1#1) (l : List ι) :
    l.foldl (fun r n => IntOp.andi r (f n)) 1#1 = 1#1 := by
  induction l with
  | nil => rfl
  | cons n l ih =>
    rw [List.foldl_cons, hf n, show IntOp.andi 1#1 1#1 = 1#1 from by decide]
    exact ih

/-- The host's reduction by `and` of an array of one-bit words that are all `1`, from an initial value `1`, is `1`
    at every result index, whatever the axes. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_of_all (fun n => x (s.rowMajor.symm n)) (fun n => hx _) _

/-! ## A small index word -/

/-- A 32-bit word below `2³¹` read as a signed integer is its natural number. -/
theorem toInt_of_small (w : BitVec 32) (hw : w.toNat < 2 ^ 31) : w.toInt = (w.toNat : Int) := by
  have e := BitVec.toInt_eq_toNat_cond w
  omega

/-- The wrap-around of a negative index leaves a word below `2³¹`: it is not negative. -/
theorem select_wrap_of_small (w n : BitVec 32) (hw : w.toNat < 2 ^ 31) :
    Scalar.select (IntOp.cmpi .slt w 0#32) (IntOp.addi w n) w = w := by
  have hc : IntOp.cmpi .slt w 0#32 = 0#1 := by
    refine eq_zero_of_ne_one fun h1 => ?_
    have h2 := IntOp.cmpi_slt.mp h1
    rw [toInt_of_small w hw, show (0#32 : BitVec 32).toInt = 0 from by decide] at h2
    omega
  rw [hc, select_zero]

/-- The range test `0 ≤ w ≤ c` on signed words holds for a word below `2³¹` that is at most `c`. -/
theorem andi_sge_sle_of_small (w c : BitVec 32) (hw : w.toNat < 2 ^ 31) (hc : (w.toNat : Int) ≤ c.toInt) :
    IntOp.andi (IntOp.cmpi .sge w 0#32) (IntOp.cmpi .sle w c) = 1#1 := by
  have h1 : IntOp.cmpi .sge w 0#32 = 1#1 := by
    refine IntOp.cmpi_sge.mpr ?_
    rw [toInt_of_small w hw, show (0#32 : BitVec 32).toInt = 0 from by decide]
    omega
  have h2 : IntOp.cmpi .sle w c = 1#1 := by
    refine IntOp.cmpi_sle.mpr ?_
    rw [toInt_of_small w hw]
    exact hc
  rw [h1, h2]
  decide

/-- The row a gather reads for a start index that is a row of the operand is that row. -/
theorem gatherRow_val_of_lt {N : Nat} (hN : 0 < N) (w : BitVec 32) (hw : w.toNat < 2 ^ 31) (h : w.toNat < N) :
    (gatherRow N hN w).val = w.toNat := by
  unfold gatherRow
  simp only
  rw [toInt_of_small w hw]
  omega

end Cert.RowOps3

end
-- ==== Proof.RefOps.lean ====
/-
  The array operations of the plain program read at one index, at the program's own shapes: a broadcast along new or
  unit axes reads the operand at the kept coordinates, a sum over one axis is the initial value plus the sum over that
  axis's coordinates, a matrix product is the sum of products over the contracted coordinate, a concatenation of two
  halves reads the half the column falls in, a gather of rows reads the named row, and the reshape that drops a unit
  axis reads the same position.
-/
import Idealize.ShloMosaic.Lib.IdealHost
import Idealize.ShloMosaic.Lib.Pipeline.Value
import proofs.«209176_g73847667688168_cont_9to1_m_420_10_alg».proof.Proof.Gen.ReferenceIdeal
import proofs.«209176_g73847667688168_cont_9to1_m_420_10_alg».proof.Proof.LibRowOps3

noncomputable section

open scoped BigOperators

namespace Cert.RefSide

open Cert.ReferenceIdeal Idealize.ShloMosaic Idealize.ShloMosaic.ValueIdx Cert.RowOps Cert.RowOps3

/-! ## Broadcasts -/

section Bcast
variable {α : Type}

/-- [B, L] to [B, L, 1] along the first two axes. -/
theorem bc_BL_BL1 (h : S16384x50.BroadcastsInDim S16384x50x1 ![0, 1]) (x : S16384x50.Idx → α) (b : Fin 16384) (l : Fin 50)
    (z : Fin 1) : broadcastInDim S16384x50x1 ![0, 1] h x (ix3 b l z) = x (ix2 b l) :=
  broadcastInDim_apply _ h x _ _ (fun a => match a with | ⟨0, _⟩ => rfl | ⟨1, _⟩ => rfl)

/-- [B, L] to [B, L, D] along the first two axes. -/
theorem bc_BL_BLD (h : S16384x50.BroadcastsInDim S16384x50x128 ![0, 1]) (x : S16384x50.Idx → α) (b : Fin 16384) (l : Fin 50)
    (d : Fin 128) : broadcastInDim S16384x50x128 ![0, 1] h x (ix3 b l d) = x (ix2 b l) :=
  broadcastInDim_apply _ h x _ _ (fun a => match a with | ⟨0, _⟩ => rfl | ⟨1, _⟩ => rfl)

/-- [B, L, 1] to [B, L, D]: the unit axis stretched. -/
theorem bc_BL1_BLD (h : S16384x50x1.BroadcastsInDim S16384x50x128 ![0, 1, 2]) (x : S16384x50x1.Idx → α) (b : Fin 16384)
    (l : Fin 50) (d : Fin 128) : broadcastInDim S16384x50x128 ![0, 1, 2] h x (ix3 b l d) = x (ix3 b l 0) :=
  broadcastInDim_apply _ h x _ _ (fun a => match a with | ⟨0, _⟩ => rfl | ⟨1, _⟩ => rfl | ⟨2, _⟩ => rfl)

/-- [1] to [1, 1, 1] to [B, L, 1]: the one word everywhere. -/
theorem bc_1_BL1 (h₁ : S1.BroadcastsInDim S1x1x1 ![2]) (h₂ : S1x1x1.BroadcastsInDim S16384x50x1 ![0, 1, 2]) (x : S1.Idx → α)
    (j : S16384x50x1.Idx) :
    broadcastInDim S16384x50x1 ![0, 1, 2] h₂ (broadcastInDim S1x1x1 ![2] h₁ x) j = x (ix1 0) := by
  rw [broadcastInDim_apply _ h₂ _ j (ix3 0 0 0) (fun a => match a with | ⟨0, _⟩ => rfl | ⟨1, _⟩ => rfl | ⟨2, _⟩ => rfl),
    broadcastInDim_apply _ h₁ x (ix3 0 0 0) (ix1 0) (fun a => match a with | ⟨0, _⟩ => rfl)]

/-- [B, 1] to [B, D]: the unit axis stretched. -/
theorem bc_B1_BD (h : S16384x1.BroadcastsInDim S16384x128 ![0, 1]) (x : S16384x1.Idx → α) (b : Fin 16384) (d : Fin 128) :
    broadcastInDim S16384x128 ![0, 1] h x (ix2 b d) = x (ix2 b 0) :=
  broadcastInDim_apply _ h x _ _ (fun a => match a with | ⟨0, _⟩ => rfl | ⟨1, _⟩ => rfl)

/-- [H] to [1, H]. -/
theorem bc_H_1H (h : S1024.BroadcastsInDim S1x1024 ![1]) (x : S1024.Idx → α) (z : Fin 1) (j : Fin 1024) :
    broadcastInDim S1x1024 ![1] h x (ix2 z j) = x (ix1 j) :=
  broadcastInDim_apply _ h x _ _ (fun a => match a with | ⟨0, _⟩ => rfl)

/-- [1, H] to [N, H]: the one row at every row. -/
theorem bc_1H_NH (h : S1x1024.BroadcastsInDim S16384x1024 ![0, 1]) (x : S1x1024.Idx → α) (r : Fin 16384) (j : Fin 1024) :
    broadcastInDim S16384x1024 ![0, 1] h x (ix2 r j) = x (ix2 0 j) :=
  broadcastInDim_apply _ h x _ _ (fun a => match a with | ⟨0, _⟩ => rfl | ⟨1, _⟩ => rfl)

/-- [H] to [1, H] to [N, H]: a row vector at every row. -/
theorem bc_H_NH (h₁ : S1024.BroadcastsInDim S1x1024 ![1]) (h₂ : S1x1024.BroadcastsInDim S16384x1024 ![0, 1]) (x : S1024.Idx → α)
    (r : Fin 16384) (j : Fin 1024) :
    broadcastInDim S16384x1024 ![0, 1] h₂ (broadcastInDim S1x1024 ![1] h₁ x) (ix2 r j) = x (ix1 j) := by
  rw [bc_1H_NH, bc_H_1H]

/-- [1] to [1, 1] to [N, 1]: the one value at every row. -/
theorem bc_1_N1 (h₁ : S1.BroadcastsInDim S1x1 ![1]) (h₂ : S1x1.BroadcastsInDim S16384x1 ![0, 1]) (x : S1.Idx → α)
    (j : S16384x1.Idx) :
    broadcastInDim S16384x1 ![0, 1] h₂ (broadcastInDim S1x1 ![1] h₁ x) j = x (ix1 0) := by
  rw [broadcastInDim_apply _ h₂ _ j (ix2 0 0) (fun a => match a with | ⟨0, _⟩ => rfl | ⟨1, _⟩ => rfl),
    broadcastInDim_apply _ h₁ x (ix2 0 0) (ix1 0) (fun a => match a with | ⟨0, _⟩ => rfl)]

end Bcast

/-! ## Sums over one axis -/

/-- The sum over the bag axis of a [B, L, D] array. -/
theorem sum_L_BLD (h' : S16384x50x128.ReducesTo [1] S16384x128) (hu : 0 < S_.numel) (x : FVec Ideal S16384x50x128 .f32)
    (init : S_.Idx → Ideal .f32) (b : Fin 16384) (d : Fin 128) :
    Host.reduceAdd x init h' hu (ix2 b d) = init ix0 + ∑ l : Fin 50, x (ix3 b l d) := by
  have h : S16384x50x128.Reduces [1] S16384x128 := by decide
  rw [hostReduceAdd_apply, Ideal.hostReduceAdd_single h' h, eq_ix0 (Shape.Idx.first hu)]
  refine congrArg (init ix0 + ·) (Finset.sum_congr rfl fun l _ => congrArg x ?_)
  funext a
  match a with
  | ⟨0, _⟩ => rfl
  | ⟨1, _⟩ => rfl
  | ⟨2, _⟩ => rfl

/-- The sum over the bag axis of a [B, L, 1] array. -/
theorem sum_L_BL1 (h' : S16384x50x1.ReducesTo [1] S16384x1) (hu : 0 < S_.numel) (x : FVec Ideal S16384x50x1 .f32)
    (init : S_.Idx → Ideal .f32) (b : Fin 16384) (z : Fin 1) :
    Host.reduceAdd x init h' hu (ix2 b z) = init ix0 + ∑ l : Fin 50, x (ix3 b l z) := by
  have h : S16384x50x1.Reduces [1] S16384x1 := by decide
  rw [hostReduceAdd_apply, Ideal.hostReduceAdd_single h' h, eq_ix0 (Shape.Idx.first hu)]
  refine congrArg (init ix0 + ·) (Finset.sum_congr rfl fun l _ => congrArg x ?_)
  funext a
  match a with
  | ⟨0, _⟩ => rfl
  | ⟨1, _⟩ => rfl
  | ⟨2, _⟩ => rfl

/-- The sum over the rows of an [N, H] array. -/
theorem sum_N_NH (h' : S16384x1024.ReducesTo [0] S1024) (hu : 0 < S_.numel) (x : FVec Ideal S16384x1024 .f32)
    (init : S_.Idx → Ideal .f32) (j : Fin 1024) :
    Host.reduceAdd x init h' hu (ix1 j) = init ix0 + ∑ r : Fin 16384, x (ix2 r j) := by
  have h : S16384x1024.Reduces [0] S1024 := by decide
  rw [hostReduceAdd_apply, Ideal.hostReduceAdd_single h' h, eq_ix0 (Shape.Idx.first hu)]
  refine congrArg (init ix0 + ·) (Finset.sum_congr rfl fun r _ => congrArg x ?_)
  funext a
  match a with
  | ⟨0, _⟩ => rfl
  | ⟨1, _⟩ => rfl

/-! ## Matrix products -/

section Dot
variable [Facts₀]

/-- [N, 256] by [256, H]. -/
theorem dot_256_apply (l : FVec Ideal S16384x256 .f32) (r : FVec Ideal S256x1024 .f32) (i : Fin 16384) (j : Fin 1024) :
    Host.dotGeneral dot_S16384x256_S256x1024_S16384x1024_1_0_0_1_n_n none l r (ix2 i j)
      = ∑ k : Fin 256, l (ix2 i k) * r (ix2 k j) := by
  show FloatOps.dotGeneral dot_S16384x256_S256x1024_S16384x1024_1_0_0_1_n_n none .single l r (ix2 i j) = _
  rw [Ideal.dotGeneral_apply]
  refine Fintype.sum_equiv (contrEquiv1 dot_S16384x256_S256x1024_S16384x1024_1_0_0_1_n_n 256 rfl rfl) _ _ fun q => ?_
  refine congrArg₂ (· * ·) (congrArg l ?_) (congrArg r ?_)
  · funext a
    match a with
    | ⟨0, _⟩ => rfl
    | ⟨1, _⟩ => rfl
  · funext a
    match a with
    | ⟨0, _⟩ => rfl
    | ⟨1, _⟩ => rfl

/-- [N, H] by [H, H]. -/
theorem dot_1024_apply (l : FVec Ideal S16384x1024 .f32) (r : FVec Ideal S1024x1024 .f32) (i : Fin 16384) (j : Fin 1024) :
    Host.dotGeneral dot_S16384x1024_S1024x1024_S16384x1024_1_0_0_1_n_n none l r (ix2 i j)
      = ∑ k : Fin 1024, l (ix2 i k) * r (ix2 k j) := by
  show FloatOps.dotGeneral dot_S16384x1024_S1024x1024_S16384x1024_1_0_0_1_n_n none .single l r (ix2 i j) = _
  rw [Ideal.dotGeneral_apply]
  refine Fintype.sum_equiv (contrEquiv1 dot_S16384x1024_S1024x1024_S16384x1024_1_0_0_1_n_n 1024 rfl rfl) _ _ fun q => ?_
  refine congrArg₂ (· * ·) (congrArg l ?_) (congrArg r ?_)
  · funext a
    match a with
    | ⟨0, _⟩ => rfl
    | ⟨1, _⟩ => rfl
  · funext a
    match a with
    | ⟨0, _⟩ => rfl
    | ⟨1, _⟩ => rfl

/-- [N, H] by [H, 1]. -/
theorem dot_col_apply (l : FVec Ideal S16384x1024 .f32) (r : FVec Ideal S1024x1 .f32) (i : Fin 16384) (z : Fin 1) :
    Host.dotGeneral dot_S16384x1024_S1024x1_S16384x1_1_0_0_1_n_n none l r (ix2 i z)
      = ∑ k : Fin 1024, l (ix2 i k) * r (ix2 k z) := by
  show FloatOps.dotGeneral dot_S16384x1024_S1024x1_S16384x1_1_0_0_1_n_n none .single l r (ix2 i z) = _
  rw [Ideal.dotGeneral_apply]
  refine Fintype.sum_equiv (contrEquiv1 dot_S16384x1024_S1024x1_S16384x1_1_0_0_1_n_n 1024 rfl rfl) _ _ fun q => ?_
  refine congrArg₂ (· * ·) (congrArg l ?_) (congrArg r ?_)
  · funext a
    match a with
    | ⟨0, _⟩ => rfl
    | ⟨1, _⟩ => rfl
  · funext a
    match a with
    | ⟨0, _⟩ => rfl
    | ⟨1, _⟩ => rfl

/-- The gather of table rows by a [B, L, 1] array of row numbers. -/
theorem gather_apply {α : Type} (x : S100000x128.Idx → α) (idx : IVec S16384x50x1 32) (b : Fin 16384) (l : Fin 50) (d : Fin 128) :
    Host.gather gather_S100000x128_S16384x50x1_S16384x50x128_2_0_n_n_0_2_1128 x idx (ix3 b l d)
      = x (ix2 (gatherRow 100000 (by decide) (idx (ix3 b l 0))) d) :=
  gather_rows3_apply (by decide) _ rfl rfl rfl rfl rfl rfl rfl x idx b l d

end Dot

/-! ## Two halves side by side, and a unit axis dropped -/

section Layout
variable {α : Type}

theorem cat_left (h : Shape.Concatenates [S16384x128, S16384x128] S16384x256 1) (x₁ x₂ : S16384x128.Idx → α) (r : Fin 16384)
    (k : Fin 256) (hk : k.val < 128) :
    concatenate S16384x256 1 [⟨S16384x128, x₁⟩, ⟨S16384x128, x₂⟩] h (ix2 r k) = x₁ (ix2 r ⟨k.val, hk⟩) :=
  concatenate_pair_apply_left 1 x₁ x₂ h (ix2 r k) rfl (ix2 r ⟨k.val, hk⟩)
    (fun b => match b with | ⟨0, _⟩ => rfl | ⟨1, _⟩ => rfl)

theorem cat_right (h : Shape.Concatenates [S16384x128, S16384x128] S16384x256 1) (x₁ x₂ : S16384x128.Idx → α) (r : Fin 16384)
    (k : Fin 256) (hk : 128 ≤ k.val) :
    concatenate S16384x256 1 [⟨S16384x128, x₁⟩, ⟨S16384x128, x₂⟩] h (ix2 r k) = x₂ (ix2 r ⟨k.val - 128, by omega⟩) :=
  concatenate_pair_apply_right 1 x₁ x₂ h (ix2 r k) rfl rfl (ix2 r ⟨k.val - 128, by omega⟩)
    (fun b hb => match b, hb with | ⟨0, _⟩, _ => rfl | ⟨1, _⟩, hb => absurd rfl hb)
    (by show k.val - 128 + 128 = k.val; omega)

/-- [N, 1] reshaped to [N]. -/
theorem cast_N1_N (h : S16384x1.ShapeCasts S16384) (x : S16384x1.Idx → α) (r : Fin 16384) :
    shapeCast S16384 x h (ix1 r) = x (ix2 r 0) :=
  shapeCast_apply x h (ix1 r) (ix2 r 0) (by
    rw [Shape.rowMajor_val_two, Shape.rowMajor_val_one]
    show r.val * 1 + 0 = r.val
    omega)

end Layout

end Cert.RefSide

end
-- ==== Proof.Spec.lean ====
/-
  The specification both programs are read against, free of any program text: arrays are functions on
  literal finite index types and every float is an extended real.

  The model embeds two bags of 50 table rows per example (a row number 0 is padding and is left out),
  averages each bag over its non-padding entries, concatenates the two averages, and applies three dense
  layers with a rectifier, the first two followed by a batch normalisation over the 16384 examples, then a
  last dense layer to one logit and the logistic function.

  Each quantity is written twice.  The forms ending in `R` follow the plain array program: a padding row is
  removed by multiplying with a 0/1 mask, the variance is the mean square of the centred column, and the
  normalisation divides by the square root.  The forms ending in `K` follow the fused kernels: a padding
  entry contributes a zero row, the variance is the mean of squares minus the squared mean, and the
  normalisation is one multiply-add by a per-column scale and shift built from the reciprocal square root.
-/
import Idealize.ShloMosaic.PureOps.Ideal

noncomputable section

open scoped BigOperators

namespace Cert.Spec

open Idealize.ShloMosaic

/-- The float words the two programs share, at their exact binary values. -/
def tiny : EReal := Ideal.ofBits .f32 0x3089705F#32
def eps : EReal := Ideal.ofBits .f32 0x3727C5AC#32
def nRows : EReal := Ideal.ofBits .f32 0x46800000#32
def invRows : EReal := Ideal.ofBits .f32 0x38800000#32

/-- The table row a word names (every word the precondition admits is below 100000 already). -/
def row (w : BitVec 32) : Fin 100000 := ⟨min w.toNat 99999, by omega⟩

/-- 1 for a real entry, 0 for padding. -/
def mask (w : BitVec 32) : EReal := if w = 0#32 then 0 else 1

abbrev Idx := Fin 16384 → Fin 50 → BitVec 32
abbrev Tab := Fin 100000 → Fin 128 → EReal
abbrev Mat (K N : Nat) := Fin K → Fin N → EReal
abbrev Act (N : Nat) := Fin 16384 → Fin N → EReal

/-- Number of real entries of a bag. -/
def cnt (idx : Idx) (b : Fin 16384) : EReal := ∑ l, mask (idx b l)

/-- Sum of a bag's rows, padding masked by a product. -/
def poolR (idx : Idx) (emb : Tab) (b : Fin 16384) (d : Fin 128) : EReal := ∑ l, emb (row (idx b l)) d * mask (idx b l)
/-- Sum of a bag's rows, a padding entry contributing a zero row. -/
def poolK (idx : Idx) (emb : Tab) (b : Fin 16384) (d : Fin 128) : EReal := ∑ l, if idx b l = 0#32 then 0 else emb (row (idx b l)) d

def meanR (idx : Idx) (emb : Tab) (b : Fin 16384) (d : Fin 128) : EReal := Ideal.div (poolR idx emb b d) (max (cnt idx b) tiny)
def meanK (idx : Idx) (emb : Tab) (b : Fin 16384) (d : Fin 128) : EReal := Ideal.div (poolK idx emb b d) (max (cnt idx b) tiny)

/-- The two averages side by side: columns 0..127 from the first bag, 128..255 from the second. -/
def catR (src dst : Idx) (emb : Tab) : Act 256 := fun b k =>
  if h : k.val < 128 then meanR src emb b ⟨k.val, h⟩ else meanR dst emb b ⟨k.val - 128, by omega⟩

/-- A dense layer with bias and rectifier. -/
def dense {K N : Nat} (x : Act K) (W : Mat K N) (b : Fin N → EReal) : Act N := fun r j => max (∑ k, x r k * W k j + b j) 0

/-- The first layer as the kernel computes it: the two halves of the weight matrix applied to the two averages. -/
def dense1K (src dst : Idx) (emb : Tab) (W : Mat 256 1024) (b : Fin 1024 → EReal) : Act 1024 := fun r j =>
  max ((∑ k : Fin 128, meanK src emb r k * W (Fin.castAdd 128 k) j) + (∑ k : Fin 128, meanK dst emb r k * W (Fin.natAdd 128 k) j) + b j) 0

/-- Batch normalisation, centred form. -/
def colMean (h : Act 1024) (j : Fin 1024) : EReal := Ideal.div (∑ r, h r j) nRows
def colVar (h : Act 1024) (j : Fin 1024) : EReal := Ideal.div (∑ r, (h r j - colMean h j) * (h r j - colMean h j)) nRows
def bnR (h : Act 1024) (g be : Fin 1024 → EReal) : Act 1024 := fun r j =>
  Ideal.div (h r j - colMean h j) (Ideal.sqrt (colVar h j + eps)) * g j + be j

/-- Batch normalisation, scale-and-shift form over the column sums of the values and of their squares. -/
def muK (h : Act 1024) (j : Fin 1024) : EReal := (∑ r, h r j) * invRows
def varK (h : Act 1024) (j : Fin 1024) : EReal := (∑ r, h r j * h r j) * invRows - muK h j * muK h j
def scaleK (h : Act 1024) (g : Fin 1024 → EReal) (j : Fin 1024) : EReal := g j * Ideal.rsqrt (varK h j + eps)
def shiftK (h : Act 1024) (g be : Fin 1024 → EReal) (j : Fin 1024) : EReal := be j - muK h j * scaleK h g j
def bnK (h : Act 1024) (g be : Fin 1024 → EReal) : Act 1024 := fun r j => h r j * scaleK h g j + shiftK h g be j

section
variable (src dst : Idx) (emb : Tab) (W1 : Mat 256 1024) (b1 g1 be1 : Fin 1024 → EReal) (W2 : Mat 1024 1024) (b2 g2 be2 : Fin 1024 → EReal)
  (W3 : Mat 1024 1024) (b3 : Fin 1024 → EReal) (W4 : Fin 1024 → EReal) (b4 : EReal)

def h1R : Act 1024 := dense (catR src dst emb) W1 b1
def h2R : Act 1024 := dense (bnR (h1R src dst emb W1 b1) g1 be1) W2 b2
def h3R : Act 1024 := dense (bnR (h2R src dst emb W1 b1 g1 be1 W2 b2) g2 be2) W3 b3
/-- The plain program's result: the logistic function spelt as a quotient. -/
def outR (r : Fin 16384) : EReal :=
  Ideal.div 1 (1 + Ideal.exp (-((∑ k, h3R src dst emb W1 b1 g1 be1 W2 b2 g2 be2 W3 b3 r k * W4 k) + b4)))

def h1K : Act 1024 := dense1K src dst emb W1 b1
def h2K : Act 1024 := dense (bnK (h1K src dst emb W1 b1) g1 be1) W2 b2
def h3K : Act 1024 := dense (bnK (h2K src dst emb W1 b1 g1 be1 W2 b2) g2 be2) W3 b3
/-- The fused kernels' result. -/
def outK (r : Fin 16384) : EReal :=
  Ideal.logistic ((∑ k, h3K src dst emb W1 b1 g1 be1 W2 b2 g2 be2 W3 b3 r k * W4 k) + b4)
end

end Cert.Spec

end
-- ==== Proof.RefWords.lean ====
/-
  Word and constant facts the plain program's reading needs: the 0/1 word of "is not padding" converted to a float is
  the mask; a row number below 100000 is not negative as a signed word, passes the program's range test, is left alone
  by its wrap-around of negative numbers, and names itself as the row a gather reads; and the float word 16384.0 is
  above zero.
-/
import Idealize.ShloMosaic.Lib.IdealHost
import Idealize.ShloMosaic.Lib.Affine
import proofs.«209176_g73847667688168_cont_9to1_m_420_10_alg».proof.Proof.Spec
import proofs.«209176_g73847667688168_cont_9to1_m_420_10_alg».proof.Proof.LibRowOps3

noncomputable section

namespace Cert.RefSide

open Idealize.ShloMosaic Idealize.ShloMosaic.ValueIdx Cert.RowOps Cert.RowOps3

/-- The word of `w ≠ 0`, converted to a float, is 1 for a real entry and 0 for padding. -/
theorem mask_eq (w : BitVec 32) :
    @Eq EReal (FloatOps.uitofp (F := Ideal) .f32 (IntOp.cmpi .ne w 0#32)) (Spec.mask w) := by
  show (((IntOp.cmpi .ne w 0#32).toNat : ℝ) : EReal) = if w = 0#32 then 0 else 1
  by_cases h : w = 0#32
  · rw [if_pos h, h, show IntOp.cmpi .ne (0#32 : BitVec 32) 0#32 = 0#1 from by decide]
    simp
  · rw [if_neg h, IntOp.cmpi_ne.mpr h]
    simp

/-- A row number below 100000 is below 2³¹. -/
theorem small_of_lt {w : BitVec 32} (h : w.toNat < 100000) : w.toNat < 2 ^ 31 := by omega

/-- The row the gather reads for a row number below 100000 is the row the specification names. -/
theorem gatherRow_eq_row {w : BitVec 32} (h : w.toNat < 100000) :
    gatherRow 100000 (by decide) w = Spec.row w := by
  refine Fin.ext ?_
  rw [gatherRow_val_of_lt (by decide) w (small_of_lt h) h]
  show w.toNat = min w.toNat 99999
  omega

/-- The program's range test `0 ≤ w ≤ 99999` holds of a row number below 100000. -/
theorem inrange_of_lt {w : BitVec 32} (h : w.toNat < 100000) :
    IntOp.andi (IntOp.cmpi .sge w 0#32) (IntOp.cmpi .sle w 99999#32) = 1#1 :=
  andi_sge_sle_of_small w 99999#32 (small_of_lt h) (by
    rw [show (99999#32 : BitVec 32).toInt = 99999 from by decide]; omega)

/-- The float word of the number of rows is 16384. -/
theorem nRows_eq : Spec.nRows = ((16384 : ℝ) : EReal) := by
  show Ideal.ofBits .f32 0x46800000#32 = _
  simp [Ideal.ofBits, Ideal.ieee, -EReal.coe_mul]; norm_num

theorem nRows_pos : (0 : EReal) < Spec.nRows := by
  rw [nRows_eq]; exact EReal.coe_pos.mpr (by norm_num)

/-- The integer word 0 converted to a float is 0. -/
theorem sitofp_zero : @Eq EReal (FloatOps.sitofp (F := Ideal) .f32 (0#32 : BitVec 32)) 0 := by
  show (((0#32 : BitVec 32).toInt : ℝ) : EReal) = 0
  simp

/-- The comparison "16384 − 0 is above 0" holds. -/
theorem var_guard : Ideal.cmp .ogt (Spec.nRows - 0) (Ideal.ofBits .f32 0x00000000#32) = 1#1 := by
  rw [Ideal.ofBits_zero_f32, sub_zero]
  show BitVec.ofBool (decide ((0 : EReal) < Spec.nRows)) = 1#1
  rw [decide_eq_true nRows_pos]; rfl

end Cert.RefSide

end
-- ==== Proof.RefTake.lean ====
/-
  The row gather with its index checks, read at one element. The program wraps a negative row number by the table's
  height, tests that the result lies in the table, gathers the rows (the gather itself reads the number signed and
  clamped), and replaces an out-of-range entry's row by a junk value. For row numbers below 100000 nothing of this
  fires: the wrap leaves the number, the test holds of every entry, and element (b, l, d) is the table's row
  `idx[b, l]`, column d.
-/
import proofs.«209176_g73847667688168_cont_9to1_m_420_10_alg».proof.Proof.RefOps
import proofs.«209176_g73847667688168_cont_9to1_m_420_10_alg».proof.Proof.RefWords

noncomputable section

open scoped BigOperators

namespace Cert.RefSide

open Cert.ReferenceIdeal Idealize.ShloMosaic Idealize.ShloMosaic.ValueIdx Cert.RowOps Cert.RowOps3

section Take
variable [Facts₀] {α : Type}

theorem take_read {idx : IVec S16384x50 32} {tab : S100000x128.Idx → α}
    {c : IVec S_ 32} {v0 : IVec S16384x50 32} {v1 : IVec S16384x50 1} {c0 : IVec S_ 32} {v2 v3 v4 : IVec S16384x50 32}
    {v5 : IVec S16384x50x1 32} {c1 : IVec S1 32} {c2 : IVec S_ 32} {v6 : IVec S16384x50x1 32} {v7 : IVec S16384x50x1 1}
    {v8 : IVec S1x1x1 32} {v9 : IVec S16384x50x1 32} {v10 v11 : IVec S16384x50x1 1} {c3 : IVec S_ 1}
    {v12 : IVec S16384x50 1} {v13 : S16384x50x128.Idx → α} {v14 : IVec S16384x50x128 1} {v15 v16 : S16384x50x128.Idx → α}
    {e0 : S_.BroadcastsInDim S16384x50 ![]} {e1 : S16384x50.BroadcastsInDim S16384x50x1 ![0, 1]}
    {e2 : S_.BroadcastsInDim S16384x50x1 ![]} {e3 : S1.BroadcastsInDim S1x1x1 ![2]}
    {e4 : S1x1x1.BroadcastsInDim S16384x50x1 ![0, 1, 2]} {e5 : S16384x50x1.ReducesTo [2] S16384x50} {e6 : 0 < S_.numel}
    {e7 : S16384x50.BroadcastsInDim S16384x50x128 ![0, 1]}
    (hc : c = constantI S_ 32 0#32)
    (hv0 : v0 = broadcastInDim S16384x50 ![] e0 c)
    (hv1 : v1 = cmpi .slt idx v0)
    (hc0 : c0 = constantI S_ 32 100000#32)
    (hv2 : v2 = broadcastInDim S16384x50 ![] e0 c0)
    (hv3 : v3 = addi idx v2)
    (hv4 : v4 = select v1 v3 idx)
    (hv5 : v5 = broadcastInDim S16384x50x1 ![0, 1] e1 v4)
    (hc1 : c1 = constantI S1 32 99999#32)
    (hc2 : c2 = constantI S_ 32 0#32)
    (hv6 : v6 = broadcastInDim S16384x50x1 ![] e2 c2)
    (hv7 : v7 = cmpi .sge v5 v6)
    (hv8 : v8 = broadcastInDim S1x1x1 ![2] e3 c1)
    (hv9 : v9 = broadcastInDim S16384x50x1 ![0, 1, 2] e4 v8)
    (hv10 : v10 = cmpi .sle v5 v9)
    (hv11 : v11 = andi v7 v10)
    (hc3 : c3 = constantI S_ 1 1#1)
    (hv12 : v12 = Host.reduce IntOp.andi v11 c3 e5 e6)
    (hv13 : v13 = Host.gather gather_S100000x128_S16384x50x1_S16384x50x128_2_0_n_n_0_2_1128 tab v5)
    (hv14 : v14 = broadcastInDim S16384x50x128 ![0, 1] e7 v12)
    (hv16 : v16 = select v14 v13 v15)
    (hr : ∀ i, (idx i).toNat < 100000) (b : Fin 16384) (l : Fin 50) (d : Fin 128) :
    v16 (ix3 b l d) = tab (ix2 (Spec.row (idx (ix2 b l))) d) := by
  -- the start index of an entry is its row number: the wrap-around does not fire
  have h5 : ∀ (b' : Fin 16384) (l' : Fin 50) (z : Fin 1), v5 (ix3 b' l' z) = idx (ix2 b' l') := by
    intro b' l' z
    rw [hv5, bc_BL_BL1, hv4, select_apply, hv1, hv3]
    show Scalar.select (IntOp.cmpi .slt (idx (ix2 b' l')) (v0 (ix2 b' l')))
      (IntOp.addi (idx (ix2 b' l')) (v2 (ix2 b' l'))) (idx (ix2 b' l')) = _
    rw [hv0, broadcastInDim_scalar_apply, hc]
    exact select_wrap_of_small _ _ (small_of_lt (hr _))
  -- the range test holds of every entry
  have h11 : ∀ i, v11 i = 1#1 := by
    intro i
    obtain ⟨b', l', z, rfl⟩ : ∃ (b' : Fin 16384) (l' : Fin 50) (z : Fin 1), i = ix3 b' l' z := ⟨i 0, i 1, i 2, eq_ix3 i⟩
    rw [hv11, hv7, hv10]
    show IntOp.andi (IntOp.cmpi .sge (v5 (ix3 b' l' z)) (v6 (ix3 b' l' z)))
      (IntOp.cmpi .sle (v5 (ix3 b' l' z)) (v9 (ix3 b' l' z))) = 1#1
    rw [h5, hv6, broadcastInDim_scalar_apply, hc2, hv9, hv8, bc_1_BL1, hc1]
    exact inrange_of_lt (hr _)
  rw [hv16, select_apply, hv14, bc_BL_BLD, hv12, reduce_andi_of_all v11 c3 e5 e6 h11 (fun k => by rw [hc3]; rfl), select_one,
    hv13, gather_apply, h5, gatherRow_eq_row (hr _)]

end Take

end Cert.RefSide

end
-- ==== Proof.RefPool.lean ====
/-
  A bag's average, read at one element. The taken rows are multiplied by the 0/1 mask of "is not padding" and summed over
  the bag; the masks are summed to the bag's count of real entries; the count is raised to at least a tiny positive number
  and the sum is divided by it.
-/
import proofs.«209176_g73847667688168_cont_9to1_m_420_10_alg».proof.Proof.RefOps
import proofs.«209176_g73847667688168_cont_9to1_m_420_10_alg».proof.Proof.RefWords

noncomputable section

open scoped BigOperators

namespace Cert.RefSide

open Cert.ReferenceIdeal Idealize.ShloMosaic Idealize.ShloMosaic.ValueIdx Cert.RowOps Cert.RowOps3

theorem pool_read {idx : IVec S16384x50 32} {tab : FVec Ideal S100000x128 .f32} {e : FVec Ideal S16384x50x128 .f32}
    {c : IVec S_ 32} {v1 : IVec S16384x50 32} {v2 : IVec S16384x50 1} {v3 : IVec S16384x50x1 1}
    {v4 : FVec Ideal S16384x50x1 .f32} {v5 v6 : FVec Ideal S16384x50x128 .f32} {cst : FVec Ideal S_ .f32}
    {v7 : FVec Ideal S16384x128 .f32} {cst0 : FVec Ideal S_ .f32} {v8 : FVec Ideal S16384x1 .f32}
    {cst1 k0 : FVec Ideal S_ .f32} {k1 v9 : FVec Ideal S16384x1 .f32} {v10 v11 : FVec Ideal S16384x128 .f32}
    {e0 : S_.BroadcastsInDim S16384x50 ![]} {e1 : S16384x50.BroadcastsInDim S16384x50x1 ![0, 1]}
    {e2 : S16384x50x1.BroadcastsInDim S16384x50x128 ![0, 1, 2]} {e3 : S16384x50x128.ReducesTo [1] S16384x128}
    {e4 : 0 < S_.numel} {e5 : S16384x50x1.ReducesTo [1] S16384x1} {e6 : S_.BroadcastsInDim S16384x1 ![]}
    {e7 : S16384x1.BroadcastsInDim S16384x128 ![0, 1]}
    (hc : c = constantI S_ 32 0#32)
    (hv1 : v1 = broadcastInDim S16384x50 ![] e0 c)
    (hv2 : v2 = cmpi .ne idx v1)
    (hv3 : v3 = broadcastInDim S16384x50x1 ![0, 1] e1 v2)
    (hv4 : v4 = uitofp .f32 v3)
    (hv5 : v5 = broadcastInDim S16384x50x128 ![0, 1, 2] e2 v4)
    (hv6 : v6 = mulf e v5)
    (hcst : cst = constant S_ .f32 0x00000000#32)
    (hv7 : v7 = Host.reduceAdd v6 cst e3 e4)
    (hcst0 : cst0 = constant S_ .f32 0x00000000#32)
    (hv8 : v8 = Host.reduceAdd v4 cst0 e5 e4)
    (hcst1 : cst1 = constant S_ .f32 0x3089705F#32)
    (hk0 : k0 = id cst1)
    (hk1 : k1 = broadcastInDim S16384x1 ![] e6 k0)
    (hv9 : v9 = maximumf k1 v8)
    (hv10 : v10 = broadcastInDim S16384x128 ![0, 1] e7 v9)
    (hv11 : v11 = Host.divf v7 v10)
    (he : ∀ (b : Fin 16384) (l : Fin 50) (d : Fin 128), e (ix3 b l d) = tab (ix2 (Spec.row (idx (ix2 b l))) d))
    (b : Fin 16384) (d : Fin 128) :
    v11 (ix2 b d) = Spec.meanR (fun b l => idx (ix2 b l)) (fun k n => tab (ix2 k n)) b d := by
  -- the mask of an entry
  have hm : ∀ (b : Fin 16384) (l : Fin 50) (z : Fin 1), v4 (ix3 b l z) = Spec.mask (idx (ix2 b l)) := by
    intro b l z
    rw [hv4]
    show FloatOps.uitofp .f32 (v3 (ix3 b l z)) = _
    rw [hv3, bc_BL_BL1, hv2]
    show FloatOps.uitofp .f32 (IntOp.cmpi .ne (idx (ix2 b l)) (v1 (ix2 b l))) = _
    rw [hv1, broadcastInDim_scalar_apply, hc]
    exact mask_eq _
  have h7 : v7 (ix2 b d) = ∑ l : Fin 50, tab (ix2 (Spec.row (idx (ix2 b l))) d) * Spec.mask (idx (ix2 b l)) := by
    rw [hv7, sum_L_BLD, hcst]
    show Ideal.ofBits .f32 0x00000000#32 + _ = _
    rw [Ideal.ofBits_zero_f32, zero_add]
    refine Finset.sum_congr rfl fun l _ => ?_
    rw [hv6, mulf_apply, he, hv5, bc_BL1_BLD, hm]
  have h8 : v8 (ix2 b 0) = ∑ l : Fin 50, Spec.mask (idx (ix2 b l)) := by
    rw [hv8, sum_L_BL1, hcst0]
    show Ideal.ofBits .f32 0x00000000#32 + _ = _
    rw [Ideal.ofBits_zero_f32, zero_add]
    exact Finset.sum_congr rfl fun l _ => hm b l 0
  rw [hv11, hostDivf_apply, h7, hv10, bc_B1_BD, hv9, maximumf_apply, h8, hk1, broadcastInDim_scalar_apply, hk0, hcst1, max_comm]
  rfl

end Cert.RefSide

end
-- ==== Proof.RefDense.lean ====
/-
  A dense layer read at one element: the product with the weight matrix is the sum over the contracted column, the bias
  row is added at every row, and the rectifier is the maximum with zero. For the first layer the input is the two bag
  averages side by side: column k comes from the first average when k is below 128 and from the second, at k − 128,
  otherwise.
-/
import proofs.«209176_g73847667688168_cont_9to1_m_420_10_alg».proof.Proof.RefOps
import proofs.«209176_g73847667688168_cont_9to1_m_420_10_alg».proof.Proof.RefWords

noncomputable section

open scoped BigOperators

namespace Cert.RefSide

open Cert.ReferenceIdeal Idealize.ShloMosaic Idealize.ShloMosaic.ValueIdx Cert.RowOps Cert.RowOps3

/-- Bias and rectifier after a product. -/
theorem biasrelu_read {x : FVec Ideal S16384x1024 .f32} {bias : FVec Ideal S1024 .f32} {v26 : FVec Ideal S1x1024 .f32}
    {v27 v28 : FVec Ideal S16384x1024 .f32} {z : FVec Ideal S_ .f32} {z0 v29 : FVec Ideal S16384x1024 .f32}
    {e0 : S1024.BroadcastsInDim S1x1024 ![1]} {e1 : S1x1024.BroadcastsInDim S16384x1024 ![0, 1]}
    {e2 : S_.BroadcastsInDim S16384x1024 ![]}
    (hv26 : v26 = broadcastInDim S1x1024 ![1] e0 bias)
    (hv27 : v27 = broadcastInDim S16384x1024 ![0, 1] e1 v26)
    (hv28 : v28 = addf x v27)
    (hz : z = constant S_ .f32 0x00000000#32)
    (hz0 : z0 = broadcastInDim S16384x1024 ![] e2 z)
    (hv29 : v29 = maximumf v28 z0) (r : Fin 16384) (j : Fin 1024) :
    v29 (ix2 r j) = max (x (ix2 r j) + bias (ix1 j)) 0 := by
  rw [hv29, maximumf_apply, hv28, addf_apply, hv27, hv26, bc_H_NH, hz0, broadcastInDim_scalar_apply, hz]
  show max _ (Ideal.ofBits .f32 0x00000000#32) = _
  rw [Ideal.ofBits_zero_f32]

section Dot
variable [Facts₀]

/-- The first layer's product: the two averages side by side, times the weights. -/
theorem dot1_read {a b : FVec Ideal S16384x128 .f32} {W : FVec Ideal S256x1024 .f32} {v24 : FVec Ideal S16384x256 .f32}
    {v25 : FVec Ideal S16384x1024 .f32} {A B : Fin 16384 → Fin 128 → EReal}
    {e : Shape.Concatenates [S16384x128, S16384x128] S16384x256 1}
    (hv24 : v24 = concatenate S16384x256 1 [⟨S16384x128, a⟩, ⟨S16384x128, b⟩] e)
    (hv25 : v25 = Host.dotGeneral dot_S16384x256_S256x1024_S16384x1024_1_0_0_1_n_n none v24 W)
    (ha : ∀ r k, a (ix2 r k) = A r k) (hb : ∀ r k, b (ix2 r k) = B r k) (r : Fin 16384) (j : Fin 1024) :
    v25 (ix2 r j)
      = ∑ k : Fin 256, (if h : k.val < 128 then A r ⟨k.val, h⟩ else B r ⟨k.val - 128, by omega⟩) * W (ix2 k j) := by
  rw [hv25, dot_256_apply]
  refine Finset.sum_congr rfl fun k _ => congrArg (· * W (ix2 k j)) ?_
  rw [hv24]
  by_cases h : k.val < 128
  · rw [dif_pos h, cat_left e a b r k h, ha]
  · rw [dif_neg h, cat_right e a b r k (by omega), hb]

/-- A later layer's product. -/
theorem dot2_read {x : FVec Ideal S16384x1024 .f32} {W : FVec Ideal S1024x1024 .f32} {v49 : FVec Ideal S16384x1024 .f32}
    {X : Fin 16384 → Fin 1024 → EReal}
    (hv49 : v49 = Host.dotGeneral dot_S16384x1024_S1024x1024_S16384x1024_1_0_0_1_n_n none x W)
    (hx : ∀ r k, x (ix2 r k) = X r k) (r : Fin 16384) (j : Fin 1024) :
    v49 (ix2 r j) = ∑ k : Fin 1024, X r k * W (ix2 k j) := by
  rw [hv49, dot_1024_apply]
  exact Finset.sum_congr rfl fun k _ => by rw [hx]

end Dot

end Cert.RefSide

end
-- ==== Proof.RefBn.lean ====
/-
  Batch normalisation in the centred form, read at one element. The column mean is the column sum divided by the number of
  rows. The variance function centres the column by its own copy of that mean, squares, sums and divides by "rows minus
  the correction", the correction being the integer 0 converted to a float; its guard "rows − correction > 0" holds, so
  the guarded junk value is never chosen. The normalisation subtracts the mean, divides by the square root of variance
  plus epsilon, multiplies by the scale row and adds the shift row.
-/
import proofs.«209176_g73847667688168_cont_9to1_m_420_10_alg».proof.Proof.RefOps
import proofs.«209176_g73847667688168_cont_9to1_m_420_10_alg».proof.Proof.RefWords

noncomputable section

open scoped BigOperators

namespace Cert.RefSide

open Cert.ReferenceIdeal Idealize.ShloMosaic Idealize.ShloMosaic.ValueIdx Cert.RowOps Cert.RowOps3

/-- The column mean. -/
theorem mean_read {h : FVec Ideal S16384x1024 .f32} {H : Fin 16384 → Fin 1024 → EReal} {z : FVec Ideal S_ .f32}
    {v30 : FVec Ideal S1024 .f32} {n : FVec Ideal S_ .f32} {v31 v32 : FVec Ideal S1024 .f32}
    {e0 : S16384x1024.ReducesTo [0] S1024} {e1 : 0 < S_.numel} {e2 : S_.BroadcastsInDim S1024 ![]}
    (hz : z = constant S_ .f32 0x00000000#32)
    (hv30 : v30 = Host.reduceAdd h z e0 e1)
    (hn : n = constant S_ .f32 0x46800000#32)
    (hv31 : v31 = broadcastInDim S1024 ![] e2 n)
    (hv32 : v32 = Host.divf v30 v31)
    (hH : ∀ r j, h (ix2 r j) = H r j) (j : Fin 1024) :
    v32 (ix1 j) = Spec.colMean H j := by
  rw [hv32, hostDivf_apply, hv30, sum_N_NH, hz, hv31, broadcastInDim_scalar_apply, hn]
  show Ideal.div (Ideal.ofBits .f32 0x00000000#32 + _) Spec.nRows = Ideal.div (∑ r, H r j) Spec.nRows
  rw [Ideal.ofBits_zero_f32, zero_add]
  exact congrArg (Ideal.div · Spec.nRows) (Finset.sum_congr rfl fun r _ => hH r j)

/-- The column variance, through the variance function and its guard. -/
theorem var_read {h : FVec Ideal S16384x1024 .f32} {H : Fin 16384 → Fin 1024 → EReal} {c8 : IVec S_ 32}
    {cst : FVec Ideal S_ .f32} {v0 : FVec Ideal S1024 .f32} {v1 : FVec Ideal S1x1024 .f32} {cst0 : FVec Ideal S_ .f32}
    {v2 v3 : FVec Ideal S1x1024 .f32} {v4 v5 v6 : FVec Ideal S16384x1024 .f32} {v7 cst1 v8 cst2 : FVec Ideal S_ .f32}
    {v9 v10 v11 : FVec Ideal S1024 .f32} {cst3 : FVec Ideal S_ .f32} {v12 : IVec S_ 1} {w1 v33 : FVec Ideal S1024 .f32}
    {e0 : S16384x1024.ReducesTo [0] S1024} {e1 : 0 < S_.numel} {e2 : S1024.BroadcastsInDim S1x1024 ![1]}
    {e3 : S_.BroadcastsInDim S1x1024 ![]} {e4 : S1x1024.BroadcastsInDim S16384x1024 ![0, 1]}
    {e5 : S_.BroadcastsInDim S1024 ![]}
    (hc8 : c8 = constantI S_ 32 0#32)
    (hcst : cst = constant S_ .f32 0x00000000#32)
    (hv0 : v0 = Host.reduceAdd h cst e0 e1)
    (hv1 : v1 = broadcastInDim S1x1024 ![1] e2 v0)
    (hcst0 : cst0 = constant S_ .f32 0x46800000#32)
    (hv2 : v2 = broadcastInDim S1x1024 ![] e3 cst0)
    (hv3 : v3 = Host.divf v1 v2)
    (hv4 : v4 = broadcastInDim S16384x1024 ![0, 1] e4 v3)
    (hv5 : v5 = subf h v4)
    (hv6 : v6 = mulf v5 v5)
    (hv7 : v7 = sitofp .f32 c8)
    (hcst1 : cst1 = constant S_ .f32 0x46800000#32)
    (hv8 : v8 = subf cst1 v7)
    (hcst2 : cst2 = constant S_ .f32 0x00000000#32)
    (hv9 : v9 = Host.reduceAdd v6 cst2 e0 e1)
    (hv10 : v10 = broadcastInDim S1024 ![] e5 v8)
    (hv11 : v11 = Host.divf v9 v10)
    (hcst3 : cst3 = constant S_ .f32 0x00000000#32)
    (hv12 : v12 = cmpf .ogt v8 cst3)
    (hv33 : v33 = select (broadcastInDim S1024 ![] e5 v12) v11 w1)
    (hH : ∀ r j, h (ix2 r j) = H r j) (j : Fin 1024) :
    v33 (ix1 j) = Spec.colVar H j := by
  -- rows minus the correction
  have h8 : v8 ix0 = Spec.nRows - 0 := by
    rw [hv8, hcst1, hv7, hc8]
    exact congrArg (Spec.nRows - ·) sitofp_zero
  -- the function's own copy of the mean
  have hm : ∀ (z : Fin 1) (j : Fin 1024), v3 (ix2 z j) = Spec.colMean H j := by
    intro z j
    rw [hv3, hostDivf_apply, hv1, bc_H_1H, hv0, sum_N_NH, hcst, hv2, broadcastInDim_scalar_apply, hcst0]
    show Ideal.div (Ideal.ofBits .f32 0x00000000#32 + _) Spec.nRows = Ideal.div (∑ r, H r j) Spec.nRows
    rw [Ideal.ofBits_zero_f32, zero_add]
    exact congrArg (Ideal.div · Spec.nRows) (Finset.sum_congr rfl fun r _ => hH r j)
  -- the guard holds
  have h12 : v12 ix0 = 1#1 := by
    rw [hv12, cmpf_apply, h8, hcst3]
    exact var_guard
  rw [hv33, select_apply, broadcastInDim_scalar_apply, h12, select_one, hv11, hostDivf_apply, hv9, sum_N_NH, hcst2, hv10,
    broadcastInDim_scalar_apply, h8, sub_zero]
  show Ideal.div (Ideal.ofBits .f32 0x00000000#32 + _) Spec.nRows
    = Ideal.div (∑ r, (H r j - Spec.colMean H j) * (H r j - Spec.colMean H j)) Spec.nRows
  rw [Ideal.ofBits_zero_f32, zero_add]
  refine congrArg (Ideal.div · Spec.nRows) (Finset.sum_congr rfl fun r _ => ?_)
  rw [hv6, mulf_apply, hv5, subf_apply, hv4, bc_1H_NH, hm, hH]

/-- The normalisation. -/
theorem norm_read {h : FVec Ideal S16384x1024 .f32} {H : Fin 16384 → Fin 1024 → EReal} {mean var g be : FVec Ideal S1024 .f32}
    {v34 : FVec Ideal S1x1024 .f32} {v35 v36 : FVec Ideal S16384x1024 .f32} {cst9 : FVec Ideal S_ .f32}
    {v37 v38 v39 : FVec Ideal S1024 .f32} {v40 : FVec Ideal S1x1024 .f32} {v41 v42 : FVec Ideal S16384x1024 .f32}
    {v43 : FVec Ideal S1x1024 .f32} {v44 v45 : FVec Ideal S16384x1024 .f32} {v46 : FVec Ideal S1x1024 .f32}
    {v47 v48 : FVec Ideal S16384x1024 .f32}
    {e0 : S1024.BroadcastsInDim S1x1024 ![1]} {e1 : S1x1024.BroadcastsInDim S16384x1024 ![0, 1]}
    {e2 : S_.BroadcastsInDim S1024 ![]}
    (hv34 : v34 = broadcastInDim S1x1024 ![1] e0 mean)
    (hv35 : v35 = broadcastInDim S16384x1024 ![0, 1] e1 v34)
    (hv36 : v36 = subf h v35)
    (hcst9 : cst9 = constant S_ .f32 0x3727C5AC#32)
    (hv37 : v37 = broadcastInDim S1024 ![] e2 cst9)
    (hv38 : v38 = addf var v37)
    (hv39 : v39 = Host.sqrt v38)
    (hv40 : v40 = broadcastInDim S1x1024 ![1] e0 v39)
    (hv41 : v41 = broadcastInDim S16384x1024 ![0, 1] e1 v40)
    (hv42 : v42 = Host.divf v36 v41)
    (hv43 : v43 = broadcastInDim S1x1024 ![1] e0 g)
    (hv44 : v44 = broadcastInDim S16384x1024 ![0, 1] e1 v43)
    (hv45 : v45 = mulf v42 v44)
    (hv46 : v46 = broadcastInDim S1x1024 ![1] e0 be)
    (hv47 : v47 = broadcastInDim S16384x1024 ![0, 1] e1 v46)
    (hv48 : v48 = addf v45 v47)
    (hH : ∀ r j, h (ix2 r j) = H r j) (hmean : ∀ j, mean (ix1 j) = Spec.colMean H j)
    (hvar : ∀ j, var (ix1 j) = Spec.colVar H j) (r : Fin 16384) (j : Fin 1024) :
    v48 (ix2 r j) = Spec.bnR H (fun j => g (ix1 j)) (fun j => be (ix1 j)) r j := by
  rw [hv48, addf_apply, hv45, mulf_apply, hv42, hostDivf_apply, hv36, subf_apply, hH, hv35, hv34, bc_H_NH, hmean, hv41, hv40,
    bc_H_NH, hv39]
  show Ideal.div _ (Ideal.sqrt (v38 (ix1 j))) * _ + _ = _
  rw [hv38, addf_apply, hvar, hv37, broadcastInDim_scalar_apply, hcst9, hv44, hv43, bc_H_NH, hv47, hv46, bc_H_NH]
  rfl

end Cert.RefSide

end
-- ==== Proof.RefOut.lean ====
/-
  The last layer and the logistic function, read at one element: the product with the one weight column, plus the one
  bias value, reshaped from a column to a vector, negated, exponentiated, one added, and one divided by that.
-/
import proofs.«209176_g73847667688168_cont_9to1_m_420_10_alg».proof.Proof.RefOps
import proofs.«209176_g73847667688168_cont_9to1_m_420_10_alg».proof.Proof.RefWords

noncomputable section

open scoped BigOperators

namespace Cert.RefSide

open Cert.ReferenceIdeal Idealize.ShloMosaic Idealize.ShloMosaic.ValueIdx Cert.RowOps Cert.RowOps3

theorem out_read [Facts₀] {x : FVec Ideal S16384x1024 .f32} {X : Fin 16384 → Fin 1024 → EReal} {W4 : FVec Ideal S1024x1 .f32}
    {b4 : FVec Ideal S1 .f32} {v78 : FVec Ideal S16384x1 .f32} {v79 : FVec Ideal S1x1 .f32} {v80 v81 : FVec Ideal S16384x1 .f32}
    {v82 v83 v84 : FVec Ideal S16384 .f32} {c14 : FVec Ideal S_ .f32} {v85 v86 : FVec Ideal S16384 .f32}
    {c15 : FVec Ideal S_ .f32} {v87 v88 : FVec Ideal S16384 .f32}
    {e0 : S1.BroadcastsInDim S1x1 ![1]} {e1 : S1x1.BroadcastsInDim S16384x1 ![0, 1]} {e2 : S16384x1.ShapeCasts S16384}
    {e3 : S_.BroadcastsInDim S16384 ![]}
    (hv78 : v78 = Host.dotGeneral dot_S16384x1024_S1024x1_S16384x1_1_0_0_1_n_n none x W4)
    (hv79 : v79 = broadcastInDim S1x1 ![1] e0 b4)
    (hv80 : v80 = broadcastInDim S16384x1 ![0, 1] e1 v79)
    (hv81 : v81 = addf v78 v80)
    (hv82 : v82 = shapeCast S16384 v81 e2)
    (hv83 : v83 = Host.negf v82)
    (hv84 : v84 = Host.exp v83)
    (hc14 : c14 = constant S_ .f32 0x3F800000#32)
    (hv85 : v85 = broadcastInDim S16384 ![] e3 c14)
    (hv86 : v86 = addf v85 v84)
    (hc15 : c15 = constant S_ .f32 0x3F800000#32)
    (hv87 : v87 = broadcastInDim S16384 ![] e3 c15)
    (hv88 : v88 = Host.divf v87 v86)
    (hx : ∀ r k, x (ix2 r k) = X r k) (r : Fin 16384) :
    v88 (ix1 r) = Ideal.div 1 (1 + Ideal.exp (-((∑ k : Fin 1024, X r k * W4 (ix2 k 0)) + b4 (ix1 0)))) := by
  rw [hv88, hostDivf_apply, hv87, broadcastInDim_scalar_apply, hc15, hv86, addf_apply, hv85, broadcastInDim_scalar_apply, hc14, hv84]
  show Ideal.div (Ideal.ofBits .f32 0x3F800000#32) (Ideal.ofBits .f32 0x3F800000#32 + Ideal.exp (v83 (ix1 r))) = _
  rw [Ideal.ofBits_one_f32, hv83]
  show Ideal.div 1 (1 + Ideal.exp (-(v82 (ix1 r)))) = _
  rw [hv82, cast_N1_N, hv81, addf_apply, hv80, hv79, bc_1_N1, hv78, dot_col_apply]
  refine congrArg (fun t => Ideal.div 1 (1 + Ideal.exp (-(t + b4 (ix1 0))))) (Finset.sum_congr rfl fun k _ => ?_)
  rw [hx]

end Cert.RefSide

end
-- ==== Proof.SpecArgs.lean ====
/-
  The specification applied to raw argument arrays: each array is a function on the index type of its literal
  shape, and the result is an array over the 16384 examples.
-/
import proofs.«209176_g73847667688168_cont_9to1_m_420_10_alg».proof.Proof.Spec
import Idealize.ShloMosaic.Lib.ValueIdx

noncomputable section

namespace Cert.SpecArgs

open Idealize.ShloMosaic Idealize.ShloMosaic.ValueIdx

/-- A rank-2 array read by its two coordinates. -/
def mat {α : Type} {K N : Nat} (a : (⟨2, ![K, N]⟩ : Shape).Idx → α) : Fin K → Fin N → α := fun k n => a (ix2 k n)
/-- A rank-1 array read by its coordinate. -/
def vec {α : Type} {N : Nat} (a : (⟨1, ![N]⟩ : Shape).Idx → α) : Fin N → α := fun n => a (ix1 n)
/-- The one column of a [K, 1] array. -/
def col {α : Type} {K : Nat} (a : (⟨2, ![K, 1]⟩ : Shape).Idx → α) : Fin K → α := fun k => a (ix2 k (0 : Fin 1))
/-- The one entry of a [1] array. -/
def scal {α : Type} (a : (⟨1, ![1]⟩ : Shape).Idx → α) : α := a (ix1 (0 : Fin 1))

section
variable (a0 a1 : (⟨2, ![16384, 50]⟩ : Shape).Idx → BitVec 32) (a2 : (⟨2, ![100000, 128]⟩ : Shape).Idx → EReal)
  (a3 : (⟨2, ![256, 1024]⟩ : Shape).Idx → EReal) (a4 a5 a6 : (⟨1, ![1024]⟩ : Shape).Idx → EReal)
  (a7 : (⟨2, ![1024, 1024]⟩ : Shape).Idx → EReal) (a8 a9 a10 : (⟨1, ![1024]⟩ : Shape).Idx → EReal)
  (a11 : (⟨2, ![1024, 1024]⟩ : Shape).Idx → EReal) (a12 : (⟨1, ![1024]⟩ : Shape).Idx → EReal)
  (a13 : (⟨2, ![1024, 1]⟩ : Shape).Idx → EReal) (a14 : (⟨1, ![1]⟩ : Shape).Idx → EReal)

/-- The plain program's result array, as a function of the fifteen argument arrays in @main's order. -/
def outR : (⟨1, ![16384]⟩ : Shape).Idx → EReal := fun i =>
  Spec.outR (mat a0) (mat a1) (mat a2) (mat a3) (vec a4) (vec a5) (vec a6) (mat a7) (vec a8) (vec a9) (vec a10) (mat a11) (vec a12) (col a13) (scal a14) (i 0)

/-- The fused kernels' result array, as a function of the same arrays. -/
def outK : (⟨1, ![16384]⟩ : Shape).Idx → EReal := fun i =>
  Spec.outK (mat a0) (mat a1) (mat a2) (mat a3) (vec a4) (vec a5) (vec a6) (mat a7) (vec a8) (vec a9) (vec a10) (mat a11) (vec a12) (col a13) (scal a14) (i 0)
end

end Cert.SpecArgs

end
-- ==== Proof.RefValue.lean ====
/-
  The plain program's result array is the specification's, in the form that follows the plain program. All equations are
  between the contents the buffers hold once the whole line has run: each layer's reading at an index is applied to the
  operations' defining equations, and the readings are chained from the gather to the final quotient. The two bags, the
  three dense layers and the two normalisations each use one reading, at their own buffers.
-/
import proofs.«209176_g73847667688168_cont_9to1_m_420_10_alg».proof.Proof.RefEqs0
import proofs.«209176_g73847667688168_cont_9to1_m_420_10_alg».proof.Proof.RefEqs1
import proofs.«209176_g73847667688168_cont_9to1_m_420_10_alg».proof.Proof.RefEqs2
import proofs.«209176_g73847667688168_cont_9to1_m_420_10_alg».proof.Proof.RefEqs3
import proofs.«209176_g73847667688168_cont_9to1_m_420_10_alg».proof.Proof.RefTake
import proofs.«209176_g73847667688168_cont_9to1_m_420_10_alg».proof.Proof.RefPool
import proofs.«209176_g73847667688168_cont_9to1_m_420_10_alg».proof.Proof.RefDense
import proofs.«209176_g73847667688168_cont_9to1_m_420_10_alg».proof.Proof.RefBn
import proofs.«209176_g73847667688168_cont_9to1_m_420_10_alg».proof.Proof.RefOut
import proofs.«209176_g73847667688168_cont_9to1_m_420_10_alg».proof.Proof.SpecArgs

noncomputable section

open scoped BigOperators

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.SpecArgs

section
variable (V : Valuation τ sig (Elt Ideal))

/-- The argument arrays as the specification reads them. -/
abbrev src : Spec.Idx := mat (R V main_arg0)
abbrev dst : Spec.Idx := mat (R V main_arg1)
abbrev emb : Spec.Tab := mat (R V main_arg2)

variable (hr0 : ∀ i, (R V main_arg0 i).toNat < 100000) (hr1 : ∀ i, (R V main_arg1 i).toNat < 100000)
include hr0 hr1

/-- The first bag's average. -/
theorem v11_eq (b : Fin 16384) (d : Fin 128) : R V main_v11 (ix2 b d) = Spec.meanR (src V) (emb V) b d :=
  pool_read (eq_main_c V) (eq_main_v1 V) (eq_main_v2 V) (eq_main_v3 V) (eq_main_v4 V) (eq_main_v5 V) (eq_main_v6 V) (eq_main_cst V) (eq_main_v7 V) (eq_main_cst_0 V) (eq_main_v8 V) (eq_main_cst_1 V) (eq_main_call1_v0 V) (eq_main_call1_v1 V) (eq_main_v9 V) (eq_main_v10 V) (eq_main_v11 V)
    (take_read (eq_main_call0_c V) (eq_main_call0_v0 V) (eq_main_call0_v1 V) (eq_main_call0_c_0 V) (eq_main_call0_v2 V) (eq_main_call0_v3 V) (eq_main_call0_v4 V) (eq_main_call0_v5 V) (eq_main_call0_c_1 V) (eq_main_call0_c_2 V) (eq_main_call0_v6 V) (eq_main_call0_v7 V) (eq_main_call0_v8 V) (eq_main_call0_v9 V) (eq_main_call0_v10 V) (eq_main_call0_v11 V) (eq_main_call0_c_3 V) (eq_main_call0_v12 V) (eq_main_call0_v13 V) (eq_main_call0_v14 V) (eq_main_v0 V) hr0) b d

/-- The second bag's average. -/
theorem v23_eq (b : Fin 16384) (d : Fin 128) : R V main_v23 (ix2 b d) = Spec.meanR (dst V) (emb V) b d :=
  pool_read (eq_main_c_2 V) (eq_main_v13 V) (eq_main_v14 V) (eq_main_v15 V) (eq_main_v16 V) (eq_main_v17 V) (eq_main_v18 V) (eq_main_cst_3 V) (eq_main_v19 V) (eq_main_cst_4 V) (eq_main_v20 V) (eq_main_cst_5 V) (eq_main_call3_v0 V) (eq_main_call3_v1 V) (eq_main_v21 V) (eq_main_v22 V) (eq_main_v23 V)
    (take_read (eq_main_call2_c V) (eq_main_call2_v0 V) (eq_main_call2_v1 V) (eq_main_call2_c_0 V) (eq_main_call2_v2 V) (eq_main_call2_v3 V) (eq_main_call2_v4 V) (eq_main_call2_v5 V) (eq_main_call2_c_1 V) (eq_main_call2_c_2 V) (eq_main_call2_v6 V) (eq_main_call2_v7 V) (eq_main_call2_v8 V) (eq_main_call2_v9 V) (eq_main_call2_v10 V) (eq_main_call2_v11 V) (eq_main_call2_c_3 V) (eq_main_call2_v12 V) (eq_main_call2_v13 V) (eq_main_call2_v14 V) (eq_main_v12 V) hr1) b d

/-- The first dense layer. -/
theorem v29_eq (r : Fin 16384) (j : Fin 1024) :
    R V main_v29 (ix2 r j) = Spec.h1R (src V) (dst V) (emb V) (mat (R V main_arg3)) (vec (R V main_arg4)) r j := by
  rw [biasrelu_read (eq_main_v26 V) (eq_main_v27 V) (eq_main_v28 V) (eq_main_call4_cst V) (eq_main_call4_v0 V) (eq_main_v29 V) r j,
    dot1_read (eq_main_v24 V) (eq_main_v25 V) (v11_eq V hr0 hr1) (v23_eq V hr0 hr1) r j]
  rfl

/-- The first normalisation. -/
theorem v48_eq (r : Fin 16384) (j : Fin 1024) :
    R V main_v48 (ix2 r j)
      = Spec.bnR (Spec.h1R (src V) (dst V) (emb V) (mat (R V main_arg3)) (vec (R V main_arg4))) (vec (R V main_arg5))
          (vec (R V main_arg6)) r j :=
  norm_read (eq_main_v34 V) (eq_main_v35 V) (eq_main_v36 V) (eq_main_cst_9 V) (eq_main_v37 V) (eq_main_v38 V) (eq_main_v39 V) (eq_main_v40 V) (eq_main_v41 V) (eq_main_v42 V) (eq_main_v43 V) (eq_main_v44 V) (eq_main_v45 V) (eq_main_v46 V) (eq_main_v47 V) (eq_main_v48 V) (v29_eq V hr0 hr1)
    (mean_read (eq_main_cst_6 V) (eq_main_v30 V) (eq_main_cst_7 V) (eq_main_v31 V) (eq_main_v32 V) (v29_eq V hr0 hr1))
    (var_read (eq_main_c_8 V) (eq_main_call5_cst V) (eq_main_call5_v0 V) (eq_main_call5_v1 V) (eq_main_call5_cst_0 V) (eq_main_call5_v2 V) (eq_main_call5_v3 V) (eq_main_call5_v4 V) (eq_main_call5_v5 V) (eq_main_call5_v6 V) (eq_main_call5_v7 V) (eq_main_call5_cst_1 V) (eq_main_call5_v8 V) (eq_main_call5_cst_2 V) (eq_main_call5_v9 V) (eq_main_call5_v10 V) (eq_main_call5_v11 V) (eq_main_call5_cst_3 V) (eq_main_call5_v12 V) (eq_main_v33 V) (v29_eq V hr0 hr1)) r j

/-- The second dense layer. -/
theorem v53_eq (r : Fin 16384) (j : Fin 1024) :
    R V main_v53 (ix2 r j)
      = Spec.h2R (src V) (dst V) (emb V) (mat (R V main_arg3)) (vec (R V main_arg4)) (vec (R V main_arg5)) (vec (R V main_arg6))
          (mat (R V main_arg7)) (vec (R V main_arg8)) r j := by
  rw [biasrelu_read (eq_main_v50 V) (eq_main_v51 V) (eq_main_v52 V) (eq_main_call6_cst V) (eq_main_call6_v0 V) (eq_main_v53 V) r j,
    dot2_read (eq_main_v49 V) (v48_eq V hr0 hr1) r j]
  rfl

/-- The second normalisation. -/
theorem v72_eq (r : Fin 16384) (j : Fin 1024) :
    R V main_v72 (ix2 r j)
      = Spec.bnR (Spec.h2R (src V) (dst V) (emb V) (mat (R V main_arg3)) (vec (R V main_arg4)) (vec (R V main_arg5))
          (vec (R V main_arg6)) (mat (R V main_arg7)) (vec (R V main_arg8))) (vec (R V main_arg9)) (vec (R V main_arg10)) r j :=
  norm_read (eq_main_v58 V) (eq_main_v59 V) (eq_main_v60 V) (eq_main_cst_13 V) (eq_main_v61 V) (eq_main_v62 V) (eq_main_v63 V) (eq_main_v64 V) (eq_main_v65 V) (eq_main_v66 V) (eq_main_v67 V) (eq_main_v68 V) (eq_main_v69 V) (eq_main_v70 V) (eq_main_v71 V) (eq_main_v72 V) (v53_eq V hr0 hr1)
    (mean_read (eq_main_cst_10 V) (eq_main_v54 V) (eq_main_cst_11 V) (eq_main_v55 V) (eq_main_v56 V) (v53_eq V hr0 hr1))
    (var_read (eq_main_c_12 V) (eq_main_call7_cst V) (eq_main_call7_v0 V) (eq_main_call7_v1 V) (eq_main_call7_cst_0 V) (eq_main_call7_v2 V) (eq_main_call7_v3 V) (eq_main_call7_v4 V) (eq_main_call7_v5 V) (eq_main_call7_v6 V) (eq_main_call7_v7 V) (eq_main_call7_cst_1 V) (eq_main_call7_v8 V) (eq_main_call7_cst_2 V) (eq_main_call7_v9 V) (eq_main_call7_v10 V) (eq_main_call7_v11 V) (eq_main_call7_cst_3 V) (eq_main_call7_v12 V) (eq_main_v57 V) (v53_eq V hr0 hr1)) r j

/-- The third dense layer. -/
theorem v77_eq (r : Fin 16384) (j : Fin 1024) :
    R V main_v77 (ix2 r j)
      = Spec.h3R (src V) (dst V) (emb V) (mat (R V main_arg3)) (vec (R V main_arg4)) (vec (R V main_arg5)) (vec (R V main_arg6))
          (mat (R V main_arg7)) (vec (R V main_arg8)) (vec (R V main_arg9)) (vec (R V main_arg10)) (mat (R V main_arg11))
          (vec (R V main_arg12)) r j := by
  rw [biasrelu_read (eq_main_v74 V) (eq_main_v75 V) (eq_main_v76 V) (eq_main_call8_cst V) (eq_main_call8_v0 V) (eq_main_v77 V) r j,
    dot2_read (eq_main_v73 V) (v72_eq V hr0 hr1) r j]
  rfl

/-- The result array, on the contents the buffers hold once the line has run. -/
theorem value_eq : R V main_v88 = SpecArgs.outR (R V main_arg0) (R V main_arg1) (R V main_arg2) (R V main_arg3) (R V main_arg4) (R V main_arg5) (R V main_arg6) (R V main_arg7) (R V main_arg8) (R V main_arg9) (R V main_arg10) (R V main_arg11) (R V main_arg12) (R V main_arg13) (R V main_arg14) := by
  funext i
  exact (congrArg (R V main_v88) (eq_ix1 i)).trans
    (out_read (eq_main_v78 V) (eq_main_v79 V) (eq_main_v80 V) (eq_main_v81 V) (eq_main_v82 V) (eq_main_v83 V) (eq_main_v84 V) (eq_main_cst_14 V) (eq_main_v85 V) (eq_main_v86 V) (eq_main_cst_15 V) (eq_main_v87 V) (eq_main_v88 V) (v77_eq V hr0 hr1) (i 0))

end

/-- THE RESULT ARRAY OF THE PLAIN PROGRAM, for row numbers below 100000, is the specification's. -/
theorem refOut_eq (m : (ℓ : Loc nD τ sig) → Buf (Elt Ideal) ℓ) (c : Dev nD)
    (h0 : ∀ i, (m ((c.tc : Thread nD τ).loc main_arg0) i).toNat < 100000)
    (h1 : ∀ i, (m ((c.tc : Thread nD τ).loc main_arg1) i).toNat < 100000) :
    refOut m c = SpecArgs.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have e0 : R (launchContents m c) main_arg0 = m ((c.tc : Thread nD τ).loc main_arg0) := final_keep m c (by decide)
  have e1 : R (launchContents m c) main_arg1 = m ((c.tc : Thread nD τ).loc main_arg1) := final_keep m c (by decide)
  have e2 : R (launchContents m c) main_arg2 = m ((c.tc : Thread nD τ).loc main_arg2) := final_keep m c (by decide)
  have e3 : R (launchContents m c) main_arg3 = m ((c.tc : Thread nD τ).loc main_arg3) := final_keep m c (by decide)
  have e4 : R (launchContents m c) main_arg4 = m ((c.tc : Thread nD τ).loc main_arg4) := final_keep m c (by decide)
  have e5 : R (launchContents m c) main_arg5 = m ((c.tc : Thread nD τ).loc main_arg5) := final_keep m c (by decide)
  have e6 : R (launchContents m c) main_arg6 = m ((c.tc : Thread nD τ).loc main_arg6) := final_keep m c (by decide)
  have e7 : R (launchContents m c) main_arg7 = m ((c.tc : Thread nD τ).loc main_arg7) := final_keep m c (by decide)
  have e8 : R (launchContents m c) main_arg8 = m ((c.tc : Thread nD τ).loc main_arg8) := final_keep m c (by decide)
  have e9 : R (launchContents m c) main_arg9 = m ((c.tc : Thread nD τ).loc main_arg9) := final_keep m c (by decide)
  have e10 : R (launchContents m c) main_arg10 = m ((c.tc : Thread nD τ).loc main_arg10) := final_keep m c (by decide)
  have e11 : R (launchContents m c) main_arg11 = m ((c.tc : Thread nD τ).loc main_arg11) := final_keep m c (by decide)
  have e12 : R (launchContents m c) main_arg12 = m ((c.tc : Thread nD τ).loc main_arg12) := final_keep m c (by decide)
  have e13 : R (launchContents m c) main_arg13 = m ((c.tc : Thread nD τ).loc main_arg13) := final_keep m c (by decide)
  have e14 : R (launchContents m c) main_arg14 = m ((c.tc : Thread nD τ).loc main_arg14) := final_keep m c (by decide)
  have h := value_eq (launchContents m c) (fun i => by rw [e0]; exact h0 i) (fun i => by rw [e1]; exact h1 i)
  rw [e0, e1, e2, e3, e4, e5, e6, e7, e8, e9, e10, e11, e12, e13, e14] at h
  exact h

end Cert.RefSide

end
-- ==== Proof.AlgebraConsts.lean ====
/-
  The four float words the specification shares, read as real numbers: the number of examples 16384 and its
  reciprocal are exact powers of two, and the two small thresholds (the floor of a bag's size, the variance
  offset) are positive reals.
-/
import proofs.«209176_g73847667688168_cont_9to1_m_420_10_alg».proof.Proof.Spec
import proofs.«209176_g73847667688168_cont_9to1_m_420_10_alg».proof.Proof.LibFinite

noncomputable section

namespace Cert.Algebra

open Idealize.ShloMosaic Cert.Spec Cert.Finite

/-- The word `0x46800000` is 2^14 = 16384. -/
theorem nRows_eq : nRows = ((16384 : ℝ) : EReal) := by
  simp [nRows, Ideal.ofBits, Ideal.ieee, -EReal.coe_mul, -EReal.coe_neg]
  norm_num

/-- The word `0x38800000` is 2^-14 = 1/16384. -/
theorem invRows_eq : invRows = (((16384 : ℝ)⁻¹ : ℝ) : EReal) := by
  simp [invRows, Ideal.ofBits, Ideal.ieee, -EReal.coe_mul, -EReal.coe_neg]
  norm_num

/-- The variance offset is a positive real. -/
theorem eps_pos : ∃ e : ℝ, 0 < e ∧ eps = (e : EReal) := by
  simp [eps, Ideal.ofBits, Ideal.ieee, -EReal.coe_mul, -EReal.coe_neg]

/-- The floor of a bag's size is a positive real. -/
theorem tiny_pos : ∃ e : ℝ, 0 < e ∧ tiny = (e : EReal) := by
  simp [tiny, Ideal.ofBits, Ideal.ieee, -EReal.coe_mul, -EReal.coe_neg]

end Cert.Algebra

end
-- ==== Proof.AlgebraPool.lean ====
/-
  The first layer of the two forms agrees. A padding entry contributes nothing either way (a product with
  the mask 0 is 0, with the mask 1 is the row itself), so the pooled sums and the averages are the same; the
  dense layer over the concatenated averages is the sum over the first 128 columns plus the sum over the
  last 128 columns. Averages of finite table rows are finite (the divisor is at least a positive real), and a
  dense layer with rectifier keeps finite values finite.
-/
import proofs.«209176_g73847667688168_cont_9to1_m_420_10_alg».proof.Proof.AlgebraConsts

noncomputable section

open scoped BigOperators

namespace Cert.Algebra

open Idealize.ShloMosaic Cert.Spec Cert.Finite

/-- The two pooled sums agree, whatever the table holds. -/
theorem poolK_eq_poolR (idx : Idx) (emb : Tab) : poolK idx emb = poolR idx emb := by
  funext b d
  unfold poolK poolR mask
  refine Finset.sum_congr rfl fun l _ => ?_
  by_cases h : idx b l = 0#32
  · rw [if_pos h, if_pos h, mul_zero]
  · rw [if_neg h, if_neg h, mul_one]

/-- The two averages agree. -/
theorem meanK_eq_meanR (idx : Idx) (emb : Tab) : meanK idx emb = meanR idx emb := by
  funext b d
  unfold meanK meanR
  rw [poolK_eq_poolR]

/-- The mask is 0 or 1. -/
theorem isReal_mask (w : BitVec 32) : IsReal (mask w) := by
  unfold mask
  split_ifs
  · exact isReal_zero
  · exact isReal_one

/-- A bag's size is a nonnegative real. -/
theorem isReal_cnt (idx : Idx) (b : Fin 16384) : IsReal (cnt idx b) :=
  isReal_sum_univ _ fun l => isReal_mask _

/-- The floor of a bag's size is a real that is not zero. -/
theorem isReal_max_cnt (idx : Idx) (b : Fin 16384) : IsReal (max (cnt idx b) tiny) ∧ max (cnt idx b) tiny ≠ 0 := by
  obtain ⟨e, he, htiny⟩ := tiny_pos
  have ht : IsReal tiny := ⟨e, htiny⟩
  refine ⟨(isReal_cnt idx b).max ht, ?_⟩
  have h0 : (0 : EReal) < tiny := by rw [htiny]; exact EReal.coe_pos.mpr he
  exact ne_of_gt (lt_of_lt_of_le h0 (le_max_right _ _))

/-- The pooled sum of finite rows is finite. -/
theorem isReal_poolR (idx : Idx) (emb : Tab) (hemb : ∀ i d, IsReal (emb i d)) (b : Fin 16384) (d : Fin 128) :
    IsReal (poolR idx emb b d) :=
  isReal_sum_univ _ fun l => (hemb _ _).mul (isReal_mask _)

/-- The average of finite rows is finite. -/
theorem isReal_meanR (idx : Idx) (emb : Tab) (hemb : ∀ i d, IsReal (emb i d)) (b : Fin 16384) (d : Fin 128) :
    IsReal (meanR idx emb b d) :=
  (isReal_poolR idx emb hemb b d).div (isReal_max_cnt idx b).1 (isReal_max_cnt idx b).2

/-- The concatenated averages are finite. -/
theorem isReal_catR (src dst : Idx) (emb : Tab) (hemb : ∀ i d, IsReal (emb i d)) (b : Fin 16384) (k : Fin 256) :
    IsReal (catR src dst emb b k) := by
  unfold catR
  split_ifs
  · exact isReal_meanR src emb hemb _ _
  · exact isReal_meanR dst emb hemb _ _

/-- A dense layer with bias and rectifier keeps finite values finite. -/
theorem isReal_dense {K N : Nat} (x : Act K) (W : Mat K N) (b : Fin N → EReal) (hx : ∀ r k, IsReal (x r k))
    (hW : ∀ k j, IsReal (W k j)) (hb : ∀ j, IsReal (b j)) (r : Fin 16384) (j : Fin N) : IsReal (dense x W b r j) :=
  ((isReal_sum_univ _ fun k => (hx r k).mul (hW k j)).add (hb j)).max isReal_zero

/-- The first layer written over the two halves of the weight matrix is the dense layer over the concatenated
    averages: a sum over 256 columns is the sum over the first 128 plus the sum over the last 128. -/
theorem dense1K_eq (src dst : Idx) (emb : Tab) (W : Mat 256 1024) (b : Fin 1024 → EReal) :
    dense1K src dst emb W b = dense (catR src dst emb) W b := by
  funext r j
  unfold dense1K dense
  rw [meanK_eq_meanR, meanK_eq_meanR]
  have hs := Fin.sum_univ_add (a := 128) (b := 128) (fun k : Fin (128 + 128) => catR src dst emb r k * W k j)
  have h1 : ∀ k : Fin 128, catR src dst emb r (Fin.castAdd 128 k) = meanR src emb r k := by
    intro k
    unfold catR
    rw [dif_pos (by simp only [Fin.coe_castAdd]; exact k.isLt)]
    rfl
  have h2 : ∀ k : Fin 128, catR src dst emb r (Fin.natAdd 128 k) = meanR dst emb r k := by
    intro k
    unfold catR
    rw [dif_neg (by simp only [Fin.coe_natAdd]; omega)]
    congr 1
    apply Fin.ext
    simp only [Fin.coe_natAdd]
    omega
  simp only [h1, h2] at hs
  rw [← hs]

end Cert.Algebra

end
-- ==== Proof.AlgebraBN.lean ====
/-
  The two forms of the batch normalisation agree on finite values.

  Over the reals, with n = 16384 rows, column mean μ = (∑ x) / n and s = √(v + e) > 0:
    * (∑ x) · n⁻¹ = (∑ x) / n;
    * the mean of squares minus the squared mean is the mean square of the centred column:
      (∑ (x - μ)²) / n = (∑ x²) · n⁻¹ - μ², because ∑ (x - μ)² = ∑ x² - 2 μ ∑ x + n μ² and ∑ x = n μ;
    * (x - μ) / s · g + b = x · (g · s⁻¹) + (b - μ · (g · s⁻¹)).
  The variance v is a mean of squares, so v ≥ 0 and v + e > 0: the square root and its reciprocal are taken of a
  positive real, where the extended operations are the real ones. Everything is first moved to the reals
  (finite extended reals are coercions of reals, and the coercion commutes with finite sums).
-/
import proofs.«209176_g73847667688168_cont_9to1_m_420_10_alg».proof.Proof.AlgebraConsts

noncomputable section

open scoped BigOperators

namespace Cert.Algebra

open Idealize.ShloMosaic Cert.Spec Cert.Finite

/-! ## Over the reals -/

/-- The mean square of the centred column is the mean of squares minus the squared mean. -/
theorem var_identity (x : Fin 16384 → ℝ) :
    (∑ r, (x r - (∑ r, x r) / 16384) * (x r - (∑ r, x r) / 16384)) / 16384
      = (∑ r, x r * x r) * (16384 : ℝ)⁻¹ - ((∑ r, x r) * (16384 : ℝ)⁻¹) * ((∑ r, x r) * (16384 : ℝ)⁻¹) := by
  have hexp : ∀ μ : ℝ, ∑ r, (x r - μ) * (x r - μ) = (∑ r, x r * x r) - 2 * μ * (∑ r, x r) + 16384 * (μ * μ) := by
    intro μ
    have h1 : ∀ r, (x r - μ) * (x r - μ) = x r * x r - 2 * μ * x r + μ * μ := fun r => by ring
    simp only [h1]
    rw [Finset.sum_add_distrib, Finset.sum_sub_distrib, ← Finset.mul_sum, Finset.sum_const, Finset.card_univ,
      Fintype.card_fin, nsmul_eq_mul]
    norm_num
  rw [hexp]
  field_simp
  ring

/-- One entry of the normalisation, both forms, over the reals. -/
theorem bn_real (x μ s g b : ℝ) (hs : s ≠ 0) : x * (g * s⁻¹) + (b - μ * (g * s⁻¹)) = (x - μ) / s * g + b := by
  field_simp
  ring

/-! ## The column statistics of a real array -/

/-- The column mean of a real array, centred form. -/
theorem colMean_coe (x : Fin 16384 → Fin 1024 → ℝ) (j : Fin 1024) :
    colMean (fun r j => (x r j : EReal)) j = (((∑ r, x r j) / 16384 : ℝ) : EReal) := by
  show Ideal.div (∑ r, ((x r j : ℝ) : EReal)) nRows = _
  rw [nRows_eq, ← coe_sum, div_coe_coe _ (by norm_num)]

/-- The column mean of a real array, kernel form. -/
theorem muK_coe (x : Fin 16384 → Fin 1024 → ℝ) (j : Fin 1024) :
    muK (fun r j => (x r j : EReal)) j = (((∑ r, x r j) * (16384 : ℝ)⁻¹ : ℝ) : EReal) := by
  show (∑ r, ((x r j : ℝ) : EReal)) * invRows = _
  rw [invRows_eq, ← coe_sum, ← EReal.coe_mul]

/-- The column variance of a real array, centred form. -/
theorem colVar_coe (x : Fin 16384 → Fin 1024 → ℝ) (j : Fin 1024) :
    colVar (fun r j => (x r j : EReal)) j
      = (((∑ r, (x r j - (∑ r, x r j) / 16384) * (x r j - (∑ r, x r j) / 16384)) / 16384 : ℝ) : EReal) := by
  unfold colVar
  rw [colMean_coe]
  show Ideal.div (∑ r, (((x r j : ℝ) : EReal) - (((∑ r, x r j) / 16384 : ℝ) : EReal))
      * (((x r j : ℝ) : EReal) - (((∑ r, x r j) / 16384 : ℝ) : EReal))) nRows = _
  simp only [← EReal.coe_sub, ← EReal.coe_mul]
  rw [← coe_sum, nRows_eq, div_coe_coe _ (by norm_num)]

/-- The column variance of a real array, kernel form. -/
theorem varK_coe (x : Fin 16384 → Fin 1024 → ℝ) (j : Fin 1024) :
    varK (fun r j => (x r j : EReal)) j
      = (((∑ r, x r j * x r j) * (16384 : ℝ)⁻¹
          - ((∑ r, x r j) * (16384 : ℝ)⁻¹) * ((∑ r, x r j) * (16384 : ℝ)⁻¹) : ℝ) : EReal) := by
  unfold varK
  rw [muK_coe]
  show (∑ r, ((x r j : ℝ) : EReal) * ((x r j : ℝ) : EReal)) * invRows - _ = _
  simp only [← EReal.coe_mul]
  rw [← coe_sum, invRows_eq, ← EReal.coe_mul, ← EReal.coe_sub]

/-! ## The two forms on a finite array -/

/-- The two column means agree. -/
theorem muK_eq_colMean (h : Act 1024) (hh : ∀ r j, IsReal (h r j)) (j : Fin 1024) : muK h j = colMean h j := by
  obtain ⟨x, rfl⟩ := exists_real_fun₂_eq h hh
  rw [muK_coe, colMean_coe, div_eq_mul_inv]

/-- The two column variances agree. -/
theorem varK_eq_colVar (h : Act 1024) (hh : ∀ r j, IsReal (h r j)) (j : Fin 1024) : varK h j = colVar h j := by
  obtain ⟨x, rfl⟩ := exists_real_fun₂_eq h hh
  rw [varK_coe, colVar_coe, var_identity]

/-- The column mean of a finite array is a real. -/
theorem isReal_colMean (h : Act 1024) (hh : ∀ r j, IsReal (h r j)) (j : Fin 1024) : IsReal (colMean h j) := by
  obtain ⟨x, rfl⟩ := exists_real_fun₂_eq h hh
  rw [colMean_coe]
  exact isReal_coe _

/-- The column variance of a finite array is a nonnegative real. -/
theorem colVar_nonneg (h : Act 1024) (hh : ∀ r j, IsReal (h r j)) (j : Fin 1024) :
    ∃ v : ℝ, 0 ≤ v ∧ colVar h j = (v : EReal) := by
  obtain ⟨x, rfl⟩ := exists_real_fun₂_eq h hh
  refine ⟨_, ?_, colVar_coe x j⟩
  exact div_nonneg (Finset.sum_nonneg fun r _ => mul_self_nonneg _) (by norm_num)

/-- One entry of the normalisation on reals, the variance nonnegative and the offset positive: the two forms agree
    and the value is a real. -/
theorem bn_point (x μ v e g b : ℝ) (hv : 0 ≤ v) (he : 0 < e) :
    (x : EReal) * ((g : EReal) * Ideal.rsqrt ((v : EReal) + (e : EReal)))
        + ((b : EReal) - (μ : EReal) * ((g : EReal) * Ideal.rsqrt ((v : EReal) + (e : EReal))))
      = Ideal.div ((x : EReal) - (μ : EReal)) (Ideal.sqrt ((v : EReal) + (e : EReal))) * (g : EReal) + (b : EReal)
    ∧ IsReal (Ideal.div ((x : EReal) - (μ : EReal)) (Ideal.sqrt ((v : EReal) + (e : EReal))) * (g : EReal) + (b : EReal)) := by
  have hpos : 0 < v + e := add_pos_of_nonneg_of_pos hv he
  have hs : Real.sqrt (v + e) ≠ 0 := ne_of_gt (Real.sqrt_pos.mpr hpos)
  rw [← EReal.coe_add, Ideal.rsqrt_coe, Ideal.sqrt_coe, if_neg (not_lt.mpr hpos.le), if_neg (not_lt.mpr hpos.le),
    if_neg (ne_of_gt hpos), ← EReal.coe_sub, div_coe_coe _ hs]
  simp only [← EReal.coe_mul, ← EReal.coe_add, ← EReal.coe_sub]
  exact ⟨by rw [bn_real x μ _ g b hs], isReal_coe _⟩

/-- The scale-and-shift form of the batch normalisation is the centred form, on finite values. -/
theorem bnK_eq_bnR (h : Act 1024) (g be : Fin 1024 → EReal) (hh : ∀ r j, IsReal (h r j)) (hg : ∀ j, IsReal (g j))
    (hbe : ∀ j, IsReal (be j)) : bnK h g be = bnR h g be := by
  funext r j
  obtain ⟨x, hx⟩ := hh r j
  obtain ⟨γ, hγ⟩ := hg j
  obtain ⟨β, hβ⟩ := hbe j
  obtain ⟨μ, hμ⟩ := isReal_colMean h hh j
  obtain ⟨v, hv, hvar⟩ := colVar_nonneg h hh j
  obtain ⟨e, he, heps⟩ := eps_pos
  unfold bnK shiftK scaleK bnR
  rw [muK_eq_colMean h hh, varK_eq_colVar h hh, hx, hγ, hβ, hμ, hvar, heps]
  exact (bn_point x μ v e γ β hv he).1

/-- The batch normalisation of finite values with finite scale and offset is finite. -/
theorem isReal_bnR (h : Act 1024) (g be : Fin 1024 → EReal) (hh : ∀ r j, IsReal (h r j)) (hg : ∀ j, IsReal (g j))
    (hbe : ∀ j, IsReal (be j)) (r : Fin 16384) (j : Fin 1024) : IsReal (bnR h g be r j) := by
  obtain ⟨x, hx⟩ := hh r j
  obtain ⟨γ, hγ⟩ := hg j
  obtain ⟨β, hβ⟩ := hbe j
  obtain ⟨μ, hμ⟩ := isReal_colMean h hh j
  obtain ⟨v, hv, hvar⟩ := colVar_nonneg h hh j
  obtain ⟨e, he, heps⟩ := eps_pos
  unfold bnR
  rw [hx, hγ, hβ, hμ, hvar, heps]
  exact (bn_point x μ v e γ β hv he).2

end Cert.Algebra

end
-- ==== Proof.Algebra.lean ====
/-
  The fused kernels' form of the model equals the plain program's form when every float array is finite.

  Layer by layer: the first layers agree outright; their common value is finite, so the two forms of the batch
  normalisation agree on it and give a finite value; a dense layer of equal inputs is equal and finite; the same
  once more; the last dense layers are then equal, and the logistic function is by definition the quotient
  1 / (1 + exp (-z)) the plain program spells out.
-/
import proofs.«209176_g73847667688168_cont_9to1_m_420_10_alg».proof.Proof.AlgebraPool
import proofs.«209176_g73847667688168_cont_9to1_m_420_10_alg».proof.Proof.AlgebraBN

noncomputable section

open scoped BigOperators

namespace Cert.Algebra

open Idealize.ShloMosaic Cert.Spec Cert.Finite

section
variable (src dst : Idx) (emb : Tab) (W1 : Mat 256 1024) (b1 g1 be1 : Fin 1024 → EReal) (W2 : Mat 1024 1024)
  (b2 g2 be2 : Fin 1024 → EReal) (W3 : Mat 1024 1024) (b3 : Fin 1024 → EReal) (W4 : Fin 1024 → EReal) (b4 : EReal)

/-- The first hidden layers agree. -/
theorem h1K_eq_h1R : h1K src dst emb W1 b1 = h1R src dst emb W1 b1 :=
  dense1K_eq src dst emb W1 b1

/-- The first hidden layer is finite. -/
theorem isReal_h1R (hemb : ∀ i d, IsReal (emb i d)) (hW1 : ∀ k j, IsReal (W1 k j)) (hb1 : ∀ j, IsReal (b1 j))
    (r : Fin 16384) (j : Fin 1024) : IsReal (h1R src dst emb W1 b1 r j) :=
  isReal_dense _ W1 b1 (isReal_catR src dst emb hemb) hW1 hb1 r j

/-- The second hidden layers agree. -/
theorem h2K_eq_h2R (hemb : ∀ i d, IsReal (emb i d)) (hW1 : ∀ k j, IsReal (W1 k j)) (hb1 : ∀ j, IsReal (b1 j))
    (hg1 : ∀ j, IsReal (g1 j)) (hbe1 : ∀ j, IsReal (be1 j)) :
    h2K src dst emb W1 b1 g1 be1 W2 b2 = h2R src dst emb W1 b1 g1 be1 W2 b2 := by
  unfold h2K h2R
  rw [h1K_eq_h1R, bnK_eq_bnR _ g1 be1 (isReal_h1R src dst emb W1 b1 hemb hW1 hb1) hg1 hbe1]

/-- The second hidden layer is finite. -/
theorem isReal_h2R (hemb : ∀ i d, IsReal (emb i d)) (hW1 : ∀ k j, IsReal (W1 k j)) (hb1 : ∀ j, IsReal (b1 j))
    (hg1 : ∀ j, IsReal (g1 j)) (hbe1 : ∀ j, IsReal (be1 j)) (hW2 : ∀ k j, IsReal (W2 k j)) (hb2 : ∀ j, IsReal (b2 j))
    (r : Fin 16384) (j : Fin 1024) : IsReal (h2R src dst emb W1 b1 g1 be1 W2 b2 r j) :=
  isReal_dense _ W2 b2 (isReal_bnR _ g1 be1 (isReal_h1R src dst emb W1 b1 hemb hW1 hb1) hg1 hbe1) hW2 hb2 r j

/-- The third hidden layers agree. -/
theorem h3K_eq_h3R (hemb : ∀ i d, IsReal (emb i d)) (hW1 : ∀ k j, IsReal (W1 k j)) (hb1 : ∀ j, IsReal (b1 j))
    (hg1 : ∀ j, IsReal (g1 j)) (hbe1 : ∀ j, IsReal (be1 j)) (hW2 : ∀ k j, IsReal (W2 k j)) (hb2 : ∀ j, IsReal (b2 j))
    (hg2 : ∀ j, IsReal (g2 j)) (hbe2 : ∀ j, IsReal (be2 j)) :
    h3K src dst emb W1 b1 g1 be1 W2 b2 g2 be2 W3 b3 = h3R src dst emb W1 b1 g1 be1 W2 b2 g2 be2 W3 b3 := by
  unfold h3K h3R
  rw [h2K_eq_h2R src dst emb W1 b1 g1 be1 W2 b2 hemb hW1 hb1 hg1 hbe1,
    bnK_eq_bnR _ g2 be2 (isReal_h2R src dst emb W1 b1 g1 be1 W2 b2 hemb hW1 hb1 hg1 hbe1 hW2 hb2) hg2 hbe2]

/-- THE TWO FORMS AGREE: with the table, the first two layers' weights and biases and the two normalisations' scales
    and offsets finite, the fused kernels' result is the plain program's result, at every example. (The last two
    layers enter both forms the same way, so nothing is asked of them.) -/
theorem outK_eq_outR (hemb : ∀ i d, IsReal (emb i d)) (hW1 : ∀ k j, IsReal (W1 k j)) (hb1 : ∀ j, IsReal (b1 j))
    (hg1 : ∀ j, IsReal (g1 j)) (hbe1 : ∀ j, IsReal (be1 j)) (hW2 : ∀ k j, IsReal (W2 k j)) (hb2 : ∀ j, IsReal (b2 j))
    (hg2 : ∀ j, IsReal (g2 j)) (hbe2 : ∀ j, IsReal (be2 j)) :
    outK src dst emb W1 b1 g1 be1 W2 b2 g2 be2 W3 b3 W4 b4 = outR src dst emb W1 b1 g1 be1 W2 b2 g2 be2 W3 b3 W4 b4 := by
  funext r
  unfold outK outR
  rw [h3K_eq_h3R src dst emb W1 b1 g1 be1 W2 b2 g2 be2 W3 b3 hemb hW1 hb1 hg1 hbe1 hW2 hb2 hg2 hbe2]
  rfl

end

end Cert.Algebra

end
-- ==== Proof.SpecsAgree.lean ====
/-
  Under the precondition the two forms of the specification, applied to the raw argument arrays, agree: the
  precondition makes every float array finite, which is all the algebra between the two forms needs.
-/
import proofs.«209176_g73847667688168_cont_9to1_m_420_10_alg».proof.Proof.SpecArgs
import proofs.«209176_g73847667688168_cont_9to1_m_420_10_alg».proof.Proof.Algebra
import proofs.«209176_g73847667688168_cont_9to1_m_420_10_alg».proof.Proof.PreDecode

noncomputable section

namespace Cert.SpecsAgree

open Idealize.ShloMosaic Idealize.ShloMosaic.ValueIdx
open Cert.Finite Cert.SpecArgs

variable [Cert.Pre_input_domain.Facts]

/-- THE TWO FORMS AGREE ON THE ARGUMENT ARRAYS THE PRECONDITION ADMITS. -/
theorem specs_agree (a0 a1 : (⟨2, ![16384, 50]⟩ : Shape).Idx → BitVec 32) (a2 : (⟨2, ![100000, 128]⟩ : Shape).Idx → EReal)
    (a3 : (⟨2, ![256, 1024]⟩ : Shape).Idx → EReal) (a4 a5 a6 : (⟨1, ![1024]⟩ : Shape).Idx → EReal)
    (a7 : (⟨2, ![1024, 1024]⟩ : Shape).Idx → EReal) (a8 a9 a10 : (⟨1, ![1024]⟩ : Shape).Idx → EReal)
    (a11 : (⟨2, ![1024, 1024]⟩ : Shape).Idx → EReal) (a12 : (⟨1, ![1024]⟩ : Shape).Idx → EReal)
    (a13 : (⟨2, ![1024, 1]⟩ : Shape).Idx → EReal) (a14 : (⟨1, ![1]⟩ : Shape).Idx → EReal)
    (h : Cert.Pre_input_domain.fn (F := Ideal) a0 a1 a2 a3 a4 a5 a6 a7 a8 a9 a10 a11 a12 a13 a14 = fun _ => 1#1) :
    Cert.SpecArgs.outK a0 a1 a2 a3 a4 a5 a6 a7 a8 a9 a10 a11 a12 a13 a14
      = Cert.SpecArgs.outR a0 a1 a2 a3 a4 a5 a6 a7 a8 a9 a10 a11 a12 a13 a14 := by
  have d := Cert.PreDecode.decode a0 a1 a2 a3 a4 a5 a6 a7 a8 a9 a10 a11 a12 a13 a14 h
  funext i
  unfold Cert.SpecArgs.outK Cert.SpecArgs.outR
  rw [Cert.Algebra.outK_eq_outR (mat a0) (mat a1) (mat a2) (mat a3) (vec a4) (vec a5) (vec a6) (mat a7) (vec a8) (vec a9)
    (vec a10) (mat a11) (vec a12) (col a13) (scal a14) (fun k n => d.fin2 _) (fun k n => d.fin3 _) (fun n => d.fin4 _)
    (fun n => d.fin5 _) (fun n => d.fin6 _) (fun k n => d.fin7 _) (fun n => d.fin8 _) (fun n => d.fin9 _)
    (fun n => d.fin10 _)]

end Cert.SpecsAgree

end
-- ==== Proof.Assemble.lean ====
/-
  The five claims from the pieces: the kernel program's run at both instances, the reference's run, the two
  runs' values in the specification's two forms, and the algebra that joins the forms under the precondition.
-/
import proofs.«209176_g73847667688168_cont_9to1_m_420_10_alg».proof.Defs
import proofs.«209176_g73847667688168_cont_9to1_m_420_10_alg».proof.Proof.Gen.Kernel
import proofs.«209176_g73847667688168_cont_9to1_m_420_10_alg».proof.Proof.Gen.KernelIdeal
import proofs.«209176_g73847667688168_cont_9to1_m_420_10_alg».proof.Proof.Gen.ReferenceIdeal
import proofs.«209176_g73847667688168_cont_9to1_m_420_10_alg».proof.Proof.Gen.Pre_input_domain
import proofs.«209176_g73847667688168_cont_9to1_m_420_10_alg».proof.Proof.KFrame
import proofs.«209176_g73847667688168_cont_9to1_m_420_10_alg».proof.Proof.BKFrame
import proofs.«209176_g73847667688168_cont_9to1_m_420_10_alg».proof.Proof.KPre
import proofs.«209176_g73847667688168_cont_9to1_m_420_10_alg».proof.Proof.BKPre
import proofs.«209176_g73847667688168_cont_9to1_m_420_10_alg».proof.Proof.RefFrame
import proofs.«209176_g73847667688168_cont_9to1_m_420_10_alg».proof.Proof.RefValue
import proofs.«209176_g73847667688168_cont_9to1_m_420_10_alg».proof.Proof.SpecsAgree

noncomputable section

namespace Cert.Proof

open Idealize.ShloMosaic Idealize.SL.Sem

/-- The word-level kernel's frame, from one vector subcore's task. -/
theorem frame_Kernel_of
    (pv : (m : (ℓ : Loc Cert.Kernel.nD Cert.Kernel.τ Cert.Kernel.sig) → Buf (Elt Bits) ℓ) → (d : Dev Cert.Kernel.nD) → Buf (Elt Bits) (Cert.Kernel.Run.oLoc d))
    (htile : ∀ m, Cert.Pre_Kernel (hPre_input_domain := Cert.Pre_input_domain.Gen.facts) m →
      (Cert.Kernel.Run.K (F := Bits)).TileObl (Cert.Kernel.Run.D (F := Bits)) Cert.Kernel.Run.𝒱 (Cert.Kernel.Run.PP m (pv m)) Cert.Kernel.Run.v₀ 0) :
    Cert.frame_Kernel (hKernel := Cert.Kernel.Gen.facts) (hPre_input_domain := Cert.Pre_input_domain.Gen.facts) :=
  fun m g hpre => (θ_run (Cert.Kernel.defs (F := Bits)) _ _).mono (fun _ h c => (h c).2)
    (Cert.Kernel.Run.run_full (F := Bits) m g (pv m) (htile m hpre))

/-- The idealized kernel's frame, likewise. -/
theorem frame_KernelIdeal_of
    (pv : (m : (ℓ : Loc Cert.KernelIdeal.nD Cert.KernelIdeal.τ Cert.KernelIdeal.sig) → Buf (Elt Ideal) ℓ) → (d : Dev Cert.KernelIdeal.nD) → Buf (Elt Ideal) (Cert.KernelIdeal.Run.oLoc d))
    (htile : ∀ m, Cert.Pre_KernelIdeal (hPre_input_domain := Cert.Pre_input_domain.Gen.facts) m →
      (Cert.KernelIdeal.Run.K (F := Ideal)).TileObl (Cert.KernelIdeal.Run.D (F := Ideal)) Cert.KernelIdeal.Run.𝒱 (Cert.KernelIdeal.Run.PP m (pv m)) Cert.KernelIdeal.Run.v₀ 0) :
    Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2)
    (Cert.KernelIdeal.Run.run_full (F := Ideal) m g (pv m) (htile m hpre))

/-- The two idealized programs end with equal results: both are the specification, the kernel in its fused form,
    the reference in its plain form, and the two forms agree where the precondition holds. -/
theorem algebraic_of
    (pv : (m : (ℓ : Loc Cert.KernelIdeal.nD Cert.KernelIdeal.τ Cert.KernelIdeal.sig) → Buf (Elt Ideal) ℓ) → (d : Dev Cert.KernelIdeal.nD) → Buf (Elt Ideal) (Cert.KernelIdeal.Run.oLoc d))
    (htile : ∀ m, Cert.Pre_KernelIdeal (hPre_input_domain := Cert.Pre_input_domain.Gen.facts) m →
      (Cert.KernelIdeal.Run.K (F := Ideal)).TileObl (Cert.KernelIdeal.Run.D (F := Ideal)) Cert.KernelIdeal.Run.𝒱 (Cert.KernelIdeal.Run.PP m (pv m)) Cert.KernelIdeal.Run.v₀ 0)
    (hval : ∀ m, Cert.Pre_KernelIdeal (hPre_input_domain := Cert.Pre_input_domain.Gen.facts) m → ∀ c : Dev Cert.KernelIdeal.nD,
      Cert.KernelIdeal.Run.Wg m (pv m) c (Proc.devRef .tc Cert.KernelIdeal.main_v18) = Cert.SpecArgs.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  refine ⟨fun c => Cert.SpecArgs.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run (Cert.KernelIdeal.defs (F := Ideal)) _ _).mono (fun _ h c => ⟨(h c).1.trans (hval m hpre c), (h c).2⟩)
      (Cert.KernelIdeal.Run.run_full (F := Ideal) m g (pv m) (htile m hpre))
  · refine (θ_run (Cert.ReferenceIdeal.defs (F := Ideal)) _ _).mono (fun _ h c => ⟨(h c).1.trans ?_, (h c).2⟩) (Cert.RefSide.run (F := Ideal) m' g')
    obtain ⟨e0, e1, e2, e3, e4, e5, e6, e7, e8, e9, e10, e11, e12, e13, e14⟩ := hagree c
    have dec := Cert.PreDecode.decode _ _ _ _ _ _ _ _ _ _ _ _ _ _ _ (hpre c)
    rw [Cert.RefSide.refOut_eq m' c (by rw [e0]; exact dec.lt0) (by rw [e1]; exact dec.lt1),
      e0, e1, e2, e3, e4, e5, e6, e7, e8, e9, e10, e11, e12, e13, e14]
    exact (Cert.SpecsAgree.specs_agree _ _ _ _ _ _ _ _ _ _ _ _ _ _ _ (hpre c)).symm

end Cert.Proof

end
-- ==== Proof.KLayers.lean ====
/-
  The fused kernels' formulas, layer by layer, against the specification's kernel form. Everything is over plain functions
  on literal finite index types. The pooled array stacks the two index arrays: rows 0 … 16383 pool the first array's bags,
  rows 16384 … 32767 the second's. A layer's formula, as its kernel computes it from the previous layer's output and
  column sums, is the specification's next layer once the previous output is the specification's.
-/
import proofs.«209176_g73847667688168_cont_9to1_m_420_10_alg».proof.Proof.Spec

noncomputable section

open scoped BigOperators

namespace Cert.KLayers

open Idealize.ShloMosaic Cert.Spec

/-! ## The pooled array -/

/-- Bag `t` of the stacked index array: the first 16384 bags are the first array's, the rest the second's. -/
def bag (src dst : Idx) (t : Fin 32768) (l : Fin 50) : BitVec 32 :=
  if h : t.val < 16384 then src ⟨t.val, h⟩ l else dst ⟨t.val - 16384, by omega⟩ l

theorem bag_src (src dst : Idx) (r : Fin 16384) (l : Fin 50) : bag src dst ⟨r.val, by omega⟩ l = src r l := by
  show (if h : r.val < 16384 then src ⟨r.val, h⟩ l else _) = _
  rw [dif_pos r.isLt]

theorem bag_dst (src dst : Idx) (r : Fin 16384) (l : Fin 50) : bag src dst ⟨16384 + r.val, by omega⟩ l = dst r l := by
  show (if h : 16384 + r.val < 16384 then _ else dst ⟨16384 + r.val - 16384, _⟩ l) = _
  rw [dif_neg (by omega)]
  exact congrArg (fun q => dst q l) (Fin.ext (by show 16384 + r.val - 16384 = r.val; omega))

section Pool
variable {src dst : Idx} {emb : Tab} {P : Fin 32768 → Fin 128 → EReal} {T : BitVec 32 → Fin 128 → EReal}

/-- A pooled row is the specification's pooled bag: a padding word contributes nothing, any other word below 100000
    contributes its table row. -/
theorem pool_row (idx : Idx) (hi : ∀ b l, (idx b l).toNat < 100000) (r : Fin 16384) (t : Fin 32768)
    (ht : ∀ l, bag src dst t l = idx r l)
    (hP : ∀ t k, P t k = ∑ l : Fin 50, if bag src dst t l = 0#32 then 0 else T (bag src dst t l) k)
    (hT : ∀ w k, w ≠ 0#32 → w.toNat < 100000 → T w k = emb (row w) k) (k : Fin 128) :
    P t k = poolK idx emb r k := by
  rw [hP]
  show _ = ∑ l : Fin 50, if idx r l = 0#32 then 0 else emb (row (idx r l)) k
  refine Finset.sum_congr rfl fun l _ => ?_
  rw [ht l]
  by_cases h0 : idx r l = 0#32
  · rw [if_pos h0, if_pos h0]
  · rw [if_neg h0, if_neg h0, hT _ _ h0 (hi r l)]

theorem pool_src (hs : ∀ b l, (src b l).toNat < 100000)
    (hP : ∀ t k, P t k = ∑ l : Fin 50, if bag src dst t l = 0#32 then 0 else T (bag src dst t l) k)
    (hT : ∀ w k, w ≠ 0#32 → w.toNat < 100000 → T w k = emb (row w) k) (r : Fin 16384) (k : Fin 128) :
    P ⟨r.val, by omega⟩ k = poolK src emb r k :=
  pool_row src hs r _ (bag_src src dst r) hP hT k

theorem pool_dst (hd : ∀ b l, (dst b l).toNat < 100000)
    (hP : ∀ t k, P t k = ∑ l : Fin 50, if bag src dst t l = 0#32 then 0 else T (bag src dst t l) k)
    (hT : ∀ w k, w ≠ 0#32 → w.toNat < 100000 → T w k = emb (row w) k) (r : Fin 16384) (k : Fin 128) :
    P ⟨16384 + r.val, by omega⟩ k = poolK dst emb r k :=
  pool_row dst hd r _ (bag_dst src dst r) hP hT k

end Pool

/-! ## The first dense layer -/

section Layer1
variable {src dst : Idx} {emb : Tab} {W1 : Mat 256 1024} {b1 : Fin 1024 → EReal}
  {PS PD : Fin 16384 → Fin 128 → EReal} {cS cD : Fin 16384 → EReal} {out6 : Act 1024} {s0 s1 : Fin 1024 → EReal}

/-- The first kernel's output is the specification's first layer. -/
theorem layer1 (hPS : ∀ r k, PS r k = poolK src emb r k) (hPD : ∀ r k, PD r k = poolK dst emb r k)
    (hcS : ∀ r, cS r = cnt src r) (hcD : ∀ r, cD r = cnt dst r)
    (h6 : ∀ r j, out6 r j = max ((∑ k : Fin 128, Ideal.div (PS r k) (max (cS r) tiny) * W1 (Fin.castAdd 128 k) j)
      + (∑ k : Fin 128, Ideal.div (PD r k) (max (cD r) tiny) * W1 (Fin.natAdd 128 k) j) + b1 j) 0) (r : Fin 16384) (j : Fin 1024) :
    out6 r j = h1K src dst emb W1 b1 r j := by
  rw [h6]
  show _ = max ((∑ k : Fin 128, Ideal.div (poolK src emb r k) (max (cnt src r) tiny) * W1 (Fin.castAdd 128 k) j)
    + (∑ k : Fin 128, Ideal.div (poolK dst emb r k) (max (cnt dst r) tiny) * W1 (Fin.natAdd 128 k) j) + b1 j) 0
  rw [hcS, hcD, Finset.sum_congr rfl fun k _ => by rw [hPS r k], Finset.sum_congr (s₁ := Finset.univ) (f := fun k : Fin 128 => Ideal.div (PD r k) (max (cnt dst r) tiny) * W1 (Fin.natAdd 128 k) j) rfl fun k _ => by rw [hPD r k]]

end Layer1

/-! ## Column sums -/

/-- The accumulated column sums of a layer's output, once the output is known. -/
theorem sums_of {out H : Act 1024} {s0 s1 : Fin 1024 → EReal} (hout : ∀ r j, out r j = H r j)
    (h0 : ∀ j, s0 j = ∑ r, out r j) (h1 : ∀ j, s1 j = ∑ r, out r j * out r j) (j : Fin 1024) :
    s0 j = ∑ r, H r j ∧ s1 j = ∑ r, H r j * H r j :=
  ⟨(h0 j).trans (Finset.sum_congr rfl fun r _ => hout r j),
    (h1 j).trans (Finset.sum_congr rfl fun r _ => by rw [hout r j])⟩

/-! ## A normalised dense layer, and the last one -/

section Layer23
variable {H : Act 1024} {g be : Fin 1024 → EReal} {s0 s1 mu var scale shift : Fin 1024 → EReal}

/-- The scale and shift a kernel builds from the column sums are the specification's. -/
theorem scale_shift (h0 : ∀ j, s0 j = ∑ r, H r j) (h1 : ∀ j, s1 j = ∑ r, H r j * H r j)
    (hmu : ∀ j, mu j = s0 j * invRows) (hvar : ∀ j, var j = s1 j * invRows - mu j * mu j)
    (hsc : ∀ j, scale j = g j * Ideal.rsqrt (var j + eps)) (hsh : ∀ j, shift j = be j - mu j * scale j) (j : Fin 1024) :
    scale j = scaleK H g j ∧ shift j = shiftK H g be j := by
  have hm : mu j = muK H j := by rw [hmu, h0]; rfl
  have hv : var j = varK H j := by rw [hvar, h1, hm]; rfl
  have hs : scale j = scaleK H g j := by rw [hsc, hv]; rfl
  exact ⟨hs, by rw [hsh, hm, hs]; rfl⟩

variable {W : Mat 1024 1024} {b : Fin 1024 → EReal} {out6 : Act 1024}

/-- A kernel's normalise-then-dense output is the specification's dense layer of the normalised input. -/
theorem layer_bn_dense (hsc : ∀ j, scale j = scaleK H g j) (hsh : ∀ j, shift j = shiftK H g be j)
    (h6 : ∀ r j, out6 r j = max ((∑ k, (H r k * scale k + shift k) * W k j) + b j) 0) (r : Fin 16384) (j : Fin 1024) :
    out6 r j = dense (bnK H g be) W b r j := by
  rw [h6]
  show _ = max ((∑ k, (H r k * scaleK H g k + shiftK H g be k) * W k j) + b j) 0
  rw [Finset.sum_congr rfl fun k _ => by rw [hsc k, hsh k]]

variable {W4 : Fin 1024 → EReal} {b4 : EReal} {out : Fin 16384 → EReal}

/-- The last kernel's output: normalise, dense, rectifier, dot with the last weights, bias, logistic. -/
theorem layer_out (hsc : ∀ j, scale j = scaleK H g j) (hsh : ∀ j, shift j = shiftK H g be j)
    (ho : ∀ r, out r = Ideal.logistic ((∑ k, max ((∑ k', (H r k' * scale k' + shift k') * W k' k) + b k) 0 * W4 k) + b4))
    (r : Fin 16384) :
    out r = Ideal.logistic ((∑ k, dense (bnK H g be) W b r k * W4 k) + b4) := by
  rw [ho]
  show _ = Ideal.logistic ((∑ k, max ((∑ k', (H r k' * scaleK H g k' + shiftK H g be k') * W k' k) + b k) 0 * W4 k) + b4)
  rw [Finset.sum_congr rfl fun k _ => by rw [Finset.sum_congr rfl fun k' _ => by rw [hsc k', hsh k']]]

end Layer23

end Cert.KLayers

end
-- ==== Proof.RegLib.lean ====
/-
  Pointwise readings, at exact extended-real arithmetic, of the array operations the fused layers are made
  of: a row of a two-row block, a row broadcast down a block, a matrix product, a sum down the rows or along
  a row, and the two-row block made of two such sums; and the layers' arithmetic written once, over plain
  functions of two coordinates.
-/
import proofs.«209176_g73847667688168_cont_9to1_m_420_10_alg».proof.Proof.Gen.KernelIdeal
import proofs.«209176_g73847667688168_cont_9to1_m_420_10_alg».proof.Proof.Gen.KernelIdeal.Skeleton
import proofs.«209176_g73847667688168_cont_9to1_m_420_10_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RegLib

open Idealize.ShloMosaic Idealize.ShloMosaic.ValueIdx
open Cert.KernelIdeal Cert.KernelIdeal.Gen

/-! ## Layout operations at an index -/

/-- Row 0 of a two-row block. -/
theorem ld_row0 (x : Vec Ideal S2x1024 .f32) (k : Fin 1024) :
    View.ld x (Rect.unit (s := S2x1024) ![0, 0] S1x1024.size inb_S2x1024_S1x1024_0_0) (ix2 (0 : Fin 1) k) = x (ix2 (0 : Fin 2) k) := by
  show x _ = x _
  refine congrArg x (funext fun a => Fin.ext ?_)
  match a with
  | ⟨0, _⟩ => rfl
  | ⟨1, _⟩ => show 0 + 1 * k.val = k.val; omega

/-- Row 1 of a two-row block. -/
theorem ld_row1 (x : Vec Ideal S2x1024 .f32) (k : Fin 1024) :
    View.ld x (Rect.unit (s := S2x1024) ![1, 0] S1x1024.size inb_S2x1024_S1x1024_1_0) (ix2 (0 : Fin 1) k) = x (ix2 (1 : Fin 2) k) := by
  show x _ = x _
  refine congrArg x (funext fun a => Fin.ext ?_)
  match a with
  | ⟨0, _⟩ => rfl
  | ⟨1, _⟩ => show 0 + 1 * k.val = k.val; omega

theorem ld_row0' (x : Vec Ideal S2x1024 .f32) (k : Fin 1024) :
    View.ld x (Rect.unit (s := S2x1024) ![0, 0] ![1, 1024] inb_S2x1024_S1x1024_0_0) (ix2 (0 : Fin 1) k) = x (ix2 (0 : Fin 2) k) := ld_row0 x k
theorem ld_row1' (x : Vec Ideal S2x1024 .f32) (k : Fin 1024) :
    View.ld x (Rect.unit (s := S2x1024) ![1, 0] ![1, 1024] inb_S2x1024_S1x1024_1_0) (ix2 (0 : Fin 1) k) = x (ix2 (1 : Fin 2) k) := ld_row1 x k

/-- A row broadcast down a block. -/
theorem bcast_row (v : S1x1024.Idx → EReal) (r : Fin 512) (k : Fin 1024) :
    broadcastTo S512x1024 v broadcasts_S1x1024_S512x1024 (ix2 r k) = v (ix2 (0 : Fin 1) k) := by
  refine broadcastTo_apply v broadcasts_S1x1024_S512x1024 (ix2 r k) (ix2 (0 : Fin 1) k) fun a => ?_
  match a with
  | ⟨0, _⟩ => rfl
  | ⟨1, _⟩ => rfl

/-- A single entry broadcast down a column. -/
theorem bcast_one (v : S1x1.Idx → EReal) (r : Fin 512) :
    broadcastTo S512x1 v broadcasts_S1x1_S512x1 (ix2 r (0 : Fin 1)) = v (ix2 (0 : Fin 1) (0 : Fin 1)) := by
  refine broadcastTo_apply v broadcasts_S1x1_S512x1 (ix2 r (0 : Fin 1)) (ix2 (0 : Fin 1) (0 : Fin 1)) fun a => ?_
  match a with
  | ⟨0, _⟩ => rfl
  | ⟨1, _⟩ => rfl

/-- A vector as a one-row block. -/
theorem cast_row (v : S1024.Idx → EReal) (j : Fin 1024) :
    shapeCast S1x1024 v shapeCasts_S1024_S1x1024 (ix2 (0 : Fin 1) j) = v (ix1 j) := by
  refine shapeCast_apply v shapeCasts_S1024_S1x1024 (ix2 (0 : Fin 1) j) (ix1 j) ?_
  rw [Shape.rowMajor_val_one, Shape.rowMajor_val_two]
  show j.val = 0 * 1024 + j.val
  omega

/-- A vector as a one-column block. -/
theorem cast_col (v : S512.Idx → EReal) (r : Fin 512) :
    shapeCast S512x1 v shapeCasts_S512_S512x1 (ix2 r (0 : Fin 1)) = v (ix1 r) := by
  refine shapeCast_apply v shapeCasts_S512_S512x1 (ix2 r (0 : Fin 1)) (ix1 r) ?_
  rw [Shape.rowMajor_val_one, Shape.rowMajor_val_two]
  show r.val = r.val * 1 + 0
  omega

/-! ## The matrix product, the sums and the two-row block at an index -/

abbrev D1024 := dot_S512x1024_S1024x1024_S512x1024_1_0_0_1_n_n

theorem lhs_0 (i : S512x1024.Idx) (q : D1024.contr.Idx) : (D1024.lhsIdx i q 0).val = (i 0).val := by
  unfold DotDims.lhsIdx
  rw [dif_neg (show ¬(0 : Fin S512x1024.rank) ∈ D1024.lhsBatch by decide), dif_pos (show (0 : Fin S512x1024.rank) ∈ D1024.lhsNonContracting by decide)]
  rfl
theorem lhs_1 (i : S512x1024.Idx) (q : D1024.contr.Idx) : (D1024.lhsIdx i q 1).val = (q ⟨0, by decide⟩).val :=
  D1024.lhsIdx_val_of_single rfl i q
theorem rhs_0 (i : S512x1024.Idx) (q : D1024.contr.Idx) : (D1024.rhsIdx i q 0).val = (q ⟨0, by decide⟩).val :=
  D1024.rhsIdx_val_of_single rfl i q
theorem rhs_1 (i : S512x1024.Idx) (q : D1024.contr.Idx) : (D1024.rhsIdx i q 1).val = (i 1).val := by
  unfold DotDims.rhsIdx
  rw [dif_neg (show ¬(1 : Fin S1024x1024.rank) ∈ D1024.rhsBatch by decide), dif_pos (show (1 : Fin S1024x1024.rank) ∈ D1024.rhsNonContracting by decide)]
  rfl

/-- The matrix product of a block with the weights, from a zero accumulator. -/
theorem matmul_at (A : FVec Ideal S512x1024 .f32) (W : FVec Ideal S1024x1024 .f32) (r : Fin 512) (j : Fin 1024) :
    matmul D1024 none A W (constant (F := Ideal) S512x1024 .f32 0x00000000#32) (ix2 r j) = ∑ k : Fin 1024, A (ix2 r k) * W (ix2 k j) := by
  refine (Ideal.matmul_constant_zero_apply D1024 none A W (ix2 r j)).trans ?_
  rw [← Equiv.sum_comp (contrEquiv1 D1024 1024 rfl rfl).symm]
  refine Finset.sum_congr rfl fun k _ => ?_
  have hk := contrEquiv1_symm_val D1024 1024 rfl rfl k
  have el : D1024.lhsIdx (ix2 r j) ((contrEquiv1 D1024 1024 rfl rfl).symm k) = ix2 r k := funext fun a => Fin.ext (by
    match a with
    | ⟨0, _⟩ => exact lhs_0 _ _
    | ⟨1, _⟩ => exact (lhs_1 _ _).trans hk)
  have er : D1024.rhsIdx (ix2 r j) ((contrEquiv1 D1024 1024 rfl rfl).symm k) = ix2 k j := funext fun a => Fin.ext (by
    match a with
    | ⟨0, _⟩ => exact (rhs_0 _ _).trans hk
    | ⟨1, _⟩ => exact rhs_1 _ _)
  rw [el, er]

/-- The sum down the rows of a block. -/
theorem colsum_at (v : FVec Ideal S512x1024 .f32) (hacc : (0x00000000#32 : BitVec 32) = 0x00000000#32) (j : Fin 1024) :
    multiReduction .add [0] S1024 v 0x00000000#32 reduces_S512x1024_S1024 (.inl rfl) hacc (ix1 j) = ∑ r : Fin 512, v (ix2 r j) := by
  refine (Ideal.multiReduction_add_single v 0x00000000#32 reduces_S512x1024_S1024 (.inl rfl) hacc (ix1 j)).trans ?_
  refine Finset.sum_congr rfl fun r _ => congrArg v (funext fun a => Fin.ext ?_)
  rw [Shape.Reduces.lift_val]; unfold Shape.Reduces.liftVal
  match a with
  | ⟨0, _⟩ => rfl
  | ⟨1, _⟩ => rfl

/-- The sum along a row of a block. -/
theorem rowsum_at (v : FVec Ideal S512x1024 .f32) (hacc : (0x00000000#32 : BitVec 32) = 0x00000000#32) (r : Fin 512) :
    multiReduction .add [1] S512 v 0x00000000#32 reduces_S512x1024_S512 (.inl rfl) hacc (ix1 r) = ∑ k : Fin 1024, v (ix2 r k) := by
  refine (Ideal.multiReduction_add_single v 0x00000000#32 reduces_S512x1024_S512 (.inl rfl) hacc (ix1 r)).trans ?_
  refine Finset.sum_congr rfl fun k _ => congrArg v (funext fun a => Fin.ext ?_)
  rw [Shape.Reduces.lift_val]; unfold Shape.Reduces.liftVal
  match a with
  | ⟨0, _⟩ => rfl
  | ⟨1, _⟩ => rfl

/-- The two-row block made of two one-row blocks. -/
theorem concat_row0 (a b : S1x1024.Idx → EReal) (j : Fin 1024) :
    concatenate S2x1024 0 [⟨S1x1024, a⟩, ⟨S1x1024, b⟩] concatenates_S1x1024_S1x1024_S2x1024_d0 (ix2 (0 : Fin 2) j) = a (ix2 (0 : Fin 1) j) := by
  refine concatenate_apply_piece (0 : Fin S2x1024.rank) [⟨S1x1024, a⟩, ⟨S1x1024, b⟩] concatenates_S1x1024_S1x1024_S2x1024_d0 (ix2 (0 : Fin 2) j) 0 (by show 0 < 2; omega) S1x1024 a rfl rfl 0 rfl (ix2 (0 : Fin 1) j) ?_ rfl
  intro b' hb
  match b' with
  | ⟨0, _⟩ => exact absurd rfl hb
  | ⟨1, _⟩ => rfl
theorem concat_row1 (a b : S1x1024.Idx → EReal) (j : Fin 1024) :
    concatenate S2x1024 0 [⟨S1x1024, a⟩, ⟨S1x1024, b⟩] concatenates_S1x1024_S1x1024_S2x1024_d0 (ix2 (1 : Fin 2) j) = b (ix2 (0 : Fin 1) j) := by
  refine concatenate_apply_piece (0 : Fin S2x1024.rank) [⟨S1x1024, a⟩, ⟨S1x1024, b⟩] concatenates_S1x1024_S1x1024_S2x1024_d0 (ix2 (1 : Fin 2) j) 1 (by show 1 < 2; omega) S1x1024 b rfl rfl 1 rfl (ix2 (0 : Fin 1) j) ?_ rfl
  intro b' hb
  match b' with
  | ⟨0, _⟩ => exact absurd rfl hb
  | ⟨1, _⟩ => rfl

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-! ## The layers' arithmetic over plain functions of two coordinates -/

section Arith
variable {n : Nat}

/-- Column mean, variance, scale and shift of the batch normalisation, from the statistics block `T` (row 0 the
    column sums, row 1 the column sums of squares), the gain `G` and the offset `Be`. -/
def mu (T : S2x1024.Idx → EReal) (k : Fin 1024) : EReal := T (ix2 (0 : Fin 2) k) * Cert.Spec.invRows
def var (T : S2x1024.Idx → EReal) (k : Fin 1024) : EReal := T (ix2 (1 : Fin 2) k) * Cert.Spec.invRows - mu T k * mu T k
def scale (T : S2x1024.Idx → EReal) (G : S1x1024.Idx → EReal) (k : Fin 1024) : EReal :=
  G (ix2 (0 : Fin 1) k) * Ideal.rsqrt (var T k + Cert.Spec.eps)
def shift (T : S2x1024.Idx → EReal) (G Be : S1x1024.Idx → EReal) (k : Fin 1024) : EReal :=
  Be (ix2 (0 : Fin 1) k) - mu T k * scale T G k

/-- The rectified dense layer of the normalised rows `H`. -/
def bnDense (H : (⟨2, ![n, 1024]⟩ : Shape).Idx → EReal) (T : S2x1024.Idx → EReal) (G Be : S1x1024.Idx → EReal)
    (W : S1024x1024.Idx → EReal) (Bi : S1x1024.Idx → EReal) (r : Fin n) (j : Fin 1024) : EReal :=
  max ((∑ k : Fin 1024, (H (ix2 r k) * scale T G k + shift T G Be k) * W (ix2 k j)) + Bi (ix2 (0 : Fin 1) j)) 0

/-- The last layer: the logistic function of the rectified dense layer dotted with the output weights, plus the bias. -/
def bnOut (H : (⟨2, ![n, 1024]⟩ : Shape).Idx → EReal) (T : S2x1024.Idx → EReal) (G Be : S1x1024.Idx → EReal)
    (W : S1024x1024.Idx → EReal) (Bi : S1x1024.Idx → EReal) (W4 : S1x1024.Idx → EReal) (B4 : S1x1.Idx → EReal) (r : Fin n) : EReal :=
  Ideal.logistic ((∑ k : Fin 1024, bnDense H T G Be W Bi r k * W4 (ix2 (0 : Fin 1) k)) + B4 (ix2 (0 : Fin 1) (0 : Fin 1)))

/-- Both depend on the rows `H` only through the one row read. -/
theorem bnDense_congr {m : Nat} (H : (⟨2, ![n, 1024]⟩ : Shape).Idx → EReal) (H' : (⟨2, ![m, 1024]⟩ : Shape).Idx → EReal) (T : S2x1024.Idx → EReal)
    (G Be : S1x1024.Idx → EReal) (W : S1024x1024.Idx → EReal) (Bi : S1x1024.Idx → EReal) (r : Fin n) (r' : Fin m) (j : Fin 1024)
    (h : ∀ k, H (ix2 r k) = H' (ix2 r' k)) : bnDense H T G Be W Bi r j = bnDense H' T G Be W Bi r' j := by
  unfold bnDense
  exact congrArg₂ max (congrArg (fun z => z + Bi (ix2 (0 : Fin 1) j)) (Finset.sum_congr rfl fun k _ => by rw [h k])) rfl
theorem bnOut_congr {m : Nat} (H : (⟨2, ![n, 1024]⟩ : Shape).Idx → EReal) (H' : (⟨2, ![m, 1024]⟩ : Shape).Idx → EReal) (T : S2x1024.Idx → EReal)
    (G Be : S1x1024.Idx → EReal) (W : S1024x1024.Idx → EReal) (Bi W4 : S1x1024.Idx → EReal) (B4 : S1x1.Idx → EReal) (r : Fin n) (r' : Fin m)
    (h : ∀ k, H (ix2 r k) = H' (ix2 r' k)) : bnOut H T G Be W Bi W4 B4 r = bnOut H' T G Be W Bi W4 B4 r' := by
  unfold bnOut
  exact congrArg (fun z => Ideal.logistic (z + B4 (ix2 (0 : Fin 1) (0 : Fin 1)))) (Finset.sum_congr rfl fun k _ => by rw [bnDense_congr H H' T G Be W Bi r r' k h])
end Arith

/-- The second layer's block payload at an index. -/
theorem pay3_at (v0 v4 v10 v16 : Vec Ideal S1x1024 .f32) (v20 : Vec Ideal S512x1024 .f32) (v26 : Vec Ideal S1024x1024 .f32)
    (v28 : Vec Ideal S1x1024 .f32) (r : Fin 512) (j : Fin 1024) :
    k2_pay3 (F := Ideal) v0 v4 v10 v16 v20 v26 v28 (ix2 r j)
      = max ((∑ k : Fin 1024, (v20 (ix2 r k) * (v10 (ix2 (0 : Fin 1) k) * Ideal.rsqrt ((v4 (ix2 (0 : Fin 1) k) * Cert.Spec.invRows - v0 (ix2 (0 : Fin 1) k) * Cert.Spec.invRows * (v0 (ix2 (0 : Fin 1) k) * Cert.Spec.invRows)) + Cert.Spec.eps))
          + (v16 (ix2 (0 : Fin 1) k) - v0 (ix2 (0 : Fin 1) k) * Cert.Spec.invRows * (v10 (ix2 (0 : Fin 1) k) * Ideal.rsqrt ((v4 (ix2 (0 : Fin 1) k) * Cert.Spec.invRows - v0 (ix2 (0 : Fin 1) k) * Cert.Spec.invRows * (v0 (ix2 (0 : Fin 1) k) * Cert.Spec.invRows)) + Cert.Spec.eps)))) * v26 (ix2 k j))
          + v28 (ix2 (0 : Fin 1) j)) 0 := by
  unfold k2_pay3
  simp only [maximumf_apply, addf_apply, matmul_at, bcast_row, mulf_apply, subf_apply, rsqrt_apply, broadcast_apply, shapeCast_self]
  exact congrArg₂ max rfl Ideal.ofBits_zero_f32

/-- The block's output at an index: the rectified dense layer of the normalised block. -/
theorem blockDense_at (x0 : Vec Ideal S512x1024 .f32) (x1 : Vec Ideal S2x1024 .f32) (x2 x3 : Vec Ideal S1x1024 .f32) (x4 : Vec Ideal S1024x1024 .f32)
    (x5 : Vec Ideal S1x1024 .f32) (r : Fin 512) (j : Fin 1024) :
    k2_pay3 (F := Ideal) (View.ld x1 (Rect.unit (s := S2x1024) ![0, 0] S1x1024.size inb_S2x1024_S1x1024_0_0))
        (View.ld x1 (Rect.unit (s := S2x1024) ![1, 0] S1x1024.size inb_S2x1024_S1x1024_1_0)) x2 x3 x0 x4 x5 (ix2 r j)
      = bnDense x0 x1 x2 x3 x4 x5 r j := by
  refine (pay3_at _ _ _ _ _ _ _ r j).trans ?_
  unfold bnDense scale shift var mu
  refine congrArg₂ max (congrArg (fun z => z + x5 (ix2 (0 : Fin 1) j)) (Finset.sum_congr rfl fun k _ => ?_)) rfl
  rw [ld_row0 x1 k, ld_row1 x1 k]
  rfl

/-- The block's column sums. -/
theorem pay4_at (v0 v4 v10 v16 : Vec Ideal S1x1024 .f32) (v20 : Vec Ideal S512x1024 .f32) (v26 : Vec Ideal S1024x1024 .f32)
    (v28 : Vec Ideal S1x1024 .f32) (j : Fin 1024) :
    k2_pay4 (F := Ideal) v0 v4 v10 v16 v20 v26 v28 (ix1 j) = ∑ r : Fin 512, k2_pay3 (F := Ideal) v0 v4 v10 v16 v20 v26 v28 (ix2 r j) := by
  unfold k2_pay4
  exact colsum_at _ rfl j

/-- The running statistics after one more block: row 0 gains the block's column sums, row 1 its column sums of squares. -/
theorem pay2_row0 (v33 : FVec Ideal S512x1024 .f32) (v35 : FVec Ideal S1024 .f32) (v44 : Vec Ideal S2x1024 .f32) (j : Fin 1024) :
    k2_pay2 (F := Ideal) v33 v35 v44 (ix2 (0 : Fin 2) j) = v44 (ix2 (0 : Fin 2) j) + v35 (ix1 j) := by
  unfold k2_pay2
  simp only [addf_apply, shapeCast_self, concat_row0, cast_row]
theorem pay2_row1 (v33 : FVec Ideal S512x1024 .f32) (v35 : FVec Ideal S1024 .f32) (v44 : Vec Ideal S2x1024 .f32) (j : Fin 1024) :
    k2_pay2 (F := Ideal) v33 v35 v44 (ix2 (1 : Fin 2) j) = v44 (ix2 (1 : Fin 2) j) + ∑ r : Fin 512, v33 (ix2 r j) * v33 (ix2 r j) := by
  unfold k2_pay2
  simp only [addf_apply, shapeCast_self, concat_row1, cast_row]
  exact congrArg (fun z => v44 (ix2 (1 : Fin 2) j) + z) (colsum_at (mulf v33 v33) rfl j)

/-- The zero statistics block. -/
theorem pay1_at (a : Fin 2) (j : Fin 1024) : k2_pay1 (F := Ideal) (ix2 a j) = 0 := by
  unfold k2_pay1
  simp only [broadcast_apply]
  exact Ideal.ofBits_zero_f32

/-- The last layer's two payloads at an index. -/
theorem k3pay2_at (v0 v4 v10 v16 : Vec Ideal S1x1024 .f32) (v20 : Vec Ideal S512x1024 .f32) (v26 : Vec Ideal S1024x1024 .f32)
    (v28 v34 : Vec Ideal S1x1024 .f32) (r : Fin 512) (j : Fin 1024) :
    k3_pay2 (F := Ideal) v0 v4 v10 v16 v20 v26 v28 v34 (ix2 r j)
      = max ((∑ k : Fin 1024, (v20 (ix2 r k) * (v10 (ix2 (0 : Fin 1) k) * Ideal.rsqrt ((v4 (ix2 (0 : Fin 1) k) * Cert.Spec.invRows - v0 (ix2 (0 : Fin 1) k) * Cert.Spec.invRows * (v0 (ix2 (0 : Fin 1) k) * Cert.Spec.invRows)) + Cert.Spec.eps))
          + (v16 (ix2 (0 : Fin 1) k) - v0 (ix2 (0 : Fin 1) k) * Cert.Spec.invRows * (v10 (ix2 (0 : Fin 1) k) * Ideal.rsqrt ((v4 (ix2 (0 : Fin 1) k) * Cert.Spec.invRows - v0 (ix2 (0 : Fin 1) k) * Cert.Spec.invRows * (v0 (ix2 (0 : Fin 1) k) * Cert.Spec.invRows)) + Cert.Spec.eps)))) * v26 (ix2 k j))
          + v28 (ix2 (0 : Fin 1) j)) 0 * v34 (ix2 (0 : Fin 1) j) := by
  unfold k3_pay2
  simp only [maximumf_apply, addf_apply, matmul_at, bcast_row, mulf_apply, subf_apply, rsqrt_apply, broadcast_apply, shapeCast_self]
  exact congrArg (fun z => z * v34 (ix2 (0 : Fin 1) j)) (congrArg₂ max rfl Ideal.ofBits_zero_f32)

theorem k3pay1_at (v37 : FVec Ideal S512x1024 .f32) (v40 : Vec Ideal S1x1 .f32) (r : Fin 512) :
    k3_pay1 (F := Ideal) v37 v40 (ix2 r (0 : Fin 1)) = Ideal.logistic ((∑ k : Fin 1024, v37 (ix2 r k)) + v40 (ix2 (0 : Fin 1) (0 : Fin 1))) := by
  unfold k3_pay1
  simp only [logistic_apply, addf_apply, cast_col, bcast_one, shapeCast_self]
  exact congrArg (fun z => Ideal.logistic (z + v40 (ix2 (0 : Fin 1) (0 : Fin 1)))) (rowsum_at v37 rfl r)

/-- The last layer's block output at an index. -/
theorem blockOut3_at (x0 : Vec Ideal S512x1024 .f32) (x1 : Vec Ideal S2x1024 .f32) (x2 x3 : Vec Ideal S1x1024 .f32) (x4 : Vec Ideal S1024x1024 .f32)
    (x5 x6 : Vec Ideal S1x1024 .f32) (x7 : Vec Ideal S1x1 .f32) (r : Fin 512) :
    k3_pay1 (F := Ideal) (k3_pay2 (F := Ideal) (View.ld x1 (Rect.unit (s := S2x1024) ![0, 0] S1x1024.size inb_S2x1024_S1x1024_0_0))
        (View.ld x1 (Rect.unit (s := S2x1024) ![1, 0] S1x1024.size inb_S2x1024_S1x1024_1_0)) x2 x3 x0 x4 x5 x6) x7 (ix2 r (0 : Fin 1))
      = bnOut x0 x1 x2 x3 x4 x5 x6 x7 r := by
  refine (k3pay1_at _ _ r).trans ?_
  unfold bnOut bnDense scale shift var mu
  refine congrArg (fun z => Ideal.logistic (z + x7 (ix2 (0 : Fin 1) (0 : Fin 1)))) (Finset.sum_congr rfl fun j _ => ?_)
  refine (k3pay2_at _ _ _ _ _ _ _ _ r j).trans ?_
  refine congrArg (fun z => z * x6 (ix2 (0 : Fin 1) j)) ?_
  refine congrArg₂ max (congrArg (fun z => z + x5 (ix2 (0 : Fin 1) j)) (Finset.sum_congr rfl fun k _ => ?_)) rfl
  rw [ld_row0 x1 k, ld_row1 x1 k]
  rfl

/-! ## Sums over the 16384 rows, 512 at a time -/

/-- A function of the row extended by zero past the last row. -/
def ext0 (g : Fin 16384 → EReal) (i : ℕ) : EReal := if h : i < 16384 then g ⟨i, h⟩ else 0
theorem ext0_of_lt (g : Fin 16384 → EReal) (i : ℕ) (h : i < 16384) : ext0 g i = g ⟨i, h⟩ := dif_pos h

/-- The sum over the first `n` blocks of 512 rows. -/
def psum (g : Fin 16384 → EReal) (n : ℕ) : EReal := ∑ i ∈ Finset.range (512 * n), ext0 g i
theorem psum_zero (g : Fin 16384 → EReal) : psum g 0 = 0 := by
  unfold psum; rw [Nat.mul_zero, Finset.range_zero, Finset.sum_empty]
theorem psum_succ (g : Fin 16384 → EReal) (n : ℕ) : psum g (n + 1) = psum g n + ∑ p : Fin 512, ext0 g (512 * n + p.val) := by
  unfold psum
  rw [show 512 * (n + 1) = 512 * n + 512 from Nat.mul_succ 512 n, Finset.sum_range_add]
  exact congrArg (fun z => (∑ i ∈ Finset.range (512 * n), ext0 g i) + z) (Finset.sum_range fun x => ext0 g (512 * n + x))
theorem psum_full (g : Fin 16384 → EReal) : psum g 32 = ∑ R : Fin 16384, g R := by
  unfold psum
  rw [show 512 * 32 = 16384 from rfl, Finset.sum_range]
  exact Finset.sum_congr rfl fun R _ => ext0_of_lt g R.val R.isLt

end Cert.KernelIdeal.RegLib

end
-- ==== Proof.Reg1Lib.lean ====
import proofs.«209176_g73847667688168_cont_9to1_m_420_10_alg».proof.Proof.Gen.KernelIdeal
import proofs.«209176_g73847667688168_cont_9to1_m_420_10_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Reg1Lib

open Idealize.ShloMosaic Idealize.ShloMosaic.ValueIdx
open Cert.KernelIdeal Cert.KernelIdeal.Gen

/-! # Operations of the dense layers' bodies read at an index, on the extended reals -/

/-- The 0/1 indicator of a non-padding row number, as the body computes it: compare with zero, widen, convert. -/
theorem mask_word (w : BitVec 32) :
    FloatOps.sitofp (F := Ideal) .f32 ((IntOp.cmpi .ne w 0#32).setWidth 32) = Cert.Spec.mask w := by
  unfold Cert.Spec.mask
  by_cases h : w = 0#32
  · subst h
    rw [if_pos rfl]
    show (((((IntOp.cmpi .ne (0#32 : BitVec 32) 0#32).setWidth 32).toInt : ℤ) : ℝ) : EReal) = 0
    rw [show ((IntOp.cmpi .ne (0#32 : BitVec 32) 0#32).setWidth 32) = 0#32 from by decide]
    simp
  · rw [if_neg h]
    have hb : IntOp.cmpi .ne w 0#32 = 1#1 := by
      unfold IntOp.cmpi
      have hne : (w != 0#32) = true := bne_iff_ne.mpr h
      show BitVec.ofBool (w != 0#32) = 1#1
      rw [hne]; rfl
    show (((((IntOp.cmpi .ne w 0#32).setWidth 32).toInt : ℤ) : ℝ) : EReal) = 1
    rw [hb, show ((1#1 : BitVec 1).setWidth 32) = 1#32 from by decide]
    simp

/-- The bias row spread over the rows of a block reads the row's entry. -/
theorem bias_at (x5 : Vec Ideal S1x1024 .f32) (p : Fin 512) (q : Fin 1024) :
    broadcastTo S512x1024 (shapeCast S1x1024 x5 shapeCasts_S1x1024_S1x1024) broadcasts_S1x1024_S512x1024 (ix2 p q)
      = x5 (ix2 (0 : Fin 1) q) := by
  refine (broadcastTo_apply _ _ (ix2 p q) (ix2 (0 : Fin 1) q) (fun a => ?_)).trans (congrFun (shapeCast_self x5 _) _)
  match a with
  | ⟨0, _⟩ => rfl
  | ⟨1, _⟩ => rfl

/-- A column of per-row values, floored by a constant and spread over the row, reads the row's floored value. -/
theorem denom_at (v5 : FVec Ideal S512 .f32) (cst : EReal) (p : Fin 512) (k : Fin 128) :
    broadcastTo S512x128 (maximumf (shapeCast S512x1 v5 shapeCasts_S512_S512x1) (broadcast S512x1 cst)) broadcasts_S512x1_S512x128 (ix2 p k)
      = max (v5 (ix1 p)) cst := by
  refine (broadcastTo_apply _ _ (ix2 p k) (ix2 p (0 : Fin 1)) (fun a => ?_)).trans ?_
  · match a with
    | ⟨0, _⟩ => rfl
    | ⟨1, _⟩ => rfl
  · show max (shapeCast S512x1 v5 shapeCasts_S512_S512x1 (ix2 p (0 : Fin 1))) cst = max (v5 (ix1 p)) cst
    refine congrArg (fun z => max z cst) ?_
    exact shapeCast_apply v5 _ (ix2 p (0 : Fin 1)) (ix1 p) (by
      rw [Shape.rowMajor_val_one, Shape.rowMajor_val_two]; simp)

/-- The lane sum of the 0/1 indicators of a block of row numbers: the number of non-padding entries of the row. -/
theorem count_at (x : IVec S512x50 32) (hφ : FKind.Formats .f32) (hacc : (0x00000000#32 : BitVec 32) = FKind.add.neutral .f32 hφ)
    (p : Fin 512) :
    multiReduction (F := Ideal) .add [1] S512 (sitofp .f32 (extui 32 (cmpi .ne x (broadcast S512x50 0#32)) natLt_1_32)) 0x00000000#32
        reduces_S512x50_S512 hφ hacc (ix1 p)
      = ∑ l : Fin 50, Cert.Spec.mask (x (ix2 p l)) := by
  refine (Ideal.multiReduction_add_single _ _ reduces_S512x50_S512 hφ hacc (ix1 p)).trans ?_
  refine Finset.sum_congr rfl fun l _ => ?_
  have e : reduces_S512x50_S512.lift (ix1 p) l = ix2 p l := funext fun a => Fin.ext (by
    match a with
    | ⟨0, _⟩ => rfl
    | ⟨1, _⟩ => rfl)
  rw [e]
  exact mask_word _

abbrev D1 : DotDims S512x128 S128x1024 S512x1024 := dot_S512x128_S128x1024_S512x1024_1_0_0_1_n_n

theorem lhs_D1_0 (i : S512x1024.Idx) (q : D1.contr.Idx) : (D1.lhsIdx i q 0).val = (i 0).val := by
  unfold DotDims.lhsIdx
  rw [dif_neg (show ¬(0 : Fin S512x128.rank) ∈ D1.lhsBatch by decide), dif_pos (show (0 : Fin S512x128.rank) ∈ D1.lhsNonContracting by decide)]
  rfl
theorem lhs_D1_1 (i : S512x1024.Idx) (q : D1.contr.Idx) : (D1.lhsIdx i q 1).val = (q ⟨0, by decide⟩).val :=
  D1.lhsIdx_val_of_single rfl i q
theorem rhs_D1_0 (i : S512x1024.Idx) (q : D1.contr.Idx) : (D1.rhsIdx i q 0).val = (q ⟨0, by decide⟩).val :=
  D1.rhsIdx_val_of_single rfl i q
theorem rhs_D1_1 (i : S512x1024.Idx) (q : D1.contr.Idx) : (D1.rhsIdx i q 1).val = (i 1).val := by
  unfold DotDims.rhsIdx
  rw [dif_neg (show ¬(1 : Fin S128x1024.rank) ∈ D1.rhsBatch by decide), dif_pos (show (1 : Fin S128x1024.rank) ∈ D1.rhsNonContracting by decide)]
  rfl

/-- A block of 512 rows of 128 times a 128-row slab of weights, read at an index: the sum over the 128 columns. -/
theorem mm1_at (A : FVec Ideal S512x128 .f32) (Wk : FVec Ideal S128x1024 .f32) (p : Fin 512) (q : Fin 1024) :
    matmul D1 none A Wk (constant S512x1024 .f32 0x00000000#32) (ix2 p q) = ∑ k : Fin 128, A (ix2 p k) * Wk (ix2 k q) := by
  refine (Ideal.matmul_constant_zero_apply D1 none A Wk (ix2 p q)).trans ?_
  rw [← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact lhs_D1_0 _ _
    | ⟨1, _⟩ => exact (lhs_D1_1 _ _).trans hk)
  have er : D1.rhsIdx (ix2 p q) ((contrEquiv1 D1 128 rfl rfl).symm k) = ix2 k q := funext fun a => Fin.ext (by
    match a with
    | ⟨0, _⟩ => exact (rhs_D1_0 _ _).trans hk
    | ⟨1, _⟩ => exact rhs_D1_1 _ _)
  rw [el, er]

end Cert.KernelIdeal.Reg1Lib

end
-- ==== Proof.Reg1Pay.lean ====
import proofs.«209176_g73847667688168_cont_9to1_m_420_10_alg».proof.Proof.Reg1Out
import proofs.«209176_g73847667688168_cont_9to1_m_420_10_alg».proof.Proof.Reg1Lib

set_option maxRecDepth 16384

noncomputable section

open scoped BigOperators

namespace Cert.KernelIdeal.Reg1

open Idealize.ShloMosaic Idealize.ShloMosaic.ValueIdx
open Cert.KernelIdeal Cert.KernelIdeal.Gen Cert.KernelIdeal.Reg1Lib

/-! # The first dense layer's body at an index, on the extended reals -/

/-- The upper half of the weights, as loaded, at an index. -/
theorem ldW0_at (x4 : Vec Ideal S256x1024 .f32) (k : Fin 128) (q : Fin 1024) :
    View.ld x4 rW0 (ix2 k q) = x4 (ix2 (Fin.castAdd 128 k) q) := by
  show x4 (rW0.idx (ix2 k q)) = _
  refine congrArg x4 (funext fun a => Fin.ext ?_)
  match a with
  | ⟨0, _⟩ => show 0 + 1 * k.val = k.val; omega
  | ⟨1, _⟩ => show 0 + 1 * q.val = q.val; omega

/-- The lower half of the weights, as loaded, at an index. -/
theorem ldW1_at (x4 : Vec Ideal S256x1024 .f32) (k : Fin 128) (q : Fin 1024) :
    View.ld x4 rW1 (ix2 k q) = x4 (ix2 (Fin.natAdd 128 k) q) := by
  show x4 (rW1.idx (ix2 k q)) = _
  refine congrArg x4 (funext fun a => Fin.ext ?_)
  match a with
  | ⟨0, _⟩ => show 128 + 1 * k.val = 128 + k.val; omega
  | ⟨1, _⟩ => show 0 + 1 * q.val = q.val; omega

/-- One bag's average, as the body computes it, at an index: the pooled row over the floored count of the bag's
    non-padding entries. -/
theorem avg_at (x : Vec Ideal S512x128 .f32) (w : Vec Ideal S512x50 .i32) (hφ : FKind.Formats .f32)
    (hacc : (0x00000000#32 : BitVec 32) = FKind.add.neutral .f32 hφ) (p : Fin 512) (k : Fin 128) :
    divf (shapeCast S512x128 x shapeCasts_S512x128_S512x128)
        (broadcastTo S512x128 (maximumf (shapeCast S512x1
          (multiReduction (F := Ideal) .add [1] S512 (sitofp .f32 (extui 32 (cmpi .ne w (broadcast S512x50 0#32)) natLt_1_32)) 0x00000000#32
            reduces_S512x50_S512 hφ hacc) shapeCasts_S512_S512x1) (broadcast S512x1 (Scalar.ofBits .f32 0x3089705F#32))) broadcasts_S512x1_S512x128) (ix2 p k)
      = Ideal.div (x (ix2 p k)) (max (∑ l : Fin 50, Cert.Spec.mask (w (ix2 p l))) Cert.Spec.tiny) := by
  refine (divf_apply _ _ _).trans (congrArg₂ Ideal.div (congrFun (shapeCast_self x _) _) ?_)
  refine (denom_at _ _ p k).trans ?_
  exact congrArg (fun z => max z Cert.Spec.tiny) (count_at w hφ hacc p)

/-- The layer before the rectifier, at an index of the block. -/
theorem pre1_at (x0 x1 : Vec Ideal S512x128 .f32) (x2 x3 : Vec Ideal S512x50 .i32) (x4 : Vec Ideal S256x1024 .f32) (x5 : Vec Ideal S1x1024 .f32)
    (p : Fin 512) (q : Fin 1024) :
    pre1 x0 x1 x2 x3 x4 x5 (ix2 p q)
      = (∑ k : Fin 128, Ideal.div (x0 (ix2 p k)) (max (∑ l : Fin 50, Cert.Spec.mask (x2 (ix2 p l))) Cert.Spec.tiny) * x4 (ix2 (Fin.castAdd 128 k) q))
        + (∑ k : Fin 128, Ideal.div (x1 (ix2 p k)) (max (∑ l : Fin 50, Cert.Spec.mask (x3 (ix2 p l))) Cert.Spec.tiny) * x4 (ix2 (Fin.natAdd 128 k) q))
        + x5 (ix2 (0 : Fin 1) q) := by
  unfold pre1 k1_pay4
  dsimp only
  refine congrArg₂ (fun a b : EReal => a + b) (congrArg₂ (fun a b : EReal => a + b) ?_ ?_) (bias_at x5 p q)
  · refine (mm1_at _ _ p q).trans (Finset.sum_congr rfl fun k _ => ?_)
    exact congrArg₂ (fun a b : EReal => a * b) (avg_at x0 x2 _ _ p k) (ldW0_at x4 k q)
  · refine (mm1_at _ _ p q).trans (Finset.sum_congr rfl fun k _ => ?_)
    exact congrArg₂ (fun a b : EReal => a * b) (avg_at x1 x3 _ _ p k) (ldW1_at x4 k q)

/-- The layer's output on the block, at an index. -/
theorem out6_at (x0 x1 : Vec Ideal S512x128 .f32) (x2 x3 : Vec Ideal S512x50 .i32) (x4 : Vec Ideal S256x1024 .f32) (x5 : Vec Ideal S1x1024 .f32)
    (p : Fin 512) (q : Fin 1024) :
    out6 x0 x1 x2 x3 x4 x5 (ix2 p q) = max (pre1 x0 x1 x2 x3 x4 x5 (ix2 p q)) 0 := by
  unfold out6 k1_pay1 k1_pay5
  show max (pre1 x0 x1 x2 x3 x4 x5 (ix2 p q)) (Ideal.ofBits .f32 0x00000000#32) = _
  rw [Ideal.ofBits_zero_f32]

end Cert.KernelIdeal.Reg1

end
-- ==== Proof.Reg1Val6.lean ====
import proofs.«209176_g73847667688168_cont_9to1_m_420_10_alg».proof.Proof.Reg1Frame
import proofs.«209176_g73847667688168_cont_9to1_m_420_10_alg».proof.Proof.Reg1Pay

set_option maxRecDepth 16384

noncomputable section

open scoped BigOperators

namespace Cert.KernelIdeal.Reg1

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal.Gen

variable {Ix : Type} [DecidableEq Ix] {Name : Type} [DecidableEq Name] {U : Type} [URA U] {Lvl : Type} [Preorder Lvl]

/-! # The first dense layer's region: the rows' array it leaves -/

/-- The first dense layer with its rectifier, from the two bags' pooled rows `P0`, `P1`: each bag's row over the floored
    count of its non-padding entries, times its half of the weights, plus the bias. -/
def h1Of (P0 P1 : Fin 16384 → Fin 128 → EReal) (src dst : Cert.Spec.Idx) (W : Cert.Spec.Mat 256 1024) (b : Fin 1024 → EReal) :
    Cert.Spec.Act 1024 := fun r j =>
  max ((∑ k : Fin 128, Ideal.div (P0 r k) (max (Cert.Spec.cnt src r) Cert.Spec.tiny) * W (Fin.castAdd 128 k) j)
      + (∑ k : Fin 128, Ideal.div (P1 r k) (max (Cert.Spec.cnt dst r) Cert.Spec.tiny) * W (Fin.natAdd 128 k) j) + b j) 0

/-- The same read off the region's arrays: the pooled rows (the first bag's 16384 rows, then the second bag's), the two
    arrays of row numbers, the weights, the bias row. -/
def h1Arr (P : S32768x128.Idx → EReal) (S D : S16384x50.Idx → BitVec 32) (W : S256x1024.Idx → EReal) (Bi : S1x1024.Idx → EReal) :
    S16384x1024.Idx → EReal := fun i =>
  h1Of (fun r k => P (ix2 (⟨r.val, Nat.lt_of_lt_of_le r.isLt (by decide)⟩ : Fin 32768) k))
    (fun r k => P (ix2 (⟨16384 + r.val, by have := r.isLt; omega⟩ : Fin 32768) k))
    (fun r l => S (ix2 r l)) (fun r l => D (ix2 r l)) (fun k j => W (ix2 k j)) (fun j => Bi (ix2 (0 : Fin 1) j)) (i 0) (i 1)

/-- The body's output block is the layer's output on the block's rows, whenever the six blocks it read are the
    arrays' blocks at row offset `n`. -/
theorem out6_blk (P : S32768x128.Idx → EReal) (S D : S16384x50.Idx → BitVec 32) (W : S256x1024.Idx → EReal) (Bi : S1x1024.Idx → EReal)
    (x0 x1 : Vec Ideal S512x128 .f32) (x2 x3 : Vec Ideal S512x50 .i32) (x4 : Vec Ideal S256x1024 .f32) (x5 : Vec Ideal S1x1024 .f32)
    (n : Nat) (hn : n + 512 ≤ 16384)
    (h0 : ∀ (p : Fin 512) (k : Fin 128), x0 (ix2 p k) = P (ix2 (⟨n + p.val, by have := p.isLt; omega⟩ : Fin 32768) k))
    (h1 : ∀ (p : Fin 512) (k : Fin 128), x1 (ix2 p k) = P (ix2 (⟨16384 + (n + p.val), by have := p.isLt; omega⟩ : Fin 32768) k))
    (h2 : ∀ (p : Fin 512) (l : Fin 50), x2 (ix2 p l) = S (ix2 (⟨n + p.val, by have := p.isLt; omega⟩ : Fin 16384) l))
    (h3 : ∀ (p : Fin 512) (l : Fin 50), x3 (ix2 p l) = D (ix2 (⟨n + p.val, by have := p.isLt; omega⟩ : Fin 16384) l))
    (h4 : x4 = W) (h5 : x5 = Bi) (p : Fin 512) (q : Fin 1024) :
    out6 x0 x1 x2 x3 x4 x5 (ix2 p q) = h1Arr P S D W Bi (ix2 (⟨n + p.val, by have := p.isLt; omega⟩ : Fin 16384) q) := by
  subst h4 h5
  rw [out6_at, pre1_at]
  unfold h1Arr h1Of Cert.Spec.cnt
  simp only [h0, h1, h2, h3]

/-- The printed index maps, decided over the grid. -/
theorem idx_facts : ∀ t : Fin cfg1.N,
    win1_0.index t (0 : Fin 2) = t.val ∧ win1_0.index t (1 : Fin 2) = 0
    ∧ win1_1.index t (0 : Fin 2) = t.val + 32 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0 :=
  (by decide +kernel : ∀ t : Fin grid1.N, _)

section Value
variable (V : (c : Dev nD) → (b : Ref sig .tc) → Buf (Elt Ideal) ((c : Thread nD τ).loc b)) (B : Set (SemLoc sig × Ix))

/-- The body's output block at point `t`, at an index: the layer's output at row `512 t + p`. -/
theorem out6_iblk (c : Dev nD) (t : Fin cfg1.N) (p : Fin 512) (q : Fin 1024) :
    out6 (iblk V c 0 t) (iblk V c 1 t) (iblk V c 2 t) (iblk V c 3 t) (iblk V c 4 t) (iblk V c 5 t) (ix2 p q)
      = h1Arr (V c main_v5) (V c main_arg0) (V c main_arg1) (V c main_arg3) (V c main_v6) (ix2 (⟨512 * t.val + p.val, by have := p.isLt; have := lt_of_lt_of_eq t.isLt (show cfg1.N = 32 from N_1); omega⟩ : Fin 16384) q) := by
  have hN : t.val < 32 := lt_of_lt_of_eq t.isLt (show cfg1.N = 32 from N_1)
  obtain ⟨e00, e01, e10, e11, e20, e21, e30, e31, e40, e41, e50, e51, e60, e61, e70, e71⟩ := idx_facts t
  refine out6_blk (V c main_v5) (V c main_arg0) (V c main_arg1) (V c main_arg3) (V c main_v6) (iblk V c 0 t) (iblk V c 1 t) (iblk V c 2 t) (iblk V c 3 t) (iblk V c 4 t) (iblk V c 5 t) (512 * t.val) (by omega) ?_ ?_ ?_ ?_ ?_ ?_ p q
  · intro p k
    show V c main_v5 (((cfg1.win 0).blk t).view.emb (ix2 p k)) = V c main_v5 (ix2 _ k)
    refine congrArg (V c main_v5) (funext fun a => Fin.ext ?_)
    match a with
    | ⟨0, _⟩ => show win1_0.index t (0 : Fin 2) * 512 + 1 * p.val = 512 * t.val + p.val; omega
    | ⟨1, _⟩ => show win1_0.index t (1 : Fin 2) * 128 + 1 * k.val = k.val; omega
  · intro p k
    show V c main_v5 (((cfg1.win 1).blk t).view.emb (ix2 p k)) = V c main_v5 (ix2 _ k)
    refine congrArg (V c main_v5) (funext fun a => Fin.ext ?_)
    match a with
    | ⟨0, _⟩ => show win1_1.index t (0 : Fin 2) * 512 + 1 * p.val = 16384 + (512 * t.val + p.val); omega
    | ⟨1, _⟩ => show win1_1.index t (1 : Fin 2) * 128 + 1 * k.val = k.val; omega
  · intro p l
    show V c main_arg0 (((cfg1.win 2).blk t).view.emb (ix2 p l)) = V c main_arg0 (ix2 _ l)
    refine congrArg (V c main_arg0) (funext fun a => Fin.ext ?_)
    match a with
    | ⟨0, _⟩ => show win1_2.index t (0 : Fin 2) * 512 + 1 * p.val = 512 * t.val + p.val; omega
    | ⟨1, _⟩ => show win1_2.index t (1 : Fin 2) * 50 + 1 * l.val = l.val; omega
  · intro p l
    show V c main_arg1 (((cfg1.win 3).blk t).view.emb (ix2 p l)) = V c main_arg1 (ix2 _ l)
    refine congrArg (V c main_arg1) (funext fun a => Fin.ext ?_)
    match a with
    | ⟨0, _⟩ => show win1_3.index t (0 : Fin 2) * 512 + 1 * p.val = 512 * t.val + p.val; omega
    | ⟨1, _⟩ => show win1_3.index t (1 : Fin 2) * 50 + 1 * l.val = l.val; omega
  · funext y
    show V c main_arg3 (((cfg1.win 4).blk t).view.emb y) = V c main_arg3 y
    refine congrArg (V c main_arg3) (funext fun a => Fin.ext ?_)
    match a with
    | ⟨0, _⟩ => show win1_4.index t (0 : Fin 2) * 256 + 1 * (y 0).val = (y 0).val; omega
    | ⟨1, _⟩ => show win1_4.index t (1 : Fin 2) * 1024 + 1 * (y 1).val = (y 1).val; omega
  · funext y
    show V c main_v6 (((cfg1.win 5).blk t).view.emb y) = V c main_v6 y
    refine congrArg (V c main_v6) (funext fun a => Fin.ext ?_)
    match a with
    | ⟨0, _⟩ => show win1_5.index t (0 : Fin 2) * 1 + 1 * (y 0).val = (y 0).val; omega
    | ⟨1, _⟩ => show win1_5.index t (1 : Fin 2) * 1024 + 1 * (y 1).val = (y 1).val; omega

/-- WHAT POINT `t` WRITES BACK is block `t` of the layer's output on the whole arrays. -/
theorem flushed6_eq (c : Dev nD) (t : Fin cfg1.N) :
    (dat (F := Ideal) (Name := Name) (U := U) (Lvl := Lvl) V B c).flushed 6 t = ((cfg1.win 6).blk t).view.read (Elt Ideal) (h1Arr (V c main_v5) (V c main_arg0) (V c main_arg1) (V c main_arg3) (V c main_v6)) := by
  show (cfg1.win 6).cut (grid1.coords t) ((dat (F := Ideal) (Name := Name) (U := U) (Lvl := Lvl) V B c).after 6 t) = _
  rw [after_6]
  have hN : t.val < 32 := lt_of_lt_of_eq t.isLt (show cfg1.N = 32 from N_1)
  obtain ⟨e00, e01, e10, e11, e20, e21, e30, e31, e40, e41, e50, e51, e60, e61, e70, e71⟩ := idx_facts t
  funext j
  obtain ⟨p, q, rfl⟩ : ∃ (p : Fin 512) (q : Fin 1024), j = ix2 p q := ⟨j 0, j 1, eq_ix2 j⟩
  show out6 (iblk V c 0 t) (iblk V c 1 t) (iblk V c 2 t) (iblk V c 3 t) (iblk V c 4 t) (iblk V c 5 t) (ix2 p q) = h1Arr (V c main_v5) (V c main_arg0) (V c main_arg1) (V c main_arg3) (V c main_v6) (((cfg1.win 6).blk t).view.emb (ix2 p q))
  refine (out6_iblk V c t p q).trans (congrArg (h1Arr (V c main_v5) (V c main_arg0) (V c main_arg1) (V c main_arg3) (V c main_v6)) (funext fun a => Fin.ext ?_))
  match a with
  | ⟨0, _⟩ => show 512 * t.val + p.val = win1_6.index t (0 : Fin 2) * 512 + 1 * p.val; omega
  | ⟨1, _⟩ => show q.val = win1_6.index t (1 : Fin 2) * 1024 + 1 * q.val; omega

/-- An index of the rows' array is in point `t`'s block iff each coordinate is in the block's range on its axis. -/
theorem mem_blk6 (t : Fin cfg1.N) (i : S16384x1024.Idx) :
    i ∈ ((cfg1.win 6).blk t).view.set ↔ ∀ a : Fin 2, win1_6.index t a * S512x1024.size a ≤ (i a).val ∧ (i a).val < win1_6.index t a * S512x1024.size a + S512x1024.size a := by
  show i ∈ ((View.whole main_v15_0).slice (win1_6.rect t)).set ↔ _
  rw [View.set_slice_whole, Rect.mem_set_unit]
  exact Iff.rfl

/-- Every row of the array is in some point's block: the 32 blocks of 512 rows tile it. -/
theorem cover6 (i : S16384x1024.Idx) : ∃ t : Fin cfg1.N, (cfg1.win 6).flush t = true ∧ i ∈ ((cfg1.win 6).blk t).view.set := by
  have hi0 : (i 0).val < 16384 := (i 0).isLt
  have hi1 : (i 1).val < 1024 := (i 1).isLt
  refine ⟨⟨(i 0).val / 512, by rw [show cfg1.N = 32 from N_1]; omega⟩, flush1_6 _, ?_⟩
  obtain ⟨e00, e01, e10, e11, e20, e21, e30, e31, e40, e41, e50, e51, e60, e61, e70, e71⟩ := idx_facts ⟨(i 0).val / 512, by rw [show cfg1.N = 32 from N_1]; omega⟩
  rw [mem_blk6]
  intro a
  match a with
  | ⟨0, _⟩ =>
    show win1_6.index _ (0 : Fin 2) * 512 ≤ (i 0).val ∧ (i 0).val < win1_6.index _ (0 : Fin 2) * 512 + 512
    rw [e60]; dsimp only; omega
  | ⟨1, _⟩ =>
    show win1_6.index _ (1 : Fin 2) * 1024 ≤ (i 1).val ∧ (i 1).val < win1_6.index _ (1 : Fin 2) * 1024 + 1024
    rw [e61]; omega

/-- THE ROWS' ARRAY after the region: the first dense layer's output, index by index, as a function of the arrays the
    region was entered with. -/
theorem arrAt_6 (c : Dev nD) : (dat (F := Ideal) (Name := Name) (U := U) (Lvl := Lvl) V B c).arrAt 6 cfg1.N = h1Arr (V c main_v5) (V c main_arg0) (V c main_arg1) (V c main_arg3) (V c main_v6) :=
  (dat (F := Ideal) (Name := Name) (U := U) (Lvl := Lvl) V B c).arrAt_eq_of_cover 6 (h1Arr (V c main_v5) (V c main_arg0) (V c main_arg1) (V c main_arg3) (V c main_v6)) (fun t _ => flushed6_eq V B c t) cover6

end Value

end Cert.KernelIdeal.Reg1

end
-- ==== Proof.KBridge.lean ====
/-
  The fused kernels' result, as the regions leave it over their arrays, is the specification's kernel form. The first
  region's rows are the first dense layer of the pooled averages; each later region normalises its input by a scale and
  shift built from the previous region's column sums and sums of squares, then applies its dense layer; the last one
  dots with the output weights, adds the bias and applies the logistic function. Unfolding the regions' formulas, with
  the small operands read through their one-row reshapes, gives the specification's layers one after another.
-/
import proofs.«209176_g73847667688168_cont_9to1_m_420_10_alg».proof.Proof.KLayers
import proofs.«209176_g73847667688168_cont_9to1_m_420_10_alg».proof.Proof.SpecArgs
import proofs.«209176_g73847667688168_cont_9to1_m_420_10_alg».proof.Proof.RegLib
import proofs.«209176_g73847667688168_cont_9to1_m_420_10_alg».proof.Proof.Reg1Val6

noncomputable section

open scoped BigOperators

namespace Cert.KBridge

open Idealize.ShloMosaic Idealize.ShloMosaic.ValueIdx
open Cert.KernelIdeal Cert.KernelIdeal.RegLib Cert.KernelIdeal.Reg1 Cert.Spec

/-! ## The first region -/

/-- The first region's rows are the specification's first layer, once the pooled rows are the specification's pooled bags. -/
theorem h1Arr_spec (P : S32768x128.Idx → EReal) (S D : S16384x50.Idx → BitVec 32) (Wa : S256x1024.Idx → EReal)
    (Bi : S1x1024.Idx → EReal) (emb : Tab) (b1 : Fin 1024 → EReal)
    (hP0 : ∀ (r : Fin 16384) (k : Fin 128),
      P (ix2 (⟨r.val, Nat.lt_of_lt_of_le r.isLt (by decide)⟩ : Fin 32768) k) = poolK (fun r l => S (ix2 r l)) emb r k)
    (hP1 : ∀ (r : Fin 16384) (k : Fin 128),
      P (ix2 (⟨16384 + r.val, by have := r.isLt; omega⟩ : Fin 32768) k) = poolK (fun r l => D (ix2 r l)) emb r k)
    (hBi : ∀ j, Bi (ix2 (0 : Fin 1) j) = b1 j) (r : Fin 16384) (j : Fin 1024) :
    h1Arr P S D Wa Bi (ix2 r j)
      = h1K (fun r l => S (ix2 r l)) (fun r l => D (ix2 r l)) emb (fun k j => Wa (ix2 k j)) b1 r j :=
  Cert.KLayers.layer1 (src := fun r l => S (ix2 r l)) (dst := fun r l => D (ix2 r l)) (emb := emb)
    (W1 := fun k j => Wa (ix2 k j)) (b1 := b1)
    (PS := fun r k => P (ix2 (⟨r.val, Nat.lt_of_lt_of_le r.isLt (by decide)⟩ : Fin 32768) k))
    (PD := fun r k => P (ix2 (⟨16384 + r.val, by have := r.isLt; omega⟩ : Fin 32768) k))
    (cS := cnt fun r l => S (ix2 r l)) (cD := cnt fun r l => D (ix2 r l))
    (out6 := fun r j => h1Arr P S D Wa Bi (ix2 r j)) hP0 hP1 (fun _ => rfl) (fun _ => rfl)
    (fun r j => by
      show max (_ + _ + Bi (ix2 (0 : Fin 1) j)) 0 = max (_ + _ + b1 j) 0
      rw [hBi]) r j

/-! ## A normalised dense layer over arrays -/

section BnDense
variable {H : Act 1024} {g be b : Fin 1024 → EReal} {W : Mat 1024 1024}
  (Ha : S16384x1024.Idx → EReal) (T : S2x1024.Idx → EReal) (G Be Bi : S1x1024.Idx → EReal) (Wa : S1024x1024.Idx → EReal)

/-- The scale and shift the kernels build from the statistics rows are the specification's. -/
theorem scale_shift_spec (hT0 : ∀ j, T (ix2 (0 : Fin 2) j) = ∑ r, H r j)
    (hT1 : ∀ j, T (ix2 (1 : Fin 2) j) = ∑ r, H r j * H r j) (hG : ∀ k, G (ix2 (0 : Fin 1) k) = g k)
    (hBe : ∀ k, Be (ix2 (0 : Fin 1) k) = be k) (k : Fin 1024) :
    scale T G k = scaleK H g k ∧ shift T G Be k = shiftK H g be k :=
  Cert.KLayers.scale_shift (H := H) (g := g) (be := be) (s0 := fun j => T (ix2 (0 : Fin 2) j))
    (s1 := fun j => T (ix2 (1 : Fin 2) j)) (mu := mu T) (var := var T) (scale := scale T G) (shift := shift T G Be)
    hT0 hT1 (fun _ => rfl) (fun _ => rfl)
    (fun k => by show G (ix2 (0 : Fin 1) k) * _ = g k * _; rw [hG])
    (fun k => by show Be (ix2 (0 : Fin 1) k) - _ = be k - _; rw [hBe]) k

/-- A region's normalise-then-dense rows are the specification's dense layer of the normalised input. -/
theorem bnDense_spec (hH : ∀ r k, Ha (ix2 r k) = H r k) (hT0 : ∀ j, T (ix2 (0 : Fin 2) j) = ∑ r, H r j)
    (hT1 : ∀ j, T (ix2 (1 : Fin 2) j) = ∑ r, H r j * H r j) (hG : ∀ k, G (ix2 (0 : Fin 1) k) = g k)
    (hBe : ∀ k, Be (ix2 (0 : Fin 1) k) = be k) (hBi : ∀ j, Bi (ix2 (0 : Fin 1) j) = b j)
    (hW : ∀ k j, Wa (ix2 k j) = W k j) (r : Fin 16384) (j : Fin 1024) :
    bnDense Ha T G Be Wa Bi r j = dense (bnK H g be) W b r j :=
  Cert.KLayers.layer_bn_dense (H := H) (g := g) (be := be) (W := W) (b := b) (scale := scale T G) (shift := shift T G Be)
    (out6 := fun r j => bnDense Ha T G Be Wa Bi r j)
    (fun k => (scale_shift_spec T G Be hT0 hT1 hG hBe k).1) (fun k => (scale_shift_spec T G Be hT0 hT1 hG hBe k).2)
    (fun r j => by
      show max ((∑ k : Fin 1024, (Ha (ix2 r k) * scale T G k + shift T G Be k) * Wa (ix2 k j)) + Bi (ix2 (0 : Fin 1) j)) 0
        = max ((∑ k : Fin 1024, (H r k * scale T G k + shift T G Be k) * W k j) + b j) 0
      rw [hBi, Finset.sum_congr rfl fun k _ => by rw [hH r k, hW k j]]) r j

variable {W4 : Fin 1024 → EReal} {b4 : EReal} (W4a : S1x1024.Idx → EReal) (B4a : S1x1.Idx → EReal)

/-- The last region's result: the logistic function of the last dense layer dotted with the output weights, plus the bias. -/
theorem bnOut_spec (hH : ∀ r k, Ha (ix2 r k) = H r k) (hT0 : ∀ j, T (ix2 (0 : Fin 2) j) = ∑ r, H r j)
    (hT1 : ∀ j, T (ix2 (1 : Fin 2) j) = ∑ r, H r j * H r j) (hG : ∀ k, G (ix2 (0 : Fin 1) k) = g k)
    (hBe : ∀ k, Be (ix2 (0 : Fin 1) k) = be k) (hBi : ∀ j, Bi (ix2 (0 : Fin 1) j) = b j)
    (hW : ∀ k j, Wa (ix2 k j) = W k j) (hW4 : ∀ k, W4a (ix2 (0 : Fin 1) k) = W4 k)
    (hB4 : B4a (ix2 (0 : Fin 1) (0 : Fin 1)) = b4) (r : Fin 16384) :
    bnOut Ha T G Be Wa Bi W4a B4a r = Ideal.logistic ((∑ k, dense (bnK H g be) W b r k * W4 k) + b4) := by
  show Ideal.logistic ((∑ k : Fin 1024, bnDense Ha T G Be Wa Bi r k * W4a (ix2 (0 : Fin 1) k)) + B4a (ix2 (0 : Fin 1) (0 : Fin 1))) = _
  rw [hB4, Finset.sum_congr rfl fun k _ => by rw [bnDense_spec (H := H) (g := g) (be := be) (b := b) (W := W) Ha T G Be Bi Wa hH hT0 hT1 hG hBe hBi hW r k, hW4 k]]

end BnDense

end Cert.KBridge

end
-- ==== Proof.Reg1Val7.lean ====
import proofs.«209176_g73847667688168_cont_9to1_m_420_10_alg».proof.Proof.Reg1Val6

set_option maxRecDepth 16384

noncomputable section

open scoped BigOperators

namespace Cert.KernelIdeal.Reg1

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal.Gen Cert.KernelIdeal.Reg1Lib

variable {Ix : Type} [DecidableEq Ix] {Name : Type} [DecidableEq Name] {U : Type} [URA U] {Lvl : Type} [Preorder Lvl]

/-! # The first dense layer's region: the column statistics it leaves -/

/-- A block's sum down its rows, laid out as a row, at an index. -/
theorem colsum_at (y : FVec Ideal S512x1024 .f32) (hφ : FKind.Formats .f32)
    (hacc : (0x00000000#32 : BitVec 32) = FKind.add.neutral .f32 hφ) (j : Fin 1024) :
    shapeCast S1x1024 (multiReduction (F := Ideal) .add [0] S1024 y 0x00000000#32 reduces_S512x1024_S1024 hφ hacc) shapeCasts_S1024_S1x1024
        (ix2 (0 : Fin 1) j) = ∑ r : Fin 512, y (ix2 r j) := by
  refine (shapeCast_apply _ _ (ix2 (0 : Fin 1) j) (ix1 j) (by
    rw [Shape.rowMajor_val_one, Shape.rowMajor_val_two]; simp)).trans ?_
  refine (Ideal.multiReduction_add_single y _ reduces_S512x1024_S1024 hφ hacc (ix1 j)).trans ?_
  refine Finset.sum_congr rfl fun r _ => congrArg y (funext fun a => Fin.ext ?_)
  match a with
  | ⟨0, _⟩ => rfl
  | ⟨1, _⟩ => rfl

/-- The statistics block the body stores, row 0: what the block held plus the column sums of the rows block. -/
theorem pay3_at0 (v34 v35 : FVec Ideal S512x1024 .f32) (v47 : Vec Ideal S2x1024 .f32) (j : Fin 1024) :
    k1_pay3 v34 v35 v47 (ix2 (0 : Fin 2) j) = v47 (ix2 (0 : Fin 2) j) + ∑ r : Fin 512, k1_pay1 v34 v35 (ix2 r j) := by
  unfold k1_pay3
  dsimp only
  refine congrArg₂ (fun a b : EReal => a + b) (congrFun (shapeCast_self v47 _) _) ?_
  refine (concatenate_pair_apply_left (t := S2x1024) (s₁ := S1x1024) (s₂ := S1x1024) (0 : Fin 2) _ _ concatenates_S1x1024_S1x1024_S2x1024_d0 (ix2 (0 : Fin 2) j) rfl
    (ix2 (0 : Fin 1) j) (fun b => ?_)).trans (colsum_at _ _ _ j)
  match b with
  | ⟨0, _⟩ => rfl
  | ⟨1, _⟩ => rfl

/-- Row 1: what the block held plus the column sums of the squares. -/
theorem pay3_at1 (v34 v35 : FVec Ideal S512x1024 .f32) (v47 : Vec Ideal S2x1024 .f32) (j : Fin 1024) :
    k1_pay3 v34 v35 v47 (ix2 (1 : Fin 2) j)
      = v47 (ix2 (1 : Fin 2) j) + ∑ r : Fin 512, k1_pay1 v34 v35 (ix2 r j) * k1_pay1 v34 v35 (ix2 r j) := by
  unfold k1_pay3
  dsimp only
  refine congrArg₂ (fun a b : EReal => a + b) (congrFun (shapeCast_self v47 _) _) ?_
  refine (concatenate_pair_apply_right (t := S2x1024) (s₁ := S1x1024) (s₂ := S1x1024) (0 : Fin 2) _ _ concatenates_S1x1024_S1x1024_S2x1024_d0 (ix2 (1 : Fin 2) j) rfl rfl
    (ix2 (0 : Fin 1) j) (fun b hb => ?_) rfl).trans ((colsum_at _ _ _ j).trans (Finset.sum_congr rfl fun r _ => rfl))
  match b with
  | ⟨0, _⟩ => exact absurd rfl hb
  | ⟨1, _⟩ => rfl

/-- A block's column statistics: row 0 the sums down the rows, row 1 the sums of the squares. -/
def colstat (y : S512x1024.Idx → EReal) (a : Fin 2) (j : Fin 1024) : EReal :=
  if a.val = 0 then ∑ r : Fin 512, y (ix2 r j) else ∑ r : Fin 512, y (ix2 r j) * y (ix2 r j)

/-- The cleared statistics block reads zero. -/
theorem pay2_at (i : S2x1024.Idx) : (k1_pay2 (F := Ideal)) i = 0 := by
  unfold k1_pay2
  show Ideal.ofBits .f32 0x00000000#32 = 0
  exact Ideal.ofBits_zero_f32

theorem out7B_at (x0 x1 : Vec Ideal S512x128 .f32) (x2 x3 : Vec Ideal S512x50 .i32) (x4 : Vec Ideal S256x1024 .f32) (x5 : Vec Ideal S1x1024 .f32)
    (xo : Vec Ideal S2x1024 .f32) (a : Fin 2) (j : Fin 1024) :
    out7B x0 x1 x2 x3 x4 x5 xo (ix2 a j) = xo (ix2 a j) + colstat (out6 x0 x1 x2 x3 x4 x5) a j := by
  unfold out7B colstat out6
  by_cases h0 : a.val = 0
  · have ha : a = 0 := Fin.ext h0
    subst ha
    rw [if_pos h0]; exact pay3_at0 _ _ _ j
  · have ha : a = 1 := Fin.ext (by have := a.isLt; show a.val = 1; omega)
    subst ha
    rw [if_neg h0]; exact pay3_at1 _ _ _ j

theorem out7A_at (x0 x1 : Vec Ideal S512x128 .f32) (x2 x3 : Vec Ideal S512x50 .i32) (x4 : Vec Ideal S256x1024 .f32) (x5 : Vec Ideal S1x1024 .f32)
    (a : Fin 2) (j : Fin 1024) :
    out7A x0 x1 x2 x3 x4 x5 (ix2 a j) = colstat (out6 x0 x1 x2 x3 x4 x5) a j := by
  have h := out7B_at x0 x1 x2 x3 x4 x5 (k1_pay2 (F := Ideal)) a j
  rw [pay2_at, zero_add] at h
  exact h

/-- Thirty-two blocks of 512 rows are the 16384 rows. -/
theorem sum_blocks (f : Fin 16384 → EReal) :
    ∑ s : Fin 32, ∑ r : Fin 512, f ⟨512 * s.val + r.val, by have := r.isLt; have := s.isLt; omega⟩ = ∑ R : Fin 16384, f R := by
  rw [← Fintype.sum_prod_type' (f := fun (s : Fin 32) (r : Fin 512) => f ⟨512 * s.val + r.val, by have := r.isLt; have := s.isLt; omega⟩)]
  refine Fintype.sum_equiv (finProdFinEquiv (m := 32) (n := 512)) _ (fun R : Fin (32 * 512) => f R) (fun x => congrArg f (Fin.ext ?_))
  show 512 * x.1.val + x.2.val = x.2.val + 512 * x.1.val
  omega

/-- The column statistics of a whole array of 16384 rows: row 0 the column sums, row 1 the column sums of squares. -/
def statsArr (H : S16384x1024.Idx → EReal) : S2x1024.Idx → EReal := fun i =>
  if (i 0).val = 0 then ∑ R : Fin 16384, H (ix2 R (i 1)) else ∑ R : Fin 16384, H (ix2 R (i 1)) * H (ix2 R (i 1))

/-- The column statistics at an index given by its coordinates. -/
theorem statsArr_ix2 (H : S16384x1024.Idx → EReal) (a : Fin 2) (j : Fin 1024) :
    statsArr H (ix2 a j) = if a.val = 0 then ∑ R : Fin 16384, H (ix2 R j) else ∑ R : Fin 16384, H (ix2 R j) * H (ix2 R j) := rfl

section Value
variable (V : (c : Dev nD) → (b : Ref sig .tc) → Buf (Elt Ideal) ((c : Thread nD τ).loc b)) (B : Set (SemLoc sig × Ix))

/-- THE FOLD. The statistics block after point `n` holds the column statistics of the blocks of points `0 … n`, added up. -/
theorem statsAt_eq (c : Dev nD) : ∀ (n : ℕ) (hn : n < cfg1.N) (a : Fin 2) (j : Fin 1024),
    statsAt V c n hn (ix2 a j)
      = ∑ s : Fin (n + 1), colstat (out6 (iblk V c 0 ⟨s.val, lt_of_le_of_lt (Nat.le_of_lt_succ s.isLt) hn⟩) (iblk V c 1 ⟨s.val, lt_of_le_of_lt (Nat.le_of_lt_succ s.isLt) hn⟩) (iblk V c 2 ⟨s.val, lt_of_le_of_lt (Nat.le_of_lt_succ s.isLt) hn⟩) (iblk V c 3 ⟨s.val, lt_of_le_of_lt (Nat.le_of_lt_succ s.isLt) hn⟩) (iblk V c 4 ⟨s.val, lt_of_le_of_lt (Nat.le_of_lt_succ s.isLt) hn⟩) (iblk V c 5 ⟨s.val, lt_of_le_of_lt (Nat.le_of_lt_succ s.isLt) hn⟩)) a j
  | 0, hn, a, j => by
    rw [Fin.sum_univ_one]
    exact out7A_at _ _ _ _ _ _ a j
  | n + 1, hn, a, j => by
    rw [Fin.sum_univ_castSucc]
    show out7B (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (statsAt V c n (Nat.lt_of_succ_lt hn)) (ix2 a j) = _
    refine (out7B_at _ _ _ _ _ _ _ a j).trans (congrArg₂ (fun x y : EReal => x + y) ?_ rfl)
    exact statsAt_eq c n (Nat.lt_of_succ_lt hn) a j

/-- The statistics block after the last point, at an index: the column statistics of the whole rows' array. -/
theorem statsAt_last (c : Dev nD) (hn : 31 < cfg1.N) (a : Fin 2) (j : Fin 1024) :
    statsAt V c 31 hn (ix2 a j) = statsArr (h1Arr (V c main_v5) (V c main_arg0) (V c main_arg1) (V c main_arg3) (V c main_v6)) (ix2 a j) := by
  rw [statsAt_eq V c 31 hn a j, statsArr_ix2]
  unfold colstat
  simp only [out6_iblk V c]
  by_cases h0 : a.val = 0
  · simp only [if_pos h0]
    exact sum_blocks (fun R => h1Arr (V c main_v5) (V c main_arg0) (V c main_arg1) (V c main_arg3) (V c main_v6) (ix2 R j))
  · simp only [if_neg h0]
    exact sum_blocks (fun R => h1Arr (V c main_v5) (V c main_arg0) (V c main_arg1) (V c main_arg3) (V c main_v6) (ix2 R j) * h1Arr (V c main_v5) (V c main_arg0) (V c main_arg1) (V c main_arg3) (V c main_v6) (ix2 R j))

/-- An index of the statistics array is in every point's block: the block is the whole array. -/
theorem mem_blk7 (t : Fin cfg1.N) (i : S2x1024.Idx) :
    i ∈ ((cfg1.win 7).blk t).view.set ↔ ∀ a : Fin 2, win1_7.index t a * S2x1024.size a ≤ (i a).val ∧ (i a).val < win1_7.index t a * S2x1024.size a + S2x1024.size a := by
  show i ∈ ((View.whole main_v15_1).slice (win1_7.rect t)).set ↔ _
  rw [View.set_slice_whole, Rect.mem_set_unit]
  exact Iff.rfl

/-- WHAT THE LAST POINT WRITES BACK is the column statistics of the whole rows' array. -/
theorem flushed7_eq (c : Dev nD) (t : Fin cfg1.N) (hf : (cfg1.win 7).flush t = true) :
    (dat (F := Ideal) (Name := Name) (U := U) (Lvl := Lvl) V B c).flushed 7 t = ((cfg1.win 7).blk t).view.read (Elt Ideal) (statsArr (h1Arr (V c main_v5) (V c main_arg0) (V c main_arg1) (V c main_arg3) (V c main_v6))) := by
  show (cfg1.win 7).cut (grid1.coords t) ((dat (F := Ideal) (Name := Name) (U := U) (Lvl := Lvl) V B c).after 7 t) = _
  rw [after_7]
  have hN : t.val < 32 := lt_of_lt_of_eq t.isLt (show cfg1.N = 32 from N_1)
  have h31 : t.val = 31 := by have := (flush1_7 t).mp hf; omega
  obtain ⟨e00, e01, e10, e11, e20, e21, e30, e31, e40, e41, e50, e51, e60, e61, e70, e71⟩ := idx_facts t
  obtain ⟨n, hn⟩ := t
  dsimp only at h31
  subst h31
  funext y
  obtain ⟨a, j, rfl⟩ : ∃ (a : Fin 2) (j : Fin 1024), y = ix2 a j := ⟨y 0, y 1, eq_ix2 y⟩
  show statsAt V c 31 hn (ix2 a j) = statsArr (h1Arr (V c main_v5) (V c main_arg0) (V c main_arg1) (V c main_arg3) (V c main_v6)) (((cfg1.win 7).blk ⟨31, hn⟩).view.emb (ix2 a j))
  refine (statsAt_last V c hn a j).trans (congrArg (statsArr (h1Arr (V c main_v5) (V c main_arg0) (V c main_arg1) (V c main_arg3) (V c main_v6))) (funext fun b => Fin.ext ?_))
  match b with
  | ⟨0, _⟩ => show a.val = win1_7.index ⟨31, hn⟩ (0 : Fin 2) * 2 + 1 * a.val; rw [e70]; omega
  | ⟨1, _⟩ => show j.val = win1_7.index ⟨31, hn⟩ (1 : Fin 2) * 1024 + 1 * j.val; rw [e71]; omega

/-- The last point writes the whole statistics array back. -/
theorem cover7 (i : S2x1024.Idx) : ∃ t : Fin cfg1.N, (cfg1.win 7).flush t = true ∧ i ∈ ((cfg1.win 7).blk t).view.set := by
  have hi0 : (i 0).val < 2 := (i 0).isLt
  have hi1 : (i 1).val < 1024 := (i 1).isLt
  have h31 : 31 < cfg1.N := by rw [show cfg1.N = 32 from N_1]; omega
  refine ⟨⟨31, h31⟩, (flush1_7 _).mpr rfl, ?_⟩
  obtain ⟨e00, e01, e10, e11, e20, e21, e30, e31, e40, e41, e50, e51, e60, e61, e70, e71⟩ := idx_facts ⟨31, h31⟩
  rw [mem_blk7]
  intro a
  match a with
  | ⟨0, _⟩ =>
    show win1_7.index _ (0 : Fin 2) * 2 ≤ (i 0).val ∧ (i 0).val < win1_7.index _ (0 : Fin 2) * 2 + 2
    rw [e70]; omega
  | ⟨1, _⟩ =>
    show win1_7.index _ (1 : Fin 2) * 1024 ≤ (i 1).val ∧ (i 1).val < win1_7.index _ (1 : Fin 2) * 1024 + 1024
    rw [e71]; omega

/-- THE STATISTICS ARRAY after the region: row 0 the column sums of the first dense layer's output over all 16384 rows,
    row 1 the column sums of its squares. -/
theorem arrAt_7 (c : Dev nD) : (dat (F := Ideal) (Name := Name) (U := U) (Lvl := Lvl) V B c).arrAt 7 cfg1.N = statsArr (h1Arr (V c main_v5) (V c main_arg0) (V c main_arg1) (V c main_arg3) (V c main_v6)) :=
  (dat (F := Ideal) (Name := Name) (U := U) (Lvl := Lvl) V B c).arrAt_eq_of_cover 7 (statsArr (h1Arr (V c main_v5) (V c main_arg0) (V c main_arg1) (V c main_arg3) (V c main_v6))) (fun t hf => flushed7_eq V B c t hf) cover7

end Value

/-! ## The results in the specification's words -/

/-- The rows' array at an index given by its coordinates. -/
theorem h1Arr_ix2 (P : S32768x128.Idx → EReal) (S D : S16384x50.Idx → BitVec 32) (W : S256x1024.Idx → EReal) (Bi : S1x1024.Idx → EReal)
    (r : Fin 16384) (j : Fin 1024) :
    h1Arr P S D W Bi (ix2 r j)
      = h1Of (fun r k => P (ix2 (⟨r.val, Nat.lt_of_lt_of_le r.isLt (by decide)⟩ : Fin 32768) k))
          (fun r k => P (ix2 (⟨16384 + r.val, by have := r.isLt; omega⟩ : Fin 32768) k))
          (fun r l => S (ix2 r l)) (fun r l => D (ix2 r l)) (fun k j => W (ix2 k j)) (fun j => Bi (ix2 (0 : Fin 1) j)) r j := rfl

/-- On the two bags' sums of rows the layer is the specification's first fused layer. -/
theorem h1Of_pool (src dst : Cert.Spec.Idx) (emb : Cert.Spec.Tab) (W : Cert.Spec.Mat 256 1024) (b : Fin 1024 → EReal) :
    h1Of (Cert.Spec.poolK src emb) (Cert.Spec.poolK dst emb) src dst W b = Cert.Spec.dense1K src dst emb W b := rfl

/-- Row 0 of the statistics: the column sums. -/
theorem statsArr_row0 (H : S16384x1024.Idx → EReal) (j : Fin 1024) :
    statsArr H (ix2 (0 : Fin 2) j) = ∑ R : Fin 16384, H (ix2 R j) := by
  rw [statsArr_ix2]; exact if_pos rfl

/-- Row 1 of the statistics: the column sums of squares. -/
theorem statsArr_row1 (H : S16384x1024.Idx → EReal) (j : Fin 1024) :
    statsArr H (ix2 (1 : Fin 2) j) = ∑ R : Fin 16384, H (ix2 R j) * H (ix2 R j) := by
  rw [statsArr_ix2]; exact if_neg (by decide)

/-- info: 'Cert.KernelIdeal.Reg1.arrAt_7' depends on axioms: [propext, Classical.choice, Quot.sound] -/
#guard_msgs in #print axioms arrAt_7
/-- info: 'Cert.KernelIdeal.Reg1.arrAt_6' depends on axioms: [propext, Classical.choice, Quot.sound] -/
#guard_msgs in #print axioms arrAt_6
/-- info: 'Cert.KernelIdeal.Reg1.body_obligation' depends on axioms: [propext, Classical.choice, Quot.sound] -/
#guard_msgs in #print axioms body_obligation

end Cert.KernelIdeal.Reg1

end
-- ==== Proof.Reg2Value.lean ====
/-
  The second fused layer's results as functions of the arrays the region is entered with.  Entry `(r, j)` of
  the activations is the rectified dense layer of the normalised row `r`; each of the 32 row blocks writes back
  its 512 rows of that one function, and the blocks tile the array.  The statistics array is written back once,
  after the last block: its row 0 holds the sums down all 16384 rows of the activations' columns and its row 1
  the sums of their squares, reached as 32 per-block sums added one after another to a zero block (addition of
  extended reals is commutative and associative, so the order of the rows does not matter).
-/
import proofs.«209176_g73847667688168_cont_9to1_m_420_10_alg».proof.Proof.Reg2Dat
import proofs.«209176_g73847667688168_cont_9to1_m_420_10_alg».proof.Proof.RegLib

set_option maxRecDepth 16384

noncomputable section

open scoped BigOperators

namespace Cert.KernelIdeal.Reg2

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen Cert.KernelIdeal.RegLib

variable {Ix : Type} [DecidableEq Ix] {Name : Type} [DecidableEq Name] {U : Type} [URA U] {Lvl : Type} [Preorder Lvl]
variable (V : (c : Dev nD) → (b : Ref sig .tc) → Buf (Elt Ideal) ((c : Thread nD τ).loc b)) (B : Set (SemLoc sig × Ix))

local notation "dat'" => dat (F := Ideal) (Name := Name) (U := U) (Lvl := Lvl) V B

/-- The region's activations, from the entry contents of its six input arrays. -/
abbrev G6 (H : S16384x1024.Idx → EReal) (T : S2x1024.Idx → EReal) (G Be : S1x1024.Idx → EReal) (W : S1024x1024.Idx → EReal)
    (Bi : S1x1024.Idx → EReal) : S16384x1024.Idx → EReal :=
  fun i => bnDense H T G Be W Bi (i 0) (i 1)

/-- The region's statistics: row 0 the column sums of the activations, row 1 the column sums of their squares. -/
abbrev G7 (H : S16384x1024.Idx → EReal) (T : S2x1024.Idx → EReal) (G Be : S1x1024.Idx → EReal) (W : S1024x1024.Idx → EReal)
    (Bi : S1x1024.Idx → EReal) : S2x1024.Idx → EReal :=
  fun i => if (i 0).val = 0 then ∑ R : Fin 16384, bnDense H T G Be W Bi R (i 1)
    else ∑ R : Fin 16384, bnDense H T G Be W Bi R (i 1) * bnDense H T G Be W Bi R (i 1)

/-! ## The printed index maps, decided over the grid -/
theorem idx_0_0 : ∀ t : Fin cfg2.N, win2_0.index t (0 : Fin 2) = t.val :=
  (by decide +kernel : ∀ t : Fin grid2.N, win2_0.index t (0 : Fin 2) = t.val)
theorem idx_0_1 : ∀ t : Fin cfg2.N, win2_0.index t (1 : Fin 2) = 0 :=
  (by decide +kernel : ∀ t : Fin grid2.N, win2_0.index t (1 : Fin 2) = 0)
theorem idx_1_0 : ∀ t : Fin cfg2.N, win2_1.index t (0 : Fin 2) = 0 :=
  (by decide +kernel : ∀ t : Fin grid2.N, win2_1.index t (0 : Fin 2) = 0)
theorem idx_1_1 : ∀ t : Fin cfg2.N, win2_1.index t (1 : Fin 2) = 0 :=
  (by decide +kernel : ∀ t : Fin grid2.N, win2_1.index t (1 : Fin 2) = 0)
theorem idx_2_0 : ∀ t : Fin cfg2.N, win2_2.index t (0 : Fin 2) = 0 :=
  (by decide +kernel : ∀ t : Fin grid2.N, win2_2.index t (0 : Fin 2) = 0)
theorem idx_2_1 : ∀ t : Fin cfg2.N, win2_2.index t (1 : Fin 2) = 0 :=
  (by decide +kernel : ∀ t : Fin grid2.N, win2_2.index t (1 : Fin 2) = 0)
theorem idx_3_0 : ∀ t : Fin cfg2.N, win2_3.index t (0 : Fin 2) = 0 :=
  (by decide +kernel : ∀ t : Fin grid2.N, win2_3.index t (0 : Fin 2) = 0)
theorem idx_3_1 : ∀ t : Fin cfg2.N, win2_3.index t (1 : Fin 2) = 0 :=
  (by decide +kernel : ∀ t : Fin grid2.N, win2_3.index t (1 : Fin 2) = 0)
theorem idx_4_0 : ∀ t : Fin cfg2.N, win2_4.index t (0 : Fin 2) = 0 :=
  (by decide +kernel : ∀ t : Fin grid2.N, win2_4.index t (0 : Fin 2) = 0)
theorem idx_4_1 : ∀ t : Fin cfg2.N, win2_4.index t (1 : Fin 2) = 0 :=
  (by decide +kernel : ∀ t : Fin grid2.N, win2_4.index t (1 : Fin 2) = 0)
theorem idx_5_0 : ∀ t : Fin cfg2.N, win2_5.index t (0 : Fin 2) = 0 :=
  (by decide +kernel : ∀ t : Fin grid2.N, win2_5.index t (0 : Fin 2) = 0)
theorem idx_5_1 : ∀ t : Fin cfg2.N, win2_5.index t (1 : Fin 2) = 0 :=
  (by decide +kernel : ∀ t : Fin grid2.N, win2_5.index t (1 : Fin 2) = 0)
theorem idx_6_0 : ∀ t : Fin cfg2.N, win2_6.index t (0 : Fin 2) = t.val :=
  (by decide +kernel : ∀ t : Fin grid2.N, win2_6.index t (0 : Fin 2) = t.val)
theorem idx_6_1 : ∀ t : Fin cfg2.N, win2_6.index t (1 : Fin 2) = 0 :=
  (by decide +kernel : ∀ t : Fin grid2.N, win2_6.index t (1 : Fin 2) = 0)
theorem idx_7_0 : ∀ t : Fin cfg2.N, win2_7.index t (0 : Fin 2) = 0 :=
  (by decide +kernel : ∀ t : Fin grid2.N, win2_7.index t (0 : Fin 2) = 0)
theorem idx_7_1 : ∀ t : Fin cfg2.N, win2_7.index t (1 : Fin 2) = 0 :=
  (by decide +kernel : ∀ t : Fin grid2.N, win2_7.index t (1 : Fin 2) = 0)

/-! ## The windows' blocks as reads of the arrays -/
/-- Window 0's block at point `t` is rows `512 t … 512 t + 511` of its array. -/
theorem blk_0_at (c : Dev nD) (t : Fin cfg2.N) (p : Fin 512) (k : Fin 1024) (R : Fin 16384) (hR : R.val = 512 * t.val + p.val) :
    (iblk V c 0 t : Vec Ideal S512x1024 .f32) (ix2 p k) = (V c main_v15_0 : Vec Ideal S16384x1024 .f32) (ix2 R k) := by
  show V c main_v15_0 (((cfg2.win 0).blk t).view.emb (ix2 p k)) = V c main_v15_0 (ix2 R k)
  refine congrArg _ (funext fun a => Fin.ext ?_)
  match a with
  | ⟨0, _⟩ => show win2_0.index t (0 : Fin 2) * 512 + 1 * p.val = R.val; have := idx_0_0 t; omega
  | ⟨1, _⟩ => show win2_0.index t (1 : Fin 2) * 1024 + 1 * k.val = k.val; have := idx_0_1 t; omega

/-- Window 1 stages its whole array at every point. -/
theorem blk_1 (c : Dev nD) (t : Fin cfg2.N) : (iblk V c 1 t : Vec Ideal S2x1024 .f32) = V c main_v15_1 := by
  funext y
  show V c main_v15_1 (((cfg2.win 1).blk t).view.emb y) = V c main_v15_1 y
  refine congrArg _ (funext fun a => Fin.ext ?_)
  match a with
  | ⟨0, _⟩ => show win2_1.index t (0 : Fin 2) * 2 + 1 * (y 0).val = (y 0).val; have := idx_1_0 t; omega
  | ⟨1, _⟩ => show win2_1.index t (1 : Fin 2) * 1024 + 1 * (y 1).val = (y 1).val; have := idx_1_1 t; omega

/-- Window 2 stages its whole array at every point. -/
theorem blk_2 (c : Dev nD) (t : Fin cfg2.N) : (iblk V c 2 t : Vec Ideal S1x1024 .f32) = V c main_v9 := by
  funext y
  show V c main_v9 (((cfg2.win 2).blk t).view.emb y) = V c main_v9 y
  refine congrArg _ (funext fun a => Fin.ext ?_)
  match a with
  | ⟨0, _⟩ => show win2_2.index t (0 : Fin 2) * 1 + 1 * (y 0).val = (y 0).val; have := idx_2_0 t; omega
  | ⟨1, _⟩ => show win2_2.index t (1 : Fin 2) * 1024 + 1 * (y 1).val = (y 1).val; have := idx_2_1 t; omega

/-- Window 3 stages its whole array at every point. -/
theorem blk_3 (c : Dev nD) (t : Fin cfg2.N) : (iblk V c 3 t : Vec Ideal S1x1024 .f32) = V c main_v11 := by
  funext y
  show V c main_v11 (((cfg2.win 3).blk t).view.emb y) = V c main_v11 y
  refine congrArg _ (funext fun a => Fin.ext ?_)
  match a with
  | ⟨0, _⟩ => show win2_3.index t (0 : Fin 2) * 1 + 1 * (y 0).val = (y 0).val; have := idx_3_0 t; omega
  | ⟨1, _⟩ => show win2_3.index t (1 : Fin 2) * 1024 + 1 * (y 1).val = (y 1).val; have := idx_3_1 t; omega

/-- Window 4 stages its whole array at every point. -/
theorem blk_4 (c : Dev nD) (t : Fin cfg2.N) : (iblk V c 4 t : Vec Ideal S1024x1024 .f32) = V c main_arg7 := by
  funext y
  show V c main_arg7 (((cfg2.win 4).blk t).view.emb y) = V c main_arg7 y
  refine congrArg _ (funext fun a => Fin.ext ?_)
  match a with
  | ⟨0, _⟩ => show win2_4.index t (0 : Fin 2) * 1024 + 1 * (y 0).val = (y 0).val; have := idx_4_0 t; omega
  | ⟨1, _⟩ => show win2_4.index t (1 : Fin 2) * 1024 + 1 * (y 1).val = (y 1).val; have := idx_4_1 t; omega

/-- Window 5 stages its whole array at every point. -/
theorem blk_5 (c : Dev nD) (t : Fin cfg2.N) : (iblk V c 5 t : Vec Ideal S1x1024 .f32) = V c main_v7 := by
  funext y
  show V c main_v7 (((cfg2.win 5).blk t).view.emb y) = V c main_v7 y
  refine congrArg _ (funext fun a => Fin.ext ?_)
  match a with
  | ⟨0, _⟩ => show win2_5.index t (0 : Fin 2) * 1 + 1 * (y 0).val = (y 0).val; have := idx_5_0 t; omega
  | ⟨1, _⟩ => show win2_5.index t (1 : Fin 2) * 1024 + 1 * (y 1).val = (y 1).val; have := idx_5_1 t; omega

/-- A row of a block's output is the row of the activations it stands for. -/
theorem blockOut_at (c : Dev nD) (t : Fin cfg2.N) (p : Fin 512) (j : Fin 1024) (R : Fin 16384) (hR : R.val = 512 * t.val + p.val) :
    blockOut (iblk V c 0 t) (iblk V c 1 t) (iblk V c 2 t) (iblk V c 3 t) (iblk V c 4 t) (iblk V c 5 t) (ix2 p j) = bnDense (V c main_v15_0) (V c main_v15_1) (V c main_v9) (V c main_v11) (V c main_arg7) (V c main_v7) R j := by
  rw [blk_1, blk_2, blk_3, blk_4, blk_5]
  unfold blockOut
  refine (blockDense_at _ _ _ _ _ _ p j).trans ?_
  exact bnDense_congr _ _ _ _ _ _ _ p R j fun k => blk_0_at V c t p k R hR

/-! ## The activations -/

/-- WHAT POINT `t` WRITES BACK is block `t` of the activations. -/
theorem flushed_6 (c : Dev nD) (t : Fin cfg2.N) :
    (dat' c).flushed 6 t = ((cfg2.win 6).blk t).view.read (Elt Ideal) (G6 (V c main_v15_0) (V c main_v15_1) (V c main_v9) (V c main_v11) (V c main_arg7) (V c main_v7)) := by
  show (cfg2.win 6).cut (grid2.coords t) ((dat' c).after 6 t) = _
  rw [after_6]
  funext j
  obtain ⟨p, q, rfl⟩ : ∃ (p : Fin 512) (q : Fin 1024), j = ix2 p q := ⟨j 0, j 1, eq_ix2 j⟩
  have hN : t.val < 32 := lt_of_lt_of_eq t.isLt N_2
  have hR0 : ((((cfg2.win 6).blk t).view.emb (ix2 p q)) 0 : Fin 16384) = (⟨512 * t.val + p.val, by omega⟩ : Fin 16384) := Fin.ext (by
    show win2_6.index t (0 : Fin 2) * 512 + 1 * p.val = 512 * t.val + p.val; have := idx_6_0 t; omega)
  have hR1 : ((((cfg2.win 6).blk t).view.emb (ix2 p q)) 1 : Fin 1024) = q := Fin.ext (by
    show win2_6.index t (1 : Fin 2) * 1024 + 1 * q.val = q.val; have := idx_6_1 t; omega)
  show blockOut (iblk V c 0 t) (iblk V c 1 t) (iblk V c 2 t) (iblk V c 3 t) (iblk V c 4 t) (iblk V c 5 t) (ix2 p q)
    = bnDense (V c main_v15_0) (V c main_v15_1) (V c main_v9) (V c main_v11) (V c main_arg7) (V c main_v7) ((((cfg2.win 6).blk t).view.emb (ix2 p q)) 0) ((((cfg2.win 6).blk t).view.emb (ix2 p q)) 1)
  rw [hR0, hR1]
  exact blockOut_at V c t p q _ rfl

/-- An index of the array is in point `t`'s block iff each coordinate is in the block's range on its axis. -/
theorem mem_blk6 (t : Fin cfg2.N) (i : S16384x1024.Idx) :
    i ∈ ((cfg2.win 6).blk t).view.set ↔ ∀ a : Fin 2, win2_6.index t a * S512x1024.size a ≤ (i a).val ∧ (i a).val < win2_6.index t a * S512x1024.size a + S512x1024.size a := by
  show i ∈ ((View.whole main_v16_0).slice (win2_6.rect t)).set ↔ _
  rw [View.set_slice_whole, Rect.mem_set_unit]
  exact Iff.rfl

/-- The 32 blocks tile the activations: row `r` is in block `r / 512`. -/
theorem cover6 (i : S16384x1024.Idx) : ∃ t : Fin cfg2.N, (cfg2.win 6).flush t = true ∧ i ∈ ((cfg2.win 6).blk t).view.set := by
  have hi0 : (i 0).val < 16384 := (i 0).isLt
  have hi1 : (i 1).val < 1024 := (i 1).isLt
  refine ⟨⟨(i 0).val / 512, lt_of_lt_of_eq (by omega : (i 0).val / 512 < 32) N_2.symm⟩, flush2_6 _, ?_⟩
  rw [mem_blk6]
  intro a
  match a with
  | ⟨0, _⟩ =>
    show win2_6.index ⟨(i 0).val / 512, _⟩ (0 : Fin 2) * 512 ≤ (i 0).val ∧ (i 0).val < win2_6.index ⟨(i 0).val / 512, _⟩ (0 : Fin 2) * 512 + 512
    rw [idx_6_0]; show (i 0).val / 512 * 512 ≤ (i 0).val ∧ (i 0).val < (i 0).val / 512 * 512 + 512; omega
  | ⟨1, _⟩ =>
    show win2_6.index ⟨(i 0).val / 512, _⟩ (1 : Fin 2) * 1024 ≤ (i 1).val ∧ (i 1).val < win2_6.index ⟨(i 0).val / 512, _⟩ (1 : Fin 2) * 1024 + 1024
    rw [idx_6_1]; omega

/-- THE VALUE of the activations after the region. -/
theorem value_6 (c : Dev nD) : (dat' c).arrAt 6 cfg2.N = G6 (V c main_v15_0) (V c main_v15_1) (V c main_v9) (V c main_v11) (V c main_arg7) (V c main_v7) :=
  (dat' c).arrAt_eq_of_cover 6 _ (fun t _ => flushed_6 V B c t) cover6

/-! ## The statistics -/

/-- One step of the running statistics at point `t`: each row gains the sum over the block's 512 rows. -/
theorem step_row0 (c : Dev nD) (t : Fin cfg2.N) (prev : Vec Ideal S2x1024 .f32) (j : Fin 1024) :
    statStep (iblk V c 0 t) (iblk V c 1 t) (iblk V c 2 t) (iblk V c 3 t) (iblk V c 4 t) (iblk V c 5 t) prev (ix2 (0 : Fin 2) j)
      = prev (ix2 (0 : Fin 2) j) + ∑ p : Fin 512, ext0 (fun R => bnDense (V c main_v15_0) (V c main_v15_1) (V c main_v9) (V c main_v11) (V c main_arg7) (V c main_v7) R j) (512 * t.val + p.val) := by
  have hN : t.val < 32 := lt_of_lt_of_eq t.isLt N_2
  unfold statStep
  refine (pay2_row0 _ _ _ j).trans (congrArg (fun z => prev (ix2 (0 : Fin 2) j) + z) ?_)
  unfold blockSum
  refine (pay4_at _ _ _ _ _ _ _ j).trans (Finset.sum_congr rfl fun p _ => ?_)
  rw [ext0_of_lt _ _ (by have := p.isLt; omega)]
  exact blockOut_at V c t p j _ rfl

theorem step_row1 (c : Dev nD) (t : Fin cfg2.N) (prev : Vec Ideal S2x1024 .f32) (j : Fin 1024) :
    statStep (iblk V c 0 t) (iblk V c 1 t) (iblk V c 2 t) (iblk V c 3 t) (iblk V c 4 t) (iblk V c 5 t) prev (ix2 (1 : Fin 2) j)
      = prev (ix2 (1 : Fin 2) j) + ∑ p : Fin 512, ext0 (fun R => bnDense (V c main_v15_0) (V c main_v15_1) (V c main_v9) (V c main_v11) (V c main_arg7) (V c main_v7) R j * bnDense (V c main_v15_0) (V c main_v15_1) (V c main_v9) (V c main_v11) (V c main_arg7) (V c main_v7) R j) (512 * t.val + p.val) := by
  have hN : t.val < 32 := lt_of_lt_of_eq t.isLt N_2
  unfold statStep
  refine (pay2_row1 _ _ _ j).trans (congrArg (fun z => prev (ix2 (1 : Fin 2) j) + z) (Finset.sum_congr rfl fun p _ => ?_))
  rw [ext0_of_lt _ _ (by have := p.isLt; omega)]
  exact congrArg₂ (· * ·) (blockOut_at V c t p j _ rfl) (blockOut_at V c t p j _ rfl)

/-- THE ACCUMULATION in closed form: after the body at position `n` the statistics buffer holds the sums over the
    first `n + 1` blocks of rows. -/
theorem acc_eq (c : Dev nD) : ∀ (n : ℕ) (hn : n < cfg2.N) (j : Fin 1024),
    acc V c n hn (ix2 (0 : Fin 2) j) = psum (fun R => bnDense (V c main_v15_0) (V c main_v15_1) (V c main_v9) (V c main_v11) (V c main_arg7) (V c main_v7) R j) (n + 1)
    ∧ acc V c n hn (ix2 (1 : Fin 2) j) = psum (fun R => bnDense (V c main_v15_0) (V c main_v15_1) (V c main_v9) (V c main_v11) (V c main_arg7) (V c main_v7) R j * bnDense (V c main_v15_0) (V c main_v15_1) (V c main_v9) (V c main_v11) (V c main_arg7) (V c main_v7) R j) (n + 1)
  | 0, hn, j => by
    rw [acc_zero V c ⟨0, hn⟩ rfl, step_row0, step_row1, psum_succ, psum_succ, psum_zero, psum_zero,
      show statZero (F := Ideal) (ix2 (0 : Fin 2) j) = 0 from pay1_at 0 j, show statZero (F := Ideal) (ix2 (1 : Fin 2) j) = 0 from pay1_at 1 j]
    exact ⟨rfl, rfl⟩
  | n + 1, hn, j => by
    obtain ⟨ih0, ih1⟩ := acc_eq c n (Nat.lt_of_succ_lt hn) j
    rw [acc_succ V c ⟨n + 1, hn⟩ (Nat.succ_ne_zero n), step_row0, step_row1, psum_succ (n := n + 1), psum_succ (n := n + 1)]
    exact ⟨congrArg (fun z => z + _) ih0, congrArg (fun z => z + _) ih1⟩

/-- WHAT THE LAST POINT WRITES BACK is the statistics. -/
theorem flushed_7 (c : Dev nD) (t : Fin cfg2.N) (hf : (cfg2.win 7).flush t = true) :
    (dat' c).flushed 7 t = ((cfg2.win 7).blk t).view.read (Elt Ideal) (G7 (V c main_v15_0) (V c main_v15_1) (V c main_v9) (V c main_v11) (V c main_arg7) (V c main_v7)) := by
  have hN : t.val < 32 := lt_of_lt_of_eq t.isLt N_2
  have ht : t.val = 31 := by have := (flush2_7 t).mp hf; omega
  show (cfg2.win 7).cut (grid2.coords t) ((dat' c).after 7 t) = _
  rw [after_7]
  funext y
  obtain ⟨a, j, rfl⟩ : ∃ (a : Fin 2) (j : Fin 1024), y = ix2 a j := ⟨y 0, y 1, eq_ix2 y⟩
  have he : ((cfg2.win 7).blk t).view.emb (ix2 a j) = ix2 a j := funext fun b => Fin.ext (by
    match b with
    | ⟨0, _⟩ => show win2_7.index t (0 : Fin 2) * 2 + 1 * a.val = a.val; have := idx_7_0 t; omega
    | ⟨1, _⟩ => show win2_7.index t (1 : Fin 2) * 1024 + 1 * j.val = j.val; have := idx_7_1 t; omega)
  show acc V c t.val t.isLt (ix2 a j) = G7 (V c main_v15_0) (V c main_v15_1) (V c main_v9) (V c main_v11) (V c main_arg7) (V c main_v7) (((cfg2.win 7).blk t).view.emb (ix2 a j))
  rw [he]
  obtain ⟨h0, h1⟩ := acc_eq V c t.val t.isLt j
  match a with
  | ⟨0, _⟩ =>
    refine h0.trans ?_
    rw [ht, psum_full]
    exact (if_pos rfl).symm
  | ⟨1, _⟩ =>
    refine h1.trans ?_
    rw [ht, psum_full]
    exact (if_neg Nat.one_ne_zero).symm

theorem mem_blk7 (t : Fin cfg2.N) (i : S2x1024.Idx) :
    i ∈ ((cfg2.win 7).blk t).view.set ↔ ∀ a : Fin 2, win2_7.index t a * S2x1024.size a ≤ (i a).val ∧ (i a).val < win2_7.index t a * S2x1024.size a + S2x1024.size a := by
  show i ∈ ((View.whole main_v16_1).slice (win2_7.rect t)).set ↔ _
  rw [View.set_slice_whole, Rect.mem_set_unit]
  exact Iff.rfl

/-- The last point's block is the whole statistics array. -/
theorem cover7 (i : S2x1024.Idx) : ∃ t : Fin cfg2.N, (cfg2.win 7).flush t = true ∧ i ∈ ((cfg2.win 7).blk t).view.set := by
  have hi0 : (i 0).val < 2 := (i 0).isLt
  have hi1 : (i 1).val < 1024 := (i 1).isLt
  refine ⟨⟨31, lt_of_lt_of_eq (by omega : 31 < 32) N_2.symm⟩, (flush2_7 _).mpr rfl, ?_⟩
  rw [mem_blk7]
  intro a
  match a with
  | ⟨0, _⟩ =>
    show win2_7.index ⟨31, _⟩ (0 : Fin 2) * 2 ≤ (i 0).val ∧ (i 0).val < win2_7.index ⟨31, _⟩ (0 : Fin 2) * 2 + 2
    rw [idx_7_0]; omega
  | ⟨1, _⟩ =>
    show win2_7.index ⟨31, _⟩ (1 : Fin 2) * 1024 ≤ (i 1).val ∧ (i 1).val < win2_7.index ⟨31, _⟩ (1 : Fin 2) * 1024 + 1024
    rw [idx_7_1]; omega

/-- THE VALUE of the statistics after the region. -/
theorem value_7 (c : Dev nD) : (dat' c).arrAt 7 cfg2.N = G7 (V c main_v15_0) (V c main_v15_1) (V c main_v9) (V c main_v11) (V c main_arg7) (V c main_v7) :=
  (dat' c).arrAt_eq_of_cover 7 _ (fun t hf => flushed_7 V B c t hf) cover7

end Cert.KernelIdeal.Reg2

end
-- ==== Proof.Reg3Value.lean ====
/-
  The last fused layer's result as one function of the arrays the region is entered with: row `r` of the
  output column is the logistic function of the rectified dense layer of the normalised row `r`, dotted with
  the output weights, plus the output bias.  Each of the 32 row blocks writes back its 512 rows of that one
  function, and the blocks tile the column.
-/
import proofs.«209176_g73847667688168_cont_9to1_m_420_10_alg».proof.Proof.Reg3Dat
import proofs.«209176_g73847667688168_cont_9to1_m_420_10_alg».proof.Proof.RegLib

set_option maxRecDepth 16384

noncomputable section

open scoped BigOperators

namespace Cert.KernelIdeal.Reg3

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen Cert.KernelIdeal.RegLib

variable {Ix : Type} [DecidableEq Ix] {Name : Type} [DecidableEq Name] {U : Type} [URA U] {Lvl : Type} [Preorder Lvl]
variable (V : (c : Dev nD) → (b : Ref sig .tc) → Buf (Elt Ideal) ((c : Thread nD τ).loc b)) (B : Set (SemLoc sig × Ix))

local notation "dat'" => dat (F := Ideal) (Name := Name) (U := U) (Lvl := Lvl) V B

/-- The region's result column, from the entry contents of its eight input arrays. -/
abbrev G8 (H : S16384x1024.Idx → EReal) (T : S2x1024.Idx → EReal) (G Be : S1x1024.Idx → EReal) (W : S1024x1024.Idx → EReal)
    (Bi W4 : S1x1024.Idx → EReal) (B4 : S1x1.Idx → EReal) : S16384x1.Idx → EReal :=
  fun i => bnOut H T G Be W Bi W4 B4 (i 0)

/-! ## The printed index maps, decided over the grid -/
theorem idx_0_0 : ∀ t : Fin cfg3.N, win3_0.index t (0 : Fin 2) = t.val :=
  (by decide +kernel : ∀ t : Fin grid3.N, win3_0.index t (0 : Fin 2) = t.val)
theorem idx_0_1 : ∀ t : Fin cfg3.N, win3_0.index t (1 : Fin 2) = 0 :=
  (by decide +kernel : ∀ t : Fin grid3.N, win3_0.index t (1 : Fin 2) = 0)
theorem idx_1_0 : ∀ t : Fin cfg3.N, win3_1.index t (0 : Fin 2) = 0 :=
  (by decide +kernel : ∀ t : Fin grid3.N, win3_1.index t (0 : Fin 2) = 0)
theorem idx_1_1 : ∀ t : Fin cfg3.N, win3_1.index t (1 : Fin 2) = 0 :=
  (by decide +kernel : ∀ t : Fin grid3.N, win3_1.index t (1 : Fin 2) = 0)
theorem idx_2_0 : ∀ t : Fin cfg3.N, win3_2.index t (0 : Fin 2) = 0 :=
  (by decide +kernel : ∀ t : Fin grid3.N, win3_2.index t (0 : Fin 2) = 0)
theorem idx_2_1 : ∀ t : Fin cfg3.N, win3_2.index t (1 : Fin 2) = 0 :=
  (by decide +kernel : ∀ t : Fin grid3.N, win3_2.index t (1 : Fin 2) = 0)
theorem idx_3_0 : ∀ t : Fin cfg3.N, win3_3.index t (0 : Fin 2) = 0 :=
  (by decide +kernel : ∀ t : Fin grid3.N, win3_3.index t (0 : Fin 2) = 0)
theorem idx_3_1 : ∀ t : Fin cfg3.N, win3_3.index t (1 : Fin 2) = 0 :=
  (by decide +kernel : ∀ t : Fin grid3.N, win3_3.index t (1 : Fin 2) = 0)
theorem idx_4_0 : ∀ t : Fin cfg3.N, win3_4.index t (0 : Fin 2) = 0 :=
  (by decide +kernel : ∀ t : Fin grid3.N, win3_4.index t (0 : Fin 2) = 0)
theorem idx_4_1 : ∀ t : Fin cfg3.N, win3_4.index t (1 : Fin 2) = 0 :=
  (by decide +kernel : ∀ t : Fin grid3.N, win3_4.index t (1 : Fin 2) = 0)
theorem idx_5_0 : ∀ t : Fin cfg3.N, win3_5.index t (0 : Fin 2) = 0 :=
  (by decide +kernel : ∀ t : Fin grid3.N, win3_5.index t (0 : Fin 2) = 0)
theorem idx_5_1 : ∀ t : Fin cfg3.N, win3_5.index t (1 : Fin 2) = 0 :=
  (by decide +kernel : ∀ t : Fin grid3.N, win3_5.index t (1 : Fin 2) = 0)
theorem idx_6_0 : ∀ t : Fin cfg3.N, win3_6.index t (0 : Fin 2) = 0 :=
  (by decide +kernel : ∀ t : Fin grid3.N, win3_6.index t (0 : Fin 2) = 0)
theorem idx_6_1 : ∀ t : Fin cfg3.N, win3_6.index t (1 : Fin 2) = 0 :=
  (by decide +kernel : ∀ t : Fin grid3.N, win3_6.index t (1 : Fin 2) = 0)
theorem idx_7_0 : ∀ t : Fin cfg3.N, win3_7.index t (0 : Fin 2) = 0 :=
  (by decide +kernel : ∀ t : Fin grid3.N, win3_7.index t (0 : Fin 2) = 0)
theorem idx_7_1 : ∀ t : Fin cfg3.N, win3_7.index t (1 : Fin 2) = 0 :=
  (by decide +kernel : ∀ t : Fin grid3.N, win3_7.index t (1 : Fin 2) = 0)
theorem idx_8_0 : ∀ t : Fin cfg3.N, win3_8.index t (0 : Fin 2) = t.val :=
  (by decide +kernel : ∀ t : Fin grid3.N, win3_8.index t (0 : Fin 2) = t.val)
theorem idx_8_1 : ∀ t : Fin cfg3.N, win3_8.index t (1 : Fin 2) = 0 :=
  (by decide +kernel : ∀ t : Fin grid3.N, win3_8.index t (1 : Fin 2) = 0)

/-! ## The windows' blocks as reads of the arrays -/
/-- Window 0's block at point `t` is rows `512 t … 512 t + 511` of its array. -/
theorem blk_0_at (c : Dev nD) (t : Fin cfg3.N) (p : Fin 512) (k : Fin 1024) (R : Fin 16384) (hR : R.val = 512 * t.val + p.val) :
    (iblk V c 0 t : Vec Ideal S512x1024 .f32) (ix2 p k) = (V c main_v16_0 : Vec Ideal S16384x1024 .f32) (ix2 R k) := by
  show V c main_v16_0 (((cfg3.win 0).blk t).view.emb (ix2 p k)) = V c main_v16_0 (ix2 R k)
  refine congrArg _ (funext fun a => Fin.ext ?_)
  match a with
  | ⟨0, _⟩ => show win3_0.index t (0 : Fin 2) * 512 + 1 * p.val = R.val; have := idx_0_0 t; omega
  | ⟨1, _⟩ => show win3_0.index t (1 : Fin 2) * 1024 + 1 * k.val = k.val; have := idx_0_1 t; omega

/-- Window 1 stages its whole array at every point. -/
theorem blk_1 (c : Dev nD) (t : Fin cfg3.N) : (iblk V c 1 t : Vec Ideal S2x1024 .f32) = V c main_v16_1 := by
  funext y
  show V c main_v16_1 (((cfg3.win 1).blk t).view.emb y) = V c main_v16_1 y
  refine congrArg _ (funext fun a => Fin.ext ?_)
  match a with
  | ⟨0, _⟩ => show win3_1.index t (0 : Fin 2) * 2 + 1 * (y 0).val = (y 0).val; have := idx_1_0 t; omega
  | ⟨1, _⟩ => show win3_1.index t (1 : Fin 2) * 1024 + 1 * (y 1).val = (y 1).val; have := idx_1_1 t; omega

/-- Window 2 stages its whole array at every point. -/
theorem blk_2 (c : Dev nD) (t : Fin cfg3.N) : (iblk V c 2 t : Vec Ideal S1x1024 .f32) = V c main_v10 := by
  funext y
  show V c main_v10 (((cfg3.win 2).blk t).view.emb y) = V c main_v10 y
  refine congrArg _ (funext fun a => Fin.ext ?_)
  match a with
  | ⟨0, _⟩ => show win3_2.index t (0 : Fin 2) * 1 + 1 * (y 0).val = (y 0).val; have := idx_2_0 t; omega
  | ⟨1, _⟩ => show win3_2.index t (1 : Fin 2) * 1024 + 1 * (y 1).val = (y 1).val; have := idx_2_1 t; omega

/-- Window 3 stages its whole array at every point. -/
theorem blk_3 (c : Dev nD) (t : Fin cfg3.N) : (iblk V c 3 t : Vec Ideal S1x1024 .f32) = V c main_v12 := by
  funext y
  show V c main_v12 (((cfg3.win 3).blk t).view.emb y) = V c main_v12 y
  refine congrArg _ (funext fun a => Fin.ext ?_)
  match a with
  | ⟨0, _⟩ => show win3_3.index t (0 : Fin 2) * 1 + 1 * (y 0).val = (y 0).val; have := idx_3_0 t; omega
  | ⟨1, _⟩ => show win3_3.index t (1 : Fin 2) * 1024 + 1 * (y 1).val = (y 1).val; have := idx_3_1 t; omega

/-- Window 4 stages its whole array at every point. -/
theorem blk_4 (c : Dev nD) (t : Fin cfg3.N) : (iblk V c 4 t : Vec Ideal S1024x1024 .f32) = V c main_arg11 := by
  funext y
  show V c main_arg11 (((cfg3.win 4).blk t).view.emb y) = V c main_arg11 y
  refine congrArg _ (funext fun a => Fin.ext ?_)
  match a with
  | ⟨0, _⟩ => show win3_4.index t (0 : Fin 2) * 1024 + 1 * (y 0).val = (y 0).val; have := idx_4_0 t; omega
  | ⟨1, _⟩ => show win3_4.index t (1 : Fin 2) * 1024 + 1 * (y 1).val = (y 1).val; have := idx_4_1 t; omega

/-- Window 5 stages its whole array at every point. -/
theorem blk_5 (c : Dev nD) (t : Fin cfg3.N) : (iblk V c 5 t : Vec Ideal S1x1024 .f32) = V c main_v8 := by
  funext y
  show V c main_v8 (((cfg3.win 5).blk t).view.emb y) = V c main_v8 y
  refine congrArg _ (funext fun a => Fin.ext ?_)
  match a with
  | ⟨0, _⟩ => show win3_5.index t (0 : Fin 2) * 1 + 1 * (y 0).val = (y 0).val; have := idx_5_0 t; omega
  | ⟨1, _⟩ => show win3_5.index t (1 : Fin 2) * 1024 + 1 * (y 1).val = (y 1).val; have := idx_5_1 t; omega

/-- Window 6 stages its whole array at every point. -/
theorem blk_6 (c : Dev nD) (t : Fin cfg3.N) : (iblk V c 6 t : Vec Ideal S1x1024 .f32) = V c main_v13 := by
  funext y
  show V c main_v13 (((cfg3.win 6).blk t).view.emb y) = V c main_v13 y
  refine congrArg _ (funext fun a => Fin.ext ?_)
  match a with
  | ⟨0, _⟩ => show win3_6.index t (0 : Fin 2) * 1 + 1 * (y 0).val = (y 0).val; have := idx_6_0 t; omega
  | ⟨1, _⟩ => show win3_6.index t (1 : Fin 2) * 1024 + 1 * (y 1).val = (y 1).val; have := idx_6_1 t; omega

/-- Window 7 stages its whole array at every point. -/
theorem blk_7 (c : Dev nD) (t : Fin cfg3.N) : (iblk V c 7 t : Vec Ideal S1x1 .f32) = V c main_v14 := by
  funext y
  show V c main_v14 (((cfg3.win 7).blk t).view.emb y) = V c main_v14 y
  refine congrArg _ (funext fun a => Fin.ext ?_)
  match a with
  | ⟨0, _⟩ => show win3_7.index t (0 : Fin 2) * 1 + 1 * (y 0).val = (y 0).val; have := idx_7_0 t; omega
  | ⟨1, _⟩ => show win3_7.index t (1 : Fin 2) * 1 + 1 * (y 1).val = (y 1).val; have := idx_7_1 t; omega

/-- WHAT POINT `t` WRITES BACK is block `t` of the result column. -/
theorem flushed_8 (c : Dev nD) (t : Fin cfg3.N) :
    (dat' c).flushed 8 t = ((cfg3.win 8).blk t).view.read (Elt Ideal)
      (G8 (V c main_v16_0) (V c main_v16_1) (V c main_v10) (V c main_v12) (V c main_arg11) (V c main_v8) (V c main_v13) (V c main_v14)) := by
  show (cfg3.win 8).cut (grid3.coords t) ((dat' c).after 8 t) = _
  rw [after_8, blk_1, blk_2, blk_3, blk_4, blk_5, blk_6, blk_7]
  funext j
  obtain ⟨p, q, rfl⟩ : ∃ (p : Fin 512) (q : Fin 1), j = ix2 p q := ⟨j 0, j 1, eq_ix2 j⟩
  obtain rfl : q = 0 := Subsingleton.elim _ _
  have hN : t.val < 32 := lt_of_lt_of_eq t.isLt N_3
  have hR : ((((cfg3.win 8).blk t).view.emb (ix2 p (0 : Fin 1))) 0 : Fin 16384) = (⟨512 * t.val + p.val, by omega⟩ : Fin 16384) := Fin.ext (by
    show win3_8.index t (0 : Fin 2) * 512 + 1 * p.val = 512 * t.val + p.val; have := idx_8_0 t; omega)
  show blockOut (iblk V c 0 t) (V c main_v16_1) (V c main_v10) (V c main_v12) (V c main_arg11) (V c main_v8) (V c main_v13) (V c main_v14) (ix2 p (0 : Fin 1))
    = bnOut (V c main_v16_0) (V c main_v16_1) (V c main_v10) (V c main_v12) (V c main_arg11) (V c main_v8) (V c main_v13) (V c main_v14) ((((cfg3.win 8).blk t).view.emb (ix2 p (0 : Fin 1))) 0)
  rw [hR]
  unfold blockOut
  refine (blockOut3_at _ _ _ _ _ _ _ _ p).trans ?_
  exact bnOut_congr _ _ _ _ _ _ _ _ _ p _ fun k => blk_0_at V c t p k _ rfl

/-- An index of the column is in point `t`'s block iff each coordinate is in the block's range on its axis. -/
theorem mem_blk8 (t : Fin cfg3.N) (i : S16384x1.Idx) :
    i ∈ ((cfg3.win 8).blk t).view.set ↔ ∀ a : Fin 2, win3_8.index t a * S512x1.size a ≤ (i a).val ∧ (i a).val < win3_8.index t a * S512x1.size a + S512x1.size a := by
  show i ∈ ((View.whole main_v17).slice (win3_8.rect t)).set ↔ _
  rw [View.set_slice_whole, Rect.mem_set_unit]
  exact Iff.rfl

/-- The 32 blocks tile the column: row `r` is in block `r / 512`. -/
theorem cover8 (i : S16384x1.Idx) : ∃ t : Fin cfg3.N, (cfg3.win 8).flush t = true ∧ i ∈ ((cfg3.win 8).blk t).view.set := by
  have hi0 : (i 0).val < 16384 := (i 0).isLt
  have hi1 : (i 1).val < 1 := (i 1).isLt
  refine ⟨⟨(i 0).val / 512, lt_of_lt_of_eq (by omega : (i 0).val / 512 < 32) N_3.symm⟩, flush3_8 _, ?_⟩
  rw [mem_blk8]
  intro a
  match a with
  | ⟨0, _⟩ =>
    show win3_8.index ⟨(i 0).val / 512, _⟩ (0 : Fin 2) * 512 ≤ (i 0).val ∧ (i 0).val < win3_8.index ⟨(i 0).val / 512, _⟩ (0 : Fin 2) * 512 + 512
    rw [idx_8_0]; show (i 0).val / 512 * 512 ≤ (i 0).val ∧ (i 0).val < (i 0).val / 512 * 512 + 512; omega
  | ⟨1, _⟩ =>
    show win3_8.index ⟨(i 0).val / 512, _⟩ (1 : Fin 2) * 1 ≤ (i 1).val ∧ (i 1).val < win3_8.index ⟨(i 0).val / 512, _⟩ (1 : Fin 2) * 1 + 1
    rw [idx_8_1]; omega

/-- THE VALUE: after the region the output array holds the result column. -/
theorem value_8 (c : Dev nD) :
    (dat' c).arrAt 8 cfg3.N = G8 (V c main_v16_0) (V c main_v16_1) (V c main_v10) (V c main_v12) (V c main_arg11) (V c main_v8) (V c main_v13) (V c main_v14) :=
  (dat' c).arrAt_eq_of_cover 8 _ (fun t _ => flushed_8 V B c t) cover8

end Cert.KernelIdeal.Reg3

end
-- ==== Proof.KValue.lean ====
/-
  The kernel program's result array, composed. At the return the result is the last region's output column seen as a
  vector; that column is the last layer of the third region's inputs, which are the second region's rows and statistics
  and one-row reshapes of arguments; the second region's inputs are the first region's rows and statistics and reshapes
  of arguments; the first region's inputs are the pooled array, the two arrays of row numbers, the first weights and the
  reshaped first bias. No region and no reshape writes an argument, so every argument read along the way is the launch
  memory's. With the pooled array at the specification's pooled bags, the result is the specification's kernel form.
-/
import proofs.«209176_g73847667688168_cont_9to1_m_420_10_alg».proof.Proof.KTail
import proofs.«209176_g73847667688168_cont_9to1_m_420_10_alg».proof.Proof.KHead
import proofs.«209176_g73847667688168_cont_9to1_m_420_10_alg».proof.Proof.KHostRead
import proofs.«209176_g73847667688168_cont_9to1_m_420_10_alg».proof.Proof.KBridge
import proofs.«209176_g73847667688168_cont_9to1_m_420_10_alg».proof.Proof.Reg1Val7
import proofs.«209176_g73847667688168_cont_9to1_m_420_10_alg».proof.Proof.Reg2Value
import proofs.«209176_g73847667688168_cont_9to1_m_420_10_alg».proof.Proof.Reg3Value
import Idealize.ShloMosaic.Lib.ValueLayout

noncomputable section

open scoped BigOperators

namespace Cert.KernelIdeal.Run

open Cert.KernelIdeal Cert.KernelIdeal.Gen
open Idealize.ShloMosaic Idealize.ShloMosaic.TcCoe Idealize.ShloMosaic.ValueIdx Idealize.SL.Sem
open Cert.KernelIdeal.RegLib Cert.SpecArgs

variable (m : (ℓ : Loc nD τ sig) → Buf (Elt Ideal) ℓ) (pv : (d : Dev nD) → Buf (Elt Ideal) (oLoc d)) (d : Dev nD)

/-! ## The first region's entry: the reshaped operands, the arguments, the pooled array -/

theorem Wc_v6 : Wc m pv d (Proc.devRef .tc main_v6) = shapeCast S1x1024 (m ((SparseCore.T d).loc main_arg4)) shapeCasts_S1024_S1x1024 := by
  show StableHlo.after midOps (Wb m pv d) (Proc.devRef .tc main_v6) = _
  after_results
  rw [Wb_of_ne m pv d _ (StableHlo.devRef_ne_of_ne (by decide)), Wa_of_not_written m d main_arg4 ⟨by decide, by decide, by decide, by decide, by decide, by decide, by decide, by decide⟩]
  rfl
theorem Wc_v7 : Wc m pv d (Proc.devRef .tc main_v7) = shapeCast S1x1024 (m ((SparseCore.T d).loc main_arg8)) shapeCasts_S1024_S1x1024 := by
  show StableHlo.after midOps (Wb m pv d) (Proc.devRef .tc main_v7) = _
  after_results
  rw [Wb_of_ne m pv d _ (StableHlo.devRef_ne_of_ne (by decide)), Wa_of_not_written m d main_arg8 ⟨by decide, by decide, by decide, by decide, by decide, by decide, by decide, by decide⟩]
  rfl
theorem Wc_v8 : Wc m pv d (Proc.devRef .tc main_v8) = shapeCast S1x1024 (m ((SparseCore.T d).loc main_arg12)) shapeCasts_S1024_S1x1024 := by
  show StableHlo.after midOps (Wb m pv d) (Proc.devRef .tc main_v8) = _
  after_results
  rw [Wb_of_ne m pv d _ (StableHlo.devRef_ne_of_ne (by decide)), Wa_of_not_written m d main_arg12 ⟨by decide, by decide, by decide, by decide, by decide, by decide, by decide, by decide⟩]
  rfl
theorem Wc_v9 : Wc m pv d (Proc.devRef .tc main_v9) = shapeCast S1x1024 (m ((SparseCore.T d).loc main_arg5)) shapeCasts_S1024_S1x1024 := by
  show StableHlo.after midOps (Wb m pv d) (Proc.devRef .tc main_v9) = _
  after_results
  rw [Wb_of_ne m pv d _ (StableHlo.devRef_ne_of_ne (by decide)), Wa_of_not_written m d main_arg5 ⟨by decide, by decide, by decide, by decide, by decide, by decide, by decide, by decide⟩]
  rfl
theorem Wc_v10 : Wc m pv d (Proc.devRef .tc main_v10) = shapeCast S1x1024 (m ((SparseCore.T d).loc main_arg9)) shapeCasts_S1024_S1x1024 := by
  show StableHlo.after midOps (Wb m pv d) (Proc.devRef .tc main_v10) = _
  after_results
  rw [Wb_of_ne m pv d _ (StableHlo.devRef_ne_of_ne (by decide)), Wa_of_not_written m d main_arg9 ⟨by decide, by decide, by decide, by decide, by decide, by decide, by decide, by decide⟩]
  rfl
theorem Wc_v11 : Wc m pv d (Proc.devRef .tc main_v11) = shapeCast S1x1024 (m ((SparseCore.T d).loc main_arg6)) shapeCasts_S1024_S1x1024 := by
  show StableHlo.after midOps (Wb m pv d) (Proc.devRef .tc main_v11) = _
  after_results
  rw [Wb_of_ne m pv d _ (StableHlo.devRef_ne_of_ne (by decide)), Wa_of_not_written m d main_arg6 ⟨by decide, by decide, by decide, by decide, by decide, by decide, by decide, by decide⟩]
  rfl
theorem Wc_v12 : Wc m pv d (Proc.devRef .tc main_v12) = shapeCast S1x1024 (m ((SparseCore.T d).loc main_arg10)) shapeCasts_S1024_S1x1024 := by
  show StableHlo.after midOps (Wb m pv d) (Proc.devRef .tc main_v12) = _
  after_results
  rw [Wb_of_ne m pv d _ (StableHlo.devRef_ne_of_ne (by decide)), Wa_of_not_written m d main_arg10 ⟨by decide, by decide, by decide, by decide, by decide, by decide, by decide, by decide⟩]
  rfl
theorem Wc_v13 : Wc m pv d (Proc.devRef .tc main_v13) = shapeCast S1x1024 (m ((SparseCore.T d).loc main_arg13)) shapeCasts_S1024x1_S1x1024 := by
  show StableHlo.after midOps (Wb m pv d) (Proc.devRef .tc main_v13) = _
  after_results
  rw [Wb_of_ne m pv d _ (StableHlo.devRef_ne_of_ne (by decide)), Wa_of_not_written m d main_arg13 ⟨by decide, by decide, by decide, by decide, by decide, by decide, by decide, by decide⟩]
  rfl
theorem Wc_v14 : Wc m pv d (Proc.devRef .tc main_v14) = shapeCast S1x1 (m ((SparseCore.T d).loc main_arg14)) shapeCasts_S1_S1x1 := by
  show StableHlo.after midOps (Wb m pv d) (Proc.devRef .tc main_v14) = _
  after_results
  rw [Wb_of_ne m pv d _ (StableHlo.devRef_ne_of_ne (by decide)), Wa_of_not_written m d main_arg14 ⟨by decide, by decide, by decide, by decide, by decide, by decide, by decide, by decide⟩]
  rfl

theorem Wc_arg0 : Wc m pv d (Proc.devRef .tc main_arg0) = m ((SparseCore.T d).loc main_arg0) := by
  show StableHlo.after midOps (Wb m pv d) (Proc.devRef .tc main_arg0) = _
  after_results
  rw [Wb_of_ne m pv d _ (StableHlo.devRef_ne_of_ne (by decide)), Wa_of_not_written m d main_arg0 ⟨by decide, by decide, by decide, by decide, by decide, by decide, by decide, by decide⟩]
theorem Wc_arg1 : Wc m pv d (Proc.devRef .tc main_arg1) = m ((SparseCore.T d).loc main_arg1) := by
  show StableHlo.after midOps (Wb m pv d) (Proc.devRef .tc main_arg1) = _
  after_results
  rw [Wb_of_ne m pv d _ (StableHlo.devRef_ne_of_ne (by decide)), Wa_of_not_written m d main_arg1 ⟨by decide, by decide, by decide, by decide, by decide, by decide, by decide, by decide⟩]
theorem Wc_arg3 : Wc m pv d (Proc.devRef .tc main_arg3) = m ((SparseCore.T d).loc main_arg3) := by
  show StableHlo.after midOps (Wb m pv d) (Proc.devRef .tc main_arg3) = _
  after_results
  rw [Wb_of_ne m pv d _ (StableHlo.devRef_ne_of_ne (by decide)), Wa_of_not_written m d main_arg3 ⟨by decide, by decide, by decide, by decide, by decide, by decide, by decide, by decide⟩]
theorem Wc_arg7 : Wc m pv d (Proc.devRef .tc main_arg7) = m ((SparseCore.T d).loc main_arg7) := by
  show StableHlo.after midOps (Wb m pv d) (Proc.devRef .tc main_arg7) = _
  after_results
  rw [Wb_of_ne m pv d _ (StableHlo.devRef_ne_of_ne (by decide)), Wa_of_not_written m d main_arg7 ⟨by decide, by decide, by decide, by decide, by decide, by decide, by decide, by decide⟩]
theorem Wc_arg11 : Wc m pv d (Proc.devRef .tc main_arg11) = m ((SparseCore.T d).loc main_arg11) := by
  show StableHlo.after midOps (Wb m pv d) (Proc.devRef .tc main_arg11) = _
  after_results
  rw [Wb_of_ne m pv d _ (StableHlo.devRef_ne_of_ne (by decide)), Wa_of_not_written m d main_arg11 ⟨by decide, by decide, by decide, by decide, by decide, by decide, by decide, by decide⟩]

theorem Wc_v5 : Wc m pv d (Proc.devRef .tc main_v5) = pv d := by
  show StableHlo.after midOps (Wb m pv d) (Proc.devRef .tc main_v5) = _
  after_results
  exact Wb_v5 m pv d

/-! ## The regions' arrays, walked back -/

/-- The first region's rows and statistics. -/
abbrev H1 : S16384x1024.Idx → EReal :=
  Reg1.h1Arr (pv d) (m ((SparseCore.T d).loc main_arg0)) (m ((SparseCore.T d).loc main_arg1)) (m ((SparseCore.T d).loc main_arg3))
    (shapeCast S1x1024 (m ((SparseCore.T d).loc main_arg4)) shapeCasts_S1024_S1x1024)
abbrev T1 : S2x1024.Idx → EReal := Reg1.statsArr (H1 m pv d)

theorem E2_v15_0 : E2 m pv d (Proc.devRef .tc main_v15_0) = H1 m pv d := by
  rw [show E2 m pv d (Proc.devRef .tc main_v15_0) = (D1 (E1 m pv) d).arrAt 6 cfg1.N from X1_v15_0 (E1 m pv) d]
  rw [show (D1 (E1 m pv) d).arrAt 6 cfg1.N = _ from Reg1.arrAt_6 (rd (E1 m pv)) (Brec (F := Ideal) d) d]
  show Reg1.h1Arr (Wc m pv d (Proc.devRef .tc main_v5)) (Wc m pv d (Proc.devRef .tc main_arg0)) (Wc m pv d (Proc.devRef .tc main_arg1))
    (Wc m pv d (Proc.devRef .tc main_arg3)) (Wc m pv d (Proc.devRef .tc main_v6)) = _
  rw [Wc_v5, Wc_arg0, Wc_arg1, Wc_arg3, Wc_v6]

theorem E2_v15_1 : E2 m pv d (Proc.devRef .tc main_v15_1) = T1 m pv d := by
  rw [show E2 m pv d (Proc.devRef .tc main_v15_1) = (D1 (E1 m pv) d).arrAt 7 cfg1.N from X1_v15_1 (E1 m pv) d]
  rw [show (D1 (E1 m pv) d).arrAt 7 cfg1.N = _ from Reg1.arrAt_7 (rd (E1 m pv)) (Brec (F := Ideal) d) d]
  show Reg1.statsArr (Reg1.h1Arr (Wc m pv d (Proc.devRef .tc main_v5)) (Wc m pv d (Proc.devRef .tc main_arg0)) (Wc m pv d (Proc.devRef .tc main_arg1))
    (Wc m pv d (Proc.devRef .tc main_arg3)) (Wc m pv d (Proc.devRef .tc main_v6))) = _
  rw [Wc_v5, Wc_arg0, Wc_arg1, Wc_arg3, Wc_v6]

/-- A buffer the first region does not write holds at its exit what the reshapes left. -/
theorem E2_keep (b : Ref sig .tc) (h6 : b ≠ main_v15_0) (h7 : b ≠ main_v15_1) :
    E2 m pv d (Proc.devRef .tc b) = Wc m pv d (Proc.devRef .tc b) :=
  X1_of_ne (E1 m pv) d _ (StableHlo.devRef_ne_of_ne h6) (StableHlo.devRef_ne_of_ne h7)

/-- The second region's rows and statistics. -/
abbrev H2 : S16384x1024.Idx → EReal :=
  Reg2.G6 (H1 m pv d) (T1 m pv d) (shapeCast S1x1024 (m ((SparseCore.T d).loc main_arg5)) shapeCasts_S1024_S1x1024)
    (shapeCast S1x1024 (m ((SparseCore.T d).loc main_arg6)) shapeCasts_S1024_S1x1024) (m ((SparseCore.T d).loc main_arg7))
    (shapeCast S1x1024 (m ((SparseCore.T d).loc main_arg8)) shapeCasts_S1024_S1x1024)
abbrev T2 : S2x1024.Idx → EReal :=
  Reg2.G7 (H1 m pv d) (T1 m pv d) (shapeCast S1x1024 (m ((SparseCore.T d).loc main_arg5)) shapeCasts_S1024_S1x1024)
    (shapeCast S1x1024 (m ((SparseCore.T d).loc main_arg6)) shapeCasts_S1024_S1x1024) (m ((SparseCore.T d).loc main_arg7))
    (shapeCast S1x1024 (m ((SparseCore.T d).loc main_arg8)) shapeCasts_S1024_S1x1024)

theorem E3_v16_0 : E3 m pv d (Proc.devRef .tc main_v16_0) = H2 m pv d := by
  rw [show E3 m pv d (Proc.devRef .tc main_v16_0) = _ from X2_arr (E2 m pv) d 6,
    show (Reg2.dat (Name := ℕ) (U := UU) (Lvl := ℕ) (rd (E2 m pv)) (Brec (F := Ideal) d) d).arrAt 6 cfg2.N = _ from
      Reg2.value_6 (rd (E2 m pv)) (Brec (F := Ideal) d) d]
  show Reg2.G6 (E2 m pv d (Proc.devRef .tc main_v15_0)) (E2 m pv d (Proc.devRef .tc main_v15_1)) (E2 m pv d (Proc.devRef .tc main_v9))
    (E2 m pv d (Proc.devRef .tc main_v11)) (E2 m pv d (Proc.devRef .tc main_arg7)) (E2 m pv d (Proc.devRef .tc main_v7)) = _
  rw [E2_v15_0, E2_v15_1, E2_keep m pv d main_v9 (by decide) (by decide), E2_keep m pv d main_v11 (by decide) (by decide),
    E2_keep m pv d main_arg7 (by decide) (by decide), E2_keep m pv d main_v7 (by decide) (by decide), Wc_v9, Wc_v11, Wc_arg7, Wc_v7]

theorem E3_v16_1 : E3 m pv d (Proc.devRef .tc main_v16_1) = T2 m pv d := by
  rw [show E3 m pv d (Proc.devRef .tc main_v16_1) = _ from X2_arr (E2 m pv) d 7,
    show (Reg2.dat (Name := ℕ) (U := UU) (Lvl := ℕ) (rd (E2 m pv)) (Brec (F := Ideal) d) d).arrAt 7 cfg2.N = _ from
      Reg2.value_7 (rd (E2 m pv)) (Brec (F := Ideal) d) d]
  show Reg2.G7 (E2 m pv d (Proc.devRef .tc main_v15_0)) (E2 m pv d (Proc.devRef .tc main_v15_1)) (E2 m pv d (Proc.devRef .tc main_v9))
    (E2 m pv d (Proc.devRef .tc main_v11)) (E2 m pv d (Proc.devRef .tc main_arg7)) (E2 m pv d (Proc.devRef .tc main_v7)) = _
  rw [E2_v15_0, E2_v15_1, E2_keep m pv d main_v9 (by decide) (by decide), E2_keep m pv d main_v11 (by decide) (by decide),
    E2_keep m pv d main_arg7 (by decide) (by decide), E2_keep m pv d main_v7 (by decide) (by decide), Wc_v9, Wc_v11, Wc_arg7, Wc_v7]

/-- A buffer neither of the first two regions writes holds at the third's entry what the reshapes left. -/
theorem E3_keep (b : Ref sig .tc) (h2 : ∀ w, (cfg2.win w).isOut = true → Pipeline.arrRef spec2 w ≠ b)
    (h6 : b ≠ main_v15_0) (h7 : b ≠ main_v15_1) :
    E3 m pv d (Proc.devRef .tc b) = Wc m pv d (Proc.devRef .tc b) :=
  (X2_keep (E2 m pv) d b h2).trans (E2_keep m pv d b h6 h7)

/-- THE RESULT ARRAY AT THE RETURN, as the regions' formulas of the launch memory and the pooled array. -/
theorem Wg_v18_formula (r : Fin 16384) :
    (Wg m pv d (Proc.devRef .tc main_v18) : S16384.Idx → EReal) (ix1 r)
      = bnOut (H2 m pv d) (T2 m pv d) (shapeCast S1x1024 (m ((SparseCore.T d).loc main_arg9)) shapeCasts_S1024_S1x1024)
          (shapeCast S1x1024 (m ((SparseCore.T d).loc main_arg10)) shapeCasts_S1024_S1x1024) (m ((SparseCore.T d).loc main_arg11))
          (shapeCast S1x1024 (m ((SparseCore.T d).loc main_arg12)) shapeCasts_S1024_S1x1024)
          (shapeCast S1x1024 (m ((SparseCore.T d).loc main_arg13)) shapeCasts_S1024x1_S1x1024)
          (shapeCast S1x1 (m ((SparseCore.T d).loc main_arg14)) shapeCasts_S1_S1x1) r := by
  rw [Wg_v18 m pv d]
  show shapeCast S16384 ((Reg3.dat (Name := ℕ) (U := UU) (Lvl := ℕ) (rd (E3 m pv)) (Brec (F := Ideal) d) d).arrAt 8 cfg3.N)
    shapeCasts_S16384x1_S16384 (ix1 r) = _
  rw [Cert.KHostRead.shapeCast_a1_a_apply, Reg3.value_8 (rd (E3 m pv)) (Brec (F := Ideal) d) d]
  show bnOut (E3 m pv d (Proc.devRef .tc main_v16_0)) (E3 m pv d (Proc.devRef .tc main_v16_1)) (E3 m pv d (Proc.devRef .tc main_v10))
    (E3 m pv d (Proc.devRef .tc main_v12)) (E3 m pv d (Proc.devRef .tc main_arg11)) (E3 m pv d (Proc.devRef .tc main_v8)) (E3 m pv d (Proc.devRef .tc main_v13))
    (E3 m pv d (Proc.devRef .tc main_v14)) r = _
  rw [E3_v16_0, E3_v16_1, E3_keep m pv d main_v10 (by decide) (by decide) (by decide),
    E3_keep m pv d main_v12 (by decide) (by decide) (by decide), E3_keep m pv d main_arg11 (by decide) (by decide) (by decide),
    E3_keep m pv d main_v8 (by decide) (by decide) (by decide), E3_keep m pv d main_v13 (by decide) (by decide) (by decide),
    E3_keep m pv d main_v14 (by decide) (by decide) (by decide), Wc_v10, Wc_v12, Wc_arg11, Wc_v8, Wc_v13, Wc_v14]

end Cert.KernelIdeal.Run

end
-- ==== Proof.KValueSpec.lean ====
/-
  The kernel program's result array is the specification's kernel form, given that the pooled array holds the
  specification's pooled bags: the first 16384 rows the first index array's, the next 16384 the second's. Each region's
  formula is the specification's next layer (the small operands read through their one-row reshapes), and the statistics
  rows are the column sums of the previous layer and of its squares.
-/
import proofs.«209176_g73847667688168_cont_9to1_m_420_10_alg».proof.Proof.KValue

noncomputable section

open scoped BigOperators

namespace Cert.KernelIdeal.Run

open Cert.KernelIdeal Cert.KernelIdeal.Gen
open Idealize.ShloMosaic Idealize.ShloMosaic.TcCoe Idealize.ShloMosaic.ValueIdx Idealize.SL.Sem
open Cert.KernelIdeal.RegLib Cert.SpecArgs

variable (m : (ℓ : Loc nD τ sig) → Buf (Elt Ideal) ℓ) (pv : (d : Dev nD) → Buf (Elt Ideal) (oLoc d)) (d : Dev nD)

section
variable
  (hpv0 : ∀ (r : Fin 16384) (k : Fin 128),
    (pv d : S32768x128.Idx → EReal) (ix2 (⟨r.val, Nat.lt_of_lt_of_le r.isLt (by decide)⟩ : Fin 32768) k)
      = Spec.poolK (mat (m ((SparseCore.T d).loc main_arg0))) (mat (m ((SparseCore.T d).loc main_arg2))) r k)
  (hpv1 : ∀ (r : Fin 16384) (k : Fin 128),
    (pv d : S32768x128.Idx → EReal) (ix2 (⟨16384 + r.val, by have := r.isLt; omega⟩ : Fin 32768) k)
      = Spec.poolK (mat (m ((SparseCore.T d).loc main_arg1))) (mat (m ((SparseCore.T d).loc main_arg2))) r k)
include hpv0 hpv1

/-- The first region's rows are the specification's first layer. -/
theorem H1_eq (r : Fin 16384) (k : Fin 1024) : H1 m pv d (ix2 r k) = (Spec.h1K (mat (m ((SparseCore.T d).loc main_arg0))) (mat (m ((SparseCore.T d).loc main_arg1))) (mat (m ((SparseCore.T d).loc main_arg2))) (mat (m ((SparseCore.T d).loc main_arg3))) (vec (m ((SparseCore.T d).loc main_arg4)))) r k :=
  Cert.KBridge.h1Arr_spec (pv d) (m ((SparseCore.T d).loc main_arg0)) (m ((SparseCore.T d).loc main_arg1)) (m ((SparseCore.T d).loc main_arg3)) (shapeCast S1x1024 (m ((SparseCore.T d).loc main_arg4)) shapeCasts_S1024_S1x1024) (mat (m ((SparseCore.T d).loc main_arg2))) (vec (m ((SparseCore.T d).loc main_arg4))) hpv0 hpv1
    (fun j => cast_row _ j) r k

theorem T1_row0 (j : Fin 1024) : T1 m pv d (ix2 (0 : Fin 2) j) = ∑ r, (Spec.h1K (mat (m ((SparseCore.T d).loc main_arg0))) (mat (m ((SparseCore.T d).loc main_arg1))) (mat (m ((SparseCore.T d).loc main_arg2))) (mat (m ((SparseCore.T d).loc main_arg3))) (vec (m ((SparseCore.T d).loc main_arg4)))) r j :=
  (Reg1.statsArr_row0 _ j).trans (Finset.sum_congr rfl fun r _ => H1_eq m pv d hpv0 hpv1 r j)
theorem T1_row1 (j : Fin 1024) : T1 m pv d (ix2 (1 : Fin 2) j) = ∑ r, (Spec.h1K (mat (m ((SparseCore.T d).loc main_arg0))) (mat (m ((SparseCore.T d).loc main_arg1))) (mat (m ((SparseCore.T d).loc main_arg2))) (mat (m ((SparseCore.T d).loc main_arg3))) (vec (m ((SparseCore.T d).loc main_arg4)))) r j * (Spec.h1K (mat (m ((SparseCore.T d).loc main_arg0))) (mat (m ((SparseCore.T d).loc main_arg1))) (mat (m ((SparseCore.T d).loc main_arg2))) (mat (m ((SparseCore.T d).loc main_arg3))) (vec (m ((SparseCore.T d).loc main_arg4)))) r j :=
  (Reg1.statsArr_row1 _ j).trans (Finset.sum_congr rfl fun r _ => by rw [H1_eq m pv d hpv0 hpv1 r j])

/-- The second region's rows are the specification's second layer. -/
theorem H2_eq (r : Fin 16384) (k : Fin 1024) : H2 m pv d (ix2 r k) = (Spec.h2K (mat (m ((SparseCore.T d).loc main_arg0))) (mat (m ((SparseCore.T d).loc main_arg1))) (mat (m ((SparseCore.T d).loc main_arg2))) (mat (m ((SparseCore.T d).loc main_arg3))) (vec (m ((SparseCore.T d).loc main_arg4))) (vec (m ((SparseCore.T d).loc main_arg5))) (vec (m ((SparseCore.T d).loc main_arg6))) (mat (m ((SparseCore.T d).loc main_arg7))) (vec (m ((SparseCore.T d).loc main_arg8)))) r k :=
  Cert.KBridge.bnDense_spec (H := (Spec.h1K (mat (m ((SparseCore.T d).loc main_arg0))) (mat (m ((SparseCore.T d).loc main_arg1))) (mat (m ((SparseCore.T d).loc main_arg2))) (mat (m ((SparseCore.T d).loc main_arg3))) (vec (m ((SparseCore.T d).loc main_arg4))))) (g := vec (m ((SparseCore.T d).loc main_arg5))) (be := vec (m ((SparseCore.T d).loc main_arg6))) (b := vec (m ((SparseCore.T d).loc main_arg8))) (W := mat (m ((SparseCore.T d).loc main_arg7)))
    (H1 m pv d) (T1 m pv d) (shapeCast S1x1024 (m ((SparseCore.T d).loc main_arg5)) shapeCasts_S1024_S1x1024) (shapeCast S1x1024 (m ((SparseCore.T d).loc main_arg6)) shapeCasts_S1024_S1x1024) (shapeCast S1x1024 (m ((SparseCore.T d).loc main_arg8)) shapeCasts_S1024_S1x1024) (m ((SparseCore.T d).loc main_arg7))
    (H1_eq m pv d hpv0 hpv1) (T1_row0 m pv d hpv0 hpv1) (T1_row1 m pv d hpv0 hpv1)
    (fun k => cast_row _ k) (fun k => cast_row _ k) (fun j => cast_row _ j) (fun _ _ => rfl) r k

theorem T2_row0 (j : Fin 1024) : T2 m pv d (ix2 (0 : Fin 2) j) = ∑ r, (Spec.h2K (mat (m ((SparseCore.T d).loc main_arg0))) (mat (m ((SparseCore.T d).loc main_arg1))) (mat (m ((SparseCore.T d).loc main_arg2))) (mat (m ((SparseCore.T d).loc main_arg3))) (vec (m ((SparseCore.T d).loc main_arg4))) (vec (m ((SparseCore.T d).loc main_arg5))) (vec (m ((SparseCore.T d).loc main_arg6))) (mat (m ((SparseCore.T d).loc main_arg7))) (vec (m ((SparseCore.T d).loc main_arg8)))) r j :=
  (if_pos rfl : T2 m pv d (ix2 (0 : Fin 2) j)
      = ∑ R : Fin 16384, bnDense (H1 m pv d) (T1 m pv d) (shapeCast S1x1024 (m ((SparseCore.T d).loc main_arg5)) shapeCasts_S1024_S1x1024) (shapeCast S1x1024 (m ((SparseCore.T d).loc main_arg6)) shapeCasts_S1024_S1x1024) (m ((SparseCore.T d).loc main_arg7)) (shapeCast S1x1024 (m ((SparseCore.T d).loc main_arg8)) shapeCasts_S1024_S1x1024) R j).trans
    (Finset.sum_congr rfl fun r _ => H2_eq m pv d hpv0 hpv1 r j)
theorem T2_row1 (j : Fin 1024) : T2 m pv d (ix2 (1 : Fin 2) j) = ∑ r, (Spec.h2K (mat (m ((SparseCore.T d).loc main_arg0))) (mat (m ((SparseCore.T d).loc main_arg1))) (mat (m ((SparseCore.T d).loc main_arg2))) (mat (m ((SparseCore.T d).loc main_arg3))) (vec (m ((SparseCore.T d).loc main_arg4))) (vec (m ((SparseCore.T d).loc main_arg5))) (vec (m ((SparseCore.T d).loc main_arg6))) (mat (m ((SparseCore.T d).loc main_arg7))) (vec (m ((SparseCore.T d).loc main_arg8)))) r j * (Spec.h2K (mat (m ((SparseCore.T d).loc main_arg0))) (mat (m ((SparseCore.T d).loc main_arg1))) (mat (m ((SparseCore.T d).loc main_arg2))) (mat (m ((SparseCore.T d).loc main_arg3))) (vec (m ((SparseCore.T d).loc main_arg4))) (vec (m ((SparseCore.T d).loc main_arg5))) (vec (m ((SparseCore.T d).loc main_arg6))) (mat (m ((SparseCore.T d).loc main_arg7))) (vec (m ((SparseCore.T d).loc main_arg8)))) r j :=
  (if_neg Nat.one_ne_zero : T2 m pv d (ix2 (1 : Fin 2) j)
      = ∑ R : Fin 16384, bnDense (H1 m pv d) (T1 m pv d) (shapeCast S1x1024 (m ((SparseCore.T d).loc main_arg5)) shapeCasts_S1024_S1x1024) (shapeCast S1x1024 (m ((SparseCore.T d).loc main_arg6)) shapeCasts_S1024_S1x1024) (m ((SparseCore.T d).loc main_arg7)) (shapeCast S1x1024 (m ((SparseCore.T d).loc main_arg8)) shapeCasts_S1024_S1x1024) R j
          * bnDense (H1 m pv d) (T1 m pv d) (shapeCast S1x1024 (m ((SparseCore.T d).loc main_arg5)) shapeCasts_S1024_S1x1024) (shapeCast S1x1024 (m ((SparseCore.T d).loc main_arg6)) shapeCasts_S1024_S1x1024) (m ((SparseCore.T d).loc main_arg7)) (shapeCast S1x1024 (m ((SparseCore.T d).loc main_arg8)) shapeCasts_S1024_S1x1024) R j).trans
    (Finset.sum_congr rfl fun r _ => congrArg₂ (· * ·) (H2_eq m pv d hpv0 hpv1 r j) (H2_eq m pv d hpv0 hpv1 r j))

/-- THE KERNEL PROGRAM'S RESULT ARRAY is the specification's kernel form, given the pooled array. -/
theorem Wg_v18_eq :
    Wg m pv d (Proc.devRef .tc main_v18) = SpecArgs.outK (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) := by
  funext i
  obtain ⟨r, rfl⟩ : ∃ r : Fin 16384, i = ix1 r := ⟨i 0, eq_ix1 i⟩
  rw [Wg_v18_formula m pv d r]
  exact Cert.KBridge.bnOut_spec (H := (Spec.h2K (mat (m ((SparseCore.T d).loc main_arg0))) (mat (m ((SparseCore.T d).loc main_arg1))) (mat (m ((SparseCore.T d).loc main_arg2))) (mat (m ((SparseCore.T d).loc main_arg3))) (vec (m ((SparseCore.T d).loc main_arg4))) (vec (m ((SparseCore.T d).loc main_arg5))) (vec (m ((SparseCore.T d).loc main_arg6))) (mat (m ((SparseCore.T d).loc main_arg7))) (vec (m ((SparseCore.T d).loc main_arg8))))) (g := vec (m ((SparseCore.T d).loc main_arg9))) (be := vec (m ((SparseCore.T d).loc main_arg10))) (b := vec (m ((SparseCore.T d).loc main_arg12))) (W := mat (m ((SparseCore.T d).loc main_arg11)))
    (W4 := col (m ((SparseCore.T d).loc main_arg13))) (b4 := scal (m ((SparseCore.T d).loc main_arg14)))
    (H2 m pv d) (T2 m pv d) (shapeCast S1x1024 (m ((SparseCore.T d).loc main_arg9)) shapeCasts_S1024_S1x1024) (shapeCast S1x1024 (m ((SparseCore.T d).loc main_arg10)) shapeCasts_S1024_S1x1024) (shapeCast S1x1024 (m ((SparseCore.T d).loc main_arg12)) shapeCasts_S1024_S1x1024) (m ((SparseCore.T d).loc main_arg11)) (shapeCast S1x1024 (m ((SparseCore.T d).loc main_arg13)) shapeCasts_S1024x1_S1x1024)
    (shapeCast S1x1 (m ((SparseCore.T d).loc main_arg14)) shapeCasts_S1_S1x1)
    (H2_eq m pv d hpv0 hpv1) (T2_row0 m pv d hpv0 hpv1) (T2_row1 m pv d hpv0 hpv1)
    (fun k => cast_row _ k) (fun k => cast_row _ k) (fun j => cast_row _ j) (fun _ _ => rfl)
    (fun k => Cert.KHostRead.shapeCast_a1_1a_apply _ _ 0 k) (shapeCast_a_1a_apply _ _ 0 0) r

end

/-- The same, with the TensorCore thread spelt as the claims spell it. -/
theorem kernel_value (c : Dev nD)
    (hpv0 : ∀ (r : Fin 16384) (k : Fin 128),
      (pv c : S32768x128.Idx → EReal) (ix2 (⟨r.val, Nat.lt_of_lt_of_le r.isLt (by decide)⟩ : Fin 32768) k)
        = Spec.poolK (mat (m ((c.tc : Thread nD τ).loc main_arg0))) (mat (m ((c.tc : Thread nD τ).loc main_arg2))) r k)
    (hpv1 : ∀ (r : Fin 16384) (k : Fin 128),
      (pv c : S32768x128.Idx → EReal) (ix2 (⟨16384 + r.val, by have := r.isLt; omega⟩ : Fin 32768) k)
        = Spec.poolK (mat (m ((c.tc : Thread nD τ).loc main_arg1))) (mat (m ((c.tc : Thread nD τ).loc main_arg2))) r k) :
    Wg m pv c (Proc.devRef .tc main_v18) = SpecArgs.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  Wg_v18_eq m pv c hpv0 hpv1

end Cert.KernelIdeal.Run

end
-- ==== Proof.ScSum.lean ====
/-
  The pooled sum, free of any program text: each of the 32768 bags (the first index array's 16384, then the second's)
  has its 50 words at positions 64 t … 64 t + 49 of the flat index array; a zero word is sent to row 100000 of the
  extended table (a row of zeros), any other word names its own row; the bag's result is the sum of the 50 rows it
  names, added up from zero in the order of the words.
-/
import Idealize.ShloMosaic.PureOps
import Idealize.ShloMosaic.Lib.ValueIdx

noncomputable section

namespace Cert.KernelIdeal.Run.Tile

open Idealize.ShloMosaic Idealize.ShloMosaic.ValueIdx

variable {F : FTy → Type} [FloatOps F]

/-- A padding word is sent to the first appended row of the table. -/
def remapW (w : BitVec 32) : BitVec 32 := if w = 0#32 then 100000#32 else w

/-- The row of the extended table a word names, at column `k` (a word past the table names its last row). -/
def trow (T1 : (⟨2, ![100008, 128]⟩ : Shape).Idx → Elt F .f32) (w : BitVec 32) (k : Fin 128) : F .f32 :=
  T1 (ix2 (⟨min w.toNat 100007, by omega⟩ : Fin 100008) k)

/-- The zero the sum starts from. -/
def zeroF : F .f32 := FloatOps.ofBits .f32 0x00000000#32

/-- Position `64 t + n` of the flat index array lies inside it. -/
theorem flat_lt (t : Fin 32768) (n : Nat) (h : n < 50) : 64 * t.val + n < 2097152 := by
  have := t.isLt; omega

/-- The sum of the rows the first `n` words of bag `t` name, at column `k`, in the order of the words. -/
def rowPre (T1 : (⟨2, ![100008, 128]⟩ : Shape).Idx → Elt F .f32) (I4 : (⟨1, ![2097152]⟩ : Shape).Idx → BitVec 32)
    (t : Fin 32768) (k : Fin 128) : (n : Nat) → n ≤ 50 → F .f32
  | 0, _ => zeroF
  | n + 1, h => FloatOps.addf (rowPre T1 I4 t k n (Nat.le_of_succ_le h))
      (trow T1 (remapW (I4 (ix1 (⟨64 * t.val + n, flat_lt t n h⟩ : Fin 2097152)))) k)

/-- Bag `t`'s pooled row at column `k`. -/
def rowSum (T1 : (⟨2, ![100008, 128]⟩ : Shape).Idx → Elt F .f32) (I4 : (⟨1, ![2097152]⟩ : Shape).Idx → BitVec 32)
    (t : Fin 32768) (k : Fin 128) : F .f32 := rowPre T1 I4 t k 50 (Nat.le_refl 50)

/-- The pooled array. -/
def pvOf (T1 : (⟨2, ![100008, 128]⟩ : Shape).Idx → Elt F .f32) (I4 : (⟨1, ![2097152]⟩ : Shape).Idx → BitVec 32) :
    (⟨2, ![32768, 128]⟩ : Shape).Idx → Elt F .f32 := fun j => rowSum T1 I4 (j 0) (j 1)

section Steps
variable (T1 : (⟨2, ![100008, 128]⟩ : Shape).Idx → Elt F .f32) (I4 : (⟨1, ![2097152]⟩ : Shape).Idx → BitVec 32)
  (t : Fin 32768) (k : Fin 128)

theorem rowPre_zero (h : 0 ≤ 50) : rowPre T1 I4 t k 0 h = zeroF := rfl

theorem rowPre_succ (n : Nat) (h : n + 1 ≤ 50) :
    rowPre T1 I4 t k (n + 1) h = FloatOps.addf (rowPre T1 I4 t k n (Nat.le_of_succ_le h))
      (trow T1 (remapW (I4 (ix1 (⟨64 * t.val + n, flat_lt t n h⟩ : Fin 2097152)))) k) := rfl

/-- The bound proof does not matter. -/
theorem rowPre_congr (n n' : Nat) (e : n = n') (h : n ≤ 50) (h' : n' ≤ 50) : rowPre T1 I4 t k n h = rowPre T1 I4 t k n' h' := by
  subst e; rfl

/-- One trip of the kernel's inner loop adds the rows of five consecutive words. -/
theorem rowPre_five (j : Nat) (h : 5 * j + 5 ≤ 50) :
    rowPre T1 I4 t k (5 * j + 5) h
      = FloatOps.addf (FloatOps.addf (FloatOps.addf (FloatOps.addf (FloatOps.addf (rowPre T1 I4 t k (5 * j) (by omega))
          (trow T1 (remapW (I4 (ix1 (⟨64 * t.val + (5 * j), flat_lt t _ (by omega)⟩ : Fin 2097152)))) k))
          (trow T1 (remapW (I4 (ix1 (⟨64 * t.val + (5 * j + 1), flat_lt t _ (by omega)⟩ : Fin 2097152)))) k))
          (trow T1 (remapW (I4 (ix1 (⟨64 * t.val + (5 * j + 2), flat_lt t _ (by omega)⟩ : Fin 2097152)))) k))
          (trow T1 (remapW (I4 (ix1 (⟨64 * t.val + (5 * j + 3), flat_lt t _ (by omega)⟩ : Fin 2097152)))) k))
          (trow T1 (remapW (I4 (ix1 (⟨64 * t.val + (5 * j + 4), flat_lt t _ (by omega)⟩ : Fin 2097152)))) k) := rfl

theorem rowSum_def : rowSum T1 I4 t k = rowPre T1 I4 t k 50 (Nat.le_refl 50) := rfl

theorem pvOf_apply (r : Fin 32768) : pvOf T1 I4 (ix2 r k) = rowSum T1 I4 r k := rfl

end Steps

end Cert.KernelIdeal.Run.Tile

end
-- ==== Proof.ScSumIdeal.lean ====
/-
  The pooled sum over the extended reals: a bag's row is the plain sum of the 50 rows its words name; and on the
  arrays the program builds before the pooling kernel runs (the embedding table with eight rows of zeros appended; the
  two index arrays stacked, each bag padded to 64 words, flattened) it is the specification's pooled sum, a padding
  word contributing the zero row, given that every index word is below 100000.
-/
import proofs.«209176_g73847667688168_cont_9to1_m_420_10_alg».proof.Proof.ScSum
import proofs.«209176_g73847667688168_cont_9to1_m_420_10_alg».proof.Proof.Spec
import proofs.«209176_g73847667688168_cont_9to1_m_420_10_alg».proof.Proof.SpecArgs
import proofs.«209176_g73847667688168_cont_9to1_m_420_10_alg».proof.Proof.KHostRead
import proofs.«209176_g73847667688168_cont_9to1_m_420_10_alg».proof.Proof.KHead

noncomputable section

open scoped BigOperators

namespace Cert.KernelIdeal.Run.Tile

open Idealize.ShloMosaic Idealize.ShloMosaic.ValueIdx
open Cert.SpecArgs

/-! ## The sum, unfolded -/

section Sum
variable (T1 : (⟨2, ![100008, 128]⟩ : Shape).Idx → EReal) (I4 : (⟨1, ![2097152]⟩ : Shape).Idx → BitVec 32)
  (t : Fin 32768) (k : Fin 128)

/-- The first `n` words' rows, added up from zero, are their sum. -/
theorem rowPre_ideal : ∀ (n : Nat) (h : n ≤ 50),
    (rowPre (F := Ideal) T1 I4 t k n h : EReal)
      = ∑ l : Fin n, (trow (F := Ideal) T1 (remapW (I4 (ix1 (⟨64 * t.val + l.val, flat_lt t l.val (lt_of_lt_of_le l.isLt h)⟩ : Fin 2097152)))) k : EReal)
  | 0, h => by
    rw [rowPre_zero, Finset.univ_eq_empty, Finset.sum_empty]
    exact Ideal.ofBits_zero_f32
  | n + 1, h => by
    rw [rowPre_succ, Fin.sum_univ_castSucc]
    exact congrArg₂ (fun a b : EReal => a + b) (rowPre_ideal n (Nat.le_of_succ_le h)) rfl

/-- A bag's pooled row is the sum of the 50 rows its words name. -/
theorem rowSum_ideal :
    (rowSum (F := Ideal) T1 I4 t k : EReal)
      = ∑ l : Fin 50, (trow (F := Ideal) T1 (remapW (I4 (ix1 (⟨64 * t.val + l.val, flat_lt t l.val l.isLt⟩ : Fin 2097152)))) k : EReal) :=
  rowPre_ideal T1 I4 t k 50 (Nat.le_refl 50)

end Sum

/-! ## On the arrays the program builds -/

section Bridge
variable (a0 a1 : IVec ⟨2, ![16384, 50]⟩ 32) (a2 : (⟨2, ![100000, 128]⟩ : Shape).Idx → EReal)
  (hb : (⟨0, ![]⟩ : Shape).BroadcastsInDim ⟨2, ![8, 128]⟩ (![] : Fin 0 → Fin 2))
  (hc : Shape.Concatenates [(⟨2, ![100000, 128]⟩ : Shape), ⟨2, ![8, 128]⟩] ⟨2, ![100008, 128]⟩ 0)
  (hc' : Shape.Concatenates [(⟨2, ![16384, 50]⟩ : Shape), ⟨2, ![16384, 50]⟩] ⟨2, ![32768, 50]⟩ 0)
  (hp : (⟨2, ![32768, 50]⟩ : Shape).Pads (![0, 0] : Fin 2 → Nat) ![0, 14] ![0, 0] ⟨2, ![32768, 64]⟩)
  (hu : 0 < (⟨0, ![]⟩ : Shape).numel) (hs : (⟨2, ![32768, 64]⟩ : Shape).ShapeCasts ⟨1, ![2097152]⟩)

/-- The embedding table with eight rows of zeros appended. -/
abbrev tableOf : (⟨2, ![100008, 128]⟩ : Shape).Idx → EReal :=
  concatenate (α := Ideal .f32) (⟨2, ![100008, 128]⟩ : Shape) 0
    [⟨⟨2, ![100000, 128]⟩, a2⟩,
      ⟨⟨2, ![8, 128]⟩, broadcastInDim (⟨2, ![8, 128]⟩ : Shape) ![] hb (constant (F := Ideal) ⟨0, ![]⟩ .f32 0x00000000#32)⟩] hc

/-- The two index arrays stacked, each bag padded with 14 zero words, flattened. -/
abbrev flatOf : (⟨1, ![2097152]⟩ : Shape).Idx → BitVec 32 :=
  shapeCast (⟨1, ![2097152]⟩ : Shape)
    (pad (⟨2, ![32768, 64]⟩ : Shape) (![0, 0] : Fin 2 → Nat) ![0, 14] ![0, 0]
      (concatenate (⟨2, ![32768, 50]⟩ : Shape) 0 [⟨⟨2, ![16384, 50]⟩, a0⟩, ⟨⟨2, ![16384, 50]⟩, a1⟩] hc')
      (constantI ⟨0, ![]⟩ 32 0#32) hp hu) hs

/-- Word `l` of bag `t` in the flat index array: the first array's for the first 16384 bags, the second's after. -/
theorem flat_word (t : Fin 32768) (l : Fin 50) :
    (flatOf a0 a1 hc' hp hu hs) (ix1 (⟨64 * t.val + l.val, flat_lt t l.val l.isLt⟩ : Fin 2097152))
      = if ht : t.val < 16384 then a0 (ix2 ⟨t.val, ht⟩ l) else a1 (ix2 ⟨t.val - 16384, by have := t.isLt; omega⟩ l) := by
  have e := Cert.KHostRead.flatIdx_apply a0 a1 hc' hp hu hs t (⟨l.val, by have := l.isLt; omega⟩ : Fin 64) (flat_lt t l.val l.isLt)
  rw [dif_pos (show (⟨l.val, by have := l.isLt; omega⟩ : Fin 64).val < 50 from l.isLt)] at e
  exact e

/-- The row a word of an index array names, after the remapping of the padding word: zero for padding, else the
    table's row. -/
theorem trow_table (w : BitVec 32) (hw : w.toNat < 100000) (k : Fin 128) :
    (trow (F := Ideal) (tableOf a2 hb hc) (remapW w) k : EReal) = if w = 0#32 then (0 : EReal) else a2 (ix2 (Cert.Spec.row w) k) := by
  unfold trow
  refine (Cert.KHostRead.table_apply_ideal a2 hb hc (⟨min (remapW w).toNat 100007, by omega⟩ : Fin 100008) k).trans ?_
  by_cases h0 : w = 0#32
  · subst h0
    rw [if_pos rfl, dif_neg]
    show ¬ (min (remapW 0#32).toNat 100007 < 100000)
    decide
  · rw [if_neg h0]
    have hr : remapW w = w := if_neg h0
    have hm : min (remapW w).toNat 100007 = w.toNat := by rw [hr]; omega
    rw [dif_pos (show (⟨min (remapW w).toNat 100007, by omega⟩ : Fin 100008).val < 100000 by show min (remapW w).toNat 100007 < 100000; rw [hm]; exact hw)]
    refine congrArg a2 (funext fun a => Fin.ext ?_)
    match a with
    | ⟨0, _⟩ => show min (remapW w).toNat 100007 = min w.toNat 99999; rw [hm]; omega
    | ⟨1, _⟩ => rfl

/-- The first 16384 bags pool the first index array. -/
theorem pool_bag0 (h0 : ∀ i, (a0 i).toNat < 100000) (r : Fin 16384) (k : Fin 128) :
    (pvOf (F := Ideal) (tableOf a2 hb hc) (flatOf a0 a1 hc' hp hu hs) (ix2 (⟨r.val, Nat.lt_of_lt_of_le r.isLt (by decide)⟩ : Fin 32768) k) : EReal)
      = Cert.Spec.poolK (mat a0) (mat a2) r k := by
  rw [pvOf_apply, rowSum_ideal]
  unfold Cert.Spec.poolK
  refine Finset.sum_congr rfl fun l _ => ?_
  rw [flat_word, dif_pos (show (⟨r.val, Nat.lt_of_lt_of_le r.isLt (by decide)⟩ : Fin 32768).val < 16384 from r.isLt), trow_table a2 hb hc _ (h0 _)]
  rfl

/-- The next 16384 bags pool the second index array. -/
theorem pool_bag1 (h1 : ∀ i, (a1 i).toNat < 100000) (r : Fin 16384) (k : Fin 128) :
    (pvOf (F := Ideal) (tableOf a2 hb hc) (flatOf a0 a1 hc' hp hu hs) (ix2 (⟨16384 + r.val, by have := r.isLt; omega⟩ : Fin 32768) k) : EReal)
      = Cert.Spec.poolK (mat a1) (mat a2) r k := by
  rw [pvOf_apply, rowSum_ideal]
  unfold Cert.Spec.poolK
  refine Finset.sum_congr rfl fun l _ => ?_
  rw [flat_word, dif_neg (show ¬ (⟨16384 + r.val, by have := r.isLt; omega⟩ : Fin 32768).val < 16384 by show ¬ (16384 + r.val < 16384); omega), trow_table a2 hb hc _ (h1 _)]
  have e : (⟨(⟨16384 + r.val, by have := r.isLt; omega⟩ : Fin 32768).val - 16384, by have := r.isLt; show 16384 + r.val - 16384 < 16384; omega⟩ : Fin 16384) = r :=
    Fin.ext (by show 16384 + r.val - 16384 = r.val; omega)
  rw [e]
  rfl

end Bridge

end Cert.KernelIdeal.Run.Tile

/-! ## At the contents the pooling kernel finds -/

namespace Cert.KernelIdeal.Run

open Cert.KernelIdeal Cert.KernelIdeal.Gen Cert.KernelIdeal.Run.Tile
open Idealize.ShloMosaic Idealize.ShloMosaic.ValueIdx Idealize.SL.Sem
open Cert.SpecArgs

variable (m : (ℓ : Loc nD τ sig) → Buf (Elt Ideal) ℓ) (d : Dev nD)

/-- The pooled array of the table and the flat index array the kernel finds: its first 16384 rows are the specification's
    pooled sums of the first index array, -/
theorem pvOf_bag0 (h0 : ∀ i : S16384x50.Idx, ((m ((SparseCore.T d).loc main_arg0) : S16384x50.Idx → BitVec 32) i).toNat < 100000)
    (r : Fin 16384) (k : Fin 128) :
    (pvOf (F := Ideal) (cV1 m d) (cV4 m d) (ix2 (⟨r.val, Nat.lt_of_lt_of_le r.isLt (by decide)⟩ : Fin 32768) k) : EReal)
      = Cert.Spec.poolK (mat (m ((SparseCore.T d).loc main_arg0))) (mat (m ((SparseCore.T d).loc main_arg2))) r k := by
  rw [cV1_eq, cV4_eq]
  exact pool_bag0 (m ((SparseCore.T d).loc main_arg0)) (m ((SparseCore.T d).loc main_arg1)) (m ((SparseCore.T d).loc main_arg2)) _ _ _ _ _ _ h0 r k

/-- and its next 16384 rows those of the second. -/
theorem pvOf_bag1 (h1 : ∀ i : S16384x50.Idx, ((m ((SparseCore.T d).loc main_arg1) : S16384x50.Idx → BitVec 32) i).toNat < 100000)
    (r : Fin 16384) (k : Fin 128) :
    (pvOf (F := Ideal) (cV1 m d) (cV4 m d) (ix2 (⟨16384 + r.val, by have := r.isLt; omega⟩ : Fin 32768) k) : EReal)
      = Cert.Spec.poolK (mat (m ((SparseCore.T d).loc main_arg1))) (mat (m ((SparseCore.T d).loc main_arg2))) r k := by
  rw [cV1_eq, cV4_eq]
  exact pool_bag1 (m ((SparseCore.T d).loc main_arg0)) (m ((SparseCore.T d).loc main_arg1)) (m ((SparseCore.T d).loc main_arg2)) _ _ _ _ _ _ h1 r k

end Cert.KernelIdeal.Run

end
-- ==== Proof.ScDefs.lean ====
/-
  One vector subcore's task of the pooling kernel: the slices of the arrays it addresses, as the kernel computes them,
  what it is handed and hands back over those slices, and the statement of its body obligation.
-/
import proofs.«209176_g73847667688168_cont_9to1_m_420_10_alg».proof.Proof.KSetup
import proofs.«209176_g73847667688168_cont_9to1_m_420_10_alg».proof.Proof.KPay
import proofs.«209176_g73847667688168_cont_9to1_m_420_10_alg».proof.Proof.Gen.KernelIdeal

noncomputable section

namespace Cert.KernelIdeal.Run.Tile

open Cert.KernelIdeal Cert.KernelIdeal.Gen Cert.KernelIdeal.Run

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S2097152 EltTy.i32)
local notation "xV" => (Memref.whole Cert.KernelIdeal.main_v1_scv : Memref Cert.KernelIdeal.sig Kind.scVector Space.hbm Cert.KernelIdeal.S100008x128 EltTy.f32)
local notation "oV" => (Memref.whole Cert.KernelIdeal.main_v5_scv : Memref Cert.KernelIdeal.sig Kind.scVector Space.hbm Cert.KernelIdeal.S32768x128 EltTy.f32)
local notation "ibV" => (Memref.whole Cert.KernelIdeal.cc0_scratch0 : Memref Cert.KernelIdeal.sig Kind.scVector Space.vmem Cert.KernelIdeal.S65536 EltTy.i32)
local notation "rm0V" => (Memref.whole Cert.KernelIdeal.cc0_scratch1 : Memref Cert.KernelIdeal.sig Kind.scVector Space.vmem Cert.KernelIdeal.S100 EltTy.i32)
local notation "rm1V" => (Memref.whole Cert.KernelIdeal.cc0_scratch2 : Memref Cert.KernelIdeal.sig Kind.scVector Space.vmem Cert.KernelIdeal.S100 EltTy.i32)
local notation "rw0V" => (Memref.whole Cert.KernelIdeal.cc0_scratch3 : Memref Cert.KernelIdeal.sig Kind.scVector Space.vmem Cert.KernelIdeal.S100x128 EltTy.f32)
local notation "rw1V" => (Memref.whole Cert.KernelIdeal.cc0_scratch4 : Memref Cert.KernelIdeal.sig Kind.scVector Space.vmem Cert.KernelIdeal.S100x128 EltTy.f32)
local notation "ob0V" => (Memref.whole Cert.KernelIdeal.cc0_scratch5 : Memref Cert.KernelIdeal.sig Kind.scVector Space.vmem Cert.KernelIdeal.S2x128 EltTy.f32)
local notation "ob1V" => (Memref.whole Cert.KernelIdeal.cc0_scratch6 : Memref Cert.KernelIdeal.sig Kind.scVector Space.vmem Cert.KernelIdeal.S2x128 EltTy.f32)

section Tile

variable (L : grid0.Coords)

abbrev cV (L : grid0.Coords) : Fin τ.nSC := (L 0).castLE hcore0
abbrev jV (L : grid0.Coords) : Fin τ.nSub := (L 1).castLE hsub0

/-- The task's 65536 index words, as the kernel slices them. -/
abbrev iSl (L : grid0.Coords) : Memref sig .scVector .hbm S65536 .i32 :=
  (iV).slice (Rect.unit (s := S2097152) (k0_off1 L) S65536.size (k0_off1_inb L)) (fun _ => rfl)
/-- The two result rows of round `2 k` (staged in the first staging buffer) and of round `2 k + 1` (the second). -/
abbrev oSl0 (L : grid0.Coords) (k : Fin k0_t1_loop.trips) : Memref sig .scVector .hbm S2x128 .f32 :=
  (oV).slice (Rect.unit (s := S32768x128) (k0_off20 L k) S2x128.size (k0_off20_inb L k)) (fun _ => rfl)
abbrev oSl1 (L : grid0.Coords) (k : Fin k0_t1_loop.trips) : Memref sig .scVector .hbm S2x128 .f32 :=
  (oV).slice (Rect.unit (s := S32768x128) (k0_off39 L k) S2x128.size (k0_off39_inb L k)) (fun _ => rfl)
/-- The table whole, as the kernel slices it for a gather. -/
abbrev xAll : Memref sig .scVector .hbm S100008x128 .f32 :=
  (xV).slice (Rect.unit (s := S100008x128) ![0, 0] S100008x128.size inb_S100008x128_S100008x128_0_0) (fun _ => rfl)

/-- The elements of the index array the task reads, as the kernel slices them. -/
abbrev iSetK (L : grid0.Coords) : Finset S2097152.Idx := (iSl L).view.set
/-- The elements of the result the task writes from its first staging buffer (rounds 0, 2, 4, …) and from its second
    (rounds 1, 3, 5, …). -/
def oS0 (L : grid0.Coords) (k : Fin k0_t1_loop.trips) : Finset S32768x128.Idx := (oSl0 L k).view.set
def oS1 (L : grid0.Coords) (k : Fin k0_t1_loop.trips) : Finset S32768x128.Idx := (oSl1 L k).view.set
def oSet0 (L : grid0.Coords) : Finset S32768x128.Idx := Finset.univ.biUnion (oS0 L)
def oSet1 (L : grid0.Coords) : Finset S32768x128.Idx := Finset.univ.biUnion (oS1 L)

theorem oSl0_sub (k : Fin k0_t1_loop.trips) : oS0 L k ⊆ oSet0 L := by
  unfold oSet0; exact Finset.subset_biUnion_of_mem (oS0 L) (Finset.mem_univ k)
theorem oSl1_sub (k : Fin k0_t1_loop.trips) : oS1 L k ⊆ oSet1 L := by
  unfold oSet1; exact Finset.subset_biUnion_of_mem (oS1 L) (Finset.mem_univ k)

variable [FloatOps F] (d : Dev nD)

local notation "𝕥" => V d (cV L) (jV L)
local notation "EC" => (countersEmb : UEmb Counters (MT nD τ sig (HIx 1) (Elt F) ℕ UU ℕ))

/-- What a task is handed, over the kernel's own slices: its index words, its share of the table, its result rows (in
    two parts, by staging buffer), each at the contents the call finds. -/
def goT (w : Fin 32) (I4 : Buf (Elt F) (iLoc d)) (T1 : Buf (Elt F) (tLoc d)) (O5 : Buf (Elt F) (oLoc d)) : sProp 𝕄 :=
  iprop((iLoc d ↦[iSetK L]{fullShare} I4) ∗ (tLoc d ↦{tq w} T1)
    ∗ (oLoc d ↦[oSet0 L]{fullShare} O5) ∗ (oLoc d ↦[oSet1 L]{fullShare} O5))

/-- What a task hands back: the index words and the share of the table as they were, the result rows at some contents. -/
def tdT (w : Fin 32) (I4 : Buf (Elt F) (iLoc d)) (T1 : Buf (Elt F) (tLoc d)) : sProp 𝕄 :=
  iprop((iLoc d ↦[iSetK L]{fullShare} I4) ∗ (tLoc d ↦{tq w} T1)
    ∗ (∃ f, oLoc d ↦[oSet0 L]{fullShare} f) ∗ (∃ f, oLoc d ↦[oSet1 L]{fullShare} f))

/-- What the proof asks of the index array at the call: every word is at most 99999 (as an unsigned word), so that after
    the remapping of 0 every word names a row of the table. -/
def PreOK (I4 : Buf (Elt F) (iLoc d)) : Prop := ∀ j : S2097152.Idx, (I4 j).toNat ≤ 99999

/-- What a task hands back, with the values: each result row it wrote holds `pv`. -/
def tdTV (pv : Buf (Elt F) (iLoc d) → Buf (Elt F) (tLoc d) → Buf (Elt F) (oLoc d))
    (w : Fin 32) (I4 : Buf (Elt F) (iLoc d)) (T1 : Buf (Elt F) (tLoc d)) : sProp 𝕄 :=
  iprop((iLoc d ↦[iSetK L]{fullShare} I4) ∗ (tLoc d ↦{tq w} T1)
    ∗ (∃ f, (oLoc d ↦[oSet0 L]{fullShare} f) ∗ ⌜∀ j ∈ oSet0 L, f j = pv I4 T1 j⌝)
    ∗ (∃ f, (oLoc d ↦[oSet1 L]{fullShare} f) ∗ ⌜∀ j ∈ oSet1 L, f j = pv I4 T1 j⌝))

/-- The body obligation of the task on vector subcore `(L 0, L 1)` of device `d`, for task number `w` (which only
    names the share of the table), with `td` for what it hands back: from what it is handed, the kernel's body runs to
    `td`. -/
def TileBodyOf (td : Fin 32 → Buf (Elt F) (iLoc d) → Buf (Elt F) (tLoc d) → sProp 𝕄) : Prop :=
  ∀ (w : Fin 32) (I4 : Buf (Elt F) (iLoc d)) (T1 : Buf (Elt F) (tLoc d)) (O5 : Buf (Elt F) (oLoc d))
    (_ : PreOK d I4) (O : CellTallies nD τ sig (HIx 1)) (W : Waits sig (HIx 1)) (_ : ∀ g, O g none = 0),
    iprop(levAts (K (F := F)).L (K (F := F)).lev ∗ emp
        ∗ goT L d w I4 T1 O5
        ∗ scopedBufs 𝕥 ∗ scopedSems0 𝕥 ∗ owes 𝕥 O W)
      ⊢ wp frame (wpE (defs₀ (F := F)) 𝒱₀ 𝕥 none) Set.univ
          (cc0__sc_pool_body L iV (Memref.isWhole_whole _) xV (Memref.isWhole_whole _) oV (Memref.isWhole_whole _)
            ibV (Memref.isWhole_whole _) rm0V (Memref.isWhole_whole _) rm1V (Memref.isWhole_whole _)
            rw0V (Memref.isWhole_whole _) rw1V (Memref.isWhole_whole _) ob0V (Memref.isWhole_whole _) ob1V (Memref.isWhole_whole _)
            cc0_scratch7 cc0_scratch8 cc0_scratch9 cc0_scratch10 cc0_scoped0)
          fun _ => iprop(td w I4 T1
            ∗ scopedBufs 𝕥 ∗ scopedSems0 𝕥
            ∗ ∃ W', ⌜∀ p ∈ W', p ∈ W ∨ p.2 = none⌝ ∗ owes 𝕥 O W')

/-- The frame form: the result rows at some contents. -/
abbrev TileBodyFrame : Prop := TileBodyOf (F := F) L d (tdT L d)
/-- The value form: the result rows hold `pv` of the index array's and the table's contents. -/
abbrev TileBodyValue (pv : Buf (Elt F) (iLoc d) → Buf (Elt F) (tLoc d) → Buf (Elt F) (oLoc d)) : Prop := TileBodyOf (F := F) L d (tdTV L d pv)

end Tile

end Cert.KernelIdeal.Run.Tile

end
-- ==== Proof.ScSets.lean ====
/-
  A task's slices of the index array and of the result, as the kernel computes them, are the task's parts of the
  launch's split. Task w = 2 * subcore + core owns words [65536 w, 65536 (w + 1)) of the index array: the kernel's
  offset 131072 * subcore + 65536 * core is 65536 w. Of the result it owns rows [1024 w, 1024 (w + 1)); the kernel
  writes them two rows at a time, rows 1024 w + 4 k, + 1 from one staging buffer and rows 1024 w + 4 k + 2, + 3 from
  the other, k = 0 … 255: a row r of the part belongs to the first family when (r - 1024 w) mod 4 < 2 and to the
  second otherwise, so the two families are disjoint and together make the part.
-/
import proofs.«209176_g73847667688168_cont_9to1_m_420_10_alg».proof.Proof.KSplit

noncomputable section

namespace Cert.KernelIdeal.Run.Tile

open Cert.KernelIdeal Cert.KernelIdeal.Gen Cert.KernelIdeal.Run

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The task's 65536 index words, and the two result rows of round `2 k` and of round `2 k + 1`, as the kernel slices
    them out of the whole arrays. -/
abbrev iSlS (L : grid0.Coords) : Finset S2097152.Idx :=
  ((Memref.whole main_v4_scv : Memref sig .scVector .hbm S2097152 .i32).slice
    (Rect.unit (s := S2097152) (k0_off1 L) S65536.size (k0_off1_inb L)) (fun _ => rfl)).view.set
abbrev oSlS0 (L : grid0.Coords) (k : Fin k0_t1_loop.trips) : Finset S32768x128.Idx :=
  ((Memref.whole main_v5_scv : Memref sig .scVector .hbm S32768x128 .f32).slice
    (Rect.unit (s := S32768x128) (k0_off20 L k) S2x128.size (k0_off20_inb L k)) (fun _ => rfl)).view.set
abbrev oSlS1 (L : grid0.Coords) (k : Fin k0_t1_loop.trips) : Finset S32768x128.Idx :=
  ((Memref.whole main_v5_scv : Memref sig .scVector .hbm S32768x128 .f32).slice
    (Rect.unit (s := S32768x128) (k0_off39 L k) S2x128.size (k0_off39_inb L k)) (fun _ => rfl)).view.set
/-- The rows written from the first staging buffer, and from the second. -/
abbrev oU0 (L : grid0.Coords) : Finset S32768x128.Idx := Finset.univ.biUnion (oSlS0 L)
abbrev oU1 (L : grid0.Coords) : Finset S32768x128.Idx := Finset.univ.biUnion (oSlS1 L)

/-- The task number of a place: subcore times two plus core. -/
def tk (L : grid0.Coords) : Fin 32 := ⟨2 * (L 1).val + (L 0).val, by
  have h0 : (L 0).val < 2 := (L 0).isLt
  have h1 : (L 1).val < 16 := (L 1).isLt
  omega⟩

theorem tk_val (L : grid0.Coords) : (tk L).val = 2 * (L 1).val + (L 0).val := rfl

/-- The round loop makes 256 trips. -/
theorem trips_eq : k0_t1_loop.trips = 256 := by decide

/-! ## Membership in the parts and the slices -/

theorem mem_iSet (w : Fin 32) (j : S2097152.Idx) :
    j ∈ Run.iSet w ↔ 65536 * w.val ≤ (j 0).val ∧ (j 0).val < 65536 * w.val + 65536 := by
  rw [iSet_eq, Rect.mem_set_unit, Fin.forall_fin_one]
  show (w.val * (2097152 / 32) ≤ (j 0).val ∧ (j 0).val < w.val * (2097152 / 32) + 2097152 / 32) ↔ _
  omega

theorem mem_oSet (w : Fin 32) (j : S32768x128.Idx) :
    j ∈ Run.oSet w ↔ 1024 * w.val ≤ (j 0).val ∧ (j 0).val < 1024 * w.val + 1024 := by
  rw [oSet_eq, Rect.mem_set_unit, Fin.forall_fin_two]
  have h1 : (j 1).val < 128 := (j 1).isLt
  show (w.val * (32768 / 32) ≤ (j 0).val ∧ (j 0).val < w.val * (32768 / 32) + 32768 / 32)
      ∧ (0 * 128 ≤ (j 1).val ∧ (j 1).val < 0 * 128 + 128) ↔ _
  omega

theorem mem_iSetK (L : grid0.Coords) (j : S2097152.Idx) :
    j ∈ iSlS L ↔ 65536 * (tk L).val ≤ (j 0).val ∧ (j 0).val < 65536 * (tk L).val + 65536 := by
  show j ∈ ((View.whole (main_v4_scv : Ref sig .scVector)).slice
      (Rect.unit (s := S2097152) (k0_off1 L) S65536.size (k0_off1_inb L))).set ↔ _
  rw [View.set_slice_whole, Rect.mem_set_unit, k0_off1_eq, tk_val]
  constructor
  · intro h
    have h0 : 131072 * (L 1).val + 65536 * (L 0).val ≤ (j 0).val
        ∧ (j 0).val < 131072 * (L 1).val + 65536 * (L 0).val + 65536 := h (0 : Fin 1)
    omega
  · intro h a
    match a with
    | ⟨0, _⟩ =>
      show 131072 * (L 1).val + 65536 * (L 0).val ≤ (j 0).val ∧ (j 0).val < 131072 * (L 1).val + 65536 * (L 0).val + 65536
      omega

theorem mem_oS0 (L : grid0.Coords) (k : Fin k0_t1_loop.trips) (j : S32768x128.Idx) :
    j ∈ oSlS0 L k ↔ 1024 * (tk L).val + 4 * k.val ≤ (j 0).val ∧ (j 0).val < 1024 * (tk L).val + 4 * k.val + 2 := by
  show j ∈ ((View.whole (main_v5_scv : Ref sig .scVector)).slice
      (Rect.unit (s := S32768x128) (k0_off20 L k) S2x128.size (k0_off20_inb L k))).set ↔ _
  rw [View.set_slice_whole, Rect.mem_set_unit, k0_off20_eq, tk_val]
  have h1 : (j 1).val < 128 := (j 1).isLt
  constructor
  · intro h
    have h0 : 2048 * (L 1).val + 1024 * (L 0).val + 4 * k.val ≤ (j 0).val
        ∧ (j 0).val < 2048 * (L 1).val + 1024 * (L 0).val + 4 * k.val + 2 := h (0 : Fin 2)
    omega
  · intro h a
    match a with
    | ⟨0, _⟩ =>
      show 2048 * (L 1).val + 1024 * (L 0).val + 4 * k.val ≤ (j 0).val
        ∧ (j 0).val < 2048 * (L 1).val + 1024 * (L 0).val + 4 * k.val + 2
      omega
    | ⟨1, _⟩ =>
      show 0 ≤ (j 1).val ∧ (j 1).val < 0 + 128
      omega

theorem mem_oS1 (L : grid0.Coords) (k : Fin k0_t1_loop.trips) (j : S32768x128.Idx) :
    j ∈ oSlS1 L k ↔ 1024 * (tk L).val + 4 * k.val + 2 ≤ (j 0).val ∧ (j 0).val < 1024 * (tk L).val + 4 * k.val + 4 := by
  show j ∈ ((View.whole (main_v5_scv : Ref sig .scVector)).slice
      (Rect.unit (s := S32768x128) (k0_off39 L k) S2x128.size (k0_off39_inb L k))).set ↔ _
  rw [View.set_slice_whole, Rect.mem_set_unit, k0_off39_eq, tk_val]
  have h1 : (j 1).val < 128 := (j 1).isLt
  constructor
  · intro h
    have h0 : 2048 * (L 1).val + 1024 * (L 0).val + 4 * k.val + 2 ≤ (j 0).val
        ∧ (j 0).val < 2048 * (L 1).val + 1024 * (L 0).val + 4 * k.val + 2 + 2 := h (0 : Fin 2)
    omega
  · intro h a
    match a with
    | ⟨0, _⟩ =>
      show 2048 * (L 1).val + 1024 * (L 0).val + 4 * k.val + 2 ≤ (j 0).val
        ∧ (j 0).val < 2048 * (L 1).val + 1024 * (L 0).val + 4 * k.val + 2 + 2
      omega
    | ⟨1, _⟩ =>
      show 0 ≤ (j 1).val ∧ (j 1).val < 0 + 128
      omega

/-- A row of the part written from the first staging buffer: its distance into the part is 0 or 1 modulo 4. -/
theorem mem_oSet0 (L : grid0.Coords) (j : S32768x128.Idx) :
    j ∈ oU0 L ↔ 1024 * (tk L).val ≤ (j 0).val ∧ (j 0).val < 1024 * (tk L).val + 1024 ∧ ((j 0).val - 1024 * (tk L).val) % 4 < 2 := by
  rw [Finset.mem_biUnion]
  constructor
  · rintro ⟨k, -, hk⟩
    have hk' := (mem_oS0 L k j).mp hk
    have hlt : k.val < 256 := lt_of_lt_of_eq k.isLt trips_eq
    omega
  · rintro ⟨h0, h1, h2⟩
    refine ⟨⟨((j 0).val - 1024 * (tk L).val) / 4, by rw [trips_eq]; omega⟩, Finset.mem_univ _, (mem_oS0 L _ j).mpr ?_⟩
    show 1024 * (tk L).val + 4 * (((j 0).val - 1024 * (tk L).val) / 4) ≤ (j 0).val
      ∧ (j 0).val < 1024 * (tk L).val + 4 * (((j 0).val - 1024 * (tk L).val) / 4) + 2
    omega

/-- A row of the part written from the second staging buffer: its distance into the part is 2 or 3 modulo 4. -/
theorem mem_oSet1 (L : grid0.Coords) (j : S32768x128.Idx) :
    j ∈ oU1 L ↔ 1024 * (tk L).val ≤ (j 0).val ∧ (j 0).val < 1024 * (tk L).val + 1024 ∧ 2 ≤ ((j 0).val - 1024 * (tk L).val) % 4 := by
  rw [Finset.mem_biUnion]
  constructor
  · rintro ⟨k, -, hk⟩
    have hk' := (mem_oS1 L k j).mp hk
    have hlt : k.val < 256 := lt_of_lt_of_eq k.isLt trips_eq
    omega
  · rintro ⟨h0, h1, h2⟩
    refine ⟨⟨((j 0).val - 1024 * (tk L).val) / 4, by rw [trips_eq]; omega⟩, Finset.mem_univ _, (mem_oS1 L _ j).mpr ?_⟩
    show 1024 * (tk L).val + 4 * (((j 0).val - 1024 * (tk L).val) / 4) + 2 ≤ (j 0).val
      ∧ (j 0).val < 1024 * (tk L).val + 4 * (((j 0).val - 1024 * (tk L).val) / 4) + 4
    omega

/-! ## The task's slices are the task's parts -/

/-- The task's index words are the task's part of the index array. -/
theorem iSlS_eq (L : grid0.Coords) : iSlS L = Run.iSet (tk L) := by
  ext j; rw [mem_iSetK, mem_iSet]

/-- The two families of result rows are disjoint, -/
theorem oSets_disjoint (L : grid0.Coords) : Disjoint (oU0 L) (oU1 L) :=
  Finset.disjoint_left.mpr fun j h0 h1 => by
    have a := (mem_oSet0 L j).mp h0
    have b := (mem_oSet1 L j).mp h1
    omega

/-- and together they are the task's part of the result. -/
theorem oSets_union (L : grid0.Coords) : oU0 L ∪ oU1 L = Run.oSet (tk L) := by
  ext j
  rw [Finset.mem_union, mem_oSet0, mem_oSet1, mem_oSet]
  omega

/-! ## The task's part of the result held as the two families -/

section Parts

variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))
  (d : Dev nD) (w : Fin 32) (IS : Finset S2097152.Idx) (A0 A1 : Finset S32768x128.Idx)

/-- A holding of the task's rows of the result is the holdings of two disjoint families of rows that make them up. -/
theorem oPts_two (hd : Disjoint A0 A1) (hu : A0 ∪ A1 = Run.oSet w) (f : Buf (Elt F) (oLoc d)) :
    (oLoc d ↦[Run.oSet w]{fullShare} f : sProp 𝕄) ⊣⊢ iprop((oLoc d ↦[A0]{fullShare} f) ∗ (oLoc d ↦[A1]{fullShare} f)) := by
  rw [← hu]; exact pointsTo_union hd

/-- What a task is handed, its rows of the result in the two families. -/
theorem goRes_split (hI : IS = Run.iSet w) (hd : Disjoint A0 A1) (hu : A0 ∪ A1 = Run.oSet w) :
    goRes V4 V1 o0 d w
      ⊢ iprop((iLoc d ↦[IS]{fullShare} V4 d) ∗ (tLoc d ↦{tq w} V1 d) ∗ (oLoc d ↦[A0]{fullShare} o0 d) ∗ (oLoc d ↦[A1]{fullShare} o0 d)) := by
  subst hI
  iintro ⟨Hi, Ht, Ho⟩
  ihave H := (oPts_two (F := F) d w A0 A1 hd hu (o0 d)).1 $$ Ho
  icases H with ⟨H0, H1⟩
  isplitl [Hi]; · iexact Hi
  isplitl [Ht]; · iexact Ht
  isplitl [H0]; · iexact H0
  iexact H1

/-- What a task hands back, from the two families each at contents that agree with the pooled sums on the family
    (`Q0`, `Q1`: whatever is known of the two contents, as long as it gives that agreement). -/
theorem tdRes_join (hI : IS = Run.iSet w) (hd : Disjoint A0 A1) (hu : A0 ∪ A1 = Run.oSet w)
    (Q0 Q1 : Buf (Elt F) (oLoc d) → Prop) (hQ0 : ∀ f, Q0 f → ∀ j ∈ A0, f j = pv d j) (hQ1 : ∀ f, Q1 f → ∀ j ∈ A1, f j = pv d j) :
    (iprop((iLoc d ↦[IS]{fullShare} V4 d) ∗ (tLoc d ↦{tq w} V1 d)
        ∗ (∃ f, (oLoc d ↦[A0]{fullShare} f) ∗ ⌜Q0 f⌝) ∗ (∃ f, (oLoc d ↦[A1]{fullShare} f) ∗ ⌜Q1 f⌝)) : sProp 𝕄)
      ⊢ tdRes V4 V1 pv d w := by
  subst hI
  iintro ⟨Hi, Ht, ⟨%f0, H0, %h0⟩, ⟨%f1, H1, %h1⟩⟩
  have e0 : (oLoc d ↦[A0]{fullShare} f0 : sProp 𝕄) ⊢ oLoc d ↦[A0]{fullShare} pv d := by
    rw [pointsTo_congr (hQ0 f0 h0)]
  have e1 : (oLoc d ↦[A1]{fullShare} f1 : sProp 𝕄) ⊢ oLoc d ↦[A1]{fullShare} pv d := by
    rw [pointsTo_congr (hQ1 f1 h1)]
  isplitl [Hi]; · iexact Hi
  isplitl [Ht]; · iexact Ht
  iexists (pv d)
  isplitl
  · iapply (oPts_two (F := F) d w A0 A1 hd hu (pv d)).2
    isplitl [H0]
    · iapply e0; iexact H0
    · iapply e1; iexact H1
  · ipureintro; exact fun _ _ => rfl

end Parts

end Cert.KernelIdeal.Run.Tile

end
-- ==== Proof.ScWrap.lean ====
/-
  The task's obligation as the launch theorem takes it, from the body obligation stated over the kernel's own slices.
  The task's parts of the launch's split are the kernel's slices (the index words; the result rows as the two
  families the two staging buffers write), so what a task is handed is what the body asks for, and what the body
  hands back — the two families each at contents that hold the pooled sums there — is what the task hands back.
-/
import proofs.«209176_g73847667688168_cont_9to1_m_420_10_alg».proof.Proof.ScDefs
import proofs.«209176_g73847667688168_cont_9to1_m_420_10_alg».proof.Proof.ScSets

noncomputable section

namespace Cert.KernelIdeal.Run.Tile

open Cert.KernelIdeal Cert.KernelIdeal.Gen Cert.KernelIdeal.Run

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S2097152 EltTy.i32)
local notation "xV" => (Memref.whole Cert.KernelIdeal.main_v1_scv : Memref Cert.KernelIdeal.sig Kind.scVector Space.hbm Cert.KernelIdeal.S100008x128 EltTy.f32)
local notation "oV" => (Memref.whole Cert.KernelIdeal.main_v5_scv : Memref Cert.KernelIdeal.sig Kind.scVector Space.hbm Cert.KernelIdeal.S32768x128 EltTy.f32)
local notation "ibV" => (Memref.whole Cert.KernelIdeal.cc0_scratch0 : Memref Cert.KernelIdeal.sig Kind.scVector Space.vmem Cert.KernelIdeal.S65536 EltTy.i32)
local notation "rm0V" => (Memref.whole Cert.KernelIdeal.cc0_scratch1 : Memref Cert.KernelIdeal.sig Kind.scVector Space.vmem Cert.KernelIdeal.S100 EltTy.i32)
local notation "rm1V" => (Memref.whole Cert.KernelIdeal.cc0_scratch2 : Memref Cert.KernelIdeal.sig Kind.scVector Space.vmem Cert.KernelIdeal.S100 EltTy.i32)
local notation "rw0V" => (Memref.whole Cert.KernelIdeal.cc0_scratch3 : Memref Cert.KernelIdeal.sig Kind.scVector Space.vmem Cert.KernelIdeal.S100x128 EltTy.f32)
local notation "rw1V" => (Memref.whole Cert.KernelIdeal.cc0_scratch4 : Memref Cert.KernelIdeal.sig Kind.scVector Space.vmem Cert.KernelIdeal.S100x128 EltTy.f32)
local notation "ob0V" => (Memref.whole Cert.KernelIdeal.cc0_scratch5 : Memref Cert.KernelIdeal.sig Kind.scVector Space.vmem Cert.KernelIdeal.S2x128 EltTy.f32)
local notation "ob1V" => (Memref.whole Cert.KernelIdeal.cc0_scratch6 : Memref Cert.KernelIdeal.sig Kind.scVector Space.vmem Cert.KernelIdeal.S2x128 EltTy.f32)

/-! ## The kernel's slices, as named beside the body, are the task's parts -/

theorem iSetK_eq (L : grid0.Coords) : iSetK L = Run.iSet (tk L) := iSlS_eq L
theorem oSet0_eq (L : grid0.Coords) : oSet0 L = oU0 L := rfl
theorem oSet1_eq (L : grid0.Coords) : oSet1 L = oU1 L := rfl
theorem oSet_disjoint (L : grid0.Coords) : Disjoint (oSet0 L) (oSet1 L) := oSets_disjoint L
theorem oSet_union (L : grid0.Coords) : oSet0 L ∪ oSet1 L = Run.oSet (tk L) := oSets_union L

section Wrap

variable [FloatOps F]
variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))

/-- What the task is handed is what the body asks for. -/
theorem goT_of_goRes (L : grid0.Coords) (d : Dev nD) :
    goRes V4 V1 o0 d (tk L) ⊢ goT L d (tk L) (V4 d) (V1 d) (o0 d) := by
  unfold goT
  exact goRes_split V4 V1 o0 d (tk L) (iSetK L) (oSet0 L) (oSet1 L) (iSetK_eq L) (oSet_disjoint L) (oSet_union L)

/-- What the body hands back, the two families each at the pooled sums, is what the task hands back. -/
theorem tdRes_of_tdTV (L : grid0.Coords) (d : Dev nD)
    (pvf : Buf (Elt F) (iLoc d) → Buf (Elt F) (tLoc d) → Buf (Elt F) (oLoc d))
    (hpv : ∀ j ∈ Run.oSet (tk L), pvf (V4 d) (V1 d) j = pv d j) :
    tdTV L d pvf (tk L) (V4 d) (V1 d) ⊢ tdRes V4 V1 pv d (tk L) := by
  unfold tdTV
  exact tdRes_join V4 V1 pv d (tk L) (iSetK L) (oSet0 L) (oSet1 L) (iSetK_eq L) (oSet_disjoint L) (oSet_union L)
    (fun f => ∀ j ∈ oSet0 L, f j = pvf (V4 d) (V1 d) j) (fun f => ∀ j ∈ oSet1 L, f j = pvf (V4 d) (V1 d) j)
    (fun f h j hj => (h j hj).trans (hpv j (by rw [← oSet_union L]; exact Finset.mem_union_left _ hj)))
    (fun f h j hj => (h j hj).trans (hpv j (by rw [← oSet_union L]; exact Finset.mem_union_right _ hj)))

/-! ## The obligation -/

/-- The place of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A task's number is its place's. -/
theorem wid_eq_tk (c : Fin 2) (s : Fin 16) : wid c s = tk (coordsV c s) :=
  Fin.ext (show s.val * 2 + c.val = 2 * s.val + c.val by omega)

/-- The task's body on a vector subcore is the pooling kernel's body at the subcore's place. -/
theorem defs₀_vector (c : Fin τ.nSC) (s : Fin τ.nSub) :
    defs₀ (F := F) (.scVector c s) 0 ()
      = SparseCore.onTile hcore0 hsub0 (fun c s => cc0__sc_pool_body (coordsV c s)
          iV (Memref.isWhole_whole _) xV (Memref.isWhole_whole _) oV (Memref.isWhole_whole _)
          ibV (Memref.isWhole_whole _) rm0V (Memref.isWhole_whole _) rm1V (Memref.isWhole_whole _)
          rw0V (Memref.isWhole_whole _) rw1V (Memref.isWhole_whole _) ob0V (Memref.isWhole_whole _) ob1V (Memref.isWhole_whole _)
          cc0_scratch7 cc0_scratch8 cc0_scratch9 cc0_scratch10 cc0_scoped0) ⟨⟩ c s := rfl

theorem obl_post {thr : Thread nD τ} {A A' B C : sProp 𝕄} {O : CellTallies nD τ sig (HIx 1)} {W : Waits sig (HIx 1)} {q : Fin 1}
    (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

set_option maxRecDepth 16384 in
/-- THE TASK'S OBLIGATION from the body obligation in its value form at every place. -/
theorem tileObl_of_body (hpre : ∀ d, PreOK d (V4 d))
    (pvf : (d : Dev nD) → Buf (Elt F) (iLoc d) → Buf (Elt F) (tLoc d) → Buf (Elt F) (oLoc d))
    (hpv : ∀ d j, pvf d (V4 d) (V1 d) j = pv d j)
    (h : ∀ (d : Dev nD) (L : grid0.Coords), TileBodyValue (F := F) L d (pvf d)) :
    (K (F := F)).TileObl (D (F := F)) 𝒱 (P V4 V1 o0 pv) v₀ 0 := by
  intro d c i O W hO _ _
  simp only [show (P V4 V1 o0 pv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : wid (Fin.cast nCore_zero c) (Fin.cast nSub_zero i) = tk (coordsV ⟨_, hci.1⟩ ⟨_, hci.2⟩) :=
    wid_eq_tk (Fin.cast nCore_zero c) (Fin.cast nSub_zero i)
  have hbody := h d (coordsV ⟨_, hci.1⟩ ⟨_, hci.2⟩) (tk (coordsV ⟨_, hci.1⟩ ⟨_, hci.2⟩)) (V4 d) (V1 d) (o0 d) (hpre d) O W hO
  have hpost := tdRes_of_tdTV V4 V1 pv (coordsV ⟨_, hci.1⟩ ⟨_, hci.2⟩) d (pvf d) (fun j _ => hpv d j)
  have hgo := goT_of_goRes V4 V1 o0 (coordsV ⟨_, hci.1⟩ ⟨_, hci.2⟩) d
  show iprop(levAts (K (F := F)).L (K (F := F)).lev ∗ emp
      ∗ goRes V4 V1 o0 d (wid (Fin.cast nCore_zero c) (Fin.cast nSub_zero i)) ∗ _ ∗ _ ∗ _) ⊢ _
  rw [hw]
  refine BI.Entails.trans (sep_mono .rfl (sep_mono .rfl (sep_mono hgo .rfl))) ?_
  refine hbody.trans (wp_mono frame _ _ fun _ => ?_)
  show _ ⊢ iprop(tdRes V4 V1 pv d (wid (Fin.cast nCore_zero c) (Fin.cast nSub_zero i)) ∗ _ ∗ _ ∗ _)
  rw [hw]
  exact obl_post hpost

end Wrap

end Cert.KernelIdeal.Run.Tile

end
-- ==== Proof.BScDefs.lean ====
/-
  One vector subcore's task of the pooling kernel: the slices of the arrays it addresses, as the kernel computes them,
  what it is handed and hands back over those slices, and the statement of its body obligation.
-/
import proofs.«209176_g73847667688168_cont_9to1_m_420_10_alg».proof.Proof.BKSetup
import proofs.«209176_g73847667688168_cont_9to1_m_420_10_alg».proof.Proof.BKPay
import proofs.«209176_g73847667688168_cont_9to1_m_420_10_alg».proof.Proof.Gen.Kernel

noncomputable section

namespace Cert.Kernel.Run.Tile

open Cert.Kernel Cert.Kernel.Gen Cert.Kernel.Run

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S2097152 EltTy.i32)
local notation "xV" => (Memref.whole Cert.Kernel.main_v1_scv : Memref Cert.Kernel.sig Kind.scVector Space.hbm Cert.Kernel.S100008x128 EltTy.f32)
local notation "oV" => (Memref.whole Cert.Kernel.main_v5_scv : Memref Cert.Kernel.sig Kind.scVector Space.hbm Cert.Kernel.S32768x128 EltTy.f32)
local notation "ibV" => (Memref.whole Cert.Kernel.cc0_scratch0 : Memref Cert.Kernel.sig Kind.scVector Space.vmem Cert.Kernel.S65536 EltTy.i32)
local notation "rm0V" => (Memref.whole Cert.Kernel.cc0_scratch1 : Memref Cert.Kernel.sig Kind.scVector Space.vmem Cert.Kernel.S100 EltTy.i32)
local notation "rm1V" => (Memref.whole Cert.Kernel.cc0_scratch2 : Memref Cert.Kernel.sig Kind.scVector Space.vmem Cert.Kernel.S100 EltTy.i32)
local notation "rw0V" => (Memref.whole Cert.Kernel.cc0_scratch3 : Memref Cert.Kernel.sig Kind.scVector Space.vmem Cert.Kernel.S100x128 EltTy.f32)
local notation "rw1V" => (Memref.whole Cert.Kernel.cc0_scratch4 : Memref Cert.Kernel.sig Kind.scVector Space.vmem Cert.Kernel.S100x128 EltTy.f32)
local notation "ob0V" => (Memref.whole Cert.Kernel.cc0_scratch5 : Memref Cert.Kernel.sig Kind.scVector Space.vmem Cert.Kernel.S2x128 EltTy.f32)
local notation "ob1V" => (Memref.whole Cert.Kernel.cc0_scratch6 : Memref Cert.Kernel.sig Kind.scVector Space.vmem Cert.Kernel.S2x128 EltTy.f32)

section Tile

variable (L : grid0.Coords)

abbrev cV (L : grid0.Coords) : Fin τ.nSC := (L 0).castLE hcore0
abbrev jV (L : grid0.Coords) : Fin τ.nSub := (L 1).castLE hsub0

/-- The task's 65536 index words, as the kernel slices them. -/
abbrev iSl (L : grid0.Coords) : Memref sig .scVector .hbm S65536 .i32 :=
  (iV).slice (Rect.unit (s := S2097152) (k0_off1 L) S65536.size (k0_off1_inb L)) (fun _ => rfl)
/-- The two result rows of round `2 k` (staged in the first staging buffer) and of round `2 k + 1` (the second). -/
abbrev oSl0 (L : grid0.Coords) (k : Fin k0_t1_loop.trips) : Memref sig .scVector .hbm S2x128 .f32 :=
  (oV).slice (Rect.unit (s := S32768x128) (k0_off20 L k) S2x128.size (k0_off20_inb L k)) (fun _ => rfl)
abbrev oSl1 (L : grid0.Coords) (k : Fin k0_t1_loop.trips) : Memref sig .scVector .hbm S2x128 .f32 :=
  (oV).slice (Rect.unit (s := S32768x128) (k0_off39 L k) S2x128.size (k0_off39_inb L k)) (fun _ => rfl)
/-- The table whole, as the kernel slices it for a gather. -/
abbrev xAll : Memref sig .scVector .hbm S100008x128 .f32 :=
  (xV).slice (Rect.unit (s := S100008x128) ![0, 0] S100008x128.size inb_S100008x128_S100008x128_0_0) (fun _ => rfl)

/-- The elements of the index array the task reads, as the kernel slices them. -/
abbrev iSetK (L : grid0.Coords) : Finset S2097152.Idx := (iSl L).view.set
/-- The elements of the result the task writes from its first staging buffer (rounds 0, 2, 4, …) and from its second
    (rounds 1, 3, 5, …). -/
def oS0 (L : grid0.Coords) (k : Fin k0_t1_loop.trips) : Finset S32768x128.Idx := (oSl0 L k).view.set
def oS1 (L : grid0.Coords) (k : Fin k0_t1_loop.trips) : Finset S32768x128.Idx := (oSl1 L k).view.set
def oSet0 (L : grid0.Coords) : Finset S32768x128.Idx := Finset.univ.biUnion (oS0 L)
def oSet1 (L : grid0.Coords) : Finset S32768x128.Idx := Finset.univ.biUnion (oS1 L)

theorem oSl0_sub (k : Fin k0_t1_loop.trips) : oS0 L k ⊆ oSet0 L := by
  unfold oSet0; exact Finset.subset_biUnion_of_mem (oS0 L) (Finset.mem_univ k)
theorem oSl1_sub (k : Fin k0_t1_loop.trips) : oS1 L k ⊆ oSet1 L := by
  unfold oSet1; exact Finset.subset_biUnion_of_mem (oS1 L) (Finset.mem_univ k)

variable [FloatOps F] (d : Dev nD)

local notation "𝕥" => V d (cV L) (jV L)
local notation "EC" => (countersEmb : UEmb Counters (MT nD τ sig (HIx 1) (Elt F) ℕ UU ℕ))

/-- What a task is handed, over the kernel's own slices: its index words, its share of the table, its result rows (in
    two parts, by staging buffer), each at the contents the call finds. -/
def goT (w : Fin 32) (I4 : Buf (Elt F) (iLoc d)) (T1 : Buf (Elt F) (tLoc d)) (O5 : Buf (Elt F) (oLoc d)) : sProp 𝕄 :=
  iprop((iLoc d ↦[iSetK L]{fullShare} I4) ∗ (tLoc d ↦{tq w} T1)
    ∗ (oLoc d ↦[oSet0 L]{fullShare} O5) ∗ (oLoc d ↦[oSet1 L]{fullShare} O5))

/-- What a task hands back: the index words and the share of the table as they were, the result rows at some contents. -/
def tdT (w : Fin 32) (I4 : Buf (Elt F) (iLoc d)) (T1 : Buf (Elt F) (tLoc d)) : sProp 𝕄 :=
  iprop((iLoc d ↦[iSetK L]{fullShare} I4) ∗ (tLoc d ↦{tq w} T1)
    ∗ (∃ f, oLoc d ↦[oSet0 L]{fullShare} f) ∗ (∃ f, oLoc d ↦[oSet1 L]{fullShare} f))

/-- What the proof asks of the index array at the call: every word is at most 99999 (as an unsigned word), so that after
    the remapping of 0 every word names a row of the table. -/
def PreOK (I4 : Buf (Elt F) (iLoc d)) : Prop := ∀ j : S2097152.Idx, (I4 j).toNat ≤ 99999

/-- What a task hands back, with the values: each result row it wrote holds `pv`. -/
def tdTV (pv : Buf (Elt F) (iLoc d) → Buf (Elt F) (tLoc d) → Buf (Elt F) (oLoc d))
    (w : Fin 32) (I4 : Buf (Elt F) (iLoc d)) (T1 : Buf (Elt F) (tLoc d)) : sProp 𝕄 :=
  iprop((iLoc d ↦[iSetK L]{fullShare} I4) ∗ (tLoc d ↦{tq w} T1)
    ∗ (∃ f, (oLoc d ↦[oSet0 L]{fullShare} f) ∗ ⌜∀ j ∈ oSet0 L, f j = pv I4 T1 j⌝)
    ∗ (∃ f, (oLoc d ↦[oSet1 L]{fullShare} f) ∗ ⌜∀ j ∈ oSet1 L, f j = pv I4 T1 j⌝))

/-- The body obligation of the task on vector subcore `(L 0, L 1)` of device `d`, for task number `w` (which only
    names the share of the table), with `td` for what it hands back: from what it is handed, the kernel's body runs to
    `td`. -/
def TileBodyOf (td : Fin 32 → Buf (Elt F) (iLoc d) → Buf (Elt F) (tLoc d) → sProp 𝕄) : Prop :=
  ∀ (w : Fin 32) (I4 : Buf (Elt F) (iLoc d)) (T1 : Buf (Elt F) (tLoc d)) (O5 : Buf (Elt F) (oLoc d))
    (_ : PreOK d I4) (O : CellTallies nD τ sig (HIx 1)) (W : Waits sig (HIx 1)) (_ : ∀ g, O g none = 0),
    iprop(levAts (K (F := F)).L (K (F := F)).lev ∗ emp
        ∗ goT L d w I4 T1 O5
        ∗ scopedBufs 𝕥 ∗ scopedSems0 𝕥 ∗ owes 𝕥 O W)
      ⊢ wp frame (wpE (defs₀ (F := F)) 𝒱₀ 𝕥 none) Set.univ
          (cc0__sc_pool_body L iV (Memref.isWhole_whole _) xV (Memref.isWhole_whole _) oV (Memref.isWhole_whole _)
            ibV (Memref.isWhole_whole _) rm0V (Memref.isWhole_whole _) rm1V (Memref.isWhole_whole _)
            rw0V (Memref.isWhole_whole _) rw1V (Memref.isWhole_whole _) ob0V (Memref.isWhole_whole _) ob1V (Memref.isWhole_whole _)
            cc0_scratch7 cc0_scratch8 cc0_scratch9 cc0_scratch10 cc0_scoped0)
          fun _ => iprop(td w I4 T1
            ∗ scopedBufs 𝕥 ∗ scopedSems0 𝕥
            ∗ ∃ W', ⌜∀ p ∈ W', p ∈ W ∨ p.2 = none⌝ ∗ owes 𝕥 O W')

/-- The frame form: the result rows at some contents. -/
abbrev TileBodyFrame : Prop := TileBodyOf (F := F) L d (tdT L d)
/-- The value form: the result rows hold `pv` of the index array's and the table's contents. -/
abbrev TileBodyValue (pv : Buf (Elt F) (iLoc d) → Buf (Elt F) (tLoc d) → Buf (Elt F) (oLoc d)) : Prop := TileBodyOf (F := F) L d (tdTV L d pv)

end Tile

end Cert.Kernel.Run.Tile

end
-- ==== Proof.BScSets.lean ====
/-
  A task's slices of the index array and of the result, as the kernel computes them, are the task's parts of the
  launch's split. Task w = 2 * subcore + core owns words [65536 w, 65536 (w + 1)) of the index array: the kernel's
  offset 131072 * subcore + 65536 * core is 65536 w. Of the result it owns rows [1024 w, 1024 (w + 1)); the kernel
  writes them two rows at a time, rows 1024 w + 4 k, + 1 from one staging buffer and rows 1024 w + 4 k + 2, + 3 from
  the other, k = 0 … 255: a row r of the part belongs to the first family when (r - 1024 w) mod 4 < 2 and to the
  second otherwise, so the two families are disjoint and together make the part.
-/
import proofs.«209176_g73847667688168_cont_9to1_m_420_10_alg».proof.Proof.BKSplit

noncomputable section

namespace Cert.Kernel.Run.Tile

open Cert.Kernel Cert.Kernel.Gen Cert.Kernel.Run

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The task's 65536 index words, and the two result rows of round `2 k` and of round `2 k + 1`, as the kernel slices
    them out of the whole arrays. -/
abbrev iSlS (L : grid0.Coords) : Finset S2097152.Idx :=
  ((Memref.whole main_v4_scv : Memref sig .scVector .hbm S2097152 .i32).slice
    (Rect.unit (s := S2097152) (k0_off1 L) S65536.size (k0_off1_inb L)) (fun _ => rfl)).view.set
abbrev oSlS0 (L : grid0.Coords) (k : Fin k0_t1_loop.trips) : Finset S32768x128.Idx :=
  ((Memref.whole main_v5_scv : Memref sig .scVector .hbm S32768x128 .f32).slice
    (Rect.unit (s := S32768x128) (k0_off20 L k) S2x128.size (k0_off20_inb L k)) (fun _ => rfl)).view.set
abbrev oSlS1 (L : grid0.Coords) (k : Fin k0_t1_loop.trips) : Finset S32768x128.Idx :=
  ((Memref.whole main_v5_scv : Memref sig .scVector .hbm S32768x128 .f32).slice
    (Rect.unit (s := S32768x128) (k0_off39 L k) S2x128.size (k0_off39_inb L k)) (fun _ => rfl)).view.set
/-- The rows written from the first staging buffer, and from the second. -/
abbrev oU0 (L : grid0.Coords) : Finset S32768x128.Idx := Finset.univ.biUnion (oSlS0 L)
abbrev oU1 (L : grid0.Coords) : Finset S32768x128.Idx := Finset.univ.biUnion (oSlS1 L)

/-- The task number of a place: subcore times two plus core. -/
def tk (L : grid0.Coords) : Fin 32 := ⟨2 * (L 1).val + (L 0).val, by
  have h0 : (L 0).val < 2 := (L 0).isLt
  have h1 : (L 1).val < 16 := (L 1).isLt
  omega⟩

theorem tk_val (L : grid0.Coords) : (tk L).val = 2 * (L 1).val + (L 0).val := rfl

/-- The round loop makes 256 trips. -/
theorem trips_eq : k0_t1_loop.trips = 256 := by decide

/-! ## Membership in the parts and the slices -/

theorem mem_iSet (w : Fin 32) (j : S2097152.Idx) :
    j ∈ Run.iSet w ↔ 65536 * w.val ≤ (j 0).val ∧ (j 0).val < 65536 * w.val + 65536 := by
  rw [iSet_eq, Rect.mem_set_unit, Fin.forall_fin_one]
  show (w.val * (2097152 / 32) ≤ (j 0).val ∧ (j 0).val < w.val * (2097152 / 32) + 2097152 / 32) ↔ _
  omega

theorem mem_oSet (w : Fin 32) (j : S32768x128.Idx) :
    j ∈ Run.oSet w ↔ 1024 * w.val ≤ (j 0).val ∧ (j 0).val < 1024 * w.val + 1024 := by
  rw [oSet_eq, Rect.mem_set_unit, Fin.forall_fin_two]
  have h1 : (j 1).val < 128 := (j 1).isLt
  show (w.val * (32768 / 32) ≤ (j 0).val ∧ (j 0).val < w.val * (32768 / 32) + 32768 / 32)
      ∧ (0 * 128 ≤ (j 1).val ∧ (j 1).val < 0 * 128 + 128) ↔ _
  omega

theorem mem_iSetK (L : grid0.Coords) (j : S2097152.Idx) :
    j ∈ iSlS L ↔ 65536 * (tk L).val ≤ (j 0).val ∧ (j 0).val < 65536 * (tk L).val + 65536 := by
  show j ∈ ((View.whole (main_v4_scv : Ref sig .scVector)).slice
      (Rect.unit (s := S2097152) (k0_off1 L) S65536.size (k0_off1_inb L))).set ↔ _
  rw [View.set_slice_whole, Rect.mem_set_unit, k0_off1_eq, tk_val]
  constructor
  · intro h
    have h0 : 131072 * (L 1).val + 65536 * (L 0).val ≤ (j 0).val
        ∧ (j 0).val < 131072 * (L 1).val + 65536 * (L 0).val + 65536 := h (0 : Fin 1)
    omega
  · intro h a
    match a with
    | ⟨0, _⟩ =>
      show 131072 * (L 1).val + 65536 * (L 0).val ≤ (j 0).val ∧ (j 0).val < 131072 * (L 1).val + 65536 * (L 0).val + 65536
      omega

theorem mem_oS0 (L : grid0.Coords) (k : Fin k0_t1_loop.trips) (j : S32768x128.Idx) :
    j ∈ oSlS0 L k ↔ 1024 * (tk L).val + 4 * k.val ≤ (j 0).val ∧ (j 0).val < 1024 * (tk L).val + 4 * k.val + 2 := by
  show j ∈ ((View.whole (main_v5_scv : Ref sig .scVector)).slice
      (Rect.unit (s := S32768x128) (k0_off20 L k) S2x128.size (k0_off20_inb L k))).set ↔ _
  rw [View.set_slice_whole, Rect.mem_set_unit, k0_off20_eq, tk_val]
  have h1 : (j 1).val < 128 := (j 1).isLt
  constructor
  · intro h
    have h0 : 2048 * (L 1).val + 1024 * (L 0).val + 4 * k.val ≤ (j 0).val
        ∧ (j 0).val < 2048 * (L 1).val + 1024 * (L 0).val + 4 * k.val + 2 := h (0 : Fin 2)
    omega
  · intro h a
    match a with
    | ⟨0, _⟩ =>
      show 2048 * (L 1).val + 1024 * (L 0).val + 4 * k.val ≤ (j 0).val
        ∧ (j 0).val < 2048 * (L 1).val + 1024 * (L 0).val + 4 * k.val + 2
      omega
    | ⟨1, _⟩ =>
      show 0 ≤ (j 1).val ∧ (j 1).val < 0 + 128
      omega

theorem mem_oS1 (L : grid0.Coords) (k : Fin k0_t1_loop.trips) (j : S32768x128.Idx) :
    j ∈ oSlS1 L k ↔ 1024 * (tk L).val + 4 * k.val + 2 ≤ (j 0).val ∧ (j 0).val < 1024 * (tk L).val + 4 * k.val + 4 := by
  show j ∈ ((View.whole (main_v5_scv : Ref sig .scVector)).slice
      (Rect.unit (s := S32768x128) (k0_off39 L k) S2x128.size (k0_off39_inb L k))).set ↔ _
  rw [View.set_slice_whole, Rect.mem_set_unit, k0_off39_eq, tk_val]
  have h1 : (j 1).val < 128 := (j 1).isLt
  constructor
  · intro h
    have h0 : 2048 * (L 1).val + 1024 * (L 0).val + 4 * k.val + 2 ≤ (j 0).val
        ∧ (j 0).val < 2048 * (L 1).val + 1024 * (L 0).val + 4 * k.val + 2 + 2 := h (0 : Fin 2)
    omega
  · intro h a
    match a with
    | ⟨0, _⟩ =>
      show 2048 * (L 1).val + 1024 * (L 0).val + 4 * k.val + 2 ≤ (j 0).val
        ∧ (j 0).val < 2048 * (L 1).val + 1024 * (L 0).val + 4 * k.val + 2 + 2
      omega
    | ⟨1, _⟩ =>
      show 0 ≤ (j 1).val ∧ (j 1).val < 0 + 128
      omega

/-- A row of the part written from the first staging buffer: its distance into the part is 0 or 1 modulo 4. -/
theorem mem_oSet0 (L : grid0.Coords) (j : S32768x128.Idx) :
    j ∈ oU0 L ↔ 1024 * (tk L).val ≤ (j 0).val ∧ (j 0).val < 1024 * (tk L).val + 1024 ∧ ((j 0).val - 1024 * (tk L).val) % 4 < 2 := by
  rw [Finset.mem_biUnion]
  constructor
  · rintro ⟨k, -, hk⟩
    have hk' := (mem_oS0 L k j).mp hk
    have hlt : k.val < 256 := lt_of_lt_of_eq k.isLt trips_eq
    omega
  · rintro ⟨h0, h1, h2⟩
    refine ⟨⟨((j 0).val - 1024 * (tk L).val) / 4, by rw [trips_eq]; omega⟩, Finset.mem_univ _, (mem_oS0 L _ j).mpr ?_⟩
    show 1024 * (tk L).val + 4 * (((j 0).val - 1024 * (tk L).val) / 4) ≤ (j 0).val
      ∧ (j 0).val < 1024 * (tk L).val + 4 * (((j 0).val - 1024 * (tk L).val) / 4) + 2
    omega

/-- A row of the part written from the second staging buffer: its distance into the part is 2 or 3 modulo 4. -/
theorem mem_oSet1 (L : grid0.Coords) (j : S32768x128.Idx) :
    j ∈ oU1 L ↔ 1024 * (tk L).val ≤ (j 0).val ∧ (j 0).val < 1024 * (tk L).val + 1024 ∧ 2 ≤ ((j 0).val - 1024 * (tk L).val) % 4 := by
  rw [Finset.mem_biUnion]
  constructor
  · rintro ⟨k, -, hk⟩
    have hk' := (mem_oS1 L k j).mp hk
    have hlt : k.val < 256 := lt_of_lt_of_eq k.isLt trips_eq
    omega
  · rintro ⟨h0, h1, h2⟩
    refine ⟨⟨((j 0).val - 1024 * (tk L).val) / 4, by rw [trips_eq]; omega⟩, Finset.mem_univ _, (mem_oS1 L _ j).mpr ?_⟩
    show 1024 * (tk L).val + 4 * (((j 0).val - 1024 * (tk L).val) / 4) + 2 ≤ (j 0).val
      ∧ (j 0).val < 1024 * (tk L).val + 4 * (((j 0).val - 1024 * (tk L).val) / 4) + 4
    omega

/-! ## The task's slices are the task's parts -/

/-- The task's index words are the task's part of the index array. -/
theorem iSlS_eq (L : grid0.Coords) : iSlS L = Run.iSet (tk L) := by
  ext j; rw [mem_iSetK, mem_iSet]

/-- The two families of result rows are disjoint, -/
theorem oSets_disjoint (L : grid0.Coords) : Disjoint (oU0 L) (oU1 L) :=
  Finset.disjoint_left.mpr fun j h0 h1 => by
    have a := (mem_oSet0 L j).mp h0
    have b := (mem_oSet1 L j).mp h1
    omega

/-- and together they are the task's part of the result. -/
theorem oSets_union (L : grid0.Coords) : oU0 L ∪ oU1 L = Run.oSet (tk L) := by
  ext j
  rw [Finset.mem_union, mem_oSet0, mem_oSet1, mem_oSet]
  omega

/-! ## The task's part of the result held as the two families -/

section Parts

variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))
  (d : Dev nD) (w : Fin 32) (IS : Finset S2097152.Idx) (A0 A1 : Finset S32768x128.Idx)

/-- A holding of the task's rows of the result is the holdings of two disjoint families of rows that make them up. -/
theorem oPts_two (hd : Disjoint A0 A1) (hu : A0 ∪ A1 = Run.oSet w) (f : Buf (Elt F) (oLoc d)) :
    (oLoc d ↦[Run.oSet w]{fullShare} f : sProp 𝕄) ⊣⊢ iprop((oLoc d ↦[A0]{fullShare} f) ∗ (oLoc d ↦[A1]{fullShare} f)) := by
  rw [← hu]; exact pointsTo_union hd

/-- What a task is handed, its rows of the result in the two families. -/
theorem goRes_split (hI : IS = Run.iSet w) (hd : Disjoint A0 A1) (hu : A0 ∪ A1 = Run.oSet w) :
    goRes V4 V1 o0 d w
      ⊢ iprop((iLoc d ↦[IS]{fullShare} V4 d) ∗ (tLoc d ↦{tq w} V1 d) ∗ (oLoc d ↦[A0]{fullShare} o0 d) ∗ (oLoc d ↦[A1]{fullShare} o0 d)) := by
  subst hI
  iintro ⟨Hi, Ht, Ho⟩
  ihave H := (oPts_two (F := F) d w A0 A1 hd hu (o0 d)).1 $$ Ho
  icases H with ⟨H0, H1⟩
  isplitl [Hi]; · iexact Hi
  isplitl [Ht]; · iexact Ht
  isplitl [H0]; · iexact H0
  iexact H1

/-- What a task hands back, from the two families each at contents that agree with the pooled sums on the family
    (`Q0`, `Q1`: whatever is known of the two contents, as long as it gives that agreement). -/
theorem tdRes_join (hI : IS = Run.iSet w) (hd : Disjoint A0 A1) (hu : A0 ∪ A1 = Run.oSet w)
    (Q0 Q1 : Buf (Elt F) (oLoc d) → Prop) (hQ0 : ∀ f, Q0 f → ∀ j ∈ A0, f j = pv d j) (hQ1 : ∀ f, Q1 f → ∀ j ∈ A1, f j = pv d j) :
    (iprop((iLoc d ↦[IS]{fullShare} V4 d) ∗ (tLoc d ↦{tq w} V1 d)
        ∗ (∃ f, (oLoc d ↦[A0]{fullShare} f) ∗ ⌜Q0 f⌝) ∗ (∃ f, (oLoc d ↦[A1]{fullShare} f) ∗ ⌜Q1 f⌝)) : sProp 𝕄)
      ⊢ tdRes V4 V1 pv d w := by
  subst hI
  iintro ⟨Hi, Ht, ⟨%f0, H0, %h0⟩, ⟨%f1, H1, %h1⟩⟩
  have e0 : (oLoc d ↦[A0]{fullShare} f0 : sProp 𝕄) ⊢ oLoc d ↦[A0]{fullShare} pv d := by
    rw [pointsTo_congr (hQ0 f0 h0)]
  have e1 : (oLoc d ↦[A1]{fullShare} f1 : sProp 𝕄) ⊢ oLoc d ↦[A1]{fullShare} pv d := by
    rw [pointsTo_congr (hQ1 f1 h1)]
  isplitl [Hi]; · iexact Hi
  isplitl [Ht]; · iexact Ht
  iexists (pv d)
  isplitl
  · iapply (oPts_two (F := F) d w A0 A1 hd hu (pv d)).2
    isplitl [H0]
    · iapply e0; iexact H0
    · iapply e1; iexact H1
  · ipureintro; exact fun _ _ => rfl

end Parts

end Cert.Kernel.Run.Tile

end
-- ==== Proof.BScWrap.lean ====
/-
  The task's obligation as the launch theorem takes it, from the body obligation stated over the kernel's own slices.
  The task's parts of the launch's split are the kernel's slices (the index words; the result rows as the two
  families the two staging buffers write), so what a task is handed is what the body asks for, and what the body
  hands back — the two families each at contents that hold the pooled sums there — is what the task hands back.
-/
import proofs.«209176_g73847667688168_cont_9to1_m_420_10_alg».proof.Proof.BScDefs
import proofs.«209176_g73847667688168_cont_9to1_m_420_10_alg».proof.Proof.BScSets

noncomputable section

namespace Cert.Kernel.Run.Tile

open Cert.Kernel Cert.Kernel.Gen Cert.Kernel.Run

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S2097152 EltTy.i32)
local notation "xV" => (Memref.whole Cert.Kernel.main_v1_scv : Memref Cert.Kernel.sig Kind.scVector Space.hbm Cert.Kernel.S100008x128 EltTy.f32)
local notation "oV" => (Memref.whole Cert.Kernel.main_v5_scv : Memref Cert.Kernel.sig Kind.scVector Space.hbm Cert.Kernel.S32768x128 EltTy.f32)
local notation "ibV" => (Memref.whole Cert.Kernel.cc0_scratch0 : Memref Cert.Kernel.sig Kind.scVector Space.vmem Cert.Kernel.S65536 EltTy.i32)
local notation "rm0V" => (Memref.whole Cert.Kernel.cc0_scratch1 : Memref Cert.Kernel.sig Kind.scVector Space.vmem Cert.Kernel.S100 EltTy.i32)
local notation "rm1V" => (Memref.whole Cert.Kernel.cc0_scratch2 : Memref Cert.Kernel.sig Kind.scVector Space.vmem Cert.Kernel.S100 EltTy.i32)
local notation "rw0V" => (Memref.whole Cert.Kernel.cc0_scratch3 : Memref Cert.Kernel.sig Kind.scVector Space.vmem Cert.Kernel.S100x128 EltTy.f32)
local notation "rw1V" => (Memref.whole Cert.Kernel.cc0_scratch4 : Memref Cert.Kernel.sig Kind.scVector Space.vmem Cert.Kernel.S100x128 EltTy.f32)
local notation "ob0V" => (Memref.whole Cert.Kernel.cc0_scratch5 : Memref Cert.Kernel.sig Kind.scVector Space.vmem Cert.Kernel.S2x128 EltTy.f32)
local notation "ob1V" => (Memref.whole Cert.Kernel.cc0_scratch6 : Memref Cert.Kernel.sig Kind.scVector Space.vmem Cert.Kernel.S2x128 EltTy.f32)

/-! ## The kernel's slices, as named beside the body, are the task's parts -/

theorem iSetK_eq (L : grid0.Coords) : iSetK L = Run.iSet (tk L) := iSlS_eq L
theorem oSet0_eq (L : grid0.Coords) : oSet0 L = oU0 L := rfl
theorem oSet1_eq (L : grid0.Coords) : oSet1 L = oU1 L := rfl
theorem oSet_disjoint (L : grid0.Coords) : Disjoint (oSet0 L) (oSet1 L) := oSets_disjoint L
theorem oSet_union (L : grid0.Coords) : oSet0 L ∪ oSet1 L = Run.oSet (tk L) := oSets_union L

section Wrap

variable [FloatOps F]
variable (V4 : (d : Dev nD) → Buf (Elt F) (iLoc d)) (V1 : (d : Dev nD) → Buf (Elt F) (tLoc d))
  (o0 : (d : Dev nD) → Buf (Elt F) (oLoc d)) (pv : (d : Dev nD) → Buf (Elt F) (oLoc d))

/-- What the task is handed is what the body asks for. -/
theorem goT_of_goRes (L : grid0.Coords) (d : Dev nD) :
    goRes V4 V1 o0 d (tk L) ⊢ goT L d (tk L) (V4 d) (V1 d) (o0 d) := by
  unfold goT
  exact goRes_split V4 V1 o0 d (tk L) (iSetK L) (oSet0 L) (oSet1 L) (iSetK_eq L) (oSet_disjoint L) (oSet_union L)

/-- What the body hands back, the two families each at the pooled sums, is what the task hands back. -/
theorem tdRes_of_tdTV (L : grid0.Coords) (d : Dev nD)
    (pvf : Buf (Elt F) (iLoc d) → Buf (Elt F) (tLoc d) → Buf (Elt F) (oLoc d))
    (hpv : ∀ j ∈ Run.oSet (tk L), pvf (V4 d) (V1 d) j = pv d j) :
    tdTV L d pvf (tk L) (V4 d) (V1 d) ⊢ tdRes V4 V1 pv d (tk L) := by
  unfold tdTV
  exact tdRes_join V4 V1 pv d (tk L) (iSetK L) (oSet0 L) (oSet1 L) (iSetK_eq L) (oSet_disjoint L) (oSet_union L)
    (fun f => ∀ j ∈ oSet0 L, f j = pvf (V4 d) (V1 d) j) (fun f => ∀ j ∈ oSet1 L, f j = pvf (V4 d) (V1 d) j)
    (fun f h j hj => (h j hj).trans (hpv j (by rw [← oSet_union L]; exact Finset.mem_union_left _ hj)))
    (fun f h j hj => (h j hj).trans (hpv j (by rw [← oSet_union L]; exact Finset.mem_union_right _ hj)))

/-! ## The obligation -/

/-- The place of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A task's number is its place's. -/
theorem wid_eq_tk (c : Fin 2) (s : Fin 16) : wid c s = tk (coordsV c s) :=
  Fin.ext (show s.val * 2 + c.val = 2 * s.val + c.val by omega)

/-- The task's body on a vector subcore is the pooling kernel's body at the subcore's place. -/
theorem defs₀_vector (c : Fin τ.nSC) (s : Fin τ.nSub) :
    defs₀ (F := F) (.scVector c s) 0 ()
      = SparseCore.onTile hcore0 hsub0 (fun c s => cc0__sc_pool_body (coordsV c s)
          iV (Memref.isWhole_whole _) xV (Memref.isWhole_whole _) oV (Memref.isWhole_whole _)
          ibV (Memref.isWhole_whole _) rm0V (Memref.isWhole_whole _) rm1V (Memref.isWhole_whole _)
          rw0V (Memref.isWhole_whole _) rw1V (Memref.isWhole_whole _) ob0V (Memref.isWhole_whole _) ob1V (Memref.isWhole_whole _)
          cc0_scratch7 cc0_scratch8 cc0_scratch9 cc0_scratch10 cc0_scoped0) ⟨⟩ c s := rfl

theorem obl_post {thr : Thread nD τ} {A A' B C : sProp 𝕄} {O : CellTallies nD τ sig (HIx 1)} {W : Waits sig (HIx 1)} {q : Fin 1}
    (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

set_option maxRecDepth 16384 in
/-- THE TASK'S OBLIGATION from the body obligation in its value form at every place. -/
theorem tileObl_of_body (hpre : ∀ d, PreOK d (V4 d))
    (pvf : (d : Dev nD) → Buf (Elt F) (iLoc d) → Buf (Elt F) (tLoc d) → Buf (Elt F) (oLoc d))
    (hpv : ∀ d j, pvf d (V4 d) (V1 d) j = pv d j)
    (h : ∀ (d : Dev nD) (L : grid0.Coords), TileBodyValue (F := F) L d (pvf d)) :
    (K (F := F)).TileObl (D (F := F)) 𝒱 (P V4 V1 o0 pv) v₀ 0 := by
  intro d c i O W hO _ _
  simp only [show (P V4 V1 o0 pv).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : wid (Fin.cast nCore_zero c) (Fin.cast nSub_zero i) = tk (coordsV ⟨_, hci.1⟩ ⟨_, hci.2⟩) :=
    wid_eq_tk (Fin.cast nCore_zero c) (Fin.cast nSub_zero i)
  have hbody := h d (coordsV ⟨_, hci.1⟩ ⟨_, hci.2⟩) (tk (coordsV ⟨_, hci.1⟩ ⟨_, hci.2⟩)) (V4 d) (V1 d) (o0 d) (hpre d) O W hO
  have hpost := tdRes_of_tdTV V4 V1 pv (coordsV ⟨_, hci.1⟩ ⟨_, hci.2⟩) d (pvf d) (fun j _ => hpv d j)
  have hgo := goT_of_goRes V4 V1 o0 (coordsV ⟨_, hci.1⟩ ⟨_, hci.2⟩) d
  show iprop(levAts (K (F := F)).L (K (F := F)).lev ∗ emp
      ∗ goRes V4 V1 o0 d (wid (Fin.cast nCore_zero c) (Fin.cast nSub_zero i)) ∗ _ ∗ _ ∗ _) ⊢ _
  rw [hw]
  refine BI.Entails.trans (sep_mono .rfl (sep_mono .rfl (sep_mono hgo .rfl))) ?_
  refine hbody.trans (wp_mono frame _ _ fun _ => ?_)
  show _ ⊢ iprop(tdRes V4 V1 pv d (wid (Fin.cast nCore_zero c) (Fin.cast nSub_zero i)) ∗ _ ∗ _ ∗ _)
  rw [hw]
  exact obl_post hpost

end Wrap

end Cert.Kernel.Run.Tile

end
-- ==== Proof.BScSum.lean ====
/-
  The pooled sum, free of any program text: each of the 32768 bags (the first index array's 16384, then the second's)
  has its 50 words at positions 64 t … 64 t + 49 of the flat index array; a zero word is sent to row 100000 of the
  extended table (a row of zeros), any other word names its own row; the bag's result is the sum of the 50 rows it
  names, added up from zero in the order of the words.
-/
import Idealize.ShloMosaic.PureOps
import Idealize.ShloMosaic.Lib.ValueIdx

noncomputable section

namespace Cert.Kernel.Run.Tile

open Idealize.ShloMosaic Idealize.ShloMosaic.ValueIdx

variable {F : FTy → Type} [FloatOps F]

/-- A padding word is sent to the first appended row of the table. -/
def remapW (w : BitVec 32) : BitVec 32 := if w = 0#32 then 100000#32 else w

/-- The row of the extended table a word names, at column `k` (a word past the table names its last row). -/
def trow (T1 : (⟨2, ![100008, 128]⟩ : Shape).Idx → Elt F .f32) (w : BitVec 32) (k : Fin 128) : F .f32 :=
  T1 (ix2 (⟨min w.toNat 100007, by omega⟩ : Fin 100008) k)

/-- The zero the sum starts from. -/
def zeroF : F .f32 := FloatOps.ofBits .f32 0x00000000#32

/-- Position `64 t + n` of the flat index array lies inside it. -/
theorem flat_lt (t : Fin 32768) (n : Nat) (h : n < 50) : 64 * t.val + n < 2097152 := by
  have := t.isLt; omega

/-- The sum of the rows the first `n` words of bag `t` name, at column `k`, in the order of the words. -/
def rowPre (T1 : (⟨2, ![100008, 128]⟩ : Shape).Idx → Elt F .f32) (I4 : (⟨1, ![2097152]⟩ : Shape).Idx → BitVec 32)
    (t : Fin 32768) (k : Fin 128) : (n : Nat) → n ≤ 50 → F .f32
  | 0, _ => zeroF
  | n + 1, h => FloatOps.addf (rowPre T1 I4 t k n (Nat.le_of_succ_le h))
      (trow T1 (remapW (I4 (ix1 (⟨64 * t.val + n, flat_lt t n h⟩ : Fin 2097152)))) k)

/-- Bag `t`'s pooled row at column `k`. -/
def rowSum (T1 : (⟨2, ![100008, 128]⟩ : Shape).Idx → Elt F .f32) (I4 : (⟨1, ![2097152]⟩ : Shape).Idx → BitVec 32)
    (t : Fin 32768) (k : Fin 128) : F .f32 := rowPre T1 I4 t k 50 (Nat.le_refl 50)

/-- The pooled array. -/
def pvOf (T1 : (⟨2, ![100008, 128]⟩ : Shape).Idx → Elt F .f32) (I4 : (⟨1, ![2097152]⟩ : Shape).Idx → BitVec 32) :
    (⟨2, ![32768, 128]⟩ : Shape).Idx → Elt F .f32 := fun j => rowSum T1 I4 (j 0) (j 1)

section Steps
variable (T1 : (⟨2, ![100008, 128]⟩ : Shape).Idx → Elt F .f32) (I4 : (⟨1, ![2097152]⟩ : Shape).Idx → BitVec 32)
  (t : Fin 32768) (k : Fin 128)

theorem rowPre_zero (h : 0 ≤ 50) : rowPre T1 I4 t k 0 h = zeroF := rfl

theorem rowPre_succ (n : Nat) (h : n + 1 ≤ 50) :
    rowPre T1 I4 t k (n + 1) h = FloatOps.addf (rowPre T1 I4 t k n (Nat.le_of_succ_le h))
      (trow T1 (remapW (I4 (ix1 (⟨64 * t.val + n, flat_lt t n h⟩ : Fin 2097152)))) k) := rfl

/-- The bound proof does not matter. -/
theorem rowPre_congr (n n' : Nat) (e : n = n') (h : n ≤ 50) (h' : n' ≤ 50) : rowPre T1 I4 t k n h = rowPre T1 I4 t k n' h' := by
  subst e; rfl

/-- One trip of the kernel's inner loop adds the rows of five consecutive words. -/
theorem rowPre_five (j : Nat) (h : 5 * j + 5 ≤ 50) :
    rowPre T1 I4 t k (5 * j + 5) h
      = FloatOps.addf (FloatOps.addf (FloatOps.addf (FloatOps.addf (FloatOps.addf (rowPre T1 I4 t k (5 * j) (by omega))
          (trow T1 (remapW (I4 (ix1 (⟨64 * t.val + (5 * j), flat_lt t _ (by omega)⟩ : Fin 2097152)))) k))
          (trow T1 (remapW (I4 (ix1 (⟨64 * t.val + (5 * j + 1), flat_lt t _ (by omega)⟩ : Fin 2097152)))) k))
          (trow T1 (remapW (I4 (ix1 (⟨64 * t.val + (5 * j + 2), flat_lt t _ (by omega)⟩ : Fin 2097152)))) k))
          (trow T1 (remapW (I4 (ix1 (⟨64 * t.val + (5 * j + 3), flat_lt t _ (by omega)⟩ : Fin 2097152)))) k))
          (trow T1 (remapW (I4 (ix1 (⟨64 * t.val + (5 * j + 4), flat_lt t _ (by omega)⟩ : Fin 2097152)))) k) := rfl

theorem rowSum_def : rowSum T1 I4 t k = rowPre T1 I4 t k 50 (Nat.le_refl 50) := rfl

theorem pvOf_apply (r : Fin 32768) : pvOf T1 I4 (ix2 r k) = rowSum T1 I4 r k := rfl

end Steps

end Cert.Kernel.Run.Tile

end
-- ==== Proof.ScLib.lean ====
/-
  Word vectors whose lanes all lie below a bound, through the lane-wise operations the remapping of the padding index
  uses, and through a covering list of stores: what an index list holds after it has been filled chunk by chunk.
-/
import Idealize.ShloMosaic.Lib.Writes
import Idealize.ShloMosaic.PureOps.ShapeOps

namespace Cert.Lib

open Idealize.ShloMosaic

/-- Every lane of a vector of words is below `n`. -/
def AllLt {s : Shape} (v : IVec s 32) (n : ℕ) : Prop := ∀ i, (v i).toNat < n

theorem allLt_mono {s : Shape} {v : IVec s 32} {m n : ℕ} (h : m ≤ n) (hv : AllLt v m) : AllLt v n :=
  fun i => Nat.lt_of_lt_of_le (hv i) h

theorem allLt_shapeCast {s t : Shape} {v : IVec s 32} {n : ℕ} (h : s.ShapeCasts t) (hv : AllLt v n) :
    AllLt (shapeCast t v h) n := fun _ => hv _

theorem allLt_broadcast {t : Shape} {c : BitVec 32} {n : ℕ} (h : c.toNat < n) : AllLt (broadcast t c) n := fun _ => h

theorem allLt_select {s : Shape} {c : IVec s 1} {a b : IVec s 32} {n : ℕ} (ha : AllLt a n) (hb : AllLt b n) :
    AllLt (select c a b) n := fun i => by
  show (Scalar.select (c i) (a i) (b i)).toNat < n
  unfold Scalar.select
  split
  · exact ha i
  · exact hb i

namespace View
variable {sig : RefSig} {κ : Kind} {sp : Space} {s : Shape} {e : EltTy} {Val : EltTy → Type}

/-- After a list of stores that covers an element, the element satisfies what every store's payload satisfies
    everywhere, whatever the buffer held before. -/
theorem read_writes_all (v : Idealize.ShloMosaic.View sig κ sp s e) (f : v.ty.Contents Val) (P : Val e → Prop) :
    ∀ L : List (Idealize.ShloMosaic.View.Piece Val s e), (∀ p ∈ L, ∀ x : p.1.shape.Idx, P (p.2 x)) →
      ∀ y : s.Idx, (∃ p ∈ L, y ∈ p.1.set) → P (v.read Val (v.writes Val f L) y)
  | [], _, _, h => by obtain ⟨_, hm, _⟩ := h; exact absurd hm List.not_mem_nil
  | p :: L, hP, y, h => by
    by_cases hy : y ∈ p.1.set
    · obtain ⟨x, rfl⟩ : ∃ x, p.1.emb x = y := p.1.exists_idx_of_mem hy
      obtain ⟨r, w⟩ := p
      rw [Idealize.ShloMosaic.View.read_writes_cons_emb]
      exact hP ⟨r, w⟩ List.mem_cons_self x
    · have hy' : y ∉ Finset.univ.map p.1.emb := by rwa [Rect.map_emb_univ]
      rw [Idealize.ShloMosaic.View.writes_cons, Idealize.ShloMosaic.View.read_slice_write_of_not_mem p.1 _ _ _ hy']
      refine read_writes_all v f P L (fun p' hp' => hP p' (List.mem_cons_of_mem _ hp')) y ?_
      obtain ⟨p', hm, hy''⟩ := h
      rcases List.mem_cons.mp hm with rfl | hm
      · exact absurd hy'' hy
      · exact ⟨p', hm, hy''⟩

end View

end Cert.Lib
-- ==== Proof.ScBody.lean ====
/-
  One vector subcore's task of the pooling kernel, at a symbolic place and for any float instance.  The task copies its
  65536 index words into its index scratch, then runs 512 rounds of two rows each over two sets of buffers: the indices
  of a round are remapped (0 becomes 100000, the first zero row appended to the table) into a list, the list's 100 table
  rows are gathered into a row scratch, rows 0..49 and 50..99 are summed lane-wise into a 2x128 staging buffer, and that
  is copied out to the round's two result rows.  Two gathers and two copies out are in flight at a time, each on a
  semaphore of its own, and no buffer is touched while its copy is pending.
-/
import proofs.«209176_g73847667688168_cont_9to1_m_420_10_alg».proof.Proof.ScDefs
import proofs.«209176_g73847667688168_cont_9to1_m_420_10_alg».proof.Proof.Gen.KernelIdeal.Skeleton
import proofs.«209176_g73847667688168_cont_9to1_m_420_10_alg».proof.Proof.ScLib

noncomputable section

namespace Cert.KernelIdeal.Run.Tile

open Cert.KernelIdeal Cert.KernelIdeal.Gen Cert.KernelIdeal.Run
open Cert.Lib

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S2097152 EltTy.i32)
local notation "xV" => (Memref.whole Cert.KernelIdeal.main_v1_scv : Memref Cert.KernelIdeal.sig Kind.scVector Space.hbm Cert.KernelIdeal.S100008x128 EltTy.f32)
local notation "oV" => (Memref.whole Cert.KernelIdeal.main_v5_scv : Memref Cert.KernelIdeal.sig Kind.scVector Space.hbm Cert.KernelIdeal.S32768x128 EltTy.f32)
local notation "ibV" => (Memref.whole Cert.KernelIdeal.cc0_scratch0 : Memref Cert.KernelIdeal.sig Kind.scVector Space.vmem Cert.KernelIdeal.S65536 EltTy.i32)
local notation "rm0V" => (Memref.whole Cert.KernelIdeal.cc0_scratch1 : Memref Cert.KernelIdeal.sig Kind.scVector Space.vmem Cert.KernelIdeal.S100 EltTy.i32)
local notation "rm1V" => (Memref.whole Cert.KernelIdeal.cc0_scratch2 : Memref Cert.KernelIdeal.sig Kind.scVector Space.vmem Cert.KernelIdeal.S100 EltTy.i32)
local notation "rw0V" => (Memref.whole Cert.KernelIdeal.cc0_scratch3 : Memref Cert.KernelIdeal.sig Kind.scVector Space.vmem Cert.KernelIdeal.S100x128 EltTy.f32)
local notation "rw1V" => (Memref.whole Cert.KernelIdeal.cc0_scratch4 : Memref Cert.KernelIdeal.sig Kind.scVector Space.vmem Cert.KernelIdeal.S100x128 EltTy.f32)
local notation "ob0V" => (Memref.whole Cert.KernelIdeal.cc0_scratch5 : Memref Cert.KernelIdeal.sig Kind.scVector Space.vmem Cert.KernelIdeal.S2x128 EltTy.f32)
local notation "ob1V" => (Memref.whole Cert.KernelIdeal.cc0_scratch6 : Memref Cert.KernelIdeal.sig Kind.scVector Space.vmem Cert.KernelIdeal.S2x128 EltTy.f32)

section Tile

variable (L : grid0.Coords)

variable [FloatOps F] (d : Dev nD)

local notation "𝕥" => V d (cV L) (jV L)
local notation "EC" => (countersEmb : UEmb Counters (MT nD τ sig (HIx 1) (Elt F) ℕ UU ℕ))

abbrev cell (d : Dev nD) (L : grid0.Coords) (sm : DmaSem sig) : GSem nD τ sig := (V d (cV L) (jV L), .dma sm)

omit [FloatOps F] in
theorem cell_ne {L : grid0.Coords} {a b : DmaSem sig} (h : (SemLoc.dma a : SemLoc sig) ≠ SemLoc.dma b) : cell d L a ≠ cell d L b :=
  fun e => h (Prod.mk.inj e).2

omit [FloatOps F] in
theorem cell_mem (sm : DmaSem sig) (h : (SemLoc.dma sm : SemLoc sig).isScoped .scVector = true) : cell d L sm ∈ ownCells (V d (cV L) (jV L)) :=
  (mem_ownCells (g := cell d L sm)).mpr ⟨rfl, h⟩

omit [FloatOps F] in
/-- The task's five DMA semaphores are among the subcore's own cells. -/
theorem ownSems0_V :
    (ownSems0 (V d (cV L) (jV L)) : sProp 𝕄)
      = iprop(semVal (cell d L cc0_scratch7.sem) 0 ∗ semVal (cell d L cc0_scratch8.sem) 0 ∗ semVal (cell d L cc0_scratch9.sem) 0 ∗ semVal (cell d L cc0_scratch10.sem) 0 ∗ semVal (cell d L cc0_scoped0.sem) 0
          ∗ bigSep ((((((ownCells (V d (cV L) (jV L))).erase (cell d L cc0_scratch7.sem)).erase (cell d L cc0_scratch8.sem)).erase (cell d L cc0_scratch9.sem)).erase (cell d L cc0_scratch10.sem)).erase (cell d L cc0_scoped0.sem)) fun g => semVal g 0) := by
  unfold SparseCore.Cfg.ownSems0
  rw [SparseCore.bigSep_erase' (cell_mem L d cc0_scratch7.sem (by decide)),
    SparseCore.bigSep_erase' (Finset.mem_erase.mpr ⟨cell_ne d (by decide), cell_mem L d cc0_scratch8.sem (by decide)⟩),
    SparseCore.bigSep_erase' (Finset.mem_erase.mpr ⟨cell_ne d (by decide), Finset.mem_erase.mpr ⟨cell_ne d (by decide), cell_mem L d cc0_scratch9.sem (by decide)⟩⟩),
    SparseCore.bigSep_erase' (Finset.mem_erase.mpr ⟨cell_ne d (by decide), Finset.mem_erase.mpr ⟨cell_ne d (by decide), Finset.mem_erase.mpr ⟨cell_ne d (by decide), cell_mem L d cc0_scratch10.sem (by decide)⟩⟩⟩),
    SparseCore.bigSep_erase' (Finset.mem_erase.mpr ⟨cell_ne d (by decide), Finset.mem_erase.mpr ⟨cell_ne d (by decide), Finset.mem_erase.mpr ⟨cell_ne d (by decide), Finset.mem_erase.mpr ⟨cell_ne d (by decide), cell_mem L d cc0_scoped0.sem (by decide)⟩⟩⟩⟩)]

omit [FloatOps F] in
theorem ref_ne {L : grid0.Coords} {a b : Ref sig .scVector} (h : a ≠ b) :
    (Proc.scVector (cV L) (jV L)).devRef a ≠ (Proc.scVector (cV L) (jV L)).devRef b :=
  fun e => h (Proc.devRef_injective _ e)

omit [FloatOps F] in
theorem ref_mem (L : grid0.Coords) (b : Ref sig .scVector) (h : ((Proc.scVector (cV L) (jV L)).devRef b).owner = .proc (Proc.scVector (cV L) (jV L))) :
    (Proc.scVector (cV L) (jV L)).devRef b ∈ ownRefs (τ := τ) (Proc.scVector (cV L) (jV L)) :=
  SparseCore.Cfg.mem_ownRefs_of_owner (p := Proc.scVector (cV L) (jV L)) h

omit [FloatOps F] in
/-- The seven scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne (by decide), ref_mem L cc0_scratch1 rfl⟩),
    SparseCore.bigSep_erase' (Finset.mem_erase.mpr ⟨ref_ne (by decide), Finset.mem_erase.mpr ⟨ref_ne (by decide), ref_mem L cc0_scratch2 rfl⟩⟩),
    SparseCore.bigSep_erase' (Finset.mem_erase.mpr ⟨ref_ne (by decide), Finset.mem_erase.mpr ⟨ref_ne (by decide), Finset.mem_erase.mpr ⟨ref_ne (by decide), ref_mem L cc0_scratch3 rfl⟩⟩⟩),
    SparseCore.bigSep_erase' (Finset.mem_erase.mpr ⟨ref_ne (by decide), Finset.mem_erase.mpr ⟨ref_ne (by decide), Finset.mem_erase.mpr ⟨ref_ne (by decide), Finset.mem_erase.mpr ⟨ref_ne (by decide), ref_mem L cc0_scratch4 rfl⟩⟩⟩⟩),
    SparseCore.bigSep_erase' (Finset.mem_erase.mpr ⟨ref_ne (by decide), Finset.mem_erase.mpr ⟨ref_ne (by decide), Finset.mem_erase.mpr ⟨ref_ne (by decide), Finset.mem_erase.mpr ⟨ref_ne (by decide), Finset.mem_erase.mpr ⟨ref_ne (by decide), ref_mem L cc0_scratch5 rfl⟩⟩⟩⟩⟩),
    SparseCore.bigSep_erase' (Finset.mem_erase.mpr ⟨ref_ne (by decide), Finset.mem_erase.mpr ⟨ref_ne (by decide), Finset.mem_erase.mpr ⟨ref_ne (by decide), Finset.mem_erase.mpr ⟨ref_ne (by decide), Finset.mem_erase.mpr ⟨ref_ne (by decide), Finset.mem_erase.mpr ⟨ref_ne (by decide), ref_mem L cc0_scratch6 rfl⟩⟩⟩⟩⟩⟩)]

/-! ## What the transfers in flight deliver -/

/-- A gather's delivery: the row scratch at some contents, the share of the table it read, the list at some contents. -/
def GD (T1 : Buf (Elt F) (tLoc d)) (dst : Memref sig .scVector .vmem S100x128 .f32) (offs : Memref sig .scVector .vmem S100 .i32)
    (q : PosShare TreeShare) : sProp 𝕄 :=
  iprop((∃ f, dst.view.loc 𝕥 ↦[dst.view.set]{fullShare} f) ∗ ((xAll).view.loc 𝕥 ↦[(xAll).view.set]{q} T1)
    ∗ ∃ g, offs.view.loc 𝕥 ↦[offs.view.set]{fullShare} g)

/-- A copy-out's delivery: the part of the result rows its staging buffer serves, and the staging buffer, at some contents. -/
def OD (ob : Memref sig .scVector .vmem S2x128 .f32) (Sd : Finset S32768x128.Idx) : sProp 𝕄 :=
  iprop((∃ f, oLoc d ↦[Sd]{fullShare} f) ∗ ∃ g, ob.view.loc 𝕥 ↦[ob.view.set]{fullShare} g)

/-- A staging buffer between rounds: free before the first round that uses it (the buffer, its semaphore at zero, its
    part of the result rows), afterwards the copy-out in flight. -/
def OB (ob : Memref sig .scVector .vmem S2x128 .f32) (sem : DmaSem sig) (Sd : Finset S32768x128.Idx) (k : ℕ) : sProp 𝕄 :=
  if k = 0 then iprop(OD L d ob Sd ∗ semVal (𝕥, SemLoc.dma sem) 0)
  else Transfers.Flight EC 𝕥 (.dma sem) (default : HIx 1) ob.view.dmaCredit (OD L d ob Sd)

/-- The loop's invariant before trip `k`: the index scratch as filled, the first buffer set's gather in flight, the
    second set free, each staging buffer free (before the first trip) or its copy-out in flight, what the task owes. -/
def inv (T1 : Buf (Elt F) (tLoc d)) (IB : Buf (Elt F) ((ibV).view.loc 𝕥)) (q : PosShare TreeShare)
    (O : CellTallies nD τ sig (HIx 1)) (W : Waits sig (HIx 1)) (k : ℕ) (_ : PUnit) : sProp 𝕄 :=
  iprop(Transfers.MayWaits 𝕥 (default : HIx 1) O
    ∗ ((ibV).view.loc 𝕥 ↦{fullShare} IB)
    ∗ Transfers.Flight EC 𝕥 (.dma cc0_scratch7.sem) (default : HIx 1) (rw0V).view.dmaCredit (GD L d T1 rw0V rm0V q.left)
    ∗ ((xAll).view.loc 𝕥 ↦[(xAll).view.set]{q.right} T1)
    ∗ (∃ f, (rm1V).view.loc 𝕥 ↦{fullShare} f) ∗ (∃ f, (rw1V).view.loc 𝕥 ↦{fullShare} f)
    ∗ semVal (𝕥, SemLoc.dma cc0_scratch8.sem) 0
    ∗ OB L d ob0V cc0_scratch9.sem (oSet0 L) k ∗ OB L d ob1V cc0_scratch10.sem (oSet1 L) k
    ∗ ∃ W', ⌜∀ p ∈ W', p ∈ W ∨ p.2 = none⌝ ∗ owes 𝕥 O W')

theorem GD_eq (T1 : Buf (Elt F) (tLoc d)) (dst : Memref sig .scVector .vmem S100x128 .f32) (offs : Memref sig .scVector .vmem S100 .i32)
    (q : PosShare TreeShare) :
    (GD L d T1 dst offs q : sProp 𝕄) = iprop((∃ f, dst.view.loc 𝕥 ↦[dst.view.set]{fullShare} f) ∗ ((xAll).view.loc 𝕥 ↦[(xAll).view.set]{q} T1)
      ∗ ∃ g, offs.view.loc 𝕥 ↦[offs.view.set]{fullShare} g) := rfl
theorem OD_eq (ob : Memref sig .scVector .vmem S2x128 .f32) (Sd : Finset S32768x128.Idx) :
    (OD L d ob Sd : sProp 𝕄) = iprop((∃ f, oLoc d ↦[Sd]{fullShare} f) ∗ ∃ g, ob.view.loc 𝕥 ↦[ob.view.set]{fullShare} g) := rfl
theorem OB_zero (ob : Memref sig .scVector .vmem S2x128 .f32) (sem : DmaSem sig) (Sd : Finset S32768x128.Idx) :
    (OB L d ob sem Sd 0 : sProp 𝕄) = iprop(OD L d ob Sd ∗ semVal (𝕥, SemLoc.dma sem) 0) := rfl
theorem OB_pos (ob : Memref sig .scVector .vmem S2x128 .f32) (sem : DmaSem sig) (Sd : Finset S32768x128.Idx) {k : ℕ} (hk : k ≠ 0) :
    (OB L d ob sem Sd k : sProp 𝕄) = Transfers.Flight EC 𝕥 (.dma sem) (default : HIx 1) ob.view.dmaCredit (OD L d ob Sd) := by
  unfold OB; rw [if_neg hk]

omit [FloatOps F] in
theorem owes_ins {W : Waits sig (HIx 1)} {W1 : Waits sig (HIx 1)} (sm : SemLoc sig) (h : ∀ p ∈ W1, p ∈ W ∨ p.2 = none) :
    ∀ p ∈ insert (sm, (default : HIx 1)) W1, p ∈ W ∨ p.2 = none := by
  intro p hp
  rcases Finset.mem_insert.mp hp with hp | hp
  · exact .inr (hp ▸ rfl)
  · exact h p hp

omit [FloatOps F] in
theorem credit_o0 (off : Fin S32768x128.rank → Nat) (inb : ∀ a, off a + S2x128.size a ≤ S32768x128.size a) (hr) :
    ((oV).slice (Rect.unit (s := S32768x128) off S2x128.size inb) hr).view.dmaCredit = (ob0V).view.dmaCredit := rfl
omit [FloatOps F] in
theorem credit_o1 (off : Fin S32768x128.rank → Nat) (inb : ∀ a, off a + S2x128.size a ≤ S32768x128.size a) (hr) :
    ((oV).slice (Rect.unit (s := S32768x128) off S2x128.size inb) hr).view.dmaCredit = (ob1V).view.dmaCredit := rfl

/-! ## Issuing a gather -/

/-- Issuing a gather whose list's words all name rows of the table. -/
theorem gather_issue {α : Type} {Q : α → sProp 𝕄} (T1 : Buf (Elt F) (tLoc d))
    {src : Memref sig .scVector .hbm S100008x128 .f32} (hsrcE : src = xAll)
    {dst : Memref sig .scVector .vmem S100x128 .f32} {offs : Memref sig .scVector .vmem S100 .i32} {sem : DmaSem sig}
    {hn : S100.numel = S100x128.size gathers_S100008x128_S100x128.axis'}
    {hp : (𝕥).2.kind = .scVector} {hsrc : src.view.WordExact} {he : EltTy.f32.bits = 32} {hsp : Space.hbm = .hbm ∨ Space.hbm = .shared}
    {hr : S100008x128.StreamRows 0}
    {k : PUnit → Prog (TpuEff nD τ sig (Elt F) Λ₀ (𝕥).2) α}
    (q : PosShare TreeShare) {fd : Buf (Elt F) (dst.view.loc 𝕥)} {fo : Buf (Elt F) (offs.view.loc 𝕥)}
    (hcr : ∀ s' : Shape, sig.dmaCredit .scVector (Kind.scVector.table .vmem) dst.view.buf s' .f32 = s'.numel * EltTy.f32.bits) :
    iprop(((xAll).view.loc 𝕥 ↦[(xAll).view.set]{q} T1) ∗ (dst.view.loc 𝕥 ↦[dst.view.set]{fullShare} fd)
        ∗ (offs.view.loc 𝕥 ↦[offs.view.set]{fullShare} fo) ∗ semVal (𝕥, SemLoc.dma sem) 0
        ∗ ⌜∀ x, (offs.view.read (Elt F) fo x).toNat < S100008x128.size gathers_S100008x128_S100x128.axis⌝)
      ⊢ iprop((Transfers.Flight EC 𝕥 (.dma sem) (default : HIx 1) dst.view.dmaCredit (GD L d T1 dst offs q)
              -∗ wp frame (wpE (defs₀ (F := F)) 𝒱₀ 𝕥 none) Set.univ (k ⟨⟩) Q)
          -∗ wp frame (wpE (defs₀ (F := F)) 𝒱₀ 𝕥 none) Set.univ
              (SparseCore.enqueueIndirectGather hp src dst gathers_S100008x128_S100x128 offs hn sem hsrc he hsp hr >>= k) Q) := by
  subst hsrcE
  iintro ⟨Hx, Hd, Ho, Hs, %hin⟩ Hk
  iapply (SparseCore.wp_indirectGatherLocal EC 𝒱₀ 𝕥 none (hg := gathers_S100008x128_S100x128) (default : HIx 1)
      dst.view.dmaCredit (SparseCore.sum_rowCredit_eq_dmaCredit dst _ hcr) (by decide) hin) $$ [Hx Hd Ho Hs]
  · isplitl [Hx]; · iexact Hx
    isplitl [Hd]; · iexact Hd
    isplitl [Ho]; · iexact Ho
    iexact Hs
  iintro Hfl
  iapply Hk
  iapply (Transfers.Flight_mono EC 𝕥 (D' := GD L d T1 dst offs q) (by
    unfold GD
    iintro ⟨Hd, Hx, Ho⟩
    isplitl [Hd]; · iexists _; iexact Hd
    isplitl [Hx]; · iexact Hx
    iexists _; iexact Ho)) $$ Hfl

/-! ## The remapped lists name rows of the table -/

/-- The remapping of the padding index, lane by lane: words below 100000 stay or become 100000. -/
theorem remap_allLt (v : IVec S16 32) (hv : AllLt v 100000) (h1 h2 : S16.ShapeCasts S16) :
    AllLt (shapeCast S16 (select (cmpi CmpIPredicate.ne (shapeCast S16 v h1) (broadcast S16 0#32)) (shapeCast S16 v h1)
      (broadcast S16 100000#32)) h2) 100008 :=
  allLt_shapeCast _ (allLt_select (allLt_mono (by decide) (allLt_shapeCast _ hv)) (allLt_broadcast (by decide)))

/-- The eight chunks a list is filled with (at offsets 0, 16, 32, 34 of each of its two halves) cover its 100 words. -/
theorem cover100 {Val : EltTy → Type} (Lp : List (View.Piece Val S100 EltTy.i32))
    (w0 : (Rect.unit (s := S100) ![84] S16.size inb_S100_S16_84).shape.Idx → Val EltTy.i32)
    (w1 : (Rect.unit (s := S100) ![82] S16.size inb_S100_S16_82).shape.Idx → Val EltTy.i32)
    (w2 : (Rect.unit (s := S100) ![66] S16.size inb_S100_S16_66).shape.Idx → Val EltTy.i32)
    (w3 : (Rect.unit (s := S100) ![50] S16.size inb_S100_S16_50).shape.Idx → Val EltTy.i32)
    (w4 : (Rect.unit (s := S100) ![34] S16.size inb_S100_S16_34).shape.Idx → Val EltTy.i32)
    (w5 : (Rect.unit (s := S100) ![32] S16.size inb_S100_S16_32).shape.Idx → Val EltTy.i32)
    (w6 : (Rect.unit (s := S100) ![16] S16.size inb_S100_S16_16).shape.Idx → Val EltTy.i32)
    (w7 : (Rect.unit (s := S100) ![0] S16.size inb_S100_S16_0).shape.Idx → Val EltTy.i32)
    (h : Lp = [⟨_, w0⟩, ⟨_, w1⟩, ⟨_, w2⟩, ⟨_, w3⟩, ⟨_, w4⟩, ⟨_, w5⟩, ⟨_, w6⟩, ⟨_, w7⟩]) :
    ∀ y : S100.Idx, ∃ p ∈ Lp, y ∈ p.1.set := by
  subst h
  intro y
  have key : ∀ (o : ℕ) (inb : ∀ a, (![o] : Fin 1 → Nat) a + S16.size a ≤ S100.size a), o ≤ (y 0).val → (y 0).val < o + 16 →
      y ∈ (Rect.unit (s := S100) ![o] S16.size inb).set := by
    intro o inb h1 h2
    refine Rect.mem_set_unit.mpr fun a => ?_
    have ha : a = (0 : Fin 1) := Subsingleton.elim _ _
    subst ha
    exact ⟨h1, h2⟩
  have hy : (y 0).val < 100 := (y 0).isLt
  by_cases c7 : (y 0).val < 16
  · exact ⟨_, List.Mem.tail _ (List.Mem.tail _ (List.Mem.tail _ (List.Mem.tail _ (List.Mem.tail _ (List.Mem.tail _ (List.Mem.tail _ (List.Mem.head _))))))), key 0 inb_S100_S16_0 (Nat.zero_le _) (by omega)⟩
  by_cases c6 : (y 0).val < 32
  · exact ⟨_, List.Mem.tail _ (List.Mem.tail _ (List.Mem.tail _ (List.Mem.tail _ (List.Mem.tail _ (List.Mem.tail _ (List.Mem.head _)))))), key 16 inb_S100_S16_16 (by omega) (by omega)⟩
  by_cases c5 : (y 0).val < 34
  · exact ⟨_, List.Mem.tail _ (List.Mem.tail _ (List.Mem.tail _ (List.Mem.tail _ (List.Mem.tail _ (List.Mem.head _))))), key 32 inb_S100_S16_32 (by omega) (by omega)⟩
  by_cases c4 : (y 0).val < 50
  · exact ⟨_, List.Mem.tail _ (List.Mem.tail _ (List.Mem.tail _ (List.Mem.tail _ (List.Mem.head _)))), key 34 inb_S100_S16_34 (by omega) (by omega)⟩
  by_cases c3 : (y 0).val < 66
  · exact ⟨_, List.Mem.tail _ (List.Mem.tail _ (List.Mem.tail _ (List.Mem.head _))), key 50 inb_S100_S16_50 (by omega) (by omega)⟩
  by_cases c2 : (y 0).val < 82
  · exact ⟨_, List.Mem.tail _ (List.Mem.tail _ (List.Mem.head _)), key 66 inb_S100_S16_66 (by omega) (by omega)⟩
  by_cases c1 : (y 0).val < 84
  · exact ⟨_, List.Mem.tail _ (List.Mem.head _), key 82 inb_S100_S16_82 (by omega) (by omega)⟩
  · exact ⟨_, List.Mem.head _, key 84 inb_S100_S16_84 (by omega) (by omega)⟩

/-- A list filled from the index scratch by the remapping holds, whatever it held before, words that name rows of the
    table: each chunk's lanes are below 100008, and the chunks cover the list. -/
theorem list_inb {Lp : List (View.Piece (Elt F) S100 EltTy.i32)} (offs : Memref sig .scVector .vmem S100 .i32)
    (f : Buf (Elt F) (offs.view.loc 𝕥))
    (hp : ∀ p ∈ Lp, ∀ x : p.1.shape.Idx, BitVec.toNat (p.2 x) < 100008) (hc : ∀ y : S100.Idx, ∃ p ∈ Lp, y ∈ p.1.set) :
    ∀ x, (offs.view.read (Elt F) (offs.view.writes (Elt F) f Lp) x).toNat < S100008x128.size gathers_S100008x128_S100x128.axis :=
  fun x => Cert.Lib.View.read_writes_all offs.view f (fun v => BitVec.toNat v < 100008) Lp hp x (hc x)

/-- What the index copy lands in the index scratch: the task's index words, each at most 99999. -/
theorem ib_of_pre (I4 : Buf (Elt F) (iLoc d)) (hpre : PreOK d I4) (fib : Buf (Elt F) ((ibV).view.loc 𝕥)) (pay : S65536.Idx → Elt F .i32)
    (hpay : pay = (iSl L).view.read (Elt F) I4) :
    ∀ x, ((ibV).view.read (Elt F) (View.write (Elt F) (ibV).view fib pay Finset.univ) x).toNat ≤ 99999 := by
  subst hpay; intro x
  rw [View.write_whole_univ]
  simp only [Memref.view_whole, View.read_whole]
  rw [show ∀ j, (iSl L).view.read (Elt F) I4 j = I4 ((iSl L).view.emb j) from fun j => (View.read_apply _ _).trans (cast_eq _ _)]
  exact hpre _

set_option maxHeartbeats 4000000 in
/-- One trip of the rounds loop: rounds `2 k` and `2 k + 1`. -/
theorem trip (T1 : Buf (Elt F) (tLoc d)) (IB : Buf (Elt F) ((ibV).view.loc 𝕥))
    (hIB : ∀ x, ((ibV).view.read (Elt F) IB x).toNat ≤ 99999) (q : PosShare TreeShare)
    (O : CellTallies nD τ sig (HIx 1)) (W : Waits sig (HIx 1)) (v2 : BitVec 32) (k : Fin k0_t1_loop.trips) (acc : PUnit) :
    inv L d T1 IB q O W k.val acc
      ⊢ wp frame (wpE (defs₀ (F := F)) 𝒱₀ 𝕥 none) Set.univ
          (k0_t1_body L iV (Memref.isWhole_whole _) xV (Memref.isWhole_whole _) oV (Memref.isWhole_whole _)
            ibV (Memref.isWhole_whole _) rm0V (Memref.isWhole_whole _) rm1V (Memref.isWhole_whole _)
            rw0V (Memref.isWhole_whole _) rw1V (Memref.isWhole_whole _) ob0V (Memref.isWhole_whole _) ob1V (Memref.isWhole_whole _)
            cc0_scratch7 cc0_scratch8 cc0_scratch9 cc0_scratch10 cc0_scoped0 v2 k acc)
          (inv L d T1 IB q O W (k.val + 1)) := by
  unfold inv
  iintro ⟨#Hmw, Hib, Hfl0, HxR, ⟨%frm1, Hrm1⟩, ⟨%frw1, Hrw1⟩, Hsg1, HOB0, HOB1, %W', %hW', HO⟩
  unfold k0_t1_body
  have hcond1 : ∀ k : Fin k0_t1_loop.trips, (k0_cond1 k = 1#1 ↔ k.val ≠ 0) := by decide +kernel
  have hcond2 : ∀ k : Fin k0_t1_loop.trips, (k0_cond2 k = 1#1 ↔ k.val ≠ 0) := by decide +kernel
  sl_exec
  have hrs1 : (rw1V).view.set = Finset.univ := View.set_whole _
  have hms1 : (rm1V).view.set = Finset.univ := View.set_whole _
  ihave Hrw1' := (Entails.of_eq (show (((rw1V).view.loc 𝕥 ↦{fullShare} frw1 : sProp 𝕄))
      = (rw1V).view.loc 𝕥 ↦[(rw1V).view.set]{fullShare} frw1 by rw [hrs1])) $$ Hrw1
  ihave Hrm1' := (Entails.of_eq (show (((rm1V).view.loc 𝕥 ↦{fullShare} _ : sProp 𝕄))
      = (rm1V).view.loc 𝕥 ↦[(rm1V).view.set]{fullShare} _ by rw [hms1])) $$ Hrm1
  iapply (gather_issue L d T1 rfl q.right (fun _ => rfl)) $$ [HxR Hrw1' Hrm1' Hsg1]
  · isplitl [HxR]; · iexact HxR
    isplitl [Hrw1']; · iexact Hrw1'
    isplitl [Hrm1']; · iexact Hrm1'
    isplitl [Hsg1]; · iexact Hsg1
    ipureintro
    refine list_inb L d _ _ ?hp ?hc
    case hp =>
      repeat (first
        | exact fun _ h => absurd h List.not_mem_nil
        | refine List.forall_mem_cons.mpr ⟨fun x => remap_allLt _ (fun i => Nat.lt_succ_of_le (hIB _)) _ _ x, ?_⟩)
    case hc => exact cover100 _ _ _ _ _ _ _ _ _ rfl
  iintro Hfl1
  sl_exec
  -- the first buffer set's gather has landed
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GD_eq L d T1 rw0V rm0V q.left)) $$ HD0
  icases HD0' with ⟨⟨%frw0, Hrw0⟩, HxL, ⟨%frm0, Hrm0⟩⟩
  rcases Nat.eq_zero_or_pos k.val with hk | hk
  · have k0_h1 : ¬ k0_cond1 k = 1#1 := fun h => (hcond1 k).mp h hk
    have k0_h2 : ¬ k0_cond2 k = 1#1 := fun h => (hcond2 k).mp h hk
    ihave HOB0' := (Entails.of_eq ((congrArg (fun n => (OB L d ob0V cc0_scratch9.sem (oSet0 L) n : sProp 𝕄)) hk).trans (OB_zero L d ob0V cc0_scratch9.sem (oSet0 L)))) $$ HOB0
    icases HOB0' with ⟨HOD0, Hso0⟩
    ihave HOB1' := (Entails.of_eq ((congrArg (fun n => (OB L d ob1V cc0_scratch10.sem (oSet1 L) n : sProp 𝕄)) hk).trans (OB_zero L d ob1V cc0_scratch10.sem (oSet1 L)))) $$ HOB1
    icases HOB1' with ⟨HOD1, Hso1⟩
    sl_exec
    ihave HOD0' := (Entails.of_eq (OD_eq L d ob0V (oSet0 L))) $$ HOD0
    icases HOD0' with ⟨⟨%fo0, Ho0⟩, ⟨%fob0, Hob0⟩⟩
    sl_for (fun _ _ => iprop((rw0V).view.loc 𝕥 ↦[(rw0V).view.set]{fullShare} frw0)) $$ [Hrw0]
    case region => intro j a; iintro H; sl_exec; sl_step; iexact H
    · iexact Hrw0
    iintro %a2 Hrw0
    sl_exec
    sl_for (fun _ _ => iprop((rw0V).view.loc 𝕥 ↦[(rw0V).view.set]{fullShare} frw0)) $$ [Hrw0]
    case region => intro j a; iintro H; sl_exec; sl_step; iexact H
    · iexact Hrw0
    iintro %a3 Hrw0
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := OD L d ob0V (oSet0 L)) (by
      rw [OD_eq]; iintro ⟨Hd, Hs⟩; isplitl [Hd]; · iexists _; iexact Hd
      iexists _; iexact Hs)) $$ HF0n
    sl_exec
    iapply (gather_issue L d T1 rfl q.left (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GD_eq L d T1 rw1V rm1V q.right)) $$ HD1
    icases HD1' with ⟨⟨%frw1n, Hrw1⟩, HxR, ⟨%frm1n, Hrm1⟩⟩
    sl_exec
    ihave HOD1' := (Entails.of_eq (OD_eq L d ob1V (oSet1 L))) $$ HOD1
    icases HOD1' with ⟨⟨%fo1, Ho1⟩, ⟨%fob1, Hob1⟩⟩
    sl_for (fun _ _ => iprop((rw1V).view.loc 𝕥 ↦[(rw1V).view.set]{fullShare} frw1n)) $$ [Hrw1]
    case region => intro j a; iintro H; sl_exec; sl_step; iexact H
    · iexact Hrw1
    iintro %a4 Hrw1
    sl_exec
    sl_for (fun _ _ => iprop((rw1V).view.loc 𝕥 ↦[(rw1V).view.set]{fullShare} frw1n)) $$ [Hrw1]
    case region => intro j a; iintro H; sl_exec; sl_step; iexact H
    · iexact Hrw1
    iintro %a5 Hrw1
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := OD L d ob1V (oSet1 L)) (by
      rw [OD_eq]; iintro ⟨Hd, Hs⟩; isplitl [Hd]; · iexists _; iexact Hd
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OB_pos L d ob0V cc0_scratch9.sem (oSet0 L) (Nat.succ_ne_zero k.val)).symm); iexact HF0n
    isplitl [HF1n]; · iapply (Entails.of_eq (OB_pos L d ob1V cc0_scratch10.sem (oSet1 L) (Nat.succ_ne_zero k.val)).symm); iexact HF1n
    iexists _; isplitr
    · ipureintro; exact hW'
    · iexact HO
  · have hk0 : k.val ≠ 0 := Nat.pos_iff_ne_zero.mp hk
    have k0_h1 : k0_cond1 k = 1#1 := (hcond1 k).mpr hk0
    have k0_h2 : k0_cond2 k = 1#1 := (hcond2 k).mpr hk0
    ihave HF0 := (Entails.of_eq (OB_pos L d ob0V cc0_scratch9.sem (oSet0 L) hk0)) $$ HOB0
    ihave HF1 := (Entails.of_eq (OB_pos L d ob1V cc0_scratch10.sem (oSet1 L) hk0)) $$ HOB1
    sl_exec
    iapply (Transfers.wp_waitLocalO EC 𝒱₀ 𝕥 none (default : HIx 1) (credit_o0 _ _ _)) $$ [HF0 HO]
    · isplitl [HF0]; · iexact HF0
      isplitl [HO]; · iexact HO
      iapply (Transfers.MayWaits.elim (SemLoc.dma cc0_scratch9.sem)) $$ Hmw
    iintro ⟨HOD0, Hso0, HO⟩
    have hW' := owes_ins (W := W) (SemLoc.dma cc0_scratch9.sem) hW'
    sl_exec
    ihave HOD0' := (Entails.of_eq (OD_eq L d ob0V (oSet0 L))) $$ HOD0
    icases HOD0' with ⟨⟨%fo0, Ho0⟩, ⟨%fob0, Hob0⟩⟩
    sl_for (fun _ _ => iprop((rw0V).view.loc 𝕥 ↦[(rw0V).view.set]{fullShare} frw0)) $$ [Hrw0]
    case region => intro j a; iintro H; sl_exec; sl_step; iexact H
    · iexact Hrw0
    iintro %a2 Hrw0
    sl_exec
    sl_for (fun _ _ => iprop((rw0V).view.loc 𝕥 ↦[(rw0V).view.set]{fullShare} frw0)) $$ [Hrw0]
    case region => intro j a; iintro H; sl_exec; sl_step; iexact H
    · iexact Hrw0
    iintro %a3 Hrw0
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := OD L d ob0V (oSet0 L)) (by
      rw [OD_eq]; iintro ⟨Hd, Hs⟩; isplitl [Hd]; · iexists _; iexact Hd
      iexists _; iexact Hs)) $$ HF0n
    sl_exec
    iapply (gather_issue L d T1 rfl q.left (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GD_eq L d T1 rw1V rm1V q.right)) $$ HD1
    icases HD1' with ⟨⟨%frw1n, Hrw1⟩, HxR, ⟨%frm1n, Hrm1⟩⟩
    sl_exec
    iapply (Transfers.wp_waitLocalO EC 𝒱₀ 𝕥 none (default : HIx 1) (credit_o1 _ _ _)) $$ [HF1 HO]
    · isplitl [HF1]; · iexact HF1
      isplitl [HO]; · iexact HO
      iapply (Transfers.MayWaits.elim (SemLoc.dma cc0_scratch10.sem)) $$ Hmw
    iintro ⟨HOD1, Hso1, HO⟩
    have hW' := owes_ins (W := W) (SemLoc.dma cc0_scratch10.sem) hW'
    sl_exec
    ihave HOD1' := (Entails.of_eq (OD_eq L d ob1V (oSet1 L))) $$ HOD1
    icases HOD1' with ⟨⟨%fo1, Ho1⟩, ⟨%fob1, Hob1⟩⟩
    sl_for (fun _ _ => iprop((rw1V).view.loc 𝕥 ↦[(rw1V).view.set]{fullShare} frw1n)) $$ [Hrw1]
    case region => intro j a; iintro H; sl_exec; sl_step; iexact H
    · iexact Hrw1
    iintro %a4 Hrw1
    sl_exec
    sl_for (fun _ _ => iprop((rw1V).view.loc 𝕥 ↦[(rw1V).view.set]{fullShare} frw1n)) $$ [Hrw1]
    case region => intro j a; iintro H; sl_exec; sl_step; iexact H
    · iexact Hrw1
    iintro %a5 Hrw1
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := OD L d ob1V (oSet1 L)) (by
      rw [OD_eq]; iintro ⟨Hd, Hs⟩; isplitl [Hd]; · iexists _; iexact Hd
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OB_pos L d ob0V cc0_scratch9.sem (oSet0 L) (Nat.succ_ne_zero k.val)).symm); iexact HF0n
    isplitl [HF1n]; · iapply (Entails.of_eq (OB_pos L d ob1V cc0_scratch10.sem (oSet1 L) (Nat.succ_ne_zero k.val)).symm); iexact HF1n
    iexists _; isplitr
    · ipureintro; exact hW'
    · iexact HO

set_option maxRecDepth 100000 in
set_option maxHeartbeats 4000000 in
/-- The task on vector subcore `(L 0, L 1)` of device `d`. -/
theorem tile_body (hF : (K (F := F)).Facts) : TileBodyFrame (F := F) L d := by
  intro w I4 T1 O5 hpre O W hO
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  unfold goT tdT
  iintro ⟨#Hlv, -, ⟨Hi, Hx, Ho0, Ho1⟩, ⟨⟨%fib, Hib⟩, ⟨%frm0, Hrm0⟩, ⟨%frm1, Hrm1⟩, ⟨%frw0, Hrw0⟩, ⟨%frw1, Hrw1⟩, ⟨%fob0, Hob0⟩, ⟨%fob1, Hob1⟩, Hbufs⟩, ⟨Hsg0, Hsg1, Hso0, Hso1, Hsr, Hsems⟩, HO⟩
  ihave Hmw := (show levAts (K (F := F)).L (K (F := F)).lev ⊢ Transfers.MayWaits 𝕥 (default : HIx 1) O from
    (K (F := F)).mayWaits_none (thr := 𝕥) hO) $$ Hlv
  ihave Hi' := (Entails.of_eq (show ((iLoc d ↦[iSetK L]{fullShare} I4 : sProp 𝕄)) = ((iSl L).view.loc 𝕥 ↦[(iSl L).view.set]{fullShare} I4) from rfl)) $$ Hi
  ihave Hib' := (Entails.of_eq (show (((𝕥).loc cc0_scratch0 ↦{fullShare} fib : sProp 𝕄)) = ((ibV).view.loc 𝕥 ↦{fullShare} fib) from rfl)) $$ Hib
  ihave Hrm0' := (Entails.of_eq (show (((𝕥).loc cc0_scratch1 ↦{fullShare} frm0 : sProp 𝕄)) = ((rm0V).view.loc 𝕥 ↦{fullShare} frm0) from rfl)) $$ Hrm0
  sl_exec
  have hIB := ib_of_pre L d I4 hpre fib (tile_body.sl.dma0 L d I4) rfl
  -- the share of the table in two halves, one per gather in flight
  ihave Hx2 := (pointsTo_share (PosShare.mem_left_op_right (tq w))).1 $$ Hx
  icases Hx2 with ⟨HxL, HxR⟩
  ihave HxL' := (pointsTo_split_subset (q := (tq w).left) (f := T1) (S := Finset.univ) (Finset.subset_univ (xAll).view.set)).1 $$ HxL
  icases HxL' with ⟨HxL, HxLr⟩
  ihave HxR' := (pointsTo_split_subset (q := (tq w).right) (f := T1) (S := Finset.univ) (Finset.subset_univ (xAll).view.set)).1 $$ HxR
  icases HxR' with ⟨HxR, HxRr⟩
  have hrs0 : (rw0V).view.set = Finset.univ := View.set_whole _
  have hms0 : (rm0V).view.set = Finset.univ := View.set_whole _
  have hrs1 : (rw1V).view.set = Finset.univ := View.set_whole _
  have hms1 : (rm1V).view.set = Finset.univ := View.set_whole _
  have hos0 : (ob0V).view.set = Finset.univ := View.set_whole _
  have hos1 : (ob1V).view.set = Finset.univ := View.set_whole _
  ihave Hrw0' := (Entails.of_eq (show (((𝕥).loc cc0_scratch3 ↦{fullShare} frw0 : sProp 𝕄))
      = (rw0V).view.loc 𝕥 ↦[(rw0V).view.set]{fullShare} frw0 by rw [hrs0])) $$ Hrw0
  ihave Hrm0'' := (Entails.of_eq (show (((rm0V).view.loc 𝕥 ↦{fullShare} _ : sProp 𝕄))
      = (rm0V).view.loc 𝕥 ↦[(rm0V).view.set]{fullShare} _ by rw [hms0])) $$ Hrm0'
  iapply (gather_issue L d T1 rfl (tq w).left (fun _ => rfl)) $$ [HxL Hrw0' Hrm0'' Hsg0]
  · isplitl [HxL]; · iexact HxL
    isplitl [Hrw0']; · iexact Hrw0'
    isplitl [Hrm0'']; · iexact Hrm0''
    isplitl [Hsg0]; · iexact Hsg0
    ipureintro
    refine list_inb L d _ _ ?hp ?hc
    case hp =>
      repeat (first
        | exact fun _ h => absurd h List.not_mem_nil
        | refine List.forall_mem_cons.mpr ⟨fun x => remap_allLt _ (fun i => Nat.lt_succ_of_le (hIB _)) _ _ x, ?_⟩)
    case hc => exact cover100 _ _ _ _ _ _ _ _ _ rfl
  iintro Hfl0
  sl_for (inv L d T1 (View.write (Elt F) (ibV).view fib (tile_body.sl.dma0 L d I4) Finset.univ) (tq w) O W) $$ [Hib' Hfl0 HxR Hrm1 Hrw1 Hsg1 Hob0 Ho0 Hso0 Hob1 Ho1 Hso1 HO]
  case region => intro k acc; exact trip L d T1 _ hIB (tq w) O W _ k acc
  · unfold inv
    isplitl []; · iexact Hmw
    isplitl [Hib']; · iexact Hib'
    isplitl [Hfl0]; · iexact Hfl0
    isplitl [HxR]; · iexact HxR
    isplitl [Hrm1]; · iexists _; iexact Hrm1
    isplitl [Hrw1]; · iexists _; iexact Hrw1
    isplitl [Hsg1]; · iexact Hsg1
    isplitl [Hob0 Ho0 Hso0]
    · iapply (Entails.of_eq (OB_zero L d ob0V cc0_scratch9.sem (oSet0 L)).symm)
      isplitr [Hso0]
      · iapply (Entails.of_eq (OD_eq L d ob0V (oSet0 L)).symm)
        isplitl [Ho0]; · iexists _; iexact Ho0
        iexists fob0
        iapply (Entails.of_eq (show (((𝕥).loc cc0_scratch5 ↦{fullShare} fob0 : sProp 𝕄)) = ((ob0V).view.loc 𝕥 ↦[(ob0V).view.set]{fullShare} fob0) by rw [hos0])); iexact Hob0
      · iexact Hso0
    isplitl [Hob1 Ho1 Hso1]
    · iapply (Entails.of_eq (OB_zero L d ob1V cc0_scratch10.sem (oSet1 L)).symm)
      isplitr [Hso1]
      · iapply (Entails.of_eq (OD_eq L d ob1V (oSet1 L)).symm)
        isplitl [Ho1]; · iexists _; iexact Ho1
        iexists fob1
        iapply (Entails.of_eq (show (((𝕥).loc cc0_scratch6 ↦{fullShare} fob1 : sProp 𝕄)) = ((ob1V).view.loc 𝕥 ↦[(ob1V).view.set]{fullShare} fob1) by rw [hos1])); iexact Hob1
      · iexact Hso1
    iexists _; isplitr
    swap; · iexact HO
    ipureintro; exact owes_ins (W := W) _ (fun p hp => .inl hp)
  iintro %acc HI
  unfold inv
  icases HI with ⟨-, Hib, Hfl0, HxR, ⟨%frm1', Hrm1⟩, ⟨%frw1', Hrw1⟩, Hsg1, HOB0, HOB1, %W', %hW', HO⟩
  have htr : Scf.trips k0_t1_loop.lb k0_t1_loop.ub k0_t1_loop.st ≠ 0 := by decide
  ihave HF0 := (Entails.of_eq (OB_pos L d ob0V cc0_scratch9.sem (oSet0 L) htr)) $$ HOB0
  ihave HF1 := (Entails.of_eq (OB_pos L d ob1V cc0_scratch10.sem (oSet1 L) htr)) $$ HOB1
  sl_exec
  -- the redundant last gather
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GD_eq L d T1 rw0V rm0V (tq w).left)) $$ HD0
  icases HD0' with ⟨⟨%frw0', Hrw0⟩, HxL, ⟨%frm0', Hrm0⟩⟩
  sl_exec
  -- the last two copies out
  iapply (Transfers.wp_waitLocalO EC 𝒱₀ 𝕥 none (default : HIx 1) (credit_o0 _ _ _)) $$ [HF0 HO]
  · isplitl [HF0]; · iexact HF0
    isplitl [HO]; · iexact HO
    iapply (Transfers.MayWaits.elim (SemLoc.dma cc0_scratch9.sem)) $$ Hmw
  iintro ⟨HOD0, Hso0, HO⟩
  have hW' := owes_ins (W := W) (SemLoc.dma cc0_scratch9.sem) hW'
  ihave HOD0' := (Entails.of_eq (OD_eq L d ob0V (oSet0 L))) $$ HOD0
  icases HOD0' with ⟨⟨%fo0, Ho0⟩, ⟨%fob0', Hob0⟩⟩
  sl_exec
  iapply (Transfers.wp_waitLocalO EC 𝒱₀ 𝕥 none (default : HIx 1) (credit_o1 _ _ _)) $$ [HF1 HO]
  · isplitl [HF1]; · iexact HF1
    isplitl [HO]; · iexact HO
    iapply (Transfers.MayWaits.elim (SemLoc.dma cc0_scratch10.sem)) $$ Hmw
  iintro ⟨HOD1, Hso1, HO⟩
  have hW' := owes_ins (W := W) (SemLoc.dma cc0_scratch10.sem) hW'
  ihave HOD1' := (Entails.of_eq (OD_eq L d ob1V (oSet1 L))) $$ HOD1
  icases HOD1' with ⟨⟨%fo1, Ho1⟩, ⟨%fob1', Hob1⟩⟩
  sl_exec
  sl_step
  -- what the task hands back
  isplitl [Hi' HxL HxLr HxR HxRr Ho0 Ho1]
  · isplitl [Hi']; · iexact Hi'
    isplitl [HxL HxLr HxR HxRr]
    · iapply (pointsTo_share (PosShare.mem_left_op_right (tq w))).2
      isplitl [HxL HxLr]
      · iapply (pointsTo_split_subset (q := (tq w).left) (f := T1) (S := Finset.univ) (Finset.subset_univ (xAll).view.set)).2
        isplitl [HxL] <;> iassumption
      · iapply (pointsTo_split_subset (q := (tq w).right) (f := T1) (S := Finset.univ) (Finset.subset_univ (xAll).view.set)).2
        isplitl [HxR] <;> iassumption
    isplitl [Ho0]; · iexists _; iexact Ho0
    iexists _; iexact Ho1
  isplitl [Hib Hrm0 Hrm1 Hrw0 Hrw1 Hob0 Hob1 Hbufs]
  · isplitl [Hib]; · iexists _; iexact Hib
    isplitl [Hrm0]
    · iexists frm0'; iapply (Entails.of_eq (show (((rm0V).view.loc 𝕥 ↦[(rm0V).view.set]{fullShare} frm0' : sProp 𝕄)) = ((𝕥).loc cc0_scratch1 ↦{fullShare} frm0') by rw [hms0])); iexact Hrm0
    isplitl [Hrm1]; · iexists _; iexact Hrm1
    isplitl [Hrw0]
    · iexists frw0'; iapply (Entails.of_eq (show (((rw0V).view.loc 𝕥 ↦[(rw0V).view.set]{fullShare} frw0' : sProp 𝕄)) = ((𝕥).loc cc0_scratch3 ↦{fullShare} frw0') by rw [hrs0])); iexact Hrw0
    isplitl [Hrw1]; · iexists _; iexact Hrw1
    isplitl [Hob0]
    · iexists fob0'; iapply (Entails.of_eq (show (((ob0V).view.loc 𝕥 ↦[(ob0V).view.set]{fullShare} fob0' : sProp 𝕄)) = ((𝕥).loc cc0_scratch5 ↦{fullShare} fob0') by rw [hos0])); iexact Hob0
    isplitl [Hob1]
    · iexists fob1'; iapply (Entails.of_eq (show (((ob1V).view.loc 𝕥 ↦[(ob1V).view.set]{fullShare} fob1' : sProp 𝕄)) = ((𝕥).loc cc0_scratch6 ↦{fullShare} fob1') by rw [hos1])); iexact Hob1
    iexact Hbufs
  isplitl [Hsg0 Hsg1 Hso0 Hso1 Hsr Hsems]
  · isplitl [Hsg0]; · iexact Hsg0
    isplitl [Hsg1]; · iexact Hsg1
    isplitl [Hso0]; · iexact Hso0
    isplitl [Hso1]; · iexact Hso1
    isplitl [Hsr]; · iexact Hsr
    iexact Hsems
  iexists _; isplitr
  · ipureintro; exact hW'
  · iexact HO

end Tile

end Cert.KernelIdeal.Run.Tile

end
-- ==== Proof.ScJoin.lean ====
import proofs.«209176_g73847667688168_cont_9to1_m_420_10_alg».proof.Proof.ScDefs
import proofs.«209176_g73847667688168_cont_9to1_m_420_10_alg».proof.Proof.ScSum
import Idealize.ShloMosaic.Lib.Pipeline.Value

noncomputable section

namespace Cert.KernelIdeal.Run.Tile

open Cert.KernelIdeal Cert.KernelIdeal.Gen Cert.KernelIdeal.Run

open Idealize.ShloMosaic Idealize.ShloMosaic.ValueIdx
open Idealize.ShloMosaic.SparseCore (S V T)
open Idealize.SL Idealize.SL.Sem

variable {F : FTy → Type}

local notation "oV" => (Memref.whole Cert.KernelIdeal.main_v5_scv : Memref Cert.KernelIdeal.sig Kind.scVector Space.hbm Cert.KernelIdeal.S32768x128 EltTy.f32)
local notation "ob0V" => (Memref.whole Cert.KernelIdeal.cc0_scratch5 : Memref Cert.KernelIdeal.sig Kind.scVector Space.vmem Cert.KernelIdeal.S2x128 EltTy.f32)
local notation "ob1V" => (Memref.whole Cert.KernelIdeal.cc0_scratch6 : Memref Cert.KernelIdeal.sig Kind.scVector Space.vmem Cert.KernelIdeal.S2x128 EltTy.f32)

/-! # The result rows of a task, trip by trip

Task `w = 2 * subcore + core` owns rows `1024 w … 1024 w + 1023` of the pooled array. Trip `k` of its rounds loop
writes rows `1024 w + 4 k`, `+ 1` from the first staging buffer and rows `1024 w + 4 k + 2`, `+ 3` from the second.
The rows of different trips are different rows, so a copy-out leaves the earlier trips' rows as they were. -/

variable (L : grid0.Coords)

/-- The task number of a place. -/
def wOf (L : grid0.Coords) : Nat := 2 * (L 1).val + (L 0).val

theorem wOf_lt (L : grid0.Coords) : wOf L < 32 := by
  have h0 : (L 0).val < 2 := (L 0).isLt
  have h1 : (L 1).val < 16 := (L 1).isLt
  unfold wOf; omega

/-- The rounds loop makes 256 trips. -/
theorem jn_trips : k0_t1_loop.trips = 256 := by decide

/-- The rows of the result the first staging buffer's copy-out of trip `k` writes. -/
theorem jn_mem_oS0 (k : Fin k0_t1_loop.trips) (j : S32768x128.Idx) :
    j ∈ oS0 L k ↔ 1024 * wOf L + 4 * k.val ≤ (j 0).val ∧ (j 0).val < 1024 * wOf L + 4 * k.val + 2 := by
  show j ∈ ((View.whole (main_v5_scv : Ref sig .scVector)).slice
      (Rect.unit (s := S32768x128) (k0_off20 L k) S2x128.size (k0_off20_inb L k))).set ↔ _
  rw [View.set_slice_whole, Rect.mem_set_unit, k0_off20_eq]
  unfold wOf
  have h1 : (j 1).val < 128 := (j 1).isLt
  constructor
  · intro h
    have h0 : 2048 * (L 1).val + 1024 * (L 0).val + 4 * k.val ≤ (j 0).val
        ∧ (j 0).val < 2048 * (L 1).val + 1024 * (L 0).val + 4 * k.val + 2 := h (0 : Fin 2)
    omega
  · intro h a
    match a with
    | ⟨0, _⟩ =>
      show 2048 * (L 1).val + 1024 * (L 0).val + 4 * k.val ≤ (j 0).val
        ∧ (j 0).val < 2048 * (L 1).val + 1024 * (L 0).val + 4 * k.val + 2
      omega
    | ⟨1, _⟩ =>
      show 0 ≤ (j 1).val ∧ (j 1).val < 0 + 128
      omega

/-- Where the copy-out of trip `k` puts entry `y` of the staging buffer: row `1024 w + 4 k + y 0`, column `y 1`. -/
theorem jn_emb0 (k : Fin k0_t1_loop.trips) (y : S2x128.Idx) :
    (oSl0 L k).view.emb y = ix2 (⟨1024 * wOf L + 4 * k.val + (y 0).val, by
        have hy0 : (y 0).val < 2 := (y 0).isLt; have := wOf_lt L; have := lt_of_lt_of_eq k.isLt jn_trips; show _ < 32768; omega⟩ : Fin 32768) (y 1) := by
  funext a
  apply Fin.ext
  match a with
  | ⟨0, _⟩ =>
    show (k0_off20 L k) (0 : Fin 2) + 1 * (y 0).val = 1024 * wOf L + 4 * k.val + (y 0).val
    rw [k0_off20_eq]; unfold wOf
    show 2048 * (L 1).val + 1024 * (L 0).val + 4 * k.val + 1 * (y 0).val = _
    omega
  | ⟨1, _⟩ =>
    show (k0_off20 L k) (1 : Fin 2) + 1 * (y 1).val = (y 1).val
    rw [k0_off20_eq]
    show 0 + 1 * (y 1).val = _
    omega

section Step0
variable [FloatOps F] (d : Dev nD)
  (T1 : (⟨2, ![100008, 128]⟩ : Shape).Idx → Elt F .f32) (I4 : (⟨1, ![2097152]⟩ : Shape).Idx → BitVec 32)

/-- ONE COPY-OUT. If the result rows the earlier trips wrote hold the pooled sums, and the staging buffer holds the two
    pooled rows of this trip, then after the copy-out the rows of the trips up to this one hold the pooled sums: the
    copy-out writes its own two rows and leaves every other row alone. -/
theorem out_step0 (k : Fin k0_t1_loop.trips) (fd : Buf (Elt F) (oLoc d)) (X : S2x128.Idx → Elt F .f32)
    (hfd : ∀ k' : Fin k0_t1_loop.trips, k'.val < k.val → ∀ j ∈ oS0 L k', fd j = pvOf T1 I4 j)
    (hob : ∀ (r : Fin 2) (col : Fin 128), X (ix2 r col) = rowSum T1 I4 (⟨1024 * wOf L + 4 * k.val + r.val, by
        have hr0 : r.val < 2 := r.isLt; have := wOf_lt L; have := lt_of_lt_of_eq k.isLt jn_trips; show _ < 32768; omega⟩ : Fin 32768) col) :
    ∀ k' : Fin k0_t1_loop.trips, k'.val < k.val + 1 → ∀ j ∈ oS0 L k',
      ((oSl0 L k).view.write (Elt F) fd X Finset.univ : Buf (Elt F) (oLoc d)) j = pvOf T1 I4 j := by
  intro k' hk' j hj
  by_cases hkk : k'.val = k.val
  · have e : k' = k := Fin.ext hkk
    subst e
    obtain ⟨y, rfl⟩ := View.exists_emb_of_mem_set (oSl0 L k').view (show j ∈ (oSl0 L k').view.set from hj)
    obtain ⟨r, col, rfl⟩ : ∃ (r : Fin 2) (col : Fin 128), y = ix2 r col := ⟨y 0, y 1, eq_ix2 y⟩
    refine (View.write_emb_of_mem (v := (oSl0 L k').view) fd X (Finset.mem_univ _)).trans ?_
    show X (ix2 r col) = pvOf T1 I4 ((oSl0 L k').view.emb (ix2 r col))
    rw [jn_emb0 L k' (ix2 r col)]
    exact (hob r col).trans (pvOf_apply T1 I4 col _).symm
  · have hlt : k'.val < k.val := by omega
    have hnot : j ∉ (oSl0 L k).view.setOn Finset.univ := by
      rw [View.setOn_univ]
      intro hin
      have a := (jn_mem_oS0 L k' j).mp hj
      have b := (jn_mem_oS0 L k j).mp hin
      omega
    rw [View.write_of_not_mem fd X Finset.univ hnot]
    exact hfd k' hlt j hj

/-- ALL THE TRIPS. Once every trip's rows hold the pooled sums, so does the whole family of rows this staging buffer serves. -/
theorem join0 (f : Buf (Elt F) (oLoc d))
    (h : ∀ k' : Fin k0_t1_loop.trips, k'.val < 256 → ∀ j ∈ oS0 L k', f j = pvOf T1 I4 j) :
    ∀ j ∈ oSet0 L, f j = pvOf T1 I4 j := by
  intro j hj
  unfold oSet0 at hj
  obtain ⟨k', -, hk'⟩ := Finset.mem_biUnion.mp hj
  exact h k' (lt_of_lt_of_eq k'.isLt jn_trips) j hk'

end Step0

/-- The rows of the result the second staging buffer's copy-out of trip `k` writes. -/
theorem jn_mem_oS1 (k : Fin k0_t1_loop.trips) (j : S32768x128.Idx) :
    j ∈ oS1 L k ↔ 1024 * wOf L + 4 * k.val + 2 ≤ (j 0).val ∧ (j 0).val < 1024 * wOf L + 4 * k.val + 2 + 2 := by
  show j ∈ ((View.whole (main_v5_scv : Ref sig .scVector)).slice
      (Rect.unit (s := S32768x128) (k0_off39 L k) S2x128.size (k0_off39_inb L k))).set ↔ _
  rw [View.set_slice_whole, Rect.mem_set_unit, k0_off39_eq]
  unfold wOf
  have h1 : (j 1).val < 128 := (j 1).isLt
  constructor
  · intro h
    have h0 : 2048 * (L 1).val + 1024 * (L 0).val + 4 * k.val + 2 ≤ (j 0).val
        ∧ (j 0).val < 2048 * (L 1).val + 1024 * (L 0).val + 4 * k.val + 2 + 2 := h (0 : Fin 2)
    omega
  · intro h a
    match a with
    | ⟨0, _⟩ =>
      show 2048 * (L 1).val + 1024 * (L 0).val + 4 * k.val + 2 ≤ (j 0).val
        ∧ (j 0).val < 2048 * (L 1).val + 1024 * (L 0).val + 4 * k.val + 2 + 2
      omega
    | ⟨1, _⟩ =>
      show 0 ≤ (j 1).val ∧ (j 1).val < 0 + 128
      omega

/-- Where the copy-out of trip `k` puts entry `y` of the staging buffer: row `1024 w + 4 k + 2 + y 0`, column `y 1`. -/
theorem jn_emb1 (k : Fin k0_t1_loop.trips) (y : S2x128.Idx) :
    (oSl1 L k).view.emb y = ix2 (⟨1024 * wOf L + 4 * k.val + 2 + (y 0).val, by
        have hy0 : (y 0).val < 2 := (y 0).isLt; have := wOf_lt L; have := lt_of_lt_of_eq k.isLt jn_trips; show _ < 32768; omega⟩ : Fin 32768) (y 1) := by
  funext a
  apply Fin.ext
  match a with
  | ⟨0, _⟩ =>
    show (k0_off39 L k) (0 : Fin 2) + 1 * (y 0).val = 1024 * wOf L + 4 * k.val + 2 + (y 0).val
    rw [k0_off39_eq]; unfold wOf
    show 2048 * (L 1).val + 1024 * (L 0).val + 4 * k.val + 2 + 1 * (y 0).val = _
    omega
  | ⟨1, _⟩ =>
    show (k0_off39 L k) (1 : Fin 2) + 1 * (y 1).val = (y 1).val
    rw [k0_off39_eq]
    show 0 + 1 * (y 1).val = _
    omega

section Step1
variable [FloatOps F] (d : Dev nD)
  (T1 : (⟨2, ![100008, 128]⟩ : Shape).Idx → Elt F .f32) (I4 : (⟨1, ![2097152]⟩ : Shape).Idx → BitVec 32)

/-- ONE COPY-OUT. If the result rows the earlier trips wrote hold the pooled sums, and the staging buffer holds the two
    pooled rows of this trip, then after the copy-out the rows of the trips up to this one hold the pooled sums: the
    copy-out writes its own two rows and leaves every other row alone. -/
theorem out_step1 (k : Fin k0_t1_loop.trips) (fd : Buf (Elt F) (oLoc d)) (X : S2x128.Idx → Elt F .f32)
    (hfd : ∀ k' : Fin k0_t1_loop.trips, k'.val < k.val → ∀ j ∈ oS1 L k', fd j = pvOf T1 I4 j)
    (hob : ∀ (r : Fin 2) (col : Fin 128), X (ix2 r col) = rowSum T1 I4 (⟨1024 * wOf L + 4 * k.val + 2 + r.val, by
        have hr0 : r.val < 2 := r.isLt; have := wOf_lt L; have := lt_of_lt_of_eq k.isLt jn_trips; show _ < 32768; omega⟩ : Fin 32768) col) :
    ∀ k' : Fin k0_t1_loop.trips, k'.val < k.val + 1 → ∀ j ∈ oS1 L k',
      ((oSl1 L k).view.write (Elt F) fd X Finset.univ : Buf (Elt F) (oLoc d)) j = pvOf T1 I4 j := by
  intro k' hk' j hj
  by_cases hkk : k'.val = k.val
  · have e : k' = k := Fin.ext hkk
    subst e
    obtain ⟨y, rfl⟩ := View.exists_emb_of_mem_set (oSl1 L k').view (show j ∈ (oSl1 L k').view.set from hj)
    obtain ⟨r, col, rfl⟩ : ∃ (r : Fin 2) (col : Fin 128), y = ix2 r col := ⟨y 0, y 1, eq_ix2 y⟩
    refine (View.write_emb_of_mem (v := (oSl1 L k').view) fd X (Finset.mem_univ _)).trans ?_
    show X (ix2 r col) = pvOf T1 I4 ((oSl1 L k').view.emb (ix2 r col))
    rw [jn_emb1 L k' (ix2 r col)]
    exact (hob r col).trans (pvOf_apply T1 I4 col _).symm
  · have hlt : k'.val < k.val := by omega
    have hnot : j ∉ (oSl1 L k).view.setOn Finset.univ := by
      rw [View.setOn_univ]
      intro hin
      have a := (jn_mem_oS1 L k' j).mp hj
      have b := (jn_mem_oS1 L k j).mp hin
      omega
    rw [View.write_of_not_mem fd X Finset.univ hnot]
    exact hfd k' hlt j hj

/-- ALL THE TRIPS. Once every trip's rows hold the pooled sums, so does the whole family of rows this staging buffer serves. -/
theorem join1 (f : Buf (Elt F) (oLoc d))
    (h : ∀ k' : Fin k0_t1_loop.trips, k'.val < 256 → ∀ j ∈ oS1 L k', f j = pvOf T1 I4 j) :
    ∀ j ∈ oSet1 L, f j = pvOf T1 I4 j := by
  intro j hj
  unfold oSet1 at hj
  obtain ⟨k', -, hk'⟩ := Finset.mem_biUnion.mp hj
  exact h k' (lt_of_lt_of_eq k'.isLt jn_trips) j hk'

end Step1

end Cert.KernelIdeal.Run.Tile

end
-- ==== Proof.ScAcc.lean ====
import proofs.«209176_g73847667688168_cont_9to1_m_420_10_alg».proof.Proof.ScSum
import proofs.«209176_g73847667688168_cont_9to1_m_420_10_alg».proof.Proof.Gen.KernelIdeal
import Idealize.ShloMosaic.Lib.ValueIdx
import Idealize.ShloMosaic.Lib.Pipeline.Value
import Idealize.ShloMosaic.Lib.Pipeline.FrameBody

noncomputable section

namespace Cert.KernelIdeal.Run.Tile

open Cert.KernelIdeal Cert.KernelIdeal.Gen
open Idealize.ShloMosaic Idealize.ShloMosaic.ValueIdx Idealize.SL.Sem

variable {F : FTy → Type} [FloatOps F]

/-! # The row loops' arithmetic

A round gathers the 100 table rows its two bags name into a scratch of 100 rows (the first bag's 50, then the second's).
A row loop runs ten trips over one bag; each trip adds five consecutive gathered rows to eight accumulators of 16 lanes
(lane `c` of accumulator `cc` is column `16 cc + c`). After `n` trips an accumulator holds, lane by lane, the sum of
the bag's first `5 n` rows at its column, added up from zero in order. -/

/-- The eight accumulators. -/
abbrev Acc8 (F : FTy → Type) : Type := FVec F S16 .f32 × FVec F S16 .f32 × FVec F S16 .f32 × FVec F S16 .f32 × FVec F S16 .f32 × FVec F S16 .f32 × FVec F S16 .f32 × FVec F S16 .f32

/-- Accumulator `cc` of the eight. -/
def Acc8.get (a : Acc8 F) : Fin 8 → FVec F S16 .f32
  | ⟨0, _⟩ => a.1 | ⟨1, _⟩ => a.2.1 | ⟨2, _⟩ => a.2.2.1 | ⟨3, _⟩ => a.2.2.2.1
  | ⟨4, _⟩ => a.2.2.2.2.1 | ⟨5, _⟩ => a.2.2.2.2.2.1 | ⟨6, _⟩ => a.2.2.2.2.2.2.1 | ⟨7, _⟩ => a.2.2.2.2.2.2.2

/-- The zero accumulator. -/
def zvec : FVec F S16 .f32 := broadcast S16 (Scalar.ofBits (F := F) .f32 0x00000000#32)
def zero8 : Acc8 F := (zvec, zvec, zvec, zvec, zvec, zvec, zvec, zvec)

/-- Sixteen lanes of a gathered row, as the body loads them. -/
abbrev ldc (m : Memref sig .scVector .vmem S100x128 .f32) (f : m.view.ty.Contents (Elt F)) (off : Fin 2 → Nat)
    (inb : ∀ a, off a + S1x16.size a ≤ S100x128.size a) : Vec F S1x16 .f32 :=
  View.readAt (Elt F) m.view (Rect.unit (s := S100x128) off S1x16.size inb).toLoadRect f

/-- One trip's update of one accumulator: five loaded rows added in order. -/
def step5 (a : FVec F S16 .f32) (l0 l1 l2 l3 l4 : Vec F S1x16 .f32) : FVec F S16 .f32 :=
  addf (addf (addf (addf (addf a (shapeCast S16 l0 shapeCasts_S1x16_S16)) (shapeCast S16 l1 shapeCasts_S1x16_S16))
    (shapeCast S16 l2 shapeCasts_S1x16_S16)) (shapeCast S16 l3 shapeCasts_S1x16_S16)) (shapeCast S16 l4 shapeCasts_S1x16_S16)

/-- A loaded chunk, cast to a vector, at a lane: the scratch at the chunk's row and the lane's column. -/
theorem ldc_lane (m : Memref sig .scVector .vmem S100x128 .f32) (f : m.view.ty.Contents (Elt F)) (off : Fin 2 → Nat)
    (inb : ∀ a, off a + S1x16.size a ≤ S100x128.size a) (lane : Fin 16) :
    shapeCast S16 (ldc m f off inb) shapeCasts_S1x16_S16 (ix1 lane)
      = m.view.read (Elt F) f (ix2 (⟨off 0, by have := inb 0; show off 0 < 100; have e : S1x16.size 0 = 1 := rfl; have e' : S100x128.size 0 = 100 := rfl; omega⟩ : Fin 100)
          (⟨off 1 + lane.val, by have := inb 1; have := lane.isLt; show off 1 + lane.val < 128; have e : S1x16.size 1 = 16 := rfl; have e' : S100x128.size 1 = 128 := rfl; omega⟩ : Fin 128)) := by
  refine (shapeCast_apply _ _ (ix1 lane) (ix2 (0 : Fin 1) lane) (by
    rw [Shape.rowMajor_val_one, Shape.rowMajor_val_two]; simp)).trans ?_
  show m.view.read (Elt F) f ((Rect.unit (s := S100x128) off S1x16.size inb).idx (ix2 (0 : Fin 1) lane)) = _
  refine congrArg (m.view.read (Elt F) f) (funext fun a => Fin.ext ?_)
  match a with
  | ⟨0, _⟩ => show off 0 + 1 * 0 = off 0; omega
  | ⟨1, _⟩ => show off 1 + 1 * lane.val = off 1 + lane.val; omega

theorem zvec_lane (lane : Fin 16) : (zvec (F := F)) (ix1 lane) = zeroF := rfl

theorem step5_lane (a : FVec F S16 .f32) (l0 l1 l2 l3 l4 : Vec F S1x16 .f32) (i : S16.Idx) :
    step5 a l0 l1 l2 l3 l4 i
      = FloatOps.addf (FloatOps.addf (FloatOps.addf (FloatOps.addf (FloatOps.addf (a i) (shapeCast S16 l0 shapeCasts_S1x16_S16 i))
          (shapeCast S16 l1 shapeCasts_S1x16_S16 i)) (shapeCast S16 l2 shapeCasts_S1x16_S16 i)) (shapeCast S16 l3 shapeCasts_S1x16_S16 i))
          (shapeCast S16 l4 shapeCasts_S1x16_S16 i) := rfl

/-! ## The row loop over the first bag of a round (offsets `k0_off4` … `k0_off11`) -/

theorem trips2 : k0_t2_loop.trips = 10 := by decide

/-- One trip of the loop, on the eight accumulators. -/
def stepT2 (m : Memref sig .scVector .vmem S100x128 .f32) (f : m.view.ty.Contents (Elt F)) (j : Fin k0_t2_loop.trips) (a : Acc8 F) : Acc8 F :=
  (step5 a.1 (ldc m f (k0_off4 j 0#32) (k0_off4_inb j 0)) (ldc m f (k0_off4 j 1#32) (k0_off4_inb j 1)) (ldc m f (k0_off4 j 2#32) (k0_off4_inb j 2)) (ldc m f (k0_off4 j 3#32) (k0_off4_inb j 3)) (ldc m f (k0_off4 j 4#32) (k0_off4_inb j 4)),
   step5 a.2.1 (ldc m f (k0_off5 j 0#32) (k0_off5_inb j 0)) (ldc m f (k0_off5 j 1#32) (k0_off5_inb j 1)) (ldc m f (k0_off5 j 2#32) (k0_off5_inb j 2)) (ldc m f (k0_off5 j 3#32) (k0_off5_inb j 3)) (ldc m f (k0_off5 j 4#32) (k0_off5_inb j 4)),
   step5 a.2.2.1 (ldc m f (k0_off6 j 0#32) (k0_off6_inb j 0)) (ldc m f (k0_off6 j 1#32) (k0_off6_inb j 1)) (ldc m f (k0_off6 j 2#32) (k0_off6_inb j 2)) (ldc m f (k0_off6 j 3#32) (k0_off6_inb j 3)) (ldc m f (k0_off6 j 4#32) (k0_off6_inb j 4)),
   step5 a.2.2.2.1 (ldc m f (k0_off7 j 0#32) (k0_off7_inb j 0)) (ldc m f (k0_off7 j 1#32) (k0_off7_inb j 1)) (ldc m f (k0_off7 j 2#32) (k0_off7_inb j 2)) (ldc m f (k0_off7 j 3#32) (k0_off7_inb j 3)) (ldc m f (k0_off7 j 4#32) (k0_off7_inb j 4)),
   step5 a.2.2.2.2.1 (ldc m f (k0_off8 j 0#32) (k0_off8_inb j 0)) (ldc m f (k0_off8 j 1#32) (k0_off8_inb j 1)) (ldc m f (k0_off8 j 2#32) (k0_off8_inb j 2)) (ldc m f (k0_off8 j 3#32) (k0_off8_inb j 3)) (ldc m f (k0_off8 j 4#32) (k0_off8_inb j 4)),
   step5 a.2.2.2.2.2.1 (ldc m f (k0_off9 j 0#32) (k0_off9_inb j 0)) (ldc m f (k0_off9 j 1#32) (k0_off9_inb j 1)) (ldc m f (k0_off9 j 2#32) (k0_off9_inb j 2)) (ldc m f (k0_off9 j 3#32) (k0_off9_inb j 3)) (ldc m f (k0_off9 j 4#32) (k0_off9_inb j 4)),
   step5 a.2.2.2.2.2.2.1 (ldc m f (k0_off10 j 0#32) (k0_off10_inb j 0)) (ldc m f (k0_off10 j 1#32) (k0_off10_inb j 1)) (ldc m f (k0_off10 j 2#32) (k0_off10_inb j 2)) (ldc m f (k0_off10 j 3#32) (k0_off10_inb j 3)) (ldc m f (k0_off10 j 4#32) (k0_off10_inb j 4)),
   step5 a.2.2.2.2.2.2.2 (ldc m f (k0_off11 j 0#32) (k0_off11_inb j 0)) (ldc m f (k0_off11 j 1#32) (k0_off11_inb j 1)) (ldc m f (k0_off11 j 2#32) (k0_off11_inb j 2)) (ldc m f (k0_off11 j 3#32) (k0_off11_inb j 3)) (ldc m f (k0_off11 j 4#32) (k0_off11_inb j 4)))

/-- The accumulators after `n` trips. -/
def accsT2 (m : Memref sig .scVector .vmem S100x128 .f32) (f : m.view.ty.Contents (Elt F)) : ℕ → Acc8 F
  | 0 => zero8
  | n + 1 => if h : n < k0_t2_loop.trips then stepT2 m f ⟨n, h⟩ (accsT2 m f n) else accsT2 m f n

theorem accsT2_zero (m : Memref sig .scVector .vmem S100x128 .f32) (f : m.view.ty.Contents (Elt F)) : accsT2 m f 0 = zero8 := rfl

theorem accsT2_succ (m : Memref sig .scVector .vmem S100x128 .f32) (f : m.view.ty.Contents (Elt F)) (j : Fin k0_t2_loop.trips) :
    accsT2 m f (j.val + 1) = stepT2 m f j (accsT2 m f j.val) := by
  show (if h : j.val < k0_t2_loop.trips then stepT2 m f ⟨j.val, h⟩ (accsT2 m f j.val) else accsT2 m f j.val) = _
  rw [dif_pos j.isLt]

/-- A component of one trip's update. -/
theorem stepT2_get (m : Memref sig .scVector .vmem S100x128 .f32) (f : m.view.ty.Contents (Elt F)) (j : Fin k0_t2_loop.trips) (a : Acc8 F) :
    ∀ cc : Fin 8, (stepT2 m f j a).get cc = match cc with
      | ⟨0, _⟩ => step5 (a.get ⟨0, by decide⟩) (ldc m f (k0_off4 j 0#32) (k0_off4_inb j 0)) (ldc m f (k0_off4 j 1#32) (k0_off4_inb j 1)) (ldc m f (k0_off4 j 2#32) (k0_off4_inb j 2)) (ldc m f (k0_off4 j 3#32) (k0_off4_inb j 3)) (ldc m f (k0_off4 j 4#32) (k0_off4_inb j 4))
      | ⟨1, _⟩ => step5 (a.get ⟨1, by decide⟩) (ldc m f (k0_off5 j 0#32) (k0_off5_inb j 0)) (ldc m f (k0_off5 j 1#32) (k0_off5_inb j 1)) (ldc m f (k0_off5 j 2#32) (k0_off5_inb j 2)) (ldc m f (k0_off5 j 3#32) (k0_off5_inb j 3)) (ldc m f (k0_off5 j 4#32) (k0_off5_inb j 4))
      | ⟨2, _⟩ => step5 (a.get ⟨2, by decide⟩) (ldc m f (k0_off6 j 0#32) (k0_off6_inb j 0)) (ldc m f (k0_off6 j 1#32) (k0_off6_inb j 1)) (ldc m f (k0_off6 j 2#32) (k0_off6_inb j 2)) (ldc m f (k0_off6 j 3#32) (k0_off6_inb j 3)) (ldc m f (k0_off6 j 4#32) (k0_off6_inb j 4))
      | ⟨3, _⟩ => step5 (a.get ⟨3, by decide⟩) (ldc m f (k0_off7 j 0#32) (k0_off7_inb j 0)) (ldc m f (k0_off7 j 1#32) (k0_off7_inb j 1)) (ldc m f (k0_off7 j 2#32) (k0_off7_inb j 2)) (ldc m f (k0_off7 j 3#32) (k0_off7_inb j 3)) (ldc m f (k0_off7 j 4#32) (k0_off7_inb j 4))
      | ⟨4, _⟩ => step5 (a.get ⟨4, by decide⟩) (ldc m f (k0_off8 j 0#32) (k0_off8_inb j 0)) (ldc m f (k0_off8 j 1#32) (k0_off8_inb j 1)) (ldc m f (k0_off8 j 2#32) (k0_off8_inb j 2)) (ldc m f (k0_off8 j 3#32) (k0_off8_inb j 3)) (ldc m f (k0_off8 j 4#32) (k0_off8_inb j 4))
      | ⟨5, _⟩ => step5 (a.get ⟨5, by decide⟩) (ldc m f (k0_off9 j 0#32) (k0_off9_inb j 0)) (ldc m f (k0_off9 j 1#32) (k0_off9_inb j 1)) (ldc m f (k0_off9 j 2#32) (k0_off9_inb j 2)) (ldc m f (k0_off9 j 3#32) (k0_off9_inb j 3)) (ldc m f (k0_off9 j 4#32) (k0_off9_inb j 4))
      | ⟨6, _⟩ => step5 (a.get ⟨6, by decide⟩) (ldc m f (k0_off10 j 0#32) (k0_off10_inb j 0)) (ldc m f (k0_off10 j 1#32) (k0_off10_inb j 1)) (ldc m f (k0_off10 j 2#32) (k0_off10_inb j 2)) (ldc m f (k0_off10 j 3#32) (k0_off10_inb j 3)) (ldc m f (k0_off10 j 4#32) (k0_off10_inb j 4))
      | ⟨7, _⟩ => step5 (a.get ⟨7, by decide⟩) (ldc m f (k0_off11 j 0#32) (k0_off11_inb j 0)) (ldc m f (k0_off11 j 1#32) (k0_off11_inb j 1)) (ldc m f (k0_off11 j 2#32) (k0_off11_inb j 2)) (ldc m f (k0_off11 j 3#32) (k0_off11_inb j 3)) (ldc m f (k0_off11 j 4#32) (k0_off11_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u`, column `16 cc + lane`. -/
theorem ld2_lane (m : Memref sig .scVector .vmem S100x128 .f32) (f : m.view.ty.Contents (Elt F)) (j : Fin k0_t2_loop.trips) (u : Fin 5) (lane : Fin 16) :
    ∀ cc : Fin 8, (match cc with
      | ⟨0, _⟩ => shapeCast S16 (ldc m f (k0_off4 j (BitVec.ofNat 32 u.val)) (k0_off4_inb j u)) shapeCasts_S1x16_S16 (ix1 lane)
      | ⟨1, _⟩ => shapeCast S16 (ldc m f (k0_off5 j (BitVec.ofNat 32 u.val)) (k0_off5_inb j u)) shapeCasts_S1x16_S16 (ix1 lane)
      | ⟨2, _⟩ => shapeCast S16 (ldc m f (k0_off6 j (BitVec.ofNat 32 u.val)) (k0_off6_inb j u)) shapeCasts_S1x16_S16 (ix1 lane)
      | ⟨3, _⟩ => shapeCast S16 (ldc m f (k0_off7 j (BitVec.ofNat 32 u.val)) (k0_off7_inb j u)) shapeCasts_S1x16_S16 (ix1 lane)
      | ⟨4, _⟩ => shapeCast S16 (ldc m f (k0_off8 j (BitVec.ofNat 32 u.val)) (k0_off8_inb j u)) shapeCasts_S1x16_S16 (ix1 lane)
      | ⟨5, _⟩ => shapeCast S16 (ldc m f (k0_off9 j (BitVec.ofNat 32 u.val)) (k0_off9_inb j u)) shapeCasts_S1x16_S16 (ix1 lane)
      | ⟨6, _⟩ => shapeCast S16 (ldc m f (k0_off10 j (BitVec.ofNat 32 u.val)) (k0_off10_inb j u)) shapeCasts_S1x16_S16 (ix1 lane)
      | ⟨7, _⟩ => shapeCast S16 (ldc m f (k0_off11 j (BitVec.ofNat 32 u.val)) (k0_off11_inb j u)) shapeCasts_S1x16_S16 (ix1 lane))
      = m.view.read (Elt F) f (ix2 (⟨5 * j.val + u.val, by have := lt_of_lt_of_eq j.isLt trips2; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off4 j (BitVec.ofNat 32 u.val)) 0 = 5 * j.val + u.val; rw [k0_off4_eq j u]; rfl
    | ⟨1, _⟩ => show (k0_off4 j (BitVec.ofNat 32 u.val)) 1 + lane.val = 16 * 0 + lane.val; rw [k0_off4_eq j u]; rfl
  | ⟨1, _⟩ => by
    refine (ldc_lane m f _ _ lane).trans (congrArg (m.view.read (Elt F) f) (funext fun a => Fin.ext ?_))
    match a with
    | ⟨0, _⟩ => show (k0_off5 j (BitVec.ofNat 32 u.val)) 0 = 5 * j.val + u.val; rw [k0_off5_eq j u]; rfl
    | ⟨1, _⟩ => show (k0_off5 j (BitVec.ofNat 32 u.val)) 1 + lane.val = 16 * 1 + lane.val; rw [k0_off5_eq j u]; rfl
  | ⟨2, _⟩ => by
    refine (ldc_lane m f _ _ lane).trans (congrArg (m.view.read (Elt F) f) (funext fun a => Fin.ext ?_))
    match a with
    | ⟨0, _⟩ => show (k0_off6 j (BitVec.ofNat 32 u.val)) 0 = 5 * j.val + u.val; rw [k0_off6_eq j u]; rfl
    | ⟨1, _⟩ => show (k0_off6 j (BitVec.ofNat 32 u.val)) 1 + lane.val = 16 * 2 + lane.val; rw [k0_off6_eq j u]; rfl
  | ⟨3, _⟩ => by
    refine (ldc_lane m f _ _ lane).trans (congrArg (m.view.read (Elt F) f) (funext fun a => Fin.ext ?_))
    match a with
    | ⟨0, _⟩ => show (k0_off7 j (BitVec.ofNat 32 u.val)) 0 = 5 * j.val + u.val; rw [k0_off7_eq j u]; rfl
    | ⟨1, _⟩ => show (k0_off7 j (BitVec.ofNat 32 u.val)) 1 + lane.val = 16 * 3 + lane.val; rw [k0_off7_eq j u]; rfl
  | ⟨4, _⟩ => by
    refine (ldc_lane m f _ _ lane).trans (congrArg (m.view.read (Elt F) f) (funext fun a => Fin.ext ?_))
    match a with
    | ⟨0, _⟩ => show (k0_off8 j (BitVec.ofNat 32 u.val)) 0 = 5 * j.val + u.val; rw [k0_off8_eq j u]; rfl
    | ⟨1, _⟩ => show (k0_off8 j (BitVec.ofNat 32 u.val)) 1 + lane.val = 16 * 4 + lane.val; rw [k0_off8_eq j u]; rfl
  | ⟨5, _⟩ => by
    refine (ldc_lane m f _ _ lane).trans (congrArg (m.view.read (Elt F) f) (funext fun a => Fin.ext ?_))
    match a with
    | ⟨0, _⟩ => show (k0_off9 j (BitVec.ofNat 32 u.val)) 0 = 5 * j.val + u.val; rw [k0_off9_eq j u]; rfl
    | ⟨1, _⟩ => show (k0_off9 j (BitVec.ofNat 32 u.val)) 1 + lane.val = 16 * 5 + lane.val; rw [k0_off9_eq j u]; rfl
  | ⟨6, _⟩ => by
    refine (ldc_lane m f _ _ lane).trans (congrArg (m.view.read (Elt F) f) (funext fun a => Fin.ext ?_))
    match a with
    | ⟨0, _⟩ => show (k0_off10 j (BitVec.ofNat 32 u.val)) 0 = 5 * j.val + u.val; rw [k0_off10_eq j u]; rfl
    | ⟨1, _⟩ => show (k0_off10 j (BitVec.ofNat 32 u.val)) 1 + lane.val = 16 * 6 + lane.val; rw [k0_off10_eq j u]; rfl
  | ⟨7, _⟩ => by
    refine (ldc_lane m f _ _ lane).trans (congrArg (m.view.read (Elt F) f) (funext fun a => Fin.ext ?_))
    match a with
    | ⟨0, _⟩ => show (k0_off11 j (BitVec.ofNat 32 u.val)) 0 = 5 * j.val + u.val; rw [k0_off11_eq j u]; rfl
    | ⟨1, _⟩ => show (k0_off11 j (BitVec.ofNat 32 u.val)) 1 + lane.val = 16 * 7 + lane.val; rw [k0_off11_eq j u]; rfl

/-! ## The row loop over the second bag of a round (offsets `k0_off12` … `k0_off19`) -/

theorem trips3 : k0_t3_loop.trips = 10 := by decide

/-- One trip of the loop, on the eight accumulators. -/
def stepT3 (m : Memref sig .scVector .vmem S100x128 .f32) (f : m.view.ty.Contents (Elt F)) (j : Fin k0_t3_loop.trips) (a : Acc8 F) : Acc8 F :=
  (step5 a.1 (ldc m f (k0_off12 j 0#32) (k0_off12_inb j 0)) (ldc m f (k0_off12 j 1#32) (k0_off12_inb j 1)) (ldc m f (k0_off12 j 2#32) (k0_off12_inb j 2)) (ldc m f (k0_off12 j 3#32) (k0_off12_inb j 3)) (ldc m f (k0_off12 j 4#32) (k0_off12_inb j 4)),
   step5 a.2.1 (ldc m f (k0_off13 j 0#32) (k0_off13_inb j 0)) (ldc m f (k0_off13 j 1#32) (k0_off13_inb j 1)) (ldc m f (k0_off13 j 2#32) (k0_off13_inb j 2)) (ldc m f (k0_off13 j 3#32) (k0_off13_inb j 3)) (ldc m f (k0_off13 j 4#32) (k0_off13_inb j 4)),
   step5 a.2.2.1 (ldc m f (k0_off14 j 0#32) (k0_off14_inb j 0)) (ldc m f (k0_off14 j 1#32) (k0_off14_inb j 1)) (ldc m f (k0_off14 j 2#32) (k0_off14_inb j 2)) (ldc m f (k0_off14 j 3#32) (k0_off14_inb j 3)) (ldc m f (k0_off14 j 4#32) (k0_off14_inb j 4)),
   step5 a.2.2.2.1 (ldc m f (k0_off15 j 0#32) (k0_off15_inb j 0)) (ldc m f (k0_off15 j 1#32) (k0_off15_inb j 1)) (ldc m f (k0_off15 j 2#32) (k0_off15_inb j 2)) (ldc m f (k0_off15 j 3#32) (k0_off15_inb j 3)) (ldc m f (k0_off15 j 4#32) (k0_off15_inb j 4)),
   step5 a.2.2.2.2.1 (ldc m f (k0_off16 j 0#32) (k0_off16_inb j 0)) (ldc m f (k0_off16 j 1#32) (k0_off16_inb j 1)) (ldc m f (k0_off16 j 2#32) (k0_off16_inb j 2)) (ldc m f (k0_off16 j 3#32) (k0_off16_inb j 3)) (ldc m f (k0_off16 j 4#32) (k0_off16_inb j 4)),
   step5 a.2.2.2.2.2.1 (ldc m f (k0_off17 j 0#32) (k0_off17_inb j 0)) (ldc m f (k0_off17 j 1#32) (k0_off17_inb j 1)) (ldc m f (k0_off17 j 2#32) (k0_off17_inb j 2)) (ldc m f (k0_off17 j 3#32) (k0_off17_inb j 3)) (ldc m f (k0_off17 j 4#32) (k0_off17_inb j 4)),
   step5 a.2.2.2.2.2.2.1 (ldc m f (k0_off18 j 0#32) (k0_off18_inb j 0)) (ldc m f (k0_off18 j 1#32) (k0_off18_inb j 1)) (ldc m f (k0_off18 j 2#32) (k0_off18_inb j 2)) (ldc m f (k0_off18 j 3#32) (k0_off18_inb j 3)) (ldc m f (k0_off18 j 4#32) (k0_off18_inb j 4)),
   step5 a.2.2.2.2.2.2.2 (ldc m f (k0_off19 j 0#32) (k0_off19_inb j 0)) (ldc m f (k0_off19 j 1#32) (k0_off19_inb j 1)) (ldc m f (k0_off19 j 2#32) (k0_off19_inb j 2)) (ldc m f (k0_off19 j 3#32) (k0_off19_inb j 3)) (ldc m f (k0_off19 j 4#32) (k0_off19_inb j 4)))

/-- The accumulators after `n` trips. -/
def accsT3 (m : Memref sig .scVector .vmem S100x128 .f32) (f : m.view.ty.Contents (Elt F)) : ℕ → Acc8 F
  | 0 => zero8
  | n + 1 => if h : n < k0_t3_loop.trips then stepT3 m f ⟨n, h⟩ (accsT3 m f n) else accsT3 m f n

theorem accsT3_zero (m : Memref sig .scVector .vmem S100x128 .f32) (f : m.view.ty.Contents (Elt F)) : accsT3 m f 0 = zero8 := rfl

theorem accsT3_succ (m : Memref sig .scVector .vmem S100x128 .f32) (f : m.view.ty.Contents (Elt F)) (j : Fin k0_t3_loop.trips) :
    accsT3 m f (j.val + 1) = stepT3 m f j (accsT3 m f j.val) := by
  show (if h : j.val < k0_t3_loop.trips then stepT3 m f ⟨j.val, h⟩ (accsT3 m f j.val) else accsT3 m f j.val) = _
  rw [dif_pos j.isLt]

/-- A component of one trip's update. -/
theorem stepT3_get (m : Memref sig .scVector .vmem S100x128 .f32) (f : m.view.ty.Contents (Elt F)) (j : Fin k0_t3_loop.trips) (a : Acc8 F) :
    ∀ cc : Fin 8, (stepT3 m f j a).get cc = match cc with
      | ⟨0, _⟩ => step5 (a.get ⟨0, by decide⟩) (ldc m f (k0_off12 j 0#32) (k0_off12_inb j 0)) (ldc m f (k0_off12 j 1#32) (k0_off12_inb j 1)) (ldc m f (k0_off12 j 2#32) (k0_off12_inb j 2)) (ldc m f (k0_off12 j 3#32) (k0_off12_inb j 3)) (ldc m f (k0_off12 j 4#32) (k0_off12_inb j 4))
      | ⟨1, _⟩ => step5 (a.get ⟨1, by decide⟩) (ldc m f (k0_off13 j 0#32) (k0_off13_inb j 0)) (ldc m f (k0_off13 j 1#32) (k0_off13_inb j 1)) (ldc m f (k0_off13 j 2#32) (k0_off13_inb j 2)) (ldc m f (k0_off13 j 3#32) (k0_off13_inb j 3)) (ldc m f (k0_off13 j 4#32) (k0_off13_inb j 4))
      | ⟨2, _⟩ => step5 (a.get ⟨2, by decide⟩) (ldc m f (k0_off14 j 0#32) (k0_off14_inb j 0)) (ldc m f (k0_off14 j 1#32) (k0_off14_inb j 1)) (ldc m f (k0_off14 j 2#32) (k0_off14_inb j 2)) (ldc m f (k0_off14 j 3#32) (k0_off14_inb j 3)) (ldc m f (k0_off14 j 4#32) (k0_off14_inb j 4))
      | ⟨3, _⟩ => step5 (a.get ⟨3, by decide⟩) (ldc m f (k0_off15 j 0#32) (k0_off15_inb j 0)) (ldc m f (k0_off15 j 1#32) (k0_off15_inb j 1)) (ldc m f (k0_off15 j 2#32) (k0_off15_inb j 2)) (ldc m f (k0_off15 j 3#32) (k0_off15_inb j 3)) (ldc m f (k0_off15 j 4#32) (k0_off15_inb j 4))
      | ⟨4, _⟩ => step5 (a.get ⟨4, by decide⟩) (ldc m f (k0_off16 j 0#32) (k0_off16_inb j 0)) (ldc m f (k0_off16 j 1#32) (k0_off16_inb j 1)) (ldc m f (k0_off16 j 2#32) (k0_off16_inb j 2)) (ldc m f (k0_off16 j 3#32) (k0_off16_inb j 3)) (ldc m f (k0_off16 j 4#32) (k0_off16_inb j 4))
      | ⟨5, _⟩ => step5 (a.get ⟨5, by decide⟩) (ldc m f (k0_off17 j 0#32) (k0_off17_inb j 0)) (ldc m f (k0_off17 j 1#32) (k0_off17_inb j 1)) (ldc m f (k0_off17 j 2#32) (k0_off17_inb j 2)) (ldc m f (k0_off17 j 3#32) (k0_off17_inb j 3)) (ldc m f (k0_off17 j 4#32) (k0_off17_inb j 4))
      | ⟨6, _⟩ => step5 (a.get ⟨6, by decide⟩) (ldc m f (k0_off18 j 0#32) (k0_off18_inb j 0)) (ldc m f (k0_off18 j 1#32) (k0_off18_inb j 1)) (ldc m f (k0_off18 j 2#32) (k0_off18_inb j 2)) (ldc m f (k0_off18 j 3#32) (k0_off18_inb j 3)) (ldc m f (k0_off18 j 4#32) (k0_off18_inb j 4))
      | ⟨7, _⟩ => step5 (a.get ⟨7, by decide⟩) (ldc m f (k0_off19 j 0#32) (k0_off19_inb j 0)) (ldc m f (k0_off19 j 1#32) (k0_off19_inb j 1)) (ldc m f (k0_off19 j 2#32) (k0_off19_inb j 2)) (ldc m f (k0_off19 j 3#32) (k0_off19_inb j 3)) (ldc m f (k0_off19 j 4#32) (k0_off19_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u + 50`, column `16 cc + lane`. -/
theorem ld3_lane (m : Memref sig .scVector .vmem S100x128 .f32) (f : m.view.ty.Contents (Elt F)) (j : Fin k0_t3_loop.trips) (u : Fin 5) (lane : Fin 16) :
    ∀ cc : Fin 8, (match cc with
      | ⟨0, _⟩ => shapeCast S16 (ldc m f (k0_off12 j (BitVec.ofNat 32 u.val)) (k0_off12_inb j u)) shapeCasts_S1x16_S16 (ix1 lane)
      | ⟨1, _⟩ => shapeCast S16 (ldc m f (k0_off13 j (BitVec.ofNat 32 u.val)) (k0_off13_inb j u)) shapeCasts_S1x16_S16 (ix1 lane)
      | ⟨2, _⟩ => shapeCast S16 (ldc m f (k0_off14 j (BitVec.ofNat 32 u.val)) (k0_off14_inb j u)) shapeCasts_S1x16_S16 (ix1 lane)
      | ⟨3, _⟩ => shapeCast S16 (ldc m f (k0_off15 j (BitVec.ofNat 32 u.val)) (k0_off15_inb j u)) shapeCasts_S1x16_S16 (ix1 lane)
      | ⟨4, _⟩ => shapeCast S16 (ldc m f (k0_off16 j (BitVec.ofNat 32 u.val)) (k0_off16_inb j u)) shapeCasts_S1x16_S16 (ix1 lane)
      | ⟨5, _⟩ => shapeCast S16 (ldc m f (k0_off17 j (BitVec.ofNat 32 u.val)) (k0_off17_inb j u)) shapeCasts_S1x16_S16 (ix1 lane)
      | ⟨6, _⟩ => shapeCast S16 (ldc m f (k0_off18 j (BitVec.ofNat 32 u.val)) (k0_off18_inb j u)) shapeCasts_S1x16_S16 (ix1 lane)
      | ⟨7, _⟩ => shapeCast S16 (ldc m f (k0_off19 j (BitVec.ofNat 32 u.val)) (k0_off19_inb j u)) shapeCasts_S1x16_S16 (ix1 lane))
      = m.view.read (Elt F) f (ix2 (⟨5 * j.val + u.val + 50, by have := lt_of_lt_of_eq j.isLt trips3; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off12 j (BitVec.ofNat 32 u.val)) 0 = 5 * j.val + u.val + 50; rw [k0_off12_eq j u]; rfl
    | ⟨1, _⟩ => show (k0_off12 j (BitVec.ofNat 32 u.val)) 1 + lane.val = 16 * 0 + lane.val; rw [k0_off12_eq j u]; rfl
  | ⟨1, _⟩ => by
    refine (ldc_lane m f _ _ lane).trans (congrArg (m.view.read (Elt F) f) (funext fun a => Fin.ext ?_))
    match a with
    | ⟨0, _⟩ => show (k0_off13 j (BitVec.ofNat 32 u.val)) 0 = 5 * j.val + u.val + 50; rw [k0_off13_eq j u]; rfl
    | ⟨1, _⟩ => show (k0_off13 j (BitVec.ofNat 32 u.val)) 1 + lane.val = 16 * 1 + lane.val; rw [k0_off13_eq j u]; rfl
  | ⟨2, _⟩ => by
    refine (ldc_lane m f _ _ lane).trans (congrArg (m.view.read (Elt F) f) (funext fun a => Fin.ext ?_))
    match a with
    | ⟨0, _⟩ => show (k0_off14 j (BitVec.ofNat 32 u.val)) 0 = 5 * j.val + u.val + 50; rw [k0_off14_eq j u]; rfl
    | ⟨1, _⟩ => show (k0_off14 j (BitVec.ofNat 32 u.val)) 1 + lane.val = 16 * 2 + lane.val; rw [k0_off14_eq j u]; rfl
  | ⟨3, _⟩ => by
    refine (ldc_lane m f _ _ lane).trans (congrArg (m.view.read (Elt F) f) (funext fun a => Fin.ext ?_))
    match a with
    | ⟨0, _⟩ => show (k0_off15 j (BitVec.ofNat 32 u.val)) 0 = 5 * j.val + u.val + 50; rw [k0_off15_eq j u]; rfl
    | ⟨1, _⟩ => show (k0_off15 j (BitVec.ofNat 32 u.val)) 1 + lane.val = 16 * 3 + lane.val; rw [k0_off15_eq j u]; rfl
  | ⟨4, _⟩ => by
    refine (ldc_lane m f _ _ lane).trans (congrArg (m.view.read (Elt F) f) (funext fun a => Fin.ext ?_))
    match a with
    | ⟨0, _⟩ => show (k0_off16 j (BitVec.ofNat 32 u.val)) 0 = 5 * j.val + u.val + 50; rw [k0_off16_eq j u]; rfl
    | ⟨1, _⟩ => show (k0_off16 j (BitVec.ofNat 32 u.val)) 1 + lane.val = 16 * 4 + lane.val; rw [k0_off16_eq j u]; rfl
  | ⟨5, _⟩ => by
    refine (ldc_lane m f _ _ lane).trans (congrArg (m.view.read (Elt F) f) (funext fun a => Fin.ext ?_))
    match a with
    | ⟨0, _⟩ => show (k0_off17 j (BitVec.ofNat 32 u.val)) 0 = 5 * j.val + u.val + 50; rw [k0_off17_eq j u]; rfl
    | ⟨1, _⟩ => show (k0_off17 j (BitVec.ofNat 32 u.val)) 1 + lane.val = 16 * 5 + lane.val; rw [k0_off17_eq j u]; rfl
  | ⟨6, _⟩ => by
    refine (ldc_lane m f _ _ lane).trans (congrArg (m.view.read (Elt F) f) (funext fun a => Fin.ext ?_))
    match a with
    | ⟨0, _⟩ => show (k0_off18 j (BitVec.ofNat 32 u.val)) 0 = 5 * j.val + u.val + 50; rw [k0_off18_eq j u]; rfl
    | ⟨1, _⟩ => show (k0_off18 j (BitVec.ofNat 32 u.val)) 1 + lane.val = 16 * 6 + lane.val; rw [k0_off18_eq j u]; rfl
  | ⟨7, _⟩ => by
    refine (ldc_lane m f _ _ lane).trans (congrArg (m.view.read (Elt F) f) (funext fun a => Fin.ext ?_))
    match a with
    | ⟨0, _⟩ => show (k0_off19 j (BitVec.ofNat 32 u.val)) 0 = 5 * j.val + u.val + 50; rw [k0_off19_eq j u]; rfl
    | ⟨1, _⟩ => show (k0_off19 j (BitVec.ofNat 32 u.val)) 1 + lane.val = 16 * 7 + lane.val; rw [k0_off19_eq j u]; rfl

/-! ## The row loop over the first bag of a round (offsets `k0_off23` … `k0_off30`) -/

theorem trips4 : k0_t4_loop.trips = 10 := by decide

/-- One trip of the loop, on the eight accumulators. -/
def stepT4 (m : Memref sig .scVector .vmem S100x128 .f32) (f : m.view.ty.Contents (Elt F)) (j : Fin k0_t4_loop.trips) (a : Acc8 F) : Acc8 F :=
  (step5 a.1 (ldc m f (k0_off23 j 0#32) (k0_off23_inb j 0)) (ldc m f (k0_off23 j 1#32) (k0_off23_inb j 1)) (ldc m f (k0_off23 j 2#32) (k0_off23_inb j 2)) (ldc m f (k0_off23 j 3#32) (k0_off23_inb j 3)) (ldc m f (k0_off23 j 4#32) (k0_off23_inb j 4)),
   step5 a.2.1 (ldc m f (k0_off24 j 0#32) (k0_off24_inb j 0)) (ldc m f (k0_off24 j 1#32) (k0_off24_inb j 1)) (ldc m f (k0_off24 j 2#32) (k0_off24_inb j 2)) (ldc m f (k0_off24 j 3#32) (k0_off24_inb j 3)) (ldc m f (k0_off24 j 4#32) (k0_off24_inb j 4)),
   step5 a.2.2.1 (ldc m f (k0_off25 j 0#32) (k0_off25_inb j 0)) (ldc m f (k0_off25 j 1#32) (k0_off25_inb j 1)) (ldc m f (k0_off25 j 2#32) (k0_off25_inb j 2)) (ldc m f (k0_off25 j 3#32) (k0_off25_inb j 3)) (ldc m f (k0_off25 j 4#32) (k0_off25_inb j 4)),
   step5 a.2.2.2.1 (ldc m f (k0_off26 j 0#32) (k0_off26_inb j 0)) (ldc m f (k0_off26 j 1#32) (k0_off26_inb j 1)) (ldc m f (k0_off26 j 2#32) (k0_off26_inb j 2)) (ldc m f (k0_off26 j 3#32) (k0_off26_inb j 3)) (ldc m f (k0_off26 j 4#32) (k0_off26_inb j 4)),
   step5 a.2.2.2.2.1 (ldc m f (k0_off27 j 0#32) (k0_off27_inb j 0)) (ldc m f (k0_off27 j 1#32) (k0_off27_inb j 1)) (ldc m f (k0_off27 j 2#32) (k0_off27_inb j 2)) (ldc m f (k0_off27 j 3#32) (k0_off27_inb j 3)) (ldc m f (k0_off27 j 4#32) (k0_off27_inb j 4)),
   step5 a.2.2.2.2.2.1 (ldc m f (k0_off28 j 0#32) (k0_off28_inb j 0)) (ldc m f (k0_off28 j 1#32) (k0_off28_inb j 1)) (ldc m f (k0_off28 j 2#32) (k0_off28_inb j 2)) (ldc m f (k0_off28 j 3#32) (k0_off28_inb j 3)) (ldc m f (k0_off28 j 4#32) (k0_off28_inb j 4)),
   step5 a.2.2.2.2.2.2.1 (ldc m f (k0_off29 j 0#32) (k0_off29_inb j 0)) (ldc m f (k0_off29 j 1#32) (k0_off29_inb j 1)) (ldc m f (k0_off29 j 2#32) (k0_off29_inb j 2)) (ldc m f (k0_off29 j 3#32) (k0_off29_inb j 3)) (ldc m f (k0_off29 j 4#32) (k0_off29_inb j 4)),
   step5 a.2.2.2.2.2.2.2 (ldc m f (k0_off30 j 0#32) (k0_off30_inb j 0)) (ldc m f (k0_off30 j 1#32) (k0_off30_inb j 1)) (ldc m f (k0_off30 j 2#32) (k0_off30_inb j 2)) (ldc m f (k0_off30 j 3#32) (k0_off30_inb j 3)) (ldc m f (k0_off30 j 4#32) (k0_off30_inb j 4)))

/-- The accumulators after `n` trips. -/
def accsT4 (m : Memref sig .scVector .vmem S100x128 .f32) (f : m.view.ty.Contents (Elt F)) : ℕ → Acc8 F
  | 0 => zero8
  | n + 1 => if h : n < k0_t4_loop.trips then stepT4 m f ⟨n, h⟩ (accsT4 m f n) else accsT4 m f n

theorem accsT4_zero (m : Memref sig .scVector .vmem S100x128 .f32) (f : m.view.ty.Contents (Elt F)) : accsT4 m f 0 = zero8 := rfl

theorem accsT4_succ (m : Memref sig .scVector .vmem S100x128 .f32) (f : m.view.ty.Contents (Elt F)) (j : Fin k0_t4_loop.trips) :
    accsT4 m f (j.val + 1) = stepT4 m f j (accsT4 m f j.val) := by
  show (if h : j.val < k0_t4_loop.trips then stepT4 m f ⟨j.val, h⟩ (accsT4 m f j.val) else accsT4 m f j.val) = _
  rw [dif_pos j.isLt]

/-- A component of one trip's update. -/
theorem stepT4_get (m : Memref sig .scVector .vmem S100x128 .f32) (f : m.view.ty.Contents (Elt F)) (j : Fin k0_t4_loop.trips) (a : Acc8 F) :
    ∀ cc : Fin 8, (stepT4 m f j a).get cc = match cc with
      | ⟨0, _⟩ => step5 (a.get ⟨0, by decide⟩) (ldc m f (k0_off23 j 0#32) (k0_off23_inb j 0)) (ldc m f (k0_off23 j 1#32) (k0_off23_inb j 1)) (ldc m f (k0_off23 j 2#32) (k0_off23_inb j 2)) (ldc m f (k0_off23 j 3#32) (k0_off23_inb j 3)) (ldc m f (k0_off23 j 4#32) (k0_off23_inb j 4))
      | ⟨1, _⟩ => step5 (a.get ⟨1, by decide⟩) (ldc m f (k0_off24 j 0#32) (k0_off24_inb j 0)) (ldc m f (k0_off24 j 1#32) (k0_off24_inb j 1)) (ldc m f (k0_off24 j 2#32) (k0_off24_inb j 2)) (ldc m f (k0_off24 j 3#32) (k0_off24_inb j 3)) (ldc m f (k0_off24 j 4#32) (k0_off24_inb j 4))
      | ⟨2, _⟩ => step5 (a.get ⟨2, by decide⟩) (ldc m f (k0_off25 j 0#32) (k0_off25_inb j 0)) (ldc m f (k0_off25 j 1#32) (k0_off25_inb j 1)) (ldc m f (k0_off25 j 2#32) (k0_off25_inb j 2)) (ldc m f (k0_off25 j 3#32) (k0_off25_inb j 3)) (ldc m f (k0_off25 j 4#32) (k0_off25_inb j 4))
      | ⟨3, _⟩ => step5 (a.get ⟨3, by decide⟩) (ldc m f (k0_off26 j 0#32) (k0_off26_inb j 0)) (ldc m f (k0_off26 j 1#32) (k0_off26_inb j 1)) (ldc m f (k0_off26 j 2#32) (k0_off26_inb j 2)) (ldc m f (k0_off26 j 3#32) (k0_off26_inb j 3)) (ldc m f (k0_off26 j 4#32) (k0_off26_inb j 4))
      | ⟨4, _⟩ => step5 (a.get ⟨4, by decide⟩) (ldc m f (k0_off27 j 0#32) (k0_off27_inb j 0)) (ldc m f (k0_off27 j 1#32) (k0_off27_inb j 1)) (ldc m f (k0_off27 j 2#32) (k0_off27_inb j 2)) (ldc m f (k0_off27 j 3#32) (k0_off27_inb j 3)) (ldc m f (k0_off27 j 4#32) (k0_off27_inb j 4))
      | ⟨5, _⟩ => step5 (a.get ⟨5, by decide⟩) (ldc m f (k0_off28 j 0#32) (k0_off28_inb j 0)) (ldc m f (k0_off28 j 1#32) (k0_off28_inb j 1)) (ldc m f (k0_off28 j 2#32) (k0_off28_inb j 2)) (ldc m f (k0_off28 j 3#32) (k0_off28_inb j 3)) (ldc m f (k0_off28 j 4#32) (k0_off28_inb j 4))
      | ⟨6, _⟩ => step5 (a.get ⟨6, by decide⟩) (ldc m f (k0_off29 j 0#32) (k0_off29_inb j 0)) (ldc m f (k0_off29 j 1#32) (k0_off29_inb j 1)) (ldc m f (k0_off29 j 2#32) (k0_off29_inb j 2)) (ldc m f (k0_off29 j 3#32) (k0_off29_inb j 3)) (ldc m f (k0_off29 j 4#32) (k0_off29_inb j 4))
      | ⟨7, _⟩ => step5 (a.get ⟨7, by decide⟩) (ldc m f (k0_off30 j 0#32) (k0_off30_inb j 0)) (ldc m f (k0_off30 j 1#32) (k0_off30_inb j 1)) (ldc m f (k0_off30 j 2#32) (k0_off30_inb j 2)) (ldc m f (k0_off30 j 3#32) (k0_off30_inb j 3)) (ldc m f (k0_off30 j 4#32) (k0_off30_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u`, column `16 cc + lane`. -/
theorem ld4_lane (m : Memref sig .scVector .vmem S100x128 .f32) (f : m.view.ty.Contents (Elt F)) (j : Fin k0_t4_loop.trips) (u : Fin 5) (lane : Fin 16) :
    ∀ cc : Fin 8, (match cc with
      | ⟨0, _⟩ => shapeCast S16 (ldc m f (k0_off23 j (BitVec.ofNat 32 u.val)) (k0_off23_inb j u)) shapeCasts_S1x16_S16 (ix1 lane)
      | ⟨1, _⟩ => shapeCast S16 (ldc m f (k0_off24 j (BitVec.ofNat 32 u.val)) (k0_off24_inb j u)) shapeCasts_S1x16_S16 (ix1 lane)
      | ⟨2, _⟩ => shapeCast S16 (ldc m f (k0_off25 j (BitVec.ofNat 32 u.val)) (k0_off25_inb j u)) shapeCasts_S1x16_S16 (ix1 lane)
      | ⟨3, _⟩ => shapeCast S16 (ldc m f (k0_off26 j (BitVec.ofNat 32 u.val)) (k0_off26_inb j u)) shapeCasts_S1x16_S16 (ix1 lane)
      | ⟨4, _⟩ => shapeCast S16 (ldc m f (k0_off27 j (BitVec.ofNat 32 u.val)) (k0_off27_inb j u)) shapeCasts_S1x16_S16 (ix1 lane)
      | ⟨5, _⟩ => shapeCast S16 (ldc m f (k0_off28 j (BitVec.ofNat 32 u.val)) (k0_off28_inb j u)) shapeCasts_S1x16_S16 (ix1 lane)
      | ⟨6, _⟩ => shapeCast S16 (ldc m f (k0_off29 j (BitVec.ofNat 32 u.val)) (k0_off29_inb j u)) shapeCasts_S1x16_S16 (ix1 lane)
      | ⟨7, _⟩ => shapeCast S16 (ldc m f (k0_off30 j (BitVec.ofNat 32 u.val)) (k0_off30_inb j u)) shapeCasts_S1x16_S16 (ix1 lane))
      = m.view.read (Elt F) f (ix2 (⟨5 * j.val + u.val, by have := lt_of_lt_of_eq j.isLt trips4; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off23 j (BitVec.ofNat 32 u.val)) 0 = 5 * j.val + u.val; rw [k0_off23_eq j u]; rfl
    | ⟨1, _⟩ => show (k0_off23 j (BitVec.ofNat 32 u.val)) 1 + lane.val = 16 * 0 + lane.val; rw [k0_off23_eq j u]; rfl
  | ⟨1, _⟩ => by
    refine (ldc_lane m f _ _ lane).trans (congrArg (m.view.read (Elt F) f) (funext fun a => Fin.ext ?_))
    match a with
    | ⟨0, _⟩ => show (k0_off24 j (BitVec.ofNat 32 u.val)) 0 = 5 * j.val + u.val; rw [k0_off24_eq j u]; rfl
    | ⟨1, _⟩ => show (k0_off24 j (BitVec.ofNat 32 u.val)) 1 + lane.val = 16 * 1 + lane.val; rw [k0_off24_eq j u]; rfl
  | ⟨2, _⟩ => by
    refine (ldc_lane m f _ _ lane).trans (congrArg (m.view.read (Elt F) f) (funext fun a => Fin.ext ?_))
    match a with
    | ⟨0, _⟩ => show (k0_off25 j (BitVec.ofNat 32 u.val)) 0 = 5 * j.val + u.val; rw [k0_off25_eq j u]; rfl
    | ⟨1, _⟩ => show (k0_off25 j (BitVec.ofNat 32 u.val)) 1 + lane.val = 16 * 2 + lane.val; rw [k0_off25_eq j u]; rfl
  | ⟨3, _⟩ => by
    refine (ldc_lane m f _ _ lane).trans (congrArg (m.view.read (Elt F) f) (funext fun a => Fin.ext ?_))
    match a with
    | ⟨0, _⟩ => show (k0_off26 j (BitVec.ofNat 32 u.val)) 0 = 5 * j.val + u.val; rw [k0_off26_eq j u]; rfl
    | ⟨1, _⟩ => show (k0_off26 j (BitVec.ofNat 32 u.val)) 1 + lane.val = 16 * 3 + lane.val; rw [k0_off26_eq j u]; rfl
  | ⟨4, _⟩ => by
    refine (ldc_lane m f _ _ lane).trans (congrArg (m.view.read (Elt F) f) (funext fun a => Fin.ext ?_))
    match a with
    | ⟨0, _⟩ => show (k0_off27 j (BitVec.ofNat 32 u.val)) 0 = 5 * j.val + u.val; rw [k0_off27_eq j u]; rfl
    | ⟨1, _⟩ => show (k0_off27 j (BitVec.ofNat 32 u.val)) 1 + lane.val = 16 * 4 + lane.val; rw [k0_off27_eq j u]; rfl
  | ⟨5, _⟩ => by
    refine (ldc_lane m f _ _ lane).trans (congrArg (m.view.read (Elt F) f) (funext fun a => Fin.ext ?_))
    match a with
    | ⟨0, _⟩ => show (k0_off28 j (BitVec.ofNat 32 u.val)) 0 = 5 * j.val + u.val; rw [k0_off28_eq j u]; rfl
    | ⟨1, _⟩ => show (k0_off28 j (BitVec.ofNat 32 u.val)) 1 + lane.val = 16 * 5 + lane.val; rw [k0_off28_eq j u]; rfl
  | ⟨6, _⟩ => by
    refine (ldc_lane m f _ _ lane).trans (congrArg (m.view.read (Elt F) f) (funext fun a => Fin.ext ?_))
    match a with
    | ⟨0, _⟩ => show (k0_off29 j (BitVec.ofNat 32 u.val)) 0 = 5 * j.val + u.val; rw [k0_off29_eq j u]; rfl
    | ⟨1, _⟩ => show (k0_off29 j (BitVec.ofNat 32 u.val)) 1 + lane.val = 16 * 6 + lane.val; rw [k0_off29_eq j u]; rfl
  | ⟨7, _⟩ => by
    refine (ldc_lane m f _ _ lane).trans (congrArg (m.view.read (Elt F) f) (funext fun a => Fin.ext ?_))
    match a with
    | ⟨0, _⟩ => show (k0_off30 j (BitVec.ofNat 32 u.val)) 0 = 5 * j.val + u.val; rw [k0_off30_eq j u]; rfl
    | ⟨1, _⟩ => show (k0_off30 j (BitVec.ofNat 32 u.val)) 1 + lane.val = 16 * 7 + lane.val; rw [k0_off30_eq j u]; rfl

/-! ## The row loop over the second bag of a round (offsets `k0_off31` … `k0_off38`) -/

theorem trips5 : k0_t5_loop.trips = 10 := by decide

/-- One trip of the loop, on the eight accumulators. -/
def stepT5 (m : Memref sig .scVector .vmem S100x128 .f32) (f : m.view.ty.Contents (Elt F)) (j : Fin k0_t5_loop.trips) (a : Acc8 F) : Acc8 F :=
  (step5 a.1 (ldc m f (k0_off31 j 0#32) (k0_off31_inb j 0)) (ldc m f (k0_off31 j 1#32) (k0_off31_inb j 1)) (ldc m f (k0_off31 j 2#32) (k0_off31_inb j 2)) (ldc m f (k0_off31 j 3#32) (k0_off31_inb j 3)) (ldc m f (k0_off31 j 4#32) (k0_off31_inb j 4)),
   step5 a.2.1 (ldc m f (k0_off32 j 0#32) (k0_off32_inb j 0)) (ldc m f (k0_off32 j 1#32) (k0_off32_inb j 1)) (ldc m f (k0_off32 j 2#32) (k0_off32_inb j 2)) (ldc m f (k0_off32 j 3#32) (k0_off32_inb j 3)) (ldc m f (k0_off32 j 4#32) (k0_off32_inb j 4)),
   step5 a.2.2.1 (ldc m f (k0_off33 j 0#32) (k0_off33_inb j 0)) (ldc m f (k0_off33 j 1#32) (k0_off33_inb j 1)) (ldc m f (k0_off33 j 2#32) (k0_off33_inb j 2)) (ldc m f (k0_off33 j 3#32) (k0_off33_inb j 3)) (ldc m f (k0_off33 j 4#32) (k0_off33_inb j 4)),
   step5 a.2.2.2.1 (ldc m f (k0_off34 j 0#32) (k0_off34_inb j 0)) (ldc m f (k0_off34 j 1#32) (k0_off34_inb j 1)) (ldc m f (k0_off34 j 2#32) (k0_off34_inb j 2)) (ldc m f (k0_off34 j 3#32) (k0_off34_inb j 3)) (ldc m f (k0_off34 j 4#32) (k0_off34_inb j 4)),
   step5 a.2.2.2.2.1 (ldc m f (k0_off35 j 0#32) (k0_off35_inb j 0)) (ldc m f (k0_off35 j 1#32) (k0_off35_inb j 1)) (ldc m f (k0_off35 j 2#32) (k0_off35_inb j 2)) (ldc m f (k0_off35 j 3#32) (k0_off35_inb j 3)) (ldc m f (k0_off35 j 4#32) (k0_off35_inb j 4)),
   step5 a.2.2.2.2.2.1 (ldc m f (k0_off36 j 0#32) (k0_off36_inb j 0)) (ldc m f (k0_off36 j 1#32) (k0_off36_inb j 1)) (ldc m f (k0_off36 j 2#32) (k0_off36_inb j 2)) (ldc m f (k0_off36 j 3#32) (k0_off36_inb j 3)) (ldc m f (k0_off36 j 4#32) (k0_off36_inb j 4)),
   step5 a.2.2.2.2.2.2.1 (ldc m f (k0_off37 j 0#32) (k0_off37_inb j 0)) (ldc m f (k0_off37 j 1#32) (k0_off37_inb j 1)) (ldc m f (k0_off37 j 2#32) (k0_off37_inb j 2)) (ldc m f (k0_off37 j 3#32) (k0_off37_inb j 3)) (ldc m f (k0_off37 j 4#32) (k0_off37_inb j 4)),
   step5 a.2.2.2.2.2.2.2 (ldc m f (k0_off38 j 0#32) (k0_off38_inb j 0)) (ldc m f (k0_off38 j 1#32) (k0_off38_inb j 1)) (ldc m f (k0_off38 j 2#32) (k0_off38_inb j 2)) (ldc m f (k0_off38 j 3#32) (k0_off38_inb j 3)) (ldc m f (k0_off38 j 4#32) (k0_off38_inb j 4)))

/-- The accumulators after `n` trips. -/
def accsT5 (m : Memref sig .scVector .vmem S100x128 .f32) (f : m.view.ty.Contents (Elt F)) : ℕ → Acc8 F
  | 0 => zero8
  | n + 1 => if h : n < k0_t5_loop.trips then stepT5 m f ⟨n, h⟩ (accsT5 m f n) else accsT5 m f n

theorem accsT5_zero (m : Memref sig .scVector .vmem S100x128 .f32) (f : m.view.ty.Contents (Elt F)) : accsT5 m f 0 = zero8 := rfl

theorem accsT5_succ (m : Memref sig .scVector .vmem S100x128 .f32) (f : m.view.ty.Contents (Elt F)) (j : Fin k0_t5_loop.trips) :
    accsT5 m f (j.val + 1) = stepT5 m f j (accsT5 m f j.val) := by
  show (if h : j.val < k0_t5_loop.trips then stepT5 m f ⟨j.val, h⟩ (accsT5 m f j.val) else accsT5 m f j.val) = _
  rw [dif_pos j.isLt]

/-- A component of one trip's update. -/
theorem stepT5_get (m : Memref sig .scVector .vmem S100x128 .f32) (f : m.view.ty.Contents (Elt F)) (j : Fin k0_t5_loop.trips) (a : Acc8 F) :
    ∀ cc : Fin 8, (stepT5 m f j a).get cc = match cc with
      | ⟨0, _⟩ => step5 (a.get ⟨0, by decide⟩) (ldc m f (k0_off31 j 0#32) (k0_off31_inb j 0)) (ldc m f (k0_off31 j 1#32) (k0_off31_inb j 1)) (ldc m f (k0_off31 j 2#32) (k0_off31_inb j 2)) (ldc m f (k0_off31 j 3#32) (k0_off31_inb j 3)) (ldc m f (k0_off31 j 4#32) (k0_off31_inb j 4))
      | ⟨1, _⟩ => step5 (a.get ⟨1, by decide⟩) (ldc m f (k0_off32 j 0#32) (k0_off32_inb j 0)) (ldc m f (k0_off32 j 1#32) (k0_off32_inb j 1)) (ldc m f (k0_off32 j 2#32) (k0_off32_inb j 2)) (ldc m f (k0_off32 j 3#32) (k0_off32_inb j 3)) (ldc m f (k0_off32 j 4#32) (k0_off32_inb j 4))
      | ⟨2, _⟩ => step5 (a.get ⟨2, by decide⟩) (ldc m f (k0_off33 j 0#32) (k0_off33_inb j 0)) (ldc m f (k0_off33 j 1#32) (k0_off33_inb j 1)) (ldc m f (k0_off33 j 2#32) (k0_off33_inb j 2)) (ldc m f (k0_off33 j 3#32) (k0_off33_inb j 3)) (ldc m f (k0_off33 j 4#32) (k0_off33_inb j 4))
      | ⟨3, _⟩ => step5 (a.get ⟨3, by decide⟩) (ldc m f (k0_off34 j 0#32) (k0_off34_inb j 0)) (ldc m f (k0_off34 j 1#32) (k0_off34_inb j 1)) (ldc m f (k0_off34 j 2#32) (k0_off34_inb j 2)) (ldc m f (k0_off34 j 3#32) (k0_off34_inb j 3)) (ldc m f (k0_off34 j 4#32) (k0_off34_inb j 4))
      | ⟨4, _⟩ => step5 (a.get ⟨4, by decide⟩) (ldc m f (k0_off35 j 0#32) (k0_off35_inb j 0)) (ldc m f (k0_off35 j 1#32) (k0_off35_inb j 1)) (ldc m f (k0_off35 j 2#32) (k0_off35_inb j 2)) (ldc m f (k0_off35 j 3#32) (k0_off35_inb j 3)) (ldc m f (k0_off35 j 4#32) (k0_off35_inb j 4))
      | ⟨5, _⟩ => step5 (a.get ⟨5, by decide⟩) (ldc m f (k0_off36 j 0#32) (k0_off36_inb j 0)) (ldc m f (k0_off36 j 1#32) (k0_off36_inb j 1)) (ldc m f (k0_off36 j 2#32) (k0_off36_inb j 2)) (ldc m f (k0_off36 j 3#32) (k0_off36_inb j 3)) (ldc m f (k0_off36 j 4#32) (k0_off36_inb j 4))
      | ⟨6, _⟩ => step5 (a.get ⟨6, by decide⟩) (ldc m f (k0_off37 j 0#32) (k0_off37_inb j 0)) (ldc m f (k0_off37 j 1#32) (k0_off37_inb j 1)) (ldc m f (k0_off37 j 2#32) (k0_off37_inb j 2)) (ldc m f (k0_off37 j 3#32) (k0_off37_inb j 3)) (ldc m f (k0_off37 j 4#32) (k0_off37_inb j 4))
      | ⟨7, _⟩ => step5 (a.get ⟨7, by decide⟩) (ldc m f (k0_off38 j 0#32) (k0_off38_inb j 0)) (ldc m f (k0_off38 j 1#32) (k0_off38_inb j 1)) (ldc m f (k0_off38 j 2#32) (k0_off38_inb j 2)) (ldc m f (k0_off38 j 3#32) (k0_off38_inb j 3)) (ldc m f (k0_off38 j 4#32) (k0_off38_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u + 50`, column `16 cc + lane`. -/
theorem ld5_lane (m : Memref sig .scVector .vmem S100x128 .f32) (f : m.view.ty.Contents (Elt F)) (j : Fin k0_t5_loop.trips) (u : Fin 5) (lane : Fin 16) :
    ∀ cc : Fin 8, (match cc with
      | ⟨0, _⟩ => shapeCast S16 (ldc m f (k0_off31 j (BitVec.ofNat 32 u.val)) (k0_off31_inb j u)) shapeCasts_S1x16_S16 (ix1 lane)
      | ⟨1, _⟩ => shapeCast S16 (ldc m f (k0_off32 j (BitVec.ofNat 32 u.val)) (k0_off32_inb j u)) shapeCasts_S1x16_S16 (ix1 lane)
      | ⟨2, _⟩ => shapeCast S16 (ldc m f (k0_off33 j (BitVec.ofNat 32 u.val)) (k0_off33_inb j u)) shapeCasts_S1x16_S16 (ix1 lane)
      | ⟨3, _⟩ => shapeCast S16 (ldc m f (k0_off34 j (BitVec.ofNat 32 u.val)) (k0_off34_inb j u)) shapeCasts_S1x16_S16 (ix1 lane)
      | ⟨4, _⟩ => shapeCast S16 (ldc m f (k0_off35 j (BitVec.ofNat 32 u.val)) (k0_off35_inb j u)) shapeCasts_S1x16_S16 (ix1 lane)
      | ⟨5, _⟩ => shapeCast S16 (ldc m f (k0_off36 j (BitVec.ofNat 32 u.val)) (k0_off36_inb j u)) shapeCasts_S1x16_S16 (ix1 lane)
      | ⟨6, _⟩ => shapeCast S16 (ldc m f (k0_off37 j (BitVec.ofNat 32 u.val)) (k0_off37_inb j u)) shapeCasts_S1x16_S16 (ix1 lane)
      | ⟨7, _⟩ => shapeCast S16 (ldc m f (k0_off38 j (BitVec.ofNat 32 u.val)) (k0_off38_inb j u)) shapeCasts_S1x16_S16 (ix1 lane))
      = m.view.read (Elt F) f (ix2 (⟨5 * j.val + u.val + 50, by have := lt_of_lt_of_eq j.isLt trips5; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off31 j (BitVec.ofNat 32 u.val)) 0 = 5 * j.val + u.val + 50; rw [k0_off31_eq j u]; rfl
    | ⟨1, _⟩ => show (k0_off31 j (BitVec.ofNat 32 u.val)) 1 + lane.val = 16 * 0 + lane.val; rw [k0_off31_eq j u]; rfl
  | ⟨1, _⟩ => by
    refine (ldc_lane m f _ _ lane).trans (congrArg (m.view.read (Elt F) f) (funext fun a => Fin.ext ?_))
    match a with
    | ⟨0, _⟩ => show (k0_off32 j (BitVec.ofNat 32 u.val)) 0 = 5 * j.val + u.val + 50; rw [k0_off32_eq j u]; rfl
    | ⟨1, _⟩ => show (k0_off32 j (BitVec.ofNat 32 u.val)) 1 + lane.val = 16 * 1 + lane.val; rw [k0_off32_eq j u]; rfl
  | ⟨2, _⟩ => by
    refine (ldc_lane m f _ _ lane).trans (congrArg (m.view.read (Elt F) f) (funext fun a => Fin.ext ?_))
    match a with
    | ⟨0, _⟩ => show (k0_off33 j (BitVec.ofNat 32 u.val)) 0 = 5 * j.val + u.val + 50; rw [k0_off33_eq j u]; rfl
    | ⟨1, _⟩ => show (k0_off33 j (BitVec.ofNat 32 u.val)) 1 + lane.val = 16 * 2 + lane.val; rw [k0_off33_eq j u]; rfl
  | ⟨3, _⟩ => by
    refine (ldc_lane m f _ _ lane).trans (congrArg (m.view.read (Elt F) f) (funext fun a => Fin.ext ?_))
    match a with
    | ⟨0, _⟩ => show (k0_off34 j (BitVec.ofNat 32 u.val)) 0 = 5 * j.val + u.val + 50; rw [k0_off34_eq j u]; rfl
    | ⟨1, _⟩ => show (k0_off34 j (BitVec.ofNat 32 u.val)) 1 + lane.val = 16 * 3 + lane.val; rw [k0_off34_eq j u]; rfl
  | ⟨4, _⟩ => by
    refine (ldc_lane m f _ _ lane).trans (congrArg (m.view.read (Elt F) f) (funext fun a => Fin.ext ?_))
    match a with
    | ⟨0, _⟩ => show (k0_off35 j (BitVec.ofNat 32 u.val)) 0 = 5 * j.val + u.val + 50; rw [k0_off35_eq j u]; rfl
    | ⟨1, _⟩ => show (k0_off35 j (BitVec.ofNat 32 u.val)) 1 + lane.val = 16 * 4 + lane.val; rw [k0_off35_eq j u]; rfl
  | ⟨5, _⟩ => by
    refine (ldc_lane m f _ _ lane).trans (congrArg (m.view.read (Elt F) f) (funext fun a => Fin.ext ?_))
    match a with
    | ⟨0, _⟩ => show (k0_off36 j (BitVec.ofNat 32 u.val)) 0 = 5 * j.val + u.val + 50; rw [k0_off36_eq j u]; rfl
    | ⟨1, _⟩ => show (k0_off36 j (BitVec.ofNat 32 u.val)) 1 + lane.val = 16 * 5 + lane.val; rw [k0_off36_eq j u]; rfl
  | ⟨6, _⟩ => by
    refine (ldc_lane m f _ _ lane).trans (congrArg (m.view.read (Elt F) f) (funext fun a => Fin.ext ?_))
    match a with
    | ⟨0, _⟩ => show (k0_off37 j (BitVec.ofNat 32 u.val)) 0 = 5 * j.val + u.val + 50; rw [k0_off37_eq j u]; rfl
    | ⟨1, _⟩ => show (k0_off37 j (BitVec.ofNat 32 u.val)) 1 + lane.val = 16 * 6 + lane.val; rw [k0_off37_eq j u]; rfl
  | ⟨7, _⟩ => by
    refine (ldc_lane m f _ _ lane).trans (congrArg (m.view.read (Elt F) f) (funext fun a => Fin.ext ?_))
    match a with
    | ⟨0, _⟩ => show (k0_off38 j (BitVec.ofNat 32 u.val)) 0 = 5 * j.val + u.val + 50; rw [k0_off38_eq j u]; rfl
    | ⟨1, _⟩ => show (k0_off38 j (BitVec.ofNat 32 u.val)) 1 + lane.val = 16 * 7 + lane.val; rw [k0_off38_eq j u]; rfl

end Cert.KernelIdeal.Run.Tile

end
-- ==== Proof.ScAccLane.lean ====
import proofs.«209176_g73847667688168_cont_9to1_m_420_10_alg».proof.Proof.ScAcc

noncomputable section

namespace Cert.KernelIdeal.Run.Tile

open Cert.KernelIdeal Cert.KernelIdeal.Gen
open Idealize.ShloMosaic Idealize.ShloMosaic.ValueIdx Idealize.SL.Sem

variable {F : FTy → Type} [FloatOps F]

/-! # The accumulators, lane by lane, are the pooled sum's prefixes

Given that the scratch's rows are the table rows the bag's words name, accumulator `cc` after `n` trips holds at lane
`c` the sum of the bag's first `5 n` rows at column `16 cc + c`, added up from zero in order. -/

theorem ldo4_lane (m : Memref sig .scVector .vmem S100x128 .f32) (f : m.view.ty.Contents (Elt F)) (j : Fin k0_t2_loop.trips) (u : Fin 5) (lane : Fin 16) :
    shapeCast S16 (ldc m f (k0_off4 j (BitVec.ofNat 32 u.val)) (k0_off4_inb j u)) shapeCasts_S1x16_S16 (ix1 lane)
      = m.view.read (Elt F) f (ix2 (⟨5 * j.val + u.val, by have := lt_of_lt_of_eq j.isLt trips2; have := u.isLt; omega⟩ : Fin 100)
          (⟨16 * 0 + lane.val, by have := lane.isLt; omega⟩ : Fin 128)) :=
  ld2_lane m f j u lane ⟨0, by decide⟩

theorem ldo5_lane (m : Memref sig .scVector .vmem S100x128 .f32) (f : m.view.ty.Contents (Elt F)) (j : Fin k0_t2_loop.trips) (u : Fin 5) (lane : Fin 16) :
    shapeCast S16 (ldc m f (k0_off5 j (BitVec.ofNat 32 u.val)) (k0_off5_inb j u)) shapeCasts_S1x16_S16 (ix1 lane)
      = m.view.read (Elt F) f (ix2 (⟨5 * j.val + u.val, by have := lt_of_lt_of_eq j.isLt trips2; have := u.isLt; omega⟩ : Fin 100)
          (⟨16 * 1 + lane.val, by have := lane.isLt; omega⟩ : Fin 128)) :=
  ld2_lane m f j u lane ⟨1, by decide⟩

theorem ldo6_lane (m : Memref sig .scVector .vmem S100x128 .f32) (f : m.view.ty.Contents (Elt F)) (j : Fin k0_t2_loop.trips) (u : Fin 5) (lane : Fin 16) :
    shapeCast S16 (ldc m f (k0_off6 j (BitVec.ofNat 32 u.val)) (k0_off6_inb j u)) shapeCasts_S1x16_S16 (ix1 lane)
      = m.view.read (Elt F) f (ix2 (⟨5 * j.val + u.val, by have := lt_of_lt_of_eq j.isLt trips2; have := u.isLt; omega⟩ : Fin 100)
          (⟨16 * 2 + lane.val, by have := lane.isLt; omega⟩ : Fin 128)) :=
  ld2_lane m f j u lane ⟨2, by decide⟩

theorem ldo7_lane (m : Memref sig .scVector .vmem S100x128 .f32) (f : m.view.ty.Contents (Elt F)) (j : Fin k0_t2_loop.trips) (u : Fin 5) (lane : Fin 16) :
    shapeCast S16 (ldc m f (k0_off7 j (BitVec.ofNat 32 u.val)) (k0_off7_inb j u)) shapeCasts_S1x16_S16 (ix1 lane)
      = m.view.read (Elt F) f (ix2 (⟨5 * j.val + u.val, by have := lt_of_lt_of_eq j.isLt trips2; have := u.isLt; omega⟩ : Fin 100)
          (⟨16 * 3 + lane.val, by have := lane.isLt; omega⟩ : Fin 128)) :=
  ld2_lane m f j u lane ⟨3, by decide⟩

theorem ldo8_lane (m : Memref sig .scVector .vmem S100x128 .f32) (f : m.view.ty.Contents (Elt F)) (j : Fin k0_t2_loop.trips) (u : Fin 5) (lane : Fin 16) :
    shapeCast S16 (ldc m f (k0_off8 j (BitVec.ofNat 32 u.val)) (k0_off8_inb j u)) shapeCasts_S1x16_S16 (ix1 lane)
      = m.view.read (Elt F) f (ix2 (⟨5 * j.val + u.val, by have := lt_of_lt_of_eq j.isLt trips2; have := u.isLt; omega⟩ : Fin 100)
          (⟨16 * 4 + lane.val, by have := lane.isLt; omega⟩ : Fin 128)) :=
  ld2_lane m f j u lane ⟨4, by decide⟩

theorem ldo9_lane (m : Memref sig .scVector .vmem S100x128 .f32) (f : m.view.ty.Contents (Elt F)) (j : Fin k0_t2_loop.trips) (u : Fin 5) (lane : Fin 16) :
    shapeCast S16 (ldc m f (k0_off9 j (BitVec.ofNat 32 u.val)) (k0_off9_inb j u)) shapeCasts_S1x16_S16 (ix1 lane)
      = m.view.read (Elt F) f (ix2 (⟨5 * j.val + u.val, by have := lt_of_lt_of_eq j.isLt trips2; have := u.isLt; omega⟩ : Fin 100)
          (⟨16 * 5 + lane.val, by have := lane.isLt; omega⟩ : Fin 128)) :=
  ld2_lane m f j u lane ⟨5, by decide⟩

theorem ldo10_lane (m : Memref sig .scVector .vmem S100x128 .f32) (f : m.view.ty.Contents (Elt F)) (j : Fin k0_t2_loop.trips) (u : Fin 5) (lane : Fin 16) :
    shapeCast S16 (ldc m f (k0_off10 j (BitVec.ofNat 32 u.val)) (k0_off10_inb j u)) shapeCasts_S1x16_S16 (ix1 lane)
      = m.view.read (Elt F) f (ix2 (⟨5 * j.val + u.val, by have := lt_of_lt_of_eq j.isLt trips2; have := u.isLt; omega⟩ : Fin 100)
          (⟨16 * 6 + lane.val, by have := lane.isLt; omega⟩ : Fin 128)) :=
  ld2_lane m f j u lane ⟨6, by decide⟩

theorem ldo11_lane (m : Memref sig .scVector .vmem S100x128 .f32) (f : m.view.ty.Contents (Elt F)) (j : Fin k0_t2_loop.trips) (u : Fin 5) (lane : Fin 16) :
    shapeCast S16 (ldc m f (k0_off11 j (BitVec.ofNat 32 u.val)) (k0_off11_inb j u)) shapeCasts_S1x16_S16 (ix1 lane)
      = m.view.read (Elt F) f (ix2 (⟨5 * j.val + u.val, by have := lt_of_lt_of_eq j.isLt trips2; have := u.isLt; omega⟩ : Fin 100)
          (⟨16 * 7 + lane.val, by have := lane.isLt; omega⟩ : Fin 128)) :=
  ld2_lane m f j u lane ⟨7, by decide⟩

section Loop2
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n, by omega⟩ : Fin 100) col)
      = trow T1 (remapW (I4 (ix1 (⟨64 * t.val + n, flat_lt t n hn⟩ : Fin 2097152)))) col)
include hG

theorem accsT2_lane_0 : ∀ (n : Nat) (h : n ≤ 10) (lane : Fin 16),
    (accsT2 m f n).1 (ix1 lane)
      = rowPre T1 I4 t (⟨16 * 0 + lane.val, by have := lane.isLt; omega⟩ : Fin 128) (5 * n) (by omega)
  | 0, h, lane => rfl
  | n + 1, h, lane => by
    have hj : n < k0_t2_loop.trips := by rw [trips2]; omega
    have ih := accsT2_lane_0 n (by omega) lane
    have e0 : shapeCast S16 (ldc m f (k0_off4 ⟨n, hj⟩ 0#32) (k0_off4_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo4_lane m f ⟨n, hj⟩ (0 : Fin 5) lane).trans (hG (5 * n + 0) (by omega) _)
    have e1 : shapeCast S16 (ldc m f (k0_off4 ⟨n, hj⟩ 1#32) (k0_off4_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo4_lane m f ⟨n, hj⟩ (1 : Fin 5) lane).trans (hG (5 * n + 1) (by omega) _)
    have e2 : shapeCast S16 (ldc m f (k0_off4 ⟨n, hj⟩ 2#32) (k0_off4_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo4_lane m f ⟨n, hj⟩ (2 : Fin 5) lane).trans (hG (5 * n + 2) (by omega) _)
    have e3 : shapeCast S16 (ldc m f (k0_off4 ⟨n, hj⟩ 3#32) (k0_off4_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo4_lane m f ⟨n, hj⟩ (3 : Fin 5) lane).trans (hG (5 * n + 3) (by omega) _)
    have e4 : shapeCast S16 (ldc m f (k0_off4 ⟨n, hj⟩ 4#32) (k0_off4_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo4_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_1 : ∀ (n : Nat) (h : n ≤ 10) (lane : Fin 16),
    (accsT2 m f n).2.1 (ix1 lane)
      = rowPre T1 I4 t (⟨16 * 1 + lane.val, by have := lane.isLt; omega⟩ : Fin 128) (5 * n) (by omega)
  | 0, h, lane => rfl
  | n + 1, h, lane => by
    have hj : n < k0_t2_loop.trips := by rw [trips2]; omega
    have ih := accsT2_lane_1 n (by omega) lane
    have e0 : shapeCast S16 (ldc m f (k0_off5 ⟨n, hj⟩ 0#32) (k0_off5_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo5_lane m f ⟨n, hj⟩ (0 : Fin 5) lane).trans (hG (5 * n + 0) (by omega) _)
    have e1 : shapeCast S16 (ldc m f (k0_off5 ⟨n, hj⟩ 1#32) (k0_off5_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo5_lane m f ⟨n, hj⟩ (1 : Fin 5) lane).trans (hG (5 * n + 1) (by omega) _)
    have e2 : shapeCast S16 (ldc m f (k0_off5 ⟨n, hj⟩ 2#32) (k0_off5_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo5_lane m f ⟨n, hj⟩ (2 : Fin 5) lane).trans (hG (5 * n + 2) (by omega) _)
    have e3 : shapeCast S16 (ldc m f (k0_off5 ⟨n, hj⟩ 3#32) (k0_off5_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo5_lane m f ⟨n, hj⟩ (3 : Fin 5) lane).trans (hG (5 * n + 3) (by omega) _)
    have e4 : shapeCast S16 (ldc m f (k0_off5 ⟨n, hj⟩ 4#32) (k0_off5_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo5_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_2 : ∀ (n : Nat) (h : n ≤ 10) (lane : Fin 16),
    (accsT2 m f n).2.2.1 (ix1 lane)
      = rowPre T1 I4 t (⟨16 * 2 + lane.val, by have := lane.isLt; omega⟩ : Fin 128) (5 * n) (by omega)
  | 0, h, lane => rfl
  | n + 1, h, lane => by
    have hj : n < k0_t2_loop.trips := by rw [trips2]; omega
    have ih := accsT2_lane_2 n (by omega) lane
    have e0 : shapeCast S16 (ldc m f (k0_off6 ⟨n, hj⟩ 0#32) (k0_off6_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo6_lane m f ⟨n, hj⟩ (0 : Fin 5) lane).trans (hG (5 * n + 0) (by omega) _)
    have e1 : shapeCast S16 (ldc m f (k0_off6 ⟨n, hj⟩ 1#32) (k0_off6_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo6_lane m f ⟨n, hj⟩ (1 : Fin 5) lane).trans (hG (5 * n + 1) (by omega) _)
    have e2 : shapeCast S16 (ldc m f (k0_off6 ⟨n, hj⟩ 2#32) (k0_off6_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo6_lane m f ⟨n, hj⟩ (2 : Fin 5) lane).trans (hG (5 * n + 2) (by omega) _)
    have e3 : shapeCast S16 (ldc m f (k0_off6 ⟨n, hj⟩ 3#32) (k0_off6_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo6_lane m f ⟨n, hj⟩ (3 : Fin 5) lane).trans (hG (5 * n + 3) (by omega) _)
    have e4 : shapeCast S16 (ldc m f (k0_off6 ⟨n, hj⟩ 4#32) (k0_off6_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo6_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_3 : ∀ (n : Nat) (h : n ≤ 10) (lane : Fin 16),
    (accsT2 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t2_loop.trips := by rw [trips2]; omega
    have ih := accsT2_lane_3 n (by omega) lane
    have e0 : shapeCast S16 (ldc m f (k0_off7 ⟨n, hj⟩ 0#32) (k0_off7_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo7_lane m f ⟨n, hj⟩ (0 : Fin 5) lane).trans (hG (5 * n + 0) (by omega) _)
    have e1 : shapeCast S16 (ldc m f (k0_off7 ⟨n, hj⟩ 1#32) (k0_off7_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo7_lane m f ⟨n, hj⟩ (1 : Fin 5) lane).trans (hG (5 * n + 1) (by omega) _)
    have e2 : shapeCast S16 (ldc m f (k0_off7 ⟨n, hj⟩ 2#32) (k0_off7_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo7_lane m f ⟨n, hj⟩ (2 : Fin 5) lane).trans (hG (5 * n + 2) (by omega) _)
    have e3 : shapeCast S16 (ldc m f (k0_off7 ⟨n, hj⟩ 3#32) (k0_off7_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo7_lane m f ⟨n, hj⟩ (3 : Fin 5) lane).trans (hG (5 * n + 3) (by omega) _)
    have e4 : shapeCast S16 (ldc m f (k0_off7 ⟨n, hj⟩ 4#32) (k0_off7_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo7_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_4 : ∀ (n : Nat) (h : n ≤ 10) (lane : Fin 16),
    (accsT2 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t2_loop.trips := by rw [trips2]; omega
    have ih := accsT2_lane_4 n (by omega) lane
    have e0 : shapeCast S16 (ldc m f (k0_off8 ⟨n, hj⟩ 0#32) (k0_off8_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo8_lane m f ⟨n, hj⟩ (0 : Fin 5) lane).trans (hG (5 * n + 0) (by omega) _)
    have e1 : shapeCast S16 (ldc m f (k0_off8 ⟨n, hj⟩ 1#32) (k0_off8_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo8_lane m f ⟨n, hj⟩ (1 : Fin 5) lane).trans (hG (5 * n + 1) (by omega) _)
    have e2 : shapeCast S16 (ldc m f (k0_off8 ⟨n, hj⟩ 2#32) (k0_off8_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo8_lane m f ⟨n, hj⟩ (2 : Fin 5) lane).trans (hG (5 * n + 2) (by omega) _)
    have e3 : shapeCast S16 (ldc m f (k0_off8 ⟨n, hj⟩ 3#32) (k0_off8_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo8_lane m f ⟨n, hj⟩ (3 : Fin 5) lane).trans (hG (5 * n + 3) (by omega) _)
    have e4 : shapeCast S16 (ldc m f (k0_off8 ⟨n, hj⟩ 4#32) (k0_off8_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo8_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_5 : ∀ (n : Nat) (h : n ≤ 10) (lane : Fin 16),
    (accsT2 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t2_loop.trips := by rw [trips2]; omega
    have ih := accsT2_lane_5 n (by omega) lane
    have e0 : shapeCast S16 (ldc m f (k0_off9 ⟨n, hj⟩ 0#32) (k0_off9_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo9_lane m f ⟨n, hj⟩ (0 : Fin 5) lane).trans (hG (5 * n + 0) (by omega) _)
    have e1 : shapeCast S16 (ldc m f (k0_off9 ⟨n, hj⟩ 1#32) (k0_off9_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo9_lane m f ⟨n, hj⟩ (1 : Fin 5) lane).trans (hG (5 * n + 1) (by omega) _)
    have e2 : shapeCast S16 (ldc m f (k0_off9 ⟨n, hj⟩ 2#32) (k0_off9_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo9_lane m f ⟨n, hj⟩ (2 : Fin 5) lane).trans (hG (5 * n + 2) (by omega) _)
    have e3 : shapeCast S16 (ldc m f (k0_off9 ⟨n, hj⟩ 3#32) (k0_off9_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo9_lane m f ⟨n, hj⟩ (3 : Fin 5) lane).trans (hG (5 * n + 3) (by omega) _)
    have e4 : shapeCast S16 (ldc m f (k0_off9 ⟨n, hj⟩ 4#32) (k0_off9_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo9_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_6 : ∀ (n : Nat) (h : n ≤ 10) (lane : Fin 16),
    (accsT2 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t2_loop.trips := by rw [trips2]; omega
    have ih := accsT2_lane_6 n (by omega) lane
    have e0 : shapeCast S16 (ldc m f (k0_off10 ⟨n, hj⟩ 0#32) (k0_off10_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo10_lane m f ⟨n, hj⟩ (0 : Fin 5) lane).trans (hG (5 * n + 0) (by omega) _)
    have e1 : shapeCast S16 (ldc m f (k0_off10 ⟨n, hj⟩ 1#32) (k0_off10_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo10_lane m f ⟨n, hj⟩ (1 : Fin 5) lane).trans (hG (5 * n + 1) (by omega) _)
    have e2 : shapeCast S16 (ldc m f (k0_off10 ⟨n, hj⟩ 2#32) (k0_off10_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo10_lane m f ⟨n, hj⟩ (2 : Fin 5) lane).trans (hG (5 * n + 2) (by omega) _)
    have e3 : shapeCast S16 (ldc m f (k0_off10 ⟨n, hj⟩ 3#32) (k0_off10_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo10_lane m f ⟨n, hj⟩ (3 : Fin 5) lane).trans (hG (5 * n + 3) (by omega) _)
    have e4 : shapeCast S16 (ldc m f (k0_off10 ⟨n, hj⟩ 4#32) (k0_off10_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo10_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_7 : ∀ (n : Nat) (h : n ≤ 10) (lane : Fin 16),
    (accsT2 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t2_loop.trips := by rw [trips2]; omega
    have ih := accsT2_lane_7 n (by omega) lane
    have e0 : shapeCast S16 (ldc m f (k0_off11 ⟨n, hj⟩ 0#32) (k0_off11_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo11_lane m f ⟨n, hj⟩ (0 : Fin 5) lane).trans (hG (5 * n + 0) (by omega) _)
    have e1 : shapeCast S16 (ldc m f (k0_off11 ⟨n, hj⟩ 1#32) (k0_off11_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo11_lane m f ⟨n, hj⟩ (1 : Fin 5) lane).trans (hG (5 * n + 1) (by omega) _)
    have e2 : shapeCast S16 (ldc m f (k0_off11 ⟨n, hj⟩ 2#32) (k0_off11_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo11_lane m f ⟨n, hj⟩ (2 : Fin 5) lane).trans (hG (5 * n + 2) (by omega) _)
    have e3 : shapeCast S16 (ldc m f (k0_off11 ⟨n, hj⟩ 3#32) (k0_off11_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo11_lane m f ⟨n, hj⟩ (3 : Fin 5) lane).trans (hG (5 * n + 3) (by omega) _)
    have e4 : shapeCast S16 (ldc m f (k0_off11 ⟨n, hj⟩ 4#32) (k0_off11_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo11_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT2_done (cc : Fin 8) (lane : Fin 16) :
    (accsT2 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT2_lane_0 m f T1 I4 t hG 10 (by omega) lane
  | ⟨1, _⟩ => exact accsT2_lane_1 m f T1 I4 t hG 10 (by omega) lane
  | ⟨2, _⟩ => exact accsT2_lane_2 m f T1 I4 t hG 10 (by omega) lane
  | ⟨3, _⟩ => exact accsT2_lane_3 m f T1 I4 t hG 10 (by omega) lane
  | ⟨4, _⟩ => exact accsT2_lane_4 m f T1 I4 t hG 10 (by omega) lane
  | ⟨5, _⟩ => exact accsT2_lane_5 m f T1 I4 t hG 10 (by omega) lane
  | ⟨6, _⟩ => exact accsT2_lane_6 m f T1 I4 t hG 10 (by omega) lane
  | ⟨7, _⟩ => exact accsT2_lane_7 m f T1 I4 t hG 10 (by omega) lane

end Loop2

theorem ldo12_lane (m : Memref sig .scVector .vmem S100x128 .f32) (f : m.view.ty.Contents (Elt F)) (j : Fin k0_t3_loop.trips) (u : Fin 5) (lane : Fin 16) :
    shapeCast S16 (ldc m f (k0_off12 j (BitVec.ofNat 32 u.val)) (k0_off12_inb j u)) shapeCasts_S1x16_S16 (ix1 lane)
      = m.view.read (Elt F) f (ix2 (⟨5 * j.val + u.val + 50, by have := lt_of_lt_of_eq j.isLt trips3; have := u.isLt; omega⟩ : Fin 100)
          (⟨16 * 0 + lane.val, by have := lane.isLt; omega⟩ : Fin 128)) :=
  ld3_lane m f j u lane ⟨0, by decide⟩

theorem ldo13_lane (m : Memref sig .scVector .vmem S100x128 .f32) (f : m.view.ty.Contents (Elt F)) (j : Fin k0_t3_loop.trips) (u : Fin 5) (lane : Fin 16) :
    shapeCast S16 (ldc m f (k0_off13 j (BitVec.ofNat 32 u.val)) (k0_off13_inb j u)) shapeCasts_S1x16_S16 (ix1 lane)
      = m.view.read (Elt F) f (ix2 (⟨5 * j.val + u.val + 50, by have := lt_of_lt_of_eq j.isLt trips3; have := u.isLt; omega⟩ : Fin 100)
          (⟨16 * 1 + lane.val, by have := lane.isLt; omega⟩ : Fin 128)) :=
  ld3_lane m f j u lane ⟨1, by decide⟩

theorem ldo14_lane (m : Memref sig .scVector .vmem S100x128 .f32) (f : m.view.ty.Contents (Elt F)) (j : Fin k0_t3_loop.trips) (u : Fin 5) (lane : Fin 16) :
    shapeCast S16 (ldc m f (k0_off14 j (BitVec.ofNat 32 u.val)) (k0_off14_inb j u)) shapeCasts_S1x16_S16 (ix1 lane)
      = m.view.read (Elt F) f (ix2 (⟨5 * j.val + u.val + 50, by have := lt_of_lt_of_eq j.isLt trips3; have := u.isLt; omega⟩ : Fin 100)
          (⟨16 * 2 + lane.val, by have := lane.isLt; omega⟩ : Fin 128)) :=
  ld3_lane m f j u lane ⟨2, by decide⟩

theorem ldo15_lane (m : Memref sig .scVector .vmem S100x128 .f32) (f : m.view.ty.Contents (Elt F)) (j : Fin k0_t3_loop.trips) (u : Fin 5) (lane : Fin 16) :
    shapeCast S16 (ldc m f (k0_off15 j (BitVec.ofNat 32 u.val)) (k0_off15_inb j u)) shapeCasts_S1x16_S16 (ix1 lane)
      = m.view.read (Elt F) f (ix2 (⟨5 * j.val + u.val + 50, by have := lt_of_lt_of_eq j.isLt trips3; have := u.isLt; omega⟩ : Fin 100)
          (⟨16 * 3 + lane.val, by have := lane.isLt; omega⟩ : Fin 128)) :=
  ld3_lane m f j u lane ⟨3, by decide⟩

theorem ldo16_lane (m : Memref sig .scVector .vmem S100x128 .f32) (f : m.view.ty.Contents (Elt F)) (j : Fin k0_t3_loop.trips) (u : Fin 5) (lane : Fin 16) :
    shapeCast S16 (ldc m f (k0_off16 j (BitVec.ofNat 32 u.val)) (k0_off16_inb j u)) shapeCasts_S1x16_S16 (ix1 lane)
      = m.view.read (Elt F) f (ix2 (⟨5 * j.val + u.val + 50, by have := lt_of_lt_of_eq j.isLt trips3; have := u.isLt; omega⟩ : Fin 100)
          (⟨16 * 4 + lane.val, by have := lane.isLt; omega⟩ : Fin 128)) :=
  ld3_lane m f j u lane ⟨4, by decide⟩

theorem ldo17_lane (m : Memref sig .scVector .vmem S100x128 .f32) (f : m.view.ty.Contents (Elt F)) (j : Fin k0_t3_loop.trips) (u : Fin 5) (lane : Fin 16) :
    shapeCast S16 (ldc m f (k0_off17 j (BitVec.ofNat 32 u.val)) (k0_off17_inb j u)) shapeCasts_S1x16_S16 (ix1 lane)
      = m.view.read (Elt F) f (ix2 (⟨5 * j.val + u.val + 50, by have := lt_of_lt_of_eq j.isLt trips3; have := u.isLt; omega⟩ : Fin 100)
          (⟨16 * 5 + lane.val, by have := lane.isLt; omega⟩ : Fin 128)) :=
  ld3_lane m f j u lane ⟨5, by decide⟩

theorem ldo18_lane (m : Memref sig .scVector .vmem S100x128 .f32) (f : m.view.ty.Contents (Elt F)) (j : Fin k0_t3_loop.trips) (u : Fin 5) (lane : Fin 16) :
    shapeCast S16 (ldc m f (k0_off18 j (BitVec.ofNat 32 u.val)) (k0_off18_inb j u)) shapeCasts_S1x16_S16 (ix1 lane)
      = m.view.read (Elt F) f (ix2 (⟨5 * j.val + u.val + 50, by have := lt_of_lt_of_eq j.isLt trips3; have := u.isLt; omega⟩ : Fin 100)
          (⟨16 * 6 + lane.val, by have := lane.isLt; omega⟩ : Fin 128)) :=
  ld3_lane m f j u lane ⟨6, by decide⟩

theorem ldo19_lane (m : Memref sig .scVector .vmem S100x128 .f32) (f : m.view.ty.Contents (Elt F)) (j : Fin k0_t3_loop.trips) (u : Fin 5) (lane : Fin 16) :
    shapeCast S16 (ldc m f (k0_off19 j (BitVec.ofNat 32 u.val)) (k0_off19_inb j u)) shapeCasts_S1x16_S16 (ix1 lane)
      = m.view.read (Elt F) f (ix2 (⟨5 * j.val + u.val + 50, by have := lt_of_lt_of_eq j.isLt trips3; have := u.isLt; omega⟩ : Fin 100)
          (⟨16 * 7 + lane.val, by have := lane.isLt; omega⟩ : Fin 128)) :=
  ld3_lane m f j u lane ⟨7, by decide⟩

section Loop3
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n + 50, by omega⟩ : Fin 100) col)
      = trow T1 (remapW (I4 (ix1 (⟨64 * t.val + n, flat_lt t n hn⟩ : Fin 2097152)))) col)
include hG

theorem accsT3_lane_0 : ∀ (n : Nat) (h : n ≤ 10) (lane : Fin 16),
    (accsT3 m f n).1 (ix1 lane)
      = rowPre T1 I4 t (⟨16 * 0 + lane.val, by have := lane.isLt; omega⟩ : Fin 128) (5 * n) (by omega)
  | 0, h, lane => rfl
  | n + 1, h, lane => by
    have hj : n < k0_t3_loop.trips := by rw [trips3]; omega
    have ih := accsT3_lane_0 n (by omega) lane
    have e0 : shapeCast S16 (ldc m f (k0_off12 ⟨n, hj⟩ 0#32) (k0_off12_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo12_lane m f ⟨n, hj⟩ (0 : Fin 5) lane).trans (hG (5 * n + 0) (by omega) _)
    have e1 : shapeCast S16 (ldc m f (k0_off12 ⟨n, hj⟩ 1#32) (k0_off12_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo12_lane m f ⟨n, hj⟩ (1 : Fin 5) lane).trans (hG (5 * n + 1) (by omega) _)
    have e2 : shapeCast S16 (ldc m f (k0_off12 ⟨n, hj⟩ 2#32) (k0_off12_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo12_lane m f ⟨n, hj⟩ (2 : Fin 5) lane).trans (hG (5 * n + 2) (by omega) _)
    have e3 : shapeCast S16 (ldc m f (k0_off12 ⟨n, hj⟩ 3#32) (k0_off12_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo12_lane m f ⟨n, hj⟩ (3 : Fin 5) lane).trans (hG (5 * n + 3) (by omega) _)
    have e4 : shapeCast S16 (ldc m f (k0_off12 ⟨n, hj⟩ 4#32) (k0_off12_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo12_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_1 : ∀ (n : Nat) (h : n ≤ 10) (lane : Fin 16),
    (accsT3 m f n).2.1 (ix1 lane)
      = rowPre T1 I4 t (⟨16 * 1 + lane.val, by have := lane.isLt; omega⟩ : Fin 128) (5 * n) (by omega)
  | 0, h, lane => rfl
  | n + 1, h, lane => by
    have hj : n < k0_t3_loop.trips := by rw [trips3]; omega
    have ih := accsT3_lane_1 n (by omega) lane
    have e0 : shapeCast S16 (ldc m f (k0_off13 ⟨n, hj⟩ 0#32) (k0_off13_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo13_lane m f ⟨n, hj⟩ (0 : Fin 5) lane).trans (hG (5 * n + 0) (by omega) _)
    have e1 : shapeCast S16 (ldc m f (k0_off13 ⟨n, hj⟩ 1#32) (k0_off13_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo13_lane m f ⟨n, hj⟩ (1 : Fin 5) lane).trans (hG (5 * n + 1) (by omega) _)
    have e2 : shapeCast S16 (ldc m f (k0_off13 ⟨n, hj⟩ 2#32) (k0_off13_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo13_lane m f ⟨n, hj⟩ (2 : Fin 5) lane).trans (hG (5 * n + 2) (by omega) _)
    have e3 : shapeCast S16 (ldc m f (k0_off13 ⟨n, hj⟩ 3#32) (k0_off13_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo13_lane m f ⟨n, hj⟩ (3 : Fin 5) lane).trans (hG (5 * n + 3) (by omega) _)
    have e4 : shapeCast S16 (ldc m f (k0_off13 ⟨n, hj⟩ 4#32) (k0_off13_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo13_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_2 : ∀ (n : Nat) (h : n ≤ 10) (lane : Fin 16),
    (accsT3 m f n).2.2.1 (ix1 lane)
      = rowPre T1 I4 t (⟨16 * 2 + lane.val, by have := lane.isLt; omega⟩ : Fin 128) (5 * n) (by omega)
  | 0, h, lane => rfl
  | n + 1, h, lane => by
    have hj : n < k0_t3_loop.trips := by rw [trips3]; omega
    have ih := accsT3_lane_2 n (by omega) lane
    have e0 : shapeCast S16 (ldc m f (k0_off14 ⟨n, hj⟩ 0#32) (k0_off14_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo14_lane m f ⟨n, hj⟩ (0 : Fin 5) lane).trans (hG (5 * n + 0) (by omega) _)
    have e1 : shapeCast S16 (ldc m f (k0_off14 ⟨n, hj⟩ 1#32) (k0_off14_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo14_lane m f ⟨n, hj⟩ (1 : Fin 5) lane).trans (hG (5 * n + 1) (by omega) _)
    have e2 : shapeCast S16 (ldc m f (k0_off14 ⟨n, hj⟩ 2#32) (k0_off14_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo14_lane m f ⟨n, hj⟩ (2 : Fin 5) lane).trans (hG (5 * n + 2) (by omega) _)
    have e3 : shapeCast S16 (ldc m f (k0_off14 ⟨n, hj⟩ 3#32) (k0_off14_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo14_lane m f ⟨n, hj⟩ (3 : Fin 5) lane).trans (hG (5 * n + 3) (by omega) _)
    have e4 : shapeCast S16 (ldc m f (k0_off14 ⟨n, hj⟩ 4#32) (k0_off14_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo14_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_3 : ∀ (n : Nat) (h : n ≤ 10) (lane : Fin 16),
    (accsT3 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t3_loop.trips := by rw [trips3]; omega
    have ih := accsT3_lane_3 n (by omega) lane
    have e0 : shapeCast S16 (ldc m f (k0_off15 ⟨n, hj⟩ 0#32) (k0_off15_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo15_lane m f ⟨n, hj⟩ (0 : Fin 5) lane).trans (hG (5 * n + 0) (by omega) _)
    have e1 : shapeCast S16 (ldc m f (k0_off15 ⟨n, hj⟩ 1#32) (k0_off15_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo15_lane m f ⟨n, hj⟩ (1 : Fin 5) lane).trans (hG (5 * n + 1) (by omega) _)
    have e2 : shapeCast S16 (ldc m f (k0_off15 ⟨n, hj⟩ 2#32) (k0_off15_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo15_lane m f ⟨n, hj⟩ (2 : Fin 5) lane).trans (hG (5 * n + 2) (by omega) _)
    have e3 : shapeCast S16 (ldc m f (k0_off15 ⟨n, hj⟩ 3#32) (k0_off15_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo15_lane m f ⟨n, hj⟩ (3 : Fin 5) lane).trans (hG (5 * n + 3) (by omega) _)
    have e4 : shapeCast S16 (ldc m f (k0_off15 ⟨n, hj⟩ 4#32) (k0_off15_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo15_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_4 : ∀ (n : Nat) (h : n ≤ 10) (lane : Fin 16),
    (accsT3 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t3_loop.trips := by rw [trips3]; omega
    have ih := accsT3_lane_4 n (by omega) lane
    have e0 : shapeCast S16 (ldc m f (k0_off16 ⟨n, hj⟩ 0#32) (k0_off16_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo16_lane m f ⟨n, hj⟩ (0 : Fin 5) lane).trans (hG (5 * n + 0) (by omega) _)
    have e1 : shapeCast S16 (ldc m f (k0_off16 ⟨n, hj⟩ 1#32) (k0_off16_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo16_lane m f ⟨n, hj⟩ (1 : Fin 5) lane).trans (hG (5 * n + 1) (by omega) _)
    have e2 : shapeCast S16 (ldc m f (k0_off16 ⟨n, hj⟩ 2#32) (k0_off16_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo16_lane m f ⟨n, hj⟩ (2 : Fin 5) lane).trans (hG (5 * n + 2) (by omega) _)
    have e3 : shapeCast S16 (ldc m f (k0_off16 ⟨n, hj⟩ 3#32) (k0_off16_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo16_lane m f ⟨n, hj⟩ (3 : Fin 5) lane).trans (hG (5 * n + 3) (by omega) _)
    have e4 : shapeCast S16 (ldc m f (k0_off16 ⟨n, hj⟩ 4#32) (k0_off16_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo16_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_5 : ∀ (n : Nat) (h : n ≤ 10) (lane : Fin 16),
    (accsT3 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t3_loop.trips := by rw [trips3]; omega
    have ih := accsT3_lane_5 n (by omega) lane
    have e0 : shapeCast S16 (ldc m f (k0_off17 ⟨n, hj⟩ 0#32) (k0_off17_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo17_lane m f ⟨n, hj⟩ (0 : Fin 5) lane).trans (hG (5 * n + 0) (by omega) _)
    have e1 : shapeCast S16 (ldc m f (k0_off17 ⟨n, hj⟩ 1#32) (k0_off17_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo17_lane m f ⟨n, hj⟩ (1 : Fin 5) lane).trans (hG (5 * n + 1) (by omega) _)
    have e2 : shapeCast S16 (ldc m f (k0_off17 ⟨n, hj⟩ 2#32) (k0_off17_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo17_lane m f ⟨n, hj⟩ (2 : Fin 5) lane).trans (hG (5 * n + 2) (by omega) _)
    have e3 : shapeCast S16 (ldc m f (k0_off17 ⟨n, hj⟩ 3#32) (k0_off17_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo17_lane m f ⟨n, hj⟩ (3 : Fin 5) lane).trans (hG (5 * n + 3) (by omega) _)
    have e4 : shapeCast S16 (ldc m f (k0_off17 ⟨n, hj⟩ 4#32) (k0_off17_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo17_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_6 : ∀ (n : Nat) (h : n ≤ 10) (lane : Fin 16),
    (accsT3 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t3_loop.trips := by rw [trips3]; omega
    have ih := accsT3_lane_6 n (by omega) lane
    have e0 : shapeCast S16 (ldc m f (k0_off18 ⟨n, hj⟩ 0#32) (k0_off18_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo18_lane m f ⟨n, hj⟩ (0 : Fin 5) lane).trans (hG (5 * n + 0) (by omega) _)
    have e1 : shapeCast S16 (ldc m f (k0_off18 ⟨n, hj⟩ 1#32) (k0_off18_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo18_lane m f ⟨n, hj⟩ (1 : Fin 5) lane).trans (hG (5 * n + 1) (by omega) _)
    have e2 : shapeCast S16 (ldc m f (k0_off18 ⟨n, hj⟩ 2#32) (k0_off18_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo18_lane m f ⟨n, hj⟩ (2 : Fin 5) lane).trans (hG (5 * n + 2) (by omega) _)
    have e3 : shapeCast S16 (ldc m f (k0_off18 ⟨n, hj⟩ 3#32) (k0_off18_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo18_lane m f ⟨n, hj⟩ (3 : Fin 5) lane).trans (hG (5 * n + 3) (by omega) _)
    have e4 : shapeCast S16 (ldc m f (k0_off18 ⟨n, hj⟩ 4#32) (k0_off18_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo18_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_7 : ∀ (n : Nat) (h : n ≤ 10) (lane : Fin 16),
    (accsT3 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t3_loop.trips := by rw [trips3]; omega
    have ih := accsT3_lane_7 n (by omega) lane
    have e0 : shapeCast S16 (ldc m f (k0_off19 ⟨n, hj⟩ 0#32) (k0_off19_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo19_lane m f ⟨n, hj⟩ (0 : Fin 5) lane).trans (hG (5 * n + 0) (by omega) _)
    have e1 : shapeCast S16 (ldc m f (k0_off19 ⟨n, hj⟩ 1#32) (k0_off19_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo19_lane m f ⟨n, hj⟩ (1 : Fin 5) lane).trans (hG (5 * n + 1) (by omega) _)
    have e2 : shapeCast S16 (ldc m f (k0_off19 ⟨n, hj⟩ 2#32) (k0_off19_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo19_lane m f ⟨n, hj⟩ (2 : Fin 5) lane).trans (hG (5 * n + 2) (by omega) _)
    have e3 : shapeCast S16 (ldc m f (k0_off19 ⟨n, hj⟩ 3#32) (k0_off19_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo19_lane m f ⟨n, hj⟩ (3 : Fin 5) lane).trans (hG (5 * n + 3) (by omega) _)
    have e4 : shapeCast S16 (ldc m f (k0_off19 ⟨n, hj⟩ 4#32) (k0_off19_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo19_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT3_done (cc : Fin 8) (lane : Fin 16) :
    (accsT3 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT3_lane_0 m f T1 I4 t hG 10 (by omega) lane
  | ⟨1, _⟩ => exact accsT3_lane_1 m f T1 I4 t hG 10 (by omega) lane
  | ⟨2, _⟩ => exact accsT3_lane_2 m f T1 I4 t hG 10 (by omega) lane
  | ⟨3, _⟩ => exact accsT3_lane_3 m f T1 I4 t hG 10 (by omega) lane
  | ⟨4, _⟩ => exact accsT3_lane_4 m f T1 I4 t hG 10 (by omega) lane
  | ⟨5, _⟩ => exact accsT3_lane_5 m f T1 I4 t hG 10 (by omega) lane
  | ⟨6, _⟩ => exact accsT3_lane_6 m f T1 I4 t hG 10 (by omega) lane
  | ⟨7, _⟩ => exact accsT3_lane_7 m f T1 I4 t hG 10 (by omega) lane

end Loop3

theorem ldo23_lane (m : Memref sig .scVector .vmem S100x128 .f32) (f : m.view.ty.Contents (Elt F)) (j : Fin k0_t4_loop.trips) (u : Fin 5) (lane : Fin 16) :
    shapeCast S16 (ldc m f (k0_off23 j (BitVec.ofNat 32 u.val)) (k0_off23_inb j u)) shapeCasts_S1x16_S16 (ix1 lane)
      = m.view.read (Elt F) f (ix2 (⟨5 * j.val + u.val, by have := lt_of_lt_of_eq j.isLt trips4; have := u.isLt; omega⟩ : Fin 100)
          (⟨16 * 0 + lane.val, by have := lane.isLt; omega⟩ : Fin 128)) :=
  ld4_lane m f j u lane ⟨0, by decide⟩

theorem ldo24_lane (m : Memref sig .scVector .vmem S100x128 .f32) (f : m.view.ty.Contents (Elt F)) (j : Fin k0_t4_loop.trips) (u : Fin 5) (lane : Fin 16) :
    shapeCast S16 (ldc m f (k0_off24 j (BitVec.ofNat 32 u.val)) (k0_off24_inb j u)) shapeCasts_S1x16_S16 (ix1 lane)
      = m.view.read (Elt F) f (ix2 (⟨5 * j.val + u.val, by have := lt_of_lt_of_eq j.isLt trips4; have := u.isLt; omega⟩ : Fin 100)
          (⟨16 * 1 + lane.val, by have := lane.isLt; omega⟩ : Fin 128)) :=
  ld4_lane m f j u lane ⟨1, by decide⟩

theorem ldo25_lane (m : Memref sig .scVector .vmem S100x128 .f32) (f : m.view.ty.Contents (Elt F)) (j : Fin k0_t4_loop.trips) (u : Fin 5) (lane : Fin 16) :
    shapeCast S16 (ldc m f (k0_off25 j (BitVec.ofNat 32 u.val)) (k0_off25_inb j u)) shapeCasts_S1x16_S16 (ix1 lane)
      = m.view.read (Elt F) f (ix2 (⟨5 * j.val + u.val, by have := lt_of_lt_of_eq j.isLt trips4; have := u.isLt; omega⟩ : Fin 100)
          (⟨16 * 2 + lane.val, by have := lane.isLt; omega⟩ : Fin 128)) :=
  ld4_lane m f j u lane ⟨2, by decide⟩

theorem ldo26_lane (m : Memref sig .scVector .vmem S100x128 .f32) (f : m.view.ty.Contents (Elt F)) (j : Fin k0_t4_loop.trips) (u : Fin 5) (lane : Fin 16) :
    shapeCast S16 (ldc m f (k0_off26 j (BitVec.ofNat 32 u.val)) (k0_off26_inb j u)) shapeCasts_S1x16_S16 (ix1 lane)
      = m.view.read (Elt F) f (ix2 (⟨5 * j.val + u.val, by have := lt_of_lt_of_eq j.isLt trips4; have := u.isLt; omega⟩ : Fin 100)
          (⟨16 * 3 + lane.val, by have := lane.isLt; omega⟩ : Fin 128)) :=
  ld4_lane m f j u lane ⟨3, by decide⟩

theorem ldo27_lane (m : Memref sig .scVector .vmem S100x128 .f32) (f : m.view.ty.Contents (Elt F)) (j : Fin k0_t4_loop.trips) (u : Fin 5) (lane : Fin 16) :
    shapeCast S16 (ldc m f (k0_off27 j (BitVec.ofNat 32 u.val)) (k0_off27_inb j u)) shapeCasts_S1x16_S16 (ix1 lane)
      = m.view.read (Elt F) f (ix2 (⟨5 * j.val + u.val, by have := lt_of_lt_of_eq j.isLt trips4; have := u.isLt; omega⟩ : Fin 100)
          (⟨16 * 4 + lane.val, by have := lane.isLt; omega⟩ : Fin 128)) :=
  ld4_lane m f j u lane ⟨4, by decide⟩

theorem ldo28_lane (m : Memref sig .scVector .vmem S100x128 .f32) (f : m.view.ty.Contents (Elt F)) (j : Fin k0_t4_loop.trips) (u : Fin 5) (lane : Fin 16) :
    shapeCast S16 (ldc m f (k0_off28 j (BitVec.ofNat 32 u.val)) (k0_off28_inb j u)) shapeCasts_S1x16_S16 (ix1 lane)
      = m.view.read (Elt F) f (ix2 (⟨5 * j.val + u.val, by have := lt_of_lt_of_eq j.isLt trips4; have := u.isLt; omega⟩ : Fin 100)
          (⟨16 * 5 + lane.val, by have := lane.isLt; omega⟩ : Fin 128)) :=
  ld4_lane m f j u lane ⟨5, by decide⟩

theorem ldo29_lane (m : Memref sig .scVector .vmem S100x128 .f32) (f : m.view.ty.Contents (Elt F)) (j : Fin k0_t4_loop.trips) (u : Fin 5) (lane : Fin 16) :
    shapeCast S16 (ldc m f (k0_off29 j (BitVec.ofNat 32 u.val)) (k0_off29_inb j u)) shapeCasts_S1x16_S16 (ix1 lane)
      = m.view.read (Elt F) f (ix2 (⟨5 * j.val + u.val, by have := lt_of_lt_of_eq j.isLt trips4; have := u.isLt; omega⟩ : Fin 100)
          (⟨16 * 6 + lane.val, by have := lane.isLt; omega⟩ : Fin 128)) :=
  ld4_lane m f j u lane ⟨6, by decide⟩

theorem ldo30_lane (m : Memref sig .scVector .vmem S100x128 .f32) (f : m.view.ty.Contents (Elt F)) (j : Fin k0_t4_loop.trips) (u : Fin 5) (lane : Fin 16) :
    shapeCast S16 (ldc m f (k0_off30 j (BitVec.ofNat 32 u.val)) (k0_off30_inb j u)) shapeCasts_S1x16_S16 (ix1 lane)
      = m.view.read (Elt F) f (ix2 (⟨5 * j.val + u.val, by have := lt_of_lt_of_eq j.isLt trips4; have := u.isLt; omega⟩ : Fin 100)
          (⟨16 * 7 + lane.val, by have := lane.isLt; omega⟩ : Fin 128)) :=
  ld4_lane m f j u lane ⟨7, by decide⟩

section Loop4
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n, by omega⟩ : Fin 100) col)
      = trow T1 (remapW (I4 (ix1 (⟨64 * t.val + n, flat_lt t n hn⟩ : Fin 2097152)))) col)
include hG

theorem accsT4_lane_0 : ∀ (n : Nat) (h : n ≤ 10) (lane : Fin 16),
    (accsT4 m f n).1 (ix1 lane)
      = rowPre T1 I4 t (⟨16 * 0 + lane.val, by have := lane.isLt; omega⟩ : Fin 128) (5 * n) (by omega)
  | 0, h, lane => rfl
  | n + 1, h, lane => by
    have hj : n < k0_t4_loop.trips := by rw [trips4]; omega
    have ih := accsT4_lane_0 n (by omega) lane
    have e0 : shapeCast S16 (ldc m f (k0_off23 ⟨n, hj⟩ 0#32) (k0_off23_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo23_lane m f ⟨n, hj⟩ (0 : Fin 5) lane).trans (hG (5 * n + 0) (by omega) _)
    have e1 : shapeCast S16 (ldc m f (k0_off23 ⟨n, hj⟩ 1#32) (k0_off23_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo23_lane m f ⟨n, hj⟩ (1 : Fin 5) lane).trans (hG (5 * n + 1) (by omega) _)
    have e2 : shapeCast S16 (ldc m f (k0_off23 ⟨n, hj⟩ 2#32) (k0_off23_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo23_lane m f ⟨n, hj⟩ (2 : Fin 5) lane).trans (hG (5 * n + 2) (by omega) _)
    have e3 : shapeCast S16 (ldc m f (k0_off23 ⟨n, hj⟩ 3#32) (k0_off23_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo23_lane m f ⟨n, hj⟩ (3 : Fin 5) lane).trans (hG (5 * n + 3) (by omega) _)
    have e4 : shapeCast S16 (ldc m f (k0_off23 ⟨n, hj⟩ 4#32) (k0_off23_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo23_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_1 : ∀ (n : Nat) (h : n ≤ 10) (lane : Fin 16),
    (accsT4 m f n).2.1 (ix1 lane)
      = rowPre T1 I4 t (⟨16 * 1 + lane.val, by have := lane.isLt; omega⟩ : Fin 128) (5 * n) (by omega)
  | 0, h, lane => rfl
  | n + 1, h, lane => by
    have hj : n < k0_t4_loop.trips := by rw [trips4]; omega
    have ih := accsT4_lane_1 n (by omega) lane
    have e0 : shapeCast S16 (ldc m f (k0_off24 ⟨n, hj⟩ 0#32) (k0_off24_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo24_lane m f ⟨n, hj⟩ (0 : Fin 5) lane).trans (hG (5 * n + 0) (by omega) _)
    have e1 : shapeCast S16 (ldc m f (k0_off24 ⟨n, hj⟩ 1#32) (k0_off24_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo24_lane m f ⟨n, hj⟩ (1 : Fin 5) lane).trans (hG (5 * n + 1) (by omega) _)
    have e2 : shapeCast S16 (ldc m f (k0_off24 ⟨n, hj⟩ 2#32) (k0_off24_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo24_lane m f ⟨n, hj⟩ (2 : Fin 5) lane).trans (hG (5 * n + 2) (by omega) _)
    have e3 : shapeCast S16 (ldc m f (k0_off24 ⟨n, hj⟩ 3#32) (k0_off24_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo24_lane m f ⟨n, hj⟩ (3 : Fin 5) lane).trans (hG (5 * n + 3) (by omega) _)
    have e4 : shapeCast S16 (ldc m f (k0_off24 ⟨n, hj⟩ 4#32) (k0_off24_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo24_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_2 : ∀ (n : Nat) (h : n ≤ 10) (lane : Fin 16),
    (accsT4 m f n).2.2.1 (ix1 lane)
      = rowPre T1 I4 t (⟨16 * 2 + lane.val, by have := lane.isLt; omega⟩ : Fin 128) (5 * n) (by omega)
  | 0, h, lane => rfl
  | n + 1, h, lane => by
    have hj : n < k0_t4_loop.trips := by rw [trips4]; omega
    have ih := accsT4_lane_2 n (by omega) lane
    have e0 : shapeCast S16 (ldc m f (k0_off25 ⟨n, hj⟩ 0#32) (k0_off25_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo25_lane m f ⟨n, hj⟩ (0 : Fin 5) lane).trans (hG (5 * n + 0) (by omega) _)
    have e1 : shapeCast S16 (ldc m f (k0_off25 ⟨n, hj⟩ 1#32) (k0_off25_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo25_lane m f ⟨n, hj⟩ (1 : Fin 5) lane).trans (hG (5 * n + 1) (by omega) _)
    have e2 : shapeCast S16 (ldc m f (k0_off25 ⟨n, hj⟩ 2#32) (k0_off25_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo25_lane m f ⟨n, hj⟩ (2 : Fin 5) lane).trans (hG (5 * n + 2) (by omega) _)
    have e3 : shapeCast S16 (ldc m f (k0_off25 ⟨n, hj⟩ 3#32) (k0_off25_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo25_lane m f ⟨n, hj⟩ (3 : Fin 5) lane).trans (hG (5 * n + 3) (by omega) _)
    have e4 : shapeCast S16 (ldc m f (k0_off25 ⟨n, hj⟩ 4#32) (k0_off25_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo25_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_3 : ∀ (n : Nat) (h : n ≤ 10) (lane : Fin 16),
    (accsT4 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t4_loop.trips := by rw [trips4]; omega
    have ih := accsT4_lane_3 n (by omega) lane
    have e0 : shapeCast S16 (ldc m f (k0_off26 ⟨n, hj⟩ 0#32) (k0_off26_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo26_lane m f ⟨n, hj⟩ (0 : Fin 5) lane).trans (hG (5 * n + 0) (by omega) _)
    have e1 : shapeCast S16 (ldc m f (k0_off26 ⟨n, hj⟩ 1#32) (k0_off26_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo26_lane m f ⟨n, hj⟩ (1 : Fin 5) lane).trans (hG (5 * n + 1) (by omega) _)
    have e2 : shapeCast S16 (ldc m f (k0_off26 ⟨n, hj⟩ 2#32) (k0_off26_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo26_lane m f ⟨n, hj⟩ (2 : Fin 5) lane).trans (hG (5 * n + 2) (by omega) _)
    have e3 : shapeCast S16 (ldc m f (k0_off26 ⟨n, hj⟩ 3#32) (k0_off26_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo26_lane m f ⟨n, hj⟩ (3 : Fin 5) lane).trans (hG (5 * n + 3) (by omega) _)
    have e4 : shapeCast S16 (ldc m f (k0_off26 ⟨n, hj⟩ 4#32) (k0_off26_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo26_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_4 : ∀ (n : Nat) (h : n ≤ 10) (lane : Fin 16),
    (accsT4 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t4_loop.trips := by rw [trips4]; omega
    have ih := accsT4_lane_4 n (by omega) lane
    have e0 : shapeCast S16 (ldc m f (k0_off27 ⟨n, hj⟩ 0#32) (k0_off27_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo27_lane m f ⟨n, hj⟩ (0 : Fin 5) lane).trans (hG (5 * n + 0) (by omega) _)
    have e1 : shapeCast S16 (ldc m f (k0_off27 ⟨n, hj⟩ 1#32) (k0_off27_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo27_lane m f ⟨n, hj⟩ (1 : Fin 5) lane).trans (hG (5 * n + 1) (by omega) _)
    have e2 : shapeCast S16 (ldc m f (k0_off27 ⟨n, hj⟩ 2#32) (k0_off27_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo27_lane m f ⟨n, hj⟩ (2 : Fin 5) lane).trans (hG (5 * n + 2) (by omega) _)
    have e3 : shapeCast S16 (ldc m f (k0_off27 ⟨n, hj⟩ 3#32) (k0_off27_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo27_lane m f ⟨n, hj⟩ (3 : Fin 5) lane).trans (hG (5 * n + 3) (by omega) _)
    have e4 : shapeCast S16 (ldc m f (k0_off27 ⟨n, hj⟩ 4#32) (k0_off27_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo27_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_5 : ∀ (n : Nat) (h : n ≤ 10) (lane : Fin 16),
    (accsT4 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t4_loop.trips := by rw [trips4]; omega
    have ih := accsT4_lane_5 n (by omega) lane
    have e0 : shapeCast S16 (ldc m f (k0_off28 ⟨n, hj⟩ 0#32) (k0_off28_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo28_lane m f ⟨n, hj⟩ (0 : Fin 5) lane).trans (hG (5 * n + 0) (by omega) _)
    have e1 : shapeCast S16 (ldc m f (k0_off28 ⟨n, hj⟩ 1#32) (k0_off28_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo28_lane m f ⟨n, hj⟩ (1 : Fin 5) lane).trans (hG (5 * n + 1) (by omega) _)
    have e2 : shapeCast S16 (ldc m f (k0_off28 ⟨n, hj⟩ 2#32) (k0_off28_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo28_lane m f ⟨n, hj⟩ (2 : Fin 5) lane).trans (hG (5 * n + 2) (by omega) _)
    have e3 : shapeCast S16 (ldc m f (k0_off28 ⟨n, hj⟩ 3#32) (k0_off28_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo28_lane m f ⟨n, hj⟩ (3 : Fin 5) lane).trans (hG (5 * n + 3) (by omega) _)
    have e4 : shapeCast S16 (ldc m f (k0_off28 ⟨n, hj⟩ 4#32) (k0_off28_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo28_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_6 : ∀ (n : Nat) (h : n ≤ 10) (lane : Fin 16),
    (accsT4 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t4_loop.trips := by rw [trips4]; omega
    have ih := accsT4_lane_6 n (by omega) lane
    have e0 : shapeCast S16 (ldc m f (k0_off29 ⟨n, hj⟩ 0#32) (k0_off29_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo29_lane m f ⟨n, hj⟩ (0 : Fin 5) lane).trans (hG (5 * n + 0) (by omega) _)
    have e1 : shapeCast S16 (ldc m f (k0_off29 ⟨n, hj⟩ 1#32) (k0_off29_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo29_lane m f ⟨n, hj⟩ (1 : Fin 5) lane).trans (hG (5 * n + 1) (by omega) _)
    have e2 : shapeCast S16 (ldc m f (k0_off29 ⟨n, hj⟩ 2#32) (k0_off29_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo29_lane m f ⟨n, hj⟩ (2 : Fin 5) lane).trans (hG (5 * n + 2) (by omega) _)
    have e3 : shapeCast S16 (ldc m f (k0_off29 ⟨n, hj⟩ 3#32) (k0_off29_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo29_lane m f ⟨n, hj⟩ (3 : Fin 5) lane).trans (hG (5 * n + 3) (by omega) _)
    have e4 : shapeCast S16 (ldc m f (k0_off29 ⟨n, hj⟩ 4#32) (k0_off29_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo29_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_7 : ∀ (n : Nat) (h : n ≤ 10) (lane : Fin 16),
    (accsT4 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t4_loop.trips := by rw [trips4]; omega
    have ih := accsT4_lane_7 n (by omega) lane
    have e0 : shapeCast S16 (ldc m f (k0_off30 ⟨n, hj⟩ 0#32) (k0_off30_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo30_lane m f ⟨n, hj⟩ (0 : Fin 5) lane).trans (hG (5 * n + 0) (by omega) _)
    have e1 : shapeCast S16 (ldc m f (k0_off30 ⟨n, hj⟩ 1#32) (k0_off30_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo30_lane m f ⟨n, hj⟩ (1 : Fin 5) lane).trans (hG (5 * n + 1) (by omega) _)
    have e2 : shapeCast S16 (ldc m f (k0_off30 ⟨n, hj⟩ 2#32) (k0_off30_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo30_lane m f ⟨n, hj⟩ (2 : Fin 5) lane).trans (hG (5 * n + 2) (by omega) _)
    have e3 : shapeCast S16 (ldc m f (k0_off30 ⟨n, hj⟩ 3#32) (k0_off30_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo30_lane m f ⟨n, hj⟩ (3 : Fin 5) lane).trans (hG (5 * n + 3) (by omega) _)
    have e4 : shapeCast S16 (ldc m f (k0_off30 ⟨n, hj⟩ 4#32) (k0_off30_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo30_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT4_done (cc : Fin 8) (lane : Fin 16) :
    (accsT4 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT4_lane_0 m f T1 I4 t hG 10 (by omega) lane
  | ⟨1, _⟩ => exact accsT4_lane_1 m f T1 I4 t hG 10 (by omega) lane
  | ⟨2, _⟩ => exact accsT4_lane_2 m f T1 I4 t hG 10 (by omega) lane
  | ⟨3, _⟩ => exact accsT4_lane_3 m f T1 I4 t hG 10 (by omega) lane
  | ⟨4, _⟩ => exact accsT4_lane_4 m f T1 I4 t hG 10 (by omega) lane
  | ⟨5, _⟩ => exact accsT4_lane_5 m f T1 I4 t hG 10 (by omega) lane
  | ⟨6, _⟩ => exact accsT4_lane_6 m f T1 I4 t hG 10 (by omega) lane
  | ⟨7, _⟩ => exact accsT4_lane_7 m f T1 I4 t hG 10 (by omega) lane

end Loop4

theorem ldo31_lane (m : Memref sig .scVector .vmem S100x128 .f32) (f : m.view.ty.Contents (Elt F)) (j : Fin k0_t5_loop.trips) (u : Fin 5) (lane : Fin 16) :
    shapeCast S16 (ldc m f (k0_off31 j (BitVec.ofNat 32 u.val)) (k0_off31_inb j u)) shapeCasts_S1x16_S16 (ix1 lane)
      = m.view.read (Elt F) f (ix2 (⟨5 * j.val + u.val + 50, by have := lt_of_lt_of_eq j.isLt trips5; have := u.isLt; omega⟩ : Fin 100)
          (⟨16 * 0 + lane.val, by have := lane.isLt; omega⟩ : Fin 128)) :=
  ld5_lane m f j u lane ⟨0, by decide⟩

theorem ldo32_lane (m : Memref sig .scVector .vmem S100x128 .f32) (f : m.view.ty.Contents (Elt F)) (j : Fin k0_t5_loop.trips) (u : Fin 5) (lane : Fin 16) :
    shapeCast S16 (ldc m f (k0_off32 j (BitVec.ofNat 32 u.val)) (k0_off32_inb j u)) shapeCasts_S1x16_S16 (ix1 lane)
      = m.view.read (Elt F) f (ix2 (⟨5 * j.val + u.val + 50, by have := lt_of_lt_of_eq j.isLt trips5; have := u.isLt; omega⟩ : Fin 100)
          (⟨16 * 1 + lane.val, by have := lane.isLt; omega⟩ : Fin 128)) :=
  ld5_lane m f j u lane ⟨1, by decide⟩

theorem ldo33_lane (m : Memref sig .scVector .vmem S100x128 .f32) (f : m.view.ty.Contents (Elt F)) (j : Fin k0_t5_loop.trips) (u : Fin 5) (lane : Fin 16) :
    shapeCast S16 (ldc m f (k0_off33 j (BitVec.ofNat 32 u.val)) (k0_off33_inb j u)) shapeCasts_S1x16_S16 (ix1 lane)
      = m.view.read (Elt F) f (ix2 (⟨5 * j.val + u.val + 50, by have := lt_of_lt_of_eq j.isLt trips5; have := u.isLt; omega⟩ : Fin 100)
          (⟨16 * 2 + lane.val, by have := lane.isLt; omega⟩ : Fin 128)) :=
  ld5_lane m f j u lane ⟨2, by decide⟩

theorem ldo34_lane (m : Memref sig .scVector .vmem S100x128 .f32) (f : m.view.ty.Contents (Elt F)) (j : Fin k0_t5_loop.trips) (u : Fin 5) (lane : Fin 16) :
    shapeCast S16 (ldc m f (k0_off34 j (BitVec.ofNat 32 u.val)) (k0_off34_inb j u)) shapeCasts_S1x16_S16 (ix1 lane)
      = m.view.read (Elt F) f (ix2 (⟨5 * j.val + u.val + 50, by have := lt_of_lt_of_eq j.isLt trips5; have := u.isLt; omega⟩ : Fin 100)
          (⟨16 * 3 + lane.val, by have := lane.isLt; omega⟩ : Fin 128)) :=
  ld5_lane m f j u lane ⟨3, by decide⟩

theorem ldo35_lane (m : Memref sig .scVector .vmem S100x128 .f32) (f : m.view.ty.Contents (Elt F)) (j : Fin k0_t5_loop.trips) (u : Fin 5) (lane : Fin 16) :
    shapeCast S16 (ldc m f (k0_off35 j (BitVec.ofNat 32 u.val)) (k0_off35_inb j u)) shapeCasts_S1x16_S16 (ix1 lane)
      = m.view.read (Elt F) f (ix2 (⟨5 * j.val + u.val + 50, by have := lt_of_lt_of_eq j.isLt trips5; have := u.isLt; omega⟩ : Fin 100)
          (⟨16 * 4 + lane.val, by have := lane.isLt; omega⟩ : Fin 128)) :=
  ld5_lane m f j u lane ⟨4, by decide⟩

theorem ldo36_lane (m : Memref sig .scVector .vmem S100x128 .f32) (f : m.view.ty.Contents (Elt F)) (j : Fin k0_t5_loop.trips) (u : Fin 5) (lane : Fin 16) :
    shapeCast S16 (ldc m f (k0_off36 j (BitVec.ofNat 32 u.val)) (k0_off36_inb j u)) shapeCasts_S1x16_S16 (ix1 lane)
      = m.view.read (Elt F) f (ix2 (⟨5 * j.val + u.val + 50, by have := lt_of_lt_of_eq j.isLt trips5; have := u.isLt; omega⟩ : Fin 100)
          (⟨16 * 5 + lane.val, by have := lane.isLt; omega⟩ : Fin 128)) :=
  ld5_lane m f j u lane ⟨5, by decide⟩

theorem ldo37_lane (m : Memref sig .scVector .vmem S100x128 .f32) (f : m.view.ty.Contents (Elt F)) (j : Fin k0_t5_loop.trips) (u : Fin 5) (lane : Fin 16) :
    shapeCast S16 (ldc m f (k0_off37 j (BitVec.ofNat 32 u.val)) (k0_off37_inb j u)) shapeCasts_S1x16_S16 (ix1 lane)
      = m.view.read (Elt F) f (ix2 (⟨5 * j.val + u.val + 50, by have := lt_of_lt_of_eq j.isLt trips5; have := u.isLt; omega⟩ : Fin 100)
          (⟨16 * 6 + lane.val, by have := lane.isLt; omega⟩ : Fin 128)) :=
  ld5_lane m f j u lane ⟨6, by decide⟩

theorem ldo38_lane (m : Memref sig .scVector .vmem S100x128 .f32) (f : m.view.ty.Contents (Elt F)) (j : Fin k0_t5_loop.trips) (u : Fin 5) (lane : Fin 16) :
    shapeCast S16 (ldc m f (k0_off38 j (BitVec.ofNat 32 u.val)) (k0_off38_inb j u)) shapeCasts_S1x16_S16 (ix1 lane)
      = m.view.read (Elt F) f (ix2 (⟨5 * j.val + u.val + 50, by have := lt_of_lt_of_eq j.isLt trips5; have := u.isLt; omega⟩ : Fin 100)
          (⟨16 * 7 + lane.val, by have := lane.isLt; omega⟩ : Fin 128)) :=
  ld5_lane m f j u lane ⟨7, by decide⟩

section Loop5
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n + 50, by omega⟩ : Fin 100) col)
      = trow T1 (remapW (I4 (ix1 (⟨64 * t.val + n, flat_lt t n hn⟩ : Fin 2097152)))) col)
include hG

theorem accsT5_lane_0 : ∀ (n : Nat) (h : n ≤ 10) (lane : Fin 16),
    (accsT5 m f n).1 (ix1 lane)
      = rowPre T1 I4 t (⟨16 * 0 + lane.val, by have := lane.isLt; omega⟩ : Fin 128) (5 * n) (by omega)
  | 0, h, lane => rfl
  | n + 1, h, lane => by
    have hj : n < k0_t5_loop.trips := by rw [trips5]; omega
    have ih := accsT5_lane_0 n (by omega) lane
    have e0 : shapeCast S16 (ldc m f (k0_off31 ⟨n, hj⟩ 0#32) (k0_off31_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo31_lane m f ⟨n, hj⟩ (0 : Fin 5) lane).trans (hG (5 * n + 0) (by omega) _)
    have e1 : shapeCast S16 (ldc m f (k0_off31 ⟨n, hj⟩ 1#32) (k0_off31_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo31_lane m f ⟨n, hj⟩ (1 : Fin 5) lane).trans (hG (5 * n + 1) (by omega) _)
    have e2 : shapeCast S16 (ldc m f (k0_off31 ⟨n, hj⟩ 2#32) (k0_off31_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo31_lane m f ⟨n, hj⟩ (2 : Fin 5) lane).trans (hG (5 * n + 2) (by omega) _)
    have e3 : shapeCast S16 (ldc m f (k0_off31 ⟨n, hj⟩ 3#32) (k0_off31_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo31_lane m f ⟨n, hj⟩ (3 : Fin 5) lane).trans (hG (5 * n + 3) (by omega) _)
    have e4 : shapeCast S16 (ldc m f (k0_off31 ⟨n, hj⟩ 4#32) (k0_off31_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo31_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_1 : ∀ (n : Nat) (h : n ≤ 10) (lane : Fin 16),
    (accsT5 m f n).2.1 (ix1 lane)
      = rowPre T1 I4 t (⟨16 * 1 + lane.val, by have := lane.isLt; omega⟩ : Fin 128) (5 * n) (by omega)
  | 0, h, lane => rfl
  | n + 1, h, lane => by
    have hj : n < k0_t5_loop.trips := by rw [trips5]; omega
    have ih := accsT5_lane_1 n (by omega) lane
    have e0 : shapeCast S16 (ldc m f (k0_off32 ⟨n, hj⟩ 0#32) (k0_off32_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo32_lane m f ⟨n, hj⟩ (0 : Fin 5) lane).trans (hG (5 * n + 0) (by omega) _)
    have e1 : shapeCast S16 (ldc m f (k0_off32 ⟨n, hj⟩ 1#32) (k0_off32_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo32_lane m f ⟨n, hj⟩ (1 : Fin 5) lane).trans (hG (5 * n + 1) (by omega) _)
    have e2 : shapeCast S16 (ldc m f (k0_off32 ⟨n, hj⟩ 2#32) (k0_off32_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo32_lane m f ⟨n, hj⟩ (2 : Fin 5) lane).trans (hG (5 * n + 2) (by omega) _)
    have e3 : shapeCast S16 (ldc m f (k0_off32 ⟨n, hj⟩ 3#32) (k0_off32_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo32_lane m f ⟨n, hj⟩ (3 : Fin 5) lane).trans (hG (5 * n + 3) (by omega) _)
    have e4 : shapeCast S16 (ldc m f (k0_off32 ⟨n, hj⟩ 4#32) (k0_off32_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo32_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_2 : ∀ (n : Nat) (h : n ≤ 10) (lane : Fin 16),
    (accsT5 m f n).2.2.1 (ix1 lane)
      = rowPre T1 I4 t (⟨16 * 2 + lane.val, by have := lane.isLt; omega⟩ : Fin 128) (5 * n) (by omega)
  | 0, h, lane => rfl
  | n + 1, h, lane => by
    have hj : n < k0_t5_loop.trips := by rw [trips5]; omega
    have ih := accsT5_lane_2 n (by omega) lane
    have e0 : shapeCast S16 (ldc m f (k0_off33 ⟨n, hj⟩ 0#32) (k0_off33_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo33_lane m f ⟨n, hj⟩ (0 : Fin 5) lane).trans (hG (5 * n + 0) (by omega) _)
    have e1 : shapeCast S16 (ldc m f (k0_off33 ⟨n, hj⟩ 1#32) (k0_off33_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo33_lane m f ⟨n, hj⟩ (1 : Fin 5) lane).trans (hG (5 * n + 1) (by omega) _)
    have e2 : shapeCast S16 (ldc m f (k0_off33 ⟨n, hj⟩ 2#32) (k0_off33_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo33_lane m f ⟨n, hj⟩ (2 : Fin 5) lane).trans (hG (5 * n + 2) (by omega) _)
    have e3 : shapeCast S16 (ldc m f (k0_off33 ⟨n, hj⟩ 3#32) (k0_off33_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo33_lane m f ⟨n, hj⟩ (3 : Fin 5) lane).trans (hG (5 * n + 3) (by omega) _)
    have e4 : shapeCast S16 (ldc m f (k0_off33 ⟨n, hj⟩ 4#32) (k0_off33_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo33_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_3 : ∀ (n : Nat) (h : n ≤ 10) (lane : Fin 16),
    (accsT5 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t5_loop.trips := by rw [trips5]; omega
    have ih := accsT5_lane_3 n (by omega) lane
    have e0 : shapeCast S16 (ldc m f (k0_off34 ⟨n, hj⟩ 0#32) (k0_off34_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo34_lane m f ⟨n, hj⟩ (0 : Fin 5) lane).trans (hG (5 * n + 0) (by omega) _)
    have e1 : shapeCast S16 (ldc m f (k0_off34 ⟨n, hj⟩ 1#32) (k0_off34_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo34_lane m f ⟨n, hj⟩ (1 : Fin 5) lane).trans (hG (5 * n + 1) (by omega) _)
    have e2 : shapeCast S16 (ldc m f (k0_off34 ⟨n, hj⟩ 2#32) (k0_off34_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo34_lane m f ⟨n, hj⟩ (2 : Fin 5) lane).trans (hG (5 * n + 2) (by omega) _)
    have e3 : shapeCast S16 (ldc m f (k0_off34 ⟨n, hj⟩ 3#32) (k0_off34_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo34_lane m f ⟨n, hj⟩ (3 : Fin 5) lane).trans (hG (5 * n + 3) (by omega) _)
    have e4 : shapeCast S16 (ldc m f (k0_off34 ⟨n, hj⟩ 4#32) (k0_off34_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo34_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_4 : ∀ (n : Nat) (h : n ≤ 10) (lane : Fin 16),
    (accsT5 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t5_loop.trips := by rw [trips5]; omega
    have ih := accsT5_lane_4 n (by omega) lane
    have e0 : shapeCast S16 (ldc m f (k0_off35 ⟨n, hj⟩ 0#32) (k0_off35_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo35_lane m f ⟨n, hj⟩ (0 : Fin 5) lane).trans (hG (5 * n + 0) (by omega) _)
    have e1 : shapeCast S16 (ldc m f (k0_off35 ⟨n, hj⟩ 1#32) (k0_off35_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo35_lane m f ⟨n, hj⟩ (1 : Fin 5) lane).trans (hG (5 * n + 1) (by omega) _)
    have e2 : shapeCast S16 (ldc m f (k0_off35 ⟨n, hj⟩ 2#32) (k0_off35_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo35_lane m f ⟨n, hj⟩ (2 : Fin 5) lane).trans (hG (5 * n + 2) (by omega) _)
    have e3 : shapeCast S16 (ldc m f (k0_off35 ⟨n, hj⟩ 3#32) (k0_off35_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo35_lane m f ⟨n, hj⟩ (3 : Fin 5) lane).trans (hG (5 * n + 3) (by omega) _)
    have e4 : shapeCast S16 (ldc m f (k0_off35 ⟨n, hj⟩ 4#32) (k0_off35_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo35_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_5 : ∀ (n : Nat) (h : n ≤ 10) (lane : Fin 16),
    (accsT5 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t5_loop.trips := by rw [trips5]; omega
    have ih := accsT5_lane_5 n (by omega) lane
    have e0 : shapeCast S16 (ldc m f (k0_off36 ⟨n, hj⟩ 0#32) (k0_off36_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo36_lane m f ⟨n, hj⟩ (0 : Fin 5) lane).trans (hG (5 * n + 0) (by omega) _)
    have e1 : shapeCast S16 (ldc m f (k0_off36 ⟨n, hj⟩ 1#32) (k0_off36_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo36_lane m f ⟨n, hj⟩ (1 : Fin 5) lane).trans (hG (5 * n + 1) (by omega) _)
    have e2 : shapeCast S16 (ldc m f (k0_off36 ⟨n, hj⟩ 2#32) (k0_off36_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo36_lane m f ⟨n, hj⟩ (2 : Fin 5) lane).trans (hG (5 * n + 2) (by omega) _)
    have e3 : shapeCast S16 (ldc m f (k0_off36 ⟨n, hj⟩ 3#32) (k0_off36_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo36_lane m f ⟨n, hj⟩ (3 : Fin 5) lane).trans (hG (5 * n + 3) (by omega) _)
    have e4 : shapeCast S16 (ldc m f (k0_off36 ⟨n, hj⟩ 4#32) (k0_off36_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo36_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_6 : ∀ (n : Nat) (h : n ≤ 10) (lane : Fin 16),
    (accsT5 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t5_loop.trips := by rw [trips5]; omega
    have ih := accsT5_lane_6 n (by omega) lane
    have e0 : shapeCast S16 (ldc m f (k0_off37 ⟨n, hj⟩ 0#32) (k0_off37_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo37_lane m f ⟨n, hj⟩ (0 : Fin 5) lane).trans (hG (5 * n + 0) (by omega) _)
    have e1 : shapeCast S16 (ldc m f (k0_off37 ⟨n, hj⟩ 1#32) (k0_off37_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo37_lane m f ⟨n, hj⟩ (1 : Fin 5) lane).trans (hG (5 * n + 1) (by omega) _)
    have e2 : shapeCast S16 (ldc m f (k0_off37 ⟨n, hj⟩ 2#32) (k0_off37_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo37_lane m f ⟨n, hj⟩ (2 : Fin 5) lane).trans (hG (5 * n + 2) (by omega) _)
    have e3 : shapeCast S16 (ldc m f (k0_off37 ⟨n, hj⟩ 3#32) (k0_off37_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo37_lane m f ⟨n, hj⟩ (3 : Fin 5) lane).trans (hG (5 * n + 3) (by omega) _)
    have e4 : shapeCast S16 (ldc m f (k0_off37 ⟨n, hj⟩ 4#32) (k0_off37_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo37_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_7 : ∀ (n : Nat) (h : n ≤ 10) (lane : Fin 16),
    (accsT5 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t5_loop.trips := by rw [trips5]; omega
    have ih := accsT5_lane_7 n (by omega) lane
    have e0 : shapeCast S16 (ldc m f (k0_off38 ⟨n, hj⟩ 0#32) (k0_off38_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo38_lane m f ⟨n, hj⟩ (0 : Fin 5) lane).trans (hG (5 * n + 0) (by omega) _)
    have e1 : shapeCast S16 (ldc m f (k0_off38 ⟨n, hj⟩ 1#32) (k0_off38_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo38_lane m f ⟨n, hj⟩ (1 : Fin 5) lane).trans (hG (5 * n + 1) (by omega) _)
    have e2 : shapeCast S16 (ldc m f (k0_off38 ⟨n, hj⟩ 2#32) (k0_off38_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo38_lane m f ⟨n, hj⟩ (2 : Fin 5) lane).trans (hG (5 * n + 2) (by omega) _)
    have e3 : shapeCast S16 (ldc m f (k0_off38 ⟨n, hj⟩ 3#32) (k0_off38_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo38_lane m f ⟨n, hj⟩ (3 : Fin 5) lane).trans (hG (5 * n + 3) (by omega) _)
    have e4 : shapeCast S16 (ldc m f (k0_off38 ⟨n, hj⟩ 4#32) (k0_off38_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo38_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT5_done (cc : Fin 8) (lane : Fin 16) :
    (accsT5 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT5_lane_0 m f T1 I4 t hG 10 (by omega) lane
  | ⟨1, _⟩ => exact accsT5_lane_1 m f T1 I4 t hG 10 (by omega) lane
  | ⟨2, _⟩ => exact accsT5_lane_2 m f T1 I4 t hG 10 (by omega) lane
  | ⟨3, _⟩ => exact accsT5_lane_3 m f T1 I4 t hG 10 (by omega) lane
  | ⟨4, _⟩ => exact accsT5_lane_4 m f T1 I4 t hG 10 (by omega) lane
  | ⟨5, _⟩ => exact accsT5_lane_5 m f T1 I4 t hG 10 (by omega) lane
  | ⟨6, _⟩ => exact accsT5_lane_6 m f T1 I4 t hG 10 (by omega) lane
  | ⟨7, _⟩ => exact accsT5_lane_7 m f T1 I4 t hG 10 (by omega) lane

end Loop5

end Cert.KernelIdeal.Run.Tile

end
-- ==== Proof.ScOb.lean ====
import proofs.«209176_g73847667688168_cont_9to1_m_420_10_alg».proof.Proof.ScAccLane
import Idealize.ShloMosaic.Lib.Ring
import Idealize.ShloMosaic.Lib.Tactic

noncomputable section

namespace Cert.KernelIdeal.Run.Tile

open Cert.KernelIdeal Cert.KernelIdeal.Gen
open Idealize.ShloMosaic Idealize.ShloMosaic.ValueIdx Idealize.SL.Sem Idealize.ShloMosaic.Tactic

variable {F : FTy → Type} [FloatOps F]

/-! # The staging buffer after the sixteen stores

After the two row loops of a round pair the body stores the first loop's eight accumulators into row 0 of the staging
buffer, sixteen lanes at a time, and the second loop's into row 1. The buffer then holds, at `(r, col)`, lane
`col mod 16` of accumulator `col / 16` of loop `r`. -/

/-- What the staging buffer holds after the sixteen stores, from the two loops' final accumulators. -/
def obG (a b : Acc8 F) : S2x128.Idx → Elt F .f32 := fun y =>
  if (y 0).val = 0 then a.get (⟨(y 1).val / 16, by have h : (y 1).val < 128 := (y 1).isLt; omega⟩ : Fin 8) (ix1 (⟨(y 1).val % 16, by omega⟩ : Fin 16))
  else b.get (⟨(y 1).val / 16, by have h : (y 1).val < 128 := (y 1).isLt; omega⟩ : Fin 8) (ix1 (⟨(y 1).val % 16, by omega⟩ : Fin 16))

/-- Pieces that each agree with one function of the buffer's index, and together cover the buffer, read back as that
    function. -/
theorem ob_read {sg : RefSig} {κ : Kind} {sp : Space} (v : View sg κ sp S2x128 .f32) (f : v.ty.Contents (Elt F))
    (L : List (View.Piece (Elt F) S2x128 .f32)) (G : S2x128.Idx → Elt F .f32)
    (hpieces : ∀ p ∈ L, ∀ x : p.1.shape.Idx, p.2 x = G (p.1.emb x)) (hcover : ∀ y : S2x128.Idx, ∃ p ∈ L, y ∈ p.1.set) :
    v.read (Elt F) (v.writes (Elt F) f L) = G := by
  rw [View.read_writes_eq_canon _ _ _ hcover]
  funext y
  exact View.canon_apply_of_pieces G L hpieces y (hcover y)

/-- A vector of 16 lanes stored as one row of 16: lane by lane. -/
theorem sc16_apply (x : FVec F S16 .f32) (lane : Fin 16) :
    shapeCast S1x16 x shapeCasts_S16_S1x16 (ix2 (0 : Fin 1) lane) = x (ix1 lane) :=
  shapeCast_apply x _ (ix2 (0 : Fin 1) lane) (ix1 lane) (by rw [Shape.rowMajor_val_one, Shape.rowMajor_val_two]; simp)

/-- The store of accumulator 0 into row 0: its payload is `obG` on the sixteen entries it writes. -/
theorem ob_piece_0_0 (a b : Acc8 F) (x : S1x16.Idx) :
    shapeCast S1x16 (a.1) shapeCasts_S16_S1x16 x
      = obG a b ((Rect.unit (s := S2x128) ![0, 0] S1x16.size inb_S2x128_S1x16_0_0).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 0] S1x16.size inb_S2x128_S1x16_0_0).emb (ix2 (0 : Fin 1) lane)) 0).val = 0 := by
    show 0 + 1 * 0 = 0; omega
  have e1 : (((Rect.unit (s := S2x128) ![0, 0] S1x16.size inb_S2x128_S1x16_0_0).emb (ix2 (0 : Fin 1) lane)) 1).val = 0 + lane.val := by
    show 0 + 1 * lane.val = 0 + lane.val; omega
  rw [if_pos e0]
  have ec : (⟨(((Rect.unit (s := S2x128) ![0, 0] S1x16.size inb_S2x128_S1x16_0_0).emb (ix2 (0 : Fin 1) lane)) 1).val / 16, by rw [e1]; omega⟩ : Fin 8) = ⟨0, by decide⟩ :=
    Fin.ext (by show _ / 16 = 0; rw [e1]; omega)
  have el : (⟨(((Rect.unit (s := S2x128) ![0, 0] S1x16.size inb_S2x128_S1x16_0_0).emb (ix2 (0 : Fin 1) lane)) 1).val % 16, by omega⟩ : Fin 16) = lane :=
    Fin.ext (by show _ % 16 = lane.val; rw [e1]; omega)
  rw [ec, el]
  rfl

/-- The store of accumulator 1 into row 0: its payload is `obG` on the sixteen entries it writes. -/
theorem ob_piece_0_1 (a b : Acc8 F) (x : S1x16.Idx) :
    shapeCast S1x16 (a.2.1) shapeCasts_S16_S1x16 x
      = obG a b ((Rect.unit (s := S2x128) ![0, 16] S1x16.size inb_S2x128_S1x16_0_16).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 16] S1x16.size inb_S2x128_S1x16_0_16).emb (ix2 (0 : Fin 1) lane)) 0).val = 0 := by
    show 0 + 1 * 0 = 0; omega
  have e1 : (((Rect.unit (s := S2x128) ![0, 16] S1x16.size inb_S2x128_S1x16_0_16).emb (ix2 (0 : Fin 1) lane)) 1).val = 16 + lane.val := by
    show 16 + 1 * lane.val = 16 + lane.val; omega
  rw [if_pos e0]
  have ec : (⟨(((Rect.unit (s := S2x128) ![0, 16] S1x16.size inb_S2x128_S1x16_0_16).emb (ix2 (0 : Fin 1) lane)) 1).val / 16, by rw [e1]; omega⟩ : Fin 8) = ⟨1, by decide⟩ :=
    Fin.ext (by show _ / 16 = 1; rw [e1]; omega)
  have el : (⟨(((Rect.unit (s := S2x128) ![0, 16] S1x16.size inb_S2x128_S1x16_0_16).emb (ix2 (0 : Fin 1) lane)) 1).val % 16, by omega⟩ : Fin 16) = lane :=
    Fin.ext (by show _ % 16 = lane.val; rw [e1]; omega)
  rw [ec, el]
  rfl

/-- The store of accumulator 2 into row 0: its payload is `obG` on the sixteen entries it writes. -/
theorem ob_piece_0_2 (a b : Acc8 F) (x : S1x16.Idx) :
    shapeCast S1x16 (a.2.2.1) shapeCasts_S16_S1x16 x
      = obG a b ((Rect.unit (s := S2x128) ![0, 32] S1x16.size inb_S2x128_S1x16_0_32).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 32] S1x16.size inb_S2x128_S1x16_0_32).emb (ix2 (0 : Fin 1) lane)) 0).val = 0 := by
    show 0 + 1 * 0 = 0; omega
  have e1 : (((Rect.unit (s := S2x128) ![0, 32] S1x16.size inb_S2x128_S1x16_0_32).emb (ix2 (0 : Fin 1) lane)) 1).val = 32 + lane.val := by
    show 32 + 1 * lane.val = 32 + lane.val; omega
  rw [if_pos e0]
  have ec : (⟨(((Rect.unit (s := S2x128) ![0, 32] S1x16.size inb_S2x128_S1x16_0_32).emb (ix2 (0 : Fin 1) lane)) 1).val / 16, by rw [e1]; omega⟩ : Fin 8) = ⟨2, by decide⟩ :=
    Fin.ext (by show _ / 16 = 2; rw [e1]; omega)
  have el : (⟨(((Rect.unit (s := S2x128) ![0, 32] S1x16.size inb_S2x128_S1x16_0_32).emb (ix2 (0 : Fin 1) lane)) 1).val % 16, by omega⟩ : Fin 16) = lane :=
    Fin.ext (by show _ % 16 = lane.val; rw [e1]; omega)
  rw [ec, el]
  rfl

/-- The store of accumulator 3 into row 0: its payload is `obG` on the sixteen entries it writes. -/
theorem ob_piece_0_3 (a b : Acc8 F) (x : S1x16.Idx) :
    shapeCast S1x16 (a.2.2.2.1) shapeCasts_S16_S1x16 x
      = obG a b ((Rect.unit (s := S2x128) ![0, 48] S1x16.size inb_S2x128_S1x16_0_48).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 48] S1x16.size inb_S2x128_S1x16_0_48).emb (ix2 (0 : Fin 1) lane)) 0).val = 0 := by
    show 0 + 1 * 0 = 0; omega
  have e1 : (((Rect.unit (s := S2x128) ![0, 48] S1x16.size inb_S2x128_S1x16_0_48).emb (ix2 (0 : Fin 1) lane)) 1).val = 48 + lane.val := by
    show 48 + 1 * lane.val = 48 + lane.val; omega
  rw [if_pos e0]
  have ec : (⟨(((Rect.unit (s := S2x128) ![0, 48] S1x16.size inb_S2x128_S1x16_0_48).emb (ix2 (0 : Fin 1) lane)) 1).val / 16, by rw [e1]; omega⟩ : Fin 8) = ⟨3, by decide⟩ :=
    Fin.ext (by show _ / 16 = 3; rw [e1]; omega)
  have el : (⟨(((Rect.unit (s := S2x128) ![0, 48] S1x16.size inb_S2x128_S1x16_0_48).emb (ix2 (0 : Fin 1) lane)) 1).val % 16, by omega⟩ : Fin 16) = lane :=
    Fin.ext (by show _ % 16 = lane.val; rw [e1]; omega)
  rw [ec, el]
  rfl

/-- The store of accumulator 4 into row 0: its payload is `obG` on the sixteen entries it writes. -/
theorem ob_piece_0_4 (a b : Acc8 F) (x : S1x16.Idx) :
    shapeCast S1x16 (a.2.2.2.2.1) shapeCasts_S16_S1x16 x
      = obG a b ((Rect.unit (s := S2x128) ![0, 64] S1x16.size inb_S2x128_S1x16_0_64).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 64] S1x16.size inb_S2x128_S1x16_0_64).emb (ix2 (0 : Fin 1) lane)) 0).val = 0 := by
    show 0 + 1 * 0 = 0; omega
  have e1 : (((Rect.unit (s := S2x128) ![0, 64] S1x16.size inb_S2x128_S1x16_0_64).emb (ix2 (0 : Fin 1) lane)) 1).val = 64 + lane.val := by
    show 64 + 1 * lane.val = 64 + lane.val; omega
  rw [if_pos e0]
  have ec : (⟨(((Rect.unit (s := S2x128) ![0, 64] S1x16.size inb_S2x128_S1x16_0_64).emb (ix2 (0 : Fin 1) lane)) 1).val / 16, by rw [e1]; omega⟩ : Fin 8) = ⟨4, by decide⟩ :=
    Fin.ext (by show _ / 16 = 4; rw [e1]; omega)
  have el : (⟨(((Rect.unit (s := S2x128) ![0, 64] S1x16.size inb_S2x128_S1x16_0_64).emb (ix2 (0 : Fin 1) lane)) 1).val % 16, by omega⟩ : Fin 16) = lane :=
    Fin.ext (by show _ % 16 = lane.val; rw [e1]; omega)
  rw [ec, el]
  rfl

/-- The store of accumulator 5 into row 0: its payload is `obG` on the sixteen entries it writes. -/
theorem ob_piece_0_5 (a b : Acc8 F) (x : S1x16.Idx) :
    shapeCast S1x16 (a.2.2.2.2.2.1) shapeCasts_S16_S1x16 x
      = obG a b ((Rect.unit (s := S2x128) ![0, 80] S1x16.size inb_S2x128_S1x16_0_80).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 80] S1x16.size inb_S2x128_S1x16_0_80).emb (ix2 (0 : Fin 1) lane)) 0).val = 0 := by
    show 0 + 1 * 0 = 0; omega
  have e1 : (((Rect.unit (s := S2x128) ![0, 80] S1x16.size inb_S2x128_S1x16_0_80).emb (ix2 (0 : Fin 1) lane)) 1).val = 80 + lane.val := by
    show 80 + 1 * lane.val = 80 + lane.val; omega
  rw [if_pos e0]
  have ec : (⟨(((Rect.unit (s := S2x128) ![0, 80] S1x16.size inb_S2x128_S1x16_0_80).emb (ix2 (0 : Fin 1) lane)) 1).val / 16, by rw [e1]; omega⟩ : Fin 8) = ⟨5, by decide⟩ :=
    Fin.ext (by show _ / 16 = 5; rw [e1]; omega)
  have el : (⟨(((Rect.unit (s := S2x128) ![0, 80] S1x16.size inb_S2x128_S1x16_0_80).emb (ix2 (0 : Fin 1) lane)) 1).val % 16, by omega⟩ : Fin 16) = lane :=
    Fin.ext (by show _ % 16 = lane.val; rw [e1]; omega)
  rw [ec, el]
  rfl

/-- The store of accumulator 6 into row 0: its payload is `obG` on the sixteen entries it writes. -/
theorem ob_piece_0_6 (a b : Acc8 F) (x : S1x16.Idx) :
    shapeCast S1x16 (a.2.2.2.2.2.2.1) shapeCasts_S16_S1x16 x
      = obG a b ((Rect.unit (s := S2x128) ![0, 96] S1x16.size inb_S2x128_S1x16_0_96).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 96] S1x16.size inb_S2x128_S1x16_0_96).emb (ix2 (0 : Fin 1) lane)) 0).val = 0 := by
    show 0 + 1 * 0 = 0; omega
  have e1 : (((Rect.unit (s := S2x128) ![0, 96] S1x16.size inb_S2x128_S1x16_0_96).emb (ix2 (0 : Fin 1) lane)) 1).val = 96 + lane.val := by
    show 96 + 1 * lane.val = 96 + lane.val; omega
  rw [if_pos e0]
  have ec : (⟨(((Rect.unit (s := S2x128) ![0, 96] S1x16.size inb_S2x128_S1x16_0_96).emb (ix2 (0 : Fin 1) lane)) 1).val / 16, by rw [e1]; omega⟩ : Fin 8) = ⟨6, by decide⟩ :=
    Fin.ext (by show _ / 16 = 6; rw [e1]; omega)
  have el : (⟨(((Rect.unit (s := S2x128) ![0, 96] S1x16.size inb_S2x128_S1x16_0_96).emb (ix2 (0 : Fin 1) lane)) 1).val % 16, by omega⟩ : Fin 16) = lane :=
    Fin.ext (by show _ % 16 = lane.val; rw [e1]; omega)
  rw [ec, el]
  rfl

/-- The store of accumulator 7 into row 0: its payload is `obG` on the sixteen entries it writes. -/
theorem ob_piece_0_7 (a b : Acc8 F) (x : S1x16.Idx) :
    shapeCast S1x16 (a.2.2.2.2.2.2.2) shapeCasts_S16_S1x16 x
      = obG a b ((Rect.unit (s := S2x128) ![0, 112] S1x16.size inb_S2x128_S1x16_0_112).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 112] S1x16.size inb_S2x128_S1x16_0_112).emb (ix2 (0 : Fin 1) lane)) 0).val = 0 := by
    show 0 + 1 * 0 = 0; omega
  have e1 : (((Rect.unit (s := S2x128) ![0, 112] S1x16.size inb_S2x128_S1x16_0_112).emb (ix2 (0 : Fin 1) lane)) 1).val = 112 + lane.val := by
    show 112 + 1 * lane.val = 112 + lane.val; omega
  rw [if_pos e0]
  have ec : (⟨(((Rect.unit (s := S2x128) ![0, 112] S1x16.size inb_S2x128_S1x16_0_112).emb (ix2 (0 : Fin 1) lane)) 1).val / 16, by rw [e1]; omega⟩ : Fin 8) = ⟨7, by decide⟩ :=
    Fin.ext (by show _ / 16 = 7; rw [e1]; omega)
  have el : (⟨(((Rect.unit (s := S2x128) ![0, 112] S1x16.size inb_S2x128_S1x16_0_112).emb (ix2 (0 : Fin 1) lane)) 1).val % 16, by omega⟩ : Fin 16) = lane :=
    Fin.ext (by show _ % 16 = lane.val; rw [e1]; omega)
  rw [ec, el]
  rfl

/-- The store of accumulator 0 into row 1: its payload is `obG` on the sixteen entries it writes. -/
theorem ob_piece_1_0 (a b : Acc8 F) (x : S1x16.Idx) :
    shapeCast S1x16 (b.1) shapeCasts_S16_S1x16 x
      = obG a b ((Rect.unit (s := S2x128) ![1, 0] S1x16.size inb_S2x128_S1x16_1_0).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 0] S1x16.size inb_S2x128_S1x16_1_0).emb (ix2 (0 : Fin 1) lane)) 0).val = 1 := by
    show 1 + 1 * 0 = 1; omega
  have e1 : (((Rect.unit (s := S2x128) ![1, 0] S1x16.size inb_S2x128_S1x16_1_0).emb (ix2 (0 : Fin 1) lane)) 1).val = 0 + lane.val := by
    show 0 + 1 * lane.val = 0 + lane.val; omega
  rw [if_neg (by rw [e0]; decide)]
  have ec : (⟨(((Rect.unit (s := S2x128) ![1, 0] S1x16.size inb_S2x128_S1x16_1_0).emb (ix2 (0 : Fin 1) lane)) 1).val / 16, by rw [e1]; omega⟩ : Fin 8) = ⟨0, by decide⟩ :=
    Fin.ext (by show _ / 16 = 0; rw [e1]; omega)
  have el : (⟨(((Rect.unit (s := S2x128) ![1, 0] S1x16.size inb_S2x128_S1x16_1_0).emb (ix2 (0 : Fin 1) lane)) 1).val % 16, by omega⟩ : Fin 16) = lane :=
    Fin.ext (by show _ % 16 = lane.val; rw [e1]; omega)
  rw [ec, el]
  rfl

/-- The store of accumulator 1 into row 1: its payload is `obG` on the sixteen entries it writes. -/
theorem ob_piece_1_1 (a b : Acc8 F) (x : S1x16.Idx) :
    shapeCast S1x16 (b.2.1) shapeCasts_S16_S1x16 x
      = obG a b ((Rect.unit (s := S2x128) ![1, 16] S1x16.size inb_S2x128_S1x16_1_16).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 16] S1x16.size inb_S2x128_S1x16_1_16).emb (ix2 (0 : Fin 1) lane)) 0).val = 1 := by
    show 1 + 1 * 0 = 1; omega
  have e1 : (((Rect.unit (s := S2x128) ![1, 16] S1x16.size inb_S2x128_S1x16_1_16).emb (ix2 (0 : Fin 1) lane)) 1).val = 16 + lane.val := by
    show 16 + 1 * lane.val = 16 + lane.val; omega
  rw [if_neg (by rw [e0]; decide)]
  have ec : (⟨(((Rect.unit (s := S2x128) ![1, 16] S1x16.size inb_S2x128_S1x16_1_16).emb (ix2 (0 : Fin 1) lane)) 1).val / 16, by rw [e1]; omega⟩ : Fin 8) = ⟨1, by decide⟩ :=
    Fin.ext (by show _ / 16 = 1; rw [e1]; omega)
  have el : (⟨(((Rect.unit (s := S2x128) ![1, 16] S1x16.size inb_S2x128_S1x16_1_16).emb (ix2 (0 : Fin 1) lane)) 1).val % 16, by omega⟩ : Fin 16) = lane :=
    Fin.ext (by show _ % 16 = lane.val; rw [e1]; omega)
  rw [ec, el]
  rfl

/-- The store of accumulator 2 into row 1: its payload is `obG` on the sixteen entries it writes. -/
theorem ob_piece_1_2 (a b : Acc8 F) (x : S1x16.Idx) :
    shapeCast S1x16 (b.2.2.1) shapeCasts_S16_S1x16 x
      = obG a b ((Rect.unit (s := S2x128) ![1, 32] S1x16.size inb_S2x128_S1x16_1_32).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 32] S1x16.size inb_S2x128_S1x16_1_32).emb (ix2 (0 : Fin 1) lane)) 0).val = 1 := by
    show 1 + 1 * 0 = 1; omega
  have e1 : (((Rect.unit (s := S2x128) ![1, 32] S1x16.size inb_S2x128_S1x16_1_32).emb (ix2 (0 : Fin 1) lane)) 1).val = 32 + lane.val := by
    show 32 + 1 * lane.val = 32 + lane.val; omega
  rw [if_neg (by rw [e0]; decide)]
  have ec : (⟨(((Rect.unit (s := S2x128) ![1, 32] S1x16.size inb_S2x128_S1x16_1_32).emb (ix2 (0 : Fin 1) lane)) 1).val / 16, by rw [e1]; omega⟩ : Fin 8) = ⟨2, by decide⟩ :=
    Fin.ext (by show _ / 16 = 2; rw [e1]; omega)
  have el : (⟨(((Rect.unit (s := S2x128) ![1, 32] S1x16.size inb_S2x128_S1x16_1_32).emb (ix2 (0 : Fin 1) lane)) 1).val % 16, by omega⟩ : Fin 16) = lane :=
    Fin.ext (by show _ % 16 = lane.val; rw [e1]; omega)
  rw [ec, el]
  rfl

/-- The store of accumulator 3 into row 1: its payload is `obG` on the sixteen entries it writes. -/
theorem ob_piece_1_3 (a b : Acc8 F) (x : S1x16.Idx) :
    shapeCast S1x16 (b.2.2.2.1) shapeCasts_S16_S1x16 x
      = obG a b ((Rect.unit (s := S2x128) ![1, 48] S1x16.size inb_S2x128_S1x16_1_48).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 48] S1x16.size inb_S2x128_S1x16_1_48).emb (ix2 (0 : Fin 1) lane)) 0).val = 1 := by
    show 1 + 1 * 0 = 1; omega
  have e1 : (((Rect.unit (s := S2x128) ![1, 48] S1x16.size inb_S2x128_S1x16_1_48).emb (ix2 (0 : Fin 1) lane)) 1).val = 48 + lane.val := by
    show 48 + 1 * lane.val = 48 + lane.val; omega
  rw [if_neg (by rw [e0]; decide)]
  have ec : (⟨(((Rect.unit (s := S2x128) ![1, 48] S1x16.size inb_S2x128_S1x16_1_48).emb (ix2 (0 : Fin 1) lane)) 1).val / 16, by rw [e1]; omega⟩ : Fin 8) = ⟨3, by decide⟩ :=
    Fin.ext (by show _ / 16 = 3; rw [e1]; omega)
  have el : (⟨(((Rect.unit (s := S2x128) ![1, 48] S1x16.size inb_S2x128_S1x16_1_48).emb (ix2 (0 : Fin 1) lane)) 1).val % 16, by omega⟩ : Fin 16) = lane :=
    Fin.ext (by show _ % 16 = lane.val; rw [e1]; omega)
  rw [ec, el]
  rfl

/-- The store of accumulator 4 into row 1: its payload is `obG` on the sixteen entries it writes. -/
theorem ob_piece_1_4 (a b : Acc8 F) (x : S1x16.Idx) :
    shapeCast S1x16 (b.2.2.2.2.1) shapeCasts_S16_S1x16 x
      = obG a b ((Rect.unit (s := S2x128) ![1, 64] S1x16.size inb_S2x128_S1x16_1_64).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 64] S1x16.size inb_S2x128_S1x16_1_64).emb (ix2 (0 : Fin 1) lane)) 0).val = 1 := by
    show 1 + 1 * 0 = 1; omega
  have e1 : (((Rect.unit (s := S2x128) ![1, 64] S1x16.size inb_S2x128_S1x16_1_64).emb (ix2 (0 : Fin 1) lane)) 1).val = 64 + lane.val := by
    show 64 + 1 * lane.val = 64 + lane.val; omega
  rw [if_neg (by rw [e0]; decide)]
  have ec : (⟨(((Rect.unit (s := S2x128) ![1, 64] S1x16.size inb_S2x128_S1x16_1_64).emb (ix2 (0 : Fin 1) lane)) 1).val / 16, by rw [e1]; omega⟩ : Fin 8) = ⟨4, by decide⟩ :=
    Fin.ext (by show _ / 16 = 4; rw [e1]; omega)
  have el : (⟨(((Rect.unit (s := S2x128) ![1, 64] S1x16.size inb_S2x128_S1x16_1_64).emb (ix2 (0 : Fin 1) lane)) 1).val % 16, by omega⟩ : Fin 16) = lane :=
    Fin.ext (by show _ % 16 = lane.val; rw [e1]; omega)
  rw [ec, el]
  rfl

/-- The store of accumulator 5 into row 1: its payload is `obG` on the sixteen entries it writes. -/
theorem ob_piece_1_5 (a b : Acc8 F) (x : S1x16.Idx) :
    shapeCast S1x16 (b.2.2.2.2.2.1) shapeCasts_S16_S1x16 x
      = obG a b ((Rect.unit (s := S2x128) ![1, 80] S1x16.size inb_S2x128_S1x16_1_80).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 80] S1x16.size inb_S2x128_S1x16_1_80).emb (ix2 (0 : Fin 1) lane)) 0).val = 1 := by
    show 1 + 1 * 0 = 1; omega
  have e1 : (((Rect.unit (s := S2x128) ![1, 80] S1x16.size inb_S2x128_S1x16_1_80).emb (ix2 (0 : Fin 1) lane)) 1).val = 80 + lane.val := by
    show 80 + 1 * lane.val = 80 + lane.val; omega
  rw [if_neg (by rw [e0]; decide)]
  have ec : (⟨(((Rect.unit (s := S2x128) ![1, 80] S1x16.size inb_S2x128_S1x16_1_80).emb (ix2 (0 : Fin 1) lane)) 1).val / 16, by rw [e1]; omega⟩ : Fin 8) = ⟨5, by decide⟩ :=
    Fin.ext (by show _ / 16 = 5; rw [e1]; omega)
  have el : (⟨(((Rect.unit (s := S2x128) ![1, 80] S1x16.size inb_S2x128_S1x16_1_80).emb (ix2 (0 : Fin 1) lane)) 1).val % 16, by omega⟩ : Fin 16) = lane :=
    Fin.ext (by show _ % 16 = lane.val; rw [e1]; omega)
  rw [ec, el]
  rfl

/-- The store of accumulator 6 into row 1: its payload is `obG` on the sixteen entries it writes. -/
theorem ob_piece_1_6 (a b : Acc8 F) (x : S1x16.Idx) :
    shapeCast S1x16 (b.2.2.2.2.2.2.1) shapeCasts_S16_S1x16 x
      = obG a b ((Rect.unit (s := S2x128) ![1, 96] S1x16.size inb_S2x128_S1x16_1_96).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 96] S1x16.size inb_S2x128_S1x16_1_96).emb (ix2 (0 : Fin 1) lane)) 0).val = 1 := by
    show 1 + 1 * 0 = 1; omega
  have e1 : (((Rect.unit (s := S2x128) ![1, 96] S1x16.size inb_S2x128_S1x16_1_96).emb (ix2 (0 : Fin 1) lane)) 1).val = 96 + lane.val := by
    show 96 + 1 * lane.val = 96 + lane.val; omega
  rw [if_neg (by rw [e0]; decide)]
  have ec : (⟨(((Rect.unit (s := S2x128) ![1, 96] S1x16.size inb_S2x128_S1x16_1_96).emb (ix2 (0 : Fin 1) lane)) 1).val / 16, by rw [e1]; omega⟩ : Fin 8) = ⟨6, by decide⟩ :=
    Fin.ext (by show _ / 16 = 6; rw [e1]; omega)
  have el : (⟨(((Rect.unit (s := S2x128) ![1, 96] S1x16.size inb_S2x128_S1x16_1_96).emb (ix2 (0 : Fin 1) lane)) 1).val % 16, by omega⟩ : Fin 16) = lane :=
    Fin.ext (by show _ % 16 = lane.val; rw [e1]; omega)
  rw [ec, el]
  rfl

/-- The store of accumulator 7 into row 1: its payload is `obG` on the sixteen entries it writes. -/
theorem ob_piece_1_7 (a b : Acc8 F) (x : S1x16.Idx) :
    shapeCast S1x16 (b.2.2.2.2.2.2.2) shapeCasts_S16_S1x16 x
      = obG a b ((Rect.unit (s := S2x128) ![1, 112] S1x16.size inb_S2x128_S1x16_1_112).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 112] S1x16.size inb_S2x128_S1x16_1_112).emb (ix2 (0 : Fin 1) lane)) 0).val = 1 := by
    show 1 + 1 * 0 = 1; omega
  have e1 : (((Rect.unit (s := S2x128) ![1, 112] S1x16.size inb_S2x128_S1x16_1_112).emb (ix2 (0 : Fin 1) lane)) 1).val = 112 + lane.val := by
    show 112 + 1 * lane.val = 112 + lane.val; omega
  rw [if_neg (by rw [e0]; decide)]
  have ec : (⟨(((Rect.unit (s := S2x128) ![1, 112] S1x16.size inb_S2x128_S1x16_1_112).emb (ix2 (0 : Fin 1) lane)) 1).val / 16, by rw [e1]; omega⟩ : Fin 8) = ⟨7, by decide⟩ :=
    Fin.ext (by show _ / 16 = 7; rw [e1]; omega)
  have el : (⟨(((Rect.unit (s := S2x128) ![1, 112] S1x16.size inb_S2x128_S1x16_1_112).emb (ix2 (0 : Fin 1) lane)) 1).val % 16, by omega⟩ : Fin 16) = lane :=
    Fin.ext (by show _ % 16 = lane.val; rw [e1]; omega)
  rw [ec, el]
  rfl

section Rows
variable (m0 : Memref sig .scVector .vmem S100x128 .f32) (f0 : m0.view.ty.Contents (Elt F))
  (T1 : (⟨2, ![100008, 128]⟩ : Shape).Idx → Elt F .f32) (I4 : (⟨1, ![2097152]⟩ : Shape).Idx → BitVec 32) (t0 t1 : Fin 32768)

/-- THE ROUND'S TWO ROWS. With the scratch's first 50 rows the table rows bag `t0`'s words name and its next 50 those of
    bag `t1`, the staging buffer after the first buffer set's two row loops and their sixteen stores holds the two bags'
    pooled rows. -/
theorem obG_rows_A
    (hG0 : ∀ (n : Nat) (hn : n < 50) (col : Fin 128), m0.view.read (Elt F) f0 (ix2 (⟨n, by omega⟩ : Fin 100) col)
      = trow T1 (remapW (I4 (ix1 (⟨64 * t0.val + n, flat_lt t0 n hn⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * t1.val + n, flat_lt t1 n hn⟩ : Fin 2097152)))) col)
    (r : Fin 2) (col : Fin 128) :
    obG (accsT2 m0 f0 10) (accsT3 m0 f0 10) (ix2 r col) = rowSum T1 I4 (if r.val = 0 then t0 else t1) col := by
  have hc : col.val < 128 := col.isLt
  have ecol : (⟨16 * (col.val / 16) + col.val % 16, by omega⟩ : Fin 128) = col := Fin.ext (by show 16 * (col.val / 16) + col.val % 16 = col.val; omega)
  unfold obG
  by_cases h0 : r.val = 0
  · rw [if_pos (show ((ix2 r col) 0).val = 0 from h0), if_pos h0]
    have e := accsT2_done m0 f0 T1 I4 t0 hG0 (⟨col.val / 16, by omega⟩ : Fin 8) (⟨col.val % 16, by omega⟩ : Fin 16)
    rw [ecol] at e
    exact e
  · rw [if_neg (show ¬((ix2 r col) 0).val = 0 from h0), if_neg h0]
    have e := accsT3_done m0 f0 T1 I4 t1 hG1 (⟨col.val / 16, by omega⟩ : Fin 8) (⟨col.val % 16, by omega⟩ : Fin 16)
    rw [ecol] at e
    exact e

/-- The same for the second buffer set's two row loops. -/
theorem obG_rows_B
    (hG0 : ∀ (n : Nat) (hn : n < 50) (col : Fin 128), m0.view.read (Elt F) f0 (ix2 (⟨n, by omega⟩ : Fin 100) col)
      = trow T1 (remapW (I4 (ix1 (⟨64 * t0.val + n, flat_lt t0 n hn⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * t1.val + n, flat_lt t1 n hn⟩ : Fin 2097152)))) col)
    (r : Fin 2) (col : Fin 128) :
    obG (accsT4 m0 f0 10) (accsT5 m0 f0 10) (ix2 r col) = rowSum T1 I4 (if r.val = 0 then t0 else t1) col := by
  have hc : col.val < 128 := col.isLt
  have ecol : (⟨16 * (col.val / 16) + col.val % 16, by omega⟩ : Fin 128) = col := Fin.ext (by show 16 * (col.val / 16) + col.val % 16 = col.val; omega)
  unfold obG
  by_cases h0 : r.val = 0
  · rw [if_pos (show ((ix2 r col) 0).val = 0 from h0), if_pos h0]
    have e := accsT4_done m0 f0 T1 I4 t0 hG0 (⟨col.val / 16, by omega⟩ : Fin 8) (⟨col.val % 16, by omega⟩ : Fin 16)
    rw [ecol] at e
    exact e
  · rw [if_neg (show ¬((ix2 r col) 0).val = 0 from h0), if_neg h0]
    have e := accsT5_done m0 f0 T1 I4 t1 hG1 (⟨col.val / 16, by omega⟩ : Fin 8) (⟨col.val % 16, by omega⟩ : Fin 16)
    rw [ecol] at e
    exact e

end Rows

/-! ## The sixteen stores as one list -/

/-- The sixteen stores into the staging buffer, last first: the second loop's accumulators 7 … 0 into row 1, then the first
    loop's 7 … 0 into row 0. -/
def obList (a b : Acc8 F) : List (View.Piece (Elt F) S2x128 .f32) :=
  [⟨Rect.unit (s := S2x128) ![1, 112] S1x16.size inb_S2x128_S1x16_1_112, shapeCast S1x16 (b.2.2.2.2.2.2.2) shapeCasts_S16_S1x16⟩,
   ⟨Rect.unit (s := S2x128) ![1, 96] S1x16.size inb_S2x128_S1x16_1_96, shapeCast S1x16 (b.2.2.2.2.2.2.1) shapeCasts_S16_S1x16⟩,
   ⟨Rect.unit (s := S2x128) ![1, 80] S1x16.size inb_S2x128_S1x16_1_80, shapeCast S1x16 (b.2.2.2.2.2.1) shapeCasts_S16_S1x16⟩,
   ⟨Rect.unit (s := S2x128) ![1, 64] S1x16.size inb_S2x128_S1x16_1_64, shapeCast S1x16 (b.2.2.2.2.1) shapeCasts_S16_S1x16⟩,
   ⟨Rect.unit (s := S2x128) ![1, 48] S1x16.size inb_S2x128_S1x16_1_48, shapeCast S1x16 (b.2.2.2.1) shapeCasts_S16_S1x16⟩,
   ⟨Rect.unit (s := S2x128) ![1, 32] S1x16.size inb_S2x128_S1x16_1_32, shapeCast S1x16 (b.2.2.1) shapeCasts_S16_S1x16⟩,
   ⟨Rect.unit (s := S2x128) ![1, 16] S1x16.size inb_S2x128_S1x16_1_16, shapeCast S1x16 (b.2.1) shapeCasts_S16_S1x16⟩,
   ⟨Rect.unit (s := S2x128) ![1, 0] S1x16.size inb_S2x128_S1x16_1_0, shapeCast S1x16 (b.1) shapeCasts_S16_S1x16⟩,
   ⟨Rect.unit (s := S2x128) ![0, 112] S1x16.size inb_S2x128_S1x16_0_112, shapeCast S1x16 (a.2.2.2.2.2.2.2) shapeCasts_S16_S1x16⟩,
   ⟨Rect.unit (s := S2x128) ![0, 96] S1x16.size inb_S2x128_S1x16_0_96, shapeCast S1x16 (a.2.2.2.2.2.2.1) shapeCasts_S16_S1x16⟩,
   ⟨Rect.unit (s := S2x128) ![0, 80] S1x16.size inb_S2x128_S1x16_0_80, shapeCast S1x16 (a.2.2.2.2.2.1) shapeCasts_S16_S1x16⟩,
   ⟨Rect.unit (s := S2x128) ![0, 64] S1x16.size inb_S2x128_S1x16_0_64, shapeCast S1x16 (a.2.2.2.2.1) shapeCasts_S16_S1x16⟩,
   ⟨Rect.unit (s := S2x128) ![0, 48] S1x16.size inb_S2x128_S1x16_0_48, shapeCast S1x16 (a.2.2.2.1) shapeCasts_S16_S1x16⟩,
   ⟨Rect.unit (s := S2x128) ![0, 32] S1x16.size inb_S2x128_S1x16_0_32, shapeCast S1x16 (a.2.2.1) shapeCasts_S16_S1x16⟩,
   ⟨Rect.unit (s := S2x128) ![0, 16] S1x16.size inb_S2x128_S1x16_0_16, shapeCast S1x16 (a.2.1) shapeCasts_S16_S1x16⟩,
   ⟨Rect.unit (s := S2x128) ![0, 0] S1x16.size inb_S2x128_S1x16_0_0, shapeCast S1x16 (a.1) shapeCasts_S16_S1x16⟩]

/-- Every store's payload is `obG` on what it writes. -/
theorem obList_pieces (a b : Acc8 F) : ∀ p ∈ obList a b, ∀ x : p.1.shape.Idx, p.2 x = obG a b (p.1.emb x) := by
  unfold obList
  refine List.forall_mem_cons.mpr ⟨fun x => ob_piece_1_7 a b x, ?_⟩
  refine List.forall_mem_cons.mpr ⟨fun x => ob_piece_1_6 a b x, ?_⟩
  refine List.forall_mem_cons.mpr ⟨fun x => ob_piece_1_5 a b x, ?_⟩
  refine List.forall_mem_cons.mpr ⟨fun x => ob_piece_1_4 a b x, ?_⟩
  refine List.forall_mem_cons.mpr ⟨fun x => ob_piece_1_3 a b x, ?_⟩
  refine List.forall_mem_cons.mpr ⟨fun x => ob_piece_1_2 a b x, ?_⟩
  refine List.forall_mem_cons.mpr ⟨fun x => ob_piece_1_1 a b x, ?_⟩
  refine List.forall_mem_cons.mpr ⟨fun x => ob_piece_1_0 a b x, ?_⟩
  refine List.forall_mem_cons.mpr ⟨fun x => ob_piece_0_7 a b x, ?_⟩
  refine List.forall_mem_cons.mpr ⟨fun x => ob_piece_0_6 a b x, ?_⟩
  refine List.forall_mem_cons.mpr ⟨fun x => ob_piece_0_5 a b x, ?_⟩
  refine List.forall_mem_cons.mpr ⟨fun x => ob_piece_0_4 a b x, ?_⟩
  refine List.forall_mem_cons.mpr ⟨fun x => ob_piece_0_3 a b x, ?_⟩
  refine List.forall_mem_cons.mpr ⟨fun x => ob_piece_0_2 a b x, ?_⟩
  refine List.forall_mem_cons.mpr ⟨fun x => ob_piece_0_1 a b x, ?_⟩
  refine List.forall_mem_cons.mpr ⟨fun x => ob_piece_0_0 a b x, ?_⟩
  exact fun _ h => absurd h List.not_mem_nil

/-- The sixteen stores tile the staging buffer. -/
theorem obList_cover (a b : Acc8 F) (y : S2x128.Idx) : ∃ p ∈ obList a b, y ∈ p.1.set :=
  View.cover_of_tiledL (obList a b) S1x16.size (by sl_kernel_rfl) y

/-- THE STAGING BUFFER after the sixteen stores, read through any view of it. -/
theorem ob_read_list {sg : RefSig} {κ : Kind} {sp : Space} (v : View sg κ sp S2x128 .f32) (f : v.ty.Contents (Elt F)) (a b : Acc8 F) :
    v.read (Elt F) (v.writes (Elt F) f (obList a b)) = obG a b :=
  ob_read v f (obList a b) (obG a b) (obList_pieces a b) (obList_cover a b)

section RowsAt
variable (m0 : Memref sig .scVector .vmem S100x128 .f32) (f0 : m0.view.ty.Contents (Elt F))
  (T1 : (⟨2, ![100008, 128]⟩ : Shape).Idx → Elt F .f32) (I4 : (⟨1, ![2097152]⟩ : Shape).Idx → BitVec 32)

/-- The two rows of a round pair, rows `base` and `base + 1` of the pooled array, from the first buffer set. -/
theorem obG_rowsAt_A (base : Nat) (hb : base + 1 < 32768)
    (hG0 : ∀ (n : Nat) (hn : n < 50) (col : Fin 128), m0.view.read (Elt F) f0 (ix2 (⟨n, by omega⟩ : Fin 100) col)
      = trow T1 (remapW (I4 (ix1 (⟨64 * base + n, by omega⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * (base + 1) + n, by omega⟩ : Fin 2097152)))) col)
    (r : Fin 2) (col : Fin 128) :
    obG (accsT2 m0 f0 10) (accsT3 m0 f0 10) (ix2 r col) = rowSum T1 I4 (⟨base + r.val, by have := r.isLt; omega⟩ : Fin 32768) col := by
  have h := obG_rows_A m0 f0 T1 I4 (⟨base, by omega⟩ : Fin 32768) (⟨base + 1, hb⟩ : Fin 32768) hG0 hG1 r col
  rw [h]
  by_cases h0 : r.val = 0
  · rw [if_pos h0]; exact congrArg (fun t => rowSum T1 I4 t col) (Fin.ext (by show base = base + r.val; omega))
  · rw [if_neg h0]; exact congrArg (fun t => rowSum T1 I4 t col) (Fin.ext (by show base + 1 = base + r.val; have := r.isLt; omega))

/-- The same from the second buffer set. -/
theorem obG_rowsAt_B (base : Nat) (hb : base + 1 < 32768)
    (hG0 : ∀ (n : Nat) (hn : n < 50) (col : Fin 128), m0.view.read (Elt F) f0 (ix2 (⟨n, by omega⟩ : Fin 100) col)
      = trow T1 (remapW (I4 (ix1 (⟨64 * base + n, by omega⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * (base + 1) + n, by omega⟩ : Fin 2097152)))) col)
    (r : Fin 2) (col : Fin 128) :
    obG (accsT4 m0 f0 10) (accsT5 m0 f0 10) (ix2 r col) = rowSum T1 I4 (⟨base + r.val, by have := r.isLt; omega⟩ : Fin 32768) col := by
  have h := obG_rows_B m0 f0 T1 I4 (⟨base, by omega⟩ : Fin 32768) (⟨base + 1, hb⟩ : Fin 32768) hG0 hG1 r col
  rw [h]
  by_cases h0 : r.val = 0
  · rw [if_pos h0]; exact congrArg (fun t => rowSum T1 I4 t col) (Fin.ext (by show base = base + r.val; omega))
  · rw [if_neg h0]; exact congrArg (fun t => rowSum T1 I4 t col) (Fin.ext (by show base + 1 = base + r.val; have := r.isLt; omega))

end RowsAt

end Cert.KernelIdeal.Run.Tile

end
-- ==== Proof.ScVal.lean ====
/-
  Pure facts for the pooling task's values: the remapping of the padding word at a lane, the kernel's offsets into
  the task's index words in closed form, what one round's index list holds after its eight chunk stores, what a
  gather delivers into the row scratch, and the table row a small word names.
-/
import proofs.«209176_g73847667688168_cont_9to1_m_420_10_alg».proof.Proof.ScSum
import proofs.«209176_g73847667688168_cont_9to1_m_420_10_alg».proof.Proof.ScDefs
import Idealize.ShloMosaic.Lib.SparseCore.Stream
import Idealize.ShloMosaic.Lib.Pipeline.Value

noncomputable section

namespace Cert.KernelIdeal.Run.Tile

open Cert.KernelIdeal Cert.KernelIdeal.Gen Cert.KernelIdeal.Run
open Idealize.ShloMosaic Idealize.ShloMosaic.ValueIdx

variable {F : FTy → Type} [FloatOps F]

/-! ## The remapping at a lane -/

/-- The remapping of the padding index at one lane: a zero word becomes 100000, any other word stays. -/
theorem remap_lane (v : IVec S16 32) (h1 h2 : S16.ShapeCasts S16) (i : S16.Idx) :
    shapeCast S16 (select (cmpi CmpIPredicate.ne (shapeCast S16 v h1) (broadcast S16 0#32)) (shapeCast S16 v h1)
      (broadcast S16 100000#32)) h2 i = remapW (v i) := by
  rw [shapeCast_self, shapeCast_self]
  show Scalar.select (Scalar.cmpi CmpIPredicate.ne (v i) 0#32) (v i) 100000#32 = remapW (v i)
  unfold remapW Scalar.select
  by_cases h : v i = 0#32
  · rw [if_pos h, h]; rfl
  · rw [if_neg h]
    exact if_pos (IntOp.cmpi_ne.mpr h)

/-! ## The offsets into the task's index words, in closed form -/

/-- Round `2 k + 1`'s chunks start at word `128 (2 k + 1)` plus the chunk's own offset. -/
theorem off2_eq : ∀ (k : Fin k0_t1_loop.trips) (r : Fin 8),
    k0_off2 k (k0_off2_at r).1 (k0_off2_at r).2 = ![256 * k.val + 128 + ((k0_off2_at r).1.toNat + (k0_off2_at r).2.toNat)] := by
  decide +kernel

/-- Round `min (2 k + 2) 511`'s chunks start at word `128 min (2 k + 2) 511` plus the chunk's own offset. -/
theorem off21_eq : ∀ (k : Fin k0_t1_loop.trips) (r : Fin 8),
    k0_off21 k (k0_off21_at r).1 (k0_off21_at r).2 = ![128 * min (2 * k.val + 2) 511 + ((k0_off21_at r).1.toNat + (k0_off21_at r).2.toNat)] := by
  decide +kernel

/-! ## One round's index list -/

/-- Word `y` of a round's index list: the remapped word `y % 50` of the round's bag `y / 50`, the round's words
    starting at `base` and each bag taking 64 positions. -/
def listW (IB : S65536.Idx → BitVec 32) (base : ℕ) (y : S100.Idx) : BitVec 32 :=
  remapW (IB (ix1 ⟨(base + 64 * ((y 0).val / 50) + (y 0).val % 50) % 65536, Nat.mod_lt _ (by decide)⟩))

/-- A chunk of sixteen words loaded at `base + 64 (o / 50) + o % 50` and stored, remapped, at position `o` of the list
    is the list's words `o … o + 15`. -/
theorem piece_ok (ibr : S65536.Idx → BitVec 32) (base o : ℕ) (off : Fin 1 → ℕ)
    (inbS : ∀ a, off a + S16.size a ≤ S65536.size a) (inbL : ∀ a, (![o] : Fin 1 → ℕ) a + S16.size a ≤ S100.size a)
    (ho : o % 50 + 16 ≤ 50) (hoff : off 0 = base + 64 * (o / 50) + o % 50) (hb : base + 128 ≤ 65536)
    (v : IVec S16 32) (hv : ∀ i : S16.Idx, v i = ibr ((Rect.unit (s := S65536) off S16.size inbS).toLoadRect.idx i))
    (h1 h2 : S16.ShapeCasts S16) (x : (Rect.unit (s := S100) ![o] S16.size inbL).shape.Idx) :
    shapeCast S16 (select (cmpi CmpIPredicate.ne (shapeCast S16 v h1) (broadcast S16 0#32)) (shapeCast S16 v h1)
      (broadcast S16 100000#32)) h2 x = listW ibr base ((Rect.unit (s := S100) ![o] S16.size inbL).emb x) := by
  have hx : (x 0).val < 16 := (x 0).isLt
  have hoL : o + 16 ≤ 100 := inbL 0
  refine (remap_lane v h1 h2 x).trans ?_
  rw [hv x]
  unfold listW
  refine congrArg remapW (congrArg ibr (funext fun a => Fin.ext ?_))
  have ha : a = (0 : Fin 1) := Subsingleton.elim _ _
  subst ha
  show off 0 + 1 * (x 0).val = (base + 64 * ((o + 1 * (x 0).val) / 50) + (o + 1 * (x 0).val) % 50) % 65536
  omega

/-! ## What a gather delivers -/

/-- After a gather into the first row scratch, row `n` of the scratch is the table's row the list names for `n`. -/
theorem gather_read3 (fd : (Memref.whole cc0_scratch3 : Memref sig .scVector .vmem S100x128 .f32).view.ty.Contents (Elt F))
    (g : S100008x128.Idx → Elt F .f32) (r : Fin 100 → Fin 100008) (n : Fin 100) (col : Fin 128) :
    (Memref.whole cc0_scratch3 : Memref sig .scVector .vmem S100x128 .f32).view.read (Elt F)
      ((Memref.whole cc0_scratch3 : Memref sig .scVector .vmem S100x128 .f32).view.write (Elt F) fd
        (SparseCore.gatherPayload gathers_S100008x128_S100x128 g r) Finset.univ) (ix2 n col) = g (ix2 (r n) col) := by
  simp only [Memref.view_whole, View.write_whole_univ, View.read_whole]
  unfold SparseCore.gatherPayload
  refine congrArg g (funext fun b => Fin.ext ?_)
  match b with
  | ⟨0, _⟩ => exact congrArg Fin.val (gathers_S100008x128_S100x128.idx_axis r (ix2 n col))
  | ⟨1, _⟩ => exact gathers_S100008x128_S100x128.idx_of_ne r (ix2 n col) ⟨1, by decide⟩ (by decide)

/-- The same for the second row scratch. -/
theorem gather_read4 (fd : (Memref.whole cc0_scratch4 : Memref sig .scVector .vmem S100x128 .f32).view.ty.Contents (Elt F))
    (g : S100008x128.Idx → Elt F .f32) (r : Fin 100 → Fin 100008) (n : Fin 100) (col : Fin 128) :
    (Memref.whole cc0_scratch4 : Memref sig .scVector .vmem S100x128 .f32).view.read (Elt F)
      ((Memref.whole cc0_scratch4 : Memref sig .scVector .vmem S100x128 .f32).view.write (Elt F) fd
        (SparseCore.gatherPayload gathers_S100008x128_S100x128 g r) Finset.univ) (ix2 n col) = g (ix2 (r n) col) := by
  simp only [Memref.view_whole, View.write_whole_univ, View.read_whole]
  unfold SparseCore.gatherPayload
  refine congrArg g (funext fun b => Fin.ext ?_)
  match b with
  | ⟨0, _⟩ => exact congrArg Fin.val (gathers_S100008x128_S100x128.idx_axis r (ix2 n col))
  | ⟨1, _⟩ => exact gathers_S100008x128_S100x128.idx_of_ne r (ix2 n col) ⟨1, by decide⟩ (by decide)

/-- The table read through the whole-table slice a gather takes is the table. -/
theorem xall_read (d : Dev nD) (T1 : Buf (Elt F) (tLoc d)) (j : S100008x128.Idx) : (xAll).view.read (Elt F) T1 j = T1 j := by
  refine ((View.read_apply _ _).trans (cast_eq _ _)).trans ?_
  refine congrArg T1 (funext fun a => Fin.ext ?_)
  match a with
  | ⟨0, _⟩ => show 0 + 1 * (j 0).val = (j 0).val; omega
  | ⟨1, _⟩ => show 0 + 1 * (j 1).val = (j 1).val; omega

/-! ## The table row a small word names -/

theorem trow_of_le (T1 : (⟨2, ![100008, 128]⟩ : Shape).Idx → Elt F .f32) (w : BitVec 32) (k : Fin 128) (h : w.toNat ≤ 100007) :
    trow T1 w k = T1 (ix2 (⟨w.toNat, by omega⟩ : Fin 100008) k) := by
  unfold trow
  exact congrArg (fun r : Fin 100008 => T1 (ix2 r k)) (Fin.ext (Nat.min_eq_left h))

end Cert.KernelIdeal.Run.Tile

end
-- ==== Proof.ScVal2.lean ====
/-
  What a round's gather puts in the row scratch, in the pooled sum's vocabulary: row `50 h + n` of the scratch is the
  table row that word `n` of bag `2 r + h` of the task names after the remapping of the padding word.
-/
import proofs.«209176_g73847667688168_cont_9to1_m_420_10_alg».proof.Proof.ScVal

noncomputable section

namespace Cert.KernelIdeal.Run.Tile

open Cert.KernelIdeal Cert.KernelIdeal.Gen Cert.KernelIdeal.Run
open Idealize.ShloMosaic Idealize.ShloMosaic.ValueIdx

variable {F : FTy → Type} [FloatOps F]

/-- A remapped word of the index array is at most 100000. -/
theorem remapW_le (w : BitVec 32) (h : w.toNat ≤ 99999) : (remapW w).toNat ≤ 100000 := by
  unfold remapW
  split
  · decide
  · omega

section Rows
variable (I4 : (⟨1, ![2097152]⟩ : Shape).Idx → BitVec 32) (IBr : S65536.Idx → BitVec 32) (tw : ℕ) (htw : tw < 32)
  (hIB : ∀ x : Fin 65536, IBr (ix1 x) = I4 (ix1 (⟨65536 * tw + x.val, by omega⟩ : Fin 2097152)))
  (r : Fin 512) (lw : S100.Idx → Elt F .i32) (hlist : ∀ y, lw y = listW IBr (128 * r.val) y)
  (hn : S100.numel = S100x128.size gathers_S100008x128_S100x128.axis')
  (hin : ∀ x, (lw x).toNat < S100008x128.size gathers_S100008x128_S100x128.axis)

include hIB hlist in
/-- The row the list names for position `50 h + n`: the remapped word `n` of the task's bag `2 r + h`. -/
theorem rows_val (h : Fin 2) (n : ℕ) (hn50 : n < 50) :
    ((SparseCore.rows lw hn hin (⟨50 * h.val + n, by omega⟩ : Fin 100) : Fin 100008) : ℕ)
      = (remapW (I4 (ix1 (⟨64 * (1024 * tw + 2 * r.val + h.val) + n, by omega⟩ : Fin 2097152)))).toNat := by
  have hy : S100.rowMajor.symm ((⟨50 * h.val + n, by omega⟩ : Fin 100).cast hn.symm) = ix1 (⟨50 * h.val + n, by omega⟩ : Fin 100) := by
    rw [Equiv.symm_apply_eq]
    refine Fin.ext ?_
    show 50 * h.val + n = (S100.rowMajor (ix1 (⟨50 * h.val + n, by omega⟩ : Fin 100))).val
    exact (Shape.rowMajor_val_one (d := ![100]) (ix1 (⟨50 * h.val + n, by omega⟩ : Fin 100))).symm
  show (lw (S100.rowMajor.symm ((⟨50 * h.val + n, _⟩ : Fin 100).cast hn.symm))).toNat = _
  rw [hy, hlist]
  unfold listW
  have e : (⟨(128 * r.val + 64 * (((ix1 (⟨50 * h.val + n, by omega⟩ : Fin 100)) 0).val / 50) + ((ix1 (⟨50 * h.val + n, by omega⟩ : Fin 100)) 0).val % 50) % 65536,
      Nat.mod_lt _ (by decide)⟩ : Fin 65536) = ⟨128 * r.val + 64 * h.val + n, by omega⟩ := Fin.ext (by
    show (128 * r.val + 64 * ((50 * h.val + n) / 50) + (50 * h.val + n) % 50) % 65536 = 128 * r.val + 64 * h.val + n
    omega)
  rw [e, hIB]
  exact congrArg (fun q : Fin 2097152 => (remapW (I4 (ix1 q))).toNat) (Fin.ext (by
    show 65536 * tw + (128 * r.val + 64 * h.val + n) = 64 * (1024 * tw + 2 * r.val + h.val) + n
    omega))

variable (d : Dev nD) (T1 : Buf (Elt F) (tLoc d)) (hle : ∀ x, (IBr x).toNat ≤ 99999)

include hIB hlist hle in
/-- The first row scratch after the round's gather. -/
theorem rows_ok3 (fd : (Memref.whole cc0_scratch3 : Memref sig .scVector .vmem S100x128 .f32).view.ty.Contents (Elt F))
    (h : Fin 2) (n : ℕ) (hn50 : n < 50) (col : Fin 128) :
    (Memref.whole cc0_scratch3 : Memref sig .scVector .vmem S100x128 .f32).view.read (Elt F)
      ((Memref.whole cc0_scratch3 : Memref sig .scVector .vmem S100x128 .f32).view.write (Elt F) fd
        (SparseCore.gatherPayload gathers_S100008x128_S100x128 ((xAll).view.read (Elt F) T1) (SparseCore.rows lw hn hin)) Finset.univ)
      (ix2 (⟨50 * h.val + n, by omega⟩ : Fin 100) col)
      = trow T1 (remapW (I4 (ix1 (⟨64 * (1024 * tw + 2 * r.val + h.val) + n, by omega⟩ : Fin 2097152)))) col := by
  have hw : (remapW (I4 (ix1 (⟨64 * (1024 * tw + 2 * r.val + h.val) + n, by omega⟩ : Fin 2097152)))).toNat ≤ 100007 := by
    have hx := hIB (⟨128 * r.val + 64 * h.val + n, by omega⟩ : Fin 65536)
    have e : (⟨65536 * tw + (128 * r.val + 64 * h.val + n), by omega⟩ : Fin 2097152) = ⟨64 * (1024 * tw + 2 * r.val + h.val) + n, by omega⟩ :=
      Fin.ext (by show 65536 * tw + (128 * r.val + 64 * h.val + n) = 64 * (1024 * tw + 2 * r.val + h.val) + n; omega)
    have := remapW_le _ (hle (ix1 (⟨128 * r.val + 64 * h.val + n, by omega⟩ : Fin 65536)))
    rw [hx, e] at this
    omega
  refine (gather_read3 fd _ (SparseCore.rows lw hn hin) _ col).trans ?_
  refine (xall_read d T1 _).trans ?_
  rw [trow_of_le T1 _ col hw]
  exact congrArg (fun q : Fin 100008 => T1 (ix2 q col)) (Fin.ext (rows_val I4 IBr tw htw hIB r lw hlist hn hin h n hn50))

include hIB hlist hle in
/-- The second row scratch after the round's gather. -/
theorem rows_ok4 (fd : (Memref.whole cc0_scratch4 : Memref sig .scVector .vmem S100x128 .f32).view.ty.Contents (Elt F))
    (h : Fin 2) (n : ℕ) (hn50 : n < 50) (col : Fin 128) :
    (Memref.whole cc0_scratch4 : Memref sig .scVector .vmem S100x128 .f32).view.read (Elt F)
      ((Memref.whole cc0_scratch4 : Memref sig .scVector .vmem S100x128 .f32).view.write (Elt F) fd
        (SparseCore.gatherPayload gathers_S100008x128_S100x128 ((xAll).view.read (Elt F) T1) (SparseCore.rows lw hn hin)) Finset.univ)
      (ix2 (⟨50 * h.val + n, by omega⟩ : Fin 100) col)
      = trow T1 (remapW (I4 (ix1 (⟨64 * (1024 * tw + 2 * r.val + h.val) + n, by omega⟩ : Fin 2097152)))) col := by
  have hw : (remapW (I4 (ix1 (⟨64 * (1024 * tw + 2 * r.val + h.val) + n, by omega⟩ : Fin 2097152)))).toNat ≤ 100007 := by
    have hx := hIB (⟨128 * r.val + 64 * h.val + n, by omega⟩ : Fin 65536)
    have e : (⟨65536 * tw + (128 * r.val + 64 * h.val + n), by omega⟩ : Fin 2097152) = ⟨64 * (1024 * tw + 2 * r.val + h.val) + n, by omega⟩ :=
      Fin.ext (by show 65536 * tw + (128 * r.val + 64 * h.val + n) = 64 * (1024 * tw + 2 * r.val + h.val) + n; omega)
    have := remapW_le _ (hle (ix1 (⟨128 * r.val + 64 * h.val + n, by omega⟩ : Fin 65536)))
    rw [hx, e] at this
    omega
  refine (gather_read4 fd _ (SparseCore.rows lw hn hin) _ col).trans ?_
  refine (xall_read d T1 _).trans ?_
  rw [trow_of_le T1 _ col hw]
  exact congrArg (fun q : Fin 100008 => T1 (ix2 q col)) (Fin.ext (rows_val I4 IBr tw htw hIB r lw hlist hn hin h n hn50))

end Rows

end Cert.KernelIdeal.Run.Tile

end
-- ==== Proof.ScOffs.lean ====
/-
  The kernel's offsets into the task's index words, one equation per chunk of a round's index list.
-/
import proofs.«209176_g73847667688168_cont_9to1_m_420_10_alg».proof.Proof.Gen.KernelIdeal

namespace Cert.KernelIdeal.Run.Tile

open Cert.KernelIdeal Cert.KernelIdeal.Gen
open Idealize.ShloMosaic

theorem off2_0_0 : ∀ k : Fin k0_t1_loop.trips, k0_off2 k 0#32 0#32 0 = 256 * k.val + 128 + 0 + 0 := by decide +kernel
theorem off21_0_0 : ∀ k : Fin k0_t1_loop.trips, k0_off21 k 0#32 0#32 0 = 128 * min (2 * k.val + 2) 511 + 0 + 0 := by decide +kernel
theorem off2_0_16 : ∀ k : Fin k0_t1_loop.trips, k0_off2 k 0#32 16#32 0 = 256 * k.val + 128 + 0 + 16 := by decide +kernel
theorem off21_0_16 : ∀ k : Fin k0_t1_loop.trips, k0_off21 k 0#32 16#32 0 = 128 * min (2 * k.val + 2) 511 + 0 + 16 := by decide +kernel
theorem off2_0_32 : ∀ k : Fin k0_t1_loop.trips, k0_off2 k 0#32 32#32 0 = 256 * k.val + 128 + 0 + 32 := by decide +kernel
theorem off21_0_32 : ∀ k : Fin k0_t1_loop.trips, k0_off21 k 0#32 32#32 0 = 128 * min (2 * k.val + 2) 511 + 0 + 32 := by decide +kernel
theorem off2_0_34 : ∀ k : Fin k0_t1_loop.trips, k0_off2 k 0#32 34#32 0 = 256 * k.val + 128 + 0 + 34 := by decide +kernel
theorem off21_0_34 : ∀ k : Fin k0_t1_loop.trips, k0_off21 k 0#32 34#32 0 = 128 * min (2 * k.val + 2) 511 + 0 + 34 := by decide +kernel
theorem off2_64_0 : ∀ k : Fin k0_t1_loop.trips, k0_off2 k 64#32 0#32 0 = 256 * k.val + 128 + 64 + 0 := by decide +kernel
theorem off21_64_0 : ∀ k : Fin k0_t1_loop.trips, k0_off21 k 64#32 0#32 0 = 128 * min (2 * k.val + 2) 511 + 64 + 0 := by decide +kernel
theorem off2_64_16 : ∀ k : Fin k0_t1_loop.trips, k0_off2 k 64#32 16#32 0 = 256 * k.val + 128 + 64 + 16 := by decide +kernel
theorem off21_64_16 : ∀ k : Fin k0_t1_loop.trips, k0_off21 k 64#32 16#32 0 = 128 * min (2 * k.val + 2) 511 + 64 + 16 := by decide +kernel
theorem off2_64_32 : ∀ k : Fin k0_t1_loop.trips, k0_off2 k 64#32 32#32 0 = 256 * k.val + 128 + 64 + 32 := by decide +kernel
theorem off21_64_32 : ∀ k : Fin k0_t1_loop.trips, k0_off21 k 64#32 32#32 0 = 128 * min (2 * k.val + 2) 511 + 64 + 32 := by decide +kernel
theorem off2_64_34 : ∀ k : Fin k0_t1_loop.trips, k0_off2 k 64#32 34#32 0 = 256 * k.val + 128 + 64 + 34 := by decide +kernel
theorem off21_64_34 : ∀ k : Fin k0_t1_loop.trips, k0_off21 k 64#32 34#32 0 = 128 * min (2 * k.val + 2) 511 + 64 + 34 := by decide +kernel

end Cert.KernelIdeal.Run.Tile
-- ==== Proof.ScBodyV.lean ====
/-
  One vector subcore's task of the pooling kernel, with the values: the same run as the frame's, its invariants saying
  also what the buffers hold — the row scratch of a round the table rows its remapped index words name, the staging
  buffer the two pooled rows of the round, the result rows of the trips done the pooled sums.
-/
import proofs.«209176_g73847667688168_cont_9to1_m_420_10_alg».proof.Proof.ScDefs
import proofs.«209176_g73847667688168_cont_9to1_m_420_10_alg».proof.Proof.Gen.KernelIdeal.Skeleton
import proofs.«209176_g73847667688168_cont_9to1_m_420_10_alg».proof.Proof.ScLib
import proofs.«209176_g73847667688168_cont_9to1_m_420_10_alg».proof.Proof.ScBody
import proofs.«209176_g73847667688168_cont_9to1_m_420_10_alg».proof.Proof.ScSum
import proofs.«209176_g73847667688168_cont_9to1_m_420_10_alg».proof.Proof.ScJoin
import proofs.«209176_g73847667688168_cont_9to1_m_420_10_alg».proof.Proof.ScOb
import proofs.«209176_g73847667688168_cont_9to1_m_420_10_alg».proof.Proof.ScVal2
import proofs.«209176_g73847667688168_cont_9to1_m_420_10_alg».proof.Proof.ScOffs

noncomputable section

namespace Cert.KernelIdeal.Run.Tile

open Cert.KernelIdeal Cert.KernelIdeal.Gen Cert.KernelIdeal.Run
open Cert.Lib
open Idealize.ShloMosaic.ValueIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S2097152 EltTy.i32)
local notation "xV" => (Memref.whole Cert.KernelIdeal.main_v1_scv : Memref Cert.KernelIdeal.sig Kind.scVector Space.hbm Cert.KernelIdeal.S100008x128 EltTy.f32)
local notation "oV" => (Memref.whole Cert.KernelIdeal.main_v5_scv : Memref Cert.KernelIdeal.sig Kind.scVector Space.hbm Cert.KernelIdeal.S32768x128 EltTy.f32)
local notation "ibV" => (Memref.whole Cert.KernelIdeal.cc0_scratch0 : Memref Cert.KernelIdeal.sig Kind.scVector Space.vmem Cert.KernelIdeal.S65536 EltTy.i32)
local notation "rm0V" => (Memref.whole Cert.KernelIdeal.cc0_scratch1 : Memref Cert.KernelIdeal.sig Kind.scVector Space.vmem Cert.KernelIdeal.S100 EltTy.i32)
local notation "rm1V" => (Memref.whole Cert.KernelIdeal.cc0_scratch2 : Memref Cert.KernelIdeal.sig Kind.scVector Space.vmem Cert.KernelIdeal.S100 EltTy.i32)
local notation "rw0V" => (Memref.whole Cert.KernelIdeal.cc0_scratch3 : Memref Cert.KernelIdeal.sig Kind.scVector Space.vmem Cert.KernelIdeal.S100x128 EltTy.f32)
local notation "rw1V" => (Memref.whole Cert.KernelIdeal.cc0_scratch4 : Memref Cert.KernelIdeal.sig Kind.scVector Space.vmem Cert.KernelIdeal.S100x128 EltTy.f32)
local notation "ob0V" => (Memref.whole Cert.KernelIdeal.cc0_scratch5 : Memref Cert.KernelIdeal.sig Kind.scVector Space.vmem Cert.KernelIdeal.S2x128 EltTy.f32)
local notation "ob1V" => (Memref.whole Cert.KernelIdeal.cc0_scratch6 : Memref Cert.KernelIdeal.sig Kind.scVector Space.vmem Cert.KernelIdeal.S2x128 EltTy.f32)

section Tile

variable (L : grid0.Coords)

variable [FloatOps F] (d : Dev nD)

local notation "𝕥" => V d (cV L) (jV L)
local notation "EC" => (countersEmb : UEmb Counters (MT nD τ sig (HIx 1) (Elt F) ℕ UU ℕ))

/-! ## The values -/

/-- The task's number: subcore times two plus core, as the kernel computes it. -/
def tw (L : grid0.Coords) : ℕ := 2 * (L 1).val + (L 0).val
omit [FloatOps F] in
theorem tw_lt : tw L < 32 := by
  have h0 : (L 0).val < 2 := (L 0).isLt
  have h1 : (L 1).val < 16 := (L 1).isLt
  unfold tw; omega

/-- The result row that half `h` of the task's round `r` pools. -/
def grow (L : grid0.Coords) (r : Fin 512) (h : Fin 2) : Fin 32768 :=
  ⟨1024 * tw L + 2 * r.val + h.val, by have := tw_lt L; have := r.isLt; have := h.isLt; omega⟩

/-- The round whose gather the first buffer set has in flight before trip `k` (the last one is issued twice). -/
def r0 (k : ℕ) : Fin 512 := ⟨min (2 * k) 511, by omega⟩
/-- The round the second buffer set serves in trip `k`. -/
def r1 (k : Fin k0_t1_loop.trips) : Fin 512 := ⟨2 * k.val + 1, by have : k.val < 256 := k.isLt; omega⟩

/-- The index scratch holds the task's index words. -/
def IBok (I4 : Buf (Elt F) (iLoc d)) (IB : Buf (Elt F) ((ibV).view.loc 𝕥)) : Prop :=
  ∀ x : Fin 65536, (ibV).view.read (Elt F) IB (ix1 x) = I4 (ix1 (⟨65536 * tw L + x.val, by have := tw_lt L; omega⟩ : Fin 2097152))

/-- A row scratch holds the table rows the remapped index words of the result rows `base` (its rows 0..49) and
    `base + 1` (its rows 50..99) name. -/
def RowsOK (T1 : Buf (Elt F) (tLoc d)) (I4 : Buf (Elt F) (iLoc d)) (G : S100x128.Idx → Elt F .f32) (base : ℕ) : Prop :=
  ∃ hb : base + 1 < 32768,
    (∀ (n : ℕ) (hn : n < 50) (col : Fin 128), G (ix2 (⟨n, by omega⟩ : Fin 100) col)
        = trow T1 (remapW (I4 (ix1 (⟨64 * base + n, by omega⟩ : Fin 2097152)))) col)
    ∧ (∀ (n : ℕ) (hn : n < 50) (col : Fin 128), G (ix2 (⟨n + 50, by omega⟩ : Fin 100) col)
        = trow T1 (remapW (I4 (ix1 (⟨64 * (base + 1) + n, by omega⟩ : Fin 2097152)))) col)

/-- The result row the first half of the task's round `r` pools. -/
def rbase (L : grid0.Coords) (r : Fin 512) : ℕ := 1024 * tw L + 2 * r.val

/-- From the two halves read at `50 h + n`. -/
theorem rowsOK_of (T1 : Buf (Elt F) (tLoc d)) (I4 : Buf (Elt F) (iLoc d)) (G : S100x128.Idx → Elt F .f32) (r : Fin 512)
    (h : ∀ (h : Fin 2) (n : ℕ) (hn50 : n < 50) (col : Fin 128), G (ix2 (⟨50 * h.val + n, by omega⟩ : Fin 100) col)
      = trow T1 (remapW (I4 (ix1 (⟨64 * (1024 * tw L + 2 * r.val + h.val) + n, by have := tw_lt L; omega⟩ : Fin 2097152)))) col) :
    RowsOK d T1 I4 G (rbase L r) := by
  have htw := tw_lt L
  have hr := r.isLt
  unfold rbase
  refine ⟨by omega, fun n hn col => ?_, fun n hn col => ?_⟩
  · refine (congrArg (fun i : Fin 100 => G (ix2 i col)) (Fin.ext ?_)).trans ((h 0 n hn col).trans
      (congrArg (fun i : Fin 2097152 => trow T1 (remapW (I4 (ix1 i))) col) (Fin.ext ?_)))
    · show n = 50 * 0 + n; omega
    · show 64 * (1024 * tw L + 2 * r.val + 0) + n = 64 * (1024 * tw L + 2 * r.val) + n; omega
  · refine (congrArg (fun i : Fin 100 => G (ix2 i col)) (Fin.ext ?_)).trans ((h 1 n hn col).trans
      (congrArg (fun i : Fin 2097152 => trow T1 (remapW (I4 (ix1 i))) col) (Fin.ext ?_)))
    · show n + 50 = 50 * 1 + n; omega
    · show 64 * (1024 * tw L + 2 * r.val + 1) + n = 64 * (1024 * tw L + 2 * r.val + 1) + n; rfl

/-- The result rows of the trips before `k` hold the pooled sums. -/
def OutOK (pv : Buf (Elt F) (oLoc d)) (oS : Fin k0_t1_loop.trips → Finset S32768x128.Idx) (f : Buf (Elt F) (oLoc d)) (k : ℕ) : Prop :=
  ∀ k' : Fin k0_t1_loop.trips, k'.val < k → ∀ j ∈ oS k', f j = pv j

/-- A gather's delivery, with what the row scratch holds. -/
def GDv (T1 : Buf (Elt F) (tLoc d)) (I4 : Buf (Elt F) (iLoc d)) (dst : Memref sig .scVector .vmem S100x128 .f32)
    (offs : Memref sig .scVector .vmem S100 .i32) (q : PosShare TreeShare) (r : Fin 512) : sProp 𝕄 :=
  iprop((∃ f, (dst.view.loc 𝕥 ↦[dst.view.set]{fullShare} f) ∗ ⌜RowsOK d T1 I4 (dst.view.read (Elt F) f) (rbase L r)⌝)
    ∗ ((xAll).view.loc 𝕥 ↦[(xAll).view.set]{q} T1) ∗ ∃ g, offs.view.loc 𝕥 ↦[offs.view.set]{fullShare} g)

/-- A copy-out's delivery, with what the result rows hold. -/
def ODv (pv : Buf (Elt F) (oLoc d)) (ob : Memref sig .scVector .vmem S2x128 .f32) (Sd : Finset S32768x128.Idx)
    (oS : Fin k0_t1_loop.trips → Finset S32768x128.Idx) (k : ℕ) : sProp 𝕄 :=
  iprop((∃ f, (oLoc d ↦[Sd]{fullShare} f) ∗ ⌜OutOK d pv oS f k⌝) ∗ ∃ g, ob.view.loc 𝕥 ↦[ob.view.set]{fullShare} g)

def OBv (pv : Buf (Elt F) (oLoc d)) (ob : Memref sig .scVector .vmem S2x128 .f32) (sem : DmaSem sig) (Sd : Finset S32768x128.Idx)
    (oS : Fin k0_t1_loop.trips → Finset S32768x128.Idx) (k : ℕ) : sProp 𝕄 :=
  if k = 0 then iprop(ODv L d pv ob Sd oS 0 ∗ semVal (𝕥, SemLoc.dma sem) 0)
  else Transfers.Flight EC 𝕥 (.dma sem) (default : HIx 1) ob.view.dmaCredit (ODv L d pv ob Sd oS k)

/-- The loop's invariant before trip `k`, with the values. -/
def invV (T1 : Buf (Elt F) (tLoc d)) (I4 : Buf (Elt F) (iLoc d)) (pv : Buf (Elt F) (oLoc d)) (IB : Buf (Elt F) ((ibV).view.loc 𝕥))
    (q : PosShare TreeShare) (O : CellTallies nD τ sig (HIx 1)) (W : Waits sig (HIx 1)) (k : ℕ) (_ : PUnit) : sProp 𝕄 :=
  iprop(Transfers.MayWaits 𝕥 (default : HIx 1) O
    ∗ ((ibV).view.loc 𝕥 ↦{fullShare} IB)
    ∗ Transfers.Flight EC 𝕥 (.dma cc0_scratch7.sem) (default : HIx 1) (rw0V).view.dmaCredit (GDv L d T1 I4 rw0V rm0V q.left (r0 k))
    ∗ ((xAll).view.loc 𝕥 ↦[(xAll).view.set]{q.right} T1)
    ∗ (∃ f, (rm1V).view.loc 𝕥 ↦{fullShare} f) ∗ (∃ f, (rw1V).view.loc 𝕥 ↦{fullShare} f)
    ∗ semVal (𝕥, SemLoc.dma cc0_scratch8.sem) 0
    ∗ OBv L d pv ob0V cc0_scratch9.sem (oSet0 L) (oS0 L) k ∗ OBv L d pv ob1V cc0_scratch10.sem (oSet1 L) (oS1 L) k
    ∗ ∃ W', ⌜∀ p ∈ W', p ∈ W ∨ p.2 = none⌝ ∗ owes 𝕥 O W')

theorem GDv_eq (T1 : Buf (Elt F) (tLoc d)) (I4 : Buf (Elt F) (iLoc d)) (dst : Memref sig .scVector .vmem S100x128 .f32)
    (offs : Memref sig .scVector .vmem S100 .i32) (q : PosShare TreeShare) (r : Fin 512) :
    (GDv L d T1 I4 dst offs q r : sProp 𝕄) = iprop((∃ f, (dst.view.loc 𝕥 ↦[dst.view.set]{fullShare} f) ∗ ⌜RowsOK d T1 I4 (dst.view.read (Elt F) f) (rbase L r)⌝)
    ∗ ((xAll).view.loc 𝕥 ↦[(xAll).view.set]{q} T1) ∗ ∃ g, offs.view.loc 𝕥 ↦[offs.view.set]{fullShare} g) := rfl
theorem ODv_eq (pv : Buf (Elt F) (oLoc d)) (ob : Memref sig .scVector .vmem S2x128 .f32) (Sd : Finset S32768x128.Idx)
    (oS : Fin k0_t1_loop.trips → Finset S32768x128.Idx) (k : ℕ) :
    (ODv L d pv ob Sd oS k : sProp 𝕄) = iprop((∃ f, (oLoc d ↦[Sd]{fullShare} f) ∗ ⌜OutOK d pv oS f k⌝) ∗ ∃ g, ob.view.loc 𝕥 ↦[ob.view.set]{fullShare} g) := rfl
theorem OBv_zero (pv : Buf (Elt F) (oLoc d)) (ob : Memref sig .scVector .vmem S2x128 .f32) (sem : DmaSem sig) (Sd : Finset S32768x128.Idx)
    (oS : Fin k0_t1_loop.trips → Finset S32768x128.Idx) :
    (OBv L d pv ob sem Sd oS 0 : sProp 𝕄) = iprop(ODv L d pv ob Sd oS 0 ∗ semVal (𝕥, SemLoc.dma sem) 0) := rfl
theorem OBv_pos (pv : Buf (Elt F) (oLoc d)) (ob : Memref sig .scVector .vmem S2x128 .f32) (sem : DmaSem sig) (Sd : Finset S32768x128.Idx)
    (oS : Fin k0_t1_loop.trips → Finset S32768x128.Idx) {k : ℕ} (hk : k ≠ 0) :
    (OBv L d pv ob sem Sd oS k : sProp 𝕄) = Transfers.Flight EC 𝕥 (.dma sem) (default : HIx 1) ob.view.dmaCredit (ODv L d pv ob Sd oS k) := by
  unfold OBv; rw [if_neg hk]

/-- Issuing a gather whose list's words all name rows of the table, and what its row scratch will hold. -/
theorem gather_issue_v {α : Type} {Q : α → sProp 𝕄} (T1 : Buf (Elt F) (tLoc d)) (I4 : Buf (Elt F) (iLoc d))
    {src : Memref sig .scVector .hbm S100008x128 .f32} (hsrcE : src = xAll)
    {dst : Memref sig .scVector .vmem S100x128 .f32} {offs : Memref sig .scVector .vmem S100 .i32} {sem : DmaSem sig}
    {hn : S100.numel = S100x128.size gathers_S100008x128_S100x128.axis'}
    {hp : (𝕥).2.kind = .scVector} {hsrc : src.view.WordExact} {he : EltTy.f32.bits = 32} {hsp : Space.hbm = .hbm ∨ Space.hbm = .shared}
    {hr : S100008x128.StreamRows 0}
    {k : PUnit → Prog (TpuEff nD τ sig (Elt F) Λ₀ (𝕥).2) α}
    (q : PosShare TreeShare) (r : Fin 512) {fd : Buf (Elt F) (dst.view.loc 𝕥)} {fo : Buf (Elt F) (offs.view.loc 𝕥)}
    (hcr : ∀ s' : Shape, sig.dmaCredit .scVector (Kind.scVector.table .vmem) dst.view.buf s' .f32 = s'.numel * EltTy.f32.bits) :
    iprop(((xAll).view.loc 𝕥 ↦[(xAll).view.set]{q} T1) ∗ (dst.view.loc 𝕥 ↦[dst.view.set]{fullShare} fd)
        ∗ (offs.view.loc 𝕥 ↦[offs.view.set]{fullShare} fo) ∗ semVal (𝕥, SemLoc.dma sem) 0
        ∗ ⌜∀ x, (offs.view.read (Elt F) fo x).toNat < S100008x128.size gathers_S100008x128_S100x128.axis⌝
        ∗ ⌜∀ hin : (∀ x, (offs.view.read (Elt F) fo x).toNat < S100008x128.size gathers_S100008x128_S100x128.axis),
            RowsOK d T1 I4 (dst.view.read (Elt F) (dst.view.write (Elt F) fd
              (SparseCore.gatherPayload gathers_S100008x128_S100x128 ((xAll).view.read (Elt F) T1)
                (SparseCore.rows (offs.view.read (Elt F) fo) hn hin)) Finset.univ)) (rbase L r)⌝)
      ⊢ iprop((Transfers.Flight EC 𝕥 (.dma sem) (default : HIx 1) dst.view.dmaCredit (GDv L d T1 I4 dst offs q r)
              -∗ wp frame (wpE (defs₀ (F := F)) 𝒱₀ 𝕥 none) Set.univ (k ⟨⟩) Q)
          -∗ wp frame (wpE (defs₀ (F := F)) 𝒱₀ 𝕥 none) Set.univ
              (SparseCore.enqueueIndirectGather hp src dst gathers_S100008x128_S100x128 offs hn sem hsrc he hsp hr >>= k) Q) := by
  subst hsrcE
  iintro ⟨Hx, Hd, Ho, Hs, %hin, %hrows⟩ Hk
  iapply (SparseCore.wp_indirectGatherLocal EC 𝒱₀ 𝕥 none (hg := gathers_S100008x128_S100x128) (default : HIx 1)
      dst.view.dmaCredit (SparseCore.sum_rowCredit_eq_dmaCredit dst _ hcr) (by decide) hin) $$ [Hx Hd Ho Hs]
  · isplitl [Hx]; · iexact Hx
    isplitl [Hd]; · iexact Hd
    isplitl [Ho]; · iexact Ho
    iexact Hs
  iintro Hfl
  iapply Hk
  iapply (Transfers.Flight_mono EC 𝕥 (D' := GDv L d T1 I4 dst offs q r) (by
    rw [GDv_eq]
    iintro ⟨Hd, Hx, Ho⟩
    isplitl [Hd]
    · iexists _; isplitl [Hd]; · iexact Hd
      ipureintro; exact hrows hin
    isplitl [Hx]; · iexact Hx
    iexists _; iexact Ho)) $$ Hfl

/-- One chunk of a remapped list, read back: the remapping of the index scratch's words at the list's positions. -/
theorem piece_val (IBc : Buf (Elt F) ((ibV).view.loc 𝕥)) (base o : ℕ) (off : Fin 1 → ℕ)
    (inbS : ∀ a, off a + S16.size a ≤ S65536.size a) (inbL : ∀ a, (![o] : Fin 1 → ℕ) a + S16.size a ≤ S100.size a)
    (ho : o % 50 + 16 ≤ 50) (hoff : off 0 = base + 64 * (o / 50) + o % 50) (hb : base + 128 ≤ 65536)
    (h1 h2 : S16.ShapeCasts S16) (x : (Rect.unit (s := S100) ![o] S16.size inbL).shape.Idx) :
    shapeCast S16 (select (cmpi CmpIPredicate.ne
        (shapeCast S16 (View.readAt (Elt F) (ibV).view (Rect.unit (s := S65536) off S16.size inbS).toLoadRect IBc) h1) (broadcast S16 0#32))
        (shapeCast S16 (View.readAt (Elt F) (ibV).view (Rect.unit (s := S65536) off S16.size inbS).toLoadRect IBc) h1)
        (broadcast S16 100000#32)) h2 x
      = listW ((ibV).view.read (Elt F) IBc) base ((Rect.unit (s := S100) ![o] S16.size inbL).emb x) :=
  piece_ok ((ibV).view.read (Elt F) IBc) base o off inbS inbL ho hoff hb _ (fun _ => rfl) h1 h2 x

/-- The index copy lands the task's index words in the index scratch. -/
theorem ibv_of_pre (I4 : Buf (Elt F) (iLoc d)) (fib : Buf (Elt F) ((ibV).view.loc 𝕥)) (pay : S65536.Idx → Elt F .i32)
    (hpay : pay = (iSl L).view.read (Elt F) I4) : IBok L d I4 (View.write (Elt F) (ibV).view fib pay Finset.univ) := by
  subst hpay; intro x
  rw [View.write_whole_univ]
  simp only [Memref.view_whole, View.read_whole]
  rw [show ∀ j, (iSl L).view.read (Elt F) I4 j = I4 ((iSl L).view.emb j) from fun j => (View.read_apply _ _).trans (cast_eq _ _)]
  congr 1
  funext a
  apply Fin.ext
  match a with
  | ⟨0, _⟩ =>
    show (k0_off1 L) (0 : Fin 1) + 1 * x.val = 65536 * tw L + x.val
    rw [k0_off1_eq]; unfold tw
    show 131072 * (L 1).val + 65536 * (L 0).val + 1 * x.val = _
    omega

set_option maxRecDepth 100000 in
set_option maxHeartbeats 4000000 in
/-- One trip of the rounds loop, with the values. -/
theorem trip_v (T1 : Buf (Elt F) (tLoc d)) (I4 : Buf (Elt F) (iLoc d)) (IB : Buf (Elt F) ((ibV).view.loc 𝕥))
    (hIB : ∀ x, ((ibV).view.read (Elt F) IB x).toNat ≤ 99999) (hIBv : IBok L d I4 IB) (q : PosShare TreeShare)
    (O : CellTallies nD τ sig (HIx 1)) (W : Waits sig (HIx 1)) (v2 : BitVec 32) (k : Fin k0_t1_loop.trips) (acc : PUnit) :
    invV L d T1 I4 (pvOf T1 I4) IB q O W k.val acc
      ⊢ wp frame (wpE (defs₀ (F := F)) 𝒱₀ 𝕥 none) Set.univ
          (k0_t1_body L iV (Memref.isWhole_whole _) xV (Memref.isWhole_whole _) oV (Memref.isWhole_whole _)
            ibV (Memref.isWhole_whole _) rm0V (Memref.isWhole_whole _) rm1V (Memref.isWhole_whole _)
            rw0V (Memref.isWhole_whole _) rw1V (Memref.isWhole_whole _) ob0V (Memref.isWhole_whole _) ob1V (Memref.isWhole_whole _)
            cc0_scratch7 cc0_scratch8 cc0_scratch9 cc0_scratch10 cc0_scoped0 v2 k acc)
          (invV L d T1 I4 (pvOf T1 I4) IB q O W (k.val + 1)) := by
  unfold invV
  iintro ⟨#Hmw, Hib, Hfl0, HxR, ⟨%frm1, Hrm1⟩, ⟨%frw1, Hrw1⟩, Hsg1, HOB0, HOB1, %W', %hW', HO⟩
  unfold k0_t1_body
  have hk256 : k.val < 256 := k.isLt
  have hcond1 : ∀ k : Fin k0_t1_loop.trips, (k0_cond1 k = 1#1 ↔ k.val ≠ 0) := by decide +kernel
  have hcond2 : ∀ k : Fin k0_t1_loop.trips, (k0_cond2 k = 1#1 ↔ k.val ≠ 0) := by decide +kernel
  sl_exec
  have hrs1 : (rw1V).view.set = Finset.univ := View.set_whole _
  have hms1 : (rm1V).view.set = Finset.univ := View.set_whole _
  ihave Hrw1' := (Entails.of_eq (show (((rw1V).view.loc 𝕥 ↦{fullShare} frw1 : sProp 𝕄))
      = (rw1V).view.loc 𝕥 ↦[(rw1V).view.set]{fullShare} frw1 by rw [hrs1])) $$ Hrw1
  ihave Hrm1' := (Entails.of_eq (show (((rm1V).view.loc 𝕥 ↦{fullShare} _ : sProp 𝕄))
      = (rm1V).view.loc 𝕥 ↦[(rm1V).view.set]{fullShare} _ by rw [hms1])) $$ Hrm1
  iapply (gather_issue_v L d T1 I4 rfl q.right (r1 k) (fun _ => rfl)) $$ [HxR Hrw1' Hrm1' Hsg1]
  · isplitl [HxR]; · iexact HxR
    isplitl [Hrw1']; · iexact Hrw1'
    isplitl [Hrm1']; · iexact Hrm1'
    isplitl [Hsg1]; · iexact Hsg1
    isplitr
    · ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    · ipureintro
      intro hin
      refine rowsOK_of L d T1 I4 _ (r1 k) (fun h n hn col => ?_)
      refine rows_ok4 I4 ((ibV).view.read (Elt F) IB) (tw L) (tw_lt L) hIBv (r1 k) _ ?hlist _ hin d T1 hIB _ h n hn col
      case hlist =>
        intro y
        show _ = listW _ (128 * (2 * k.val + 1)) y
        refine View.read_writes_apply_of_pieces _ _ _ _ ?hp y (cover100 _ _ _ _ _ _ _ _ _ rfl y)
        case hp =>
          refine List.forall_mem_cons.mpr ⟨fun x => piece_val L d _ _ _ _ (k0_off2_inb k 7) (by decide) (by decide) (by show k0_off2 k 64#32 34#32 0 = _; have := off2_64_34 k; omega) (by omega) _ _ x, ?_⟩
          refine List.forall_mem_cons.mpr ⟨fun x => piece_val L d _ _ _ _ (k0_off2_inb k 6) (by decide) (by decide) (by show k0_off2 k 64#32 32#32 0 = _; have := off2_64_32 k; omega) (by omega) _ _ x, ?_⟩
          refine List.forall_mem_cons.mpr ⟨fun x => piece_val L d _ _ _ _ (k0_off2_inb k 5) (by decide) (by decide) (by show k0_off2 k 64#32 16#32 0 = _; have := off2_64_16 k; omega) (by omega) _ _ x, ?_⟩
          refine List.forall_mem_cons.mpr ⟨fun x => piece_val L d _ _ _ _ (k0_off2_inb k 4) (by decide) (by decide) (by show k0_off2 k 64#32 0#32 0 = _; have := off2_64_0 k; omega) (by omega) _ _ x, ?_⟩
          refine List.forall_mem_cons.mpr ⟨fun x => piece_val L d _ _ _ _ (k0_off2_inb k 3) (by decide) (by decide) (by show k0_off2 k 0#32 34#32 0 = _; have := off2_0_34 k; omega) (by omega) _ _ x, ?_⟩
          refine List.forall_mem_cons.mpr ⟨fun x => piece_val L d _ _ _ _ (k0_off2_inb k 2) (by decide) (by decide) (by show k0_off2 k 0#32 32#32 0 = _; have := off2_0_32 k; omega) (by omega) _ _ x, ?_⟩
          refine List.forall_mem_cons.mpr ⟨fun x => piece_val L d _ _ _ _ (k0_off2_inb k 1) (by decide) (by decide) (by show k0_off2 k 0#32 16#32 0 = _; have := off2_0_16 k; omega) (by omega) _ _ x, ?_⟩
          refine List.forall_mem_cons.mpr ⟨fun x => piece_val L d _ _ _ _ (k0_off2_inb k 0) (by decide) (by decide) (by show k0_off2 k 0#32 0#32 0 = _; have := off2_0_0 k; omega) (by omega) _ _ x, ?_⟩
          exact fun _ h => absurd h List.not_mem_nil
  iintro Hfl1
  sl_exec
  -- the first buffer set's gather has landed
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GDv_eq L d T1 I4 rw0V rm0V q.left (r0 k.val))) $$ HD0
  icases HD0' with ⟨⟨%frw0, Hrw0, %hR0⟩, HxL, ⟨%frm0, Hrm0⟩⟩
  rcases Nat.eq_zero_or_pos k.val with hk | hk
  · have k0_h1 : ¬ k0_cond1 k = 1#1 := fun h => (hcond1 k).mp h hk
    have k0_h2 : ¬ k0_cond2 k = 1#1 := fun h => (hcond2 k).mp h hk
    ihave HOB0' := (Entails.of_eq ((congrArg (fun n => (OBv L d (pvOf T1 I4) ob0V cc0_scratch9.sem (oSet0 L) (oS0 L) n : sProp 𝕄)) hk).trans (OBv_zero L d (pvOf T1 I4) ob0V cc0_scratch9.sem (oSet0 L) (oS0 L)))) $$ HOB0
    icases HOB0' with ⟨HOD0, Hso0⟩
    ihave HOB1' := (Entails.of_eq ((congrArg (fun n => (OBv L d (pvOf T1 I4) ob1V cc0_scratch10.sem (oSet1 L) (oS1 L) n : sProp 𝕄)) hk).trans (OBv_zero L d (pvOf T1 I4) ob1V cc0_scratch10.sem (oSet1 L) (oS1 L)))) $$ HOB1
    icases HOB1' with ⟨HOD1, Hso1⟩
    sl_exec
    ihave HOD0' := (Entails.of_eq (ODv_eq L d (pvOf T1 I4) ob0V (oSet0 L) (oS0 L) 0)) $$ HOD0
    icases HOD0' with ⟨⟨%fo0, Ho0, %hOut0z⟩, ⟨%fob0, Hob0⟩⟩
    have hOut0 : OutOK d (pvOf T1 I4) (oS0 L) fo0 k.val := hk ▸ hOut0z
    sl_for (fun n a => iprop(((rw0V).view.loc 𝕥 ↦[(rw0V).view.set]{fullShare} frw0) ∗ ⌜a = accsT2 rw0V frw0 n⌝)) $$ [Hrw0]
    case region =>
      intro j a; iintro ⟨H, %ha⟩; sl_exec; sl_step; isplitl [H]; · iexact H
      ipureintro; subst ha; rw [accsT2_succ]; rfl
    · isplitl [Hrw0]; · iexact Hrw0
      ipureintro; rfl
    iintro %a2 ⟨Hrw0, %ha2⟩
    rw [show Scf.trips k0_t2_loop.lb k0_t2_loop.ub k0_t2_loop.st = 10 by decide] at ha2
    sl_exec
    sl_for (fun n a => iprop(((rw0V).view.loc 𝕥 ↦[(rw0V).view.set]{fullShare} frw0) ∗ ⌜a = accsT3 rw0V frw0 n⌝)) $$ [Hrw0]
    case region =>
      intro j a; iintro ⟨H, %ha⟩; sl_exec; sl_step; isplitl [H]; · iexact H
      ipureintro; subst ha; rw [accsT3_succ]; rfl
    · isplitl [Hrw0]; · iexact Hrw0
      ipureintro; rfl
    iintro %a3 ⟨Hrw0, %ha3⟩
    rw [show Scf.trips k0_t3_loop.lb k0_t3_loop.ub k0_t3_loop.st = 10 by decide] at ha3
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := ODv L d (pvOf T1 I4) ob0V (oSet0 L) (oS0 L) (k.val + 1)) (by
      rw [ODv_eq]; iintro ⟨Hd, Hs⟩
      isplitl [Hd]
      · iexists _; isplitl [Hd]; · iexact Hd
        ipureintro
        refine out_step0 L d T1 I4 k fo0 _ hOut0 (fun r col => ?_)
        obtain ⟨hb, hG0, hG1⟩ := hR0
        refine (congrFun (ob_read_list (ob0V).view fob0 a2 a3) (ix2 r col)).trans ?_
        subst ha2 ha3
        have hbase : rbase L (r0 k.val) = 1024 * wOf L + 4 * k.val := by
          show 1024 * (2 * (L 1).val + (L 0).val) + 2 * min (2 * k.val) 511 = 1024 * (2 * (L 1).val + (L 0).val) + 4 * k.val
          omega
        exact (obG_rowsAt_A rw0V frw0 T1 I4 (rbase L (r0 k.val)) hb hG0 hG1 r col).trans
          (congrArg (fun t => rowSum T1 I4 t col) (Fin.ext (by show rbase L (r0 k.val) + r.val = 1024 * wOf L + 4 * k.val + r.val; omega)))
      iexists _; iexact Hs)) $$ HF0n
    sl_exec
    iapply (gather_issue_v L d T1 I4 rfl q.left (r0 (k.val + 1)) (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      isplitr
      · ipureintro
        refine list_inb L d _ _ ?hp ?hc
        case hp =>
          repeat (first
            | exact fun _ h => absurd h List.not_mem_nil
            | refine List.forall_mem_cons.mpr ⟨fun x => remap_allLt _ (fun i => Nat.lt_succ_of_le (hIB _)) _ _ x, ?_⟩)
        case hc => exact cover100 _ _ _ _ _ _ _ _ _ rfl
      · ipureintro
        intro hin
        refine rowsOK_of L d T1 I4 _ (r0 (k.val + 1)) (fun h n hn col => ?_)
        refine rows_ok3 I4 ((ibV).view.read (Elt F) IB) (tw L) (tw_lt L) hIBv (r0 (k.val + 1)) _ ?hlist _ hin d T1 hIB _ h n hn col
        case hlist =>
          intro y
          show _ = listW _ (128 * min (2 * k.val + 2) 511) y
          refine View.read_writes_apply_of_pieces _ _ _ _ ?hp y (cover100 _ _ _ _ _ _ _ _ _ rfl y)
          case hp =>
            refine List.forall_mem_cons.mpr ⟨fun x => piece_val L d _ _ _ _ (k0_off21_inb k 7) (by decide) (by decide) (by show k0_off21 k 64#32 34#32 0 = _; have := off21_64_34 k; omega) (by omega) _ _ x, ?_⟩
            refine List.forall_mem_cons.mpr ⟨fun x => piece_val L d _ _ _ _ (k0_off21_inb k 6) (by decide) (by decide) (by show k0_off21 k 64#32 32#32 0 = _; have := off21_64_32 k; omega) (by omega) _ _ x, ?_⟩
            refine List.forall_mem_cons.mpr ⟨fun x => piece_val L d _ _ _ _ (k0_off21_inb k 5) (by decide) (by decide) (by show k0_off21 k 64#32 16#32 0 = _; have := off21_64_16 k; omega) (by omega) _ _ x, ?_⟩
            refine List.forall_mem_cons.mpr ⟨fun x => piece_val L d _ _ _ _ (k0_off21_inb k 4) (by decide) (by decide) (by show k0_off21 k 64#32 0#32 0 = _; have := off21_64_0 k; omega) (by omega) _ _ x, ?_⟩
            refine List.forall_mem_cons.mpr ⟨fun x => piece_val L d _ _ _ _ (k0_off21_inb k 3) (by decide) (by decide) (by show k0_off21 k 0#32 34#32 0 = _; have := off21_0_34 k; omega) (by omega) _ _ x, ?_⟩
            refine List.forall_mem_cons.mpr ⟨fun x => piece_val L d _ _ _ _ (k0_off21_inb k 2) (by decide) (by decide) (by show k0_off21 k 0#32 32#32 0 = _; have := off21_0_32 k; omega) (by omega) _ _ x, ?_⟩
            refine List.forall_mem_cons.mpr ⟨fun x => piece_val L d _ _ _ _ (k0_off21_inb k 1) (by decide) (by decide) (by show k0_off21 k 0#32 16#32 0 = _; have := off21_0_16 k; omega) (by omega) _ _ x, ?_⟩
            refine List.forall_mem_cons.mpr ⟨fun x => piece_val L d _ _ _ _ (k0_off21_inb k 0) (by decide) (by decide) (by show k0_off21 k 0#32 0#32 0 = _; have := off21_0_0 k; omega) (by omega) _ _ x, ?_⟩
            exact fun _ h => absurd h List.not_mem_nil
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GDv_eq L d T1 I4 rw1V rm1V q.right (r1 k))) $$ HD1
    icases HD1' with ⟨⟨%frw1n, Hrw1, %hR1⟩, HxR, ⟨%frm1n, Hrm1⟩⟩
    sl_exec
    ihave HOD1' := (Entails.of_eq (ODv_eq L d (pvOf T1 I4) ob1V (oSet1 L) (oS1 L) 0)) $$ HOD1
    icases HOD1' with ⟨⟨%fo1, Ho1, %hOut1z⟩, ⟨%fob1, Hob1⟩⟩
    have hOut1 : OutOK d (pvOf T1 I4) (oS1 L) fo1 k.val := hk ▸ hOut1z
    sl_for (fun n a => iprop(((rw1V).view.loc 𝕥 ↦[(rw1V).view.set]{fullShare} frw1n) ∗ ⌜a = accsT4 rw1V frw1n n⌝)) $$ [Hrw1]
    case region =>
      intro j a; iintro ⟨H, %ha⟩; sl_exec; sl_step; isplitl [H]; · iexact H
      ipureintro; subst ha; rw [accsT4_succ]; rfl
    · isplitl [Hrw1]; · iexact Hrw1
      ipureintro; rfl
    iintro %a4 ⟨Hrw1, %ha4⟩
    rw [show Scf.trips k0_t4_loop.lb k0_t4_loop.ub k0_t4_loop.st = 10 by decide] at ha4
    sl_exec
    sl_for (fun n a => iprop(((rw1V).view.loc 𝕥 ↦[(rw1V).view.set]{fullShare} frw1n) ∗ ⌜a = accsT5 rw1V frw1n n⌝)) $$ [Hrw1]
    case region =>
      intro j a; iintro ⟨H, %ha⟩; sl_exec; sl_step; isplitl [H]; · iexact H
      ipureintro; subst ha; rw [accsT5_succ]; rfl
    · isplitl [Hrw1]; · iexact Hrw1
      ipureintro; rfl
    iintro %a5 ⟨Hrw1, %ha5⟩
    rw [show Scf.trips k0_t5_loop.lb k0_t5_loop.ub k0_t5_loop.st = 10 by decide] at ha5
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := ODv L d (pvOf T1 I4) ob1V (oSet1 L) (oS1 L) (k.val + 1)) (by
      rw [ODv_eq]; iintro ⟨Hd, Hs⟩
      isplitl [Hd]
      · iexists _; isplitl [Hd]; · iexact Hd
        ipureintro
        refine out_step1 L d T1 I4 k fo1 _ hOut1 (fun r col => ?_)
        obtain ⟨hb, hG0, hG1⟩ := hR1
        refine (congrFun (ob_read_list (ob1V).view fob1 a4 a5) (ix2 r col)).trans ?_
        subst ha4 ha5
        have hbase : rbase L (r1 k) = 1024 * wOf L + 4 * k.val + 2 := by
          show 1024 * (2 * (L 1).val + (L 0).val) + 2 * (2 * k.val + 1) = 1024 * (2 * (L 1).val + (L 0).val) + 4 * k.val + 2
          omega
        exact (obG_rowsAt_B rw1V frw1n T1 I4 (rbase L (r1 k)) hb hG0 hG1 r col).trans
          (congrArg (fun t => rowSum T1 I4 t col) (Fin.ext (by show rbase L (r1 k) + r.val = 1024 * wOf L + 4 * k.val + 2 + r.val; omega)))
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OBv_pos L d (pvOf T1 I4) ob0V cc0_scratch9.sem (oSet0 L) (oS0 L) (Nat.succ_ne_zero k.val)).symm); iexact HF0n
    isplitl [HF1n]; · iapply (Entails.of_eq (OBv_pos L d (pvOf T1 I4) ob1V cc0_scratch10.sem (oSet1 L) (oS1 L) (Nat.succ_ne_zero k.val)).symm); iexact HF1n
    iexists _; isplitr
    · ipureintro; exact hW'
    · iexact HO
  · have hk0 : k.val ≠ 0 := Nat.pos_iff_ne_zero.mp hk
    have k0_h1 : k0_cond1 k = 1#1 := (hcond1 k).mpr hk0
    have k0_h2 : k0_cond2 k = 1#1 := (hcond2 k).mpr hk0
    ihave HF0 := (Entails.of_eq (OBv_pos L d (pvOf T1 I4) ob0V cc0_scratch9.sem (oSet0 L) (oS0 L) hk0)) $$ HOB0
    ihave HF1 := (Entails.of_eq (OBv_pos L d (pvOf T1 I4) ob1V cc0_scratch10.sem (oSet1 L) (oS1 L) hk0)) $$ HOB1
    sl_exec
    iapply (Transfers.wp_waitLocalO EC 𝒱₀ 𝕥 none (default : HIx 1) (credit_o0 _ _ _)) $$ [HF0 HO]
    · isplitl [HF0]; · iexact HF0
      isplitl [HO]; · iexact HO
      iapply (Transfers.MayWaits.elim (SemLoc.dma cc0_scratch9.sem)) $$ Hmw
    iintro ⟨HOD0, Hso0, HO⟩
    have hW' := owes_ins (W := W) (SemLoc.dma cc0_scratch9.sem) hW'
    sl_exec
    ihave HOD0' := (Entails.of_eq (ODv_eq L d (pvOf T1 I4) ob0V (oSet0 L) (oS0 L) k.val)) $$ HOD0
    icases HOD0' with ⟨⟨%fo0, Ho0, %hOut0⟩, ⟨%fob0, Hob0⟩⟩
    sl_for (fun n a => iprop(((rw0V).view.loc 𝕥 ↦[(rw0V).view.set]{fullShare} frw0) ∗ ⌜a = accsT2 rw0V frw0 n⌝)) $$ [Hrw0]
    case region =>
      intro j a; iintro ⟨H, %ha⟩; sl_exec; sl_step; isplitl [H]; · iexact H
      ipureintro; subst ha; rw [accsT2_succ]; rfl
    · isplitl [Hrw0]; · iexact Hrw0
      ipureintro; rfl
    iintro %a2 ⟨Hrw0, %ha2⟩
    rw [show Scf.trips k0_t2_loop.lb k0_t2_loop.ub k0_t2_loop.st = 10 by decide] at ha2
    sl_exec
    sl_for (fun n a => iprop(((rw0V).view.loc 𝕥 ↦[(rw0V).view.set]{fullShare} frw0) ∗ ⌜a = accsT3 rw0V frw0 n⌝)) $$ [Hrw0]
    case region =>
      intro j a; iintro ⟨H, %ha⟩; sl_exec; sl_step; isplitl [H]; · iexact H
      ipureintro; subst ha; rw [accsT3_succ]; rfl
    · isplitl [Hrw0]; · iexact Hrw0
      ipureintro; rfl
    iintro %a3 ⟨Hrw0, %ha3⟩
    rw [show Scf.trips k0_t3_loop.lb k0_t3_loop.ub k0_t3_loop.st = 10 by decide] at ha3
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := ODv L d (pvOf T1 I4) ob0V (oSet0 L) (oS0 L) (k.val + 1)) (by
      rw [ODv_eq]; iintro ⟨Hd, Hs⟩
      isplitl [Hd]
      · iexists _; isplitl [Hd]; · iexact Hd
        ipureintro
        refine out_step0 L d T1 I4 k fo0 _ hOut0 (fun r col => ?_)
        obtain ⟨hb, hG0, hG1⟩ := hR0
        refine (congrFun (ob_read_list (ob0V).view fob0 a2 a3) (ix2 r col)).trans ?_
        subst ha2 ha3
        have hbase : rbase L (r0 k.val) = 1024 * wOf L + 4 * k.val := by
          show 1024 * (2 * (L 1).val + (L 0).val) + 2 * min (2 * k.val) 511 = 1024 * (2 * (L 1).val + (L 0).val) + 4 * k.val
          omega
        exact (obG_rowsAt_A rw0V frw0 T1 I4 (rbase L (r0 k.val)) hb hG0 hG1 r col).trans
          (congrArg (fun t => rowSum T1 I4 t col) (Fin.ext (by show rbase L (r0 k.val) + r.val = 1024 * wOf L + 4 * k.val + r.val; omega)))
      iexists _; iexact Hs)) $$ HF0n
    sl_exec
    iapply (gather_issue_v L d T1 I4 rfl q.left (r0 (k.val + 1)) (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      isplitr
      · ipureintro
        refine list_inb L d _ _ ?hp ?hc
        case hp =>
          repeat (first
            | exact fun _ h => absurd h List.not_mem_nil
            | refine List.forall_mem_cons.mpr ⟨fun x => remap_allLt _ (fun i => Nat.lt_succ_of_le (hIB _)) _ _ x, ?_⟩)
        case hc => exact cover100 _ _ _ _ _ _ _ _ _ rfl
      · ipureintro
        intro hin
        refine rowsOK_of L d T1 I4 _ (r0 (k.val + 1)) (fun h n hn col => ?_)
        refine rows_ok3 I4 ((ibV).view.read (Elt F) IB) (tw L) (tw_lt L) hIBv (r0 (k.val + 1)) _ ?hlist _ hin d T1 hIB _ h n hn col
        case hlist =>
          intro y
          show _ = listW _ (128 * min (2 * k.val + 2) 511) y
          refine View.read_writes_apply_of_pieces _ _ _ _ ?hp y (cover100 _ _ _ _ _ _ _ _ _ rfl y)
          case hp =>
            refine List.forall_mem_cons.mpr ⟨fun x => piece_val L d _ _ _ _ (k0_off21_inb k 7) (by decide) (by decide) (by show k0_off21 k 64#32 34#32 0 = _; have := off21_64_34 k; omega) (by omega) _ _ x, ?_⟩
            refine List.forall_mem_cons.mpr ⟨fun x => piece_val L d _ _ _ _ (k0_off21_inb k 6) (by decide) (by decide) (by show k0_off21 k 64#32 32#32 0 = _; have := off21_64_32 k; omega) (by omega) _ _ x, ?_⟩
            refine List.forall_mem_cons.mpr ⟨fun x => piece_val L d _ _ _ _ (k0_off21_inb k 5) (by decide) (by decide) (by show k0_off21 k 64#32 16#32 0 = _; have := off21_64_16 k; omega) (by omega) _ _ x, ?_⟩
            refine List.forall_mem_cons.mpr ⟨fun x => piece_val L d _ _ _ _ (k0_off21_inb k 4) (by decide) (by decide) (by show k0_off21 k 64#32 0#32 0 = _; have := off21_64_0 k; omega) (by omega) _ _ x, ?_⟩
            refine List.forall_mem_cons.mpr ⟨fun x => piece_val L d _ _ _ _ (k0_off21_inb k 3) (by decide) (by decide) (by show k0_off21 k 0#32 34#32 0 = _; have := off21_0_34 k; omega) (by omega) _ _ x, ?_⟩
            refine List.forall_mem_cons.mpr ⟨fun x => piece_val L d _ _ _ _ (k0_off21_inb k 2) (by decide) (by decide) (by show k0_off21 k 0#32 32#32 0 = _; have := off21_0_32 k; omega) (by omega) _ _ x, ?_⟩
            refine List.forall_mem_cons.mpr ⟨fun x => piece_val L d _ _ _ _ (k0_off21_inb k 1) (by decide) (by decide) (by show k0_off21 k 0#32 16#32 0 = _; have := off21_0_16 k; omega) (by omega) _ _ x, ?_⟩
            refine List.forall_mem_cons.mpr ⟨fun x => piece_val L d _ _ _ _ (k0_off21_inb k 0) (by decide) (by decide) (by show k0_off21 k 0#32 0#32 0 = _; have := off21_0_0 k; omega) (by omega) _ _ x, ?_⟩
            exact fun _ h => absurd h List.not_mem_nil
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GDv_eq L d T1 I4 rw1V rm1V q.right (r1 k))) $$ HD1
    icases HD1' with ⟨⟨%frw1n, Hrw1, %hR1⟩, HxR, ⟨%frm1n, Hrm1⟩⟩
    sl_exec
    iapply (Transfers.wp_waitLocalO EC 𝒱₀ 𝕥 none (default : HIx 1) (credit_o1 _ _ _)) $$ [HF1 HO]
    · isplitl [HF1]; · iexact HF1
      isplitl [HO]; · iexact HO
      iapply (Transfers.MayWaits.elim (SemLoc.dma cc0_scratch10.sem)) $$ Hmw
    iintro ⟨HOD1, Hso1, HO⟩
    have hW' := owes_ins (W := W) (SemLoc.dma cc0_scratch10.sem) hW'
    sl_exec
    ihave HOD1' := (Entails.of_eq (ODv_eq L d (pvOf T1 I4) ob1V (oSet1 L) (oS1 L) k.val)) $$ HOD1
    icases HOD1' with ⟨⟨%fo1, Ho1, %hOut1⟩, ⟨%fob1, Hob1⟩⟩
    sl_for (fun n a => iprop(((rw1V).view.loc 𝕥 ↦[(rw1V).view.set]{fullShare} frw1n) ∗ ⌜a = accsT4 rw1V frw1n n⌝)) $$ [Hrw1]
    case region =>
      intro j a; iintro ⟨H, %ha⟩; sl_exec; sl_step; isplitl [H]; · iexact H
      ipureintro; subst ha; rw [accsT4_succ]; rfl
    · isplitl [Hrw1]; · iexact Hrw1
      ipureintro; rfl
    iintro %a4 ⟨Hrw1, %ha4⟩
    rw [show Scf.trips k0_t4_loop.lb k0_t4_loop.ub k0_t4_loop.st = 10 by decide] at ha4
    sl_exec
    sl_for (fun n a => iprop(((rw1V).view.loc 𝕥 ↦[(rw1V).view.set]{fullShare} frw1n) ∗ ⌜a = accsT5 rw1V frw1n n⌝)) $$ [Hrw1]
    case region =>
      intro j a; iintro ⟨H, %ha⟩; sl_exec; sl_step; isplitl [H]; · iexact H
      ipureintro; subst ha; rw [accsT5_succ]; rfl
    · isplitl [Hrw1]; · iexact Hrw1
      ipureintro; rfl
    iintro %a5 ⟨Hrw1, %ha5⟩
    rw [show Scf.trips k0_t5_loop.lb k0_t5_loop.ub k0_t5_loop.st = 10 by decide] at ha5
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := ODv L d (pvOf T1 I4) ob1V (oSet1 L) (oS1 L) (k.val + 1)) (by
      rw [ODv_eq]; iintro ⟨Hd, Hs⟩
      isplitl [Hd]
      · iexists _; isplitl [Hd]; · iexact Hd
        ipureintro
        refine out_step1 L d T1 I4 k fo1 _ hOut1 (fun r col => ?_)
        obtain ⟨hb, hG0, hG1⟩ := hR1
        refine (congrFun (ob_read_list (ob1V).view fob1 a4 a5) (ix2 r col)).trans ?_
        subst ha4 ha5
        have hbase : rbase L (r1 k) = 1024 * wOf L + 4 * k.val + 2 := by
          show 1024 * (2 * (L 1).val + (L 0).val) + 2 * (2 * k.val + 1) = 1024 * (2 * (L 1).val + (L 0).val) + 4 * k.val + 2
          omega
        exact (obG_rowsAt_B rw1V frw1n T1 I4 (rbase L (r1 k)) hb hG0 hG1 r col).trans
          (congrArg (fun t => rowSum T1 I4 t col) (Fin.ext (by show rbase L (r1 k) + r.val = 1024 * wOf L + 4 * k.val + 2 + r.val; omega)))
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OBv_pos L d (pvOf T1 I4) ob0V cc0_scratch9.sem (oSet0 L) (oS0 L) (Nat.succ_ne_zero k.val)).symm); iexact HF0n
    isplitl [HF1n]; · iapply (Entails.of_eq (OBv_pos L d (pvOf T1 I4) ob1V cc0_scratch10.sem (oSet1 L) (oS1 L) (Nat.succ_ne_zero k.val)).symm); iexact HF1n
    iexists _; isplitr
    · ipureintro; exact hW'
    · iexact HO

set_option maxRecDepth 100000 in
set_option maxHeartbeats 4000000 in
/-- The task on vector subcore `(L 0, L 1)` of device `d`, with the values. -/
theorem tile_body_value (hF : (K (F := F)).Facts) : TileBodyValue (F := F) L d (fun I4 T1 => pvOf T1 I4) := by
  intro w I4 T1 O5 hpre O W hO
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  unfold goT tdTV
  iintro ⟨#Hlv, -, ⟨Hi, Hx, Ho0, Ho1⟩, ⟨⟨%fib, Hib⟩, ⟨%frm0, Hrm0⟩, ⟨%frm1, Hrm1⟩, ⟨%frw0, Hrw0⟩, ⟨%frw1, Hrw1⟩, ⟨%fob0, Hob0⟩, ⟨%fob1, Hob1⟩, Hbufs⟩, ⟨Hsg0, Hsg1, Hso0, Hso1, Hsr, Hsems⟩, HO⟩
  ihave Hmw := (show levAts (K (F := F)).L (K (F := F)).lev ⊢ Transfers.MayWaits 𝕥 (default : HIx 1) O from
    (K (F := F)).mayWaits_none (thr := 𝕥) hO) $$ Hlv
  ihave Hi' := (Entails.of_eq (show ((iLoc d ↦[iSetK L]{fullShare} I4 : sProp 𝕄)) = ((iSl L).view.loc 𝕥 ↦[(iSl L).view.set]{fullShare} I4) from rfl)) $$ Hi
  ihave Hib' := (Entails.of_eq (show (((𝕥).loc cc0_scratch0 ↦{fullShare} fib : sProp 𝕄)) = ((ibV).view.loc 𝕥 ↦{fullShare} fib) from rfl)) $$ Hib
  ihave Hrm0' := (Entails.of_eq (show (((𝕥).loc cc0_scratch1 ↦{fullShare} frm0 : sProp 𝕄)) = ((rm0V).view.loc 𝕥 ↦{fullShare} frm0) from rfl)) $$ Hrm0
  sl_exec
  have hIB := ib_of_pre L d I4 hpre fib (tile_body_value.sl.dma0 L d I4) rfl
  have hIBv := ibv_of_pre L d I4 fib (tile_body_value.sl.dma0 L d I4) rfl
  -- the share of the table in two halves, one per gather in flight
  ihave Hx2 := (pointsTo_share (PosShare.mem_left_op_right (tq w))).1 $$ Hx
  icases Hx2 with ⟨HxL, HxR⟩
  ihave HxL' := (pointsTo_split_subset (q := (tq w).left) (f := T1) (S := Finset.univ) (Finset.subset_univ (xAll).view.set)).1 $$ HxL
  icases HxL' with ⟨HxL, HxLr⟩
  ihave HxR' := (pointsTo_split_subset (q := (tq w).right) (f := T1) (S := Finset.univ) (Finset.subset_univ (xAll).view.set)).1 $$ HxR
  icases HxR' with ⟨HxR, HxRr⟩
  have hrs0 : (rw0V).view.set = Finset.univ := View.set_whole _
  have hms0 : (rm0V).view.set = Finset.univ := View.set_whole _
  have hrs1 : (rw1V).view.set = Finset.univ := View.set_whole _
  have hms1 : (rm1V).view.set = Finset.univ := View.set_whole _
  have hos0 : (ob0V).view.set = Finset.univ := View.set_whole _
  have hos1 : (ob1V).view.set = Finset.univ := View.set_whole _
  ihave Hrw0' := (Entails.of_eq (show (((𝕥).loc cc0_scratch3 ↦{fullShare} frw0 : sProp 𝕄))
      = (rw0V).view.loc 𝕥 ↦[(rw0V).view.set]{fullShare} frw0 by rw [hrs0])) $$ Hrw0
  ihave Hrm0'' := (Entails.of_eq (show (((rm0V).view.loc 𝕥 ↦{fullShare} _ : sProp 𝕄))
      = (rm0V).view.loc 𝕥 ↦[(rm0V).view.set]{fullShare} _ by rw [hms0])) $$ Hrm0'
  iapply (gather_issue_v L d T1 I4 rfl (tq w).left (r0 0) (fun _ => rfl)) $$ [HxL Hrw0' Hrm0'' Hsg0]
  · isplitl [HxL]; · iexact HxL
    isplitl [Hrw0']; · iexact Hrw0'
    isplitl [Hrm0'']; · iexact Hrm0''
    isplitl [Hsg0]; · iexact Hsg0
    isplitr
    · ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    · ipureintro
      intro hin
      refine rowsOK_of L d T1 I4 _ (r0 0) (fun h n hn col => ?_)
      refine rows_ok3 I4 ((ibV).view.read (Elt F) (View.write (Elt F) (ibV).view fib (tile_body_value.sl.dma0 L d I4) Finset.univ)) (tw L) (tw_lt L) hIBv (r0 0) _ ?hlist _ hin d T1 hIB _ h n hn col
      case hlist =>
        intro y
        show _ = listW _ 0 y
        refine View.read_writes_apply_of_pieces _ _ _ _ ?hp y (cover100 _ _ _ _ _ _ _ _ _ rfl y)
        case hp =>
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          exact fun _ h => absurd h List.not_mem_nil
  iintro Hfl0
  sl_for (invV L d T1 I4 (pvOf T1 I4) (View.write (Elt F) (ibV).view fib (tile_body_value.sl.dma0 L d I4) Finset.univ) (tq w) O W) $$ [Hib' Hfl0 HxR Hrm1 Hrw1 Hsg1 Hob0 Ho0 Hso0 Hob1 Ho1 Hso1 HO]
  case region => intro k acc; exact trip_v L d T1 I4 _ hIB hIBv (tq w) O W _ k acc
  · unfold invV
    isplitl []; · iexact Hmw
    isplitl [Hib']; · iexact Hib'
    isplitl [Hfl0]; · iexact Hfl0
    isplitl [HxR]; · iexact HxR
    isplitl [Hrm1]; · iexists _; iexact Hrm1
    isplitl [Hrw1]; · iexists _; iexact Hrw1
    isplitl [Hsg1]; · iexact Hsg1
    isplitl [Hob0 Ho0 Hso0]
    · iapply (Entails.of_eq (OBv_zero L d (pvOf T1 I4) ob0V cc0_scratch9.sem (oSet0 L) (oS0 L)).symm)
      isplitr [Hso0]
      · iapply (Entails.of_eq (ODv_eq L d (pvOf T1 I4) ob0V (oSet0 L) (oS0 L) 0).symm)
        isplitl [Ho0]
        · iexists _; isplitl [Ho0]; · iexact Ho0
          ipureintro; exact fun k' h => absurd h (Nat.not_lt_zero _)
        iexists fob0
        iapply (Entails.of_eq (show (((𝕥).loc cc0_scratch5 ↦{fullShare} fob0 : sProp 𝕄)) = ((ob0V).view.loc 𝕥 ↦[(ob0V).view.set]{fullShare} fob0) by rw [hos0])); iexact Hob0
      · iexact Hso0
    isplitl [Hob1 Ho1 Hso1]
    · iapply (Entails.of_eq (OBv_zero L d (pvOf T1 I4) ob1V cc0_scratch10.sem (oSet1 L) (oS1 L)).symm)
      isplitr [Hso1]
      · iapply (Entails.of_eq (ODv_eq L d (pvOf T1 I4) ob1V (oSet1 L) (oS1 L) 0).symm)
        isplitl [Ho1]
        · iexists _; isplitl [Ho1]; · iexact Ho1
          ipureintro; exact fun k' h => absurd h (Nat.not_lt_zero _)
        iexists fob1
        iapply (Entails.of_eq (show (((𝕥).loc cc0_scratch6 ↦{fullShare} fob1 : sProp 𝕄)) = ((ob1V).view.loc 𝕥 ↦[(ob1V).view.set]{fullShare} fob1) by rw [hos1])); iexact Hob1
      · iexact Hso1
    iexists _; isplitr
    swap; · iexact HO
    ipureintro; exact owes_ins (W := W) _ (fun p hp => .inl hp)
  iintro %acc HI
  unfold invV
  icases HI with ⟨-, Hib, Hfl0, HxR, ⟨%frm1', Hrm1⟩, ⟨%frw1', Hrw1⟩, Hsg1, HOB0, HOB1, %W', %hW', HO⟩
  have htr : Scf.trips k0_t1_loop.lb k0_t1_loop.ub k0_t1_loop.st ≠ 0 := by decide
  have htr256 : Scf.trips k0_t1_loop.lb k0_t1_loop.ub k0_t1_loop.st = 256 := by decide
  ihave HF0 := (Entails.of_eq (OBv_pos L d (pvOf T1 I4) ob0V cc0_scratch9.sem (oSet0 L) (oS0 L) htr)) $$ HOB0
  ihave HF1 := (Entails.of_eq (OBv_pos L d (pvOf T1 I4) ob1V cc0_scratch10.sem (oSet1 L) (oS1 L) htr)) $$ HOB1
  sl_exec
  -- the redundant last gather
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GDv_eq L d T1 I4 rw0V rm0V (tq w).left _)) $$ HD0
  icases HD0' with ⟨⟨%frw0', Hrw0, -⟩, HxL, ⟨%frm0', Hrm0⟩⟩
  sl_exec
  -- the last two copies out
  iapply (Transfers.wp_waitLocalO EC 𝒱₀ 𝕥 none (default : HIx 1) (credit_o0 _ _ _)) $$ [HF0 HO]
  · isplitl [HF0]; · iexact HF0
    isplitl [HO]; · iexact HO
    iapply (Transfers.MayWaits.elim (SemLoc.dma cc0_scratch9.sem)) $$ Hmw
  iintro ⟨HOD0, Hso0, HO⟩
  have hW' := owes_ins (W := W) (SemLoc.dma cc0_scratch9.sem) hW'
  ihave HOD0' := (Entails.of_eq (ODv_eq L d (pvOf T1 I4) ob0V (oSet0 L) (oS0 L) _)) $$ HOD0
  icases HOD0' with ⟨⟨%fo0, Ho0, %hOut0⟩, ⟨%fob0', Hob0⟩⟩
  sl_exec
  iapply (Transfers.wp_waitLocalO EC 𝒱₀ 𝕥 none (default : HIx 1) (credit_o1 _ _ _)) $$ [HF1 HO]
  · isplitl [HF1]; · iexact HF1
    isplitl [HO]; · iexact HO
    iapply (Transfers.MayWaits.elim (SemLoc.dma cc0_scratch10.sem)) $$ Hmw
  iintro ⟨HOD1, Hso1, HO⟩
  have hW' := owes_ins (W := W) (SemLoc.dma cc0_scratch10.sem) hW'
  ihave HOD1' := (Entails.of_eq (ODv_eq L d (pvOf T1 I4) ob1V (oSet1 L) (oS1 L) _)) $$ HOD1
  icases HOD1' with ⟨⟨%fo1, Ho1, %hOut1⟩, ⟨%fob1', Hob1⟩⟩
  sl_exec
  sl_step
  -- what the task hands back
  isplitl [Hi' HxL HxLr HxR HxRr Ho0 Ho1]
  · isplitl [Hi']; · iexact Hi'
    isplitl [HxL HxLr HxR HxRr]
    · iapply (pointsTo_share (PosShare.mem_left_op_right (tq w))).2
      isplitl [HxL HxLr]
      · iapply (pointsTo_split_subset (q := (tq w).left) (f := T1) (S := Finset.univ) (Finset.subset_univ (xAll).view.set)).2
        isplitl [HxL] <;> iassumption
      · iapply (pointsTo_split_subset (q := (tq w).right) (f := T1) (S := Finset.univ) (Finset.subset_univ (xAll).view.set)).2
        isplitl [HxR] <;> iassumption
    isplitl [Ho0]
    · iexists _; isplitl [Ho0]; · iexact Ho0
      ipureintro; exact join0 L d T1 I4 fo0 (fun k' hk' => hOut0 k' (htr256 ▸ hk'))
    iexists _; isplitl [Ho1]; · iexact Ho1
    ipureintro; exact join1 L d T1 I4 fo1 (fun k' hk' => hOut1 k' (htr256 ▸ hk'))
  isplitl [Hib Hrm0 Hrm1 Hrw0 Hrw1 Hob0 Hob1 Hbufs]
  · isplitl [Hib]; · iexists _; iexact Hib
    isplitl [Hrm0]
    · iexists frm0'; iapply (Entails.of_eq (show (((rm0V).view.loc 𝕥 ↦[(rm0V).view.set]{fullShare} frm0' : sProp 𝕄)) = ((𝕥).loc cc0_scratch1 ↦{fullShare} frm0') by rw [hms0])); iexact Hrm0
    isplitl [Hrm1]; · iexists _; iexact Hrm1
    isplitl [Hrw0]
    · iexists frw0'; iapply (Entails.of_eq (show (((rw0V).view.loc 𝕥 ↦[(rw0V).view.set]{fullShare} frw0' : sProp 𝕄)) = ((𝕥).loc cc0_scratch3 ↦{fullShare} frw0') by rw [hrs0])); iexact Hrw0
    isplitl [Hrw1]; · iexists _; iexact Hrw1
    isplitl [Hob0]
    · iexists fob0'; iapply (Entails.of_eq (show (((ob0V).view.loc 𝕥 ↦[(ob0V).view.set]{fullShare} fob0' : sProp 𝕄)) = ((𝕥).loc cc0_scratch5 ↦{fullShare} fob0') by rw [hos0])); iexact Hob0
    isplitl [Hob1]
    · iexists fob1'; iapply (Entails.of_eq (show (((ob1V).view.loc 𝕥 ↦[(ob1V).view.set]{fullShare} fob1' : sProp 𝕄)) = ((𝕥).loc cc0_scratch6 ↦{fullShare} fob1') by rw [hos1])); iexact Hob1
    iexact Hbufs
  isplitl [Hsg0 Hsg1 Hso0 Hso1 Hsr Hsems]
  · isplitl [Hsg0]; · iexact Hsg0
    isplitl [Hsg1]; · iexact Hsg1
    isplitl [Hso0]; · iexact Hso0
    isplitl [Hso1]; · iexact Hso1
    isplitl [Hsr]; · iexact Hsr
    iexact Hsems
  iexists _; isplitr
  · ipureintro; exact hW'
  · iexact HO

end Tile

end Cert.KernelIdeal.Run.Tile

end
-- ==== Proof.BScBody.lean ====
/-
  One vector subcore's task of the pooling kernel, at a symbolic place and for any float instance.  The task copies its
  65536 index words into its index scratch, then runs 512 rounds of two rows each over two sets of buffers: the indices
  of a round are remapped (0 becomes 100000, the first zero row appended to the table) into a list, the list's 100 table
  rows are gathered into a row scratch, rows 0..49 and 50..99 are summed lane-wise into a 2x128 staging buffer, and that
  is copied out to the round's two result rows.  Two gathers and two copies out are in flight at a time, each on a
  semaphore of its own, and no buffer is touched while its copy is pending.
-/
import proofs.«209176_g73847667688168_cont_9to1_m_420_10_alg».proof.Proof.BScDefs
import proofs.«209176_g73847667688168_cont_9to1_m_420_10_alg».proof.Proof.Gen.Kernel.Skeleton
import proofs.«209176_g73847667688168_cont_9to1_m_420_10_alg».proof.Proof.ScLib

noncomputable section

namespace Cert.Kernel.Run.Tile

open Cert.Kernel Cert.Kernel.Gen Cert.Kernel.Run
open Cert.Lib

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S2097152 EltTy.i32)
local notation "xV" => (Memref.whole Cert.Kernel.main_v1_scv : Memref Cert.Kernel.sig Kind.scVector Space.hbm Cert.Kernel.S100008x128 EltTy.f32)
local notation "oV" => (Memref.whole Cert.Kernel.main_v5_scv : Memref Cert.Kernel.sig Kind.scVector Space.hbm Cert.Kernel.S32768x128 EltTy.f32)
local notation "ibV" => (Memref.whole Cert.Kernel.cc0_scratch0 : Memref Cert.Kernel.sig Kind.scVector Space.vmem Cert.Kernel.S65536 EltTy.i32)
local notation "rm0V" => (Memref.whole Cert.Kernel.cc0_scratch1 : Memref Cert.Kernel.sig Kind.scVector Space.vmem Cert.Kernel.S100 EltTy.i32)
local notation "rm1V" => (Memref.whole Cert.Kernel.cc0_scratch2 : Memref Cert.Kernel.sig Kind.scVector Space.vmem Cert.Kernel.S100 EltTy.i32)
local notation "rw0V" => (Memref.whole Cert.Kernel.cc0_scratch3 : Memref Cert.Kernel.sig Kind.scVector Space.vmem Cert.Kernel.S100x128 EltTy.f32)
local notation "rw1V" => (Memref.whole Cert.Kernel.cc0_scratch4 : Memref Cert.Kernel.sig Kind.scVector Space.vmem Cert.Kernel.S100x128 EltTy.f32)
local notation "ob0V" => (Memref.whole Cert.Kernel.cc0_scratch5 : Memref Cert.Kernel.sig Kind.scVector Space.vmem Cert.Kernel.S2x128 EltTy.f32)
local notation "ob1V" => (Memref.whole Cert.Kernel.cc0_scratch6 : Memref Cert.Kernel.sig Kind.scVector Space.vmem Cert.Kernel.S2x128 EltTy.f32)

section Tile

variable (L : grid0.Coords)

variable [FloatOps F] (d : Dev nD)

local notation "𝕥" => V d (cV L) (jV L)
local notation "EC" => (countersEmb : UEmb Counters (MT nD τ sig (HIx 1) (Elt F) ℕ UU ℕ))

abbrev cell (d : Dev nD) (L : grid0.Coords) (sm : DmaSem sig) : GSem nD τ sig := (V d (cV L) (jV L), .dma sm)

omit [FloatOps F] in
theorem cell_ne {L : grid0.Coords} {a b : DmaSem sig} (h : (SemLoc.dma a : SemLoc sig) ≠ SemLoc.dma b) : cell d L a ≠ cell d L b :=
  fun e => h (Prod.mk.inj e).2

omit [FloatOps F] in
theorem cell_mem (sm : DmaSem sig) (h : (SemLoc.dma sm : SemLoc sig).isScoped .scVector = true) : cell d L sm ∈ ownCells (V d (cV L) (jV L)) :=
  (mem_ownCells (g := cell d L sm)).mpr ⟨rfl, h⟩

omit [FloatOps F] in
/-- The task's five DMA semaphores are among the subcore's own cells. -/
theorem ownSems0_V :
    (ownSems0 (V d (cV L) (jV L)) : sProp 𝕄)
      = iprop(semVal (cell d L cc0_scratch7.sem) 0 ∗ semVal (cell d L cc0_scratch8.sem) 0 ∗ semVal (cell d L cc0_scratch9.sem) 0 ∗ semVal (cell d L cc0_scratch10.sem) 0 ∗ semVal (cell d L cc0_scoped0.sem) 0
          ∗ bigSep ((((((ownCells (V d (cV L) (jV L))).erase (cell d L cc0_scratch7.sem)).erase (cell d L cc0_scratch8.sem)).erase (cell d L cc0_scratch9.sem)).erase (cell d L cc0_scratch10.sem)).erase (cell d L cc0_scoped0.sem)) fun g => semVal g 0) := by
  unfold SparseCore.Cfg.ownSems0
  rw [SparseCore.bigSep_erase' (cell_mem L d cc0_scratch7.sem (by decide)),
    SparseCore.bigSep_erase' (Finset.mem_erase.mpr ⟨cell_ne d (by decide), cell_mem L d cc0_scratch8.sem (by decide)⟩),
    SparseCore.bigSep_erase' (Finset.mem_erase.mpr ⟨cell_ne d (by decide), Finset.mem_erase.mpr ⟨cell_ne d (by decide), cell_mem L d cc0_scratch9.sem (by decide)⟩⟩),
    SparseCore.bigSep_erase' (Finset.mem_erase.mpr ⟨cell_ne d (by decide), Finset.mem_erase.mpr ⟨cell_ne d (by decide), Finset.mem_erase.mpr ⟨cell_ne d (by decide), cell_mem L d cc0_scratch10.sem (by decide)⟩⟩⟩),
    SparseCore.bigSep_erase' (Finset.mem_erase.mpr ⟨cell_ne d (by decide), Finset.mem_erase.mpr ⟨cell_ne d (by decide), Finset.mem_erase.mpr ⟨cell_ne d (by decide), Finset.mem_erase.mpr ⟨cell_ne d (by decide), cell_mem L d cc0_scoped0.sem (by decide)⟩⟩⟩⟩)]

omit [FloatOps F] in
theorem ref_ne {L : grid0.Coords} {a b : Ref sig .scVector} (h : a ≠ b) :
    (Proc.scVector (cV L) (jV L)).devRef a ≠ (Proc.scVector (cV L) (jV L)).devRef b :=
  fun e => h (Proc.devRef_injective _ e)

omit [FloatOps F] in
theorem ref_mem (L : grid0.Coords) (b : Ref sig .scVector) (h : ((Proc.scVector (cV L) (jV L)).devRef b).owner = .proc (Proc.scVector (cV L) (jV L))) :
    (Proc.scVector (cV L) (jV L)).devRef b ∈ ownRefs (τ := τ) (Proc.scVector (cV L) (jV L)) :=
  SparseCore.Cfg.mem_ownRefs_of_owner (p := Proc.scVector (cV L) (jV L)) h

omit [FloatOps F] in
/-- The seven scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne (by decide), ref_mem L cc0_scratch1 rfl⟩),
    SparseCore.bigSep_erase' (Finset.mem_erase.mpr ⟨ref_ne (by decide), Finset.mem_erase.mpr ⟨ref_ne (by decide), ref_mem L cc0_scratch2 rfl⟩⟩),
    SparseCore.bigSep_erase' (Finset.mem_erase.mpr ⟨ref_ne (by decide), Finset.mem_erase.mpr ⟨ref_ne (by decide), Finset.mem_erase.mpr ⟨ref_ne (by decide), ref_mem L cc0_scratch3 rfl⟩⟩⟩),
    SparseCore.bigSep_erase' (Finset.mem_erase.mpr ⟨ref_ne (by decide), Finset.mem_erase.mpr ⟨ref_ne (by decide), Finset.mem_erase.mpr ⟨ref_ne (by decide), Finset.mem_erase.mpr ⟨ref_ne (by decide), ref_mem L cc0_scratch4 rfl⟩⟩⟩⟩),
    SparseCore.bigSep_erase' (Finset.mem_erase.mpr ⟨ref_ne (by decide), Finset.mem_erase.mpr ⟨ref_ne (by decide), Finset.mem_erase.mpr ⟨ref_ne (by decide), Finset.mem_erase.mpr ⟨ref_ne (by decide), Finset.mem_erase.mpr ⟨ref_ne (by decide), ref_mem L cc0_scratch5 rfl⟩⟩⟩⟩⟩),
    SparseCore.bigSep_erase' (Finset.mem_erase.mpr ⟨ref_ne (by decide), Finset.mem_erase.mpr ⟨ref_ne (by decide), Finset.mem_erase.mpr ⟨ref_ne (by decide), Finset.mem_erase.mpr ⟨ref_ne (by decide), Finset.mem_erase.mpr ⟨ref_ne (by decide), Finset.mem_erase.mpr ⟨ref_ne (by decide), ref_mem L cc0_scratch6 rfl⟩⟩⟩⟩⟩⟩)]

/-! ## What the transfers in flight deliver -/

/-- A gather's delivery: the row scratch at some contents, the share of the table it read, the list at some contents. -/
def GD (T1 : Buf (Elt F) (tLoc d)) (dst : Memref sig .scVector .vmem S100x128 .f32) (offs : Memref sig .scVector .vmem S100 .i32)
    (q : PosShare TreeShare) : sProp 𝕄 :=
  iprop((∃ f, dst.view.loc 𝕥 ↦[dst.view.set]{fullShare} f) ∗ ((xAll).view.loc 𝕥 ↦[(xAll).view.set]{q} T1)
    ∗ ∃ g, offs.view.loc 𝕥 ↦[offs.view.set]{fullShare} g)

/-- A copy-out's delivery: the part of the result rows its staging buffer serves, and the staging buffer, at some contents. -/
def OD (ob : Memref sig .scVector .vmem S2x128 .f32) (Sd : Finset S32768x128.Idx) : sProp 𝕄 :=
  iprop((∃ f, oLoc d ↦[Sd]{fullShare} f) ∗ ∃ g, ob.view.loc 𝕥 ↦[ob.view.set]{fullShare} g)

/-- A staging buffer between rounds: free before the first round that uses it (the buffer, its semaphore at zero, its
    part of the result rows), afterwards the copy-out in flight. -/
def OB (ob : Memref sig .scVector .vmem S2x128 .f32) (sem : DmaSem sig) (Sd : Finset S32768x128.Idx) (k : ℕ) : sProp 𝕄 :=
  if k = 0 then iprop(OD L d ob Sd ∗ semVal (𝕥, SemLoc.dma sem) 0)
  else Transfers.Flight EC 𝕥 (.dma sem) (default : HIx 1) ob.view.dmaCredit (OD L d ob Sd)

/-- The loop's invariant before trip `k`: the index scratch as filled, the first buffer set's gather in flight, the
    second set free, each staging buffer free (before the first trip) or its copy-out in flight, what the task owes. -/
def inv (T1 : Buf (Elt F) (tLoc d)) (IB : Buf (Elt F) ((ibV).view.loc 𝕥)) (q : PosShare TreeShare)
    (O : CellTallies nD τ sig (HIx 1)) (W : Waits sig (HIx 1)) (k : ℕ) (_ : PUnit) : sProp 𝕄 :=
  iprop(Transfers.MayWaits 𝕥 (default : HIx 1) O
    ∗ ((ibV).view.loc 𝕥 ↦{fullShare} IB)
    ∗ Transfers.Flight EC 𝕥 (.dma cc0_scratch7.sem) (default : HIx 1) (rw0V).view.dmaCredit (GD L d T1 rw0V rm0V q.left)
    ∗ ((xAll).view.loc 𝕥 ↦[(xAll).view.set]{q.right} T1)
    ∗ (∃ f, (rm1V).view.loc 𝕥 ↦{fullShare} f) ∗ (∃ f, (rw1V).view.loc 𝕥 ↦{fullShare} f)
    ∗ semVal (𝕥, SemLoc.dma cc0_scratch8.sem) 0
    ∗ OB L d ob0V cc0_scratch9.sem (oSet0 L) k ∗ OB L d ob1V cc0_scratch10.sem (oSet1 L) k
    ∗ ∃ W', ⌜∀ p ∈ W', p ∈ W ∨ p.2 = none⌝ ∗ owes 𝕥 O W')

theorem GD_eq (T1 : Buf (Elt F) (tLoc d)) (dst : Memref sig .scVector .vmem S100x128 .f32) (offs : Memref sig .scVector .vmem S100 .i32)
    (q : PosShare TreeShare) :
    (GD L d T1 dst offs q : sProp 𝕄) = iprop((∃ f, dst.view.loc 𝕥 ↦[dst.view.set]{fullShare} f) ∗ ((xAll).view.loc 𝕥 ↦[(xAll).view.set]{q} T1)
      ∗ ∃ g, offs.view.loc 𝕥 ↦[offs.view.set]{fullShare} g) := rfl
theorem OD_eq (ob : Memref sig .scVector .vmem S2x128 .f32) (Sd : Finset S32768x128.Idx) :
    (OD L d ob Sd : sProp 𝕄) = iprop((∃ f, oLoc d ↦[Sd]{fullShare} f) ∗ ∃ g, ob.view.loc 𝕥 ↦[ob.view.set]{fullShare} g) := rfl
theorem OB_zero (ob : Memref sig .scVector .vmem S2x128 .f32) (sem : DmaSem sig) (Sd : Finset S32768x128.Idx) :
    (OB L d ob sem Sd 0 : sProp 𝕄) = iprop(OD L d ob Sd ∗ semVal (𝕥, SemLoc.dma sem) 0) := rfl
theorem OB_pos (ob : Memref sig .scVector .vmem S2x128 .f32) (sem : DmaSem sig) (Sd : Finset S32768x128.Idx) {k : ℕ} (hk : k ≠ 0) :
    (OB L d ob sem Sd k : sProp 𝕄) = Transfers.Flight EC 𝕥 (.dma sem) (default : HIx 1) ob.view.dmaCredit (OD L d ob Sd) := by
  unfold OB; rw [if_neg hk]

omit [FloatOps F] in
theorem owes_ins {W : Waits sig (HIx 1)} {W1 : Waits sig (HIx 1)} (sm : SemLoc sig) (h : ∀ p ∈ W1, p ∈ W ∨ p.2 = none) :
    ∀ p ∈ insert (sm, (default : HIx 1)) W1, p ∈ W ∨ p.2 = none := by
  intro p hp
  rcases Finset.mem_insert.mp hp with hp | hp
  · exact .inr (hp ▸ rfl)
  · exact h p hp

omit [FloatOps F] in
theorem credit_o0 (off : Fin S32768x128.rank → Nat) (inb : ∀ a, off a + S2x128.size a ≤ S32768x128.size a) (hr) :
    ((oV).slice (Rect.unit (s := S32768x128) off S2x128.size inb) hr).view.dmaCredit = (ob0V).view.dmaCredit := rfl
omit [FloatOps F] in
theorem credit_o1 (off : Fin S32768x128.rank → Nat) (inb : ∀ a, off a + S2x128.size a ≤ S32768x128.size a) (hr) :
    ((oV).slice (Rect.unit (s := S32768x128) off S2x128.size inb) hr).view.dmaCredit = (ob1V).view.dmaCredit := rfl

/-! ## Issuing a gather -/

/-- Issuing a gather whose list's words all name rows of the table. -/
theorem gather_issue {α : Type} {Q : α → sProp 𝕄} (T1 : Buf (Elt F) (tLoc d))
    {src : Memref sig .scVector .hbm S100008x128 .f32} (hsrcE : src = xAll)
    {dst : Memref sig .scVector .vmem S100x128 .f32} {offs : Memref sig .scVector .vmem S100 .i32} {sem : DmaSem sig}
    {hn : S100.numel = S100x128.size gathers_S100008x128_S100x128.axis'}
    {hp : (𝕥).2.kind = .scVector} {hsrc : src.view.WordExact} {he : EltTy.f32.bits = 32} {hsp : Space.hbm = .hbm ∨ Space.hbm = .shared}
    {hr : S100008x128.StreamRows 0}
    {k : PUnit → Prog (TpuEff nD τ sig (Elt F) Λ₀ (𝕥).2) α}
    (q : PosShare TreeShare) {fd : Buf (Elt F) (dst.view.loc 𝕥)} {fo : Buf (Elt F) (offs.view.loc 𝕥)}
    (hcr : ∀ s' : Shape, sig.dmaCredit .scVector (Kind.scVector.table .vmem) dst.view.buf s' .f32 = s'.numel * EltTy.f32.bits) :
    iprop(((xAll).view.loc 𝕥 ↦[(xAll).view.set]{q} T1) ∗ (dst.view.loc 𝕥 ↦[dst.view.set]{fullShare} fd)
        ∗ (offs.view.loc 𝕥 ↦[offs.view.set]{fullShare} fo) ∗ semVal (𝕥, SemLoc.dma sem) 0
        ∗ ⌜∀ x, (offs.view.read (Elt F) fo x).toNat < S100008x128.size gathers_S100008x128_S100x128.axis⌝)
      ⊢ iprop((Transfers.Flight EC 𝕥 (.dma sem) (default : HIx 1) dst.view.dmaCredit (GD L d T1 dst offs q)
              -∗ wp frame (wpE (defs₀ (F := F)) 𝒱₀ 𝕥 none) Set.univ (k ⟨⟩) Q)
          -∗ wp frame (wpE (defs₀ (F := F)) 𝒱₀ 𝕥 none) Set.univ
              (SparseCore.enqueueIndirectGather hp src dst gathers_S100008x128_S100x128 offs hn sem hsrc he hsp hr >>= k) Q) := by
  subst hsrcE
  iintro ⟨Hx, Hd, Ho, Hs, %hin⟩ Hk
  iapply (SparseCore.wp_indirectGatherLocal EC 𝒱₀ 𝕥 none (hg := gathers_S100008x128_S100x128) (default : HIx 1)
      dst.view.dmaCredit (SparseCore.sum_rowCredit_eq_dmaCredit dst _ hcr) (by decide) hin) $$ [Hx Hd Ho Hs]
  · isplitl [Hx]; · iexact Hx
    isplitl [Hd]; · iexact Hd
    isplitl [Ho]; · iexact Ho
    iexact Hs
  iintro Hfl
  iapply Hk
  iapply (Transfers.Flight_mono EC 𝕥 (D' := GD L d T1 dst offs q) (by
    unfold GD
    iintro ⟨Hd, Hx, Ho⟩
    isplitl [Hd]; · iexists _; iexact Hd
    isplitl [Hx]; · iexact Hx
    iexists _; iexact Ho)) $$ Hfl

/-! ## The remapped lists name rows of the table -/

/-- The remapping of the padding index, lane by lane: words below 100000 stay or become 100000. -/
theorem remap_allLt (v : IVec S16 32) (hv : AllLt v 100000) (h1 h2 : S16.ShapeCasts S16) :
    AllLt (shapeCast S16 (select (cmpi CmpIPredicate.ne (shapeCast S16 v h1) (broadcast S16 0#32)) (shapeCast S16 v h1)
      (broadcast S16 100000#32)) h2) 100008 :=
  allLt_shapeCast _ (allLt_select (allLt_mono (by decide) (allLt_shapeCast _ hv)) (allLt_broadcast (by decide)))

/-- The eight chunks a list is filled with (at offsets 0, 16, 32, 34 of each of its two halves) cover its 100 words. -/
theorem cover100 {Val : EltTy → Type} (Lp : List (View.Piece Val S100 EltTy.i32))
    (w0 : (Rect.unit (s := S100) ![84] S16.size inb_S100_S16_84).shape.Idx → Val EltTy.i32)
    (w1 : (Rect.unit (s := S100) ![82] S16.size inb_S100_S16_82).shape.Idx → Val EltTy.i32)
    (w2 : (Rect.unit (s := S100) ![66] S16.size inb_S100_S16_66).shape.Idx → Val EltTy.i32)
    (w3 : (Rect.unit (s := S100) ![50] S16.size inb_S100_S16_50).shape.Idx → Val EltTy.i32)
    (w4 : (Rect.unit (s := S100) ![34] S16.size inb_S100_S16_34).shape.Idx → Val EltTy.i32)
    (w5 : (Rect.unit (s := S100) ![32] S16.size inb_S100_S16_32).shape.Idx → Val EltTy.i32)
    (w6 : (Rect.unit (s := S100) ![16] S16.size inb_S100_S16_16).shape.Idx → Val EltTy.i32)
    (w7 : (Rect.unit (s := S100) ![0] S16.size inb_S100_S16_0).shape.Idx → Val EltTy.i32)
    (h : Lp = [⟨_, w0⟩, ⟨_, w1⟩, ⟨_, w2⟩, ⟨_, w3⟩, ⟨_, w4⟩, ⟨_, w5⟩, ⟨_, w6⟩, ⟨_, w7⟩]) :
    ∀ y : S100.Idx, ∃ p ∈ Lp, y ∈ p.1.set := by
  subst h
  intro y
  have key : ∀ (o : ℕ) (inb : ∀ a, (![o] : Fin 1 → Nat) a + S16.size a ≤ S100.size a), o ≤ (y 0).val → (y 0).val < o + 16 →
      y ∈ (Rect.unit (s := S100) ![o] S16.size inb).set := by
    intro o inb h1 h2
    refine Rect.mem_set_unit.mpr fun a => ?_
    have ha : a = (0 : Fin 1) := Subsingleton.elim _ _
    subst ha
    exact ⟨h1, h2⟩
  have hy : (y 0).val < 100 := (y 0).isLt
  by_cases c7 : (y 0).val < 16
  · exact ⟨_, List.Mem.tail _ (List.Mem.tail _ (List.Mem.tail _ (List.Mem.tail _ (List.Mem.tail _ (List.Mem.tail _ (List.Mem.tail _ (List.Mem.head _))))))), key 0 inb_S100_S16_0 (Nat.zero_le _) (by omega)⟩
  by_cases c6 : (y 0).val < 32
  · exact ⟨_, List.Mem.tail _ (List.Mem.tail _ (List.Mem.tail _ (List.Mem.tail _ (List.Mem.tail _ (List.Mem.tail _ (List.Mem.head _)))))), key 16 inb_S100_S16_16 (by omega) (by omega)⟩
  by_cases c5 : (y 0).val < 34
  · exact ⟨_, List.Mem.tail _ (List.Mem.tail _ (List.Mem.tail _ (List.Mem.tail _ (List.Mem.tail _ (List.Mem.head _))))), key 32 inb_S100_S16_32 (by omega) (by omega)⟩
  by_cases c4 : (y 0).val < 50
  · exact ⟨_, List.Mem.tail _ (List.Mem.tail _ (List.Mem.tail _ (List.Mem.tail _ (List.Mem.head _)))), key 34 inb_S100_S16_34 (by omega) (by omega)⟩
  by_cases c3 : (y 0).val < 66
  · exact ⟨_, List.Mem.tail _ (List.Mem.tail _ (List.Mem.tail _ (List.Mem.head _))), key 50 inb_S100_S16_50 (by omega) (by omega)⟩
  by_cases c2 : (y 0).val < 82
  · exact ⟨_, List.Mem.tail _ (List.Mem.tail _ (List.Mem.head _)), key 66 inb_S100_S16_66 (by omega) (by omega)⟩
  by_cases c1 : (y 0).val < 84
  · exact ⟨_, List.Mem.tail _ (List.Mem.head _), key 82 inb_S100_S16_82 (by omega) (by omega)⟩
  · exact ⟨_, List.Mem.head _, key 84 inb_S100_S16_84 (by omega) (by omega)⟩

/-- A list filled from the index scratch by the remapping holds, whatever it held before, words that name rows of the
    table: each chunk's lanes are below 100008, and the chunks cover the list. -/
theorem list_inb {Lp : List (View.Piece (Elt F) S100 EltTy.i32)} (offs : Memref sig .scVector .vmem S100 .i32)
    (f : Buf (Elt F) (offs.view.loc 𝕥))
    (hp : ∀ p ∈ Lp, ∀ x : p.1.shape.Idx, BitVec.toNat (p.2 x) < 100008) (hc : ∀ y : S100.Idx, ∃ p ∈ Lp, y ∈ p.1.set) :
    ∀ x, (offs.view.read (Elt F) (offs.view.writes (Elt F) f Lp) x).toNat < S100008x128.size gathers_S100008x128_S100x128.axis :=
  fun x => Cert.Lib.View.read_writes_all offs.view f (fun v => BitVec.toNat v < 100008) Lp hp x (hc x)

/-- What the index copy lands in the index scratch: the task's index words, each at most 99999. -/
theorem ib_of_pre (I4 : Buf (Elt F) (iLoc d)) (hpre : PreOK d I4) (fib : Buf (Elt F) ((ibV).view.loc 𝕥)) (pay : S65536.Idx → Elt F .i32)
    (hpay : pay = (iSl L).view.read (Elt F) I4) :
    ∀ x, ((ibV).view.read (Elt F) (View.write (Elt F) (ibV).view fib pay Finset.univ) x).toNat ≤ 99999 := by
  subst hpay; intro x
  rw [View.write_whole_univ]
  simp only [Memref.view_whole, View.read_whole]
  rw [show ∀ j, (iSl L).view.read (Elt F) I4 j = I4 ((iSl L).view.emb j) from fun j => (View.read_apply _ _).trans (cast_eq _ _)]
  exact hpre _

set_option maxHeartbeats 4000000 in
/-- One trip of the rounds loop: rounds `2 k` and `2 k + 1`. -/
theorem trip (T1 : Buf (Elt F) (tLoc d)) (IB : Buf (Elt F) ((ibV).view.loc 𝕥))
    (hIB : ∀ x, ((ibV).view.read (Elt F) IB x).toNat ≤ 99999) (q : PosShare TreeShare)
    (O : CellTallies nD τ sig (HIx 1)) (W : Waits sig (HIx 1)) (v2 : BitVec 32) (k : Fin k0_t1_loop.trips) (acc : PUnit) :
    inv L d T1 IB q O W k.val acc
      ⊢ wp frame (wpE (defs₀ (F := F)) 𝒱₀ 𝕥 none) Set.univ
          (k0_t1_body L iV (Memref.isWhole_whole _) xV (Memref.isWhole_whole _) oV (Memref.isWhole_whole _)
            ibV (Memref.isWhole_whole _) rm0V (Memref.isWhole_whole _) rm1V (Memref.isWhole_whole _)
            rw0V (Memref.isWhole_whole _) rw1V (Memref.isWhole_whole _) ob0V (Memref.isWhole_whole _) ob1V (Memref.isWhole_whole _)
            cc0_scratch7 cc0_scratch8 cc0_scratch9 cc0_scratch10 cc0_scoped0 v2 k acc)
          (inv L d T1 IB q O W (k.val + 1)) := by
  unfold inv
  iintro ⟨#Hmw, Hib, Hfl0, HxR, ⟨%frm1, Hrm1⟩, ⟨%frw1, Hrw1⟩, Hsg1, HOB0, HOB1, %W', %hW', HO⟩
  unfold k0_t1_body
  have hcond1 : ∀ k : Fin k0_t1_loop.trips, (k0_cond1 k = 1#1 ↔ k.val ≠ 0) := by decide +kernel
  have hcond2 : ∀ k : Fin k0_t1_loop.trips, (k0_cond2 k = 1#1 ↔ k.val ≠ 0) := by decide +kernel
  sl_exec
  have hrs1 : (rw1V).view.set = Finset.univ := View.set_whole _
  have hms1 : (rm1V).view.set = Finset.univ := View.set_whole _
  ihave Hrw1' := (Entails.of_eq (show (((rw1V).view.loc 𝕥 ↦{fullShare} frw1 : sProp 𝕄))
      = (rw1V).view.loc 𝕥 ↦[(rw1V).view.set]{fullShare} frw1 by rw [hrs1])) $$ Hrw1
  ihave Hrm1' := (Entails.of_eq (show (((rm1V).view.loc 𝕥 ↦{fullShare} _ : sProp 𝕄))
      = (rm1V).view.loc 𝕥 ↦[(rm1V).view.set]{fullShare} _ by rw [hms1])) $$ Hrm1
  iapply (gather_issue L d T1 rfl q.right (fun _ => rfl)) $$ [HxR Hrw1' Hrm1' Hsg1]
  · isplitl [HxR]; · iexact HxR
    isplitl [Hrw1']; · iexact Hrw1'
    isplitl [Hrm1']; · iexact Hrm1'
    isplitl [Hsg1]; · iexact Hsg1
    ipureintro
    refine list_inb L d _ _ ?hp ?hc
    case hp =>
      repeat (first
        | exact fun _ h => absurd h List.not_mem_nil
        | refine List.forall_mem_cons.mpr ⟨fun x => remap_allLt _ (fun i => Nat.lt_succ_of_le (hIB _)) _ _ x, ?_⟩)
    case hc => exact cover100 _ _ _ _ _ _ _ _ _ rfl
  iintro Hfl1
  sl_exec
  -- the first buffer set's gather has landed
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GD_eq L d T1 rw0V rm0V q.left)) $$ HD0
  icases HD0' with ⟨⟨%frw0, Hrw0⟩, HxL, ⟨%frm0, Hrm0⟩⟩
  rcases Nat.eq_zero_or_pos k.val with hk | hk
  · have k0_h1 : ¬ k0_cond1 k = 1#1 := fun h => (hcond1 k).mp h hk
    have k0_h2 : ¬ k0_cond2 k = 1#1 := fun h => (hcond2 k).mp h hk
    ihave HOB0' := (Entails.of_eq ((congrArg (fun n => (OB L d ob0V cc0_scratch9.sem (oSet0 L) n : sProp 𝕄)) hk).trans (OB_zero L d ob0V cc0_scratch9.sem (oSet0 L)))) $$ HOB0
    icases HOB0' with ⟨HOD0, Hso0⟩
    ihave HOB1' := (Entails.of_eq ((congrArg (fun n => (OB L d ob1V cc0_scratch10.sem (oSet1 L) n : sProp 𝕄)) hk).trans (OB_zero L d ob1V cc0_scratch10.sem (oSet1 L)))) $$ HOB1
    icases HOB1' with ⟨HOD1, Hso1⟩
    sl_exec
    ihave HOD0' := (Entails.of_eq (OD_eq L d ob0V (oSet0 L))) $$ HOD0
    icases HOD0' with ⟨⟨%fo0, Ho0⟩, ⟨%fob0, Hob0⟩⟩
    sl_for (fun _ _ => iprop((rw0V).view.loc 𝕥 ↦[(rw0V).view.set]{fullShare} frw0)) $$ [Hrw0]
    case region => intro j a; iintro H; sl_exec; sl_step; iexact H
    · iexact Hrw0
    iintro %a2 Hrw0
    sl_exec
    sl_for (fun _ _ => iprop((rw0V).view.loc 𝕥 ↦[(rw0V).view.set]{fullShare} frw0)) $$ [Hrw0]
    case region => intro j a; iintro H; sl_exec; sl_step; iexact H
    · iexact Hrw0
    iintro %a3 Hrw0
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := OD L d ob0V (oSet0 L)) (by
      rw [OD_eq]; iintro ⟨Hd, Hs⟩; isplitl [Hd]; · iexists _; iexact Hd
      iexists _; iexact Hs)) $$ HF0n
    sl_exec
    iapply (gather_issue L d T1 rfl q.left (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GD_eq L d T1 rw1V rm1V q.right)) $$ HD1
    icases HD1' with ⟨⟨%frw1n, Hrw1⟩, HxR, ⟨%frm1n, Hrm1⟩⟩
    sl_exec
    ihave HOD1' := (Entails.of_eq (OD_eq L d ob1V (oSet1 L))) $$ HOD1
    icases HOD1' with ⟨⟨%fo1, Ho1⟩, ⟨%fob1, Hob1⟩⟩
    sl_for (fun _ _ => iprop((rw1V).view.loc 𝕥 ↦[(rw1V).view.set]{fullShare} frw1n)) $$ [Hrw1]
    case region => intro j a; iintro H; sl_exec; sl_step; iexact H
    · iexact Hrw1
    iintro %a4 Hrw1
    sl_exec
    sl_for (fun _ _ => iprop((rw1V).view.loc 𝕥 ↦[(rw1V).view.set]{fullShare} frw1n)) $$ [Hrw1]
    case region => intro j a; iintro H; sl_exec; sl_step; iexact H
    · iexact Hrw1
    iintro %a5 Hrw1
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := OD L d ob1V (oSet1 L)) (by
      rw [OD_eq]; iintro ⟨Hd, Hs⟩; isplitl [Hd]; · iexists _; iexact Hd
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OB_pos L d ob0V cc0_scratch9.sem (oSet0 L) (Nat.succ_ne_zero k.val)).symm); iexact HF0n
    isplitl [HF1n]; · iapply (Entails.of_eq (OB_pos L d ob1V cc0_scratch10.sem (oSet1 L) (Nat.succ_ne_zero k.val)).symm); iexact HF1n
    iexists _; isplitr
    · ipureintro; exact hW'
    · iexact HO
  · have hk0 : k.val ≠ 0 := Nat.pos_iff_ne_zero.mp hk
    have k0_h1 : k0_cond1 k = 1#1 := (hcond1 k).mpr hk0
    have k0_h2 : k0_cond2 k = 1#1 := (hcond2 k).mpr hk0
    ihave HF0 := (Entails.of_eq (OB_pos L d ob0V cc0_scratch9.sem (oSet0 L) hk0)) $$ HOB0
    ihave HF1 := (Entails.of_eq (OB_pos L d ob1V cc0_scratch10.sem (oSet1 L) hk0)) $$ HOB1
    sl_exec
    iapply (Transfers.wp_waitLocalO EC 𝒱₀ 𝕥 none (default : HIx 1) (credit_o0 _ _ _)) $$ [HF0 HO]
    · isplitl [HF0]; · iexact HF0
      isplitl [HO]; · iexact HO
      iapply (Transfers.MayWaits.elim (SemLoc.dma cc0_scratch9.sem)) $$ Hmw
    iintro ⟨HOD0, Hso0, HO⟩
    have hW' := owes_ins (W := W) (SemLoc.dma cc0_scratch9.sem) hW'
    sl_exec
    ihave HOD0' := (Entails.of_eq (OD_eq L d ob0V (oSet0 L))) $$ HOD0
    icases HOD0' with ⟨⟨%fo0, Ho0⟩, ⟨%fob0, Hob0⟩⟩
    sl_for (fun _ _ => iprop((rw0V).view.loc 𝕥 ↦[(rw0V).view.set]{fullShare} frw0)) $$ [Hrw0]
    case region => intro j a; iintro H; sl_exec; sl_step; iexact H
    · iexact Hrw0
    iintro %a2 Hrw0
    sl_exec
    sl_for (fun _ _ => iprop((rw0V).view.loc 𝕥 ↦[(rw0V).view.set]{fullShare} frw0)) $$ [Hrw0]
    case region => intro j a; iintro H; sl_exec; sl_step; iexact H
    · iexact Hrw0
    iintro %a3 Hrw0
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := OD L d ob0V (oSet0 L)) (by
      rw [OD_eq]; iintro ⟨Hd, Hs⟩; isplitl [Hd]; · iexists _; iexact Hd
      iexists _; iexact Hs)) $$ HF0n
    sl_exec
    iapply (gather_issue L d T1 rfl q.left (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GD_eq L d T1 rw1V rm1V q.right)) $$ HD1
    icases HD1' with ⟨⟨%frw1n, Hrw1⟩, HxR, ⟨%frm1n, Hrm1⟩⟩
    sl_exec
    iapply (Transfers.wp_waitLocalO EC 𝒱₀ 𝕥 none (default : HIx 1) (credit_o1 _ _ _)) $$ [HF1 HO]
    · isplitl [HF1]; · iexact HF1
      isplitl [HO]; · iexact HO
      iapply (Transfers.MayWaits.elim (SemLoc.dma cc0_scratch10.sem)) $$ Hmw
    iintro ⟨HOD1, Hso1, HO⟩
    have hW' := owes_ins (W := W) (SemLoc.dma cc0_scratch10.sem) hW'
    sl_exec
    ihave HOD1' := (Entails.of_eq (OD_eq L d ob1V (oSet1 L))) $$ HOD1
    icases HOD1' with ⟨⟨%fo1, Ho1⟩, ⟨%fob1, Hob1⟩⟩
    sl_for (fun _ _ => iprop((rw1V).view.loc 𝕥 ↦[(rw1V).view.set]{fullShare} frw1n)) $$ [Hrw1]
    case region => intro j a; iintro H; sl_exec; sl_step; iexact H
    · iexact Hrw1
    iintro %a4 Hrw1
    sl_exec
    sl_for (fun _ _ => iprop((rw1V).view.loc 𝕥 ↦[(rw1V).view.set]{fullShare} frw1n)) $$ [Hrw1]
    case region => intro j a; iintro H; sl_exec; sl_step; iexact H
    · iexact Hrw1
    iintro %a5 Hrw1
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := OD L d ob1V (oSet1 L)) (by
      rw [OD_eq]; iintro ⟨Hd, Hs⟩; isplitl [Hd]; · iexists _; iexact Hd
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OB_pos L d ob0V cc0_scratch9.sem (oSet0 L) (Nat.succ_ne_zero k.val)).symm); iexact HF0n
    isplitl [HF1n]; · iapply (Entails.of_eq (OB_pos L d ob1V cc0_scratch10.sem (oSet1 L) (Nat.succ_ne_zero k.val)).symm); iexact HF1n
    iexists _; isplitr
    · ipureintro; exact hW'
    · iexact HO

set_option maxRecDepth 100000 in
set_option maxHeartbeats 4000000 in
/-- The task on vector subcore `(L 0, L 1)` of device `d`. -/
theorem tile_body (hF : (K (F := F)).Facts) : TileBodyFrame (F := F) L d := by
  intro w I4 T1 O5 hpre O W hO
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  unfold goT tdT
  iintro ⟨#Hlv, -, ⟨Hi, Hx, Ho0, Ho1⟩, ⟨⟨%fib, Hib⟩, ⟨%frm0, Hrm0⟩, ⟨%frm1, Hrm1⟩, ⟨%frw0, Hrw0⟩, ⟨%frw1, Hrw1⟩, ⟨%fob0, Hob0⟩, ⟨%fob1, Hob1⟩, Hbufs⟩, ⟨Hsg0, Hsg1, Hso0, Hso1, Hsr, Hsems⟩, HO⟩
  ihave Hmw := (show levAts (K (F := F)).L (K (F := F)).lev ⊢ Transfers.MayWaits 𝕥 (default : HIx 1) O from
    (K (F := F)).mayWaits_none (thr := 𝕥) hO) $$ Hlv
  ihave Hi' := (Entails.of_eq (show ((iLoc d ↦[iSetK L]{fullShare} I4 : sProp 𝕄)) = ((iSl L).view.loc 𝕥 ↦[(iSl L).view.set]{fullShare} I4) from rfl)) $$ Hi
  ihave Hib' := (Entails.of_eq (show (((𝕥).loc cc0_scratch0 ↦{fullShare} fib : sProp 𝕄)) = ((ibV).view.loc 𝕥 ↦{fullShare} fib) from rfl)) $$ Hib
  ihave Hrm0' := (Entails.of_eq (show (((𝕥).loc cc0_scratch1 ↦{fullShare} frm0 : sProp 𝕄)) = ((rm0V).view.loc 𝕥 ↦{fullShare} frm0) from rfl)) $$ Hrm0
  sl_exec
  have hIB := ib_of_pre L d I4 hpre fib (tile_body.sl.dma0 L d I4) rfl
  -- the share of the table in two halves, one per gather in flight
  ihave Hx2 := (pointsTo_share (PosShare.mem_left_op_right (tq w))).1 $$ Hx
  icases Hx2 with ⟨HxL, HxR⟩
  ihave HxL' := (pointsTo_split_subset (q := (tq w).left) (f := T1) (S := Finset.univ) (Finset.subset_univ (xAll).view.set)).1 $$ HxL
  icases HxL' with ⟨HxL, HxLr⟩
  ihave HxR' := (pointsTo_split_subset (q := (tq w).right) (f := T1) (S := Finset.univ) (Finset.subset_univ (xAll).view.set)).1 $$ HxR
  icases HxR' with ⟨HxR, HxRr⟩
  have hrs0 : (rw0V).view.set = Finset.univ := View.set_whole _
  have hms0 : (rm0V).view.set = Finset.univ := View.set_whole _
  have hrs1 : (rw1V).view.set = Finset.univ := View.set_whole _
  have hms1 : (rm1V).view.set = Finset.univ := View.set_whole _
  have hos0 : (ob0V).view.set = Finset.univ := View.set_whole _
  have hos1 : (ob1V).view.set = Finset.univ := View.set_whole _
  ihave Hrw0' := (Entails.of_eq (show (((𝕥).loc cc0_scratch3 ↦{fullShare} frw0 : sProp 𝕄))
      = (rw0V).view.loc 𝕥 ↦[(rw0V).view.set]{fullShare} frw0 by rw [hrs0])) $$ Hrw0
  ihave Hrm0'' := (Entails.of_eq (show (((rm0V).view.loc 𝕥 ↦{fullShare} _ : sProp 𝕄))
      = (rm0V).view.loc 𝕥 ↦[(rm0V).view.set]{fullShare} _ by rw [hms0])) $$ Hrm0'
  iapply (gather_issue L d T1 rfl (tq w).left (fun _ => rfl)) $$ [HxL Hrw0' Hrm0'' Hsg0]
  · isplitl [HxL]; · iexact HxL
    isplitl [Hrw0']; · iexact Hrw0'
    isplitl [Hrm0'']; · iexact Hrm0''
    isplitl [Hsg0]; · iexact Hsg0
    ipureintro
    refine list_inb L d _ _ ?hp ?hc
    case hp =>
      repeat (first
        | exact fun _ h => absurd h List.not_mem_nil
        | refine List.forall_mem_cons.mpr ⟨fun x => remap_allLt _ (fun i => Nat.lt_succ_of_le (hIB _)) _ _ x, ?_⟩)
    case hc => exact cover100 _ _ _ _ _ _ _ _ _ rfl
  iintro Hfl0
  sl_for (inv L d T1 (View.write (Elt F) (ibV).view fib (tile_body.sl.dma0 L d I4) Finset.univ) (tq w) O W) $$ [Hib' Hfl0 HxR Hrm1 Hrw1 Hsg1 Hob0 Ho0 Hso0 Hob1 Ho1 Hso1 HO]
  case region => intro k acc; exact trip L d T1 _ hIB (tq w) O W _ k acc
  · unfold inv
    isplitl []; · iexact Hmw
    isplitl [Hib']; · iexact Hib'
    isplitl [Hfl0]; · iexact Hfl0
    isplitl [HxR]; · iexact HxR
    isplitl [Hrm1]; · iexists _; iexact Hrm1
    isplitl [Hrw1]; · iexists _; iexact Hrw1
    isplitl [Hsg1]; · iexact Hsg1
    isplitl [Hob0 Ho0 Hso0]
    · iapply (Entails.of_eq (OB_zero L d ob0V cc0_scratch9.sem (oSet0 L)).symm)
      isplitr [Hso0]
      · iapply (Entails.of_eq (OD_eq L d ob0V (oSet0 L)).symm)
        isplitl [Ho0]; · iexists _; iexact Ho0
        iexists fob0
        iapply (Entails.of_eq (show (((𝕥).loc cc0_scratch5 ↦{fullShare} fob0 : sProp 𝕄)) = ((ob0V).view.loc 𝕥 ↦[(ob0V).view.set]{fullShare} fob0) by rw [hos0])); iexact Hob0
      · iexact Hso0
    isplitl [Hob1 Ho1 Hso1]
    · iapply (Entails.of_eq (OB_zero L d ob1V cc0_scratch10.sem (oSet1 L)).symm)
      isplitr [Hso1]
      · iapply (Entails.of_eq (OD_eq L d ob1V (oSet1 L)).symm)
        isplitl [Ho1]; · iexists _; iexact Ho1
        iexists fob1
        iapply (Entails.of_eq (show (((𝕥).loc cc0_scratch6 ↦{fullShare} fob1 : sProp 𝕄)) = ((ob1V).view.loc 𝕥 ↦[(ob1V).view.set]{fullShare} fob1) by rw [hos1])); iexact Hob1
      · iexact Hso1
    iexists _; isplitr
    swap; · iexact HO
    ipureintro; exact owes_ins (W := W) _ (fun p hp => .inl hp)
  iintro %acc HI
  unfold inv
  icases HI with ⟨-, Hib, Hfl0, HxR, ⟨%frm1', Hrm1⟩, ⟨%frw1', Hrw1⟩, Hsg1, HOB0, HOB1, %W', %hW', HO⟩
  have htr : Scf.trips k0_t1_loop.lb k0_t1_loop.ub k0_t1_loop.st ≠ 0 := by decide
  ihave HF0 := (Entails.of_eq (OB_pos L d ob0V cc0_scratch9.sem (oSet0 L) htr)) $$ HOB0
  ihave HF1 := (Entails.of_eq (OB_pos L d ob1V cc0_scratch10.sem (oSet1 L) htr)) $$ HOB1
  sl_exec
  -- the redundant last gather
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GD_eq L d T1 rw0V rm0V (tq w).left)) $$ HD0
  icases HD0' with ⟨⟨%frw0', Hrw0⟩, HxL, ⟨%frm0', Hrm0⟩⟩
  sl_exec
  -- the last two copies out
  iapply (Transfers.wp_waitLocalO EC 𝒱₀ 𝕥 none (default : HIx 1) (credit_o0 _ _ _)) $$ [HF0 HO]
  · isplitl [HF0]; · iexact HF0
    isplitl [HO]; · iexact HO
    iapply (Transfers.MayWaits.elim (SemLoc.dma cc0_scratch9.sem)) $$ Hmw
  iintro ⟨HOD0, Hso0, HO⟩
  have hW' := owes_ins (W := W) (SemLoc.dma cc0_scratch9.sem) hW'
  ihave HOD0' := (Entails.of_eq (OD_eq L d ob0V (oSet0 L))) $$ HOD0
  icases HOD0' with ⟨⟨%fo0, Ho0⟩, ⟨%fob0', Hob0⟩⟩
  sl_exec
  iapply (Transfers.wp_waitLocalO EC 𝒱₀ 𝕥 none (default : HIx 1) (credit_o1 _ _ _)) $$ [HF1 HO]
  · isplitl [HF1]; · iexact HF1
    isplitl [HO]; · iexact HO
    iapply (Transfers.MayWaits.elim (SemLoc.dma cc0_scratch10.sem)) $$ Hmw
  iintro ⟨HOD1, Hso1, HO⟩
  have hW' := owes_ins (W := W) (SemLoc.dma cc0_scratch10.sem) hW'
  ihave HOD1' := (Entails.of_eq (OD_eq L d ob1V (oSet1 L))) $$ HOD1
  icases HOD1' with ⟨⟨%fo1, Ho1⟩, ⟨%fob1', Hob1⟩⟩
  sl_exec
  sl_step
  -- what the task hands back
  isplitl [Hi' HxL HxLr HxR HxRr Ho0 Ho1]
  · isplitl [Hi']; · iexact Hi'
    isplitl [HxL HxLr HxR HxRr]
    · iapply (pointsTo_share (PosShare.mem_left_op_right (tq w))).2
      isplitl [HxL HxLr]
      · iapply (pointsTo_split_subset (q := (tq w).left) (f := T1) (S := Finset.univ) (Finset.subset_univ (xAll).view.set)).2
        isplitl [HxL] <;> iassumption
      · iapply (pointsTo_split_subset (q := (tq w).right) (f := T1) (S := Finset.univ) (Finset.subset_univ (xAll).view.set)).2
        isplitl [HxR] <;> iassumption
    isplitl [Ho0]; · iexists _; iexact Ho0
    iexists _; iexact Ho1
  isplitl [Hib Hrm0 Hrm1 Hrw0 Hrw1 Hob0 Hob1 Hbufs]
  · isplitl [Hib]; · iexists _; iexact Hib
    isplitl [Hrm0]
    · iexists frm0'; iapply (Entails.of_eq (show (((rm0V).view.loc 𝕥 ↦[(rm0V).view.set]{fullShare} frm0' : sProp 𝕄)) = ((𝕥).loc cc0_scratch1 ↦{fullShare} frm0') by rw [hms0])); iexact Hrm0
    isplitl [Hrm1]; · iexists _; iexact Hrm1
    isplitl [Hrw0]
    · iexists frw0'; iapply (Entails.of_eq (show (((rw0V).view.loc 𝕥 ↦[(rw0V).view.set]{fullShare} frw0' : sProp 𝕄)) = ((𝕥).loc cc0_scratch3 ↦{fullShare} frw0') by rw [hrs0])); iexact Hrw0
    isplitl [Hrw1]; · iexists _; iexact Hrw1
    isplitl [Hob0]
    · iexists fob0'; iapply (Entails.of_eq (show (((ob0V).view.loc 𝕥 ↦[(ob0V).view.set]{fullShare} fob0' : sProp 𝕄)) = ((𝕥).loc cc0_scratch5 ↦{fullShare} fob0') by rw [hos0])); iexact Hob0
    isplitl [Hob1]
    · iexists fob1'; iapply (Entails.of_eq (show (((ob1V).view.loc 𝕥 ↦[(ob1V).view.set]{fullShare} fob1' : sProp 𝕄)) = ((𝕥).loc cc0_scratch6 ↦{fullShare} fob1') by rw [hos1])); iexact Hob1
    iexact Hbufs
  isplitl [Hsg0 Hsg1 Hso0 Hso1 Hsr Hsems]
  · isplitl [Hsg0]; · iexact Hsg0
    isplitl [Hsg1]; · iexact Hsg1
    isplitl [Hso0]; · iexact Hso0
    isplitl [Hso1]; · iexact Hso1
    isplitl [Hsr]; · iexact Hsr
    iexact Hsems
  iexists _; isplitr
  · ipureintro; exact hW'
  · iexact HO

end Tile

end Cert.Kernel.Run.Tile

end
-- ==== Proof.BScJoin.lean ====
import proofs.«209176_g73847667688168_cont_9to1_m_420_10_alg».proof.Proof.BScDefs
import proofs.«209176_g73847667688168_cont_9to1_m_420_10_alg».proof.Proof.BScSum
import Idealize.ShloMosaic.Lib.Pipeline.Value

noncomputable section

namespace Cert.Kernel.Run.Tile

open Cert.Kernel Cert.Kernel.Gen Cert.Kernel.Run

open Idealize.ShloMosaic Idealize.ShloMosaic.ValueIdx
open Idealize.ShloMosaic.SparseCore (S V T)
open Idealize.SL Idealize.SL.Sem

variable {F : FTy → Type}

local notation "oV" => (Memref.whole Cert.Kernel.main_v5_scv : Memref Cert.Kernel.sig Kind.scVector Space.hbm Cert.Kernel.S32768x128 EltTy.f32)
local notation "ob0V" => (Memref.whole Cert.Kernel.cc0_scratch5 : Memref Cert.Kernel.sig Kind.scVector Space.vmem Cert.Kernel.S2x128 EltTy.f32)
local notation "ob1V" => (Memref.whole Cert.Kernel.cc0_scratch6 : Memref Cert.Kernel.sig Kind.scVector Space.vmem Cert.Kernel.S2x128 EltTy.f32)

/-! # The result rows of a task, trip by trip

Task `w = 2 * subcore + core` owns rows `1024 w … 1024 w + 1023` of the pooled array. Trip `k` of its rounds loop
writes rows `1024 w + 4 k`, `+ 1` from the first staging buffer and rows `1024 w + 4 k + 2`, `+ 3` from the second.
The rows of different trips are different rows, so a copy-out leaves the earlier trips' rows as they were. -/

variable (L : grid0.Coords)

/-- The task number of a place. -/
def wOf (L : grid0.Coords) : Nat := 2 * (L 1).val + (L 0).val

theorem wOf_lt (L : grid0.Coords) : wOf L < 32 := by
  have h0 : (L 0).val < 2 := (L 0).isLt
  have h1 : (L 1).val < 16 := (L 1).isLt
  unfold wOf; omega

/-- The rounds loop makes 256 trips. -/
theorem jn_trips : k0_t1_loop.trips = 256 := by decide

/-- The rows of the result the first staging buffer's copy-out of trip `k` writes. -/
theorem jn_mem_oS0 (k : Fin k0_t1_loop.trips) (j : S32768x128.Idx) :
    j ∈ oS0 L k ↔ 1024 * wOf L + 4 * k.val ≤ (j 0).val ∧ (j 0).val < 1024 * wOf L + 4 * k.val + 2 := by
  show j ∈ ((View.whole (main_v5_scv : Ref sig .scVector)).slice
      (Rect.unit (s := S32768x128) (k0_off20 L k) S2x128.size (k0_off20_inb L k))).set ↔ _
  rw [View.set_slice_whole, Rect.mem_set_unit, k0_off20_eq]
  unfold wOf
  have h1 : (j 1).val < 128 := (j 1).isLt
  constructor
  · intro h
    have h0 : 2048 * (L 1).val + 1024 * (L 0).val + 4 * k.val ≤ (j 0).val
        ∧ (j 0).val < 2048 * (L 1).val + 1024 * (L 0).val + 4 * k.val + 2 := h (0 : Fin 2)
    omega
  · intro h a
    match a with
    | ⟨0, _⟩ =>
      show 2048 * (L 1).val + 1024 * (L 0).val + 4 * k.val ≤ (j 0).val
        ∧ (j 0).val < 2048 * (L 1).val + 1024 * (L 0).val + 4 * k.val + 2
      omega
    | ⟨1, _⟩ =>
      show 0 ≤ (j 1).val ∧ (j 1).val < 0 + 128
      omega

/-- Where the copy-out of trip `k` puts entry `y` of the staging buffer: row `1024 w + 4 k + y 0`, column `y 1`. -/
theorem jn_emb0 (k : Fin k0_t1_loop.trips) (y : S2x128.Idx) :
    (oSl0 L k).view.emb y = ix2 (⟨1024 * wOf L + 4 * k.val + (y 0).val, by
        have hy0 : (y 0).val < 2 := (y 0).isLt; have := wOf_lt L; have := lt_of_lt_of_eq k.isLt jn_trips; show _ < 32768; omega⟩ : Fin 32768) (y 1) := by
  funext a
  apply Fin.ext
  match a with
  | ⟨0, _⟩ =>
    show (k0_off20 L k) (0 : Fin 2) + 1 * (y 0).val = 1024 * wOf L + 4 * k.val + (y 0).val
    rw [k0_off20_eq]; unfold wOf
    show 2048 * (L 1).val + 1024 * (L 0).val + 4 * k.val + 1 * (y 0).val = _
    omega
  | ⟨1, _⟩ =>
    show (k0_off20 L k) (1 : Fin 2) + 1 * (y 1).val = (y 1).val
    rw [k0_off20_eq]
    show 0 + 1 * (y 1).val = _
    omega

section Step0
variable [FloatOps F] (d : Dev nD)
  (T1 : (⟨2, ![100008, 128]⟩ : Shape).Idx → Elt F .f32) (I4 : (⟨1, ![2097152]⟩ : Shape).Idx → BitVec 32)

/-- ONE COPY-OUT. If the result rows the earlier trips wrote hold the pooled sums, and the staging buffer holds the two
    pooled rows of this trip, then after the copy-out the rows of the trips up to this one hold the pooled sums: the
    copy-out writes its own two rows and leaves every other row alone. -/
theorem out_step0 (k : Fin k0_t1_loop.trips) (fd : Buf (Elt F) (oLoc d)) (X : S2x128.Idx → Elt F .f32)
    (hfd : ∀ k' : Fin k0_t1_loop.trips, k'.val < k.val → ∀ j ∈ oS0 L k', fd j = pvOf T1 I4 j)
    (hob : ∀ (r : Fin 2) (col : Fin 128), X (ix2 r col) = rowSum T1 I4 (⟨1024 * wOf L + 4 * k.val + r.val, by
        have hr0 : r.val < 2 := r.isLt; have := wOf_lt L; have := lt_of_lt_of_eq k.isLt jn_trips; show _ < 32768; omega⟩ : Fin 32768) col) :
    ∀ k' : Fin k0_t1_loop.trips, k'.val < k.val + 1 → ∀ j ∈ oS0 L k',
      ((oSl0 L k).view.write (Elt F) fd X Finset.univ : Buf (Elt F) (oLoc d)) j = pvOf T1 I4 j := by
  intro k' hk' j hj
  by_cases hkk : k'.val = k.val
  · have e : k' = k := Fin.ext hkk
    subst e
    obtain ⟨y, rfl⟩ := View.exists_emb_of_mem_set (oSl0 L k').view (show j ∈ (oSl0 L k').view.set from hj)
    obtain ⟨r, col, rfl⟩ : ∃ (r : Fin 2) (col : Fin 128), y = ix2 r col := ⟨y 0, y 1, eq_ix2 y⟩
    refine (View.write_emb_of_mem (v := (oSl0 L k').view) fd X (Finset.mem_univ _)).trans ?_
    show X (ix2 r col) = pvOf T1 I4 ((oSl0 L k').view.emb (ix2 r col))
    rw [jn_emb0 L k' (ix2 r col)]
    exact (hob r col).trans (pvOf_apply T1 I4 col _).symm
  · have hlt : k'.val < k.val := by omega
    have hnot : j ∉ (oSl0 L k).view.setOn Finset.univ := by
      rw [View.setOn_univ]
      intro hin
      have a := (jn_mem_oS0 L k' j).mp hj
      have b := (jn_mem_oS0 L k j).mp hin
      omega
    rw [View.write_of_not_mem fd X Finset.univ hnot]
    exact hfd k' hlt j hj

/-- ALL THE TRIPS. Once every trip's rows hold the pooled sums, so does the whole family of rows this staging buffer serves. -/
theorem join0 (f : Buf (Elt F) (oLoc d))
    (h : ∀ k' : Fin k0_t1_loop.trips, k'.val < 256 → ∀ j ∈ oS0 L k', f j = pvOf T1 I4 j) :
    ∀ j ∈ oSet0 L, f j = pvOf T1 I4 j := by
  intro j hj
  unfold oSet0 at hj
  obtain ⟨k', -, hk'⟩ := Finset.mem_biUnion.mp hj
  exact h k' (lt_of_lt_of_eq k'.isLt jn_trips) j hk'

end Step0

/-- The rows of the result the second staging buffer's copy-out of trip `k` writes. -/
theorem jn_mem_oS1 (k : Fin k0_t1_loop.trips) (j : S32768x128.Idx) :
    j ∈ oS1 L k ↔ 1024 * wOf L + 4 * k.val + 2 ≤ (j 0).val ∧ (j 0).val < 1024 * wOf L + 4 * k.val + 2 + 2 := by
  show j ∈ ((View.whole (main_v5_scv : Ref sig .scVector)).slice
      (Rect.unit (s := S32768x128) (k0_off39 L k) S2x128.size (k0_off39_inb L k))).set ↔ _
  rw [View.set_slice_whole, Rect.mem_set_unit, k0_off39_eq]
  unfold wOf
  have h1 : (j 1).val < 128 := (j 1).isLt
  constructor
  · intro h
    have h0 : 2048 * (L 1).val + 1024 * (L 0).val + 4 * k.val + 2 ≤ (j 0).val
        ∧ (j 0).val < 2048 * (L 1).val + 1024 * (L 0).val + 4 * k.val + 2 + 2 := h (0 : Fin 2)
    omega
  · intro h a
    match a with
    | ⟨0, _⟩ =>
      show 2048 * (L 1).val + 1024 * (L 0).val + 4 * k.val + 2 ≤ (j 0).val
        ∧ (j 0).val < 2048 * (L 1).val + 1024 * (L 0).val + 4 * k.val + 2 + 2
      omega
    | ⟨1, _⟩ =>
      show 0 ≤ (j 1).val ∧ (j 1).val < 0 + 128
      omega

/-- Where the copy-out of trip `k` puts entry `y` of the staging buffer: row `1024 w + 4 k + 2 + y 0`, column `y 1`. -/
theorem jn_emb1 (k : Fin k0_t1_loop.trips) (y : S2x128.Idx) :
    (oSl1 L k).view.emb y = ix2 (⟨1024 * wOf L + 4 * k.val + 2 + (y 0).val, by
        have hy0 : (y 0).val < 2 := (y 0).isLt; have := wOf_lt L; have := lt_of_lt_of_eq k.isLt jn_trips; show _ < 32768; omega⟩ : Fin 32768) (y 1) := by
  funext a
  apply Fin.ext
  match a with
  | ⟨0, _⟩ =>
    show (k0_off39 L k) (0 : Fin 2) + 1 * (y 0).val = 1024 * wOf L + 4 * k.val + 2 + (y 0).val
    rw [k0_off39_eq]; unfold wOf
    show 2048 * (L 1).val + 1024 * (L 0).val + 4 * k.val + 2 + 1 * (y 0).val = _
    omega
  | ⟨1, _⟩ =>
    show (k0_off39 L k) (1 : Fin 2) + 1 * (y 1).val = (y 1).val
    rw [k0_off39_eq]
    show 0 + 1 * (y 1).val = _
    omega

section Step1
variable [FloatOps F] (d : Dev nD)
  (T1 : (⟨2, ![100008, 128]⟩ : Shape).Idx → Elt F .f32) (I4 : (⟨1, ![2097152]⟩ : Shape).Idx → BitVec 32)

/-- ONE COPY-OUT. If the result rows the earlier trips wrote hold the pooled sums, and the staging buffer holds the two
    pooled rows of this trip, then after the copy-out the rows of the trips up to this one hold the pooled sums: the
    copy-out writes its own two rows and leaves every other row alone. -/
theorem out_step1 (k : Fin k0_t1_loop.trips) (fd : Buf (Elt F) (oLoc d)) (X : S2x128.Idx → Elt F .f32)
    (hfd : ∀ k' : Fin k0_t1_loop.trips, k'.val < k.val → ∀ j ∈ oS1 L k', fd j = pvOf T1 I4 j)
    (hob : ∀ (r : Fin 2) (col : Fin 128), X (ix2 r col) = rowSum T1 I4 (⟨1024 * wOf L + 4 * k.val + 2 + r.val, by
        have hr0 : r.val < 2 := r.isLt; have := wOf_lt L; have := lt_of_lt_of_eq k.isLt jn_trips; show _ < 32768; omega⟩ : Fin 32768) col) :
    ∀ k' : Fin k0_t1_loop.trips, k'.val < k.val + 1 → ∀ j ∈ oS1 L k',
      ((oSl1 L k).view.write (Elt F) fd X Finset.univ : Buf (Elt F) (oLoc d)) j = pvOf T1 I4 j := by
  intro k' hk' j hj
  by_cases hkk : k'.val = k.val
  · have e : k' = k := Fin.ext hkk
    subst e
    obtain ⟨y, rfl⟩ := View.exists_emb_of_mem_set (oSl1 L k').view (show j ∈ (oSl1 L k').view.set from hj)
    obtain ⟨r, col, rfl⟩ : ∃ (r : Fin 2) (col : Fin 128), y = ix2 r col := ⟨y 0, y 1, eq_ix2 y⟩
    refine (View.write_emb_of_mem (v := (oSl1 L k').view) fd X (Finset.mem_univ _)).trans ?_
    show X (ix2 r col) = pvOf T1 I4 ((oSl1 L k').view.emb (ix2 r col))
    rw [jn_emb1 L k' (ix2 r col)]
    exact (hob r col).trans (pvOf_apply T1 I4 col _).symm
  · have hlt : k'.val < k.val := by omega
    have hnot : j ∉ (oSl1 L k).view.setOn Finset.univ := by
      rw [View.setOn_univ]
      intro hin
      have a := (jn_mem_oS1 L k' j).mp hj
      have b := (jn_mem_oS1 L k j).mp hin
      omega
    rw [View.write_of_not_mem fd X Finset.univ hnot]
    exact hfd k' hlt j hj

/-- ALL THE TRIPS. Once every trip's rows hold the pooled sums, so does the whole family of rows this staging buffer serves. -/
theorem join1 (f : Buf (Elt F) (oLoc d))
    (h : ∀ k' : Fin k0_t1_loop.trips, k'.val < 256 → ∀ j ∈ oS1 L k', f j = pvOf T1 I4 j) :
    ∀ j ∈ oSet1 L, f j = pvOf T1 I4 j := by
  intro j hj
  unfold oSet1 at hj
  obtain ⟨k', -, hk'⟩ := Finset.mem_biUnion.mp hj
  exact h k' (lt_of_lt_of_eq k'.isLt jn_trips) j hk'

end Step1

end Cert.Kernel.Run.Tile

end
-- ==== Proof.BScAcc.lean ====
import proofs.«209176_g73847667688168_cont_9to1_m_420_10_alg».proof.Proof.BScSum
import proofs.«209176_g73847667688168_cont_9to1_m_420_10_alg».proof.Proof.Gen.Kernel
import Idealize.ShloMosaic.Lib.ValueIdx
import Idealize.ShloMosaic.Lib.Pipeline.Value
import Idealize.ShloMosaic.Lib.Pipeline.FrameBody

noncomputable section

namespace Cert.Kernel.Run.Tile

open Cert.Kernel Cert.Kernel.Gen
open Idealize.ShloMosaic Idealize.ShloMosaic.ValueIdx Idealize.SL.Sem

variable {F : FTy → Type} [FloatOps F]

/-! # The row loops' arithmetic

A round gathers the 100 table rows its two bags name into a scratch of 100 rows (the first bag's 50, then the second's).
A row loop runs ten trips over one bag; each trip adds five consecutive gathered rows to eight accumulators of 16 lanes
(lane `c` of accumulator `cc` is column `16 cc + c`). After `n` trips an accumulator holds, lane by lane, the sum of
the bag's first `5 n` rows at its column, added up from zero in order. -/

/-- The eight accumulators. -/
abbrev Acc8 (F : FTy → Type) : Type := FVec F S16 .f32 × FVec F S16 .f32 × FVec F S16 .f32 × FVec F S16 .f32 × FVec F S16 .f32 × FVec F S16 .f32 × FVec F S16 .f32 × FVec F S16 .f32

/-- Accumulator `cc` of the eight. -/
def Acc8.get (a : Acc8 F) : Fin 8 → FVec F S16 .f32
  | ⟨0, _⟩ => a.1 | ⟨1, _⟩ => a.2.1 | ⟨2, _⟩ => a.2.2.1 | ⟨3, _⟩ => a.2.2.2.1
  | ⟨4, _⟩ => a.2.2.2.2.1 | ⟨5, _⟩ => a.2.2.2.2.2.1 | ⟨6, _⟩ => a.2.2.2.2.2.2.1 | ⟨7, _⟩ => a.2.2.2.2.2.2.2

/-- The zero accumulator. -/
def zvec : FVec F S16 .f32 := broadcast S16 (Scalar.ofBits (F := F) .f32 0x00000000#32)
def zero8 : Acc8 F := (zvec, zvec, zvec, zvec, zvec, zvec, zvec, zvec)

/-- Sixteen lanes of a gathered row, as the body loads them. -/
abbrev ldc (m : Memref sig .scVector .vmem S100x128 .f32) (f : m.view.ty.Contents (Elt F)) (off : Fin 2 → Nat)
    (inb : ∀ a, off a + S1x16.size a ≤ S100x128.size a) : Vec F S1x16 .f32 :=
  View.readAt (Elt F) m.view (Rect.unit (s := S100x128) off S1x16.size inb).toLoadRect f

/-- One trip's update of one accumulator: five loaded rows added in order. -/
def step5 (a : FVec F S16 .f32) (l0 l1 l2 l3 l4 : Vec F S1x16 .f32) : FVec F S16 .f32 :=
  addf (addf (addf (addf (addf a (shapeCast S16 l0 shapeCasts_S1x16_S16)) (shapeCast S16 l1 shapeCasts_S1x16_S16))
    (shapeCast S16 l2 shapeCasts_S1x16_S16)) (shapeCast S16 l3 shapeCasts_S1x16_S16)) (shapeCast S16 l4 shapeCasts_S1x16_S16)

/-- A loaded chunk, cast to a vector, at a lane: the scratch at the chunk's row and the lane's column. -/
theorem ldc_lane (m : Memref sig .scVector .vmem S100x128 .f32) (f : m.view.ty.Contents (Elt F)) (off : Fin 2 → Nat)
    (inb : ∀ a, off a + S1x16.size a ≤ S100x128.size a) (lane : Fin 16) :
    shapeCast S16 (ldc m f off inb) shapeCasts_S1x16_S16 (ix1 lane)
      = m.view.read (Elt F) f (ix2 (⟨off 0, by have := inb 0; show off 0 < 100; have e : S1x16.size 0 = 1 := rfl; have e' : S100x128.size 0 = 100 := rfl; omega⟩ : Fin 100)
          (⟨off 1 + lane.val, by have := inb 1; have := lane.isLt; show off 1 + lane.val < 128; have e : S1x16.size 1 = 16 := rfl; have e' : S100x128.size 1 = 128 := rfl; omega⟩ : Fin 128)) := by
  refine (shapeCast_apply _ _ (ix1 lane) (ix2 (0 : Fin 1) lane) (by
    rw [Shape.rowMajor_val_one, Shape.rowMajor_val_two]; simp)).trans ?_
  show m.view.read (Elt F) f ((Rect.unit (s := S100x128) off S1x16.size inb).idx (ix2 (0 : Fin 1) lane)) = _
  refine congrArg (m.view.read (Elt F) f) (funext fun a => Fin.ext ?_)
  match a with
  | ⟨0, _⟩ => show off 0 + 1 * 0 = off 0; omega
  | ⟨1, _⟩ => show off 1 + 1 * lane.val = off 1 + lane.val; omega

theorem zvec_lane (lane : Fin 16) : (zvec (F := F)) (ix1 lane) = zeroF := rfl

theorem step5_lane (a : FVec F S16 .f32) (l0 l1 l2 l3 l4 : Vec F S1x16 .f32) (i : S16.Idx) :
    step5 a l0 l1 l2 l3 l4 i
      = FloatOps.addf (FloatOps.addf (FloatOps.addf (FloatOps.addf (FloatOps.addf (a i) (shapeCast S16 l0 shapeCasts_S1x16_S16 i))
          (shapeCast S16 l1 shapeCasts_S1x16_S16 i)) (shapeCast S16 l2 shapeCasts_S1x16_S16 i)) (shapeCast S16 l3 shapeCasts_S1x16_S16 i))
          (shapeCast S16 l4 shapeCasts_S1x16_S16 i) := rfl

/-! ## The row loop over the first bag of a round (offsets `k0_off4` … `k0_off11`) -/

theorem trips2 : k0_t2_loop.trips = 10 := by decide

/-- One trip of the loop, on the eight accumulators. -/
def stepT2 (m : Memref sig .scVector .vmem S100x128 .f32) (f : m.view.ty.Contents (Elt F)) (j : Fin k0_t2_loop.trips) (a : Acc8 F) : Acc8 F :=
  (step5 a.1 (ldc m f (k0_off4 j 0#32) (k0_off4_inb j 0)) (ldc m f (k0_off4 j 1#32) (k0_off4_inb j 1)) (ldc m f (k0_off4 j 2#32) (k0_off4_inb j 2)) (ldc m f (k0_off4 j 3#32) (k0_off4_inb j 3)) (ldc m f (k0_off4 j 4#32) (k0_off4_inb j 4)),
   step5 a.2.1 (ldc m f (k0_off5 j 0#32) (k0_off5_inb j 0)) (ldc m f (k0_off5 j 1#32) (k0_off5_inb j 1)) (ldc m f (k0_off5 j 2#32) (k0_off5_inb j 2)) (ldc m f (k0_off5 j 3#32) (k0_off5_inb j 3)) (ldc m f (k0_off5 j 4#32) (k0_off5_inb j 4)),
   step5 a.2.2.1 (ldc m f (k0_off6 j 0#32) (k0_off6_inb j 0)) (ldc m f (k0_off6 j 1#32) (k0_off6_inb j 1)) (ldc m f (k0_off6 j 2#32) (k0_off6_inb j 2)) (ldc m f (k0_off6 j 3#32) (k0_off6_inb j 3)) (ldc m f (k0_off6 j 4#32) (k0_off6_inb j 4)),
   step5 a.2.2.2.1 (ldc m f (k0_off7 j 0#32) (k0_off7_inb j 0)) (ldc m f (k0_off7 j 1#32) (k0_off7_inb j 1)) (ldc m f (k0_off7 j 2#32) (k0_off7_inb j 2)) (ldc m f (k0_off7 j 3#32) (k0_off7_inb j 3)) (ldc m f (k0_off7 j 4#32) (k0_off7_inb j 4)),
   step5 a.2.2.2.2.1 (ldc m f (k0_off8 j 0#32) (k0_off8_inb j 0)) (ldc m f (k0_off8 j 1#32) (k0_off8_inb j 1)) (ldc m f (k0_off8 j 2#32) (k0_off8_inb j 2)) (ldc m f (k0_off8 j 3#32) (k0_off8_inb j 3)) (ldc m f (k0_off8 j 4#32) (k0_off8_inb j 4)),
   step5 a.2.2.2.2.2.1 (ldc m f (k0_off9 j 0#32) (k0_off9_inb j 0)) (ldc m f (k0_off9 j 1#32) (k0_off9_inb j 1)) (ldc m f (k0_off9 j 2#32) (k0_off9_inb j 2)) (ldc m f (k0_off9 j 3#32) (k0_off9_inb j 3)) (ldc m f (k0_off9 j 4#32) (k0_off9_inb j 4)),
   step5 a.2.2.2.2.2.2.1 (ldc m f (k0_off10 j 0#32) (k0_off10_inb j 0)) (ldc m f (k0_off10 j 1#32) (k0_off10_inb j 1)) (ldc m f (k0_off10 j 2#32) (k0_off10_inb j 2)) (ldc m f (k0_off10 j 3#32) (k0_off10_inb j 3)) (ldc m f (k0_off10 j 4#32) (k0_off10_inb j 4)),
   step5 a.2.2.2.2.2.2.2 (ldc m f (k0_off11 j 0#32) (k0_off11_inb j 0)) (ldc m f (k0_off11 j 1#32) (k0_off11_inb j 1)) (ldc m f (k0_off11 j 2#32) (k0_off11_inb j 2)) (ldc m f (k0_off11 j 3#32) (k0_off11_inb j 3)) (ldc m f (k0_off11 j 4#32) (k0_off11_inb j 4)))

/-- The accumulators after `n` trips. -/
def accsT2 (m : Memref sig .scVector .vmem S100x128 .f32) (f : m.view.ty.Contents (Elt F)) : ℕ → Acc8 F
  | 0 => zero8
  | n + 1 => if h : n < k0_t2_loop.trips then stepT2 m f ⟨n, h⟩ (accsT2 m f n) else accsT2 m f n

theorem accsT2_zero (m : Memref sig .scVector .vmem S100x128 .f32) (f : m.view.ty.Contents (Elt F)) : accsT2 m f 0 = zero8 := rfl

theorem accsT2_succ (m : Memref sig .scVector .vmem S100x128 .f32) (f : m.view.ty.Contents (Elt F)) (j : Fin k0_t2_loop.trips) :
    accsT2 m f (j.val + 1) = stepT2 m f j (accsT2 m f j.val) := by
  show (if h : j.val < k0_t2_loop.trips then stepT2 m f ⟨j.val, h⟩ (accsT2 m f j.val) else accsT2 m f j.val) = _
  rw [dif_pos j.isLt]

/-- A component of one trip's update. -/
theorem stepT2_get (m : Memref sig .scVector .vmem S100x128 .f32) (f : m.view.ty.Contents (Elt F)) (j : Fin k0_t2_loop.trips) (a : Acc8 F) :
    ∀ cc : Fin 8, (stepT2 m f j a).get cc = match cc with
      | ⟨0, _⟩ => step5 (a.get ⟨0, by decide⟩) (ldc m f (k0_off4 j 0#32) (k0_off4_inb j 0)) (ldc m f (k0_off4 j 1#32) (k0_off4_inb j 1)) (ldc m f (k0_off4 j 2#32) (k0_off4_inb j 2)) (ldc m f (k0_off4 j 3#32) (k0_off4_inb j 3)) (ldc m f (k0_off4 j 4#32) (k0_off4_inb j 4))
      | ⟨1, _⟩ => step5 (a.get ⟨1, by decide⟩) (ldc m f (k0_off5 j 0#32) (k0_off5_inb j 0)) (ldc m f (k0_off5 j 1#32) (k0_off5_inb j 1)) (ldc m f (k0_off5 j 2#32) (k0_off5_inb j 2)) (ldc m f (k0_off5 j 3#32) (k0_off5_inb j 3)) (ldc m f (k0_off5 j 4#32) (k0_off5_inb j 4))
      | ⟨2, _⟩ => step5 (a.get ⟨2, by decide⟩) (ldc m f (k0_off6 j 0#32) (k0_off6_inb j 0)) (ldc m f (k0_off6 j 1#32) (k0_off6_inb j 1)) (ldc m f (k0_off6 j 2#32) (k0_off6_inb j 2)) (ldc m f (k0_off6 j 3#32) (k0_off6_inb j 3)) (ldc m f (k0_off6 j 4#32) (k0_off6_inb j 4))
      | ⟨3, _⟩ => step5 (a.get ⟨3, by decide⟩) (ldc m f (k0_off7 j 0#32) (k0_off7_inb j 0)) (ldc m f (k0_off7 j 1#32) (k0_off7_inb j 1)) (ldc m f (k0_off7 j 2#32) (k0_off7_inb j 2)) (ldc m f (k0_off7 j 3#32) (k0_off7_inb j 3)) (ldc m f (k0_off7 j 4#32) (k0_off7_inb j 4))
      | ⟨4, _⟩ => step5 (a.get ⟨4, by decide⟩) (ldc m f (k0_off8 j 0#32) (k0_off8_inb j 0)) (ldc m f (k0_off8 j 1#32) (k0_off8_inb j 1)) (ldc m f (k0_off8 j 2#32) (k0_off8_inb j 2)) (ldc m f (k0_off8 j 3#32) (k0_off8_inb j 3)) (ldc m f (k0_off8 j 4#32) (k0_off8_inb j 4))
      | ⟨5, _⟩ => step5 (a.get ⟨5, by decide⟩) (ldc m f (k0_off9 j 0#32) (k0_off9_inb j 0)) (ldc m f (k0_off9 j 1#32) (k0_off9_inb j 1)) (ldc m f (k0_off9 j 2#32) (k0_off9_inb j 2)) (ldc m f (k0_off9 j 3#32) (k0_off9_inb j 3)) (ldc m f (k0_off9 j 4#32) (k0_off9_inb j 4))
      | ⟨6, _⟩ => step5 (a.get ⟨6, by decide⟩) (ldc m f (k0_off10 j 0#32) (k0_off10_inb j 0)) (ldc m f (k0_off10 j 1#32) (k0_off10_inb j 1)) (ldc m f (k0_off10 j 2#32) (k0_off10_inb j 2)) (ldc m f (k0_off10 j 3#32) (k0_off10_inb j 3)) (ldc m f (k0_off10 j 4#32) (k0_off10_inb j 4))
      | ⟨7, _⟩ => step5 (a.get ⟨7, by decide⟩) (ldc m f (k0_off11 j 0#32) (k0_off11_inb j 0)) (ldc m f (k0_off11 j 1#32) (k0_off11_inb j 1)) (ldc m f (k0_off11 j 2#32) (k0_off11_inb j 2)) (ldc m f (k0_off11 j 3#32) (k0_off11_inb j 3)) (ldc m f (k0_off11 j 4#32) (k0_off11_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u`, column `16 cc + lane`. -/
theorem ld2_lane (m : Memref sig .scVector .vmem S100x128 .f32) (f : m.view.ty.Contents (Elt F)) (j : Fin k0_t2_loop.trips) (u : Fin 5) (lane : Fin 16) :
    ∀ cc : Fin 8, (match cc with
      | ⟨0, _⟩ => shapeCast S16 (ldc m f (k0_off4 j (BitVec.ofNat 32 u.val)) (k0_off4_inb j u)) shapeCasts_S1x16_S16 (ix1 lane)
      | ⟨1, _⟩ => shapeCast S16 (ldc m f (k0_off5 j (BitVec.ofNat 32 u.val)) (k0_off5_inb j u)) shapeCasts_S1x16_S16 (ix1 lane)
      | ⟨2, _⟩ => shapeCast S16 (ldc m f (k0_off6 j (BitVec.ofNat 32 u.val)) (k0_off6_inb j u)) shapeCasts_S1x16_S16 (ix1 lane)
      | ⟨3, _⟩ => shapeCast S16 (ldc m f (k0_off7 j (BitVec.ofNat 32 u.val)) (k0_off7_inb j u)) shapeCasts_S1x16_S16 (ix1 lane)
      | ⟨4, _⟩ => shapeCast S16 (ldc m f (k0_off8 j (BitVec.ofNat 32 u.val)) (k0_off8_inb j u)) shapeCasts_S1x16_S16 (ix1 lane)
      | ⟨5, _⟩ => shapeCast S16 (ldc m f (k0_off9 j (BitVec.ofNat 32 u.val)) (k0_off9_inb j u)) shapeCasts_S1x16_S16 (ix1 lane)
      | ⟨6, _⟩ => shapeCast S16 (ldc m f (k0_off10 j (BitVec.ofNat 32 u.val)) (k0_off10_inb j u)) shapeCasts_S1x16_S16 (ix1 lane)
      | ⟨7, _⟩ => shapeCast S16 (ldc m f (k0_off11 j (BitVec.ofNat 32 u.val)) (k0_off11_inb j u)) shapeCasts_S1x16_S16 (ix1 lane))
      = m.view.read (Elt F) f (ix2 (⟨5 * j.val + u.val, by have := lt_of_lt_of_eq j.isLt trips2; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off4 j (BitVec.ofNat 32 u.val)) 0 = 5 * j.val + u.val; rw [k0_off4_eq j u]; rfl
    | ⟨1, _⟩ => show (k0_off4 j (BitVec.ofNat 32 u.val)) 1 + lane.val = 16 * 0 + lane.val; rw [k0_off4_eq j u]; rfl
  | ⟨1, _⟩ => by
    refine (ldc_lane m f _ _ lane).trans (congrArg (m.view.read (Elt F) f) (funext fun a => Fin.ext ?_))
    match a with
    | ⟨0, _⟩ => show (k0_off5 j (BitVec.ofNat 32 u.val)) 0 = 5 * j.val + u.val; rw [k0_off5_eq j u]; rfl
    | ⟨1, _⟩ => show (k0_off5 j (BitVec.ofNat 32 u.val)) 1 + lane.val = 16 * 1 + lane.val; rw [k0_off5_eq j u]; rfl
  | ⟨2, _⟩ => by
    refine (ldc_lane m f _ _ lane).trans (congrArg (m.view.read (Elt F) f) (funext fun a => Fin.ext ?_))
    match a with
    | ⟨0, _⟩ => show (k0_off6 j (BitVec.ofNat 32 u.val)) 0 = 5 * j.val + u.val; rw [k0_off6_eq j u]; rfl
    | ⟨1, _⟩ => show (k0_off6 j (BitVec.ofNat 32 u.val)) 1 + lane.val = 16 * 2 + lane.val; rw [k0_off6_eq j u]; rfl
  | ⟨3, _⟩ => by
    refine (ldc_lane m f _ _ lane).trans (congrArg (m.view.read (Elt F) f) (funext fun a => Fin.ext ?_))
    match a with
    | ⟨0, _⟩ => show (k0_off7 j (BitVec.ofNat 32 u.val)) 0 = 5 * j.val + u.val; rw [k0_off7_eq j u]; rfl
    | ⟨1, _⟩ => show (k0_off7 j (BitVec.ofNat 32 u.val)) 1 + lane.val = 16 * 3 + lane.val; rw [k0_off7_eq j u]; rfl
  | ⟨4, _⟩ => by
    refine (ldc_lane m f _ _ lane).trans (congrArg (m.view.read (Elt F) f) (funext fun a => Fin.ext ?_))
    match a with
    | ⟨0, _⟩ => show (k0_off8 j (BitVec.ofNat 32 u.val)) 0 = 5 * j.val + u.val; rw [k0_off8_eq j u]; rfl
    | ⟨1, _⟩ => show (k0_off8 j (BitVec.ofNat 32 u.val)) 1 + lane.val = 16 * 4 + lane.val; rw [k0_off8_eq j u]; rfl
  | ⟨5, _⟩ => by
    refine (ldc_lane m f _ _ lane).trans (congrArg (m.view.read (Elt F) f) (funext fun a => Fin.ext ?_))
    match a with
    | ⟨0, _⟩ => show (k0_off9 j (BitVec.ofNat 32 u.val)) 0 = 5 * j.val + u.val; rw [k0_off9_eq j u]; rfl
    | ⟨1, _⟩ => show (k0_off9 j (BitVec.ofNat 32 u.val)) 1 + lane.val = 16 * 5 + lane.val; rw [k0_off9_eq j u]; rfl
  | ⟨6, _⟩ => by
    refine (ldc_lane m f _ _ lane).trans (congrArg (m.view.read (Elt F) f) (funext fun a => Fin.ext ?_))
    match a with
    | ⟨0, _⟩ => show (k0_off10 j (BitVec.ofNat 32 u.val)) 0 = 5 * j.val + u.val; rw [k0_off10_eq j u]; rfl
    | ⟨1, _⟩ => show (k0_off10 j (BitVec.ofNat 32 u.val)) 1 + lane.val = 16 * 6 + lane.val; rw [k0_off10_eq j u]; rfl
  | ⟨7, _⟩ => by
    refine (ldc_lane m f _ _ lane).trans (congrArg (m.view.read (Elt F) f) (funext fun a => Fin.ext ?_))
    match a with
    | ⟨0, _⟩ => show (k0_off11 j (BitVec.ofNat 32 u.val)) 0 = 5 * j.val + u.val; rw [k0_off11_eq j u]; rfl
    | ⟨1, _⟩ => show (k0_off11 j (BitVec.ofNat 32 u.val)) 1 + lane.val = 16 * 7 + lane.val; rw [k0_off11_eq j u]; rfl

/-! ## The row loop over the second bag of a round (offsets `k0_off12` … `k0_off19`) -/

theorem trips3 : k0_t3_loop.trips = 10 := by decide

/-- One trip of the loop, on the eight accumulators. -/
def stepT3 (m : Memref sig .scVector .vmem S100x128 .f32) (f : m.view.ty.Contents (Elt F)) (j : Fin k0_t3_loop.trips) (a : Acc8 F) : Acc8 F :=
  (step5 a.1 (ldc m f (k0_off12 j 0#32) (k0_off12_inb j 0)) (ldc m f (k0_off12 j 1#32) (k0_off12_inb j 1)) (ldc m f (k0_off12 j 2#32) (k0_off12_inb j 2)) (ldc m f (k0_off12 j 3#32) (k0_off12_inb j 3)) (ldc m f (k0_off12 j 4#32) (k0_off12_inb j 4)),
   step5 a.2.1 (ldc m f (k0_off13 j 0#32) (k0_off13_inb j 0)) (ldc m f (k0_off13 j 1#32) (k0_off13_inb j 1)) (ldc m f (k0_off13 j 2#32) (k0_off13_inb j 2)) (ldc m f (k0_off13 j 3#32) (k0_off13_inb j 3)) (ldc m f (k0_off13 j 4#32) (k0_off13_inb j 4)),
   step5 a.2.2.1 (ldc m f (k0_off14 j 0#32) (k0_off14_inb j 0)) (ldc m f (k0_off14 j 1#32) (k0_off14_inb j 1)) (ldc m f (k0_off14 j 2#32) (k0_off14_inb j 2)) (ldc m f (k0_off14 j 3#32) (k0_off14_inb j 3)) (ldc m f (k0_off14 j 4#32) (k0_off14_inb j 4)),
   step5 a.2.2.2.1 (ldc m f (k0_off15 j 0#32) (k0_off15_inb j 0)) (ldc m f (k0_off15 j 1#32) (k0_off15_inb j 1)) (ldc m f (k0_off15 j 2#32) (k0_off15_inb j 2)) (ldc m f (k0_off15 j 3#32) (k0_off15_inb j 3)) (ldc m f (k0_off15 j 4#32) (k0_off15_inb j 4)),
   step5 a.2.2.2.2.1 (ldc m f (k0_off16 j 0#32) (k0_off16_inb j 0)) (ldc m f (k0_off16 j 1#32) (k0_off16_inb j 1)) (ldc m f (k0_off16 j 2#32) (k0_off16_inb j 2)) (ldc m f (k0_off16 j 3#32) (k0_off16_inb j 3)) (ldc m f (k0_off16 j 4#32) (k0_off16_inb j 4)),
   step5 a.2.2.2.2.2.1 (ldc m f (k0_off17 j 0#32) (k0_off17_inb j 0)) (ldc m f (k0_off17 j 1#32) (k0_off17_inb j 1)) (ldc m f (k0_off17 j 2#32) (k0_off17_inb j 2)) (ldc m f (k0_off17 j 3#32) (k0_off17_inb j 3)) (ldc m f (k0_off17 j 4#32) (k0_off17_inb j 4)),
   step5 a.2.2.2.2.2.2.1 (ldc m f (k0_off18 j 0#32) (k0_off18_inb j 0)) (ldc m f (k0_off18 j 1#32) (k0_off18_inb j 1)) (ldc m f (k0_off18 j 2#32) (k0_off18_inb j 2)) (ldc m f (k0_off18 j 3#32) (k0_off18_inb j 3)) (ldc m f (k0_off18 j 4#32) (k0_off18_inb j 4)),
   step5 a.2.2.2.2.2.2.2 (ldc m f (k0_off19 j 0#32) (k0_off19_inb j 0)) (ldc m f (k0_off19 j 1#32) (k0_off19_inb j 1)) (ldc m f (k0_off19 j 2#32) (k0_off19_inb j 2)) (ldc m f (k0_off19 j 3#32) (k0_off19_inb j 3)) (ldc m f (k0_off19 j 4#32) (k0_off19_inb j 4)))

/-- The accumulators after `n` trips. -/
def accsT3 (m : Memref sig .scVector .vmem S100x128 .f32) (f : m.view.ty.Contents (Elt F)) : ℕ → Acc8 F
  | 0 => zero8
  | n + 1 => if h : n < k0_t3_loop.trips then stepT3 m f ⟨n, h⟩ (accsT3 m f n) else accsT3 m f n

theorem accsT3_zero (m : Memref sig .scVector .vmem S100x128 .f32) (f : m.view.ty.Contents (Elt F)) : accsT3 m f 0 = zero8 := rfl

theorem accsT3_succ (m : Memref sig .scVector .vmem S100x128 .f32) (f : m.view.ty.Contents (Elt F)) (j : Fin k0_t3_loop.trips) :
    accsT3 m f (j.val + 1) = stepT3 m f j (accsT3 m f j.val) := by
  show (if h : j.val < k0_t3_loop.trips then stepT3 m f ⟨j.val, h⟩ (accsT3 m f j.val) else accsT3 m f j.val) = _
  rw [dif_pos j.isLt]

/-- A component of one trip's update. -/
theorem stepT3_get (m : Memref sig .scVector .vmem S100x128 .f32) (f : m.view.ty.Contents (Elt F)) (j : Fin k0_t3_loop.trips) (a : Acc8 F) :
    ∀ cc : Fin 8, (stepT3 m f j a).get cc = match cc with
      | ⟨0, _⟩ => step5 (a.get ⟨0, by decide⟩) (ldc m f (k0_off12 j 0#32) (k0_off12_inb j 0)) (ldc m f (k0_off12 j 1#32) (k0_off12_inb j 1)) (ldc m f (k0_off12 j 2#32) (k0_off12_inb j 2)) (ldc m f (k0_off12 j 3#32) (k0_off12_inb j 3)) (ldc m f (k0_off12 j 4#32) (k0_off12_inb j 4))
      | ⟨1, _⟩ => step5 (a.get ⟨1, by decide⟩) (ldc m f (k0_off13 j 0#32) (k0_off13_inb j 0)) (ldc m f (k0_off13 j 1#32) (k0_off13_inb j 1)) (ldc m f (k0_off13 j 2#32) (k0_off13_inb j 2)) (ldc m f (k0_off13 j 3#32) (k0_off13_inb j 3)) (ldc m f (k0_off13 j 4#32) (k0_off13_inb j 4))
      | ⟨2, _⟩ => step5 (a.get ⟨2, by decide⟩) (ldc m f (k0_off14 j 0#32) (k0_off14_inb j 0)) (ldc m f (k0_off14 j 1#32) (k0_off14_inb j 1)) (ldc m f (k0_off14 j 2#32) (k0_off14_inb j 2)) (ldc m f (k0_off14 j 3#32) (k0_off14_inb j 3)) (ldc m f (k0_off14 j 4#32) (k0_off14_inb j 4))
      | ⟨3, _⟩ => step5 (a.get ⟨3, by decide⟩) (ldc m f (k0_off15 j 0#32) (k0_off15_inb j 0)) (ldc m f (k0_off15 j 1#32) (k0_off15_inb j 1)) (ldc m f (k0_off15 j 2#32) (k0_off15_inb j 2)) (ldc m f (k0_off15 j 3#32) (k0_off15_inb j 3)) (ldc m f (k0_off15 j 4#32) (k0_off15_inb j 4))
      | ⟨4, _⟩ => step5 (a.get ⟨4, by decide⟩) (ldc m f (k0_off16 j 0#32) (k0_off16_inb j 0)) (ldc m f (k0_off16 j 1#32) (k0_off16_inb j 1)) (ldc m f (k0_off16 j 2#32) (k0_off16_inb j 2)) (ldc m f (k0_off16 j 3#32) (k0_off16_inb j 3)) (ldc m f (k0_off16 j 4#32) (k0_off16_inb j 4))
      | ⟨5, _⟩ => step5 (a.get ⟨5, by decide⟩) (ldc m f (k0_off17 j 0#32) (k0_off17_inb j 0)) (ldc m f (k0_off17 j 1#32) (k0_off17_inb j 1)) (ldc m f (k0_off17 j 2#32) (k0_off17_inb j 2)) (ldc m f (k0_off17 j 3#32) (k0_off17_inb j 3)) (ldc m f (k0_off17 j 4#32) (k0_off17_inb j 4))
      | ⟨6, _⟩ => step5 (a.get ⟨6, by decide⟩) (ldc m f (k0_off18 j 0#32) (k0_off18_inb j 0)) (ldc m f (k0_off18 j 1#32) (k0_off18_inb j 1)) (ldc m f (k0_off18 j 2#32) (k0_off18_inb j 2)) (ldc m f (k0_off18 j 3#32) (k0_off18_inb j 3)) (ldc m f (k0_off18 j 4#32) (k0_off18_inb j 4))
      | ⟨7, _⟩ => step5 (a.get ⟨7, by decide⟩) (ldc m f (k0_off19 j 0#32) (k0_off19_inb j 0)) (ldc m f (k0_off19 j 1#32) (k0_off19_inb j 1)) (ldc m f (k0_off19 j 2#32) (k0_off19_inb j 2)) (ldc m f (k0_off19 j 3#32) (k0_off19_inb j 3)) (ldc m f (k0_off19 j 4#32) (k0_off19_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u + 50`, column `16 cc + lane`. -/
theorem ld3_lane (m : Memref sig .scVector .vmem S100x128 .f32) (f : m.view.ty.Contents (Elt F)) (j : Fin k0_t3_loop.trips) (u : Fin 5) (lane : Fin 16) :
    ∀ cc : Fin 8, (match cc with
      | ⟨0, _⟩ => shapeCast S16 (ldc m f (k0_off12 j (BitVec.ofNat 32 u.val)) (k0_off12_inb j u)) shapeCasts_S1x16_S16 (ix1 lane)
      | ⟨1, _⟩ => shapeCast S16 (ldc m f (k0_off13 j (BitVec.ofNat 32 u.val)) (k0_off13_inb j u)) shapeCasts_S1x16_S16 (ix1 lane)
      | ⟨2, _⟩ => shapeCast S16 (ldc m f (k0_off14 j (BitVec.ofNat 32 u.val)) (k0_off14_inb j u)) shapeCasts_S1x16_S16 (ix1 lane)
      | ⟨3, _⟩ => shapeCast S16 (ldc m f (k0_off15 j (BitVec.ofNat 32 u.val)) (k0_off15_inb j u)) shapeCasts_S1x16_S16 (ix1 lane)
      | ⟨4, _⟩ => shapeCast S16 (ldc m f (k0_off16 j (BitVec.ofNat 32 u.val)) (k0_off16_inb j u)) shapeCasts_S1x16_S16 (ix1 lane)
      | ⟨5, _⟩ => shapeCast S16 (ldc m f (k0_off17 j (BitVec.ofNat 32 u.val)) (k0_off17_inb j u)) shapeCasts_S1x16_S16 (ix1 lane)
      | ⟨6, _⟩ => shapeCast S16 (ldc m f (k0_off18 j (BitVec.ofNat 32 u.val)) (k0_off18_inb j u)) shapeCasts_S1x16_S16 (ix1 lane)
      | ⟨7, _⟩ => shapeCast S16 (ldc m f (k0_off19 j (BitVec.ofNat 32 u.val)) (k0_off19_inb j u)) shapeCasts_S1x16_S16 (ix1 lane))
      = m.view.read (Elt F) f (ix2 (⟨5 * j.val + u.val + 50, by have := lt_of_lt_of_eq j.isLt trips3; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off12 j (BitVec.ofNat 32 u.val)) 0 = 5 * j.val + u.val + 50; rw [k0_off12_eq j u]; rfl
    | ⟨1, _⟩ => show (k0_off12 j (BitVec.ofNat 32 u.val)) 1 + lane.val = 16 * 0 + lane.val; rw [k0_off12_eq j u]; rfl
  | ⟨1, _⟩ => by
    refine (ldc_lane m f _ _ lane).trans (congrArg (m.view.read (Elt F) f) (funext fun a => Fin.ext ?_))
    match a with
    | ⟨0, _⟩ => show (k0_off13 j (BitVec.ofNat 32 u.val)) 0 = 5 * j.val + u.val + 50; rw [k0_off13_eq j u]; rfl
    | ⟨1, _⟩ => show (k0_off13 j (BitVec.ofNat 32 u.val)) 1 + lane.val = 16 * 1 + lane.val; rw [k0_off13_eq j u]; rfl
  | ⟨2, _⟩ => by
    refine (ldc_lane m f _ _ lane).trans (congrArg (m.view.read (Elt F) f) (funext fun a => Fin.ext ?_))
    match a with
    | ⟨0, _⟩ => show (k0_off14 j (BitVec.ofNat 32 u.val)) 0 = 5 * j.val + u.val + 50; rw [k0_off14_eq j u]; rfl
    | ⟨1, _⟩ => show (k0_off14 j (BitVec.ofNat 32 u.val)) 1 + lane.val = 16 * 2 + lane.val; rw [k0_off14_eq j u]; rfl
  | ⟨3, _⟩ => by
    refine (ldc_lane m f _ _ lane).trans (congrArg (m.view.read (Elt F) f) (funext fun a => Fin.ext ?_))
    match a with
    | ⟨0, _⟩ => show (k0_off15 j (BitVec.ofNat 32 u.val)) 0 = 5 * j.val + u.val + 50; rw [k0_off15_eq j u]; rfl
    | ⟨1, _⟩ => show (k0_off15 j (BitVec.ofNat 32 u.val)) 1 + lane.val = 16 * 3 + lane.val; rw [k0_off15_eq j u]; rfl
  | ⟨4, _⟩ => by
    refine (ldc_lane m f _ _ lane).trans (congrArg (m.view.read (Elt F) f) (funext fun a => Fin.ext ?_))
    match a with
    | ⟨0, _⟩ => show (k0_off16 j (BitVec.ofNat 32 u.val)) 0 = 5 * j.val + u.val + 50; rw [k0_off16_eq j u]; rfl
    | ⟨1, _⟩ => show (k0_off16 j (BitVec.ofNat 32 u.val)) 1 + lane.val = 16 * 4 + lane.val; rw [k0_off16_eq j u]; rfl
  | ⟨5, _⟩ => by
    refine (ldc_lane m f _ _ lane).trans (congrArg (m.view.read (Elt F) f) (funext fun a => Fin.ext ?_))
    match a with
    | ⟨0, _⟩ => show (k0_off17 j (BitVec.ofNat 32 u.val)) 0 = 5 * j.val + u.val + 50; rw [k0_off17_eq j u]; rfl
    | ⟨1, _⟩ => show (k0_off17 j (BitVec.ofNat 32 u.val)) 1 + lane.val = 16 * 5 + lane.val; rw [k0_off17_eq j u]; rfl
  | ⟨6, _⟩ => by
    refine (ldc_lane m f _ _ lane).trans (congrArg (m.view.read (Elt F) f) (funext fun a => Fin.ext ?_))
    match a with
    | ⟨0, _⟩ => show (k0_off18 j (BitVec.ofNat 32 u.val)) 0 = 5 * j.val + u.val + 50; rw [k0_off18_eq j u]; rfl
    | ⟨1, _⟩ => show (k0_off18 j (BitVec.ofNat 32 u.val)) 1 + lane.val = 16 * 6 + lane.val; rw [k0_off18_eq j u]; rfl
  | ⟨7, _⟩ => by
    refine (ldc_lane m f _ _ lane).trans (congrArg (m.view.read (Elt F) f) (funext fun a => Fin.ext ?_))
    match a with
    | ⟨0, _⟩ => show (k0_off19 j (BitVec.ofNat 32 u.val)) 0 = 5 * j.val + u.val + 50; rw [k0_off19_eq j u]; rfl
    | ⟨1, _⟩ => show (k0_off19 j (BitVec.ofNat 32 u.val)) 1 + lane.val = 16 * 7 + lane.val; rw [k0_off19_eq j u]; rfl

/-! ## The row loop over the first bag of a round (offsets `k0_off23` … `k0_off30`) -/

theorem trips4 : k0_t4_loop.trips = 10 := by decide

/-- One trip of the loop, on the eight accumulators. -/
def stepT4 (m : Memref sig .scVector .vmem S100x128 .f32) (f : m.view.ty.Contents (Elt F)) (j : Fin k0_t4_loop.trips) (a : Acc8 F) : Acc8 F :=
  (step5 a.1 (ldc m f (k0_off23 j 0#32) (k0_off23_inb j 0)) (ldc m f (k0_off23 j 1#32) (k0_off23_inb j 1)) (ldc m f (k0_off23 j 2#32) (k0_off23_inb j 2)) (ldc m f (k0_off23 j 3#32) (k0_off23_inb j 3)) (ldc m f (k0_off23 j 4#32) (k0_off23_inb j 4)),
   step5 a.2.1 (ldc m f (k0_off24 j 0#32) (k0_off24_inb j 0)) (ldc m f (k0_off24 j 1#32) (k0_off24_inb j 1)) (ldc m f (k0_off24 j 2#32) (k0_off24_inb j 2)) (ldc m f (k0_off24 j 3#32) (k0_off24_inb j 3)) (ldc m f (k0_off24 j 4#32) (k0_off24_inb j 4)),
   step5 a.2.2.1 (ldc m f (k0_off25 j 0#32) (k0_off25_inb j 0)) (ldc m f (k0_off25 j 1#32) (k0_off25_inb j 1)) (ldc m f (k0_off25 j 2#32) (k0_off25_inb j 2)) (ldc m f (k0_off25 j 3#32) (k0_off25_inb j 3)) (ldc m f (k0_off25 j 4#32) (k0_off25_inb j 4)),
   step5 a.2.2.2.1 (ldc m f (k0_off26 j 0#32) (k0_off26_inb j 0)) (ldc m f (k0_off26 j 1#32) (k0_off26_inb j 1)) (ldc m f (k0_off26 j 2#32) (k0_off26_inb j 2)) (ldc m f (k0_off26 j 3#32) (k0_off26_inb j 3)) (ldc m f (k0_off26 j 4#32) (k0_off26_inb j 4)),
   step5 a.2.2.2.2.1 (ldc m f (k0_off27 j 0#32) (k0_off27_inb j 0)) (ldc m f (k0_off27 j 1#32) (k0_off27_inb j 1)) (ldc m f (k0_off27 j 2#32) (k0_off27_inb j 2)) (ldc m f (k0_off27 j 3#32) (k0_off27_inb j 3)) (ldc m f (k0_off27 j 4#32) (k0_off27_inb j 4)),
   step5 a.2.2.2.2.2.1 (ldc m f (k0_off28 j 0#32) (k0_off28_inb j 0)) (ldc m f (k0_off28 j 1#32) (k0_off28_inb j 1)) (ldc m f (k0_off28 j 2#32) (k0_off28_inb j 2)) (ldc m f (k0_off28 j 3#32) (k0_off28_inb j 3)) (ldc m f (k0_off28 j 4#32) (k0_off28_inb j 4)),
   step5 a.2.2.2.2.2.2.1 (ldc m f (k0_off29 j 0#32) (k0_off29_inb j 0)) (ldc m f (k0_off29 j 1#32) (k0_off29_inb j 1)) (ldc m f (k0_off29 j 2#32) (k0_off29_inb j 2)) (ldc m f (k0_off29 j 3#32) (k0_off29_inb j 3)) (ldc m f (k0_off29 j 4#32) (k0_off29_inb j 4)),
   step5 a.2.2.2.2.2.2.2 (ldc m f (k0_off30 j 0#32) (k0_off30_inb j 0)) (ldc m f (k0_off30 j 1#32) (k0_off30_inb j 1)) (ldc m f (k0_off30 j 2#32) (k0_off30_inb j 2)) (ldc m f (k0_off30 j 3#32) (k0_off30_inb j 3)) (ldc m f (k0_off30 j 4#32) (k0_off30_inb j 4)))

/-- The accumulators after `n` trips. -/
def accsT4 (m : Memref sig .scVector .vmem S100x128 .f32) (f : m.view.ty.Contents (Elt F)) : ℕ → Acc8 F
  | 0 => zero8
  | n + 1 => if h : n < k0_t4_loop.trips then stepT4 m f ⟨n, h⟩ (accsT4 m f n) else accsT4 m f n

theorem accsT4_zero (m : Memref sig .scVector .vmem S100x128 .f32) (f : m.view.ty.Contents (Elt F)) : accsT4 m f 0 = zero8 := rfl

theorem accsT4_succ (m : Memref sig .scVector .vmem S100x128 .f32) (f : m.view.ty.Contents (Elt F)) (j : Fin k0_t4_loop.trips) :
    accsT4 m f (j.val + 1) = stepT4 m f j (accsT4 m f j.val) := by
  show (if h : j.val < k0_t4_loop.trips then stepT4 m f ⟨j.val, h⟩ (accsT4 m f j.val) else accsT4 m f j.val) = _
  rw [dif_pos j.isLt]

/-- A component of one trip's update. -/
theorem stepT4_get (m : Memref sig .scVector .vmem S100x128 .f32) (f : m.view.ty.Contents (Elt F)) (j : Fin k0_t4_loop.trips) (a : Acc8 F) :
    ∀ cc : Fin 8, (stepT4 m f j a).get cc = match cc with
      | ⟨0, _⟩ => step5 (a.get ⟨0, by decide⟩) (ldc m f (k0_off23 j 0#32) (k0_off23_inb j 0)) (ldc m f (k0_off23 j 1#32) (k0_off23_inb j 1)) (ldc m f (k0_off23 j 2#32) (k0_off23_inb j 2)) (ldc m f (k0_off23 j 3#32) (k0_off23_inb j 3)) (ldc m f (k0_off23 j 4#32) (k0_off23_inb j 4))
      | ⟨1, _⟩ => step5 (a.get ⟨1, by decide⟩) (ldc m f (k0_off24 j 0#32) (k0_off24_inb j 0)) (ldc m f (k0_off24 j 1#32) (k0_off24_inb j 1)) (ldc m f (k0_off24 j 2#32) (k0_off24_inb j 2)) (ldc m f (k0_off24 j 3#32) (k0_off24_inb j 3)) (ldc m f (k0_off24 j 4#32) (k0_off24_inb j 4))
      | ⟨2, _⟩ => step5 (a.get ⟨2, by decide⟩) (ldc m f (k0_off25 j 0#32) (k0_off25_inb j 0)) (ldc m f (k0_off25 j 1#32) (k0_off25_inb j 1)) (ldc m f (k0_off25 j 2#32) (k0_off25_inb j 2)) (ldc m f (k0_off25 j 3#32) (k0_off25_inb j 3)) (ldc m f (k0_off25 j 4#32) (k0_off25_inb j 4))
      | ⟨3, _⟩ => step5 (a.get ⟨3, by decide⟩) (ldc m f (k0_off26 j 0#32) (k0_off26_inb j 0)) (ldc m f (k0_off26 j 1#32) (k0_off26_inb j 1)) (ldc m f (k0_off26 j 2#32) (k0_off26_inb j 2)) (ldc m f (k0_off26 j 3#32) (k0_off26_inb j 3)) (ldc m f (k0_off26 j 4#32) (k0_off26_inb j 4))
      | ⟨4, _⟩ => step5 (a.get ⟨4, by decide⟩) (ldc m f (k0_off27 j 0#32) (k0_off27_inb j 0)) (ldc m f (k0_off27 j 1#32) (k0_off27_inb j 1)) (ldc m f (k0_off27 j 2#32) (k0_off27_inb j 2)) (ldc m f (k0_off27 j 3#32) (k0_off27_inb j 3)) (ldc m f (k0_off27 j 4#32) (k0_off27_inb j 4))
      | ⟨5, _⟩ => step5 (a.get ⟨5, by decide⟩) (ldc m f (k0_off28 j 0#32) (k0_off28_inb j 0)) (ldc m f (k0_off28 j 1#32) (k0_off28_inb j 1)) (ldc m f (k0_off28 j 2#32) (k0_off28_inb j 2)) (ldc m f (k0_off28 j 3#32) (k0_off28_inb j 3)) (ldc m f (k0_off28 j 4#32) (k0_off28_inb j 4))
      | ⟨6, _⟩ => step5 (a.get ⟨6, by decide⟩) (ldc m f (k0_off29 j 0#32) (k0_off29_inb j 0)) (ldc m f (k0_off29 j 1#32) (k0_off29_inb j 1)) (ldc m f (k0_off29 j 2#32) (k0_off29_inb j 2)) (ldc m f (k0_off29 j 3#32) (k0_off29_inb j 3)) (ldc m f (k0_off29 j 4#32) (k0_off29_inb j 4))
      | ⟨7, _⟩ => step5 (a.get ⟨7, by decide⟩) (ldc m f (k0_off30 j 0#32) (k0_off30_inb j 0)) (ldc m f (k0_off30 j 1#32) (k0_off30_inb j 1)) (ldc m f (k0_off30 j 2#32) (k0_off30_inb j 2)) (ldc m f (k0_off30 j 3#32) (k0_off30_inb j 3)) (ldc m f (k0_off30 j 4#32) (k0_off30_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u`, column `16 cc + lane`. -/
theorem ld4_lane (m : Memref sig .scVector .vmem S100x128 .f32) (f : m.view.ty.Contents (Elt F)) (j : Fin k0_t4_loop.trips) (u : Fin 5) (lane : Fin 16) :
    ∀ cc : Fin 8, (match cc with
      | ⟨0, _⟩ => shapeCast S16 (ldc m f (k0_off23 j (BitVec.ofNat 32 u.val)) (k0_off23_inb j u)) shapeCasts_S1x16_S16 (ix1 lane)
      | ⟨1, _⟩ => shapeCast S16 (ldc m f (k0_off24 j (BitVec.ofNat 32 u.val)) (k0_off24_inb j u)) shapeCasts_S1x16_S16 (ix1 lane)
      | ⟨2, _⟩ => shapeCast S16 (ldc m f (k0_off25 j (BitVec.ofNat 32 u.val)) (k0_off25_inb j u)) shapeCasts_S1x16_S16 (ix1 lane)
      | ⟨3, _⟩ => shapeCast S16 (ldc m f (k0_off26 j (BitVec.ofNat 32 u.val)) (k0_off26_inb j u)) shapeCasts_S1x16_S16 (ix1 lane)
      | ⟨4, _⟩ => shapeCast S16 (ldc m f (k0_off27 j (BitVec.ofNat 32 u.val)) (k0_off27_inb j u)) shapeCasts_S1x16_S16 (ix1 lane)
      | ⟨5, _⟩ => shapeCast S16 (ldc m f (k0_off28 j (BitVec.ofNat 32 u.val)) (k0_off28_inb j u)) shapeCasts_S1x16_S16 (ix1 lane)
      | ⟨6, _⟩ => shapeCast S16 (ldc m f (k0_off29 j (BitVec.ofNat 32 u.val)) (k0_off29_inb j u)) shapeCasts_S1x16_S16 (ix1 lane)
      | ⟨7, _⟩ => shapeCast S16 (ldc m f (k0_off30 j (BitVec.ofNat 32 u.val)) (k0_off30_inb j u)) shapeCasts_S1x16_S16 (ix1 lane))
      = m.view.read (Elt F) f (ix2 (⟨5 * j.val + u.val, by have := lt_of_lt_of_eq j.isLt trips4; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off23 j (BitVec.ofNat 32 u.val)) 0 = 5 * j.val + u.val; rw [k0_off23_eq j u]; rfl
    | ⟨1, _⟩ => show (k0_off23 j (BitVec.ofNat 32 u.val)) 1 + lane.val = 16 * 0 + lane.val; rw [k0_off23_eq j u]; rfl
  | ⟨1, _⟩ => by
    refine (ldc_lane m f _ _ lane).trans (congrArg (m.view.read (Elt F) f) (funext fun a => Fin.ext ?_))
    match a with
    | ⟨0, _⟩ => show (k0_off24 j (BitVec.ofNat 32 u.val)) 0 = 5 * j.val + u.val; rw [k0_off24_eq j u]; rfl
    | ⟨1, _⟩ => show (k0_off24 j (BitVec.ofNat 32 u.val)) 1 + lane.val = 16 * 1 + lane.val; rw [k0_off24_eq j u]; rfl
  | ⟨2, _⟩ => by
    refine (ldc_lane m f _ _ lane).trans (congrArg (m.view.read (Elt F) f) (funext fun a => Fin.ext ?_))
    match a with
    | ⟨0, _⟩ => show (k0_off25 j (BitVec.ofNat 32 u.val)) 0 = 5 * j.val + u.val; rw [k0_off25_eq j u]; rfl
    | ⟨1, _⟩ => show (k0_off25 j (BitVec.ofNat 32 u.val)) 1 + lane.val = 16 * 2 + lane.val; rw [k0_off25_eq j u]; rfl
  | ⟨3, _⟩ => by
    refine (ldc_lane m f _ _ lane).trans (congrArg (m.view.read (Elt F) f) (funext fun a => Fin.ext ?_))
    match a with
    | ⟨0, _⟩ => show (k0_off26 j (BitVec.ofNat 32 u.val)) 0 = 5 * j.val + u.val; rw [k0_off26_eq j u]; rfl
    | ⟨1, _⟩ => show (k0_off26 j (BitVec.ofNat 32 u.val)) 1 + lane.val = 16 * 3 + lane.val; rw [k0_off26_eq j u]; rfl
  | ⟨4, _⟩ => by
    refine (ldc_lane m f _ _ lane).trans (congrArg (m.view.read (Elt F) f) (funext fun a => Fin.ext ?_))
    match a with
    | ⟨0, _⟩ => show (k0_off27 j (BitVec.ofNat 32 u.val)) 0 = 5 * j.val + u.val; rw [k0_off27_eq j u]; rfl
    | ⟨1, _⟩ => show (k0_off27 j (BitVec.ofNat 32 u.val)) 1 + lane.val = 16 * 4 + lane.val; rw [k0_off27_eq j u]; rfl
  | ⟨5, _⟩ => by
    refine (ldc_lane m f _ _ lane).trans (congrArg (m.view.read (Elt F) f) (funext fun a => Fin.ext ?_))
    match a with
    | ⟨0, _⟩ => show (k0_off28 j (BitVec.ofNat 32 u.val)) 0 = 5 * j.val + u.val; rw [k0_off28_eq j u]; rfl
    | ⟨1, _⟩ => show (k0_off28 j (BitVec.ofNat 32 u.val)) 1 + lane.val = 16 * 5 + lane.val; rw [k0_off28_eq j u]; rfl
  | ⟨6, _⟩ => by
    refine (ldc_lane m f _ _ lane).trans (congrArg (m.view.read (Elt F) f) (funext fun a => Fin.ext ?_))
    match a with
    | ⟨0, _⟩ => show (k0_off29 j (BitVec.ofNat 32 u.val)) 0 = 5 * j.val + u.val; rw [k0_off29_eq j u]; rfl
    | ⟨1, _⟩ => show (k0_off29 j (BitVec.ofNat 32 u.val)) 1 + lane.val = 16 * 6 + lane.val; rw [k0_off29_eq j u]; rfl
  | ⟨7, _⟩ => by
    refine (ldc_lane m f _ _ lane).trans (congrArg (m.view.read (Elt F) f) (funext fun a => Fin.ext ?_))
    match a with
    | ⟨0, _⟩ => show (k0_off30 j (BitVec.ofNat 32 u.val)) 0 = 5 * j.val + u.val; rw [k0_off30_eq j u]; rfl
    | ⟨1, _⟩ => show (k0_off30 j (BitVec.ofNat 32 u.val)) 1 + lane.val = 16 * 7 + lane.val; rw [k0_off30_eq j u]; rfl

/-! ## The row loop over the second bag of a round (offsets `k0_off31` … `k0_off38`) -/

theorem trips5 : k0_t5_loop.trips = 10 := by decide

/-- One trip of the loop, on the eight accumulators. -/
def stepT5 (m : Memref sig .scVector .vmem S100x128 .f32) (f : m.view.ty.Contents (Elt F)) (j : Fin k0_t5_loop.trips) (a : Acc8 F) : Acc8 F :=
  (step5 a.1 (ldc m f (k0_off31 j 0#32) (k0_off31_inb j 0)) (ldc m f (k0_off31 j 1#32) (k0_off31_inb j 1)) (ldc m f (k0_off31 j 2#32) (k0_off31_inb j 2)) (ldc m f (k0_off31 j 3#32) (k0_off31_inb j 3)) (ldc m f (k0_off31 j 4#32) (k0_off31_inb j 4)),
   step5 a.2.1 (ldc m f (k0_off32 j 0#32) (k0_off32_inb j 0)) (ldc m f (k0_off32 j 1#32) (k0_off32_inb j 1)) (ldc m f (k0_off32 j 2#32) (k0_off32_inb j 2)) (ldc m f (k0_off32 j 3#32) (k0_off32_inb j 3)) (ldc m f (k0_off32 j 4#32) (k0_off32_inb j 4)),
   step5 a.2.2.1 (ldc m f (k0_off33 j 0#32) (k0_off33_inb j 0)) (ldc m f (k0_off33 j 1#32) (k0_off33_inb j 1)) (ldc m f (k0_off33 j 2#32) (k0_off33_inb j 2)) (ldc m f (k0_off33 j 3#32) (k0_off33_inb j 3)) (ldc m f (k0_off33 j 4#32) (k0_off33_inb j 4)),
   step5 a.2.2.2.1 (ldc m f (k0_off34 j 0#32) (k0_off34_inb j 0)) (ldc m f (k0_off34 j 1#32) (k0_off34_inb j 1)) (ldc m f (k0_off34 j 2#32) (k0_off34_inb j 2)) (ldc m f (k0_off34 j 3#32) (k0_off34_inb j 3)) (ldc m f (k0_off34 j 4#32) (k0_off34_inb j 4)),
   step5 a.2.2.2.2.1 (ldc m f (k0_off35 j 0#32) (k0_off35_inb j 0)) (ldc m f (k0_off35 j 1#32) (k0_off35_inb j 1)) (ldc m f (k0_off35 j 2#32) (k0_off35_inb j 2)) (ldc m f (k0_off35 j 3#32) (k0_off35_inb j 3)) (ldc m f (k0_off35 j 4#32) (k0_off35_inb j 4)),
   step5 a.2.2.2.2.2.1 (ldc m f (k0_off36 j 0#32) (k0_off36_inb j 0)) (ldc m f (k0_off36 j 1#32) (k0_off36_inb j 1)) (ldc m f (k0_off36 j 2#32) (k0_off36_inb j 2)) (ldc m f (k0_off36 j 3#32) (k0_off36_inb j 3)) (ldc m f (k0_off36 j 4#32) (k0_off36_inb j 4)),
   step5 a.2.2.2.2.2.2.1 (ldc m f (k0_off37 j 0#32) (k0_off37_inb j 0)) (ldc m f (k0_off37 j 1#32) (k0_off37_inb j 1)) (ldc m f (k0_off37 j 2#32) (k0_off37_inb j 2)) (ldc m f (k0_off37 j 3#32) (k0_off37_inb j 3)) (ldc m f (k0_off37 j 4#32) (k0_off37_inb j 4)),
   step5 a.2.2.2.2.2.2.2 (ldc m f (k0_off38 j 0#32) (k0_off38_inb j 0)) (ldc m f (k0_off38 j 1#32) (k0_off38_inb j 1)) (ldc m f (k0_off38 j 2#32) (k0_off38_inb j 2)) (ldc m f (k0_off38 j 3#32) (k0_off38_inb j 3)) (ldc m f (k0_off38 j 4#32) (k0_off38_inb j 4)))

/-- The accumulators after `n` trips. -/
def accsT5 (m : Memref sig .scVector .vmem S100x128 .f32) (f : m.view.ty.Contents (Elt F)) : ℕ → Acc8 F
  | 0 => zero8
  | n + 1 => if h : n < k0_t5_loop.trips then stepT5 m f ⟨n, h⟩ (accsT5 m f n) else accsT5 m f n

theorem accsT5_zero (m : Memref sig .scVector .vmem S100x128 .f32) (f : m.view.ty.Contents (Elt F)) : accsT5 m f 0 = zero8 := rfl

theorem accsT5_succ (m : Memref sig .scVector .vmem S100x128 .f32) (f : m.view.ty.Contents (Elt F)) (j : Fin k0_t5_loop.trips) :
    accsT5 m f (j.val + 1) = stepT5 m f j (accsT5 m f j.val) := by
  show (if h : j.val < k0_t5_loop.trips then stepT5 m f ⟨j.val, h⟩ (accsT5 m f j.val) else accsT5 m f j.val) = _
  rw [dif_pos j.isLt]

/-- A component of one trip's update. -/
theorem stepT5_get (m : Memref sig .scVector .vmem S100x128 .f32) (f : m.view.ty.Contents (Elt F)) (j : Fin k0_t5_loop.trips) (a : Acc8 F) :
    ∀ cc : Fin 8, (stepT5 m f j a).get cc = match cc with
      | ⟨0, _⟩ => step5 (a.get ⟨0, by decide⟩) (ldc m f (k0_off31 j 0#32) (k0_off31_inb j 0)) (ldc m f (k0_off31 j 1#32) (k0_off31_inb j 1)) (ldc m f (k0_off31 j 2#32) (k0_off31_inb j 2)) (ldc m f (k0_off31 j 3#32) (k0_off31_inb j 3)) (ldc m f (k0_off31 j 4#32) (k0_off31_inb j 4))
      | ⟨1, _⟩ => step5 (a.get ⟨1, by decide⟩) (ldc m f (k0_off32 j 0#32) (k0_off32_inb j 0)) (ldc m f (k0_off32 j 1#32) (k0_off32_inb j 1)) (ldc m f (k0_off32 j 2#32) (k0_off32_inb j 2)) (ldc m f (k0_off32 j 3#32) (k0_off32_inb j 3)) (ldc m f (k0_off32 j 4#32) (k0_off32_inb j 4))
      | ⟨2, _⟩ => step5 (a.get ⟨2, by decide⟩) (ldc m f (k0_off33 j 0#32) (k0_off33_inb j 0)) (ldc m f (k0_off33 j 1#32) (k0_off33_inb j 1)) (ldc m f (k0_off33 j 2#32) (k0_off33_inb j 2)) (ldc m f (k0_off33 j 3#32) (k0_off33_inb j 3)) (ldc m f (k0_off33 j 4#32) (k0_off33_inb j 4))
      | ⟨3, _⟩ => step5 (a.get ⟨3, by decide⟩) (ldc m f (k0_off34 j 0#32) (k0_off34_inb j 0)) (ldc m f (k0_off34 j 1#32) (k0_off34_inb j 1)) (ldc m f (k0_off34 j 2#32) (k0_off34_inb j 2)) (ldc m f (k0_off34 j 3#32) (k0_off34_inb j 3)) (ldc m f (k0_off34 j 4#32) (k0_off34_inb j 4))
      | ⟨4, _⟩ => step5 (a.get ⟨4, by decide⟩) (ldc m f (k0_off35 j 0#32) (k0_off35_inb j 0)) (ldc m f (k0_off35 j 1#32) (k0_off35_inb j 1)) (ldc m f (k0_off35 j 2#32) (k0_off35_inb j 2)) (ldc m f (k0_off35 j 3#32) (k0_off35_inb j 3)) (ldc m f (k0_off35 j 4#32) (k0_off35_inb j 4))
      | ⟨5, _⟩ => step5 (a.get ⟨5, by decide⟩) (ldc m f (k0_off36 j 0#32) (k0_off36_inb j 0)) (ldc m f (k0_off36 j 1#32) (k0_off36_inb j 1)) (ldc m f (k0_off36 j 2#32) (k0_off36_inb j 2)) (ldc m f (k0_off36 j 3#32) (k0_off36_inb j 3)) (ldc m f (k0_off36 j 4#32) (k0_off36_inb j 4))
      | ⟨6, _⟩ => step5 (a.get ⟨6, by decide⟩) (ldc m f (k0_off37 j 0#32) (k0_off37_inb j 0)) (ldc m f (k0_off37 j 1#32) (k0_off37_inb j 1)) (ldc m f (k0_off37 j 2#32) (k0_off37_inb j 2)) (ldc m f (k0_off37 j 3#32) (k0_off37_inb j 3)) (ldc m f (k0_off37 j 4#32) (k0_off37_inb j 4))
      | ⟨7, _⟩ => step5 (a.get ⟨7, by decide⟩) (ldc m f (k0_off38 j 0#32) (k0_off38_inb j 0)) (ldc m f (k0_off38 j 1#32) (k0_off38_inb j 1)) (ldc m f (k0_off38 j 2#32) (k0_off38_inb j 2)) (ldc m f (k0_off38 j 3#32) (k0_off38_inb j 3)) (ldc m f (k0_off38 j 4#32) (k0_off38_inb j 4))
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A loaded chunk of this loop at a lane: the scratch at row `5 j + u + 50`, column `16 cc + lane`. -/
theorem ld5_lane (m : Memref sig .scVector .vmem S100x128 .f32) (f : m.view.ty.Contents (Elt F)) (j : Fin k0_t5_loop.trips) (u : Fin 5) (lane : Fin 16) :
    ∀ cc : Fin 8, (match cc with
      | ⟨0, _⟩ => shapeCast S16 (ldc m f (k0_off31 j (BitVec.ofNat 32 u.val)) (k0_off31_inb j u)) shapeCasts_S1x16_S16 (ix1 lane)
      | ⟨1, _⟩ => shapeCast S16 (ldc m f (k0_off32 j (BitVec.ofNat 32 u.val)) (k0_off32_inb j u)) shapeCasts_S1x16_S16 (ix1 lane)
      | ⟨2, _⟩ => shapeCast S16 (ldc m f (k0_off33 j (BitVec.ofNat 32 u.val)) (k0_off33_inb j u)) shapeCasts_S1x16_S16 (ix1 lane)
      | ⟨3, _⟩ => shapeCast S16 (ldc m f (k0_off34 j (BitVec.ofNat 32 u.val)) (k0_off34_inb j u)) shapeCasts_S1x16_S16 (ix1 lane)
      | ⟨4, _⟩ => shapeCast S16 (ldc m f (k0_off35 j (BitVec.ofNat 32 u.val)) (k0_off35_inb j u)) shapeCasts_S1x16_S16 (ix1 lane)
      | ⟨5, _⟩ => shapeCast S16 (ldc m f (k0_off36 j (BitVec.ofNat 32 u.val)) (k0_off36_inb j u)) shapeCasts_S1x16_S16 (ix1 lane)
      | ⟨6, _⟩ => shapeCast S16 (ldc m f (k0_off37 j (BitVec.ofNat 32 u.val)) (k0_off37_inb j u)) shapeCasts_S1x16_S16 (ix1 lane)
      | ⟨7, _⟩ => shapeCast S16 (ldc m f (k0_off38 j (BitVec.ofNat 32 u.val)) (k0_off38_inb j u)) shapeCasts_S1x16_S16 (ix1 lane))
      = m.view.read (Elt F) f (ix2 (⟨5 * j.val + u.val + 50, by have := lt_of_lt_of_eq j.isLt trips5; have := u.isLt; omega⟩ : Fin 100)
          (⟨16 * cc.val + lane.val, by have := cc.isLt; have := lane.isLt; omega⟩ : Fin 128))
  | ⟨0, _⟩ => by
    refine (ldc_lane m f _ _ lane).trans (congrArg (m.view.read (Elt F) f) (funext fun a => Fin.ext ?_))
    match a with
    | ⟨0, _⟩ => show (k0_off31 j (BitVec.ofNat 32 u.val)) 0 = 5 * j.val + u.val + 50; rw [k0_off31_eq j u]; rfl
    | ⟨1, _⟩ => show (k0_off31 j (BitVec.ofNat 32 u.val)) 1 + lane.val = 16 * 0 + lane.val; rw [k0_off31_eq j u]; rfl
  | ⟨1, _⟩ => by
    refine (ldc_lane m f _ _ lane).trans (congrArg (m.view.read (Elt F) f) (funext fun a => Fin.ext ?_))
    match a with
    | ⟨0, _⟩ => show (k0_off32 j (BitVec.ofNat 32 u.val)) 0 = 5 * j.val + u.val + 50; rw [k0_off32_eq j u]; rfl
    | ⟨1, _⟩ => show (k0_off32 j (BitVec.ofNat 32 u.val)) 1 + lane.val = 16 * 1 + lane.val; rw [k0_off32_eq j u]; rfl
  | ⟨2, _⟩ => by
    refine (ldc_lane m f _ _ lane).trans (congrArg (m.view.read (Elt F) f) (funext fun a => Fin.ext ?_))
    match a with
    | ⟨0, _⟩ => show (k0_off33 j (BitVec.ofNat 32 u.val)) 0 = 5 * j.val + u.val + 50; rw [k0_off33_eq j u]; rfl
    | ⟨1, _⟩ => show (k0_off33 j (BitVec.ofNat 32 u.val)) 1 + lane.val = 16 * 2 + lane.val; rw [k0_off33_eq j u]; rfl
  | ⟨3, _⟩ => by
    refine (ldc_lane m f _ _ lane).trans (congrArg (m.view.read (Elt F) f) (funext fun a => Fin.ext ?_))
    match a with
    | ⟨0, _⟩ => show (k0_off34 j (BitVec.ofNat 32 u.val)) 0 = 5 * j.val + u.val + 50; rw [k0_off34_eq j u]; rfl
    | ⟨1, _⟩ => show (k0_off34 j (BitVec.ofNat 32 u.val)) 1 + lane.val = 16 * 3 + lane.val; rw [k0_off34_eq j u]; rfl
  | ⟨4, _⟩ => by
    refine (ldc_lane m f _ _ lane).trans (congrArg (m.view.read (Elt F) f) (funext fun a => Fin.ext ?_))
    match a with
    | ⟨0, _⟩ => show (k0_off35 j (BitVec.ofNat 32 u.val)) 0 = 5 * j.val + u.val + 50; rw [k0_off35_eq j u]; rfl
    | ⟨1, _⟩ => show (k0_off35 j (BitVec.ofNat 32 u.val)) 1 + lane.val = 16 * 4 + lane.val; rw [k0_off35_eq j u]; rfl
  | ⟨5, _⟩ => by
    refine (ldc_lane m f _ _ lane).trans (congrArg (m.view.read (Elt F) f) (funext fun a => Fin.ext ?_))
    match a with
    | ⟨0, _⟩ => show (k0_off36 j (BitVec.ofNat 32 u.val)) 0 = 5 * j.val + u.val + 50; rw [k0_off36_eq j u]; rfl
    | ⟨1, _⟩ => show (k0_off36 j (BitVec.ofNat 32 u.val)) 1 + lane.val = 16 * 5 + lane.val; rw [k0_off36_eq j u]; rfl
  | ⟨6, _⟩ => by
    refine (ldc_lane m f _ _ lane).trans (congrArg (m.view.read (Elt F) f) (funext fun a => Fin.ext ?_))
    match a with
    | ⟨0, _⟩ => show (k0_off37 j (BitVec.ofNat 32 u.val)) 0 = 5 * j.val + u.val + 50; rw [k0_off37_eq j u]; rfl
    | ⟨1, _⟩ => show (k0_off37 j (BitVec.ofNat 32 u.val)) 1 + lane.val = 16 * 6 + lane.val; rw [k0_off37_eq j u]; rfl
  | ⟨7, _⟩ => by
    refine (ldc_lane m f _ _ lane).trans (congrArg (m.view.read (Elt F) f) (funext fun a => Fin.ext ?_))
    match a with
    | ⟨0, _⟩ => show (k0_off38 j (BitVec.ofNat 32 u.val)) 0 = 5 * j.val + u.val + 50; rw [k0_off38_eq j u]; rfl
    | ⟨1, _⟩ => show (k0_off38 j (BitVec.ofNat 32 u.val)) 1 + lane.val = 16 * 7 + lane.val; rw [k0_off38_eq j u]; rfl

end Cert.Kernel.Run.Tile

end
-- ==== Proof.BScAccLane.lean ====
import proofs.«209176_g73847667688168_cont_9to1_m_420_10_alg».proof.Proof.BScAcc

noncomputable section

namespace Cert.Kernel.Run.Tile

open Cert.Kernel Cert.Kernel.Gen
open Idealize.ShloMosaic Idealize.ShloMosaic.ValueIdx Idealize.SL.Sem

variable {F : FTy → Type} [FloatOps F]

/-! # The accumulators, lane by lane, are the pooled sum's prefixes

Given that the scratch's rows are the table rows the bag's words name, accumulator `cc` after `n` trips holds at lane
`c` the sum of the bag's first `5 n` rows at column `16 cc + c`, added up from zero in order. -/

theorem ldo4_lane (m : Memref sig .scVector .vmem S100x128 .f32) (f : m.view.ty.Contents (Elt F)) (j : Fin k0_t2_loop.trips) (u : Fin 5) (lane : Fin 16) :
    shapeCast S16 (ldc m f (k0_off4 j (BitVec.ofNat 32 u.val)) (k0_off4_inb j u)) shapeCasts_S1x16_S16 (ix1 lane)
      = m.view.read (Elt F) f (ix2 (⟨5 * j.val + u.val, by have := lt_of_lt_of_eq j.isLt trips2; have := u.isLt; omega⟩ : Fin 100)
          (⟨16 * 0 + lane.val, by have := lane.isLt; omega⟩ : Fin 128)) :=
  ld2_lane m f j u lane ⟨0, by decide⟩

theorem ldo5_lane (m : Memref sig .scVector .vmem S100x128 .f32) (f : m.view.ty.Contents (Elt F)) (j : Fin k0_t2_loop.trips) (u : Fin 5) (lane : Fin 16) :
    shapeCast S16 (ldc m f (k0_off5 j (BitVec.ofNat 32 u.val)) (k0_off5_inb j u)) shapeCasts_S1x16_S16 (ix1 lane)
      = m.view.read (Elt F) f (ix2 (⟨5 * j.val + u.val, by have := lt_of_lt_of_eq j.isLt trips2; have := u.isLt; omega⟩ : Fin 100)
          (⟨16 * 1 + lane.val, by have := lane.isLt; omega⟩ : Fin 128)) :=
  ld2_lane m f j u lane ⟨1, by decide⟩

theorem ldo6_lane (m : Memref sig .scVector .vmem S100x128 .f32) (f : m.view.ty.Contents (Elt F)) (j : Fin k0_t2_loop.trips) (u : Fin 5) (lane : Fin 16) :
    shapeCast S16 (ldc m f (k0_off6 j (BitVec.ofNat 32 u.val)) (k0_off6_inb j u)) shapeCasts_S1x16_S16 (ix1 lane)
      = m.view.read (Elt F) f (ix2 (⟨5 * j.val + u.val, by have := lt_of_lt_of_eq j.isLt trips2; have := u.isLt; omega⟩ : Fin 100)
          (⟨16 * 2 + lane.val, by have := lane.isLt; omega⟩ : Fin 128)) :=
  ld2_lane m f j u lane ⟨2, by decide⟩

theorem ldo7_lane (m : Memref sig .scVector .vmem S100x128 .f32) (f : m.view.ty.Contents (Elt F)) (j : Fin k0_t2_loop.trips) (u : Fin 5) (lane : Fin 16) :
    shapeCast S16 (ldc m f (k0_off7 j (BitVec.ofNat 32 u.val)) (k0_off7_inb j u)) shapeCasts_S1x16_S16 (ix1 lane)
      = m.view.read (Elt F) f (ix2 (⟨5 * j.val + u.val, by have := lt_of_lt_of_eq j.isLt trips2; have := u.isLt; omega⟩ : Fin 100)
          (⟨16 * 3 + lane.val, by have := lane.isLt; omega⟩ : Fin 128)) :=
  ld2_lane m f j u lane ⟨3, by decide⟩

theorem ldo8_lane (m : Memref sig .scVector .vmem S100x128 .f32) (f : m.view.ty.Contents (Elt F)) (j : Fin k0_t2_loop.trips) (u : Fin 5) (lane : Fin 16) :
    shapeCast S16 (ldc m f (k0_off8 j (BitVec.ofNat 32 u.val)) (k0_off8_inb j u)) shapeCasts_S1x16_S16 (ix1 lane)
      = m.view.read (Elt F) f (ix2 (⟨5 * j.val + u.val, by have := lt_of_lt_of_eq j.isLt trips2; have := u.isLt; omega⟩ : Fin 100)
          (⟨16 * 4 + lane.val, by have := lane.isLt; omega⟩ : Fin 128)) :=
  ld2_lane m f j u lane ⟨4, by decide⟩

theorem ldo9_lane (m : Memref sig .scVector .vmem S100x128 .f32) (f : m.view.ty.Contents (Elt F)) (j : Fin k0_t2_loop.trips) (u : Fin 5) (lane : Fin 16) :
    shapeCast S16 (ldc m f (k0_off9 j (BitVec.ofNat 32 u.val)) (k0_off9_inb j u)) shapeCasts_S1x16_S16 (ix1 lane)
      = m.view.read (Elt F) f (ix2 (⟨5 * j.val + u.val, by have := lt_of_lt_of_eq j.isLt trips2; have := u.isLt; omega⟩ : Fin 100)
          (⟨16 * 5 + lane.val, by have := lane.isLt; omega⟩ : Fin 128)) :=
  ld2_lane m f j u lane ⟨5, by decide⟩

theorem ldo10_lane (m : Memref sig .scVector .vmem S100x128 .f32) (f : m.view.ty.Contents (Elt F)) (j : Fin k0_t2_loop.trips) (u : Fin 5) (lane : Fin 16) :
    shapeCast S16 (ldc m f (k0_off10 j (BitVec.ofNat 32 u.val)) (k0_off10_inb j u)) shapeCasts_S1x16_S16 (ix1 lane)
      = m.view.read (Elt F) f (ix2 (⟨5 * j.val + u.val, by have := lt_of_lt_of_eq j.isLt trips2; have := u.isLt; omega⟩ : Fin 100)
          (⟨16 * 6 + lane.val, by have := lane.isLt; omega⟩ : Fin 128)) :=
  ld2_lane m f j u lane ⟨6, by decide⟩

theorem ldo11_lane (m : Memref sig .scVector .vmem S100x128 .f32) (f : m.view.ty.Contents (Elt F)) (j : Fin k0_t2_loop.trips) (u : Fin 5) (lane : Fin 16) :
    shapeCast S16 (ldc m f (k0_off11 j (BitVec.ofNat 32 u.val)) (k0_off11_inb j u)) shapeCasts_S1x16_S16 (ix1 lane)
      = m.view.read (Elt F) f (ix2 (⟨5 * j.val + u.val, by have := lt_of_lt_of_eq j.isLt trips2; have := u.isLt; omega⟩ : Fin 100)
          (⟨16 * 7 + lane.val, by have := lane.isLt; omega⟩ : Fin 128)) :=
  ld2_lane m f j u lane ⟨7, by decide⟩

section Loop2
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n, by omega⟩ : Fin 100) col)
      = trow T1 (remapW (I4 (ix1 (⟨64 * t.val + n, flat_lt t n hn⟩ : Fin 2097152)))) col)
include hG

theorem accsT2_lane_0 : ∀ (n : Nat) (h : n ≤ 10) (lane : Fin 16),
    (accsT2 m f n).1 (ix1 lane)
      = rowPre T1 I4 t (⟨16 * 0 + lane.val, by have := lane.isLt; omega⟩ : Fin 128) (5 * n) (by omega)
  | 0, h, lane => rfl
  | n + 1, h, lane => by
    have hj : n < k0_t2_loop.trips := by rw [trips2]; omega
    have ih := accsT2_lane_0 n (by omega) lane
    have e0 : shapeCast S16 (ldc m f (k0_off4 ⟨n, hj⟩ 0#32) (k0_off4_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo4_lane m f ⟨n, hj⟩ (0 : Fin 5) lane).trans (hG (5 * n + 0) (by omega) _)
    have e1 : shapeCast S16 (ldc m f (k0_off4 ⟨n, hj⟩ 1#32) (k0_off4_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo4_lane m f ⟨n, hj⟩ (1 : Fin 5) lane).trans (hG (5 * n + 1) (by omega) _)
    have e2 : shapeCast S16 (ldc m f (k0_off4 ⟨n, hj⟩ 2#32) (k0_off4_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo4_lane m f ⟨n, hj⟩ (2 : Fin 5) lane).trans (hG (5 * n + 2) (by omega) _)
    have e3 : shapeCast S16 (ldc m f (k0_off4 ⟨n, hj⟩ 3#32) (k0_off4_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo4_lane m f ⟨n, hj⟩ (3 : Fin 5) lane).trans (hG (5 * n + 3) (by omega) _)
    have e4 : shapeCast S16 (ldc m f (k0_off4 ⟨n, hj⟩ 4#32) (k0_off4_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo4_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_1 : ∀ (n : Nat) (h : n ≤ 10) (lane : Fin 16),
    (accsT2 m f n).2.1 (ix1 lane)
      = rowPre T1 I4 t (⟨16 * 1 + lane.val, by have := lane.isLt; omega⟩ : Fin 128) (5 * n) (by omega)
  | 0, h, lane => rfl
  | n + 1, h, lane => by
    have hj : n < k0_t2_loop.trips := by rw [trips2]; omega
    have ih := accsT2_lane_1 n (by omega) lane
    have e0 : shapeCast S16 (ldc m f (k0_off5 ⟨n, hj⟩ 0#32) (k0_off5_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo5_lane m f ⟨n, hj⟩ (0 : Fin 5) lane).trans (hG (5 * n + 0) (by omega) _)
    have e1 : shapeCast S16 (ldc m f (k0_off5 ⟨n, hj⟩ 1#32) (k0_off5_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo5_lane m f ⟨n, hj⟩ (1 : Fin 5) lane).trans (hG (5 * n + 1) (by omega) _)
    have e2 : shapeCast S16 (ldc m f (k0_off5 ⟨n, hj⟩ 2#32) (k0_off5_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo5_lane m f ⟨n, hj⟩ (2 : Fin 5) lane).trans (hG (5 * n + 2) (by omega) _)
    have e3 : shapeCast S16 (ldc m f (k0_off5 ⟨n, hj⟩ 3#32) (k0_off5_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo5_lane m f ⟨n, hj⟩ (3 : Fin 5) lane).trans (hG (5 * n + 3) (by omega) _)
    have e4 : shapeCast S16 (ldc m f (k0_off5 ⟨n, hj⟩ 4#32) (k0_off5_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo5_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_2 : ∀ (n : Nat) (h : n ≤ 10) (lane : Fin 16),
    (accsT2 m f n).2.2.1 (ix1 lane)
      = rowPre T1 I4 t (⟨16 * 2 + lane.val, by have := lane.isLt; omega⟩ : Fin 128) (5 * n) (by omega)
  | 0, h, lane => rfl
  | n + 1, h, lane => by
    have hj : n < k0_t2_loop.trips := by rw [trips2]; omega
    have ih := accsT2_lane_2 n (by omega) lane
    have e0 : shapeCast S16 (ldc m f (k0_off6 ⟨n, hj⟩ 0#32) (k0_off6_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo6_lane m f ⟨n, hj⟩ (0 : Fin 5) lane).trans (hG (5 * n + 0) (by omega) _)
    have e1 : shapeCast S16 (ldc m f (k0_off6 ⟨n, hj⟩ 1#32) (k0_off6_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo6_lane m f ⟨n, hj⟩ (1 : Fin 5) lane).trans (hG (5 * n + 1) (by omega) _)
    have e2 : shapeCast S16 (ldc m f (k0_off6 ⟨n, hj⟩ 2#32) (k0_off6_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo6_lane m f ⟨n, hj⟩ (2 : Fin 5) lane).trans (hG (5 * n + 2) (by omega) _)
    have e3 : shapeCast S16 (ldc m f (k0_off6 ⟨n, hj⟩ 3#32) (k0_off6_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo6_lane m f ⟨n, hj⟩ (3 : Fin 5) lane).trans (hG (5 * n + 3) (by omega) _)
    have e4 : shapeCast S16 (ldc m f (k0_off6 ⟨n, hj⟩ 4#32) (k0_off6_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo6_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_3 : ∀ (n : Nat) (h : n ≤ 10) (lane : Fin 16),
    (accsT2 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t2_loop.trips := by rw [trips2]; omega
    have ih := accsT2_lane_3 n (by omega) lane
    have e0 : shapeCast S16 (ldc m f (k0_off7 ⟨n, hj⟩ 0#32) (k0_off7_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo7_lane m f ⟨n, hj⟩ (0 : Fin 5) lane).trans (hG (5 * n + 0) (by omega) _)
    have e1 : shapeCast S16 (ldc m f (k0_off7 ⟨n, hj⟩ 1#32) (k0_off7_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo7_lane m f ⟨n, hj⟩ (1 : Fin 5) lane).trans (hG (5 * n + 1) (by omega) _)
    have e2 : shapeCast S16 (ldc m f (k0_off7 ⟨n, hj⟩ 2#32) (k0_off7_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo7_lane m f ⟨n, hj⟩ (2 : Fin 5) lane).trans (hG (5 * n + 2) (by omega) _)
    have e3 : shapeCast S16 (ldc m f (k0_off7 ⟨n, hj⟩ 3#32) (k0_off7_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo7_lane m f ⟨n, hj⟩ (3 : Fin 5) lane).trans (hG (5 * n + 3) (by omega) _)
    have e4 : shapeCast S16 (ldc m f (k0_off7 ⟨n, hj⟩ 4#32) (k0_off7_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo7_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_4 : ∀ (n : Nat) (h : n ≤ 10) (lane : Fin 16),
    (accsT2 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t2_loop.trips := by rw [trips2]; omega
    have ih := accsT2_lane_4 n (by omega) lane
    have e0 : shapeCast S16 (ldc m f (k0_off8 ⟨n, hj⟩ 0#32) (k0_off8_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo8_lane m f ⟨n, hj⟩ (0 : Fin 5) lane).trans (hG (5 * n + 0) (by omega) _)
    have e1 : shapeCast S16 (ldc m f (k0_off8 ⟨n, hj⟩ 1#32) (k0_off8_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo8_lane m f ⟨n, hj⟩ (1 : Fin 5) lane).trans (hG (5 * n + 1) (by omega) _)
    have e2 : shapeCast S16 (ldc m f (k0_off8 ⟨n, hj⟩ 2#32) (k0_off8_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo8_lane m f ⟨n, hj⟩ (2 : Fin 5) lane).trans (hG (5 * n + 2) (by omega) _)
    have e3 : shapeCast S16 (ldc m f (k0_off8 ⟨n, hj⟩ 3#32) (k0_off8_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo8_lane m f ⟨n, hj⟩ (3 : Fin 5) lane).trans (hG (5 * n + 3) (by omega) _)
    have e4 : shapeCast S16 (ldc m f (k0_off8 ⟨n, hj⟩ 4#32) (k0_off8_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo8_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_5 : ∀ (n : Nat) (h : n ≤ 10) (lane : Fin 16),
    (accsT2 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t2_loop.trips := by rw [trips2]; omega
    have ih := accsT2_lane_5 n (by omega) lane
    have e0 : shapeCast S16 (ldc m f (k0_off9 ⟨n, hj⟩ 0#32) (k0_off9_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo9_lane m f ⟨n, hj⟩ (0 : Fin 5) lane).trans (hG (5 * n + 0) (by omega) _)
    have e1 : shapeCast S16 (ldc m f (k0_off9 ⟨n, hj⟩ 1#32) (k0_off9_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo9_lane m f ⟨n, hj⟩ (1 : Fin 5) lane).trans (hG (5 * n + 1) (by omega) _)
    have e2 : shapeCast S16 (ldc m f (k0_off9 ⟨n, hj⟩ 2#32) (k0_off9_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo9_lane m f ⟨n, hj⟩ (2 : Fin 5) lane).trans (hG (5 * n + 2) (by omega) _)
    have e3 : shapeCast S16 (ldc m f (k0_off9 ⟨n, hj⟩ 3#32) (k0_off9_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo9_lane m f ⟨n, hj⟩ (3 : Fin 5) lane).trans (hG (5 * n + 3) (by omega) _)
    have e4 : shapeCast S16 (ldc m f (k0_off9 ⟨n, hj⟩ 4#32) (k0_off9_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo9_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_6 : ∀ (n : Nat) (h : n ≤ 10) (lane : Fin 16),
    (accsT2 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t2_loop.trips := by rw [trips2]; omega
    have ih := accsT2_lane_6 n (by omega) lane
    have e0 : shapeCast S16 (ldc m f (k0_off10 ⟨n, hj⟩ 0#32) (k0_off10_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo10_lane m f ⟨n, hj⟩ (0 : Fin 5) lane).trans (hG (5 * n + 0) (by omega) _)
    have e1 : shapeCast S16 (ldc m f (k0_off10 ⟨n, hj⟩ 1#32) (k0_off10_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo10_lane m f ⟨n, hj⟩ (1 : Fin 5) lane).trans (hG (5 * n + 1) (by omega) _)
    have e2 : shapeCast S16 (ldc m f (k0_off10 ⟨n, hj⟩ 2#32) (k0_off10_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo10_lane m f ⟨n, hj⟩ (2 : Fin 5) lane).trans (hG (5 * n + 2) (by omega) _)
    have e3 : shapeCast S16 (ldc m f (k0_off10 ⟨n, hj⟩ 3#32) (k0_off10_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo10_lane m f ⟨n, hj⟩ (3 : Fin 5) lane).trans (hG (5 * n + 3) (by omega) _)
    have e4 : shapeCast S16 (ldc m f (k0_off10 ⟨n, hj⟩ 4#32) (k0_off10_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo10_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT2_lane_7 : ∀ (n : Nat) (h : n ≤ 10) (lane : Fin 16),
    (accsT2 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t2_loop.trips := by rw [trips2]; omega
    have ih := accsT2_lane_7 n (by omega) lane
    have e0 : shapeCast S16 (ldc m f (k0_off11 ⟨n, hj⟩ 0#32) (k0_off11_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo11_lane m f ⟨n, hj⟩ (0 : Fin 5) lane).trans (hG (5 * n + 0) (by omega) _)
    have e1 : shapeCast S16 (ldc m f (k0_off11 ⟨n, hj⟩ 1#32) (k0_off11_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo11_lane m f ⟨n, hj⟩ (1 : Fin 5) lane).trans (hG (5 * n + 1) (by omega) _)
    have e2 : shapeCast S16 (ldc m f (k0_off11 ⟨n, hj⟩ 2#32) (k0_off11_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo11_lane m f ⟨n, hj⟩ (2 : Fin 5) lane).trans (hG (5 * n + 2) (by omega) _)
    have e3 : shapeCast S16 (ldc m f (k0_off11 ⟨n, hj⟩ 3#32) (k0_off11_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo11_lane m f ⟨n, hj⟩ (3 : Fin 5) lane).trans (hG (5 * n + 3) (by omega) _)
    have e4 : shapeCast S16 (ldc m f (k0_off11 ⟨n, hj⟩ 4#32) (k0_off11_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo11_lane m f ⟨n, hj⟩ (4 : Fin 5) lane).trans (hG (5 * n + 4) (by omega) _)
    rw [rowPre_congr T1 I4 t _ (5 * (n + 1)) (5 * n + 5) (by omega) _ (by omega),
      show accsT2 m f (n + 1) = stepT2 m f ⟨n, hj⟩ (accsT2 m f n) from accsT2_succ m f ⟨n, hj⟩]
    show step5 ((accsT2 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT2_done (cc : Fin 8) (lane : Fin 16) :
    (accsT2 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT2_lane_0 m f T1 I4 t hG 10 (by omega) lane
  | ⟨1, _⟩ => exact accsT2_lane_1 m f T1 I4 t hG 10 (by omega) lane
  | ⟨2, _⟩ => exact accsT2_lane_2 m f T1 I4 t hG 10 (by omega) lane
  | ⟨3, _⟩ => exact accsT2_lane_3 m f T1 I4 t hG 10 (by omega) lane
  | ⟨4, _⟩ => exact accsT2_lane_4 m f T1 I4 t hG 10 (by omega) lane
  | ⟨5, _⟩ => exact accsT2_lane_5 m f T1 I4 t hG 10 (by omega) lane
  | ⟨6, _⟩ => exact accsT2_lane_6 m f T1 I4 t hG 10 (by omega) lane
  | ⟨7, _⟩ => exact accsT2_lane_7 m f T1 I4 t hG 10 (by omega) lane

end Loop2

theorem ldo12_lane (m : Memref sig .scVector .vmem S100x128 .f32) (f : m.view.ty.Contents (Elt F)) (j : Fin k0_t3_loop.trips) (u : Fin 5) (lane : Fin 16) :
    shapeCast S16 (ldc m f (k0_off12 j (BitVec.ofNat 32 u.val)) (k0_off12_inb j u)) shapeCasts_S1x16_S16 (ix1 lane)
      = m.view.read (Elt F) f (ix2 (⟨5 * j.val + u.val + 50, by have := lt_of_lt_of_eq j.isLt trips3; have := u.isLt; omega⟩ : Fin 100)
          (⟨16 * 0 + lane.val, by have := lane.isLt; omega⟩ : Fin 128)) :=
  ld3_lane m f j u lane ⟨0, by decide⟩

theorem ldo13_lane (m : Memref sig .scVector .vmem S100x128 .f32) (f : m.view.ty.Contents (Elt F)) (j : Fin k0_t3_loop.trips) (u : Fin 5) (lane : Fin 16) :
    shapeCast S16 (ldc m f (k0_off13 j (BitVec.ofNat 32 u.val)) (k0_off13_inb j u)) shapeCasts_S1x16_S16 (ix1 lane)
      = m.view.read (Elt F) f (ix2 (⟨5 * j.val + u.val + 50, by have := lt_of_lt_of_eq j.isLt trips3; have := u.isLt; omega⟩ : Fin 100)
          (⟨16 * 1 + lane.val, by have := lane.isLt; omega⟩ : Fin 128)) :=
  ld3_lane m f j u lane ⟨1, by decide⟩

theorem ldo14_lane (m : Memref sig .scVector .vmem S100x128 .f32) (f : m.view.ty.Contents (Elt F)) (j : Fin k0_t3_loop.trips) (u : Fin 5) (lane : Fin 16) :
    shapeCast S16 (ldc m f (k0_off14 j (BitVec.ofNat 32 u.val)) (k0_off14_inb j u)) shapeCasts_S1x16_S16 (ix1 lane)
      = m.view.read (Elt F) f (ix2 (⟨5 * j.val + u.val + 50, by have := lt_of_lt_of_eq j.isLt trips3; have := u.isLt; omega⟩ : Fin 100)
          (⟨16 * 2 + lane.val, by have := lane.isLt; omega⟩ : Fin 128)) :=
  ld3_lane m f j u lane ⟨2, by decide⟩

theorem ldo15_lane (m : Memref sig .scVector .vmem S100x128 .f32) (f : m.view.ty.Contents (Elt F)) (j : Fin k0_t3_loop.trips) (u : Fin 5) (lane : Fin 16) :
    shapeCast S16 (ldc m f (k0_off15 j (BitVec.ofNat 32 u.val)) (k0_off15_inb j u)) shapeCasts_S1x16_S16 (ix1 lane)
      = m.view.read (Elt F) f (ix2 (⟨5 * j.val + u.val + 50, by have := lt_of_lt_of_eq j.isLt trips3; have := u.isLt; omega⟩ : Fin 100)
          (⟨16 * 3 + lane.val, by have := lane.isLt; omega⟩ : Fin 128)) :=
  ld3_lane m f j u lane ⟨3, by decide⟩

theorem ldo16_lane (m : Memref sig .scVector .vmem S100x128 .f32) (f : m.view.ty.Contents (Elt F)) (j : Fin k0_t3_loop.trips) (u : Fin 5) (lane : Fin 16) :
    shapeCast S16 (ldc m f (k0_off16 j (BitVec.ofNat 32 u.val)) (k0_off16_inb j u)) shapeCasts_S1x16_S16 (ix1 lane)
      = m.view.read (Elt F) f (ix2 (⟨5 * j.val + u.val + 50, by have := lt_of_lt_of_eq j.isLt trips3; have := u.isLt; omega⟩ : Fin 100)
          (⟨16 * 4 + lane.val, by have := lane.isLt; omega⟩ : Fin 128)) :=
  ld3_lane m f j u lane ⟨4, by decide⟩

theorem ldo17_lane (m : Memref sig .scVector .vmem S100x128 .f32) (f : m.view.ty.Contents (Elt F)) (j : Fin k0_t3_loop.trips) (u : Fin 5) (lane : Fin 16) :
    shapeCast S16 (ldc m f (k0_off17 j (BitVec.ofNat 32 u.val)) (k0_off17_inb j u)) shapeCasts_S1x16_S16 (ix1 lane)
      = m.view.read (Elt F) f (ix2 (⟨5 * j.val + u.val + 50, by have := lt_of_lt_of_eq j.isLt trips3; have := u.isLt; omega⟩ : Fin 100)
          (⟨16 * 5 + lane.val, by have := lane.isLt; omega⟩ : Fin 128)) :=
  ld3_lane m f j u lane ⟨5, by decide⟩

theorem ldo18_lane (m : Memref sig .scVector .vmem S100x128 .f32) (f : m.view.ty.Contents (Elt F)) (j : Fin k0_t3_loop.trips) (u : Fin 5) (lane : Fin 16) :
    shapeCast S16 (ldc m f (k0_off18 j (BitVec.ofNat 32 u.val)) (k0_off18_inb j u)) shapeCasts_S1x16_S16 (ix1 lane)
      = m.view.read (Elt F) f (ix2 (⟨5 * j.val + u.val + 50, by have := lt_of_lt_of_eq j.isLt trips3; have := u.isLt; omega⟩ : Fin 100)
          (⟨16 * 6 + lane.val, by have := lane.isLt; omega⟩ : Fin 128)) :=
  ld3_lane m f j u lane ⟨6, by decide⟩

theorem ldo19_lane (m : Memref sig .scVector .vmem S100x128 .f32) (f : m.view.ty.Contents (Elt F)) (j : Fin k0_t3_loop.trips) (u : Fin 5) (lane : Fin 16) :
    shapeCast S16 (ldc m f (k0_off19 j (BitVec.ofNat 32 u.val)) (k0_off19_inb j u)) shapeCasts_S1x16_S16 (ix1 lane)
      = m.view.read (Elt F) f (ix2 (⟨5 * j.val + u.val + 50, by have := lt_of_lt_of_eq j.isLt trips3; have := u.isLt; omega⟩ : Fin 100)
          (⟨16 * 7 + lane.val, by have := lane.isLt; omega⟩ : Fin 128)) :=
  ld3_lane m f j u lane ⟨7, by decide⟩

section Loop3
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n + 50, by omega⟩ : Fin 100) col)
      = trow T1 (remapW (I4 (ix1 (⟨64 * t.val + n, flat_lt t n hn⟩ : Fin 2097152)))) col)
include hG

theorem accsT3_lane_0 : ∀ (n : Nat) (h : n ≤ 10) (lane : Fin 16),
    (accsT3 m f n).1 (ix1 lane)
      = rowPre T1 I4 t (⟨16 * 0 + lane.val, by have := lane.isLt; omega⟩ : Fin 128) (5 * n) (by omega)
  | 0, h, lane => rfl
  | n + 1, h, lane => by
    have hj : n < k0_t3_loop.trips := by rw [trips3]; omega
    have ih := accsT3_lane_0 n (by omega) lane
    have e0 : shapeCast S16 (ldc m f (k0_off12 ⟨n, hj⟩ 0#32) (k0_off12_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo12_lane m f ⟨n, hj⟩ (0 : Fin 5) lane).trans (hG (5 * n + 0) (by omega) _)
    have e1 : shapeCast S16 (ldc m f (k0_off12 ⟨n, hj⟩ 1#32) (k0_off12_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo12_lane m f ⟨n, hj⟩ (1 : Fin 5) lane).trans (hG (5 * n + 1) (by omega) _)
    have e2 : shapeCast S16 (ldc m f (k0_off12 ⟨n, hj⟩ 2#32) (k0_off12_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo12_lane m f ⟨n, hj⟩ (2 : Fin 5) lane).trans (hG (5 * n + 2) (by omega) _)
    have e3 : shapeCast S16 (ldc m f (k0_off12 ⟨n, hj⟩ 3#32) (k0_off12_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo12_lane m f ⟨n, hj⟩ (3 : Fin 5) lane).trans (hG (5 * n + 3) (by omega) _)
    have e4 : shapeCast S16 (ldc m f (k0_off12 ⟨n, hj⟩ 4#32) (k0_off12_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo12_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_1 : ∀ (n : Nat) (h : n ≤ 10) (lane : Fin 16),
    (accsT3 m f n).2.1 (ix1 lane)
      = rowPre T1 I4 t (⟨16 * 1 + lane.val, by have := lane.isLt; omega⟩ : Fin 128) (5 * n) (by omega)
  | 0, h, lane => rfl
  | n + 1, h, lane => by
    have hj : n < k0_t3_loop.trips := by rw [trips3]; omega
    have ih := accsT3_lane_1 n (by omega) lane
    have e0 : shapeCast S16 (ldc m f (k0_off13 ⟨n, hj⟩ 0#32) (k0_off13_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo13_lane m f ⟨n, hj⟩ (0 : Fin 5) lane).trans (hG (5 * n + 0) (by omega) _)
    have e1 : shapeCast S16 (ldc m f (k0_off13 ⟨n, hj⟩ 1#32) (k0_off13_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo13_lane m f ⟨n, hj⟩ (1 : Fin 5) lane).trans (hG (5 * n + 1) (by omega) _)
    have e2 : shapeCast S16 (ldc m f (k0_off13 ⟨n, hj⟩ 2#32) (k0_off13_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo13_lane m f ⟨n, hj⟩ (2 : Fin 5) lane).trans (hG (5 * n + 2) (by omega) _)
    have e3 : shapeCast S16 (ldc m f (k0_off13 ⟨n, hj⟩ 3#32) (k0_off13_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo13_lane m f ⟨n, hj⟩ (3 : Fin 5) lane).trans (hG (5 * n + 3) (by omega) _)
    have e4 : shapeCast S16 (ldc m f (k0_off13 ⟨n, hj⟩ 4#32) (k0_off13_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo13_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_2 : ∀ (n : Nat) (h : n ≤ 10) (lane : Fin 16),
    (accsT3 m f n).2.2.1 (ix1 lane)
      = rowPre T1 I4 t (⟨16 * 2 + lane.val, by have := lane.isLt; omega⟩ : Fin 128) (5 * n) (by omega)
  | 0, h, lane => rfl
  | n + 1, h, lane => by
    have hj : n < k0_t3_loop.trips := by rw [trips3]; omega
    have ih := accsT3_lane_2 n (by omega) lane
    have e0 : shapeCast S16 (ldc m f (k0_off14 ⟨n, hj⟩ 0#32) (k0_off14_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo14_lane m f ⟨n, hj⟩ (0 : Fin 5) lane).trans (hG (5 * n + 0) (by omega) _)
    have e1 : shapeCast S16 (ldc m f (k0_off14 ⟨n, hj⟩ 1#32) (k0_off14_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo14_lane m f ⟨n, hj⟩ (1 : Fin 5) lane).trans (hG (5 * n + 1) (by omega) _)
    have e2 : shapeCast S16 (ldc m f (k0_off14 ⟨n, hj⟩ 2#32) (k0_off14_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo14_lane m f ⟨n, hj⟩ (2 : Fin 5) lane).trans (hG (5 * n + 2) (by omega) _)
    have e3 : shapeCast S16 (ldc m f (k0_off14 ⟨n, hj⟩ 3#32) (k0_off14_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo14_lane m f ⟨n, hj⟩ (3 : Fin 5) lane).trans (hG (5 * n + 3) (by omega) _)
    have e4 : shapeCast S16 (ldc m f (k0_off14 ⟨n, hj⟩ 4#32) (k0_off14_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo14_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_3 : ∀ (n : Nat) (h : n ≤ 10) (lane : Fin 16),
    (accsT3 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t3_loop.trips := by rw [trips3]; omega
    have ih := accsT3_lane_3 n (by omega) lane
    have e0 : shapeCast S16 (ldc m f (k0_off15 ⟨n, hj⟩ 0#32) (k0_off15_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo15_lane m f ⟨n, hj⟩ (0 : Fin 5) lane).trans (hG (5 * n + 0) (by omega) _)
    have e1 : shapeCast S16 (ldc m f (k0_off15 ⟨n, hj⟩ 1#32) (k0_off15_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo15_lane m f ⟨n, hj⟩ (1 : Fin 5) lane).trans (hG (5 * n + 1) (by omega) _)
    have e2 : shapeCast S16 (ldc m f (k0_off15 ⟨n, hj⟩ 2#32) (k0_off15_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo15_lane m f ⟨n, hj⟩ (2 : Fin 5) lane).trans (hG (5 * n + 2) (by omega) _)
    have e3 : shapeCast S16 (ldc m f (k0_off15 ⟨n, hj⟩ 3#32) (k0_off15_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo15_lane m f ⟨n, hj⟩ (3 : Fin 5) lane).trans (hG (5 * n + 3) (by omega) _)
    have e4 : shapeCast S16 (ldc m f (k0_off15 ⟨n, hj⟩ 4#32) (k0_off15_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo15_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_4 : ∀ (n : Nat) (h : n ≤ 10) (lane : Fin 16),
    (accsT3 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t3_loop.trips := by rw [trips3]; omega
    have ih := accsT3_lane_4 n (by omega) lane
    have e0 : shapeCast S16 (ldc m f (k0_off16 ⟨n, hj⟩ 0#32) (k0_off16_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo16_lane m f ⟨n, hj⟩ (0 : Fin 5) lane).trans (hG (5 * n + 0) (by omega) _)
    have e1 : shapeCast S16 (ldc m f (k0_off16 ⟨n, hj⟩ 1#32) (k0_off16_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo16_lane m f ⟨n, hj⟩ (1 : Fin 5) lane).trans (hG (5 * n + 1) (by omega) _)
    have e2 : shapeCast S16 (ldc m f (k0_off16 ⟨n, hj⟩ 2#32) (k0_off16_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo16_lane m f ⟨n, hj⟩ (2 : Fin 5) lane).trans (hG (5 * n + 2) (by omega) _)
    have e3 : shapeCast S16 (ldc m f (k0_off16 ⟨n, hj⟩ 3#32) (k0_off16_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo16_lane m f ⟨n, hj⟩ (3 : Fin 5) lane).trans (hG (5 * n + 3) (by omega) _)
    have e4 : shapeCast S16 (ldc m f (k0_off16 ⟨n, hj⟩ 4#32) (k0_off16_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo16_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_5 : ∀ (n : Nat) (h : n ≤ 10) (lane : Fin 16),
    (accsT3 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t3_loop.trips := by rw [trips3]; omega
    have ih := accsT3_lane_5 n (by omega) lane
    have e0 : shapeCast S16 (ldc m f (k0_off17 ⟨n, hj⟩ 0#32) (k0_off17_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo17_lane m f ⟨n, hj⟩ (0 : Fin 5) lane).trans (hG (5 * n + 0) (by omega) _)
    have e1 : shapeCast S16 (ldc m f (k0_off17 ⟨n, hj⟩ 1#32) (k0_off17_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo17_lane m f ⟨n, hj⟩ (1 : Fin 5) lane).trans (hG (5 * n + 1) (by omega) _)
    have e2 : shapeCast S16 (ldc m f (k0_off17 ⟨n, hj⟩ 2#32) (k0_off17_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo17_lane m f ⟨n, hj⟩ (2 : Fin 5) lane).trans (hG (5 * n + 2) (by omega) _)
    have e3 : shapeCast S16 (ldc m f (k0_off17 ⟨n, hj⟩ 3#32) (k0_off17_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo17_lane m f ⟨n, hj⟩ (3 : Fin 5) lane).trans (hG (5 * n + 3) (by omega) _)
    have e4 : shapeCast S16 (ldc m f (k0_off17 ⟨n, hj⟩ 4#32) (k0_off17_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo17_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_6 : ∀ (n : Nat) (h : n ≤ 10) (lane : Fin 16),
    (accsT3 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t3_loop.trips := by rw [trips3]; omega
    have ih := accsT3_lane_6 n (by omega) lane
    have e0 : shapeCast S16 (ldc m f (k0_off18 ⟨n, hj⟩ 0#32) (k0_off18_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo18_lane m f ⟨n, hj⟩ (0 : Fin 5) lane).trans (hG (5 * n + 0) (by omega) _)
    have e1 : shapeCast S16 (ldc m f (k0_off18 ⟨n, hj⟩ 1#32) (k0_off18_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo18_lane m f ⟨n, hj⟩ (1 : Fin 5) lane).trans (hG (5 * n + 1) (by omega) _)
    have e2 : shapeCast S16 (ldc m f (k0_off18 ⟨n, hj⟩ 2#32) (k0_off18_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo18_lane m f ⟨n, hj⟩ (2 : Fin 5) lane).trans (hG (5 * n + 2) (by omega) _)
    have e3 : shapeCast S16 (ldc m f (k0_off18 ⟨n, hj⟩ 3#32) (k0_off18_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo18_lane m f ⟨n, hj⟩ (3 : Fin 5) lane).trans (hG (5 * n + 3) (by omega) _)
    have e4 : shapeCast S16 (ldc m f (k0_off18 ⟨n, hj⟩ 4#32) (k0_off18_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo18_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT3_lane_7 : ∀ (n : Nat) (h : n ≤ 10) (lane : Fin 16),
    (accsT3 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t3_loop.trips := by rw [trips3]; omega
    have ih := accsT3_lane_7 n (by omega) lane
    have e0 : shapeCast S16 (ldc m f (k0_off19 ⟨n, hj⟩ 0#32) (k0_off19_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo19_lane m f ⟨n, hj⟩ (0 : Fin 5) lane).trans (hG (5 * n + 0) (by omega) _)
    have e1 : shapeCast S16 (ldc m f (k0_off19 ⟨n, hj⟩ 1#32) (k0_off19_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo19_lane m f ⟨n, hj⟩ (1 : Fin 5) lane).trans (hG (5 * n + 1) (by omega) _)
    have e2 : shapeCast S16 (ldc m f (k0_off19 ⟨n, hj⟩ 2#32) (k0_off19_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo19_lane m f ⟨n, hj⟩ (2 : Fin 5) lane).trans (hG (5 * n + 2) (by omega) _)
    have e3 : shapeCast S16 (ldc m f (k0_off19 ⟨n, hj⟩ 3#32) (k0_off19_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo19_lane m f ⟨n, hj⟩ (3 : Fin 5) lane).trans (hG (5 * n + 3) (by omega) _)
    have e4 : shapeCast S16 (ldc m f (k0_off19 ⟨n, hj⟩ 4#32) (k0_off19_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo19_lane m f ⟨n, hj⟩ (4 : Fin 5) lane).trans (hG (5 * n + 4) (by omega) _)
    rw [rowPre_congr T1 I4 t _ (5 * (n + 1)) (5 * n + 5) (by omega) _ (by omega),
      show accsT3 m f (n + 1) = stepT3 m f ⟨n, hj⟩ (accsT3 m f n) from accsT3_succ m f ⟨n, hj⟩]
    show step5 ((accsT3 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT3_done (cc : Fin 8) (lane : Fin 16) :
    (accsT3 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT3_lane_0 m f T1 I4 t hG 10 (by omega) lane
  | ⟨1, _⟩ => exact accsT3_lane_1 m f T1 I4 t hG 10 (by omega) lane
  | ⟨2, _⟩ => exact accsT3_lane_2 m f T1 I4 t hG 10 (by omega) lane
  | ⟨3, _⟩ => exact accsT3_lane_3 m f T1 I4 t hG 10 (by omega) lane
  | ⟨4, _⟩ => exact accsT3_lane_4 m f T1 I4 t hG 10 (by omega) lane
  | ⟨5, _⟩ => exact accsT3_lane_5 m f T1 I4 t hG 10 (by omega) lane
  | ⟨6, _⟩ => exact accsT3_lane_6 m f T1 I4 t hG 10 (by omega) lane
  | ⟨7, _⟩ => exact accsT3_lane_7 m f T1 I4 t hG 10 (by omega) lane

end Loop3

theorem ldo23_lane (m : Memref sig .scVector .vmem S100x128 .f32) (f : m.view.ty.Contents (Elt F)) (j : Fin k0_t4_loop.trips) (u : Fin 5) (lane : Fin 16) :
    shapeCast S16 (ldc m f (k0_off23 j (BitVec.ofNat 32 u.val)) (k0_off23_inb j u)) shapeCasts_S1x16_S16 (ix1 lane)
      = m.view.read (Elt F) f (ix2 (⟨5 * j.val + u.val, by have := lt_of_lt_of_eq j.isLt trips4; have := u.isLt; omega⟩ : Fin 100)
          (⟨16 * 0 + lane.val, by have := lane.isLt; omega⟩ : Fin 128)) :=
  ld4_lane m f j u lane ⟨0, by decide⟩

theorem ldo24_lane (m : Memref sig .scVector .vmem S100x128 .f32) (f : m.view.ty.Contents (Elt F)) (j : Fin k0_t4_loop.trips) (u : Fin 5) (lane : Fin 16) :
    shapeCast S16 (ldc m f (k0_off24 j (BitVec.ofNat 32 u.val)) (k0_off24_inb j u)) shapeCasts_S1x16_S16 (ix1 lane)
      = m.view.read (Elt F) f (ix2 (⟨5 * j.val + u.val, by have := lt_of_lt_of_eq j.isLt trips4; have := u.isLt; omega⟩ : Fin 100)
          (⟨16 * 1 + lane.val, by have := lane.isLt; omega⟩ : Fin 128)) :=
  ld4_lane m f j u lane ⟨1, by decide⟩

theorem ldo25_lane (m : Memref sig .scVector .vmem S100x128 .f32) (f : m.view.ty.Contents (Elt F)) (j : Fin k0_t4_loop.trips) (u : Fin 5) (lane : Fin 16) :
    shapeCast S16 (ldc m f (k0_off25 j (BitVec.ofNat 32 u.val)) (k0_off25_inb j u)) shapeCasts_S1x16_S16 (ix1 lane)
      = m.view.read (Elt F) f (ix2 (⟨5 * j.val + u.val, by have := lt_of_lt_of_eq j.isLt trips4; have := u.isLt; omega⟩ : Fin 100)
          (⟨16 * 2 + lane.val, by have := lane.isLt; omega⟩ : Fin 128)) :=
  ld4_lane m f j u lane ⟨2, by decide⟩

theorem ldo26_lane (m : Memref sig .scVector .vmem S100x128 .f32) (f : m.view.ty.Contents (Elt F)) (j : Fin k0_t4_loop.trips) (u : Fin 5) (lane : Fin 16) :
    shapeCast S16 (ldc m f (k0_off26 j (BitVec.ofNat 32 u.val)) (k0_off26_inb j u)) shapeCasts_S1x16_S16 (ix1 lane)
      = m.view.read (Elt F) f (ix2 (⟨5 * j.val + u.val, by have := lt_of_lt_of_eq j.isLt trips4; have := u.isLt; omega⟩ : Fin 100)
          (⟨16 * 3 + lane.val, by have := lane.isLt; omega⟩ : Fin 128)) :=
  ld4_lane m f j u lane ⟨3, by decide⟩

theorem ldo27_lane (m : Memref sig .scVector .vmem S100x128 .f32) (f : m.view.ty.Contents (Elt F)) (j : Fin k0_t4_loop.trips) (u : Fin 5) (lane : Fin 16) :
    shapeCast S16 (ldc m f (k0_off27 j (BitVec.ofNat 32 u.val)) (k0_off27_inb j u)) shapeCasts_S1x16_S16 (ix1 lane)
      = m.view.read (Elt F) f (ix2 (⟨5 * j.val + u.val, by have := lt_of_lt_of_eq j.isLt trips4; have := u.isLt; omega⟩ : Fin 100)
          (⟨16 * 4 + lane.val, by have := lane.isLt; omega⟩ : Fin 128)) :=
  ld4_lane m f j u lane ⟨4, by decide⟩

theorem ldo28_lane (m : Memref sig .scVector .vmem S100x128 .f32) (f : m.view.ty.Contents (Elt F)) (j : Fin k0_t4_loop.trips) (u : Fin 5) (lane : Fin 16) :
    shapeCast S16 (ldc m f (k0_off28 j (BitVec.ofNat 32 u.val)) (k0_off28_inb j u)) shapeCasts_S1x16_S16 (ix1 lane)
      = m.view.read (Elt F) f (ix2 (⟨5 * j.val + u.val, by have := lt_of_lt_of_eq j.isLt trips4; have := u.isLt; omega⟩ : Fin 100)
          (⟨16 * 5 + lane.val, by have := lane.isLt; omega⟩ : Fin 128)) :=
  ld4_lane m f j u lane ⟨5, by decide⟩

theorem ldo29_lane (m : Memref sig .scVector .vmem S100x128 .f32) (f : m.view.ty.Contents (Elt F)) (j : Fin k0_t4_loop.trips) (u : Fin 5) (lane : Fin 16) :
    shapeCast S16 (ldc m f (k0_off29 j (BitVec.ofNat 32 u.val)) (k0_off29_inb j u)) shapeCasts_S1x16_S16 (ix1 lane)
      = m.view.read (Elt F) f (ix2 (⟨5 * j.val + u.val, by have := lt_of_lt_of_eq j.isLt trips4; have := u.isLt; omega⟩ : Fin 100)
          (⟨16 * 6 + lane.val, by have := lane.isLt; omega⟩ : Fin 128)) :=
  ld4_lane m f j u lane ⟨6, by decide⟩

theorem ldo30_lane (m : Memref sig .scVector .vmem S100x128 .f32) (f : m.view.ty.Contents (Elt F)) (j : Fin k0_t4_loop.trips) (u : Fin 5) (lane : Fin 16) :
    shapeCast S16 (ldc m f (k0_off30 j (BitVec.ofNat 32 u.val)) (k0_off30_inb j u)) shapeCasts_S1x16_S16 (ix1 lane)
      = m.view.read (Elt F) f (ix2 (⟨5 * j.val + u.val, by have := lt_of_lt_of_eq j.isLt trips4; have := u.isLt; omega⟩ : Fin 100)
          (⟨16 * 7 + lane.val, by have := lane.isLt; omega⟩ : Fin 128)) :=
  ld4_lane m f j u lane ⟨7, by decide⟩

section Loop4
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n, by omega⟩ : Fin 100) col)
      = trow T1 (remapW (I4 (ix1 (⟨64 * t.val + n, flat_lt t n hn⟩ : Fin 2097152)))) col)
include hG

theorem accsT4_lane_0 : ∀ (n : Nat) (h : n ≤ 10) (lane : Fin 16),
    (accsT4 m f n).1 (ix1 lane)
      = rowPre T1 I4 t (⟨16 * 0 + lane.val, by have := lane.isLt; omega⟩ : Fin 128) (5 * n) (by omega)
  | 0, h, lane => rfl
  | n + 1, h, lane => by
    have hj : n < k0_t4_loop.trips := by rw [trips4]; omega
    have ih := accsT4_lane_0 n (by omega) lane
    have e0 : shapeCast S16 (ldc m f (k0_off23 ⟨n, hj⟩ 0#32) (k0_off23_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo23_lane m f ⟨n, hj⟩ (0 : Fin 5) lane).trans (hG (5 * n + 0) (by omega) _)
    have e1 : shapeCast S16 (ldc m f (k0_off23 ⟨n, hj⟩ 1#32) (k0_off23_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo23_lane m f ⟨n, hj⟩ (1 : Fin 5) lane).trans (hG (5 * n + 1) (by omega) _)
    have e2 : shapeCast S16 (ldc m f (k0_off23 ⟨n, hj⟩ 2#32) (k0_off23_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo23_lane m f ⟨n, hj⟩ (2 : Fin 5) lane).trans (hG (5 * n + 2) (by omega) _)
    have e3 : shapeCast S16 (ldc m f (k0_off23 ⟨n, hj⟩ 3#32) (k0_off23_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo23_lane m f ⟨n, hj⟩ (3 : Fin 5) lane).trans (hG (5 * n + 3) (by omega) _)
    have e4 : shapeCast S16 (ldc m f (k0_off23 ⟨n, hj⟩ 4#32) (k0_off23_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo23_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_1 : ∀ (n : Nat) (h : n ≤ 10) (lane : Fin 16),
    (accsT4 m f n).2.1 (ix1 lane)
      = rowPre T1 I4 t (⟨16 * 1 + lane.val, by have := lane.isLt; omega⟩ : Fin 128) (5 * n) (by omega)
  | 0, h, lane => rfl
  | n + 1, h, lane => by
    have hj : n < k0_t4_loop.trips := by rw [trips4]; omega
    have ih := accsT4_lane_1 n (by omega) lane
    have e0 : shapeCast S16 (ldc m f (k0_off24 ⟨n, hj⟩ 0#32) (k0_off24_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo24_lane m f ⟨n, hj⟩ (0 : Fin 5) lane).trans (hG (5 * n + 0) (by omega) _)
    have e1 : shapeCast S16 (ldc m f (k0_off24 ⟨n, hj⟩ 1#32) (k0_off24_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo24_lane m f ⟨n, hj⟩ (1 : Fin 5) lane).trans (hG (5 * n + 1) (by omega) _)
    have e2 : shapeCast S16 (ldc m f (k0_off24 ⟨n, hj⟩ 2#32) (k0_off24_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo24_lane m f ⟨n, hj⟩ (2 : Fin 5) lane).trans (hG (5 * n + 2) (by omega) _)
    have e3 : shapeCast S16 (ldc m f (k0_off24 ⟨n, hj⟩ 3#32) (k0_off24_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo24_lane m f ⟨n, hj⟩ (3 : Fin 5) lane).trans (hG (5 * n + 3) (by omega) _)
    have e4 : shapeCast S16 (ldc m f (k0_off24 ⟨n, hj⟩ 4#32) (k0_off24_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo24_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_2 : ∀ (n : Nat) (h : n ≤ 10) (lane : Fin 16),
    (accsT4 m f n).2.2.1 (ix1 lane)
      = rowPre T1 I4 t (⟨16 * 2 + lane.val, by have := lane.isLt; omega⟩ : Fin 128) (5 * n) (by omega)
  | 0, h, lane => rfl
  | n + 1, h, lane => by
    have hj : n < k0_t4_loop.trips := by rw [trips4]; omega
    have ih := accsT4_lane_2 n (by omega) lane
    have e0 : shapeCast S16 (ldc m f (k0_off25 ⟨n, hj⟩ 0#32) (k0_off25_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo25_lane m f ⟨n, hj⟩ (0 : Fin 5) lane).trans (hG (5 * n + 0) (by omega) _)
    have e1 : shapeCast S16 (ldc m f (k0_off25 ⟨n, hj⟩ 1#32) (k0_off25_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo25_lane m f ⟨n, hj⟩ (1 : Fin 5) lane).trans (hG (5 * n + 1) (by omega) _)
    have e2 : shapeCast S16 (ldc m f (k0_off25 ⟨n, hj⟩ 2#32) (k0_off25_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo25_lane m f ⟨n, hj⟩ (2 : Fin 5) lane).trans (hG (5 * n + 2) (by omega) _)
    have e3 : shapeCast S16 (ldc m f (k0_off25 ⟨n, hj⟩ 3#32) (k0_off25_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo25_lane m f ⟨n, hj⟩ (3 : Fin 5) lane).trans (hG (5 * n + 3) (by omega) _)
    have e4 : shapeCast S16 (ldc m f (k0_off25 ⟨n, hj⟩ 4#32) (k0_off25_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo25_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_3 : ∀ (n : Nat) (h : n ≤ 10) (lane : Fin 16),
    (accsT4 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t4_loop.trips := by rw [trips4]; omega
    have ih := accsT4_lane_3 n (by omega) lane
    have e0 : shapeCast S16 (ldc m f (k0_off26 ⟨n, hj⟩ 0#32) (k0_off26_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo26_lane m f ⟨n, hj⟩ (0 : Fin 5) lane).trans (hG (5 * n + 0) (by omega) _)
    have e1 : shapeCast S16 (ldc m f (k0_off26 ⟨n, hj⟩ 1#32) (k0_off26_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo26_lane m f ⟨n, hj⟩ (1 : Fin 5) lane).trans (hG (5 * n + 1) (by omega) _)
    have e2 : shapeCast S16 (ldc m f (k0_off26 ⟨n, hj⟩ 2#32) (k0_off26_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo26_lane m f ⟨n, hj⟩ (2 : Fin 5) lane).trans (hG (5 * n + 2) (by omega) _)
    have e3 : shapeCast S16 (ldc m f (k0_off26 ⟨n, hj⟩ 3#32) (k0_off26_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo26_lane m f ⟨n, hj⟩ (3 : Fin 5) lane).trans (hG (5 * n + 3) (by omega) _)
    have e4 : shapeCast S16 (ldc m f (k0_off26 ⟨n, hj⟩ 4#32) (k0_off26_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo26_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_4 : ∀ (n : Nat) (h : n ≤ 10) (lane : Fin 16),
    (accsT4 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t4_loop.trips := by rw [trips4]; omega
    have ih := accsT4_lane_4 n (by omega) lane
    have e0 : shapeCast S16 (ldc m f (k0_off27 ⟨n, hj⟩ 0#32) (k0_off27_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo27_lane m f ⟨n, hj⟩ (0 : Fin 5) lane).trans (hG (5 * n + 0) (by omega) _)
    have e1 : shapeCast S16 (ldc m f (k0_off27 ⟨n, hj⟩ 1#32) (k0_off27_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo27_lane m f ⟨n, hj⟩ (1 : Fin 5) lane).trans (hG (5 * n + 1) (by omega) _)
    have e2 : shapeCast S16 (ldc m f (k0_off27 ⟨n, hj⟩ 2#32) (k0_off27_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo27_lane m f ⟨n, hj⟩ (2 : Fin 5) lane).trans (hG (5 * n + 2) (by omega) _)
    have e3 : shapeCast S16 (ldc m f (k0_off27 ⟨n, hj⟩ 3#32) (k0_off27_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo27_lane m f ⟨n, hj⟩ (3 : Fin 5) lane).trans (hG (5 * n + 3) (by omega) _)
    have e4 : shapeCast S16 (ldc m f (k0_off27 ⟨n, hj⟩ 4#32) (k0_off27_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo27_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_5 : ∀ (n : Nat) (h : n ≤ 10) (lane : Fin 16),
    (accsT4 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t4_loop.trips := by rw [trips4]; omega
    have ih := accsT4_lane_5 n (by omega) lane
    have e0 : shapeCast S16 (ldc m f (k0_off28 ⟨n, hj⟩ 0#32) (k0_off28_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo28_lane m f ⟨n, hj⟩ (0 : Fin 5) lane).trans (hG (5 * n + 0) (by omega) _)
    have e1 : shapeCast S16 (ldc m f (k0_off28 ⟨n, hj⟩ 1#32) (k0_off28_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo28_lane m f ⟨n, hj⟩ (1 : Fin 5) lane).trans (hG (5 * n + 1) (by omega) _)
    have e2 : shapeCast S16 (ldc m f (k0_off28 ⟨n, hj⟩ 2#32) (k0_off28_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo28_lane m f ⟨n, hj⟩ (2 : Fin 5) lane).trans (hG (5 * n + 2) (by omega) _)
    have e3 : shapeCast S16 (ldc m f (k0_off28 ⟨n, hj⟩ 3#32) (k0_off28_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo28_lane m f ⟨n, hj⟩ (3 : Fin 5) lane).trans (hG (5 * n + 3) (by omega) _)
    have e4 : shapeCast S16 (ldc m f (k0_off28 ⟨n, hj⟩ 4#32) (k0_off28_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo28_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_6 : ∀ (n : Nat) (h : n ≤ 10) (lane : Fin 16),
    (accsT4 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t4_loop.trips := by rw [trips4]; omega
    have ih := accsT4_lane_6 n (by omega) lane
    have e0 : shapeCast S16 (ldc m f (k0_off29 ⟨n, hj⟩ 0#32) (k0_off29_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo29_lane m f ⟨n, hj⟩ (0 : Fin 5) lane).trans (hG (5 * n + 0) (by omega) _)
    have e1 : shapeCast S16 (ldc m f (k0_off29 ⟨n, hj⟩ 1#32) (k0_off29_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo29_lane m f ⟨n, hj⟩ (1 : Fin 5) lane).trans (hG (5 * n + 1) (by omega) _)
    have e2 : shapeCast S16 (ldc m f (k0_off29 ⟨n, hj⟩ 2#32) (k0_off29_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo29_lane m f ⟨n, hj⟩ (2 : Fin 5) lane).trans (hG (5 * n + 2) (by omega) _)
    have e3 : shapeCast S16 (ldc m f (k0_off29 ⟨n, hj⟩ 3#32) (k0_off29_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo29_lane m f ⟨n, hj⟩ (3 : Fin 5) lane).trans (hG (5 * n + 3) (by omega) _)
    have e4 : shapeCast S16 (ldc m f (k0_off29 ⟨n, hj⟩ 4#32) (k0_off29_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo29_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT4_lane_7 : ∀ (n : Nat) (h : n ≤ 10) (lane : Fin 16),
    (accsT4 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t4_loop.trips := by rw [trips4]; omega
    have ih := accsT4_lane_7 n (by omega) lane
    have e0 : shapeCast S16 (ldc m f (k0_off30 ⟨n, hj⟩ 0#32) (k0_off30_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo30_lane m f ⟨n, hj⟩ (0 : Fin 5) lane).trans (hG (5 * n + 0) (by omega) _)
    have e1 : shapeCast S16 (ldc m f (k0_off30 ⟨n, hj⟩ 1#32) (k0_off30_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo30_lane m f ⟨n, hj⟩ (1 : Fin 5) lane).trans (hG (5 * n + 1) (by omega) _)
    have e2 : shapeCast S16 (ldc m f (k0_off30 ⟨n, hj⟩ 2#32) (k0_off30_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo30_lane m f ⟨n, hj⟩ (2 : Fin 5) lane).trans (hG (5 * n + 2) (by omega) _)
    have e3 : shapeCast S16 (ldc m f (k0_off30 ⟨n, hj⟩ 3#32) (k0_off30_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo30_lane m f ⟨n, hj⟩ (3 : Fin 5) lane).trans (hG (5 * n + 3) (by omega) _)
    have e4 : shapeCast S16 (ldc m f (k0_off30 ⟨n, hj⟩ 4#32) (k0_off30_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo30_lane m f ⟨n, hj⟩ (4 : Fin 5) lane).trans (hG (5 * n + 4) (by omega) _)
    rw [rowPre_congr T1 I4 t _ (5 * (n + 1)) (5 * n + 5) (by omega) _ (by omega),
      show accsT4 m f (n + 1) = stepT4 m f ⟨n, hj⟩ (accsT4 m f n) from accsT4_succ m f ⟨n, hj⟩]
    show step5 ((accsT4 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT4_done (cc : Fin 8) (lane : Fin 16) :
    (accsT4 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT4_lane_0 m f T1 I4 t hG 10 (by omega) lane
  | ⟨1, _⟩ => exact accsT4_lane_1 m f T1 I4 t hG 10 (by omega) lane
  | ⟨2, _⟩ => exact accsT4_lane_2 m f T1 I4 t hG 10 (by omega) lane
  | ⟨3, _⟩ => exact accsT4_lane_3 m f T1 I4 t hG 10 (by omega) lane
  | ⟨4, _⟩ => exact accsT4_lane_4 m f T1 I4 t hG 10 (by omega) lane
  | ⟨5, _⟩ => exact accsT4_lane_5 m f T1 I4 t hG 10 (by omega) lane
  | ⟨6, _⟩ => exact accsT4_lane_6 m f T1 I4 t hG 10 (by omega) lane
  | ⟨7, _⟩ => exact accsT4_lane_7 m f T1 I4 t hG 10 (by omega) lane

end Loop4

theorem ldo31_lane (m : Memref sig .scVector .vmem S100x128 .f32) (f : m.view.ty.Contents (Elt F)) (j : Fin k0_t5_loop.trips) (u : Fin 5) (lane : Fin 16) :
    shapeCast S16 (ldc m f (k0_off31 j (BitVec.ofNat 32 u.val)) (k0_off31_inb j u)) shapeCasts_S1x16_S16 (ix1 lane)
      = m.view.read (Elt F) f (ix2 (⟨5 * j.val + u.val + 50, by have := lt_of_lt_of_eq j.isLt trips5; have := u.isLt; omega⟩ : Fin 100)
          (⟨16 * 0 + lane.val, by have := lane.isLt; omega⟩ : Fin 128)) :=
  ld5_lane m f j u lane ⟨0, by decide⟩

theorem ldo32_lane (m : Memref sig .scVector .vmem S100x128 .f32) (f : m.view.ty.Contents (Elt F)) (j : Fin k0_t5_loop.trips) (u : Fin 5) (lane : Fin 16) :
    shapeCast S16 (ldc m f (k0_off32 j (BitVec.ofNat 32 u.val)) (k0_off32_inb j u)) shapeCasts_S1x16_S16 (ix1 lane)
      = m.view.read (Elt F) f (ix2 (⟨5 * j.val + u.val + 50, by have := lt_of_lt_of_eq j.isLt trips5; have := u.isLt; omega⟩ : Fin 100)
          (⟨16 * 1 + lane.val, by have := lane.isLt; omega⟩ : Fin 128)) :=
  ld5_lane m f j u lane ⟨1, by decide⟩

theorem ldo33_lane (m : Memref sig .scVector .vmem S100x128 .f32) (f : m.view.ty.Contents (Elt F)) (j : Fin k0_t5_loop.trips) (u : Fin 5) (lane : Fin 16) :
    shapeCast S16 (ldc m f (k0_off33 j (BitVec.ofNat 32 u.val)) (k0_off33_inb j u)) shapeCasts_S1x16_S16 (ix1 lane)
      = m.view.read (Elt F) f (ix2 (⟨5 * j.val + u.val + 50, by have := lt_of_lt_of_eq j.isLt trips5; have := u.isLt; omega⟩ : Fin 100)
          (⟨16 * 2 + lane.val, by have := lane.isLt; omega⟩ : Fin 128)) :=
  ld5_lane m f j u lane ⟨2, by decide⟩

theorem ldo34_lane (m : Memref sig .scVector .vmem S100x128 .f32) (f : m.view.ty.Contents (Elt F)) (j : Fin k0_t5_loop.trips) (u : Fin 5) (lane : Fin 16) :
    shapeCast S16 (ldc m f (k0_off34 j (BitVec.ofNat 32 u.val)) (k0_off34_inb j u)) shapeCasts_S1x16_S16 (ix1 lane)
      = m.view.read (Elt F) f (ix2 (⟨5 * j.val + u.val + 50, by have := lt_of_lt_of_eq j.isLt trips5; have := u.isLt; omega⟩ : Fin 100)
          (⟨16 * 3 + lane.val, by have := lane.isLt; omega⟩ : Fin 128)) :=
  ld5_lane m f j u lane ⟨3, by decide⟩

theorem ldo35_lane (m : Memref sig .scVector .vmem S100x128 .f32) (f : m.view.ty.Contents (Elt F)) (j : Fin k0_t5_loop.trips) (u : Fin 5) (lane : Fin 16) :
    shapeCast S16 (ldc m f (k0_off35 j (BitVec.ofNat 32 u.val)) (k0_off35_inb j u)) shapeCasts_S1x16_S16 (ix1 lane)
      = m.view.read (Elt F) f (ix2 (⟨5 * j.val + u.val + 50, by have := lt_of_lt_of_eq j.isLt trips5; have := u.isLt; omega⟩ : Fin 100)
          (⟨16 * 4 + lane.val, by have := lane.isLt; omega⟩ : Fin 128)) :=
  ld5_lane m f j u lane ⟨4, by decide⟩

theorem ldo36_lane (m : Memref sig .scVector .vmem S100x128 .f32) (f : m.view.ty.Contents (Elt F)) (j : Fin k0_t5_loop.trips) (u : Fin 5) (lane : Fin 16) :
    shapeCast S16 (ldc m f (k0_off36 j (BitVec.ofNat 32 u.val)) (k0_off36_inb j u)) shapeCasts_S1x16_S16 (ix1 lane)
      = m.view.read (Elt F) f (ix2 (⟨5 * j.val + u.val + 50, by have := lt_of_lt_of_eq j.isLt trips5; have := u.isLt; omega⟩ : Fin 100)
          (⟨16 * 5 + lane.val, by have := lane.isLt; omega⟩ : Fin 128)) :=
  ld5_lane m f j u lane ⟨5, by decide⟩

theorem ldo37_lane (m : Memref sig .scVector .vmem S100x128 .f32) (f : m.view.ty.Contents (Elt F)) (j : Fin k0_t5_loop.trips) (u : Fin 5) (lane : Fin 16) :
    shapeCast S16 (ldc m f (k0_off37 j (BitVec.ofNat 32 u.val)) (k0_off37_inb j u)) shapeCasts_S1x16_S16 (ix1 lane)
      = m.view.read (Elt F) f (ix2 (⟨5 * j.val + u.val + 50, by have := lt_of_lt_of_eq j.isLt trips5; have := u.isLt; omega⟩ : Fin 100)
          (⟨16 * 6 + lane.val, by have := lane.isLt; omega⟩ : Fin 128)) :=
  ld5_lane m f j u lane ⟨6, by decide⟩

theorem ldo38_lane (m : Memref sig .scVector .vmem S100x128 .f32) (f : m.view.ty.Contents (Elt F)) (j : Fin k0_t5_loop.trips) (u : Fin 5) (lane : Fin 16) :
    shapeCast S16 (ldc m f (k0_off38 j (BitVec.ofNat 32 u.val)) (k0_off38_inb j u)) shapeCasts_S1x16_S16 (ix1 lane)
      = m.view.read (Elt F) f (ix2 (⟨5 * j.val + u.val + 50, by have := lt_of_lt_of_eq j.isLt trips5; have := u.isLt; omega⟩ : Fin 100)
          (⟨16 * 7 + lane.val, by have := lane.isLt; omega⟩ : Fin 128)) :=
  ld5_lane m f j u lane ⟨7, by decide⟩

section Loop5
variable (m : Memref sig .scVector .vmem S100x128 .f32) (f : m.view.ty.Contents (Elt F))
  (T1 : (⟨2, ![100008, 128]⟩ : Shape).Idx → Elt F .f32) (I4 : (⟨1, ![2097152]⟩ : Shape).Idx → BitVec 32) (t : Fin 32768)
  (hG : ∀ (n : Nat) (hn : n < 50) (col : Fin 128),
    m.view.read (Elt F) f (ix2 (⟨n + 50, by omega⟩ : Fin 100) col)
      = trow T1 (remapW (I4 (ix1 (⟨64 * t.val + n, flat_lt t n hn⟩ : Fin 2097152)))) col)
include hG

theorem accsT5_lane_0 : ∀ (n : Nat) (h : n ≤ 10) (lane : Fin 16),
    (accsT5 m f n).1 (ix1 lane)
      = rowPre T1 I4 t (⟨16 * 0 + lane.val, by have := lane.isLt; omega⟩ : Fin 128) (5 * n) (by omega)
  | 0, h, lane => rfl
  | n + 1, h, lane => by
    have hj : n < k0_t5_loop.trips := by rw [trips5]; omega
    have ih := accsT5_lane_0 n (by omega) lane
    have e0 : shapeCast S16 (ldc m f (k0_off31 ⟨n, hj⟩ 0#32) (k0_off31_inb ⟨n, hj⟩ 0)) shapeCasts_S1x16_S16 (ix1 lane)
        = trow T1 (remapW (I4 (ix1 (⟨64 * t.val + (5 * n + 0), flat_lt t _ (by omega)⟩ : Fin 2097152)))) (⟨16 * 0 + lane.val, by have := lane.isLt; omega⟩ : Fin 128) :=
      (ldo31_lane m f ⟨n, hj⟩ (0 : Fin 5) lane).trans (hG (5 * n + 0) (by omega) _)
    have e1 : shapeCast S16 (ldc m f (k0_off31 ⟨n, hj⟩ 1#32) (k0_off31_inb ⟨n, hj⟩ 1)) shapeCasts_S1x16_S16 (ix1 lane)
        = trow T1 (remapW (I4 (ix1 (⟨64 * t.val + (5 * n + 1), flat_lt t _ (by omega)⟩ : Fin 2097152)))) (⟨16 * 0 + lane.val, by have := lane.isLt; omega⟩ : Fin 128) :=
      (ldo31_lane m f ⟨n, hj⟩ (1 : Fin 5) lane).trans (hG (5 * n + 1) (by omega) _)
    have e2 : shapeCast S16 (ldc m f (k0_off31 ⟨n, hj⟩ 2#32) (k0_off31_inb ⟨n, hj⟩ 2)) shapeCasts_S1x16_S16 (ix1 lane)
        = trow T1 (remapW (I4 (ix1 (⟨64 * t.val + (5 * n + 2), flat_lt t _ (by omega)⟩ : Fin 2097152)))) (⟨16 * 0 + lane.val, by have := lane.isLt; omega⟩ : Fin 128) :=
      (ldo31_lane m f ⟨n, hj⟩ (2 : Fin 5) lane).trans (hG (5 * n + 2) (by omega) _)
    have e3 : shapeCast S16 (ldc m f (k0_off31 ⟨n, hj⟩ 3#32) (k0_off31_inb ⟨n, hj⟩ 3)) shapeCasts_S1x16_S16 (ix1 lane)
        = trow T1 (remapW (I4 (ix1 (⟨64 * t.val + (5 * n + 3), flat_lt t _ (by omega)⟩ : Fin 2097152)))) (⟨16 * 0 + lane.val, by have := lane.isLt; omega⟩ : Fin 128) :=
      (ldo31_lane m f ⟨n, hj⟩ (3 : Fin 5) lane).trans (hG (5 * n + 3) (by omega) _)
    have e4 : shapeCast S16 (ldc m f (k0_off31 ⟨n, hj⟩ 4#32) (k0_off31_inb ⟨n, hj⟩ 4)) shapeCasts_S1x16_S16 (ix1 lane)
        = trow T1 (remapW (I4 (ix1 (⟨64 * t.val + (5 * n + 4), flat_lt t _ (by omega)⟩ : Fin 2097152)))) (⟨16 * 0 + lane.val, by have := lane.isLt; omega⟩ : Fin 128) :=
      (ldo31_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_1 : ∀ (n : Nat) (h : n ≤ 10) (lane : Fin 16),
    (accsT5 m f n).2.1 (ix1 lane)
      = rowPre T1 I4 t (⟨16 * 1 + lane.val, by have := lane.isLt; omega⟩ : Fin 128) (5 * n) (by omega)
  | 0, h, lane => rfl
  | n + 1, h, lane => by
    have hj : n < k0_t5_loop.trips := by rw [trips5]; omega
    have ih := accsT5_lane_1 n (by omega) lane
    have e0 : shapeCast S16 (ldc m f (k0_off32 ⟨n, hj⟩ 0#32) (k0_off32_inb ⟨n, hj⟩ 0)) shapeCasts_S1x16_S16 (ix1 lane)
        = trow T1 (remapW (I4 (ix1 (⟨64 * t.val + (5 * n + 0), flat_lt t _ (by omega)⟩ : Fin 2097152)))) (⟨16 * 1 + lane.val, by have := lane.isLt; omega⟩ : Fin 128) :=
      (ldo32_lane m f ⟨n, hj⟩ (0 : Fin 5) lane).trans (hG (5 * n + 0) (by omega) _)
    have e1 : shapeCast S16 (ldc m f (k0_off32 ⟨n, hj⟩ 1#32) (k0_off32_inb ⟨n, hj⟩ 1)) shapeCasts_S1x16_S16 (ix1 lane)
        = trow T1 (remapW (I4 (ix1 (⟨64 * t.val + (5 * n + 1), flat_lt t _ (by omega)⟩ : Fin 2097152)))) (⟨16 * 1 + lane.val, by have := lane.isLt; omega⟩ : Fin 128) :=
      (ldo32_lane m f ⟨n, hj⟩ (1 : Fin 5) lane).trans (hG (5 * n + 1) (by omega) _)
    have e2 : shapeCast S16 (ldc m f (k0_off32 ⟨n, hj⟩ 2#32) (k0_off32_inb ⟨n, hj⟩ 2)) shapeCasts_S1x16_S16 (ix1 lane)
        = trow T1 (remapW (I4 (ix1 (⟨64 * t.val + (5 * n + 2), flat_lt t _ (by omega)⟩ : Fin 2097152)))) (⟨16 * 1 + lane.val, by have := lane.isLt; omega⟩ : Fin 128) :=
      (ldo32_lane m f ⟨n, hj⟩ (2 : Fin 5) lane).trans (hG (5 * n + 2) (by omega) _)
    have e3 : shapeCast S16 (ldc m f (k0_off32 ⟨n, hj⟩ 3#32) (k0_off32_inb ⟨n, hj⟩ 3)) shapeCasts_S1x16_S16 (ix1 lane)
        = trow T1 (remapW (I4 (ix1 (⟨64 * t.val + (5 * n + 3), flat_lt t _ (by omega)⟩ : Fin 2097152)))) (⟨16 * 1 + lane.val, by have := lane.isLt; omega⟩ : Fin 128) :=
      (ldo32_lane m f ⟨n, hj⟩ (3 : Fin 5) lane).trans (hG (5 * n + 3) (by omega) _)
    have e4 : shapeCast S16 (ldc m f (k0_off32 ⟨n, hj⟩ 4#32) (k0_off32_inb ⟨n, hj⟩ 4)) shapeCasts_S1x16_S16 (ix1 lane)
        = trow T1 (remapW (I4 (ix1 (⟨64 * t.val + (5 * n + 4), flat_lt t _ (by omega)⟩ : Fin 2097152)))) (⟨16 * 1 + lane.val, by have := lane.isLt; omega⟩ : Fin 128) :=
      (ldo32_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_2 : ∀ (n : Nat) (h : n ≤ 10) (lane : Fin 16),
    (accsT5 m f n).2.2.1 (ix1 lane)
      = rowPre T1 I4 t (⟨16 * 2 + lane.val, by have := lane.isLt; omega⟩ : Fin 128) (5 * n) (by omega)
  | 0, h, lane => rfl
  | n + 1, h, lane => by
    have hj : n < k0_t5_loop.trips := by rw [trips5]; omega
    have ih := accsT5_lane_2 n (by omega) lane
    have e0 : shapeCast S16 (ldc m f (k0_off33 ⟨n, hj⟩ 0#32) (k0_off33_inb ⟨n, hj⟩ 0)) shapeCasts_S1x16_S16 (ix1 lane)
        = trow T1 (remapW (I4 (ix1 (⟨64 * t.val + (5 * n + 0), flat_lt t _ (by omega)⟩ : Fin 2097152)))) (⟨16 * 2 + lane.val, by have := lane.isLt; omega⟩ : Fin 128) :=
      (ldo33_lane m f ⟨n, hj⟩ (0 : Fin 5) lane).trans (hG (5 * n + 0) (by omega) _)
    have e1 : shapeCast S16 (ldc m f (k0_off33 ⟨n, hj⟩ 1#32) (k0_off33_inb ⟨n, hj⟩ 1)) shapeCasts_S1x16_S16 (ix1 lane)
        = trow T1 (remapW (I4 (ix1 (⟨64 * t.val + (5 * n + 1), flat_lt t _ (by omega)⟩ : Fin 2097152)))) (⟨16 * 2 + lane.val, by have := lane.isLt; omega⟩ : Fin 128) :=
      (ldo33_lane m f ⟨n, hj⟩ (1 : Fin 5) lane).trans (hG (5 * n + 1) (by omega) _)
    have e2 : shapeCast S16 (ldc m f (k0_off33 ⟨n, hj⟩ 2#32) (k0_off33_inb ⟨n, hj⟩ 2)) shapeCasts_S1x16_S16 (ix1 lane)
        = trow T1 (remapW (I4 (ix1 (⟨64 * t.val + (5 * n + 2), flat_lt t _ (by omega)⟩ : Fin 2097152)))) (⟨16 * 2 + lane.val, by have := lane.isLt; omega⟩ : Fin 128) :=
      (ldo33_lane m f ⟨n, hj⟩ (2 : Fin 5) lane).trans (hG (5 * n + 2) (by omega) _)
    have e3 : shapeCast S16 (ldc m f (k0_off33 ⟨n, hj⟩ 3#32) (k0_off33_inb ⟨n, hj⟩ 3)) shapeCasts_S1x16_S16 (ix1 lane)
        = trow T1 (remapW (I4 (ix1 (⟨64 * t.val + (5 * n + 3), flat_lt t _ (by omega)⟩ : Fin 2097152)))) (⟨16 * 2 + lane.val, by have := lane.isLt; omega⟩ : Fin 128) :=
      (ldo33_lane m f ⟨n, hj⟩ (3 : Fin 5) lane).trans (hG (5 * n + 3) (by omega) _)
    have e4 : shapeCast S16 (ldc m f (k0_off33 ⟨n, hj⟩ 4#32) (k0_off33_inb ⟨n, hj⟩ 4)) shapeCasts_S1x16_S16 (ix1 lane)
        = trow T1 (remapW (I4 (ix1 (⟨64 * t.val + (5 * n + 4), flat_lt t _ (by omega)⟩ : Fin 2097152)))) (⟨16 * 2 + lane.val, by have := lane.isLt; omega⟩ : Fin 128) :=
      (ldo33_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_3 : ∀ (n : Nat) (h : n ≤ 10) (lane : Fin 16),
    (accsT5 m f n).2.2.2.1 (ix1 lane)
      = rowPre T1 I4 t (⟨16 * 3 + lane.val, by have := lane.isLt; omega⟩ : Fin 128) (5 * n) (by omega)
  | 0, h, lane => rfl
  | n + 1, h, lane => by
    have hj : n < k0_t5_loop.trips := by rw [trips5]; omega
    have ih := accsT5_lane_3 n (by omega) lane
    have e0 : shapeCast S16 (ldc m f (k0_off34 ⟨n, hj⟩ 0#32) (k0_off34_inb ⟨n, hj⟩ 0)) shapeCasts_S1x16_S16 (ix1 lane)
        = trow T1 (remapW (I4 (ix1 (⟨64 * t.val + (5 * n + 0), flat_lt t _ (by omega)⟩ : Fin 2097152)))) (⟨16 * 3 + lane.val, by have := lane.isLt; omega⟩ : Fin 128) :=
      (ldo34_lane m f ⟨n, hj⟩ (0 : Fin 5) lane).trans (hG (5 * n + 0) (by omega) _)
    have e1 : shapeCast S16 (ldc m f (k0_off34 ⟨n, hj⟩ 1#32) (k0_off34_inb ⟨n, hj⟩ 1)) shapeCasts_S1x16_S16 (ix1 lane)
        = trow T1 (remapW (I4 (ix1 (⟨64 * t.val + (5 * n + 1), flat_lt t _ (by omega)⟩ : Fin 2097152)))) (⟨16 * 3 + lane.val, by have := lane.isLt; omega⟩ : Fin 128) :=
      (ldo34_lane m f ⟨n, hj⟩ (1 : Fin 5) lane).trans (hG (5 * n + 1) (by omega) _)
    have e2 : shapeCast S16 (ldc m f (k0_off34 ⟨n, hj⟩ 2#32) (k0_off34_inb ⟨n, hj⟩ 2)) shapeCasts_S1x16_S16 (ix1 lane)
        = trow T1 (remapW (I4 (ix1 (⟨64 * t.val + (5 * n + 2), flat_lt t _ (by omega)⟩ : Fin 2097152)))) (⟨16 * 3 + lane.val, by have := lane.isLt; omega⟩ : Fin 128) :=
      (ldo34_lane m f ⟨n, hj⟩ (2 : Fin 5) lane).trans (hG (5 * n + 2) (by omega) _)
    have e3 : shapeCast S16 (ldc m f (k0_off34 ⟨n, hj⟩ 3#32) (k0_off34_inb ⟨n, hj⟩ 3)) shapeCasts_S1x16_S16 (ix1 lane)
        = trow T1 (remapW (I4 (ix1 (⟨64 * t.val + (5 * n + 3), flat_lt t _ (by omega)⟩ : Fin 2097152)))) (⟨16 * 3 + lane.val, by have := lane.isLt; omega⟩ : Fin 128) :=
      (ldo34_lane m f ⟨n, hj⟩ (3 : Fin 5) lane).trans (hG (5 * n + 3) (by omega) _)
    have e4 : shapeCast S16 (ldc m f (k0_off34 ⟨n, hj⟩ 4#32) (k0_off34_inb ⟨n, hj⟩ 4)) shapeCasts_S1x16_S16 (ix1 lane)
        = trow T1 (remapW (I4 (ix1 (⟨64 * t.val + (5 * n + 4), flat_lt t _ (by omega)⟩ : Fin 2097152)))) (⟨16 * 3 + lane.val, by have := lane.isLt; omega⟩ : Fin 128) :=
      (ldo34_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_4 : ∀ (n : Nat) (h : n ≤ 10) (lane : Fin 16),
    (accsT5 m f n).2.2.2.2.1 (ix1 lane)
      = rowPre T1 I4 t (⟨16 * 4 + lane.val, by have := lane.isLt; omega⟩ : Fin 128) (5 * n) (by omega)
  | 0, h, lane => rfl
  | n + 1, h, lane => by
    have hj : n < k0_t5_loop.trips := by rw [trips5]; omega
    have ih := accsT5_lane_4 n (by omega) lane
    have e0 : shapeCast S16 (ldc m f (k0_off35 ⟨n, hj⟩ 0#32) (k0_off35_inb ⟨n, hj⟩ 0)) shapeCasts_S1x16_S16 (ix1 lane)
        = trow T1 (remapW (I4 (ix1 (⟨64 * t.val + (5 * n + 0), flat_lt t _ (by omega)⟩ : Fin 2097152)))) (⟨16 * 4 + lane.val, by have := lane.isLt; omega⟩ : Fin 128) :=
      (ldo35_lane m f ⟨n, hj⟩ (0 : Fin 5) lane).trans (hG (5 * n + 0) (by omega) _)
    have e1 : shapeCast S16 (ldc m f (k0_off35 ⟨n, hj⟩ 1#32) (k0_off35_inb ⟨n, hj⟩ 1)) shapeCasts_S1x16_S16 (ix1 lane)
        = trow T1 (remapW (I4 (ix1 (⟨64 * t.val + (5 * n + 1), flat_lt t _ (by omega)⟩ : Fin 2097152)))) (⟨16 * 4 + lane.val, by have := lane.isLt; omega⟩ : Fin 128) :=
      (ldo35_lane m f ⟨n, hj⟩ (1 : Fin 5) lane).trans (hG (5 * n + 1) (by omega) _)
    have e2 : shapeCast S16 (ldc m f (k0_off35 ⟨n, hj⟩ 2#32) (k0_off35_inb ⟨n, hj⟩ 2)) shapeCasts_S1x16_S16 (ix1 lane)
        = trow T1 (remapW (I4 (ix1 (⟨64 * t.val + (5 * n + 2), flat_lt t _ (by omega)⟩ : Fin 2097152)))) (⟨16 * 4 + lane.val, by have := lane.isLt; omega⟩ : Fin 128) :=
      (ldo35_lane m f ⟨n, hj⟩ (2 : Fin 5) lane).trans (hG (5 * n + 2) (by omega) _)
    have e3 : shapeCast S16 (ldc m f (k0_off35 ⟨n, hj⟩ 3#32) (k0_off35_inb ⟨n, hj⟩ 3)) shapeCasts_S1x16_S16 (ix1 lane)
        = trow T1 (remapW (I4 (ix1 (⟨64 * t.val + (5 * n + 3), flat_lt t _ (by omega)⟩ : Fin 2097152)))) (⟨16 * 4 + lane.val, by have := lane.isLt; omega⟩ : Fin 128) :=
      (ldo35_lane m f ⟨n, hj⟩ (3 : Fin 5) lane).trans (hG (5 * n + 3) (by omega) _)
    have e4 : shapeCast S16 (ldc m f (k0_off35 ⟨n, hj⟩ 4#32) (k0_off35_inb ⟨n, hj⟩ 4)) shapeCasts_S1x16_S16 (ix1 lane)
        = trow T1 (remapW (I4 (ix1 (⟨64 * t.val + (5 * n + 4), flat_lt t _ (by omega)⟩ : Fin 2097152)))) (⟨16 * 4 + lane.val, by have := lane.isLt; omega⟩ : Fin 128) :=
      (ldo35_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_5 : ∀ (n : Nat) (h : n ≤ 10) (lane : Fin 16),
    (accsT5 m f n).2.2.2.2.2.1 (ix1 lane)
      = rowPre T1 I4 t (⟨16 * 5 + lane.val, by have := lane.isLt; omega⟩ : Fin 128) (5 * n) (by omega)
  | 0, h, lane => rfl
  | n + 1, h, lane => by
    have hj : n < k0_t5_loop.trips := by rw [trips5]; omega
    have ih := accsT5_lane_5 n (by omega) lane
    have e0 : shapeCast S16 (ldc m f (k0_off36 ⟨n, hj⟩ 0#32) (k0_off36_inb ⟨n, hj⟩ 0)) shapeCasts_S1x16_S16 (ix1 lane)
        = trow T1 (remapW (I4 (ix1 (⟨64 * t.val + (5 * n + 0), flat_lt t _ (by omega)⟩ : Fin 2097152)))) (⟨16 * 5 + lane.val, by have := lane.isLt; omega⟩ : Fin 128) :=
      (ldo36_lane m f ⟨n, hj⟩ (0 : Fin 5) lane).trans (hG (5 * n + 0) (by omega) _)
    have e1 : shapeCast S16 (ldc m f (k0_off36 ⟨n, hj⟩ 1#32) (k0_off36_inb ⟨n, hj⟩ 1)) shapeCasts_S1x16_S16 (ix1 lane)
        = trow T1 (remapW (I4 (ix1 (⟨64 * t.val + (5 * n + 1), flat_lt t _ (by omega)⟩ : Fin 2097152)))) (⟨16 * 5 + lane.val, by have := lane.isLt; omega⟩ : Fin 128) :=
      (ldo36_lane m f ⟨n, hj⟩ (1 : Fin 5) lane).trans (hG (5 * n + 1) (by omega) _)
    have e2 : shapeCast S16 (ldc m f (k0_off36 ⟨n, hj⟩ 2#32) (k0_off36_inb ⟨n, hj⟩ 2)) shapeCasts_S1x16_S16 (ix1 lane)
        = trow T1 (remapW (I4 (ix1 (⟨64 * t.val + (5 * n + 2), flat_lt t _ (by omega)⟩ : Fin 2097152)))) (⟨16 * 5 + lane.val, by have := lane.isLt; omega⟩ : Fin 128) :=
      (ldo36_lane m f ⟨n, hj⟩ (2 : Fin 5) lane).trans (hG (5 * n + 2) (by omega) _)
    have e3 : shapeCast S16 (ldc m f (k0_off36 ⟨n, hj⟩ 3#32) (k0_off36_inb ⟨n, hj⟩ 3)) shapeCasts_S1x16_S16 (ix1 lane)
        = trow T1 (remapW (I4 (ix1 (⟨64 * t.val + (5 * n + 3), flat_lt t _ (by omega)⟩ : Fin 2097152)))) (⟨16 * 5 + lane.val, by have := lane.isLt; omega⟩ : Fin 128) :=
      (ldo36_lane m f ⟨n, hj⟩ (3 : Fin 5) lane).trans (hG (5 * n + 3) (by omega) _)
    have e4 : shapeCast S16 (ldc m f (k0_off36 ⟨n, hj⟩ 4#32) (k0_off36_inb ⟨n, hj⟩ 4)) shapeCasts_S1x16_S16 (ix1 lane)
        = trow T1 (remapW (I4 (ix1 (⟨64 * t.val + (5 * n + 4), flat_lt t _ (by omega)⟩ : Fin 2097152)))) (⟨16 * 5 + lane.val, by have := lane.isLt; omega⟩ : Fin 128) :=
      (ldo36_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_6 : ∀ (n : Nat) (h : n ≤ 10) (lane : Fin 16),
    (accsT5 m f n).2.2.2.2.2.2.1 (ix1 lane)
      = rowPre T1 I4 t (⟨16 * 6 + lane.val, by have := lane.isLt; omega⟩ : Fin 128) (5 * n) (by omega)
  | 0, h, lane => rfl
  | n + 1, h, lane => by
    have hj : n < k0_t5_loop.trips := by rw [trips5]; omega
    have ih := accsT5_lane_6 n (by omega) lane
    have e0 : shapeCast S16 (ldc m f (k0_off37 ⟨n, hj⟩ 0#32) (k0_off37_inb ⟨n, hj⟩ 0)) shapeCasts_S1x16_S16 (ix1 lane)
        = trow T1 (remapW (I4 (ix1 (⟨64 * t.val + (5 * n + 0), flat_lt t _ (by omega)⟩ : Fin 2097152)))) (⟨16 * 6 + lane.val, by have := lane.isLt; omega⟩ : Fin 128) :=
      (ldo37_lane m f ⟨n, hj⟩ (0 : Fin 5) lane).trans (hG (5 * n + 0) (by omega) _)
    have e1 : shapeCast S16 (ldc m f (k0_off37 ⟨n, hj⟩ 1#32) (k0_off37_inb ⟨n, hj⟩ 1)) shapeCasts_S1x16_S16 (ix1 lane)
        = trow T1 (remapW (I4 (ix1 (⟨64 * t.val + (5 * n + 1), flat_lt t _ (by omega)⟩ : Fin 2097152)))) (⟨16 * 6 + lane.val, by have := lane.isLt; omega⟩ : Fin 128) :=
      (ldo37_lane m f ⟨n, hj⟩ (1 : Fin 5) lane).trans (hG (5 * n + 1) (by omega) _)
    have e2 : shapeCast S16 (ldc m f (k0_off37 ⟨n, hj⟩ 2#32) (k0_off37_inb ⟨n, hj⟩ 2)) shapeCasts_S1x16_S16 (ix1 lane)
        = trow T1 (remapW (I4 (ix1 (⟨64 * t.val + (5 * n + 2), flat_lt t _ (by omega)⟩ : Fin 2097152)))) (⟨16 * 6 + lane.val, by have := lane.isLt; omega⟩ : Fin 128) :=
      (ldo37_lane m f ⟨n, hj⟩ (2 : Fin 5) lane).trans (hG (5 * n + 2) (by omega) _)
    have e3 : shapeCast S16 (ldc m f (k0_off37 ⟨n, hj⟩ 3#32) (k0_off37_inb ⟨n, hj⟩ 3)) shapeCasts_S1x16_S16 (ix1 lane)
        = trow T1 (remapW (I4 (ix1 (⟨64 * t.val + (5 * n + 3), flat_lt t _ (by omega)⟩ : Fin 2097152)))) (⟨16 * 6 + lane.val, by have := lane.isLt; omega⟩ : Fin 128) :=
      (ldo37_lane m f ⟨n, hj⟩ (3 : Fin 5) lane).trans (hG (5 * n + 3) (by omega) _)
    have e4 : shapeCast S16 (ldc m f (k0_off37 ⟨n, hj⟩ 4#32) (k0_off37_inb ⟨n, hj⟩ 4)) shapeCasts_S1x16_S16 (ix1 lane)
        = trow T1 (remapW (I4 (ix1 (⟨64 * t.val + (5 * n + 4), flat_lt t _ (by omega)⟩ : Fin 2097152)))) (⟨16 * 6 + lane.val, by have := lane.isLt; omega⟩ : Fin 128) :=
      (ldo37_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.2.2.1) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

theorem accsT5_lane_7 : ∀ (n : Nat) (h : n ≤ 10) (lane : Fin 16),
    (accsT5 m f n).2.2.2.2.2.2.2 (ix1 lane)
      = rowPre T1 I4 t (⟨16 * 7 + lane.val, by have := lane.isLt; omega⟩ : Fin 128) (5 * n) (by omega)
  | 0, h, lane => rfl
  | n + 1, h, lane => by
    have hj : n < k0_t5_loop.trips := by rw [trips5]; omega
    have ih := accsT5_lane_7 n (by omega) lane
    have e0 : shapeCast S16 (ldc m f (k0_off38 ⟨n, hj⟩ 0#32) (k0_off38_inb ⟨n, hj⟩ 0)) shapeCasts_S1x16_S16 (ix1 lane)
        = trow T1 (remapW (I4 (ix1 (⟨64 * t.val + (5 * n + 0), flat_lt t _ (by omega)⟩ : Fin 2097152)))) (⟨16 * 7 + lane.val, by have := lane.isLt; omega⟩ : Fin 128) :=
      (ldo38_lane m f ⟨n, hj⟩ (0 : Fin 5) lane).trans (hG (5 * n + 0) (by omega) _)
    have e1 : shapeCast S16 (ldc m f (k0_off38 ⟨n, hj⟩ 1#32) (k0_off38_inb ⟨n, hj⟩ 1)) shapeCasts_S1x16_S16 (ix1 lane)
        = trow T1 (remapW (I4 (ix1 (⟨64 * t.val + (5 * n + 1), flat_lt t _ (by omega)⟩ : Fin 2097152)))) (⟨16 * 7 + lane.val, by have := lane.isLt; omega⟩ : Fin 128) :=
      (ldo38_lane m f ⟨n, hj⟩ (1 : Fin 5) lane).trans (hG (5 * n + 1) (by omega) _)
    have e2 : shapeCast S16 (ldc m f (k0_off38 ⟨n, hj⟩ 2#32) (k0_off38_inb ⟨n, hj⟩ 2)) shapeCasts_S1x16_S16 (ix1 lane)
        = trow T1 (remapW (I4 (ix1 (⟨64 * t.val + (5 * n + 2), flat_lt t _ (by omega)⟩ : Fin 2097152)))) (⟨16 * 7 + lane.val, by have := lane.isLt; omega⟩ : Fin 128) :=
      (ldo38_lane m f ⟨n, hj⟩ (2 : Fin 5) lane).trans (hG (5 * n + 2) (by omega) _)
    have e3 : shapeCast S16 (ldc m f (k0_off38 ⟨n, hj⟩ 3#32) (k0_off38_inb ⟨n, hj⟩ 3)) shapeCasts_S1x16_S16 (ix1 lane)
        = trow T1 (remapW (I4 (ix1 (⟨64 * t.val + (5 * n + 3), flat_lt t _ (by omega)⟩ : Fin 2097152)))) (⟨16 * 7 + lane.val, by have := lane.isLt; omega⟩ : Fin 128) :=
      (ldo38_lane m f ⟨n, hj⟩ (3 : Fin 5) lane).trans (hG (5 * n + 3) (by omega) _)
    have e4 : shapeCast S16 (ldc m f (k0_off38 ⟨n, hj⟩ 4#32) (k0_off38_inb ⟨n, hj⟩ 4)) shapeCasts_S1x16_S16 (ix1 lane)
        = trow T1 (remapW (I4 (ix1 (⟨64 * t.val + (5 * n + 4), flat_lt t _ (by omega)⟩ : Fin 2097152)))) (⟨16 * 7 + lane.val, by have := lane.isLt; omega⟩ : Fin 128) :=
      (ldo38_lane m f ⟨n, hj⟩ (4 : Fin 5) lane).trans (hG (5 * n + 4) (by omega) _)
    rw [rowPre_congr T1 I4 t _ (5 * (n + 1)) (5 * n + 5) (by omega) _ (by omega),
      show accsT5 m f (n + 1) = stepT5 m f ⟨n, hj⟩ (accsT5 m f n) from accsT5_succ m f ⟨n, hj⟩]
    show step5 ((accsT5 m f n).2.2.2.2.2.2.2) _ _ _ _ _ (ix1 lane) = _
    rw [step5_lane, ih]
    refine (congrArg₂ FloatOps.addf (congrArg₂ FloatOps.addf (congrArg₂ FloatOps.addf (congrArg₂ FloatOps.addf (congrArg₂ FloatOps.addf rfl e0) e1) e2) e3) e4).trans ?_
    exact (rowPre_five T1 I4 t _ n (by omega)).symm

/-- After the loop's ten trips accumulator `cc` holds, at lane `c`, the bag's pooled row at column `16 cc + c`. -/
theorem accsT5_done (cc : Fin 8) (lane : Fin 16) :
    (accsT5 m f 10).get cc (ix1 lane) = rowSum T1 I4 t (⟨16 * cc.val + lane.val, by have := cc.isLt; have := lane.isLt; omega⟩ : Fin 128) := by
  rw [rowSum_def, rowPre_congr T1 I4 t _ 50 (5 * 10) (by omega) _ (by omega)]
  match cc with
  | ⟨0, _⟩ => exact accsT5_lane_0 m f T1 I4 t hG 10 (by omega) lane
  | ⟨1, _⟩ => exact accsT5_lane_1 m f T1 I4 t hG 10 (by omega) lane
  | ⟨2, _⟩ => exact accsT5_lane_2 m f T1 I4 t hG 10 (by omega) lane
  | ⟨3, _⟩ => exact accsT5_lane_3 m f T1 I4 t hG 10 (by omega) lane
  | ⟨4, _⟩ => exact accsT5_lane_4 m f T1 I4 t hG 10 (by omega) lane
  | ⟨5, _⟩ => exact accsT5_lane_5 m f T1 I4 t hG 10 (by omega) lane
  | ⟨6, _⟩ => exact accsT5_lane_6 m f T1 I4 t hG 10 (by omega) lane
  | ⟨7, _⟩ => exact accsT5_lane_7 m f T1 I4 t hG 10 (by omega) lane

end Loop5

end Cert.Kernel.Run.Tile

end
-- ==== Proof.BScOb.lean ====
import proofs.«209176_g73847667688168_cont_9to1_m_420_10_alg».proof.Proof.BScAccLane
import Idealize.ShloMosaic.Lib.Ring
import Idealize.ShloMosaic.Lib.Tactic

noncomputable section

namespace Cert.Kernel.Run.Tile

open Cert.Kernel Cert.Kernel.Gen
open Idealize.ShloMosaic Idealize.ShloMosaic.ValueIdx Idealize.SL.Sem Idealize.ShloMosaic.Tactic

variable {F : FTy → Type} [FloatOps F]

/-! # The staging buffer after the sixteen stores

After the two row loops of a round pair the body stores the first loop's eight accumulators into row 0 of the staging
buffer, sixteen lanes at a time, and the second loop's into row 1. The buffer then holds, at `(r, col)`, lane
`col mod 16` of accumulator `col / 16` of loop `r`. -/

/-- What the staging buffer holds after the sixteen stores, from the two loops' final accumulators. -/
def obG (a b : Acc8 F) : S2x128.Idx → Elt F .f32 := fun y =>
  if (y 0).val = 0 then a.get (⟨(y 1).val / 16, by have h : (y 1).val < 128 := (y 1).isLt; omega⟩ : Fin 8) (ix1 (⟨(y 1).val % 16, by omega⟩ : Fin 16))
  else b.get (⟨(y 1).val / 16, by have h : (y 1).val < 128 := (y 1).isLt; omega⟩ : Fin 8) (ix1 (⟨(y 1).val % 16, by omega⟩ : Fin 16))

/-- Pieces that each agree with one function of the buffer's index, and together cover the buffer, read back as that
    function. -/
theorem ob_read {sg : RefSig} {κ : Kind} {sp : Space} (v : View sg κ sp S2x128 .f32) (f : v.ty.Contents (Elt F))
    (L : List (View.Piece (Elt F) S2x128 .f32)) (G : S2x128.Idx → Elt F .f32)
    (hpieces : ∀ p ∈ L, ∀ x : p.1.shape.Idx, p.2 x = G (p.1.emb x)) (hcover : ∀ y : S2x128.Idx, ∃ p ∈ L, y ∈ p.1.set) :
    v.read (Elt F) (v.writes (Elt F) f L) = G := by
  rw [View.read_writes_eq_canon _ _ _ hcover]
  funext y
  exact View.canon_apply_of_pieces G L hpieces y (hcover y)

/-- A vector of 16 lanes stored as one row of 16: lane by lane. -/
theorem sc16_apply (x : FVec F S16 .f32) (lane : Fin 16) :
    shapeCast S1x16 x shapeCasts_S16_S1x16 (ix2 (0 : Fin 1) lane) = x (ix1 lane) :=
  shapeCast_apply x _ (ix2 (0 : Fin 1) lane) (ix1 lane) (by rw [Shape.rowMajor_val_one, Shape.rowMajor_val_two]; simp)

/-- The store of accumulator 0 into row 0: its payload is `obG` on the sixteen entries it writes. -/
theorem ob_piece_0_0 (a b : Acc8 F) (x : S1x16.Idx) :
    shapeCast S1x16 (a.1) shapeCasts_S16_S1x16 x
      = obG a b ((Rect.unit (s := S2x128) ![0, 0] S1x16.size inb_S2x128_S1x16_0_0).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 0] S1x16.size inb_S2x128_S1x16_0_0).emb (ix2 (0 : Fin 1) lane)) 0).val = 0 := by
    show 0 + 1 * 0 = 0; omega
  have e1 : (((Rect.unit (s := S2x128) ![0, 0] S1x16.size inb_S2x128_S1x16_0_0).emb (ix2 (0 : Fin 1) lane)) 1).val = 0 + lane.val := by
    show 0 + 1 * lane.val = 0 + lane.val; omega
  rw [if_pos e0]
  have ec : (⟨(((Rect.unit (s := S2x128) ![0, 0] S1x16.size inb_S2x128_S1x16_0_0).emb (ix2 (0 : Fin 1) lane)) 1).val / 16, by rw [e1]; omega⟩ : Fin 8) = ⟨0, by decide⟩ :=
    Fin.ext (by show _ / 16 = 0; rw [e1]; omega)
  have el : (⟨(((Rect.unit (s := S2x128) ![0, 0] S1x16.size inb_S2x128_S1x16_0_0).emb (ix2 (0 : Fin 1) lane)) 1).val % 16, by omega⟩ : Fin 16) = lane :=
    Fin.ext (by show _ % 16 = lane.val; rw [e1]; omega)
  rw [ec, el]
  rfl

/-- The store of accumulator 1 into row 0: its payload is `obG` on the sixteen entries it writes. -/
theorem ob_piece_0_1 (a b : Acc8 F) (x : S1x16.Idx) :
    shapeCast S1x16 (a.2.1) shapeCasts_S16_S1x16 x
      = obG a b ((Rect.unit (s := S2x128) ![0, 16] S1x16.size inb_S2x128_S1x16_0_16).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 16] S1x16.size inb_S2x128_S1x16_0_16).emb (ix2 (0 : Fin 1) lane)) 0).val = 0 := by
    show 0 + 1 * 0 = 0; omega
  have e1 : (((Rect.unit (s := S2x128) ![0, 16] S1x16.size inb_S2x128_S1x16_0_16).emb (ix2 (0 : Fin 1) lane)) 1).val = 16 + lane.val := by
    show 16 + 1 * lane.val = 16 + lane.val; omega
  rw [if_pos e0]
  have ec : (⟨(((Rect.unit (s := S2x128) ![0, 16] S1x16.size inb_S2x128_S1x16_0_16).emb (ix2 (0 : Fin 1) lane)) 1).val / 16, by rw [e1]; omega⟩ : Fin 8) = ⟨1, by decide⟩ :=
    Fin.ext (by show _ / 16 = 1; rw [e1]; omega)
  have el : (⟨(((Rect.unit (s := S2x128) ![0, 16] S1x16.size inb_S2x128_S1x16_0_16).emb (ix2 (0 : Fin 1) lane)) 1).val % 16, by omega⟩ : Fin 16) = lane :=
    Fin.ext (by show _ % 16 = lane.val; rw [e1]; omega)
  rw [ec, el]
  rfl

/-- The store of accumulator 2 into row 0: its payload is `obG` on the sixteen entries it writes. -/
theorem ob_piece_0_2 (a b : Acc8 F) (x : S1x16.Idx) :
    shapeCast S1x16 (a.2.2.1) shapeCasts_S16_S1x16 x
      = obG a b ((Rect.unit (s := S2x128) ![0, 32] S1x16.size inb_S2x128_S1x16_0_32).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 32] S1x16.size inb_S2x128_S1x16_0_32).emb (ix2 (0 : Fin 1) lane)) 0).val = 0 := by
    show 0 + 1 * 0 = 0; omega
  have e1 : (((Rect.unit (s := S2x128) ![0, 32] S1x16.size inb_S2x128_S1x16_0_32).emb (ix2 (0 : Fin 1) lane)) 1).val = 32 + lane.val := by
    show 32 + 1 * lane.val = 32 + lane.val; omega
  rw [if_pos e0]
  have ec : (⟨(((Rect.unit (s := S2x128) ![0, 32] S1x16.size inb_S2x128_S1x16_0_32).emb (ix2 (0 : Fin 1) lane)) 1).val / 16, by rw [e1]; omega⟩ : Fin 8) = ⟨2, by decide⟩ :=
    Fin.ext (by show _ / 16 = 2; rw [e1]; omega)
  have el : (⟨(((Rect.unit (s := S2x128) ![0, 32] S1x16.size inb_S2x128_S1x16_0_32).emb (ix2 (0 : Fin 1) lane)) 1).val % 16, by omega⟩ : Fin 16) = lane :=
    Fin.ext (by show _ % 16 = lane.val; rw [e1]; omega)
  rw [ec, el]
  rfl

/-- The store of accumulator 3 into row 0: its payload is `obG` on the sixteen entries it writes. -/
theorem ob_piece_0_3 (a b : Acc8 F) (x : S1x16.Idx) :
    shapeCast S1x16 (a.2.2.2.1) shapeCasts_S16_S1x16 x
      = obG a b ((Rect.unit (s := S2x128) ![0, 48] S1x16.size inb_S2x128_S1x16_0_48).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 48] S1x16.size inb_S2x128_S1x16_0_48).emb (ix2 (0 : Fin 1) lane)) 0).val = 0 := by
    show 0 + 1 * 0 = 0; omega
  have e1 : (((Rect.unit (s := S2x128) ![0, 48] S1x16.size inb_S2x128_S1x16_0_48).emb (ix2 (0 : Fin 1) lane)) 1).val = 48 + lane.val := by
    show 48 + 1 * lane.val = 48 + lane.val; omega
  rw [if_pos e0]
  have ec : (⟨(((Rect.unit (s := S2x128) ![0, 48] S1x16.size inb_S2x128_S1x16_0_48).emb (ix2 (0 : Fin 1) lane)) 1).val / 16, by rw [e1]; omega⟩ : Fin 8) = ⟨3, by decide⟩ :=
    Fin.ext (by show _ / 16 = 3; rw [e1]; omega)
  have el : (⟨(((Rect.unit (s := S2x128) ![0, 48] S1x16.size inb_S2x128_S1x16_0_48).emb (ix2 (0 : Fin 1) lane)) 1).val % 16, by omega⟩ : Fin 16) = lane :=
    Fin.ext (by show _ % 16 = lane.val; rw [e1]; omega)
  rw [ec, el]
  rfl

/-- The store of accumulator 4 into row 0: its payload is `obG` on the sixteen entries it writes. -/
theorem ob_piece_0_4 (a b : Acc8 F) (x : S1x16.Idx) :
    shapeCast S1x16 (a.2.2.2.2.1) shapeCasts_S16_S1x16 x
      = obG a b ((Rect.unit (s := S2x128) ![0, 64] S1x16.size inb_S2x128_S1x16_0_64).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 64] S1x16.size inb_S2x128_S1x16_0_64).emb (ix2 (0 : Fin 1) lane)) 0).val = 0 := by
    show 0 + 1 * 0 = 0; omega
  have e1 : (((Rect.unit (s := S2x128) ![0, 64] S1x16.size inb_S2x128_S1x16_0_64).emb (ix2 (0 : Fin 1) lane)) 1).val = 64 + lane.val := by
    show 64 + 1 * lane.val = 64 + lane.val; omega
  rw [if_pos e0]
  have ec : (⟨(((Rect.unit (s := S2x128) ![0, 64] S1x16.size inb_S2x128_S1x16_0_64).emb (ix2 (0 : Fin 1) lane)) 1).val / 16, by rw [e1]; omega⟩ : Fin 8) = ⟨4, by decide⟩ :=
    Fin.ext (by show _ / 16 = 4; rw [e1]; omega)
  have el : (⟨(((Rect.unit (s := S2x128) ![0, 64] S1x16.size inb_S2x128_S1x16_0_64).emb (ix2 (0 : Fin 1) lane)) 1).val % 16, by omega⟩ : Fin 16) = lane :=
    Fin.ext (by show _ % 16 = lane.val; rw [e1]; omega)
  rw [ec, el]
  rfl

/-- The store of accumulator 5 into row 0: its payload is `obG` on the sixteen entries it writes. -/
theorem ob_piece_0_5 (a b : Acc8 F) (x : S1x16.Idx) :
    shapeCast S1x16 (a.2.2.2.2.2.1) shapeCasts_S16_S1x16 x
      = obG a b ((Rect.unit (s := S2x128) ![0, 80] S1x16.size inb_S2x128_S1x16_0_80).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 80] S1x16.size inb_S2x128_S1x16_0_80).emb (ix2 (0 : Fin 1) lane)) 0).val = 0 := by
    show 0 + 1 * 0 = 0; omega
  have e1 : (((Rect.unit (s := S2x128) ![0, 80] S1x16.size inb_S2x128_S1x16_0_80).emb (ix2 (0 : Fin 1) lane)) 1).val = 80 + lane.val := by
    show 80 + 1 * lane.val = 80 + lane.val; omega
  rw [if_pos e0]
  have ec : (⟨(((Rect.unit (s := S2x128) ![0, 80] S1x16.size inb_S2x128_S1x16_0_80).emb (ix2 (0 : Fin 1) lane)) 1).val / 16, by rw [e1]; omega⟩ : Fin 8) = ⟨5, by decide⟩ :=
    Fin.ext (by show _ / 16 = 5; rw [e1]; omega)
  have el : (⟨(((Rect.unit (s := S2x128) ![0, 80] S1x16.size inb_S2x128_S1x16_0_80).emb (ix2 (0 : Fin 1) lane)) 1).val % 16, by omega⟩ : Fin 16) = lane :=
    Fin.ext (by show _ % 16 = lane.val; rw [e1]; omega)
  rw [ec, el]
  rfl

/-- The store of accumulator 6 into row 0: its payload is `obG` on the sixteen entries it writes. -/
theorem ob_piece_0_6 (a b : Acc8 F) (x : S1x16.Idx) :
    shapeCast S1x16 (a.2.2.2.2.2.2.1) shapeCasts_S16_S1x16 x
      = obG a b ((Rect.unit (s := S2x128) ![0, 96] S1x16.size inb_S2x128_S1x16_0_96).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 96] S1x16.size inb_S2x128_S1x16_0_96).emb (ix2 (0 : Fin 1) lane)) 0).val = 0 := by
    show 0 + 1 * 0 = 0; omega
  have e1 : (((Rect.unit (s := S2x128) ![0, 96] S1x16.size inb_S2x128_S1x16_0_96).emb (ix2 (0 : Fin 1) lane)) 1).val = 96 + lane.val := by
    show 96 + 1 * lane.val = 96 + lane.val; omega
  rw [if_pos e0]
  have ec : (⟨(((Rect.unit (s := S2x128) ![0, 96] S1x16.size inb_S2x128_S1x16_0_96).emb (ix2 (0 : Fin 1) lane)) 1).val / 16, by rw [e1]; omega⟩ : Fin 8) = ⟨6, by decide⟩ :=
    Fin.ext (by show _ / 16 = 6; rw [e1]; omega)
  have el : (⟨(((Rect.unit (s := S2x128) ![0, 96] S1x16.size inb_S2x128_S1x16_0_96).emb (ix2 (0 : Fin 1) lane)) 1).val % 16, by omega⟩ : Fin 16) = lane :=
    Fin.ext (by show _ % 16 = lane.val; rw [e1]; omega)
  rw [ec, el]
  rfl

/-- The store of accumulator 7 into row 0: its payload is `obG` on the sixteen entries it writes. -/
theorem ob_piece_0_7 (a b : Acc8 F) (x : S1x16.Idx) :
    shapeCast S1x16 (a.2.2.2.2.2.2.2) shapeCasts_S16_S1x16 x
      = obG a b ((Rect.unit (s := S2x128) ![0, 112] S1x16.size inb_S2x128_S1x16_0_112).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![0, 112] S1x16.size inb_S2x128_S1x16_0_112).emb (ix2 (0 : Fin 1) lane)) 0).val = 0 := by
    show 0 + 1 * 0 = 0; omega
  have e1 : (((Rect.unit (s := S2x128) ![0, 112] S1x16.size inb_S2x128_S1x16_0_112).emb (ix2 (0 : Fin 1) lane)) 1).val = 112 + lane.val := by
    show 112 + 1 * lane.val = 112 + lane.val; omega
  rw [if_pos e0]
  have ec : (⟨(((Rect.unit (s := S2x128) ![0, 112] S1x16.size inb_S2x128_S1x16_0_112).emb (ix2 (0 : Fin 1) lane)) 1).val / 16, by rw [e1]; omega⟩ : Fin 8) = ⟨7, by decide⟩ :=
    Fin.ext (by show _ / 16 = 7; rw [e1]; omega)
  have el : (⟨(((Rect.unit (s := S2x128) ![0, 112] S1x16.size inb_S2x128_S1x16_0_112).emb (ix2 (0 : Fin 1) lane)) 1).val % 16, by omega⟩ : Fin 16) = lane :=
    Fin.ext (by show _ % 16 = lane.val; rw [e1]; omega)
  rw [ec, el]
  rfl

/-- The store of accumulator 0 into row 1: its payload is `obG` on the sixteen entries it writes. -/
theorem ob_piece_1_0 (a b : Acc8 F) (x : S1x16.Idx) :
    shapeCast S1x16 (b.1) shapeCasts_S16_S1x16 x
      = obG a b ((Rect.unit (s := S2x128) ![1, 0] S1x16.size inb_S2x128_S1x16_1_0).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 0] S1x16.size inb_S2x128_S1x16_1_0).emb (ix2 (0 : Fin 1) lane)) 0).val = 1 := by
    show 1 + 1 * 0 = 1; omega
  have e1 : (((Rect.unit (s := S2x128) ![1, 0] S1x16.size inb_S2x128_S1x16_1_0).emb (ix2 (0 : Fin 1) lane)) 1).val = 0 + lane.val := by
    show 0 + 1 * lane.val = 0 + lane.val; omega
  rw [if_neg (by rw [e0]; decide)]
  have ec : (⟨(((Rect.unit (s := S2x128) ![1, 0] S1x16.size inb_S2x128_S1x16_1_0).emb (ix2 (0 : Fin 1) lane)) 1).val / 16, by rw [e1]; omega⟩ : Fin 8) = ⟨0, by decide⟩ :=
    Fin.ext (by show _ / 16 = 0; rw [e1]; omega)
  have el : (⟨(((Rect.unit (s := S2x128) ![1, 0] S1x16.size inb_S2x128_S1x16_1_0).emb (ix2 (0 : Fin 1) lane)) 1).val % 16, by omega⟩ : Fin 16) = lane :=
    Fin.ext (by show _ % 16 = lane.val; rw [e1]; omega)
  rw [ec, el]
  rfl

/-- The store of accumulator 1 into row 1: its payload is `obG` on the sixteen entries it writes. -/
theorem ob_piece_1_1 (a b : Acc8 F) (x : S1x16.Idx) :
    shapeCast S1x16 (b.2.1) shapeCasts_S16_S1x16 x
      = obG a b ((Rect.unit (s := S2x128) ![1, 16] S1x16.size inb_S2x128_S1x16_1_16).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 16] S1x16.size inb_S2x128_S1x16_1_16).emb (ix2 (0 : Fin 1) lane)) 0).val = 1 := by
    show 1 + 1 * 0 = 1; omega
  have e1 : (((Rect.unit (s := S2x128) ![1, 16] S1x16.size inb_S2x128_S1x16_1_16).emb (ix2 (0 : Fin 1) lane)) 1).val = 16 + lane.val := by
    show 16 + 1 * lane.val = 16 + lane.val; omega
  rw [if_neg (by rw [e0]; decide)]
  have ec : (⟨(((Rect.unit (s := S2x128) ![1, 16] S1x16.size inb_S2x128_S1x16_1_16).emb (ix2 (0 : Fin 1) lane)) 1).val / 16, by rw [e1]; omega⟩ : Fin 8) = ⟨1, by decide⟩ :=
    Fin.ext (by show _ / 16 = 1; rw [e1]; omega)
  have el : (⟨(((Rect.unit (s := S2x128) ![1, 16] S1x16.size inb_S2x128_S1x16_1_16).emb (ix2 (0 : Fin 1) lane)) 1).val % 16, by omega⟩ : Fin 16) = lane :=
    Fin.ext (by show _ % 16 = lane.val; rw [e1]; omega)
  rw [ec, el]
  rfl

/-- The store of accumulator 2 into row 1: its payload is `obG` on the sixteen entries it writes. -/
theorem ob_piece_1_2 (a b : Acc8 F) (x : S1x16.Idx) :
    shapeCast S1x16 (b.2.2.1) shapeCasts_S16_S1x16 x
      = obG a b ((Rect.unit (s := S2x128) ![1, 32] S1x16.size inb_S2x128_S1x16_1_32).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 32] S1x16.size inb_S2x128_S1x16_1_32).emb (ix2 (0 : Fin 1) lane)) 0).val = 1 := by
    show 1 + 1 * 0 = 1; omega
  have e1 : (((Rect.unit (s := S2x128) ![1, 32] S1x16.size inb_S2x128_S1x16_1_32).emb (ix2 (0 : Fin 1) lane)) 1).val = 32 + lane.val := by
    show 32 + 1 * lane.val = 32 + lane.val; omega
  rw [if_neg (by rw [e0]; decide)]
  have ec : (⟨(((Rect.unit (s := S2x128) ![1, 32] S1x16.size inb_S2x128_S1x16_1_32).emb (ix2 (0 : Fin 1) lane)) 1).val / 16, by rw [e1]; omega⟩ : Fin 8) = ⟨2, by decide⟩ :=
    Fin.ext (by show _ / 16 = 2; rw [e1]; omega)
  have el : (⟨(((Rect.unit (s := S2x128) ![1, 32] S1x16.size inb_S2x128_S1x16_1_32).emb (ix2 (0 : Fin 1) lane)) 1).val % 16, by omega⟩ : Fin 16) = lane :=
    Fin.ext (by show _ % 16 = lane.val; rw [e1]; omega)
  rw [ec, el]
  rfl

/-- The store of accumulator 3 into row 1: its payload is `obG` on the sixteen entries it writes. -/
theorem ob_piece_1_3 (a b : Acc8 F) (x : S1x16.Idx) :
    shapeCast S1x16 (b.2.2.2.1) shapeCasts_S16_S1x16 x
      = obG a b ((Rect.unit (s := S2x128) ![1, 48] S1x16.size inb_S2x128_S1x16_1_48).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 48] S1x16.size inb_S2x128_S1x16_1_48).emb (ix2 (0 : Fin 1) lane)) 0).val = 1 := by
    show 1 + 1 * 0 = 1; omega
  have e1 : (((Rect.unit (s := S2x128) ![1, 48] S1x16.size inb_S2x128_S1x16_1_48).emb (ix2 (0 : Fin 1) lane)) 1).val = 48 + lane.val := by
    show 48 + 1 * lane.val = 48 + lane.val; omega
  rw [if_neg (by rw [e0]; decide)]
  have ec : (⟨(((Rect.unit (s := S2x128) ![1, 48] S1x16.size inb_S2x128_S1x16_1_48).emb (ix2 (0 : Fin 1) lane)) 1).val / 16, by rw [e1]; omega⟩ : Fin 8) = ⟨3, by decide⟩ :=
    Fin.ext (by show _ / 16 = 3; rw [e1]; omega)
  have el : (⟨(((Rect.unit (s := S2x128) ![1, 48] S1x16.size inb_S2x128_S1x16_1_48).emb (ix2 (0 : Fin 1) lane)) 1).val % 16, by omega⟩ : Fin 16) = lane :=
    Fin.ext (by show _ % 16 = lane.val; rw [e1]; omega)
  rw [ec, el]
  rfl

/-- The store of accumulator 4 into row 1: its payload is `obG` on the sixteen entries it writes. -/
theorem ob_piece_1_4 (a b : Acc8 F) (x : S1x16.Idx) :
    shapeCast S1x16 (b.2.2.2.2.1) shapeCasts_S16_S1x16 x
      = obG a b ((Rect.unit (s := S2x128) ![1, 64] S1x16.size inb_S2x128_S1x16_1_64).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 64] S1x16.size inb_S2x128_S1x16_1_64).emb (ix2 (0 : Fin 1) lane)) 0).val = 1 := by
    show 1 + 1 * 0 = 1; omega
  have e1 : (((Rect.unit (s := S2x128) ![1, 64] S1x16.size inb_S2x128_S1x16_1_64).emb (ix2 (0 : Fin 1) lane)) 1).val = 64 + lane.val := by
    show 64 + 1 * lane.val = 64 + lane.val; omega
  rw [if_neg (by rw [e0]; decide)]
  have ec : (⟨(((Rect.unit (s := S2x128) ![1, 64] S1x16.size inb_S2x128_S1x16_1_64).emb (ix2 (0 : Fin 1) lane)) 1).val / 16, by rw [e1]; omega⟩ : Fin 8) = ⟨4, by decide⟩ :=
    Fin.ext (by show _ / 16 = 4; rw [e1]; omega)
  have el : (⟨(((Rect.unit (s := S2x128) ![1, 64] S1x16.size inb_S2x128_S1x16_1_64).emb (ix2 (0 : Fin 1) lane)) 1).val % 16, by omega⟩ : Fin 16) = lane :=
    Fin.ext (by show _ % 16 = lane.val; rw [e1]; omega)
  rw [ec, el]
  rfl

/-- The store of accumulator 5 into row 1: its payload is `obG` on the sixteen entries it writes. -/
theorem ob_piece_1_5 (a b : Acc8 F) (x : S1x16.Idx) :
    shapeCast S1x16 (b.2.2.2.2.2.1) shapeCasts_S16_S1x16 x
      = obG a b ((Rect.unit (s := S2x128) ![1, 80] S1x16.size inb_S2x128_S1x16_1_80).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 80] S1x16.size inb_S2x128_S1x16_1_80).emb (ix2 (0 : Fin 1) lane)) 0).val = 1 := by
    show 1 + 1 * 0 = 1; omega
  have e1 : (((Rect.unit (s := S2x128) ![1, 80] S1x16.size inb_S2x128_S1x16_1_80).emb (ix2 (0 : Fin 1) lane)) 1).val = 80 + lane.val := by
    show 80 + 1 * lane.val = 80 + lane.val; omega
  rw [if_neg (by rw [e0]; decide)]
  have ec : (⟨(((Rect.unit (s := S2x128) ![1, 80] S1x16.size inb_S2x128_S1x16_1_80).emb (ix2 (0 : Fin 1) lane)) 1).val / 16, by rw [e1]; omega⟩ : Fin 8) = ⟨5, by decide⟩ :=
    Fin.ext (by show _ / 16 = 5; rw [e1]; omega)
  have el : (⟨(((Rect.unit (s := S2x128) ![1, 80] S1x16.size inb_S2x128_S1x16_1_80).emb (ix2 (0 : Fin 1) lane)) 1).val % 16, by omega⟩ : Fin 16) = lane :=
    Fin.ext (by show _ % 16 = lane.val; rw [e1]; omega)
  rw [ec, el]
  rfl

/-- The store of accumulator 6 into row 1: its payload is `obG` on the sixteen entries it writes. -/
theorem ob_piece_1_6 (a b : Acc8 F) (x : S1x16.Idx) :
    shapeCast S1x16 (b.2.2.2.2.2.2.1) shapeCasts_S16_S1x16 x
      = obG a b ((Rect.unit (s := S2x128) ![1, 96] S1x16.size inb_S2x128_S1x16_1_96).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 96] S1x16.size inb_S2x128_S1x16_1_96).emb (ix2 (0 : Fin 1) lane)) 0).val = 1 := by
    show 1 + 1 * 0 = 1; omega
  have e1 : (((Rect.unit (s := S2x128) ![1, 96] S1x16.size inb_S2x128_S1x16_1_96).emb (ix2 (0 : Fin 1) lane)) 1).val = 96 + lane.val := by
    show 96 + 1 * lane.val = 96 + lane.val; omega
  rw [if_neg (by rw [e0]; decide)]
  have ec : (⟨(((Rect.unit (s := S2x128) ![1, 96] S1x16.size inb_S2x128_S1x16_1_96).emb (ix2 (0 : Fin 1) lane)) 1).val / 16, by rw [e1]; omega⟩ : Fin 8) = ⟨6, by decide⟩ :=
    Fin.ext (by show _ / 16 = 6; rw [e1]; omega)
  have el : (⟨(((Rect.unit (s := S2x128) ![1, 96] S1x16.size inb_S2x128_S1x16_1_96).emb (ix2 (0 : Fin 1) lane)) 1).val % 16, by omega⟩ : Fin 16) = lane :=
    Fin.ext (by show _ % 16 = lane.val; rw [e1]; omega)
  rw [ec, el]
  rfl

/-- The store of accumulator 7 into row 1: its payload is `obG` on the sixteen entries it writes. -/
theorem ob_piece_1_7 (a b : Acc8 F) (x : S1x16.Idx) :
    shapeCast S1x16 (b.2.2.2.2.2.2.2) shapeCasts_S16_S1x16 x
      = obG a b ((Rect.unit (s := S2x128) ![1, 112] S1x16.size inb_S2x128_S1x16_1_112).emb x) := by
  obtain ⟨z, lane, rfl⟩ : ∃ (z : Fin 1) (lane : Fin 16), x = ix2 z lane := ⟨x 0, x 1, eq_ix2 x⟩
  have hz : z = 0 := Fin.ext (by omega)
  subst hz
  rw [sc16_apply]
  have hl : lane.val < 16 := lane.isLt
  unfold obG
  have e0 : (((Rect.unit (s := S2x128) ![1, 112] S1x16.size inb_S2x128_S1x16_1_112).emb (ix2 (0 : Fin 1) lane)) 0).val = 1 := by
    show 1 + 1 * 0 = 1; omega
  have e1 : (((Rect.unit (s := S2x128) ![1, 112] S1x16.size inb_S2x128_S1x16_1_112).emb (ix2 (0 : Fin 1) lane)) 1).val = 112 + lane.val := by
    show 112 + 1 * lane.val = 112 + lane.val; omega
  rw [if_neg (by rw [e0]; decide)]
  have ec : (⟨(((Rect.unit (s := S2x128) ![1, 112] S1x16.size inb_S2x128_S1x16_1_112).emb (ix2 (0 : Fin 1) lane)) 1).val / 16, by rw [e1]; omega⟩ : Fin 8) = ⟨7, by decide⟩ :=
    Fin.ext (by show _ / 16 = 7; rw [e1]; omega)
  have el : (⟨(((Rect.unit (s := S2x128) ![1, 112] S1x16.size inb_S2x128_S1x16_1_112).emb (ix2 (0 : Fin 1) lane)) 1).val % 16, by omega⟩ : Fin 16) = lane :=
    Fin.ext (by show _ % 16 = lane.val; rw [e1]; omega)
  rw [ec, el]
  rfl

section Rows
variable (m0 : Memref sig .scVector .vmem S100x128 .f32) (f0 : m0.view.ty.Contents (Elt F))
  (T1 : (⟨2, ![100008, 128]⟩ : Shape).Idx → Elt F .f32) (I4 : (⟨1, ![2097152]⟩ : Shape).Idx → BitVec 32) (t0 t1 : Fin 32768)

/-- THE ROUND'S TWO ROWS. With the scratch's first 50 rows the table rows bag `t0`'s words name and its next 50 those of
    bag `t1`, the staging buffer after the first buffer set's two row loops and their sixteen stores holds the two bags'
    pooled rows. -/
theorem obG_rows_A
    (hG0 : ∀ (n : Nat) (hn : n < 50) (col : Fin 128), m0.view.read (Elt F) f0 (ix2 (⟨n, by omega⟩ : Fin 100) col)
      = trow T1 (remapW (I4 (ix1 (⟨64 * t0.val + n, flat_lt t0 n hn⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * t1.val + n, flat_lt t1 n hn⟩ : Fin 2097152)))) col)
    (r : Fin 2) (col : Fin 128) :
    obG (accsT2 m0 f0 10) (accsT3 m0 f0 10) (ix2 r col) = rowSum T1 I4 (if r.val = 0 then t0 else t1) col := by
  have hc : col.val < 128 := col.isLt
  have ecol : (⟨16 * (col.val / 16) + col.val % 16, by omega⟩ : Fin 128) = col := Fin.ext (by show 16 * (col.val / 16) + col.val % 16 = col.val; omega)
  unfold obG
  by_cases h0 : r.val = 0
  · rw [if_pos (show ((ix2 r col) 0).val = 0 from h0), if_pos h0]
    have e := accsT2_done m0 f0 T1 I4 t0 hG0 (⟨col.val / 16, by omega⟩ : Fin 8) (⟨col.val % 16, by omega⟩ : Fin 16)
    rw [ecol] at e
    exact e
  · rw [if_neg (show ¬((ix2 r col) 0).val = 0 from h0), if_neg h0]
    have e := accsT3_done m0 f0 T1 I4 t1 hG1 (⟨col.val / 16, by omega⟩ : Fin 8) (⟨col.val % 16, by omega⟩ : Fin 16)
    rw [ecol] at e
    exact e

/-- The same for the second buffer set's two row loops. -/
theorem obG_rows_B
    (hG0 : ∀ (n : Nat) (hn : n < 50) (col : Fin 128), m0.view.read (Elt F) f0 (ix2 (⟨n, by omega⟩ : Fin 100) col)
      = trow T1 (remapW (I4 (ix1 (⟨64 * t0.val + n, flat_lt t0 n hn⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * t1.val + n, flat_lt t1 n hn⟩ : Fin 2097152)))) col)
    (r : Fin 2) (col : Fin 128) :
    obG (accsT4 m0 f0 10) (accsT5 m0 f0 10) (ix2 r col) = rowSum T1 I4 (if r.val = 0 then t0 else t1) col := by
  have hc : col.val < 128 := col.isLt
  have ecol : (⟨16 * (col.val / 16) + col.val % 16, by omega⟩ : Fin 128) = col := Fin.ext (by show 16 * (col.val / 16) + col.val % 16 = col.val; omega)
  unfold obG
  by_cases h0 : r.val = 0
  · rw [if_pos (show ((ix2 r col) 0).val = 0 from h0), if_pos h0]
    have e := accsT4_done m0 f0 T1 I4 t0 hG0 (⟨col.val / 16, by omega⟩ : Fin 8) (⟨col.val % 16, by omega⟩ : Fin 16)
    rw [ecol] at e
    exact e
  · rw [if_neg (show ¬((ix2 r col) 0).val = 0 from h0), if_neg h0]
    have e := accsT5_done m0 f0 T1 I4 t1 hG1 (⟨col.val / 16, by omega⟩ : Fin 8) (⟨col.val % 16, by omega⟩ : Fin 16)
    rw [ecol] at e
    exact e

end Rows

/-! ## The sixteen stores as one list -/

/-- The sixteen stores into the staging buffer, last first: the second loop's accumulators 7 … 0 into row 1, then the first
    loop's 7 … 0 into row 0. -/
def obList (a b : Acc8 F) : List (View.Piece (Elt F) S2x128 .f32) :=
  [⟨Rect.unit (s := S2x128) ![1, 112] S1x16.size inb_S2x128_S1x16_1_112, shapeCast S1x16 (b.2.2.2.2.2.2.2) shapeCasts_S16_S1x16⟩,
   ⟨Rect.unit (s := S2x128) ![1, 96] S1x16.size inb_S2x128_S1x16_1_96, shapeCast S1x16 (b.2.2.2.2.2.2.1) shapeCasts_S16_S1x16⟩,
   ⟨Rect.unit (s := S2x128) ![1, 80] S1x16.size inb_S2x128_S1x16_1_80, shapeCast S1x16 (b.2.2.2.2.2.1) shapeCasts_S16_S1x16⟩,
   ⟨Rect.unit (s := S2x128) ![1, 64] S1x16.size inb_S2x128_S1x16_1_64, shapeCast S1x16 (b.2.2.2.2.1) shapeCasts_S16_S1x16⟩,
   ⟨Rect.unit (s := S2x128) ![1, 48] S1x16.size inb_S2x128_S1x16_1_48, shapeCast S1x16 (b.2.2.2.1) shapeCasts_S16_S1x16⟩,
   ⟨Rect.unit (s := S2x128) ![1, 32] S1x16.size inb_S2x128_S1x16_1_32, shapeCast S1x16 (b.2.2.1) shapeCasts_S16_S1x16⟩,
   ⟨Rect.unit (s := S2x128) ![1, 16] S1x16.size inb_S2x128_S1x16_1_16, shapeCast S1x16 (b.2.1) shapeCasts_S16_S1x16⟩,
   ⟨Rect.unit (s := S2x128) ![1, 0] S1x16.size inb_S2x128_S1x16_1_0, shapeCast S1x16 (b.1) shapeCasts_S16_S1x16⟩,
   ⟨Rect.unit (s := S2x128) ![0, 112] S1x16.size inb_S2x128_S1x16_0_112, shapeCast S1x16 (a.2.2.2.2.2.2.2) shapeCasts_S16_S1x16⟩,
   ⟨Rect.unit (s := S2x128) ![0, 96] S1x16.size inb_S2x128_S1x16_0_96, shapeCast S1x16 (a.2.2.2.2.2.2.1) shapeCasts_S16_S1x16⟩,
   ⟨Rect.unit (s := S2x128) ![0, 80] S1x16.size inb_S2x128_S1x16_0_80, shapeCast S1x16 (a.2.2.2.2.2.1) shapeCasts_S16_S1x16⟩,
   ⟨Rect.unit (s := S2x128) ![0, 64] S1x16.size inb_S2x128_S1x16_0_64, shapeCast S1x16 (a.2.2.2.2.1) shapeCasts_S16_S1x16⟩,
   ⟨Rect.unit (s := S2x128) ![0, 48] S1x16.size inb_S2x128_S1x16_0_48, shapeCast S1x16 (a.2.2.2.1) shapeCasts_S16_S1x16⟩,
   ⟨Rect.unit (s := S2x128) ![0, 32] S1x16.size inb_S2x128_S1x16_0_32, shapeCast S1x16 (a.2.2.1) shapeCasts_S16_S1x16⟩,
   ⟨Rect.unit (s := S2x128) ![0, 16] S1x16.size inb_S2x128_S1x16_0_16, shapeCast S1x16 (a.2.1) shapeCasts_S16_S1x16⟩,
   ⟨Rect.unit (s := S2x128) ![0, 0] S1x16.size inb_S2x128_S1x16_0_0, shapeCast S1x16 (a.1) shapeCasts_S16_S1x16⟩]

/-- Every store's payload is `obG` on what it writes. -/
theorem obList_pieces (a b : Acc8 F) : ∀ p ∈ obList a b, ∀ x : p.1.shape.Idx, p.2 x = obG a b (p.1.emb x) := by
  unfold obList
  refine List.forall_mem_cons.mpr ⟨fun x => ob_piece_1_7 a b x, ?_⟩
  refine List.forall_mem_cons.mpr ⟨fun x => ob_piece_1_6 a b x, ?_⟩
  refine List.forall_mem_cons.mpr ⟨fun x => ob_piece_1_5 a b x, ?_⟩
  refine List.forall_mem_cons.mpr ⟨fun x => ob_piece_1_4 a b x, ?_⟩
  refine List.forall_mem_cons.mpr ⟨fun x => ob_piece_1_3 a b x, ?_⟩
  refine List.forall_mem_cons.mpr ⟨fun x => ob_piece_1_2 a b x, ?_⟩
  refine List.forall_mem_cons.mpr ⟨fun x => ob_piece_1_1 a b x, ?_⟩
  refine List.forall_mem_cons.mpr ⟨fun x => ob_piece_1_0 a b x, ?_⟩
  refine List.forall_mem_cons.mpr ⟨fun x => ob_piece_0_7 a b x, ?_⟩
  refine List.forall_mem_cons.mpr ⟨fun x => ob_piece_0_6 a b x, ?_⟩
  refine List.forall_mem_cons.mpr ⟨fun x => ob_piece_0_5 a b x, ?_⟩
  refine List.forall_mem_cons.mpr ⟨fun x => ob_piece_0_4 a b x, ?_⟩
  refine List.forall_mem_cons.mpr ⟨fun x => ob_piece_0_3 a b x, ?_⟩
  refine List.forall_mem_cons.mpr ⟨fun x => ob_piece_0_2 a b x, ?_⟩
  refine List.forall_mem_cons.mpr ⟨fun x => ob_piece_0_1 a b x, ?_⟩
  refine List.forall_mem_cons.mpr ⟨fun x => ob_piece_0_0 a b x, ?_⟩
  exact fun _ h => absurd h List.not_mem_nil

/-- The sixteen stores tile the staging buffer. -/
theorem obList_cover (a b : Acc8 F) (y : S2x128.Idx) : ∃ p ∈ obList a b, y ∈ p.1.set :=
  View.cover_of_tiledL (obList a b) S1x16.size (by sl_kernel_rfl) y

/-- THE STAGING BUFFER after the sixteen stores, read through any view of it. -/
theorem ob_read_list {sg : RefSig} {κ : Kind} {sp : Space} (v : View sg κ sp S2x128 .f32) (f : v.ty.Contents (Elt F)) (a b : Acc8 F) :
    v.read (Elt F) (v.writes (Elt F) f (obList a b)) = obG a b :=
  ob_read v f (obList a b) (obG a b) (obList_pieces a b) (obList_cover a b)

section RowsAt
variable (m0 : Memref sig .scVector .vmem S100x128 .f32) (f0 : m0.view.ty.Contents (Elt F))
  (T1 : (⟨2, ![100008, 128]⟩ : Shape).Idx → Elt F .f32) (I4 : (⟨1, ![2097152]⟩ : Shape).Idx → BitVec 32)

/-- The two rows of a round pair, rows `base` and `base + 1` of the pooled array, from the first buffer set. -/
theorem obG_rowsAt_A (base : Nat) (hb : base + 1 < 32768)
    (hG0 : ∀ (n : Nat) (hn : n < 50) (col : Fin 128), m0.view.read (Elt F) f0 (ix2 (⟨n, by omega⟩ : Fin 100) col)
      = trow T1 (remapW (I4 (ix1 (⟨64 * base + n, by omega⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * (base + 1) + n, by omega⟩ : Fin 2097152)))) col)
    (r : Fin 2) (col : Fin 128) :
    obG (accsT2 m0 f0 10) (accsT3 m0 f0 10) (ix2 r col) = rowSum T1 I4 (⟨base + r.val, by have := r.isLt; omega⟩ : Fin 32768) col := by
  have h := obG_rows_A m0 f0 T1 I4 (⟨base, by omega⟩ : Fin 32768) (⟨base + 1, hb⟩ : Fin 32768) hG0 hG1 r col
  rw [h]
  by_cases h0 : r.val = 0
  · rw [if_pos h0]; exact congrArg (fun t => rowSum T1 I4 t col) (Fin.ext (by show base = base + r.val; omega))
  · rw [if_neg h0]; exact congrArg (fun t => rowSum T1 I4 t col) (Fin.ext (by show base + 1 = base + r.val; have := r.isLt; omega))

/-- The same from the second buffer set. -/
theorem obG_rowsAt_B (base : Nat) (hb : base + 1 < 32768)
    (hG0 : ∀ (n : Nat) (hn : n < 50) (col : Fin 128), m0.view.read (Elt F) f0 (ix2 (⟨n, by omega⟩ : Fin 100) col)
      = trow T1 (remapW (I4 (ix1 (⟨64 * base + n, by omega⟩ : Fin 2097152)))) col)
    (hG1 : ∀ (n : Nat) (hn : n < 50) (col : Fin 128), m0.view.read (Elt F) f0 (ix2 (⟨n + 50, by omega⟩ : Fin 100) col)
      = trow T1 (remapW (I4 (ix1 (⟨64 * (base + 1) + n, by omega⟩ : Fin 2097152)))) col)
    (r : Fin 2) (col : Fin 128) :
    obG (accsT4 m0 f0 10) (accsT5 m0 f0 10) (ix2 r col) = rowSum T1 I4 (⟨base + r.val, by have := r.isLt; omega⟩ : Fin 32768) col := by
  have h := obG_rows_B m0 f0 T1 I4 (⟨base, by omega⟩ : Fin 32768) (⟨base + 1, hb⟩ : Fin 32768) hG0 hG1 r col
  rw [h]
  by_cases h0 : r.val = 0
  · rw [if_pos h0]; exact congrArg (fun t => rowSum T1 I4 t col) (Fin.ext (by show base = base + r.val; omega))
  · rw [if_neg h0]; exact congrArg (fun t => rowSum T1 I4 t col) (Fin.ext (by show base + 1 = base + r.val; have := r.isLt; omega))

end RowsAt

end Cert.Kernel.Run.Tile

end
-- ==== Proof.BScVal.lean ====
/-
  Pure facts for the pooling task's values: the remapping of the padding word at a lane, the kernel's offsets into
  the task's index words in closed form, what one round's index list holds after its eight chunk stores, what a
  gather delivers into the row scratch, and the table row a small word names.
-/
import proofs.«209176_g73847667688168_cont_9to1_m_420_10_alg».proof.Proof.BScSum
import proofs.«209176_g73847667688168_cont_9to1_m_420_10_alg».proof.Proof.BScDefs
import Idealize.ShloMosaic.Lib.SparseCore.Stream
import Idealize.ShloMosaic.Lib.Pipeline.Value

noncomputable section

namespace Cert.Kernel.Run.Tile

open Cert.Kernel Cert.Kernel.Gen Cert.Kernel.Run
open Idealize.ShloMosaic Idealize.ShloMosaic.ValueIdx

variable {F : FTy → Type} [FloatOps F]

/-! ## The remapping at a lane -/

/-- The remapping of the padding index at one lane: a zero word becomes 100000, any other word stays. -/
theorem remap_lane (v : IVec S16 32) (h1 h2 : S16.ShapeCasts S16) (i : S16.Idx) :
    shapeCast S16 (select (cmpi CmpIPredicate.ne (shapeCast S16 v h1) (broadcast S16 0#32)) (shapeCast S16 v h1)
      (broadcast S16 100000#32)) h2 i = remapW (v i) := by
  rw [shapeCast_self, shapeCast_self]
  show Scalar.select (Scalar.cmpi CmpIPredicate.ne (v i) 0#32) (v i) 100000#32 = remapW (v i)
  unfold remapW Scalar.select
  by_cases h : v i = 0#32
  · rw [if_pos h, h]; rfl
  · rw [if_neg h]
    exact if_pos (IntOp.cmpi_ne.mpr h)

/-! ## The offsets into the task's index words, in closed form -/

/-- Round `2 k + 1`'s chunks start at word `128 (2 k + 1)` plus the chunk's own offset. -/
theorem off2_eq : ∀ (k : Fin k0_t1_loop.trips) (r : Fin 8),
    k0_off2 k (k0_off2_at r).1 (k0_off2_at r).2 = ![256 * k.val + 128 + ((k0_off2_at r).1.toNat + (k0_off2_at r).2.toNat)] := by
  decide +kernel

/-- Round `min (2 k + 2) 511`'s chunks start at word `128 min (2 k + 2) 511` plus the chunk's own offset. -/
theorem off21_eq : ∀ (k : Fin k0_t1_loop.trips) (r : Fin 8),
    k0_off21 k (k0_off21_at r).1 (k0_off21_at r).2 = ![128 * min (2 * k.val + 2) 511 + ((k0_off21_at r).1.toNat + (k0_off21_at r).2.toNat)] := by
  decide +kernel

/-! ## One round's index list -/

/-- Word `y` of a round's index list: the remapped word `y % 50` of the round's bag `y / 50`, the round's words
    starting at `base` and each bag taking 64 positions. -/
def listW (IB : S65536.Idx → BitVec 32) (base : ℕ) (y : S100.Idx) : BitVec 32 :=
  remapW (IB (ix1 ⟨(base + 64 * ((y 0).val / 50) + (y 0).val % 50) % 65536, Nat.mod_lt _ (by decide)⟩))

/-- A chunk of sixteen words loaded at `base + 64 (o / 50) + o % 50` and stored, remapped, at position `o` of the list
    is the list's words `o … o + 15`. -/
theorem piece_ok (ibr : S65536.Idx → BitVec 32) (base o : ℕ) (off : Fin 1 → ℕ)
    (inbS : ∀ a, off a + S16.size a ≤ S65536.size a) (inbL : ∀ a, (![o] : Fin 1 → ℕ) a + S16.size a ≤ S100.size a)
    (ho : o % 50 + 16 ≤ 50) (hoff : off 0 = base + 64 * (o / 50) + o % 50) (hb : base + 128 ≤ 65536)
    (v : IVec S16 32) (hv : ∀ i : S16.Idx, v i = ibr ((Rect.unit (s := S65536) off S16.size inbS).toLoadRect.idx i))
    (h1 h2 : S16.ShapeCasts S16) (x : (Rect.unit (s := S100) ![o] S16.size inbL).shape.Idx) :
    shapeCast S16 (select (cmpi CmpIPredicate.ne (shapeCast S16 v h1) (broadcast S16 0#32)) (shapeCast S16 v h1)
      (broadcast S16 100000#32)) h2 x = listW ibr base ((Rect.unit (s := S100) ![o] S16.size inbL).emb x) := by
  have hx : (x 0).val < 16 := (x 0).isLt
  have hoL : o + 16 ≤ 100 := inbL 0
  refine (remap_lane v h1 h2 x).trans ?_
  rw [hv x]
  unfold listW
  refine congrArg remapW (congrArg ibr (funext fun a => Fin.ext ?_))
  have ha : a = (0 : Fin 1) := Subsingleton.elim _ _
  subst ha
  show off 0 + 1 * (x 0).val = (base + 64 * ((o + 1 * (x 0).val) / 50) + (o + 1 * (x 0).val) % 50) % 65536
  omega

/-! ## What a gather delivers -/

/-- After a gather into the first row scratch, row `n` of the scratch is the table's row the list names for `n`. -/
theorem gather_read3 (fd : (Memref.whole cc0_scratch3 : Memref sig .scVector .vmem S100x128 .f32).view.ty.Contents (Elt F))
    (g : S100008x128.Idx → Elt F .f32) (r : Fin 100 → Fin 100008) (n : Fin 100) (col : Fin 128) :
    (Memref.whole cc0_scratch3 : Memref sig .scVector .vmem S100x128 .f32).view.read (Elt F)
      ((Memref.whole cc0_scratch3 : Memref sig .scVector .vmem S100x128 .f32).view.write (Elt F) fd
        (SparseCore.gatherPayload gathers_S100008x128_S100x128 g r) Finset.univ) (ix2 n col) = g (ix2 (r n) col) := by
  simp only [Memref.view_whole, View.write_whole_univ, View.read_whole]
  unfold SparseCore.gatherPayload
  refine congrArg g (funext fun b => Fin.ext ?_)
  match b with
  | ⟨0, _⟩ => exact congrArg Fin.val (gathers_S100008x128_S100x128.idx_axis r (ix2 n col))
  | ⟨1, _⟩ => exact gathers_S100008x128_S100x128.idx_of_ne r (ix2 n col) ⟨1, by decide⟩ (by decide)

/-- The same for the second row scratch. -/
theorem gather_read4 (fd : (Memref.whole cc0_scratch4 : Memref sig .scVector .vmem S100x128 .f32).view.ty.Contents (Elt F))
    (g : S100008x128.Idx → Elt F .f32) (r : Fin 100 → Fin 100008) (n : Fin 100) (col : Fin 128) :
    (Memref.whole cc0_scratch4 : Memref sig .scVector .vmem S100x128 .f32).view.read (Elt F)
      ((Memref.whole cc0_scratch4 : Memref sig .scVector .vmem S100x128 .f32).view.write (Elt F) fd
        (SparseCore.gatherPayload gathers_S100008x128_S100x128 g r) Finset.univ) (ix2 n col) = g (ix2 (r n) col) := by
  simp only [Memref.view_whole, View.write_whole_univ, View.read_whole]
  unfold SparseCore.gatherPayload
  refine congrArg g (funext fun b => Fin.ext ?_)
  match b with
  | ⟨0, _⟩ => exact congrArg Fin.val (gathers_S100008x128_S100x128.idx_axis r (ix2 n col))
  | ⟨1, _⟩ => exact gathers_S100008x128_S100x128.idx_of_ne r (ix2 n col) ⟨1, by decide⟩ (by decide)

/-- The table read through the whole-table slice a gather takes is the table. -/
theorem xall_read (d : Dev nD) (T1 : Buf (Elt F) (tLoc d)) (j : S100008x128.Idx) : (xAll).view.read (Elt F) T1 j = T1 j := by
  refine ((View.read_apply _ _).trans (cast_eq _ _)).trans ?_
  refine congrArg T1 (funext fun a => Fin.ext ?_)
  match a with
  | ⟨0, _⟩ => show 0 + 1 * (j 0).val = (j 0).val; omega
  | ⟨1, _⟩ => show 0 + 1 * (j 1).val = (j 1).val; omega

/-! ## The table row a small word names -/

theorem trow_of_le (T1 : (⟨2, ![100008, 128]⟩ : Shape).Idx → Elt F .f32) (w : BitVec 32) (k : Fin 128) (h : w.toNat ≤ 100007) :
    trow T1 w k = T1 (ix2 (⟨w.toNat, by omega⟩ : Fin 100008) k) := by
  unfold trow
  exact congrArg (fun r : Fin 100008 => T1 (ix2 r k)) (Fin.ext (Nat.min_eq_left h))

end Cert.Kernel.Run.Tile

end
-- ==== Proof.BScVal2.lean ====
/-
  What a round's gather puts in the row scratch, in the pooled sum's vocabulary: row `50 h + n` of the scratch is the
  table row that word `n` of bag `2 r + h` of the task names after the remapping of the padding word.
-/
import proofs.«209176_g73847667688168_cont_9to1_m_420_10_alg».proof.Proof.BScVal

noncomputable section

namespace Cert.Kernel.Run.Tile

open Cert.Kernel Cert.Kernel.Gen Cert.Kernel.Run
open Idealize.ShloMosaic Idealize.ShloMosaic.ValueIdx

variable {F : FTy → Type} [FloatOps F]

/-- A remapped word of the index array is at most 100000. -/
theorem remapW_le (w : BitVec 32) (h : w.toNat ≤ 99999) : (remapW w).toNat ≤ 100000 := by
  unfold remapW
  split
  · decide
  · omega

section Rows
variable (I4 : (⟨1, ![2097152]⟩ : Shape).Idx → BitVec 32) (IBr : S65536.Idx → BitVec 32) (tw : ℕ) (htw : tw < 32)
  (hIB : ∀ x : Fin 65536, IBr (ix1 x) = I4 (ix1 (⟨65536 * tw + x.val, by omega⟩ : Fin 2097152)))
  (r : Fin 512) (lw : S100.Idx → Elt F .i32) (hlist : ∀ y, lw y = listW IBr (128 * r.val) y)
  (hn : S100.numel = S100x128.size gathers_S100008x128_S100x128.axis')
  (hin : ∀ x, (lw x).toNat < S100008x128.size gathers_S100008x128_S100x128.axis)

include hIB hlist in
/-- The row the list names for position `50 h + n`: the remapped word `n` of the task's bag `2 r + h`. -/
theorem rows_val (h : Fin 2) (n : ℕ) (hn50 : n < 50) :
    ((SparseCore.rows lw hn hin (⟨50 * h.val + n, by omega⟩ : Fin 100) : Fin 100008) : ℕ)
      = (remapW (I4 (ix1 (⟨64 * (1024 * tw + 2 * r.val + h.val) + n, by omega⟩ : Fin 2097152)))).toNat := by
  have hy : S100.rowMajor.symm ((⟨50 * h.val + n, by omega⟩ : Fin 100).cast hn.symm) = ix1 (⟨50 * h.val + n, by omega⟩ : Fin 100) := by
    rw [Equiv.symm_apply_eq]
    refine Fin.ext ?_
    show 50 * h.val + n = (S100.rowMajor (ix1 (⟨50 * h.val + n, by omega⟩ : Fin 100))).val
    exact (Shape.rowMajor_val_one (d := ![100]) (ix1 (⟨50 * h.val + n, by omega⟩ : Fin 100))).symm
  show (lw (S100.rowMajor.symm ((⟨50 * h.val + n, _⟩ : Fin 100).cast hn.symm))).toNat = _
  rw [hy, hlist]
  unfold listW
  have e : (⟨(128 * r.val + 64 * (((ix1 (⟨50 * h.val + n, by omega⟩ : Fin 100)) 0).val / 50) + ((ix1 (⟨50 * h.val + n, by omega⟩ : Fin 100)) 0).val % 50) % 65536,
      Nat.mod_lt _ (by decide)⟩ : Fin 65536) = ⟨128 * r.val + 64 * h.val + n, by omega⟩ := Fin.ext (by
    show (128 * r.val + 64 * ((50 * h.val + n) / 50) + (50 * h.val + n) % 50) % 65536 = 128 * r.val + 64 * h.val + n
    omega)
  rw [e, hIB]
  exact congrArg (fun q : Fin 2097152 => (remapW (I4 (ix1 q))).toNat) (Fin.ext (by
    show 65536 * tw + (128 * r.val + 64 * h.val + n) = 64 * (1024 * tw + 2 * r.val + h.val) + n
    omega))

variable (d : Dev nD) (T1 : Buf (Elt F) (tLoc d)) (hle : ∀ x, (IBr x).toNat ≤ 99999)

include hIB hlist hle in
/-- The first row scratch after the round's gather. -/
theorem rows_ok3 (fd : (Memref.whole cc0_scratch3 : Memref sig .scVector .vmem S100x128 .f32).view.ty.Contents (Elt F))
    (h : Fin 2) (n : ℕ) (hn50 : n < 50) (col : Fin 128) :
    (Memref.whole cc0_scratch3 : Memref sig .scVector .vmem S100x128 .f32).view.read (Elt F)
      ((Memref.whole cc0_scratch3 : Memref sig .scVector .vmem S100x128 .f32).view.write (Elt F) fd
        (SparseCore.gatherPayload gathers_S100008x128_S100x128 ((xAll).view.read (Elt F) T1) (SparseCore.rows lw hn hin)) Finset.univ)
      (ix2 (⟨50 * h.val + n, by omega⟩ : Fin 100) col)
      = trow T1 (remapW (I4 (ix1 (⟨64 * (1024 * tw + 2 * r.val + h.val) + n, by omega⟩ : Fin 2097152)))) col := by
  have hw : (remapW (I4 (ix1 (⟨64 * (1024 * tw + 2 * r.val + h.val) + n, by omega⟩ : Fin 2097152)))).toNat ≤ 100007 := by
    have hx := hIB (⟨128 * r.val + 64 * h.val + n, by omega⟩ : Fin 65536)
    have e : (⟨65536 * tw + (128 * r.val + 64 * h.val + n), by omega⟩ : Fin 2097152) = ⟨64 * (1024 * tw + 2 * r.val + h.val) + n, by omega⟩ :=
      Fin.ext (by show 65536 * tw + (128 * r.val + 64 * h.val + n) = 64 * (1024 * tw + 2 * r.val + h.val) + n; omega)
    have := remapW_le _ (hle (ix1 (⟨128 * r.val + 64 * h.val + n, by omega⟩ : Fin 65536)))
    rw [hx, e] at this
    omega
  refine (gather_read3 fd _ (SparseCore.rows lw hn hin) _ col).trans ?_
  refine (xall_read d T1 _).trans ?_
  rw [trow_of_le T1 _ col hw]
  exact congrArg (fun q : Fin 100008 => T1 (ix2 q col)) (Fin.ext (rows_val I4 IBr tw htw hIB r lw hlist hn hin h n hn50))

include hIB hlist hle in
/-- The second row scratch after the round's gather. -/
theorem rows_ok4 (fd : (Memref.whole cc0_scratch4 : Memref sig .scVector .vmem S100x128 .f32).view.ty.Contents (Elt F))
    (h : Fin 2) (n : ℕ) (hn50 : n < 50) (col : Fin 128) :
    (Memref.whole cc0_scratch4 : Memref sig .scVector .vmem S100x128 .f32).view.read (Elt F)
      ((Memref.whole cc0_scratch4 : Memref sig .scVector .vmem S100x128 .f32).view.write (Elt F) fd
        (SparseCore.gatherPayload gathers_S100008x128_S100x128 ((xAll).view.read (Elt F) T1) (SparseCore.rows lw hn hin)) Finset.univ)
      (ix2 (⟨50 * h.val + n, by omega⟩ : Fin 100) col)
      = trow T1 (remapW (I4 (ix1 (⟨64 * (1024 * tw + 2 * r.val + h.val) + n, by omega⟩ : Fin 2097152)))) col := by
  have hw : (remapW (I4 (ix1 (⟨64 * (1024 * tw + 2 * r.val + h.val) + n, by omega⟩ : Fin 2097152)))).toNat ≤ 100007 := by
    have hx := hIB (⟨128 * r.val + 64 * h.val + n, by omega⟩ : Fin 65536)
    have e : (⟨65536 * tw + (128 * r.val + 64 * h.val + n), by omega⟩ : Fin 2097152) = ⟨64 * (1024 * tw + 2 * r.val + h.val) + n, by omega⟩ :=
      Fin.ext (by show 65536 * tw + (128 * r.val + 64 * h.val + n) = 64 * (1024 * tw + 2 * r.val + h.val) + n; omega)
    have := remapW_le _ (hle (ix1 (⟨128 * r.val + 64 * h.val + n, by omega⟩ : Fin 65536)))
    rw [hx, e] at this
    omega
  refine (gather_read4 fd _ (SparseCore.rows lw hn hin) _ col).trans ?_
  refine (xall_read d T1 _).trans ?_
  rw [trow_of_le T1 _ col hw]
  exact congrArg (fun q : Fin 100008 => T1 (ix2 q col)) (Fin.ext (rows_val I4 IBr tw htw hIB r lw hlist hn hin h n hn50))

end Rows

end Cert.Kernel.Run.Tile

end
-- ==== Proof.BScOffs.lean ====
/-
  The kernel's offsets into the task's index words, one equation per chunk of a round's index list.
-/
import proofs.«209176_g73847667688168_cont_9to1_m_420_10_alg».proof.Proof.Gen.Kernel

namespace Cert.Kernel.Run.Tile

open Cert.Kernel Cert.Kernel.Gen
open Idealize.ShloMosaic

theorem off2_0_0 : ∀ k : Fin k0_t1_loop.trips, k0_off2 k 0#32 0#32 0 = 256 * k.val + 128 + 0 + 0 := by decide +kernel
theorem off21_0_0 : ∀ k : Fin k0_t1_loop.trips, k0_off21 k 0#32 0#32 0 = 128 * min (2 * k.val + 2) 511 + 0 + 0 := by decide +kernel
theorem off2_0_16 : ∀ k : Fin k0_t1_loop.trips, k0_off2 k 0#32 16#32 0 = 256 * k.val + 128 + 0 + 16 := by decide +kernel
theorem off21_0_16 : ∀ k : Fin k0_t1_loop.trips, k0_off21 k 0#32 16#32 0 = 128 * min (2 * k.val + 2) 511 + 0 + 16 := by decide +kernel
theorem off2_0_32 : ∀ k : Fin k0_t1_loop.trips, k0_off2 k 0#32 32#32 0 = 256 * k.val + 128 + 0 + 32 := by decide +kernel
theorem off21_0_32 : ∀ k : Fin k0_t1_loop.trips, k0_off21 k 0#32 32#32 0 = 128 * min (2 * k.val + 2) 511 + 0 + 32 := by decide +kernel
theorem off2_0_34 : ∀ k : Fin k0_t1_loop.trips, k0_off2 k 0#32 34#32 0 = 256 * k.val + 128 + 0 + 34 := by decide +kernel
theorem off21_0_34 : ∀ k : Fin k0_t1_loop.trips, k0_off21 k 0#32 34#32 0 = 128 * min (2 * k.val + 2) 511 + 0 + 34 := by decide +kernel
theorem off2_64_0 : ∀ k : Fin k0_t1_loop.trips, k0_off2 k 64#32 0#32 0 = 256 * k.val + 128 + 64 + 0 := by decide +kernel
theorem off21_64_0 : ∀ k : Fin k0_t1_loop.trips, k0_off21 k 64#32 0#32 0 = 128 * min (2 * k.val + 2) 511 + 64 + 0 := by decide +kernel
theorem off2_64_16 : ∀ k : Fin k0_t1_loop.trips, k0_off2 k 64#32 16#32 0 = 256 * k.val + 128 + 64 + 16 := by decide +kernel
theorem off21_64_16 : ∀ k : Fin k0_t1_loop.trips, k0_off21 k 64#32 16#32 0 = 128 * min (2 * k.val + 2) 511 + 64 + 16 := by decide +kernel
theorem off2_64_32 : ∀ k : Fin k0_t1_loop.trips, k0_off2 k 64#32 32#32 0 = 256 * k.val + 128 + 64 + 32 := by decide +kernel
theorem off21_64_32 : ∀ k : Fin k0_t1_loop.trips, k0_off21 k 64#32 32#32 0 = 128 * min (2 * k.val + 2) 511 + 64 + 32 := by decide +kernel
theorem off2_64_34 : ∀ k : Fin k0_t1_loop.trips, k0_off2 k 64#32 34#32 0 = 256 * k.val + 128 + 64 + 34 := by decide +kernel
theorem off21_64_34 : ∀ k : Fin k0_t1_loop.trips, k0_off21 k 64#32 34#32 0 = 128 * min (2 * k.val + 2) 511 + 64 + 34 := by decide +kernel

end Cert.Kernel.Run.Tile
-- ==== Proof.BScBodyV.lean ====
/-
  One vector subcore's task of the pooling kernel, with the values: the same run as the frame's, its invariants saying
  also what the buffers hold — the row scratch of a round the table rows its remapped index words name, the staging
  buffer the two pooled rows of the round, the result rows of the trips done the pooled sums.
-/
import proofs.«209176_g73847667688168_cont_9to1_m_420_10_alg».proof.Proof.BScDefs
import proofs.«209176_g73847667688168_cont_9to1_m_420_10_alg».proof.Proof.Gen.Kernel.Skeleton
import proofs.«209176_g73847667688168_cont_9to1_m_420_10_alg».proof.Proof.ScLib
import proofs.«209176_g73847667688168_cont_9to1_m_420_10_alg».proof.Proof.BScBody
import proofs.«209176_g73847667688168_cont_9to1_m_420_10_alg».proof.Proof.BScSum
import proofs.«209176_g73847667688168_cont_9to1_m_420_10_alg».proof.Proof.BScJoin
import proofs.«209176_g73847667688168_cont_9to1_m_420_10_alg».proof.Proof.BScOb
import proofs.«209176_g73847667688168_cont_9to1_m_420_10_alg».proof.Proof.BScVal2
import proofs.«209176_g73847667688168_cont_9to1_m_420_10_alg».proof.Proof.BScOffs

noncomputable section

namespace Cert.Kernel.Run.Tile

open Cert.Kernel Cert.Kernel.Gen Cert.Kernel.Run
open Cert.Lib
open Idealize.ShloMosaic.ValueIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S2097152 EltTy.i32)
local notation "xV" => (Memref.whole Cert.Kernel.main_v1_scv : Memref Cert.Kernel.sig Kind.scVector Space.hbm Cert.Kernel.S100008x128 EltTy.f32)
local notation "oV" => (Memref.whole Cert.Kernel.main_v5_scv : Memref Cert.Kernel.sig Kind.scVector Space.hbm Cert.Kernel.S32768x128 EltTy.f32)
local notation "ibV" => (Memref.whole Cert.Kernel.cc0_scratch0 : Memref Cert.Kernel.sig Kind.scVector Space.vmem Cert.Kernel.S65536 EltTy.i32)
local notation "rm0V" => (Memref.whole Cert.Kernel.cc0_scratch1 : Memref Cert.Kernel.sig Kind.scVector Space.vmem Cert.Kernel.S100 EltTy.i32)
local notation "rm1V" => (Memref.whole Cert.Kernel.cc0_scratch2 : Memref Cert.Kernel.sig Kind.scVector Space.vmem Cert.Kernel.S100 EltTy.i32)
local notation "rw0V" => (Memref.whole Cert.Kernel.cc0_scratch3 : Memref Cert.Kernel.sig Kind.scVector Space.vmem Cert.Kernel.S100x128 EltTy.f32)
local notation "rw1V" => (Memref.whole Cert.Kernel.cc0_scratch4 : Memref Cert.Kernel.sig Kind.scVector Space.vmem Cert.Kernel.S100x128 EltTy.f32)
local notation "ob0V" => (Memref.whole Cert.Kernel.cc0_scratch5 : Memref Cert.Kernel.sig Kind.scVector Space.vmem Cert.Kernel.S2x128 EltTy.f32)
local notation "ob1V" => (Memref.whole Cert.Kernel.cc0_scratch6 : Memref Cert.Kernel.sig Kind.scVector Space.vmem Cert.Kernel.S2x128 EltTy.f32)

section Tile

variable (L : grid0.Coords)

variable [FloatOps F] (d : Dev nD)

local notation "𝕥" => V d (cV L) (jV L)
local notation "EC" => (countersEmb : UEmb Counters (MT nD τ sig (HIx 1) (Elt F) ℕ UU ℕ))

/-! ## The values -/

/-- The task's number: subcore times two plus core, as the kernel computes it. -/
def tw (L : grid0.Coords) : ℕ := 2 * (L 1).val + (L 0).val
omit [FloatOps F] in
theorem tw_lt : tw L < 32 := by
  have h0 : (L 0).val < 2 := (L 0).isLt
  have h1 : (L 1).val < 16 := (L 1).isLt
  unfold tw; omega

/-- The result row that half `h` of the task's round `r` pools. -/
def grow (L : grid0.Coords) (r : Fin 512) (h : Fin 2) : Fin 32768 :=
  ⟨1024 * tw L + 2 * r.val + h.val, by have := tw_lt L; have := r.isLt; have := h.isLt; omega⟩

/-- The round whose gather the first buffer set has in flight before trip `k` (the last one is issued twice). -/
def r0 (k : ℕ) : Fin 512 := ⟨min (2 * k) 511, by omega⟩
/-- The round the second buffer set serves in trip `k`. -/
def r1 (k : Fin k0_t1_loop.trips) : Fin 512 := ⟨2 * k.val + 1, by have : k.val < 256 := k.isLt; omega⟩

/-- The index scratch holds the task's index words. -/
def IBok (I4 : Buf (Elt F) (iLoc d)) (IB : Buf (Elt F) ((ibV).view.loc 𝕥)) : Prop :=
  ∀ x : Fin 65536, (ibV).view.read (Elt F) IB (ix1 x) = I4 (ix1 (⟨65536 * tw L + x.val, by have := tw_lt L; omega⟩ : Fin 2097152))

/-- A row scratch holds the table rows the remapped index words of the result rows `base` (its rows 0..49) and
    `base + 1` (its rows 50..99) name. -/
def RowsOK (T1 : Buf (Elt F) (tLoc d)) (I4 : Buf (Elt F) (iLoc d)) (G : S100x128.Idx → Elt F .f32) (base : ℕ) : Prop :=
  ∃ hb : base + 1 < 32768,
    (∀ (n : ℕ) (hn : n < 50) (col : Fin 128), G (ix2 (⟨n, by omega⟩ : Fin 100) col)
        = trow T1 (remapW (I4 (ix1 (⟨64 * base + n, by omega⟩ : Fin 2097152)))) col)
    ∧ (∀ (n : ℕ) (hn : n < 50) (col : Fin 128), G (ix2 (⟨n + 50, by omega⟩ : Fin 100) col)
        = trow T1 (remapW (I4 (ix1 (⟨64 * (base + 1) + n, by omega⟩ : Fin 2097152)))) col)

/-- The result row the first half of the task's round `r` pools. -/
def rbase (L : grid0.Coords) (r : Fin 512) : ℕ := 1024 * tw L + 2 * r.val

/-- From the two halves read at `50 h + n`. -/
theorem rowsOK_of (T1 : Buf (Elt F) (tLoc d)) (I4 : Buf (Elt F) (iLoc d)) (G : S100x128.Idx → Elt F .f32) (r : Fin 512)
    (h : ∀ (h : Fin 2) (n : ℕ) (hn50 : n < 50) (col : Fin 128), G (ix2 (⟨50 * h.val + n, by omega⟩ : Fin 100) col)
      = trow T1 (remapW (I4 (ix1 (⟨64 * (1024 * tw L + 2 * r.val + h.val) + n, by have := tw_lt L; omega⟩ : Fin 2097152)))) col) :
    RowsOK d T1 I4 G (rbase L r) := by
  have htw := tw_lt L
  have hr := r.isLt
  unfold rbase
  refine ⟨by omega, fun n hn col => ?_, fun n hn col => ?_⟩
  · refine (congrArg (fun i : Fin 100 => G (ix2 i col)) (Fin.ext ?_)).trans ((h 0 n hn col).trans
      (congrArg (fun i : Fin 2097152 => trow T1 (remapW (I4 (ix1 i))) col) (Fin.ext ?_)))
    · show n = 50 * 0 + n; omega
    · show 64 * (1024 * tw L + 2 * r.val + 0) + n = 64 * (1024 * tw L + 2 * r.val) + n; omega
  · refine (congrArg (fun i : Fin 100 => G (ix2 i col)) (Fin.ext ?_)).trans ((h 1 n hn col).trans
      (congrArg (fun i : Fin 2097152 => trow T1 (remapW (I4 (ix1 i))) col) (Fin.ext ?_)))
    · show n + 50 = 50 * 1 + n; omega
    · show 64 * (1024 * tw L + 2 * r.val + 1) + n = 64 * (1024 * tw L + 2 * r.val + 1) + n; rfl

/-- The result rows of the trips before `k` hold the pooled sums. -/
def OutOK (pv : Buf (Elt F) (oLoc d)) (oS : Fin k0_t1_loop.trips → Finset S32768x128.Idx) (f : Buf (Elt F) (oLoc d)) (k : ℕ) : Prop :=
  ∀ k' : Fin k0_t1_loop.trips, k'.val < k → ∀ j ∈ oS k', f j = pv j

/-- A gather's delivery, with what the row scratch holds. -/
def GDv (T1 : Buf (Elt F) (tLoc d)) (I4 : Buf (Elt F) (iLoc d)) (dst : Memref sig .scVector .vmem S100x128 .f32)
    (offs : Memref sig .scVector .vmem S100 .i32) (q : PosShare TreeShare) (r : Fin 512) : sProp 𝕄 :=
  iprop((∃ f, (dst.view.loc 𝕥 ↦[dst.view.set]{fullShare} f) ∗ ⌜RowsOK d T1 I4 (dst.view.read (Elt F) f) (rbase L r)⌝)
    ∗ ((xAll).view.loc 𝕥 ↦[(xAll).view.set]{q} T1) ∗ ∃ g, offs.view.loc 𝕥 ↦[offs.view.set]{fullShare} g)

/-- A copy-out's delivery, with what the result rows hold. -/
def ODv (pv : Buf (Elt F) (oLoc d)) (ob : Memref sig .scVector .vmem S2x128 .f32) (Sd : Finset S32768x128.Idx)
    (oS : Fin k0_t1_loop.trips → Finset S32768x128.Idx) (k : ℕ) : sProp 𝕄 :=
  iprop((∃ f, (oLoc d ↦[Sd]{fullShare} f) ∗ ⌜OutOK d pv oS f k⌝) ∗ ∃ g, ob.view.loc 𝕥 ↦[ob.view.set]{fullShare} g)

def OBv (pv : Buf (Elt F) (oLoc d)) (ob : Memref sig .scVector .vmem S2x128 .f32) (sem : DmaSem sig) (Sd : Finset S32768x128.Idx)
    (oS : Fin k0_t1_loop.trips → Finset S32768x128.Idx) (k : ℕ) : sProp 𝕄 :=
  if k = 0 then iprop(ODv L d pv ob Sd oS 0 ∗ semVal (𝕥, SemLoc.dma sem) 0)
  else Transfers.Flight EC 𝕥 (.dma sem) (default : HIx 1) ob.view.dmaCredit (ODv L d pv ob Sd oS k)

/-- The loop's invariant before trip `k`, with the values. -/
def invV (T1 : Buf (Elt F) (tLoc d)) (I4 : Buf (Elt F) (iLoc d)) (pv : Buf (Elt F) (oLoc d)) (IB : Buf (Elt F) ((ibV).view.loc 𝕥))
    (q : PosShare TreeShare) (O : CellTallies nD τ sig (HIx 1)) (W : Waits sig (HIx 1)) (k : ℕ) (_ : PUnit) : sProp 𝕄 :=
  iprop(Transfers.MayWaits 𝕥 (default : HIx 1) O
    ∗ ((ibV).view.loc 𝕥 ↦{fullShare} IB)
    ∗ Transfers.Flight EC 𝕥 (.dma cc0_scratch7.sem) (default : HIx 1) (rw0V).view.dmaCredit (GDv L d T1 I4 rw0V rm0V q.left (r0 k))
    ∗ ((xAll).view.loc 𝕥 ↦[(xAll).view.set]{q.right} T1)
    ∗ (∃ f, (rm1V).view.loc 𝕥 ↦{fullShare} f) ∗ (∃ f, (rw1V).view.loc 𝕥 ↦{fullShare} f)
    ∗ semVal (𝕥, SemLoc.dma cc0_scratch8.sem) 0
    ∗ OBv L d pv ob0V cc0_scratch9.sem (oSet0 L) (oS0 L) k ∗ OBv L d pv ob1V cc0_scratch10.sem (oSet1 L) (oS1 L) k
    ∗ ∃ W', ⌜∀ p ∈ W', p ∈ W ∨ p.2 = none⌝ ∗ owes 𝕥 O W')

theorem GDv_eq (T1 : Buf (Elt F) (tLoc d)) (I4 : Buf (Elt F) (iLoc d)) (dst : Memref sig .scVector .vmem S100x128 .f32)
    (offs : Memref sig .scVector .vmem S100 .i32) (q : PosShare TreeShare) (r : Fin 512) :
    (GDv L d T1 I4 dst offs q r : sProp 𝕄) = iprop((∃ f, (dst.view.loc 𝕥 ↦[dst.view.set]{fullShare} f) ∗ ⌜RowsOK d T1 I4 (dst.view.read (Elt F) f) (rbase L r)⌝)
    ∗ ((xAll).view.loc 𝕥 ↦[(xAll).view.set]{q} T1) ∗ ∃ g, offs.view.loc 𝕥 ↦[offs.view.set]{fullShare} g) := rfl
theorem ODv_eq (pv : Buf (Elt F) (oLoc d)) (ob : Memref sig .scVector .vmem S2x128 .f32) (Sd : Finset S32768x128.Idx)
    (oS : Fin k0_t1_loop.trips → Finset S32768x128.Idx) (k : ℕ) :
    (ODv L d pv ob Sd oS k : sProp 𝕄) = iprop((∃ f, (oLoc d ↦[Sd]{fullShare} f) ∗ ⌜OutOK d pv oS f k⌝) ∗ ∃ g, ob.view.loc 𝕥 ↦[ob.view.set]{fullShare} g) := rfl
theorem OBv_zero (pv : Buf (Elt F) (oLoc d)) (ob : Memref sig .scVector .vmem S2x128 .f32) (sem : DmaSem sig) (Sd : Finset S32768x128.Idx)
    (oS : Fin k0_t1_loop.trips → Finset S32768x128.Idx) :
    (OBv L d pv ob sem Sd oS 0 : sProp 𝕄) = iprop(ODv L d pv ob Sd oS 0 ∗ semVal (𝕥, SemLoc.dma sem) 0) := rfl
theorem OBv_pos (pv : Buf (Elt F) (oLoc d)) (ob : Memref sig .scVector .vmem S2x128 .f32) (sem : DmaSem sig) (Sd : Finset S32768x128.Idx)
    (oS : Fin k0_t1_loop.trips → Finset S32768x128.Idx) {k : ℕ} (hk : k ≠ 0) :
    (OBv L d pv ob sem Sd oS k : sProp 𝕄) = Transfers.Flight EC 𝕥 (.dma sem) (default : HIx 1) ob.view.dmaCredit (ODv L d pv ob Sd oS k) := by
  unfold OBv; rw [if_neg hk]

/-- Issuing a gather whose list's words all name rows of the table, and what its row scratch will hold. -/
theorem gather_issue_v {α : Type} {Q : α → sProp 𝕄} (T1 : Buf (Elt F) (tLoc d)) (I4 : Buf (Elt F) (iLoc d))
    {src : Memref sig .scVector .hbm S100008x128 .f32} (hsrcE : src = xAll)
    {dst : Memref sig .scVector .vmem S100x128 .f32} {offs : Memref sig .scVector .vmem S100 .i32} {sem : DmaSem sig}
    {hn : S100.numel = S100x128.size gathers_S100008x128_S100x128.axis'}
    {hp : (𝕥).2.kind = .scVector} {hsrc : src.view.WordExact} {he : EltTy.f32.bits = 32} {hsp : Space.hbm = .hbm ∨ Space.hbm = .shared}
    {hr : S100008x128.StreamRows 0}
    {k : PUnit → Prog (TpuEff nD τ sig (Elt F) Λ₀ (𝕥).2) α}
    (q : PosShare TreeShare) (r : Fin 512) {fd : Buf (Elt F) (dst.view.loc 𝕥)} {fo : Buf (Elt F) (offs.view.loc 𝕥)}
    (hcr : ∀ s' : Shape, sig.dmaCredit .scVector (Kind.scVector.table .vmem) dst.view.buf s' .f32 = s'.numel * EltTy.f32.bits) :
    iprop(((xAll).view.loc 𝕥 ↦[(xAll).view.set]{q} T1) ∗ (dst.view.loc 𝕥 ↦[dst.view.set]{fullShare} fd)
        ∗ (offs.view.loc 𝕥 ↦[offs.view.set]{fullShare} fo) ∗ semVal (𝕥, SemLoc.dma sem) 0
        ∗ ⌜∀ x, (offs.view.read (Elt F) fo x).toNat < S100008x128.size gathers_S100008x128_S100x128.axis⌝
        ∗ ⌜∀ hin : (∀ x, (offs.view.read (Elt F) fo x).toNat < S100008x128.size gathers_S100008x128_S100x128.axis),
            RowsOK d T1 I4 (dst.view.read (Elt F) (dst.view.write (Elt F) fd
              (SparseCore.gatherPayload gathers_S100008x128_S100x128 ((xAll).view.read (Elt F) T1)
                (SparseCore.rows (offs.view.read (Elt F) fo) hn hin)) Finset.univ)) (rbase L r)⌝)
      ⊢ iprop((Transfers.Flight EC 𝕥 (.dma sem) (default : HIx 1) dst.view.dmaCredit (GDv L d T1 I4 dst offs q r)
              -∗ wp frame (wpE (defs₀ (F := F)) 𝒱₀ 𝕥 none) Set.univ (k ⟨⟩) Q)
          -∗ wp frame (wpE (defs₀ (F := F)) 𝒱₀ 𝕥 none) Set.univ
              (SparseCore.enqueueIndirectGather hp src dst gathers_S100008x128_S100x128 offs hn sem hsrc he hsp hr >>= k) Q) := by
  subst hsrcE
  iintro ⟨Hx, Hd, Ho, Hs, %hin, %hrows⟩ Hk
  iapply (SparseCore.wp_indirectGatherLocal EC 𝒱₀ 𝕥 none (hg := gathers_S100008x128_S100x128) (default : HIx 1)
      dst.view.dmaCredit (SparseCore.sum_rowCredit_eq_dmaCredit dst _ hcr) (by decide) hin) $$ [Hx Hd Ho Hs]
  · isplitl [Hx]; · iexact Hx
    isplitl [Hd]; · iexact Hd
    isplitl [Ho]; · iexact Ho
    iexact Hs
  iintro Hfl
  iapply Hk
  iapply (Transfers.Flight_mono EC 𝕥 (D' := GDv L d T1 I4 dst offs q r) (by
    rw [GDv_eq]
    iintro ⟨Hd, Hx, Ho⟩
    isplitl [Hd]
    · iexists _; isplitl [Hd]; · iexact Hd
      ipureintro; exact hrows hin
    isplitl [Hx]; · iexact Hx
    iexists _; iexact Ho)) $$ Hfl

/-- One chunk of a remapped list, read back: the remapping of the index scratch's words at the list's positions. -/
theorem piece_val (IBc : Buf (Elt F) ((ibV).view.loc 𝕥)) (base o : ℕ) (off : Fin 1 → ℕ)
    (inbS : ∀ a, off a + S16.size a ≤ S65536.size a) (inbL : ∀ a, (![o] : Fin 1 → ℕ) a + S16.size a ≤ S100.size a)
    (ho : o % 50 + 16 ≤ 50) (hoff : off 0 = base + 64 * (o / 50) + o % 50) (hb : base + 128 ≤ 65536)
    (h1 h2 : S16.ShapeCasts S16) (x : (Rect.unit (s := S100) ![o] S16.size inbL).shape.Idx) :
    shapeCast S16 (select (cmpi CmpIPredicate.ne
        (shapeCast S16 (View.readAt (Elt F) (ibV).view (Rect.unit (s := S65536) off S16.size inbS).toLoadRect IBc) h1) (broadcast S16 0#32))
        (shapeCast S16 (View.readAt (Elt F) (ibV).view (Rect.unit (s := S65536) off S16.size inbS).toLoadRect IBc) h1)
        (broadcast S16 100000#32)) h2 x
      = listW ((ibV).view.read (Elt F) IBc) base ((Rect.unit (s := S100) ![o] S16.size inbL).emb x) :=
  piece_ok ((ibV).view.read (Elt F) IBc) base o off inbS inbL ho hoff hb _ (fun _ => rfl) h1 h2 x

/-- The index copy lands the task's index words in the index scratch. -/
theorem ibv_of_pre (I4 : Buf (Elt F) (iLoc d)) (fib : Buf (Elt F) ((ibV).view.loc 𝕥)) (pay : S65536.Idx → Elt F .i32)
    (hpay : pay = (iSl L).view.read (Elt F) I4) : IBok L d I4 (View.write (Elt F) (ibV).view fib pay Finset.univ) := by
  subst hpay; intro x
  rw [View.write_whole_univ]
  simp only [Memref.view_whole, View.read_whole]
  rw [show ∀ j, (iSl L).view.read (Elt F) I4 j = I4 ((iSl L).view.emb j) from fun j => (View.read_apply _ _).trans (cast_eq _ _)]
  congr 1
  funext a
  apply Fin.ext
  match a with
  | ⟨0, _⟩ =>
    show (k0_off1 L) (0 : Fin 1) + 1 * x.val = 65536 * tw L + x.val
    rw [k0_off1_eq]; unfold tw
    show 131072 * (L 1).val + 65536 * (L 0).val + 1 * x.val = _
    omega

set_option maxRecDepth 100000 in
set_option maxHeartbeats 4000000 in
/-- One trip of the rounds loop, with the values. -/
theorem trip_v (T1 : Buf (Elt F) (tLoc d)) (I4 : Buf (Elt F) (iLoc d)) (IB : Buf (Elt F) ((ibV).view.loc 𝕥))
    (hIB : ∀ x, ((ibV).view.read (Elt F) IB x).toNat ≤ 99999) (hIBv : IBok L d I4 IB) (q : PosShare TreeShare)
    (O : CellTallies nD τ sig (HIx 1)) (W : Waits sig (HIx 1)) (v2 : BitVec 32) (k : Fin k0_t1_loop.trips) (acc : PUnit) :
    invV L d T1 I4 (pvOf T1 I4) IB q O W k.val acc
      ⊢ wp frame (wpE (defs₀ (F := F)) 𝒱₀ 𝕥 none) Set.univ
          (k0_t1_body L iV (Memref.isWhole_whole _) xV (Memref.isWhole_whole _) oV (Memref.isWhole_whole _)
            ibV (Memref.isWhole_whole _) rm0V (Memref.isWhole_whole _) rm1V (Memref.isWhole_whole _)
            rw0V (Memref.isWhole_whole _) rw1V (Memref.isWhole_whole _) ob0V (Memref.isWhole_whole _) ob1V (Memref.isWhole_whole _)
            cc0_scratch7 cc0_scratch8 cc0_scratch9 cc0_scratch10 cc0_scoped0 v2 k acc)
          (invV L d T1 I4 (pvOf T1 I4) IB q O W (k.val + 1)) := by
  unfold invV
  iintro ⟨#Hmw, Hib, Hfl0, HxR, ⟨%frm1, Hrm1⟩, ⟨%frw1, Hrw1⟩, Hsg1, HOB0, HOB1, %W', %hW', HO⟩
  unfold k0_t1_body
  have hk256 : k.val < 256 := k.isLt
  have hcond1 : ∀ k : Fin k0_t1_loop.trips, (k0_cond1 k = 1#1 ↔ k.val ≠ 0) := by decide +kernel
  have hcond2 : ∀ k : Fin k0_t1_loop.trips, (k0_cond2 k = 1#1 ↔ k.val ≠ 0) := by decide +kernel
  sl_exec
  have hrs1 : (rw1V).view.set = Finset.univ := View.set_whole _
  have hms1 : (rm1V).view.set = Finset.univ := View.set_whole _
  ihave Hrw1' := (Entails.of_eq (show (((rw1V).view.loc 𝕥 ↦{fullShare} frw1 : sProp 𝕄))
      = (rw1V).view.loc 𝕥 ↦[(rw1V).view.set]{fullShare} frw1 by rw [hrs1])) $$ Hrw1
  ihave Hrm1' := (Entails.of_eq (show (((rm1V).view.loc 𝕥 ↦{fullShare} _ : sProp 𝕄))
      = (rm1V).view.loc 𝕥 ↦[(rm1V).view.set]{fullShare} _ by rw [hms1])) $$ Hrm1
  iapply (gather_issue_v L d T1 I4 rfl q.right (r1 k) (fun _ => rfl)) $$ [HxR Hrw1' Hrm1' Hsg1]
  · isplitl [HxR]; · iexact HxR
    isplitl [Hrw1']; · iexact Hrw1'
    isplitl [Hrm1']; · iexact Hrm1'
    isplitl [Hsg1]; · iexact Hsg1
    isplitr
    · ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    · ipureintro
      intro hin
      refine rowsOK_of L d T1 I4 _ (r1 k) (fun h n hn col => ?_)
      refine rows_ok4 I4 ((ibV).view.read (Elt F) IB) (tw L) (tw_lt L) hIBv (r1 k) _ ?hlist _ hin d T1 hIB _ h n hn col
      case hlist =>
        intro y
        show _ = listW _ (128 * (2 * k.val + 1)) y
        refine View.read_writes_apply_of_pieces _ _ _ _ ?hp y (cover100 _ _ _ _ _ _ _ _ _ rfl y)
        case hp =>
          refine List.forall_mem_cons.mpr ⟨fun x => piece_val L d _ _ _ _ (k0_off2_inb k 7) (by decide) (by decide) (by show k0_off2 k 64#32 34#32 0 = _; have := off2_64_34 k; omega) (by omega) _ _ x, ?_⟩
          refine List.forall_mem_cons.mpr ⟨fun x => piece_val L d _ _ _ _ (k0_off2_inb k 6) (by decide) (by decide) (by show k0_off2 k 64#32 32#32 0 = _; have := off2_64_32 k; omega) (by omega) _ _ x, ?_⟩
          refine List.forall_mem_cons.mpr ⟨fun x => piece_val L d _ _ _ _ (k0_off2_inb k 5) (by decide) (by decide) (by show k0_off2 k 64#32 16#32 0 = _; have := off2_64_16 k; omega) (by omega) _ _ x, ?_⟩
          refine List.forall_mem_cons.mpr ⟨fun x => piece_val L d _ _ _ _ (k0_off2_inb k 4) (by decide) (by decide) (by show k0_off2 k 64#32 0#32 0 = _; have := off2_64_0 k; omega) (by omega) _ _ x, ?_⟩
          refine List.forall_mem_cons.mpr ⟨fun x => piece_val L d _ _ _ _ (k0_off2_inb k 3) (by decide) (by decide) (by show k0_off2 k 0#32 34#32 0 = _; have := off2_0_34 k; omega) (by omega) _ _ x, ?_⟩
          refine List.forall_mem_cons.mpr ⟨fun x => piece_val L d _ _ _ _ (k0_off2_inb k 2) (by decide) (by decide) (by show k0_off2 k 0#32 32#32 0 = _; have := off2_0_32 k; omega) (by omega) _ _ x, ?_⟩
          refine List.forall_mem_cons.mpr ⟨fun x => piece_val L d _ _ _ _ (k0_off2_inb k 1) (by decide) (by decide) (by show k0_off2 k 0#32 16#32 0 = _; have := off2_0_16 k; omega) (by omega) _ _ x, ?_⟩
          refine List.forall_mem_cons.mpr ⟨fun x => piece_val L d _ _ _ _ (k0_off2_inb k 0) (by decide) (by decide) (by show k0_off2 k 0#32 0#32 0 = _; have := off2_0_0 k; omega) (by omega) _ _ x, ?_⟩
          exact fun _ h => absurd h List.not_mem_nil
  iintro Hfl1
  sl_exec
  -- the first buffer set's gather has landed
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GDv_eq L d T1 I4 rw0V rm0V q.left (r0 k.val))) $$ HD0
  icases HD0' with ⟨⟨%frw0, Hrw0, %hR0⟩, HxL, ⟨%frm0, Hrm0⟩⟩
  rcases Nat.eq_zero_or_pos k.val with hk | hk
  · have k0_h1 : ¬ k0_cond1 k = 1#1 := fun h => (hcond1 k).mp h hk
    have k0_h2 : ¬ k0_cond2 k = 1#1 := fun h => (hcond2 k).mp h hk
    ihave HOB0' := (Entails.of_eq ((congrArg (fun n => (OBv L d (pvOf T1 I4) ob0V cc0_scratch9.sem (oSet0 L) (oS0 L) n : sProp 𝕄)) hk).trans (OBv_zero L d (pvOf T1 I4) ob0V cc0_scratch9.sem (oSet0 L) (oS0 L)))) $$ HOB0
    icases HOB0' with ⟨HOD0, Hso0⟩
    ihave HOB1' := (Entails.of_eq ((congrArg (fun n => (OBv L d (pvOf T1 I4) ob1V cc0_scratch10.sem (oSet1 L) (oS1 L) n : sProp 𝕄)) hk).trans (OBv_zero L d (pvOf T1 I4) ob1V cc0_scratch10.sem (oSet1 L) (oS1 L)))) $$ HOB1
    icases HOB1' with ⟨HOD1, Hso1⟩
    sl_exec
    ihave HOD0' := (Entails.of_eq (ODv_eq L d (pvOf T1 I4) ob0V (oSet0 L) (oS0 L) 0)) $$ HOD0
    icases HOD0' with ⟨⟨%fo0, Ho0, %hOut0z⟩, ⟨%fob0, Hob0⟩⟩
    have hOut0 : OutOK d (pvOf T1 I4) (oS0 L) fo0 k.val := hk ▸ hOut0z
    sl_for (fun n a => iprop(((rw0V).view.loc 𝕥 ↦[(rw0V).view.set]{fullShare} frw0) ∗ ⌜a = accsT2 rw0V frw0 n⌝)) $$ [Hrw0]
    case region =>
      intro j a; iintro ⟨H, %ha⟩; sl_exec; sl_step; isplitl [H]; · iexact H
      ipureintro; subst ha; rw [accsT2_succ]; rfl
    · isplitl [Hrw0]; · iexact Hrw0
      ipureintro; rfl
    iintro %a2 ⟨Hrw0, %ha2⟩
    rw [show Scf.trips k0_t2_loop.lb k0_t2_loop.ub k0_t2_loop.st = 10 by decide] at ha2
    sl_exec
    sl_for (fun n a => iprop(((rw0V).view.loc 𝕥 ↦[(rw0V).view.set]{fullShare} frw0) ∗ ⌜a = accsT3 rw0V frw0 n⌝)) $$ [Hrw0]
    case region =>
      intro j a; iintro ⟨H, %ha⟩; sl_exec; sl_step; isplitl [H]; · iexact H
      ipureintro; subst ha; rw [accsT3_succ]; rfl
    · isplitl [Hrw0]; · iexact Hrw0
      ipureintro; rfl
    iintro %a3 ⟨Hrw0, %ha3⟩
    rw [show Scf.trips k0_t3_loop.lb k0_t3_loop.ub k0_t3_loop.st = 10 by decide] at ha3
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := ODv L d (pvOf T1 I4) ob0V (oSet0 L) (oS0 L) (k.val + 1)) (by
      rw [ODv_eq]; iintro ⟨Hd, Hs⟩
      isplitl [Hd]
      · iexists _; isplitl [Hd]; · iexact Hd
        ipureintro
        refine out_step0 L d T1 I4 k fo0 _ hOut0 (fun r col => ?_)
        obtain ⟨hb, hG0, hG1⟩ := hR0
        refine (congrFun (ob_read_list (ob0V).view fob0 a2 a3) (ix2 r col)).trans ?_
        subst ha2 ha3
        have hbase : rbase L (r0 k.val) = 1024 * wOf L + 4 * k.val := by
          show 1024 * (2 * (L 1).val + (L 0).val) + 2 * min (2 * k.val) 511 = 1024 * (2 * (L 1).val + (L 0).val) + 4 * k.val
          omega
        exact (obG_rowsAt_A rw0V frw0 T1 I4 (rbase L (r0 k.val)) hb hG0 hG1 r col).trans
          (congrArg (fun t => rowSum T1 I4 t col) (Fin.ext (by show rbase L (r0 k.val) + r.val = 1024 * wOf L + 4 * k.val + r.val; omega)))
      iexists _; iexact Hs)) $$ HF0n
    sl_exec
    iapply (gather_issue_v L d T1 I4 rfl q.left (r0 (k.val + 1)) (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      isplitr
      · ipureintro
        refine list_inb L d _ _ ?hp ?hc
        case hp =>
          repeat (first
            | exact fun _ h => absurd h List.not_mem_nil
            | refine List.forall_mem_cons.mpr ⟨fun x => remap_allLt _ (fun i => Nat.lt_succ_of_le (hIB _)) _ _ x, ?_⟩)
        case hc => exact cover100 _ _ _ _ _ _ _ _ _ rfl
      · ipureintro
        intro hin
        refine rowsOK_of L d T1 I4 _ (r0 (k.val + 1)) (fun h n hn col => ?_)
        refine rows_ok3 I4 ((ibV).view.read (Elt F) IB) (tw L) (tw_lt L) hIBv (r0 (k.val + 1)) _ ?hlist _ hin d T1 hIB _ h n hn col
        case hlist =>
          intro y
          show _ = listW _ (128 * min (2 * k.val + 2) 511) y
          refine View.read_writes_apply_of_pieces _ _ _ _ ?hp y (cover100 _ _ _ _ _ _ _ _ _ rfl y)
          case hp =>
            refine List.forall_mem_cons.mpr ⟨fun x => piece_val L d _ _ _ _ (k0_off21_inb k 7) (by decide) (by decide) (by show k0_off21 k 64#32 34#32 0 = _; have := off21_64_34 k; omega) (by omega) _ _ x, ?_⟩
            refine List.forall_mem_cons.mpr ⟨fun x => piece_val L d _ _ _ _ (k0_off21_inb k 6) (by decide) (by decide) (by show k0_off21 k 64#32 32#32 0 = _; have := off21_64_32 k; omega) (by omega) _ _ x, ?_⟩
            refine List.forall_mem_cons.mpr ⟨fun x => piece_val L d _ _ _ _ (k0_off21_inb k 5) (by decide) (by decide) (by show k0_off21 k 64#32 16#32 0 = _; have := off21_64_16 k; omega) (by omega) _ _ x, ?_⟩
            refine List.forall_mem_cons.mpr ⟨fun x => piece_val L d _ _ _ _ (k0_off21_inb k 4) (by decide) (by decide) (by show k0_off21 k 64#32 0#32 0 = _; have := off21_64_0 k; omega) (by omega) _ _ x, ?_⟩
            refine List.forall_mem_cons.mpr ⟨fun x => piece_val L d _ _ _ _ (k0_off21_inb k 3) (by decide) (by decide) (by show k0_off21 k 0#32 34#32 0 = _; have := off21_0_34 k; omega) (by omega) _ _ x, ?_⟩
            refine List.forall_mem_cons.mpr ⟨fun x => piece_val L d _ _ _ _ (k0_off21_inb k 2) (by decide) (by decide) (by show k0_off21 k 0#32 32#32 0 = _; have := off21_0_32 k; omega) (by omega) _ _ x, ?_⟩
            refine List.forall_mem_cons.mpr ⟨fun x => piece_val L d _ _ _ _ (k0_off21_inb k 1) (by decide) (by decide) (by show k0_off21 k 0#32 16#32 0 = _; have := off21_0_16 k; omega) (by omega) _ _ x, ?_⟩
            refine List.forall_mem_cons.mpr ⟨fun x => piece_val L d _ _ _ _ (k0_off21_inb k 0) (by decide) (by decide) (by show k0_off21 k 0#32 0#32 0 = _; have := off21_0_0 k; omega) (by omega) _ _ x, ?_⟩
            exact fun _ h => absurd h List.not_mem_nil
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GDv_eq L d T1 I4 rw1V rm1V q.right (r1 k))) $$ HD1
    icases HD1' with ⟨⟨%frw1n, Hrw1, %hR1⟩, HxR, ⟨%frm1n, Hrm1⟩⟩
    sl_exec
    ihave HOD1' := (Entails.of_eq (ODv_eq L d (pvOf T1 I4) ob1V (oSet1 L) (oS1 L) 0)) $$ HOD1
    icases HOD1' with ⟨⟨%fo1, Ho1, %hOut1z⟩, ⟨%fob1, Hob1⟩⟩
    have hOut1 : OutOK d (pvOf T1 I4) (oS1 L) fo1 k.val := hk ▸ hOut1z
    sl_for (fun n a => iprop(((rw1V).view.loc 𝕥 ↦[(rw1V).view.set]{fullShare} frw1n) ∗ ⌜a = accsT4 rw1V frw1n n⌝)) $$ [Hrw1]
    case region =>
      intro j a; iintro ⟨H, %ha⟩; sl_exec; sl_step; isplitl [H]; · iexact H
      ipureintro; subst ha; rw [accsT4_succ]; rfl
    · isplitl [Hrw1]; · iexact Hrw1
      ipureintro; rfl
    iintro %a4 ⟨Hrw1, %ha4⟩
    rw [show Scf.trips k0_t4_loop.lb k0_t4_loop.ub k0_t4_loop.st = 10 by decide] at ha4
    sl_exec
    sl_for (fun n a => iprop(((rw1V).view.loc 𝕥 ↦[(rw1V).view.set]{fullShare} frw1n) ∗ ⌜a = accsT5 rw1V frw1n n⌝)) $$ [Hrw1]
    case region =>
      intro j a; iintro ⟨H, %ha⟩; sl_exec; sl_step; isplitl [H]; · iexact H
      ipureintro; subst ha; rw [accsT5_succ]; rfl
    · isplitl [Hrw1]; · iexact Hrw1
      ipureintro; rfl
    iintro %a5 ⟨Hrw1, %ha5⟩
    rw [show Scf.trips k0_t5_loop.lb k0_t5_loop.ub k0_t5_loop.st = 10 by decide] at ha5
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := ODv L d (pvOf T1 I4) ob1V (oSet1 L) (oS1 L) (k.val + 1)) (by
      rw [ODv_eq]; iintro ⟨Hd, Hs⟩
      isplitl [Hd]
      · iexists _; isplitl [Hd]; · iexact Hd
        ipureintro
        refine out_step1 L d T1 I4 k fo1 _ hOut1 (fun r col => ?_)
        obtain ⟨hb, hG0, hG1⟩ := hR1
        refine (congrFun (ob_read_list (ob1V).view fob1 a4 a5) (ix2 r col)).trans ?_
        subst ha4 ha5
        have hbase : rbase L (r1 k) = 1024 * wOf L + 4 * k.val + 2 := by
          show 1024 * (2 * (L 1).val + (L 0).val) + 2 * (2 * k.val + 1) = 1024 * (2 * (L 1).val + (L 0).val) + 4 * k.val + 2
          omega
        exact (obG_rowsAt_B rw1V frw1n T1 I4 (rbase L (r1 k)) hb hG0 hG1 r col).trans
          (congrArg (fun t => rowSum T1 I4 t col) (Fin.ext (by show rbase L (r1 k) + r.val = 1024 * wOf L + 4 * k.val + 2 + r.val; omega)))
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OBv_pos L d (pvOf T1 I4) ob0V cc0_scratch9.sem (oSet0 L) (oS0 L) (Nat.succ_ne_zero k.val)).symm); iexact HF0n
    isplitl [HF1n]; · iapply (Entails.of_eq (OBv_pos L d (pvOf T1 I4) ob1V cc0_scratch10.sem (oSet1 L) (oS1 L) (Nat.succ_ne_zero k.val)).symm); iexact HF1n
    iexists _; isplitr
    · ipureintro; exact hW'
    · iexact HO
  · have hk0 : k.val ≠ 0 := Nat.pos_iff_ne_zero.mp hk
    have k0_h1 : k0_cond1 k = 1#1 := (hcond1 k).mpr hk0
    have k0_h2 : k0_cond2 k = 1#1 := (hcond2 k).mpr hk0
    ihave HF0 := (Entails.of_eq (OBv_pos L d (pvOf T1 I4) ob0V cc0_scratch9.sem (oSet0 L) (oS0 L) hk0)) $$ HOB0
    ihave HF1 := (Entails.of_eq (OBv_pos L d (pvOf T1 I4) ob1V cc0_scratch10.sem (oSet1 L) (oS1 L) hk0)) $$ HOB1
    sl_exec
    iapply (Transfers.wp_waitLocalO EC 𝒱₀ 𝕥 none (default : HIx 1) (credit_o0 _ _ _)) $$ [HF0 HO]
    · isplitl [HF0]; · iexact HF0
      isplitl [HO]; · iexact HO
      iapply (Transfers.MayWaits.elim (SemLoc.dma cc0_scratch9.sem)) $$ Hmw
    iintro ⟨HOD0, Hso0, HO⟩
    have hW' := owes_ins (W := W) (SemLoc.dma cc0_scratch9.sem) hW'
    sl_exec
    ihave HOD0' := (Entails.of_eq (ODv_eq L d (pvOf T1 I4) ob0V (oSet0 L) (oS0 L) k.val)) $$ HOD0
    icases HOD0' with ⟨⟨%fo0, Ho0, %hOut0⟩, ⟨%fob0, Hob0⟩⟩
    sl_for (fun n a => iprop(((rw0V).view.loc 𝕥 ↦[(rw0V).view.set]{fullShare} frw0) ∗ ⌜a = accsT2 rw0V frw0 n⌝)) $$ [Hrw0]
    case region =>
      intro j a; iintro ⟨H, %ha⟩; sl_exec; sl_step; isplitl [H]; · iexact H
      ipureintro; subst ha; rw [accsT2_succ]; rfl
    · isplitl [Hrw0]; · iexact Hrw0
      ipureintro; rfl
    iintro %a2 ⟨Hrw0, %ha2⟩
    rw [show Scf.trips k0_t2_loop.lb k0_t2_loop.ub k0_t2_loop.st = 10 by decide] at ha2
    sl_exec
    sl_for (fun n a => iprop(((rw0V).view.loc 𝕥 ↦[(rw0V).view.set]{fullShare} frw0) ∗ ⌜a = accsT3 rw0V frw0 n⌝)) $$ [Hrw0]
    case region =>
      intro j a; iintro ⟨H, %ha⟩; sl_exec; sl_step; isplitl [H]; · iexact H
      ipureintro; subst ha; rw [accsT3_succ]; rfl
    · isplitl [Hrw0]; · iexact Hrw0
      ipureintro; rfl
    iintro %a3 ⟨Hrw0, %ha3⟩
    rw [show Scf.trips k0_t3_loop.lb k0_t3_loop.ub k0_t3_loop.st = 10 by decide] at ha3
    sl_exec
    iapply (Transfers.wp_dmaLocal EC 𝒱₀ 𝕥 none (default : HIx 1) (ob0V).view.dmaCredit (by rfl) (by decide) (oSl0_sub L k)) $$ [Hob0 Ho0 Hso0]
    · isplitl [Hob0]; · iexact Hob0
      isplitl [Ho0]; · iexact Ho0
      iexact Hso0
    iintro HF0n
    ihave HF0n := (Transfers.Flight_mono EC 𝕥 (D' := ODv L d (pvOf T1 I4) ob0V (oSet0 L) (oS0 L) (k.val + 1)) (by
      rw [ODv_eq]; iintro ⟨Hd, Hs⟩
      isplitl [Hd]
      · iexists _; isplitl [Hd]; · iexact Hd
        ipureintro
        refine out_step0 L d T1 I4 k fo0 _ hOut0 (fun r col => ?_)
        obtain ⟨hb, hG0, hG1⟩ := hR0
        refine (congrFun (ob_read_list (ob0V).view fob0 a2 a3) (ix2 r col)).trans ?_
        subst ha2 ha3
        have hbase : rbase L (r0 k.val) = 1024 * wOf L + 4 * k.val := by
          show 1024 * (2 * (L 1).val + (L 0).val) + 2 * min (2 * k.val) 511 = 1024 * (2 * (L 1).val + (L 0).val) + 4 * k.val
          omega
        exact (obG_rowsAt_A rw0V frw0 T1 I4 (rbase L (r0 k.val)) hb hG0 hG1 r col).trans
          (congrArg (fun t => rowSum T1 I4 t col) (Fin.ext (by show rbase L (r0 k.val) + r.val = 1024 * wOf L + 4 * k.val + r.val; omega)))
      iexists _; iexact Hs)) $$ HF0n
    sl_exec
    iapply (gather_issue_v L d T1 I4 rfl q.left (r0 (k.val + 1)) (fun _ => rfl)) $$ [HxL Hrw0 Hrm0 Hsg0]
    · isplitl [HxL]; · iexact HxL
      isplitl [Hrw0]; · iexact Hrw0
      isplitl [Hrm0]; · iexact Hrm0
      isplitl [Hsg0]; · iexact Hsg0
      isplitr
      · ipureintro
        refine list_inb L d _ _ ?hp ?hc
        case hp =>
          repeat (first
            | exact fun _ h => absurd h List.not_mem_nil
            | refine List.forall_mem_cons.mpr ⟨fun x => remap_allLt _ (fun i => Nat.lt_succ_of_le (hIB _)) _ _ x, ?_⟩)
        case hc => exact cover100 _ _ _ _ _ _ _ _ _ rfl
      · ipureintro
        intro hin
        refine rowsOK_of L d T1 I4 _ (r0 (k.val + 1)) (fun h n hn col => ?_)
        refine rows_ok3 I4 ((ibV).view.read (Elt F) IB) (tw L) (tw_lt L) hIBv (r0 (k.val + 1)) _ ?hlist _ hin d T1 hIB _ h n hn col
        case hlist =>
          intro y
          show _ = listW _ (128 * min (2 * k.val + 2) 511) y
          refine View.read_writes_apply_of_pieces _ _ _ _ ?hp y (cover100 _ _ _ _ _ _ _ _ _ rfl y)
          case hp =>
            refine List.forall_mem_cons.mpr ⟨fun x => piece_val L d _ _ _ _ (k0_off21_inb k 7) (by decide) (by decide) (by show k0_off21 k 64#32 34#32 0 = _; have := off21_64_34 k; omega) (by omega) _ _ x, ?_⟩
            refine List.forall_mem_cons.mpr ⟨fun x => piece_val L d _ _ _ _ (k0_off21_inb k 6) (by decide) (by decide) (by show k0_off21 k 64#32 32#32 0 = _; have := off21_64_32 k; omega) (by omega) _ _ x, ?_⟩
            refine List.forall_mem_cons.mpr ⟨fun x => piece_val L d _ _ _ _ (k0_off21_inb k 5) (by decide) (by decide) (by show k0_off21 k 64#32 16#32 0 = _; have := off21_64_16 k; omega) (by omega) _ _ x, ?_⟩
            refine List.forall_mem_cons.mpr ⟨fun x => piece_val L d _ _ _ _ (k0_off21_inb k 4) (by decide) (by decide) (by show k0_off21 k 64#32 0#32 0 = _; have := off21_64_0 k; omega) (by omega) _ _ x, ?_⟩
            refine List.forall_mem_cons.mpr ⟨fun x => piece_val L d _ _ _ _ (k0_off21_inb k 3) (by decide) (by decide) (by show k0_off21 k 0#32 34#32 0 = _; have := off21_0_34 k; omega) (by omega) _ _ x, ?_⟩
            refine List.forall_mem_cons.mpr ⟨fun x => piece_val L d _ _ _ _ (k0_off21_inb k 2) (by decide) (by decide) (by show k0_off21 k 0#32 32#32 0 = _; have := off21_0_32 k; omega) (by omega) _ _ x, ?_⟩
            refine List.forall_mem_cons.mpr ⟨fun x => piece_val L d _ _ _ _ (k0_off21_inb k 1) (by decide) (by decide) (by show k0_off21 k 0#32 16#32 0 = _; have := off21_0_16 k; omega) (by omega) _ _ x, ?_⟩
            refine List.forall_mem_cons.mpr ⟨fun x => piece_val L d _ _ _ _ (k0_off21_inb k 0) (by decide) (by decide) (by show k0_off21 k 0#32 0#32 0 = _; have := off21_0_0 k; omega) (by omega) _ _ x, ?_⟩
            exact fun _ h => absurd h List.not_mem_nil
    iintro Hfl0n
    sl_exec
    -- the second buffer set's gather has landed
    iapply (Transfers.wp_waitLocalO EC 𝒱₀ 𝕥 none (default : HIx 1) (rfl : (rw1V).view.dmaCredit = _)) $$ [Hfl1 HO]
    · isplitl [Hfl1]; · iexact Hfl1
      isplitl [HO]; · iexact HO
      iapply (Transfers.MayWaits.elim (SemLoc.dma cc0_scratch8.sem)) $$ Hmw
    iintro ⟨HD1, Hsg1, HO⟩
    have hW' := owes_ins (W := W) (SemLoc.dma cc0_scratch8.sem) hW'
    ihave HD1' := (Entails.of_eq (GDv_eq L d T1 I4 rw1V rm1V q.right (r1 k))) $$ HD1
    icases HD1' with ⟨⟨%frw1n, Hrw1, %hR1⟩, HxR, ⟨%frm1n, Hrm1⟩⟩
    sl_exec
    iapply (Transfers.wp_waitLocalO EC 𝒱₀ 𝕥 none (default : HIx 1) (credit_o1 _ _ _)) $$ [HF1 HO]
    · isplitl [HF1]; · iexact HF1
      isplitl [HO]; · iexact HO
      iapply (Transfers.MayWaits.elim (SemLoc.dma cc0_scratch10.sem)) $$ Hmw
    iintro ⟨HOD1, Hso1, HO⟩
    have hW' := owes_ins (W := W) (SemLoc.dma cc0_scratch10.sem) hW'
    sl_exec
    ihave HOD1' := (Entails.of_eq (ODv_eq L d (pvOf T1 I4) ob1V (oSet1 L) (oS1 L) k.val)) $$ HOD1
    icases HOD1' with ⟨⟨%fo1, Ho1, %hOut1⟩, ⟨%fob1, Hob1⟩⟩
    sl_for (fun n a => iprop(((rw1V).view.loc 𝕥 ↦[(rw1V).view.set]{fullShare} frw1n) ∗ ⌜a = accsT4 rw1V frw1n n⌝)) $$ [Hrw1]
    case region =>
      intro j a; iintro ⟨H, %ha⟩; sl_exec; sl_step; isplitl [H]; · iexact H
      ipureintro; subst ha; rw [accsT4_succ]; rfl
    · isplitl [Hrw1]; · iexact Hrw1
      ipureintro; rfl
    iintro %a4 ⟨Hrw1, %ha4⟩
    rw [show Scf.trips k0_t4_loop.lb k0_t4_loop.ub k0_t4_loop.st = 10 by decide] at ha4
    sl_exec
    sl_for (fun n a => iprop(((rw1V).view.loc 𝕥 ↦[(rw1V).view.set]{fullShare} frw1n) ∗ ⌜a = accsT5 rw1V frw1n n⌝)) $$ [Hrw1]
    case region =>
      intro j a; iintro ⟨H, %ha⟩; sl_exec; sl_step; isplitl [H]; · iexact H
      ipureintro; subst ha; rw [accsT5_succ]; rfl
    · isplitl [Hrw1]; · iexact Hrw1
      ipureintro; rfl
    iintro %a5 ⟨Hrw1, %ha5⟩
    rw [show Scf.trips k0_t5_loop.lb k0_t5_loop.ub k0_t5_loop.st = 10 by decide] at ha5
    sl_exec
    iapply (Transfers.wp_dmaLocal EC 𝒱₀ 𝕥 none (default : HIx 1) (ob1V).view.dmaCredit (by rfl) (by decide) (oSl1_sub L k)) $$ [Hob1 Ho1 Hso1]
    · isplitl [Hob1]; · iexact Hob1
      isplitl [Ho1]; · iexact Ho1
      iexact Hso1
    iintro HF1n
    ihave HF1n := (Transfers.Flight_mono EC 𝕥 (D' := ODv L d (pvOf T1 I4) ob1V (oSet1 L) (oS1 L) (k.val + 1)) (by
      rw [ODv_eq]; iintro ⟨Hd, Hs⟩
      isplitl [Hd]
      · iexists _; isplitl [Hd]; · iexact Hd
        ipureintro
        refine out_step1 L d T1 I4 k fo1 _ hOut1 (fun r col => ?_)
        obtain ⟨hb, hG0, hG1⟩ := hR1
        refine (congrFun (ob_read_list (ob1V).view fob1 a4 a5) (ix2 r col)).trans ?_
        subst ha4 ha5
        have hbase : rbase L (r1 k) = 1024 * wOf L + 4 * k.val + 2 := by
          show 1024 * (2 * (L 1).val + (L 0).val) + 2 * (2 * k.val + 1) = 1024 * (2 * (L 1).val + (L 0).val) + 4 * k.val + 2
          omega
        exact (obG_rowsAt_B rw1V frw1n T1 I4 (rbase L (r1 k)) hb hG0 hG1 r col).trans
          (congrArg (fun t => rowSum T1 I4 t col) (Fin.ext (by show rbase L (r1 k) + r.val = 1024 * wOf L + 4 * k.val + 2 + r.val; omega)))
      iexists _; iexact Hs)) $$ HF1n
    sl_step
    isplitl []; · iexact Hmw
    isplitl [Hib]; · iexact Hib
    isplitl [Hfl0n]; · iexact Hfl0n
    isplitl [HxR]; · iexact HxR
    isplitl [Hrm1]
    · iexists _; iapply (Entails.of_eq (show (((rm1V).view.loc 𝕥 ↦[(rm1V).view.set]{fullShare} frm1n : sProp 𝕄)) = ((rm1V).view.loc 𝕥 ↦{fullShare} frm1n) by rw [hms1])); iexact Hrm1
    isplitl [Hrw1]
    · iexists _; iapply (Entails.of_eq (show (((rw1V).view.loc 𝕥 ↦[(rw1V).view.set]{fullShare} frw1n : sProp 𝕄)) = ((rw1V).view.loc 𝕥 ↦{fullShare} frw1n) by rw [hrs1])); iexact Hrw1
    isplitl [Hsg1]; · iexact Hsg1
    isplitl [HF0n]; · iapply (Entails.of_eq (OBv_pos L d (pvOf T1 I4) ob0V cc0_scratch9.sem (oSet0 L) (oS0 L) (Nat.succ_ne_zero k.val)).symm); iexact HF0n
    isplitl [HF1n]; · iapply (Entails.of_eq (OBv_pos L d (pvOf T1 I4) ob1V cc0_scratch10.sem (oSet1 L) (oS1 L) (Nat.succ_ne_zero k.val)).symm); iexact HF1n
    iexists _; isplitr
    · ipureintro; exact hW'
    · iexact HO

set_option maxRecDepth 100000 in
set_option maxHeartbeats 4000000 in
/-- The task on vector subcore `(L 0, L 1)` of device `d`, with the values. -/
theorem tile_body_value (hF : (K (F := F)).Facts) : TileBodyValue (F := F) L d (fun I4 T1 => pvOf T1 I4) := by
  intro w I4 T1 O5 hpre O W hO
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  unfold goT tdTV
  iintro ⟨#Hlv, -, ⟨Hi, Hx, Ho0, Ho1⟩, ⟨⟨%fib, Hib⟩, ⟨%frm0, Hrm0⟩, ⟨%frm1, Hrm1⟩, ⟨%frw0, Hrw0⟩, ⟨%frw1, Hrw1⟩, ⟨%fob0, Hob0⟩, ⟨%fob1, Hob1⟩, Hbufs⟩, ⟨Hsg0, Hsg1, Hso0, Hso1, Hsr, Hsems⟩, HO⟩
  ihave Hmw := (show levAts (K (F := F)).L (K (F := F)).lev ⊢ Transfers.MayWaits 𝕥 (default : HIx 1) O from
    (K (F := F)).mayWaits_none (thr := 𝕥) hO) $$ Hlv
  ihave Hi' := (Entails.of_eq (show ((iLoc d ↦[iSetK L]{fullShare} I4 : sProp 𝕄)) = ((iSl L).view.loc 𝕥 ↦[(iSl L).view.set]{fullShare} I4) from rfl)) $$ Hi
  ihave Hib' := (Entails.of_eq (show (((𝕥).loc cc0_scratch0 ↦{fullShare} fib : sProp 𝕄)) = ((ibV).view.loc 𝕥 ↦{fullShare} fib) from rfl)) $$ Hib
  ihave Hrm0' := (Entails.of_eq (show (((𝕥).loc cc0_scratch1 ↦{fullShare} frm0 : sProp 𝕄)) = ((rm0V).view.loc 𝕥 ↦{fullShare} frm0) from rfl)) $$ Hrm0
  sl_exec
  have hIB := ib_of_pre L d I4 hpre fib (tile_body_value.sl.dma0 L d I4) rfl
  have hIBv := ibv_of_pre L d I4 fib (tile_body_value.sl.dma0 L d I4) rfl
  -- the share of the table in two halves, one per gather in flight
  ihave Hx2 := (pointsTo_share (PosShare.mem_left_op_right (tq w))).1 $$ Hx
  icases Hx2 with ⟨HxL, HxR⟩
  ihave HxL' := (pointsTo_split_subset (q := (tq w).left) (f := T1) (S := Finset.univ) (Finset.subset_univ (xAll).view.set)).1 $$ HxL
  icases HxL' with ⟨HxL, HxLr⟩
  ihave HxR' := (pointsTo_split_subset (q := (tq w).right) (f := T1) (S := Finset.univ) (Finset.subset_univ (xAll).view.set)).1 $$ HxR
  icases HxR' with ⟨HxR, HxRr⟩
  have hrs0 : (rw0V).view.set = Finset.univ := View.set_whole _
  have hms0 : (rm0V).view.set = Finset.univ := View.set_whole _
  have hrs1 : (rw1V).view.set = Finset.univ := View.set_whole _
  have hms1 : (rm1V).view.set = Finset.univ := View.set_whole _
  have hos0 : (ob0V).view.set = Finset.univ := View.set_whole _
  have hos1 : (ob1V).view.set = Finset.univ := View.set_whole _
  ihave Hrw0' := (Entails.of_eq (show (((𝕥).loc cc0_scratch3 ↦{fullShare} frw0 : sProp 𝕄))
      = (rw0V).view.loc 𝕥 ↦[(rw0V).view.set]{fullShare} frw0 by rw [hrs0])) $$ Hrw0
  ihave Hrm0'' := (Entails.of_eq (show (((rm0V).view.loc 𝕥 ↦{fullShare} _ : sProp 𝕄))
      = (rm0V).view.loc 𝕥 ↦[(rm0V).view.set]{fullShare} _ by rw [hms0])) $$ Hrm0'
  iapply (gather_issue_v L d T1 I4 rfl (tq w).left (r0 0) (fun _ => rfl)) $$ [HxL Hrw0' Hrm0'' Hsg0]
  · isplitl [HxL]; · iexact HxL
    isplitl [Hrw0']; · iexact Hrw0'
    isplitl [Hrm0'']; · iexact Hrm0''
    isplitl [Hsg0]; · iexact Hsg0
    isplitr
    · ipureintro
      refine list_inb L d _ _ ?hp ?hc
      case hp =>
        repeat (first
          | exact fun _ h => absurd h List.not_mem_nil
          | refine List.forall_mem_cons.mpr ⟨fun x => remap_allLt _ (fun i => Nat.lt_succ_of_le (hIB _)) _ _ x, ?_⟩)
      case hc => exact cover100 _ _ _ _ _ _ _ _ _ rfl
    · ipureintro
      intro hin
      refine rowsOK_of L d T1 I4 _ (r0 0) (fun h n hn col => ?_)
      refine rows_ok3 I4 ((ibV).view.read (Elt F) (View.write (Elt F) (ibV).view fib (tile_body_value.sl.dma0 L d I4) Finset.univ)) (tw L) (tw_lt L) hIBv (r0 0) _ ?hlist _ hin d T1 hIB _ h n hn col
      case hlist =>
        intro y
        show _ = listW _ 0 y
        refine View.read_writes_apply_of_pieces _ _ _ _ ?hp y (cover100 _ _ _ _ _ _ _ _ _ rfl y)
        case hp =>
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          refine List.forall_mem_cons.mpr ⟨fun x => piece_val L d _ _ _ _ (by decide) (by decide) (by decide) (by decide) (by decide) _ _ x, ?_⟩
          exact fun _ h => absurd h List.not_mem_nil
  iintro Hfl0
  sl_for (invV L d T1 I4 (pvOf T1 I4) (View.write (Elt F) (ibV).view fib (tile_body_value.sl.dma0 L d I4) Finset.univ) (tq w) O W) $$ [Hib' Hfl0 HxR Hrm1 Hrw1 Hsg1 Hob0 Ho0 Hso0 Hob1 Ho1 Hso1 HO]
  case region => intro k acc; exact trip_v L d T1 I4 _ hIB hIBv (tq w) O W _ k acc
  · unfold invV
    isplitl []; · iexact Hmw
    isplitl [Hib']; · iexact Hib'
    isplitl [Hfl0]; · iexact Hfl0
    isplitl [HxR]; · iexact HxR
    isplitl [Hrm1]; · iexists _; iexact Hrm1
    isplitl [Hrw1]; · iexists _; iexact Hrw1
    isplitl [Hsg1]; · iexact Hsg1
    isplitl [Hob0 Ho0 Hso0]
    · iapply (Entails.of_eq (OBv_zero L d (pvOf T1 I4) ob0V cc0_scratch9.sem (oSet0 L) (oS0 L)).symm)
      isplitr [Hso0]
      · iapply (Entails.of_eq (ODv_eq L d (pvOf T1 I4) ob0V (oSet0 L) (oS0 L) 0).symm)
        isplitl [Ho0]
        · iexists _; isplitl [Ho0]; · iexact Ho0
          ipureintro; exact fun k' h => absurd h (Nat.not_lt_zero _)
        iexists fob0
        iapply (Entails.of_eq (show (((𝕥).loc cc0_scratch5 ↦{fullShare} fob0 : sProp 𝕄)) = ((ob0V).view.loc 𝕥 ↦[(ob0V).view.set]{fullShare} fob0) by rw [hos0])); iexact Hob0
      · iexact Hso0
    isplitl [Hob1 Ho1 Hso1]
    · iapply (Entails.of_eq (OBv_zero L d (pvOf T1 I4) ob1V cc0_scratch10.sem (oSet1 L) (oS1 L)).symm)
      isplitr [Hso1]
      · iapply (Entails.of_eq (ODv_eq L d (pvOf T1 I4) ob1V (oSet1 L) (oS1 L) 0).symm)
        isplitl [Ho1]
        · iexists _; isplitl [Ho1]; · iexact Ho1
          ipureintro; exact fun k' h => absurd h (Nat.not_lt_zero _)
        iexists fob1
        iapply (Entails.of_eq (show (((𝕥).loc cc0_scratch6 ↦{fullShare} fob1 : sProp 𝕄)) = ((ob1V).view.loc 𝕥 ↦[(ob1V).view.set]{fullShare} fob1) by rw [hos1])); iexact Hob1
      · iexact Hso1
    iexists _; isplitr
    swap; · iexact HO
    ipureintro; exact owes_ins (W := W) _ (fun p hp => .inl hp)
  iintro %acc HI
  unfold invV
  icases HI with ⟨-, Hib, Hfl0, HxR, ⟨%frm1', Hrm1⟩, ⟨%frw1', Hrw1⟩, Hsg1, HOB0, HOB1, %W', %hW', HO⟩
  have htr : Scf.trips k0_t1_loop.lb k0_t1_loop.ub k0_t1_loop.st ≠ 0 := by decide
  have htr256 : Scf.trips k0_t1_loop.lb k0_t1_loop.ub k0_t1_loop.st = 256 := by decide
  ihave HF0 := (Entails.of_eq (OBv_pos L d (pvOf T1 I4) ob0V cc0_scratch9.sem (oSet0 L) (oS0 L) htr)) $$ HOB0
  ihave HF1 := (Entails.of_eq (OBv_pos L d (pvOf T1 I4) ob1V cc0_scratch10.sem (oSet1 L) (oS1 L) htr)) $$ HOB1
  sl_exec
  -- the redundant last gather
  iapply (Transfers.wp_waitLocalO EC 𝒱₀ 𝕥 none (default : HIx 1) (rfl : (rw0V).view.dmaCredit = _)) $$ [Hfl0 HO]
  · isplitl [Hfl0]; · iexact Hfl0
    isplitl [HO]; · iexact HO
    iapply (Transfers.MayWaits.elim (SemLoc.dma cc0_scratch7.sem)) $$ Hmw
  iintro ⟨HD0, Hsg0, HO⟩
  have hW' := owes_ins (W := W) (SemLoc.dma cc0_scratch7.sem) hW'
  ihave HD0' := (Entails.of_eq (GDv_eq L d T1 I4 rw0V rm0V (tq w).left _)) $$ HD0
  icases HD0' with ⟨⟨%frw0', Hrw0, -⟩, HxL, ⟨%frm0', Hrm0⟩⟩
  sl_exec
  -- the last two copies out
  iapply (Transfers.wp_waitLocalO EC 𝒱₀ 𝕥 none (default : HIx 1) (credit_o0 _ _ _)) $$ [HF0 HO]
  · isplitl [HF0]; · iexact HF0
    isplitl [HO]; · iexact HO
    iapply (Transfers.MayWaits.elim (SemLoc.dma cc0_scratch9.sem)) $$ Hmw
  iintro ⟨HOD0, Hso0, HO⟩
  have hW' := owes_ins (W := W) (SemLoc.dma cc0_scratch9.sem) hW'
  ihave HOD0' := (Entails.of_eq (ODv_eq L d (pvOf T1 I4) ob0V (oSet0 L) (oS0 L) _)) $$ HOD0
  icases HOD0' with ⟨⟨%fo0, Ho0, %hOut0⟩, ⟨%fob0', Hob0⟩⟩
  sl_exec
  iapply (Transfers.wp_waitLocalO EC 𝒱₀ 𝕥 none (default : HIx 1) (credit_o1 _ _ _)) $$ [HF1 HO]
  · isplitl [HF1]; · iexact HF1
    isplitl [HO]; · iexact HO
    iapply (Transfers.MayWaits.elim (SemLoc.dma cc0_scratch10.sem)) $$ Hmw
  iintro ⟨HOD1, Hso1, HO⟩
  have hW' := owes_ins (W := W) (SemLoc.dma cc0_scratch10.sem) hW'
  ihave HOD1' := (Entails.of_eq (ODv_eq L d (pvOf T1 I4) ob1V (oSet1 L) (oS1 L) _)) $$ HOD1
  icases HOD1' with ⟨⟨%fo1, Ho1, %hOut1⟩, ⟨%fob1', Hob1⟩⟩
  sl_exec
  sl_step
  -- what the task hands back
  isplitl [Hi' HxL HxLr HxR HxRr Ho0 Ho1]
  · isplitl [Hi']; · iexact Hi'
    isplitl [HxL HxLr HxR HxRr]
    · iapply (pointsTo_share (PosShare.mem_left_op_right (tq w))).2
      isplitl [HxL HxLr]
      · iapply (pointsTo_split_subset (q := (tq w).left) (f := T1) (S := Finset.univ) (Finset.subset_univ (xAll).view.set)).2
        isplitl [HxL] <;> iassumption
      · iapply (pointsTo_split_subset (q := (tq w).right) (f := T1) (S := Finset.univ) (Finset.subset_univ (xAll).view.set)).2
        isplitl [HxR] <;> iassumption
    isplitl [Ho0]
    · iexists _; isplitl [Ho0]; · iexact Ho0
      ipureintro; exact join0 L d T1 I4 fo0 (fun k' hk' => hOut0 k' (htr256 ▸ hk'))
    iexists _; isplitl [Ho1]; · iexact Ho1
    ipureintro; exact join1 L d T1 I4 fo1 (fun k' hk' => hOut1 k' (htr256 ▸ hk'))
  isplitl [Hib Hrm0 Hrm1 Hrw0 Hrw1 Hob0 Hob1 Hbufs]
  · isplitl [Hib]; · iexists _; iexact Hib
    isplitl [Hrm0]
    · iexists frm0'; iapply (Entails.of_eq (show (((rm0V).view.loc 𝕥 ↦[(rm0V).view.set]{fullShare} frm0' : sProp 𝕄)) = ((𝕥).loc cc0_scratch1 ↦{fullShare} frm0') by rw [hms0])); iexact Hrm0
    isplitl [Hrm1]; · iexists _; iexact Hrm1
    isplitl [Hrw0]
    · iexists frw0'; iapply (Entails.of_eq (show (((rw0V).view.loc 𝕥 ↦[(rw0V).view.set]{fullShare} frw0' : sProp 𝕄)) = ((𝕥).loc cc0_scratch3 ↦{fullShare} frw0') by rw [hrs0])); iexact Hrw0
    isplitl [Hrw1]; · iexists _; iexact Hrw1
    isplitl [Hob0]
    · iexists fob0'; iapply (Entails.of_eq (show (((ob0V).view.loc 𝕥 ↦[(ob0V).view.set]{fullShare} fob0' : sProp 𝕄)) = ((𝕥).loc cc0_scratch5 ↦{fullShare} fob0') by rw [hos0])); iexact Hob0
    isplitl [Hob1]
    · iexists fob1'; iapply (Entails.of_eq (show (((ob1V).view.loc 𝕥 ↦[(ob1V).view.set]{fullShare} fob1' : sProp 𝕄)) = ((𝕥).loc cc0_scratch6 ↦{fullShare} fob1') by rw [hos1])); iexact Hob1
    iexact Hbufs
  isplitl [Hsg0 Hsg1 Hso0 Hso1 Hsr Hsems]
  · isplitl [Hsg0]; · iexact Hsg0
    isplitl [Hsg1]; · iexact Hsg1
    isplitl [Hso0]; · iexact Hso0
    isplitl [Hso1]; · iexact Hso1
    isplitl [Hsr]; · iexact Hsr
    iexact Hsems
  iexists _; isplitr
  · ipureintro; exact hW'
  · iexact HO

end Tile

end Cert.Kernel.Run.Tile

end
-- ==== Proof.lean ====
/-
  The certificate.  Both programs compute the specification of Spec.lean: the reference in its plain form
  (masked mean, centred batch normalisation, the logistic function as a quotient), the kernels in their fused
  form (a zero row for padding, column sums and sums of squares accumulated block by block, one scale and shift
  per column, the reciprocal square root).  The SparseCore call sums, for each of the 32768 index bags, the 50
  table rows it names, each of 32 vector-subcore tasks owning 1024 bags; three TensorCore regions then apply the
  three layers over 32 blocks of 512 rows.  The two forms agree on finite inputs; index words are in range by the
  precondition, so every gathered row exists.  The word-level kernel runs by the same proof, read at machine words.
-/
import proofs.«209176_g73847667688168_cont_9to1_m_420_10_alg».proof.Proof.Assemble
import proofs.«209176_g73847667688168_cont_9to1_m_420_10_alg».proof.Proof.KValueSpec
import proofs.«209176_g73847667688168_cont_9to1_m_420_10_alg».proof.Proof.ScSumIdeal
import proofs.«209176_g73847667688168_cont_9to1_m_420_10_alg».proof.Proof.ScWrap
import proofs.«209176_g73847667688168_cont_9to1_m_420_10_alg».proof.Proof.BScWrap
import proofs.«209176_g73847667688168_cont_9to1_m_420_10_alg».proof.Proof.ScSum
import proofs.«209176_g73847667688168_cont_9to1_m_420_10_alg».proof.Proof.BScSum
import proofs.«209176_g73847667688168_cont_9to1_m_420_10_alg».proof.Proof.ScBodyV
import proofs.«209176_g73847667688168_cont_9to1_m_420_10_alg».proof.Proof.BScBodyV
import Idealize.ShloMosaic.Adequacy
import Idealize.ShloMosaic.Init

noncomputable section

namespace Cert.Proof

open Idealize.ShloMosaic Idealize.SL.Sem

/-- The pooled array the SparseCore call leaves, at either instance. -/
abbrev pvI (m : (ℓ : Loc Cert.KernelIdeal.nD Cert.KernelIdeal.τ Cert.KernelIdeal.sig) → Buf (Elt Ideal) ℓ) (d : Dev Cert.KernelIdeal.nD) : Buf (Elt Ideal) (Cert.KernelIdeal.Run.oLoc d) :=
  Cert.KernelIdeal.Run.Tile.pvOf (F := Ideal) (Cert.KernelIdeal.Run.cV1 m d) (Cert.KernelIdeal.Run.cV4 m d)
abbrev pvB (m : (ℓ : Loc Cert.Kernel.nD Cert.Kernel.τ Cert.Kernel.sig) → Buf (Elt Bits) ℓ) (d : Dev Cert.Kernel.nD) : Buf (Elt Bits) (Cert.Kernel.Run.oLoc d) :=
  Cert.Kernel.Run.Tile.pvOf (F := Bits) (Cert.Kernel.Run.cV1 m d) (Cert.Kernel.Run.cV4 m d)

/-- The kernel's result is the specification in its fused form. -/
theorem hval_inst (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (c : Dev Cert.KernelIdeal.nD) :
    Cert.KernelIdeal.Run.Wg m (pvI m) c (Proc.devRef .tc Cert.KernelIdeal.main_v18) = Cert.SpecArgs.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  have dec := Cert.PreDecode.decode _ _ _ _ _ _ _ _ _ _ _ _ _ _ _ (hpre c)
  exact Cert.KernelIdeal.Run.kernel_value m (pvI m) c (fun r k => Cert.KernelIdeal.Run.pvOf_bag0 m c dec.lt0 r k) (fun r k => Cert.KernelIdeal.Run.pvOf_bag1 m c dec.lt1 r k)

/-- One vector subcore's task, at the idealized instance, from the task's body. -/
theorem tileI (hI : ∀ (d : Dev Cert.KernelIdeal.nD) (L : Cert.KernelIdeal.grid0.Coords), Cert.KernelIdeal.Run.Tile.TileBodyValue (F := Ideal) L d (fun I4 T1 => Cert.KernelIdeal.Run.Tile.pvOf T1 I4))
    (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    (Cert.KernelIdeal.Run.K (F := Ideal)).TileObl (Cert.KernelIdeal.Run.D (F := Ideal)) Cert.KernelIdeal.Run.𝒱 (Cert.KernelIdeal.Run.PP m (pvI m)) Cert.KernelIdeal.Run.v₀ 0 :=
  Cert.KernelIdeal.Run.Tile.tileObl_of_body (Cert.KernelIdeal.Run.cV4 m) (Cert.KernelIdeal.Run.cV1 m) (Cert.KernelIdeal.Run.cO0 m) (pvI m)
    (fun d j => Cert.KernelIdeal.Run.cV4_lt m d (Cert.KernelIdeal.Run.ranges_of_pre _ _ _ _ _ _ _ _ _ _ _ _ _ _ _ (hpre d)).1 (Cert.KernelIdeal.Run.ranges_of_pre _ _ _ _ _ _ _ _ _ _ _ _ _ _ _ (hpre d)).2 j)
    (fun _ I4 T1 => Cert.KernelIdeal.Run.Tile.pvOf T1 I4) (fun _ _ => rfl) hI

/-- The same at machine words. -/
theorem tileB (hB : ∀ (d : Dev Cert.Kernel.nD) (L : Cert.Kernel.grid0.Coords), Cert.Kernel.Run.Tile.TileBodyValue (F := Bits) L d (fun I4 T1 => Cert.Kernel.Run.Tile.pvOf T1 I4))
    (m : (ℓ : Loc Cert.Kernel.nD Cert.Kernel.τ Cert.Kernel.sig) → Buf (Elt Bits) ℓ)
    (hpre : Cert.Pre_Kernel (hPre_input_domain := Cert.Pre_input_domain.Gen.facts) m) :
    (Cert.Kernel.Run.K (F := Bits)).TileObl (Cert.Kernel.Run.D (F := Bits)) Cert.Kernel.Run.𝒱 (Cert.Kernel.Run.PP m (pvB m)) Cert.Kernel.Run.v₀ 0 :=
  Cert.Kernel.Run.Tile.tileObl_of_body (Cert.Kernel.Run.cV4 m) (Cert.Kernel.Run.cV1 m) (Cert.Kernel.Run.cO0 m) (pvB m)
    (fun d j => Cert.Kernel.Run.cV4_lt m d (Cert.Kernel.Run.ranges_of_pre _ _ _ _ _ _ _ _ _ _ _ _ _ _ _ (hpre d)).1 (Cert.Kernel.Run.ranges_of_pre _ _ _ _ _ _ _ _ _ _ _ _ _ _ _ (hpre d)).2 j)
    (fun _ I4 T1 => Cert.Kernel.Run.Tile.pvOf T1 I4) (fun _ _ => rfl) hB

theorem claim_of_tile
    (hB : ∀ (d : Dev Cert.Kernel.nD) (L : Cert.Kernel.grid0.Coords), Cert.Kernel.Run.Tile.TileBodyValue (F := Bits) L d (fun I4 T1 => Cert.Kernel.Run.Tile.pvOf T1 I4))
    (hI : ∀ (d : Dev Cert.KernelIdeal.nD) (L : Cert.KernelIdeal.grid0.Coords), Cert.KernelIdeal.Run.Tile.TileBodyValue (F := Ideal) L d (fun I4 T1 => Cert.KernelIdeal.Run.Tile.pvOf T1 I4)) :
    Cert.Claim :=
  ⟨Cert.Kernel.Gen.facts, Cert.KernelIdeal.Gen.facts, Cert.ReferenceIdeal.Gen.facts, Cert.Pre_input_domain.Gen.facts,
    frame_Kernel_of pvB (tileB hB), frame_KernelIdeal_of pvI (tileI hI), Cert.RefSide.frame_ref, trivial,
    algebraic_of pvI (tileI hI) hval_inst⟩

/-- The five claims, under witnesses of the programs' stated facts. -/
theorem claim : Cert.Claim :=
  claim_of_tile (fun d L => Cert.Kernel.Run.Tile.tile_body_value L d Cert.Kernel.Run.facts)
    (fun d L => Cert.KernelIdeal.Run.Tile.tile_body_value L d Cert.KernelIdeal.Run.facts)

end Cert.Proof

end
